-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S_ : Shape := ⟨0, ![]⟩

class Facts : Prop where
  bcast_S_S16384x36x128 : S_.BroadcastsInDim S16384x36x128 (![] : Fin 0 → Fin S16384x36x128.rank)
  reducesTo_S16384x36x128_S_d0_1_2 : S16384x36x128.ReducesTo [0, 1, 2] S_
  h_S_ : 0 < S_.numel
  bcast_S_S36 : S_.BroadcastsInDim S36 (![] : Fin 0 → Fin S36.rank)
  reducesTo_S36_S_d0 : S36.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x36x128 .f32) (main_arg1 : FVec F S36 .f32) (main_arg2 : FVec F S128x128 .f32) (main_arg3 : FVec F S128 .f32) : IVec S_ 1 :=
  let main_v0 : FVec F S16384x36x128 .f32 := Host.absf main_arg0
  let main_cst : FVec F S_ .f32 := constant S_ .f32 0x7F800000#32
  let main_v1 : FVec F S16384x36x128 .f32 := broadcastInDim S16384x36x128 ![] bcast_S_S16384x36x128 main_cst
  let main_v2 : IVec S16384x36x128 1 := cmpf .olt main_v0 main_v1
  let main_c : IVec S_ 1 := constantI S_ 1 1#1
  let main_v3 : IVec S_ 1 := (fun x v => Host.reduce IntOp.andi x v reducesTo_S16384x36x128_S_d0_1_2 h_S_) main_v2 main_c
  let main_v4 : FVec F S36 .f32 := Host.absf main_arg1
  let main_cst_0 : FVec F S_ .f32 := constant S_ .f32 0x7F800000#32
  let main_v5 : FVec F S36 .f32 := broadcastInDim S36 ![] bcast_S_S36 main_cst_0
  let main_v6 : IVec S36 1 := cmpf .olt main_v4 main_v5
  let main_c_1 : IVec S_ 1 := constantI S_ 1 1#1
  let main_v7 : IVec S_ 1 := (fun x v => Host.reduce IntOp.andi x v reducesTo_S36_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S_ : Shape := ⟨0, ![]⟩
abbrev S36x1 : Shape := ⟨2, ![36, 1]⟩
abbrev S36x16 : Shape := ⟨2, ![36, 16]⟩
abbrev S576 : Shape := ⟨1, ![576]⟩
abbrev S1x36 : Shape := ⟨2, ![1, 36]⟩
abbrev S36x16384x128 : Shape := ⟨3, ![36, 16384, 128]⟩
abbrev S1x128 : Shape := ⟨2, ![1, 128]⟩
abbrev S12x7168x128 : Shape := ⟨3, ![12, 7168, 128]⟩
abbrev S36x8x128 : Shape := ⟨3, ![36, 8, 128]⟩
abbrev S12x8x128 : Shape := ⟨3, ![12, 8, 128]⟩
abbrev S1x1x16 : Shape := ⟨3, ![1, 1, 16]⟩
abbrev S16 : Shape := ⟨1, ![16]⟩
abbrev S12x16384x128 : Shape := ⟨3, ![12, 16384, 128]⟩
abbrev S36x1024x128 : Shape := ⟨3, ![36, 1024, 128]⟩
abbrev S12x1024x128 : Shape := ⟨3, ![12, 1024, 128]⟩
abbrev S1x1024x128 : Shape := ⟨3, ![1, 1024, 128]⟩
abbrev S1024x128 : Shape := ⟨2, ![1024, 128]⟩
abbrev S1x1 : Shape := ⟨2, ![1, 1]⟩
abbrev S1x7168x128 : Shape := ⟨3, ![1, 7168, 128]⟩
abbrev S7168x128 : Shape := ⟨2, ![7168, 128]⟩
abbrev S16384x12x128 : Shape := ⟨3, ![16384, 12, 128]⟩

abbrev nBuf : Table → Nat
  | .hbm => 29
  | .local .tc .vmem => 13
  | .local .scVector .vmem => 5
  | _ => 0

abbrev bufTy : (tb : Table) → Fin (nBuf tb) → BufTy
  | .hbm, ⟨0, _⟩ => ⟨S16384x36x128, .f32⟩
  | .hbm, ⟨1, _⟩ => ⟨S36, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S36, .f32⟩
  | .hbm, ⟨6, _⟩ => ⟨S36, .f32⟩
  | .hbm, ⟨7, _⟩ => ⟨S36, .f32⟩
  | .hbm, ⟨8, _⟩ => ⟨S36, .f32⟩
  | .hbm, ⟨9, _⟩ => ⟨S36, .i1⟩
  | .hbm, ⟨10, _⟩ => ⟨S36, .f32⟩
  | .hbm, ⟨11, _⟩ => ⟨S36, .f32⟩
  | .hbm, ⟨12, _⟩ => ⟨S36, .f32⟩
  | .hbm, ⟨13, _⟩ => ⟨S36, .f32⟩
  | .hbm, ⟨14, _⟩ => ⟨S36, .f32⟩
  | .hbm, ⟨15, _⟩ => ⟨S36, .f32⟩
  | .hbm, ⟨16, _⟩ => ⟨S36, .f32⟩
  | .hbm, ⟨17, _⟩ => ⟨S36, .f32⟩
  | .hbm, ⟨18, _⟩ => ⟨S36x1, .f32⟩
  | .hbm, ⟨19, _⟩ => ⟨S36x16, .f32⟩
  | .hbm, ⟨20, _⟩ => ⟨S576, .f32⟩
  | .hbm, ⟨21, _⟩ => ⟨S1x36, .f32⟩
  | .hbm, ⟨22, _⟩ => ⟨S36x16384x128, .f32⟩
  | .hbm, ⟨23, _⟩ => ⟨S128x128, .f32⟩
  | .hbm, ⟨24, _⟩ => ⟨S1x128, .f32⟩
  | .hbm, ⟨25, _⟩ => ⟨S12x7168x128, .f32⟩
  | .hbm, ⟨26, _⟩ => ⟨S12x16384x128, .f32⟩
  | .hbm, ⟨27, _⟩ => ⟨S12x16384x128, .f32⟩
  | .hbm, ⟨28, _⟩ => ⟨S16384x12x128, .f32⟩
  | .local .tc .vmem, ⟨0, _⟩ => ⟨S36x1024x128, .f32⟩
  | .local .tc .vmem, ⟨1, _⟩ => ⟨S36x1024x128, .f32⟩
  | .local .tc .vmem, ⟨2, _⟩ => ⟨S1x36, .f32⟩
  | .local .tc .vmem, ⟨3, _⟩ => ⟨S128x128, .f32⟩
  | .local .tc .vmem, ⟨4, _⟩ => ⟨S1x128, .f32⟩
  | .local .tc .vmem, ⟨5, _⟩ => ⟨S12x1024x128, .f32⟩
  | .local .tc .vmem, ⟨6, _⟩ => ⟨S12x1024x128, .f32⟩
  | .local .tc .vmem, ⟨7, _⟩ => ⟨S1x7168x128, .f32⟩
  | .local .tc .vmem, ⟨8, _⟩ => ⟨S1x7168x128, .f32⟩
  | .local .tc .vmem, ⟨9, _⟩ => ⟨S128x128, .f32⟩
  | .local .tc .vmem, ⟨10, _⟩ => ⟨S1x128, .f32⟩
  | .local .tc .vmem, ⟨11, _⟩ => ⟨S1x7168x128, .f32⟩
  | .local .tc .vmem, ⟨12, _⟩ => ⟨S1x7168x128, .f32⟩
  | .local .scVector .vmem, ⟨0, _⟩ => ⟨S576, .f32⟩
  | .local .scVector .vmem, ⟨1, _⟩ => ⟨S36x8x128, .f32⟩
  | .local .scVector .vmem, ⟨2, _⟩ => ⟨S36x8x128, .f32⟩
  | .local .scVector .vmem, ⟨3, _⟩ => ⟨S12x8x128, .f32⟩
  | .local .scVector .vmem, ⟨4, _⟩ => ⟨S12x8x128, .f32⟩
  | _, _ => ⟨S16384x36x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v5_scv : Ref sig .scVector := ⟨.hbm, 22, rfl⟩
abbrev main_v3_scv : Ref sig .scVector := ⟨.hbm, 20, rfl⟩
abbrev main_v8_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg3_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 3 → Nat :=
  let c0_i32_2 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let v3 : BitVec 32 := Scalar.addi c0_i32 v2
  let v5 : BitVec 32 := Scalar.addi v3 c0_i32_1
  let c0_i32_3 : BitVec 32 := 0#32
  ![0, v5.toNat, 0]
@[reducible] def k0_t1_loop : Scf.Loop 32 :=
  let c0_i32_11 : BitVec 32 := 0#32
  let c14_i32 : BitVec 32 := 14#32
  let v11 : BitVec 32 := Scalar.addi c0_i32_11 c14_i32
  let c1_i32 : BitVec 32 := 1#32
  ⟨c0_i32_11, v11, c1_i32⟩
def k0_off2 (i : grid0.Coords) (k0_t1 : Fin k0_t1_loop.trips) (c0_i32_22 : BitVec 32) : Fin 3 → Nat :=
  let c0_i32_24 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let v3 : BitVec 32 := Scalar.addi c0_i32 v2
  let c0_i32_11 : BitVec 32 := 0#32
  let c1_i32 : BitVec 32 := 1#32
  let arg14 : BitVec 32 := Scf.iv c0_i32_11 c1_i32 k0_t1
  let c2_i32_21 : BitVec 32 := 2#32
  let v19 : BitVec 32 := Scalar.muli arg14 c2_i32_21
  let v20 : BitVec 32 := Scalar.addi v19 c0_i32_22
  let c8_i32_23 : BitVec 32 := 8#32
  let v21 : BitVec 32 := Scalar.muli v20 c8_i32_23
  let v22 : BitVec 32 := Scalar.addi v3 v21
  let c0_i32_25 : BitVec 32 := 0#32
  ![0, v22.toNat, 0]
def k0_cond1 (k0_t1 : Fin k0_t1_loop.trips) : BitVec 1 :=
  let c0_i32_11 : BitVec 32 := 0#32
  let c1_i32 : BitVec 32 := 1#32
  let arg14 : BitVec 32 := Scf.iv c0_i32_11 c1_i32 k0_t1
  let c2_i32_21 : BitVec 32 := 2#32
  let v19 : BitVec 32 := Scalar.muli arg14 c2_i32_21
  let c0_i32_22 : BitVec 32 := 0#32
  let v20 : BitVec 32 := Scalar.addi v19 c0_i32_22
  let c2_i32_28 : BitVec 32 := 2#32
  let v25 : BitVec 1 := Scalar.cmpi .sge v20 c2_i32_28
  let v26 : BitVec 32 := Scalar.extui v25
  let c0_i32_29 : BitVec 32 := 0#32
  let v27 : BitVec 1 := Scalar.cmpi .ne v26 c0_i32_29
  v27

def k0_off3 (i : grid0.Coords) (k0_t1 : Fin k0_t1_loop.trips) : Fin 3 → Nat :=
  let c0_i32_67 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_0 : BitVec 32 := 224#32
  let v4 : BitVec 32 := Scalar.muli v1 c224_i32_0
  let c0_i32_11 : BitVec 32 := 0#32
  let c1_i32 : BitVec 32 := 1#32
  let arg14 : BitVec 32 := Scf.iv c0_i32_11 c1_i32 k0_t1
  let c2_i32_21 : BitVec 32 := 2#32
  let v19 : BitVec 32 := Scalar.muli arg14 c2_i32_21
  let c0_i32_22 : BitVec 32 := 0#32
  let v20 : BitVec 32 := Scalar.addi v19 c0_i32_22
  let c2_i32_65 : BitVec 32 := 2#32
  let v57 : BitVec 32 := Scalar.subi v20 c2_i32_65
  let c8_i32_66 : BitVec 32 := 8#32
  let v58 : BitVec 32 := Scalar.muli v57 c8_i32_66
  let v59 : BitVec 32 := Scalar.addi v4 v58
  let c0_i32_68 : BitVec 32 := 0#32
  ![0, v59.toNat, 0]
@[reducible] def k0_t2_loop : Scf.Loop 32 :=
  let c0_i32_31 : BitVec 32 := 0#32
  let c8_i32_32 : BitVec 32 := 8#32
  let v28 : BitVec 32 := Scalar.addi c0_i32_31 c8_i32_32
  let c1_i32_33 : BitVec 32 := 1#32
  ⟨c0_i32_31, v28, c1_i32_33⟩
def k0_off4 (k0_t2 : Fin k0_t2_loop.trips) : Fin 3 → Nat :=
  let c0_i32_65 : BitVec 32 := 0#32
  let v57 : Index := Scalar.indexCast c0_i32_65
  let c0_i32_31 : BitVec 32 := 0#32
  let c1_i32_33 : BitVec 32 := 1#32
  let arg16 : BitVec 32 := Scf.iv c0_i32_31 c1_i32_33 k0_t2
  let v58 : Index := Scalar.indexCast arg16
  let c0 : Index := 0#32
  ![0, v58.toNat, 0]
def k0_off5 (k0_t2 : Fin k0_t2_loop.trips) : Fin 3 → Nat :=
  let c1_i32_67 : BitVec 32 := 1#32
  let v64 : Index := Scalar.indexCast c1_i32_67
  let c0_i32_31 : BitVec 32 := 0#32
  let c1_i32_33 : BitVec 32 := 1#32
  let arg16 : BitVec 32 := Scf.iv c0_i32_31 c1_i32_33 k0_t2
  let v65 : Index := Scalar.indexCast arg16
  let c0_68 : Index := 0#32
  ![1, v65.toNat, 0]
def k0_off6 (k0_t2 : Fin k0_t2_loop.trips) : Fin 3 → Nat :=
  let c2_i32_69 : BitVec 32 := 2#32
  let v72 : Index := Scalar.indexCast c2_i32_69
  let c0_i32_31 : BitVec 32 := 0#32
  let c1_i32_33 : BitVec 32 := 1#32
  let arg16 : BitVec 32 := Scf.iv c0_i32_31 c1_i32_33 k0_t2
  let v73 : Index := Scalar.indexCast arg16
  let c0_70 : Index := 0#32
  ![2, v73.toNat, 0]
def k0_off7 (k0_t2 : Fin k0_t2_loop.trips) : Fin 3 → Nat :=
  let c3_i32 : BitVec 32 := 3#32
  let v80 : Index := Scalar.indexCast c3_i32
  let c0_i32_31 : BitVec 32 := 0#32
  let c1_i32_33 : BitVec 32 := 1#32
  let arg16 : BitVec 32 := Scf.iv c0_i32_31 c1_i32_33 k0_t2
  let v81 : Index := Scalar.indexCast arg16
  let c0_71 : Index := 0#32
  ![3, v81.toNat, 0]
def k0_off8 (k0_t2 : Fin k0_t2_loop.trips) : Fin 3 → Nat :=
  let c4_i32 : BitVec 32 := 4#32
  let v88 : Index := Scalar.indexCast c4_i32
  let c0_i32_31 : BitVec 32 := 0#32
  let c1_i32_33 : BitVec 32 := 1#32
  let arg16 : BitVec 32 := Scf.iv c0_i32_31 c1_i32_33 k0_t2
  let v89 : Index := Scalar.indexCast arg16
  let c0_72 : Index := 0#32
  ![4, v89.toNat, 0]
def k0_off9 (k0_t2 : Fin k0_t2_loop.trips) : Fin 3 → Nat :=
  let c5_i32 : BitVec 32 := 5#32
  let v96 : Index := Scalar.indexCast c5_i32
  let c0_i32_31 : BitVec 32 := 0#32
  let c1_i32_33 : BitVec 32 := 1#32
  let arg16 : BitVec 32 := Scf.iv c0_i32_31 c1_i32_33 k0_t2
  let v97 : Index := Scalar.indexCast arg16
  let c0_73 : Index := 0#32
  ![5, v97.toNat, 0]
def k0_off10 (k0_t2 : Fin k0_t2_loop.trips) : Fin 3 → Nat :=
  let c6_i32 : BitVec 32 := 6#32
  let v104 : Index := Scalar.indexCast c6_i32
  let c0_i32_31 : BitVec 32 := 0#32
  let c1_i32_33 : BitVec 32 := 1#32
  let arg16 : BitVec 32 := Scf.iv c0_i32_31 c1_i32_33 k0_t2
  let v105 : Index := Scalar.indexCast arg16
  let c0_74 : Index := 0#32
  ![6, v105.toNat, 0]
def k0_off11 (k0_t2 : Fin k0_t2_loop.trips) : Fin 3 → Nat :=
  let c7_i32 : BitVec 32 := 7#32
  let v112 : Index := Scalar.indexCast c7_i32
  let c0_i32_31 : BitVec 32 := 0#32
  let c1_i32_33 : BitVec 32 := 1#32
  let arg16 : BitVec 32 := Scf.iv c0_i32_31 c1_i32_33 k0_t2
  let v113 : Index := Scalar.indexCast arg16
  let c0_75 : Index := 0#32
  ![7, v113.toNat, 0]
def k0_off12 (k0_t2 : Fin k0_t2_loop.trips) : Fin 3 → Nat :=
  let c8_i32_76 : BitVec 32 := 8#32
  let v121 : Index := Scalar.indexCast c8_i32_76
  let c0_i32_31 : BitVec 32 := 0#32
  let c1_i32_33 : BitVec 32 := 1#32
  let arg16 : BitVec 32 := Scf.iv c0_i32_31 c1_i32_33 k0_t2
  let v122 : Index := Scalar.indexCast arg16
  let c0_77 : Index := 0#32
  ![8, v122.toNat, 0]
def k0_off13 (k0_t2 : Fin k0_t2_loop.trips) : Fin 3 → Nat :=
  let c9_i32 : BitVec 32 := 9#32
  let v130 : Index := Scalar.indexCast c9_i32
  let c0_i32_31 : BitVec 32 := 0#32
  let c1_i32_33 : BitVec 32 := 1#32
  let arg16 : BitVec 32 := Scf.iv c0_i32_31 c1_i32_33 k0_t2
  let v131 : Index := Scalar.indexCast arg16
  let c0_78 : Index := 0#32
  ![9, v131.toNat, 0]
def k0_off14 (k0_t2 : Fin k0_t2_loop.trips) : Fin 3 → Nat :=
  let c10_i32 : BitVec 32 := 10#32
  let v139 : Index := Scalar.indexCast c10_i32
  let c0_i32_31 : BitVec 32 := 0#32
  let c1_i32_33 : BitVec 32 := 1#32
  let arg16 : BitVec 32 := Scf.iv c0_i32_31 c1_i32_33 k0_t2
  let v140 : Index := Scalar.indexCast arg16
  let c0_79 : Index := 0#32
  ![10, v140.toNat, 0]
def k0_off15 (k0_t2 : Fin k0_t2_loop.trips) : Fin 3 → Nat :=
  let c11_i32 : BitVec 32 := 11#32
  let v148 : Index := Scalar.indexCast c11_i32
  let c0_i32_31 : BitVec 32 := 0#32
  let c1_i32_33 : BitVec 32 := 1#32
  let arg16 : BitVec 32 := Scf.iv c0_i32_31 c1_i32_33 k0_t2
  let v149 : Index := Scalar.indexCast arg16
  let c0_80 : Index := 0#32
  ![11, v149.toNat, 0]
def k0_off16 (k0_t2 : Fin k0_t2_loop.trips) : Fin 3 → Nat :=
  let c12_i32 : BitVec 32 := 12#32
  let v157 : Index := Scalar.indexCast c12_i32
  let c0_i32_31 : BitVec 32 := 0#32
  let c1_i32_33 : BitVec 32 := 1#32
  let arg16 : BitVec 32 := Scf.iv c0_i32_31 c1_i32_33 k0_t2
  let v158 : Index := Scalar.indexCast arg16
  let c0_81 : Index := 0#32
  ![12, v158.toNat, 0]
def k0_off17 (k0_t2 : Fin k0_t2_loop.trips) : Fin 3 → Nat :=
  let c13_i32 : BitVec 32 := 13#32
  let v165 : Index := Scalar.indexCast c13_i32
  let c0_i32_31 : BitVec 32 := 0#32
  let c1_i32_33 : BitVec 32 := 1#32
  let arg16 : BitVec 32 := Scf.iv c0_i32_31 c1_i32_33 k0_t2
  let v166 : Index := Scalar.indexCast arg16
  let c0_82 : Index := 0#32
  ![13, v166.toNat, 0]
def k0_off18 (k0_t2 : Fin k0_t2_loop.trips) : Fin 3 → Nat :=
  let c14_i32_83 : BitVec 32 := 14#32
  let v174 : Index := Scalar.indexCast c14_i32_83
  let c0_i32_31 : BitVec 32 := 0#32
  let c1_i32_33 : BitVec 32 := 1#32
  let arg16 : BitVec 32 := Scf.iv c0_i32_31 c1_i32_33 k0_t2
  let v175 : Index := Scalar.indexCast arg16
  let c0_84 : Index := 0#32
  ![14, v175.toNat, 0]
def k0_off19 (k0_t2 : Fin k0_t2_loop.trips) : Fin 3 → Nat :=
  let c15_i32 : BitVec 32 := 15#32
  let v183 : Index := Scalar.indexCast c15_i32
  let c0_i32_31 : BitVec 32 := 0#32
  let c1_i32_33 : BitVec 32 := 1#32
  let arg16 : BitVec 32 := Scf.iv c0_i32_31 c1_i32_33 k0_t2
  let v184 : Index := Scalar.indexCast arg16
  let c0_85 : Index := 0#32
  ![15, v184.toNat, 0]
def k0_off20 (k0_t2 : Fin k0_t2_loop.trips) : Fin 3 → Nat :=
  let c16_i32 : BitVec 32 := 16#32
  let v192 : Index := Scalar.indexCast c16_i32
  let c0_i32_31 : BitVec 32 := 0#32
  let c1_i32_33 : BitVec 32 := 1#32
  let arg16 : BitVec 32 := Scf.iv c0_i32_31 c1_i32_33 k0_t2
  let v193 : Index := Scalar.indexCast arg16
  let c0_86 : Index := 0#32
  ![16, v193.toNat, 0]
def k0_off21 (k0_t2 : Fin k0_t2_loop.trips) : Fin 3 → Nat :=
  let c17_i32 : BitVec 32 := 17#32
  let v201 : Index := Scalar.indexCast c17_i32
  let c0_i32_31 : BitVec 32 := 0#32
  let c1_i32_33 : BitVec 32 := 1#32
  let arg16 : BitVec 32 := Scf.iv c0_i32_31 c1_i32_33 k0_t2
  let v202 : Index := Scalar.indexCast arg16
  let c0_87 : Index := 0#32
  ![17, v202.toNat, 0]
def k0_off22 (k0_t2 : Fin k0_t2_loop.trips) : Fin 3 → Nat :=
  let c18_i32 : BitVec 32 := 18#32
  let v210 : Index := Scalar.indexCast c18_i32
  let c0_i32_31 : BitVec 32 := 0#32
  let c1_i32_33 : BitVec 32 := 1#32
  let arg16 : BitVec 32 := Scf.iv c0_i32_31 c1_i32_33 k0_t2
  let v211 : Index := Scalar.indexCast arg16
  let c0_88 : Index := 0#32
  ![18, v211.toNat, 0]
def k0_off23 (k0_t2 : Fin k0_t2_loop.trips) : Fin 3 → Nat :=
  let c19_i32 : BitVec 32 := 19#32
  let v218 : Index := Scalar.indexCast c19_i32
  let c0_i32_31 : BitVec 32 := 0#32
  let c1_i32_33 : BitVec 32 := 1#32
  let arg16 : BitVec 32 := Scf.iv c0_i32_31 c1_i32_33 k0_t2
  let v219 : Index := Scalar.indexCast arg16
  let c0_89 : Index := 0#32
  ![19, v219.toNat, 0]
def k0_off24 (k0_t2 : Fin k0_t2_loop.trips) : Fin 3 → Nat :=
  let c20_i32 : BitVec 32 := 20#32
  let v227 : Index := Scalar.indexCast c20_i32
  let c0_i32_31 : BitVec 32 := 0#32
  let c1_i32_33 : BitVec 32 := 1#32
  let arg16 : BitVec 32 := Scf.iv c0_i32_31 c1_i32_33 k0_t2
  let v228 : Index := Scalar.indexCast arg16
  let c0_90 : Index := 0#32
  ![20, v228.toNat, 0]
def k0_off25 (k0_t2 : Fin k0_t2_loop.trips) : Fin 3 → Nat :=
  let c21_i32 : BitVec 32 := 21#32
  let v236 : Index := Scalar.indexCast c21_i32
  let c0_i32_31 : BitVec 32 := 0#32
  let c1_i32_33 : BitVec 32 := 1#32
  let arg16 : BitVec 32 := Scf.iv c0_i32_31 c1_i32_33 k0_t2
  let v237 : Index := Scalar.indexCast arg16
  let c0_91 : Index := 0#32
  ![21, v237.toNat, 0]
def k0_off26 (k0_t2 : Fin k0_t2_loop.trips) : Fin 3 → Nat :=
  let c22_i32 : BitVec 32 := 22#32
  let v245 : Index := Scalar.indexCast c22_i32
  let c0_i32_31 : BitVec 32 := 0#32
  let c1_i32_33 : BitVec 32 := 1#32
  let arg16 : BitVec 32 := Scf.iv c0_i32_31 c1_i32_33 k0_t2
  let v246 : Index := Scalar.indexCast arg16
  let c0_92 : Index := 0#32
  ![22, v246.toNat, 0]
def k0_off27 (k0_t2 : Fin k0_t2_loop.trips) : Fin 3 → Nat :=
  let c23_i32 : BitVec 32 := 23#32
  let v254 : Index := Scalar.indexCast c23_i32
  let c0_i32_31 : BitVec 32 := 0#32
  let c1_i32_33 : BitVec 32 := 1#32
  let arg16 : BitVec 32 := Scf.iv c0_i32_31 c1_i32_33 k0_t2
  let v255 : Index := Scalar.indexCast arg16
  let c0_93 : Index := 0#32
  ![23, v255.toNat, 0]
def k0_off28 (k0_t2 : Fin k0_t2_loop.trips) : Fin 3 → Nat :=
  let c24_i32 : BitVec 32 := 24#32
  let v263 : Index := Scalar.indexCast c24_i32
  let c0_i32_31 : BitVec 32 := 0#32
  let c1_i32_33 : BitVec 32 := 1#32
  let arg16 : BitVec 32 := Scf.iv c0_i32_31 c1_i32_33 k0_t2
  let v264 : Index := Scalar.indexCast arg16
  let c0_94 : Index := 0#32
  ![24, v264.toNat, 0]
def k0_off29 (k0_t2 : Fin k0_t2_loop.trips) : Fin 3 → Nat :=
  let c25_i32 : BitVec 32 := 25#32
  let v271 : Index := Scalar.indexCast c25_i32
  let c0_i32_31 : BitVec 32 := 0#32
  let c1_i32_33 : BitVec 32 := 1#32
  let arg16 : BitVec 32 := Scf.iv c0_i32_31 c1_i32_33 k0_t2
  let v272 : Index := Scalar.indexCast arg16
  let c0_95 : Index := 0#32
  ![25, v272.toNat, 0]
def k0_off30 (k0_t2 : Fin k0_t2_loop.trips) : Fin 3 → Nat :=
  let c26_i32 : BitVec 32 := 26#32
  let v280 : Index := Scalar.indexCast c26_i32
  let c0_i32_31 : BitVec 32 := 0#32
  let c1_i32_33 : BitVec 32 := 1#32
  let arg16 : BitVec 32 := Scf.iv c0_i32_31 c1_i32_33 k0_t2
  let v281 : Index := Scalar.indexCast arg16
  let c0_96 : Index := 0#32
  ![26, v281.toNat, 0]
def k0_off31 (k0_t2 : Fin k0_t2_loop.trips) : Fin 3 → Nat :=
  let c27_i32 : BitVec 32 := 27#32
  let v289 : Index := Scalar.indexCast c27_i32
  let c0_i32_31 : BitVec 32 := 0#32
  let c1_i32_33 : BitVec 32 := 1#32
  let arg16 : BitVec 32 := Scf.iv c0_i32_31 c1_i32_33 k0_t2
  let v290 : Index := Scalar.indexCast arg16
  let c0_97 : Index := 0#32
  ![27, v290.toNat, 0]
def k0_off32 (k0_t2 : Fin k0_t2_loop.trips) : Fin 3 → Nat :=
  let c28_i32_98 : BitVec 32 := 28#32
  let v298 : Index := Scalar.indexCast c28_i32_98
  let c0_i32_31 : BitVec 32 := 0#32
  let c1_i32_33 : BitVec 32 := 1#32
  let arg16 : BitVec 32 := Scf.iv c0_i32_31 c1_i32_33 k0_t2
  let v299 : Index := Scalar.indexCast arg16
  let c0_99 : Index := 0#32
  ![28, v299.toNat, 0]
def k0_off33 (k0_t2 : Fin k0_t2_loop.trips) : Fin 3 → Nat :=
  let c29_i32 : BitVec 32 := 29#32
  let v307 : Index := Scalar.indexCast c29_i32
  let c0_i32_31 : BitVec 32 := 0#32
  let c1_i32_33 : BitVec 32 := 1#32
  let arg16 : BitVec 32 := Scf.iv c0_i32_31 c1_i32_33 k0_t2
  let v308 : Index := Scalar.indexCast arg16
  let c0_100 : Index := 0#32
  ![29, v308.toNat, 0]
def k0_off34 (k0_t2 : Fin k0_t2_loop.trips) : Fin 3 → Nat :=
  let c30_i32 : BitVec 32 := 30#32
  let v316 : Index := Scalar.indexCast c30_i32
  let c0_i32_31 : BitVec 32 := 0#32
  let c1_i32_33 : BitVec 32 := 1#32
  let arg16 : BitVec 32 := Scf.iv c0_i32_31 c1_i32_33 k0_t2
  let v317 : Index := Scalar.indexCast arg16
  let c0_101 : Index := 0#32
  ![30, v317.toNat, 0]
def k0_off35 (k0_t2 : Fin k0_t2_loop.trips) : Fin 3 → Nat :=
  let c31_i32 : BitVec 32 := 31#32
  let v324 : Index := Scalar.indexCast c31_i32
  let c0_i32_31 : BitVec 32 := 0#32
  let c1_i32_33 : BitVec 32 := 1#32
  let arg16 : BitVec 32 := Scf.iv c0_i32_31 c1_i32_33 k0_t2
  let v325 : Index := Scalar.indexCast arg16
  let c0_102 : Index := 0#32
  ![31, v325.toNat, 0]
def k0_off36 (k0_t2 : Fin k0_t2_loop.trips) : Fin 3 → Nat :=
  let c32_i32 : BitVec 32 := 32#32
  let v333 : Index := Scalar.indexCast c32_i32
  let c0_i32_31 : BitVec 32 := 0#32
  let c1_i32_33 : BitVec 32 := 1#32
  let arg16 : BitVec 32 := Scf.iv c0_i32_31 c1_i32_33 k0_t2
  let v334 : Index := Scalar.indexCast arg16
  let c0_103 : Index := 0#32
  ![32, v334.toNat, 0]
def k0_off37 (k0_t2 : Fin k0_t2_loop.trips) : Fin 3 → Nat :=
  let c33_i32 : BitVec 32 := 33#32
  let v342 : Index := Scalar.indexCast c33_i32
  let c0_i32_31 : BitVec 32 := 0#32
  let c1_i32_33 : BitVec 32 := 1#32
  let arg16 : BitVec 32 := Scf.iv c0_i32_31 c1_i32_33 k0_t2
  let v343 : Index := Scalar.indexCast arg16
  let c0_104 : Index := 0#32
  ![33, v343.toNat, 0]
def k0_off38 (k0_t2 : Fin k0_t2_loop.trips) : Fin 3 → Nat :=
  let c34_i32 : BitVec 32 := 34#32
  let v351 : Index := Scalar.indexCast c34_i32
  let c0_i32_31 : BitVec 32 := 0#32
  let c1_i32_33 : BitVec 32 := 1#32
  let arg16 : BitVec 32 := Scf.iv c0_i32_31 c1_i32_33 k0_t2
  let v352 : Index := Scalar.indexCast arg16
  let c0_105 : Index := 0#32
  ![34, v352.toNat, 0]
def k0_off39 (k0_t2 : Fin k0_t2_loop.trips) : Fin 3 → Nat :=
  let c35_i32 : BitVec 32 := 35#32
  let v360 : Index := Scalar.indexCast c35_i32
  let c0_i32_31 : BitVec 32 := 0#32
  let c1_i32_33 : BitVec 32 := 1#32
  let arg16 : BitVec 32 := Scf.iv c0_i32_31 c1_i32_33 k0_t2
  let v361 : Index := Scalar.indexCast arg16
  let c0_106 : Index := 0#32
  ![35, v361.toNat, 0]
def k0_off40 (k0_t2 : Fin k0_t2_loop.trips) : Fin 3 → Nat :=
  let c0_i32_107 : BitVec 32 := 0#32
  let v369 : Index := Scalar.indexCast c0_i32_107
  let c0_i32_31 : BitVec 32 := 0#32
  let c1_i32_33 : BitVec 32 := 1#32
  let arg16 : BitVec 32 := Scf.iv c0_i32_31 c1_i32_33 k0_t2
  let v370 : Index := Scalar.indexCast arg16
  let c0_108 : Index := 0#32
  ![0, v370.toNat, 0]
def k0_off41 (k0_t2 : Fin k0_t2_loop.trips) : Fin 3 → Nat :=
  let c1_i32_109 : BitVec 32 := 1#32
  let v374 : Index := Scalar.indexCast c1_i32_109
  let c0_i32_31 : BitVec 32 := 0#32
  let c1_i32_33 : BitVec 32 := 1#32
  let arg16 : BitVec 32 := Scf.iv c0_i32_31 c1_i32_33 k0_t2
  let v375 : Index := Scalar.indexCast arg16
  let c0_110 : Index := 0#32
  ![1, v375.toNat, 0]
def k0_off42 (k0_t2 : Fin k0_t2_loop.trips) : Fin 3 → Nat :=
  let c2_i32_111 : BitVec 32 := 2#32
  let v379 : Index := Scalar.indexCast c2_i32_111
  let c0_i32_31 : BitVec 32 := 0#32
  let c1_i32_33 : BitVec 32 := 1#32
  let arg16 : BitVec 32 := Scf.iv c0_i32_31 c1_i32_33 k0_t2
  let v380 : Index := Scalar.indexCast arg16
  let c0_112 : Index := 0#32
  ![2, v380.toNat, 0]
def k0_off43 (k0_t2 : Fin k0_t2_loop.trips) : Fin 3 → Nat :=
  let c3_i32_113 : BitVec 32 := 3#32
  let v384 : Index := Scalar.indexCast c3_i32_113
  let c0_i32_31 : BitVec 32 := 0#32
  let c1_i32_33 : BitVec 32 := 1#32
  let arg16 : BitVec 32 := Scf.iv c0_i32_31 c1_i32_33 k0_t2
  let v385 : Index := Scalar.indexCast arg16
  let c0_114 : Index := 0#32
  ![3, v385.toNat, 0]
def k0_off44 (k0_t2 : Fin k0_t2_loop.trips) : Fin 3 → Nat :=
  let c4_i32_115 : BitVec 32 := 4#32
  let v389 : Index := Scalar.indexCast c4_i32_115
  let c0_i32_31 : BitVec 32 := 0#32
  let c1_i32_33 : BitVec 32 := 1#32
  let arg16 : BitVec 32 := Scf.iv c0_i32_31 c1_i32_33 k0_t2
  let v390 : Index := Scalar.indexCast arg16
  let c0_116 : Index := 0#32
  ![4, v390.toNat, 0]
def k0_off45 (k0_t2 : Fin k0_t2_loop.trips) : Fin 3 → Nat :=
  let c5_i32_117 : BitVec 32 := 5#32
  let v394 : Index := Scalar.indexCast c5_i32_117
  let c0_i32_31 : BitVec 32 := 0#32
  let c1_i32_33 : BitVec 32 := 1#32
  let arg16 : BitVec 32 := Scf.iv c0_i32_31 c1_i32_33 k0_t2
  let v395 : Index := Scalar.indexCast arg16
  let c0_118 : Index := 0#32
  ![5, v395.toNat, 0]
def k0_off46 (k0_t2 : Fin k0_t2_loop.trips) : Fin 3 → Nat :=
  let c6_i32_119 : BitVec 32 := 6#32
  let v399 : Index := Scalar.indexCast c6_i32_119
  let c0_i32_31 : BitVec 32 := 0#32
  let c1_i32_33 : BitVec 32 := 1#32
  let arg16 : BitVec 32 := Scf.iv c0_i32_31 c1_i32_33 k0_t2
  let v400 : Index := Scalar.indexCast arg16
  let c0_120 : Index := 0#32
  ![6, v400.toNat, 0]
def k0_off47 (k0_t2 : Fin k0_t2_loop.trips) : Fin 3 → Nat :=
  let c7_i32_121 : BitVec 32 := 7#32
  let v404 : Index := Scalar.indexCast c7_i32_121
  let c0_i32_31 : BitVec 32 := 0#32
  let c1_i32_33 : BitVec 32 := 1#32
  let arg16 : BitVec 32 := Scf.iv c0_i32_31 c1_i32_33 k0_t2
  let v405 : Index := Scalar.indexCast arg16
  let c0_122 : Index := 0#32
  ![7, v405.toNat, 0]
def k0_off48 (k0_t2 : Fin k0_t2_loop.trips) : Fin 3 → Nat :=
  let c8_i32_123 : BitVec 32 := 8#32
  let v409 : Index := Scalar.indexCast c8_i32_123
  let c0_i32_31 : BitVec 32 := 0#32
  let c1_i32_33 : BitVec 32 := 1#32
  let arg16 : BitVec 32 := Scf.iv c0_i32_31 c1_i32_33 k0_t2
  let v410 : Index := Scalar.indexCast arg16
  let c0_124 : Index := 0#32
  ![8, v410.toNat, 0]
def k0_off49 (k0_t2 : Fin k0_t2_loop.trips) : Fin 3 → Nat :=
  let c9_i32_125 : BitVec 32 := 9#32
  let v414 : Index := Scalar.indexCast c9_i32_125
  let c0_i32_31 : BitVec 32 := 0#32
  let c1_i32_33 : BitVec 32 := 1#32
  let arg16 : BitVec 32 := Scf.iv c0_i32_31 c1_i32_33 k0_t2
  let v415 : Index := Scalar.indexCast arg16
  let c0_126 : Index := 0#32
  ![9, v415.toNat, 0]
def k0_off50 (k0_t2 : Fin k0_t2_loop.trips) : Fin 3 → Nat :=
  let c10_i32_127 : BitVec 32 := 10#32
  let v419 : Index := Scalar.indexCast c10_i32_127
  let c0_i32_31 : BitVec 32 := 0#32
  let c1_i32_33 : BitVec 32 := 1#32
  let arg16 : BitVec 32 := Scf.iv c0_i32_31 c1_i32_33 k0_t2
  let v420 : Index := Scalar.indexCast arg16
  let c0_128 : Index := 0#32
  ![10, v420.toNat, 0]
def k0_off51 (k0_t2 : Fin k0_t2_loop.trips) : Fin 3 → Nat :=
  let c11_i32_129 : BitVec 32 := 11#32
  let v424 : Index := Scalar.indexCast c11_i32_129
  let c0_i32_31 : BitVec 32 := 0#32
  let c1_i32_33 : BitVec 32 := 1#32
  let arg16 : BitVec 32 := Scf.iv c0_i32_31 c1_i32_33 k0_t2
  let v425 : Index := Scalar.indexCast arg16
  let c0_130 : Index := 0#32
  ![11, v425.toNat, 0]
def k0_off52 (k0_t2 : Fin k0_t2_loop.trips) : Fin 3 → Nat :=
  let c0_i32_131 : BitVec 32 := 0#32
  let v429 : Index := Scalar.indexCast c0_i32_131
  let c0_i32_31 : BitVec 32 := 0#32
  let c1_i32_33 : BitVec 32 := 1#32
  let arg16 : BitVec 32 := Scf.iv c0_i32_31 c1_i32_33 k0_t2
  let v430 : Index := Scalar.indexCast arg16
  let c16_132 : Index := 16#32
  ![0, v430.toNat, 16]
def k0_off53 (k0_t2 : Fin k0_t2_loop.trips) : Fin 3 → Nat :=
  let c1_i32_134 : BitVec 32 := 1#32
  let v436 : Index := Scalar.indexCast c1_i32_134
  let c0_i32_31 : BitVec 32 := 0#32
  let c1_i32_33 : BitVec 32 := 1#32
  let arg16 : BitVec 32 := Scf.iv c0_i32_31 c1_i32_33 k0_t2
  let v437 : Index := Scalar.indexCast arg16
  let c16_135 : Index := 16#32
  ![1, v437.toNat, 16]
def k0_off54 (k0_t2 : Fin k0_t2_loop.trips) : Fin 3 → Nat :=
  let c2_i32_137 : BitVec 32 := 2#32
  let v444 : Index := Scalar.indexCast c2_i32_137
  let c0_i32_31 : BitVec 32 := 0#32
  let c1_i32_33 : BitVec 32 := 1#32
  let arg16 : BitVec 32 := Scf.iv c0_i32_31 c1_i32_33 k0_t2
  let v445 : Index := Scalar.indexCast arg16
  let c16_138 : Index := 16#32
  ![2, v445.toNat, 16]
def k0_off55 (k0_t2 : Fin k0_t2_loop.trips) : Fin 3 → Nat :=
  let c3_i32_140 : BitVec 32 := 3#32
  let v452 : Index := Scalar.indexCast c3_i32_140
  let c0_i32_31 : BitVec 32 := 0#32
  let c1_i32_33 : BitVec 32 := 1#32
  let arg16 : BitVec 32 := Scf.iv c0_i32_31 c1_i32_33 k0_t2
  let v453 : Index := Scalar.indexCast arg16
  let c16_141 : Index := 16#32
  ![3, v453.toNat, 16]
def k0_off56 (k0_t2 : Fin k0_t2_loop.trips) : Fin 3 → Nat :=
  let c4_i32_143 : BitVec 32 := 4#32
  let v460 : Index := Scalar.indexCast c4_i32_143
  let c0_i32_31 : BitVec 32 := 0#32
  let c1_i32_33 : BitVec 32 := 1#32
  let arg16 : BitVec 32 := Scf.iv c0_i32_31 c1_i32_33 k0_t2
  let v461 : Index := Scalar.indexCast arg16
  let c16_144 : Index := 16#32
  ![4, v461.toNat, 16]
def k0_off57 (k0_t2 : Fin k0_t2_loop.trips) : Fin 3 → Nat :=
  let c5_i32_146 : BitVec 32 := 5#32
  let v468 : Index := Scalar.indexCast c5_i32_146
  let c0_i32_31 : BitVec 32 := 0#32
  let c1_i32_33 : BitVec 32 := 1#32
  let arg16 : BitVec 32 := Scf.iv c0_i32_31 c1_i32_33 k0_t2
  let v469 : Index := Scalar.indexCast arg16
  let c16_147 : Index := 16#32
  ![5, v469.toNat, 16]
def k0_off58 (k0_t2 : Fin k0_t2_loop.trips) : Fin 3 → Nat :=
  let c6_i32_149 : BitVec 32 := 6#32
  let v476 : Index := Scalar.indexCast c6_i32_149
  let c0_i32_31 : BitVec 32 := 0#32
  let c1_i32_33 : BitVec 32 := 1#32
  let arg16 : BitVec 32 := Scf.iv c0_i32_31 c1_i32_33 k0_t2
  let v477 : Index := Scalar.indexCast arg16
  let c16_150 : Index := 16#32
  ![6, v477.toNat, 16]
def k0_off59 (k0_t2 : Fin k0_t2_loop.trips) : Fin 3 → Nat :=
  let c7_i32_152 : BitVec 32 := 7#32
  let v484 : Index := Scalar.indexCast c7_i32_152
  let c0_i32_31 : BitVec 32 := 0#32
  let c1_i32_33 : BitVec 32 := 1#32
  let arg16 : BitVec 32 := Scf.iv c0_i32_31 c1_i32_33 k0_t2
  let v485 : Index := Scalar.indexCast arg16
  let c16_153 : Index := 16#32
  ![7, v485.toNat, 16]
def k0_off60 (k0_t2 : Fin k0_t2_loop.trips) : Fin 3 → Nat :=
  let c8_i32_155 : BitVec 32 := 8#32
  let v493 : Index := Scalar.indexCast c8_i32_155
  let c0_i32_31 : BitVec 32 := 0#32
  let c1_i32_33 : BitVec 32 := 1#32
  let arg16 : BitVec 32 := Scf.iv c0_i32_31 c1_i32_33 k0_t2
  let v494 : Index := Scalar.indexCast arg16
  let c16_156 : Index := 16#32
  ![8, v494.toNat, 16]
def k0_off61 (k0_t2 : Fin k0_t2_loop.trips) : Fin 3 → Nat :=
  let c9_i32_158 : BitVec 32 := 9#32
  let v502 : Index := Scalar.indexCast c9_i32_158
  let c0_i32_31 : BitVec 32 := 0#32
  let c1_i32_33 : BitVec 32 := 1#32
  let arg16 : BitVec 32 := Scf.iv c0_i32_31 c1_i32_33 k0_t2
  let v503 : Index := Scalar.indexCast arg16
  let c16_159 : Index := 16#32
  ![9, v503.toNat, 16]
def k0_off62 (k0_t2 : Fin k0_t2_loop.trips) : Fin 3 → Nat :=
  let c10_i32_161 : BitVec 32 := 10#32
  let v511 : Index := Scalar.indexCast c10_i32_161
  let c0_i32_31 : BitVec 32 := 0#32
  let c1_i32_33 : BitVec 32 := 1#32
  let arg16 : BitVec 32 := Scf.iv c0_i32_31 c1_i32_33 k0_t2
  let v512 : Index := Scalar.indexCast arg16
  let c16_162 : Index := 16#32
  ![10, v512.toNat, 16]
def k0_off63 (k0_t2 : Fin k0_t2_loop.trips) : Fin 3 → Nat :=
  let c11_i32_164 : BitVec 32 := 11#32
  let v520 : Index := Scalar.indexCast c11_i32_164
  let c0_i32_31 : BitVec 32 := 0#32
  let c1_i32_33 : BitVec 32 := 1#32
  let arg16 : BitVec 32 := Scf.iv c0_i32_31 c1_i32_33 k0_t2
  let v521 : Index := Scalar.indexCast arg16
  let c16_165 : Index := 16#32
  ![11, v521.toNat, 16]
def k0_off64 (k0_t2 : Fin k0_t2_loop.trips) : Fin 3 → Nat :=
  let c12_i32_167 : BitVec 32 := 12#32
  let v529 : Index := Scalar.indexCast c12_i32_167
  let c0_i32_31 : BitVec 32 := 0#32
  let c1_i32_33 : BitVec 32 := 1#32
  let arg16 : BitVec 32 := Scf.iv c0_i32_31 c1_i32_33 k0_t2
  let v530 : Index := Scalar.indexCast arg16
  let c16_168 : Index := 16#32
  ![12, v530.toNat, 16]
def k0_off65 (k0_t2 : Fin k0_t2_loop.trips) : Fin 3 → Nat :=
  let c13_i32_170 : BitVec 32 := 13#32
  let v537 : Index := Scalar.indexCast c13_i32_170
  let c0_i32_31 : BitVec 32 := 0#32
  let c1_i32_33 : BitVec 32 := 1#32
  let arg16 : BitVec 32 := Scf.iv c0_i32_31 c1_i32_33 k0_t2
  let v538 : Index := Scalar.indexCast arg16
  let c16_171 : Index := 16#32
  ![13, v538.toNat, 16]
def k0_off66 (k0_t2 : Fin k0_t2_loop.trips) : Fin 3 → Nat :=
  let c14_i32_173 : BitVec 32 := 14#32
  let v546 : Index := Scalar.indexCast c14_i32_173
  let c0_i32_31 : BitVec 32 := 0#32
  let c1_i32_33 : BitVec 32 := 1#32
  let arg16 : BitVec 32 := Scf.iv c0_i32_31 c1_i32_33 k0_t2
  let v547 : Index := Scalar.indexCast arg16
  let c16_174 : Index := 16#32
  ![14, v547.toNat, 16]
def k0_off67 (k0_t2 : Fin k0_t2_loop.trips) : Fin 3 → Nat :=
  let c15_i32_176 : BitVec 32 := 15#32
  let v555 : Index := Scalar.indexCast c15_i32_176
  let c0_i32_31 : BitVec 32 := 0#32
  let c1_i32_33 : BitVec 32 := 1#32
  let arg16 : BitVec 32 := Scf.iv c0_i32_31 c1_i32_33 k0_t2
  let v556 : Index := Scalar.indexCast arg16
  let c16_177 : Index := 16#32
  ![15, v556.toNat, 16]
def k0_off68 (k0_t2 : Fin k0_t2_loop.trips) : Fin 3 → Nat :=
  let c16_i32_179 : BitVec 32 := 16#32
  let v564 : Index := Scalar.indexCast c16_i32_179
  let c0_i32_31 : BitVec 32 := 0#32
  let c1_i32_33 : BitVec 32 := 1#32
  let arg16 : BitVec 32 := Scf.iv c0_i32_31 c1_i32_33 k0_t2
  let v565 : Index := Scalar.indexCast arg16
  let c16_180 : Index := 16#32
  ![16, v565.toNat, 16]
def k0_off69 (k0_t2 : Fin k0_t2_loop.trips) : Fin 3 → Nat :=
  let c17_i32_182 : BitVec 32 := 17#32
  let v573 : Index := Scalar.indexCast c17_i32_182
  let c0_i32_31 : BitVec 32 := 0#32
  let c1_i32_33 : BitVec 32 := 1#32
  let arg16 : BitVec 32 := Scf.iv c0_i32_31 c1_i32_33 k0_t2
  let v574 : Index := Scalar.indexCast arg16
  let c16_183 : Index := 16#32
  ![17, v574.toNat, 16]
def k0_off70 (k0_t2 : Fin k0_t2_loop.trips) : Fin 3 → Nat :=
  let c18_i32_185 : BitVec 32 := 18#32
  let v582 : Index := Scalar.indexCast c18_i32_185
  let c0_i32_31 : BitVec 32 := 0#32
  let c1_i32_33 : BitVec 32 := 1#32
  let arg16 : BitVec 32 := Scf.iv c0_i32_31 c1_i32_33 k0_t2
  let v583 : Index := Scalar.indexCast arg16
  let c16_186 : Index := 16#32
  ![18, v583.toNat, 16]
def k0_off71 (k0_t2 : Fin k0_t2_loop.trips) : Fin 3 → Nat :=
  let c19_i32_188 : BitVec 32 := 19#32
  let v590 : Index := Scalar.indexCast c19_i32_188
  let c0_i32_31 : BitVec 32 := 0#32
  let c1_i32_33 : BitVec 32 := 1#32
  let arg16 : BitVec 32 := Scf.iv c0_i32_31 c1_i32_33 k0_t2
  let v591 : Index := Scalar.indexCast arg16
  let c16_189 : Index := 16#32
  ![19, v591.toNat, 16]
def k0_off72 (k0_t2 : Fin k0_t2_loop.trips) : Fin 3 → Nat :=
  let c20_i32_191 : BitVec 32 := 20#32
  let v599 : Index := Scalar.indexCast c20_i32_191
  let c0_i32_31 : BitVec 32 := 0#32
  let c1_i32_33 : BitVec 32 := 1#32
  let arg16 : BitVec 32 := Scf.iv c0_i32_31 c1_i32_33 k0_t2
  let v600 : Index := Scalar.indexCast arg16
  let c16_192 : Index := 16#32
  ![20, v600.toNat, 16]
def k0_off73 (k0_t2 : Fin k0_t2_loop.trips) : Fin 3 → Nat :=
  let c21_i32_194 : BitVec 32 := 21#32
  let v608 : Index := Scalar.indexCast c21_i32_194
  let c0_i32_31 : BitVec 32 := 0#32
  let c1_i32_33 : BitVec 32 := 1#32
  let arg16 : BitVec 32 := Scf.iv c0_i32_31 c1_i32_33 k0_t2
  let v609 : Index := Scalar.indexCast arg16
  let c16_195 : Index := 16#32
  ![21, v609.toNat, 16]
def k0_off74 (k0_t2 : Fin k0_t2_loop.trips) : Fin 3 → Nat :=
  let c22_i32_197 : BitVec 32 := 22#32
  let v617 : Index := Scalar.indexCast c22_i32_197
  let c0_i32_31 : BitVec 32 := 0#32
  let c1_i32_33 : BitVec 32 := 1#32
  let arg16 : BitVec 32 := Scf.iv c0_i32_31 c1_i32_33 k0_t2
  let v618 : Index := Scalar.indexCast arg16
  let c16_198 : Index := 16#32
  ![22, v618.toNat, 16]
def k0_off75 (k0_t2 : Fin k0_t2_loop.trips) : Fin 3 → Nat :=
  let c23_i32_200 : BitVec 32 := 23#32
  let v626 : Index := Scalar.indexCast c23_i32_200
  let c0_i32_31 : BitVec 32 := 0#32
  let c1_i32_33 : BitVec 32 := 1#32
  let arg16 : BitVec 32 := Scf.iv c0_i32_31 c1_i32_33 k0_t2
  let v627 : Index := Scalar.indexCast arg16
  let c16_201 : Index := 16#32
  ![23, v627.toNat, 16]
def k0_off76 (k0_t2 : Fin k0_t2_loop.trips) : Fin 3 → Nat :=
  let c24_i32_203 : BitVec 32 := 24#32
  let v635 : Index := Scalar.indexCast c24_i32_203
  let c0_i32_31 : BitVec 32 := 0#32
  let c1_i32_33 : BitVec 32 := 1#32
  let arg16 : BitVec 32 := Scf.iv c0_i32_31 c1_i32_33 k0_t2
  let v636 : Index := Scalar.indexCast arg16
  let c16_204 : Index := 16#32
  ![24, v636.toNat, 16]
def k0_off77 (k0_t2 : Fin k0_t2_loop.trips) : Fin 3 → Nat :=
  let c25_i32_206 : BitVec 32 := 25#32
  let v643 : Index := Scalar.indexCast c25_i32_206
  let c0_i32_31 : BitVec 32 := 0#32
  let c1_i32_33 : BitVec 32 := 1#32
  let arg16 : BitVec 32 := Scf.iv c0_i32_31 c1_i32_33 k0_t2
  let v644 : Index := Scalar.indexCast arg16
  let c16_207 : Index := 16#32
  ![25, v644.toNat, 16]
def k0_off78 (k0_t2 : Fin k0_t2_loop.trips) : Fin 3 → Nat :=
  let c26_i32_209 : BitVec 32 := 26#32
  let v652 : Index := Scalar.indexCast c26_i32_209
  let c0_i32_31 : BitVec 32 := 0#32
  let c1_i32_33 : BitVec 32 := 1#32
  let arg16 : BitVec 32 := Scf.iv c0_i32_31 c1_i32_33 k0_t2
  let v653 : Index := Scalar.indexCast arg16
  let c16_210 : Index := 16#32
  ![26, v653.toNat, 16]
def k0_off79 (k0_t2 : Fin k0_t2_loop.trips) : Fin 3 → Nat :=
  let c27_i32_212 : BitVec 32 := 27#32
  let v661 : Index := Scalar.indexCast c27_i32_212
  let c0_i32_31 : BitVec 32 := 0#32
  let c1_i32_33 : BitVec 32 := 1#32
  let arg16 : BitVec 32 := Scf.iv c0_i32_31 c1_i32_33 k0_t2
  let v662 : Index := Scalar.indexCast arg16
  let c16_213 : Index := 16#32
  ![27, v662.toNat, 16]
def k0_off80 (k0_t2 : Fin k0_t2_loop.trips) : Fin 3 → Nat :=
  let c28_i32_215 : BitVec 32 := 28#32
  let v670 : Index := Scalar.indexCast c28_i32_215
  let c0_i32_31 : BitVec 32 := 0#32
  let c1_i32_33 : BitVec 32 := 1#32
  let arg16 : BitVec 32 := Scf.iv c0_i32_31 c1_i32_33 k0_t2
  let v671 : Index := Scalar.indexCast arg16
  let c16_216 : Index := 16#32
  ![28, v671.toNat, 16]
def k0_off81 (k0_t2 : Fin k0_t2_loop.trips) : Fin 3 → Nat :=
  let c29_i32_218 : BitVec 32 := 29#32
  let v679 : Index := Scalar.indexCast c29_i32_218
  let c0_i32_31 : BitVec 32 := 0#32
  let c1_i32_33 : BitVec 32 := 1#32
  let arg16 : BitVec 32 := Scf.iv c0_i32_31 c1_i32_33 k0_t2
  let v680 : Index := Scalar.indexCast arg16
  let c16_219 : Index := 16#32
  ![29, v680.toNat, 16]
def k0_off82 (k0_t2 : Fin k0_t2_loop.trips) : Fin 3 → Nat :=
  let c30_i32_221 : BitVec 32 := 30#32
  let v688 : Index := Scalar.indexCast c30_i32_221
  let c0_i32_31 : BitVec 32 := 0#32
  let c1_i32_33 : BitVec 32 := 1#32
  let arg16 : BitVec 32 := Scf.iv c0_i32_31 c1_i32_33 k0_t2
  let v689 : Index := Scalar.indexCast arg16
  let c16_222 : Index := 16#32
  ![30, v689.toNat, 16]
def k0_off83 (k0_t2 : Fin k0_t2_loop.trips) : Fin 3 → Nat :=
  let c31_i32_224 : BitVec 32 := 31#32
  let v696 : Index := Scalar.indexCast c31_i32_224
  let c0_i32_31 : BitVec 32 := 0#32
  let c1_i32_33 : BitVec 32 := 1#32
  let arg16 : BitVec 32 := Scf.iv c0_i32_31 c1_i32_33 k0_t2
  let v697 : Index := Scalar.indexCast arg16
  let c16_225 : Index := 16#32
  ![31, v697.toNat, 16]
def k0_off84 (k0_t2 : Fin k0_t2_loop.trips) : Fin 3 → Nat :=
  let c32_i32_227 : BitVec 32 := 32#32
  let v705 : Index := Scalar.indexCast c32_i32_227
  let c0_i32_31 : BitVec 32 := 0#32
  let c1_i32_33 : BitVec 32 := 1#32
  let arg16 : BitVec 32 := Scf.iv c0_i32_31 c1_i32_33 k0_t2
  let v706 : Index := Scalar.indexCast arg16
  let c16_228 : Index := 16#32
  ![32, v706.toNat, 16]
def k0_off85 (k0_t2 : Fin k0_t2_loop.trips) : Fin 3 → Nat :=
  let c33_i32_230 : BitVec 32 := 33#32
  let v714 : Index := Scalar.indexCast c33_i32_230
  let c0_i32_31 : BitVec 32 := 0#32
  let c1_i32_33 : BitVec 32 := 1#32
  let arg16 : BitVec 32 := Scf.iv c0_i32_31 c1_i32_33 k0_t2
  let v715 : Index := Scalar.indexCast arg16
  let c16_231 : Index := 16#32
  ![33, v715.toNat, 16]
def k0_off86 (k0_t2 : Fin k0_t2_loop.trips) : Fin 3 → Nat :=
  let c34_i32_233 : BitVec 32 := 34#32
  let v723 : Index := Scalar.indexCast c34_i32_233
  let c0_i32_31 : BitVec 32 := 0#32
  let c1_i32_33 : BitVec 32 := 1#32
  let arg16 : BitVec 32 := Scf.iv c0_i32_31 c1_i32_33 k0_t2
  let v724 : Index := Scalar.indexCast arg16
  let c16_234 : Index := 16#32
  ![34, v724.toNat, 16]
def k0_off87 (k0_t2 : Fin k0_t2_loop.trips) : Fin 3 → Nat :=
  let c35_i32_236 : BitVec 32 := 35#32
  let v732 : Index := Scalar.indexCast c35_i32_236
  let c0_i32_31 : BitVec 32 := 0#32
  let c1_i32_33 : BitVec 32 := 1#32
  let arg16 : BitVec 32 := Scf.iv c0_i32_31 c1_i32_33 k0_t2
  let v733 : Index := Scalar.indexCast arg16
  let c16_237 : Index := 16#32
  ![35, v733.toNat, 16]
def k0_off88 (k0_t2 : Fin k0_t2_loop.trips) : Fin 3 → Nat :=
  let c0_i32_239 : BitVec 32 := 0#32
  let v741 : Index := Scalar.indexCast c0_i32_239
  let c0_i32_31 : BitVec 32 := 0#32
  let c1_i32_33 : BitVec 32 := 1#32
  let arg16 : BitVec 32 := Scf.iv c0_i32_31 c1_i32_33 k0_t2
  let v742 : Index := Scalar.indexCast arg16
  let c16_240 : Index := 16#32
  ![0, v742.toNat, 16]
def k0_off89 (k0_t2 : Fin k0_t2_loop.trips) : Fin 3 → Nat :=
  let c1_i32_241 : BitVec 32 := 1#32
  let v746 : Index := Scalar.indexCast c1_i32_241
  let c0_i32_31 : BitVec 32 := 0#32
  let c1_i32_33 : BitVec 32 := 1#32
  let arg16 : BitVec 32 := Scf.iv c0_i32_31 c1_i32_33 k0_t2
  let v747 : Index := Scalar.indexCast arg16
  let c16_242 : Index := 16#32
  ![1, v747.toNat, 16]
def k0_off90 (k0_t2 : Fin k0_t2_loop.trips) : Fin 3 → Nat :=
  let c2_i32_243 : BitVec 32 := 2#32
  let v751 : Index := Scalar.indexCast c2_i32_243
  let c0_i32_31 : BitVec 32 := 0#32
  let c1_i32_33 : BitVec 32 := 1#32
  let arg16 : BitVec 32 := Scf.iv c0_i32_31 c1_i32_33 k0_t2
  let v752 : Index := Scalar.indexCast arg16
  let c16_244 : Index := 16#32
  ![2, v752.toNat, 16]
def k0_off91 (k0_t2 : Fin k0_t2_loop.trips) : Fin 3 → Nat :=
  let c3_i32_245 : BitVec 32 := 3#32
  let v756 : Index := Scalar.indexCast c3_i32_245
  let c0_i32_31 : BitVec 32 := 0#32
  let c1_i32_33 : BitVec 32 := 1#32
  let arg16 : BitVec 32 := Scf.iv c0_i32_31 c1_i32_33 k0_t2
  let v757 : Index := Scalar.indexCast arg16
  let c16_246 : Index := 16#32
  ![3, v757.toNat, 16]
def k0_off92 (k0_t2 : Fin k0_t2_loop.trips) : Fin 3 → Nat :=
  let c4_i32_247 : BitVec 32 := 4#32
  let v761 : Index := Scalar.indexCast c4_i32_247
  let c0_i32_31 : BitVec 32 := 0#32
  let c1_i32_33 : BitVec 32 := 1#32
  let arg16 : BitVec 32 := Scf.iv c0_i32_31 c1_i32_33 k0_t2
  let v762 : Index := Scalar.indexCast arg16
  let c16_248 : Index := 16#32
  ![4, v762.toNat, 16]
def k0_off93 (k0_t2 : Fin k0_t2_loop.trips) : Fin 3 → Nat :=
  let c5_i32_249 : BitVec 32 := 5#32
  let v766 : Index := Scalar.indexCast c5_i32_249
  let c0_i32_31 : BitVec 32 := 0#32
  let c1_i32_33 : BitVec 32 := 1#32
  let arg16 : BitVec 32 := Scf.iv c0_i32_31 c1_i32_33 k0_t2
  let v767 : Index := Scalar.indexCast arg16
  let c16_250 : Index := 16#32
  ![5, v767.toNat, 16]
def k0_off94 (k0_t2 : Fin k0_t2_loop.trips) : Fin 3 → Nat :=
  let c6_i32_251 : BitVec 32 := 6#32
  let v771 : Index := Scalar.indexCast c6_i32_251
  let c0_i32_31 : BitVec 32 := 0#32
  let c1_i32_33 : BitVec 32 := 1#32
  let arg16 : BitVec 32 := Scf.iv c0_i32_31 c1_i32_33 k0_t2
  let v772 : Index := Scalar.indexCast arg16
  let c16_252 : Index := 16#32
  ![6, v772.toNat, 16]
def k0_off95 (k0_t2 : Fin k0_t2_loop.trips) : Fin 3 → Nat :=
  let c7_i32_253 : BitVec 32 := 7#32
  let v776 : Index := Scalar.indexCast c7_i32_253
  let c0_i32_31 : BitVec 32 := 0#32
  let c1_i32_33 : BitVec 32 := 1#32
  let arg16 : BitVec 32 := Scf.iv c0_i32_31 c1_i32_33 k0_t2
  let v777 : Index := Scalar.indexCast arg16
  let c16_254 : Index := 16#32
  ![7, v777.toNat, 16]
def k0_off96 (k0_t2 : Fin k0_t2_loop.trips) : Fin 3 → Nat :=
  let c8_i32_255 : BitVec 32 := 8#32
  let v781 : Index := Scalar.indexCast c8_i32_255
  let c0_i32_31 : BitVec 32 := 0#32
  let c1_i32_33 : BitVec 32 := 1#32
  let arg16 : BitVec 32 := Scf.iv c0_i32_31 c1_i32_33 k0_t2
  let v782 : Index := Scalar.indexCast arg16
  let c16_256 : Index := 16#32
  ![8, v782.toNat, 16]
def k0_off97 (k0_t2 : Fin k0_t2_loop.trips) : Fin 3 → Nat :=
  let c9_i32_257 : BitVec 32 := 9#32
  let v786 : Index := Scalar.indexCast c9_i32_257
  let c0_i32_31 : BitVec 32 := 0#32
  let c1_i32_33 : BitVec 32 := 1#32
  let arg16 : BitVec 32 := Scf.iv c0_i32_31 c1_i32_33 k0_t2
  let v787 : Index := Scalar.indexCast arg16
  let c16_258 : Index := 16#32
  ![9, v787.toNat, 16]
def k0_off98 (k0_t2 : Fin k0_t2_loop.trips) : Fin 3 → Nat :=
  let c10_i32_259 : BitVec 32 := 10#32
  let v791 : Index := Scalar.indexCast c10_i32_259
  let c0_i32_31 : BitVec 32 := 0#32
  let c1_i32_33 : BitVec 32 := 1#32
  let arg16 : BitVec 32 := Scf.iv c0_i32_31 c1_i32_33 k0_t2
  let v792 : Index := Scalar.indexCast arg16
  let c16_260 : Index := 16#32
  ![10, v792.toNat, 16]
def k0_off99 (k0_t2 : Fin k0_t2_loop.trips) : Fin 3 → Nat :=
  let c11_i32_261 : BitVec 32 := 11#32
  let v796 : Index := Scalar.indexCast c11_i32_261
  let c0_i32_31 : BitVec 32 := 0#32
  let c1_i32_33 : BitVec 32 := 1#32
  let arg16 : BitVec 32 := Scf.iv c0_i32_31 c1_i32_33 k0_t2
  let v797 : Index := Scalar.indexCast arg16
  let c16_262 : Index := 16#32
  ![11, v797.toNat, 16]
def k0_off100 (k0_t2 : Fin k0_t2_loop.trips) : Fin 3 → Nat :=
  let c0_i32_263 : BitVec 32 := 0#32
  let v801 : Index := Scalar.indexCast c0_i32_263
  let c0_i32_31 : BitVec 32 := 0#32
  let c1_i32_33 : BitVec 32 := 1#32
  let arg16 : BitVec 32 := Scf.iv c0_i32_31 c1_i32_33 k0_t2
  let v802 : Index := Scalar.indexCast arg16
  let c32_264 : Index := 32#32
  ![0, v802.toNat, 32]
def k0_off101 (k0_t2 : Fin k0_t2_loop.trips) : Fin 3 → Nat :=
  let c1_i32_266 : BitVec 32 := 1#32
  let v808 : Index := Scalar.indexCast c1_i32_266
  let c0_i32_31 : BitVec 32 := 0#32
  let c1_i32_33 : BitVec 32 := 1#32
  let arg16 : BitVec 32 := Scf.iv c0_i32_31 c1_i32_33 k0_t2
  let v809 : Index := Scalar.indexCast arg16
  let c32_267 : Index := 32#32
  ![1, v809.toNat, 32]
def k0_off102 (k0_t2 : Fin k0_t2_loop.trips) : Fin 3 → Nat :=
  let c2_i32_269 : BitVec 32 := 2#32
  let v816 : Index := Scalar.indexCast c2_i32_269
  let c0_i32_31 : BitVec 32 := 0#32
  let c1_i32_33 : BitVec 32 := 1#32
  let arg16 : BitVec 32 := Scf.iv c0_i32_31 c1_i32_33 k0_t2
  let v817 : Index := Scalar.indexCast arg16
  let c32_270 : Index := 32#32
  ![2, v817.toNat, 32]
def k0_off103 (k0_t2 : Fin k0_t2_loop.trips) : Fin 3 → Nat :=
  let c3_i32_272 : BitVec 32 := 3#32
  let v824 : Index := Scalar.indexCast c3_i32_272
  let c0_i32_31 : BitVec 32 := 0#32
  let c1_i32_33 : BitVec 32 := 1#32
  let arg16 : BitVec 32 := Scf.iv c0_i32_31 c1_i32_33 k0_t2
  let v825 : Index := Scalar.indexCast arg16
  let c32_273 : Index := 32#32
  ![3, v825.toNat, 32]
def k0_off104 (k0_t2 : Fin k0_t2_loop.trips) : Fin 3 → Nat :=
  let c4_i32_275 : BitVec 32 := 4#32
  let v832 : Index := Scalar.indexCast c4_i32_275
  let c0_i32_31 : BitVec 32 := 0#32
  let c1_i32_33 : BitVec 32 := 1#32
  let arg16 : BitVec 32 := Scf.iv c0_i32_31 c1_i32_33 k0_t2
  let v833 : Index := Scalar.indexCast arg16
  let c32_276 : Index := 32#32
  ![4, v833.toNat, 32]
def k0_off105 (k0_t2 : Fin k0_t2_loop.trips) : Fin 3 → Nat :=
  let c5_i32_278 : BitVec 32 := 5#32
  let v840 : Index := Scalar.indexCast c5_i32_278
  let c0_i32_31 : BitVec 32 := 0#32
  let c1_i32_33 : BitVec 32 := 1#32
  let arg16 : BitVec 32 := Scf.iv c0_i32_31 c1_i32_33 k0_t2
  let v841 : Index := Scalar.indexCast arg16
  let c32_279 : Index := 32#32
  ![5, v841.toNat, 32]
def k0_off106 (k0_t2 : Fin k0_t2_loop.trips) : Fin 3 → Nat :=
  let c6_i32_281 : BitVec 32 := 6#32
  let v848 : Index := Scalar.indexCast c6_i32_281
  let c0_i32_31 : BitVec 32 := 0#32
  let c1_i32_33 : BitVec 32 := 1#32
  let arg16 : BitVec 32 := Scf.iv c0_i32_31 c1_i32_33 k0_t2
  let v849 : Index := Scalar.indexCast arg16
  let c32_282 : Index := 32#32
  ![6, v849.toNat, 32]
def k0_off107 (k0_t2 : Fin k0_t2_loop.trips) : Fin 3 → Nat :=
  let c7_i32_284 : BitVec 32 := 7#32
  let v856 : Index := Scalar.indexCast c7_i32_284
  let c0_i32_31 : BitVec 32 := 0#32
  let c1_i32_33 : BitVec 32 := 1#32
  let arg16 : BitVec 32 := Scf.iv c0_i32_31 c1_i32_33 k0_t2
  let v857 : Index := Scalar.indexCast arg16
  let c32_285 : Index := 32#32
  ![7, v857.toNat, 32]
def k0_off108 (k0_t2 : Fin k0_t2_loop.trips) : Fin 3 → Nat :=
  let c8_i32_287 : BitVec 32 := 8#32
  let v865 : Index := Scalar.indexCast c8_i32_287
  let c0_i32_31 : BitVec 32 := 0#32
  let c1_i32_33 : BitVec 32 := 1#32
  let arg16 : BitVec 32 := Scf.iv c0_i32_31 c1_i32_33 k0_t2
  let v866 : Index := Scalar.indexCast arg16
  let c32_288 : Index := 32#32
  ![8, v866.toNat, 32]
def k0_off109 (k0_t2 : Fin k0_t2_loop.trips) : Fin 3 → Nat :=
  let c9_i32_290 : BitVec 32 := 9#32
  let v874 : Index := Scalar.indexCast c9_i32_290
  let c0_i32_31 : BitVec 32 := 0#32
  let c1_i32_33 : BitVec 32 := 1#32
  let arg16 : BitVec 32 := Scf.iv c0_i32_31 c1_i32_33 k0_t2
  let v875 : Index := Scalar.indexCast arg16
  let c32_291 : Index := 32#32
  ![9, v875.toNat, 32]
def k0_off110 (k0_t2 : Fin k0_t2_loop.trips) : Fin 3 → Nat :=
  let c10_i32_293 : BitVec 32 := 10#32
  let v883 : Index := Scalar.indexCast c10_i32_293
  let c0_i32_31 : BitVec 32 := 0#32
  let c1_i32_33 : BitVec 32 := 1#32
  let arg16 : BitVec 32 := Scf.iv c0_i32_31 c1_i32_33 k0_t2
  let v884 : Index := Scalar.indexCast arg16
  let c32_294 : Index := 32#32
  ![10, v884.toNat, 32]
def k0_off111 (k0_t2 : Fin k0_t2_loop.trips) : Fin 3 → Nat :=
  let c11_i32_296 : BitVec 32 := 11#32
  let v892 : Index := Scalar.indexCast c11_i32_296
  let c0_i32_31 : BitVec 32 := 0#32
  let c1_i32_33 : BitVec 32 := 1#32
  let arg16 : BitVec 32 := Scf.iv c0_i32_31 c1_i32_33 k0_t2
  let v893 : Index := Scalar.indexCast arg16
  let c32_297 : Index := 32#32
  ![11, v893.toNat, 32]
def k0_off112 (k0_t2 : Fin k0_t2_loop.trips) : Fin 3 → Nat :=
  let c12_i32_299 : BitVec 32 := 12#32
  let v901 : Index := Scalar.indexCast c12_i32_299
  let c0_i32_31 : BitVec 32 := 0#32
  let c1_i32_33 : BitVec 32 := 1#32
  let arg16 : BitVec 32 := Scf.iv c0_i32_31 c1_i32_33 k0_t2
  let v902 : Index := Scalar.indexCast arg16
  let c32_300 : Index := 32#32
  ![12, v902.toNat, 32]
def k0_off113 (k0_t2 : Fin k0_t2_loop.trips) : Fin 3 → Nat :=
  let c13_i32_302 : BitVec 32 := 13#32
  let v909 : Index := Scalar.indexCast c13_i32_302
  let c0_i32_31 : BitVec 32 := 0#32
  let c1_i32_33 : BitVec 32 := 1#32
  let arg16 : BitVec 32 := Scf.iv c0_i32_31 c1_i32_33 k0_t2
  let v910 : Index := Scalar.indexCast arg16
  let c32_303 : Index := 32#32
  ![13, v910.toNat, 32]
def k0_off114 (k0_t2 : Fin k0_t2_loop.trips) : Fin 3 → Nat :=
  let c14_i32_305 : BitVec 32 := 14#32
  let v918 : Index := Scalar.indexCast c14_i32_305
  let c0_i32_31 : BitVec 32 := 0#32
  let c1_i32_33 : BitVec 32 := 1#32
  let arg16 : BitVec 32 := Scf.iv c0_i32_31 c1_i32_33 k0_t2
  let v919 : Index := Scalar.indexCast arg16
  let c32_306 : Index := 32#32
  ![14, v919.toNat, 32]
def k0_off115 (k0_t2 : Fin k0_t2_loop.trips) : Fin 3 → Nat :=
  let c15_i32_308 : BitVec 32 := 15#32
  let v927 : Index := Scalar.indexCast c15_i32_308
  let c0_i32_31 : BitVec 32 := 0#32
  let c1_i32_33 : BitVec 32 := 1#32
  let arg16 : BitVec 32 := Scf.iv c0_i32_31 c1_i32_33 k0_t2
  let v928 : Index := Scalar.indexCast arg16
  let c32_309 : Index := 32#32
  ![15, v928.toNat, 32]
def k0_off116 (k0_t2 : Fin k0_t2_loop.trips) : Fin 3 → Nat :=
  let c16_i32_311 : BitVec 32 := 16#32
  let v936 : Index := Scalar.indexCast c16_i32_311
  let c0_i32_31 : BitVec 32 := 0#32
  let c1_i32_33 : BitVec 32 := 1#32
  let arg16 : BitVec 32 := Scf.iv c0_i32_31 c1_i32_33 k0_t2
  let v937 : Index := Scalar.indexCast arg16
  let c32_312 : Index := 32#32
  ![16, v937.toNat, 32]
def k0_off117 (k0_t2 : Fin k0_t2_loop.trips) : Fin 3 → Nat :=
  let c17_i32_314 : BitVec 32 := 17#32
  let v945 : Index := Scalar.indexCast c17_i32_314
  let c0_i32_31 : BitVec 32 := 0#32
  let c1_i32_33 : BitVec 32 := 1#32
  let arg16 : BitVec 32 := Scf.iv c0_i32_31 c1_i32_33 k0_t2
  let v946 : Index := Scalar.indexCast arg16
  let c32_315 : Index := 32#32
  ![17, v946.toNat, 32]
def k0_off118 (k0_t2 : Fin k0_t2_loop.trips) : Fin 3 → Nat :=
  let c18_i32_317 : BitVec 32 := 18#32
  let v954 : Index := Scalar.indexCast c18_i32_317
  let c0_i32_31 : BitVec 32 := 0#32
  let c1_i32_33 : BitVec 32 := 1#32
  let arg16 : BitVec 32 := Scf.iv c0_i32_31 c1_i32_33 k0_t2
  let v955 : Index := Scalar.indexCast arg16
  let c32_318 : Index := 32#32
  ![18, v955.toNat, 32]
def k0_off119 (k0_t2 : Fin k0_t2_loop.trips) : Fin 3 → Nat :=
  let c19_i32_320 : BitVec 32 := 19#32
  let v962 : Index := Scalar.indexCast c19_i32_320
  let c0_i32_31 : BitVec 32 := 0#32
  let c1_i32_33 : BitVec 32 := 1#32
  let arg16 : BitVec 32 := Scf.iv c0_i32_31 c1_i32_33 k0_t2
  let v963 : Index := Scalar.indexCast arg16
  let c32_321 : Index := 32#32
  ![19, v963.toNat, 32]
def k0_off120 (k0_t2 : Fin k0_t2_loop.trips) : Fin 3 → Nat :=
  let c20_i32_323 : BitVec 32 := 20#32
  let v971 : Index := Scalar.indexCast c20_i32_323
  let c0_i32_31 : BitVec 32 := 0#32
  let c1_i32_33 : BitVec 32 := 1#32
  let arg16 : BitVec 32 := Scf.iv c0_i32_31 c1_i32_33 k0_t2
  let v972 : Index := Scalar.indexCast arg16
  let c32_324 : Index := 32#32
  ![20, v972.toNat, 32]
def k0_off121 (k0_t2 : Fin k0_t2_loop.trips) : Fin 3 → Nat :=
  let c21_i32_326 : BitVec 32 := 21#32
  let v980 : Index := Scalar.indexCast c21_i32_326
  let c0_i32_31 : BitVec 32 := 0#32
  let c1_i32_33 : BitVec 32 := 1#32
  let arg16 : BitVec 32 := Scf.iv c0_i32_31 c1_i32_33 k0_t2
  let v981 : Index := Scalar.indexCast arg16
  let c32_327 : Index := 32#32
  ![21, v981.toNat, 32]
def k0_off122 (k0_t2 : Fin k0_t2_loop.trips) : Fin 3 → Nat :=
  let c22_i32_329 : BitVec 32 := 22#32
  let v989 : Index := Scalar.indexCast c22_i32_329
  let c0_i32_31 : BitVec 32 := 0#32
  let c1_i32_33 : BitVec 32 := 1#32
  let arg16 : BitVec 32 := Scf.iv c0_i32_31 c1_i32_33 k0_t2
  let v990 : Index := Scalar.indexCast arg16
  let c32_330 : Index := 32#32
  ![22, v990.toNat, 32]
def k0_off123 (k0_t2 : Fin k0_t2_loop.trips) : Fin 3 → Nat :=
  let c23_i32_332 : BitVec 32 := 23#32
  let v998 : Index := Scalar.indexCast c23_i32_332
  let c0_i32_31 : BitVec 32 := 0#32
  let c1_i32_33 : BitVec 32 := 1#32
  let arg16 : BitVec 32 := Scf.iv c0_i32_31 c1_i32_33 k0_t2
  let v999 : Index := Scalar.indexCast arg16
  let c32_333 : Index := 32#32
  ![23, v999.toNat, 32]
def k0_off124 (k0_t2 : Fin k0_t2_loop.trips) : Fin 3 → Nat :=
  let c24_i32_335 : BitVec 32 := 24#32
  let v1007 : Index := Scalar.indexCast c24_i32_335
  let c0_i32_31 : BitVec 32 := 0#32
  let c1_i32_33 : BitVec 32 := 1#32
  let arg16 : BitVec 32 := Scf.iv c0_i32_31 c1_i32_33 k0_t2
  let v1008 : Index := Scalar.indexCast arg16
  let c32_336 : Index := 32#32
  ![24, v1008.toNat, 32]
def k0_off125 (k0_t2 : Fin k0_t2_loop.trips) : Fin 3 → Nat :=
  let c25_i32_338 : BitVec 32 := 25#32
  let v1015 : Index := Scalar.indexCast c25_i32_338
  let c0_i32_31 : BitVec 32 := 0#32
  let c1_i32_33 : BitVec 32 := 1#32
  let arg16 : BitVec 32 := Scf.iv c0_i32_31 c1_i32_33 k0_t2
  let v1016 : Index := Scalar.indexCast arg16
  let c32_339 : Index := 32#32
  ![25, v1016.toNat, 32]
def k0_off126 (k0_t2 : Fin k0_t2_loop.trips) : Fin 3 → Nat :=
  let c26_i32_341 : BitVec 32 := 26#32
  let v1024 : Index := Scalar.indexCast c26_i32_341
  let c0_i32_31 : BitVec 32 := 0#32
  let c1_i32_33 : BitVec 32 := 1#32
  let arg16 : BitVec 32 := Scf.iv c0_i32_31 c1_i32_33 k0_t2
  let v1025 : Index := Scalar.indexCast arg16
  let c32_342 : Index := 32#32
  ![26, v1025.toNat, 32]
def k0_off127 (k0_t2 : Fin k0_t2_loop.trips) : Fin 3 → Nat :=
  let c27_i32_344 : BitVec 32 := 27#32
  let v1033 : Index := Scalar.indexCast c27_i32_344
  let c0_i32_31 : BitVec 32 := 0#32
  let c1_i32_33 : BitVec 32 := 1#32
  let arg16 : BitVec 32 := Scf.iv c0_i32_31 c1_i32_33 k0_t2
  let v1034 : Index := Scalar.indexCast arg16
  let c32_345 : Index := 32#32
  ![27, v1034.toNat, 32]
def k0_off128 (k0_t2 : Fin k0_t2_loop.trips) : Fin 3 → Nat :=
  let c28_i32_347 : BitVec 32 := 28#32
  let v1042 : Index := Scalar.indexCast c28_i32_347
  let c0_i32_31 : BitVec 32 := 0#32
  let c1_i32_33 : BitVec 32 := 1#32
  let arg16 : BitVec 32 := Scf.iv c0_i32_31 c1_i32_33 k0_t2
  let v1043 : Index := Scalar.indexCast arg16
  let c32_348 : Index := 32#32
  ![28, v1043.toNat, 32]
def k0_off129 (k0_t2 : Fin k0_t2_loop.trips) : Fin 3 → Nat :=
  let c29_i32_350 : BitVec 32 := 29#32
  let v1051 : Index := Scalar.indexCast c29_i32_350
  let c0_i32_31 : BitVec 32 := 0#32
  let c1_i32_33 : BitVec 32 := 1#32
  let arg16 : BitVec 32 := Scf.iv c0_i32_31 c1_i32_33 k0_t2
  let v1052 : Index := Scalar.indexCast arg16
  let c32_351 : Index := 32#32
  ![29, v1052.toNat, 32]
def k0_off130 (k0_t2 : Fin k0_t2_loop.trips) : Fin 3 → Nat :=
  let c30_i32_353 : BitVec 32 := 30#32
  let v1060 : Index := Scalar.indexCast c30_i32_353
  let c0_i32_31 : BitVec 32 := 0#32
  let c1_i32_33 : BitVec 32 := 1#32
  let arg16 : BitVec 32 := Scf.iv c0_i32_31 c1_i32_33 k0_t2
  let v1061 : Index := Scalar.indexCast arg16
  let c32_354 : Index := 32#32
  ![30, v1061.toNat, 32]
def k0_off131 (k0_t2 : Fin k0_t2_loop.trips) : Fin 3 → Nat :=
  let c31_i32_356 : BitVec 32 := 31#32
  let v1068 : Index := Scalar.indexCast c31_i32_356
  let c0_i32_31 : BitVec 32 := 0#32
  let c1_i32_33 : BitVec 32 := 1#32
  let arg16 : BitVec 32 := Scf.iv c0_i32_31 c1_i32_33 k0_t2
  let v1069 : Index := Scalar.indexCast arg16
  let c32_357 : Index := 32#32
  ![31, v1069.toNat, 32]
def k0_off132 (k0_t2 : Fin k0_t2_loop.trips) : Fin 3 → Nat :=
  let c32_i32_359 : BitVec 32 := 32#32
  let v1077 : Index := Scalar.indexCast c32_i32_359
  let c0_i32_31 : BitVec 32 := 0#32
  let c1_i32_33 : BitVec 32 := 1#32
  let arg16 : BitVec 32 := Scf.iv c0_i32_31 c1_i32_33 k0_t2
  let v1078 : Index := Scalar.indexCast arg16
  let c32_360 : Index := 32#32
  ![32, v1078.toNat, 32]
def k0_off133 (k0_t2 : Fin k0_t2_loop.trips) : Fin 3 → Nat :=
  let c33_i32_362 : BitVec 32 := 33#32
  let v1086 : Index := Scalar.indexCast c33_i32_362
  let c0_i32_31 : BitVec 32 := 0#32
  let c1_i32_33 : BitVec 32 := 1#32
  let arg16 : BitVec 32 := Scf.iv c0_i32_31 c1_i32_33 k0_t2
  let v1087 : Index := Scalar.indexCast arg16
  let c32_363 : Index := 32#32
  ![33, v1087.toNat, 32]
def k0_off134 (k0_t2 : Fin k0_t2_loop.trips) : Fin 3 → Nat :=
  let c34_i32_365 : BitVec 32 := 34#32
  let v1095 : Index := Scalar.indexCast c34_i32_365
  let c0_i32_31 : BitVec 32 := 0#32
  let c1_i32_33 : BitVec 32 := 1#32
  let arg16 : BitVec 32 := Scf.iv c0_i32_31 c1_i32_33 k0_t2
  let v1096 : Index := Scalar.indexCast arg16
  let c32_366 : Index := 32#32
  ![34, v1096.toNat, 32]
def k0_off135 (k0_t2 : Fin k0_t2_loop.trips) : Fin 3 → Nat :=
  let c35_i32_368 : BitVec 32 := 35#32
  let v1104 : Index := Scalar.indexCast c35_i32_368
  let c0_i32_31 : BitVec 32 := 0#32
  let c1_i32_33 : BitVec 32 := 1#32
  let arg16 : BitVec 32 := Scf.iv c0_i32_31 c1_i32_33 k0_t2
  let v1105 : Index := Scalar.indexCast arg16
  let c32_369 : Index := 32#32
  ![35, v1105.toNat, 32]
def k0_off136 (k0_t2 : Fin k0_t2_loop.trips) : Fin 3 → Nat :=
  let c0_i32_371 : BitVec 32 := 0#32
  let v1113 : Index := Scalar.indexCast c0_i32_371
  let c0_i32_31 : BitVec 32 := 0#32
  let c1_i32_33 : BitVec 32 := 1#32
  let arg16 : BitVec 32 := Scf.iv c0_i32_31 c1_i32_33 k0_t2
  let v1114 : Index := Scalar.indexCast arg16
  let c32_372 : Index := 32#32
  ![0, v1114.toNat, 32]
def k0_off137 (k0_t2 : Fin k0_t2_loop.trips) : Fin 3 → Nat :=
  let c1_i32_373 : BitVec 32 := 1#32
  let v1118 : Index := Scalar.indexCast c1_i32_373
  let c0_i32_31 : BitVec 32 := 0#32
  let c1_i32_33 : BitVec 32 := 1#32
  let arg16 : BitVec 32 := Scf.iv c0_i32_31 c1_i32_33 k0_t2
  let v1119 : Index := Scalar.indexCast arg16
  let c32_374 : Index := 32#32
  ![1, v1119.toNat, 32]
def k0_off138 (k0_t2 : Fin k0_t2_loop.trips) : Fin 3 → Nat :=
  let c2_i32_375 : BitVec 32 := 2#32
  let v1123 : Index := Scalar.indexCast c2_i32_375
  let c0_i32_31 : BitVec 32 := 0#32
  let c1_i32_33 : BitVec 32 := 1#32
  let arg16 : BitVec 32 := Scf.iv c0_i32_31 c1_i32_33 k0_t2
  let v1124 : Index := Scalar.indexCast arg16
  let c32_376 : Index := 32#32
  ![2, v1124.toNat, 32]
def k0_off139 (k0_t2 : Fin k0_t2_loop.trips) : Fin 3 → Nat :=
  let c3_i32_377 : BitVec 32 := 3#32
  let v1128 : Index := Scalar.indexCast c3_i32_377
  let c0_i32_31 : BitVec 32 := 0#32
  let c1_i32_33 : BitVec 32 := 1#32
  let arg16 : BitVec 32 := Scf.iv c0_i32_31 c1_i32_33 k0_t2
  let v1129 : Index := Scalar.indexCast arg16
  let c32_378 : Index := 32#32
  ![3, v1129.toNat, 32]
def k0_off140 (k0_t2 : Fin k0_t2_loop.trips) : Fin 3 → Nat :=
  let c4_i32_379 : BitVec 32 := 4#32
  let v1133 : Index := Scalar.indexCast c4_i32_379
  let c0_i32_31 : BitVec 32 := 0#32
  let c1_i32_33 : BitVec 32 := 1#32
  let arg16 : BitVec 32 := Scf.iv c0_i32_31 c1_i32_33 k0_t2
  let v1134 : Index := Scalar.indexCast arg16
  let c32_380 : Index := 32#32
  ![4, v1134.toNat, 32]
def k0_off141 (k0_t2 : Fin k0_t2_loop.trips) : Fin 3 → Nat :=
  let c5_i32_381 : BitVec 32 := 5#32
  let v1138 : Index := Scalar.indexCast c5_i32_381
  let c0_i32_31 : BitVec 32 := 0#32
  let c1_i32_33 : BitVec 32 := 1#32
  let arg16 : BitVec 32 := Scf.iv c0_i32_31 c1_i32_33 k0_t2
  let v1139 : Index := Scalar.indexCast arg16
  let c32_382 : Index := 32#32
  ![5, v1139.toNat, 32]
def k0_off142 (k0_t2 : Fin k0_t2_loop.trips) : Fin 3 → Nat :=
  let c6_i32_383 : BitVec 32 := 6#32
  let v1143 : Index := Scalar.indexCast c6_i32_383
  let c0_i32_31 : BitVec 32 := 0#32
  let c1_i32_33 : BitVec 32 := 1#32
  let arg16 : BitVec 32 := Scf.iv c0_i32_31 c1_i32_33 k0_t2
  let v1144 : Index := Scalar.indexCast arg16
  let c32_384 : Index := 32#32
  ![6, v1144.toNat, 32]
def k0_off143 (k0_t2 : Fin k0_t2_loop.trips) : Fin 3 → Nat :=
  let c7_i32_385 : BitVec 32 := 7#32
  let v1148 : Index := Scalar.indexCast c7_i32_385
  let c0_i32_31 : BitVec 32 := 0#32
  let c1_i32_33 : BitVec 32 := 1#32
  let arg16 : BitVec 32 := Scf.iv c0_i32_31 c1_i32_33 k0_t2
  let v1149 : Index := Scalar.indexCast arg16
  let c32_386 : Index := 32#32
  ![7, v1149.toNat, 32]
def k0_off144 (k0_t2 : Fin k0_t2_loop.trips) : Fin 3 → Nat :=
  let c8_i32_387 : BitVec 32 := 8#32
  let v1153 : Index := Scalar.indexCast c8_i32_387
  let c0_i32_31 : BitVec 32 := 0#32
  let c1_i32_33 : BitVec 32 := 1#32
  let arg16 : BitVec 32 := Scf.iv c0_i32_31 c1_i32_33 k0_t2
  let v1154 : Index := Scalar.indexCast arg16
  let c32_388 : Index := 32#32
  ![8, v1154.toNat, 32]
def k0_off145 (k0_t2 : Fin k0_t2_loop.trips) : Fin 3 → Nat :=
  let c9_i32_389 : BitVec 32 := 9#32
  let v1158 : Index := Scalar.indexCast c9_i32_389
  let c0_i32_31 : BitVec 32 := 0#32
  let c1_i32_33 : BitVec 32 := 1#32
  let arg16 : BitVec 32 := Scf.iv c0_i32_31 c1_i32_33 k0_t2
  let v1159 : Index := Scalar.indexCast arg16
  let c32_390 : Index := 32#32
  ![9, v1159.toNat, 32]
def k0_off146 (k0_t2 : Fin k0_t2_loop.trips) : Fin 3 → Nat :=
  let c10_i32_391 : BitVec 32 := 10#32
  let v1163 : Index := Scalar.indexCast c10_i32_391
  let c0_i32_31 : BitVec 32 := 0#32
  let c1_i32_33 : BitVec 32 := 1#32
  let arg16 : BitVec 32 := Scf.iv c0_i32_31 c1_i32_33 k0_t2
  let v1164 : Index := Scalar.indexCast arg16
  let c32_392 : Index := 32#32
  ![10, v1164.toNat, 32]
def k0_off147 (k0_t2 : Fin k0_t2_loop.trips) : Fin 3 → Nat :=
  let c11_i32_393 : BitVec 32 := 11#32
  let v1168 : Index := Scalar.indexCast c11_i32_393
  let c0_i32_31 : BitVec 32 := 0#32
  let c1_i32_33 : BitVec 32 := 1#32
  let arg16 : BitVec 32 := Scf.iv c0_i32_31 c1_i32_33 k0_t2
  let v1169 : Index := Scalar.indexCast arg16
  let c32_394 : Index := 32#32
  ![11, v1169.toNat, 32]
def k0_off148 (k0_t2 : Fin k0_t2_loop.trips) : Fin 3 → Nat :=
  let c0_i32_395 : BitVec 32 := 0#32
  let v1173 : Index := Scalar.indexCast c0_i32_395
  let c0_i32_31 : BitVec 32 := 0#32
  let c1_i32_33 : BitVec 32 := 1#32
  let arg16 : BitVec 32 := Scf.iv c0_i32_31 c1_i32_33 k0_t2
  let v1174 : Index := Scalar.indexCast arg16
  let c48_396 : Index := 48#32
  ![0, v1174.toNat, 48]
def k0_off149 (k0_t2 : Fin k0_t2_loop.trips) : Fin 3 → Nat :=
  let c1_i32_398 : BitVec 32 := 1#32
  let v1180 : Index := Scalar.indexCast c1_i32_398
  let c0_i32_31 : BitVec 32 := 0#32
  let c1_i32_33 : BitVec 32 := 1#32
  let arg16 : BitVec 32 := Scf.iv c0_i32_31 c1_i32_33 k0_t2
  let v1181 : Index := Scalar.indexCast arg16
  let c48_399 : Index := 48#32
  ![1, v1181.toNat, 48]
def k0_off150 (k0_t2 : Fin k0_t2_loop.trips) : Fin 3 → Nat :=
  let c2_i32_401 : BitVec 32 := 2#32
  let v1188 : Index := Scalar.indexCast c2_i32_401
  let c0_i32_31 : BitVec 32 := 0#32
  let c1_i32_33 : BitVec 32 := 1#32
  let arg16 : BitVec 32 := Scf.iv c0_i32_31 c1_i32_33 k0_t2
  let v1189 : Index := Scalar.indexCast arg16
  let c48_402 : Index := 48#32
  ![2, v1189.toNat, 48]
def k0_off151 (k0_t2 : Fin k0_t2_loop.trips) : Fin 3 → Nat :=
  let c3_i32_404 : BitVec 32 := 3#32
  let v1196 : Index := Scalar.indexCast c3_i32_404
  let c0_i32_31 : BitVec 32 := 0#32
  let c1_i32_33 : BitVec 32 := 1#32
  let arg16 : BitVec 32 := Scf.iv c0_i32_31 c1_i32_33 k0_t2
  let v1197 : Index := Scalar.indexCast arg16
  let c48_405 : Index := 48#32
  ![3, v1197.toNat, 48]
def k0_off152 (k0_t2 : Fin k0_t2_loop.trips) : Fin 3 → Nat :=
  let c4_i32_407 : BitVec 32 := 4#32
  let v1204 : Index := Scalar.indexCast c4_i32_407
  let c0_i32_31 : BitVec 32 := 0#32
  let c1_i32_33 : BitVec 32 := 1#32
  let arg16 : BitVec 32 := Scf.iv c0_i32_31 c1_i32_33 k0_t2
  let v1205 : Index := Scalar.indexCast arg16
  let c48_408 : Index := 48#32
  ![4, v1205.toNat, 48]
def k0_off153 (k0_t2 : Fin k0_t2_loop.trips) : Fin 3 → Nat :=
  let c5_i32_410 : BitVec 32 := 5#32
  let v1212 : Index := Scalar.indexCast c5_i32_410
  let c0_i32_31 : BitVec 32 := 0#32
  let c1_i32_33 : BitVec 32 := 1#32
  let arg16 : BitVec 32 := Scf.iv c0_i32_31 c1_i32_33 k0_t2
  let v1213 : Index := Scalar.indexCast arg16
  let c48_411 : Index := 48#32
  ![5, v1213.toNat, 48]
def k0_off154 (k0_t2 : Fin k0_t2_loop.trips) : Fin 3 → Nat :=
  let c6_i32_413 : BitVec 32 := 6#32
  let v1220 : Index := Scalar.indexCast c6_i32_413
  let c0_i32_31 : BitVec 32 := 0#32
  let c1_i32_33 : BitVec 32 := 1#32
  let arg16 : BitVec 32 := Scf.iv c0_i32_31 c1_i32_33 k0_t2
  let v1221 : Index := Scalar.indexCast arg16
  let c48_414 : Index := 48#32
  ![6, v1221.toNat, 48]
def k0_off155 (k0_t2 : Fin k0_t2_loop.trips) : Fin 3 → Nat :=
  let c7_i32_416 : BitVec 32 := 7#32
  let v1228 : Index := Scalar.indexCast c7_i32_416
  let c0_i32_31 : BitVec 32 := 0#32
  let c1_i32_33 : BitVec 32 := 1#32
  let arg16 : BitVec 32 := Scf.iv c0_i32_31 c1_i32_33 k0_t2
  let v1229 : Index := Scalar.indexCast arg16
  let c48_417 : Index := 48#32
  ![7, v1229.toNat, 48]
def k0_off156 (k0_t2 : Fin k0_t2_loop.trips) : Fin 3 → Nat :=
  let c8_i32_419 : BitVec 32 := 8#32
  let v1237 : Index := Scalar.indexCast c8_i32_419
  let c0_i32_31 : BitVec 32 := 0#32
  let c1_i32_33 : BitVec 32 := 1#32
  let arg16 : BitVec 32 := Scf.iv c0_i32_31 c1_i32_33 k0_t2
  let v1238 : Index := Scalar.indexCast arg16
  let c48_420 : Index := 48#32
  ![8, v1238.toNat, 48]
def k0_off157 (k0_t2 : Fin k0_t2_loop.trips) : Fin 3 → Nat :=
  let c9_i32_422 : BitVec 32 := 9#32
  let v1246 : Index := Scalar.indexCast c9_i32_422
  let c0_i32_31 : BitVec 32 := 0#32
  let c1_i32_33 : BitVec 32 := 1#32
  let arg16 : BitVec 32 := Scf.iv c0_i32_31 c1_i32_33 k0_t2
  let v1247 : Index := Scalar.indexCast arg16
  let c48_423 : Index := 48#32
  ![9, v1247.toNat, 48]
def k0_off158 (k0_t2 : Fin k0_t2_loop.trips) : Fin 3 → Nat :=
  let c10_i32_425 : BitVec 32 := 10#32
  let v1255 : Index := Scalar.indexCast c10_i32_425
  let c0_i32_31 : BitVec 32 := 0#32
  let c1_i32_33 : BitVec 32 := 1#32
  let arg16 : BitVec 32 := Scf.iv c0_i32_31 c1_i32_33 k0_t2
  let v1256 : Index := Scalar.indexCast arg16
  let c48_426 : Index := 48#32
  ![10, v1256.toNat, 48]
def k0_off159 (k0_t2 : Fin k0_t2_loop.trips) : Fin 3 → Nat :=
  let c11_i32_428 : BitVec 32 := 11#32
  let v1264 : Index := Scalar.indexCast c11_i32_428
  let c0_i32_31 : BitVec 32 := 0#32
  let c1_i32_33 : BitVec 32 := 1#32
  let arg16 : BitVec 32 := Scf.iv c0_i32_31 c1_i32_33 k0_t2
  let v1265 : Index := Scalar.indexCast arg16
  let c48_429 : Index := 48#32
  ![11, v1265.toNat, 48]
def k0_off160 (k0_t2 : Fin k0_t2_loop.trips) : Fin 3 → Nat :=
  let c12_i32_431 : BitVec 32 := 12#32
  let v1273 : Index := Scalar.indexCast c12_i32_431
  let c0_i32_31 : BitVec 32 := 0#32
  let c1_i32_33 : BitVec 32 := 1#32
  let arg16 : BitVec 32 := Scf.iv c0_i32_31 c1_i32_33 k0_t2
  let v1274 : Index := Scalar.indexCast arg16
  let c48_432 : Index := 48#32
  ![12, v1274.toNat, 48]
def k0_off161 (k0_t2 : Fin k0_t2_loop.trips) : Fin 3 → Nat :=
  let c13_i32_434 : BitVec 32 := 13#32
  let v1281 : Index := Scalar.indexCast c13_i32_434
  let c0_i32_31 : BitVec 32 := 0#32
  let c1_i32_33 : BitVec 32 := 1#32
  let arg16 : BitVec 32 := Scf.iv c0_i32_31 c1_i32_33 k0_t2
  let v1282 : Index := Scalar.indexCast arg16
  let c48_435 : Index := 48#32
  ![13, v1282.toNat, 48]
def k0_off162 (k0_t2 : Fin k0_t2_loop.trips) : Fin 3 → Nat :=
  let c14_i32_437 : BitVec 32 := 14#32
  let v1290 : Index := Scalar.indexCast c14_i32_437
  let c0_i32_31 : BitVec 32 := 0#32
  let c1_i32_33 : BitVec 32 := 1#32
  let arg16 : BitVec 32 := Scf.iv c0_i32_31 c1_i32_33 k0_t2
  let v1291 : Index := Scalar.indexCast arg16
  let c48_438 : Index := 48#32
  ![14, v1291.toNat, 48]
def k0_off163 (k0_t2 : Fin k0_t2_loop.trips) : Fin 3 → Nat :=
  let c15_i32_440 : BitVec 32 := 15#32
  let v1299 : Index := Scalar.indexCast c15_i32_440
  let c0_i32_31 : BitVec 32 := 0#32
  let c1_i32_33 : BitVec 32 := 1#32
  let arg16 : BitVec 32 := Scf.iv c0_i32_31 c1_i32_33 k0_t2
  let v1300 : Index := Scalar.indexCast arg16
  let c48_441 : Index := 48#32
  ![15, v1300.toNat, 48]
def k0_off164 (k0_t2 : Fin k0_t2_loop.trips) : Fin 3 → Nat :=
  let c16_i32_443 : BitVec 32 := 16#32
  let v1308 : Index := Scalar.indexCast c16_i32_443
  let c0_i32_31 : BitVec 32 := 0#32
  let c1_i32_33 : BitVec 32 := 1#32
  let arg16 : BitVec 32 := Scf.iv c0_i32_31 c1_i32_33 k0_t2
  let v1309 : Index := Scalar.indexCast arg16
  let c48_444 : Index := 48#32
  ![16, v1309.toNat, 48]
def k0_off165 (k0_t2 : Fin k0_t2_loop.trips) : Fin 3 → Nat :=
  let c17_i32_446 : BitVec 32 := 17#32
  let v1317 : Index := Scalar.indexCast c17_i32_446
  let c0_i32_31 : BitVec 32 := 0#32
  let c1_i32_33 : BitVec 32 := 1#32
  let arg16 : BitVec 32 := Scf.iv c0_i32_31 c1_i32_33 k0_t2
  let v1318 : Index := Scalar.indexCast arg16
  let c48_447 : Index := 48#32
  ![17, v1318.toNat, 48]
def k0_off166 (k0_t2 : Fin k0_t2_loop.trips) : Fin 3 → Nat :=
  let c18_i32_449 : BitVec 32 := 18#32
  let v1326 : Index := Scalar.indexCast c18_i32_449
  let c0_i32_31 : BitVec 32 := 0#32
  let c1_i32_33 : BitVec 32 := 1#32
  let arg16 : BitVec 32 := Scf.iv c0_i32_31 c1_i32_33 k0_t2
  let v1327 : Index := Scalar.indexCast arg16
  let c48_450 : Index := 48#32
  ![18, v1327.toNat, 48]
def k0_off167 (k0_t2 : Fin k0_t2_loop.trips) : Fin 3 → Nat :=
  let c19_i32_452 : BitVec 32 := 19#32
  let v1334 : Index := Scalar.indexCast c19_i32_452
  let c0_i32_31 : BitVec 32 := 0#32
  let c1_i32_33 : BitVec 32 := 1#32
  let arg16 : BitVec 32 := Scf.iv c0_i32_31 c1_i32_33 k0_t2
  let v1335 : Index := Scalar.indexCast arg16
  let c48_453 : Index := 48#32
  ![19, v1335.toNat, 48]
def k0_off168 (k0_t2 : Fin k0_t2_loop.trips) : Fin 3 → Nat :=
  let c20_i32_455 : BitVec 32 := 20#32
  let v1343 : Index := Scalar.indexCast c20_i32_455
  let c0_i32_31 : BitVec 32 := 0#32
  let c1_i32_33 : BitVec 32 := 1#32
  let arg16 : BitVec 32 := Scf.iv c0_i32_31 c1_i32_33 k0_t2
  let v1344 : Index := Scalar.indexCast arg16
  let c48_456 : Index := 48#32
  ![20, v1344.toNat, 48]
def k0_off169 (k0_t2 : Fin k0_t2_loop.trips) : Fin 3 → Nat :=
  let c21_i32_458 : BitVec 32 := 21#32
  let v1352 : Index := Scalar.indexCast c21_i32_458
  let c0_i32_31 : BitVec 32 := 0#32
  let c1_i32_33 : BitVec 32 := 1#32
  let arg16 : BitVec 32 := Scf.iv c0_i32_31 c1_i32_33 k0_t2
  let v1353 : Index := Scalar.indexCast arg16
  let c48_459 : Index := 48#32
  ![21, v1353.toNat, 48]
def k0_off170 (k0_t2 : Fin k0_t2_loop.trips) : Fin 3 → Nat :=
  let c22_i32_461 : BitVec 32 := 22#32
  let v1361 : Index := Scalar.indexCast c22_i32_461
  let c0_i32_31 : BitVec 32 := 0#32
  let c1_i32_33 : BitVec 32 := 1#32
  let arg16 : BitVec 32 := Scf.iv c0_i32_31 c1_i32_33 k0_t2
  let v1362 : Index := Scalar.indexCast arg16
  let c48_462 : Index := 48#32
  ![22, v1362.toNat, 48]
def k0_off171 (k0_t2 : Fin k0_t2_loop.trips) : Fin 3 → Nat :=
  let c23_i32_464 : BitVec 32 := 23#32
  let v1370 : Index := Scalar.indexCast c23_i32_464
  let c0_i32_31 : BitVec 32 := 0#32
  let c1_i32_33 : BitVec 32 := 1#32
  let arg16 : BitVec 32 := Scf.iv c0_i32_31 c1_i32_33 k0_t2
  let v1371 : Index := Scalar.indexCast arg16
  let c48_465 : Index := 48#32
  ![23, v1371.toNat, 48]
def k0_off172 (k0_t2 : Fin k0_t2_loop.trips) : Fin 3 → Nat :=
  let c24_i32_467 : BitVec 32 := 24#32
  let v1379 : Index := Scalar.indexCast c24_i32_467
  let c0_i32_31 : BitVec 32 := 0#32
  let c1_i32_33 : BitVec 32 := 1#32
  let arg16 : BitVec 32 := Scf.iv c0_i32_31 c1_i32_33 k0_t2
  let v1380 : Index := Scalar.indexCast arg16
  let c48_468 : Index := 48#32
  ![24, v1380.toNat, 48]
def k0_off173 (k0_t2 : Fin k0_t2_loop.trips) : Fin 3 → Nat :=
  let c25_i32_470 : BitVec 32 := 25#32
  let v1387 : Index := Scalar.indexCast c25_i32_470
  let c0_i32_31 : BitVec 32 := 0#32
  let c1_i32_33 : BitVec 32 := 1#32
  let arg16 : BitVec 32 := Scf.iv c0_i32_31 c1_i32_33 k0_t2
  let v1388 : Index := Scalar.indexCast arg16
  let c48_471 : Index := 48#32
  ![25, v1388.toNat, 48]
def k0_off174 (k0_t2 : Fin k0_t2_loop.trips) : Fin 3 → Nat :=
  let c26_i32_473 : BitVec 32 := 26#32
  let v1396 : Index := Scalar.indexCast c26_i32_473
  let c0_i32_31 : BitVec 32 := 0#32
  let c1_i32_33 : BitVec 32 := 1#32
  let arg16 : BitVec 32 := Scf.iv c0_i32_31 c1_i32_33 k0_t2
  let v1397 : Index := Scalar.indexCast arg16
  let c48_474 : Index := 48#32
  ![26, v1397.toNat, 48]
def k0_off175 (k0_t2 : Fin k0_t2_loop.trips) : Fin 3 → Nat :=
  let c27_i32_476 : BitVec 32 := 27#32
  let v1405 : Index := Scalar.indexCast c27_i32_476
  let c0_i32_31 : BitVec 32 := 0#32
  let c1_i32_33 : BitVec 32 := 1#32
  let arg16 : BitVec 32 := Scf.iv c0_i32_31 c1_i32_33 k0_t2
  let v1406 : Index := Scalar.indexCast arg16
  let c48_477 : Index := 48#32
  ![27, v1406.toNat, 48]
def k0_off176 (k0_t2 : Fin k0_t2_loop.trips) : Fin 3 → Nat :=
  let c28_i32_479 : BitVec 32 := 28#32
  let v1414 : Index := Scalar.indexCast c28_i32_479
  let c0_i32_31 : BitVec 32 := 0#32
  let c1_i32_33 : BitVec 32 := 1#32
  let arg16 : BitVec 32 := Scf.iv c0_i32_31 c1_i32_33 k0_t2
  let v1415 : Index := Scalar.indexCast arg16
  let c48_480 : Index := 48#32
  ![28, v1415.toNat, 48]
def k0_off177 (k0_t2 : Fin k0_t2_loop.trips) : Fin 3 → Nat :=
  let c29_i32_482 : BitVec 32 := 29#32
  let v1423 : Index := Scalar.indexCast c29_i32_482
  let c0_i32_31 : BitVec 32 := 0#32
  let c1_i32_33 : BitVec 32 := 1#32
  let arg16 : BitVec 32 := Scf.iv c0_i32_31 c1_i32_33 k0_t2
  let v1424 : Index := Scalar.indexCast arg16
  let c48_483 : Index := 48#32
  ![29, v1424.toNat, 48]
def k0_off178 (k0_t2 : Fin k0_t2_loop.trips) : Fin 3 → Nat :=
  let c30_i32_485 : BitVec 32 := 30#32
  let v1432 : Index := Scalar.indexCast c30_i32_485
  let c0_i32_31 : BitVec 32 := 0#32
  let c1_i32_33 : BitVec 32 := 1#32
  let arg16 : BitVec 32 := Scf.iv c0_i32_31 c1_i32_33 k0_t2
  let v1433 : Index := Scalar.indexCast arg16
  let c48_486 : Index := 48#32
  ![30, v1433.toNat, 48]
def k0_off179 (k0_t2 : Fin k0_t2_loop.trips) : Fin 3 → Nat :=
  let c31_i32_488 : BitVec 32 := 31#32
  let v1440 : Index := Scalar.indexCast c31_i32_488
  let c0_i32_31 : BitVec 32 := 0#32
  let c1_i32_33 : BitVec 32 := 1#32
  let arg16 : BitVec 32 := Scf.iv c0_i32_31 c1_i32_33 k0_t2
  let v1441 : Index := Scalar.indexCast arg16
  let c48_489 : Index := 48#32
  ![31, v1441.toNat, 48]
def k0_off180 (k0_t2 : Fin k0_t2_loop.trips) : Fin 3 → Nat :=
  let c32_i32_491 : BitVec 32 := 32#32
  let v1449 : Index := Scalar.indexCast c32_i32_491
  let c0_i32_31 : BitVec 32 := 0#32
  let c1_i32_33 : BitVec 32 := 1#32
  let arg16 : BitVec 32 := Scf.iv c0_i32_31 c1_i32_33 k0_t2
  let v1450 : Index := Scalar.indexCast arg16
  let c48_492 : Index := 48#32
  ![32, v1450.toNat, 48]
def k0_off181 (k0_t2 : Fin k0_t2_loop.trips) : Fin 3 → Nat :=
  let c33_i32_494 : BitVec 32 := 33#32
  let v1458 : Index := Scalar.indexCast c33_i32_494
  let c0_i32_31 : BitVec 32 := 0#32
  let c1_i32_33 : BitVec 32 := 1#32
  let arg16 : BitVec 32 := Scf.iv c0_i32_31 c1_i32_33 k0_t2
  let v1459 : Index := Scalar.indexCast arg16
  let c48_495 : Index := 48#32
  ![33, v1459.toNat, 48]
def k0_off182 (k0_t2 : Fin k0_t2_loop.trips) : Fin 3 → Nat :=
  let c34_i32_497 : BitVec 32 := 34#32
  let v1467 : Index := Scalar.indexCast c34_i32_497
  let c0_i32_31 : BitVec 32 := 0#32
  let c1_i32_33 : BitVec 32 := 1#32
  let arg16 : BitVec 32 := Scf.iv c0_i32_31 c1_i32_33 k0_t2
  let v1468 : Index := Scalar.indexCast arg16
  let c48_498 : Index := 48#32
  ![34, v1468.toNat, 48]
def k0_off183 (k0_t2 : Fin k0_t2_loop.trips) : Fin 3 → Nat :=
  let c35_i32_500 : BitVec 32 := 35#32
  let v1476 : Index := Scalar.indexCast c35_i32_500
  let c0_i32_31 : BitVec 32 := 0#32
  let c1_i32_33 : BitVec 32 := 1#32
  let arg16 : BitVec 32 := Scf.iv c0_i32_31 c1_i32_33 k0_t2
  let v1477 : Index := Scalar.indexCast arg16
  let c48_501 : Index := 48#32
  ![35, v1477.toNat, 48]
def k0_off184 (k0_t2 : Fin k0_t2_loop.trips) : Fin 3 → Nat :=
  let c0_i32_503 : BitVec 32 := 0#32
  let v1485 : Index := Scalar.indexCast c0_i32_503
  let c0_i32_31 : BitVec 32 := 0#32
  let c1_i32_33 : BitVec 32 := 1#32
  let arg16 : BitVec 32 := Scf.iv c0_i32_31 c1_i32_33 k0_t2
  let v1486 : Index := Scalar.indexCast arg16
  let c48_504 : Index := 48#32
  ![0, v1486.toNat, 48]
def k0_off185 (k0_t2 : Fin k0_t2_loop.trips) : Fin 3 → Nat :=
  let c1_i32_505 : BitVec 32 := 1#32
  let v1490 : Index := Scalar.indexCast c1_i32_505
  let c0_i32_31 : BitVec 32 := 0#32
  let c1_i32_33 : BitVec 32 := 1#32
  let arg16 : BitVec 32 := Scf.iv c0_i32_31 c1_i32_33 k0_t2
  let v1491 : Index := Scalar.indexCast arg16
  let c48_506 : Index := 48#32
  ![1, v1491.toNat, 48]
def k0_off186 (k0_t2 : Fin k0_t2_loop.trips) : Fin 3 → Nat :=
  let c2_i32_507 : BitVec 32 := 2#32
  let v1495 : Index := Scalar.indexCast c2_i32_507
  let c0_i32_31 : BitVec 32 := 0#32
  let c1_i32_33 : BitVec 32 := 1#32
  let arg16 : BitVec 32 := Scf.iv c0_i32_31 c1_i32_33 k0_t2
  let v1496 : Index := Scalar.indexCast arg16
  let c48_508 : Index := 48#32
  ![2, v1496.toNat, 48]
def k0_off187 (k0_t2 : Fin k0_t2_loop.trips) : Fin 3 → Nat :=
  let c3_i32_509 : BitVec 32 := 3#32
  let v1500 : Index := Scalar.indexCast c3_i32_509
  let c0_i32_31 : BitVec 32 := 0#32
  let c1_i32_33 : BitVec 32 := 1#32
  let arg16 : BitVec 32 := Scf.iv c0_i32_31 c1_i32_33 k0_t2
  let v1501 : Index := Scalar.indexCast arg16
  let c48_510 : Index := 48#32
  ![3, v1501.toNat, 48]
def k0_off188 (k0_t2 : Fin k0_t2_loop.trips) : Fin 3 → Nat :=
  let c4_i32_511 : BitVec 32 := 4#32
  let v1505 : Index := Scalar.indexCast c4_i32_511
  let c0_i32_31 : BitVec 32 := 0#32
  let c1_i32_33 : BitVec 32 := 1#32
  let arg16 : BitVec 32 := Scf.iv c0_i32_31 c1_i32_33 k0_t2
  let v1506 : Index := Scalar.indexCast arg16
  let c48_512 : Index := 48#32
  ![4, v1506.toNat, 48]
def k0_off189 (k0_t2 : Fin k0_t2_loop.trips) : Fin 3 → Nat :=
  let c5_i32_513 : BitVec 32 := 5#32
  let v1510 : Index := Scalar.indexCast c5_i32_513
  let c0_i32_31 : BitVec 32 := 0#32
  let c1_i32_33 : BitVec 32 := 1#32
  let arg16 : BitVec 32 := Scf.iv c0_i32_31 c1_i32_33 k0_t2
  let v1511 : Index := Scalar.indexCast arg16
  let c48_514 : Index := 48#32
  ![5, v1511.toNat, 48]
def k0_off190 (k0_t2 : Fin k0_t2_loop.trips) : Fin 3 → Nat :=
  let c6_i32_515 : BitVec 32 := 6#32
  let v1515 : Index := Scalar.indexCast c6_i32_515
  let c0_i32_31 : BitVec 32 := 0#32
  let c1_i32_33 : BitVec 32 := 1#32
  let arg16 : BitVec 32 := Scf.iv c0_i32_31 c1_i32_33 k0_t2
  let v1516 : Index := Scalar.indexCast arg16
  let c48_516 : Index := 48#32
  ![6, v1516.toNat, 48]
def k0_off191 (k0_t2 : Fin k0_t2_loop.trips) : Fin 3 → Nat :=
  let c7_i32_517 : BitVec 32 := 7#32
  let v1520 : Index := Scalar.indexCast c7_i32_517
  let c0_i32_31 : BitVec 32 := 0#32
  let c1_i32_33 : BitVec 32 := 1#32
  let arg16 : BitVec 32 := Scf.iv c0_i32_31 c1_i32_33 k0_t2
  let v1521 : Index := Scalar.indexCast arg16
  let c48_518 : Index := 48#32
  ![7, v1521.toNat, 48]
def k0_off192 (k0_t2 : Fin k0_t2_loop.trips) : Fin 3 → Nat :=
  let c8_i32_519 : BitVec 32 := 8#32
  let v1525 : Index := Scalar.indexCast c8_i32_519
  let c0_i32_31 : BitVec 32 := 0#32
  let c1_i32_33 : BitVec 32 := 1#32
  let arg16 : BitVec 32 := Scf.iv c0_i32_31 c1_i32_33 k0_t2
  let v1526 : Index := Scalar.indexCast arg16
  let c48_520 : Index := 48#32
  ![8, v1526.toNat, 48]
def k0_off193 (k0_t2 : Fin k0_t2_loop.trips) : Fin 3 → Nat :=
  let c9_i32_521 : BitVec 32 := 9#32
  let v1530 : Index := Scalar.indexCast c9_i32_521
  let c0_i32_31 : BitVec 32 := 0#32
  let c1_i32_33 : BitVec 32 := 1#32
  let arg16 : BitVec 32 := Scf.iv c0_i32_31 c1_i32_33 k0_t2
  let v1531 : Index := Scalar.indexCast arg16
  let c48_522 : Index := 48#32
  ![9, v1531.toNat, 48]
def k0_off194 (k0_t2 : Fin k0_t2_loop.trips) : Fin 3 → Nat :=
  let c10_i32_523 : BitVec 32 := 10#32
  let v1535 : Index := Scalar.indexCast c10_i32_523
  let c0_i32_31 : BitVec 32 := 0#32
  let c1_i32_33 : BitVec 32 := 1#32
  let arg16 : BitVec 32 := Scf.iv c0_i32_31 c1_i32_33 k0_t2
  let v1536 : Index := Scalar.indexCast arg16
  let c48_524 : Index := 48#32
  ![10, v1536.toNat, 48]
def k0_off195 (k0_t2 : Fin k0_t2_loop.trips) : Fin 3 → Nat :=
  let c11_i32_525 : BitVec 32 := 11#32
  let v1540 : Index := Scalar.indexCast c11_i32_525
  let c0_i32_31 : BitVec 32 := 0#32
  let c1_i32_33 : BitVec 32 := 1#32
  let arg16 : BitVec 32 := Scf.iv c0_i32_31 c1_i32_33 k0_t2
  let v1541 : Index := Scalar.indexCast arg16
  let c48_526 : Index := 48#32
  ![11, v1541.toNat, 48]
def k0_off196 (k0_t2 : Fin k0_t2_loop.trips) : Fin 3 → Nat :=
  let c0_i32_527 : BitVec 32 := 0#32
  let v1545 : Index := Scalar.indexCast c0_i32_527
  let c0_i32_31 : BitVec 32 := 0#32
  let c1_i32_33 : BitVec 32 := 1#32
  let arg16 : BitVec 32 := Scf.iv c0_i32_31 c1_i32_33 k0_t2
  let v1546 : Index := Scalar.indexCast arg16
  let c64_528 : Index := 64#32
  ![0, v1546.toNat, 64]
def k0_off197 (k0_t2 : Fin k0_t2_loop.trips) : Fin 3 → Nat :=
  let c1_i32_530 : BitVec 32 := 1#32
  let v1552 : Index := Scalar.indexCast c1_i32_530
  let c0_i32_31 : BitVec 32 := 0#32
  let c1_i32_33 : BitVec 32 := 1#32
  let arg16 : BitVec 32 := Scf.iv c0_i32_31 c1_i32_33 k0_t2
  let v1553 : Index := Scalar.indexCast arg16
  let c64_531 : Index := 64#32
  ![1, v1553.toNat, 64]
def k0_off198 (k0_t2 : Fin k0_t2_loop.trips) : Fin 3 → Nat :=
  let c2_i32_533 : BitVec 32 := 2#32
  let v1560 : Index := Scalar.indexCast c2_i32_533
  let c0_i32_31 : BitVec 32 := 0#32
  let c1_i32_33 : BitVec 32 := 1#32
  let arg16 : BitVec 32 := Scf.iv c0_i32_31 c1_i32_33 k0_t2
  let v1561 : Index := Scalar.indexCast arg16
  let c64_534 : Index := 64#32
  ![2, v1561.toNat, 64]
def k0_off199 (k0_t2 : Fin k0_t2_loop.trips) : Fin 3 → Nat :=
  let c3_i32_536 : BitVec 32 := 3#32
  let v1568 : Index := Scalar.indexCast c3_i32_536
  let c0_i32_31 : BitVec 32 := 0#32
  let c1_i32_33 : BitVec 32 := 1#32
  let arg16 : BitVec 32 := Scf.iv c0_i32_31 c1_i32_33 k0_t2
  let v1569 : Index := Scalar.indexCast arg16
  let c64_537 : Index := 64#32
  ![3, v1569.toNat, 64]
def k0_off200 (k0_t2 : Fin k0_t2_loop.trips) : Fin 3 → Nat :=
  let c4_i32_539 : BitVec 32 := 4#32
  let v1576 : Index := Scalar.indexCast c4_i32_539
  let c0_i32_31 : BitVec 32 := 0#32
  let c1_i32_33 : BitVec 32 := 1#32
  let arg16 : BitVec 32 := Scf.iv c0_i32_31 c1_i32_33 k0_t2
  let v1577 : Index := Scalar.indexCast arg16
  let c64_540 : Index := 64#32
  ![4, v1577.toNat, 64]
def k0_off201 (k0_t2 : Fin k0_t2_loop.trips) : Fin 3 → Nat :=
  let c5_i32_542 : BitVec 32 := 5#32
  let v1584 : Index := Scalar.indexCast c5_i32_542
  let c0_i32_31 : BitVec 32 := 0#32
  let c1_i32_33 : BitVec 32 := 1#32
  let arg16 : BitVec 32 := Scf.iv c0_i32_31 c1_i32_33 k0_t2
  let v1585 : Index := Scalar.indexCast arg16
  let c64_543 : Index := 64#32
  ![5, v1585.toNat, 64]
def k0_off202 (k0_t2 : Fin k0_t2_loop.trips) : Fin 3 → Nat :=
  let c6_i32_545 : BitVec 32 := 6#32
  let v1592 : Index := Scalar.indexCast c6_i32_545
  let c0_i32_31 : BitVec 32 := 0#32
  let c1_i32_33 : BitVec 32 := 1#32
  let arg16 : BitVec 32 := Scf.iv c0_i32_31 c1_i32_33 k0_t2
  let v1593 : Index := Scalar.indexCast arg16
  let c64_546 : Index := 64#32
  ![6, v1593.toNat, 64]
def k0_off203 (k0_t2 : Fin k0_t2_loop.trips) : Fin 3 → Nat :=
  let c7_i32_548 : BitVec 32 := 7#32
  let v1600 : Index := Scalar.indexCast c7_i32_548
  let c0_i32_31 : BitVec 32 := 0#32
  let c1_i32_33 : BitVec 32 := 1#32
  let arg16 : BitVec 32 := Scf.iv c0_i32_31 c1_i32_33 k0_t2
  let v1601 : Index := Scalar.indexCast arg16
  let c64_549 : Index := 64#32
  ![7, v1601.toNat, 64]
def k0_off204 (k0_t2 : Fin k0_t2_loop.trips) : Fin 3 → Nat :=
  let c8_i32_551 : BitVec 32 := 8#32
  let v1609 : Index := Scalar.indexCast c8_i32_551
  let c0_i32_31 : BitVec 32 := 0#32
  let c1_i32_33 : BitVec 32 := 1#32
  let arg16 : BitVec 32 := Scf.iv c0_i32_31 c1_i32_33 k0_t2
  let v1610 : Index := Scalar.indexCast arg16
  let c64_552 : Index := 64#32
  ![8, v1610.toNat, 64]
def k0_off205 (k0_t2 : Fin k0_t2_loop.trips) : Fin 3 → Nat :=
  let c9_i32_554 : BitVec 32 := 9#32
  let v1618 : Index := Scalar.indexCast c9_i32_554
  let c0_i32_31 : BitVec 32 := 0#32
  let c1_i32_33 : BitVec 32 := 1#32
  let arg16 : BitVec 32 := Scf.iv c0_i32_31 c1_i32_33 k0_t2
  let v1619 : Index := Scalar.indexCast arg16
  let c64_555 : Index := 64#32
  ![9, v1619.toNat, 64]
def k0_off206 (k0_t2 : Fin k0_t2_loop.trips) : Fin 3 → Nat :=
  let c10_i32_557 : BitVec 32 := 10#32
  let v1627 : Index := Scalar.indexCast c10_i32_557
  let c0_i32_31 : BitVec 32 := 0#32
  let c1_i32_33 : BitVec 32 := 1#32
  let arg16 : BitVec 32 := Scf.iv c0_i32_31 c1_i32_33 k0_t2
  let v1628 : Index := Scalar.indexCast arg16
  let c64_558 : Index := 64#32
  ![10, v1628.toNat, 64]
def k0_off207 (k0_t2 : Fin k0_t2_loop.trips) : Fin 3 → Nat :=
  let c11_i32_560 : BitVec 32 := 11#32
  let v1636 : Index := Scalar.indexCast c11_i32_560
  let c0_i32_31 : BitVec 32 := 0#32
  let c1_i32_33 : BitVec 32 := 1#32
  let arg16 : BitVec 32 := Scf.iv c0_i32_31 c1_i32_33 k0_t2
  let v1637 : Index := Scalar.indexCast arg16
  let c64_561 : Index := 64#32
  ![11, v1637.toNat, 64]
def k0_off208 (k0_t2 : Fin k0_t2_loop.trips) : Fin 3 → Nat :=
  let c12_i32_563 : BitVec 32 := 12#32
  let v1645 : Index := Scalar.indexCast c12_i32_563
  let c0_i32_31 : BitVec 32 := 0#32
  let c1_i32_33 : BitVec 32 := 1#32
  let arg16 : BitVec 32 := Scf.iv c0_i32_31 c1_i32_33 k0_t2
  let v1646 : Index := Scalar.indexCast arg16
  let c64_564 : Index := 64#32
  ![12, v1646.toNat, 64]
def k0_off209 (k0_t2 : Fin k0_t2_loop.trips) : Fin 3 → Nat :=
  let c13_i32_566 : BitVec 32 := 13#32
  let v1653 : Index := Scalar.indexCast c13_i32_566
  let c0_i32_31 : BitVec 32 := 0#32
  let c1_i32_33 : BitVec 32 := 1#32
  let arg16 : BitVec 32 := Scf.iv c0_i32_31 c1_i32_33 k0_t2
  let v1654 : Index := Scalar.indexCast arg16
  let c64_567 : Index := 64#32
  ![13, v1654.toNat, 64]
def k0_off210 (k0_t2 : Fin k0_t2_loop.trips) : Fin 3 → Nat :=
  let c14_i32_569 : BitVec 32 := 14#32
  let v1662 : Index := Scalar.indexCast c14_i32_569
  let c0_i32_31 : BitVec 32 := 0#32
  let c1_i32_33 : BitVec 32 := 1#32
  let arg16 : BitVec 32 := Scf.iv c0_i32_31 c1_i32_33 k0_t2
  let v1663 : Index := Scalar.indexCast arg16
  let c64_570 : Index := 64#32
  ![14, v1663.toNat, 64]
def k0_off211 (k0_t2 : Fin k0_t2_loop.trips) : Fin 3 → Nat :=
  let c15_i32_572 : BitVec 32 := 15#32
  let v1671 : Index := Scalar.indexCast c15_i32_572
  let c0_i32_31 : BitVec 32 := 0#32
  let c1_i32_33 : BitVec 32 := 1#32
  let arg16 : BitVec 32 := Scf.iv c0_i32_31 c1_i32_33 k0_t2
  let v1672 : Index := Scalar.indexCast arg16
  let c64_573 : Index := 64#32
  ![15, v1672.toNat, 64]
def k0_off212 (k0_t2 : Fin k0_t2_loop.trips) : Fin 3 → Nat :=
  let c16_i32_575 : BitVec 32 := 16#32
  let v1680 : Index := Scalar.indexCast c16_i32_575
  let c0_i32_31 : BitVec 32 := 0#32
  let c1_i32_33 : BitVec 32 := 1#32
  let arg16 : BitVec 32 := Scf.iv c0_i32_31 c1_i32_33 k0_t2
  let v1681 : Index := Scalar.indexCast arg16
  let c64_576 : Index := 64#32
  ![16, v1681.toNat, 64]
def k0_off213 (k0_t2 : Fin k0_t2_loop.trips) : Fin 3 → Nat :=
  let c17_i32_578 : BitVec 32 := 17#32
  let v1689 : Index := Scalar.indexCast c17_i32_578
  let c0_i32_31 : BitVec 32 := 0#32
  let c1_i32_33 : BitVec 32 := 1#32
  let arg16 : BitVec 32 := Scf.iv c0_i32_31 c1_i32_33 k0_t2
  let v1690 : Index := Scalar.indexCast arg16
  let c64_579 : Index := 64#32
  ![17, v1690.toNat, 64]
def k0_off214 (k0_t2 : Fin k0_t2_loop.trips) : Fin 3 → Nat :=
  let c18_i32_581 : BitVec 32 := 18#32
  let v1698 : Index := Scalar.indexCast c18_i32_581
  let c0_i32_31 : BitVec 32 := 0#32
  let c1_i32_33 : BitVec 32 := 1#32
  let arg16 : BitVec 32 := Scf.iv c0_i32_31 c1_i32_33 k0_t2
  let v1699 : Index := Scalar.indexCast arg16
  let c64_582 : Index := 64#32
  ![18, v1699.toNat, 64]
def k0_off215 (k0_t2 : Fin k0_t2_loop.trips) : Fin 3 → Nat :=
  let c19_i32_584 : BitVec 32 := 19#32
  let v1706 : Index := Scalar.indexCast c19_i32_584
  let c0_i32_31 : BitVec 32 := 0#32
  let c1_i32_33 : BitVec 32 := 1#32
  let arg16 : BitVec 32 := Scf.iv c0_i32_31 c1_i32_33 k0_t2
  let v1707 : Index := Scalar.indexCast arg16
  let c64_585 : Index := 64#32
  ![19, v1707.toNat, 64]
def k0_off216 (k0_t2 : Fin k0_t2_loop.trips) : Fin 3 → Nat :=
  let c20_i32_587 : BitVec 32 := 20#32
  let v1715 : Index := Scalar.indexCast c20_i32_587
  let c0_i32_31 : BitVec 32 := 0#32
  let c1_i32_33 : BitVec 32 := 1#32
  let arg16 : BitVec 32 := Scf.iv c0_i32_31 c1_i32_33 k0_t2
  let v1716 : Index := Scalar.indexCast arg16
  let c64_588 : Index := 64#32
  ![20, v1716.toNat, 64]
def k0_off217 (k0_t2 : Fin k0_t2_loop.trips) : Fin 3 → Nat :=
  let c21_i32_590 : BitVec 32 := 21#32
  let v1724 : Index := Scalar.indexCast c21_i32_590
  let c0_i32_31 : BitVec 32 := 0#32
  let c1_i32_33 : BitVec 32 := 1#32
  let arg16 : BitVec 32 := Scf.iv c0_i32_31 c1_i32_33 k0_t2
  let v1725 : Index := Scalar.indexCast arg16
  let c64_591 : Index := 64#32
  ![21, v1725.toNat, 64]
def k0_off218 (k0_t2 : Fin k0_t2_loop.trips) : Fin 3 → Nat :=
  let c22_i32_593 : BitVec 32 := 22#32
  let v1733 : Index := Scalar.indexCast c22_i32_593
  let c0_i32_31 : BitVec 32 := 0#32
  let c1_i32_33 : BitVec 32 := 1#32
  let arg16 : BitVec 32 := Scf.iv c0_i32_31 c1_i32_33 k0_t2
  let v1734 : Index := Scalar.indexCast arg16
  let c64_594 : Index := 64#32
  ![22, v1734.toNat, 64]
def k0_off219 (k0_t2 : Fin k0_t2_loop.trips) : Fin 3 → Nat :=
  let c23_i32_596 : BitVec 32 := 23#32
  let v1742 : Index := Scalar.indexCast c23_i32_596
  let c0_i32_31 : BitVec 32 := 0#32
  let c1_i32_33 : BitVec 32 := 1#32
  let arg16 : BitVec 32 := Scf.iv c0_i32_31 c1_i32_33 k0_t2
  let v1743 : Index := Scalar.indexCast arg16
  let c64_597 : Index := 64#32
  ![23, v1743.toNat, 64]
def k0_off220 (k0_t2 : Fin k0_t2_loop.trips) : Fin 3 → Nat :=
  let c24_i32_599 : BitVec 32 := 24#32
  let v1751 : Index := Scalar.indexCast c24_i32_599
  let c0_i32_31 : BitVec 32 := 0#32
  let c1_i32_33 : BitVec 32 := 1#32
  let arg16 : BitVec 32 := Scf.iv c0_i32_31 c1_i32_33 k0_t2
  let v1752 : Index := Scalar.indexCast arg16
  let c64_600 : Index := 64#32
  ![24, v1752.toNat, 64]
def k0_off221 (k0_t2 : Fin k0_t2_loop.trips) : Fin 3 → Nat :=
  let c25_i32_602 : BitVec 32 := 25#32
  let v1759 : Index := Scalar.indexCast c25_i32_602
  let c0_i32_31 : BitVec 32 := 0#32
  let c1_i32_33 : BitVec 32 := 1#32
  let arg16 : BitVec 32 := Scf.iv c0_i32_31 c1_i32_33 k0_t2
  let v1760 : Index := Scalar.indexCast arg16
  let c64_603 : Index := 64#32
  ![25, v1760.toNat, 64]
def k0_off222 (k0_t2 : Fin k0_t2_loop.trips) : Fin 3 → Nat :=
  let c26_i32_605 : BitVec 32 := 26#32
  let v1768 : Index := Scalar.indexCast c26_i32_605
  let c0_i32_31 : BitVec 32 := 0#32
  let c1_i32_33 : BitVec 32 := 1#32
  let arg16 : BitVec 32 := Scf.iv c0_i32_31 c1_i32_33 k0_t2
  let v1769 : Index := Scalar.indexCast arg16
  let c64_606 : Index := 64#32
  ![26, v1769.toNat, 64]
def k0_off223 (k0_t2 : Fin k0_t2_loop.trips) : Fin 3 → Nat :=
  let c27_i32_608 : BitVec 32 := 27#32
  let v1777 : Index := Scalar.indexCast c27_i32_608
  let c0_i32_31 : BitVec 32 := 0#32
  let c1_i32_33 : BitVec 32 := 1#32
  let arg16 : BitVec 32 := Scf.iv c0_i32_31 c1_i32_33 k0_t2
  let v1778 : Index := Scalar.indexCast arg16
  let c64_609 : Index := 64#32
  ![27, v1778.toNat, 64]
def k0_off224 (k0_t2 : Fin k0_t2_loop.trips) : Fin 3 → Nat :=
  let c28_i32_611 : BitVec 32 := 28#32
  let v1786 : Index := Scalar.indexCast c28_i32_611
  let c0_i32_31 : BitVec 32 := 0#32
  let c1_i32_33 : BitVec 32 := 1#32
  let arg16 : BitVec 32 := Scf.iv c0_i32_31 c1_i32_33 k0_t2
  let v1787 : Index := Scalar.indexCast arg16
  let c64_612 : Index := 64#32
  ![28, v1787.toNat, 64]
def k0_off225 (k0_t2 : Fin k0_t2_loop.trips) : Fin 3 → Nat :=
  let c29_i32_614 : BitVec 32 := 29#32
  let v1795 : Index := Scalar.indexCast c29_i32_614
  let c0_i32_31 : BitVec 32 := 0#32
  let c1_i32_33 : BitVec 32 := 1#32
  let arg16 : BitVec 32 := Scf.iv c0_i32_31 c1_i32_33 k0_t2
  let v1796 : Index := Scalar.indexCast arg16
  let c64_615 : Index := 64#32
  ![29, v1796.toNat, 64]
def k0_off226 (k0_t2 : Fin k0_t2_loop.trips) : Fin 3 → Nat :=
  let c30_i32_617 : BitVec 32 := 30#32
  let v1804 : Index := Scalar.indexCast c30_i32_617
  let c0_i32_31 : BitVec 32 := 0#32
  let c1_i32_33 : BitVec 32 := 1#32
  let arg16 : BitVec 32 := Scf.iv c0_i32_31 c1_i32_33 k0_t2
  let v1805 : Index := Scalar.indexCast arg16
  let c64_618 : Index := 64#32
  ![30, v1805.toNat, 64]
def k0_off227 (k0_t2 : Fin k0_t2_loop.trips) : Fin 3 → Nat :=
  let c31_i32_620 : BitVec 32 := 31#32
  let v1812 : Index := Scalar.indexCast c31_i32_620
  let c0_i32_31 : BitVec 32 := 0#32
  let c1_i32_33 : BitVec 32 := 1#32
  let arg16 : BitVec 32 := Scf.iv c0_i32_31 c1_i32_33 k0_t2
  let v1813 : Index := Scalar.indexCast arg16
  let c64_621 : Index := 64#32
  ![31, v1813.toNat, 64]
def k0_off228 (k0_t2 : Fin k0_t2_loop.trips) : Fin 3 → Nat :=
  let c32_i32_623 : BitVec 32 := 32#32
  let v1821 : Index := Scalar.indexCast c32_i32_623
  let c0_i32_31 : BitVec 32 := 0#32
  let c1_i32_33 : BitVec 32 := 1#32
  let arg16 : BitVec 32 := Scf.iv c0_i32_31 c1_i32_33 k0_t2
  let v1822 : Index := Scalar.indexCast arg16
  let c64_624 : Index := 64#32
  ![32, v1822.toNat, 64]
def k0_off229 (k0_t2 : Fin k0_t2_loop.trips) : Fin 3 → Nat :=
  let c33_i32_626 : BitVec 32 := 33#32
  let v1830 : Index := Scalar.indexCast c33_i32_626
  let c0_i32_31 : BitVec 32 := 0#32
  let c1_i32_33 : BitVec 32 := 1#32
  let arg16 : BitVec 32 := Scf.iv c0_i32_31 c1_i32_33 k0_t2
  let v1831 : Index := Scalar.indexCast arg16
  let c64_627 : Index := 64#32
  ![33, v1831.toNat, 64]
def k0_off230 (k0_t2 : Fin k0_t2_loop.trips) : Fin 3 → Nat :=
  let c34_i32_629 : BitVec 32 := 34#32
  let v1839 : Index := Scalar.indexCast c34_i32_629
  let c0_i32_31 : BitVec 32 := 0#32
  let c1_i32_33 : BitVec 32 := 1#32
  let arg16 : BitVec 32 := Scf.iv c0_i32_31 c1_i32_33 k0_t2
  let v1840 : Index := Scalar.indexCast arg16
  let c64_630 : Index := 64#32
  ![34, v1840.toNat, 64]
def k0_off231 (k0_t2 : Fin k0_t2_loop.trips) : Fin 3 → Nat :=
  let c35_i32_632 : BitVec 32 := 35#32
  let v1848 : Index := Scalar.indexCast c35_i32_632
  let c0_i32_31 : BitVec 32 := 0#32
  let c1_i32_33 : BitVec 32 := 1#32
  let arg16 : BitVec 32 := Scf.iv c0_i32_31 c1_i32_33 k0_t2
  let v1849 : Index := Scalar.indexCast arg16
  let c64_633 : Index := 64#32
  ![35, v1849.toNat, 64]
def k0_off232 (k0_t2 : Fin k0_t2_loop.trips) : Fin 3 → Nat :=
  let c0_i32_635 : BitVec 32 := 0#32
  let v1857 : Index := Scalar.indexCast c0_i32_635
  let c0_i32_31 : BitVec 32 := 0#32
  let c1_i32_33 : BitVec 32 := 1#32
  let arg16 : BitVec 32 := Scf.iv c0_i32_31 c1_i32_33 k0_t2
  let v1858 : Index := Scalar.indexCast arg16
  let c64_636 : Index := 64#32
  ![0, v1858.toNat, 64]
def k0_off233 (k0_t2 : Fin k0_t2_loop.trips) : Fin 3 → Nat :=
  let c1_i32_637 : BitVec 32 := 1#32
  let v1862 : Index := Scalar.indexCast c1_i32_637
  let c0_i32_31 : BitVec 32 := 0#32
  let c1_i32_33 : BitVec 32 := 1#32
  let arg16 : BitVec 32 := Scf.iv c0_i32_31 c1_i32_33 k0_t2
  let v1863 : Index := Scalar.indexCast arg16
  let c64_638 : Index := 64#32
  ![1, v1863.toNat, 64]
def k0_off234 (k0_t2 : Fin k0_t2_loop.trips) : Fin 3 → Nat :=
  let c2_i32_639 : BitVec 32 := 2#32
  let v1867 : Index := Scalar.indexCast c2_i32_639
  let c0_i32_31 : BitVec 32 := 0#32
  let c1_i32_33 : BitVec 32 := 1#32
  let arg16 : BitVec 32 := Scf.iv c0_i32_31 c1_i32_33 k0_t2
  let v1868 : Index := Scalar.indexCast arg16
  let c64_640 : Index := 64#32
  ![2, v1868.toNat, 64]
def k0_off235 (k0_t2 : Fin k0_t2_loop.trips) : Fin 3 → Nat :=
  let c3_i32_641 : BitVec 32 := 3#32
  let v1872 : Index := Scalar.indexCast c3_i32_641
  let c0_i32_31 : BitVec 32 := 0#32
  let c1_i32_33 : BitVec 32 := 1#32
  let arg16 : BitVec 32 := Scf.iv c0_i32_31 c1_i32_33 k0_t2
  let v1873 : Index := Scalar.indexCast arg16
  let c64_642 : Index := 64#32
  ![3, v1873.toNat, 64]
def k0_off236 (k0_t2 : Fin k0_t2_loop.trips) : Fin 3 → Nat :=
  let c4_i32_643 : BitVec 32 := 4#32
  let v1877 : Index := Scalar.indexCast c4_i32_643
  let c0_i32_31 : BitVec 32 := 0#32
  let c1_i32_33 : BitVec 32 := 1#32
  let arg16 : BitVec 32 := Scf.iv c0_i32_31 c1_i32_33 k0_t2
  let v1878 : Index := Scalar.indexCast arg16
  let c64_644 : Index := 64#32
  ![4, v1878.toNat, 64]
def k0_off237 (k0_t2 : Fin k0_t2_loop.trips) : Fin 3 → Nat :=
  let c5_i32_645 : BitVec 32 := 5#32
  let v1882 : Index := Scalar.indexCast c5_i32_645
  let c0_i32_31 : BitVec 32 := 0#32
  let c1_i32_33 : BitVec 32 := 1#32
  let arg16 : BitVec 32 := Scf.iv c0_i32_31 c1_i32_33 k0_t2
  let v1883 : Index := Scalar.indexCast arg16
  let c64_646 : Index := 64#32
  ![5, v1883.toNat, 64]
def k0_off238 (k0_t2 : Fin k0_t2_loop.trips) : Fin 3 → Nat :=
  let c6_i32_647 : BitVec 32 := 6#32
  let v1887 : Index := Scalar.indexCast c6_i32_647
  let c0_i32_31 : BitVec 32 := 0#32
  let c1_i32_33 : BitVec 32 := 1#32
  let arg16 : BitVec 32 := Scf.iv c0_i32_31 c1_i32_33 k0_t2
  let v1888 : Index := Scalar.indexCast arg16
  let c64_648 : Index := 64#32
  ![6, v1888.toNat, 64]
def k0_off239 (k0_t2 : Fin k0_t2_loop.trips) : Fin 3 → Nat :=
  let c7_i32_649 : BitVec 32 := 7#32
  let v1892 : Index := Scalar.indexCast c7_i32_649
  let c0_i32_31 : BitVec 32 := 0#32
  let c1_i32_33 : BitVec 32 := 1#32
  let arg16 : BitVec 32 := Scf.iv c0_i32_31 c1_i32_33 k0_t2
  let v1893 : Index := Scalar.indexCast arg16
  let c64_650 : Index := 64#32
  ![7, v1893.toNat, 64]
def k0_off240 (k0_t2 : Fin k0_t2_loop.trips) : Fin 3 → Nat :=
  let c8_i32_651 : BitVec 32 := 8#32
  let v1897 : Index := Scalar.indexCast c8_i32_651
  let c0_i32_31 : BitVec 32 := 0#32
  let c1_i32_33 : BitVec 32 := 1#32
  let arg16 : BitVec 32 := Scf.iv c0_i32_31 c1_i32_33 k0_t2
  let v1898 : Index := Scalar.indexCast arg16
  let c64_652 : Index := 64#32
  ![8, v1898.toNat, 64]
def k0_off241 (k0_t2 : Fin k0_t2_loop.trips) : Fin 3 → Nat :=
  let c9_i32_653 : BitVec 32 := 9#32
  let v1902 : Index := Scalar.indexCast c9_i32_653
  let c0_i32_31 : BitVec 32 := 0#32
  let c1_i32_33 : BitVec 32 := 1#32
  let arg16 : BitVec 32 := Scf.iv c0_i32_31 c1_i32_33 k0_t2
  let v1903 : Index := Scalar.indexCast arg16
  let c64_654 : Index := 64#32
  ![9, v1903.toNat, 64]
def k0_off242 (k0_t2 : Fin k0_t2_loop.trips) : Fin 3 → Nat :=
  let c10_i32_655 : BitVec 32 := 10#32
  let v1907 : Index := Scalar.indexCast c10_i32_655
  let c0_i32_31 : BitVec 32 := 0#32
  let c1_i32_33 : BitVec 32 := 1#32
  let arg16 : BitVec 32 := Scf.iv c0_i32_31 c1_i32_33 k0_t2
  let v1908 : Index := Scalar.indexCast arg16
  let c64_656 : Index := 64#32
  ![10, v1908.toNat, 64]
def k0_off243 (k0_t2 : Fin k0_t2_loop.trips) : Fin 3 → Nat :=
  let c11_i32_657 : BitVec 32 := 11#32
  let v1912 : Index := Scalar.indexCast c11_i32_657
  let c0_i32_31 : BitVec 32 := 0#32
  let c1_i32_33 : BitVec 32 := 1#32
  let arg16 : BitVec 32 := Scf.iv c0_i32_31 c1_i32_33 k0_t2
  let v1913 : Index := Scalar.indexCast arg16
  let c64_658 : Index := 64#32
  ![11, v1913.toNat, 64]
def k0_off244 (k0_t2 : Fin k0_t2_loop.trips) : Fin 3 → Nat :=
  let c0_i32_659 : BitVec 32 := 0#32
  let v1917 : Index := Scalar.indexCast c0_i32_659
  let c0_i32_31 : BitVec 32 := 0#32
  let c1_i32_33 : BitVec 32 := 1#32
  let arg16 : BitVec 32 := Scf.iv c0_i32_31 c1_i32_33 k0_t2
  let v1918 : Index := Scalar.indexCast arg16
  let c80_660 : Index := 80#32
  ![0, v1918.toNat, 80]
def k0_off245 (k0_t2 : Fin k0_t2_loop.trips) : Fin 3 → Nat :=
  let c1_i32_662 : BitVec 32 := 1#32
  let v1924 : Index := Scalar.indexCast c1_i32_662
  let c0_i32_31 : BitVec 32 := 0#32
  let c1_i32_33 : BitVec 32 := 1#32
  let arg16 : BitVec 32 := Scf.iv c0_i32_31 c1_i32_33 k0_t2
  let v1925 : Index := Scalar.indexCast arg16
  let c80_663 : Index := 80#32
  ![1, v1925.toNat, 80]
def k0_off246 (k0_t2 : Fin k0_t2_loop.trips) : Fin 3 → Nat :=
  let c2_i32_665 : BitVec 32 := 2#32
  let v1932 : Index := Scalar.indexCast c2_i32_665
  let c0_i32_31 : BitVec 32 := 0#32
  let c1_i32_33 : BitVec 32 := 1#32
  let arg16 : BitVec 32 := Scf.iv c0_i32_31 c1_i32_33 k0_t2
  let v1933 : Index := Scalar.indexCast arg16
  let c80_666 : Index := 80#32
  ![2, v1933.toNat, 80]
def k0_off247 (k0_t2 : Fin k0_t2_loop.trips) : Fin 3 → Nat :=
  let c3_i32_668 : BitVec 32 := 3#32
  let v1940 : Index := Scalar.indexCast c3_i32_668
  let c0_i32_31 : BitVec 32 := 0#32
  let c1_i32_33 : BitVec 32 := 1#32
  let arg16 : BitVec 32 := Scf.iv c0_i32_31 c1_i32_33 k0_t2
  let v1941 : Index := Scalar.indexCast arg16
  let c80_669 : Index := 80#32
  ![3, v1941.toNat, 80]
def k0_off248 (k0_t2 : Fin k0_t2_loop.trips) : Fin 3 → Nat :=
  let c4_i32_671 : BitVec 32 := 4#32
  let v1948 : Index := Scalar.indexCast c4_i32_671
  let c0_i32_31 : BitVec 32 := 0#32
  let c1_i32_33 : BitVec 32 := 1#32
  let arg16 : BitVec 32 := Scf.iv c0_i32_31 c1_i32_33 k0_t2
  let v1949 : Index := Scalar.indexCast arg16
  let c80_672 : Index := 80#32
  ![4, v1949.toNat, 80]
def k0_off249 (k0_t2 : Fin k0_t2_loop.trips) : Fin 3 → Nat :=
  let c5_i32_674 : BitVec 32 := 5#32
  let v1956 : Index := Scalar.indexCast c5_i32_674
  let c0_i32_31 : BitVec 32 := 0#32
  let c1_i32_33 : BitVec 32 := 1#32
  let arg16 : BitVec 32 := Scf.iv c0_i32_31 c1_i32_33 k0_t2
  let v1957 : Index := Scalar.indexCast arg16
  let c80_675 : Index := 80#32
  ![5, v1957.toNat, 80]
def k0_off250 (k0_t2 : Fin k0_t2_loop.trips) : Fin 3 → Nat :=
  let c6_i32_677 : BitVec 32 := 6#32
  let v1964 : Index := Scalar.indexCast c6_i32_677
  let c0_i32_31 : BitVec 32 := 0#32
  let c1_i32_33 : BitVec 32 := 1#32
  let arg16 : BitVec 32 := Scf.iv c0_i32_31 c1_i32_33 k0_t2
  let v1965 : Index := Scalar.indexCast arg16
  let c80_678 : Index := 80#32
  ![6, v1965.toNat, 80]
def k0_off251 (k0_t2 : Fin k0_t2_loop.trips) : Fin 3 → Nat :=
  let c7_i32_680 : BitVec 32 := 7#32
  let v1972 : Index := Scalar.indexCast c7_i32_680
  let c0_i32_31 : BitVec 32 := 0#32
  let c1_i32_33 : BitVec 32 := 1#32
  let arg16 : BitVec 32 := Scf.iv c0_i32_31 c1_i32_33 k0_t2
  let v1973 : Index := Scalar.indexCast arg16
  let c80_681 : Index := 80#32
  ![7, v1973.toNat, 80]
def k0_off252 (k0_t2 : Fin k0_t2_loop.trips) : Fin 3 → Nat :=
  let c8_i32_683 : BitVec 32 := 8#32
  let v1981 : Index := Scalar.indexCast c8_i32_683
  let c0_i32_31 : BitVec 32 := 0#32
  let c1_i32_33 : BitVec 32 := 1#32
  let arg16 : BitVec 32 := Scf.iv c0_i32_31 c1_i32_33 k0_t2
  let v1982 : Index := Scalar.indexCast arg16
  let c80_684 : Index := 80#32
  ![8, v1982.toNat, 80]
def k0_off253 (k0_t2 : Fin k0_t2_loop.trips) : Fin 3 → Nat :=
  let c9_i32_686 : BitVec 32 := 9#32
  let v1990 : Index := Scalar.indexCast c9_i32_686
  let c0_i32_31 : BitVec 32 := 0#32
  let c1_i32_33 : BitVec 32 := 1#32
  let arg16 : BitVec 32 := Scf.iv c0_i32_31 c1_i32_33 k0_t2
  let v1991 : Index := Scalar.indexCast arg16
  let c80_687 : Index := 80#32
  ![9, v1991.toNat, 80]
def k0_off254 (k0_t2 : Fin k0_t2_loop.trips) : Fin 3 → Nat :=
  let c10_i32_689 : BitVec 32 := 10#32
  let v1999 : Index := Scalar.indexCast c10_i32_689
  let c0_i32_31 : BitVec 32 := 0#32
  let c1_i32_33 : BitVec 32 := 1#32
  let arg16 : BitVec 32 := Scf.iv c0_i32_31 c1_i32_33 k0_t2
  let v2000 : Index := Scalar.indexCast arg16
  let c80_690 : Index := 80#32
  ![10, v2000.toNat, 80]
def k0_off255 (k0_t2 : Fin k0_t2_loop.trips) : Fin 3 → Nat :=
  let c11_i32_692 : BitVec 32 := 11#32
  let v2008 : Index := Scalar.indexCast c11_i32_692
  let c0_i32_31 : BitVec 32 := 0#32
  let c1_i32_33 : BitVec 32 := 1#32
  let arg16 : BitVec 32 := Scf.iv c0_i32_31 c1_i32_33 k0_t2
  let v2009 : Index := Scalar.indexCast arg16
  let c80_693 : Index := 80#32
  ![11, v2009.toNat, 80]
def k0_off256 (k0_t2 : Fin k0_t2_loop.trips) : Fin 3 → Nat :=
  let c12_i32_695 : BitVec 32 := 12#32
  let v2017 : Index := Scalar.indexCast c12_i32_695
  let c0_i32_31 : BitVec 32 := 0#32
  let c1_i32_33 : BitVec 32 := 1#32
  let arg16 : BitVec 32 := Scf.iv c0_i32_31 c1_i32_33 k0_t2
  let v2018 : Index := Scalar.indexCast arg16
  let c80_696 : Index := 80#32
  ![12, v2018.toNat, 80]
def k0_off257 (k0_t2 : Fin k0_t2_loop.trips) : Fin 3 → Nat :=
  let c13_i32_698 : BitVec 32 := 13#32
  let v2025 : Index := Scalar.indexCast c13_i32_698
  let c0_i32_31 : BitVec 32 := 0#32
  let c1_i32_33 : BitVec 32 := 1#32
  let arg16 : BitVec 32 := Scf.iv c0_i32_31 c1_i32_33 k0_t2
  let v2026 : Index := Scalar.indexCast arg16
  let c80_699 : Index := 80#32
  ![13, v2026.toNat, 80]
def k0_off258 (k0_t2 : Fin k0_t2_loop.trips) : Fin 3 → Nat :=
  let c14_i32_701 : BitVec 32 := 14#32
  let v2034 : Index := Scalar.indexCast c14_i32_701
  let c0_i32_31 : BitVec 32 := 0#32
  let c1_i32_33 : BitVec 32 := 1#32
  let arg16 : BitVec 32 := Scf.iv c0_i32_31 c1_i32_33 k0_t2
  let v2035 : Index := Scalar.indexCast arg16
  let c80_702 : Index := 80#32
  ![14, v2035.toNat, 80]
def k0_off259 (k0_t2 : Fin k0_t2_loop.trips) : Fin 3 → Nat :=
  let c15_i32_704 : BitVec 32 := 15#32
  let v2043 : Index := Scalar.indexCast c15_i32_704
  let c0_i32_31 : BitVec 32 := 0#32
  let c1_i32_33 : BitVec 32 := 1#32
  let arg16 : BitVec 32 := Scf.iv c0_i32_31 c1_i32_33 k0_t2
  let v2044 : Index := Scalar.indexCast arg16
  let c80_705 : Index := 80#32
  ![15, v2044.toNat, 80]
def k0_off260 (k0_t2 : Fin k0_t2_loop.trips) : Fin 3 → Nat :=
  let c16_i32_707 : BitVec 32 := 16#32
  let v2052 : Index := Scalar.indexCast c16_i32_707
  let c0_i32_31 : BitVec 32 := 0#32
  let c1_i32_33 : BitVec 32 := 1#32
  let arg16 : BitVec 32 := Scf.iv c0_i32_31 c1_i32_33 k0_t2
  let v2053 : Index := Scalar.indexCast arg16
  let c80_708 : Index := 80#32
  ![16, v2053.toNat, 80]
def k0_off261 (k0_t2 : Fin k0_t2_loop.trips) : Fin 3 → Nat :=
  let c17_i32_710 : BitVec 32 := 17#32
  let v2061 : Index := Scalar.indexCast c17_i32_710
  let c0_i32_31 : BitVec 32 := 0#32
  let c1_i32_33 : BitVec 32 := 1#32
  let arg16 : BitVec 32 := Scf.iv c0_i32_31 c1_i32_33 k0_t2
  let v2062 : Index := Scalar.indexCast arg16
  let c80_711 : Index := 80#32
  ![17, v2062.toNat, 80]
def k0_off262 (k0_t2 : Fin k0_t2_loop.trips) : Fin 3 → Nat :=
  let c18_i32_713 : BitVec 32 := 18#32
  let v2070 : Index := Scalar.indexCast c18_i32_713
  let c0_i32_31 : BitVec 32 := 0#32
  let c1_i32_33 : BitVec 32 := 1#32
  let arg16 : BitVec 32 := Scf.iv c0_i32_31 c1_i32_33 k0_t2
  let v2071 : Index := Scalar.indexCast arg16
  let c80_714 : Index := 80#32
  ![18, v2071.toNat, 80]
def k0_off263 (k0_t2 : Fin k0_t2_loop.trips) : Fin 3 → Nat :=
  let c19_i32_716 : BitVec 32 := 19#32
  let v2078 : Index := Scalar.indexCast c19_i32_716
  let c0_i32_31 : BitVec 32 := 0#32
  let c1_i32_33 : BitVec 32 := 1#32
  let arg16 : BitVec 32 := Scf.iv c0_i32_31 c1_i32_33 k0_t2
  let v2079 : Index := Scalar.indexCast arg16
  let c80_717 : Index := 80#32
  ![19, v2079.toNat, 80]
def k0_off264 (k0_t2 : Fin k0_t2_loop.trips) : Fin 3 → Nat :=
  let c20_i32_719 : BitVec 32 := 20#32
  let v2087 : Index := Scalar.indexCast c20_i32_719
  let c0_i32_31 : BitVec 32 := 0#32
  let c1_i32_33 : BitVec 32 := 1#32
  let arg16 : BitVec 32 := Scf.iv c0_i32_31 c1_i32_33 k0_t2
  let v2088 : Index := Scalar.indexCast arg16
  let c80_720 : Index := 80#32
  ![20, v2088.toNat, 80]
def k0_off265 (k0_t2 : Fin k0_t2_loop.trips) : Fin 3 → Nat :=
  let c21_i32_722 : BitVec 32 := 21#32
  let v2096 : Index := Scalar.indexCast c21_i32_722
  let c0_i32_31 : BitVec 32 := 0#32
  let c1_i32_33 : BitVec 32 := 1#32
  let arg16 : BitVec 32 := Scf.iv c0_i32_31 c1_i32_33 k0_t2
  let v2097 : Index := Scalar.indexCast arg16
  let c80_723 : Index := 80#32
  ![21, v2097.toNat, 80]
def k0_off266 (k0_t2 : Fin k0_t2_loop.trips) : Fin 3 → Nat :=
  let c22_i32_725 : BitVec 32 := 22#32
  let v2105 : Index := Scalar.indexCast c22_i32_725
  let c0_i32_31 : BitVec 32 := 0#32
  let c1_i32_33 : BitVec 32 := 1#32
  let arg16 : BitVec 32 := Scf.iv c0_i32_31 c1_i32_33 k0_t2
  let v2106 : Index := Scalar.indexCast arg16
  let c80_726 : Index := 80#32
  ![22, v2106.toNat, 80]
def k0_off267 (k0_t2 : Fin k0_t2_loop.trips) : Fin 3 → Nat :=
  let c23_i32_728 : BitVec 32 := 23#32
  let v2114 : Index := Scalar.indexCast c23_i32_728
  let c0_i32_31 : BitVec 32 := 0#32
  let c1_i32_33 : BitVec 32 := 1#32
  let arg16 : BitVec 32 := Scf.iv c0_i32_31 c1_i32_33 k0_t2
  let v2115 : Index := Scalar.indexCast arg16
  let c80_729 : Index := 80#32
  ![23, v2115.toNat, 80]
def k0_off268 (k0_t2 : Fin k0_t2_loop.trips) : Fin 3 → Nat :=
  let c24_i32_731 : BitVec 32 := 24#32
  let v2123 : Index := Scalar.indexCast c24_i32_731
  let c0_i32_31 : BitVec 32 := 0#32
  let c1_i32_33 : BitVec 32 := 1#32
  let arg16 : BitVec 32 := Scf.iv c0_i32_31 c1_i32_33 k0_t2
  let v2124 : Index := Scalar.indexCast arg16
  let c80_732 : Index := 80#32
  ![24, v2124.toNat, 80]
def k0_off269 (k0_t2 : Fin k0_t2_loop.trips) : Fin 3 → Nat :=
  let c25_i32_734 : BitVec 32 := 25#32
  let v2131 : Index := Scalar.indexCast c25_i32_734
  let c0_i32_31 : BitVec 32 := 0#32
  let c1_i32_33 : BitVec 32 := 1#32
  let arg16 : BitVec 32 := Scf.iv c0_i32_31 c1_i32_33 k0_t2
  let v2132 : Index := Scalar.indexCast arg16
  let c80_735 : Index := 80#32
  ![25, v2132.toNat, 80]
def k0_off270 (k0_t2 : Fin k0_t2_loop.trips) : Fin 3 → Nat :=
  let c26_i32_737 : BitVec 32 := 26#32
  let v2140 : Index := Scalar.indexCast c26_i32_737
  let c0_i32_31 : BitVec 32 := 0#32
  let c1_i32_33 : BitVec 32 := 1#32
  let arg16 : BitVec 32 := Scf.iv c0_i32_31 c1_i32_33 k0_t2
  let v2141 : Index := Scalar.indexCast arg16
  let c80_738 : Index := 80#32
  ![26, v2141.toNat, 80]
def k0_off271 (k0_t2 : Fin k0_t2_loop.trips) : Fin 3 → Nat :=
  let c27_i32_740 : BitVec 32 := 27#32
  let v2149 : Index := Scalar.indexCast c27_i32_740
  let c0_i32_31 : BitVec 32 := 0#32
  let c1_i32_33 : BitVec 32 := 1#32
  let arg16 : BitVec 32 := Scf.iv c0_i32_31 c1_i32_33 k0_t2
  let v2150 : Index := Scalar.indexCast arg16
  let c80_741 : Index := 80#32
  ![27, v2150.toNat, 80]
def k0_off272 (k0_t2 : Fin k0_t2_loop.trips) : Fin 3 → Nat :=
  let c28_i32_743 : BitVec 32 := 28#32
  let v2158 : Index := Scalar.indexCast c28_i32_743
  let c0_i32_31 : BitVec 32 := 0#32
  let c1_i32_33 : BitVec 32 := 1#32
  let arg16 : BitVec 32 := Scf.iv c0_i32_31 c1_i32_33 k0_t2
  let v2159 : Index := Scalar.indexCast arg16
  let c80_744 : Index := 80#32
  ![28, v2159.toNat, 80]
def k0_off273 (k0_t2 : Fin k0_t2_loop.trips) : Fin 3 → Nat :=
  let c29_i32_746 : BitVec 32 := 29#32
  let v2167 : Index := Scalar.indexCast c29_i32_746
  let c0_i32_31 : BitVec 32 := 0#32
  let c1_i32_33 : BitVec 32 := 1#32
  let arg16 : BitVec 32 := Scf.iv c0_i32_31 c1_i32_33 k0_t2
  let v2168 : Index := Scalar.indexCast arg16
  let c80_747 : Index := 80#32
  ![29, v2168.toNat, 80]
def k0_off274 (k0_t2 : Fin k0_t2_loop.trips) : Fin 3 → Nat :=
  let c30_i32_749 : BitVec 32 := 30#32
  let v2176 : Index := Scalar.indexCast c30_i32_749
  let c0_i32_31 : BitVec 32 := 0#32
  let c1_i32_33 : BitVec 32 := 1#32
  let arg16 : BitVec 32 := Scf.iv c0_i32_31 c1_i32_33 k0_t2
  let v2177 : Index := Scalar.indexCast arg16
  let c80_750 : Index := 80#32
  ![30, v2177.toNat, 80]
def k0_off275 (k0_t2 : Fin k0_t2_loop.trips) : Fin 3 → Nat :=
  let c31_i32_752 : BitVec 32 := 31#32
  let v2184 : Index := Scalar.indexCast c31_i32_752
  let c0_i32_31 : BitVec 32 := 0#32
  let c1_i32_33 : BitVec 32 := 1#32
  let arg16 : BitVec 32 := Scf.iv c0_i32_31 c1_i32_33 k0_t2
  let v2185 : Index := Scalar.indexCast arg16
  let c80_753 : Index := 80#32
  ![31, v2185.toNat, 80]
def k0_off276 (k0_t2 : Fin k0_t2_loop.trips) : Fin 3 → Nat :=
  let c32_i32_755 : BitVec 32 := 32#32
  let v2193 : Index := Scalar.indexCast c32_i32_755
  let c0_i32_31 : BitVec 32 := 0#32
  let c1_i32_33 : BitVec 32 := 1#32
  let arg16 : BitVec 32 := Scf.iv c0_i32_31 c1_i32_33 k0_t2
  let v2194 : Index := Scalar.indexCast arg16
  let c80_756 : Index := 80#32
  ![32, v2194.toNat, 80]
def k0_off277 (k0_t2 : Fin k0_t2_loop.trips) : Fin 3 → Nat :=
  let c33_i32_758 : BitVec 32 := 33#32
  let v2202 : Index := Scalar.indexCast c33_i32_758
  let c0_i32_31 : BitVec 32 := 0#32
  let c1_i32_33 : BitVec 32 := 1#32
  let arg16 : BitVec 32 := Scf.iv c0_i32_31 c1_i32_33 k0_t2
  let v2203 : Index := Scalar.indexCast arg16
  let c80_759 : Index := 80#32
  ![33, v2203.toNat, 80]
def k0_off278 (k0_t2 : Fin k0_t2_loop.trips) : Fin 3 → Nat :=
  let c34_i32_761 : BitVec 32 := 34#32
  let v2211 : Index := Scalar.indexCast c34_i32_761
  let c0_i32_31 : BitVec 32 := 0#32
  let c1_i32_33 : BitVec 32 := 1#32
  let arg16 : BitVec 32 := Scf.iv c0_i32_31 c1_i32_33 k0_t2
  let v2212 : Index := Scalar.indexCast arg16
  let c80_762 : Index := 80#32
  ![34, v2212.toNat, 80]
def k0_off279 (k0_t2 : Fin k0_t2_loop.trips) : Fin 3 → Nat :=
  let c35_i32_764 : BitVec 32 := 35#32
  let v2220 : Index := Scalar.indexCast c35_i32_764
  let c0_i32_31 : BitVec 32 := 0#32
  let c1_i32_33 : BitVec 32 := 1#32
  let arg16 : BitVec 32 := Scf.iv c0_i32_31 c1_i32_33 k0_t2
  let v2221 : Index := Scalar.indexCast arg16
  let c80_765 : Index := 80#32
  ![35, v2221.toNat, 80]
def k0_off280 (k0_t2 : Fin k0_t2_loop.trips) : Fin 3 → Nat :=
  let c0_i32_767 : BitVec 32 := 0#32
  let v2229 : Index := Scalar.indexCast c0_i32_767
  let c0_i32_31 : BitVec 32 := 0#32
  let c1_i32_33 : BitVec 32 := 1#32
  let arg16 : BitVec 32 := Scf.iv c0_i32_31 c1_i32_33 k0_t2
  let v2230 : Index := Scalar.indexCast arg16
  let c80_768 : Index := 80#32
  ![0, v2230.toNat, 80]
def k0_off281 (k0_t2 : Fin k0_t2_loop.trips) : Fin 3 → Nat :=
  let c1_i32_769 : BitVec 32 := 1#32
  let v2234 : Index := Scalar.indexCast c1_i32_769
  let c0_i32_31 : BitVec 32 := 0#32
  let c1_i32_33 : BitVec 32 := 1#32
  let arg16 : BitVec 32 := Scf.iv c0_i32_31 c1_i32_33 k0_t2
  let v2235 : Index := Scalar.indexCast arg16
  let c80_770 : Index := 80#32
  ![1, v2235.toNat, 80]
def k0_off282 (k0_t2 : Fin k0_t2_loop.trips) : Fin 3 → Nat :=
  let c2_i32_771 : BitVec 32 := 2#32
  let v2239 : Index := Scalar.indexCast c2_i32_771
  let c0_i32_31 : BitVec 32 := 0#32
  let c1_i32_33 : BitVec 32 := 1#32
  let arg16 : BitVec 32 := Scf.iv c0_i32_31 c1_i32_33 k0_t2
  let v2240 : Index := Scalar.indexCast arg16
  let c80_772 : Index := 80#32
  ![2, v2240.toNat, 80]
def k0_off283 (k0_t2 : Fin k0_t2_loop.trips) : Fin 3 → Nat :=
  let c3_i32_773 : BitVec 32 := 3#32
  let v2244 : Index := Scalar.indexCast c3_i32_773
  let c0_i32_31 : BitVec 32 := 0#32
  let c1_i32_33 : BitVec 32 := 1#32
  let arg16 : BitVec 32 := Scf.iv c0_i32_31 c1_i32_33 k0_t2
  let v2245 : Index := Scalar.indexCast arg16
  let c80_774 : Index := 80#32
  ![3, v2245.toNat, 80]
def k0_off284 (k0_t2 : Fin k0_t2_loop.trips) : Fin 3 → Nat :=
  let c4_i32_775 : BitVec 32 := 4#32
  let v2249 : Index := Scalar.indexCast c4_i32_775
  let c0_i32_31 : BitVec 32 := 0#32
  let c1_i32_33 : BitVec 32 := 1#32
  let arg16 : BitVec 32 := Scf.iv c0_i32_31 c1_i32_33 k0_t2
  let v2250 : Index := Scalar.indexCast arg16
  let c80_776 : Index := 80#32
  ![4, v2250.toNat, 80]
def k0_off285 (k0_t2 : Fin k0_t2_loop.trips) : Fin 3 → Nat :=
  let c5_i32_777 : BitVec 32 := 5#32
  let v2254 : Index := Scalar.indexCast c5_i32_777
  let c0_i32_31 : BitVec 32 := 0#32
  let c1_i32_33 : BitVec 32 := 1#32
  let arg16 : BitVec 32 := Scf.iv c0_i32_31 c1_i32_33 k0_t2
  let v2255 : Index := Scalar.indexCast arg16
  let c80_778 : Index := 80#32
  ![5, v2255.toNat, 80]
def k0_off286 (k0_t2 : Fin k0_t2_loop.trips) : Fin 3 → Nat :=
  let c6_i32_779 : BitVec 32 := 6#32
  let v2259 : Index := Scalar.indexCast c6_i32_779
  let c0_i32_31 : BitVec 32 := 0#32
  let c1_i32_33 : BitVec 32 := 1#32
  let arg16 : BitVec 32 := Scf.iv c0_i32_31 c1_i32_33 k0_t2
  let v2260 : Index := Scalar.indexCast arg16
  let c80_780 : Index := 80#32
  ![6, v2260.toNat, 80]
def k0_off287 (k0_t2 : Fin k0_t2_loop.trips) : Fin 3 → Nat :=
  let c7_i32_781 : BitVec 32 := 7#32
  let v2264 : Index := Scalar.indexCast c7_i32_781
  let c0_i32_31 : BitVec 32 := 0#32
  let c1_i32_33 : BitVec 32 := 1#32
  let arg16 : BitVec 32 := Scf.iv c0_i32_31 c1_i32_33 k0_t2
  let v2265 : Index := Scalar.indexCast arg16
  let c80_782 : Index := 80#32
  ![7, v2265.toNat, 80]
def k0_off288 (k0_t2 : Fin k0_t2_loop.trips) : Fin 3 → Nat :=
  let c8_i32_783 : BitVec 32 := 8#32
  let v2269 : Index := Scalar.indexCast c8_i32_783
  let c0_i32_31 : BitVec 32 := 0#32
  let c1_i32_33 : BitVec 32 := 1#32
  let arg16 : BitVec 32 := Scf.iv c0_i32_31 c1_i32_33 k0_t2
  let v2270 : Index := Scalar.indexCast arg16
  let c80_784 : Index := 80#32
  ![8, v2270.toNat, 80]
def k0_off289 (k0_t2 : Fin k0_t2_loop.trips) : Fin 3 → Nat :=
  let c9_i32_785 : BitVec 32 := 9#32
  let v2274 : Index := Scalar.indexCast c9_i32_785
  let c0_i32_31 : BitVec 32 := 0#32
  let c1_i32_33 : BitVec 32 := 1#32
  let arg16 : BitVec 32 := Scf.iv c0_i32_31 c1_i32_33 k0_t2
  let v2275 : Index := Scalar.indexCast arg16
  let c80_786 : Index := 80#32
  ![9, v2275.toNat, 80]
def k0_off290 (k0_t2 : Fin k0_t2_loop.trips) : Fin 3 → Nat :=
  let c10_i32_787 : BitVec 32 := 10#32
  let v2279 : Index := Scalar.indexCast c10_i32_787
  let c0_i32_31 : BitVec 32 := 0#32
  let c1_i32_33 : BitVec 32 := 1#32
  let arg16 : BitVec 32 := Scf.iv c0_i32_31 c1_i32_33 k0_t2
  let v2280 : Index := Scalar.indexCast arg16
  let c80_788 : Index := 80#32
  ![10, v2280.toNat, 80]
def k0_off291 (k0_t2 : Fin k0_t2_loop.trips) : Fin 3 → Nat :=
  let c11_i32_789 : BitVec 32 := 11#32
  let v2284 : Index := Scalar.indexCast c11_i32_789
  let c0_i32_31 : BitVec 32 := 0#32
  let c1_i32_33 : BitVec 32 := 1#32
  let arg16 : BitVec 32 := Scf.iv c0_i32_31 c1_i32_33 k0_t2
  let v2285 : Index := Scalar.indexCast arg16
  let c80_790 : Index := 80#32
  ![11, v2285.toNat, 80]
def k0_off292 (k0_t2 : Fin k0_t2_loop.trips) : Fin 3 → Nat :=
  let c0_i32_791 : BitVec 32 := 0#32
  let v2289 : Index := Scalar.indexCast c0_i32_791
  let c0_i32_31 : BitVec 32 := 0#32
  let c1_i32_33 : BitVec 32 := 1#32
  let arg16 : BitVec 32 := Scf.iv c0_i32_31 c1_i32_33 k0_t2
  let v2290 : Index := Scalar.indexCast arg16
  let c96_792 : Index := 96#32
  ![0, v2290.toNat, 96]
def k0_off293 (k0_t2 : Fin k0_t2_loop.trips) : Fin 3 → Nat :=
  let c1_i32_794 : BitVec 32 := 1#32
  let v2296 : Index := Scalar.indexCast c1_i32_794
  let c0_i32_31 : BitVec 32 := 0#32
  let c1_i32_33 : BitVec 32 := 1#32
  let arg16 : BitVec 32 := Scf.iv c0_i32_31 c1_i32_33 k0_t2
  let v2297 : Index := Scalar.indexCast arg16
  let c96_795 : Index := 96#32
  ![1, v2297.toNat, 96]
def k0_off294 (k0_t2 : Fin k0_t2_loop.trips) : Fin 3 → Nat :=
  let c2_i32_797 : BitVec 32 := 2#32
  let v2304 : Index := Scalar.indexCast c2_i32_797
  let c0_i32_31 : BitVec 32 := 0#32
  let c1_i32_33 : BitVec 32 := 1#32
  let arg16 : BitVec 32 := Scf.iv c0_i32_31 c1_i32_33 k0_t2
  let v2305 : Index := Scalar.indexCast arg16
  let c96_798 : Index := 96#32
  ![2, v2305.toNat, 96]
def k0_off295 (k0_t2 : Fin k0_t2_loop.trips) : Fin 3 → Nat :=
  let c3_i32_800 : BitVec 32 := 3#32
  let v2312 : Index := Scalar.indexCast c3_i32_800
  let c0_i32_31 : BitVec 32 := 0#32
  let c1_i32_33 : BitVec 32 := 1#32
  let arg16 : BitVec 32 := Scf.iv c0_i32_31 c1_i32_33 k0_t2
  let v2313 : Index := Scalar.indexCast arg16
  let c96_801 : Index := 96#32
  ![3, v2313.toNat, 96]
def k0_off296 (k0_t2 : Fin k0_t2_loop.trips) : Fin 3 → Nat :=
  let c4_i32_803 : BitVec 32 := 4#32
  let v2320 : Index := Scalar.indexCast c4_i32_803
  let c0_i32_31 : BitVec 32 := 0#32
  let c1_i32_33 : BitVec 32 := 1#32
  let arg16 : BitVec 32 := Scf.iv c0_i32_31 c1_i32_33 k0_t2
  let v2321 : Index := Scalar.indexCast arg16
  let c96_804 : Index := 96#32
  ![4, v2321.toNat, 96]
def k0_off297 (k0_t2 : Fin k0_t2_loop.trips) : Fin 3 → Nat :=
  let c5_i32_806 : BitVec 32 := 5#32
  let v2328 : Index := Scalar.indexCast c5_i32_806
  let c0_i32_31 : BitVec 32 := 0#32
  let c1_i32_33 : BitVec 32 := 1#32
  let arg16 : BitVec 32 := Scf.iv c0_i32_31 c1_i32_33 k0_t2
  let v2329 : Index := Scalar.indexCast arg16
  let c96_807 : Index := 96#32
  ![5, v2329.toNat, 96]
def k0_off298 (k0_t2 : Fin k0_t2_loop.trips) : Fin 3 → Nat :=
  let c6_i32_809 : BitVec 32 := 6#32
  let v2336 : Index := Scalar.indexCast c6_i32_809
  let c0_i32_31 : BitVec 32 := 0#32
  let c1_i32_33 : BitVec 32 := 1#32
  let arg16 : BitVec 32 := Scf.iv c0_i32_31 c1_i32_33 k0_t2
  let v2337 : Index := Scalar.indexCast arg16
  let c96_810 : Index := 96#32
  ![6, v2337.toNat, 96]
def k0_off299 (k0_t2 : Fin k0_t2_loop.trips) : Fin 3 → Nat :=
  let c7_i32_812 : BitVec 32 := 7#32
  let v2344 : Index := Scalar.indexCast c7_i32_812
  let c0_i32_31 : BitVec 32 := 0#32
  let c1_i32_33 : BitVec 32 := 1#32
  let arg16 : BitVec 32 := Scf.iv c0_i32_31 c1_i32_33 k0_t2
  let v2345 : Index := Scalar.indexCast arg16
  let c96_813 : Index := 96#32
  ![7, v2345.toNat, 96]
def k0_off300 (k0_t2 : Fin k0_t2_loop.trips) : Fin 3 → Nat :=
  let c8_i32_815 : BitVec 32 := 8#32
  let v2353 : Index := Scalar.indexCast c8_i32_815
  let c0_i32_31 : BitVec 32 := 0#32
  let c1_i32_33 : BitVec 32 := 1#32
  let arg16 : BitVec 32 := Scf.iv c0_i32_31 c1_i32_33 k0_t2
  let v2354 : Index := Scalar.indexCast arg16
  let c96_816 : Index := 96#32
  ![8, v2354.toNat, 96]
def k0_off301 (k0_t2 : Fin k0_t2_loop.trips) : Fin 3 → Nat :=
  let c9_i32_818 : BitVec 32 := 9#32
  let v2362 : Index := Scalar.indexCast c9_i32_818
  let c0_i32_31 : BitVec 32 := 0#32
  let c1_i32_33 : BitVec 32 := 1#32
  let arg16 : BitVec 32 := Scf.iv c0_i32_31 c1_i32_33 k0_t2
  let v2363 : Index := Scalar.indexCast arg16
  let c96_819 : Index := 96#32
  ![9, v2363.toNat, 96]
def k0_off302 (k0_t2 : Fin k0_t2_loop.trips) : Fin 3 → Nat :=
  let c10_i32_821 : BitVec 32 := 10#32
  let v2371 : Index := Scalar.indexCast c10_i32_821
  let c0_i32_31 : BitVec 32 := 0#32
  let c1_i32_33 : BitVec 32 := 1#32
  let arg16 : BitVec 32 := Scf.iv c0_i32_31 c1_i32_33 k0_t2
  let v2372 : Index := Scalar.indexCast arg16
  let c96_822 : Index := 96#32
  ![10, v2372.toNat, 96]
def k0_off303 (k0_t2 : Fin k0_t2_loop.trips) : Fin 3 → Nat :=
  let c11_i32_824 : BitVec 32 := 11#32
  let v2380 : Index := Scalar.indexCast c11_i32_824
  let c0_i32_31 : BitVec 32 := 0#32
  let c1_i32_33 : BitVec 32 := 1#32
  let arg16 : BitVec 32 := Scf.iv c0_i32_31 c1_i32_33 k0_t2
  let v2381 : Index := Scalar.indexCast arg16
  let c96_825 : Index := 96#32
  ![11, v2381.toNat, 96]
def k0_off304 (k0_t2 : Fin k0_t2_loop.trips) : Fin 3 → Nat :=
  let c12_i32_827 : BitVec 32 := 12#32
  let v2389 : Index := Scalar.indexCast c12_i32_827
  let c0_i32_31 : BitVec 32 := 0#32
  let c1_i32_33 : BitVec 32 := 1#32
  let arg16 : BitVec 32 := Scf.iv c0_i32_31 c1_i32_33 k0_t2
  let v2390 : Index := Scalar.indexCast arg16
  let c96_828 : Index := 96#32
  ![12, v2390.toNat, 96]
def k0_off305 (k0_t2 : Fin k0_t2_loop.trips) : Fin 3 → Nat :=
  let c13_i32_830 : BitVec 32 := 13#32
  let v2397 : Index := Scalar.indexCast c13_i32_830
  let c0_i32_31 : BitVec 32 := 0#32
  let c1_i32_33 : BitVec 32 := 1#32
  let arg16 : BitVec 32 := Scf.iv c0_i32_31 c1_i32_33 k0_t2
  let v2398 : Index := Scalar.indexCast arg16
  let c96_831 : Index := 96#32
  ![13, v2398.toNat, 96]
def k0_off306 (k0_t2 : Fin k0_t2_loop.trips) : Fin 3 → Nat :=
  let c14_i32_833 : BitVec 32 := 14#32
  let v2406 : Index := Scalar.indexCast c14_i32_833
  let c0_i32_31 : BitVec 32 := 0#32
  let c1_i32_33 : BitVec 32 := 1#32
  let arg16 : BitVec 32 := Scf.iv c0_i32_31 c1_i32_33 k0_t2
  let v2407 : Index := Scalar.indexCast arg16
  let c96_834 : Index := 96#32
  ![14, v2407.toNat, 96]
def k0_off307 (k0_t2 : Fin k0_t2_loop.trips) : Fin 3 → Nat :=
  let c15_i32_836 : BitVec 32 := 15#32
  let v2415 : Index := Scalar.indexCast c15_i32_836
  let c0_i32_31 : BitVec 32 := 0#32
  let c1_i32_33 : BitVec 32 := 1#32
  let arg16 : BitVec 32 := Scf.iv c0_i32_31 c1_i32_33 k0_t2
  let v2416 : Index := Scalar.indexCast arg16
  let c96_837 : Index := 96#32
  ![15, v2416.toNat, 96]
def k0_off308 (k0_t2 : Fin k0_t2_loop.trips) : Fin 3 → Nat :=
  let c16_i32_839 : BitVec 32 := 16#32
  let v2424 : Index := Scalar.indexCast c16_i32_839
  let c0_i32_31 : BitVec 32 := 0#32
  let c1_i32_33 : BitVec 32 := 1#32
  let arg16 : BitVec 32 := Scf.iv c0_i32_31 c1_i32_33 k0_t2
  let v2425 : Index := Scalar.indexCast arg16
  let c96_840 : Index := 96#32
  ![16, v2425.toNat, 96]
def k0_off309 (k0_t2 : Fin k0_t2_loop.trips) : Fin 3 → Nat :=
  let c17_i32_842 : BitVec 32 := 17#32
  let v2433 : Index := Scalar.indexCast c17_i32_842
  let c0_i32_31 : BitVec 32 := 0#32
  let c1_i32_33 : BitVec 32 := 1#32
  let arg16 : BitVec 32 := Scf.iv c0_i32_31 c1_i32_33 k0_t2
  let v2434 : Index := Scalar.indexCast arg16
  let c96_843 : Index := 96#32
  ![17, v2434.toNat, 96]
def k0_off310 (k0_t2 : Fin k0_t2_loop.trips) : Fin 3 → Nat :=
  let c18_i32_845 : BitVec 32 := 18#32
  let v2442 : Index := Scalar.indexCast c18_i32_845
  let c0_i32_31 : BitVec 32 := 0#32
  let c1_i32_33 : BitVec 32 := 1#32
  let arg16 : BitVec 32 := Scf.iv c0_i32_31 c1_i32_33 k0_t2
  let v2443 : Index := Scalar.indexCast arg16
  let c96_846 : Index := 96#32
  ![18, v2443.toNat, 96]
def k0_off311 (k0_t2 : Fin k0_t2_loop.trips) : Fin 3 → Nat :=
  let c19_i32_848 : BitVec 32 := 19#32
  let v2450 : Index := Scalar.indexCast c19_i32_848
  let c0_i32_31 : BitVec 32 := 0#32
  let c1_i32_33 : BitVec 32 := 1#32
  let arg16 : BitVec 32 := Scf.iv c0_i32_31 c1_i32_33 k0_t2
  let v2451 : Index := Scalar.indexCast arg16
  let c96_849 : Index := 96#32
  ![19, v2451.toNat, 96]
def k0_off312 (k0_t2 : Fin k0_t2_loop.trips) : Fin 3 → Nat :=
  let c20_i32_851 : BitVec 32 := 20#32
  let v2459 : Index := Scalar.indexCast c20_i32_851
  let c0_i32_31 : BitVec 32 := 0#32
  let c1_i32_33 : BitVec 32 := 1#32
  let arg16 : BitVec 32 := Scf.iv c0_i32_31 c1_i32_33 k0_t2
  let v2460 : Index := Scalar.indexCast arg16
  let c96_852 : Index := 96#32
  ![20, v2460.toNat, 96]
def k0_off313 (k0_t2 : Fin k0_t2_loop.trips) : Fin 3 → Nat :=
  let c21_i32_854 : BitVec 32 := 21#32
  let v2468 : Index := Scalar.indexCast c21_i32_854
  let c0_i32_31 : BitVec 32 := 0#32
  let c1_i32_33 : BitVec 32 := 1#32
  let arg16 : BitVec 32 := Scf.iv c0_i32_31 c1_i32_33 k0_t2
  let v2469 : Index := Scalar.indexCast arg16
  let c96_855 : Index := 96#32
  ![21, v2469.toNat, 96]
def k0_off314 (k0_t2 : Fin k0_t2_loop.trips) : Fin 3 → Nat :=
  let c22_i32_857 : BitVec 32 := 22#32
  let v2477 : Index := Scalar.indexCast c22_i32_857
  let c0_i32_31 : BitVec 32 := 0#32
  let c1_i32_33 : BitVec 32 := 1#32
  let arg16 : BitVec 32 := Scf.iv c0_i32_31 c1_i32_33 k0_t2
  let v2478 : Index := Scalar.indexCast arg16
  let c96_858 : Index := 96#32
  ![22, v2478.toNat, 96]
def k0_off315 (k0_t2 : Fin k0_t2_loop.trips) : Fin 3 → Nat :=
  let c23_i32_860 : BitVec 32 := 23#32
  let v2486 : Index := Scalar.indexCast c23_i32_860
  let c0_i32_31 : BitVec 32 := 0#32
  let c1_i32_33 : BitVec 32 := 1#32
  let arg16 : BitVec 32 := Scf.iv c0_i32_31 c1_i32_33 k0_t2
  let v2487 : Index := Scalar.indexCast arg16
  let c96_861 : Index := 96#32
  ![23, v2487.toNat, 96]
def k0_off316 (k0_t2 : Fin k0_t2_loop.trips) : Fin 3 → Nat :=
  let c24_i32_863 : BitVec 32 := 24#32
  let v2495 : Index := Scalar.indexCast c24_i32_863
  let c0_i32_31 : BitVec 32 := 0#32
  let c1_i32_33 : BitVec 32 := 1#32
  let arg16 : BitVec 32 := Scf.iv c0_i32_31 c1_i32_33 k0_t2
  let v2496 : Index := Scalar.indexCast arg16
  let c96_864 : Index := 96#32
  ![24, v2496.toNat, 96]
def k0_off317 (k0_t2 : Fin k0_t2_loop.trips) : Fin 3 → Nat :=
  let c25_i32_866 : BitVec 32 := 25#32
  let v2503 : Index := Scalar.indexCast c25_i32_866
  let c0_i32_31 : BitVec 32 := 0#32
  let c1_i32_33 : BitVec 32 := 1#32
  let arg16 : BitVec 32 := Scf.iv c0_i32_31 c1_i32_33 k0_t2
  let v2504 : Index := Scalar.indexCast arg16
  let c96_867 : Index := 96#32
  ![25, v2504.toNat, 96]
def k0_off318 (k0_t2 : Fin k0_t2_loop.trips) : Fin 3 → Nat :=
  let c26_i32_869 : BitVec 32 := 26#32
  let v2512 : Index := Scalar.indexCast c26_i32_869
  let c0_i32_31 : BitVec 32 := 0#32
  let c1_i32_33 : BitVec 32 := 1#32
  let arg16 : BitVec 32 := Scf.iv c0_i32_31 c1_i32_33 k0_t2
  let v2513 : Index := Scalar.indexCast arg16
  let c96_870 : Index := 96#32
  ![26, v2513.toNat, 96]
def k0_off319 (k0_t2 : Fin k0_t2_loop.trips) : Fin 3 → Nat :=
  let c27_i32_872 : BitVec 32 := 27#32
  let v2521 : Index := Scalar.indexCast c27_i32_872
  let c0_i32_31 : BitVec 32 := 0#32
  let c1_i32_33 : BitVec 32 := 1#32
  let arg16 : BitVec 32 := Scf.iv c0_i32_31 c1_i32_33 k0_t2
  let v2522 : Index := Scalar.indexCast arg16
  let c96_873 : Index := 96#32
  ![27, v2522.toNat, 96]
def k0_off320 (k0_t2 : Fin k0_t2_loop.trips) : Fin 3 → Nat :=
  let c28_i32_875 : BitVec 32 := 28#32
  let v2530 : Index := Scalar.indexCast c28_i32_875
  let c0_i32_31 : BitVec 32 := 0#32
  let c1_i32_33 : BitVec 32 := 1#32
  let arg16 : BitVec 32 := Scf.iv c0_i32_31 c1_i32_33 k0_t2
  let v2531 : Index := Scalar.indexCast arg16
  let c96_876 : Index := 96#32
  ![28, v2531.toNat, 96]
def k0_off321 (k0_t2 : Fin k0_t2_loop.trips) : Fin 3 → Nat :=
  let c29_i32_878 : BitVec 32 := 29#32
  let v2539 : Index := Scalar.indexCast c29_i32_878
  let c0_i32_31 : BitVec 32 := 0#32
  let c1_i32_33 : BitVec 32 := 1#32
  let arg16 : BitVec 32 := Scf.iv c0_i32_31 c1_i32_33 k0_t2
  let v2540 : Index := Scalar.indexCast arg16
  let c96_879 : Index := 96#32
  ![29, v2540.toNat, 96]
def k0_off322 (k0_t2 : Fin k0_t2_loop.trips) : Fin 3 → Nat :=
  let c30_i32_881 : BitVec 32 := 30#32
  let v2548 : Index := Scalar.indexCast c30_i32_881
  let c0_i32_31 : BitVec 32 := 0#32
  let c1_i32_33 : BitVec 32 := 1#32
  let arg16 : BitVec 32 := Scf.iv c0_i32_31 c1_i32_33 k0_t2
  let v2549 : Index := Scalar.indexCast arg16
  let c96_882 : Index := 96#32
  ![30, v2549.toNat, 96]
def k0_off323 (k0_t2 : Fin k0_t2_loop.trips) : Fin 3 → Nat :=
  let c31_i32_884 : BitVec 32 := 31#32
  let v2556 : Index := Scalar.indexCast c31_i32_884
  let c0_i32_31 : BitVec 32 := 0#32
  let c1_i32_33 : BitVec 32 := 1#32
  let arg16 : BitVec 32 := Scf.iv c0_i32_31 c1_i32_33 k0_t2
  let v2557 : Index := Scalar.indexCast arg16
  let c96_885 : Index := 96#32
  ![31, v2557.toNat, 96]
def k0_off324 (k0_t2 : Fin k0_t2_loop.trips) : Fin 3 → Nat :=
  let c32_i32_887 : BitVec 32 := 32#32
  let v2565 : Index := Scalar.indexCast c32_i32_887
  let c0_i32_31 : BitVec 32 := 0#32
  let c1_i32_33 : BitVec 32 := 1#32
  let arg16 : BitVec 32 := Scf.iv c0_i32_31 c1_i32_33 k0_t2
  let v2566 : Index := Scalar.indexCast arg16
  let c96_888 : Index := 96#32
  ![32, v2566.toNat, 96]
def k0_off325 (k0_t2 : Fin k0_t2_loop.trips) : Fin 3 → Nat :=
  let c33_i32_890 : BitVec 32 := 33#32
  let v2574 : Index := Scalar.indexCast c33_i32_890
  let c0_i32_31 : BitVec 32 := 0#32
  let c1_i32_33 : BitVec 32 := 1#32
  let arg16 : BitVec 32 := Scf.iv c0_i32_31 c1_i32_33 k0_t2
  let v2575 : Index := Scalar.indexCast arg16
  let c96_891 : Index := 96#32
  ![33, v2575.toNat, 96]
def k0_off326 (k0_t2 : Fin k0_t2_loop.trips) : Fin 3 → Nat :=
  let c34_i32_893 : BitVec 32 := 34#32
  let v2583 : Index := Scalar.indexCast c34_i32_893
  let c0_i32_31 : BitVec 32 := 0#32
  let c1_i32_33 : BitVec 32 := 1#32
  let arg16 : BitVec 32 := Scf.iv c0_i32_31 c1_i32_33 k0_t2
  let v2584 : Index := Scalar.indexCast arg16
  let c96_894 : Index := 96#32
  ![34, v2584.toNat, 96]
def k0_off327 (k0_t2 : Fin k0_t2_loop.trips) : Fin 3 → Nat :=
  let c35_i32_896 : BitVec 32 := 35#32
  let v2592 : Index := Scalar.indexCast c35_i32_896
  let c0_i32_31 : BitVec 32 := 0#32
  let c1_i32_33 : BitVec 32 := 1#32
  let arg16 : BitVec 32 := Scf.iv c0_i32_31 c1_i32_33 k0_t2
  let v2593 : Index := Scalar.indexCast arg16
  let c96_897 : Index := 96#32
  ![35, v2593.toNat, 96]
def k0_off328 (k0_t2 : Fin k0_t2_loop.trips) : Fin 3 → Nat :=
  let c0_i32_899 : BitVec 32 := 0#32
  let v2601 : Index := Scalar.indexCast c0_i32_899
  let c0_i32_31 : BitVec 32 := 0#32
  let c1_i32_33 : BitVec 32 := 1#32
  let arg16 : BitVec 32 := Scf.iv c0_i32_31 c1_i32_33 k0_t2
  let v2602 : Index := Scalar.indexCast arg16
  let c96_900 : Index := 96#32
  ![0, v2602.toNat, 96]
def k0_off329 (k0_t2 : Fin k0_t2_loop.trips) : Fin 3 → Nat :=
  let c1_i32_901 : BitVec 32 := 1#32
  let v2606 : Index := Scalar.indexCast c1_i32_901
  let c0_i32_31 : BitVec 32 := 0#32
  let c1_i32_33 : BitVec 32 := 1#32
  let arg16 : BitVec 32 := Scf.iv c0_i32_31 c1_i32_33 k0_t2
  let v2607 : Index := Scalar.indexCast arg16
  let c96_902 : Index := 96#32
  ![1, v2607.toNat, 96]
def k0_off330 (k0_t2 : Fin k0_t2_loop.trips) : Fin 3 → Nat :=
  let c2_i32_903 : BitVec 32 := 2#32
  let v2611 : Index := Scalar.indexCast c2_i32_903
  let c0_i32_31 : BitVec 32 := 0#32
  let c1_i32_33 : BitVec 32 := 1#32
  let arg16 : BitVec 32 := Scf.iv c0_i32_31 c1_i32_33 k0_t2
  let v2612 : Index := Scalar.indexCast arg16
  let c96_904 : Index := 96#32
  ![2, v2612.toNat, 96]
def k0_off331 (k0_t2 : Fin k0_t2_loop.trips) : Fin 3 → Nat :=
  let c3_i32_905 : BitVec 32 := 3#32
  let v2616 : Index := Scalar.indexCast c3_i32_905
  let c0_i32_31 : BitVec 32 := 0#32
  let c1_i32_33 : BitVec 32 := 1#32
  let arg16 : BitVec 32 := Scf.iv c0_i32_31 c1_i32_33 k0_t2
  let v2617 : Index := Scalar.indexCast arg16
  let c96_906 : Index := 96#32
  ![3, v2617.toNat, 96]
def k0_off332 (k0_t2 : Fin k0_t2_loop.trips) : Fin 3 → Nat :=
  let c4_i32_907 : BitVec 32 := 4#32
  let v2621 : Index := Scalar.indexCast c4_i32_907
  let c0_i32_31 : BitVec 32 := 0#32
  let c1_i32_33 : BitVec 32 := 1#32
  let arg16 : BitVec 32 := Scf.iv c0_i32_31 c1_i32_33 k0_t2
  let v2622 : Index := Scalar.indexCast arg16
  let c96_908 : Index := 96#32
  ![4, v2622.toNat, 96]
def k0_off333 (k0_t2 : Fin k0_t2_loop.trips) : Fin 3 → Nat :=
  let c5_i32_909 : BitVec 32 := 5#32
  let v2626 : Index := Scalar.indexCast c5_i32_909
  let c0_i32_31 : BitVec 32 := 0#32
  let c1_i32_33 : BitVec 32 := 1#32
  let arg16 : BitVec 32 := Scf.iv c0_i32_31 c1_i32_33 k0_t2
  let v2627 : Index := Scalar.indexCast arg16
  let c96_910 : Index := 96#32
  ![5, v2627.toNat, 96]
def k0_off334 (k0_t2 : Fin k0_t2_loop.trips) : Fin 3 → Nat :=
  let c6_i32_911 : BitVec 32 := 6#32
  let v2631 : Index := Scalar.indexCast c6_i32_911
  let c0_i32_31 : BitVec 32 := 0#32
  let c1_i32_33 : BitVec 32 := 1#32
  let arg16 : BitVec 32 := Scf.iv c0_i32_31 c1_i32_33 k0_t2
  let v2632 : Index := Scalar.indexCast arg16
  let c96_912 : Index := 96#32
  ![6, v2632.toNat, 96]
def k0_off335 (k0_t2 : Fin k0_t2_loop.trips) : Fin 3 → Nat :=
  let c7_i32_913 : BitVec 32 := 7#32
  let v2636 : Index := Scalar.indexCast c7_i32_913
  let c0_i32_31 : BitVec 32 := 0#32
  let c1_i32_33 : BitVec 32 := 1#32
  let arg16 : BitVec 32 := Scf.iv c0_i32_31 c1_i32_33 k0_t2
  let v2637 : Index := Scalar.indexCast arg16
  let c96_914 : Index := 96#32
  ![7, v2637.toNat, 96]
def k0_off336 (k0_t2 : Fin k0_t2_loop.trips) : Fin 3 → Nat :=
  let c8_i32_915 : BitVec 32 := 8#32
  let v2641 : Index := Scalar.indexCast c8_i32_915
  let c0_i32_31 : BitVec 32 := 0#32
  let c1_i32_33 : BitVec 32 := 1#32
  let arg16 : BitVec 32 := Scf.iv c0_i32_31 c1_i32_33 k0_t2
  let v2642 : Index := Scalar.indexCast arg16
  let c96_916 : Index := 96#32
  ![8, v2642.toNat, 96]
def k0_off337 (k0_t2 : Fin k0_t2_loop.trips) : Fin 3 → Nat :=
  let c9_i32_917 : BitVec 32 := 9#32
  let v2646 : Index := Scalar.indexCast c9_i32_917
  let c0_i32_31 : BitVec 32 := 0#32
  let c1_i32_33 : BitVec 32 := 1#32
  let arg16 : BitVec 32 := Scf.iv c0_i32_31 c1_i32_33 k0_t2
  let v2647 : Index := Scalar.indexCast arg16
  let c96_918 : Index := 96#32
  ![9, v2647.toNat, 96]
def k0_off338 (k0_t2 : Fin k0_t2_loop.trips) : Fin 3 → Nat :=
  let c10_i32_919 : BitVec 32 := 10#32
  let v2651 : Index := Scalar.indexCast c10_i32_919
  let c0_i32_31 : BitVec 32 := 0#32
  let c1_i32_33 : BitVec 32 := 1#32
  let arg16 : BitVec 32 := Scf.iv c0_i32_31 c1_i32_33 k0_t2
  let v2652 : Index := Scalar.indexCast arg16
  let c96_920 : Index := 96#32
  ![10, v2652.toNat, 96]
def k0_off339 (k0_t2 : Fin k0_t2_loop.trips) : Fin 3 → Nat :=
  let c11_i32_921 : BitVec 32 := 11#32
  let v2656 : Index := Scalar.indexCast c11_i32_921
  let c0_i32_31 : BitVec 32 := 0#32
  let c1_i32_33 : BitVec 32 := 1#32
  let arg16 : BitVec 32 := Scf.iv c0_i32_31 c1_i32_33 k0_t2
  let v2657 : Index := Scalar.indexCast arg16
  let c96_922 : Index := 96#32
  ![11, v2657.toNat, 96]
def k0_off340 (k0_t2 : Fin k0_t2_loop.trips) : Fin 3 → Nat :=
  let c0_i32_923 : BitVec 32 := 0#32
  let v2661 : Index := Scalar.indexCast c0_i32_923
  let c0_i32_31 : BitVec 32 := 0#32
  let c1_i32_33 : BitVec 32 := 1#32
  let arg16 : BitVec 32 := Scf.iv c0_i32_31 c1_i32_33 k0_t2
  let v2662 : Index := Scalar.indexCast arg16
  let c112_924 : Index := 112#32
  ![0, v2662.toNat, 112]
def k0_off341 (k0_t2 : Fin k0_t2_loop.trips) : Fin 3 → Nat :=
  let c1_i32_926 : BitVec 32 := 1#32
  let v2668 : Index := Scalar.indexCast c1_i32_926
  let c0_i32_31 : BitVec 32 := 0#32
  let c1_i32_33 : BitVec 32 := 1#32
  let arg16 : BitVec 32 := Scf.iv c0_i32_31 c1_i32_33 k0_t2
  let v2669 : Index := Scalar.indexCast arg16
  let c112_927 : Index := 112#32
  ![1, v2669.toNat, 112]
def k0_off342 (k0_t2 : Fin k0_t2_loop.trips) : Fin 3 → Nat :=
  let c2_i32_929 : BitVec 32 := 2#32
  let v2676 : Index := Scalar.indexCast c2_i32_929
  let c0_i32_31 : BitVec 32 := 0#32
  let c1_i32_33 : BitVec 32 := 1#32
  let arg16 : BitVec 32 := Scf.iv c0_i32_31 c1_i32_33 k0_t2
  let v2677 : Index := Scalar.indexCast arg16
  let c112_930 : Index := 112#32
  ![2, v2677.toNat, 112]
def k0_off343 (k0_t2 : Fin k0_t2_loop.trips) : Fin 3 → Nat :=
  let c3_i32_932 : BitVec 32 := 3#32
  let v2684 : Index := Scalar.indexCast c3_i32_932
  let c0_i32_31 : BitVec 32 := 0#32
  let c1_i32_33 : BitVec 32 := 1#32
  let arg16 : BitVec 32 := Scf.iv c0_i32_31 c1_i32_33 k0_t2
  let v2685 : Index := Scalar.indexCast arg16
  let c112_933 : Index := 112#32
  ![3, v2685.toNat, 112]
def k0_off344 (k0_t2 : Fin k0_t2_loop.trips) : Fin 3 → Nat :=
  let c4_i32_935 : BitVec 32 := 4#32
  let v2692 : Index := Scalar.indexCast c4_i32_935
  let c0_i32_31 : BitVec 32 := 0#32
  let c1_i32_33 : BitVec 32 := 1#32
  let arg16 : BitVec 32 := Scf.iv c0_i32_31 c1_i32_33 k0_t2
  let v2693 : Index := Scalar.indexCast arg16
  let c112_936 : Index := 112#32
  ![4, v2693.toNat, 112]
def k0_off345 (k0_t2 : Fin k0_t2_loop.trips) : Fin 3 → Nat :=
  let c5_i32_938 : BitVec 32 := 5#32
  let v2700 : Index := Scalar.indexCast c5_i32_938
  let c0_i32_31 : BitVec 32 := 0#32
  let c1_i32_33 : BitVec 32 := 1#32
  let arg16 : BitVec 32 := Scf.iv c0_i32_31 c1_i32_33 k0_t2
  let v2701 : Index := Scalar.indexCast arg16
  let c112_939 : Index := 112#32
  ![5, v2701.toNat, 112]
def k0_off346 (k0_t2 : Fin k0_t2_loop.trips) : Fin 3 → Nat :=
  let c6_i32_941 : BitVec 32 := 6#32
  let v2708 : Index := Scalar.indexCast c6_i32_941
  let c0_i32_31 : BitVec 32 := 0#32
  let c1_i32_33 : BitVec 32 := 1#32
  let arg16 : BitVec 32 := Scf.iv c0_i32_31 c1_i32_33 k0_t2
  let v2709 : Index := Scalar.indexCast arg16
  let c112_942 : Index := 112#32
  ![6, v2709.toNat, 112]
def k0_off347 (k0_t2 : Fin k0_t2_loop.trips) : Fin 3 → Nat :=
  let c7_i32_944 : BitVec 32 := 7#32
  let v2716 : Index := Scalar.indexCast c7_i32_944
  let c0_i32_31 : BitVec 32 := 0#32
  let c1_i32_33 : BitVec 32 := 1#32
  let arg16 : BitVec 32 := Scf.iv c0_i32_31 c1_i32_33 k0_t2
  let v2717 : Index := Scalar.indexCast arg16
  let c112_945 : Index := 112#32
  ![7, v2717.toNat, 112]
def k0_off348 (k0_t2 : Fin k0_t2_loop.trips) : Fin 3 → Nat :=
  let c8_i32_947 : BitVec 32 := 8#32
  let v2725 : Index := Scalar.indexCast c8_i32_947
  let c0_i32_31 : BitVec 32 := 0#32
  let c1_i32_33 : BitVec 32 := 1#32
  let arg16 : BitVec 32 := Scf.iv c0_i32_31 c1_i32_33 k0_t2
  let v2726 : Index := Scalar.indexCast arg16
  let c112_948 : Index := 112#32
  ![8, v2726.toNat, 112]
def k0_off349 (k0_t2 : Fin k0_t2_loop.trips) : Fin 3 → Nat :=
  let c9_i32_950 : BitVec 32 := 9#32
  let v2734 : Index := Scalar.indexCast c9_i32_950
  let c0_i32_31 : BitVec 32 := 0#32
  let c1_i32_33 : BitVec 32 := 1#32
  let arg16 : BitVec 32 := Scf.iv c0_i32_31 c1_i32_33 k0_t2
  let v2735 : Index := Scalar.indexCast arg16
  let c112_951 : Index := 112#32
  ![9, v2735.toNat, 112]
def k0_off350 (k0_t2 : Fin k0_t2_loop.trips) : Fin 3 → Nat :=
  let c10_i32_953 : BitVec 32 := 10#32
  let v2743 : Index := Scalar.indexCast c10_i32_953
  let c0_i32_31 : BitVec 32 := 0#32
  let c1_i32_33 : BitVec 32 := 1#32
  let arg16 : BitVec 32 := Scf.iv c0_i32_31 c1_i32_33 k0_t2
  let v2744 : Index := Scalar.indexCast arg16
  let c112_954 : Index := 112#32
  ![10, v2744.toNat, 112]
def k0_off351 (k0_t2 : Fin k0_t2_loop.trips) : Fin 3 → Nat :=
  let c11_i32_956 : BitVec 32 := 11#32
  let v2752 : Index := Scalar.indexCast c11_i32_956
  let c0_i32_31 : BitVec 32 := 0#32
  let c1_i32_33 : BitVec 32 := 1#32
  let arg16 : BitVec 32 := Scf.iv c0_i32_31 c1_i32_33 k0_t2
  let v2753 : Index := Scalar.indexCast arg16
  let c112_957 : Index := 112#32
  ![11, v2753.toNat, 112]
def k0_off352 (k0_t2 : Fin k0_t2_loop.trips) : Fin 3 → Nat :=
  let c12_i32_959 : BitVec 32 := 12#32
  let v2761 : Index := Scalar.indexCast c12_i32_959
  let c0_i32_31 : BitVec 32 := 0#32
  let c1_i32_33 : BitVec 32 := 1#32
  let arg16 : BitVec 32 := Scf.iv c0_i32_31 c1_i32_33 k0_t2
  let v2762 : Index := Scalar.indexCast arg16
  let c112_960 : Index := 112#32
  ![12, v2762.toNat, 112]
def k0_off353 (k0_t2 : Fin k0_t2_loop.trips) : Fin 3 → Nat :=
  let c13_i32_962 : BitVec 32 := 13#32
  let v2769 : Index := Scalar.indexCast c13_i32_962
  let c0_i32_31 : BitVec 32 := 0#32
  let c1_i32_33 : BitVec 32 := 1#32
  let arg16 : BitVec 32 := Scf.iv c0_i32_31 c1_i32_33 k0_t2
  let v2770 : Index := Scalar.indexCast arg16
  let c112_963 : Index := 112#32
  ![13, v2770.toNat, 112]
def k0_off354 (k0_t2 : Fin k0_t2_loop.trips) : Fin 3 → Nat :=
  let c14_i32_965 : BitVec 32 := 14#32
  let v2778 : Index := Scalar.indexCast c14_i32_965
  let c0_i32_31 : BitVec 32 := 0#32
  let c1_i32_33 : BitVec 32 := 1#32
  let arg16 : BitVec 32 := Scf.iv c0_i32_31 c1_i32_33 k0_t2
  let v2779 : Index := Scalar.indexCast arg16
  let c112_966 : Index := 112#32
  ![14, v2779.toNat, 112]
def k0_off355 (k0_t2 : Fin k0_t2_loop.trips) : Fin 3 → Nat :=
  let c15_i32_968 : BitVec 32 := 15#32
  let v2787 : Index := Scalar.indexCast c15_i32_968
  let c0_i32_31 : BitVec 32 := 0#32
  let c1_i32_33 : BitVec 32 := 1#32
  let arg16 : BitVec 32 := Scf.iv c0_i32_31 c1_i32_33 k0_t2
  let v2788 : Index := Scalar.indexCast arg16
  let c112_969 : Index := 112#32
  ![15, v2788.toNat, 112]
def k0_off356 (k0_t2 : Fin k0_t2_loop.trips) : Fin 3 → Nat :=
  let c16_i32_971 : BitVec 32 := 16#32
  let v2796 : Index := Scalar.indexCast c16_i32_971
  let c0_i32_31 : BitVec 32 := 0#32
  let c1_i32_33 : BitVec 32 := 1#32
  let arg16 : BitVec 32 := Scf.iv c0_i32_31 c1_i32_33 k0_t2
  let v2797 : Index := Scalar.indexCast arg16
  let c112_972 : Index := 112#32
  ![16, v2797.toNat, 112]
def k0_off357 (k0_t2 : Fin k0_t2_loop.trips) : Fin 3 → Nat :=
  let c17_i32_974 : BitVec 32 := 17#32
  let v2805 : Index := Scalar.indexCast c17_i32_974
  let c0_i32_31 : BitVec 32 := 0#32
  let c1_i32_33 : BitVec 32 := 1#32
  let arg16 : BitVec 32 := Scf.iv c0_i32_31 c1_i32_33 k0_t2
  let v2806 : Index := Scalar.indexCast arg16
  let c112_975 : Index := 112#32
  ![17, v2806.toNat, 112]
def k0_off358 (k0_t2 : Fin k0_t2_loop.trips) : Fin 3 → Nat :=
  let c18_i32_977 : BitVec 32 := 18#32
  let v2814 : Index := Scalar.indexCast c18_i32_977
  let c0_i32_31 : BitVec 32 := 0#32
  let c1_i32_33 : BitVec 32 := 1#32
  let arg16 : BitVec 32 := Scf.iv c0_i32_31 c1_i32_33 k0_t2
  let v2815 : Index := Scalar.indexCast arg16
  let c112_978 : Index := 112#32
  ![18, v2815.toNat, 112]
def k0_off359 (k0_t2 : Fin k0_t2_loop.trips) : Fin 3 → Nat :=
  let c19_i32_980 : BitVec 32 := 19#32
  let v2822 : Index := Scalar.indexCast c19_i32_980
  let c0_i32_31 : BitVec 32 := 0#32
  let c1_i32_33 : BitVec 32 := 1#32
  let arg16 : BitVec 32 := Scf.iv c0_i32_31 c1_i32_33 k0_t2
  let v2823 : Index := Scalar.indexCast arg16
  let c112_981 : Index := 112#32
  ![19, v2823.toNat, 112]
def k0_off360 (k0_t2 : Fin k0_t2_loop.trips) : Fin 3 → Nat :=
  let c20_i32_983 : BitVec 32 := 20#32
  let v2831 : Index := Scalar.indexCast c20_i32_983
  let c0_i32_31 : BitVec 32 := 0#32
  let c1_i32_33 : BitVec 32 := 1#32
  let arg16 : BitVec 32 := Scf.iv c0_i32_31 c1_i32_33 k0_t2
  let v2832 : Index := Scalar.indexCast arg16
  let c112_984 : Index := 112#32
  ![20, v2832.toNat, 112]
def k0_off361 (k0_t2 : Fin k0_t2_loop.trips) : Fin 3 → Nat :=
  let c21_i32_986 : BitVec 32 := 21#32
  let v2840 : Index := Scalar.indexCast c21_i32_986
  let c0_i32_31 : BitVec 32 := 0#32
  let c1_i32_33 : BitVec 32 := 1#32
  let arg16 : BitVec 32 := Scf.iv c0_i32_31 c1_i32_33 k0_t2
  let v2841 : Index := Scalar.indexCast arg16
  let c112_987 : Index := 112#32
  ![21, v2841.toNat, 112]
def k0_off362 (k0_t2 : Fin k0_t2_loop.trips) : Fin 3 → Nat :=
  let c22_i32_989 : BitVec 32 := 22#32
  let v2849 : Index := Scalar.indexCast c22_i32_989
  let c0_i32_31 : BitVec 32 := 0#32
  let c1_i32_33 : BitVec 32 := 1#32
  let arg16 : BitVec 32 := Scf.iv c0_i32_31 c1_i32_33 k0_t2
  let v2850 : Index := Scalar.indexCast arg16
  let c112_990 : Index := 112#32
  ![22, v2850.toNat, 112]
def k0_off363 (k0_t2 : Fin k0_t2_loop.trips) : Fin 3 → Nat :=
  let c23_i32_992 : BitVec 32 := 23#32
  let v2858 : Index := Scalar.indexCast c23_i32_992
  let c0_i32_31 : BitVec 32 := 0#32
  let c1_i32_33 : BitVec 32 := 1#32
  let arg16 : BitVec 32 := Scf.iv c0_i32_31 c1_i32_33 k0_t2
  let v2859 : Index := Scalar.indexCast arg16
  let c112_993 : Index := 112#32
  ![23, v2859.toNat, 112]
def k0_off364 (k0_t2 : Fin k0_t2_loop.trips) : Fin 3 → Nat :=
  let c24_i32_995 : BitVec 32 := 24#32
  let v2867 : Index := Scalar.indexCast c24_i32_995
  let c0_i32_31 : BitVec 32 := 0#32
  let c1_i32_33 : BitVec 32 := 1#32
  let arg16 : BitVec 32 := Scf.iv c0_i32_31 c1_i32_33 k0_t2
  let v2868 : Index := Scalar.indexCast arg16
  let c112_996 : Index := 112#32
  ![24, v2868.toNat, 112]
def k0_off365 (k0_t2 : Fin k0_t2_loop.trips) : Fin 3 → Nat :=
  let c25_i32_998 : BitVec 32 := 25#32
  let v2875 : Index := Scalar.indexCast c25_i32_998
  let c0_i32_31 : BitVec 32 := 0#32
  let c1_i32_33 : BitVec 32 := 1#32
  let arg16 : BitVec 32 := Scf.iv c0_i32_31 c1_i32_33 k0_t2
  let v2876 : Index := Scalar.indexCast arg16
  let c112_999 : Index := 112#32
  ![25, v2876.toNat, 112]
def k0_off366 (k0_t2 : Fin k0_t2_loop.trips) : Fin 3 → Nat :=
  let c26_i32_1001 : BitVec 32 := 26#32
  let v2884 : Index := Scalar.indexCast c26_i32_1001
  let c0_i32_31 : BitVec 32 := 0#32
  let c1_i32_33 : BitVec 32 := 1#32
  let arg16 : BitVec 32 := Scf.iv c0_i32_31 c1_i32_33 k0_t2
  let v2885 : Index := Scalar.indexCast arg16
  let c112_1002 : Index := 112#32
  ![26, v2885.toNat, 112]
def k0_off367 (k0_t2 : Fin k0_t2_loop.trips) : Fin 3 → Nat :=
  let c27_i32_1004 : BitVec 32 := 27#32
  let v2893 : Index := Scalar.indexCast c27_i32_1004
  let c0_i32_31 : BitVec 32 := 0#32
  let c1_i32_33 : BitVec 32 := 1#32
  let arg16 : BitVec 32 := Scf.iv c0_i32_31 c1_i32_33 k0_t2
  let v2894 : Index := Scalar.indexCast arg16
  let c112_1005 : Index := 112#32
  ![27, v2894.toNat, 112]
def k0_off368 (k0_t2 : Fin k0_t2_loop.trips) : Fin 3 → Nat :=
  let c28_i32_1007 : BitVec 32 := 28#32
  let v2902 : Index := Scalar.indexCast c28_i32_1007
  let c0_i32_31 : BitVec 32 := 0#32
  let c1_i32_33 : BitVec 32 := 1#32
  let arg16 : BitVec 32 := Scf.iv c0_i32_31 c1_i32_33 k0_t2
  let v2903 : Index := Scalar.indexCast arg16
  let c112_1008 : Index := 112#32
  ![28, v2903.toNat, 112]
def k0_off369 (k0_t2 : Fin k0_t2_loop.trips) : Fin 3 → Nat :=
  let c29_i32_1010 : BitVec 32 := 29#32
  let v2911 : Index := Scalar.indexCast c29_i32_1010
  let c0_i32_31 : BitVec 32 := 0#32
  let c1_i32_33 : BitVec 32 := 1#32
  let arg16 : BitVec 32 := Scf.iv c0_i32_31 c1_i32_33 k0_t2
  let v2912 : Index := Scalar.indexCast arg16
  let c112_1011 : Index := 112#32
  ![29, v2912.toNat, 112]
def k0_off370 (k0_t2 : Fin k0_t2_loop.trips) : Fin 3 → Nat :=
  let c30_i32_1013 : BitVec 32 := 30#32
  let v2920 : Index := Scalar.indexCast c30_i32_1013
  let c0_i32_31 : BitVec 32 := 0#32
  let c1_i32_33 : BitVec 32 := 1#32
  let arg16 : BitVec 32 := Scf.iv c0_i32_31 c1_i32_33 k0_t2
  let v2921 : Index := Scalar.indexCast arg16
  let c112_1014 : Index := 112#32
  ![30, v2921.toNat, 112]
def k0_off371 (k0_t2 : Fin k0_t2_loop.trips) : Fin 3 → Nat :=
  let c31_i32_1016 : BitVec 32 := 31#32
  let v2928 : Index := Scalar.indexCast c31_i32_1016
  let c0_i32_31 : BitVec 32 := 0#32
  let c1_i32_33 : BitVec 32 := 1#32
  let arg16 : BitVec 32 := Scf.iv c0_i32_31 c1_i32_33 k0_t2
  let v2929 : Index := Scalar.indexCast arg16
  let c112_1017 : Index := 112#32
  ![31, v2929.toNat, 112]
def k0_off372 (k0_t2 : Fin k0_t2_loop.trips) : Fin 3 → Nat :=
  let c32_i32_1019 : BitVec 32 := 32#32
  let v2937 : Index := Scalar.indexCast c32_i32_1019
  let c0_i32_31 : BitVec 32 := 0#32
  let c1_i32_33 : BitVec 32 := 1#32
  let arg16 : BitVec 32 := Scf.iv c0_i32_31 c1_i32_33 k0_t2
  let v2938 : Index := Scalar.indexCast arg16
  let c112_1020 : Index := 112#32
  ![32, v2938.toNat, 112]
def k0_off373 (k0_t2 : Fin k0_t2_loop.trips) : Fin 3 → Nat :=
  let c33_i32_1022 : BitVec 32 := 33#32
  let v2946 : Index := Scalar.indexCast c33_i32_1022
  let c0_i32_31 : BitVec 32 := 0#32
  let c1_i32_33 : BitVec 32 := 1#32
  let arg16 : BitVec 32 := Scf.iv c0_i32_31 c1_i32_33 k0_t2
  let v2947 : Index := Scalar.indexCast arg16
  let c112_1023 : Index := 112#32
  ![33, v2947.toNat, 112]
def k0_off374 (k0_t2 : Fin k0_t2_loop.trips) : Fin 3 → Nat :=
  let c34_i32_1025 : BitVec 32 := 34#32
  let v2955 : Index := Scalar.indexCast c34_i32_1025
  let c0_i32_31 : BitVec 32 := 0#32
  let c1_i32_33 : BitVec 32 := 1#32
  let arg16 : BitVec 32 := Scf.iv c0_i32_31 c1_i32_33 k0_t2
  let v2956 : Index := Scalar.indexCast arg16
  let c112_1026 : Index := 112#32
  ![34, v2956.toNat, 112]
def k0_off375 (k0_t2 : Fin k0_t2_loop.trips) : Fin 3 → Nat :=
  let c35_i32_1028 : BitVec 32 := 35#32
  let v2964 : Index := Scalar.indexCast c35_i32_1028
  let c0_i32_31 : BitVec 32 := 0#32
  let c1_i32_33 : BitVec 32 := 1#32
  let arg16 : BitVec 32 := Scf.iv c0_i32_31 c1_i32_33 k0_t2
  let v2965 : Index := Scalar.indexCast arg16
  let c112_1029 : Index := 112#32
  ![35, v2965.toNat, 112]
def k0_off376 (k0_t2 : Fin k0_t2_loop.trips) : Fin 3 → Nat :=
  let c0_i32_1031 : BitVec 32 := 0#32
  let v2973 : Index := Scalar.indexCast c0_i32_1031
  let c0_i32_31 : BitVec 32 := 0#32
  let c1_i32_33 : BitVec 32 := 1#32
  let arg16 : BitVec 32 := Scf.iv c0_i32_31 c1_i32_33 k0_t2
  let v2974 : Index := Scalar.indexCast arg16
  let c112_1032 : Index := 112#32
  ![0, v2974.toNat, 112]
def k0_off377 (k0_t2 : Fin k0_t2_loop.trips) : Fin 3 → Nat :=
  let c1_i32_1033 : BitVec 32 := 1#32
  let v2978 : Index := Scalar.indexCast c1_i32_1033
  let c0_i32_31 : BitVec 32 := 0#32
  let c1_i32_33 : BitVec 32 := 1#32
  let arg16 : BitVec 32 := Scf.iv c0_i32_31 c1_i32_33 k0_t2
  let v2979 : Index := Scalar.indexCast arg16
  let c112_1034 : Index := 112#32
  ![1, v2979.toNat, 112]
def k0_off378 (k0_t2 : Fin k0_t2_loop.trips) : Fin 3 → Nat :=
  let c2_i32_1035 : BitVec 32 := 2#32
  let v2983 : Index := Scalar.indexCast c2_i32_1035
  let c0_i32_31 : BitVec 32 := 0#32
  let c1_i32_33 : BitVec 32 := 1#32
  let arg16 : BitVec 32 := Scf.iv c0_i32_31 c1_i32_33 k0_t2
  let v2984 : Index := Scalar.indexCast arg16
  let c112_1036 : Index := 112#32
  ![2, v2984.toNat, 112]
def k0_off379 (k0_t2 : Fin k0_t2_loop.trips) : Fin 3 → Nat :=
  let c3_i32_1037 : BitVec 32 := 3#32
  let v2988 : Index := Scalar.indexCast c3_i32_1037
  let c0_i32_31 : BitVec 32 := 0#32
  let c1_i32_33 : BitVec 32 := 1#32
  let arg16 : BitVec 32 := Scf.iv c0_i32_31 c1_i32_33 k0_t2
  let v2989 : Index := Scalar.indexCast arg16
  let c112_1038 : Index := 112#32
  ![3, v2989.toNat, 112]
def k0_off380 (k0_t2 : Fin k0_t2_loop.trips) : Fin 3 → Nat :=
  let c4_i32_1039 : BitVec 32 := 4#32
  let v2993 : Index := Scalar.indexCast c4_i32_1039
  let c0_i32_31 : BitVec 32 := 0#32
  let c1_i32_33 : BitVec 32 := 1#32
  let arg16 : BitVec 32 := Scf.iv c0_i32_31 c1_i32_33 k0_t2
  let v2994 : Index := Scalar.indexCast arg16
  let c112_1040 : Index := 112#32
  ![4, v2994.toNat, 112]
def k0_off381 (k0_t2 : Fin k0_t2_loop.trips) : Fin 3 → Nat :=
  let c5_i32_1041 : BitVec 32 := 5#32
  let v2998 : Index := Scalar.indexCast c5_i32_1041
  let c0_i32_31 : BitVec 32 := 0#32
  let c1_i32_33 : BitVec 32 := 1#32
  let arg16 : BitVec 32 := Scf.iv c0_i32_31 c1_i32_33 k0_t2
  let v2999 : Index := Scalar.indexCast arg16
  let c112_1042 : Index := 112#32
  ![5, v2999.toNat, 112]
def k0_off382 (k0_t2 : Fin k0_t2_loop.trips) : Fin 3 → Nat :=
  let c6_i32_1043 : BitVec 32 := 6#32
  let v3003 : Index := Scalar.indexCast c6_i32_1043
  let c0_i32_31 : BitVec 32 := 0#32
  let c1_i32_33 : BitVec 32 := 1#32
  let arg16 : BitVec 32 := Scf.iv c0_i32_31 c1_i32_33 k0_t2
  let v3004 : Index := Scalar.indexCast arg16
  let c112_1044 : Index := 112#32
  ![6, v3004.toNat, 112]
def k0_off383 (k0_t2 : Fin k0_t2_loop.trips) : Fin 3 → Nat :=
  let c7_i32_1045 : BitVec 32 := 7#32
  let v3008 : Index := Scalar.indexCast c7_i32_1045
  let c0_i32_31 : BitVec 32 := 0#32
  let c1_i32_33 : BitVec 32 := 1#32
  let arg16 : BitVec 32 := Scf.iv c0_i32_31 c1_i32_33 k0_t2
  let v3009 : Index := Scalar.indexCast arg16
  let c112_1046 : Index := 112#32
  ![7, v3009.toNat, 112]
def k0_off384 (k0_t2 : Fin k0_t2_loop.trips) : Fin 3 → Nat :=
  let c8_i32_1047 : BitVec 32 := 8#32
  let v3013 : Index := Scalar.indexCast c8_i32_1047
  let c0_i32_31 : BitVec 32 := 0#32
  let c1_i32_33 : BitVec 32 := 1#32
  let arg16 : BitVec 32 := Scf.iv c0_i32_31 c1_i32_33 k0_t2
  let v3014 : Index := Scalar.indexCast arg16
  let c112_1048 : Index := 112#32
  ![8, v3014.toNat, 112]
def k0_off385 (k0_t2 : Fin k0_t2_loop.trips) : Fin 3 → Nat :=
  let c9_i32_1049 : BitVec 32 := 9#32
  let v3018 : Index := Scalar.indexCast c9_i32_1049
  let c0_i32_31 : BitVec 32 := 0#32
  let c1_i32_33 : BitVec 32 := 1#32
  let arg16 : BitVec 32 := Scf.iv c0_i32_31 c1_i32_33 k0_t2
  let v3019 : Index := Scalar.indexCast arg16
  let c112_1050 : Index := 112#32
  ![9, v3019.toNat, 112]
def k0_off386 (k0_t2 : Fin k0_t2_loop.trips) : Fin 3 → Nat :=
  let c10_i32_1051 : BitVec 32 := 10#32
  let v3023 : Index := Scalar.indexCast c10_i32_1051
  let c0_i32_31 : BitVec 32 := 0#32
  let c1_i32_33 : BitVec 32 := 1#32
  let arg16 : BitVec 32 := Scf.iv c0_i32_31 c1_i32_33 k0_t2
  let v3024 : Index := Scalar.indexCast arg16
  let c112_1052 : Index := 112#32
  ![10, v3024.toNat, 112]
def k0_off387 (k0_t2 : Fin k0_t2_loop.trips) : Fin 3 → Nat :=
  let c11_i32_1053 : BitVec 32 := 11#32
  let v3028 : Index := Scalar.indexCast c11_i32_1053
  let c0_i32_31 : BitVec 32 := 0#32
  let c1_i32_33 : BitVec 32 := 1#32
  let arg16 : BitVec 32 := Scf.iv c0_i32_31 c1_i32_33 k0_t2
  let v3029 : Index := Scalar.indexCast arg16
  let c112_1054 : Index := 112#32
  ![11, v3029.toNat, 112]
def k0_off388 (i : grid0.Coords) (k0_t1 : Fin k0_t1_loop.trips) (c0_i32_22 : BitVec 32) : Fin 3 → Nat :=
  let c0_i32_36 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_0 : BitVec 32 := 224#32
  let v4 : BitVec 32 := Scalar.muli v1 c224_i32_0
  let c0_i32_11 : BitVec 32 := 0#32
  let c1_i32 : BitVec 32 := 1#32
  let arg14 : BitVec 32 := Scf.iv c0_i32_11 c1_i32 k0_t1
  let c2_i32_21 : BitVec 32 := 2#32
  let v19 : BitVec 32 := Scalar.muli arg14 c2_i32_21
  let v20 : BitVec 32 := Scalar.addi v19 c0_i32_22
  let c8_i32_35 : BitVec 32 := 8#32
  let v30 : BitVec 32 := Scalar.muli v20 c8_i32_35
  let v31 : BitVec 32 := Scalar.addi v4 v30
  let c0_i32_37 : BitVec 32 := 0#32
  ![0, v31.toNat, 0]
def k0_cond2 (k0_t1 : Fin k0_t1_loop.trips) : BitVec 1 :=
  let c0_i32_11 : BitVec 32 := 0#32
  let c1_i32 : BitVec 32 := 1#32
  let arg14 : BitVec 32 := Scf.iv c0_i32_11 c1_i32 k0_t1
  let c2_i32_21 : BitVec 32 := 2#32
  let v19 : BitVec 32 := Scalar.muli arg14 c2_i32_21
  let c0_i32_22 : BitVec 32 := 0#32
  let v20 : BitVec 32 := Scalar.addi v19 c0_i32_22
  let c2_i32_40 : BitVec 32 := 2#32
  let v34 : BitVec 32 := Scalar.addi v20 c2_i32_40
  let c28_i32 : BitVec 32 := 28#32
  let v35 : BitVec 1 := Scalar.cmpi .slt v34 c28_i32
  let v36 : BitVec 32 := Scalar.extui v35
  let c0_i32_41 : BitVec 32 := 0#32
  let v37 : BitVec 1 := Scalar.cmpi .ne v36 c0_i32_41
  v37

def k0_off389 (i : grid0.Coords) (k0_t1 : Fin k0_t1_loop.trips) : Fin 3 → Nat :=
  let c0_i32_67 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let v3 : BitVec 32 := Scalar.addi c0_i32 v2
  let c0_i32_11 : BitVec 32 := 0#32
  let c1_i32 : BitVec 32 := 1#32
  let arg14 : BitVec 32 := Scf.iv c0_i32_11 c1_i32 k0_t1
  let c2_i32_21 : BitVec 32 := 2#32
  let v19 : BitVec 32 := Scalar.muli arg14 c2_i32_21
  let c0_i32_22 : BitVec 32 := 0#32
  let v20 : BitVec 32 := Scalar.addi v19 c0_i32_22
  let c2_i32_65 : BitVec 32 := 2#32
  let v57 : BitVec 32 := Scalar.addi v20 c2_i32_65
  let c8_i32_66 : BitVec 32 := 8#32
  let v58 : BitVec 32 := Scalar.muli v57 c8_i32_66
  let v59 : BitVec 32 := Scalar.addi v3 v58
  let c0_i32_68 : BitVec 32 := 0#32
  ![0, v59.toNat, 0]
def k0_cond3 (k0_t1 : Fin k0_t1_loop.trips) : BitVec 1 :=
  let c0_i32_11 : BitVec 32 := 0#32
  let c1_i32 : BitVec 32 := 1#32
  let arg14 : BitVec 32 := Scf.iv c0_i32_11 c1_i32 k0_t1
  let c2_i32_42 : BitVec 32 := 2#32
  let v38 : BitVec 32 := Scalar.muli arg14 c2_i32_42
  let c1_i32_43 : BitVec 32 := 1#32
  let v39 : BitVec 32 := Scalar.addi v38 c1_i32_43
  let c2_i32_49 : BitVec 32 := 2#32
  let v44 : BitVec 1 := Scalar.cmpi .sge v39 c2_i32_49
  let v45 : BitVec 32 := Scalar.extui v44
  let c0_i32_50 : BitVec 32 := 0#32
  let v46 : BitVec 1 := Scalar.cmpi .ne v45 c0_i32_50
  v46

def k0_off390 (i : grid0.Coords) (k0_t1 : Fin k0_t1_loop.trips) : Fin 3 → Nat :=
  let c0_i32_67 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_0 : BitVec 32 := 224#32
  let v4 : BitVec 32 := Scalar.muli v1 c224_i32_0
  let c0_i32_11 : BitVec 32 := 0#32
  let c1_i32 : BitVec 32 := 1#32
  let arg14 : BitVec 32 := Scf.iv c0_i32_11 c1_i32 k0_t1
  let c2_i32_42 : BitVec 32 := 2#32
  let v38 : BitVec 32 := Scalar.muli arg14 c2_i32_42
  let c1_i32_43 : BitVec 32 := 1#32
  let v39 : BitVec 32 := Scalar.addi v38 c1_i32_43
  let c2_i32_65 : BitVec 32 := 2#32
  let v57 : BitVec 32 := Scalar.subi v39 c2_i32_65
  let c8_i32_66 : BitVec 32 := 8#32
  let v58 : BitVec 32 := Scalar.muli v57 c8_i32_66
  let v59 : BitVec 32 := Scalar.addi v4 v58
  let c0_i32_68 : BitVec 32 := 0#32
  ![0, v59.toNat, 0]
@[reducible] def k0_t3_loop : Scf.Loop 32 :=
  let c0_i32_52 : BitVec 32 := 0#32
  let c8_i32_53 : BitVec 32 := 8#32
  let v47 : BitVec 32 := Scalar.addi c0_i32_52 c8_i32_53
  let c1_i32_54 : BitVec 32 := 1#32
  ⟨c0_i32_52, v47, c1_i32_54⟩
def k0_off391 (k0_t3 : Fin k0_t3_loop.trips) : Fin 3 → Nat :=
  let c0_i32_65 : BitVec 32 := 0#32
  let v57 : Index := Scalar.indexCast c0_i32_65
  let c0_i32_52 : BitVec 32 := 0#32
  let c1_i32_54 : BitVec 32 := 1#32
  let arg16 : BitVec 32 := Scf.iv c0_i32_52 c1_i32_54 k0_t3
  let v58 : Index := Scalar.indexCast arg16
  let c0 : Index := 0#32
  ![0, v58.toNat, 0]
def k0_off392 (k0_t3 : Fin k0_t3_loop.trips) : Fin 3 → Nat :=
  let c1_i32_67 : BitVec 32 := 1#32
  let v64 : Index := Scalar.indexCast c1_i32_67
  let c0_i32_52 : BitVec 32 := 0#32
  let c1_i32_54 : BitVec 32 := 1#32
  let arg16 : BitVec 32 := Scf.iv c0_i32_52 c1_i32_54 k0_t3
  let v65 : Index := Scalar.indexCast arg16
  let c0_68 : Index := 0#32
  ![1, v65.toNat, 0]
def k0_off393 (k0_t3 : Fin k0_t3_loop.trips) : Fin 3 → Nat :=
  let c2_i32_69 : BitVec 32 := 2#32
  let v72 : Index := Scalar.indexCast c2_i32_69
  let c0_i32_52 : BitVec 32 := 0#32
  let c1_i32_54 : BitVec 32 := 1#32
  let arg16 : BitVec 32 := Scf.iv c0_i32_52 c1_i32_54 k0_t3
  let v73 : Index := Scalar.indexCast arg16
  let c0_70 : Index := 0#32
  ![2, v73.toNat, 0]
def k0_off394 (k0_t3 : Fin k0_t3_loop.trips) : Fin 3 → Nat :=
  let c3_i32 : BitVec 32 := 3#32
  let v80 : Index := Scalar.indexCast c3_i32
  let c0_i32_52 : BitVec 32 := 0#32
  let c1_i32_54 : BitVec 32 := 1#32
  let arg16 : BitVec 32 := Scf.iv c0_i32_52 c1_i32_54 k0_t3
  let v81 : Index := Scalar.indexCast arg16
  let c0_71 : Index := 0#32
  ![3, v81.toNat, 0]
def k0_off395 (k0_t3 : Fin k0_t3_loop.trips) : Fin 3 → Nat :=
  let c4_i32 : BitVec 32 := 4#32
  let v88 : Index := Scalar.indexCast c4_i32
  let c0_i32_52 : BitVec 32 := 0#32
  let c1_i32_54 : BitVec 32 := 1#32
  let arg16 : BitVec 32 := Scf.iv c0_i32_52 c1_i32_54 k0_t3
  let v89 : Index := Scalar.indexCast arg16
  let c0_72 : Index := 0#32
  ![4, v89.toNat, 0]
def k0_off396 (k0_t3 : Fin k0_t3_loop.trips) : Fin 3 → Nat :=
  let c5_i32 : BitVec 32 := 5#32
  let v96 : Index := Scalar.indexCast c5_i32
  let c0_i32_52 : BitVec 32 := 0#32
  let c1_i32_54 : BitVec 32 := 1#32
  let arg16 : BitVec 32 := Scf.iv c0_i32_52 c1_i32_54 k0_t3
  let v97 : Index := Scalar.indexCast arg16
  let c0_73 : Index := 0#32
  ![5, v97.toNat, 0]
def k0_off397 (k0_t3 : Fin k0_t3_loop.trips) : Fin 3 → Nat :=
  let c6_i32 : BitVec 32 := 6#32
  let v104 : Index := Scalar.indexCast c6_i32
  let c0_i32_52 : BitVec 32 := 0#32
  let c1_i32_54 : BitVec 32 := 1#32
  let arg16 : BitVec 32 := Scf.iv c0_i32_52 c1_i32_54 k0_t3
  let v105 : Index := Scalar.indexCast arg16
  let c0_74 : Index := 0#32
  ![6, v105.toNat, 0]
def k0_off398 (k0_t3 : Fin k0_t3_loop.trips) : Fin 3 → Nat :=
  let c7_i32 : BitVec 32 := 7#32
  let v112 : Index := Scalar.indexCast c7_i32
  let c0_i32_52 : BitVec 32 := 0#32
  let c1_i32_54 : BitVec 32 := 1#32
  let arg16 : BitVec 32 := Scf.iv c0_i32_52 c1_i32_54 k0_t3
  let v113 : Index := Scalar.indexCast arg16
  let c0_75 : Index := 0#32
  ![7, v113.toNat, 0]
def k0_off399 (k0_t3 : Fin k0_t3_loop.trips) : Fin 3 → Nat :=
  let c8_i32_76 : BitVec 32 := 8#32
  let v121 : Index := Scalar.indexCast c8_i32_76
  let c0_i32_52 : BitVec 32 := 0#32
  let c1_i32_54 : BitVec 32 := 1#32
  let arg16 : BitVec 32 := Scf.iv c0_i32_52 c1_i32_54 k0_t3
  let v122 : Index := Scalar.indexCast arg16
  let c0_77 : Index := 0#32
  ![8, v122.toNat, 0]
def k0_off400 (k0_t3 : Fin k0_t3_loop.trips) : Fin 3 → Nat :=
  let c9_i32 : BitVec 32 := 9#32
  let v130 : Index := Scalar.indexCast c9_i32
  let c0_i32_52 : BitVec 32 := 0#32
  let c1_i32_54 : BitVec 32 := 1#32
  let arg16 : BitVec 32 := Scf.iv c0_i32_52 c1_i32_54 k0_t3
  let v131 : Index := Scalar.indexCast arg16
  let c0_78 : Index := 0#32
  ![9, v131.toNat, 0]
def k0_off401 (k0_t3 : Fin k0_t3_loop.trips) : Fin 3 → Nat :=
  let c10_i32 : BitVec 32 := 10#32
  let v139 : Index := Scalar.indexCast c10_i32
  let c0_i32_52 : BitVec 32 := 0#32
  let c1_i32_54 : BitVec 32 := 1#32
  let arg16 : BitVec 32 := Scf.iv c0_i32_52 c1_i32_54 k0_t3
  let v140 : Index := Scalar.indexCast arg16
  let c0_79 : Index := 0#32
  ![10, v140.toNat, 0]
def k0_off402 (k0_t3 : Fin k0_t3_loop.trips) : Fin 3 → Nat :=
  let c11_i32 : BitVec 32 := 11#32
  let v148 : Index := Scalar.indexCast c11_i32
  let c0_i32_52 : BitVec 32 := 0#32
  let c1_i32_54 : BitVec 32 := 1#32
  let arg16 : BitVec 32 := Scf.iv c0_i32_52 c1_i32_54 k0_t3
  let v149 : Index := Scalar.indexCast arg16
  let c0_80 : Index := 0#32
  ![11, v149.toNat, 0]
def k0_off403 (k0_t3 : Fin k0_t3_loop.trips) : Fin 3 → Nat :=
  let c12_i32 : BitVec 32 := 12#32
  let v157 : Index := Scalar.indexCast c12_i32
  let c0_i32_52 : BitVec 32 := 0#32
  let c1_i32_54 : BitVec 32 := 1#32
  let arg16 : BitVec 32 := Scf.iv c0_i32_52 c1_i32_54 k0_t3
  let v158 : Index := Scalar.indexCast arg16
  let c0_81 : Index := 0#32
  ![12, v158.toNat, 0]
def k0_off404 (k0_t3 : Fin k0_t3_loop.trips) : Fin 3 → Nat :=
  let c13_i32 : BitVec 32 := 13#32
  let v165 : Index := Scalar.indexCast c13_i32
  let c0_i32_52 : BitVec 32 := 0#32
  let c1_i32_54 : BitVec 32 := 1#32
  let arg16 : BitVec 32 := Scf.iv c0_i32_52 c1_i32_54 k0_t3
  let v166 : Index := Scalar.indexCast arg16
  let c0_82 : Index := 0#32
  ![13, v166.toNat, 0]
def k0_off405 (k0_t3 : Fin k0_t3_loop.trips) : Fin 3 → Nat :=
  let c14_i32_83 : BitVec 32 := 14#32
  let v174 : Index := Scalar.indexCast c14_i32_83
  let c0_i32_52 : BitVec 32 := 0#32
  let c1_i32_54 : BitVec 32 := 1#32
  let arg16 : BitVec 32 := Scf.iv c0_i32_52 c1_i32_54 k0_t3
  let v175 : Index := Scalar.indexCast arg16
  let c0_84 : Index := 0#32
  ![14, v175.toNat, 0]
def k0_off406 (k0_t3 : Fin k0_t3_loop.trips) : Fin 3 → Nat :=
  let c15_i32 : BitVec 32 := 15#32
  let v183 : Index := Scalar.indexCast c15_i32
  let c0_i32_52 : BitVec 32 := 0#32
  let c1_i32_54 : BitVec 32 := 1#32
  let arg16 : BitVec 32 := Scf.iv c0_i32_52 c1_i32_54 k0_t3
  let v184 : Index := Scalar.indexCast arg16
  let c0_85 : Index := 0#32
  ![15, v184.toNat, 0]
def k0_off407 (k0_t3 : Fin k0_t3_loop.trips) : Fin 3 → Nat :=
  let c16_i32 : BitVec 32 := 16#32
  let v192 : Index := Scalar.indexCast c16_i32
  let c0_i32_52 : BitVec 32 := 0#32
  let c1_i32_54 : BitVec 32 := 1#32
  let arg16 : BitVec 32 := Scf.iv c0_i32_52 c1_i32_54 k0_t3
  let v193 : Index := Scalar.indexCast arg16
  let c0_86 : Index := 0#32
  ![16, v193.toNat, 0]
def k0_off408 (k0_t3 : Fin k0_t3_loop.trips) : Fin 3 → Nat :=
  let c17_i32 : BitVec 32 := 17#32
  let v201 : Index := Scalar.indexCast c17_i32
  let c0_i32_52 : BitVec 32 := 0#32
  let c1_i32_54 : BitVec 32 := 1#32
  let arg16 : BitVec 32 := Scf.iv c0_i32_52 c1_i32_54 k0_t3
  let v202 : Index := Scalar.indexCast arg16
  let c0_87 : Index := 0#32
  ![17, v202.toNat, 0]
def k0_off409 (k0_t3 : Fin k0_t3_loop.trips) : Fin 3 → Nat :=
  let c18_i32 : BitVec 32 := 18#32
  let v210 : Index := Scalar.indexCast c18_i32
  let c0_i32_52 : BitVec 32 := 0#32
  let c1_i32_54 : BitVec 32 := 1#32
  let arg16 : BitVec 32 := Scf.iv c0_i32_52 c1_i32_54 k0_t3
  let v211 : Index := Scalar.indexCast arg16
  let c0_88 : Index := 0#32
  ![18, v211.toNat, 0]
def k0_off410 (k0_t3 : Fin k0_t3_loop.trips) : Fin 3 → Nat :=
  let c19_i32 : BitVec 32 := 19#32
  let v218 : Index := Scalar.indexCast c19_i32
  let c0_i32_52 : BitVec 32 := 0#32
  let c1_i32_54 : BitVec 32 := 1#32
  let arg16 : BitVec 32 := Scf.iv c0_i32_52 c1_i32_54 k0_t3
  let v219 : Index := Scalar.indexCast arg16
  let c0_89 : Index := 0#32
  ![19, v219.toNat, 0]
def k0_off411 (k0_t3 : Fin k0_t3_loop.trips) : Fin 3 → Nat :=
  let c20_i32 : BitVec 32 := 20#32
  let v227 : Index := Scalar.indexCast c20_i32
  let c0_i32_52 : BitVec 32 := 0#32
  let c1_i32_54 : BitVec 32 := 1#32
  let arg16 : BitVec 32 := Scf.iv c0_i32_52 c1_i32_54 k0_t3
  let v228 : Index := Scalar.indexCast arg16
  let c0_90 : Index := 0#32
  ![20, v228.toNat, 0]
def k0_off412 (k0_t3 : Fin k0_t3_loop.trips) : Fin 3 → Nat :=
  let c21_i32 : BitVec 32 := 21#32
  let v236 : Index := Scalar.indexCast c21_i32
  let c0_i32_52 : BitVec 32 := 0#32
  let c1_i32_54 : BitVec 32 := 1#32
  let arg16 : BitVec 32 := Scf.iv c0_i32_52 c1_i32_54 k0_t3
  let v237 : Index := Scalar.indexCast arg16
  let c0_91 : Index := 0#32
  ![21, v237.toNat, 0]
def k0_off413 (k0_t3 : Fin k0_t3_loop.trips) : Fin 3 → Nat :=
  let c22_i32 : BitVec 32 := 22#32
  let v245 : Index := Scalar.indexCast c22_i32
  let c0_i32_52 : BitVec 32 := 0#32
  let c1_i32_54 : BitVec 32 := 1#32
  let arg16 : BitVec 32 := Scf.iv c0_i32_52 c1_i32_54 k0_t3
  let v246 : Index := Scalar.indexCast arg16
  let c0_92 : Index := 0#32
  ![22, v246.toNat, 0]
def k0_off414 (k0_t3 : Fin k0_t3_loop.trips) : Fin 3 → Nat :=
  let c23_i32 : BitVec 32 := 23#32
  let v254 : Index := Scalar.indexCast c23_i32
  let c0_i32_52 : BitVec 32 := 0#32
  let c1_i32_54 : BitVec 32 := 1#32
  let arg16 : BitVec 32 := Scf.iv c0_i32_52 c1_i32_54 k0_t3
  let v255 : Index := Scalar.indexCast arg16
  let c0_93 : Index := 0#32
  ![23, v255.toNat, 0]
def k0_off415 (k0_t3 : Fin k0_t3_loop.trips) : Fin 3 → Nat :=
  let c24_i32 : BitVec 32 := 24#32
  let v263 : Index := Scalar.indexCast c24_i32
  let c0_i32_52 : BitVec 32 := 0#32
  let c1_i32_54 : BitVec 32 := 1#32
  let arg16 : BitVec 32 := Scf.iv c0_i32_52 c1_i32_54 k0_t3
  let v264 : Index := Scalar.indexCast arg16
  let c0_94 : Index := 0#32
  ![24, v264.toNat, 0]
def k0_off416 (k0_t3 : Fin k0_t3_loop.trips) : Fin 3 → Nat :=
  let c25_i32 : BitVec 32 := 25#32
  let v271 : Index := Scalar.indexCast c25_i32
  let c0_i32_52 : BitVec 32 := 0#32
  let c1_i32_54 : BitVec 32 := 1#32
  let arg16 : BitVec 32 := Scf.iv c0_i32_52 c1_i32_54 k0_t3
  let v272 : Index := Scalar.indexCast arg16
  let c0_95 : Index := 0#32
  ![25, v272.toNat, 0]
def k0_off417 (k0_t3 : Fin k0_t3_loop.trips) : Fin 3 → Nat :=
  let c26_i32 : BitVec 32 := 26#32
  let v280 : Index := Scalar.indexCast c26_i32
  let c0_i32_52 : BitVec 32 := 0#32
  let c1_i32_54 : BitVec 32 := 1#32
  let arg16 : BitVec 32 := Scf.iv c0_i32_52 c1_i32_54 k0_t3
  let v281 : Index := Scalar.indexCast arg16
  let c0_96 : Index := 0#32
  ![26, v281.toNat, 0]
def k0_off418 (k0_t3 : Fin k0_t3_loop.trips) : Fin 3 → Nat :=
  let c27_i32 : BitVec 32 := 27#32
  let v289 : Index := Scalar.indexCast c27_i32
  let c0_i32_52 : BitVec 32 := 0#32
  let c1_i32_54 : BitVec 32 := 1#32
  let arg16 : BitVec 32 := Scf.iv c0_i32_52 c1_i32_54 k0_t3
  let v290 : Index := Scalar.indexCast arg16
  let c0_97 : Index := 0#32
  ![27, v290.toNat, 0]
def k0_off419 (k0_t3 : Fin k0_t3_loop.trips) : Fin 3 → Nat :=
  let c28_i32_98 : BitVec 32 := 28#32
  let v298 : Index := Scalar.indexCast c28_i32_98
  let c0_i32_52 : BitVec 32 := 0#32
  let c1_i32_54 : BitVec 32 := 1#32
  let arg16 : BitVec 32 := Scf.iv c0_i32_52 c1_i32_54 k0_t3
  let v299 : Index := Scalar.indexCast arg16
  let c0_99 : Index := 0#32
  ![28, v299.toNat, 0]
def k0_off420 (k0_t3 : Fin k0_t3_loop.trips) : Fin 3 → Nat :=
  let c29_i32 : BitVec 32 := 29#32
  let v307 : Index := Scalar.indexCast c29_i32
  let c0_i32_52 : BitVec 32 := 0#32
  let c1_i32_54 : BitVec 32 := 1#32
  let arg16 : BitVec 32 := Scf.iv c0_i32_52 c1_i32_54 k0_t3
  let v308 : Index := Scalar.indexCast arg16
  let c0_100 : Index := 0#32
  ![29, v308.toNat, 0]
def k0_off421 (k0_t3 : Fin k0_t3_loop.trips) : Fin 3 → Nat :=
  let c30_i32 : BitVec 32 := 30#32
  let v316 : Index := Scalar.indexCast c30_i32
  let c0_i32_52 : BitVec 32 := 0#32
  let c1_i32_54 : BitVec 32 := 1#32
  let arg16 : BitVec 32 := Scf.iv c0_i32_52 c1_i32_54 k0_t3
  let v317 : Index := Scalar.indexCast arg16
  let c0_101 : Index := 0#32
  ![30, v317.toNat, 0]
def k0_off422 (k0_t3 : Fin k0_t3_loop.trips) : Fin 3 → Nat :=
  let c31_i32 : BitVec 32 := 31#32
  let v324 : Index := Scalar.indexCast c31_i32
  let c0_i32_52 : BitVec 32 := 0#32
  let c1_i32_54 : BitVec 32 := 1#32
  let arg16 : BitVec 32 := Scf.iv c0_i32_52 c1_i32_54 k0_t3
  let v325 : Index := Scalar.indexCast arg16
  let c0_102 : Index := 0#32
  ![31, v325.toNat, 0]
def k0_off423 (k0_t3 : Fin k0_t3_loop.trips) : Fin 3 → Nat :=
  let c32_i32 : BitVec 32 := 32#32
  let v333 : Index := Scalar.indexCast c32_i32
  let c0_i32_52 : BitVec 32 := 0#32
  let c1_i32_54 : BitVec 32 := 1#32
  let arg16 : BitVec 32 := Scf.iv c0_i32_52 c1_i32_54 k0_t3
  let v334 : Index := Scalar.indexCast arg16
  let c0_103 : Index := 0#32
  ![32, v334.toNat, 0]
def k0_off424 (k0_t3 : Fin k0_t3_loop.trips) : Fin 3 → Nat :=
  let c33_i32 : BitVec 32 := 33#32
  let v342 : Index := Scalar.indexCast c33_i32
  let c0_i32_52 : BitVec 32 := 0#32
  let c1_i32_54 : BitVec 32 := 1#32
  let arg16 : BitVec 32 := Scf.iv c0_i32_52 c1_i32_54 k0_t3
  let v343 : Index := Scalar.indexCast arg16
  let c0_104 : Index := 0#32
  ![33, v343.toNat, 0]
def k0_off425 (k0_t3 : Fin k0_t3_loop.trips) : Fin 3 → Nat :=
  let c34_i32 : BitVec 32 := 34#32
  let v351 : Index := Scalar.indexCast c34_i32
  let c0_i32_52 : BitVec 32 := 0#32
  let c1_i32_54 : BitVec 32 := 1#32
  let arg16 : BitVec 32 := Scf.iv c0_i32_52 c1_i32_54 k0_t3
  let v352 : Index := Scalar.indexCast arg16
  let c0_105 : Index := 0#32
  ![34, v352.toNat, 0]
def k0_off426 (k0_t3 : Fin k0_t3_loop.trips) : Fin 3 → Nat :=
  let c35_i32 : BitVec 32 := 35#32
  let v360 : Index := Scalar.indexCast c35_i32
  let c0_i32_52 : BitVec 32 := 0#32
  let c1_i32_54 : BitVec 32 := 1#32
  let arg16 : BitVec 32 := Scf.iv c0_i32_52 c1_i32_54 k0_t3
  let v361 : Index := Scalar.indexCast arg16
  let c0_106 : Index := 0#32
  ![35, v361.toNat, 0]
def k0_off427 (k0_t3 : Fin k0_t3_loop.trips) : Fin 3 → Nat :=
  let c0_i32_107 : BitVec 32 := 0#32
  let v369 : Index := Scalar.indexCast c0_i32_107
  let c0_i32_52 : BitVec 32 := 0#32
  let c1_i32_54 : BitVec 32 := 1#32
  let arg16 : BitVec 32 := Scf.iv c0_i32_52 c1_i32_54 k0_t3
  let v370 : Index := Scalar.indexCast arg16
  let c0_108 : Index := 0#32
  ![0, v370.toNat, 0]
def k0_off428 (k0_t3 : Fin k0_t3_loop.trips) : Fin 3 → Nat :=
  let c1_i32_109 : BitVec 32 := 1#32
  let v374 : Index := Scalar.indexCast c1_i32_109
  let c0_i32_52 : BitVec 32 := 0#32
  let c1_i32_54 : BitVec 32 := 1#32
  let arg16 : BitVec 32 := Scf.iv c0_i32_52 c1_i32_54 k0_t3
  let v375 : Index := Scalar.indexCast arg16
  let c0_110 : Index := 0#32
  ![1, v375.toNat, 0]
def k0_off429 (k0_t3 : Fin k0_t3_loop.trips) : Fin 3 → Nat :=
  let c2_i32_111 : BitVec 32 := 2#32
  let v379 : Index := Scalar.indexCast c2_i32_111
  let c0_i32_52 : BitVec 32 := 0#32
  let c1_i32_54 : BitVec 32 := 1#32
  let arg16 : BitVec 32 := Scf.iv c0_i32_52 c1_i32_54 k0_t3
  let v380 : Index := Scalar.indexCast arg16
  let c0_112 : Index := 0#32
  ![2, v380.toNat, 0]
def k0_off430 (k0_t3 : Fin k0_t3_loop.trips) : Fin 3 → Nat :=
  let c3_i32_113 : BitVec 32 := 3#32
  let v384 : Index := Scalar.indexCast c3_i32_113
  let c0_i32_52 : BitVec 32 := 0#32
  let c1_i32_54 : BitVec 32 := 1#32
  let arg16 : BitVec 32 := Scf.iv c0_i32_52 c1_i32_54 k0_t3
  let v385 : Index := Scalar.indexCast arg16
  let c0_114 : Index := 0#32
  ![3, v385.toNat, 0]
def k0_off431 (k0_t3 : Fin k0_t3_loop.trips) : Fin 3 → Nat :=
  let c4_i32_115 : BitVec 32 := 4#32
  let v389 : Index := Scalar.indexCast c4_i32_115
  let c0_i32_52 : BitVec 32 := 0#32
  let c1_i32_54 : BitVec 32 := 1#32
  let arg16 : BitVec 32 := Scf.iv c0_i32_52 c1_i32_54 k0_t3
  let v390 : Index := Scalar.indexCast arg16
  let c0_116 : Index := 0#32
  ![4, v390.toNat, 0]
def k0_off432 (k0_t3 : Fin k0_t3_loop.trips) : Fin 3 → Nat :=
  let c5_i32_117 : BitVec 32 := 5#32
  let v394 : Index := Scalar.indexCast c5_i32_117
  let c0_i32_52 : BitVec 32 := 0#32
  let c1_i32_54 : BitVec 32 := 1#32
  let arg16 : BitVec 32 := Scf.iv c0_i32_52 c1_i32_54 k0_t3
  let v395 : Index := Scalar.indexCast arg16
  let c0_118 : Index := 0#32
  ![5, v395.toNat, 0]
def k0_off433 (k0_t3 : Fin k0_t3_loop.trips) : Fin 3 → Nat :=
  let c6_i32_119 : BitVec 32 := 6#32
  let v399 : Index := Scalar.indexCast c6_i32_119
  let c0_i32_52 : BitVec 32 := 0#32
  let c1_i32_54 : BitVec 32 := 1#32
  let arg16 : BitVec 32 := Scf.iv c0_i32_52 c1_i32_54 k0_t3
  let v400 : Index := Scalar.indexCast arg16
  let c0_120 : Index := 0#32
  ![6, v400.toNat, 0]
def k0_off434 (k0_t3 : Fin k0_t3_loop.trips) : Fin 3 → Nat :=
  let c7_i32_121 : BitVec 32 := 7#32
  let v404 : Index := Scalar.indexCast c7_i32_121
  let c0_i32_52 : BitVec 32 := 0#32
  let c1_i32_54 : BitVec 32 := 1#32
  let arg16 : BitVec 32 := Scf.iv c0_i32_52 c1_i32_54 k0_t3
  let v405 : Index := Scalar.indexCast arg16
  let c0_122 : Index := 0#32
  ![7, v405.toNat, 0]
def k0_off435 (k0_t3 : Fin k0_t3_loop.trips) : Fin 3 → Nat :=
  let c8_i32_123 : BitVec 32 := 8#32
  let v409 : Index := Scalar.indexCast c8_i32_123
  let c0_i32_52 : BitVec 32 := 0#32
  let c1_i32_54 : BitVec 32 := 1#32
  let arg16 : BitVec 32 := Scf.iv c0_i32_52 c1_i32_54 k0_t3
  let v410 : Index := Scalar.indexCast arg16
  let c0_124 : Index := 0#32
  ![8, v410.toNat, 0]
def k0_off436 (k0_t3 : Fin k0_t3_loop.trips) : Fin 3 → Nat :=
  let c9_i32_125 : BitVec 32 := 9#32
  let v414 : Index := Scalar.indexCast c9_i32_125
  let c0_i32_52 : BitVec 32 := 0#32
  let c1_i32_54 : BitVec 32 := 1#32
  let arg16 : BitVec 32 := Scf.iv c0_i32_52 c1_i32_54 k0_t3
  let v415 : Index := Scalar.indexCast arg16
  let c0_126 : Index := 0#32
  ![9, v415.toNat, 0]
def k0_off437 (k0_t3 : Fin k0_t3_loop.trips) : Fin 3 → Nat :=
  let c10_i32_127 : BitVec 32 := 10#32
  let v419 : Index := Scalar.indexCast c10_i32_127
  let c0_i32_52 : BitVec 32 := 0#32
  let c1_i32_54 : BitVec 32 := 1#32
  let arg16 : BitVec 32 := Scf.iv c0_i32_52 c1_i32_54 k0_t3
  let v420 : Index := Scalar.indexCast arg16
  let c0_128 : Index := 0#32
  ![10, v420.toNat, 0]
def k0_off438 (k0_t3 : Fin k0_t3_loop.trips) : Fin 3 → Nat :=
  let c11_i32_129 : BitVec 32 := 11#32
  let v424 : Index := Scalar.indexCast c11_i32_129
  let c0_i32_52 : BitVec 32 := 0#32
  let c1_i32_54 : BitVec 32 := 1#32
  let arg16 : BitVec 32 := Scf.iv c0_i32_52 c1_i32_54 k0_t3
  let v425 : Index := Scalar.indexCast arg16
  let c0_130 : Index := 0#32
  ![11, v425.toNat, 0]
def k0_off439 (k0_t3 : Fin k0_t3_loop.trips) : Fin 3 → Nat :=
  let c0_i32_131 : BitVec 32 := 0#32
  let v429 : Index := Scalar.indexCast c0_i32_131
  let c0_i32_52 : BitVec 32 := 0#32
  let c1_i32_54 : BitVec 32 := 1#32
  let arg16 : BitVec 32 := Scf.iv c0_i32_52 c1_i32_54 k0_t3
  let v430 : Index := Scalar.indexCast arg16
  let c16_132 : Index := 16#32
  ![0, v430.toNat, 16]
def k0_off440 (k0_t3 : Fin k0_t3_loop.trips) : Fin 3 → Nat :=
  let c1_i32_134 : BitVec 32 := 1#32
  let v436 : Index := Scalar.indexCast c1_i32_134
  let c0_i32_52 : BitVec 32 := 0#32
  let c1_i32_54 : BitVec 32 := 1#32
  let arg16 : BitVec 32 := Scf.iv c0_i32_52 c1_i32_54 k0_t3
  let v437 : Index := Scalar.indexCast arg16
  let c16_135 : Index := 16#32
  ![1, v437.toNat, 16]
def k0_off441 (k0_t3 : Fin k0_t3_loop.trips) : Fin 3 → Nat :=
  let c2_i32_137 : BitVec 32 := 2#32
  let v444 : Index := Scalar.indexCast c2_i32_137
  let c0_i32_52 : BitVec 32 := 0#32
  let c1_i32_54 : BitVec 32 := 1#32
  let arg16 : BitVec 32 := Scf.iv c0_i32_52 c1_i32_54 k0_t3
  let v445 : Index := Scalar.indexCast arg16
  let c16_138 : Index := 16#32
  ![2, v445.toNat, 16]
def k0_off442 (k0_t3 : Fin k0_t3_loop.trips) : Fin 3 → Nat :=
  let c3_i32_140 : BitVec 32 := 3#32
  let v452 : Index := Scalar.indexCast c3_i32_140
  let c0_i32_52 : BitVec 32 := 0#32
  let c1_i32_54 : BitVec 32 := 1#32
  let arg16 : BitVec 32 := Scf.iv c0_i32_52 c1_i32_54 k0_t3
  let v453 : Index := Scalar.indexCast arg16
  let c16_141 : Index := 16#32
  ![3, v453.toNat, 16]
def k0_off443 (k0_t3 : Fin k0_t3_loop.trips) : Fin 3 → Nat :=
  let c4_i32_143 : BitVec 32 := 4#32
  let v460 : Index := Scalar.indexCast c4_i32_143
  let c0_i32_52 : BitVec 32 := 0#32
  let c1_i32_54 : BitVec 32 := 1#32
  let arg16 : BitVec 32 := Scf.iv c0_i32_52 c1_i32_54 k0_t3
  let v461 : Index := Scalar.indexCast arg16
  let c16_144 : Index := 16#32
  ![4, v461.toNat, 16]
def k0_off444 (k0_t3 : Fin k0_t3_loop.trips) : Fin 3 → Nat :=
  let c5_i32_146 : BitVec 32 := 5#32
  let v468 : Index := Scalar.indexCast c5_i32_146
  let c0_i32_52 : BitVec 32 := 0#32
  let c1_i32_54 : BitVec 32 := 1#32
  let arg16 : BitVec 32 := Scf.iv c0_i32_52 c1_i32_54 k0_t3
  let v469 : Index := Scalar.indexCast arg16
  let c16_147 : Index := 16#32
  ![5, v469.toNat, 16]
def k0_off445 (k0_t3 : Fin k0_t3_loop.trips) : Fin 3 → Nat :=
  let c6_i32_149 : BitVec 32 := 6#32
  let v476 : Index := Scalar.indexCast c6_i32_149
  let c0_i32_52 : BitVec 32 := 0#32
  let c1_i32_54 : BitVec 32 := 1#32
  let arg16 : BitVec 32 := Scf.iv c0_i32_52 c1_i32_54 k0_t3
  let v477 : Index := Scalar.indexCast arg16
  let c16_150 : Index := 16#32
  ![6, v477.toNat, 16]
def k0_off446 (k0_t3 : Fin k0_t3_loop.trips) : Fin 3 → Nat :=
  let c7_i32_152 : BitVec 32 := 7#32
  let v484 : Index := Scalar.indexCast c7_i32_152
  let c0_i32_52 : BitVec 32 := 0#32
  let c1_i32_54 : BitVec 32 := 1#32
  let arg16 : BitVec 32 := Scf.iv c0_i32_52 c1_i32_54 k0_t3
  let v485 : Index := Scalar.indexCast arg16
  let c16_153 : Index := 16#32
  ![7, v485.toNat, 16]
def k0_off447 (k0_t3 : Fin k0_t3_loop.trips) : Fin 3 → Nat :=
  let c8_i32_155 : BitVec 32 := 8#32
  let v493 : Index := Scalar.indexCast c8_i32_155
  let c0_i32_52 : BitVec 32 := 0#32
  let c1_i32_54 : BitVec 32 := 1#32
  let arg16 : BitVec 32 := Scf.iv c0_i32_52 c1_i32_54 k0_t3
  let v494 : Index := Scalar.indexCast arg16
  let c16_156 : Index := 16#32
  ![8, v494.toNat, 16]
def k0_off448 (k0_t3 : Fin k0_t3_loop.trips) : Fin 3 → Nat :=
  let c9_i32_158 : BitVec 32 := 9#32
  let v502 : Index := Scalar.indexCast c9_i32_158
  let c0_i32_52 : BitVec 32 := 0#32
  let c1_i32_54 : BitVec 32 := 1#32
  let arg16 : BitVec 32 := Scf.iv c0_i32_52 c1_i32_54 k0_t3
  let v503 : Index := Scalar.indexCast arg16
  let c16_159 : Index := 16#32
  ![9, v503.toNat, 16]
def k0_off449 (k0_t3 : Fin k0_t3_loop.trips) : Fin 3 → Nat :=
  let c10_i32_161 : BitVec 32 := 10#32
  let v511 : Index := Scalar.indexCast c10_i32_161
  let c0_i32_52 : BitVec 32 := 0#32
  let c1_i32_54 : BitVec 32 := 1#32
  let arg16 : BitVec 32 := Scf.iv c0_i32_52 c1_i32_54 k0_t3
  let v512 : Index := Scalar.indexCast arg16
  let c16_162 : Index := 16#32
  ![10, v512.toNat, 16]
def k0_off450 (k0_t3 : Fin k0_t3_loop.trips) : Fin 3 → Nat :=
  let c11_i32_164 : BitVec 32 := 11#32
  let v520 : Index := Scalar.indexCast c11_i32_164
  let c0_i32_52 : BitVec 32 := 0#32
  let c1_i32_54 : BitVec 32 := 1#32
  let arg16 : BitVec 32 := Scf.iv c0_i32_52 c1_i32_54 k0_t3
  let v521 : Index := Scalar.indexCast arg16
  let c16_165 : Index := 16#32
  ![11, v521.toNat, 16]
def k0_off451 (k0_t3 : Fin k0_t3_loop.trips) : Fin 3 → Nat :=
  let c12_i32_167 : BitVec 32 := 12#32
  let v529 : Index := Scalar.indexCast c12_i32_167
  let c0_i32_52 : BitVec 32 := 0#32
  let c1_i32_54 : BitVec 32 := 1#32
  let arg16 : BitVec 32 := Scf.iv c0_i32_52 c1_i32_54 k0_t3
  let v530 : Index := Scalar.indexCast arg16
  let c16_168 : Index := 16#32
  ![12, v530.toNat, 16]
def k0_off452 (k0_t3 : Fin k0_t3_loop.trips) : Fin 3 → Nat :=
  let c13_i32_170 : BitVec 32 := 13#32
  let v537 : Index := Scalar.indexCast c13_i32_170
  let c0_i32_52 : BitVec 32 := 0#32
  let c1_i32_54 : BitVec 32 := 1#32
  let arg16 : BitVec 32 := Scf.iv c0_i32_52 c1_i32_54 k0_t3
  let v538 : Index := Scalar.indexCast arg16
  let c16_171 : Index := 16#32
  ![13, v538.toNat, 16]
def k0_off453 (k0_t3 : Fin k0_t3_loop.trips) : Fin 3 → Nat :=
  let c14_i32_173 : BitVec 32 := 14#32
  let v546 : Index := Scalar.indexCast c14_i32_173
  let c0_i32_52 : BitVec 32 := 0#32
  let c1_i32_54 : BitVec 32 := 1#32
  let arg16 : BitVec 32 := Scf.iv c0_i32_52 c1_i32_54 k0_t3
  let v547 : Index := Scalar.indexCast arg16
  let c16_174 : Index := 16#32
  ![14, v547.toNat, 16]
def k0_off454 (k0_t3 : Fin k0_t3_loop.trips) : Fin 3 → Nat :=
  let c15_i32_176 : BitVec 32 := 15#32
  let v555 : Index := Scalar.indexCast c15_i32_176
  let c0_i32_52 : BitVec 32 := 0#32
  let c1_i32_54 : BitVec 32 := 1#32
  let arg16 : BitVec 32 := Scf.iv c0_i32_52 c1_i32_54 k0_t3
  let v556 : Index := Scalar.indexCast arg16
  let c16_177 : Index := 16#32
  ![15, v556.toNat, 16]
def k0_off455 (k0_t3 : Fin k0_t3_loop.trips) : Fin 3 → Nat :=
  let c16_i32_179 : BitVec 32 := 16#32
  let v564 : Index := Scalar.indexCast c16_i32_179
  let c0_i32_52 : BitVec 32 := 0#32
  let c1_i32_54 : BitVec 32 := 1#32
  let arg16 : BitVec 32 := Scf.iv c0_i32_52 c1_i32_54 k0_t3
  let v565 : Index := Scalar.indexCast arg16
  let c16_180 : Index := 16#32
  ![16, v565.toNat, 16]
def k0_off456 (k0_t3 : Fin k0_t3_loop.trips) : Fin 3 → Nat :=
  let c17_i32_182 : BitVec 32 := 17#32
  let v573 : Index := Scalar.indexCast c17_i32_182
  let c0_i32_52 : BitVec 32 := 0#32
  let c1_i32_54 : BitVec 32 := 1#32
  let arg16 : BitVec 32 := Scf.iv c0_i32_52 c1_i32_54 k0_t3
  let v574 : Index := Scalar.indexCast arg16
  let c16_183 : Index := 16#32
  ![17, v574.toNat, 16]
def k0_off457 (k0_t3 : Fin k0_t3_loop.trips) : Fin 3 → Nat :=
  let c18_i32_185 : BitVec 32 := 18#32
  let v582 : Index := Scalar.indexCast c18_i32_185
  let c0_i32_52 : BitVec 32 := 0#32
  let c1_i32_54 : BitVec 32 := 1#32
  let arg16 : BitVec 32 := Scf.iv c0_i32_52 c1_i32_54 k0_t3
  let v583 : Index := Scalar.indexCast arg16
  let c16_186 : Index := 16#32
  ![18, v583.toNat, 16]
def k0_off458 (k0_t3 : Fin k0_t3_loop.trips) : Fin 3 → Nat :=
  let c19_i32_188 : BitVec 32 := 19#32
  let v590 : Index := Scalar.indexCast c19_i32_188
  let c0_i32_52 : BitVec 32 := 0#32
  let c1_i32_54 : BitVec 32 := 1#32
  let arg16 : BitVec 32 := Scf.iv c0_i32_52 c1_i32_54 k0_t3
  let v591 : Index := Scalar.indexCast arg16
  let c16_189 : Index := 16#32
  ![19, v591.toNat, 16]
def k0_off459 (k0_t3 : Fin k0_t3_loop.trips) : Fin 3 → Nat :=
  let c20_i32_191 : BitVec 32 := 20#32
  let v599 : Index := Scalar.indexCast c20_i32_191
  let c0_i32_52 : BitVec 32 := 0#32
  let c1_i32_54 : BitVec 32 := 1#32
  let arg16 : BitVec 32 := Scf.iv c0_i32_52 c1_i32_54 k0_t3
  let v600 : Index := Scalar.indexCast arg16
  let c16_192 : Index := 16#32
  ![20, v600.toNat, 16]
def k0_off460 (k0_t3 : Fin k0_t3_loop.trips) : Fin 3 → Nat :=
  let c21_i32_194 : BitVec 32 := 21#32
  let v608 : Index := Scalar.indexCast c21_i32_194
  let c0_i32_52 : BitVec 32 := 0#32
  let c1_i32_54 : BitVec 32 := 1#32
  let arg16 : BitVec 32 := Scf.iv c0_i32_52 c1_i32_54 k0_t3
  let v609 : Index := Scalar.indexCast arg16
  let c16_195 : Index := 16#32
  ![21, v609.toNat, 16]
def k0_off461 (k0_t3 : Fin k0_t3_loop.trips) : Fin 3 → Nat :=
  let c22_i32_197 : BitVec 32 := 22#32
  let v617 : Index := Scalar.indexCast c22_i32_197
  let c0_i32_52 : BitVec 32 := 0#32
  let c1_i32_54 : BitVec 32 := 1#32
  let arg16 : BitVec 32 := Scf.iv c0_i32_52 c1_i32_54 k0_t3
  let v618 : Index := Scalar.indexCast arg16
  let c16_198 : Index := 16#32
  ![22, v618.toNat, 16]
def k0_off462 (k0_t3 : Fin k0_t3_loop.trips) : Fin 3 → Nat :=
  let c23_i32_200 : BitVec 32 := 23#32
  let v626 : Index := Scalar.indexCast c23_i32_200
  let c0_i32_52 : BitVec 32 := 0#32
  let c1_i32_54 : BitVec 32 := 1#32
  let arg16 : BitVec 32 := Scf.iv c0_i32_52 c1_i32_54 k0_t3
  let v627 : Index := Scalar.indexCast arg16
  let c16_201 : Index := 16#32
  ![23, v627.toNat, 16]
def k0_off463 (k0_t3 : Fin k0_t3_loop.trips) : Fin 3 → Nat :=
  let c24_i32_203 : BitVec 32 := 24#32
  let v635 : Index := Scalar.indexCast c24_i32_203
  let c0_i32_52 : BitVec 32 := 0#32
  let c1_i32_54 : BitVec 32 := 1#32
  let arg16 : BitVec 32 := Scf.iv c0_i32_52 c1_i32_54 k0_t3
  let v636 : Index := Scalar.indexCast arg16
  let c16_204 : Index := 16#32
  ![24, v636.toNat, 16]
def k0_off464 (k0_t3 : Fin k0_t3_loop.trips) : Fin 3 → Nat :=
  let c25_i32_206 : BitVec 32 := 25#32
  let v643 : Index := Scalar.indexCast c25_i32_206
  let c0_i32_52 : BitVec 32 := 0#32
  let c1_i32_54 : BitVec 32 := 1#32
  let arg16 : BitVec 32 := Scf.iv c0_i32_52 c1_i32_54 k0_t3
  let v644 : Index := Scalar.indexCast arg16
  let c16_207 : Index := 16#32
  ![25, v644.toNat, 16]
def k0_off465 (k0_t3 : Fin k0_t3_loop.trips) : Fin 3 → Nat :=
  let c26_i32_209 : BitVec 32 := 26#32
  let v652 : Index := Scalar.indexCast c26_i32_209
  let c0_i32_52 : BitVec 32 := 0#32
  let c1_i32_54 : BitVec 32 := 1#32
  let arg16 : BitVec 32 := Scf.iv c0_i32_52 c1_i32_54 k0_t3
  let v653 : Index := Scalar.indexCast arg16
  let c16_210 : Index := 16#32
  ![26, v653.toNat, 16]
def k0_off466 (k0_t3 : Fin k0_t3_loop.trips) : Fin 3 → Nat :=
  let c27_i32_212 : BitVec 32 := 27#32
  let v661 : Index := Scalar.indexCast c27_i32_212
  let c0_i32_52 : BitVec 32 := 0#32
  let c1_i32_54 : BitVec 32 := 1#32
  let arg16 : BitVec 32 := Scf.iv c0_i32_52 c1_i32_54 k0_t3
  let v662 : Index := Scalar.indexCast arg16
  let c16_213 : Index := 16#32
  ![27, v662.toNat, 16]
def k0_off467 (k0_t3 : Fin k0_t3_loop.trips) : Fin 3 → Nat :=
  let c28_i32_215 : BitVec 32 := 28#32
  let v670 : Index := Scalar.indexCast c28_i32_215
  let c0_i32_52 : BitVec 32 := 0#32
  let c1_i32_54 : BitVec 32 := 1#32
  let arg16 : BitVec 32 := Scf.iv c0_i32_52 c1_i32_54 k0_t3
  let v671 : Index := Scalar.indexCast arg16
  let c16_216 : Index := 16#32
  ![28, v671.toNat, 16]
def k0_off468 (k0_t3 : Fin k0_t3_loop.trips) : Fin 3 → Nat :=
  let c29_i32_218 : BitVec 32 := 29#32
  let v679 : Index := Scalar.indexCast c29_i32_218
  let c0_i32_52 : BitVec 32 := 0#32
  let c1_i32_54 : BitVec 32 := 1#32
  let arg16 : BitVec 32 := Scf.iv c0_i32_52 c1_i32_54 k0_t3
  let v680 : Index := Scalar.indexCast arg16
  let c16_219 : Index := 16#32
  ![29, v680.toNat, 16]
def k0_off469 (k0_t3 : Fin k0_t3_loop.trips) : Fin 3 → Nat :=
  let c30_i32_221 : BitVec 32 := 30#32
  let v688 : Index := Scalar.indexCast c30_i32_221
  let c0_i32_52 : BitVec 32 := 0#32
  let c1_i32_54 : BitVec 32 := 1#32
  let arg16 : BitVec 32 := Scf.iv c0_i32_52 c1_i32_54 k0_t3
  let v689 : Index := Scalar.indexCast arg16
  let c16_222 : Index := 16#32
  ![30, v689.toNat, 16]
def k0_off470 (k0_t3 : Fin k0_t3_loop.trips) : Fin 3 → Nat :=
  let c31_i32_224 : BitVec 32 := 31#32
  let v696 : Index := Scalar.indexCast c31_i32_224
  let c0_i32_52 : BitVec 32 := 0#32
  let c1_i32_54 : BitVec 32 := 1#32
  let arg16 : BitVec 32 := Scf.iv c0_i32_52 c1_i32_54 k0_t3
  let v697 : Index := Scalar.indexCast arg16
  let c16_225 : Index := 16#32
  ![31, v697.toNat, 16]
def k0_off471 (k0_t3 : Fin k0_t3_loop.trips) : Fin 3 → Nat :=
  let c32_i32_227 : BitVec 32 := 32#32
  let v705 : Index := Scalar.indexCast c32_i32_227
  let c0_i32_52 : BitVec 32 := 0#32
  let c1_i32_54 : BitVec 32 := 1#32
  let arg16 : BitVec 32 := Scf.iv c0_i32_52 c1_i32_54 k0_t3
  let v706 : Index := Scalar.indexCast arg16
  let c16_228 : Index := 16#32
  ![32, v706.toNat, 16]
def k0_off472 (k0_t3 : Fin k0_t3_loop.trips) : Fin 3 → Nat :=
  let c33_i32_230 : BitVec 32 := 33#32
  let v714 : Index := Scalar.indexCast c33_i32_230
  let c0_i32_52 : BitVec 32 := 0#32
  let c1_i32_54 : BitVec 32 := 1#32
  let arg16 : BitVec 32 := Scf.iv c0_i32_52 c1_i32_54 k0_t3
  let v715 : Index := Scalar.indexCast arg16
  let c16_231 : Index := 16#32
  ![33, v715.toNat, 16]
def k0_off473 (k0_t3 : Fin k0_t3_loop.trips) : Fin 3 → Nat :=
  let c34_i32_233 : BitVec 32 := 34#32
  let v723 : Index := Scalar.indexCast c34_i32_233
  let c0_i32_52 : BitVec 32 := 0#32
  let c1_i32_54 : BitVec 32 := 1#32
  let arg16 : BitVec 32 := Scf.iv c0_i32_52 c1_i32_54 k0_t3
  let v724 : Index := Scalar.indexCast arg16
  let c16_234 : Index := 16#32
  ![34, v724.toNat, 16]
def k0_off474 (k0_t3 : Fin k0_t3_loop.trips) : Fin 3 → Nat :=
  let c35_i32_236 : BitVec 32 := 35#32
  let v732 : Index := Scalar.indexCast c35_i32_236
  let c0_i32_52 : BitVec 32 := 0#32
  let c1_i32_54 : BitVec 32 := 1#32
  let arg16 : BitVec 32 := Scf.iv c0_i32_52 c1_i32_54 k0_t3
  let v733 : Index := Scalar.indexCast arg16
  let c16_237 : Index := 16#32
  ![35, v733.toNat, 16]
def k0_off475 (k0_t3 : Fin k0_t3_loop.trips) : Fin 3 → Nat :=
  let c0_i32_239 : BitVec 32 := 0#32
  let v741 : Index := Scalar.indexCast c0_i32_239
  let c0_i32_52 : BitVec 32 := 0#32
  let c1_i32_54 : BitVec 32 := 1#32
  let arg16 : BitVec 32 := Scf.iv c0_i32_52 c1_i32_54 k0_t3
  let v742 : Index := Scalar.indexCast arg16
  let c16_240 : Index := 16#32
  ![0, v742.toNat, 16]
def k0_off476 (k0_t3 : Fin k0_t3_loop.trips) : Fin 3 → Nat :=
  let c1_i32_241 : BitVec 32 := 1#32
  let v746 : Index := Scalar.indexCast c1_i32_241
  let c0_i32_52 : BitVec 32 := 0#32
  let c1_i32_54 : BitVec 32 := 1#32
  let arg16 : BitVec 32 := Scf.iv c0_i32_52 c1_i32_54 k0_t3
  let v747 : Index := Scalar.indexCast arg16
  let c16_242 : Index := 16#32
  ![1, v747.toNat, 16]
def k0_off477 (k0_t3 : Fin k0_t3_loop.trips) : Fin 3 → Nat :=
  let c2_i32_243 : BitVec 32 := 2#32
  let v751 : Index := Scalar.indexCast c2_i32_243
  let c0_i32_52 : BitVec 32 := 0#32
  let c1_i32_54 : BitVec 32 := 1#32
  let arg16 : BitVec 32 := Scf.iv c0_i32_52 c1_i32_54 k0_t3
  let v752 : Index := Scalar.indexCast arg16
  let c16_244 : Index := 16#32
  ![2, v752.toNat, 16]
def k0_off478 (k0_t3 : Fin k0_t3_loop.trips) : Fin 3 → Nat :=
  let c3_i32_245 : BitVec 32 := 3#32
  let v756 : Index := Scalar.indexCast c3_i32_245
  let c0_i32_52 : BitVec 32 := 0#32
  let c1_i32_54 : BitVec 32 := 1#32
  let arg16 : BitVec 32 := Scf.iv c0_i32_52 c1_i32_54 k0_t3
  let v757 : Index := Scalar.indexCast arg16
  let c16_246 : Index := 16#32
  ![3, v757.toNat, 16]
def k0_off479 (k0_t3 : Fin k0_t3_loop.trips) : Fin 3 → Nat :=
  let c4_i32_247 : BitVec 32 := 4#32
  let v761 : Index := Scalar.indexCast c4_i32_247
  let c0_i32_52 : BitVec 32 := 0#32
  let c1_i32_54 : BitVec 32 := 1#32
  let arg16 : BitVec 32 := Scf.iv c0_i32_52 c1_i32_54 k0_t3
  let v762 : Index := Scalar.indexCast arg16
  let c16_248 : Index := 16#32
  ![4, v762.toNat, 16]
def k0_off480 (k0_t3 : Fin k0_t3_loop.trips) : Fin 3 → Nat :=
  let c5_i32_249 : BitVec 32 := 5#32
  let v766 : Index := Scalar.indexCast c5_i32_249
  let c0_i32_52 : BitVec 32 := 0#32
  let c1_i32_54 : BitVec 32 := 1#32
  let arg16 : BitVec 32 := Scf.iv c0_i32_52 c1_i32_54 k0_t3
  let v767 : Index := Scalar.indexCast arg16
  let c16_250 : Index := 16#32
  ![5, v767.toNat, 16]
def k0_off481 (k0_t3 : Fin k0_t3_loop.trips) : Fin 3 → Nat :=
  let c6_i32_251 : BitVec 32 := 6#32
  let v771 : Index := Scalar.indexCast c6_i32_251
  let c0_i32_52 : BitVec 32 := 0#32
  let c1_i32_54 : BitVec 32 := 1#32
  let arg16 : BitVec 32 := Scf.iv c0_i32_52 c1_i32_54 k0_t3
  let v772 : Index := Scalar.indexCast arg16
  let c16_252 : Index := 16#32
  ![6, v772.toNat, 16]
def k0_off482 (k0_t3 : Fin k0_t3_loop.trips) : Fin 3 → Nat :=
  let c7_i32_253 : BitVec 32 := 7#32
  let v776 : Index := Scalar.indexCast c7_i32_253
  let c0_i32_52 : BitVec 32 := 0#32
  let c1_i32_54 : BitVec 32 := 1#32
  let arg16 : BitVec 32 := Scf.iv c0_i32_52 c1_i32_54 k0_t3
  let v777 : Index := Scalar.indexCast arg16
  let c16_254 : Index := 16#32
  ![7, v777.toNat, 16]
def k0_off483 (k0_t3 : Fin k0_t3_loop.trips) : Fin 3 → Nat :=
  let c8_i32_255 : BitVec 32 := 8#32
  let v781 : Index := Scalar.indexCast c8_i32_255
  let c0_i32_52 : BitVec 32 := 0#32
  let c1_i32_54 : BitVec 32 := 1#32
  let arg16 : BitVec 32 := Scf.iv c0_i32_52 c1_i32_54 k0_t3
  let v782 : Index := Scalar.indexCast arg16
  let c16_256 : Index := 16#32
  ![8, v782.toNat, 16]
def k0_off484 (k0_t3 : Fin k0_t3_loop.trips) : Fin 3 → Nat :=
  let c9_i32_257 : BitVec 32 := 9#32
  let v786 : Index := Scalar.indexCast c9_i32_257
  let c0_i32_52 : BitVec 32 := 0#32
  let c1_i32_54 : BitVec 32 := 1#32
  let arg16 : BitVec 32 := Scf.iv c0_i32_52 c1_i32_54 k0_t3
  let v787 : Index := Scalar.indexCast arg16
  let c16_258 : Index := 16#32
  ![9, v787.toNat, 16]
def k0_off485 (k0_t3 : Fin k0_t3_loop.trips) : Fin 3 → Nat :=
  let c10_i32_259 : BitVec 32 := 10#32
  let v791 : Index := Scalar.indexCast c10_i32_259
  let c0_i32_52 : BitVec 32 := 0#32
  let c1_i32_54 : BitVec 32 := 1#32
  let arg16 : BitVec 32 := Scf.iv c0_i32_52 c1_i32_54 k0_t3
  let v792 : Index := Scalar.indexCast arg16
  let c16_260 : Index := 16#32
  ![10, v792.toNat, 16]
def k0_off486 (k0_t3 : Fin k0_t3_loop.trips) : Fin 3 → Nat :=
  let c11_i32_261 : BitVec 32 := 11#32
  let v796 : Index := Scalar.indexCast c11_i32_261
  let c0_i32_52 : BitVec 32 := 0#32
  let c1_i32_54 : BitVec 32 := 1#32
  let arg16 : BitVec 32 := Scf.iv c0_i32_52 c1_i32_54 k0_t3
  let v797 : Index := Scalar.indexCast arg16
  let c16_262 : Index := 16#32
  ![11, v797.toNat, 16]
def k0_off487 (k0_t3 : Fin k0_t3_loop.trips) : Fin 3 → Nat :=
  let c0_i32_263 : BitVec 32 := 0#32
  let v801 : Index := Scalar.indexCast c0_i32_263
  let c0_i32_52 : BitVec 32 := 0#32
  let c1_i32_54 : BitVec 32 := 1#32
  let arg16 : BitVec 32 := Scf.iv c0_i32_52 c1_i32_54 k0_t3
  let v802 : Index := Scalar.indexCast arg16
  let c32_264 : Index := 32#32
  ![0, v802.toNat, 32]
def k0_off488 (k0_t3 : Fin k0_t3_loop.trips) : Fin 3 → Nat :=
  let c1_i32_266 : BitVec 32 := 1#32
  let v808 : Index := Scalar.indexCast c1_i32_266
  let c0_i32_52 : BitVec 32 := 0#32
  let c1_i32_54 : BitVec 32 := 1#32
  let arg16 : BitVec 32 := Scf.iv c0_i32_52 c1_i32_54 k0_t3
  let v809 : Index := Scalar.indexCast arg16
  let c32_267 : Index := 32#32
  ![1, v809.toNat, 32]
def k0_off489 (k0_t3 : Fin k0_t3_loop.trips) : Fin 3 → Nat :=
  let c2_i32_269 : BitVec 32 := 2#32
  let v816 : Index := Scalar.indexCast c2_i32_269
  let c0_i32_52 : BitVec 32 := 0#32
  let c1_i32_54 : BitVec 32 := 1#32
  let arg16 : BitVec 32 := Scf.iv c0_i32_52 c1_i32_54 k0_t3
  let v817 : Index := Scalar.indexCast arg16
  let c32_270 : Index := 32#32
  ![2, v817.toNat, 32]
def k0_off490 (k0_t3 : Fin k0_t3_loop.trips) : Fin 3 → Nat :=
  let c3_i32_272 : BitVec 32 := 3#32
  let v824 : Index := Scalar.indexCast c3_i32_272
  let c0_i32_52 : BitVec 32 := 0#32
  let c1_i32_54 : BitVec 32 := 1#32
  let arg16 : BitVec 32 := Scf.iv c0_i32_52 c1_i32_54 k0_t3
  let v825 : Index := Scalar.indexCast arg16
  let c32_273 : Index := 32#32
  ![3, v825.toNat, 32]
def k0_off491 (k0_t3 : Fin k0_t3_loop.trips) : Fin 3 → Nat :=
  let c4_i32_275 : BitVec 32 := 4#32
  let v832 : Index := Scalar.indexCast c4_i32_275
  let c0_i32_52 : BitVec 32 := 0#32
  let c1_i32_54 : BitVec 32 := 1#32
  let arg16 : BitVec 32 := Scf.iv c0_i32_52 c1_i32_54 k0_t3
  let v833 : Index := Scalar.indexCast arg16
  let c32_276 : Index := 32#32
  ![4, v833.toNat, 32]
def k0_off492 (k0_t3 : Fin k0_t3_loop.trips) : Fin 3 → Nat :=
  let c5_i32_278 : BitVec 32 := 5#32
  let v840 : Index := Scalar.indexCast c5_i32_278
  let c0_i32_52 : BitVec 32 := 0#32
  let c1_i32_54 : BitVec 32 := 1#32
  let arg16 : BitVec 32 := Scf.iv c0_i32_52 c1_i32_54 k0_t3
  let v841 : Index := Scalar.indexCast arg16
  let c32_279 : Index := 32#32
  ![5, v841.toNat, 32]
def k0_off493 (k0_t3 : Fin k0_t3_loop.trips) : Fin 3 → Nat :=
  let c6_i32_281 : BitVec 32 := 6#32
  let v848 : Index := Scalar.indexCast c6_i32_281
  let c0_i32_52 : BitVec 32 := 0#32
  let c1_i32_54 : BitVec 32 := 1#32
  let arg16 : BitVec 32 := Scf.iv c0_i32_52 c1_i32_54 k0_t3
  let v849 : Index := Scalar.indexCast arg16
  let c32_282 : Index := 32#32
  ![6, v849.toNat, 32]
def k0_off494 (k0_t3 : Fin k0_t3_loop.trips) : Fin 3 → Nat :=
  let c7_i32_284 : BitVec 32 := 7#32
  let v856 : Index := Scalar.indexCast c7_i32_284
  let c0_i32_52 : BitVec 32 := 0#32
  let c1_i32_54 : BitVec 32 := 1#32
  let arg16 : BitVec 32 := Scf.iv c0_i32_52 c1_i32_54 k0_t3
  let v857 : Index := Scalar.indexCast arg16
  let c32_285 : Index := 32#32
  ![7, v857.toNat, 32]
def k0_off495 (k0_t3 : Fin k0_t3_loop.trips) : Fin 3 → Nat :=
  let c8_i32_287 : BitVec 32 := 8#32
  let v865 : Index := Scalar.indexCast c8_i32_287
  let c0_i32_52 : BitVec 32 := 0#32
  let c1_i32_54 : BitVec 32 := 1#32
  let arg16 : BitVec 32 := Scf.iv c0_i32_52 c1_i32_54 k0_t3
  let v866 : Index := Scalar.indexCast arg16
  let c32_288 : Index := 32#32
  ![8, v866.toNat, 32]
def k0_off496 (k0_t3 : Fin k0_t3_loop.trips) : Fin 3 → Nat :=
  let c9_i32_290 : BitVec 32 := 9#32
  let v874 : Index := Scalar.indexCast c9_i32_290
  let c0_i32_52 : BitVec 32 := 0#32
  let c1_i32_54 : BitVec 32 := 1#32
  let arg16 : BitVec 32 := Scf.iv c0_i32_52 c1_i32_54 k0_t3
  let v875 : Index := Scalar.indexCast arg16
  let c32_291 : Index := 32#32
  ![9, v875.toNat, 32]
def k0_off497 (k0_t3 : Fin k0_t3_loop.trips) : Fin 3 → Nat :=
  let c10_i32_293 : BitVec 32 := 10#32
  let v883 : Index := Scalar.indexCast c10_i32_293
  let c0_i32_52 : BitVec 32 := 0#32
  let c1_i32_54 : BitVec 32 := 1#32
  let arg16 : BitVec 32 := Scf.iv c0_i32_52 c1_i32_54 k0_t3
  let v884 : Index := Scalar.indexCast arg16
  let c32_294 : Index := 32#32
  ![10, v884.toNat, 32]
def k0_off498 (k0_t3 : Fin k0_t3_loop.trips) : Fin 3 → Nat :=
  let c11_i32_296 : BitVec 32 := 11#32
  let v892 : Index := Scalar.indexCast c11_i32_296
  let c0_i32_52 : BitVec 32 := 0#32
  let c1_i32_54 : BitVec 32 := 1#32
  let arg16 : BitVec 32 := Scf.iv c0_i32_52 c1_i32_54 k0_t3
  let v893 : Index := Scalar.indexCast arg16
  let c32_297 : Index := 32#32
  ![11, v893.toNat, 32]
def k0_off499 (k0_t3 : Fin k0_t3_loop.trips) : Fin 3 → Nat :=
  let c12_i32_299 : BitVec 32 := 12#32
  let v901 : Index := Scalar.indexCast c12_i32_299
  let c0_i32_52 : BitVec 32 := 0#32
  let c1_i32_54 : BitVec 32 := 1#32
  let arg16 : BitVec 32 := Scf.iv c0_i32_52 c1_i32_54 k0_t3
  let v902 : Index := Scalar.indexCast arg16
  let c32_300 : Index := 32#32
  ![12, v902.toNat, 32]
def k0_off500 (k0_t3 : Fin k0_t3_loop.trips) : Fin 3 → Nat :=
  let c13_i32_302 : BitVec 32 := 13#32
  let v909 : Index := Scalar.indexCast c13_i32_302
  let c0_i32_52 : BitVec 32 := 0#32
  let c1_i32_54 : BitVec 32 := 1#32
  let arg16 : BitVec 32 := Scf.iv c0_i32_52 c1_i32_54 k0_t3
  let v910 : Index := Scalar.indexCast arg16
  let c32_303 : Index := 32#32
  ![13, v910.toNat, 32]
def k0_off501 (k0_t3 : Fin k0_t3_loop.trips) : Fin 3 → Nat :=
  let c14_i32_305 : BitVec 32 := 14#32
  let v918 : Index := Scalar.indexCast c14_i32_305
  let c0_i32_52 : BitVec 32 := 0#32
  let c1_i32_54 : BitVec 32 := 1#32
  let arg16 : BitVec 32 := Scf.iv c0_i32_52 c1_i32_54 k0_t3
  let v919 : Index := Scalar.indexCast arg16
  let c32_306 : Index := 32#32
  ![14, v919.toNat, 32]
def k0_off502 (k0_t3 : Fin k0_t3_loop.trips) : Fin 3 → Nat :=
  let c15_i32_308 : BitVec 32 := 15#32
  let v927 : Index := Scalar.indexCast c15_i32_308
  let c0_i32_52 : BitVec 32 := 0#32
  let c1_i32_54 : BitVec 32 := 1#32
  let arg16 : BitVec 32 := Scf.iv c0_i32_52 c1_i32_54 k0_t3
  let v928 : Index := Scalar.indexCast arg16
  let c32_309 : Index := 32#32
  ![15, v928.toNat, 32]
def k0_off503 (k0_t3 : Fin k0_t3_loop.trips) : Fin 3 → Nat :=
  let c16_i32_311 : BitVec 32 := 16#32
  let v936 : Index := Scalar.indexCast c16_i32_311
  let c0_i32_52 : BitVec 32 := 0#32
  let c1_i32_54 : BitVec 32 := 1#32
  let arg16 : BitVec 32 := Scf.iv c0_i32_52 c1_i32_54 k0_t3
  let v937 : Index := Scalar.indexCast arg16
  let c32_312 : Index := 32#32
  ![16, v937.toNat, 32]
def k0_off504 (k0_t3 : Fin k0_t3_loop.trips) : Fin 3 → Nat :=
  let c17_i32_314 : BitVec 32 := 17#32
  let v945 : Index := Scalar.indexCast c17_i32_314
  let c0_i32_52 : BitVec 32 := 0#32
  let c1_i32_54 : BitVec 32 := 1#32
  let arg16 : BitVec 32 := Scf.iv c0_i32_52 c1_i32_54 k0_t3
  let v946 : Index := Scalar.indexCast arg16
  let c32_315 : Index := 32#32
  ![17, v946.toNat, 32]
def k0_off505 (k0_t3 : Fin k0_t3_loop.trips) : Fin 3 → Nat :=
  let c18_i32_317 : BitVec 32 := 18#32
  let v954 : Index := Scalar.indexCast c18_i32_317
  let c0_i32_52 : BitVec 32 := 0#32
  let c1_i32_54 : BitVec 32 := 1#32
  let arg16 : BitVec 32 := Scf.iv c0_i32_52 c1_i32_54 k0_t3
  let v955 : Index := Scalar.indexCast arg16
  let c32_318 : Index := 32#32
  ![18, v955.toNat, 32]
def k0_off506 (k0_t3 : Fin k0_t3_loop.trips) : Fin 3 → Nat :=
  let c19_i32_320 : BitVec 32 := 19#32
  let v962 : Index := Scalar.indexCast c19_i32_320
  let c0_i32_52 : BitVec 32 := 0#32
  let c1_i32_54 : BitVec 32 := 1#32
  let arg16 : BitVec 32 := Scf.iv c0_i32_52 c1_i32_54 k0_t3
  let v963 : Index := Scalar.indexCast arg16
  let c32_321 : Index := 32#32
  ![19, v963.toNat, 32]
def k0_off507 (k0_t3 : Fin k0_t3_loop.trips) : Fin 3 → Nat :=
  let c20_i32_323 : BitVec 32 := 20#32
  let v971 : Index := Scalar.indexCast c20_i32_323
  let c0_i32_52 : BitVec 32 := 0#32
  let c1_i32_54 : BitVec 32 := 1#32
  let arg16 : BitVec 32 := Scf.iv c0_i32_52 c1_i32_54 k0_t3
  let v972 : Index := Scalar.indexCast arg16
  let c32_324 : Index := 32#32
  ![20, v972.toNat, 32]
def k0_off508 (k0_t3 : Fin k0_t3_loop.trips) : Fin 3 → Nat :=
  let c21_i32_326 : BitVec 32 := 21#32
  let v980 : Index := Scalar.indexCast c21_i32_326
  let c0_i32_52 : BitVec 32 := 0#32
  let c1_i32_54 : BitVec 32 := 1#32
  let arg16 : BitVec 32 := Scf.iv c0_i32_52 c1_i32_54 k0_t3
  let v981 : Index := Scalar.indexCast arg16
  let c32_327 : Index := 32#32
  ![21, v981.toNat, 32]
def k0_off509 (k0_t3 : Fin k0_t3_loop.trips) : Fin 3 → Nat :=
  let c22_i32_329 : BitVec 32 := 22#32
  let v989 : Index := Scalar.indexCast c22_i32_329
  let c0_i32_52 : BitVec 32 := 0#32
  let c1_i32_54 : BitVec 32 := 1#32
  let arg16 : BitVec 32 := Scf.iv c0_i32_52 c1_i32_54 k0_t3
  let v990 : Index := Scalar.indexCast arg16
  let c32_330 : Index := 32#32
  ![22, v990.toNat, 32]
def k0_off510 (k0_t3 : Fin k0_t3_loop.trips) : Fin 3 → Nat :=
  let c23_i32_332 : BitVec 32 := 23#32
  let v998 : Index := Scalar.indexCast c23_i32_332
  let c0_i32_52 : BitVec 32 := 0#32
  let c1_i32_54 : BitVec 32 := 1#32
  let arg16 : BitVec 32 := Scf.iv c0_i32_52 c1_i32_54 k0_t3
  let v999 : Index := Scalar.indexCast arg16
  let c32_333 : Index := 32#32
  ![23, v999.toNat, 32]
def k0_off511 (k0_t3 : Fin k0_t3_loop.trips) : Fin 3 → Nat :=
  let c24_i32_335 : BitVec 32 := 24#32
  let v1007 : Index := Scalar.indexCast c24_i32_335
  let c0_i32_52 : BitVec 32 := 0#32
  let c1_i32_54 : BitVec 32 := 1#32
  let arg16 : BitVec 32 := Scf.iv c0_i32_52 c1_i32_54 k0_t3
  let v1008 : Index := Scalar.indexCast arg16
  let c32_336 : Index := 32#32
  ![24, v1008.toNat, 32]
def k0_off512 (k0_t3 : Fin k0_t3_loop.trips) : Fin 3 → Nat :=
  let c25_i32_338 : BitVec 32 := 25#32
  let v1015 : Index := Scalar.indexCast c25_i32_338
  let c0_i32_52 : BitVec 32 := 0#32
  let c1_i32_54 : BitVec 32 := 1#32
  let arg16 : BitVec 32 := Scf.iv c0_i32_52 c1_i32_54 k0_t3
  let v1016 : Index := Scalar.indexCast arg16
  let c32_339 : Index := 32#32
  ![25, v1016.toNat, 32]
def k0_off513 (k0_t3 : Fin k0_t3_loop.trips) : Fin 3 → Nat :=
  let c26_i32_341 : BitVec 32 := 26#32
  let v1024 : Index := Scalar.indexCast c26_i32_341
  let c0_i32_52 : BitVec 32 := 0#32
  let c1_i32_54 : BitVec 32 := 1#32
  let arg16 : BitVec 32 := Scf.iv c0_i32_52 c1_i32_54 k0_t3
  let v1025 : Index := Scalar.indexCast arg16
  let c32_342 : Index := 32#32
  ![26, v1025.toNat, 32]
def k0_off514 (k0_t3 : Fin k0_t3_loop.trips) : Fin 3 → Nat :=
  let c27_i32_344 : BitVec 32 := 27#32
  let v1033 : Index := Scalar.indexCast c27_i32_344
  let c0_i32_52 : BitVec 32 := 0#32
  let c1_i32_54 : BitVec 32 := 1#32
  let arg16 : BitVec 32 := Scf.iv c0_i32_52 c1_i32_54 k0_t3
  let v1034 : Index := Scalar.indexCast arg16
  let c32_345 : Index := 32#32
  ![27, v1034.toNat, 32]
def k0_off515 (k0_t3 : Fin k0_t3_loop.trips) : Fin 3 → Nat :=
  let c28_i32_347 : BitVec 32 := 28#32
  let v1042 : Index := Scalar.indexCast c28_i32_347
  let c0_i32_52 : BitVec 32 := 0#32
  let c1_i32_54 : BitVec 32 := 1#32
  let arg16 : BitVec 32 := Scf.iv c0_i32_52 c1_i32_54 k0_t3
  let v1043 : Index := Scalar.indexCast arg16
  let c32_348 : Index := 32#32
  ![28, v1043.toNat, 32]
def k0_off516 (k0_t3 : Fin k0_t3_loop.trips) : Fin 3 → Nat :=
  let c29_i32_350 : BitVec 32 := 29#32
  let v1051 : Index := Scalar.indexCast c29_i32_350
  let c0_i32_52 : BitVec 32 := 0#32
  let c1_i32_54 : BitVec 32 := 1#32
  let arg16 : BitVec 32 := Scf.iv c0_i32_52 c1_i32_54 k0_t3
  let v1052 : Index := Scalar.indexCast arg16
  let c32_351 : Index := 32#32
  ![29, v1052.toNat, 32]
def k0_off517 (k0_t3 : Fin k0_t3_loop.trips) : Fin 3 → Nat :=
  let c30_i32_353 : BitVec 32 := 30#32
  let v1060 : Index := Scalar.indexCast c30_i32_353
  let c0_i32_52 : BitVec 32 := 0#32
  let c1_i32_54 : BitVec 32 := 1#32
  let arg16 : BitVec 32 := Scf.iv c0_i32_52 c1_i32_54 k0_t3
  let v1061 : Index := Scalar.indexCast arg16
  let c32_354 : Index := 32#32
  ![30, v1061.toNat, 32]
def k0_off518 (k0_t3 : Fin k0_t3_loop.trips) : Fin 3 → Nat :=
  let c31_i32_356 : BitVec 32 := 31#32
  let v1068 : Index := Scalar.indexCast c31_i32_356
  let c0_i32_52 : BitVec 32 := 0#32
  let c1_i32_54 : BitVec 32 := 1#32
  let arg16 : BitVec 32 := Scf.iv c0_i32_52 c1_i32_54 k0_t3
  let v1069 : Index := Scalar.indexCast arg16
  let c32_357 : Index := 32#32
  ![31, v1069.toNat, 32]
def k0_off519 (k0_t3 : Fin k0_t3_loop.trips) : Fin 3 → Nat :=
  let c32_i32_359 : BitVec 32 := 32#32
  let v1077 : Index := Scalar.indexCast c32_i32_359
  let c0_i32_52 : BitVec 32 := 0#32
  let c1_i32_54 : BitVec 32 := 1#32
  let arg16 : BitVec 32 := Scf.iv c0_i32_52 c1_i32_54 k0_t3
  let v1078 : Index := Scalar.indexCast arg16
  let c32_360 : Index := 32#32
  ![32, v1078.toNat, 32]
def k0_off520 (k0_t3 : Fin k0_t3_loop.trips) : Fin 3 → Nat :=
  let c33_i32_362 : BitVec 32 := 33#32
  let v1086 : Index := Scalar.indexCast c33_i32_362
  let c0_i32_52 : BitVec 32 := 0#32
  let c1_i32_54 : BitVec 32 := 1#32
  let arg16 : BitVec 32 := Scf.iv c0_i32_52 c1_i32_54 k0_t3
  let v1087 : Index := Scalar.indexCast arg16
  let c32_363 : Index := 32#32
  ![33, v1087.toNat, 32]
def k0_off521 (k0_t3 : Fin k0_t3_loop.trips) : Fin 3 → Nat :=
  let c34_i32_365 : BitVec 32 := 34#32
  let v1095 : Index := Scalar.indexCast c34_i32_365
  let c0_i32_52 : BitVec 32 := 0#32
  let c1_i32_54 : BitVec 32 := 1#32
  let arg16 : BitVec 32 := Scf.iv c0_i32_52 c1_i32_54 k0_t3
  let v1096 : Index := Scalar.indexCast arg16
  let c32_366 : Index := 32#32
  ![34, v1096.toNat, 32]
def k0_off522 (k0_t3 : Fin k0_t3_loop.trips) : Fin 3 → Nat :=
  let c35_i32_368 : BitVec 32 := 35#32
  let v1104 : Index := Scalar.indexCast c35_i32_368
  let c0_i32_52 : BitVec 32 := 0#32
  let c1_i32_54 : BitVec 32 := 1#32
  let arg16 : BitVec 32 := Scf.iv c0_i32_52 c1_i32_54 k0_t3
  let v1105 : Index := Scalar.indexCast arg16
  let c32_369 : Index := 32#32
  ![35, v1105.toNat, 32]
def k0_off523 (k0_t3 : Fin k0_t3_loop.trips) : Fin 3 → Nat :=
  let c0_i32_371 : BitVec 32 := 0#32
  let v1113 : Index := Scalar.indexCast c0_i32_371
  let c0_i32_52 : BitVec 32 := 0#32
  let c1_i32_54 : BitVec 32 := 1#32
  let arg16 : BitVec 32 := Scf.iv c0_i32_52 c1_i32_54 k0_t3
  let v1114 : Index := Scalar.indexCast arg16
  let c32_372 : Index := 32#32
  ![0, v1114.toNat, 32]
def k0_off524 (k0_t3 : Fin k0_t3_loop.trips) : Fin 3 → Nat :=
  let c1_i32_373 : BitVec 32 := 1#32
  let v1118 : Index := Scalar.indexCast c1_i32_373
  let c0_i32_52 : BitVec 32 := 0#32
  let c1_i32_54 : BitVec 32 := 1#32
  let arg16 : BitVec 32 := Scf.iv c0_i32_52 c1_i32_54 k0_t3
  let v1119 : Index := Scalar.indexCast arg16
  let c32_374 : Index := 32#32
  ![1, v1119.toNat, 32]
def k0_off525 (k0_t3 : Fin k0_t3_loop.trips) : Fin 3 → Nat :=
  let c2_i32_375 : BitVec 32 := 2#32
  let v1123 : Index := Scalar.indexCast c2_i32_375
  let c0_i32_52 : BitVec 32 := 0#32
  let c1_i32_54 : BitVec 32 := 1#32
  let arg16 : BitVec 32 := Scf.iv c0_i32_52 c1_i32_54 k0_t3
  let v1124 : Index := Scalar.indexCast arg16
  let c32_376 : Index := 32#32
  ![2, v1124.toNat, 32]
def k0_off526 (k0_t3 : Fin k0_t3_loop.trips) : Fin 3 → Nat :=
  let c3_i32_377 : BitVec 32 := 3#32
  let v1128 : Index := Scalar.indexCast c3_i32_377
  let c0_i32_52 : BitVec 32 := 0#32
  let c1_i32_54 : BitVec 32 := 1#32
  let arg16 : BitVec 32 := Scf.iv c0_i32_52 c1_i32_54 k0_t3
  let v1129 : Index := Scalar.indexCast arg16
  let c32_378 : Index := 32#32
  ![3, v1129.toNat, 32]
def k0_off527 (k0_t3 : Fin k0_t3_loop.trips) : Fin 3 → Nat :=
  let c4_i32_379 : BitVec 32 := 4#32
  let v1133 : Index := Scalar.indexCast c4_i32_379
  let c0_i32_52 : BitVec 32 := 0#32
  let c1_i32_54 : BitVec 32 := 1#32
  let arg16 : BitVec 32 := Scf.iv c0_i32_52 c1_i32_54 k0_t3
  let v1134 : Index := Scalar.indexCast arg16
  let c32_380 : Index := 32#32
  ![4, v1134.toNat, 32]
def k0_off528 (k0_t3 : Fin k0_t3_loop.trips) : Fin 3 → Nat :=
  let c5_i32_381 : BitVec 32 := 5#32
  let v1138 : Index := Scalar.indexCast c5_i32_381
  let c0_i32_52 : BitVec 32 := 0#32
  let c1_i32_54 : BitVec 32 := 1#32
  let arg16 : BitVec 32 := Scf.iv c0_i32_52 c1_i32_54 k0_t3
  let v1139 : Index := Scalar.indexCast arg16
  let c32_382 : Index := 32#32
  ![5, v1139.toNat, 32]
def k0_off529 (k0_t3 : Fin k0_t3_loop.trips) : Fin 3 → Nat :=
  let c6_i32_383 : BitVec 32 := 6#32
  let v1143 : Index := Scalar.indexCast c6_i32_383
  let c0_i32_52 : BitVec 32 := 0#32
  let c1_i32_54 : BitVec 32 := 1#32
  let arg16 : BitVec 32 := Scf.iv c0_i32_52 c1_i32_54 k0_t3
  let v1144 : Index := Scalar.indexCast arg16
  let c32_384 : Index := 32#32
  ![6, v1144.toNat, 32]
def k0_off530 (k0_t3 : Fin k0_t3_loop.trips) : Fin 3 → Nat :=
  let c7_i32_385 : BitVec 32 := 7#32
  let v1148 : Index := Scalar.indexCast c7_i32_385
  let c0_i32_52 : BitVec 32 := 0#32
  let c1_i32_54 : BitVec 32 := 1#32
  let arg16 : BitVec 32 := Scf.iv c0_i32_52 c1_i32_54 k0_t3
  let v1149 : Index := Scalar.indexCast arg16
  let c32_386 : Index := 32#32
  ![7, v1149.toNat, 32]
def k0_off531 (k0_t3 : Fin k0_t3_loop.trips) : Fin 3 → Nat :=
  let c8_i32_387 : BitVec 32 := 8#32
  let v1153 : Index := Scalar.indexCast c8_i32_387
  let c0_i32_52 : BitVec 32 := 0#32
  let c1_i32_54 : BitVec 32 := 1#32
  let arg16 : BitVec 32 := Scf.iv c0_i32_52 c1_i32_54 k0_t3
  let v1154 : Index := Scalar.indexCast arg16
  let c32_388 : Index := 32#32
  ![8, v1154.toNat, 32]
def k0_off532 (k0_t3 : Fin k0_t3_loop.trips) : Fin 3 → Nat :=
  let c9_i32_389 : BitVec 32 := 9#32
  let v1158 : Index := Scalar.indexCast c9_i32_389
  let c0_i32_52 : BitVec 32 := 0#32
  let c1_i32_54 : BitVec 32 := 1#32
  let arg16 : BitVec 32 := Scf.iv c0_i32_52 c1_i32_54 k0_t3
  let v1159 : Index := Scalar.indexCast arg16
  let c32_390 : Index := 32#32
  ![9, v1159.toNat, 32]
def k0_off533 (k0_t3 : Fin k0_t3_loop.trips) : Fin 3 → Nat :=
  let c10_i32_391 : BitVec 32 := 10#32
  let v1163 : Index := Scalar.indexCast c10_i32_391
  let c0_i32_52 : BitVec 32 := 0#32
  let c1_i32_54 : BitVec 32 := 1#32
  let arg16 : BitVec 32 := Scf.iv c0_i32_52 c1_i32_54 k0_t3
  let v1164 : Index := Scalar.indexCast arg16
  let c32_392 : Index := 32#32
  ![10, v1164.toNat, 32]
def k0_off534 (k0_t3 : Fin k0_t3_loop.trips) : Fin 3 → Nat :=
  let c11_i32_393 : BitVec 32 := 11#32
  let v1168 : Index := Scalar.indexCast c11_i32_393
  let c0_i32_52 : BitVec 32 := 0#32
  let c1_i32_54 : BitVec 32 := 1#32
  let arg16 : BitVec 32 := Scf.iv c0_i32_52 c1_i32_54 k0_t3
  let v1169 : Index := Scalar.indexCast arg16
  let c32_394 : Index := 32#32
  ![11, v1169.toNat, 32]
def k0_off535 (k0_t3 : Fin k0_t3_loop.trips) : Fin 3 → Nat :=
  let c0_i32_395 : BitVec 32 := 0#32
  let v1173 : Index := Scalar.indexCast c0_i32_395
  let c0_i32_52 : BitVec 32 := 0#32
  let c1_i32_54 : BitVec 32 := 1#32
  let arg16 : BitVec 32 := Scf.iv c0_i32_52 c1_i32_54 k0_t3
  let v1174 : Index := Scalar.indexCast arg16
  let c48_396 : Index := 48#32
  ![0, v1174.toNat, 48]
def k0_off536 (k0_t3 : Fin k0_t3_loop.trips) : Fin 3 → Nat :=
  let c1_i32_398 : BitVec 32 := 1#32
  let v1180 : Index := Scalar.indexCast c1_i32_398
  let c0_i32_52 : BitVec 32 := 0#32
  let c1_i32_54 : BitVec 32 := 1#32
  let arg16 : BitVec 32 := Scf.iv c0_i32_52 c1_i32_54 k0_t3
  let v1181 : Index := Scalar.indexCast arg16
  let c48_399 : Index := 48#32
  ![1, v1181.toNat, 48]
def k0_off537 (k0_t3 : Fin k0_t3_loop.trips) : Fin 3 → Nat :=
  let c2_i32_401 : BitVec 32 := 2#32
  let v1188 : Index := Scalar.indexCast c2_i32_401
  let c0_i32_52 : BitVec 32 := 0#32
  let c1_i32_54 : BitVec 32 := 1#32
  let arg16 : BitVec 32 := Scf.iv c0_i32_52 c1_i32_54 k0_t3
  let v1189 : Index := Scalar.indexCast arg16
  let c48_402 : Index := 48#32
  ![2, v1189.toNat, 48]
def k0_off538 (k0_t3 : Fin k0_t3_loop.trips) : Fin 3 → Nat :=
  let c3_i32_404 : BitVec 32 := 3#32
  let v1196 : Index := Scalar.indexCast c3_i32_404
  let c0_i32_52 : BitVec 32 := 0#32
  let c1_i32_54 : BitVec 32 := 1#32
  let arg16 : BitVec 32 := Scf.iv c0_i32_52 c1_i32_54 k0_t3
  let v1197 : Index := Scalar.indexCast arg16
  let c48_405 : Index := 48#32
  ![3, v1197.toNat, 48]
def k0_off539 (k0_t3 : Fin k0_t3_loop.trips) : Fin 3 → Nat :=
  let c4_i32_407 : BitVec 32 := 4#32
  let v1204 : Index := Scalar.indexCast c4_i32_407
  let c0_i32_52 : BitVec 32 := 0#32
  let c1_i32_54 : BitVec 32 := 1#32
  let arg16 : BitVec 32 := Scf.iv c0_i32_52 c1_i32_54 k0_t3
  let v1205 : Index := Scalar.indexCast arg16
  let c48_408 : Index := 48#32
  ![4, v1205.toNat, 48]
def k0_off540 (k0_t3 : Fin k0_t3_loop.trips) : Fin 3 → Nat :=
  let c5_i32_410 : BitVec 32 := 5#32
  let v1212 : Index := Scalar.indexCast c5_i32_410
  let c0_i32_52 : BitVec 32 := 0#32
  let c1_i32_54 : BitVec 32 := 1#32
  let arg16 : BitVec 32 := Scf.iv c0_i32_52 c1_i32_54 k0_t3
  let v1213 : Index := Scalar.indexCast arg16
  let c48_411 : Index := 48#32
  ![5, v1213.toNat, 48]
def k0_off541 (k0_t3 : Fin k0_t3_loop.trips) : Fin 3 → Nat :=
  let c6_i32_413 : BitVec 32 := 6#32
  let v1220 : Index := Scalar.indexCast c6_i32_413
  let c0_i32_52 : BitVec 32 := 0#32
  let c1_i32_54 : BitVec 32 := 1#32
  let arg16 : BitVec 32 := Scf.iv c0_i32_52 c1_i32_54 k0_t3
  let v1221 : Index := Scalar.indexCast arg16
  let c48_414 : Index := 48#32
  ![6, v1221.toNat, 48]
def k0_off542 (k0_t3 : Fin k0_t3_loop.trips) : Fin 3 → Nat :=
  let c7_i32_416 : BitVec 32 := 7#32
  let v1228 : Index := Scalar.indexCast c7_i32_416
  let c0_i32_52 : BitVec 32 := 0#32
  let c1_i32_54 : BitVec 32 := 1#32
  let arg16 : BitVec 32 := Scf.iv c0_i32_52 c1_i32_54 k0_t3
  let v1229 : Index := Scalar.indexCast arg16
  let c48_417 : Index := 48#32
  ![7, v1229.toNat, 48]
def k0_off543 (k0_t3 : Fin k0_t3_loop.trips) : Fin 3 → Nat :=
  let c8_i32_419 : BitVec 32 := 8#32
  let v1237 : Index := Scalar.indexCast c8_i32_419
  let c0_i32_52 : BitVec 32 := 0#32
  let c1_i32_54 : BitVec 32 := 1#32
  let arg16 : BitVec 32 := Scf.iv c0_i32_52 c1_i32_54 k0_t3
  let v1238 : Index := Scalar.indexCast arg16
  let c48_420 : Index := 48#32
  ![8, v1238.toNat, 48]
def k0_off544 (k0_t3 : Fin k0_t3_loop.trips) : Fin 3 → Nat :=
  let c9_i32_422 : BitVec 32 := 9#32
  let v1246 : Index := Scalar.indexCast c9_i32_422
  let c0_i32_52 : BitVec 32 := 0#32
  let c1_i32_54 : BitVec 32 := 1#32
  let arg16 : BitVec 32 := Scf.iv c0_i32_52 c1_i32_54 k0_t3
  let v1247 : Index := Scalar.indexCast arg16
  let c48_423 : Index := 48#32
  ![9, v1247.toNat, 48]
def k0_off545 (k0_t3 : Fin k0_t3_loop.trips) : Fin 3 → Nat :=
  let c10_i32_425 : BitVec 32 := 10#32
  let v1255 : Index := Scalar.indexCast c10_i32_425
  let c0_i32_52 : BitVec 32 := 0#32
  let c1_i32_54 : BitVec 32 := 1#32
  let arg16 : BitVec 32 := Scf.iv c0_i32_52 c1_i32_54 k0_t3
  let v1256 : Index := Scalar.indexCast arg16
  let c48_426 : Index := 48#32
  ![10, v1256.toNat, 48]
def k0_off546 (k0_t3 : Fin k0_t3_loop.trips) : Fin 3 → Nat :=
  let c11_i32_428 : BitVec 32 := 11#32
  let v1264 : Index := Scalar.indexCast c11_i32_428
  let c0_i32_52 : BitVec 32 := 0#32
  let c1_i32_54 : BitVec 32 := 1#32
  let arg16 : BitVec 32 := Scf.iv c0_i32_52 c1_i32_54 k0_t3
  let v1265 : Index := Scalar.indexCast arg16
  let c48_429 : Index := 48#32
  ![11, v1265.toNat, 48]
def k0_off547 (k0_t3 : Fin k0_t3_loop.trips) : Fin 3 → Nat :=
  let c12_i32_431 : BitVec 32 := 12#32
  let v1273 : Index := Scalar.indexCast c12_i32_431
  let c0_i32_52 : BitVec 32 := 0#32
  let c1_i32_54 : BitVec 32 := 1#32
  let arg16 : BitVec 32 := Scf.iv c0_i32_52 c1_i32_54 k0_t3
  let v1274 : Index := Scalar.indexCast arg16
  let c48_432 : Index := 48#32
  ![12, v1274.toNat, 48]
def k0_off548 (k0_t3 : Fin k0_t3_loop.trips) : Fin 3 → Nat :=
  let c13_i32_434 : BitVec 32 := 13#32
  let v1281 : Index := Scalar.indexCast c13_i32_434
  let c0_i32_52 : BitVec 32 := 0#32
  let c1_i32_54 : BitVec 32 := 1#32
  let arg16 : BitVec 32 := Scf.iv c0_i32_52 c1_i32_54 k0_t3
  let v1282 : Index := Scalar.indexCast arg16
  let c48_435 : Index := 48#32
  ![13, v1282.toNat, 48]
def k0_off549 (k0_t3 : Fin k0_t3_loop.trips) : Fin 3 → Nat :=
  let c14_i32_437 : BitVec 32 := 14#32
  let v1290 : Index := Scalar.indexCast c14_i32_437
  let c0_i32_52 : BitVec 32 := 0#32
  let c1_i32_54 : BitVec 32 := 1#32
  let arg16 : BitVec 32 := Scf.iv c0_i32_52 c1_i32_54 k0_t3
  let v1291 : Index := Scalar.indexCast arg16
  let c48_438 : Index := 48#32
  ![14, v1291.toNat, 48]
def k0_off550 (k0_t3 : Fin k0_t3_loop.trips) : Fin 3 → Nat :=
  let c15_i32_440 : BitVec 32 := 15#32
  let v1299 : Index := Scalar.indexCast c15_i32_440
  let c0_i32_52 : BitVec 32 := 0#32
  let c1_i32_54 : BitVec 32 := 1#32
  let arg16 : BitVec 32 := Scf.iv c0_i32_52 c1_i32_54 k0_t3
  let v1300 : Index := Scalar.indexCast arg16
  let c48_441 : Index := 48#32
  ![15, v1300.toNat, 48]
def k0_off551 (k0_t3 : Fin k0_t3_loop.trips) : Fin 3 → Nat :=
  let c16_i32_443 : BitVec 32 := 16#32
  let v1308 : Index := Scalar.indexCast c16_i32_443
  let c0_i32_52 : BitVec 32 := 0#32
  let c1_i32_54 : BitVec 32 := 1#32
  let arg16 : BitVec 32 := Scf.iv c0_i32_52 c1_i32_54 k0_t3
  let v1309 : Index := Scalar.indexCast arg16
  let c48_444 : Index := 48#32
  ![16, v1309.toNat, 48]
def k0_off552 (k0_t3 : Fin k0_t3_loop.trips) : Fin 3 → Nat :=
  let c17_i32_446 : BitVec 32 := 17#32
  let v1317 : Index := Scalar.indexCast c17_i32_446
  let c0_i32_52 : BitVec 32 := 0#32
  let c1_i32_54 : BitVec 32 := 1#32
  let arg16 : BitVec 32 := Scf.iv c0_i32_52 c1_i32_54 k0_t3
  let v1318 : Index := Scalar.indexCast arg16
  let c48_447 : Index := 48#32
  ![17, v1318.toNat, 48]
def k0_off553 (k0_t3 : Fin k0_t3_loop.trips) : Fin 3 → Nat :=
  let c18_i32_449 : BitVec 32 := 18#32
  let v1326 : Index := Scalar.indexCast c18_i32_449
  let c0_i32_52 : BitVec 32 := 0#32
  let c1_i32_54 : BitVec 32 := 1#32
  let arg16 : BitVec 32 := Scf.iv c0_i32_52 c1_i32_54 k0_t3
  let v1327 : Index := Scalar.indexCast arg16
  let c48_450 : Index := 48#32
  ![18, v1327.toNat, 48]
def k0_off554 (k0_t3 : Fin k0_t3_loop.trips) : Fin 3 → Nat :=
  let c19_i32_452 : BitVec 32 := 19#32
  let v1334 : Index := Scalar.indexCast c19_i32_452
  let c0_i32_52 : BitVec 32 := 0#32
  let c1_i32_54 : BitVec 32 := 1#32
  let arg16 : BitVec 32 := Scf.iv c0_i32_52 c1_i32_54 k0_t3
  let v1335 : Index := Scalar.indexCast arg16
  let c48_453 : Index := 48#32
  ![19, v1335.toNat, 48]
def k0_off555 (k0_t3 : Fin k0_t3_loop.trips) : Fin 3 → Nat :=
  let c20_i32_455 : BitVec 32 := 20#32
  let v1343 : Index := Scalar.indexCast c20_i32_455
  let c0_i32_52 : BitVec 32 := 0#32
  let c1_i32_54 : BitVec 32 := 1#32
  let arg16 : BitVec 32 := Scf.iv c0_i32_52 c1_i32_54 k0_t3
  let v1344 : Index := Scalar.indexCast arg16
  let c48_456 : Index := 48#32
  ![20, v1344.toNat, 48]
def k0_off556 (k0_t3 : Fin k0_t3_loop.trips) : Fin 3 → Nat :=
  let c21_i32_458 : BitVec 32 := 21#32
  let v1352 : Index := Scalar.indexCast c21_i32_458
  let c0_i32_52 : BitVec 32 := 0#32
  let c1_i32_54 : BitVec 32 := 1#32
  let arg16 : BitVec 32 := Scf.iv c0_i32_52 c1_i32_54 k0_t3
  let v1353 : Index := Scalar.indexCast arg16
  let c48_459 : Index := 48#32
  ![21, v1353.toNat, 48]
def k0_off557 (k0_t3 : Fin k0_t3_loop.trips) : Fin 3 → Nat :=
  let c22_i32_461 : BitVec 32 := 22#32
  let v1361 : Index := Scalar.indexCast c22_i32_461
  let c0_i32_52 : BitVec 32 := 0#32
  let c1_i32_54 : BitVec 32 := 1#32
  let arg16 : BitVec 32 := Scf.iv c0_i32_52 c1_i32_54 k0_t3
  let v1362 : Index := Scalar.indexCast arg16
  let c48_462 : Index := 48#32
  ![22, v1362.toNat, 48]
def k0_off558 (k0_t3 : Fin k0_t3_loop.trips) : Fin 3 → Nat :=
  let c23_i32_464 : BitVec 32 := 23#32
  let v1370 : Index := Scalar.indexCast c23_i32_464
  let c0_i32_52 : BitVec 32 := 0#32
  let c1_i32_54 : BitVec 32 := 1#32
  let arg16 : BitVec 32 := Scf.iv c0_i32_52 c1_i32_54 k0_t3
  let v1371 : Index := Scalar.indexCast arg16
  let c48_465 : Index := 48#32
  ![23, v1371.toNat, 48]
def k0_off559 (k0_t3 : Fin k0_t3_loop.trips) : Fin 3 → Nat :=
  let c24_i32_467 : BitVec 32 := 24#32
  let v1379 : Index := Scalar.indexCast c24_i32_467
  let c0_i32_52 : BitVec 32 := 0#32
  let c1_i32_54 : BitVec 32 := 1#32
  let arg16 : BitVec 32 := Scf.iv c0_i32_52 c1_i32_54 k0_t3
  let v1380 : Index := Scalar.indexCast arg16
  let c48_468 : Index := 48#32
  ![24, v1380.toNat, 48]
def k0_off560 (k0_t3 : Fin k0_t3_loop.trips) : Fin 3 → Nat :=
  let c25_i32_470 : BitVec 32 := 25#32
  let v1387 : Index := Scalar.indexCast c25_i32_470
  let c0_i32_52 : BitVec 32 := 0#32
  let c1_i32_54 : BitVec 32 := 1#32
  let arg16 : BitVec 32 := Scf.iv c0_i32_52 c1_i32_54 k0_t3
  let v1388 : Index := Scalar.indexCast arg16
  let c48_471 : Index := 48#32
  ![25, v1388.toNat, 48]
def k0_off561 (k0_t3 : Fin k0_t3_loop.trips) : Fin 3 → Nat :=
  let c26_i32_473 : BitVec 32 := 26#32
  let v1396 : Index := Scalar.indexCast c26_i32_473
  let c0_i32_52 : BitVec 32 := 0#32
  let c1_i32_54 : BitVec 32 := 1#32
  let arg16 : BitVec 32 := Scf.iv c0_i32_52 c1_i32_54 k0_t3
  let v1397 : Index := Scalar.indexCast arg16
  let c48_474 : Index := 48#32
  ![26, v1397.toNat, 48]
def k0_off562 (k0_t3 : Fin k0_t3_loop.trips) : Fin 3 → Nat :=
  let c27_i32_476 : BitVec 32 := 27#32
  let v1405 : Index := Scalar.indexCast c27_i32_476
  let c0_i32_52 : BitVec 32 := 0#32
  let c1_i32_54 : BitVec 32 := 1#32
  let arg16 : BitVec 32 := Scf.iv c0_i32_52 c1_i32_54 k0_t3
  let v1406 : Index := Scalar.indexCast arg16
  let c48_477 : Index := 48#32
  ![27, v1406.toNat, 48]
def k0_off563 (k0_t3 : Fin k0_t3_loop.trips) : Fin 3 → Nat :=
  let c28_i32_479 : BitVec 32 := 28#32
  let v1414 : Index := Scalar.indexCast c28_i32_479
  let c0_i32_52 : BitVec 32 := 0#32
  let c1_i32_54 : BitVec 32 := 1#32
  let arg16 : BitVec 32 := Scf.iv c0_i32_52 c1_i32_54 k0_t3
  let v1415 : Index := Scalar.indexCast arg16
  let c48_480 : Index := 48#32
  ![28, v1415.toNat, 48]
def k0_off564 (k0_t3 : Fin k0_t3_loop.trips) : Fin 3 → Nat :=
  let c29_i32_482 : BitVec 32 := 29#32
  let v1423 : Index := Scalar.indexCast c29_i32_482
  let c0_i32_52 : BitVec 32 := 0#32
  let c1_i32_54 : BitVec 32 := 1#32
  let arg16 : BitVec 32 := Scf.iv c0_i32_52 c1_i32_54 k0_t3
  let v1424 : Index := Scalar.indexCast arg16
  let c48_483 : Index := 48#32
  ![29, v1424.toNat, 48]
def k0_off565 (k0_t3 : Fin k0_t3_loop.trips) : Fin 3 → Nat :=
  let c30_i32_485 : BitVec 32 := 30#32
  let v1432 : Index := Scalar.indexCast c30_i32_485
  let c0_i32_52 : BitVec 32 := 0#32
  let c1_i32_54 : BitVec 32 := 1#32
  let arg16 : BitVec 32 := Scf.iv c0_i32_52 c1_i32_54 k0_t3
  let v1433 : Index := Scalar.indexCast arg16
  let c48_486 : Index := 48#32
  ![30, v1433.toNat, 48]
def k0_off566 (k0_t3 : Fin k0_t3_loop.trips) : Fin 3 → Nat :=
  let c31_i32_488 : BitVec 32 := 31#32
  let v1440 : Index := Scalar.indexCast c31_i32_488
  let c0_i32_52 : BitVec 32 := 0#32
  let c1_i32_54 : BitVec 32 := 1#32
  let arg16 : BitVec 32 := Scf.iv c0_i32_52 c1_i32_54 k0_t3
  let v1441 : Index := Scalar.indexCast arg16
  let c48_489 : Index := 48#32
  ![31, v1441.toNat, 48]
def k0_off567 (k0_t3 : Fin k0_t3_loop.trips) : Fin 3 → Nat :=
  let c32_i32_491 : BitVec 32 := 32#32
  let v1449 : Index := Scalar.indexCast c32_i32_491
  let c0_i32_52 : BitVec 32 := 0#32
  let c1_i32_54 : BitVec 32 := 1#32
  let arg16 : BitVec 32 := Scf.iv c0_i32_52 c1_i32_54 k0_t3
  let v1450 : Index := Scalar.indexCast arg16
  let c48_492 : Index := 48#32
  ![32, v1450.toNat, 48]
def k0_off568 (k0_t3 : Fin k0_t3_loop.trips) : Fin 3 → Nat :=
  let c33_i32_494 : BitVec 32 := 33#32
  let v1458 : Index := Scalar.indexCast c33_i32_494
  let c0_i32_52 : BitVec 32 := 0#32
  let c1_i32_54 : BitVec 32 := 1#32
  let arg16 : BitVec 32 := Scf.iv c0_i32_52 c1_i32_54 k0_t3
  let v1459 : Index := Scalar.indexCast arg16
  let c48_495 : Index := 48#32
  ![33, v1459.toNat, 48]
def k0_off569 (k0_t3 : Fin k0_t3_loop.trips) : Fin 3 → Nat :=
  let c34_i32_497 : BitVec 32 := 34#32
  let v1467 : Index := Scalar.indexCast c34_i32_497
  let c0_i32_52 : BitVec 32 := 0#32
  let c1_i32_54 : BitVec 32 := 1#32
  let arg16 : BitVec 32 := Scf.iv c0_i32_52 c1_i32_54 k0_t3
  let v1468 : Index := Scalar.indexCast arg16
  let c48_498 : Index := 48#32
  ![34, v1468.toNat, 48]
def k0_off570 (k0_t3 : Fin k0_t3_loop.trips) : Fin 3 → Nat :=
  let c35_i32_500 : BitVec 32 := 35#32
  let v1476 : Index := Scalar.indexCast c35_i32_500
  let c0_i32_52 : BitVec 32 := 0#32
  let c1_i32_54 : BitVec 32 := 1#32
  let arg16 : BitVec 32 := Scf.iv c0_i32_52 c1_i32_54 k0_t3
  let v1477 : Index := Scalar.indexCast arg16
  let c48_501 : Index := 48#32
  ![35, v1477.toNat, 48]
def k0_off571 (k0_t3 : Fin k0_t3_loop.trips) : Fin 3 → Nat :=
  let c0_i32_503 : BitVec 32 := 0#32
  let v1485 : Index := Scalar.indexCast c0_i32_503
  let c0_i32_52 : BitVec 32 := 0#32
  let c1_i32_54 : BitVec 32 := 1#32
  let arg16 : BitVec 32 := Scf.iv c0_i32_52 c1_i32_54 k0_t3
  let v1486 : Index := Scalar.indexCast arg16
  let c48_504 : Index := 48#32
  ![0, v1486.toNat, 48]
def k0_off572 (k0_t3 : Fin k0_t3_loop.trips) : Fin 3 → Nat :=
  let c1_i32_505 : BitVec 32 := 1#32
  let v1490 : Index := Scalar.indexCast c1_i32_505
  let c0_i32_52 : BitVec 32 := 0#32
  let c1_i32_54 : BitVec 32 := 1#32
  let arg16 : BitVec 32 := Scf.iv c0_i32_52 c1_i32_54 k0_t3
  let v1491 : Index := Scalar.indexCast arg16
  let c48_506 : Index := 48#32
  ![1, v1491.toNat, 48]
def k0_off573 (k0_t3 : Fin k0_t3_loop.trips) : Fin 3 → Nat :=
  let c2_i32_507 : BitVec 32 := 2#32
  let v1495 : Index := Scalar.indexCast c2_i32_507
  let c0_i32_52 : BitVec 32 := 0#32
  let c1_i32_54 : BitVec 32 := 1#32
  let arg16 : BitVec 32 := Scf.iv c0_i32_52 c1_i32_54 k0_t3
  let v1496 : Index := Scalar.indexCast arg16
  let c48_508 : Index := 48#32
  ![2, v1496.toNat, 48]
def k0_off574 (k0_t3 : Fin k0_t3_loop.trips) : Fin 3 → Nat :=
  let c3_i32_509 : BitVec 32 := 3#32
  let v1500 : Index := Scalar.indexCast c3_i32_509
  let c0_i32_52 : BitVec 32 := 0#32
  let c1_i32_54 : BitVec 32 := 1#32
  let arg16 : BitVec 32 := Scf.iv c0_i32_52 c1_i32_54 k0_t3
  let v1501 : Index := Scalar.indexCast arg16
  let c48_510 : Index := 48#32
  ![3, v1501.toNat, 48]
def k0_off575 (k0_t3 : Fin k0_t3_loop.trips) : Fin 3 → Nat :=
  let c4_i32_511 : BitVec 32 := 4#32
  let v1505 : Index := Scalar.indexCast c4_i32_511
  let c0_i32_52 : BitVec 32 := 0#32
  let c1_i32_54 : BitVec 32 := 1#32
  let arg16 : BitVec 32 := Scf.iv c0_i32_52 c1_i32_54 k0_t3
  let v1506 : Index := Scalar.indexCast arg16
  let c48_512 : Index := 48#32
  ![4, v1506.toNat, 48]
def k0_off576 (k0_t3 : Fin k0_t3_loop.trips) : Fin 3 → Nat :=
  let c5_i32_513 : BitVec 32 := 5#32
  let v1510 : Index := Scalar.indexCast c5_i32_513
  let c0_i32_52 : BitVec 32 := 0#32
  let c1_i32_54 : BitVec 32 := 1#32
  let arg16 : BitVec 32 := Scf.iv c0_i32_52 c1_i32_54 k0_t3
  let v1511 : Index := Scalar.indexCast arg16
  let c48_514 : Index := 48#32
  ![5, v1511.toNat, 48]
def k0_off577 (k0_t3 : Fin k0_t3_loop.trips) : Fin 3 → Nat :=
  let c6_i32_515 : BitVec 32 := 6#32
  let v1515 : Index := Scalar.indexCast c6_i32_515
  let c0_i32_52 : BitVec 32 := 0#32
  let c1_i32_54 : BitVec 32 := 1#32
  let arg16 : BitVec 32 := Scf.iv c0_i32_52 c1_i32_54 k0_t3
  let v1516 : Index := Scalar.indexCast arg16
  let c48_516 : Index := 48#32
  ![6, v1516.toNat, 48]
def k0_off578 (k0_t3 : Fin k0_t3_loop.trips) : Fin 3 → Nat :=
  let c7_i32_517 : BitVec 32 := 7#32
  let v1520 : Index := Scalar.indexCast c7_i32_517
  let c0_i32_52 : BitVec 32 := 0#32
  let c1_i32_54 : BitVec 32 := 1#32
  let arg16 : BitVec 32 := Scf.iv c0_i32_52 c1_i32_54 k0_t3
  let v1521 : Index := Scalar.indexCast arg16
  let c48_518 : Index := 48#32
  ![7, v1521.toNat, 48]
def k0_off579 (k0_t3 : Fin k0_t3_loop.trips) : Fin 3 → Nat :=
  let c8_i32_519 : BitVec 32 := 8#32
  let v1525 : Index := Scalar.indexCast c8_i32_519
  let c0_i32_52 : BitVec 32 := 0#32
  let c1_i32_54 : BitVec 32 := 1#32
  let arg16 : BitVec 32 := Scf.iv c0_i32_52 c1_i32_54 k0_t3
  let v1526 : Index := Scalar.indexCast arg16
  let c48_520 : Index := 48#32
  ![8, v1526.toNat, 48]
def k0_off580 (k0_t3 : Fin k0_t3_loop.trips) : Fin 3 → Nat :=
  let c9_i32_521 : BitVec 32 := 9#32
  let v1530 : Index := Scalar.indexCast c9_i32_521
  let c0_i32_52 : BitVec 32 := 0#32
  let c1_i32_54 : BitVec 32 := 1#32
  let arg16 : BitVec 32 := Scf.iv c0_i32_52 c1_i32_54 k0_t3
  let v1531 : Index := Scalar.indexCast arg16
  let c48_522 : Index := 48#32
  ![9, v1531.toNat, 48]
def k0_off581 (k0_t3 : Fin k0_t3_loop.trips) : Fin 3 → Nat :=
  let c10_i32_523 : BitVec 32 := 10#32
  let v1535 : Index := Scalar.indexCast c10_i32_523
  let c0_i32_52 : BitVec 32 := 0#32
  let c1_i32_54 : BitVec 32 := 1#32
  let arg16 : BitVec 32 := Scf.iv c0_i32_52 c1_i32_54 k0_t3
  let v1536 : Index := Scalar.indexCast arg16
  let c48_524 : Index := 48#32
  ![10, v1536.toNat, 48]
def k0_off582 (k0_t3 : Fin k0_t3_loop.trips) : Fin 3 → Nat :=
  let c11_i32_525 : BitVec 32 := 11#32
  let v1540 : Index := Scalar.indexCast c11_i32_525
  let c0_i32_52 : BitVec 32 := 0#32
  let c1_i32_54 : BitVec 32 := 1#32
  let arg16 : BitVec 32 := Scf.iv c0_i32_52 c1_i32_54 k0_t3
  let v1541 : Index := Scalar.indexCast arg16
  let c48_526 : Index := 48#32
  ![11, v1541.toNat, 48]
def k0_off583 (k0_t3 : Fin k0_t3_loop.trips) : Fin 3 → Nat :=
  let c0_i32_527 : BitVec 32 := 0#32
  let v1545 : Index := Scalar.indexCast c0_i32_527
  let c0_i32_52 : BitVec 32 := 0#32
  let c1_i32_54 : BitVec 32 := 1#32
  let arg16 : BitVec 32 := Scf.iv c0_i32_52 c1_i32_54 k0_t3
  let v1546 : Index := Scalar.indexCast arg16
  let c64_528 : Index := 64#32
  ![0, v1546.toNat, 64]
def k0_off584 (k0_t3 : Fin k0_t3_loop.trips) : Fin 3 → Nat :=
  let c1_i32_530 : BitVec 32 := 1#32
  let v1552 : Index := Scalar.indexCast c1_i32_530
  let c0_i32_52 : BitVec 32 := 0#32
  let c1_i32_54 : BitVec 32 := 1#32
  let arg16 : BitVec 32 := Scf.iv c0_i32_52 c1_i32_54 k0_t3
  let v1553 : Index := Scalar.indexCast arg16
  let c64_531 : Index := 64#32
  ![1, v1553.toNat, 64]
def k0_off585 (k0_t3 : Fin k0_t3_loop.trips) : Fin 3 → Nat :=
  let c2_i32_533 : BitVec 32 := 2#32
  let v1560 : Index := Scalar.indexCast c2_i32_533
  let c0_i32_52 : BitVec 32 := 0#32
  let c1_i32_54 : BitVec 32 := 1#32
  let arg16 : BitVec 32 := Scf.iv c0_i32_52 c1_i32_54 k0_t3
  let v1561 : Index := Scalar.indexCast arg16
  let c64_534 : Index := 64#32
  ![2, v1561.toNat, 64]
def k0_off586 (k0_t3 : Fin k0_t3_loop.trips) : Fin 3 → Nat :=
  let c3_i32_536 : BitVec 32 := 3#32
  let v1568 : Index := Scalar.indexCast c3_i32_536
  let c0_i32_52 : BitVec 32 := 0#32
  let c1_i32_54 : BitVec 32 := 1#32
  let arg16 : BitVec 32 := Scf.iv c0_i32_52 c1_i32_54 k0_t3
  let v1569 : Index := Scalar.indexCast arg16
  let c64_537 : Index := 64#32
  ![3, v1569.toNat, 64]
def k0_off587 (k0_t3 : Fin k0_t3_loop.trips) : Fin 3 → Nat :=
  let c4_i32_539 : BitVec 32 := 4#32
  let v1576 : Index := Scalar.indexCast c4_i32_539
  let c0_i32_52 : BitVec 32 := 0#32
  let c1_i32_54 : BitVec 32 := 1#32
  let arg16 : BitVec 32 := Scf.iv c0_i32_52 c1_i32_54 k0_t3
  let v1577 : Index := Scalar.indexCast arg16
  let c64_540 : Index := 64#32
  ![4, v1577.toNat, 64]
def k0_off588 (k0_t3 : Fin k0_t3_loop.trips) : Fin 3 → Nat :=
  let c5_i32_542 : BitVec 32 := 5#32
  let v1584 : Index := Scalar.indexCast c5_i32_542
  let c0_i32_52 : BitVec 32 := 0#32
  let c1_i32_54 : BitVec 32 := 1#32
  let arg16 : BitVec 32 := Scf.iv c0_i32_52 c1_i32_54 k0_t3
  let v1585 : Index := Scalar.indexCast arg16
  let c64_543 : Index := 64#32
  ![5, v1585.toNat, 64]
def k0_off589 (k0_t3 : Fin k0_t3_loop.trips) : Fin 3 → Nat :=
  let c6_i32_545 : BitVec 32 := 6#32
  let v1592 : Index := Scalar.indexCast c6_i32_545
  let c0_i32_52 : BitVec 32 := 0#32
  let c1_i32_54 : BitVec 32 := 1#32
  let arg16 : BitVec 32 := Scf.iv c0_i32_52 c1_i32_54 k0_t3
  let v1593 : Index := Scalar.indexCast arg16
  let c64_546 : Index := 64#32
  ![6, v1593.toNat, 64]
def k0_off590 (k0_t3 : Fin k0_t3_loop.trips) : Fin 3 → Nat :=
  let c7_i32_548 : BitVec 32 := 7#32
  let v1600 : Index := Scalar.indexCast c7_i32_548
  let c0_i32_52 : BitVec 32 := 0#32
  let c1_i32_54 : BitVec 32 := 1#32
  let arg16 : BitVec 32 := Scf.iv c0_i32_52 c1_i32_54 k0_t3
  let v1601 : Index := Scalar.indexCast arg16
  let c64_549 : Index := 64#32
  ![7, v1601.toNat, 64]
def k0_off591 (k0_t3 : Fin k0_t3_loop.trips) : Fin 3 → Nat :=
  let c8_i32_551 : BitVec 32 := 8#32
  let v1609 : Index := Scalar.indexCast c8_i32_551
  let c0_i32_52 : BitVec 32 := 0#32
  let c1_i32_54 : BitVec 32 := 1#32
  let arg16 : BitVec 32 := Scf.iv c0_i32_52 c1_i32_54 k0_t3
  let v1610 : Index := Scalar.indexCast arg16
  let c64_552 : Index := 64#32
  ![8, v1610.toNat, 64]
def k0_off592 (k0_t3 : Fin k0_t3_loop.trips) : Fin 3 → Nat :=
  let c9_i32_554 : BitVec 32 := 9#32
  let v1618 : Index := Scalar.indexCast c9_i32_554
  let c0_i32_52 : BitVec 32 := 0#32
  let c1_i32_54 : BitVec 32 := 1#32
  let arg16 : BitVec 32 := Scf.iv c0_i32_52 c1_i32_54 k0_t3
  let v1619 : Index := Scalar.indexCast arg16
  let c64_555 : Index := 64#32
  ![9, v1619.toNat, 64]
def k0_off593 (k0_t3 : Fin k0_t3_loop.trips) : Fin 3 → Nat :=
  let c10_i32_557 : BitVec 32 := 10#32
  let v1627 : Index := Scalar.indexCast c10_i32_557
  let c0_i32_52 : BitVec 32 := 0#32
  let c1_i32_54 : BitVec 32 := 1#32
  let arg16 : BitVec 32 := Scf.iv c0_i32_52 c1_i32_54 k0_t3
  let v1628 : Index := Scalar.indexCast arg16
  let c64_558 : Index := 64#32
  ![10, v1628.toNat, 64]
def k0_off594 (k0_t3 : Fin k0_t3_loop.trips) : Fin 3 → Nat :=
  let c11_i32_560 : BitVec 32 := 11#32
  let v1636 : Index := Scalar.indexCast c11_i32_560
  let c0_i32_52 : BitVec 32 := 0#32
  let c1_i32_54 : BitVec 32 := 1#32
  let arg16 : BitVec 32 := Scf.iv c0_i32_52 c1_i32_54 k0_t3
  let v1637 : Index := Scalar.indexCast arg16
  let c64_561 : Index := 64#32
  ![11, v1637.toNat, 64]
def k0_off595 (k0_t3 : Fin k0_t3_loop.trips) : Fin 3 → Nat :=
  let c12_i32_563 : BitVec 32 := 12#32
  let v1645 : Index := Scalar.indexCast c12_i32_563
  let c0_i32_52 : BitVec 32 := 0#32
  let c1_i32_54 : BitVec 32 := 1#32
  let arg16 : BitVec 32 := Scf.iv c0_i32_52 c1_i32_54 k0_t3
  let v1646 : Index := Scalar.indexCast arg16
  let c64_564 : Index := 64#32
  ![12, v1646.toNat, 64]
def k0_off596 (k0_t3 : Fin k0_t3_loop.trips) : Fin 3 → Nat :=
  let c13_i32_566 : BitVec 32 := 13#32
  let v1653 : Index := Scalar.indexCast c13_i32_566
  let c0_i32_52 : BitVec 32 := 0#32
  let c1_i32_54 : BitVec 32 := 1#32
  let arg16 : BitVec 32 := Scf.iv c0_i32_52 c1_i32_54 k0_t3
  let v1654 : Index := Scalar.indexCast arg16
  let c64_567 : Index := 64#32
  ![13, v1654.toNat, 64]
def k0_off597 (k0_t3 : Fin k0_t3_loop.trips) : Fin 3 → Nat :=
  let c14_i32_569 : BitVec 32 := 14#32
  let v1662 : Index := Scalar.indexCast c14_i32_569
  let c0_i32_52 : BitVec 32 := 0#32
  let c1_i32_54 : BitVec 32 := 1#32
  let arg16 : BitVec 32 := Scf.iv c0_i32_52 c1_i32_54 k0_t3
  let v1663 : Index := Scalar.indexCast arg16
  let c64_570 : Index := 64#32
  ![14, v1663.toNat, 64]
def k0_off598 (k0_t3 : Fin k0_t3_loop.trips) : Fin 3 → Nat :=
  let c15_i32_572 : BitVec 32 := 15#32
  let v1671 : Index := Scalar.indexCast c15_i32_572
  let c0_i32_52 : BitVec 32 := 0#32
  let c1_i32_54 : BitVec 32 := 1#32
  let arg16 : BitVec 32 := Scf.iv c0_i32_52 c1_i32_54 k0_t3
  let v1672 : Index := Scalar.indexCast arg16
  let c64_573 : Index := 64#32
  ![15, v1672.toNat, 64]
def k0_off599 (k0_t3 : Fin k0_t3_loop.trips) : Fin 3 → Nat :=
  let c16_i32_575 : BitVec 32 := 16#32
  let v1680 : Index := Scalar.indexCast c16_i32_575
  let c0_i32_52 : BitVec 32 := 0#32
  let c1_i32_54 : BitVec 32 := 1#32
  let arg16 : BitVec 32 := Scf.iv c0_i32_52 c1_i32_54 k0_t3
  let v1681 : Index := Scalar.indexCast arg16
  let c64_576 : Index := 64#32
  ![16, v1681.toNat, 64]
def k0_off600 (k0_t3 : Fin k0_t3_loop.trips) : Fin 3 → Nat :=
  let c17_i32_578 : BitVec 32 := 17#32
  let v1689 : Index := Scalar.indexCast c17_i32_578
  let c0_i32_52 : BitVec 32 := 0#32
  let c1_i32_54 : BitVec 32 := 1#32
  let arg16 : BitVec 32 := Scf.iv c0_i32_52 c1_i32_54 k0_t3
  let v1690 : Index := Scalar.indexCast arg16
  let c64_579 : Index := 64#32
  ![17, v1690.toNat, 64]
def k0_off601 (k0_t3 : Fin k0_t3_loop.trips) : Fin 3 → Nat :=
  let c18_i32_581 : BitVec 32 := 18#32
  let v1698 : Index := Scalar.indexCast c18_i32_581
  let c0_i32_52 : BitVec 32 := 0#32
  let c1_i32_54 : BitVec 32 := 1#32
  let arg16 : BitVec 32 := Scf.iv c0_i32_52 c1_i32_54 k0_t3
  let v1699 : Index := Scalar.indexCast arg16
  let c64_582 : Index := 64#32
  ![18, v1699.toNat, 64]
def k0_off602 (k0_t3 : Fin k0_t3_loop.trips) : Fin 3 → Nat :=
  let c19_i32_584 : BitVec 32 := 19#32
  let v1706 : Index := Scalar.indexCast c19_i32_584
  let c0_i32_52 : BitVec 32 := 0#32
  let c1_i32_54 : BitVec 32 := 1#32
  let arg16 : BitVec 32 := Scf.iv c0_i32_52 c1_i32_54 k0_t3
  let v1707 : Index := Scalar.indexCast arg16
  let c64_585 : Index := 64#32
  ![19, v1707.toNat, 64]
def k0_off603 (k0_t3 : Fin k0_t3_loop.trips) : Fin 3 → Nat :=
  let c20_i32_587 : BitVec 32 := 20#32
  let v1715 : Index := Scalar.indexCast c20_i32_587
  let c0_i32_52 : BitVec 32 := 0#32
  let c1_i32_54 : BitVec 32 := 1#32
  let arg16 : BitVec 32 := Scf.iv c0_i32_52 c1_i32_54 k0_t3
  let v1716 : Index := Scalar.indexCast arg16
  let c64_588 : Index := 64#32
  ![20, v1716.toNat, 64]
def k0_off604 (k0_t3 : Fin k0_t3_loop.trips) : Fin 3 → Nat :=
  let c21_i32_590 : BitVec 32 := 21#32
  let v1724 : Index := Scalar.indexCast c21_i32_590
  let c0_i32_52 : BitVec 32 := 0#32
  let c1_i32_54 : BitVec 32 := 1#32
  let arg16 : BitVec 32 := Scf.iv c0_i32_52 c1_i32_54 k0_t3
  let v1725 : Index := Scalar.indexCast arg16
  let c64_591 : Index := 64#32
  ![21, v1725.toNat, 64]
def k0_off605 (k0_t3 : Fin k0_t3_loop.trips) : Fin 3 → Nat :=
  let c22_i32_593 : BitVec 32 := 22#32
  let v1733 : Index := Scalar.indexCast c22_i32_593
  let c0_i32_52 : BitVec 32 := 0#32
  let c1_i32_54 : BitVec 32 := 1#32
  let arg16 : BitVec 32 := Scf.iv c0_i32_52 c1_i32_54 k0_t3
  let v1734 : Index := Scalar.indexCast arg16
  let c64_594 : Index := 64#32
  ![22, v1734.toNat, 64]
def k0_off606 (k0_t3 : Fin k0_t3_loop.trips) : Fin 3 → Nat :=
  let c23_i32_596 : BitVec 32 := 23#32
  let v1742 : Index := Scalar.indexCast c23_i32_596
  let c0_i32_52 : BitVec 32 := 0#32
  let c1_i32_54 : BitVec 32 := 1#32
  let arg16 : BitVec 32 := Scf.iv c0_i32_52 c1_i32_54 k0_t3
  let v1743 : Index := Scalar.indexCast arg16
  let c64_597 : Index := 64#32
  ![23, v1743.toNat, 64]
def k0_off607 (k0_t3 : Fin k0_t3_loop.trips) : Fin 3 → Nat :=
  let c24_i32_599 : BitVec 32 := 24#32
  let v1751 : Index := Scalar.indexCast c24_i32_599
  let c0_i32_52 : BitVec 32 := 0#32
  let c1_i32_54 : BitVec 32 := 1#32
  let arg16 : BitVec 32 := Scf.iv c0_i32_52 c1_i32_54 k0_t3
  let v1752 : Index := Scalar.indexCast arg16
  let c64_600 : Index := 64#32
  ![24, v1752.toNat, 64]
def k0_off608 (k0_t3 : Fin k0_t3_loop.trips) : Fin 3 → Nat :=
  let c25_i32_602 : BitVec 32 := 25#32
  let v1759 : Index := Scalar.indexCast c25_i32_602
  let c0_i32_52 : BitVec 32 := 0#32
  let c1_i32_54 : BitVec 32 := 1#32
  let arg16 : BitVec 32 := Scf.iv c0_i32_52 c1_i32_54 k0_t3
  let v1760 : Index := Scalar.indexCast arg16
  let c64_603 : Index := 64#32
  ![25, v1760.toNat, 64]
def k0_off609 (k0_t3 : Fin k0_t3_loop.trips) : Fin 3 → Nat :=
  let c26_i32_605 : BitVec 32 := 26#32
  let v1768 : Index := Scalar.indexCast c26_i32_605
  let c0_i32_52 : BitVec 32 := 0#32
  let c1_i32_54 : BitVec 32 := 1#32
  let arg16 : BitVec 32 := Scf.iv c0_i32_52 c1_i32_54 k0_t3
  let v1769 : Index := Scalar.indexCast arg16
  let c64_606 : Index := 64#32
  ![26, v1769.toNat, 64]
def k0_off610 (k0_t3 : Fin k0_t3_loop.trips) : Fin 3 → Nat :=
  let c27_i32_608 : BitVec 32 := 27#32
  let v1777 : Index := Scalar.indexCast c27_i32_608
  let c0_i32_52 : BitVec 32 := 0#32
  let c1_i32_54 : BitVec 32 := 1#32
  let arg16 : BitVec 32 := Scf.iv c0_i32_52 c1_i32_54 k0_t3
  let v1778 : Index := Scalar.indexCast arg16
  let c64_609 : Index := 64#32
  ![27, v1778.toNat, 64]
def k0_off611 (k0_t3 : Fin k0_t3_loop.trips) : Fin 3 → Nat :=
  let c28_i32_611 : BitVec 32 := 28#32
  let v1786 : Index := Scalar.indexCast c28_i32_611
  let c0_i32_52 : BitVec 32 := 0#32
  let c1_i32_54 : BitVec 32 := 1#32
  let arg16 : BitVec 32 := Scf.iv c0_i32_52 c1_i32_54 k0_t3
  let v1787 : Index := Scalar.indexCast arg16
  let c64_612 : Index := 64#32
  ![28, v1787.toNat, 64]
def k0_off612 (k0_t3 : Fin k0_t3_loop.trips) : Fin 3 → Nat :=
  let c29_i32_614 : BitVec 32 := 29#32
  let v1795 : Index := Scalar.indexCast c29_i32_614
  let c0_i32_52 : BitVec 32 := 0#32
  let c1_i32_54 : BitVec 32 := 1#32
  let arg16 : BitVec 32 := Scf.iv c0_i32_52 c1_i32_54 k0_t3
  let v1796 : Index := Scalar.indexCast arg16
  let c64_615 : Index := 64#32
  ![29, v1796.toNat, 64]
def k0_off613 (k0_t3 : Fin k0_t3_loop.trips) : Fin 3 → Nat :=
  let c30_i32_617 : BitVec 32 := 30#32
  let v1804 : Index := Scalar.indexCast c30_i32_617
  let c0_i32_52 : BitVec 32 := 0#32
  let c1_i32_54 : BitVec 32 := 1#32
  let arg16 : BitVec 32 := Scf.iv c0_i32_52 c1_i32_54 k0_t3
  let v1805 : Index := Scalar.indexCast arg16
  let c64_618 : Index := 64#32
  ![30, v1805.toNat, 64]
def k0_off614 (k0_t3 : Fin k0_t3_loop.trips) : Fin 3 → Nat :=
  let c31_i32_620 : BitVec 32 := 31#32
  let v1812 : Index := Scalar.indexCast c31_i32_620
  let c0_i32_52 : BitVec 32 := 0#32
  let c1_i32_54 : BitVec 32 := 1#32
  let arg16 : BitVec 32 := Scf.iv c0_i32_52 c1_i32_54 k0_t3
  let v1813 : Index := Scalar.indexCast arg16
  let c64_621 : Index := 64#32
  ![31, v1813.toNat, 64]
def k0_off615 (k0_t3 : Fin k0_t3_loop.trips) : Fin 3 → Nat :=
  let c32_i32_623 : BitVec 32 := 32#32
  let v1821 : Index := Scalar.indexCast c32_i32_623
  let c0_i32_52 : BitVec 32 := 0#32
  let c1_i32_54 : BitVec 32 := 1#32
  let arg16 : BitVec 32 := Scf.iv c0_i32_52 c1_i32_54 k0_t3
  let v1822 : Index := Scalar.indexCast arg16
  let c64_624 : Index := 64#32
  ![32, v1822.toNat, 64]
def k0_off616 (k0_t3 : Fin k0_t3_loop.trips) : Fin 3 → Nat :=
  let c33_i32_626 : BitVec 32 := 33#32
  let v1830 : Index := Scalar.indexCast c33_i32_626
  let c0_i32_52 : BitVec 32 := 0#32
  let c1_i32_54 : BitVec 32 := 1#32
  let arg16 : BitVec 32 := Scf.iv c0_i32_52 c1_i32_54 k0_t3
  let v1831 : Index := Scalar.indexCast arg16
  let c64_627 : Index := 64#32
  ![33, v1831.toNat, 64]
def k0_off617 (k0_t3 : Fin k0_t3_loop.trips) : Fin 3 → Nat :=
  let c34_i32_629 : BitVec 32 := 34#32
  let v1839 : Index := Scalar.indexCast c34_i32_629
  let c0_i32_52 : BitVec 32 := 0#32
  let c1_i32_54 : BitVec 32 := 1#32
  let arg16 : BitVec 32 := Scf.iv c0_i32_52 c1_i32_54 k0_t3
  let v1840 : Index := Scalar.indexCast arg16
  let c64_630 : Index := 64#32
  ![34, v1840.toNat, 64]
def k0_off618 (k0_t3 : Fin k0_t3_loop.trips) : Fin 3 → Nat :=
  let c35_i32_632 : BitVec 32 := 35#32
  let v1848 : Index := Scalar.indexCast c35_i32_632
  let c0_i32_52 : BitVec 32 := 0#32
  let c1_i32_54 : BitVec 32 := 1#32
  let arg16 : BitVec 32 := Scf.iv c0_i32_52 c1_i32_54 k0_t3
  let v1849 : Index := Scalar.indexCast arg16
  let c64_633 : Index := 64#32
  ![35, v1849.toNat, 64]
def k0_off619 (k0_t3 : Fin k0_t3_loop.trips) : Fin 3 → Nat :=
  let c0_i32_635 : BitVec 32 := 0#32
  let v1857 : Index := Scalar.indexCast c0_i32_635
  let c0_i32_52 : BitVec 32 := 0#32
  let c1_i32_54 : BitVec 32 := 1#32
  let arg16 : BitVec 32 := Scf.iv c0_i32_52 c1_i32_54 k0_t3
  let v1858 : Index := Scalar.indexCast arg16
  let c64_636 : Index := 64#32
  ![0, v1858.toNat, 64]
def k0_off620 (k0_t3 : Fin k0_t3_loop.trips) : Fin 3 → Nat :=
  let c1_i32_637 : BitVec 32 := 1#32
  let v1862 : Index := Scalar.indexCast c1_i32_637
  let c0_i32_52 : BitVec 32 := 0#32
  let c1_i32_54 : BitVec 32 := 1#32
  let arg16 : BitVec 32 := Scf.iv c0_i32_52 c1_i32_54 k0_t3
  let v1863 : Index := Scalar.indexCast arg16
  let c64_638 : Index := 64#32
  ![1, v1863.toNat, 64]
def k0_off621 (k0_t3 : Fin k0_t3_loop.trips) : Fin 3 → Nat :=
  let c2_i32_639 : BitVec 32 := 2#32
  let v1867 : Index := Scalar.indexCast c2_i32_639
  let c0_i32_52 : BitVec 32 := 0#32
  let c1_i32_54 : BitVec 32 := 1#32
  let arg16 : BitVec 32 := Scf.iv c0_i32_52 c1_i32_54 k0_t3
  let v1868 : Index := Scalar.indexCast arg16
  let c64_640 : Index := 64#32
  ![2, v1868.toNat, 64]
def k0_off622 (k0_t3 : Fin k0_t3_loop.trips) : Fin 3 → Nat :=
  let c3_i32_641 : BitVec 32 := 3#32
  let v1872 : Index := Scalar.indexCast c3_i32_641
  let c0_i32_52 : BitVec 32 := 0#32
  let c1_i32_54 : BitVec 32 := 1#32
  let arg16 : BitVec 32 := Scf.iv c0_i32_52 c1_i32_54 k0_t3
  let v1873 : Index := Scalar.indexCast arg16
  let c64_642 : Index := 64#32
  ![3, v1873.toNat, 64]
def k0_off623 (k0_t3 : Fin k0_t3_loop.trips) : Fin 3 → Nat :=
  let c4_i32_643 : BitVec 32 := 4#32
  let v1877 : Index := Scalar.indexCast c4_i32_643
  let c0_i32_52 : BitVec 32 := 0#32
  let c1_i32_54 : BitVec 32 := 1#32
  let arg16 : BitVec 32 := Scf.iv c0_i32_52 c1_i32_54 k0_t3
  let v1878 : Index := Scalar.indexCast arg16
  let c64_644 : Index := 64#32
  ![4, v1878.toNat, 64]
def k0_off624 (k0_t3 : Fin k0_t3_loop.trips) : Fin 3 → Nat :=
  let c5_i32_645 : BitVec 32 := 5#32
  let v1882 : Index := Scalar.indexCast c5_i32_645
  let c0_i32_52 : BitVec 32 := 0#32
  let c1_i32_54 : BitVec 32 := 1#32
  let arg16 : BitVec 32 := Scf.iv c0_i32_52 c1_i32_54 k0_t3
  let v1883 : Index := Scalar.indexCast arg16
  let c64_646 : Index := 64#32
  ![5, v1883.toNat, 64]
def k0_off625 (k0_t3 : Fin k0_t3_loop.trips) : Fin 3 → Nat :=
  let c6_i32_647 : BitVec 32 := 6#32
  let v1887 : Index := Scalar.indexCast c6_i32_647
  let c0_i32_52 : BitVec 32 := 0#32
  let c1_i32_54 : BitVec 32 := 1#32
  let arg16 : BitVec 32 := Scf.iv c0_i32_52 c1_i32_54 k0_t3
  let v1888 : Index := Scalar.indexCast arg16
  let c64_648 : Index := 64#32
  ![6, v1888.toNat, 64]
def k0_off626 (k0_t3 : Fin k0_t3_loop.trips) : Fin 3 → Nat :=
  let c7_i32_649 : BitVec 32 := 7#32
  let v1892 : Index := Scalar.indexCast c7_i32_649
  let c0_i32_52 : BitVec 32 := 0#32
  let c1_i32_54 : BitVec 32 := 1#32
  let arg16 : BitVec 32 := Scf.iv c0_i32_52 c1_i32_54 k0_t3
  let v1893 : Index := Scalar.indexCast arg16
  let c64_650 : Index := 64#32
  ![7, v1893.toNat, 64]
def k0_off627 (k0_t3 : Fin k0_t3_loop.trips) : Fin 3 → Nat :=
  let c8_i32_651 : BitVec 32 := 8#32
  let v1897 : Index := Scalar.indexCast c8_i32_651
  let c0_i32_52 : BitVec 32 := 0#32
  let c1_i32_54 : BitVec 32 := 1#32
  let arg16 : BitVec 32 := Scf.iv c0_i32_52 c1_i32_54 k0_t3
  let v1898 : Index := Scalar.indexCast arg16
  let c64_652 : Index := 64#32
  ![8, v1898.toNat, 64]
def k0_off628 (k0_t3 : Fin k0_t3_loop.trips) : Fin 3 → Nat :=
  let c9_i32_653 : BitVec 32 := 9#32
  let v1902 : Index := Scalar.indexCast c9_i32_653
  let c0_i32_52 : BitVec 32 := 0#32
  let c1_i32_54 : BitVec 32 := 1#32
  let arg16 : BitVec 32 := Scf.iv c0_i32_52 c1_i32_54 k0_t3
  let v1903 : Index := Scalar.indexCast arg16
  let c64_654 : Index := 64#32
  ![9, v1903.toNat, 64]
def k0_off629 (k0_t3 : Fin k0_t3_loop.trips) : Fin 3 → Nat :=
  let c10_i32_655 : BitVec 32 := 10#32
  let v1907 : Index := Scalar.indexCast c10_i32_655
  let c0_i32_52 : BitVec 32 := 0#32
  let c1_i32_54 : BitVec 32 := 1#32
  let arg16 : BitVec 32 := Scf.iv c0_i32_52 c1_i32_54 k0_t3
  let v1908 : Index := Scalar.indexCast arg16
  let c64_656 : Index := 64#32
  ![10, v1908.toNat, 64]
def k0_off630 (k0_t3 : Fin k0_t3_loop.trips) : Fin 3 → Nat :=
  let c11_i32_657 : BitVec 32 := 11#32
  let v1912 : Index := Scalar.indexCast c11_i32_657
  let c0_i32_52 : BitVec 32 := 0#32
  let c1_i32_54 : BitVec 32 := 1#32
  let arg16 : BitVec 32 := Scf.iv c0_i32_52 c1_i32_54 k0_t3
  let v1913 : Index := Scalar.indexCast arg16
  let c64_658 : Index := 64#32
  ![11, v1913.toNat, 64]
def k0_off631 (k0_t3 : Fin k0_t3_loop.trips) : Fin 3 → Nat :=
  let c0_i32_659 : BitVec 32 := 0#32
  let v1917 : Index := Scalar.indexCast c0_i32_659
  let c0_i32_52 : BitVec 32 := 0#32
  let c1_i32_54 : BitVec 32 := 1#32
  let arg16 : BitVec 32 := Scf.iv c0_i32_52 c1_i32_54 k0_t3
  let v1918 : Index := Scalar.indexCast arg16
  let c80_660 : Index := 80#32
  ![0, v1918.toNat, 80]
def k0_off632 (k0_t3 : Fin k0_t3_loop.trips) : Fin 3 → Nat :=
  let c1_i32_662 : BitVec 32 := 1#32
  let v1924 : Index := Scalar.indexCast c1_i32_662
  let c0_i32_52 : BitVec 32 := 0#32
  let c1_i32_54 : BitVec 32 := 1#32
  let arg16 : BitVec 32 := Scf.iv c0_i32_52 c1_i32_54 k0_t3
  let v1925 : Index := Scalar.indexCast arg16
  let c80_663 : Index := 80#32
  ![1, v1925.toNat, 80]
def k0_off633 (k0_t3 : Fin k0_t3_loop.trips) : Fin 3 → Nat :=
  let c2_i32_665 : BitVec 32 := 2#32
  let v1932 : Index := Scalar.indexCast c2_i32_665
  let c0_i32_52 : BitVec 32 := 0#32
  let c1_i32_54 : BitVec 32 := 1#32
  let arg16 : BitVec 32 := Scf.iv c0_i32_52 c1_i32_54 k0_t3
  let v1933 : Index := Scalar.indexCast arg16
  let c80_666 : Index := 80#32
  ![2, v1933.toNat, 80]
def k0_off634 (k0_t3 : Fin k0_t3_loop.trips) : Fin 3 → Nat :=
  let c3_i32_668 : BitVec 32 := 3#32
  let v1940 : Index := Scalar.indexCast c3_i32_668
  let c0_i32_52 : BitVec 32 := 0#32
  let c1_i32_54 : BitVec 32 := 1#32
  let arg16 : BitVec 32 := Scf.iv c0_i32_52 c1_i32_54 k0_t3
  let v1941 : Index := Scalar.indexCast arg16
  let c80_669 : Index := 80#32
  ![3, v1941.toNat, 80]
def k0_off635 (k0_t3 : Fin k0_t3_loop.trips) : Fin 3 → Nat :=
  let c4_i32_671 : BitVec 32 := 4#32
  let v1948 : Index := Scalar.indexCast c4_i32_671
  let c0_i32_52 : BitVec 32 := 0#32
  let c1_i32_54 : BitVec 32 := 1#32
  let arg16 : BitVec 32 := Scf.iv c0_i32_52 c1_i32_54 k0_t3
  let v1949 : Index := Scalar.indexCast arg16
  let c80_672 : Index := 80#32
  ![4, v1949.toNat, 80]
def k0_off636 (k0_t3 : Fin k0_t3_loop.trips) : Fin 3 → Nat :=
  let c5_i32_674 : BitVec 32 := 5#32
  let v1956 : Index := Scalar.indexCast c5_i32_674
  let c0_i32_52 : BitVec 32 := 0#32
  let c1_i32_54 : BitVec 32 := 1#32
  let arg16 : BitVec 32 := Scf.iv c0_i32_52 c1_i32_54 k0_t3
  let v1957 : Index := Scalar.indexCast arg16
  let c80_675 : Index := 80#32
  ![5, v1957.toNat, 80]
def k0_off637 (k0_t3 : Fin k0_t3_loop.trips) : Fin 3 → Nat :=
  let c6_i32_677 : BitVec 32 := 6#32
  let v1964 : Index := Scalar.indexCast c6_i32_677
  let c0_i32_52 : BitVec 32 := 0#32
  let c1_i32_54 : BitVec 32 := 1#32
  let arg16 : BitVec 32 := Scf.iv c0_i32_52 c1_i32_54 k0_t3
  let v1965 : Index := Scalar.indexCast arg16
  let c80_678 : Index := 80#32
  ![6, v1965.toNat, 80]
def k0_off638 (k0_t3 : Fin k0_t3_loop.trips) : Fin 3 → Nat :=
  let c7_i32_680 : BitVec 32 := 7#32
  let v1972 : Index := Scalar.indexCast c7_i32_680
  let c0_i32_52 : BitVec 32 := 0#32
  let c1_i32_54 : BitVec 32 := 1#32
  let arg16 : BitVec 32 := Scf.iv c0_i32_52 c1_i32_54 k0_t3
  let v1973 : Index := Scalar.indexCast arg16
  let c80_681 : Index := 80#32
  ![7, v1973.toNat, 80]
def k0_off639 (k0_t3 : Fin k0_t3_loop.trips) : Fin 3 → Nat :=
  let c8_i32_683 : BitVec 32 := 8#32
  let v1981 : Index := Scalar.indexCast c8_i32_683
  let c0_i32_52 : BitVec 32 := 0#32
  let c1_i32_54 : BitVec 32 := 1#32
  let arg16 : BitVec 32 := Scf.iv c0_i32_52 c1_i32_54 k0_t3
  let v1982 : Index := Scalar.indexCast arg16
  let c80_684 : Index := 80#32
  ![8, v1982.toNat, 80]
def k0_off640 (k0_t3 : Fin k0_t3_loop.trips) : Fin 3 → Nat :=
  let c9_i32_686 : BitVec 32 := 9#32
  let v1990 : Index := Scalar.indexCast c9_i32_686
  let c0_i32_52 : BitVec 32 := 0#32
  let c1_i32_54 : BitVec 32 := 1#32
  let arg16 : BitVec 32 := Scf.iv c0_i32_52 c1_i32_54 k0_t3
  let v1991 : Index := Scalar.indexCast arg16
  let c80_687 : Index := 80#32
  ![9, v1991.toNat, 80]
def k0_off641 (k0_t3 : Fin k0_t3_loop.trips) : Fin 3 → Nat :=
  let c10_i32_689 : BitVec 32 := 10#32
  let v1999 : Index := Scalar.indexCast c10_i32_689
  let c0_i32_52 : BitVec 32 := 0#32
  let c1_i32_54 : BitVec 32 := 1#32
  let arg16 : BitVec 32 := Scf.iv c0_i32_52 c1_i32_54 k0_t3
  let v2000 : Index := Scalar.indexCast arg16
  let c80_690 : Index := 80#32
  ![10, v2000.toNat, 80]
def k0_off642 (k0_t3 : Fin k0_t3_loop.trips) : Fin 3 → Nat :=
  let c11_i32_692 : BitVec 32 := 11#32
  let v2008 : Index := Scalar.indexCast c11_i32_692
  let c0_i32_52 : BitVec 32 := 0#32
  let c1_i32_54 : BitVec 32 := 1#32
  let arg16 : BitVec 32 := Scf.iv c0_i32_52 c1_i32_54 k0_t3
  let v2009 : Index := Scalar.indexCast arg16
  let c80_693 : Index := 80#32
  ![11, v2009.toNat, 80]
def k0_off643 (k0_t3 : Fin k0_t3_loop.trips) : Fin 3 → Nat :=
  let c12_i32_695 : BitVec 32 := 12#32
  let v2017 : Index := Scalar.indexCast c12_i32_695
  let c0_i32_52 : BitVec 32 := 0#32
  let c1_i32_54 : BitVec 32 := 1#32
  let arg16 : BitVec 32 := Scf.iv c0_i32_52 c1_i32_54 k0_t3
  let v2018 : Index := Scalar.indexCast arg16
  let c80_696 : Index := 80#32
  ![12, v2018.toNat, 80]
def k0_off644 (k0_t3 : Fin k0_t3_loop.trips) : Fin 3 → Nat :=
  let c13_i32_698 : BitVec 32 := 13#32
  let v2025 : Index := Scalar.indexCast c13_i32_698
  let c0_i32_52 : BitVec 32 := 0#32
  let c1_i32_54 : BitVec 32 := 1#32
  let arg16 : BitVec 32 := Scf.iv c0_i32_52 c1_i32_54 k0_t3
  let v2026 : Index := Scalar.indexCast arg16
  let c80_699 : Index := 80#32
  ![13, v2026.toNat, 80]
def k0_off645 (k0_t3 : Fin k0_t3_loop.trips) : Fin 3 → Nat :=
  let c14_i32_701 : BitVec 32 := 14#32
  let v2034 : Index := Scalar.indexCast c14_i32_701
  let c0_i32_52 : BitVec 32 := 0#32
  let c1_i32_54 : BitVec 32 := 1#32
  let arg16 : BitVec 32 := Scf.iv c0_i32_52 c1_i32_54 k0_t3
  let v2035 : Index := Scalar.indexCast arg16
  let c80_702 : Index := 80#32
  ![14, v2035.toNat, 80]
def k0_off646 (k0_t3 : Fin k0_t3_loop.trips) : Fin 3 → Nat :=
  let c15_i32_704 : BitVec 32 := 15#32
  let v2043 : Index := Scalar.indexCast c15_i32_704
  let c0_i32_52 : BitVec 32 := 0#32
  let c1_i32_54 : BitVec 32 := 1#32
  let arg16 : BitVec 32 := Scf.iv c0_i32_52 c1_i32_54 k0_t3
  let v2044 : Index := Scalar.indexCast arg16
  let c80_705 : Index := 80#32
  ![15, v2044.toNat, 80]
def k0_off647 (k0_t3 : Fin k0_t3_loop.trips) : Fin 3 → Nat :=
  let c16_i32_707 : BitVec 32 := 16#32
  let v2052 : Index := Scalar.indexCast c16_i32_707
  let c0_i32_52 : BitVec 32 := 0#32
  let c1_i32_54 : BitVec 32 := 1#32
  let arg16 : BitVec 32 := Scf.iv c0_i32_52 c1_i32_54 k0_t3
  let v2053 : Index := Scalar.indexCast arg16
  let c80_708 : Index := 80#32
  ![16, v2053.toNat, 80]
def k0_off648 (k0_t3 : Fin k0_t3_loop.trips) : Fin 3 → Nat :=
  let c17_i32_710 : BitVec 32 := 17#32
  let v2061 : Index := Scalar.indexCast c17_i32_710
  let c0_i32_52 : BitVec 32 := 0#32
  let c1_i32_54 : BitVec 32 := 1#32
  let arg16 : BitVec 32 := Scf.iv c0_i32_52 c1_i32_54 k0_t3
  let v2062 : Index := Scalar.indexCast arg16
  let c80_711 : Index := 80#32
  ![17, v2062.toNat, 80]
def k0_off649 (k0_t3 : Fin k0_t3_loop.trips) : Fin 3 → Nat :=
  let c18_i32_713 : BitVec 32 := 18#32
  let v2070 : Index := Scalar.indexCast c18_i32_713
  let c0_i32_52 : BitVec 32 := 0#32
  let c1_i32_54 : BitVec 32 := 1#32
  let arg16 : BitVec 32 := Scf.iv c0_i32_52 c1_i32_54 k0_t3
  let v2071 : Index := Scalar.indexCast arg16
  let c80_714 : Index := 80#32
  ![18, v2071.toNat, 80]
def k0_off650 (k0_t3 : Fin k0_t3_loop.trips) : Fin 3 → Nat :=
  let c19_i32_716 : BitVec 32 := 19#32
  let v2078 : Index := Scalar.indexCast c19_i32_716
  let c0_i32_52 : BitVec 32 := 0#32
  let c1_i32_54 : BitVec 32 := 1#32
  let arg16 : BitVec 32 := Scf.iv c0_i32_52 c1_i32_54 k0_t3
  let v2079 : Index := Scalar.indexCast arg16
  let c80_717 : Index := 80#32
  ![19, v2079.toNat, 80]
def k0_off651 (k0_t3 : Fin k0_t3_loop.trips) : Fin 3 → Nat :=
  let c20_i32_719 : BitVec 32 := 20#32
  let v2087 : Index := Scalar.indexCast c20_i32_719
  let c0_i32_52 : BitVec 32 := 0#32
  let c1_i32_54 : BitVec 32 := 1#32
  let arg16 : BitVec 32 := Scf.iv c0_i32_52 c1_i32_54 k0_t3
  let v2088 : Index := Scalar.indexCast arg16
  let c80_720 : Index := 80#32
  ![20, v2088.toNat, 80]
def k0_off652 (k0_t3 : Fin k0_t3_loop.trips) : Fin 3 → Nat :=
  let c21_i32_722 : BitVec 32 := 21#32
  let v2096 : Index := Scalar.indexCast c21_i32_722
  let c0_i32_52 : BitVec 32 := 0#32
  let c1_i32_54 : BitVec 32 := 1#32
  let arg16 : BitVec 32 := Scf.iv c0_i32_52 c1_i32_54 k0_t3
  let v2097 : Index := Scalar.indexCast arg16
  let c80_723 : Index := 80#32
  ![21, v2097.toNat, 80]
def k0_off653 (k0_t3 : Fin k0_t3_loop.trips) : Fin 3 → Nat :=
  let c22_i32_725 : BitVec 32 := 22#32
  let v2105 : Index := Scalar.indexCast c22_i32_725
  let c0_i32_52 : BitVec 32 := 0#32
  let c1_i32_54 : BitVec 32 := 1#32
  let arg16 : BitVec 32 := Scf.iv c0_i32_52 c1_i32_54 k0_t3
  let v2106 : Index := Scalar.indexCast arg16
  let c80_726 : Index := 80#32
  ![22, v2106.toNat, 80]
def k0_off654 (k0_t3 : Fin k0_t3_loop.trips) : Fin 3 → Nat :=
  let c23_i32_728 : BitVec 32 := 23#32
  let v2114 : Index := Scalar.indexCast c23_i32_728
  let c0_i32_52 : BitVec 32 := 0#32
  let c1_i32_54 : BitVec 32 := 1#32
  let arg16 : BitVec 32 := Scf.iv c0_i32_52 c1_i32_54 k0_t3
  let v2115 : Index := Scalar.indexCast arg16
  let c80_729 : Index := 80#32
  ![23, v2115.toNat, 80]
def k0_off655 (k0_t3 : Fin k0_t3_loop.trips) : Fin 3 → Nat :=
  let c24_i32_731 : BitVec 32 := 24#32
  let v2123 : Index := Scalar.indexCast c24_i32_731
  let c0_i32_52 : BitVec 32 := 0#32
  let c1_i32_54 : BitVec 32 := 1#32
  let arg16 : BitVec 32 := Scf.iv c0_i32_52 c1_i32_54 k0_t3
  let v2124 : Index := Scalar.indexCast arg16
  let c80_732 : Index := 80#32
  ![24, v2124.toNat, 80]
def k0_off656 (k0_t3 : Fin k0_t3_loop.trips) : Fin 3 → Nat :=
  let c25_i32_734 : BitVec 32 := 25#32
  let v2131 : Index := Scalar.indexCast c25_i32_734
  let c0_i32_52 : BitVec 32 := 0#32
  let c1_i32_54 : BitVec 32 := 1#32
  let arg16 : BitVec 32 := Scf.iv c0_i32_52 c1_i32_54 k0_t3
  let v2132 : Index := Scalar.indexCast arg16
  let c80_735 : Index := 80#32
  ![25, v2132.toNat, 80]
def k0_off657 (k0_t3 : Fin k0_t3_loop.trips) : Fin 3 → Nat :=
  let c26_i32_737 : BitVec 32 := 26#32
  let v2140 : Index := Scalar.indexCast c26_i32_737
  let c0_i32_52 : BitVec 32 := 0#32
  let c1_i32_54 : BitVec 32 := 1#32
  let arg16 : BitVec 32 := Scf.iv c0_i32_52 c1_i32_54 k0_t3
  let v2141 : Index := Scalar.indexCast arg16
  let c80_738 : Index := 80#32
  ![26, v2141.toNat, 80]
def k0_off658 (k0_t3 : Fin k0_t3_loop.trips) : Fin 3 → Nat :=
  let c27_i32_740 : BitVec 32 := 27#32
  let v2149 : Index := Scalar.indexCast c27_i32_740
  let c0_i32_52 : BitVec 32 := 0#32
  let c1_i32_54 : BitVec 32 := 1#32
  let arg16 : BitVec 32 := Scf.iv c0_i32_52 c1_i32_54 k0_t3
  let v2150 : Index := Scalar.indexCast arg16
  let c80_741 : Index := 80#32
  ![27, v2150.toNat, 80]
def k0_off659 (k0_t3 : Fin k0_t3_loop.trips) : Fin 3 → Nat :=
  let c28_i32_743 : BitVec 32 := 28#32
  let v2158 : Index := Scalar.indexCast c28_i32_743
  let c0_i32_52 : BitVec 32 := 0#32
  let c1_i32_54 : BitVec 32 := 1#32
  let arg16 : BitVec 32 := Scf.iv c0_i32_52 c1_i32_54 k0_t3
  let v2159 : Index := Scalar.indexCast arg16
  let c80_744 : Index := 80#32
  ![28, v2159.toNat, 80]
def k0_off660 (k0_t3 : Fin k0_t3_loop.trips) : Fin 3 → Nat :=
  let c29_i32_746 : BitVec 32 := 29#32
  let v2167 : Index := Scalar.indexCast c29_i32_746
  let c0_i32_52 : BitVec 32 := 0#32
  let c1_i32_54 : BitVec 32 := 1#32
  let arg16 : BitVec 32 := Scf.iv c0_i32_52 c1_i32_54 k0_t3
  let v2168 : Index := Scalar.indexCast arg16
  let c80_747 : Index := 80#32
  ![29, v2168.toNat, 80]
def k0_off661 (k0_t3 : Fin k0_t3_loop.trips) : Fin 3 → Nat :=
  let c30_i32_749 : BitVec 32 := 30#32
  let v2176 : Index := Scalar.indexCast c30_i32_749
  let c0_i32_52 : BitVec 32 := 0#32
  let c1_i32_54 : BitVec 32 := 1#32
  let arg16 : BitVec 32 := Scf.iv c0_i32_52 c1_i32_54 k0_t3
  let v2177 : Index := Scalar.indexCast arg16
  let c80_750 : Index := 80#32
  ![30, v2177.toNat, 80]
def k0_off662 (k0_t3 : Fin k0_t3_loop.trips) : Fin 3 → Nat :=
  let c31_i32_752 : BitVec 32 := 31#32
  let v2184 : Index := Scalar.indexCast c31_i32_752
  let c0_i32_52 : BitVec 32 := 0#32
  let c1_i32_54 : BitVec 32 := 1#32
  let arg16 : BitVec 32 := Scf.iv c0_i32_52 c1_i32_54 k0_t3
  let v2185 : Index := Scalar.indexCast arg16
  let c80_753 : Index := 80#32
  ![31, v2185.toNat, 80]
def k0_off663 (k0_t3 : Fin k0_t3_loop.trips) : Fin 3 → Nat :=
  let c32_i32_755 : BitVec 32 := 32#32
  let v2193 : Index := Scalar.indexCast c32_i32_755
  let c0_i32_52 : BitVec 32 := 0#32
  let c1_i32_54 : BitVec 32 := 1#32
  let arg16 : BitVec 32 := Scf.iv c0_i32_52 c1_i32_54 k0_t3
  let v2194 : Index := Scalar.indexCast arg16
  let c80_756 : Index := 80#32
  ![32, v2194.toNat, 80]
def k0_off664 (k0_t3 : Fin k0_t3_loop.trips) : Fin 3 → Nat :=
  let c33_i32_758 : BitVec 32 := 33#32
  let v2202 : Index := Scalar.indexCast c33_i32_758
  let c0_i32_52 : BitVec 32 := 0#32
  let c1_i32_54 : BitVec 32 := 1#32
  let arg16 : BitVec 32 := Scf.iv c0_i32_52 c1_i32_54 k0_t3
  let v2203 : Index := Scalar.indexCast arg16
  let c80_759 : Index := 80#32
  ![33, v2203.toNat, 80]
def k0_off665 (k0_t3 : Fin k0_t3_loop.trips) : Fin 3 → Nat :=
  let c34_i32_761 : BitVec 32 := 34#32
  let v2211 : Index := Scalar.indexCast c34_i32_761
  let c0_i32_52 : BitVec 32 := 0#32
  let c1_i32_54 : BitVec 32 := 1#32
  let arg16 : BitVec 32 := Scf.iv c0_i32_52 c1_i32_54 k0_t3
  let v2212 : Index := Scalar.indexCast arg16
  let c80_762 : Index := 80#32
  ![34, v2212.toNat, 80]
def k0_off666 (k0_t3 : Fin k0_t3_loop.trips) : Fin 3 → Nat :=
  let c35_i32_764 : BitVec 32 := 35#32
  let v2220 : Index := Scalar.indexCast c35_i32_764
  let c0_i32_52 : BitVec 32 := 0#32
  let c1_i32_54 : BitVec 32 := 1#32
  let arg16 : BitVec 32 := Scf.iv c0_i32_52 c1_i32_54 k0_t3
  let v2221 : Index := Scalar.indexCast arg16
  let c80_765 : Index := 80#32
  ![35, v2221.toNat, 80]
def k0_off667 (k0_t3 : Fin k0_t3_loop.trips) : Fin 3 → Nat :=
  let c0_i32_767 : BitVec 32 := 0#32
  let v2229 : Index := Scalar.indexCast c0_i32_767
  let c0_i32_52 : BitVec 32 := 0#32
  let c1_i32_54 : BitVec 32 := 1#32
  let arg16 : BitVec 32 := Scf.iv c0_i32_52 c1_i32_54 k0_t3
  let v2230 : Index := Scalar.indexCast arg16
  let c80_768 : Index := 80#32
  ![0, v2230.toNat, 80]
def k0_off668 (k0_t3 : Fin k0_t3_loop.trips) : Fin 3 → Nat :=
  let c1_i32_769 : BitVec 32 := 1#32
  let v2234 : Index := Scalar.indexCast c1_i32_769
  let c0_i32_52 : BitVec 32 := 0#32
  let c1_i32_54 : BitVec 32 := 1#32
  let arg16 : BitVec 32 := Scf.iv c0_i32_52 c1_i32_54 k0_t3
  let v2235 : Index := Scalar.indexCast arg16
  let c80_770 : Index := 80#32
  ![1, v2235.toNat, 80]
def k0_off669 (k0_t3 : Fin k0_t3_loop.trips) : Fin 3 → Nat :=
  let c2_i32_771 : BitVec 32 := 2#32
  let v2239 : Index := Scalar.indexCast c2_i32_771
  let c0_i32_52 : BitVec 32 := 0#32
  let c1_i32_54 : BitVec 32 := 1#32
  let arg16 : BitVec 32 := Scf.iv c0_i32_52 c1_i32_54 k0_t3
  let v2240 : Index := Scalar.indexCast arg16
  let c80_772 : Index := 80#32
  ![2, v2240.toNat, 80]
def k0_off670 (k0_t3 : Fin k0_t3_loop.trips) : Fin 3 → Nat :=
  let c3_i32_773 : BitVec 32 := 3#32
  let v2244 : Index := Scalar.indexCast c3_i32_773
  let c0_i32_52 : BitVec 32 := 0#32
  let c1_i32_54 : BitVec 32 := 1#32
  let arg16 : BitVec 32 := Scf.iv c0_i32_52 c1_i32_54 k0_t3
  let v2245 : Index := Scalar.indexCast arg16
  let c80_774 : Index := 80#32
  ![3, v2245.toNat, 80]
def k0_off671 (k0_t3 : Fin k0_t3_loop.trips) : Fin 3 → Nat :=
  let c4_i32_775 : BitVec 32 := 4#32
  let v2249 : Index := Scalar.indexCast c4_i32_775
  let c0_i32_52 : BitVec 32 := 0#32
  let c1_i32_54 : BitVec 32 := 1#32
  let arg16 : BitVec 32 := Scf.iv c0_i32_52 c1_i32_54 k0_t3
  let v2250 : Index := Scalar.indexCast arg16
  let c80_776 : Index := 80#32
  ![4, v2250.toNat, 80]
def k0_off672 (k0_t3 : Fin k0_t3_loop.trips) : Fin 3 → Nat :=
  let c5_i32_777 : BitVec 32 := 5#32
  let v2254 : Index := Scalar.indexCast c5_i32_777
  let c0_i32_52 : BitVec 32 := 0#32
  let c1_i32_54 : BitVec 32 := 1#32
  let arg16 : BitVec 32 := Scf.iv c0_i32_52 c1_i32_54 k0_t3
  let v2255 : Index := Scalar.indexCast arg16
  let c80_778 : Index := 80#32
  ![5, v2255.toNat, 80]
def k0_off673 (k0_t3 : Fin k0_t3_loop.trips) : Fin 3 → Nat :=
  let c6_i32_779 : BitVec 32 := 6#32
  let v2259 : Index := Scalar.indexCast c6_i32_779
  let c0_i32_52 : BitVec 32 := 0#32
  let c1_i32_54 : BitVec 32 := 1#32
  let arg16 : BitVec 32 := Scf.iv c0_i32_52 c1_i32_54 k0_t3
  let v2260 : Index := Scalar.indexCast arg16
  let c80_780 : Index := 80#32
  ![6, v2260.toNat, 80]
def k0_off674 (k0_t3 : Fin k0_t3_loop.trips) : Fin 3 → Nat :=
  let c7_i32_781 : BitVec 32 := 7#32
  let v2264 : Index := Scalar.indexCast c7_i32_781
  let c0_i32_52 : BitVec 32 := 0#32
  let c1_i32_54 : BitVec 32 := 1#32
  let arg16 : BitVec 32 := Scf.iv c0_i32_52 c1_i32_54 k0_t3
  let v2265 : Index := Scalar.indexCast arg16
  let c80_782 : Index := 80#32
  ![7, v2265.toNat, 80]
def k0_off675 (k0_t3 : Fin k0_t3_loop.trips) : Fin 3 → Nat :=
  let c8_i32_783 : BitVec 32 := 8#32
  let v2269 : Index := Scalar.indexCast c8_i32_783
  let c0_i32_52 : BitVec 32 := 0#32
  let c1_i32_54 : BitVec 32 := 1#32
  let arg16 : BitVec 32 := Scf.iv c0_i32_52 c1_i32_54 k0_t3
  let v2270 : Index := Scalar.indexCast arg16
  let c80_784 : Index := 80#32
  ![8, v2270.toNat, 80]
def k0_off676 (k0_t3 : Fin k0_t3_loop.trips) : Fin 3 → Nat :=
  let c9_i32_785 : BitVec 32 := 9#32
  let v2274 : Index := Scalar.indexCast c9_i32_785
  let c0_i32_52 : BitVec 32 := 0#32
  let c1_i32_54 : BitVec 32 := 1#32
  let arg16 : BitVec 32 := Scf.iv c0_i32_52 c1_i32_54 k0_t3
  let v2275 : Index := Scalar.indexCast arg16
  let c80_786 : Index := 80#32
  ![9, v2275.toNat, 80]
def k0_off677 (k0_t3 : Fin k0_t3_loop.trips) : Fin 3 → Nat :=
  let c10_i32_787 : BitVec 32 := 10#32
  let v2279 : Index := Scalar.indexCast c10_i32_787
  let c0_i32_52 : BitVec 32 := 0#32
  let c1_i32_54 : BitVec 32 := 1#32
  let arg16 : BitVec 32 := Scf.iv c0_i32_52 c1_i32_54 k0_t3
  let v2280 : Index := Scalar.indexCast arg16
  let c80_788 : Index := 80#32
  ![10, v2280.toNat, 80]
def k0_off678 (k0_t3 : Fin k0_t3_loop.trips) : Fin 3 → Nat :=
  let c11_i32_789 : BitVec 32 := 11#32
  let v2284 : Index := Scalar.indexCast c11_i32_789
  let c0_i32_52 : BitVec 32 := 0#32
  let c1_i32_54 : BitVec 32 := 1#32
  let arg16 : BitVec 32 := Scf.iv c0_i32_52 c1_i32_54 k0_t3
  let v2285 : Index := Scalar.indexCast arg16
  let c80_790 : Index := 80#32
  ![11, v2285.toNat, 80]
def k0_off679 (k0_t3 : Fin k0_t3_loop.trips) : Fin 3 → Nat :=
  let c0_i32_791 : BitVec 32 := 0#32
  let v2289 : Index := Scalar.indexCast c0_i32_791
  let c0_i32_52 : BitVec 32 := 0#32
  let c1_i32_54 : BitVec 32 := 1#32
  let arg16 : BitVec 32 := Scf.iv c0_i32_52 c1_i32_54 k0_t3
  let v2290 : Index := Scalar.indexCast arg16
  let c96_792 : Index := 96#32
  ![0, v2290.toNat, 96]
def k0_off680 (k0_t3 : Fin k0_t3_loop.trips) : Fin 3 → Nat :=
  let c1_i32_794 : BitVec 32 := 1#32
  let v2296 : Index := Scalar.indexCast c1_i32_794
  let c0_i32_52 : BitVec 32 := 0#32
  let c1_i32_54 : BitVec 32 := 1#32
  let arg16 : BitVec 32 := Scf.iv c0_i32_52 c1_i32_54 k0_t3
  let v2297 : Index := Scalar.indexCast arg16
  let c96_795 : Index := 96#32
  ![1, v2297.toNat, 96]
def k0_off681 (k0_t3 : Fin k0_t3_loop.trips) : Fin 3 → Nat :=
  let c2_i32_797 : BitVec 32 := 2#32
  let v2304 : Index := Scalar.indexCast c2_i32_797
  let c0_i32_52 : BitVec 32 := 0#32
  let c1_i32_54 : BitVec 32 := 1#32
  let arg16 : BitVec 32 := Scf.iv c0_i32_52 c1_i32_54 k0_t3
  let v2305 : Index := Scalar.indexCast arg16
  let c96_798 : Index := 96#32
  ![2, v2305.toNat, 96]
def k0_off682 (k0_t3 : Fin k0_t3_loop.trips) : Fin 3 → Nat :=
  let c3_i32_800 : BitVec 32 := 3#32
  let v2312 : Index := Scalar.indexCast c3_i32_800
  let c0_i32_52 : BitVec 32 := 0#32
  let c1_i32_54 : BitVec 32 := 1#32
  let arg16 : BitVec 32 := Scf.iv c0_i32_52 c1_i32_54 k0_t3
  let v2313 : Index := Scalar.indexCast arg16
  let c96_801 : Index := 96#32
  ![3, v2313.toNat, 96]
def k0_off683 (k0_t3 : Fin k0_t3_loop.trips) : Fin 3 → Nat :=
  let c4_i32_803 : BitVec 32 := 4#32
  let v2320 : Index := Scalar.indexCast c4_i32_803
  let c0_i32_52 : BitVec 32 := 0#32
  let c1_i32_54 : BitVec 32 := 1#32
  let arg16 : BitVec 32 := Scf.iv c0_i32_52 c1_i32_54 k0_t3
  let v2321 : Index := Scalar.indexCast arg16
  let c96_804 : Index := 96#32
  ![4, v2321.toNat, 96]
def k0_off684 (k0_t3 : Fin k0_t3_loop.trips) : Fin 3 → Nat :=
  let c5_i32_806 : BitVec 32 := 5#32
  let v2328 : Index := Scalar.indexCast c5_i32_806
  let c0_i32_52 : BitVec 32 := 0#32
  let c1_i32_54 : BitVec 32 := 1#32
  let arg16 : BitVec 32 := Scf.iv c0_i32_52 c1_i32_54 k0_t3
  let v2329 : Index := Scalar.indexCast arg16
  let c96_807 : Index := 96#32
  ![5, v2329.toNat, 96]
def k0_off685 (k0_t3 : Fin k0_t3_loop.trips) : Fin 3 → Nat :=
  let c6_i32_809 : BitVec 32 := 6#32
  let v2336 : Index := Scalar.indexCast c6_i32_809
  let c0_i32_52 : BitVec 32 := 0#32
  let c1_i32_54 : BitVec 32 := 1#32
  let arg16 : BitVec 32 := Scf.iv c0_i32_52 c1_i32_54 k0_t3
  let v2337 : Index := Scalar.indexCast arg16
  let c96_810 : Index := 96#32
  ![6, v2337.toNat, 96]
def k0_off686 (k0_t3 : Fin k0_t3_loop.trips) : Fin 3 → Nat :=
  let c7_i32_812 : BitVec 32 := 7#32
  let v2344 : Index := Scalar.indexCast c7_i32_812
  let c0_i32_52 : BitVec 32 := 0#32
  let c1_i32_54 : BitVec 32 := 1#32
  let arg16 : BitVec 32 := Scf.iv c0_i32_52 c1_i32_54 k0_t3
  let v2345 : Index := Scalar.indexCast arg16
  let c96_813 : Index := 96#32
  ![7, v2345.toNat, 96]
def k0_off687 (k0_t3 : Fin k0_t3_loop.trips) : Fin 3 → Nat :=
  let c8_i32_815 : BitVec 32 := 8#32
  let v2353 : Index := Scalar.indexCast c8_i32_815
  let c0_i32_52 : BitVec 32 := 0#32
  let c1_i32_54 : BitVec 32 := 1#32
  let arg16 : BitVec 32 := Scf.iv c0_i32_52 c1_i32_54 k0_t3
  let v2354 : Index := Scalar.indexCast arg16
  let c96_816 : Index := 96#32
  ![8, v2354.toNat, 96]
def k0_off688 (k0_t3 : Fin k0_t3_loop.trips) : Fin 3 → Nat :=
  let c9_i32_818 : BitVec 32 := 9#32
  let v2362 : Index := Scalar.indexCast c9_i32_818
  let c0_i32_52 : BitVec 32 := 0#32
  let c1_i32_54 : BitVec 32 := 1#32
  let arg16 : BitVec 32 := Scf.iv c0_i32_52 c1_i32_54 k0_t3
  let v2363 : Index := Scalar.indexCast arg16
  let c96_819 : Index := 96#32
  ![9, v2363.toNat, 96]
def k0_off689 (k0_t3 : Fin k0_t3_loop.trips) : Fin 3 → Nat :=
  let c10_i32_821 : BitVec 32 := 10#32
  let v2371 : Index := Scalar.indexCast c10_i32_821
  let c0_i32_52 : BitVec 32 := 0#32
  let c1_i32_54 : BitVec 32 := 1#32
  let arg16 : BitVec 32 := Scf.iv c0_i32_52 c1_i32_54 k0_t3
  let v2372 : Index := Scalar.indexCast arg16
  let c96_822 : Index := 96#32
  ![10, v2372.toNat, 96]
def k0_off690 (k0_t3 : Fin k0_t3_loop.trips) : Fin 3 → Nat :=
  let c11_i32_824 : BitVec 32 := 11#32
  let v2380 : Index := Scalar.indexCast c11_i32_824
  let c0_i32_52 : BitVec 32 := 0#32
  let c1_i32_54 : BitVec 32 := 1#32
  let arg16 : BitVec 32 := Scf.iv c0_i32_52 c1_i32_54 k0_t3
  let v2381 : Index := Scalar.indexCast arg16
  let c96_825 : Index := 96#32
  ![11, v2381.toNat, 96]
def k0_off691 (k0_t3 : Fin k0_t3_loop.trips) : Fin 3 → Nat :=
  let c12_i32_827 : BitVec 32 := 12#32
  let v2389 : Index := Scalar.indexCast c12_i32_827
  let c0_i32_52 : BitVec 32 := 0#32
  let c1_i32_54 : BitVec 32 := 1#32
  let arg16 : BitVec 32 := Scf.iv c0_i32_52 c1_i32_54 k0_t3
  let v2390 : Index := Scalar.indexCast arg16
  let c96_828 : Index := 96#32
  ![12, v2390.toNat, 96]
def k0_off692 (k0_t3 : Fin k0_t3_loop.trips) : Fin 3 → Nat :=
  let c13_i32_830 : BitVec 32 := 13#32
  let v2397 : Index := Scalar.indexCast c13_i32_830
  let c0_i32_52 : BitVec 32 := 0#32
  let c1_i32_54 : BitVec 32 := 1#32
  let arg16 : BitVec 32 := Scf.iv c0_i32_52 c1_i32_54 k0_t3
  let v2398 : Index := Scalar.indexCast arg16
  let c96_831 : Index := 96#32
  ![13, v2398.toNat, 96]
def k0_off693 (k0_t3 : Fin k0_t3_loop.trips) : Fin 3 → Nat :=
  let c14_i32_833 : BitVec 32 := 14#32
  let v2406 : Index := Scalar.indexCast c14_i32_833
  let c0_i32_52 : BitVec 32 := 0#32
  let c1_i32_54 : BitVec 32 := 1#32
  let arg16 : BitVec 32 := Scf.iv c0_i32_52 c1_i32_54 k0_t3
  let v2407 : Index := Scalar.indexCast arg16
  let c96_834 : Index := 96#32
  ![14, v2407.toNat, 96]
def k0_off694 (k0_t3 : Fin k0_t3_loop.trips) : Fin 3 → Nat :=
  let c15_i32_836 : BitVec 32 := 15#32
  let v2415 : Index := Scalar.indexCast c15_i32_836
  let c0_i32_52 : BitVec 32 := 0#32
  let c1_i32_54 : BitVec 32 := 1#32
  let arg16 : BitVec 32 := Scf.iv c0_i32_52 c1_i32_54 k0_t3
  let v2416 : Index := Scalar.indexCast arg16
  let c96_837 : Index := 96#32
  ![15, v2416.toNat, 96]
def k0_off695 (k0_t3 : Fin k0_t3_loop.trips) : Fin 3 → Nat :=
  let c16_i32_839 : BitVec 32 := 16#32
  let v2424 : Index := Scalar.indexCast c16_i32_839
  let c0_i32_52 : BitVec 32 := 0#32
  let c1_i32_54 : BitVec 32 := 1#32
  let arg16 : BitVec 32 := Scf.iv c0_i32_52 c1_i32_54 k0_t3
  let v2425 : Index := Scalar.indexCast arg16
  let c96_840 : Index := 96#32
  ![16, v2425.toNat, 96]
def k0_off696 (k0_t3 : Fin k0_t3_loop.trips) : Fin 3 → Nat :=
  let c17_i32_842 : BitVec 32 := 17#32
  let v2433 : Index := Scalar.indexCast c17_i32_842
  let c0_i32_52 : BitVec 32 := 0#32
  let c1_i32_54 : BitVec 32 := 1#32
  let arg16 : BitVec 32 := Scf.iv c0_i32_52 c1_i32_54 k0_t3
  let v2434 : Index := Scalar.indexCast arg16
  let c96_843 : Index := 96#32
  ![17, v2434.toNat, 96]
def k0_off697 (k0_t3 : Fin k0_t3_loop.trips) : Fin 3 → Nat :=
  let c18_i32_845 : BitVec 32 := 18#32
  let v2442 : Index := Scalar.indexCast c18_i32_845
  let c0_i32_52 : BitVec 32 := 0#32
  let c1_i32_54 : BitVec 32 := 1#32
  let arg16 : BitVec 32 := Scf.iv c0_i32_52 c1_i32_54 k0_t3
  let v2443 : Index := Scalar.indexCast arg16
  let c96_846 : Index := 96#32
  ![18, v2443.toNat, 96]
def k0_off698 (k0_t3 : Fin k0_t3_loop.trips) : Fin 3 → Nat :=
  let c19_i32_848 : BitVec 32 := 19#32
  let v2450 : Index := Scalar.indexCast c19_i32_848
  let c0_i32_52 : BitVec 32 := 0#32
  let c1_i32_54 : BitVec 32 := 1#32
  let arg16 : BitVec 32 := Scf.iv c0_i32_52 c1_i32_54 k0_t3
  let v2451 : Index := Scalar.indexCast arg16
  let c96_849 : Index := 96#32
  ![19, v2451.toNat, 96]
def k0_off699 (k0_t3 : Fin k0_t3_loop.trips) : Fin 3 → Nat :=
  let c20_i32_851 : BitVec 32 := 20#32
  let v2459 : Index := Scalar.indexCast c20_i32_851
  let c0_i32_52 : BitVec 32 := 0#32
  let c1_i32_54 : BitVec 32 := 1#32
  let arg16 : BitVec 32 := Scf.iv c0_i32_52 c1_i32_54 k0_t3
  let v2460 : Index := Scalar.indexCast arg16
  let c96_852 : Index := 96#32
  ![20, v2460.toNat, 96]
def k0_off700 (k0_t3 : Fin k0_t3_loop.trips) : Fin 3 → Nat :=
  let c21_i32_854 : BitVec 32 := 21#32
  let v2468 : Index := Scalar.indexCast c21_i32_854
  let c0_i32_52 : BitVec 32 := 0#32
  let c1_i32_54 : BitVec 32 := 1#32
  let arg16 : BitVec 32 := Scf.iv c0_i32_52 c1_i32_54 k0_t3
  let v2469 : Index := Scalar.indexCast arg16
  let c96_855 : Index := 96#32
  ![21, v2469.toNat, 96]
def k0_off701 (k0_t3 : Fin k0_t3_loop.trips) : Fin 3 → Nat :=
  let c22_i32_857 : BitVec 32 := 22#32
  let v2477 : Index := Scalar.indexCast c22_i32_857
  let c0_i32_52 : BitVec 32 := 0#32
  let c1_i32_54 : BitVec 32 := 1#32
  let arg16 : BitVec 32 := Scf.iv c0_i32_52 c1_i32_54 k0_t3
  let v2478 : Index := Scalar.indexCast arg16
  let c96_858 : Index := 96#32
  ![22, v2478.toNat, 96]
def k0_off702 (k0_t3 : Fin k0_t3_loop.trips) : Fin 3 → Nat :=
  let c23_i32_860 : BitVec 32 := 23#32
  let v2486 : Index := Scalar.indexCast c23_i32_860
  let c0_i32_52 : BitVec 32 := 0#32
  let c1_i32_54 : BitVec 32 := 1#32
  let arg16 : BitVec 32 := Scf.iv c0_i32_52 c1_i32_54 k0_t3
  let v2487 : Index := Scalar.indexCast arg16
  let c96_861 : Index := 96#32
  ![23, v2487.toNat, 96]
def k0_off703 (k0_t3 : Fin k0_t3_loop.trips) : Fin 3 → Nat :=
  let c24_i32_863 : BitVec 32 := 24#32
  let v2495 : Index := Scalar.indexCast c24_i32_863
  let c0_i32_52 : BitVec 32 := 0#32
  let c1_i32_54 : BitVec 32 := 1#32
  let arg16 : BitVec 32 := Scf.iv c0_i32_52 c1_i32_54 k0_t3
  let v2496 : Index := Scalar.indexCast arg16
  let c96_864 : Index := 96#32
  ![24, v2496.toNat, 96]
def k0_off704 (k0_t3 : Fin k0_t3_loop.trips) : Fin 3 → Nat :=
  let c25_i32_866 : BitVec 32 := 25#32
  let v2503 : Index := Scalar.indexCast c25_i32_866
  let c0_i32_52 : BitVec 32 := 0#32
  let c1_i32_54 : BitVec 32 := 1#32
  let arg16 : BitVec 32 := Scf.iv c0_i32_52 c1_i32_54 k0_t3
  let v2504 : Index := Scalar.indexCast arg16
  let c96_867 : Index := 96#32
  ![25, v2504.toNat, 96]
def k0_off705 (k0_t3 : Fin k0_t3_loop.trips) : Fin 3 → Nat :=
  let c26_i32_869 : BitVec 32 := 26#32
  let v2512 : Index := Scalar.indexCast c26_i32_869
  let c0_i32_52 : BitVec 32 := 0#32
  let c1_i32_54 : BitVec 32 := 1#32
  let arg16 : BitVec 32 := Scf.iv c0_i32_52 c1_i32_54 k0_t3
  let v2513 : Index := Scalar.indexCast arg16
  let c96_870 : Index := 96#32
  ![26, v2513.toNat, 96]
def k0_off706 (k0_t3 : Fin k0_t3_loop.trips) : Fin 3 → Nat :=
  let c27_i32_872 : BitVec 32 := 27#32
  let v2521 : Index := Scalar.indexCast c27_i32_872
  let c0_i32_52 : BitVec 32 := 0#32
  let c1_i32_54 : BitVec 32 := 1#32
  let arg16 : BitVec 32 := Scf.iv c0_i32_52 c1_i32_54 k0_t3
  let v2522 : Index := Scalar.indexCast arg16
  let c96_873 : Index := 96#32
  ![27, v2522.toNat, 96]
def k0_off707 (k0_t3 : Fin k0_t3_loop.trips) : Fin 3 → Nat :=
  let c28_i32_875 : BitVec 32 := 28#32
  let v2530 : Index := Scalar.indexCast c28_i32_875
  let c0_i32_52 : BitVec 32 := 0#32
  let c1_i32_54 : BitVec 32 := 1#32
  let arg16 : BitVec 32 := Scf.iv c0_i32_52 c1_i32_54 k0_t3
  let v2531 : Index := Scalar.indexCast arg16
  let c96_876 : Index := 96#32
  ![28, v2531.toNat, 96]
def k0_off708 (k0_t3 : Fin k0_t3_loop.trips) : Fin 3 → Nat :=
  let c29_i32_878 : BitVec 32 := 29#32
  let v2539 : Index := Scalar.indexCast c29_i32_878
  let c0_i32_52 : BitVec 32 := 0#32
  let c1_i32_54 : BitVec 32 := 1#32
  let arg16 : BitVec 32 := Scf.iv c0_i32_52 c1_i32_54 k0_t3
  let v2540 : Index := Scalar.indexCast arg16
  let c96_879 : Index := 96#32
  ![29, v2540.toNat, 96]
def k0_off709 (k0_t3 : Fin k0_t3_loop.trips) : Fin 3 → Nat :=
  let c30_i32_881 : BitVec 32 := 30#32
  let v2548 : Index := Scalar.indexCast c30_i32_881
  let c0_i32_52 : BitVec 32 := 0#32
  let c1_i32_54 : BitVec 32 := 1#32
  let arg16 : BitVec 32 := Scf.iv c0_i32_52 c1_i32_54 k0_t3
  let v2549 : Index := Scalar.indexCast arg16
  let c96_882 : Index := 96#32
  ![30, v2549.toNat, 96]
def k0_off710 (k0_t3 : Fin k0_t3_loop.trips) : Fin 3 → Nat :=
  let c31_i32_884 : BitVec 32 := 31#32
  let v2556 : Index := Scalar.indexCast c31_i32_884
  let c0_i32_52 : BitVec 32 := 0#32
  let c1_i32_54 : BitVec 32 := 1#32
  let arg16 : BitVec 32 := Scf.iv c0_i32_52 c1_i32_54 k0_t3
  let v2557 : Index := Scalar.indexCast arg16
  let c96_885 : Index := 96#32
  ![31, v2557.toNat, 96]
def k0_off711 (k0_t3 : Fin k0_t3_loop.trips) : Fin 3 → Nat :=
  let c32_i32_887 : BitVec 32 := 32#32
  let v2565 : Index := Scalar.indexCast c32_i32_887
  let c0_i32_52 : BitVec 32 := 0#32
  let c1_i32_54 : BitVec 32 := 1#32
  let arg16 : BitVec 32 := Scf.iv c0_i32_52 c1_i32_54 k0_t3
  let v2566 : Index := Scalar.indexCast arg16
  let c96_888 : Index := 96#32
  ![32, v2566.toNat, 96]
def k0_off712 (k0_t3 : Fin k0_t3_loop.trips) : Fin 3 → Nat :=
  let c33_i32_890 : BitVec 32 := 33#32
  let v2574 : Index := Scalar.indexCast c33_i32_890
  let c0_i32_52 : BitVec 32 := 0#32
  let c1_i32_54 : BitVec 32 := 1#32
  let arg16 : BitVec 32 := Scf.iv c0_i32_52 c1_i32_54 k0_t3
  let v2575 : Index := Scalar.indexCast arg16
  let c96_891 : Index := 96#32
  ![33, v2575.toNat, 96]
def k0_off713 (k0_t3 : Fin k0_t3_loop.trips) : Fin 3 → Nat :=
  let c34_i32_893 : BitVec 32 := 34#32
  let v2583 : Index := Scalar.indexCast c34_i32_893
  let c0_i32_52 : BitVec 32 := 0#32
  let c1_i32_54 : BitVec 32 := 1#32
  let arg16 : BitVec 32 := Scf.iv c0_i32_52 c1_i32_54 k0_t3
  let v2584 : Index := Scalar.indexCast arg16
  let c96_894 : Index := 96#32
  ![34, v2584.toNat, 96]
def k0_off714 (k0_t3 : Fin k0_t3_loop.trips) : Fin 3 → Nat :=
  let c35_i32_896 : BitVec 32 := 35#32
  let v2592 : Index := Scalar.indexCast c35_i32_896
  let c0_i32_52 : BitVec 32 := 0#32
  let c1_i32_54 : BitVec 32 := 1#32
  let arg16 : BitVec 32 := Scf.iv c0_i32_52 c1_i32_54 k0_t3
  let v2593 : Index := Scalar.indexCast arg16
  let c96_897 : Index := 96#32
  ![35, v2593.toNat, 96]
def k0_off715 (k0_t3 : Fin k0_t3_loop.trips) : Fin 3 → Nat :=
  let c0_i32_899 : BitVec 32 := 0#32
  let v2601 : Index := Scalar.indexCast c0_i32_899
  let c0_i32_52 : BitVec 32 := 0#32
  let c1_i32_54 : BitVec 32 := 1#32
  let arg16 : BitVec 32 := Scf.iv c0_i32_52 c1_i32_54 k0_t3
  let v2602 : Index := Scalar.indexCast arg16
  let c96_900 : Index := 96#32
  ![0, v2602.toNat, 96]
def k0_off716 (k0_t3 : Fin k0_t3_loop.trips) : Fin 3 → Nat :=
  let c1_i32_901 : BitVec 32 := 1#32
  let v2606 : Index := Scalar.indexCast c1_i32_901
  let c0_i32_52 : BitVec 32 := 0#32
  let c1_i32_54 : BitVec 32 := 1#32
  let arg16 : BitVec 32 := Scf.iv c0_i32_52 c1_i32_54 k0_t3
  let v2607 : Index := Scalar.indexCast arg16
  let c96_902 : Index := 96#32
  ![1, v2607.toNat, 96]
def k0_off717 (k0_t3 : Fin k0_t3_loop.trips) : Fin 3 → Nat :=
  let c2_i32_903 : BitVec 32 := 2#32
  let v2611 : Index := Scalar.indexCast c2_i32_903
  let c0_i32_52 : BitVec 32 := 0#32
  let c1_i32_54 : BitVec 32 := 1#32
  let arg16 : BitVec 32 := Scf.iv c0_i32_52 c1_i32_54 k0_t3
  let v2612 : Index := Scalar.indexCast arg16
  let c96_904 : Index := 96#32
  ![2, v2612.toNat, 96]
def k0_off718 (k0_t3 : Fin k0_t3_loop.trips) : Fin 3 → Nat :=
  let c3_i32_905 : BitVec 32 := 3#32
  let v2616 : Index := Scalar.indexCast c3_i32_905
  let c0_i32_52 : BitVec 32 := 0#32
  let c1_i32_54 : BitVec 32 := 1#32
  let arg16 : BitVec 32 := Scf.iv c0_i32_52 c1_i32_54 k0_t3
  let v2617 : Index := Scalar.indexCast arg16
  let c96_906 : Index := 96#32
  ![3, v2617.toNat, 96]
def k0_off719 (k0_t3 : Fin k0_t3_loop.trips) : Fin 3 → Nat :=
  let c4_i32_907 : BitVec 32 := 4#32
  let v2621 : Index := Scalar.indexCast c4_i32_907
  let c0_i32_52 : BitVec 32 := 0#32
  let c1_i32_54 : BitVec 32 := 1#32
  let arg16 : BitVec 32 := Scf.iv c0_i32_52 c1_i32_54 k0_t3
  let v2622 : Index := Scalar.indexCast arg16
  let c96_908 : Index := 96#32
  ![4, v2622.toNat, 96]
def k0_off720 (k0_t3 : Fin k0_t3_loop.trips) : Fin 3 → Nat :=
  let c5_i32_909 : BitVec 32 := 5#32
  let v2626 : Index := Scalar.indexCast c5_i32_909
  let c0_i32_52 : BitVec 32 := 0#32
  let c1_i32_54 : BitVec 32 := 1#32
  let arg16 : BitVec 32 := Scf.iv c0_i32_52 c1_i32_54 k0_t3
  let v2627 : Index := Scalar.indexCast arg16
  let c96_910 : Index := 96#32
  ![5, v2627.toNat, 96]
def k0_off721 (k0_t3 : Fin k0_t3_loop.trips) : Fin 3 → Nat :=
  let c6_i32_911 : BitVec 32 := 6#32
  let v2631 : Index := Scalar.indexCast c6_i32_911
  let c0_i32_52 : BitVec 32 := 0#32
  let c1_i32_54 : BitVec 32 := 1#32
  let arg16 : BitVec 32 := Scf.iv c0_i32_52 c1_i32_54 k0_t3
  let v2632 : Index := Scalar.indexCast arg16
  let c96_912 : Index := 96#32
  ![6, v2632.toNat, 96]
def k0_off722 (k0_t3 : Fin k0_t3_loop.trips) : Fin 3 → Nat :=
  let c7_i32_913 : BitVec 32 := 7#32
  let v2636 : Index := Scalar.indexCast c7_i32_913
  let c0_i32_52 : BitVec 32 := 0#32
  let c1_i32_54 : BitVec 32 := 1#32
  let arg16 : BitVec 32 := Scf.iv c0_i32_52 c1_i32_54 k0_t3
  let v2637 : Index := Scalar.indexCast arg16
  let c96_914 : Index := 96#32
  ![7, v2637.toNat, 96]
def k0_off723 (k0_t3 : Fin k0_t3_loop.trips) : Fin 3 → Nat :=
  let c8_i32_915 : BitVec 32 := 8#32
  let v2641 : Index := Scalar.indexCast c8_i32_915
  let c0_i32_52 : BitVec 32 := 0#32
  let c1_i32_54 : BitVec 32 := 1#32
  let arg16 : BitVec 32 := Scf.iv c0_i32_52 c1_i32_54 k0_t3
  let v2642 : Index := Scalar.indexCast arg16
  let c96_916 : Index := 96#32
  ![8, v2642.toNat, 96]
def k0_off724 (k0_t3 : Fin k0_t3_loop.trips) : Fin 3 → Nat :=
  let c9_i32_917 : BitVec 32 := 9#32
  let v2646 : Index := Scalar.indexCast c9_i32_917
  let c0_i32_52 : BitVec 32 := 0#32
  let c1_i32_54 : BitVec 32 := 1#32
  let arg16 : BitVec 32 := Scf.iv c0_i32_52 c1_i32_54 k0_t3
  let v2647 : Index := Scalar.indexCast arg16
  let c96_918 : Index := 96#32
  ![9, v2647.toNat, 96]
def k0_off725 (k0_t3 : Fin k0_t3_loop.trips) : Fin 3 → Nat :=
  let c10_i32_919 : BitVec 32 := 10#32
  let v2651 : Index := Scalar.indexCast c10_i32_919
  let c0_i32_52 : BitVec 32 := 0#32
  let c1_i32_54 : BitVec 32 := 1#32
  let arg16 : BitVec 32 := Scf.iv c0_i32_52 c1_i32_54 k0_t3
  let v2652 : Index := Scalar.indexCast arg16
  let c96_920 : Index := 96#32
  ![10, v2652.toNat, 96]
def k0_off726 (k0_t3 : Fin k0_t3_loop.trips) : Fin 3 → Nat :=
  let c11_i32_921 : BitVec 32 := 11#32
  let v2656 : Index := Scalar.indexCast c11_i32_921
  let c0_i32_52 : BitVec 32 := 0#32
  let c1_i32_54 : BitVec 32 := 1#32
  let arg16 : BitVec 32 := Scf.iv c0_i32_52 c1_i32_54 k0_t3
  let v2657 : Index := Scalar.indexCast arg16
  let c96_922 : Index := 96#32
  ![11, v2657.toNat, 96]
def k0_off727 (k0_t3 : Fin k0_t3_loop.trips) : Fin 3 → Nat :=
  let c0_i32_923 : BitVec 32 := 0#32
  let v2661 : Index := Scalar.indexCast c0_i32_923
  let c0_i32_52 : BitVec 32 := 0#32
  let c1_i32_54 : BitVec 32 := 1#32
  let arg16 : BitVec 32 := Scf.iv c0_i32_52 c1_i32_54 k0_t3
  let v2662 : Index := Scalar.indexCast arg16
  let c112_924 : Index := 112#32
  ![0, v2662.toNat, 112]
def k0_off728 (k0_t3 : Fin k0_t3_loop.trips) : Fin 3 → Nat :=
  let c1_i32_926 : BitVec 32 := 1#32
  let v2668 : Index := Scalar.indexCast c1_i32_926
  let c0_i32_52 : BitVec 32 := 0#32
  let c1_i32_54 : BitVec 32 := 1#32
  let arg16 : BitVec 32 := Scf.iv c0_i32_52 c1_i32_54 k0_t3
  let v2669 : Index := Scalar.indexCast arg16
  let c112_927 : Index := 112#32
  ![1, v2669.toNat, 112]
def k0_off729 (k0_t3 : Fin k0_t3_loop.trips) : Fin 3 → Nat :=
  let c2_i32_929 : BitVec 32 := 2#32
  let v2676 : Index := Scalar.indexCast c2_i32_929
  let c0_i32_52 : BitVec 32 := 0#32
  let c1_i32_54 : BitVec 32 := 1#32
  let arg16 : BitVec 32 := Scf.iv c0_i32_52 c1_i32_54 k0_t3
  let v2677 : Index := Scalar.indexCast arg16
  let c112_930 : Index := 112#32
  ![2, v2677.toNat, 112]
def k0_off730 (k0_t3 : Fin k0_t3_loop.trips) : Fin 3 → Nat :=
  let c3_i32_932 : BitVec 32 := 3#32
  let v2684 : Index := Scalar.indexCast c3_i32_932
  let c0_i32_52 : BitVec 32 := 0#32
  let c1_i32_54 : BitVec 32 := 1#32
  let arg16 : BitVec 32 := Scf.iv c0_i32_52 c1_i32_54 k0_t3
  let v2685 : Index := Scalar.indexCast arg16
  let c112_933 : Index := 112#32
  ![3, v2685.toNat, 112]
def k0_off731 (k0_t3 : Fin k0_t3_loop.trips) : Fin 3 → Nat :=
  let c4_i32_935 : BitVec 32 := 4#32
  let v2692 : Index := Scalar.indexCast c4_i32_935
  let c0_i32_52 : BitVec 32 := 0#32
  let c1_i32_54 : BitVec 32 := 1#32
  let arg16 : BitVec 32 := Scf.iv c0_i32_52 c1_i32_54 k0_t3
  let v2693 : Index := Scalar.indexCast arg16
  let c112_936 : Index := 112#32
  ![4, v2693.toNat, 112]
def k0_off732 (k0_t3 : Fin k0_t3_loop.trips) : Fin 3 → Nat :=
  let c5_i32_938 : BitVec 32 := 5#32
  let v2700 : Index := Scalar.indexCast c5_i32_938
  let c0_i32_52 : BitVec 32 := 0#32
  let c1_i32_54 : BitVec 32 := 1#32
  let arg16 : BitVec 32 := Scf.iv c0_i32_52 c1_i32_54 k0_t3
  let v2701 : Index := Scalar.indexCast arg16
  let c112_939 : Index := 112#32
  ![5, v2701.toNat, 112]
def k0_off733 (k0_t3 : Fin k0_t3_loop.trips) : Fin 3 → Nat :=
  let c6_i32_941 : BitVec 32 := 6#32
  let v2708 : Index := Scalar.indexCast c6_i32_941
  let c0_i32_52 : BitVec 32 := 0#32
  let c1_i32_54 : BitVec 32 := 1#32
  let arg16 : BitVec 32 := Scf.iv c0_i32_52 c1_i32_54 k0_t3
  let v2709 : Index := Scalar.indexCast arg16
  let c112_942 : Index := 112#32
  ![6, v2709.toNat, 112]
def k0_off734 (k0_t3 : Fin k0_t3_loop.trips) : Fin 3 → Nat :=
  let c7_i32_944 : BitVec 32 := 7#32
  let v2716 : Index := Scalar.indexCast c7_i32_944
  let c0_i32_52 : BitVec 32 := 0#32
  let c1_i32_54 : BitVec 32 := 1#32
  let arg16 : BitVec 32 := Scf.iv c0_i32_52 c1_i32_54 k0_t3
  let v2717 : Index := Scalar.indexCast arg16
  let c112_945 : Index := 112#32
  ![7, v2717.toNat, 112]
def k0_off735 (k0_t3 : Fin k0_t3_loop.trips) : Fin 3 → Nat :=
  let c8_i32_947 : BitVec 32 := 8#32
  let v2725 : Index := Scalar.indexCast c8_i32_947
  let c0_i32_52 : BitVec 32 := 0#32
  let c1_i32_54 : BitVec 32 := 1#32
  let arg16 : BitVec 32 := Scf.iv c0_i32_52 c1_i32_54 k0_t3
  let v2726 : Index := Scalar.indexCast arg16
  let c112_948 : Index := 112#32
  ![8, v2726.toNat, 112]
def k0_off736 (k0_t3 : Fin k0_t3_loop.trips) : Fin 3 → Nat :=
  let c9_i32_950 : BitVec 32 := 9#32
  let v2734 : Index := Scalar.indexCast c9_i32_950
  let c0_i32_52 : BitVec 32 := 0#32
  let c1_i32_54 : BitVec 32 := 1#32
  let arg16 : BitVec 32 := Scf.iv c0_i32_52 c1_i32_54 k0_t3
  let v2735 : Index := Scalar.indexCast arg16
  let c112_951 : Index := 112#32
  ![9, v2735.toNat, 112]
def k0_off737 (k0_t3 : Fin k0_t3_loop.trips) : Fin 3 → Nat :=
  let c10_i32_953 : BitVec 32 := 10#32
  let v2743 : Index := Scalar.indexCast c10_i32_953
  let c0_i32_52 : BitVec 32 := 0#32
  let c1_i32_54 : BitVec 32 := 1#32
  let arg16 : BitVec 32 := Scf.iv c0_i32_52 c1_i32_54 k0_t3
  let v2744 : Index := Scalar.indexCast arg16
  let c112_954 : Index := 112#32
  ![10, v2744.toNat, 112]
def k0_off738 (k0_t3 : Fin k0_t3_loop.trips) : Fin 3 → Nat :=
  let c11_i32_956 : BitVec 32 := 11#32
  let v2752 : Index := Scalar.indexCast c11_i32_956
  let c0_i32_52 : BitVec 32 := 0#32
  let c1_i32_54 : BitVec 32 := 1#32
  let arg16 : BitVec 32 := Scf.iv c0_i32_52 c1_i32_54 k0_t3
  let v2753 : Index := Scalar.indexCast arg16
  let c112_957 : Index := 112#32
  ![11, v2753.toNat, 112]
def k0_off739 (k0_t3 : Fin k0_t3_loop.trips) : Fin 3 → Nat :=
  let c12_i32_959 : BitVec 32 := 12#32
  let v2761 : Index := Scalar.indexCast c12_i32_959
  let c0_i32_52 : BitVec 32 := 0#32
  let c1_i32_54 : BitVec 32 := 1#32
  let arg16 : BitVec 32 := Scf.iv c0_i32_52 c1_i32_54 k0_t3
  let v2762 : Index := Scalar.indexCast arg16
  let c112_960 : Index := 112#32
  ![12, v2762.toNat, 112]
def k0_off740 (k0_t3 : Fin k0_t3_loop.trips) : Fin 3 → Nat :=
  let c13_i32_962 : BitVec 32 := 13#32
  let v2769 : Index := Scalar.indexCast c13_i32_962
  let c0_i32_52 : BitVec 32 := 0#32
  let c1_i32_54 : BitVec 32 := 1#32
  let arg16 : BitVec 32 := Scf.iv c0_i32_52 c1_i32_54 k0_t3
  let v2770 : Index := Scalar.indexCast arg16
  let c112_963 : Index := 112#32
  ![13, v2770.toNat, 112]
def k0_off741 (k0_t3 : Fin k0_t3_loop.trips) : Fin 3 → Nat :=
  let c14_i32_965 : BitVec 32 := 14#32
  let v2778 : Index := Scalar.indexCast c14_i32_965
  let c0_i32_52 : BitVec 32 := 0#32
  let c1_i32_54 : BitVec 32 := 1#32
  let arg16 : BitVec 32 := Scf.iv c0_i32_52 c1_i32_54 k0_t3
  let v2779 : Index := Scalar.indexCast arg16
  let c112_966 : Index := 112#32
  ![14, v2779.toNat, 112]
def k0_off742 (k0_t3 : Fin k0_t3_loop.trips) : Fin 3 → Nat :=
  let c15_i32_968 : BitVec 32 := 15#32
  let v2787 : Index := Scalar.indexCast c15_i32_968
  let c0_i32_52 : BitVec 32 := 0#32
  let c1_i32_54 : BitVec 32 := 1#32
  let arg16 : BitVec 32 := Scf.iv c0_i32_52 c1_i32_54 k0_t3
  let v2788 : Index := Scalar.indexCast arg16
  let c112_969 : Index := 112#32
  ![15, v2788.toNat, 112]
def k0_off743 (k0_t3 : Fin k0_t3_loop.trips) : Fin 3 → Nat :=
  let c16_i32_971 : BitVec 32 := 16#32
  let v2796 : Index := Scalar.indexCast c16_i32_971
  let c0_i32_52 : BitVec 32 := 0#32
  let c1_i32_54 : BitVec 32 := 1#32
  let arg16 : BitVec 32 := Scf.iv c0_i32_52 c1_i32_54 k0_t3
  let v2797 : Index := Scalar.indexCast arg16
  let c112_972 : Index := 112#32
  ![16, v2797.toNat, 112]
def k0_off744 (k0_t3 : Fin k0_t3_loop.trips) : Fin 3 → Nat :=
  let c17_i32_974 : BitVec 32 := 17#32
  let v2805 : Index := Scalar.indexCast c17_i32_974
  let c0_i32_52 : BitVec 32 := 0#32
  let c1_i32_54 : BitVec 32 := 1#32
  let arg16 : BitVec 32 := Scf.iv c0_i32_52 c1_i32_54 k0_t3
  let v2806 : Index := Scalar.indexCast arg16
  let c112_975 : Index := 112#32
  ![17, v2806.toNat, 112]
def k0_off745 (k0_t3 : Fin k0_t3_loop.trips) : Fin 3 → Nat :=
  let c18_i32_977 : BitVec 32 := 18#32
  let v2814 : Index := Scalar.indexCast c18_i32_977
  let c0_i32_52 : BitVec 32 := 0#32
  let c1_i32_54 : BitVec 32 := 1#32
  let arg16 : BitVec 32 := Scf.iv c0_i32_52 c1_i32_54 k0_t3
  let v2815 : Index := Scalar.indexCast arg16
  let c112_978 : Index := 112#32
  ![18, v2815.toNat, 112]
def k0_off746 (k0_t3 : Fin k0_t3_loop.trips) : Fin 3 → Nat :=
  let c19_i32_980 : BitVec 32 := 19#32
  let v2822 : Index := Scalar.indexCast c19_i32_980
  let c0_i32_52 : BitVec 32 := 0#32
  let c1_i32_54 : BitVec 32 := 1#32
  let arg16 : BitVec 32 := Scf.iv c0_i32_52 c1_i32_54 k0_t3
  let v2823 : Index := Scalar.indexCast arg16
  let c112_981 : Index := 112#32
  ![19, v2823.toNat, 112]
def k0_off747 (k0_t3 : Fin k0_t3_loop.trips) : Fin 3 → Nat :=
  let c20_i32_983 : BitVec 32 := 20#32
  let v2831 : Index := Scalar.indexCast c20_i32_983
  let c0_i32_52 : BitVec 32 := 0#32
  let c1_i32_54 : BitVec 32 := 1#32
  let arg16 : BitVec 32 := Scf.iv c0_i32_52 c1_i32_54 k0_t3
  let v2832 : Index := Scalar.indexCast arg16
  let c112_984 : Index := 112#32
  ![20, v2832.toNat, 112]
def k0_off748 (k0_t3 : Fin k0_t3_loop.trips) : Fin 3 → Nat :=
  let c21_i32_986 : BitVec 32 := 21#32
  let v2840 : Index := Scalar.indexCast c21_i32_986
  let c0_i32_52 : BitVec 32 := 0#32
  let c1_i32_54 : BitVec 32 := 1#32
  let arg16 : BitVec 32 := Scf.iv c0_i32_52 c1_i32_54 k0_t3
  let v2841 : Index := Scalar.indexCast arg16
  let c112_987 : Index := 112#32
  ![21, v2841.toNat, 112]
def k0_off749 (k0_t3 : Fin k0_t3_loop.trips) : Fin 3 → Nat :=
  let c22_i32_989 : BitVec 32 := 22#32
  let v2849 : Index := Scalar.indexCast c22_i32_989
  let c0_i32_52 : BitVec 32 := 0#32
  let c1_i32_54 : BitVec 32 := 1#32
  let arg16 : BitVec 32 := Scf.iv c0_i32_52 c1_i32_54 k0_t3
  let v2850 : Index := Scalar.indexCast arg16
  let c112_990 : Index := 112#32
  ![22, v2850.toNat, 112]
def k0_off750 (k0_t3 : Fin k0_t3_loop.trips) : Fin 3 → Nat :=
  let c23_i32_992 : BitVec 32 := 23#32
  let v2858 : Index := Scalar.indexCast c23_i32_992
  let c0_i32_52 : BitVec 32 := 0#32
  let c1_i32_54 : BitVec 32 := 1#32
  let arg16 : BitVec 32 := Scf.iv c0_i32_52 c1_i32_54 k0_t3
  let v2859 : Index := Scalar.indexCast arg16
  let c112_993 : Index := 112#32
  ![23, v2859.toNat, 112]
def k0_off751 (k0_t3 : Fin k0_t3_loop.trips) : Fin 3 → Nat :=
  let c24_i32_995 : BitVec 32 := 24#32
  let v2867 : Index := Scalar.indexCast c24_i32_995
  let c0_i32_52 : BitVec 32 := 0#32
  let c1_i32_54 : BitVec 32 := 1#32
  let arg16 : BitVec 32 := Scf.iv c0_i32_52 c1_i32_54 k0_t3
  let v2868 : Index := Scalar.indexCast arg16
  let c112_996 : Index := 112#32
  ![24, v2868.toNat, 112]
def k0_off752 (k0_t3 : Fin k0_t3_loop.trips) : Fin 3 → Nat :=
  let c25_i32_998 : BitVec 32 := 25#32
  let v2875 : Index := Scalar.indexCast c25_i32_998
  let c0_i32_52 : BitVec 32 := 0#32
  let c1_i32_54 : BitVec 32 := 1#32
  let arg16 : BitVec 32 := Scf.iv c0_i32_52 c1_i32_54 k0_t3
  let v2876 : Index := Scalar.indexCast arg16
  let c112_999 : Index := 112#32
  ![25, v2876.toNat, 112]
def k0_off753 (k0_t3 : Fin k0_t3_loop.trips) : Fin 3 → Nat :=
  let c26_i32_1001 : BitVec 32 := 26#32
  let v2884 : Index := Scalar.indexCast c26_i32_1001
  let c0_i32_52 : BitVec 32 := 0#32
  let c1_i32_54 : BitVec 32 := 1#32
  let arg16 : BitVec 32 := Scf.iv c0_i32_52 c1_i32_54 k0_t3
  let v2885 : Index := Scalar.indexCast arg16
  let c112_1002 : Index := 112#32
  ![26, v2885.toNat, 112]
def k0_off754 (k0_t3 : Fin k0_t3_loop.trips) : Fin 3 → Nat :=
  let c27_i32_1004 : BitVec 32 := 27#32
  let v2893 : Index := Scalar.indexCast c27_i32_1004
  let c0_i32_52 : BitVec 32 := 0#32
  let c1_i32_54 : BitVec 32 := 1#32
  let arg16 : BitVec 32 := Scf.iv c0_i32_52 c1_i32_54 k0_t3
  let v2894 : Index := Scalar.indexCast arg16
  let c112_1005 : Index := 112#32
  ![27, v2894.toNat, 112]
def k0_off755 (k0_t3 : Fin k0_t3_loop.trips) : Fin 3 → Nat :=
  let c28_i32_1007 : BitVec 32 := 28#32
  let v2902 : Index := Scalar.indexCast c28_i32_1007
  let c0_i32_52 : BitVec 32 := 0#32
  let c1_i32_54 : BitVec 32 := 1#32
  let arg16 : BitVec 32 := Scf.iv c0_i32_52 c1_i32_54 k0_t3
  let v2903 : Index := Scalar.indexCast arg16
  let c112_1008 : Index := 112#32
  ![28, v2903.toNat, 112]
def k0_off756 (k0_t3 : Fin k0_t3_loop.trips) : Fin 3 → Nat :=
  let c29_i32_1010 : BitVec 32 := 29#32
  let v2911 : Index := Scalar.indexCast c29_i32_1010
  let c0_i32_52 : BitVec 32 := 0#32
  let c1_i32_54 : BitVec 32 := 1#32
  let arg16 : BitVec 32 := Scf.iv c0_i32_52 c1_i32_54 k0_t3
  let v2912 : Index := Scalar.indexCast arg16
  let c112_1011 : Index := 112#32
  ![29, v2912.toNat, 112]
def k0_off757 (k0_t3 : Fin k0_t3_loop.trips) : Fin 3 → Nat :=
  let c30_i32_1013 : BitVec 32 := 30#32
  let v2920 : Index := Scalar.indexCast c30_i32_1013
  let c0_i32_52 : BitVec 32 := 0#32
  let c1_i32_54 : BitVec 32 := 1#32
  let arg16 : BitVec 32 := Scf.iv c0_i32_52 c1_i32_54 k0_t3
  let v2921 : Index := Scalar.indexCast arg16
  let c112_1014 : Index := 112#32
  ![30, v2921.toNat, 112]
def k0_off758 (k0_t3 : Fin k0_t3_loop.trips) : Fin 3 → Nat :=
  let c31_i32_1016 : BitVec 32 := 31#32
  let v2928 : Index := Scalar.indexCast c31_i32_1016
  let c0_i32_52 : BitVec 32 := 0#32
  let c1_i32_54 : BitVec 32 := 1#32
  let arg16 : BitVec 32 := Scf.iv c0_i32_52 c1_i32_54 k0_t3
  let v2929 : Index := Scalar.indexCast arg16
  let c112_1017 : Index := 112#32
  ![31, v2929.toNat, 112]
def k0_off759 (k0_t3 : Fin k0_t3_loop.trips) : Fin 3 → Nat :=
  let c32_i32_1019 : BitVec 32 := 32#32
  let v2937 : Index := Scalar.indexCast c32_i32_1019
  let c0_i32_52 : BitVec 32 := 0#32
  let c1_i32_54 : BitVec 32 := 1#32
  let arg16 : BitVec 32 := Scf.iv c0_i32_52 c1_i32_54 k0_t3
  let v2938 : Index := Scalar.indexCast arg16
  let c112_1020 : Index := 112#32
  ![32, v2938.toNat, 112]
def k0_off760 (k0_t3 : Fin k0_t3_loop.trips) : Fin 3 → Nat :=
  let c33_i32_1022 : BitVec 32 := 33#32
  let v2946 : Index := Scalar.indexCast c33_i32_1022
  let c0_i32_52 : BitVec 32 := 0#32
  let c1_i32_54 : BitVec 32 := 1#32
  let arg16 : BitVec 32 := Scf.iv c0_i32_52 c1_i32_54 k0_t3
  let v2947 : Index := Scalar.indexCast arg16
  let c112_1023 : Index := 112#32
  ![33, v2947.toNat, 112]
def k0_off761 (k0_t3 : Fin k0_t3_loop.trips) : Fin 3 → Nat :=
  let c34_i32_1025 : BitVec 32 := 34#32
  let v2955 : Index := Scalar.indexCast c34_i32_1025
  let c0_i32_52 : BitVec 32 := 0#32
  let c1_i32_54 : BitVec 32 := 1#32
  let arg16 : BitVec 32 := Scf.iv c0_i32_52 c1_i32_54 k0_t3
  let v2956 : Index := Scalar.indexCast arg16
  let c112_1026 : Index := 112#32
  ![34, v2956.toNat, 112]
def k0_off762 (k0_t3 : Fin k0_t3_loop.trips) : Fin 3 → Nat :=
  let c35_i32_1028 : BitVec 32 := 35#32
  let v2964 : Index := Scalar.indexCast c35_i32_1028
  let c0_i32_52 : BitVec 32 := 0#32
  let c1_i32_54 : BitVec 32 := 1#32
  let arg16 : BitVec 32 := Scf.iv c0_i32_52 c1_i32_54 k0_t3
  let v2965 : Index := Scalar.indexCast arg16
  let c112_1029 : Index := 112#32
  ![35, v2965.toNat, 112]
def k0_off763 (k0_t3 : Fin k0_t3_loop.trips) : Fin 3 → Nat :=
  let c0_i32_1031 : BitVec 32 := 0#32
  let v2973 : Index := Scalar.indexCast c0_i32_1031
  let c0_i32_52 : BitVec 32 := 0#32
  let c1_i32_54 : BitVec 32 := 1#32
  let arg16 : BitVec 32 := Scf.iv c0_i32_52 c1_i32_54 k0_t3
  let v2974 : Index := Scalar.indexCast arg16
  let c112_1032 : Index := 112#32
  ![0, v2974.toNat, 112]
def k0_off764 (k0_t3 : Fin k0_t3_loop.trips) : Fin 3 → Nat :=
  let c1_i32_1033 : BitVec 32 := 1#32
  let v2978 : Index := Scalar.indexCast c1_i32_1033
  let c0_i32_52 : BitVec 32 := 0#32
  let c1_i32_54 : BitVec 32 := 1#32
  let arg16 : BitVec 32 := Scf.iv c0_i32_52 c1_i32_54 k0_t3
  let v2979 : Index := Scalar.indexCast arg16
  let c112_1034 : Index := 112#32
  ![1, v2979.toNat, 112]
def k0_off765 (k0_t3 : Fin k0_t3_loop.trips) : Fin 3 → Nat :=
  let c2_i32_1035 : BitVec 32 := 2#32
  let v2983 : Index := Scalar.indexCast c2_i32_1035
  let c0_i32_52 : BitVec 32 := 0#32
  let c1_i32_54 : BitVec 32 := 1#32
  let arg16 : BitVec 32 := Scf.iv c0_i32_52 c1_i32_54 k0_t3
  let v2984 : Index := Scalar.indexCast arg16
  let c112_1036 : Index := 112#32
  ![2, v2984.toNat, 112]
def k0_off766 (k0_t3 : Fin k0_t3_loop.trips) : Fin 3 → Nat :=
  let c3_i32_1037 : BitVec 32 := 3#32
  let v2988 : Index := Scalar.indexCast c3_i32_1037
  let c0_i32_52 : BitVec 32 := 0#32
  let c1_i32_54 : BitVec 32 := 1#32
  let arg16 : BitVec 32 := Scf.iv c0_i32_52 c1_i32_54 k0_t3
  let v2989 : Index := Scalar.indexCast arg16
  let c112_1038 : Index := 112#32
  ![3, v2989.toNat, 112]
def k0_off767 (k0_t3 : Fin k0_t3_loop.trips) : Fin 3 → Nat :=
  let c4_i32_1039 : BitVec 32 := 4#32
  let v2993 : Index := Scalar.indexCast c4_i32_1039
  let c0_i32_52 : BitVec 32 := 0#32
  let c1_i32_54 : BitVec 32 := 1#32
  let arg16 : BitVec 32 := Scf.iv c0_i32_52 c1_i32_54 k0_t3
  let v2994 : Index := Scalar.indexCast arg16
  let c112_1040 : Index := 112#32
  ![4, v2994.toNat, 112]
def k0_off768 (k0_t3 : Fin k0_t3_loop.trips) : Fin 3 → Nat :=
  let c5_i32_1041 : BitVec 32 := 5#32
  let v2998 : Index := Scalar.indexCast c5_i32_1041
  let c0_i32_52 : BitVec 32 := 0#32
  let c1_i32_54 : BitVec 32 := 1#32
  let arg16 : BitVec 32 := Scf.iv c0_i32_52 c1_i32_54 k0_t3
  let v2999 : Index := Scalar.indexCast arg16
  let c112_1042 : Index := 112#32
  ![5, v2999.toNat, 112]
def k0_off769 (k0_t3 : Fin k0_t3_loop.trips) : Fin 3 → Nat :=
  let c6_i32_1043 : BitVec 32 := 6#32
  let v3003 : Index := Scalar.indexCast c6_i32_1043
  let c0_i32_52 : BitVec 32 := 0#32
  let c1_i32_54 : BitVec 32 := 1#32
  let arg16 : BitVec 32 := Scf.iv c0_i32_52 c1_i32_54 k0_t3
  let v3004 : Index := Scalar.indexCast arg16
  let c112_1044 : Index := 112#32
  ![6, v3004.toNat, 112]
def k0_off770 (k0_t3 : Fin k0_t3_loop.trips) : Fin 3 → Nat :=
  let c7_i32_1045 : BitVec 32 := 7#32
  let v3008 : Index := Scalar.indexCast c7_i32_1045
  let c0_i32_52 : BitVec 32 := 0#32
  let c1_i32_54 : BitVec 32 := 1#32
  let arg16 : BitVec 32 := Scf.iv c0_i32_52 c1_i32_54 k0_t3
  let v3009 : Index := Scalar.indexCast arg16
  let c112_1046 : Index := 112#32
  ![7, v3009.toNat, 112]
def k0_off771 (k0_t3 : Fin k0_t3_loop.trips) : Fin 3 → Nat :=
  let c8_i32_1047 : BitVec 32 := 8#32
  let v3013 : Index := Scalar.indexCast c8_i32_1047
  let c0_i32_52 : BitVec 32 := 0#32
  let c1_i32_54 : BitVec 32 := 1#32
  let arg16 : BitVec 32 := Scf.iv c0_i32_52 c1_i32_54 k0_t3
  let v3014 : Index := Scalar.indexCast arg16
  let c112_1048 : Index := 112#32
  ![8, v3014.toNat, 112]
def k0_off772 (k0_t3 : Fin k0_t3_loop.trips) : Fin 3 → Nat :=
  let c9_i32_1049 : BitVec 32 := 9#32
  let v3018 : Index := Scalar.indexCast c9_i32_1049
  let c0_i32_52 : BitVec 32 := 0#32
  let c1_i32_54 : BitVec 32 := 1#32
  let arg16 : BitVec 32 := Scf.iv c0_i32_52 c1_i32_54 k0_t3
  let v3019 : Index := Scalar.indexCast arg16
  let c112_1050 : Index := 112#32
  ![9, v3019.toNat, 112]
def k0_off773 (k0_t3 : Fin k0_t3_loop.trips) : Fin 3 → Nat :=
  let c10_i32_1051 : BitVec 32 := 10#32
  let v3023 : Index := Scalar.indexCast c10_i32_1051
  let c0_i32_52 : BitVec 32 := 0#32
  let c1_i32_54 : BitVec 32 := 1#32
  let arg16 : BitVec 32 := Scf.iv c0_i32_52 c1_i32_54 k0_t3
  let v3024 : Index := Scalar.indexCast arg16
  let c112_1052 : Index := 112#32
  ![10, v3024.toNat, 112]
def k0_off774 (k0_t3 : Fin k0_t3_loop.trips) : Fin 3 → Nat :=
  let c11_i32_1053 : BitVec 32 := 11#32
  let v3028 : Index := Scalar.indexCast c11_i32_1053
  let c0_i32_52 : BitVec 32 := 0#32
  let c1_i32_54 : BitVec 32 := 1#32
  let arg16 : BitVec 32 := Scf.iv c0_i32_52 c1_i32_54 k0_t3
  let v3029 : Index := Scalar.indexCast arg16
  let c112_1054 : Index := 112#32
  ![11, v3029.toNat, 112]
def k0_cond4 (k0_t1 : Fin k0_t1_loop.trips) : BitVec 1 :=
  let c0_i32_11 : BitVec 32 := 0#32
  let c1_i32 : BitVec 32 := 1#32
  let arg14 : BitVec 32 := Scf.iv c0_i32_11 c1_i32 k0_t1
  let c2_i32_42 : BitVec 32 := 2#32
  let v38 : BitVec 32 := Scalar.muli arg14 c2_i32_42
  let c1_i32_43 : BitVec 32 := 1#32
  let v39 : BitVec 32 := Scalar.addi v38 c1_i32_43
  let c2_i32_61 : BitVec 32 := 2#32
  let v53 : BitVec 32 := Scalar.addi v39 c2_i32_61
  let c28_i32_62 : BitVec 32 := 28#32
  let v54 : BitVec 1 := Scalar.cmpi .slt v53 c28_i32_62
  let v55 : BitVec 32 := Scalar.extui v54
  let c0_i32_63 : BitVec 32 := 0#32
  let v56 : BitVec 1 := Scalar.cmpi .ne v55 c0_i32_63
  v56

def k0_off775 (i : grid0.Coords) (k0_t1 : Fin k0_t1_loop.trips) : Fin 3 → Nat :=
  let c0_i32_67 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let v3 : BitVec 32 := Scalar.addi c0_i32 v2
  let c0_i32_11 : BitVec 32 := 0#32
  let c1_i32 : BitVec 32 := 1#32
  let arg14 : BitVec 32 := Scf.iv c0_i32_11 c1_i32 k0_t1
  let c2_i32_42 : BitVec 32 := 2#32
  let v38 : BitVec 32 := Scalar.muli arg14 c2_i32_42
  let c1_i32_43 : BitVec 32 := 1#32
  let v39 : BitVec 32 := Scalar.addi v38 c1_i32_43
  let c2_i32_65 : BitVec 32 := 2#32
  let v57 : BitVec 32 := Scalar.addi v39 c2_i32_65
  let c8_i32_66 : BitVec 32 := 8#32
  let v58 : BitVec 32 := Scalar.muli v57 c8_i32_66
  let v59 : BitVec 32 := Scalar.addi v3 v58
  let c0_i32_68 : BitVec 32 := 0#32
  ![0, v59.toNat, 0]
def k0_off776 (i : grid0.Coords) (c208_i32 : BitVec 32) : Fin 3 → Nat :=
  let c0_i32_13 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_0 : BitVec 32 := 224#32
  let v4 : BitVec 32 := Scalar.muli v1 c224_i32_0
  let v13 : BitVec 32 := Scalar.addi v4 c208_i32
  let c0_i32_14 : BitVec 32 := 0#32
  ![0, v13.toNat, 0]
abbrev grid1 : Pipeline.Grid := ⟨1, ![9], ![false]⟩

def cc1_transform_0 (i : grid1.Coords) : Fin 3 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S36x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x36 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S12x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![12, 1], ![false, false]⟩

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage2_0 : Fin 2 → Memref sig .tc .vmem S1x7168x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x7168x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S36 : S_.BroadcastsInDim S36 (![] : Fin 0 → Fin S36.rank)
  bcast_S36_S36x1_0 : S36.BroadcastsInDim S36x1 (![0] : Fin 1 → Fin S36x1.rank)
  bcast_S36x1_S36x16_0_1 : S36x1.BroadcastsInDim S36x16 (![0, 1] : Fin 2 → Fin S36x16.rank)
  shapeCasts_S36x16_S576 : S36x16.ShapeCasts S576
  shapeCasts_S36_S1x36 : S36.ShapeCasts S1x36
  transposes_S16384x36x128_S36x16384x128_1_0_2 : S16384x36x128.Transposes [1, 0, 2] S36x16384x128
  transposes_S128x128_S128x128_1_0 : S128x128.Transposes [1, 0] S128x128
  shapeCasts_S128_S1x128 : S128.ShapeCasts S1x128
  h_S1x1x16 : 0 < S1x1x16.numel
  shapeCasts_S1x1x16_S16 : S1x1x16.ShapeCasts S16
  inb_S576_S16_0 : ∀ a, (![0] : Fin 1 → Nat) a + S16.size a ≤ S576.size a
  h_S16 : 0 < S16.numel
  shapeCasts_S16_S16 : S16.ShapeCasts S16
  inb_S576_S16_16 : ∀ a, (![16] : Fin 1 → Nat) a + S16.size a ≤ S576.size a
  inb_S576_S16_32 : ∀ a, (![32] : Fin 1 → Nat) a + S16.size a ≤ S576.size a
  inb_S576_S16_48 : ∀ a, (![48] : Fin 1 → Nat) a + S16.size a ≤ S576.size a
  inb_S576_S16_64 : ∀ a, (![64] : Fin 1 → Nat) a + S16.size a ≤ S576.size a
  inb_S576_S16_80 : ∀ a, (![80] : Fin 1 → Nat) a + S16.size a ≤ S576.size a
  inb_S576_S16_96 : ∀ a, (![96] : Fin 1 → Nat) a + S16.size a ≤ S576.size a
  inb_S576_S16_112 : ∀ a, (![112] : Fin 1 → Nat) a + S16.size a ≤ S576.size a
  inb_S576_S16_128 : ∀ a, (![128] : Fin 1 → Nat) a + S16.size a ≤ S576.size a
  inb_S576_S16_144 : ∀ a, (![144] : Fin 1 → Nat) a + S16.size a ≤ S576.size a
  inb_S576_S16_160 : ∀ a, (![160] : Fin 1 → Nat) a + S16.size a ≤ S576.size a
  inb_S576_S16_176 : ∀ a, (![176] : Fin 1 → Nat) a + S16.size a ≤ S576.size a
  inb_S576_S16_192 : ∀ a, (![192] : Fin 1 → Nat) a + S16.size a ≤ S576.size a
  inb_S576_S16_208 : ∀ a, (![208] : Fin 1 → Nat) a + S16.size a ≤ S576.size a
  inb_S576_S16_224 : ∀ a, (![224] : Fin 1 → Nat) a + S16.size a ≤ S576.size a
  inb_S576_S16_240 : ∀ a, (![240] : Fin 1 → Nat) a + S16.size a ≤ S576.size a
  inb_S576_S16_256 : ∀ a, (![256] : Fin 1 → Nat) a + S16.size a ≤ S576.size a
  inb_S576_S16_272 : ∀ a, (![272] : Fin 1 → Nat) a + S16.size a ≤ S576.size a
  inb_S576_S16_288 : ∀ a, (![288] : Fin 1 → Nat) a + S16.size a ≤ S576.size a
  inb_S576_S16_304 : ∀ a, (![304] : Fin 1 → Nat) a + S16.size a ≤ S576.size a
  inb_S576_S16_320 : ∀ a, (![320] : Fin 1 → Nat) a + S16.size a ≤ S576.size a
  inb_S576_S16_336 : ∀ a, (![336] : Fin 1 → Nat) a + S16.size a ≤ S576.size a
  inb_S576_S16_352 : ∀ a, (![352] : Fin 1 → Nat) a + S16.size a ≤ S576.size a
  inb_S576_S16_368 : ∀ a, (![368] : Fin 1 → Nat) a + S16.size a ≤ S576.size a
  inb_S576_S16_384 : ∀ a, (![384] : Fin 1 → Nat) a + S16.size a ≤ S576.size a
  inb_S576_S16_400 : ∀ a, (![400] : Fin 1 → Nat) a + S16.size a ≤ S576.size a
  inb_S576_S16_416 : ∀ a, (![416] : Fin 1 → Nat) a + S16.size a ≤ S576.size a
  inb_S576_S16_432 : ∀ a, (![432] : Fin 1 → Nat) a + S16.size a ≤ S576.size a
  inb_S576_S16_448 : ∀ a, (![448] : Fin 1 → Nat) a + S16.size a ≤ S576.size a
  inb_S576_S16_464 : ∀ a, (![464] : Fin 1 → Nat) a + S16.size a ≤ S576.size a
  inb_S576_S16_480 : ∀ a, (![480] : Fin 1 → Nat) a + S16.size a ≤ S576.size a
  inb_S576_S16_496 : ∀ a, (![496] : Fin 1 → Nat) a + S16.size a ≤ S576.size a
  inb_S576_S16_512 : ∀ a, (![512] : Fin 1 → Nat) a + S16.size a ≤ S576.size a
  inb_S576_S16_528 : ∀ a, (![528] : Fin 1 → Nat) a + S16.size a ≤ S576.size a
  inb_S576_S16_544 : ∀ a, (![544] : Fin 1 → Nat) a + S16.size a ≤ S576.size a
  inb_S576_S16_560 : ∀ a, (![560] : Fin 1 → Nat) a + S16.size a ≤ S576.size a
  shapeCasts_S16_S1x1x16 : S16.ShapeCasts S1x1x16
  inb_S36x1024x128_S1x1024x128_0_0_0 : ∀ a, (![0, 0, 0] : Fin 3 → Nat) a + S1x1024x128.size a ≤ S36x1024x128.size a
  h_S1x1024x128 : 0 < S1x1024x128.numel
  shapeCasts_S1x1024x128_S1024x128 : S1x1024x128.ShapeCasts S1024x128
  inb_S1x36_S1x1_0_0 : ∀ a, (![0, 0] : Fin 2 → Nat) a + S1x1.size a ≤ S1x36.size a
  h_S1x1 : 0 < S1x1.numel
  inpos_S1x1_p0_0 : ∀ a, (![0, 0] : Fin 2 → Nat) a < S1x1.size a
  inb_S36x1024x128_S1x1024x128_1_0_0 : ∀ a, (![1, 0, 0] : Fin 3 → Nat) a + S1x1024x128.size a ≤ S36x1024x128.size a
  inb_S1x36_S1x1_0_1 : ∀ a, (![0, 1] : Fin 2 → Nat) a + S1x1.size a ≤ S1x36.size a
  inb_S36x1024x128_S1x1024x128_2_0_0 : ∀ a, (![2, 0, 0] : Fin 3 → Nat) a + S1x1024x128.size a ≤ S36x1024x128.size a
  inb_S1x36_S1x1_0_2 : ∀ a, (![0, 2] : Fin 2 → Nat) a + S1x1.size a ≤ S1x36.size a
  inb_S36x1024x128_S1x1024x128_3_0_0 : ∀ a, (![3, 0, 0] : Fin 3 → Nat) a + S1x1024x128.size a ≤ S36x1024x128.size a
  inb_S1x36_S1x1_0_3 : ∀ a, (![0, 3] : Fin 2 → Nat) a + S1x1.size a ≤ S1x36.size a
  inb_S36x1024x128_S1x1024x128_4_0_0 : ∀ a, (![4, 0, 0] : Fin 3 → Nat) a + S1x1024x128.size a ≤ S36x1024x128.size a
  inb_S1x36_S1x1_0_4 : ∀ a, (![0, 4] : Fin 2 → Nat) a + S1x1.size a ≤ S1x36.size a
  inb_S36x1024x128_S1x1024x128_5_0_0 : ∀ a, (![5, 0, 0] : Fin 3 → Nat) a + S1x1024x128.size a ≤ S36x1024x128.size a
  inb_S1x36_S1x1_0_5 : ∀ a, (![0, 5] : Fin 2 → Nat) a + S1x1.size a ≤ S1x36.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S12x1024x128_S1x1024x128_0_0_0 : ∀ a, (![0, 0, 0] : Fin 3 → Nat) a + S1x1024x128.size a ≤ S12x1024x128.size a
  shapeCasts_S1024x128_S1x1024x128 : S1024x128.ShapeCasts S1x1024x128
  inb_S36x1024x128_S1x1024x128_6_0_0 : ∀ a, (![6, 0, 0] : Fin 3 → Nat) a + S1x1024x128.size a ≤ S36x1024x128.size a
  inb_S1x36_S1x1_0_6 : ∀ a, (![0, 6] : Fin 2 → Nat) a + S1x1.size a ≤ S1x36.size a
  inb_S36x1024x128_S1x1024x128_7_0_0 : ∀ a, (![7, 0, 0] : Fin 3 → Nat) a + S1x1024x128.size a ≤ S36x1024x128.size a
  inb_S1x36_S1x1_0_7 : ∀ a, (![0, 7] : Fin 2 → Nat) a + S1x1.size a ≤ S1x36.size a
  inb_S36x1024x128_S1x1024x128_8_0_0 : ∀ a, (![8, 0, 0] : Fin 3 → Nat) a + S1x1024x128.size a ≤ S36x1024x128.size a
  inb_S1x36_S1x1_0_8 : ∀ a, (![0, 8] : Fin 2 → Nat) a + S1x1.size a ≤ S1x36.size a
  inb_S36x1024x128_S1x1024x128_9_0_0 : ∀ a, (![9, 0, 0] : Fin 3 → Nat) a + S1x1024x128.size a ≤ S36x1024x128.size a
  inb_S1x36_S1x1_0_9 : ∀ a, (![0, 9] : Fin 2 → Nat) a + S1x1.size a ≤ S1x36.size a
  inb_S36x1024x128_S1x1024x128_10_0_0 : ∀ a, (![10, 0, 0] : Fin 3 → Nat) a + S1x1024x128.size a ≤ S36x1024x128.size a
  inb_S1x36_S1x1_0_10 : ∀ a, (![0, 10] : Fin 2 → Nat) a + S1x1.size a ≤ S1x36.size a
  inb_S36x1024x128_S1x1024x128_11_0_0 : ∀ a, (![11, 0, 0] : Fin 3 → Nat) a + S1x1024x128.size a ≤ S36x1024x128.size a
  inb_S1x36_S1x1_0_11 : ∀ a, (![0, 11] : Fin 2 → Nat) a + S1x1.size a ≤ S1x36.size a
  inb_S12x1024x128_S1x1024x128_1_0_0 : ∀ a, (![1, 0, 0] : Fin 3 → Nat) a + S1x1024x128.size a ≤ S12x1024x128.size a
  inb_S36x1024x128_S1x1024x128_12_0_0 : ∀ a, (![12, 0, 0] : Fin 3 → Nat) a + S1x1024x128.size a ≤ S36x1024x128.size a
  inb_S1x36_S1x1_0_12 : ∀ a, (![0, 12] : Fin 2 → Nat) a + S1x1.size a ≤ S1x36.size a
  inb_S36x1024x128_S1x1024x128_13_0_0 : ∀ a, (![13, 0, 0] : Fin 3 → Nat) a + S1x1024x128.size a ≤ S36x1024x128.size a
  inb_S1x36_S1x1_0_13 : ∀ a, (![0, 13] : Fin 2 → Nat) a + S1x1.size a ≤ S1x36.size a
  inb_S36x1024x128_S1x1024x128_14_0_0 : ∀ a, (![14, 0, 0] : Fin 3 → Nat) a + S1x1024x128.size a ≤ S36x1024x128.size a
  inb_S1x36_S1x1_0_14 : ∀ a, (![0, 14] : Fin 2 → Nat) a + S1x1.size a ≤ S1x36.size a
  inb_S36x1024x128_S1x1024x128_15_0_0 : ∀ a, (![15, 0, 0] : Fin 3 → Nat) a + S1x1024x128.size a ≤ S36x1024x128.size a
  inb_S1x36_S1x1_0_15 : ∀ a, (![0, 15] : Fin 2 → Nat) a + S1x1.size a ≤ S1x36.size a
  inb_S36x1024x128_S1x1024x128_16_0_0 : ∀ a, (![16, 0, 0] : Fin 3 → Nat) a + S1x1024x128.size a ≤ S36x1024x128.size a
  inb_S1x36_S1x1_0_16 : ∀ a, (![0, 16] : Fin 2 → Nat) a + S1x1.size a ≤ S1x36.size a
  inb_S36x1024x128_S1x1024x128_17_0_0 : ∀ a, (![17, 0, 0] : Fin 3 → Nat) a + S1x1024x128.size a ≤ S36x1024x128.size a
  inb_S1x36_S1x1_0_17 : ∀ a, (![0, 17] : Fin 2 → Nat) a + S1x1.size a ≤ S1x36.size a
  inb_S12x1024x128_S1x1024x128_2_0_0 : ∀ a, (![2, 0, 0] : Fin 3 → Nat) a + S1x1024x128.size a ≤ S12x1024x128.size a
  inb_S36x1024x128_S1x1024x128_18_0_0 : ∀ a, (![18, 0, 0] : Fin 3 → Nat) a + S1x1024x128.size a ≤ S36x1024x128.size a
  inb_S1x36_S1x1_0_18 : ∀ a, (![0, 18] : Fin 2 → Nat) a + S1x1.size a ≤ S1x36.size a
  inb_S36x1024x128_S1x1024x128_19_0_0 : ∀ a, (![19, 0, 0] : Fin 3 → Nat) a + S1x1024x128.size a ≤ S36x1024x128.size a
  inb_S1x36_S1x1_0_19 : ∀ a, (![0, 19] : Fin 2 → Nat) a + S1x1.size a ≤ S1x36.size a
  inb_S36x1024x128_S1x1024x128_20_0_0 : ∀ a, (![20, 0, 0] : Fin 3 → Nat) a + S1x1024x128.size a ≤ S36x1024x128.size a
  inb_S1x36_S1x1_0_20 : ∀ a, (![0, 20] : Fin 2 → Nat) a + S1x1.size a ≤ S1x36.size a
  inb_S36x1024x128_S1x1024x128_21_0_0 : ∀ a, (![21, 0, 0] : Fin 3 → Nat) a + S1x1024x128.size a ≤ S36x1024x128.size a
  inb_S1x36_S1x1_0_21 : ∀ a, (![0, 21] : Fin 2 → Nat) a + S1x1.size a ≤ S1x36.size a
  inb_S36x1024x128_S1x1024x128_22_0_0 : ∀ a, (![22, 0, 0] : Fin 3 → Nat) a + S1x1024x128.size a ≤ S36x1024x128.size a
  inb_S1x36_S1x1_0_22 : ∀ a, (![0, 22] : Fin 2 → Nat) a + S1x1.size a ≤ S1x36.size a
  inb_S36x1024x128_S1x1024x128_23_0_0 : ∀ a, (![23, 0, 0] : Fin 3 → Nat) a + S1x1024x128.size a ≤ S36x1024x128.size a
  inb_S1x36_S1x1_0_23 : ∀ a, (![0, 23] : Fin 2 → Nat) a + S1x1.size a ≤ S1x36.size a
  inb_S12x1024x128_S1x1024x128_3_0_0 : ∀ a, (![3, 0, 0] : Fin 3 → Nat) a + S1x1024x128.size a ≤ S12x1024x128.size a
  inb_S36x1024x128_S1x1024x128_24_0_0 : ∀ a, (![24, 0, 0] : Fin 3 → Nat) a + S1x1024x128.size a ≤ S36x1024x128.size a
  inb_S1x36_S1x1_0_24 : ∀ a, (![0, 24] : Fin 2 → Nat) a + S1x1.size a ≤ S1x36.size a
  inb_S36x1024x128_S1x1024x128_25_0_0 : ∀ a, (![25, 0, 0] : Fin 3 → Nat) a + S1x1024x128.size a ≤ S36x1024x128.size a
  inb_S1x36_S1x1_0_25 : ∀ a, (![0, 25] : Fin 2 → Nat) a + S1x1.size a ≤ S1x36.size a
  inb_S36x1024x128_S1x1024x128_26_0_0 : ∀ a, (![26, 0, 0] : Fin 3 → Nat) a + S1x1024x128.size a ≤ S36x1024x128.size a
  inb_S1x36_S1x1_0_26 : ∀ a, (![0, 26] : Fin 2 → Nat) a + S1x1.size a ≤ S1x36.size a
  inb_S36x1024x128_S1x1024x128_27_0_0 : ∀ a, (![27, 0, 0] : Fin 3 → Nat) a + S1x1024x128.size a ≤ S36x1024x128.size a
  inb_S1x36_S1x1_0_27 : ∀ a, (![0, 27] : Fin 2 → Nat) a + S1x1.size a ≤ S1x36.size a
  inb_S36x1024x128_S1x1024x128_28_0_0 : ∀ a, (![28, 0, 0] : Fin 3 → Nat) a + S1x1024x128.size a ≤ S36x1024x128.size a
  inb_S1x36_S1x1_0_28 : ∀ a, (![0, 28] : Fin 2 → Nat) a + S1x1.size a ≤ S1x36.size a
  inb_S36x1024x128_S1x1024x128_29_0_0 : ∀ a, (![29, 0, 0] : Fin 3 → Nat) a + S1x1024x128.size a ≤ S36x1024x128.size a
  inb_S1x36_S1x1_0_29 : ∀ a, (![0, 29] : Fin 2 → Nat) a + S1x1.size a ≤ S1x36.size a
  inb_S12x1024x128_S1x1024x128_4_0_0 : ∀ a, (![4, 0, 0] : Fin 3 → Nat) a + S1x1024x128.size a ≤ S12x1024x128.size a
  inb_S36x1024x128_S1x1024x128_30_0_0 : ∀ a, (![30, 0, 0] : Fin 3 → Nat) a + S1x1024x128.size a ≤ S36x1024x128.size a
  inb_S1x36_S1x1_0_30 : ∀ a, (![0, 30] : Fin 2 → Nat) a + S1x1.size a ≤ S1x36.size a
  inb_S36x1024x128_S1x1024x128_31_0_0 : ∀ a, (![31, 0, 0] : Fin 3 → Nat) a + S1x1024x128.size a ≤ S36x1024x128.size a
  inb_S1x36_S1x1_0_31 : ∀ a, (![0, 31] : Fin 2 → Nat) a + S1x1.size a ≤ S1x36.size a
  inb_S36x1024x128_S1x1024x128_32_0_0 : ∀ a, (![32, 0, 0] : Fin 3 → Nat) a + S1x1024x128.size a ≤ S36x1024x128.size a
  inb_S1x36_S1x1_0_32 : ∀ a, (![0, 32] : Fin 2 → Nat) a + S1x1.size a ≤ S1x36.size a
  inb_S36x1024x128_S1x1024x128_33_0_0 : ∀ a, (![33, 0, 0] : Fin 3 → Nat) a + S1x1024x128.size a ≤ S36x1024x128.size a
  inb_S1x36_S1x1_0_33 : ∀ a, (![0, 33] : Fin 2 → Nat) a + S1x1.size a ≤ S1x36.size a
  inb_S36x1024x128_S1x1024x128_34_0_0 : ∀ a, (![34, 0, 0] : Fin 3 → Nat) a + S1x1024x128.size a ≤ S36x1024x128.size a
  inb_S1x36_S1x1_0_34 : ∀ a, (![0, 34] : Fin 2 → Nat) a + S1x1.size a ≤ S1x36.size a
  inb_S36x1024x128_S1x1024x128_35_0_0 : ∀ a, (![35, 0, 0] : Fin 3 → Nat) a + S1x1024x128.size a ≤ S36x1024x128.size a
  inb_S1x36_S1x1_0_35 : ∀ a, (![0, 35] : Fin 2 → Nat) a + S1x1.size a ≤ S1x36.size a
  inb_S12x1024x128_S1x1024x128_5_0_0 : ∀ a, (![5, 0, 0] : Fin 3 → Nat) a + S1x1024x128.size a ≤ S12x1024x128.size a
  inb_S12x1024x128_S1x1024x128_6_0_0 : ∀ a, (![6, 0, 0] : Fin 3 → Nat) a + S1x1024x128.size a ≤ S12x1024x128.size a
  inb_S12x1024x128_S1x1024x128_7_0_0 : ∀ a, (![7, 0, 0] : Fin 3 → Nat) a + S1x1024x128.size a ≤ S12x1024x128.size a
  inb_S12x1024x128_S1x1024x128_8_0_0 : ∀ a, (![8, 0, 0] : Fin 3 → Nat) a + S1x1024x128.size a ≤ S12x1024x128.size a
  inb_S12x1024x128_S1x1024x128_9_0_0 : ∀ a, (![9, 0, 0] : Fin 3 → Nat) a + S1x1024x128.size a ≤ S12x1024x128.size a
  inb_S12x1024x128_S1x1024x128_10_0_0 : ∀ a, (![10, 0, 0] : Fin 3 → Nat) a + S1x1024x128.size a ≤ S12x1024x128.size a
  inb_S12x1024x128_S1x1024x128_11_0_0 : ∀ a, (![11, 0, 0] : Fin 3 → Nat) a + S1x1024x128.size a ≤ S12x1024x128.size a
  inb_S1x7168x128_S1x7168x128_0_0_0 : ∀ a, (![0, 0, 0] : Fin 3 → Nat) a + S1x7168x128.size a ≤ S1x7168x128.size a
  h_S1x7168x128 : 0 < S1x7168x128.numel
  shapeCasts_S1x7168x128_S7168x128 : S1x7168x128.ShapeCasts S7168x128
  broadcasts_S1x128_S7168x128 : S1x128.Broadcasts S7168x128
  shapeCasts_S7168x128_S1x7168x128 : S7168x128.ShapeCasts S1x7168x128
  transposes_S12x16384x128_S16384x12x128_1_0_2 : S12x16384x128.Transposes [1, 0, 2] S16384x12x128
  dot_S1024x128_S128x128_S1024x128_1_0_0_1_n_n_wf : DotDims.WF S1024x128 S128x128 S1024x128 [1] [0] [0] [1] [] []
  dot_S7168x128_S128x128_S7168x128_1_0_0_1_n_n_wf : DotDims.WF S7168x128 S128x128 S7168x128 [1] [0] [0] [1] [] []
  hcc0_scratch5 : 0 + S_.numel ≤ 18
  hcc0_scratch6 : 1 + S_.numel ≤ 18
  hcc0_scratch7 : 2 + S_.numel ≤ 18
  hcc0_scratch8 : 3 + S_.numel ≤ 18
  hcc0_scoped0 : 4 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (8 * r.val))) a + S36x8x128.size a ≤ S36x16384x128.size a
  k0_t1_ok : k0_t1_loop.OK
  k0_off2_inb : ∀ (i : grid0.Coords) (k0_t1 : Fin k0_t1_loop.trips), ∀ (r : Fin 2), ∀ a, (k0_off2 i k0_t1 (BitVec.ofNat 32 r.val)) a + S36x8x128.size a ≤ S36x16384x128.size a
  k0_off3_inb : ∀ (i : grid0.Coords) (k0_t1 : Fin k0_t1_loop.trips), ∀ (k0_h1 : k0_cond1 k0_t1 = 1#1), ∀ a, (k0_off3 i k0_t1) a + S12x8x128.size a ≤ S12x7168x128.size a
  k0_t2_ok : k0_t2_loop.OK
  k0_off4_inb : ∀ k0_t2 : Fin k0_t2_loop.trips, ∀ a, (k0_off4 k0_t2) a + S1x1x16.size a ≤ S36x8x128.size a
  k0_off5_inb : ∀ k0_t2 : Fin k0_t2_loop.trips, ∀ a, (k0_off5 k0_t2) a + S1x1x16.size a ≤ S36x8x128.size a
  k0_off6_inb : ∀ k0_t2 : Fin k0_t2_loop.trips, ∀ a, (k0_off6 k0_t2) a + S1x1x16.size a ≤ S36x8x128.size a
  k0_off7_inb : ∀ k0_t2 : Fin k0_t2_loop.trips, ∀ a, (k0_off7 k0_t2) a + S1x1x16.size a ≤ S36x8x128.size a
  k0_off8_inb : ∀ k0_t2 : Fin k0_t2_loop.trips, ∀ a, (k0_off8 k0_t2) a + S1x1x16.size a ≤ S36x8x128.size a
  k0_off9_inb : ∀ k0_t2 : Fin k0_t2_loop.trips, ∀ a, (k0_off9 k0_t2) a + S1x1x16.size a ≤ S36x8x128.size a
  k0_off10_inb : ∀ k0_t2 : Fin k0_t2_loop.trips, ∀ a, (k0_off10 k0_t2) a + S1x1x16.size a ≤ S36x8x128.size a
  k0_off11_inb : ∀ k0_t2 : Fin k0_t2_loop.trips, ∀ a, (k0_off11 k0_t2) a + S1x1x16.size a ≤ S36x8x128.size a
  k0_off12_inb : ∀ k0_t2 : Fin k0_t2_loop.trips, ∀ a, (k0_off12 k0_t2) a + S1x1x16.size a ≤ S36x8x128.size a
  k0_off13_inb : ∀ k0_t2 : Fin k0_t2_loop.trips, ∀ a, (k0_off13 k0_t2) a + S1x1x16.size a ≤ S36x8x128.size a
  k0_off14_inb : ∀ k0_t2 : Fin k0_t2_loop.trips, ∀ a, (k0_off14 k0_t2) a + S1x1x16.size a ≤ S36x8x128.size a
  k0_off15_inb : ∀ k0_t2 : Fin k0_t2_loop.trips, ∀ a, (k0_off15 k0_t2) a + S1x1x16.size a ≤ S36x8x128.size a
  k0_off16_inb : ∀ k0_t2 : Fin k0_t2_loop.trips, ∀ a, (k0_off16 k0_t2) a + S1x1x16.size a ≤ S36x8x128.size a
  k0_off17_inb : ∀ k0_t2 : Fin k0_t2_loop.trips, ∀ a, (k0_off17 k0_t2) a + S1x1x16.size a ≤ S36x8x128.size a
  k0_off18_inb : ∀ k0_t2 : Fin k0_t2_loop.trips, ∀ a, (k0_off18 k0_t2) a + S1x1x16.size a ≤ S36x8x128.size a
  k0_off19_inb : ∀ k0_t2 : Fin k0_t2_loop.trips, ∀ a, (k0_off19 k0_t2) a + S1x1x16.size a ≤ S36x8x128.size a
  k0_off20_inb : ∀ k0_t2 : Fin k0_t2_loop.trips, ∀ a, (k0_off20 k0_t2) a + S1x1x16.size a ≤ S36x8x128.size a
  k0_off21_inb : ∀ k0_t2 : Fin k0_t2_loop.trips, ∀ a, (k0_off21 k0_t2) a + S1x1x16.size a ≤ S36x8x128.size a
  k0_off22_inb : ∀ k0_t2 : Fin k0_t2_loop.trips, ∀ a, (k0_off22 k0_t2) a + S1x1x16.size a ≤ S36x8x128.size a
  k0_off23_inb : ∀ k0_t2 : Fin k0_t2_loop.trips, ∀ a, (k0_off23 k0_t2) a + S1x1x16.size a ≤ S36x8x128.size a
  k0_off24_inb : ∀ k0_t2 : Fin k0_t2_loop.trips, ∀ a, (k0_off24 k0_t2) a + S1x1x16.size a ≤ S36x8x128.size a
  k0_off25_inb : ∀ k0_t2 : Fin k0_t2_loop.trips, ∀ a, (k0_off25 k0_t2) a + S1x1x16.size a ≤ S36x8x128.size a
  k0_off26_inb : ∀ k0_t2 : Fin k0_t2_loop.trips, ∀ a, (k0_off26 k0_t2) a + S1x1x16.size a ≤ S36x8x128.size a
  k0_off27_inb : ∀ k0_t2 : Fin k0_t2_loop.trips, ∀ a, (k0_off27 k0_t2) a + S1x1x16.size a ≤ S36x8x128.size a
  k0_off28_inb : ∀ k0_t2 : Fin k0_t2_loop.trips, ∀ a, (k0_off28 k0_t2) a + S1x1x16.size a ≤ S36x8x128.size a
  k0_off29_inb : ∀ k0_t2 : Fin k0_t2_loop.trips, ∀ a, (k0_off29 k0_t2) a + S1x1x16.size a ≤ S36x8x128.size a
  k0_off30_inb : ∀ k0_t2 : Fin k0_t2_loop.trips, ∀ a, (k0_off30 k0_t2) a + S1x1x16.size a ≤ S36x8x128.size a
  k0_off31_inb : ∀ k0_t2 : Fin k0_t2_loop.trips, ∀ a, (k0_off31 k0_t2) a + S1x1x16.size a ≤ S36x8x128.size a
  k0_off32_inb : ∀ k0_t2 : Fin k0_t2_loop.trips, ∀ a, (k0_off32 k0_t2) a + S1x1x16.size a ≤ S36x8x128.size a
  k0_off33_inb : ∀ k0_t2 : Fin k0_t2_loop.trips, ∀ a, (k0_off33 k0_t2) a + S1x1x16.size a ≤ S36x8x128.size a
  k0_off34_inb : ∀ k0_t2 : Fin k0_t2_loop.trips, ∀ a, (k0_off34 k0_t2) a + S1x1x16.size a ≤ S36x8x128.size a
  k0_off35_inb : ∀ k0_t2 : Fin k0_t2_loop.trips, ∀ a, (k0_off35 k0_t2) a + S1x1x16.size a ≤ S36x8x128.size a
  k0_off36_inb : ∀ k0_t2 : Fin k0_t2_loop.trips, ∀ a, (k0_off36 k0_t2) a + S1x1x16.size a ≤ S36x8x128.size a
  k0_off37_inb : ∀ k0_t2 : Fin k0_t2_loop.trips, ∀ a, (k0_off37 k0_t2) a + S1x1x16.size a ≤ S36x8x128.size a
  k0_off38_inb : ∀ k0_t2 : Fin k0_t2_loop.trips, ∀ a, (k0_off38 k0_t2) a + S1x1x16.size a ≤ S36x8x128.size a
  k0_off39_inb : ∀ k0_t2 : Fin k0_t2_loop.trips, ∀ a, (k0_off39 k0_t2) a + S1x1x16.size a ≤ S36x8x128.size a
  k0_off40_inb : ∀ k0_t2 : Fin k0_t2_loop.trips, ∀ a, (k0_off40 k0_t2) a + S1x1x16.size a ≤ S12x8x128.size a
  k0_off41_inb : ∀ k0_t2 : Fin k0_t2_loop.trips, ∀ a, (k0_off41 k0_t2) a + S1x1x16.size a ≤ S12x8x128.size a
  k0_off42_inb : ∀ k0_t2 : Fin k0_t2_loop.trips, ∀ a, (k0_off42 k0_t2) a + S1x1x16.size a ≤ S12x8x128.size a
  k0_off43_inb : ∀ k0_t2 : Fin k0_t2_loop.trips, ∀ a, (k0_off43 k0_t2) a + S1x1x16.size a ≤ S12x8x128.size a
  k0_off44_inb : ∀ k0_t2 : Fin k0_t2_loop.trips, ∀ a, (k0_off44 k0_t2) a + S1x1x16.size a ≤ S12x8x128.size a
  k0_off45_inb : ∀ k0_t2 : Fin k0_t2_loop.trips, ∀ a, (k0_off45 k0_t2) a + S1x1x16.size a ≤ S12x8x128.size a
  k0_off46_inb : ∀ k0_t2 : Fin k0_t2_loop.trips, ∀ a, (k0_off46 k0_t2) a + S1x1x16.size a ≤ S12x8x128.size a
  k0_off47_inb : ∀ k0_t2 : Fin k0_t2_loop.trips, ∀ a, (k0_off47 k0_t2) a + S1x1x16.size a ≤ S12x8x128.size a
  k0_off48_inb : ∀ k0_t2 : Fin k0_t2_loop.trips, ∀ a, (k0_off48 k0_t2) a + S1x1x16.size a ≤ S12x8x128.size a
  k0_off49_inb : ∀ k0_t2 : Fin k0_t2_loop.trips, ∀ a, (k0_off49 k0_t2) a + S1x1x16.size a ≤ S12x8x128.size a
  k0_off50_inb : ∀ k0_t2 : Fin k0_t2_loop.trips, ∀ a, (k0_off50 k0_t2) a + S1x1x16.size a ≤ S12x8x128.size a
  k0_off51_inb : ∀ k0_t2 : Fin k0_t2_loop.trips, ∀ a, (k0_off51 k0_t2) a + S1x1x16.size a ≤ S12x8x128.size a
  k0_off52_inb : ∀ k0_t2 : Fin k0_t2_loop.trips, ∀ a, (k0_off52 k0_t2) a + S1x1x16.size a ≤ S36x8x128.size a
  k0_off53_inb : ∀ k0_t2 : Fin k0_t2_loop.trips, ∀ a, (k0_off53 k0_t2) a + S1x1x16.size a ≤ S36x8x128.size a
  k0_off54_inb : ∀ k0_t2 : Fin k0_t2_loop.trips, ∀ a, (k0_off54 k0_t2) a + S1x1x16.size a ≤ S36x8x128.size a
  k0_off55_inb : ∀ k0_t2 : Fin k0_t2_loop.trips, ∀ a, (k0_off55 k0_t2) a + S1x1x16.size a ≤ S36x8x128.size a
  k0_off56_inb : ∀ k0_t2 : Fin k0_t2_loop.trips, ∀ a, (k0_off56 k0_t2) a + S1x1x16.size a ≤ S36x8x128.size a
  k0_off57_inb : ∀ k0_t2 : Fin k0_t2_loop.trips, ∀ a, (k0_off57 k0_t2) a + S1x1x16.size a ≤ S36x8x128.size a
  k0_off58_inb : ∀ k0_t2 : Fin k0_t2_loop.trips, ∀ a, (k0_off58 k0_t2) a + S1x1x16.size a ≤ S36x8x128.size a
  k0_off59_inb : ∀ k0_t2 : Fin k0_t2_loop.trips, ∀ a, (k0_off59 k0_t2) a + S1x1x16.size a ≤ S36x8x128.size a
  k0_off60_inb : ∀ k0_t2 : Fin k0_t2_loop.trips, ∀ a, (k0_off60 k0_t2) a + S1x1x16.size a ≤ S36x8x128.size a
  k0_off61_inb : ∀ k0_t2 : Fin k0_t2_loop.trips, ∀ a, (k0_off61 k0_t2) a + S1x1x16.size a ≤ S36x8x128.size a
  k0_off62_inb : ∀ k0_t2 : Fin k0_t2_loop.trips, ∀ a, (k0_off62 k0_t2) a + S1x1x16.size a ≤ S36x8x128.size a
  k0_off63_inb : ∀ k0_t2 : Fin k0_t2_loop.trips, ∀ a, (k0_off63 k0_t2) a + S1x1x16.size a ≤ S36x8x128.size a
  k0_off64_inb : ∀ k0_t2 : Fin k0_t2_loop.trips, ∀ a, (k0_off64 k0_t2) a + S1x1x16.size a ≤ S36x8x128.size a
  k0_off65_inb : ∀ k0_t2 : Fin k0_t2_loop.trips, ∀ a, (k0_off65 k0_t2) a + S1x1x16.size a ≤ S36x8x128.size a
  k0_off66_inb : ∀ k0_t2 : Fin k0_t2_loop.trips, ∀ a, (k0_off66 k0_t2) a + S1x1x16.size a ≤ S36x8x128.size a
  k0_off67_inb : ∀ k0_t2 : Fin k0_t2_loop.trips, ∀ a, (k0_off67 k0_t2) a + S1x1x16.size a ≤ S36x8x128.size a
  k0_off68_inb : ∀ k0_t2 : Fin k0_t2_loop.trips, ∀ a, (k0_off68 k0_t2) a + S1x1x16.size a ≤ S36x8x128.size a
  k0_off69_inb : ∀ k0_t2 : Fin k0_t2_loop.trips, ∀ a, (k0_off69 k0_t2) a + S1x1x16.size a ≤ S36x8x128.size a
  k0_off70_inb : ∀ k0_t2 : Fin k0_t2_loop.trips, ∀ a, (k0_off70 k0_t2) a + S1x1x16.size a ≤ S36x8x128.size a
  k0_off71_inb : ∀ k0_t2 : Fin k0_t2_loop.trips, ∀ a, (k0_off71 k0_t2) a + S1x1x16.size a ≤ S36x8x128.size a
  k0_off72_inb : ∀ k0_t2 : Fin k0_t2_loop.trips, ∀ a, (k0_off72 k0_t2) a + S1x1x16.size a ≤ S36x8x128.size a
  k0_off73_inb : ∀ k0_t2 : Fin k0_t2_loop.trips, ∀ a, (k0_off73 k0_t2) a + S1x1x16.size a ≤ S36x8x128.size a
  k0_off74_inb : ∀ k0_t2 : Fin k0_t2_loop.trips, ∀ a, (k0_off74 k0_t2) a + S1x1x16.size a ≤ S36x8x128.size a
  k0_off75_inb : ∀ k0_t2 : Fin k0_t2_loop.trips, ∀ a, (k0_off75 k0_t2) a + S1x1x16.size a ≤ S36x8x128.size a
  k0_off76_inb : ∀ k0_t2 : Fin k0_t2_loop.trips, ∀ a, (k0_off76 k0_t2) a + S1x1x16.size a ≤ S36x8x128.size a
  k0_off77_inb : ∀ k0_t2 : Fin k0_t2_loop.trips, ∀ a, (k0_off77 k0_t2) a + S1x1x16.size a ≤ S36x8x128.size a
  k0_off78_inb : ∀ k0_t2 : Fin k0_t2_loop.trips, ∀ a, (k0_off78 k0_t2) a + S1x1x16.size a ≤ S36x8x128.size a
  k0_off79_inb : ∀ k0_t2 : Fin k0_t2_loop.trips, ∀ a, (k0_off79 k0_t2) a + S1x1x16.size a ≤ S36x8x128.size a
  k0_off80_inb : ∀ k0_t2 : Fin k0_t2_loop.trips, ∀ a, (k0_off80 k0_t2) a + S1x1x16.size a ≤ S36x8x128.size a
  k0_off81_inb : ∀ k0_t2 : Fin k0_t2_loop.trips, ∀ a, (k0_off81 k0_t2) a + S1x1x16.size a ≤ S36x8x128.size a
  k0_off82_inb : ∀ k0_t2 : Fin k0_t2_loop.trips, ∀ a, (k0_off82 k0_t2) a + S1x1x16.size a ≤ S36x8x128.size a
  k0_off83_inb : ∀ k0_t2 : Fin k0_t2_loop.trips, ∀ a, (k0_off83 k0_t2) a + S1x1x16.size a ≤ S36x8x128.size a
  k0_off84_inb : ∀ k0_t2 : Fin k0_t2_loop.trips, ∀ a, (k0_off84 k0_t2) a + S1x1x16.size a ≤ S36x8x128.size a
  k0_off85_inb : ∀ k0_t2 : Fin k0_t2_loop.trips, ∀ a, (k0_off85 k0_t2) a + S1x1x16.size a ≤ S36x8x128.size a
  k0_off86_inb : ∀ k0_t2 : Fin k0_t2_loop.trips, ∀ a, (k0_off86 k0_t2) a + S1x1x16.size a ≤ S36x8x128.size a
  k0_off87_inb : ∀ k0_t2 : Fin k0_t2_loop.trips, ∀ a, (k0_off87 k0_t2) a + S1x1x16.size a ≤ S36x8x128.size a
  k0_off88_inb : ∀ k0_t2 : Fin k0_t2_loop.trips, ∀ a, (k0_off88 k0_t2) a + S1x1x16.size a ≤ S12x8x128.size a
  k0_off89_inb : ∀ k0_t2 : Fin k0_t2_loop.trips, ∀ a, (k0_off89 k0_t2) a + S1x1x16.size a ≤ S12x8x128.size a
  k0_off90_inb : ∀ k0_t2 : Fin k0_t2_loop.trips, ∀ a, (k0_off90 k0_t2) a + S1x1x16.size a ≤ S12x8x128.size a
  k0_off91_inb : ∀ k0_t2 : Fin k0_t2_loop.trips, ∀ a, (k0_off91 k0_t2) a + S1x1x16.size a ≤ S12x8x128.size a
  k0_off92_inb : ∀ k0_t2 : Fin k0_t2_loop.trips, ∀ a, (k0_off92 k0_t2) a + S1x1x16.size a ≤ S12x8x128.size a
  k0_off93_inb : ∀ k0_t2 : Fin k0_t2_loop.trips, ∀ a, (k0_off93 k0_t2) a + S1x1x16.size a ≤ S12x8x128.size a
  k0_off94_inb : ∀ k0_t2 : Fin k0_t2_loop.trips, ∀ a, (k0_off94 k0_t2) a + S1x1x16.size a ≤ S12x8x128.size a
  k0_off95_inb : ∀ k0_t2 : Fin k0_t2_loop.trips, ∀ a, (k0_off95 k0_t2) a + S1x1x16.size a ≤ S12x8x128.size a
  k0_off96_inb : ∀ k0_t2 : Fin k0_t2_loop.trips, ∀ a, (k0_off96 k0_t2) a + S1x1x16.size a ≤ S12x8x128.size a
  k0_off97_inb : ∀ k0_t2 : Fin k0_t2_loop.trips, ∀ a, (k0_off97 k0_t2) a + S1x1x16.size a ≤ S12x8x128.size a
  k0_off98_inb : ∀ k0_t2 : Fin k0_t2_loop.trips, ∀ a, (k0_off98 k0_t2) a + S1x1x16.size a ≤ S12x8x128.size a
  k0_off99_inb : ∀ k0_t2 : Fin k0_t2_loop.trips, ∀ a, (k0_off99 k0_t2) a + S1x1x16.size a ≤ S12x8x128.size a
  k0_off100_inb : ∀ k0_t2 : Fin k0_t2_loop.trips, ∀ a, (k0_off100 k0_t2) a + S1x1x16.size a ≤ S36x8x128.size a
  k0_off101_inb : ∀ k0_t2 : Fin k0_t2_loop.trips, ∀ a, (k0_off101 k0_t2) a + S1x1x16.size a ≤ S36x8x128.size a
  k0_off102_inb : ∀ k0_t2 : Fin k0_t2_loop.trips, ∀ a, (k0_off102 k0_t2) a + S1x1x16.size a ≤ S36x8x128.size a
  k0_off103_inb : ∀ k0_t2 : Fin k0_t2_loop.trips, ∀ a, (k0_off103 k0_t2) a + S1x1x16.size a ≤ S36x8x128.size a
  k0_off104_inb : ∀ k0_t2 : Fin k0_t2_loop.trips, ∀ a, (k0_off104 k0_t2) a + S1x1x16.size a ≤ S36x8x128.size a
  k0_off105_inb : ∀ k0_t2 : Fin k0_t2_loop.trips, ∀ a, (k0_off105 k0_t2) a + S1x1x16.size a ≤ S36x8x128.size a
  k0_off106_inb : ∀ k0_t2 : Fin k0_t2_loop.trips, ∀ a, (k0_off106 k0_t2) a + S1x1x16.size a ≤ S36x8x128.size a
  k0_off107_inb : ∀ k0_t2 : Fin k0_t2_loop.trips, ∀ a, (k0_off107 k0_t2) a + S1x1x16.size a ≤ S36x8x128.size a
  k0_off108_inb : ∀ k0_t2 : Fin k0_t2_loop.trips, ∀ a, (k0_off108 k0_t2) a + S1x1x16.size a ≤ S36x8x128.size a
  k0_off109_inb : ∀ k0_t2 : Fin k0_t2_loop.trips, ∀ a, (k0_off109 k0_t2) a + S1x1x16.size a ≤ S36x8x128.size a
  k0_off110_inb : ∀ k0_t2 : Fin k0_t2_loop.trips, ∀ a, (k0_off110 k0_t2) a + S1x1x16.size a ≤ S36x8x128.size a
  k0_off111_inb : ∀ k0_t2 : Fin k0_t2_loop.trips, ∀ a, (k0_off111 k0_t2) a + S1x1x16.size a ≤ S36x8x128.size a
  k0_off112_inb : ∀ k0_t2 : Fin k0_t2_loop.trips, ∀ a, (k0_off112 k0_t2) a + S1x1x16.size a ≤ S36x8x128.size a
  k0_off113_inb : ∀ k0_t2 : Fin k0_t2_loop.trips, ∀ a, (k0_off113 k0_t2) a + S1x1x16.size a ≤ S36x8x128.size a
  k0_off114_inb : ∀ k0_t2 : Fin k0_t2_loop.trips, ∀ a, (k0_off114 k0_t2) a + S1x1x16.size a ≤ S36x8x128.size a
  k0_off115_inb : ∀ k0_t2 : Fin k0_t2_loop.trips, ∀ a, (k0_off115 k0_t2) a + S1x1x16.size a ≤ S36x8x128.size a
  k0_off116_inb : ∀ k0_t2 : Fin k0_t2_loop.trips, ∀ a, (k0_off116 k0_t2) a + S1x1x16.size a ≤ S36x8x128.size a
  k0_off117_inb : ∀ k0_t2 : Fin k0_t2_loop.trips, ∀ a, (k0_off117 k0_t2) a + S1x1x16.size a ≤ S36x8x128.size a
  k0_off118_inb : ∀ k0_t2 : Fin k0_t2_loop.trips, ∀ a, (k0_off118 k0_t2) a + S1x1x16.size a ≤ S36x8x128.size a
  k0_off119_inb : ∀ k0_t2 : Fin k0_t2_loop.trips, ∀ a, (k0_off119 k0_t2) a + S1x1x16.size a ≤ S36x8x128.size a
  k0_off120_inb : ∀ k0_t2 : Fin k0_t2_loop.trips, ∀ a, (k0_off120 k0_t2) a + S1x1x16.size a ≤ S36x8x128.size a
  k0_off121_inb : ∀ k0_t2 : Fin k0_t2_loop.trips, ∀ a, (k0_off121 k0_t2) a + S1x1x16.size a ≤ S36x8x128.size a
  k0_off122_inb : ∀ k0_t2 : Fin k0_t2_loop.trips, ∀ a, (k0_off122 k0_t2) a + S1x1x16.size a ≤ S36x8x128.size a
  k0_off123_inb : ∀ k0_t2 : Fin k0_t2_loop.trips, ∀ a, (k0_off123 k0_t2) a + S1x1x16.size a ≤ S36x8x128.size a
  k0_off124_inb : ∀ k0_t2 : Fin k0_t2_loop.trips, ∀ a, (k0_off124 k0_t2) a + S1x1x16.size a ≤ S36x8x128.size a
  k0_off125_inb : ∀ k0_t2 : Fin k0_t2_loop.trips, ∀ a, (k0_off125 k0_t2) a + S1x1x16.size a ≤ S36x8x128.size a
  k0_off126_inb : ∀ k0_t2 : Fin k0_t2_loop.trips, ∀ a, (k0_off126 k0_t2) a + S1x1x16.size a ≤ S36x8x128.size a
  k0_off127_inb : ∀ k0_t2 : Fin k0_t2_loop.trips, ∀ a, (k0_off127 k0_t2) a + S1x1x16.size a ≤ S36x8x128.size a
  k0_off128_inb : ∀ k0_t2 : Fin k0_t2_loop.trips, ∀ a, (k0_off128 k0_t2) a + S1x1x16.size a ≤ S36x8x128.size a
  k0_off129_inb : ∀ k0_t2 : Fin k0_t2_loop.trips, ∀ a, (k0_off129 k0_t2) a + S1x1x16.size a ≤ S36x8x128.size a
  k0_off130_inb : ∀ k0_t2 : Fin k0_t2_loop.trips, ∀ a, (k0_off130 k0_t2) a + S1x1x16.size a ≤ S36x8x128.size a
  k0_off131_inb : ∀ k0_t2 : Fin k0_t2_loop.trips, ∀ a, (k0_off131 k0_t2) a + S1x1x16.size a ≤ S36x8x128.size a
  k0_off132_inb : ∀ k0_t2 : Fin k0_t2_loop.trips, ∀ a, (k0_off132 k0_t2) a + S1x1x16.size a ≤ S36x8x128.size a
  k0_off133_inb : ∀ k0_t2 : Fin k0_t2_loop.trips, ∀ a, (k0_off133 k0_t2) a + S1x1x16.size a ≤ S36x8x128.size a
  k0_off134_inb : ∀ k0_t2 : Fin k0_t2_loop.trips, ∀ a, (k0_off134 k0_t2) a + S1x1x16.size a ≤ S36x8x128.size a
  k0_off135_inb : ∀ k0_t2 : Fin k0_t2_loop.trips, ∀ a, (k0_off135 k0_t2) a + S1x1x16.size a ≤ S36x8x128.size a
  k0_off136_inb : ∀ k0_t2 : Fin k0_t2_loop.trips, ∀ a, (k0_off136 k0_t2) a + S1x1x16.size a ≤ S12x8x128.size a
  k0_off137_inb : ∀ k0_t2 : Fin k0_t2_loop.trips, ∀ a, (k0_off137 k0_t2) a + S1x1x16.size a ≤ S12x8x128.size a
  k0_off138_inb : ∀ k0_t2 : Fin k0_t2_loop.trips, ∀ a, (k0_off138 k0_t2) a + S1x1x16.size a ≤ S12x8x128.size a
  k0_off139_inb : ∀ k0_t2 : Fin k0_t2_loop.trips, ∀ a, (k0_off139 k0_t2) a + S1x1x16.size a ≤ S12x8x128.size a
  k0_off140_inb : ∀ k0_t2 : Fin k0_t2_loop.trips, ∀ a, (k0_off140 k0_t2) a + S1x1x16.size a ≤ S12x8x128.size a
  k0_off141_inb : ∀ k0_t2 : Fin k0_t2_loop.trips, ∀ a, (k0_off141 k0_t2) a + S1x1x16.size a ≤ S12x8x128.size a
  k0_off142_inb : ∀ k0_t2 : Fin k0_t2_loop.trips, ∀ a, (k0_off142 k0_t2) a + S1x1x16.size a ≤ S12x8x128.size a
  k0_off143_inb : ∀ k0_t2 : Fin k0_t2_loop.trips, ∀ a, (k0_off143 k0_t2) a + S1x1x16.size a ≤ S12x8x128.size a
  k0_off144_inb : ∀ k0_t2 : Fin k0_t2_loop.trips, ∀ a, (k0_off144 k0_t2) a + S1x1x16.size a ≤ S12x8x128.size a
  k0_off145_inb : ∀ k0_t2 : Fin k0_t2_loop.trips, ∀ a, (k0_off145 k0_t2) a + S1x1x16.size a ≤ S12x8x128.size a
  k0_off146_inb : ∀ k0_t2 : Fin k0_t2_loop.trips, ∀ a, (k0_off146 k0_t2) a + S1x1x16.size a ≤ S12x8x128.size a
  k0_off147_inb : ∀ k0_t2 : Fin k0_t2_loop.trips, ∀ a, (k0_off147 k0_t2) a + S1x1x16.size a ≤ S12x8x128.size a
  k0_off148_inb : ∀ k0_t2 : Fin k0_t2_loop.trips, ∀ a, (k0_off148 k0_t2) a + S1x1x16.size a ≤ S36x8x128.size a
  k0_off149_inb : ∀ k0_t2 : Fin k0_t2_loop.trips, ∀ a, (k0_off149 k0_t2) a + S1x1x16.size a ≤ S36x8x128.size a
  k0_off150_inb : ∀ k0_t2 : Fin k0_t2_loop.trips, ∀ a, (k0_off150 k0_t2) a + S1x1x16.size a ≤ S36x8x128.size a
  k0_off151_inb : ∀ k0_t2 : Fin k0_t2_loop.trips, ∀ a, (k0_off151 k0_t2) a + S1x1x16.size a ≤ S36x8x128.size a
  k0_off152_inb : ∀ k0_t2 : Fin k0_t2_loop.trips, ∀ a, (k0_off152 k0_t2) a + S1x1x16.size a ≤ S36x8x128.size a
  k0_off153_inb : ∀ k0_t2 : Fin k0_t2_loop.trips, ∀ a, (k0_off153 k0_t2) a + S1x1x16.size a ≤ S36x8x128.size a
  k0_off154_inb : ∀ k0_t2 : Fin k0_t2_loop.trips, ∀ a, (k0_off154 k0_t2) a + S1x1x16.size a ≤ S36x8x128.size a
  k0_off155_inb : ∀ k0_t2 : Fin k0_t2_loop.trips, ∀ a, (k0_off155 k0_t2) a + S1x1x16.size a ≤ S36x8x128.size a
  k0_off156_inb : ∀ k0_t2 : Fin k0_t2_loop.trips, ∀ a, (k0_off156 k0_t2) a + S1x1x16.size a ≤ S36x8x128.size a
  k0_off157_inb : ∀ k0_t2 : Fin k0_t2_loop.trips, ∀ a, (k0_off157 k0_t2) a + S1x1x16.size a ≤ S36x8x128.size a
  k0_off158_inb : ∀ k0_t2 : Fin k0_t2_loop.trips, ∀ a, (k0_off158 k0_t2) a + S1x1x16.size a ≤ S36x8x128.size a
  k0_off159_inb : ∀ k0_t2 : Fin k0_t2_loop.trips, ∀ a, (k0_off159 k0_t2) a + S1x1x16.size a ≤ S36x8x128.size a
  k0_off160_inb : ∀ k0_t2 : Fin k0_t2_loop.trips, ∀ a, (k0_off160 k0_t2) a + S1x1x16.size a ≤ S36x8x128.size a
  k0_off161_inb : ∀ k0_t2 : Fin k0_t2_loop.trips, ∀ a, (k0_off161 k0_t2) a + S1x1x16.size a ≤ S36x8x128.size a
  k0_off162_inb : ∀ k0_t2 : Fin k0_t2_loop.trips, ∀ a, (k0_off162 k0_t2) a + S1x1x16.size a ≤ S36x8x128.size a
  k0_off163_inb : ∀ k0_t2 : Fin k0_t2_loop.trips, ∀ a, (k0_off163 k0_t2) a + S1x1x16.size a ≤ S36x8x128.size a
  k0_off164_inb : ∀ k0_t2 : Fin k0_t2_loop.trips, ∀ a, (k0_off164 k0_t2) a + S1x1x16.size a ≤ S36x8x128.size a
  k0_off165_inb : ∀ k0_t2 : Fin k0_t2_loop.trips, ∀ a, (k0_off165 k0_t2) a + S1x1x16.size a ≤ S36x8x128.size a
  k0_off166_inb : ∀ k0_t2 : Fin k0_t2_loop.trips, ∀ a, (k0_off166 k0_t2) a + S1x1x16.size a ≤ S36x8x128.size a
  k0_off167_inb : ∀ k0_t2 : Fin k0_t2_loop.trips, ∀ a, (k0_off167 k0_t2) a + S1x1x16.size a ≤ S36x8x128.size a
  k0_off168_inb : ∀ k0_t2 : Fin k0_t2_loop.trips, ∀ a, (k0_off168 k0_t2) a + S1x1x16.size a ≤ S36x8x128.size a
  k0_off169_inb : ∀ k0_t2 : Fin k0_t2_loop.trips, ∀ a, (k0_off169 k0_t2) a + S1x1x16.size a ≤ S36x8x128.size a
  k0_off170_inb : ∀ k0_t2 : Fin k0_t2_loop.trips, ∀ a, (k0_off170 k0_t2) a + S1x1x16.size a ≤ S36x8x128.size a
  k0_off171_inb : ∀ k0_t2 : Fin k0_t2_loop.trips, ∀ a, (k0_off171 k0_t2) a + S1x1x16.size a ≤ S36x8x128.size a
  k0_off172_inb : ∀ k0_t2 : Fin k0_t2_loop.trips, ∀ a, (k0_off172 k0_t2) a + S1x1x16.size a ≤ S36x8x128.size a
  k0_off173_inb : ∀ k0_t2 : Fin k0_t2_loop.trips, ∀ a, (k0_off173 k0_t2) a + S1x1x16.size a ≤ S36x8x128.size a
  k0_off174_inb : ∀ k0_t2 : Fin k0_t2_loop.trips, ∀ a, (k0_off174 k0_t2) a + S1x1x16.size a ≤ S36x8x128.size a
  k0_off175_inb : ∀ k0_t2 : Fin k0_t2_loop.trips, ∀ a, (k0_off175 k0_t2) a + S1x1x16.size a ≤ S36x8x128.size a
  k0_off176_inb : ∀ k0_t2 : Fin k0_t2_loop.trips, ∀ a, (k0_off176 k0_t2) a + S1x1x16.size a ≤ S36x8x128.size a
  k0_off177_inb : ∀ k0_t2 : Fin k0_t2_loop.trips, ∀ a, (k0_off177 k0_t2) a + S1x1x16.size a ≤ S36x8x128.size a
  k0_off178_inb : ∀ k0_t2 : Fin k0_t2_loop.trips, ∀ a, (k0_off178 k0_t2) a + S1x1x16.size a ≤ S36x8x128.size a
  k0_off179_inb : ∀ k0_t2 : Fin k0_t2_loop.trips, ∀ a, (k0_off179 k0_t2) a + S1x1x16.size a ≤ S36x8x128.size a
  k0_off180_inb : ∀ k0_t2 : Fin k0_t2_loop.trips, ∀ a, (k0_off180 k0_t2) a + S1x1x16.size a ≤ S36x8x128.size a
  k0_off181_inb : ∀ k0_t2 : Fin k0_t2_loop.trips, ∀ a, (k0_off181 k0_t2) a + S1x1x16.size a ≤ S36x8x128.size a
  k0_off182_inb : ∀ k0_t2 : Fin k0_t2_loop.trips, ∀ a, (k0_off182 k0_t2) a + S1x1x16.size a ≤ S36x8x128.size a
  k0_off183_inb : ∀ k0_t2 : Fin k0_t2_loop.trips, ∀ a, (k0_off183 k0_t2) a + S1x1x16.size a ≤ S36x8x128.size a
  k0_off184_inb : ∀ k0_t2 : Fin k0_t2_loop.trips, ∀ a, (k0_off184 k0_t2) a + S1x1x16.size a ≤ S12x8x128.size a
  k0_off185_inb : ∀ k0_t2 : Fin k0_t2_loop.trips, ∀ a, (k0_off185 k0_t2) a + S1x1x16.size a ≤ S12x8x128.size a
  k0_off186_inb : ∀ k0_t2 : Fin k0_t2_loop.trips, ∀ a, (k0_off186 k0_t2) a + S1x1x16.size a ≤ S12x8x128.size a
  k0_off187_inb : ∀ k0_t2 : Fin k0_t2_loop.trips, ∀ a, (k0_off187 k0_t2) a + S1x1x16.size a ≤ S12x8x128.size a
  k0_off188_inb : ∀ k0_t2 : Fin k0_t2_loop.trips, ∀ a, (k0_off188 k0_t2) a + S1x1x16.size a ≤ S12x8x128.size a
  k0_off189_inb : ∀ k0_t2 : Fin k0_t2_loop.trips, ∀ a, (k0_off189 k0_t2) a + S1x1x16.size a ≤ S12x8x128.size a
  k0_off190_inb : ∀ k0_t2 : Fin k0_t2_loop.trips, ∀ a, (k0_off190 k0_t2) a + S1x1x16.size a ≤ S12x8x128.size a
  k0_off191_inb : ∀ k0_t2 : Fin k0_t2_loop.trips, ∀ a, (k0_off191 k0_t2) a + S1x1x16.size a ≤ S12x8x128.size a
  k0_off192_inb : ∀ k0_t2 : Fin k0_t2_loop.trips, ∀ a, (k0_off192 k0_t2) a + S1x1x16.size a ≤ S12x8x128.size a
  k0_off193_inb : ∀ k0_t2 : Fin k0_t2_loop.trips, ∀ a, (k0_off193 k0_t2) a + S1x1x16.size a ≤ S12x8x128.size a
  k0_off194_inb : ∀ k0_t2 : Fin k0_t2_loop.trips, ∀ a, (k0_off194 k0_t2) a + S1x1x16.size a ≤ S12x8x128.size a
  k0_off195_inb : ∀ k0_t2 : Fin k0_t2_loop.trips, ∀ a, (k0_off195 k0_t2) a + S1x1x16.size a ≤ S12x8x128.size a
  k0_off196_inb : ∀ k0_t2 : Fin k0_t2_loop.trips, ∀ a, (k0_off196 k0_t2) a + S1x1x16.size a ≤ S36x8x128.size a
  k0_off197_inb : ∀ k0_t2 : Fin k0_t2_loop.trips, ∀ a, (k0_off197 k0_t2) a + S1x1x16.size a ≤ S36x8x128.size a
  k0_off198_inb : ∀ k0_t2 : Fin k0_t2_loop.trips, ∀ a, (k0_off198 k0_t2) a + S1x1x16.size a ≤ S36x8x128.size a
  k0_off199_inb : ∀ k0_t2 : Fin k0_t2_loop.trips, ∀ a, (k0_off199 k0_t2) a + S1x1x16.size a ≤ S36x8x128.size a
  k0_off200_inb : ∀ k0_t2 : Fin k0_t2_loop.trips, ∀ a, (k0_off200 k0_t2) a + S1x1x16.size a ≤ S36x8x128.size a
  k0_off201_inb : ∀ k0_t2 : Fin k0_t2_loop.trips, ∀ a, (k0_off201 k0_t2) a + S1x1x16.size a ≤ S36x8x128.size a
  k0_off202_inb : ∀ k0_t2 : Fin k0_t2_loop.trips, ∀ a, (k0_off202 k0_t2) a + S1x1x16.size a ≤ S36x8x128.size a
  k0_off203_inb : ∀ k0_t2 : Fin k0_t2_loop.trips, ∀ a, (k0_off203 k0_t2) a + S1x1x16.size a ≤ S36x8x128.size a
  k0_off204_inb : ∀ k0_t2 : Fin k0_t2_loop.trips, ∀ a, (k0_off204 k0_t2) a + S1x1x16.size a ≤ S36x8x128.size a
  k0_off205_inb : ∀ k0_t2 : Fin k0_t2_loop.trips, ∀ a, (k0_off205 k0_t2) a + S1x1x16.size a ≤ S36x8x128.size a
  k0_off206_inb : ∀ k0_t2 : Fin k0_t2_loop.trips, ∀ a, (k0_off206 k0_t2) a + S1x1x16.size a ≤ S36x8x128.size a
  k0_off207_inb : ∀ k0_t2 : Fin k0_t2_loop.trips, ∀ a, (k0_off207 k0_t2) a + S1x1x16.size a ≤ S36x8x128.size a
  k0_off208_inb : ∀ k0_t2 : Fin k0_t2_loop.trips, ∀ a, (k0_off208 k0_t2) a + S1x1x16.size a ≤ S36x8x128.size a
  k0_off209_inb : ∀ k0_t2 : Fin k0_t2_loop.trips, ∀ a, (k0_off209 k0_t2) a + S1x1x16.size a ≤ S36x8x128.size a
  k0_off210_inb : ∀ k0_t2 : Fin k0_t2_loop.trips, ∀ a, (k0_off210 k0_t2) a + S1x1x16.size a ≤ S36x8x128.size a
  k0_off211_inb : ∀ k0_t2 : Fin k0_t2_loop.trips, ∀ a, (k0_off211 k0_t2) a + S1x1x16.size a ≤ S36x8x128.size a
  k0_off212_inb : ∀ k0_t2 : Fin k0_t2_loop.trips, ∀ a, (k0_off212 k0_t2) a + S1x1x16.size a ≤ S36x8x128.size a
  k0_off213_inb : ∀ k0_t2 : Fin k0_t2_loop.trips, ∀ a, (k0_off213 k0_t2) a + S1x1x16.size a ≤ S36x8x128.size a
  k0_off214_inb : ∀ k0_t2 : Fin k0_t2_loop.trips, ∀ a, (k0_off214 k0_t2) a + S1x1x16.size a ≤ S36x8x128.size a
  k0_off215_inb : ∀ k0_t2 : Fin k0_t2_loop.trips, ∀ a, (k0_off215 k0_t2) a + S1x1x16.size a ≤ S36x8x128.size a
  k0_off216_inb : ∀ k0_t2 : Fin k0_t2_loop.trips, ∀ a, (k0_off216 k0_t2) a + S1x1x16.size a ≤ S36x8x128.size a
  k0_off217_inb : ∀ k0_t2 : Fin k0_t2_loop.trips, ∀ a, (k0_off217 k0_t2) a + S1x1x16.size a ≤ S36x8x128.size a
  k0_off218_inb : ∀ k0_t2 : Fin k0_t2_loop.trips, ∀ a, (k0_off218 k0_t2) a + S1x1x16.size a ≤ S36x8x128.size a
  k0_off219_inb : ∀ k0_t2 : Fin k0_t2_loop.trips, ∀ a, (k0_off219 k0_t2) a + S1x1x16.size a ≤ S36x8x128.size a
  k0_off220_inb : ∀ k0_t2 : Fin k0_t2_loop.trips, ∀ a, (k0_off220 k0_t2) a + S1x1x16.size a ≤ S36x8x128.size a
  k0_off221_inb : ∀ k0_t2 : Fin k0_t2_loop.trips, ∀ a, (k0_off221 k0_t2) a + S1x1x16.size a ≤ S36x8x128.size a
  k0_off222_inb : ∀ k0_t2 : Fin k0_t2_loop.trips, ∀ a, (k0_off222 k0_t2) a + S1x1x16.size a ≤ S36x8x128.size a
  k0_off223_inb : ∀ k0_t2 : Fin k0_t2_loop.trips, ∀ a, (k0_off223 k0_t2) a + S1x1x16.size a ≤ S36x8x128.size a
  k0_off224_inb : ∀ k0_t2 : Fin k0_t2_loop.trips, ∀ a, (k0_off224 k0_t2) a + S1x1x16.size a ≤ S36x8x128.size a
  k0_off225_inb : ∀ k0_t2 : Fin k0_t2_loop.trips, ∀ a, (k0_off225 k0_t2) a + S1x1x16.size a ≤ S36x8x128.size a
  k0_off226_inb : ∀ k0_t2 : Fin k0_t2_loop.trips, ∀ a, (k0_off226 k0_t2) a + S1x1x16.size a ≤ S36x8x128.size a
  k0_off227_inb : ∀ k0_t2 : Fin k0_t2_loop.trips, ∀ a, (k0_off227 k0_t2) a + S1x1x16.size a ≤ S36x8x128.size a
  k0_off228_inb : ∀ k0_t2 : Fin k0_t2_loop.trips, ∀ a, (k0_off228 k0_t2) a + S1x1x16.size a ≤ S36x8x128.size a
  k0_off229_inb : ∀ k0_t2 : Fin k0_t2_loop.trips, ∀ a, (k0_off229 k0_t2) a + S1x1x16.size a ≤ S36x8x128.size a
  k0_off230_inb : ∀ k0_t2 : Fin k0_t2_loop.trips, ∀ a, (k0_off230 k0_t2) a + S1x1x16.size a ≤ S36x8x128.size a
  k0_off231_inb : ∀ k0_t2 : Fin k0_t2_loop.trips, ∀ a, (k0_off231 k0_t2) a + S1x1x16.size a ≤ S36x8x128.size a
  k0_off232_inb : ∀ k0_t2 : Fin k0_t2_loop.trips, ∀ a, (k0_off232 k0_t2) a + S1x1x16.size a ≤ S12x8x128.size a
  k0_off233_inb : ∀ k0_t2 : Fin k0_t2_loop.trips, ∀ a, (k0_off233 k0_t2) a + S1x1x16.size a ≤ S12x8x128.size a
  k0_off234_inb : ∀ k0_t2 : Fin k0_t2_loop.trips, ∀ a, (k0_off234 k0_t2) a + S1x1x16.size a ≤ S12x8x128.size a
  k0_off235_inb : ∀ k0_t2 : Fin k0_t2_loop.trips, ∀ a, (k0_off235 k0_t2) a + S1x1x16.size a ≤ S12x8x128.size a
  k0_off236_inb : ∀ k0_t2 : Fin k0_t2_loop.trips, ∀ a, (k0_off236 k0_t2) a + S1x1x16.size a ≤ S12x8x128.size a
  k0_off237_inb : ∀ k0_t2 : Fin k0_t2_loop.trips, ∀ a, (k0_off237 k0_t2) a + S1x1x16.size a ≤ S12x8x128.size a
  k0_off238_inb : ∀ k0_t2 : Fin k0_t2_loop.trips, ∀ a, (k0_off238 k0_t2) a + S1x1x16.size a ≤ S12x8x128.size a
  k0_off239_inb : ∀ k0_t2 : Fin k0_t2_loop.trips, ∀ a, (k0_off239 k0_t2) a + S1x1x16.size a ≤ S12x8x128.size a
  k0_off240_inb : ∀ k0_t2 : Fin k0_t2_loop.trips, ∀ a, (k0_off240 k0_t2) a + S1x1x16.size a ≤ S12x8x128.size a
  k0_off241_inb : ∀ k0_t2 : Fin k0_t2_loop.trips, ∀ a, (k0_off241 k0_t2) a + S1x1x16.size a ≤ S12x8x128.size a
  k0_off242_inb : ∀ k0_t2 : Fin k0_t2_loop.trips, ∀ a, (k0_off242 k0_t2) a + S1x1x16.size a ≤ S12x8x128.size a
  k0_off243_inb : ∀ k0_t2 : Fin k0_t2_loop.trips, ∀ a, (k0_off243 k0_t2) a + S1x1x16.size a ≤ S12x8x128.size a
  k0_off244_inb : ∀ k0_t2 : Fin k0_t2_loop.trips, ∀ a, (k0_off244 k0_t2) a + S1x1x16.size a ≤ S36x8x128.size a
  k0_off245_inb : ∀ k0_t2 : Fin k0_t2_loop.trips, ∀ a, (k0_off245 k0_t2) a + S1x1x16.size a ≤ S36x8x128.size a
  k0_off246_inb : ∀ k0_t2 : Fin k0_t2_loop.trips, ∀ a, (k0_off246 k0_t2) a + S1x1x16.size a ≤ S36x8x128.size a
  k0_off247_inb : ∀ k0_t2 : Fin k0_t2_loop.trips, ∀ a, (k0_off247 k0_t2) a + S1x1x16.size a ≤ S36x8x128.size a
  k0_off248_inb : ∀ k0_t2 : Fin k0_t2_loop.trips, ∀ a, (k0_off248 k0_t2) a + S1x1x16.size a ≤ S36x8x128.size a
  k0_off249_inb : ∀ k0_t2 : Fin k0_t2_loop.trips, ∀ a, (k0_off249 k0_t2) a + S1x1x16.size a ≤ S36x8x128.size a
  k0_off250_inb : ∀ k0_t2 : Fin k0_t2_loop.trips, ∀ a, (k0_off250 k0_t2) a + S1x1x16.size a ≤ S36x8x128.size a
  k0_off251_inb : ∀ k0_t2 : Fin k0_t2_loop.trips, ∀ a, (k0_off251 k0_t2) a + S1x1x16.size a ≤ S36x8x128.size a
  k0_off252_inb : ∀ k0_t2 : Fin k0_t2_loop.trips, ∀ a, (k0_off252 k0_t2) a + S1x1x16.size a ≤ S36x8x128.size a
  k0_off253_inb : ∀ k0_t2 : Fin k0_t2_loop.trips, ∀ a, (k0_off253 k0_t2) a + S1x1x16.size a ≤ S36x8x128.size a
  k0_off254_inb : ∀ k0_t2 : Fin k0_t2_loop.trips, ∀ a, (k0_off254 k0_t2) a + S1x1x16.size a ≤ S36x8x128.size a
  k0_off255_inb : ∀ k0_t2 : Fin k0_t2_loop.trips, ∀ a, (k0_off255 k0_t2) a + S1x1x16.size a ≤ S36x8x128.size a
  k0_off256_inb : ∀ k0_t2 : Fin k0_t2_loop.trips, ∀ a, (k0_off256 k0_t2) a + S1x1x16.size a ≤ S36x8x128.size a
  k0_off257_inb : ∀ k0_t2 : Fin k0_t2_loop.trips, ∀ a, (k0_off257 k0_t2) a + S1x1x16.size a ≤ S36x8x128.size a
  k0_off258_inb : ∀ k0_t2 : Fin k0_t2_loop.trips, ∀ a, (k0_off258 k0_t2) a + S1x1x16.size a ≤ S36x8x128.size a
  k0_off259_inb : ∀ k0_t2 : Fin k0_t2_loop.trips, ∀ a, (k0_off259 k0_t2) a + S1x1x16.size a ≤ S36x8x128.size a
  k0_off260_inb : ∀ k0_t2 : Fin k0_t2_loop.trips, ∀ a, (k0_off260 k0_t2) a + S1x1x16.size a ≤ S36x8x128.size a
  k0_off261_inb : ∀ k0_t2 : Fin k0_t2_loop.trips, ∀ a, (k0_off261 k0_t2) a + S1x1x16.size a ≤ S36x8x128.size a
  k0_off262_inb : ∀ k0_t2 : Fin k0_t2_loop.trips, ∀ a, (k0_off262 k0_t2) a + S1x1x16.size a ≤ S36x8x128.size a
  k0_off263_inb : ∀ k0_t2 : Fin k0_t2_loop.trips, ∀ a, (k0_off263 k0_t2) a + S1x1x16.size a ≤ S36x8x128.size a
  k0_off264_inb : ∀ k0_t2 : Fin k0_t2_loop.trips, ∀ a, (k0_off264 k0_t2) a + S1x1x16.size a ≤ S36x8x128.size a
  k0_off265_inb : ∀ k0_t2 : Fin k0_t2_loop.trips, ∀ a, (k0_off265 k0_t2) a + S1x1x16.size a ≤ S36x8x128.size a
  k0_off266_inb : ∀ k0_t2 : Fin k0_t2_loop.trips, ∀ a, (k0_off266 k0_t2) a + S1x1x16.size a ≤ S36x8x128.size a
  k0_off267_inb : ∀ k0_t2 : Fin k0_t2_loop.trips, ∀ a, (k0_off267 k0_t2) a + S1x1x16.size a ≤ S36x8x128.size a
  k0_off268_inb : ∀ k0_t2 : Fin k0_t2_loop.trips, ∀ a, (k0_off268 k0_t2) a + S1x1x16.size a ≤ S36x8x128.size a
  k0_off269_inb : ∀ k0_t2 : Fin k0_t2_loop.trips, ∀ a, (k0_off269 k0_t2) a + S1x1x16.size a ≤ S36x8x128.size a
  k0_off270_inb : ∀ k0_t2 : Fin k0_t2_loop.trips, ∀ a, (k0_off270 k0_t2) a + S1x1x16.size a ≤ S36x8x128.size a
  k0_off271_inb : ∀ k0_t2 : Fin k0_t2_loop.trips, ∀ a, (k0_off271 k0_t2) a + S1x1x16.size a ≤ S36x8x128.size a
  k0_off272_inb : ∀ k0_t2 : Fin k0_t2_loop.trips, ∀ a, (k0_off272 k0_t2) a + S1x1x16.size a ≤ S36x8x128.size a
  k0_off273_inb : ∀ k0_t2 : Fin k0_t2_loop.trips, ∀ a, (k0_off273 k0_t2) a + S1x1x16.size a ≤ S36x8x128.size a
  k0_off274_inb : ∀ k0_t2 : Fin k0_t2_loop.trips, ∀ a, (k0_off274 k0_t2) a + S1x1x16.size a ≤ S36x8x128.size a
  k0_off275_inb : ∀ k0_t2 : Fin k0_t2_loop.trips, ∀ a, (k0_off275 k0_t2) a + S1x1x16.size a ≤ S36x8x128.size a
  k0_off276_inb : ∀ k0_t2 : Fin k0_t2_loop.trips, ∀ a, (k0_off276 k0_t2) a + S1x1x16.size a ≤ S36x8x128.size a
  k0_off277_inb : ∀ k0_t2 : Fin k0_t2_loop.trips, ∀ a, (k0_off277 k0_t2) a + S1x1x16.size a ≤ S36x8x128.size a
  k0_off278_inb : ∀ k0_t2 : Fin k0_t2_loop.trips, ∀ a, (k0_off278 k0_t2) a + S1x1x16.size a ≤ S36x8x128.size a
  k0_off279_inb : ∀ k0_t2 : Fin k0_t2_loop.trips, ∀ a, (k0_off279 k0_t2) a + S1x1x16.size a ≤ S36x8x128.size a
  k0_off280_inb : ∀ k0_t2 : Fin k0_t2_loop.trips, ∀ a, (k0_off280 k0_t2) a + S1x1x16.size a ≤ S12x8x128.size a
  k0_off281_inb : ∀ k0_t2 : Fin k0_t2_loop.trips, ∀ a, (k0_off281 k0_t2) a + S1x1x16.size a ≤ S12x8x128.size a
  k0_off282_inb : ∀ k0_t2 : Fin k0_t2_loop.trips, ∀ a, (k0_off282 k0_t2) a + S1x1x16.size a ≤ S12x8x128.size a
  k0_off283_inb : ∀ k0_t2 : Fin k0_t2_loop.trips, ∀ a, (k0_off283 k0_t2) a + S1x1x16.size a ≤ S12x8x128.size a
  k0_off284_inb : ∀ k0_t2 : Fin k0_t2_loop.trips, ∀ a, (k0_off284 k0_t2) a + S1x1x16.size a ≤ S12x8x128.size a
  k0_off285_inb : ∀ k0_t2 : Fin k0_t2_loop.trips, ∀ a, (k0_off285 k0_t2) a + S1x1x16.size a ≤ S12x8x128.size a
  k0_off286_inb : ∀ k0_t2 : Fin k0_t2_loop.trips, ∀ a, (k0_off286 k0_t2) a + S1x1x16.size a ≤ S12x8x128.size a
  k0_off287_inb : ∀ k0_t2 : Fin k0_t2_loop.trips, ∀ a, (k0_off287 k0_t2) a + S1x1x16.size a ≤ S12x8x128.size a
  k0_off288_inb : ∀ k0_t2 : Fin k0_t2_loop.trips, ∀ a, (k0_off288 k0_t2) a + S1x1x16.size a ≤ S12x8x128.size a
  k0_off289_inb : ∀ k0_t2 : Fin k0_t2_loop.trips, ∀ a, (k0_off289 k0_t2) a + S1x1x16.size a ≤ S12x8x128.size a
  k0_off290_inb : ∀ k0_t2 : Fin k0_t2_loop.trips, ∀ a, (k0_off290 k0_t2) a + S1x1x16.size a ≤ S12x8x128.size a
  k0_off291_inb : ∀ k0_t2 : Fin k0_t2_loop.trips, ∀ a, (k0_off291 k0_t2) a + S1x1x16.size a ≤ S12x8x128.size a
  k0_off292_inb : ∀ k0_t2 : Fin k0_t2_loop.trips, ∀ a, (k0_off292 k0_t2) a + S1x1x16.size a ≤ S36x8x128.size a
  k0_off293_inb : ∀ k0_t2 : Fin k0_t2_loop.trips, ∀ a, (k0_off293 k0_t2) a + S1x1x16.size a ≤ S36x8x128.size a
  k0_off294_inb : ∀ k0_t2 : Fin k0_t2_loop.trips, ∀ a, (k0_off294 k0_t2) a + S1x1x16.size a ≤ S36x8x128.size a
  k0_off295_inb : ∀ k0_t2 : Fin k0_t2_loop.trips, ∀ a, (k0_off295 k0_t2) a + S1x1x16.size a ≤ S36x8x128.size a
  k0_off296_inb : ∀ k0_t2 : Fin k0_t2_loop.trips, ∀ a, (k0_off296 k0_t2) a + S1x1x16.size a ≤ S36x8x128.size a
  k0_off297_inb : ∀ k0_t2 : Fin k0_t2_loop.trips, ∀ a, (k0_off297 k0_t2) a + S1x1x16.size a ≤ S36x8x128.size a
  k0_off298_inb : ∀ k0_t2 : Fin k0_t2_loop.trips, ∀ a, (k0_off298 k0_t2) a + S1x1x16.size a ≤ S36x8x128.size a
  k0_off299_inb : ∀ k0_t2 : Fin k0_t2_loop.trips, ∀ a, (k0_off299 k0_t2) a + S1x1x16.size a ≤ S36x8x128.size a
  k0_off300_inb : ∀ k0_t2 : Fin k0_t2_loop.trips, ∀ a, (k0_off300 k0_t2) a + S1x1x16.size a ≤ S36x8x128.size a
  k0_off301_inb : ∀ k0_t2 : Fin k0_t2_loop.trips, ∀ a, (k0_off301 k0_t2) a + S1x1x16.size a ≤ S36x8x128.size a
  k0_off302_inb : ∀ k0_t2 : Fin k0_t2_loop.trips, ∀ a, (k0_off302 k0_t2) a + S1x1x16.size a ≤ S36x8x128.size a
  k0_off303_inb : ∀ k0_t2 : Fin k0_t2_loop.trips, ∀ a, (k0_off303 k0_t2) a + S1x1x16.size a ≤ S36x8x128.size a
  k0_off304_inb : ∀ k0_t2 : Fin k0_t2_loop.trips, ∀ a, (k0_off304 k0_t2) a + S1x1x16.size a ≤ S36x8x128.size a
  k0_off305_inb : ∀ k0_t2 : Fin k0_t2_loop.trips, ∀ a, (k0_off305 k0_t2) a + S1x1x16.size a ≤ S36x8x128.size a
  k0_off306_inb : ∀ k0_t2 : Fin k0_t2_loop.trips, ∀ a, (k0_off306 k0_t2) a + S1x1x16.size a ≤ S36x8x128.size a
  k0_off307_inb : ∀ k0_t2 : Fin k0_t2_loop.trips, ∀ a, (k0_off307 k0_t2) a + S1x1x16.size a ≤ S36x8x128.size a
  k0_off308_inb : ∀ k0_t2 : Fin k0_t2_loop.trips, ∀ a, (k0_off308 k0_t2) a + S1x1x16.size a ≤ S36x8x128.size a
  k0_off309_inb : ∀ k0_t2 : Fin k0_t2_loop.trips, ∀ a, (k0_off309 k0_t2) a + S1x1x16.size a ≤ S36x8x128.size a
  k0_off310_inb : ∀ k0_t2 : Fin k0_t2_loop.trips, ∀ a, (k0_off310 k0_t2) a + S1x1x16.size a ≤ S36x8x128.size a
  k0_off311_inb : ∀ k0_t2 : Fin k0_t2_loop.trips, ∀ a, (k0_off311 k0_t2) a + S1x1x16.size a ≤ S36x8x128.size a
  k0_off312_inb : ∀ k0_t2 : Fin k0_t2_loop.trips, ∀ a, (k0_off312 k0_t2) a + S1x1x16.size a ≤ S36x8x128.size a
  k0_off313_inb : ∀ k0_t2 : Fin k0_t2_loop.trips, ∀ a, (k0_off313 k0_t2) a + S1x1x16.size a ≤ S36x8x128.size a
  k0_off314_inb : ∀ k0_t2 : Fin k0_t2_loop.trips, ∀ a, (k0_off314 k0_t2) a + S1x1x16.size a ≤ S36x8x128.size a
  k0_off315_inb : ∀ k0_t2 : Fin k0_t2_loop.trips, ∀ a, (k0_off315 k0_t2) a + S1x1x16.size a ≤ S36x8x128.size a
  k0_off316_inb : ∀ k0_t2 : Fin k0_t2_loop.trips, ∀ a, (k0_off316 k0_t2) a + S1x1x16.size a ≤ S36x8x128.size a
  k0_off317_inb : ∀ k0_t2 : Fin k0_t2_loop.trips, ∀ a, (k0_off317 k0_t2) a + S1x1x16.size a ≤ S36x8x128.size a
  k0_off318_inb : ∀ k0_t2 : Fin k0_t2_loop.trips, ∀ a, (k0_off318 k0_t2) a + S1x1x16.size a ≤ S36x8x128.size a
  k0_off319_inb : ∀ k0_t2 : Fin k0_t2_loop.trips, ∀ a, (k0_off319 k0_t2) a + S1x1x16.size a ≤ S36x8x128.size a
  k0_off320_inb : ∀ k0_t2 : Fin k0_t2_loop.trips, ∀ a, (k0_off320 k0_t2) a + S1x1x16.size a ≤ S36x8x128.size a
  k0_off321_inb : ∀ k0_t2 : Fin k0_t2_loop.trips, ∀ a, (k0_off321 k0_t2) a + S1x1x16.size a ≤ S36x8x128.size a
  k0_off322_inb : ∀ k0_t2 : Fin k0_t2_loop.trips, ∀ a, (k0_off322 k0_t2) a + S1x1x16.size a ≤ S36x8x128.size a
  k0_off323_inb : ∀ k0_t2 : Fin k0_t2_loop.trips, ∀ a, (k0_off323 k0_t2) a + S1x1x16.size a ≤ S36x8x128.size a
  k0_off324_inb : ∀ k0_t2 : Fin k0_t2_loop.trips, ∀ a, (k0_off324 k0_t2) a + S1x1x16.size a ≤ S36x8x128.size a
  k0_off325_inb : ∀ k0_t2 : Fin k0_t2_loop.trips, ∀ a, (k0_off325 k0_t2) a + S1x1x16.size a ≤ S36x8x128.size a
  k0_off326_inb : ∀ k0_t2 : Fin k0_t2_loop.trips, ∀ a, (k0_off326 k0_t2) a + S1x1x16.size a ≤ S36x8x128.size a
  k0_off327_inb : ∀ k0_t2 : Fin k0_t2_loop.trips, ∀ a, (k0_off327 k0_t2) a + S1x1x16.size a ≤ S36x8x128.size a
  k0_off328_inb : ∀ k0_t2 : Fin k0_t2_loop.trips, ∀ a, (k0_off328 k0_t2) a + S1x1x16.size a ≤ S12x8x128.size a
  k0_off329_inb : ∀ k0_t2 : Fin k0_t2_loop.trips, ∀ a, (k0_off329 k0_t2) a + S1x1x16.size a ≤ S12x8x128.size a
  k0_off330_inb : ∀ k0_t2 : Fin k0_t2_loop.trips, ∀ a, (k0_off330 k0_t2) a + S1x1x16.size a ≤ S12x8x128.size a
  k0_off331_inb : ∀ k0_t2 : Fin k0_t2_loop.trips, ∀ a, (k0_off331 k0_t2) a + S1x1x16.size a ≤ S12x8x128.size a
  k0_off332_inb : ∀ k0_t2 : Fin k0_t2_loop.trips, ∀ a, (k0_off332 k0_t2) a + S1x1x16.size a ≤ S12x8x128.size a
  k0_off333_inb : ∀ k0_t2 : Fin k0_t2_loop.trips, ∀ a, (k0_off333 k0_t2) a + S1x1x16.size a ≤ S12x8x128.size a
  k0_off334_inb : ∀ k0_t2 : Fin k0_t2_loop.trips, ∀ a, (k0_off334 k0_t2) a + S1x1x16.size a ≤ S12x8x128.size a
  k0_off335_inb : ∀ k0_t2 : Fin k0_t2_loop.trips, ∀ a, (k0_off335 k0_t2) a + S1x1x16.size a ≤ S12x8x128.size a
  k0_off336_inb : ∀ k0_t2 : Fin k0_t2_loop.trips, ∀ a, (k0_off336 k0_t2) a + S1x1x16.size a ≤ S12x8x128.size a
  k0_off337_inb : ∀ k0_t2 : Fin k0_t2_loop.trips, ∀ a, (k0_off337 k0_t2) a + S1x1x16.size a ≤ S12x8x128.size a
  k0_off338_inb : ∀ k0_t2 : Fin k0_t2_loop.trips, ∀ a, (k0_off338 k0_t2) a + S1x1x16.size a ≤ S12x8x128.size a
  k0_off339_inb : ∀ k0_t2 : Fin k0_t2_loop.trips, ∀ a, (k0_off339 k0_t2) a + S1x1x16.size a ≤ S12x8x128.size a
  k0_off340_inb : ∀ k0_t2 : Fin k0_t2_loop.trips, ∀ a, (k0_off340 k0_t2) a + S1x1x16.size a ≤ S36x8x128.size a
  k0_off341_inb : ∀ k0_t2 : Fin k0_t2_loop.trips, ∀ a, (k0_off341 k0_t2) a + S1x1x16.size a ≤ S36x8x128.size a
  k0_off342_inb : ∀ k0_t2 : Fin k0_t2_loop.trips, ∀ a, (k0_off342 k0_t2) a + S1x1x16.size a ≤ S36x8x128.size a
  k0_off343_inb : ∀ k0_t2 : Fin k0_t2_loop.trips, ∀ a, (k0_off343 k0_t2) a + S1x1x16.size a ≤ S36x8x128.size a
  k0_off344_inb : ∀ k0_t2 : Fin k0_t2_loop.trips, ∀ a, (k0_off344 k0_t2) a + S1x1x16.size a ≤ S36x8x128.size a
  k0_off345_inb : ∀ k0_t2 : Fin k0_t2_loop.trips, ∀ a, (k0_off345 k0_t2) a + S1x1x16.size a ≤ S36x8x128.size a
  k0_off346_inb : ∀ k0_t2 : Fin k0_t2_loop.trips, ∀ a, (k0_off346 k0_t2) a + S1x1x16.size a ≤ S36x8x128.size a
  k0_off347_inb : ∀ k0_t2 : Fin k0_t2_loop.trips, ∀ a, (k0_off347 k0_t2) a + S1x1x16.size a ≤ S36x8x128.size a
  k0_off348_inb : ∀ k0_t2 : Fin k0_t2_loop.trips, ∀ a, (k0_off348 k0_t2) a + S1x1x16.size a ≤ S36x8x128.size a
  k0_off349_inb : ∀ k0_t2 : Fin k0_t2_loop.trips, ∀ a, (k0_off349 k0_t2) a + S1x1x16.size a ≤ S36x8x128.size a
  k0_off350_inb : ∀ k0_t2 : Fin k0_t2_loop.trips, ∀ a, (k0_off350 k0_t2) a + S1x1x16.size a ≤ S36x8x128.size a
  k0_off351_inb : ∀ k0_t2 : Fin k0_t2_loop.trips, ∀ a, (k0_off351 k0_t2) a + S1x1x16.size a ≤ S36x8x128.size a
  k0_off352_inb : ∀ k0_t2 : Fin k0_t2_loop.trips, ∀ a, (k0_off352 k0_t2) a + S1x1x16.size a ≤ S36x8x128.size a
  k0_off353_inb : ∀ k0_t2 : Fin k0_t2_loop.trips, ∀ a, (k0_off353 k0_t2) a + S1x1x16.size a ≤ S36x8x128.size a
  k0_off354_inb : ∀ k0_t2 : Fin k0_t2_loop.trips, ∀ a, (k0_off354 k0_t2) a + S1x1x16.size a ≤ S36x8x128.size a
  k0_off355_inb : ∀ k0_t2 : Fin k0_t2_loop.trips, ∀ a, (k0_off355 k0_t2) a + S1x1x16.size a ≤ S36x8x128.size a
  k0_off356_inb : ∀ k0_t2 : Fin k0_t2_loop.trips, ∀ a, (k0_off356 k0_t2) a + S1x1x16.size a ≤ S36x8x128.size a
  k0_off357_inb : ∀ k0_t2 : Fin k0_t2_loop.trips, ∀ a, (k0_off357 k0_t2) a + S1x1x16.size a ≤ S36x8x128.size a
  k0_off358_inb : ∀ k0_t2 : Fin k0_t2_loop.trips, ∀ a, (k0_off358 k0_t2) a + S1x1x16.size a ≤ S36x8x128.size a
  k0_off359_inb : ∀ k0_t2 : Fin k0_t2_loop.trips, ∀ a, (k0_off359 k0_t2) a + S1x1x16.size a ≤ S36x8x128.size a
  k0_off360_inb : ∀ k0_t2 : Fin k0_t2_loop.trips, ∀ a, (k0_off360 k0_t2) a + S1x1x16.size a ≤ S36x8x128.size a
  k0_off361_inb : ∀ k0_t2 : Fin k0_t2_loop.trips, ∀ a, (k0_off361 k0_t2) a + S1x1x16.size a ≤ S36x8x128.size a
  k0_off362_inb : ∀ k0_t2 : Fin k0_t2_loop.trips, ∀ a, (k0_off362 k0_t2) a + S1x1x16.size a ≤ S36x8x128.size a
  k0_off363_inb : ∀ k0_t2 : Fin k0_t2_loop.trips, ∀ a, (k0_off363 k0_t2) a + S1x1x16.size a ≤ S36x8x128.size a
  k0_off364_inb : ∀ k0_t2 : Fin k0_t2_loop.trips, ∀ a, (k0_off364 k0_t2) a + S1x1x16.size a ≤ S36x8x128.size a
  k0_off365_inb : ∀ k0_t2 : Fin k0_t2_loop.trips, ∀ a, (k0_off365 k0_t2) a + S1x1x16.size a ≤ S36x8x128.size a
  k0_off366_inb : ∀ k0_t2 : Fin k0_t2_loop.trips, ∀ a, (k0_off366 k0_t2) a + S1x1x16.size a ≤ S36x8x128.size a
  k0_off367_inb : ∀ k0_t2 : Fin k0_t2_loop.trips, ∀ a, (k0_off367 k0_t2) a + S1x1x16.size a ≤ S36x8x128.size a
  k0_off368_inb : ∀ k0_t2 : Fin k0_t2_loop.trips, ∀ a, (k0_off368 k0_t2) a + S1x1x16.size a ≤ S36x8x128.size a
  k0_off369_inb : ∀ k0_t2 : Fin k0_t2_loop.trips, ∀ a, (k0_off369 k0_t2) a + S1x1x16.size a ≤ S36x8x128.size a
  k0_off370_inb : ∀ k0_t2 : Fin k0_t2_loop.trips, ∀ a, (k0_off370 k0_t2) a + S1x1x16.size a ≤ S36x8x128.size a
  k0_off371_inb : ∀ k0_t2 : Fin k0_t2_loop.trips, ∀ a, (k0_off371 k0_t2) a + S1x1x16.size a ≤ S36x8x128.size a
  k0_off372_inb : ∀ k0_t2 : Fin k0_t2_loop.trips, ∀ a, (k0_off372 k0_t2) a + S1x1x16.size a ≤ S36x8x128.size a
  k0_off373_inb : ∀ k0_t2 : Fin k0_t2_loop.trips, ∀ a, (k0_off373 k0_t2) a + S1x1x16.size a ≤ S36x8x128.size a
  k0_off374_inb : ∀ k0_t2 : Fin k0_t2_loop.trips, ∀ a, (k0_off374 k0_t2) a + S1x1x16.size a ≤ S36x8x128.size a
  k0_off375_inb : ∀ k0_t2 : Fin k0_t2_loop.trips, ∀ a, (k0_off375 k0_t2) a + S1x1x16.size a ≤ S36x8x128.size a
  k0_off376_inb : ∀ k0_t2 : Fin k0_t2_loop.trips, ∀ a, (k0_off376 k0_t2) a + S1x1x16.size a ≤ S12x8x128.size a
  k0_off377_inb : ∀ k0_t2 : Fin k0_t2_loop.trips, ∀ a, (k0_off377 k0_t2) a + S1x1x16.size a ≤ S12x8x128.size a
  k0_off378_inb : ∀ k0_t2 : Fin k0_t2_loop.trips, ∀ a, (k0_off378 k0_t2) a + S1x1x16.size a ≤ S12x8x128.size a
  k0_off379_inb : ∀ k0_t2 : Fin k0_t2_loop.trips, ∀ a, (k0_off379 k0_t2) a + S1x1x16.size a ≤ S12x8x128.size a
  k0_off380_inb : ∀ k0_t2 : Fin k0_t2_loop.trips, ∀ a, (k0_off380 k0_t2) a + S1x1x16.size a ≤ S12x8x128.size a
  k0_off381_inb : ∀ k0_t2 : Fin k0_t2_loop.trips, ∀ a, (k0_off381 k0_t2) a + S1x1x16.size a ≤ S12x8x128.size a
  k0_off382_inb : ∀ k0_t2 : Fin k0_t2_loop.trips, ∀ a, (k0_off382 k0_t2) a + S1x1x16.size a ≤ S12x8x128.size a
  k0_off383_inb : ∀ k0_t2 : Fin k0_t2_loop.trips, ∀ a, (k0_off383 k0_t2) a + S1x1x16.size a ≤ S12x8x128.size a
  k0_off384_inb : ∀ k0_t2 : Fin k0_t2_loop.trips, ∀ a, (k0_off384 k0_t2) a + S1x1x16.size a ≤ S12x8x128.size a
  k0_off385_inb : ∀ k0_t2 : Fin k0_t2_loop.trips, ∀ a, (k0_off385 k0_t2) a + S1x1x16.size a ≤ S12x8x128.size a
  k0_off386_inb : ∀ k0_t2 : Fin k0_t2_loop.trips, ∀ a, (k0_off386 k0_t2) a + S1x1x16.size a ≤ S12x8x128.size a
  k0_off387_inb : ∀ k0_t2 : Fin k0_t2_loop.trips, ∀ a, (k0_off387 k0_t2) a + S1x1x16.size a ≤ S12x8x128.size a
  k0_off388_inb : ∀ (i : grid0.Coords) (k0_t1 : Fin k0_t1_loop.trips), ∀ (r : Fin 2), ∀ a, (k0_off388 i k0_t1 (BitVec.ofNat 32 r.val)) a + S12x8x128.size a ≤ S12x7168x128.size a
  k0_off389_inb : ∀ (i : grid0.Coords) (k0_t1 : Fin k0_t1_loop.trips), ∀ (k0_h2 : k0_cond2 k0_t1 = 1#1), ∀ a, (k0_off389 i k0_t1) a + S36x8x128.size a ≤ S36x16384x128.size a
  k0_off390_inb : ∀ (i : grid0.Coords) (k0_t1 : Fin k0_t1_loop.trips), ∀ (k0_h3 : k0_cond3 k0_t1 = 1#1), ∀ a, (k0_off390 i k0_t1) a + S12x8x128.size a ≤ S12x7168x128.size a
  k0_t3_ok : k0_t3_loop.OK
  k0_off391_inb : ∀ k0_t3 : Fin k0_t3_loop.trips, ∀ a, (k0_off391 k0_t3) a + S1x1x16.size a ≤ S36x8x128.size a
  k0_off392_inb : ∀ k0_t3 : Fin k0_t3_loop.trips, ∀ a, (k0_off392 k0_t3) a + S1x1x16.size a ≤ S36x8x128.size a
  k0_off393_inb : ∀ k0_t3 : Fin k0_t3_loop.trips, ∀ a, (k0_off393 k0_t3) a + S1x1x16.size a ≤ S36x8x128.size a
  k0_off394_inb : ∀ k0_t3 : Fin k0_t3_loop.trips, ∀ a, (k0_off394 k0_t3) a + S1x1x16.size a ≤ S36x8x128.size a
  k0_off395_inb : ∀ k0_t3 : Fin k0_t3_loop.trips, ∀ a, (k0_off395 k0_t3) a + S1x1x16.size a ≤ S36x8x128.size a
  k0_off396_inb : ∀ k0_t3 : Fin k0_t3_loop.trips, ∀ a, (k0_off396 k0_t3) a + S1x1x16.size a ≤ S36x8x128.size a
  k0_off397_inb : ∀ k0_t3 : Fin k0_t3_loop.trips, ∀ a, (k0_off397 k0_t3) a + S1x1x16.size a ≤ S36x8x128.size a
  k0_off398_inb : ∀ k0_t3 : Fin k0_t3_loop.trips, ∀ a, (k0_off398 k0_t3) a + S1x1x16.size a ≤ S36x8x128.size a
  k0_off399_inb : ∀ k0_t3 : Fin k0_t3_loop.trips, ∀ a, (k0_off399 k0_t3) a + S1x1x16.size a ≤ S36x8x128.size a
  k0_off400_inb : ∀ k0_t3 : Fin k0_t3_loop.trips, ∀ a, (k0_off400 k0_t3) a + S1x1x16.size a ≤ S36x8x128.size a
  k0_off401_inb : ∀ k0_t3 : Fin k0_t3_loop.trips, ∀ a, (k0_off401 k0_t3) a + S1x1x16.size a ≤ S36x8x128.size a
  k0_off402_inb : ∀ k0_t3 : Fin k0_t3_loop.trips, ∀ a, (k0_off402 k0_t3) a + S1x1x16.size a ≤ S36x8x128.size a
  k0_off403_inb : ∀ k0_t3 : Fin k0_t3_loop.trips, ∀ a, (k0_off403 k0_t3) a + S1x1x16.size a ≤ S36x8x128.size a
  k0_off404_inb : ∀ k0_t3 : Fin k0_t3_loop.trips, ∀ a, (k0_off404 k0_t3) a + S1x1x16.size a ≤ S36x8x128.size a
  k0_off405_inb : ∀ k0_t3 : Fin k0_t3_loop.trips, ∀ a, (k0_off405 k0_t3) a + S1x1x16.size a ≤ S36x8x128.size a
  k0_off406_inb : ∀ k0_t3 : Fin k0_t3_loop.trips, ∀ a, (k0_off406 k0_t3) a + S1x1x16.size a ≤ S36x8x128.size a
  k0_off407_inb : ∀ k0_t3 : Fin k0_t3_loop.trips, ∀ a, (k0_off407 k0_t3) a + S1x1x16.size a ≤ S36x8x128.size a
  k0_off408_inb : ∀ k0_t3 : Fin k0_t3_loop.trips, ∀ a, (k0_off408 k0_t3) a + S1x1x16.size a ≤ S36x8x128.size a
  k0_off409_inb : ∀ k0_t3 : Fin k0_t3_loop.trips, ∀ a, (k0_off409 k0_t3) a + S1x1x16.size a ≤ S36x8x128.size a
  k0_off410_inb : ∀ k0_t3 : Fin k0_t3_loop.trips, ∀ a, (k0_off410 k0_t3) a + S1x1x16.size a ≤ S36x8x128.size a
  k0_off411_inb : ∀ k0_t3 : Fin k0_t3_loop.trips, ∀ a, (k0_off411 k0_t3) a + S1x1x16.size a ≤ S36x8x128.size a
  k0_off412_inb : ∀ k0_t3 : Fin k0_t3_loop.trips, ∀ a, (k0_off412 k0_t3) a + S1x1x16.size a ≤ S36x8x128.size a
  k0_off413_inb : ∀ k0_t3 : Fin k0_t3_loop.trips, ∀ a, (k0_off413 k0_t3) a + S1x1x16.size a ≤ S36x8x128.size a
  k0_off414_inb : ∀ k0_t3 : Fin k0_t3_loop.trips, ∀ a, (k0_off414 k0_t3) a + S1x1x16.size a ≤ S36x8x128.size a
  k0_off415_inb : ∀ k0_t3 : Fin k0_t3_loop.trips, ∀ a, (k0_off415 k0_t3) a + S1x1x16.size a ≤ S36x8x128.size a
  k0_off416_inb : ∀ k0_t3 : Fin k0_t3_loop.trips, ∀ a, (k0_off416 k0_t3) a + S1x1x16.size a ≤ S36x8x128.size a
  k0_off417_inb : ∀ k0_t3 : Fin k0_t3_loop.trips, ∀ a, (k0_off417 k0_t3) a + S1x1x16.size a ≤ S36x8x128.size a
  k0_off418_inb : ∀ k0_t3 : Fin k0_t3_loop.trips, ∀ a, (k0_off418 k0_t3) a + S1x1x16.size a ≤ S36x8x128.size a
  k0_off419_inb : ∀ k0_t3 : Fin k0_t3_loop.trips, ∀ a, (k0_off419 k0_t3) a + S1x1x16.size a ≤ S36x8x128.size a
  k0_off420_inb : ∀ k0_t3 : Fin k0_t3_loop.trips, ∀ a, (k0_off420 k0_t3) a + S1x1x16.size a ≤ S36x8x128.size a
  k0_off421_inb : ∀ k0_t3 : Fin k0_t3_loop.trips, ∀ a, (k0_off421 k0_t3) a + S1x1x16.size a ≤ S36x8x128.size a
  k0_off422_inb : ∀ k0_t3 : Fin k0_t3_loop.trips, ∀ a, (k0_off422 k0_t3) a + S1x1x16.size a ≤ S36x8x128.size a
  k0_off423_inb : ∀ k0_t3 : Fin k0_t3_loop.trips, ∀ a, (k0_off423 k0_t3) a + S1x1x16.size a ≤ S36x8x128.size a
  k0_off424_inb : ∀ k0_t3 : Fin k0_t3_loop.trips, ∀ a, (k0_off424 k0_t3) a + S1x1x16.size a ≤ S36x8x128.size a
  k0_off425_inb : ∀ k0_t3 : Fin k0_t3_loop.trips, ∀ a, (k0_off425 k0_t3) a + S1x1x16.size a ≤ S36x8x128.size a
  k0_off426_inb : ∀ k0_t3 : Fin k0_t3_loop.trips, ∀ a, (k0_off426 k0_t3) a + S1x1x16.size a ≤ S36x8x128.size a
  k0_off427_inb : ∀ k0_t3 : Fin k0_t3_loop.trips, ∀ a, (k0_off427 k0_t3) a + S1x1x16.size a ≤ S12x8x128.size a
  k0_off428_inb : ∀ k0_t3 : Fin k0_t3_loop.trips, ∀ a, (k0_off428 k0_t3) a + S1x1x16.size a ≤ S12x8x128.size a
  k0_off429_inb : ∀ k0_t3 : Fin k0_t3_loop.trips, ∀ a, (k0_off429 k0_t3) a + S1x1x16.size a ≤ S12x8x128.size a
  k0_off430_inb : ∀ k0_t3 : Fin k0_t3_loop.trips, ∀ a, (k0_off430 k0_t3) a + S1x1x16.size a ≤ S12x8x128.size a
  k0_off431_inb : ∀ k0_t3 : Fin k0_t3_loop.trips, ∀ a, (k0_off431 k0_t3) a + S1x1x16.size a ≤ S12x8x128.size a
  k0_off432_inb : ∀ k0_t3 : Fin k0_t3_loop.trips, ∀ a, (k0_off432 k0_t3) a + S1x1x16.size a ≤ S12x8x128.size a
  k0_off433_inb : ∀ k0_t3 : Fin k0_t3_loop.trips, ∀ a, (k0_off433 k0_t3) a + S1x1x16.size a ≤ S12x8x128.size a
  k0_off434_inb : ∀ k0_t3 : Fin k0_t3_loop.trips, ∀ a, (k0_off434 k0_t3) a + S1x1x16.size a ≤ S12x8x128.size a
  k0_off435_inb : ∀ k0_t3 : Fin k0_t3_loop.trips, ∀ a, (k0_off435 k0_t3) a + S1x1x16.size a ≤ S12x8x128.size a
  k0_off436_inb : ∀ k0_t3 : Fin k0_t3_loop.trips, ∀ a, (k0_off436 k0_t3) a + S1x1x16.size a ≤ S12x8x128.size a
  k0_off437_inb : ∀ k0_t3 : Fin k0_t3_loop.trips, ∀ a, (k0_off437 k0_t3) a + S1x1x16.size a ≤ S12x8x128.size a
  k0_off438_inb : ∀ k0_t3 : Fin k0_t3_loop.trips, ∀ a, (k0_off438 k0_t3) a + S1x1x16.size a ≤ S12x8x128.size a
  k0_off439_inb : ∀ k0_t3 : Fin k0_t3_loop.trips, ∀ a, (k0_off439 k0_t3) a + S1x1x16.size a ≤ S36x8x128.size a
  k0_off440_inb : ∀ k0_t3 : Fin k0_t3_loop.trips, ∀ a, (k0_off440 k0_t3) a + S1x1x16.size a ≤ S36x8x128.size a
  k0_off441_inb : ∀ k0_t3 : Fin k0_t3_loop.trips, ∀ a, (k0_off441 k0_t3) a + S1x1x16.size a ≤ S36x8x128.size a
  k0_off442_inb : ∀ k0_t3 : Fin k0_t3_loop.trips, ∀ a, (k0_off442 k0_t3) a + S1x1x16.size a ≤ S36x8x128.size a
  k0_off443_inb : ∀ k0_t3 : Fin k0_t3_loop.trips, ∀ a, (k0_off443 k0_t3) a + S1x1x16.size a ≤ S36x8x128.size a
  k0_off444_inb : ∀ k0_t3 : Fin k0_t3_loop.trips, ∀ a, (k0_off444 k0_t3) a + S1x1x16.size a ≤ S36x8x128.size a
  k0_off445_inb : ∀ k0_t3 : Fin k0_t3_loop.trips, ∀ a, (k0_off445 k0_t3) a + S1x1x16.size a ≤ S36x8x128.size a
  k0_off446_inb : ∀ k0_t3 : Fin k0_t3_loop.trips, ∀ a, (k0_off446 k0_t3) a + S1x1x16.size a ≤ S36x8x128.size a
  k0_off447_inb : ∀ k0_t3 : Fin k0_t3_loop.trips, ∀ a, (k0_off447 k0_t3) a + S1x1x16.size a ≤ S36x8x128.size a
  k0_off448_inb : ∀ k0_t3 : Fin k0_t3_loop.trips, ∀ a, (k0_off448 k0_t3) a + S1x1x16.size a ≤ S36x8x128.size a
  k0_off449_inb : ∀ k0_t3 : Fin k0_t3_loop.trips, ∀ a, (k0_off449 k0_t3) a + S1x1x16.size a ≤ S36x8x128.size a
  k0_off450_inb : ∀ k0_t3 : Fin k0_t3_loop.trips, ∀ a, (k0_off450 k0_t3) a + S1x1x16.size a ≤ S36x8x128.size a
  k0_off451_inb : ∀ k0_t3 : Fin k0_t3_loop.trips, ∀ a, (k0_off451 k0_t3) a + S1x1x16.size a ≤ S36x8x128.size a
  k0_off452_inb : ∀ k0_t3 : Fin k0_t3_loop.trips, ∀ a, (k0_off452 k0_t3) a + S1x1x16.size a ≤ S36x8x128.size a
  k0_off453_inb : ∀ k0_t3 : Fin k0_t3_loop.trips, ∀ a, (k0_off453 k0_t3) a + S1x1x16.size a ≤ S36x8x128.size a
  k0_off454_inb : ∀ k0_t3 : Fin k0_t3_loop.trips, ∀ a, (k0_off454 k0_t3) a + S1x1x16.size a ≤ S36x8x128.size a
  k0_off455_inb : ∀ k0_t3 : Fin k0_t3_loop.trips, ∀ a, (k0_off455 k0_t3) a + S1x1x16.size a ≤ S36x8x128.size a
  k0_off456_inb : ∀ k0_t3 : Fin k0_t3_loop.trips, ∀ a, (k0_off456 k0_t3) a + S1x1x16.size a ≤ S36x8x128.size a
  k0_off457_inb : ∀ k0_t3 : Fin k0_t3_loop.trips, ∀ a, (k0_off457 k0_t3) a + S1x1x16.size a ≤ S36x8x128.size a
  k0_off458_inb : ∀ k0_t3 : Fin k0_t3_loop.trips, ∀ a, (k0_off458 k0_t3) a + S1x1x16.size a ≤ S36x8x128.size a
  k0_off459_inb : ∀ k0_t3 : Fin k0_t3_loop.trips, ∀ a, (k0_off459 k0_t3) a + S1x1x16.size a ≤ S36x8x128.size a
  k0_off460_inb : ∀ k0_t3 : Fin k0_t3_loop.trips, ∀ a, (k0_off460 k0_t3) a + S1x1x16.size a ≤ S36x8x128.size a
  k0_off461_inb : ∀ k0_t3 : Fin k0_t3_loop.trips, ∀ a, (k0_off461 k0_t3) a + S1x1x16.size a ≤ S36x8x128.size a
  k0_off462_inb : ∀ k0_t3 : Fin k0_t3_loop.trips, ∀ a, (k0_off462 k0_t3) a + S1x1x16.size a ≤ S36x8x128.size a
  k0_off463_inb : ∀ k0_t3 : Fin k0_t3_loop.trips, ∀ a, (k0_off463 k0_t3) a + S1x1x16.size a ≤ S36x8x128.size a
  k0_off464_inb : ∀ k0_t3 : Fin k0_t3_loop.trips, ∀ a, (k0_off464 k0_t3) a + S1x1x16.size a ≤ S36x8x128.size a
  k0_off465_inb : ∀ k0_t3 : Fin k0_t3_loop.trips, ∀ a, (k0_off465 k0_t3) a + S1x1x16.size a ≤ S36x8x128.size a
  k0_off466_inb : ∀ k0_t3 : Fin k0_t3_loop.trips, ∀ a, (k0_off466 k0_t3) a + S1x1x16.size a ≤ S36x8x128.size a
  k0_off467_inb : ∀ k0_t3 : Fin k0_t3_loop.trips, ∀ a, (k0_off467 k0_t3) a + S1x1x16.size a ≤ S36x8x128.size a
  k0_off468_inb : ∀ k0_t3 : Fin k0_t3_loop.trips, ∀ a, (k0_off468 k0_t3) a + S1x1x16.size a ≤ S36x8x128.size a
  k0_off469_inb : ∀ k0_t3 : Fin k0_t3_loop.trips, ∀ a, (k0_off469 k0_t3) a + S1x1x16.size a ≤ S36x8x128.size a
  k0_off470_inb : ∀ k0_t3 : Fin k0_t3_loop.trips, ∀ a, (k0_off470 k0_t3) a + S1x1x16.size a ≤ S36x8x128.size a
  k0_off471_inb : ∀ k0_t3 : Fin k0_t3_loop.trips, ∀ a, (k0_off471 k0_t3) a + S1x1x16.size a ≤ S36x8x128.size a
  k0_off472_inb : ∀ k0_t3 : Fin k0_t3_loop.trips, ∀ a, (k0_off472 k0_t3) a + S1x1x16.size a ≤ S36x8x128.size a
  k0_off473_inb : ∀ k0_t3 : Fin k0_t3_loop.trips, ∀ a, (k0_off473 k0_t3) a + S1x1x16.size a ≤ S36x8x128.size a
  k0_off474_inb : ∀ k0_t3 : Fin k0_t3_loop.trips, ∀ a, (k0_off474 k0_t3) a + S1x1x16.size a ≤ S36x8x128.size a
  k0_off475_inb : ∀ k0_t3 : Fin k0_t3_loop.trips, ∀ a, (k0_off475 k0_t3) a + S1x1x16.size a ≤ S12x8x128.size a
  k0_off476_inb : ∀ k0_t3 : Fin k0_t3_loop.trips, ∀ a, (k0_off476 k0_t3) a + S1x1x16.size a ≤ S12x8x128.size a
  k0_off477_inb : ∀ k0_t3 : Fin k0_t3_loop.trips, ∀ a, (k0_off477 k0_t3) a + S1x1x16.size a ≤ S12x8x128.size a
  k0_off478_inb : ∀ k0_t3 : Fin k0_t3_loop.trips, ∀ a, (k0_off478 k0_t3) a + S1x1x16.size a ≤ S12x8x128.size a
  k0_off479_inb : ∀ k0_t3 : Fin k0_t3_loop.trips, ∀ a, (k0_off479 k0_t3) a + S1x1x16.size a ≤ S12x8x128.size a
  k0_off480_inb : ∀ k0_t3 : Fin k0_t3_loop.trips, ∀ a, (k0_off480 k0_t3) a + S1x1x16.size a ≤ S12x8x128.size a
  k0_off481_inb : ∀ k0_t3 : Fin k0_t3_loop.trips, ∀ a, (k0_off481 k0_t3) a + S1x1x16.size a ≤ S12x8x128.size a
  k0_off482_inb : ∀ k0_t3 : Fin k0_t3_loop.trips, ∀ a, (k0_off482 k0_t3) a + S1x1x16.size a ≤ S12x8x128.size a
  k0_off483_inb : ∀ k0_t3 : Fin k0_t3_loop.trips, ∀ a, (k0_off483 k0_t3) a + S1x1x16.size a ≤ S12x8x128.size a
  k0_off484_inb : ∀ k0_t3 : Fin k0_t3_loop.trips, ∀ a, (k0_off484 k0_t3) a + S1x1x16.size a ≤ S12x8x128.size a
  k0_off485_inb : ∀ k0_t3 : Fin k0_t3_loop.trips, ∀ a, (k0_off485 k0_t3) a + S1x1x16.size a ≤ S12x8x128.size a
  k0_off486_inb : ∀ k0_t3 : Fin k0_t3_loop.trips, ∀ a, (k0_off486 k0_t3) a + S1x1x16.size a ≤ S12x8x128.size a
  k0_off487_inb : ∀ k0_t3 : Fin k0_t3_loop.trips, ∀ a, (k0_off487 k0_t3) a + S1x1x16.size a ≤ S36x8x128.size a
  k0_off488_inb : ∀ k0_t3 : Fin k0_t3_loop.trips, ∀ a, (k0_off488 k0_t3) a + S1x1x16.size a ≤ S36x8x128.size a
  k0_off489_inb : ∀ k0_t3 : Fin k0_t3_loop.trips, ∀ a, (k0_off489 k0_t3) a + S1x1x16.size a ≤ S36x8x128.size a
  k0_off490_inb : ∀ k0_t3 : Fin k0_t3_loop.trips, ∀ a, (k0_off490 k0_t3) a + S1x1x16.size a ≤ S36x8x128.size a
  k0_off491_inb : ∀ k0_t3 : Fin k0_t3_loop.trips, ∀ a, (k0_off491 k0_t3) a + S1x1x16.size a ≤ S36x8x128.size a
  k0_off492_inb : ∀ k0_t3 : Fin k0_t3_loop.trips, ∀ a, (k0_off492 k0_t3) a + S1x1x16.size a ≤ S36x8x128.size a
  k0_off493_inb : ∀ k0_t3 : Fin k0_t3_loop.trips, ∀ a, (k0_off493 k0_t3) a + S1x1x16.size a ≤ S36x8x128.size a
  k0_off494_inb : ∀ k0_t3 : Fin k0_t3_loop.trips, ∀ a, (k0_off494 k0_t3) a + S1x1x16.size a ≤ S36x8x128.size a
  k0_off495_inb : ∀ k0_t3 : Fin k0_t3_loop.trips, ∀ a, (k0_off495 k0_t3) a + S1x1x16.size a ≤ S36x8x128.size a
  k0_off496_inb : ∀ k0_t3 : Fin k0_t3_loop.trips, ∀ a, (k0_off496 k0_t3) a + S1x1x16.size a ≤ S36x8x128.size a
  k0_off497_inb : ∀ k0_t3 : Fin k0_t3_loop.trips, ∀ a, (k0_off497 k0_t3) a + S1x1x16.size a ≤ S36x8x128.size a
  k0_off498_inb : ∀ k0_t3 : Fin k0_t3_loop.trips, ∀ a, (k0_off498 k0_t3) a + S1x1x16.size a ≤ S36x8x128.size a
  k0_off499_inb : ∀ k0_t3 : Fin k0_t3_loop.trips, ∀ a, (k0_off499 k0_t3) a + S1x1x16.size a ≤ S36x8x128.size a
  k0_off500_inb : ∀ k0_t3 : Fin k0_t3_loop.trips, ∀ a, (k0_off500 k0_t3) a + S1x1x16.size a ≤ S36x8x128.size a
  k0_off501_inb : ∀ k0_t3 : Fin k0_t3_loop.trips, ∀ a, (k0_off501 k0_t3) a + S1x1x16.size a ≤ S36x8x128.size a
  k0_off502_inb : ∀ k0_t3 : Fin k0_t3_loop.trips, ∀ a, (k0_off502 k0_t3) a + S1x1x16.size a ≤ S36x8x128.size a
  k0_off503_inb : ∀ k0_t3 : Fin k0_t3_loop.trips, ∀ a, (k0_off503 k0_t3) a + S1x1x16.size a ≤ S36x8x128.size a
  k0_off504_inb : ∀ k0_t3 : Fin k0_t3_loop.trips, ∀ a, (k0_off504 k0_t3) a + S1x1x16.size a ≤ S36x8x128.size a
  k0_off505_inb : ∀ k0_t3 : Fin k0_t3_loop.trips, ∀ a, (k0_off505 k0_t3) a + S1x1x16.size a ≤ S36x8x128.size a
  k0_off506_inb : ∀ k0_t3 : Fin k0_t3_loop.trips, ∀ a, (k0_off506 k0_t3) a + S1x1x16.size a ≤ S36x8x128.size a
  k0_off507_inb : ∀ k0_t3 : Fin k0_t3_loop.trips, ∀ a, (k0_off507 k0_t3) a + S1x1x16.size a ≤ S36x8x128.size a
  k0_off508_inb : ∀ k0_t3 : Fin k0_t3_loop.trips, ∀ a, (k0_off508 k0_t3) a + S1x1x16.size a ≤ S36x8x128.size a
  k0_off509_inb : ∀ k0_t3 : Fin k0_t3_loop.trips, ∀ a, (k0_off509 k0_t3) a + S1x1x16.size a ≤ S36x8x128.size a
  k0_off510_inb : ∀ k0_t3 : Fin k0_t3_loop.trips, ∀ a, (k0_off510 k0_t3) a + S1x1x16.size a ≤ S36x8x128.size a
  k0_off511_inb : ∀ k0_t3 : Fin k0_t3_loop.trips, ∀ a, (k0_off511 k0_t3) a + S1x1x16.size a ≤ S36x8x128.size a
  k0_off512_inb : ∀ k0_t3 : Fin k0_t3_loop.trips, ∀ a, (k0_off512 k0_t3) a + S1x1x16.size a ≤ S36x8x128.size a
  k0_off513_inb : ∀ k0_t3 : Fin k0_t3_loop.trips, ∀ a, (k0_off513 k0_t3) a + S1x1x16.size a ≤ S36x8x128.size a
  k0_off514_inb : ∀ k0_t3 : Fin k0_t3_loop.trips, ∀ a, (k0_off514 k0_t3) a + S1x1x16.size a ≤ S36x8x128.size a
  k0_off515_inb : ∀ k0_t3 : Fin k0_t3_loop.trips, ∀ a, (k0_off515 k0_t3) a + S1x1x16.size a ≤ S36x8x128.size a
  k0_off516_inb : ∀ k0_t3 : Fin k0_t3_loop.trips, ∀ a, (k0_off516 k0_t3) a + S1x1x16.size a ≤ S36x8x128.size a
  k0_off517_inb : ∀ k0_t3 : Fin k0_t3_loop.trips, ∀ a, (k0_off517 k0_t3) a + S1x1x16.size a ≤ S36x8x128.size a
  k0_off518_inb : ∀ k0_t3 : Fin k0_t3_loop.trips, ∀ a, (k0_off518 k0_t3) a + S1x1x16.size a ≤ S36x8x128.size a
  k0_off519_inb : ∀ k0_t3 : Fin k0_t3_loop.trips, ∀ a, (k0_off519 k0_t3) a + S1x1x16.size a ≤ S36x8x128.size a
  k0_off520_inb : ∀ k0_t3 : Fin k0_t3_loop.trips, ∀ a, (k0_off520 k0_t3) a + S1x1x16.size a ≤ S36x8x128.size a
  k0_off521_inb : ∀ k0_t3 : Fin k0_t3_loop.trips, ∀ a, (k0_off521 k0_t3) a + S1x1x16.size a ≤ S36x8x128.size a
  k0_off522_inb : ∀ k0_t3 : Fin k0_t3_loop.trips, ∀ a, (k0_off522 k0_t3) a + S1x1x16.size a ≤ S36x8x128.size a
  k0_off523_inb : ∀ k0_t3 : Fin k0_t3_loop.trips, ∀ a, (k0_off523 k0_t3) a + S1x1x16.size a ≤ S12x8x128.size a
  k0_off524_inb : ∀ k0_t3 : Fin k0_t3_loop.trips, ∀ a, (k0_off524 k0_t3) a + S1x1x16.size a ≤ S12x8x128.size a
  k0_off525_inb : ∀ k0_t3 : Fin k0_t3_loop.trips, ∀ a, (k0_off525 k0_t3) a + S1x1x16.size a ≤ S12x8x128.size a
  k0_off526_inb : ∀ k0_t3 : Fin k0_t3_loop.trips, ∀ a, (k0_off526 k0_t3) a + S1x1x16.size a ≤ S12x8x128.size a
  k0_off527_inb : ∀ k0_t3 : Fin k0_t3_loop.trips, ∀ a, (k0_off527 k0_t3) a + S1x1x16.size a ≤ S12x8x128.size a
  k0_off528_inb : ∀ k0_t3 : Fin k0_t3_loop.trips, ∀ a, (k0_off528 k0_t3) a + S1x1x16.size a ≤ S12x8x128.size a
  k0_off529_inb : ∀ k0_t3 : Fin k0_t3_loop.trips, ∀ a, (k0_off529 k0_t3) a + S1x1x16.size a ≤ S12x8x128.size a
  k0_off530_inb : ∀ k0_t3 : Fin k0_t3_loop.trips, ∀ a, (k0_off530 k0_t3) a + S1x1x16.size a ≤ S12x8x128.size a
  k0_off531_inb : ∀ k0_t3 : Fin k0_t3_loop.trips, ∀ a, (k0_off531 k0_t3) a + S1x1x16.size a ≤ S12x8x128.size a
  k0_off532_inb : ∀ k0_t3 : Fin k0_t3_loop.trips, ∀ a, (k0_off532 k0_t3) a + S1x1x16.size a ≤ S12x8x128.size a
  k0_off533_inb : ∀ k0_t3 : Fin k0_t3_loop.trips, ∀ a, (k0_off533 k0_t3) a + S1x1x16.size a ≤ S12x8x128.size a
  k0_off534_inb : ∀ k0_t3 : Fin k0_t3_loop.trips, ∀ a, (k0_off534 k0_t3) a + S1x1x16.size a ≤ S12x8x128.size a
  k0_off535_inb : ∀ k0_t3 : Fin k0_t3_loop.trips, ∀ a, (k0_off535 k0_t3) a + S1x1x16.size a ≤ S36x8x128.size a
  k0_off536_inb : ∀ k0_t3 : Fin k0_t3_loop.trips, ∀ a, (k0_off536 k0_t3) a + S1x1x16.size a ≤ S36x8x128.size a
  k0_off537_inb : ∀ k0_t3 : Fin k0_t3_loop.trips, ∀ a, (k0_off537 k0_t3) a + S1x1x16.size a ≤ S36x8x128.size a
  k0_off538_inb : ∀ k0_t3 : Fin k0_t3_loop.trips, ∀ a, (k0_off538 k0_t3) a + S1x1x16.size a ≤ S36x8x128.size a
  k0_off539_inb : ∀ k0_t3 : Fin k0_t3_loop.trips, ∀ a, (k0_off539 k0_t3) a + S1x1x16.size a ≤ S36x8x128.size a
  k0_off540_inb : ∀ k0_t3 : Fin k0_t3_loop.trips, ∀ a, (k0_off540 k0_t3) a + S1x1x16.size a ≤ S36x8x128.size a
  k0_off541_inb : ∀ k0_t3 : Fin k0_t3_loop.trips, ∀ a, (k0_off541 k0_t3) a + S1x1x16.size a ≤ S36x8x128.size a
  k0_off542_inb : ∀ k0_t3 : Fin k0_t3_loop.trips, ∀ a, (k0_off542 k0_t3) a + S1x1x16.size a ≤ S36x8x128.size a
  k0_off543_inb : ∀ k0_t3 : Fin k0_t3_loop.trips, ∀ a, (k0_off543 k0_t3) a + S1x1x16.size a ≤ S36x8x128.size a
  k0_off544_inb : ∀ k0_t3 : Fin k0_t3_loop.trips, ∀ a, (k0_off544 k0_t3) a + S1x1x16.size a ≤ S36x8x128.size a
  k0_off545_inb : ∀ k0_t3 : Fin k0_t3_loop.trips, ∀ a, (k0_off545 k0_t3) a + S1x1x16.size a ≤ S36x8x128.size a
  k0_off546_inb : ∀ k0_t3 : Fin k0_t3_loop.trips, ∀ a, (k0_off546 k0_t3) a + S1x1x16.size a ≤ S36x8x128.size a
  k0_off547_inb : ∀ k0_t3 : Fin k0_t3_loop.trips, ∀ a, (k0_off547 k0_t3) a + S1x1x16.size a ≤ S36x8x128.size a
  k0_off548_inb : ∀ k0_t3 : Fin k0_t3_loop.trips, ∀ a, (k0_off548 k0_t3) a + S1x1x16.size a ≤ S36x8x128.size a
  k0_off549_inb : ∀ k0_t3 : Fin k0_t3_loop.trips, ∀ a, (k0_off549 k0_t3) a + S1x1x16.size a ≤ S36x8x128.size a
  k0_off550_inb : ∀ k0_t3 : Fin k0_t3_loop.trips, ∀ a, (k0_off550 k0_t3) a + S1x1x16.size a ≤ S36x8x128.size a
  k0_off551_inb : ∀ k0_t3 : Fin k0_t3_loop.trips, ∀ a, (k0_off551 k0_t3) a + S1x1x16.size a ≤ S36x8x128.size a
  k0_off552_inb : ∀ k0_t3 : Fin k0_t3_loop.trips, ∀ a, (k0_off552 k0_t3) a + S1x1x16.size a ≤ S36x8x128.size a
  k0_off553_inb : ∀ k0_t3 : Fin k0_t3_loop.trips, ∀ a, (k0_off553 k0_t3) a + S1x1x16.size a ≤ S36x8x128.size a
  k0_off554_inb : ∀ k0_t3 : Fin k0_t3_loop.trips, ∀ a, (k0_off554 k0_t3) a + S1x1x16.size a ≤ S36x8x128.size a
  k0_off555_inb : ∀ k0_t3 : Fin k0_t3_loop.trips, ∀ a, (k0_off555 k0_t3) a + S1x1x16.size a ≤ S36x8x128.size a
  k0_off556_inb : ∀ k0_t3 : Fin k0_t3_loop.trips, ∀ a, (k0_off556 k0_t3) a + S1x1x16.size a ≤ S36x8x128.size a
  k0_off557_inb : ∀ k0_t3 : Fin k0_t3_loop.trips, ∀ a, (k0_off557 k0_t3) a + S1x1x16.size a ≤ S36x8x128.size a
  k0_off558_inb : ∀ k0_t3 : Fin k0_t3_loop.trips, ∀ a, (k0_off558 k0_t3) a + S1x1x16.size a ≤ S36x8x128.size a
  k0_off559_inb : ∀ k0_t3 : Fin k0_t3_loop.trips, ∀ a, (k0_off559 k0_t3) a + S1x1x16.size a ≤ S36x8x128.size a
  k0_off560_inb : ∀ k0_t3 : Fin k0_t3_loop.trips, ∀ a, (k0_off560 k0_t3) a + S1x1x16.size a ≤ S36x8x128.size a
  k0_off561_inb : ∀ k0_t3 : Fin k0_t3_loop.trips, ∀ a, (k0_off561 k0_t3) a + S1x1x16.size a ≤ S36x8x128.size a
  k0_off562_inb : ∀ k0_t3 : Fin k0_t3_loop.trips, ∀ a, (k0_off562 k0_t3) a + S1x1x16.size a ≤ S36x8x128.size a
  k0_off563_inb : ∀ k0_t3 : Fin k0_t3_loop.trips, ∀ a, (k0_off563 k0_t3) a + S1x1x16.size a ≤ S36x8x128.size a
  k0_off564_inb : ∀ k0_t3 : Fin k0_t3_loop.trips, ∀ a, (k0_off564 k0_t3) a + S1x1x16.size a ≤ S36x8x128.size a
  k0_off565_inb : ∀ k0_t3 : Fin k0_t3_loop.trips, ∀ a, (k0_off565 k0_t3) a + S1x1x16.size a ≤ S36x8x128.size a
  k0_off566_inb : ∀ k0_t3 : Fin k0_t3_loop.trips, ∀ a, (k0_off566 k0_t3) a + S1x1x16.size a ≤ S36x8x128.size a
  k0_off567_inb : ∀ k0_t3 : Fin k0_t3_loop.trips, ∀ a, (k0_off567 k0_t3) a + S1x1x16.size a ≤ S36x8x128.size a
  k0_off568_inb : ∀ k0_t3 : Fin k0_t3_loop.trips, ∀ a, (k0_off568 k0_t3) a + S1x1x16.size a ≤ S36x8x128.size a
  k0_off569_inb : ∀ k0_t3 : Fin k0_t3_loop.trips, ∀ a, (k0_off569 k0_t3) a + S1x1x16.size a ≤ S36x8x128.size a
  k0_off570_inb : ∀ k0_t3 : Fin k0_t3_loop.trips, ∀ a, (k0_off570 k0_t3) a + S1x1x16.size a ≤ S36x8x128.size a
  k0_off571_inb : ∀ k0_t3 : Fin k0_t3_loop.trips, ∀ a, (k0_off571 k0_t3) a + S1x1x16.size a ≤ S12x8x128.size a
  k0_off572_inb : ∀ k0_t3 : Fin k0_t3_loop.trips, ∀ a, (k0_off572 k0_t3) a + S1x1x16.size a ≤ S12x8x128.size a
  k0_off573_inb : ∀ k0_t3 : Fin k0_t3_loop.trips, ∀ a, (k0_off573 k0_t3) a + S1x1x16.size a ≤ S12x8x128.size a
  k0_off574_inb : ∀ k0_t3 : Fin k0_t3_loop.trips, ∀ a, (k0_off574 k0_t3) a + S1x1x16.size a ≤ S12x8x128.size a
  k0_off575_inb : ∀ k0_t3 : Fin k0_t3_loop.trips, ∀ a, (k0_off575 k0_t3) a + S1x1x16.size a ≤ S12x8x128.size a
  k0_off576_inb : ∀ k0_t3 : Fin k0_t3_loop.trips, ∀ a, (k0_off576 k0_t3) a + S1x1x16.size a ≤ S12x8x128.size a
  k0_off577_inb : ∀ k0_t3 : Fin k0_t3_loop.trips, ∀ a, (k0_off577 k0_t3) a + S1x1x16.size a ≤ S12x8x128.size a
  k0_off578_inb : ∀ k0_t3 : Fin k0_t3_loop.trips, ∀ a, (k0_off578 k0_t3) a + S1x1x16.size a ≤ S12x8x128.size a
  k0_off579_inb : ∀ k0_t3 : Fin k0_t3_loop.trips, ∀ a, (k0_off579 k0_t3) a + S1x1x16.size a ≤ S12x8x128.size a
  k0_off580_inb : ∀ k0_t3 : Fin k0_t3_loop.trips, ∀ a, (k0_off580 k0_t3) a + S1x1x16.size a ≤ S12x8x128.size a
  k0_off581_inb : ∀ k0_t3 : Fin k0_t3_loop.trips, ∀ a, (k0_off581 k0_t3) a + S1x1x16.size a ≤ S12x8x128.size a
  k0_off582_inb : ∀ k0_t3 : Fin k0_t3_loop.trips, ∀ a, (k0_off582 k0_t3) a + S1x1x16.size a ≤ S12x8x128.size a
  k0_off583_inb : ∀ k0_t3 : Fin k0_t3_loop.trips, ∀ a, (k0_off583 k0_t3) a + S1x1x16.size a ≤ S36x8x128.size a
  k0_off584_inb : ∀ k0_t3 : Fin k0_t3_loop.trips, ∀ a, (k0_off584 k0_t3) a + S1x1x16.size a ≤ S36x8x128.size a
  k0_off585_inb : ∀ k0_t3 : Fin k0_t3_loop.trips, ∀ a, (k0_off585 k0_t3) a + S1x1x16.size a ≤ S36x8x128.size a
  k0_off586_inb : ∀ k0_t3 : Fin k0_t3_loop.trips, ∀ a, (k0_off586 k0_t3) a + S1x1x16.size a ≤ S36x8x128.size a
  k0_off587_inb : ∀ k0_t3 : Fin k0_t3_loop.trips, ∀ a, (k0_off587 k0_t3) a + S1x1x16.size a ≤ S36x8x128.size a
  k0_off588_inb : ∀ k0_t3 : Fin k0_t3_loop.trips, ∀ a, (k0_off588 k0_t3) a + S1x1x16.size a ≤ S36x8x128.size a
  k0_off589_inb : ∀ k0_t3 : Fin k0_t3_loop.trips, ∀ a, (k0_off589 k0_t3) a + S1x1x16.size a ≤ S36x8x128.size a
  k0_off590_inb : ∀ k0_t3 : Fin k0_t3_loop.trips, ∀ a, (k0_off590 k0_t3) a + S1x1x16.size a ≤ S36x8x128.size a
  k0_off591_inb : ∀ k0_t3 : Fin k0_t3_loop.trips, ∀ a, (k0_off591 k0_t3) a + S1x1x16.size a ≤ S36x8x128.size a
  k0_off592_inb : ∀ k0_t3 : Fin k0_t3_loop.trips, ∀ a, (k0_off592 k0_t3) a + S1x1x16.size a ≤ S36x8x128.size a
  k0_off593_inb : ∀ k0_t3 : Fin k0_t3_loop.trips, ∀ a, (k0_off593 k0_t3) a + S1x1x16.size a ≤ S36x8x128.size a
  k0_off594_inb : ∀ k0_t3 : Fin k0_t3_loop.trips, ∀ a, (k0_off594 k0_t3) a + S1x1x16.size a ≤ S36x8x128.size a
  k0_off595_inb : ∀ k0_t3 : Fin k0_t3_loop.trips, ∀ a, (k0_off595 k0_t3) a + S1x1x16.size a ≤ S36x8x128.size a
  k0_off596_inb : ∀ k0_t3 : Fin k0_t3_loop.trips, ∀ a, (k0_off596 k0_t3) a + S1x1x16.size a ≤ S36x8x128.size a
  k0_off597_inb : ∀ k0_t3 : Fin k0_t3_loop.trips, ∀ a, (k0_off597 k0_t3) a + S1x1x16.size a ≤ S36x8x128.size a
  k0_off598_inb : ∀ k0_t3 : Fin k0_t3_loop.trips, ∀ a, (k0_off598 k0_t3) a + S1x1x16.size a ≤ S36x8x128.size a
  k0_off599_inb : ∀ k0_t3 : Fin k0_t3_loop.trips, ∀ a, (k0_off599 k0_t3) a + S1x1x16.size a ≤ S36x8x128.size a
  k0_off600_inb : ∀ k0_t3 : Fin k0_t3_loop.trips, ∀ a, (k0_off600 k0_t3) a + S1x1x16.size a ≤ S36x8x128.size a
  k0_off601_inb : ∀ k0_t3 : Fin k0_t3_loop.trips, ∀ a, (k0_off601 k0_t3) a + S1x1x16.size a ≤ S36x8x128.size a
  k0_off602_inb : ∀ k0_t3 : Fin k0_t3_loop.trips, ∀ a, (k0_off602 k0_t3) a + S1x1x16.size a ≤ S36x8x128.size a
  k0_off603_inb : ∀ k0_t3 : Fin k0_t3_loop.trips, ∀ a, (k0_off603 k0_t3) a + S1x1x16.size a ≤ S36x8x128.size a
  k0_off604_inb : ∀ k0_t3 : Fin k0_t3_loop.trips, ∀ a, (k0_off604 k0_t3) a + S1x1x16.size a ≤ S36x8x128.size a
  k0_off605_inb : ∀ k0_t3 : Fin k0_t3_loop.trips, ∀ a, (k0_off605 k0_t3) a + S1x1x16.size a ≤ S36x8x128.size a
  k0_off606_inb : ∀ k0_t3 : Fin k0_t3_loop.trips, ∀ a, (k0_off606 k0_t3) a + S1x1x16.size a ≤ S36x8x128.size a
  k0_off607_inb : ∀ k0_t3 : Fin k0_t3_loop.trips, ∀ a, (k0_off607 k0_t3) a + S1x1x16.size a ≤ S36x8x128.size a
  k0_off608_inb : ∀ k0_t3 : Fin k0_t3_loop.trips, ∀ a, (k0_off608 k0_t3) a + S1x1x16.size a ≤ S36x8x128.size a
  k0_off609_inb : ∀ k0_t3 : Fin k0_t3_loop.trips, ∀ a, (k0_off609 k0_t3) a + S1x1x16.size a ≤ S36x8x128.size a
  k0_off610_inb : ∀ k0_t3 : Fin k0_t3_loop.trips, ∀ a, (k0_off610 k0_t3) a + S1x1x16.size a ≤ S36x8x128.size a
  k0_off611_inb : ∀ k0_t3 : Fin k0_t3_loop.trips, ∀ a, (k0_off611 k0_t3) a + S1x1x16.size a ≤ S36x8x128.size a
  k0_off612_inb : ∀ k0_t3 : Fin k0_t3_loop.trips, ∀ a, (k0_off612 k0_t3) a + S1x1x16.size a ≤ S36x8x128.size a
  k0_off613_inb : ∀ k0_t3 : Fin k0_t3_loop.trips, ∀ a, (k0_off613 k0_t3) a + S1x1x16.size a ≤ S36x8x128.size a
  k0_off614_inb : ∀ k0_t3 : Fin k0_t3_loop.trips, ∀ a, (k0_off614 k0_t3) a + S1x1x16.size a ≤ S36x8x128.size a
  k0_off615_inb : ∀ k0_t3 : Fin k0_t3_loop.trips, ∀ a, (k0_off615 k0_t3) a + S1x1x16.size a ≤ S36x8x128.size a
  k0_off616_inb : ∀ k0_t3 : Fin k0_t3_loop.trips, ∀ a, (k0_off616 k0_t3) a + S1x1x16.size a ≤ S36x8x128.size a
  k0_off617_inb : ∀ k0_t3 : Fin k0_t3_loop.trips, ∀ a, (k0_off617 k0_t3) a + S1x1x16.size a ≤ S36x8x128.size a
  k0_off618_inb : ∀ k0_t3 : Fin k0_t3_loop.trips, ∀ a, (k0_off618 k0_t3) a + S1x1x16.size a ≤ S36x8x128.size a
  k0_off619_inb : ∀ k0_t3 : Fin k0_t3_loop.trips, ∀ a, (k0_off619 k0_t3) a + S1x1x16.size a ≤ S12x8x128.size a
  k0_off620_inb : ∀ k0_t3 : Fin k0_t3_loop.trips, ∀ a, (k0_off620 k0_t3) a + S1x1x16.size a ≤ S12x8x128.size a
  k0_off621_inb : ∀ k0_t3 : Fin k0_t3_loop.trips, ∀ a, (k0_off621 k0_t3) a + S1x1x16.size a ≤ S12x8x128.size a
  k0_off622_inb : ∀ k0_t3 : Fin k0_t3_loop.trips, ∀ a, (k0_off622 k0_t3) a + S1x1x16.size a ≤ S12x8x128.size a
  k0_off623_inb : ∀ k0_t3 : Fin k0_t3_loop.trips, ∀ a, (k0_off623 k0_t3) a + S1x1x16.size a ≤ S12x8x128.size a
  k0_off624_inb : ∀ k0_t3 : Fin k0_t3_loop.trips, ∀ a, (k0_off624 k0_t3) a + S1x1x16.size a ≤ S12x8x128.size a
  k0_off625_inb : ∀ k0_t3 : Fin k0_t3_loop.trips, ∀ a, (k0_off625 k0_t3) a + S1x1x16.size a ≤ S12x8x128.size a
  k0_off626_inb : ∀ k0_t3 : Fin k0_t3_loop.trips, ∀ a, (k0_off626 k0_t3) a + S1x1x16.size a ≤ S12x8x128.size a
  k0_off627_inb : ∀ k0_t3 : Fin k0_t3_loop.trips, ∀ a, (k0_off627 k0_t3) a + S1x1x16.size a ≤ S12x8x128.size a
  k0_off628_inb : ∀ k0_t3 : Fin k0_t3_loop.trips, ∀ a, (k0_off628 k0_t3) a + S1x1x16.size a ≤ S12x8x128.size a
  k0_off629_inb : ∀ k0_t3 : Fin k0_t3_loop.trips, ∀ a, (k0_off629 k0_t3) a + S1x1x16.size a ≤ S12x8x128.size a
  k0_off630_inb : ∀ k0_t3 : Fin k0_t3_loop.trips, ∀ a, (k0_off630 k0_t3) a + S1x1x16.size a ≤ S12x8x128.size a
  k0_off631_inb : ∀ k0_t3 : Fin k0_t3_loop.trips, ∀ a, (k0_off631 k0_t3) a + S1x1x16.size a ≤ S36x8x128.size a
  k0_off632_inb : ∀ k0_t3 : Fin k0_t3_loop.trips, ∀ a, (k0_off632 k0_t3) a + S1x1x16.size a ≤ S36x8x128.size a
  k0_off633_inb : ∀ k0_t3 : Fin k0_t3_loop.trips, ∀ a, (k0_off633 k0_t3) a + S1x1x16.size a ≤ S36x8x128.size a
  k0_off634_inb : ∀ k0_t3 : Fin k0_t3_loop.trips, ∀ a, (k0_off634 k0_t3) a + S1x1x16.size a ≤ S36x8x128.size a
  k0_off635_inb : ∀ k0_t3 : Fin k0_t3_loop.trips, ∀ a, (k0_off635 k0_t3) a + S1x1x16.size a ≤ S36x8x128.size a
  k0_off636_inb : ∀ k0_t3 : Fin k0_t3_loop.trips, ∀ a, (k0_off636 k0_t3) a + S1x1x16.size a ≤ S36x8x128.size a
  k0_off637_inb : ∀ k0_t3 : Fin k0_t3_loop.trips, ∀ a, (k0_off637 k0_t3) a + S1x1x16.size a ≤ S36x8x128.size a
  k0_off638_inb : ∀ k0_t3 : Fin k0_t3_loop.trips, ∀ a, (k0_off638 k0_t3) a + S1x1x16.size a ≤ S36x8x128.size a
  k0_off639_inb : ∀ k0_t3 : Fin k0_t3_loop.trips, ∀ a, (k0_off639 k0_t3) a + S1x1x16.size a ≤ S36x8x128.size a
  k0_off640_inb : ∀ k0_t3 : Fin k0_t3_loop.trips, ∀ a, (k0_off640 k0_t3) a + S1x1x16.size a ≤ S36x8x128.size a
  k0_off641_inb : ∀ k0_t3 : Fin k0_t3_loop.trips, ∀ a, (k0_off641 k0_t3) a + S1x1x16.size a ≤ S36x8x128.size a
  k0_off642_inb : ∀ k0_t3 : Fin k0_t3_loop.trips, ∀ a, (k0_off642 k0_t3) a + S1x1x16.size a ≤ S36x8x128.size a
  k0_off643_inb : ∀ k0_t3 : Fin k0_t3_loop.trips, ∀ a, (k0_off643 k0_t3) a + S1x1x16.size a ≤ S36x8x128.size a
  k0_off644_inb : ∀ k0_t3 : Fin k0_t3_loop.trips, ∀ a, (k0_off644 k0_t3) a + S1x1x16.size a ≤ S36x8x128.size a
  k0_off645_inb : ∀ k0_t3 : Fin k0_t3_loop.trips, ∀ a, (k0_off645 k0_t3) a + S1x1x16.size a ≤ S36x8x128.size a
  k0_off646_inb : ∀ k0_t3 : Fin k0_t3_loop.trips, ∀ a, (k0_off646 k0_t3) a + S1x1x16.size a ≤ S36x8x128.size a
  k0_off647_inb : ∀ k0_t3 : Fin k0_t3_loop.trips, ∀ a, (k0_off647 k0_t3) a + S1x1x16.size a ≤ S36x8x128.size a
  k0_off648_inb : ∀ k0_t3 : Fin k0_t3_loop.trips, ∀ a, (k0_off648 k0_t3) a + S1x1x16.size a ≤ S36x8x128.size a
  k0_off649_inb : ∀ k0_t3 : Fin k0_t3_loop.trips, ∀ a, (k0_off649 k0_t3) a + S1x1x16.size a ≤ S36x8x128.size a
  k0_off650_inb : ∀ k0_t3 : Fin k0_t3_loop.trips, ∀ a, (k0_off650 k0_t3) a + S1x1x16.size a ≤ S36x8x128.size a
  k0_off651_inb : ∀ k0_t3 : Fin k0_t3_loop.trips, ∀ a, (k0_off651 k0_t3) a + S1x1x16.size a ≤ S36x8x128.size a
  k0_off652_inb : ∀ k0_t3 : Fin k0_t3_loop.trips, ∀ a, (k0_off652 k0_t3) a + S1x1x16.size a ≤ S36x8x128.size a
  k0_off653_inb : ∀ k0_t3 : Fin k0_t3_loop.trips, ∀ a, (k0_off653 k0_t3) a + S1x1x16.size a ≤ S36x8x128.size a
  k0_off654_inb : ∀ k0_t3 : Fin k0_t3_loop.trips, ∀ a, (k0_off654 k0_t3) a + S1x1x16.size a ≤ S36x8x128.size a
  k0_off655_inb : ∀ k0_t3 : Fin k0_t3_loop.trips, ∀ a, (k0_off655 k0_t3) a + S1x1x16.size a ≤ S36x8x128.size a
  k0_off656_inb : ∀ k0_t3 : Fin k0_t3_loop.trips, ∀ a, (k0_off656 k0_t3) a + S1x1x16.size a ≤ S36x8x128.size a
  k0_off657_inb : ∀ k0_t3 : Fin k0_t3_loop.trips, ∀ a, (k0_off657 k0_t3) a + S1x1x16.size a ≤ S36x8x128.size a
  k0_off658_inb : ∀ k0_t3 : Fin k0_t3_loop.trips, ∀ a, (k0_off658 k0_t3) a + S1x1x16.size a ≤ S36x8x128.size a
  k0_off659_inb : ∀ k0_t3 : Fin k0_t3_loop.trips, ∀ a, (k0_off659 k0_t3) a + S1x1x16.size a ≤ S36x8x128.size a
  k0_off660_inb : ∀ k0_t3 : Fin k0_t3_loop.trips, ∀ a, (k0_off660 k0_t3) a + S1x1x16.size a ≤ S36x8x128.size a
  k0_off661_inb : ∀ k0_t3 : Fin k0_t3_loop.trips, ∀ a, (k0_off661 k0_t3) a + S1x1x16.size a ≤ S36x8x128.size a
  k0_off662_inb : ∀ k0_t3 : Fin k0_t3_loop.trips, ∀ a, (k0_off662 k0_t3) a + S1x1x16.size a ≤ S36x8x128.size a
  k0_off663_inb : ∀ k0_t3 : Fin k0_t3_loop.trips, ∀ a, (k0_off663 k0_t3) a + S1x1x16.size a ≤ S36x8x128.size a
  k0_off664_inb : ∀ k0_t3 : Fin k0_t3_loop.trips, ∀ a, (k0_off664 k0_t3) a + S1x1x16.size a ≤ S36x8x128.size a
  k0_off665_inb : ∀ k0_t3 : Fin k0_t3_loop.trips, ∀ a, (k0_off665 k0_t3) a + S1x1x16.size a ≤ S36x8x128.size a
  k0_off666_inb : ∀ k0_t3 : Fin k0_t3_loop.trips, ∀ a, (k0_off666 k0_t3) a + S1x1x16.size a ≤ S36x8x128.size a
  k0_off667_inb : ∀ k0_t3 : Fin k0_t3_loop.trips, ∀ a, (k0_off667 k0_t3) a + S1x1x16.size a ≤ S12x8x128.size a
  k0_off668_inb : ∀ k0_t3 : Fin k0_t3_loop.trips, ∀ a, (k0_off668 k0_t3) a + S1x1x16.size a ≤ S12x8x128.size a
  k0_off669_inb : ∀ k0_t3 : Fin k0_t3_loop.trips, ∀ a, (k0_off669 k0_t3) a + S1x1x16.size a ≤ S12x8x128.size a
  k0_off670_inb : ∀ k0_t3 : Fin k0_t3_loop.trips, ∀ a, (k0_off670 k0_t3) a + S1x1x16.size a ≤ S12x8x128.size a
  k0_off671_inb : ∀ k0_t3 : Fin k0_t3_loop.trips, ∀ a, (k0_off671 k0_t3) a + S1x1x16.size a ≤ S12x8x128.size a
  k0_off672_inb : ∀ k0_t3 : Fin k0_t3_loop.trips, ∀ a, (k0_off672 k0_t3) a + S1x1x16.size a ≤ S12x8x128.size a
  k0_off673_inb : ∀ k0_t3 : Fin k0_t3_loop.trips, ∀ a, (k0_off673 k0_t3) a + S1x1x16.size a ≤ S12x8x128.size a
  k0_off674_inb : ∀ k0_t3 : Fin k0_t3_loop.trips, ∀ a, (k0_off674 k0_t3) a + S1x1x16.size a ≤ S12x8x128.size a
  k0_off675_inb : ∀ k0_t3 : Fin k0_t3_loop.trips, ∀ a, (k0_off675 k0_t3) a + S1x1x16.size a ≤ S12x8x128.size a
  k0_off676_inb : ∀ k0_t3 : Fin k0_t3_loop.trips, ∀ a, (k0_off676 k0_t3) a + S1x1x16.size a ≤ S12x8x128.size a
  k0_off677_inb : ∀ k0_t3 : Fin k0_t3_loop.trips, ∀ a, (k0_off677 k0_t3) a + S1x1x16.size a ≤ S12x8x128.size a
  k0_off678_inb : ∀ k0_t3 : Fin k0_t3_loop.trips, ∀ a, (k0_off678 k0_t3) a + S1x1x16.size a ≤ S12x8x128.size a
  k0_off679_inb : ∀ k0_t3 : Fin k0_t3_loop.trips, ∀ a, (k0_off679 k0_t3) a + S1x1x16.size a ≤ S36x8x128.size a
  k0_off680_inb : ∀ k0_t3 : Fin k0_t3_loop.trips, ∀ a, (k0_off680 k0_t3) a + S1x1x16.size a ≤ S36x8x128.size a
  k0_off681_inb : ∀ k0_t3 : Fin k0_t3_loop.trips, ∀ a, (k0_off681 k0_t3) a + S1x1x16.size a ≤ S36x8x128.size a
  k0_off682_inb : ∀ k0_t3 : Fin k0_t3_loop.trips, ∀ a, (k0_off682 k0_t3) a + S1x1x16.size a ≤ S36x8x128.size a
  k0_off683_inb : ∀ k0_t3 : Fin k0_t3_loop.trips, ∀ a, (k0_off683 k0_t3) a + S1x1x16.size a ≤ S36x8x128.size a
  k0_off684_inb : ∀ k0_t3 : Fin k0_t3_loop.trips, ∀ a, (k0_off684 k0_t3) a + S1x1x16.size a ≤ S36x8x128.size a
  k0_off685_inb : ∀ k0_t3 : Fin k0_t3_loop.trips, ∀ a, (k0_off685 k0_t3) a + S1x1x16.size a ≤ S36x8x128.size a
  k0_off686_inb : ∀ k0_t3 : Fin k0_t3_loop.trips, ∀ a, (k0_off686 k0_t3) a + S1x1x16.size a ≤ S36x8x128.size a
  k0_off687_inb : ∀ k0_t3 : Fin k0_t3_loop.trips, ∀ a, (k0_off687 k0_t3) a + S1x1x16.size a ≤ S36x8x128.size a
  k0_off688_inb : ∀ k0_t3 : Fin k0_t3_loop.trips, ∀ a, (k0_off688 k0_t3) a + S1x1x16.size a ≤ S36x8x128.size a
  k0_off689_inb : ∀ k0_t3 : Fin k0_t3_loop.trips, ∀ a, (k0_off689 k0_t3) a + S1x1x16.size a ≤ S36x8x128.size a
  k0_off690_inb : ∀ k0_t3 : Fin k0_t3_loop.trips, ∀ a, (k0_off690 k0_t3) a + S1x1x16.size a ≤ S36x8x128.size a
  k0_off691_inb : ∀ k0_t3 : Fin k0_t3_loop.trips, ∀ a, (k0_off691 k0_t3) a + S1x1x16.size a ≤ S36x8x128.size a
  k0_off692_inb : ∀ k0_t3 : Fin k0_t3_loop.trips, ∀ a, (k0_off692 k0_t3) a + S1x1x16.size a ≤ S36x8x128.size a
  k0_off693_inb : ∀ k0_t3 : Fin k0_t3_loop.trips, ∀ a, (k0_off693 k0_t3) a + S1x1x16.size a ≤ S36x8x128.size a
  k0_off694_inb : ∀ k0_t3 : Fin k0_t3_loop.trips, ∀ a, (k0_off694 k0_t3) a + S1x1x16.size a ≤ S36x8x128.size a
  k0_off695_inb : ∀ k0_t3 : Fin k0_t3_loop.trips, ∀ a, (k0_off695 k0_t3) a + S1x1x16.size a ≤ S36x8x128.size a
  k0_off696_inb : ∀ k0_t3 : Fin k0_t3_loop.trips, ∀ a, (k0_off696 k0_t3) a + S1x1x16.size a ≤ S36x8x128.size a
  k0_off697_inb : ∀ k0_t3 : Fin k0_t3_loop.trips, ∀ a, (k0_off697 k0_t3) a + S1x1x16.size a ≤ S36x8x128.size a
  k0_off698_inb : ∀ k0_t3 : Fin k0_t3_loop.trips, ∀ a, (k0_off698 k0_t3) a + S1x1x16.size a ≤ S36x8x128.size a
  k0_off699_inb : ∀ k0_t3 : Fin k0_t3_loop.trips, ∀ a, (k0_off699 k0_t3) a + S1x1x16.size a ≤ S36x8x128.size a
  k0_off700_inb : ∀ k0_t3 : Fin k0_t3_loop.trips, ∀ a, (k0_off700 k0_t3) a + S1x1x16.size a ≤ S36x8x128.size a
  k0_off701_inb : ∀ k0_t3 : Fin k0_t3_loop.trips, ∀ a, (k0_off701 k0_t3) a + S1x1x16.size a ≤ S36x8x128.size a
  k0_off702_inb : ∀ k0_t3 : Fin k0_t3_loop.trips, ∀ a, (k0_off702 k0_t3) a + S1x1x16.size a ≤ S36x8x128.size a
  k0_off703_inb : ∀ k0_t3 : Fin k0_t3_loop.trips, ∀ a, (k0_off703 k0_t3) a + S1x1x16.size a ≤ S36x8x128.size a
  k0_off704_inb : ∀ k0_t3 : Fin k0_t3_loop.trips, ∀ a, (k0_off704 k0_t3) a + S1x1x16.size a ≤ S36x8x128.size a
  k0_off705_inb : ∀ k0_t3 : Fin k0_t3_loop.trips, ∀ a, (k0_off705 k0_t3) a + S1x1x16.size a ≤ S36x8x128.size a
  k0_off706_inb : ∀ k0_t3 : Fin k0_t3_loop.trips, ∀ a, (k0_off706 k0_t3) a + S1x1x16.size a ≤ S36x8x128.size a
  k0_off707_inb : ∀ k0_t3 : Fin k0_t3_loop.trips, ∀ a, (k0_off707 k0_t3) a + S1x1x16.size a ≤ S36x8x128.size a
  k0_off708_inb : ∀ k0_t3 : Fin k0_t3_loop.trips, ∀ a, (k0_off708 k0_t3) a + S1x1x16.size a ≤ S36x8x128.size a
  k0_off709_inb : ∀ k0_t3 : Fin k0_t3_loop.trips, ∀ a, (k0_off709 k0_t3) a + S1x1x16.size a ≤ S36x8x128.size a
  k0_off710_inb : ∀ k0_t3 : Fin k0_t3_loop.trips, ∀ a, (k0_off710 k0_t3) a + S1x1x16.size a ≤ S36x8x128.size a
  k0_off711_inb : ∀ k0_t3 : Fin k0_t3_loop.trips, ∀ a, (k0_off711 k0_t3) a + S1x1x16.size a ≤ S36x8x128.size a
  k0_off712_inb : ∀ k0_t3 : Fin k0_t3_loop.trips, ∀ a, (k0_off712 k0_t3) a + S1x1x16.size a ≤ S36x8x128.size a
  k0_off713_inb : ∀ k0_t3 : Fin k0_t3_loop.trips, ∀ a, (k0_off713 k0_t3) a + S1x1x16.size a ≤ S36x8x128.size a
  k0_off714_inb : ∀ k0_t3 : Fin k0_t3_loop.trips, ∀ a, (k0_off714 k0_t3) a + S1x1x16.size a ≤ S36x8x128.size a
  k0_off715_inb : ∀ k0_t3 : Fin k0_t3_loop.trips, ∀ a, (k0_off715 k0_t3) a + S1x1x16.size a ≤ S12x8x128.size a
  k0_off716_inb : ∀ k0_t3 : Fin k0_t3_loop.trips, ∀ a, (k0_off716 k0_t3) a + S1x1x16.size a ≤ S12x8x128.size a
  k0_off717_inb : ∀ k0_t3 : Fin k0_t3_loop.trips, ∀ a, (k0_off717 k0_t3) a + S1x1x16.size a ≤ S12x8x128.size a
  k0_off718_inb : ∀ k0_t3 : Fin k0_t3_loop.trips, ∀ a, (k0_off718 k0_t3) a + S1x1x16.size a ≤ S12x8x128.size a
  k0_off719_inb : ∀ k0_t3 : Fin k0_t3_loop.trips, ∀ a, (k0_off719 k0_t3) a + S1x1x16.size a ≤ S12x8x128.size a
  k0_off720_inb : ∀ k0_t3 : Fin k0_t3_loop.trips, ∀ a, (k0_off720 k0_t3) a + S1x1x16.size a ≤ S12x8x128.size a
  k0_off721_inb : ∀ k0_t3 : Fin k0_t3_loop.trips, ∀ a, (k0_off721 k0_t3) a + S1x1x16.size a ≤ S12x8x128.size a
  k0_off722_inb : ∀ k0_t3 : Fin k0_t3_loop.trips, ∀ a, (k0_off722 k0_t3) a + S1x1x16.size a ≤ S12x8x128.size a
  k0_off723_inb : ∀ k0_t3 : Fin k0_t3_loop.trips, ∀ a, (k0_off723 k0_t3) a + S1x1x16.size a ≤ S12x8x128.size a
  k0_off724_inb : ∀ k0_t3 : Fin k0_t3_loop.trips, ∀ a, (k0_off724 k0_t3) a + S1x1x16.size a ≤ S12x8x128.size a
  k0_off725_inb : ∀ k0_t3 : Fin k0_t3_loop.trips, ∀ a, (k0_off725 k0_t3) a + S1x1x16.size a ≤ S12x8x128.size a
  k0_off726_inb : ∀ k0_t3 : Fin k0_t3_loop.trips, ∀ a, (k0_off726 k0_t3) a + S1x1x16.size a ≤ S12x8x128.size a
  k0_off727_inb : ∀ k0_t3 : Fin k0_t3_loop.trips, ∀ a, (k0_off727 k0_t3) a + S1x1x16.size a ≤ S36x8x128.size a
  k0_off728_inb : ∀ k0_t3 : Fin k0_t3_loop.trips, ∀ a, (k0_off728 k0_t3) a + S1x1x16.size a ≤ S36x8x128.size a
  k0_off729_inb : ∀ k0_t3 : Fin k0_t3_loop.trips, ∀ a, (k0_off729 k0_t3) a + S1x1x16.size a ≤ S36x8x128.size a
  k0_off730_inb : ∀ k0_t3 : Fin k0_t3_loop.trips, ∀ a, (k0_off730 k0_t3) a + S1x1x16.size a ≤ S36x8x128.size a
  k0_off731_inb : ∀ k0_t3 : Fin k0_t3_loop.trips, ∀ a, (k0_off731 k0_t3) a + S1x1x16.size a ≤ S36x8x128.size a
  k0_off732_inb : ∀ k0_t3 : Fin k0_t3_loop.trips, ∀ a, (k0_off732 k0_t3) a + S1x1x16.size a ≤ S36x8x128.size a
  k0_off733_inb : ∀ k0_t3 : Fin k0_t3_loop.trips, ∀ a, (k0_off733 k0_t3) a + S1x1x16.size a ≤ S36x8x128.size a
  k0_off734_inb : ∀ k0_t3 : Fin k0_t3_loop.trips, ∀ a, (k0_off734 k0_t3) a + S1x1x16.size a ≤ S36x8x128.size a
  k0_off735_inb : ∀ k0_t3 : Fin k0_t3_loop.trips, ∀ a, (k0_off735 k0_t3) a + S1x1x16.size a ≤ S36x8x128.size a
  k0_off736_inb : ∀ k0_t3 : Fin k0_t3_loop.trips, ∀ a, (k0_off736 k0_t3) a + S1x1x16.size a ≤ S36x8x128.size a
  k0_off737_inb : ∀ k0_t3 : Fin k0_t3_loop.trips, ∀ a, (k0_off737 k0_t3) a + S1x1x16.size a ≤ S36x8x128.size a
  k0_off738_inb : ∀ k0_t3 : Fin k0_t3_loop.trips, ∀ a, (k0_off738 k0_t3) a + S1x1x16.size a ≤ S36x8x128.size a
  k0_off739_inb : ∀ k0_t3 : Fin k0_t3_loop.trips, ∀ a, (k0_off739 k0_t3) a + S1x1x16.size a ≤ S36x8x128.size a
  k0_off740_inb : ∀ k0_t3 : Fin k0_t3_loop.trips, ∀ a, (k0_off740 k0_t3) a + S1x1x16.size a ≤ S36x8x128.size a
  k0_off741_inb : ∀ k0_t3 : Fin k0_t3_loop.trips, ∀ a, (k0_off741 k0_t3) a + S1x1x16.size a ≤ S36x8x128.size a
  k0_off742_inb : ∀ k0_t3 : Fin k0_t3_loop.trips, ∀ a, (k0_off742 k0_t3) a + S1x1x16.size a ≤ S36x8x128.size a
  k0_off743_inb : ∀ k0_t3 : Fin k0_t3_loop.trips, ∀ a, (k0_off743 k0_t3) a + S1x1x16.size a ≤ S36x8x128.size a
  k0_off744_inb : ∀ k0_t3 : Fin k0_t3_loop.trips, ∀ a, (k0_off744 k0_t3) a + S1x1x16.size a ≤ S36x8x128.size a
  k0_off745_inb : ∀ k0_t3 : Fin k0_t3_loop.trips, ∀ a, (k0_off745 k0_t3) a + S1x1x16.size a ≤ S36x8x128.size a
  k0_off746_inb : ∀ k0_t3 : Fin k0_t3_loop.trips, ∀ a, (k0_off746 k0_t3) a + S1x1x16.size a ≤ S36x8x128.size a
  k0_off747_inb : ∀ k0_t3 : Fin k0_t3_loop.trips, ∀ a, (k0_off747 k0_t3) a + S1x1x16.size a ≤ S36x8x128.size a
  k0_off748_inb : ∀ k0_t3 : Fin k0_t3_loop.trips, ∀ a, (k0_off748 k0_t3) a + S1x1x16.size a ≤ S36x8x128.size a
  k0_off749_inb : ∀ k0_t3 : Fin k0_t3_loop.trips, ∀ a, (k0_off749 k0_t3) a + S1x1x16.size a ≤ S36x8x128.size a
  k0_off750_inb : ∀ k0_t3 : Fin k0_t3_loop.trips, ∀ a, (k0_off750 k0_t3) a + S1x1x16.size a ≤ S36x8x128.size a
  k0_off751_inb : ∀ k0_t3 : Fin k0_t3_loop.trips, ∀ a, (k0_off751 k0_t3) a + S1x1x16.size a ≤ S36x8x128.size a
  k0_off752_inb : ∀ k0_t3 : Fin k0_t3_loop.trips, ∀ a, (k0_off752 k0_t3) a + S1x1x16.size a ≤ S36x8x128.size a
  k0_off753_inb : ∀ k0_t3 : Fin k0_t3_loop.trips, ∀ a, (k0_off753 k0_t3) a + S1x1x16.size a ≤ S36x8x128.size a
  k0_off754_inb : ∀ k0_t3 : Fin k0_t3_loop.trips, ∀ a, (k0_off754 k0_t3) a + S1x1x16.size a ≤ S36x8x128.size a
  k0_off755_inb : ∀ k0_t3 : Fin k0_t3_loop.trips, ∀ a, (k0_off755 k0_t3) a + S1x1x16.size a ≤ S36x8x128.size a
  k0_off756_inb : ∀ k0_t3 : Fin k0_t3_loop.trips, ∀ a, (k0_off756 k0_t3) a + S1x1x16.size a ≤ S36x8x128.size a
  k0_off757_inb : ∀ k0_t3 : Fin k0_t3_loop.trips, ∀ a, (k0_off757 k0_t3) a + S1x1x16.size a ≤ S36x8x128.size a
  k0_off758_inb : ∀ k0_t3 : Fin k0_t3_loop.trips, ∀ a, (k0_off758 k0_t3) a + S1x1x16.size a ≤ S36x8x128.size a
  k0_off759_inb : ∀ k0_t3 : Fin k0_t3_loop.trips, ∀ a, (k0_off759 k0_t3) a + S1x1x16.size a ≤ S36x8x128.size a
  k0_off760_inb : ∀ k0_t3 : Fin k0_t3_loop.trips, ∀ a, (k0_off760 k0_t3) a + S1x1x16.size a ≤ S36x8x128.size a
  k0_off761_inb : ∀ k0_t3 : Fin k0_t3_loop.trips, ∀ a, (k0_off761 k0_t3) a + S1x1x16.size a ≤ S36x8x128.size a
  k0_off762_inb : ∀ k0_t3 : Fin k0_t3_loop.trips, ∀ a, (k0_off762 k0_t3) a + S1x1x16.size a ≤ S36x8x128.size a
  k0_off763_inb : ∀ k0_t3 : Fin k0_t3_loop.trips, ∀ a, (k0_off763 k0_t3) a + S1x1x16.size a ≤ S12x8x128.size a
  k0_off764_inb : ∀ k0_t3 : Fin k0_t3_loop.trips, ∀ a, (k0_off764 k0_t3) a + S1x1x16.size a ≤ S12x8x128.size a
  k0_off765_inb : ∀ k0_t3 : Fin k0_t3_loop.trips, ∀ a, (k0_off765 k0_t3) a + S1x1x16.size a ≤ S12x8x128.size a
  k0_off766_inb : ∀ k0_t3 : Fin k0_t3_loop.trips, ∀ a, (k0_off766 k0_t3) a + S1x1x16.size a ≤ S12x8x128.size a
  k0_off767_inb : ∀ k0_t3 : Fin k0_t3_loop.trips, ∀ a, (k0_off767 k0_t3) a + S1x1x16.size a ≤ S12x8x128.size a
  k0_off768_inb : ∀ k0_t3 : Fin k0_t3_loop.trips, ∀ a, (k0_off768 k0_t3) a + S1x1x16.size a ≤ S12x8x128.size a
  k0_off769_inb : ∀ k0_t3 : Fin k0_t3_loop.trips, ∀ a, (k0_off769 k0_t3) a + S1x1x16.size a ≤ S12x8x128.size a
  k0_off770_inb : ∀ k0_t3 : Fin k0_t3_loop.trips, ∀ a, (k0_off770 k0_t3) a + S1x1x16.size a ≤ S12x8x128.size a
  k0_off771_inb : ∀ k0_t3 : Fin k0_t3_loop.trips, ∀ a, (k0_off771 k0_t3) a + S1x1x16.size a ≤ S12x8x128.size a
  k0_off772_inb : ∀ k0_t3 : Fin k0_t3_loop.trips, ∀ a, (k0_off772 k0_t3) a + S1x1x16.size a ≤ S12x8x128.size a
  k0_off773_inb : ∀ k0_t3 : Fin k0_t3_loop.trips, ∀ a, (k0_off773 k0_t3) a + S1x1x16.size a ≤ S12x8x128.size a
  k0_off774_inb : ∀ k0_t3 : Fin k0_t3_loop.trips, ∀ a, (k0_off774 k0_t3) a + S1x1x16.size a ≤ S12x8x128.size a
  k0_off775_inb : ∀ (i : grid0.Coords) (k0_t1 : Fin k0_t1_loop.trips), ∀ (k0_h4 : k0_cond4 k0_t1 = 1#1), ∀ a, (k0_off775 i k0_t1) a + S36x8x128.size a ≤ S36x16384x128.size a
  k0_off776_inb : ∀ i : grid0.Coords, ∀ (r : Fin 2), ∀ a, (k0_off776 i (BitVec.ofNat 32 (208 + 8 * r.val))) a + S12x8x128.size a ≤ S12x7168x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S36x1024x128.size a ≤ S36x16384x128.size a
  hwx1_0 : ∀ i : grid1.Coords, EltTy.bits .f32 = 32 ∨ (Rect.block (s := S36x16384x128) S36x1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x36.size a ≤ S1x36.size a
  hwx1_1 : ∀ i : grid1.Coords, EltTy.bits .f32 = 32 ∨ (Rect.block (s := S1x36) S1x36.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S12x1024x128.size a ≤ S12x16384x128.size a
  hwx1_4 : ∀ i : grid1.Coords, EltTy.bits .f32 = 32 ∨ (Rect.block (s := S12x16384x128) S12x1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S1x7168x128.size a ≤ S12x7168x128.size a
  hwx2_0 : ∀ i : grid2.Coords, EltTy.bits .f32 = 32 ∨ (Rect.block (s := S12x7168x128) S1x7168x128.size (cc2_transform_1 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_2 i = cc2_transform_2 i'
  hinb2_1 : ∀ (i : grid2.Coords) a, (cc2_transform_2 i a + 1) * S128x128.size a ≤ S128x128.size a
  hwx2_1 : ∀ i : grid2.Coords, EltTy.bits .f32 = 32 ∨ (Rect.block (s := S128x128) S128x128.size (cc2_transform_2 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_3 i = cc2_transform_3 i'
  hinb2_2 : ∀ (i : grid2.Coords) a, (cc2_transform_3 i a + 1) * S1x128.size a ≤ S1x128.size a
  hwx2_2 : ∀ i : grid2.Coords, EltTy.bits .f32 = 32 ∨ (Rect.block (s := S1x128) S1x128.size (cc2_transform_3 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_4 i = cc2_transform_4 i'
  hstart2_3 : ∀ (i : grid2.Coords) a, cc2_transform_4 i a * S1x7168x128.size a < S12x16384x128.size a
  hwx2_3 : ∀ i : grid2.Coords, EltTy.bits .f32 = 32 ∨ (Rect.unit (s := S12x16384x128) (fun a => cc2_transform_4 i a * S1x7168x128.size a) (fun a => (Pipeline.Clip.of (cc2_transform_4 i a) (S1x7168x128.size a) (S12x16384x128.size a)).extent (S1x7168x128.size a)) fun a => Pipeline.Clip.inb (Pipeline.Clip.ok_of (hstart2_3 i a))).WholeWords (EltTy.packing .f32)
  hwxs2_3 : ∀ i : grid2.Coords, EltTy.bits .f32 = 32 ∨ (Rect.unit (s := S1x7168x128) (fun _ => 0) (fun a => (Pipeline.Clip.of (cc2_transform_4 i a) (S1x7168x128.size a) (S12x16384x128.size a)).extent (S1x7168x128.size a)) fun a => (Nat.zero_add _).trans_le (Pipeline.Clip.extent_le (Pipeline.Clip.ok_of (hstart2_3 i a)))).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S7168x128_S128x128_S7168x128_1_0_0_1_n_n : DotDims S7168x128 S128x128 S7168x128 where
  lhsContracting := [1]
  rhsContracting := [0]
  lhsNonContracting := [0]
  rhsNonContracting := [1]
  lhsBatch := []
  rhsBatch := []
  wf := dot_S7168x128_S128x128_S7168x128_1_0_0_1_n_n_wf

abbrev win1_0 : Pipeline.Window sig grid1 :=
  Pipeline.Window.ofSpec (Memref.whole main_v5) S36x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x36.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S12x1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v8) S1x7168x128.size cc2_transform_1 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S128x128.size cc2_transform_2 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x128.size cc2_transform_3 reads2_2 false true 1 stage2_2 sem2_2
    hrank2 hreads2_2 hinb2_2 nbuf2_2 (Memref.isWhole_whole _) hwx2_2 hstage2_2

abbrev win2_3 : Pipeline.Window sig grid2 :=
  Pipeline.Window.ofSpecClip (Memref.whole main_v10) S1x7168x128.size cc2_transform_4 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S_ : Shape := ⟨0, ![]⟩
abbrev S1x36x1 : Shape := ⟨3, ![1, 36, 1]⟩
abbrev S16384x12x128 : Shape := ⟨3, ![16384, 12, 128]⟩
abbrev S36x1 : Shape := ⟨2, ![36, 1]⟩
abbrev S1x1x128 : Shape := ⟨3, ![1, 1, 128]⟩

abbrev nBuf : Space → Nat
  | .hbm => 51
  | .vmem => 0
  | .smem => 0
  | _ => 0

abbrev bufTy : (tb : Table) → Fin (tcTables nBuf tb) → BufTy
  | .hbm, ⟨0, _⟩ => ⟨S16384x36x128, .f32⟩
  | .hbm, ⟨1, _⟩ => ⟨S36, .f32⟩
  | .hbm, ⟨2, _⟩ => ⟨S128x128, .f32⟩
  | .hbm, ⟨3, _⟩ => ⟨S128, .f32⟩
  | .hbm, ⟨4, _⟩ => ⟨S36, .i32⟩
  | .hbm, ⟨5, _⟩ => ⟨S36, .i32⟩
  | .hbm, ⟨6, _⟩ => ⟨S_, .f32⟩
  | .hbm, ⟨7, _⟩ => ⟨S36, .f32⟩
  | .hbm, ⟨8, _⟩ => ⟨S36, .f32⟩
  | .hbm, ⟨9, _⟩ => ⟨S36, .f32⟩
  | .hbm, ⟨10, _⟩ => ⟨S36, .f32⟩
  | .hbm, ⟨11, _⟩ => ⟨S36, .i1⟩
  | .hbm, ⟨12, _⟩ => ⟨S36, .f32⟩
  | .hbm, ⟨13, _⟩ => ⟨S36, .f32⟩
  | .hbm, ⟨14, _⟩ => ⟨S36, .f32⟩
  | .hbm, ⟨15, _⟩ => ⟨S36, .f32⟩
  | .hbm, ⟨16, _⟩ => ⟨S36, .f32⟩
  | .hbm, ⟨17, _⟩ => ⟨S36, .f32⟩
  | .hbm, ⟨18, _⟩ => ⟨S36, .f32⟩
  | .hbm, ⟨19, _⟩ => ⟨S36, .f32⟩
  | .hbm, ⟨20, _⟩ => ⟨S1x36x1, .f32⟩
  | .hbm, ⟨21, _⟩ => ⟨S16384x36x128, .f32⟩
  | .hbm, ⟨22, _⟩ => ⟨S16384x36x128, .f32⟩
  | .hbm, ⟨23, _⟩ => ⟨S_, .f32⟩
  | .hbm, ⟨24, _⟩ => ⟨S16384x12x128, .f32⟩
  | .hbm, ⟨25, _⟩ => ⟨S_, .i32⟩
  | .hbm, ⟨26, _⟩ => ⟨S36, .i32⟩
  | .hbm, ⟨27, _⟩ => ⟨S36, .i1⟩
  | .hbm, ⟨28, _⟩ => ⟨S_, .i32⟩
  | .hbm, ⟨29, _⟩ => ⟨S36, .i32⟩
  | .hbm, ⟨30, _⟩ => ⟨S36, .i32⟩
  | .hbm, ⟨31, _⟩ => ⟨S36, .i32⟩
  | .hbm, ⟨32, _⟩ => ⟨S36x1, .i32⟩
  | .hbm, ⟨33, _⟩ => ⟨S16384x12x128, .f32⟩
  | .hbm, ⟨34, _⟩ => ⟨S_, .i32⟩
  | .hbm, ⟨35, _⟩ => ⟨S36, .i32⟩
  | .hbm, ⟨36, _⟩ => ⟨S36, .i1⟩
  | .hbm, ⟨37, _⟩ => ⟨S_, .i32⟩
  | .hbm, ⟨38, _⟩ => ⟨S36, .i32⟩
  | .hbm, ⟨39, _⟩ => ⟨S36, .i32⟩
  | .hbm, ⟨40, _⟩ => ⟨S36, .i32⟩
  | .hbm, ⟨41, _⟩ => ⟨S36x1, .i32⟩
  | .hbm, ⟨42, _⟩ => ⟨S16384x12x128, .f32⟩
  | .hbm, ⟨43, _⟩ => ⟨S128x128, .f32⟩
  | .hbm, ⟨44, _⟩ => ⟨S16384x12x128, .f32⟩
  | .hbm, ⟨45, _⟩ => ⟨S1x1x128, .f32⟩
  | .hbm, ⟨46, _⟩ => ⟨S16384x12x128, .f32⟩
  | .hbm, ⟨47, _⟩ => ⟨S16384x12x128, .f32⟩
  | .hbm, ⟨48, _⟩ => ⟨S_, .f32⟩
  | .hbm, ⟨49, _⟩ => ⟨S16384x12x128, .f32⟩
  | .hbm, ⟨50, _⟩ => ⟨S16384x12x128, .f32⟩
  | _, _ => ⟨S16384x36x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_c_4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩

abbrev nD : Nat := 1
abbrev τ : Topo := Topo.v7x

variable {F : FTy → Type} [FloatOps F]

class Facts₀ : Prop where
  bcast_S_S36 : S_.BroadcastsInDim S36 (![] : Fin 0 → Fin S36.rank)
  shapeCasts_S36_S1x36x1 : S36.ShapeCasts S1x36x1
  bcast_S1x36x1_S16384x36x128_0_1_2 : S1x36x1.BroadcastsInDim S16384x36x128 (![0, 1, 2] : Fin 3 → Fin S16384x36x128.rank)
  bcast_S_S16384x12x128 : S_.BroadcastsInDim S16384x12x128 (![] : Fin 0 → Fin S16384x12x128.rank)
  bcast_S36_S36x1_0 : S36.BroadcastsInDim S36x1 (![0] : Fin 1 → Fin S36x1.rank)
  transposes_S128x128_S128x128_1_0 : S128x128.Transposes [1, 0] S128x128
  bcast_S128_S1x1x128_2 : S128.BroadcastsInDim S1x1x128 (![2] : Fin 1 → Fin S1x1x128.rank)
  bcast_S1x1x128_S16384x12x128_0_1_2 : S1x1x128.BroadcastsInDim S16384x12x128 (![0, 1, 2] : Fin 3 → Fin S16384x12x128.rank)
  scatter_S16384x12x128_S36x1_S16384x36x128_02_1_1_1_wf : ScatterDims.WF S16384x12x128 S36x1 S16384x36x128 [0, 2] [1] [1] 1
  dot_S16384x12x128_S128x128_S16384x12x128_2_0_01_1_n_n_wf : DotDims.WF S16384x12x128 S128x128 S16384x12x128 [2] [0] [0, 1] [1] [] []

variable [Facts₀]

def scatter_S16384x12x128_S36x1_S16384x36x128_02_1_1_1 : ScatterDims S16384x12x128 S36x1 S16384x36x128 where
  updateWindowDims := [0, 2]
  insertedWindowDims := [1]
  scatterDimsToOperandDims := [1]
  indexVectorDim := 1
  wf := scatter_S16384x12x128_S36x1_S16384x36x128_02_1_1_1_wf
def dot_S16384x12x128_S128x128_S16384x12x128_2_0_01_1_n_n : DotDims S16384x12x128 S128x128 S16384x12x128 where
  lhsContracting := [2]
  rhsContracting := [0]
  lhsNonContracting := [0, 1]
  rhsNonContracting := [1]
  lhsBatch := []
  rhsBatch := []
  wf := dot_S16384x12x128_S128x128_S16384x12x128_2_0_01_1_n_n_wf

class Facts : Prop extends Facts₀ where

variable [Facts]
-- ==== Proof.KCommon.lean ====
/-
  The vocabulary shared by the kernel-side modules: the program as the SparseCore launch theorem reads it (one
  vector-subcore call on 2 × 16 tiles, two TensorCore pipelines in the label table), and the resource algebra —
  the launch handshakes' rounds, the two pipelines' staging-cell rounds, and the counters of the local copies a
  tile makes and waits for.
-/
import proofs.«203732_g20581483283120_cont_8to1_285_17_alg».proof.KernelIdeal
import proofs.«203732_g20581483283120_cont_8to1_285_17_alg».proof.Proof.Gen.KernelIdeal
import proofs.«203732_g20581483283120_cont_8to1_285_17_alg».proof.Proof.Gen.KernelIdeal.Skeleton
import proofs.«203732_g20581483283120_cont_8to1_285_17_alg».proof.Proof.Gen.KernelIdeal.Launch
import proofs.«203732_g20581483283120_cont_8to1_285_17_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nCore_zero [FloatOps F] : (K (F := F)).nCore 0 = 2 := rfl
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds -/
abbrev UH : Type := URounds (GSem nD τ sig) ℕ
/-- the pipelines' staging cells' rounds -/
abbrev UP : Type := URounds (GSem nD τ sig) Unit
/-- handshakes × (staging cells × the local copies' counters) -/
abbrev UU : Type := UH × (UP × Counters)

/-- The handshakes' rounds library is the left factor. -/
abbrev EH : Emb UH (MT nD τ sig (HIx 1) (Elt F) ℕ UU ℕ) := embL
/-- The pipelines' rounds library is the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn [FloatOps F] : (EP : Emb UP (MT nD τ sig (HIx 1) (Elt F) ℕ UU ℕ)).LandsIn (upEmb : UEmb _ (MT nD τ sig (HIx 1) (Elt F) ℕ UU ℕ)) := by
  unfold EP; infer_instance

/-- The pipelines have no prefetched tables: the trivial admissibility witnesses. -/
abbrev adm [FloatOps F] : (p : Fin 2) → (pcfgs (F := F) p).Adm := fun p => (cfgs p).toPCfg_adm

end Cert.KernelIdeal.Pf

end
-- ==== Proof.KMain.lean ====
/-
  @main on the TensorCore, as the launch theorem's obligation: the host operations before the SparseCore call as one
  straight line, the call, the first TensorCore region, the copy of its result into the aliased buffer, the second
  region, the last transpose.
-/
import proofs.«203732_g20581483283120_cont_8to1_285_17_alg».proof.Proof.KCommon
import Idealize.ShloMosaic.Lib.Pipeline.Frame

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F]

local notation "𝕄" => MT nD τ sig (HIx 1) (Elt F) ℕ UU ℕ

/-! ## @main's host operations -/

/-- Before the SparseCore call: the softplus of the thirty-six edge weights (fourteen operations), the weights
    repeated over sixteen lanes and flattened, the weights as a one-row matrix, the edge features with the edge
    axis first, the matrix transposed, the bias as a one-row matrix. -/
abbrev opsA : List (HloOp τ sig (Elt F)) :=
  [ TRef.nullary main_call0.cst (constant S_ .f32 0x00000000#32),
    TRef.unary main_call0.cst main_call0.v0 (broadcastInDim S36 ![] bcast_S_S36),
    TRef.binary (.of main_arg1) main_call0.v0 main_call0.v1 maximumf,
    TRef.unary main_call0.cst main_call0.v2 (broadcastInDim S36 ![] bcast_S_S36),
    TRef.binary (.of main_arg1) main_call0.v2 main_call0.v3 subf,
    TRef.binary main_call0.v3 main_call0.v3 main_call0.v4 (cmpf .une),
    TRef.unary main_call0.cst main_call0.v5 (broadcastInDim S36 ![] bcast_S_S36),
    TRef.binary (.of main_arg1) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    unary main_v0 main_v1 (broadcastInDim S36x1 ![0] bcast_S36_S36x1_0),
    unary main_v1 main_v2 (broadcastInDim S36x16 ![0, 1] bcast_S36x1_S36x16_0_1),
    reshape main_v2 main_v3 rfl shapeCasts_S36x16_S576,
    reshape main_v0 main_v4 rfl shapeCasts_S36_S1x36,
    unary main_arg0 main_v5 (transpose S36x16384x128 [1, 0, 2] · transposes_S16384x36x128_S36x16384x128_1_0_2),
    unary main_arg2 main_v6 (transpose S128x128 [1, 0] · transposes_S128x128_S128x128_1_0),
    reshape main_arg3 main_v7 rfl shapeCasts_S128_S1x128 ]

/-- Between the two TensorCore regions: the first region's result copied into the buffer the second one rewrites in part. -/
abbrev opsB : List (HloOp τ sig (Elt F)) := [ unary main_v9 main_v10 id ]

/-- After the second region: the node axis and the row axis exchanged. -/
abbrev opsC : List (HloOp τ sig (Elt F)) :=
  [ unary main_v10 main_v11 (transpose S16384x12x128 [1, 0, 2] · transposes_S12x16384x128_S16384x12x128_1_0_2) ]

set_option maxRecDepth 2048 in
/-- @main is those three lines around the SparseCore call and the two regions. -/
theorem main_eq (d : Dev nD) :
    main (F := F) d = (seq opsA >>= fun _ => (sc (F := F)).run d 0 >>= fun _ =>
      (Prog.lift (.customCall (SparseCore.inner (Pipeline.entry 0)) ()) : Prog (TpuEff nD τ sig (Elt F) (SparseCore.Sig (ΛP (F := F)) 1) .tc) PUnit) >>= fun _ =>
      seq opsB >>= fun _ =>
      (Prog.lift (.customCall (SparseCore.inner (Pipeline.entry 1)) ()) : Prog (TpuEff nD τ sig (Elt F) (SparseCore.Sig (ΛP (F := F)) 1) .tc) PUnit) >>= fun _ =>
      seq opsC) := by
  simp only [main, fn_softplus.body, seq, bind_assoc, pure_bind]
  rfl

/-! ## The unscoped buffers as a held set -/

theorem opsA_tc : (opsA : List (HloOp τ sig (Elt F))).Forall fun op => op.bufs ⊆ tcRefs τ sig :=
  ⟨nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., reshape_bufs_sub .., reshape_bufs_sub ..,
    unary_bufs_sub .., unary_bufs_sub .., reshape_bufs_sub ..⟩

theorem opsA_sub : ∀ op ∈ (opsA : List (HloOp τ sig (Elt F))), op.bufs ⊆ Pipeline.ucRefs τ sig :=
  fun op hop => Pipeline.sub_ucRefs op (List.forall_iff_forall_mem.mp opsA_tc op hop)

theorem opsA_fresh : ∀ op ∈ (opsA : List (HloOp τ sig (Elt F))), op.fresh = ∅ :=
  List.forall_iff_forall_mem.mp (show (opsA : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl⟩)

theorem opsB_sub : ∀ op ∈ (opsB : List (HloOp τ sig (Elt F))), op.bufs ⊆ Pipeline.ucRefs τ sig :=
  fun op hop => Pipeline.sub_ucRefs op (List.forall_iff_forall_mem.mp (show (opsB : List (HloOp τ sig (Elt F))).Forall fun op => op.bufs ⊆ tcRefs τ sig from unary_bufs_sub ..) op hop)
theorem opsB_fresh : ∀ op ∈ (opsB : List (HloOp τ sig (Elt F))), op.fresh = ∅ :=
  List.forall_iff_forall_mem.mp (show (opsB : List (HloOp τ sig (Elt F))).Forall fun op => op.fresh = ∅ from rfl)
theorem opsC_sub : ∀ op ∈ (opsC : List (HloOp τ sig (Elt F))), op.bufs ⊆ Pipeline.ucRefs τ sig :=
  fun op hop => Pipeline.sub_ucRefs op (List.forall_iff_forall_mem.mp (show (opsC : List (HloOp τ sig (Elt F))).Forall fun op => op.bufs ⊆ tcRefs τ sig from unary_bufs_sub ..) op hop)
theorem opsC_fresh : ∀ op ∈ (opsC : List (HloOp τ sig (Elt F))), op.fresh = ∅ :=
  List.forall_iff_forall_mem.mp (show (opsC : List (HloOp τ sig (Elt F))).Forall fun op => op.fresh = ∅ from rfl)

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)
abbrev r3 : DevRef τ sig := Proc.devRef .tc (main_v3 : Ref sig .tc)
abbrev r5 : DevRef τ sig := Proc.devRef .tc (main_v5 : Ref sig .tc)
abbrev r8 : DevRef τ sig := Proc.devRef .tc (main_v8 : Ref sig .tc)

/-- The four arguments. -/
abbrev SA : Finset (DevRef τ sig) := {a0, a1, a2, a3}
/-- The SparseCore call's operands and result. -/
abbrev S3 : Finset (DevRef τ sig) := {r5, r3, r8}

theorem SA_sub : (SA : Finset (DevRef τ sig)) ⊆ Pipeline.ucRefs τ sig := by decide
theorem S3_sub : (S3 : Finset (DevRef τ sig)) ⊆ Pipeline.ucRefs τ sig := by decide
theorem r8_mem : (r8 : DevRef τ sig) ∈ (S3 : Finset (DevRef τ sig)) := by decide

/-- No host operation writes an argument. -/
theorem afterA_arg (W : Valuation τ sig (Elt F)) : ∀ b ∈ (SA : Finset (DevRef τ sig)), after opsA W b = W b := by
  intro b hb
  simp only [Finset.mem_insert, Finset.mem_singleton] at hb
  simp only [after_cons, after_nil]
  rcases hb with rfl | rfl | rfl | rfl <;> rfl
theorem afterB_arg (W : Valuation τ sig (Elt F)) : ∀ b ∈ (SA : Finset (DevRef τ sig)), after opsB W b = W b := by
  intro b hb
  simp only [Finset.mem_insert, Finset.mem_singleton] at hb
  simp only [after_cons, after_nil]
  rcases hb with rfl | rfl | rfl | rfl <;> rfl
theorem afterC_arg (W : Valuation τ sig (Elt F)) : ∀ b ∈ (SA : Finset (DevRef τ sig)), after opsC W b = W b := by
  intro b hb
  simp only [Finset.mem_insert, Finset.mem_singleton] at hb
  simp only [after_cons, after_nil]
  rcases hb with rfl | rfl | rfl | rfl <;> rfl

/-- The rest of a held set does not see an update inside the part taken out. -/
theorem held_rest_update (d : Dev nD) (W : Valuation τ sig (Elt F)) (T' : Finset (DevRef τ sig)) (y : DevRef τ sig) (hy : y ∈ T')
    (f : y.ty.Contents (Elt F)) :
    (held (SparseCore.T d) (Pipeline.ucRefs τ sig \ T') (Function.update W y f) : sProp 𝕄) = held (SparseCore.T d) (Pipeline.ucRefs τ sig \ T') W :=
  held_congr (SparseCore.T d) fun b hb => Function.update_of_ne (fun e => (Finset.mem_sdiff.mp hb).2 (by rw [e]; exact hy)) _ _

/-! ## @main on the TensorCore -/

section Main

variable (m : (ℓ : Loc nD τ sig) → Buf (Elt F) ℓ) (ρ : Dev nD → PrngReg)

/-- The launch contents. -/
def V0 (d : Dev nD) : Valuation τ sig (Elt F) := fun b => m (d, b)

theorem tcRes_held (d : Dev nD) :
    (unscopedBufs d (fun b => m ((SparseCore.T d).loc b)) : sProp 𝕄) = held (SparseCore.T d) (Pipeline.ucRefs τ sig) (V0 m d) :=
  Pipeline.unscopedBufs_held d (V0 m d)

theorem Otc_one_none (d : Dev nD) : ∀ g, (K (F := F)).Otc d 1 g none = 0 := by
  intro g; rw [(K (F := F)).Otc_end d (le_refl 1)]; rfl

variable (P : (K (F := F)).Pay (nD := nD) (Val := Elt F) (Name := ℕ) (U := UU))

/-- What the SparseCore call's payloads must do for @main: the operands and the result buffer split into the
    per-SparseCore payloads, and the payloads coming back join into the operands unchanged and the result at contents
    of which `C8` holds (nothing, for a frame; the tiles' sums, for the values). -/
def CallSplit (C8 : Valuation τ sig (Elt F) → (r8 : DevRef τ sig).ty.Contents (Elt F) → Prop) : Prop := ∀ (d : Dev nD),
  (held (SparseCore.T d) S3 (after opsA (V0 m d)) : sProp 𝕄) ⊢ |={Set.univ}=> iprop((bigSep Finset.univ fun c : Fin ((K (F := F)).nCore 0) => P.st 0 d c)
    ∗ ((bigSep Finset.univ fun c : Fin ((K (F := F)).nCore 0) => P.dn 0 d c)
      -∗ |={Set.univ}=> ∃ f, ⌜C8 (after opsA (V0 m d)) f⌝ ∗ held (SparseCore.T d) S3 (Function.update (after opsA (V0 m d)) r8 f)))

end Main

end Cert.KernelIdeal.Pf

end
-- ==== Proof.KBody2.lean ====
/-
  The second TensorCore kernel's body, run once at symbolic staging buffers: it loads the chunk, the matrix and the
  bias row, and stores into the output buffer; every buffer it was handed comes back, the inputs as they were, the
  output at some contents.
-/
import proofs.«203732_g20581483283120_cont_8to1_285_17_alg».proof.Proof.KCommon

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf2 (c : Dev nD) {sp : Space} {S : Shape} {e : EltTy} (M : Memref sig .tc sp S e) : Type := Buf (Elt F) (M.view.loc (c : Thread nD τ))
abbrev pt2 (c : Dev nD) {sp : Space} {S : Shape} {e : EltTy} (M : Memref sig .tc sp S e) (f : Bf2 (F := F) c M) : sProp 𝕄 :=
  M.view.loc (c : Thread nD τ) ↦{fullShare} f

theorem kernelRun2 (c : Dev nD) (i : grid2.Coords)
    (M2 : Memref sig .tc .hbm S12x16384x128 .f32) (h2 : M2.IsWhole) (M3 : Memref sig .tc .vmem S1x7168x128 .f32) (h3 : M3.IsWhole)
    (M4 : Memref sig .tc .vmem S128x128 .f32) (h4 : M4.IsWhole) (M5 : Memref sig .tc .vmem S1x128 .f32) (h5 : M5.IsWhole)
    (M6 : Memref sig .tc .vmem S1x7168x128 .f32) (h6 : M6.IsWhole)
    (f3 : Bf2 (F := F) c M3) (f4 : Bf2 (F := F) c M4) (f5 : Bf2 (F := F) c M5) (f6 : Bf2 (F := F) c M6)
    (E : Set ℕ) (Q : PUnit → sProp 𝕄) :
    iprop(pt2 c M3 f3 ∗ pt2 c M4 f4 ∗ pt2 c M5 f5 ∗ pt2 c M6 f6
        ∗ (iprop(pt2 c M3 f3 ∗ pt2 c M4 f4 ∗ pt2 c M5 f5 ∗ (∃ f, pt2 c M6 f)) -∗ Q ⟨⟩))
      ⊢ wp frame (wpE (defs₀ (F := F)) 𝒱₀ c none) E (cc2__mm_chunk_body i M2 h2 M3 h3 M4 h4 M5 h5 M6 h6) Q := by
  iintro ⟨H3, H4, H5, H6, Hk⟩
  sl_exec
  sl_step
  iapply Hk
  isplitl [H3]; · iexact H3
  isplitl [H4]; · iexact H4
  isplitl [H5]; · iexact H5
  iexists _; iexact H6

end Cert.KernelIdeal.Pf

end
-- ==== Proof.KBody1.lean ====
/-
  The first TensorCore kernel's body, run once at symbolic staging buffers and a symbolic grid point: twelve times six
  slices of the feature block scaled by a weight and summed, multiplied by the matrix, the bias row added, clamped below
  at zero, stored into a slice of the output buffer. Every buffer it was handed comes back, the inputs as they were, the
  output at some contents.
-/
import proofs.«203732_g20581483283120_cont_8to1_285_17_alg».proof.Proof.KCommon

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole staging memref owned at some contents is its buffer's points-to at some contents, -/
theorem owns_pt (c : Dev nD) {sp : Space} {S : Shape} {e : EltTy} (M : Memref sig .tc sp S e) (h : M.IsWhole) (X : S.Idx → Elt F e) :
    (owns (c : Thread nD τ) M fullShare X : sProp 𝕄) ⊢ iprop(∃ f, pt c M f) := by
  unfold owns; rw [h.set_eq_univ]
  iintro ⟨%f, -, H⟩; iexists f; iexact H

/-- and back, nothing said of the contents. -/
theorem pt_owns (c : Dev nD) {sp : Space} {S : Shape} {e : EltTy} (M : Memref sig .tc sp S e) (h : M.IsWhole) :
    (iprop(∃ f, pt c M f) : sProp 𝕄) ⊢ iprop(∃ X, ⌜True⌝ ∗ owns (c : Thread nD τ) M fullShare X) := by
  iintro ⟨%f, H⟩; iexists (M.view.read (Elt F) f); isplitr; · ipureintro; trivial
  unfold owns; rw [h.set_eq_univ]
  iexists f; isplitr; · ipureintro; rfl
  iexact H

set_option maxHeartbeats 4000000 in
theorem kernelRun1 (c : Dev nD) (i : grid1.Coords)
    (M1 : Memref sig .tc .vmem S36x1024x128 .f32) (h1 : M1.IsWhole) (M2 : Memref sig .tc .vmem S1x36 .f32) (h2 : M2.IsWhole)
    (M3 : Memref sig .tc .vmem S128x128 .f32) (h3 : M3.IsWhole) (M4 : Memref sig .tc .vmem S1x128 .f32) (h4 : M4.IsWhole)
    (M5 : Memref sig .tc .vmem S12x1024x128 .f32) (h5 : M5.IsWhole)
    (f1 : Bf (F := F) c M1) (f2 : Bf (F := F) c M2) (f3 : Bf (F := F) c M3) (f4 : Bf (F := F) c M4) (f5 : Bf (F := F) c M5)
    (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3 ∗ pt c M4 f4 ∗ (∃ f, pt c M5 f)) -∗ Q ⟨⟩))
      ⊢ wp frame (wpE (defs₀ (F := F)) 𝒱₀ c none) E (cc1__tc_fused_body i M1 h1 M2 h2 M3 h3 M4 h4 M5 h5) Q := by
  iintro ⟨H1, H2, H3, H4, H5, Hk⟩
  sl_exec_parts
  sl_step
  iapply Hk
  isplitl [H1]; · iexact H1
  isplitl [H2]; · iexact H2
  isplitl [H3]; · iexact H3
  isplitl [H4]; · iexact H4
  iexists _; iexact H5

end Cert.KernelIdeal.Pf

end
-- ==== Proof.KRegion1.lean ====
/-
  The first TensorCore pipeline of the program (nine grid points; five windows: the transposed features, the
  softplus weights as a row, the transposed matrix, the bias row, and the result's rows from 7168 on) run as a
  region of the TensorCore's program, at the level of the frame: every array the region only reads ends as it
  began, the result's array ends at some contents, what the TensorCore owes is unchanged and the pairs its waits
  recorded grow only by pairs at the index of the pipeline's own cells.
-/
import proofs.«203732_g20581483283120_cont_8to1_285_17_alg».proof.Proof.KCommon
import proofs.«203732_g20581483283120_cont_8to1_285_17_alg».proof.Proof.KBody1
import Idealize.ShloMosaic.Lib.Pipeline.FrameSuffix

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Pipeline 0's relational proof data at the entry contents `V`, the TensorCore owing `O` throughout with its
    recorded pairs within `W` and the pipeline's own: nothing is said of what the body leaves in a staging buffer; the
    invariant is the scoped buffers no window stages. -/
def rdat1 (V : Valuation τ sig (Elt F)) (O : CellTallies nD τ sig (HIx 1)) (W : Waits sig (HIx 1)) (c : Dev nD) :
    Pipeline.RDat τ (Elt F) (HIx 1) ℕ UU ℕ cfg1 c where
  A w := V (Proc.devRef .tc (Pipeline.arrRef spec1 w))
  after _ _ _ _ := True
  Φ _ := Pipeline.scopedRest spec1 c
  q _ := fullShare
  owed _ := O
  recorded _ := (↑W : Set (SemLoc sig × HIx 1))

/-- Pipeline 1's, the same way. -/
def rdat2 (V : Valuation τ sig (Elt F)) (O : CellTallies nD τ sig (HIx 1)) (W : Waits sig (HIx 1)) (c : Dev nD) :
    Pipeline.RDat τ (Elt F) (HIx 1) ℕ UU ℕ cfg2 c where
  A w := V (Proc.devRef .tc (Pipeline.arrRef spec2 w))
  after _ _ _ _ := True
  Φ _ := Pipeline.scopedRest spec2 c
  q _ := fullShare
  owed _ := O
  recorded _ := (↑W : Set (SemLoc sig × HIx 1))

/-- Both pipelines' proof data, each at its own entry contents. -/
def rdats (V₁ V₂ : Valuation τ sig (Elt F)) (O : CellTallies nD τ sig (HIx 1)) (W : Waits sig (HIx 1)) :
    (p : Fin 2) → (c : Dev nD) → Pipeline.RDat τ (Elt F) (HIx 1) ℕ UU ℕ (Pipeline.pin (pcfgs (F := F)) adm p) c
  | ⟨0, _⟩ => fun c => rdat1 V₁ O W c
  | ⟨1, _⟩ => fun c => rdat2 V₂ O W c

/-- The thread state a region is entered from: the TensorCore's unscoped buffers at `V`, and what it owes, its waits
    having recorded the pairs `W`. -/
abbrev tcPre (V : Valuation τ sig (Elt F)) (O : CellTallies nD τ sig (HIx 1)) (W : Waits sig (HIx 1)) (c : Dev nD) : sProp 𝕄 :=
  iprop(StableHlo.held (c.tc : Thread nD τ) (Pipeline.ucRefs τ sig) V ∗ owes (c.tc : Thread nD τ) O W)

/-- The thread state a region leaves: the unscoped buffers at a valuation that differs from `V` at most at the
    buffer `out`; what the TensorCore owes, unchanged, its recorded pairs those of entry and pairs at index `none`. -/
abbrev tcPost (out : Ref sig .tc) (V : Valuation τ sig (Elt F)) (O : CellTallies nD τ sig (HIx 1)) (W : Waits sig (HIx 1)) (c : Dev nD) : sProp 𝕄 :=
  iprop((∃ V' : Valuation τ sig (Elt F), ⌜∀ b : Ref sig .tc, b ≠ out → V' (Proc.devRef .tc b) = V (Proc.devRef .tc b)⌝
      ∗ StableHlo.held (c.tc : Thread nD τ) (Pipeline.ucRefs τ sig) V')
    ∗ ∃ W' : Waits sig (HIx 1), ⌜∀ q ∈ W', q ∈ W ∨ q.2 = none⌝ ∗ owes (c.tc : Thread nD τ) O W')

/-- EXIT, generically: a pipeline's arrays after its write-backs and the unscoped rest at `V` are the unscoped buffers
    at a valuation that agrees with `V` off the output windows' arrays (an input's array is never written). -/
theorem exit_held {cfg : Pipeline.Cfg sig Λ₀} (c : Dev nD) (rd : Pipeline.RDat τ (Elt F) (HIx 1) ℕ UU ℕ cfg c)
    (hw : Pipeline.WinFacts cfg.spec) (harr : ∀ w, (cfg.spec w).arr.IsWhole) (hshare : ∀ w, rd.share w = fullShare)
    (V : Valuation τ sig (Elt F)) (hA : ∀ w, rd.A w = V (Proc.devRef .tc (Pipeline.arrRef cfg.spec w))) (n : ℕ) :
    iprop(rd.arraysAt n ∗ Pipeline.unscopedRest (Ix := HIx 1) (Name := ℕ) (U := UU) (Lvl := ℕ) cfg.spec c (fun b => V b))
      ⊢ (iprop(∃ V' : Valuation τ sig (Elt F),
          ⌜∀ b : Ref sig .tc, (∀ w, (cfg.win w).isOut = true → Pipeline.arrRef cfg.spec w ≠ b) → V' (Proc.devRef .tc b) = V (Proc.devRef .tc b)⌝
          ∗ StableHlo.held (c.tc : Thread nD τ) (Pipeline.ucRefs τ sig) V') : sProp 𝕄) := by
  classical
  unfold Pipeline.RDat.arraysAt
  iintro ⟨Ha, Hrest⟩
  ihave Ha' := (BI.bigSep_exists_pi Finset.univ (fun w F' => iprop(⌜rd.ArrAt w n F'⌝
      ∗ (cfg.win w).arr.view.loc (c.tc : Thread nD τ) ↦[(cfg.win w).arr.view.set]{rd.share w} F'))) $$ Ha
  icases Ha' with ⟨%A', Ha⟩
  ihave Ha2 := (BI.bigSep_pure_sep Finset.univ (fun w => rd.ArrAt w n (A' w))
      (fun w => (cfg.win w).arr.view.loc (c.tc : Thread nD τ) ↦[(cfg.win w).arr.view.set]{rd.share w} A' w)) $$ Ha
  icases Ha2 with ⟨%hA', Ha⟩
  iexists (Pipeline.withArrays cfg.spec c V A')
  isplitr
  · ipureintro
    intro b hb
    by_cases h : ∃ w, Pipeline.arrRef cfg.spec w = b
    · obtain ⟨w, rfl⟩ := h
      rw [Pipeline.withArrays_arr cfg.spec hw.arr_inj c V A' w]
      have hin : (cfg.win w).isOut = false := by
        cases hio : (cfg.win w).isOut with
        | false => rfl
        | true => exact absurd rfl (hb w hio)
      have h1 := hA' w (Finset.mem_univ w)
      rw [rd.ArrAt_in w hin] at h1
      exact h1.trans (hA w)
    · exact Pipeline.withArrays_of_ne cfg.spec c V A' b fun w e => h ⟨w, e⟩
  · rw [← Pipeline.unscopedBufs_held, Pipeline.unscopedBufs_split (fun _ : Unit => cfg) () hw.arr_unscoped hw.arr_inj c]
    isplitl [Ha]
    · iapply (Entails.of_eq (bigSep_congr (fun w _ => by
          rw [(harr w).set_eq_univ, hshare w, Pipeline.withArrays_arr cfg.spec hw.arr_inj c V A' w]) :
        (bigSep Finset.univ fun w => ((cfg.win w).arr.view.loc (c.tc : Thread nD τ) ↦[(cfg.win w).arr.view.set]{rd.share w} A' w : sProp 𝕄))
          = bigSep Finset.univ fun w => (((c.tc : Thread nD τ).loc (Pipeline.arrRef cfg.spec w))
              ↦{fullShare} Pipeline.withArrays cfg.spec c V A' (Proc.devRef .tc (Pipeline.arrRef cfg.spec w)) : sProp 𝕄)))
      iexact Ha
    · unfold Pipeline.unscopedRest
      iapply (Entails.of_eq (bigSep_congr (fun b hb => by
          show (((c.tc : Thread nD τ).loc b) ↦{fullShare} V (Proc.devRef .tc b) : sProp 𝕄)
            = (((c.tc : Thread nD τ).loc b) ↦{fullShare} Pipeline.withArrays cfg.spec c V A' (Proc.devRef .tc b) : sProp 𝕄)
          rw [Pipeline.withArrays_of_ne cfg.spec c V A' b fun w e => (Finset.mem_sdiff.mp hb).2 (Finset.mem_image.mpr ⟨w, Finset.mem_univ _, e⟩)]) :
        (bigSep ((Finset.univ.filter fun b : Ref sig .tc => ¬ b.isScoped) \ Finset.univ.image (Pipeline.arrRef cfg.spec))
            fun b => (((c.tc : Thread nD τ).loc b) ↦{fullShare} V (Proc.devRef .tc b) : sProp 𝕄))
          = bigSep ((Finset.univ.filter fun b : Ref sig .tc => ¬ b.isScoped) \ Finset.univ.image (Pipeline.arrRef cfg.spec))
            fun b => (((c.tc : Thread nD τ).loc b) ↦{fullShare} Pipeline.withArrays cfg.spec c V A' (Proc.devRef .tc b) : sProp 𝕄)))
      iexact Hrest

/-- The body obligation's two sides at a point, the windows listed. -/
theorem sound_body1 (V : Valuation τ sig (Elt F)) (O : CellTallies nD τ sig (HIx 1)) (W : Waits sig (HIx 1)) (c : Dev nD) (t : Fin cfg1.N)
    (Y : (w : Fin cfg1.W) → (cfg1.win w).block.Idx → Elt F (cfg1.win w).elt) :
    iprop((rdat1 V O W c).Φ t.castSucc ∗ (rdat1 V O W c).owesAt none t.castSucc
        ∗ owns (c : Thread nD τ) ((cfg1.win 0).stage (cfg1.slots t 0)) fullShare (Y 0)
        ∗ owns (c : Thread nD τ) ((cfg1.win 1).stage (cfg1.slots t 1)) fullShare (Y 1)
        ∗ owns (c : Thread nD τ) ((cfg1.win 2).stage (cfg1.slots t 2)) fullShare (Y 2)
        ∗ owns (c : Thread nD τ) ((cfg1.win 3).stage (cfg1.slots t 3)) fullShare (Y 3)
        ∗ owns (c : Thread nD τ) ((cfg1.win 4).stage (cfg1.slots t 4)) fullShare (Y 4))
      ⊢ wp frame (wpE (defs₀ (F := F)) 𝒱₀ c none) Set.univ (bodyAt1 t) (fun _ =>
          iprop((rdat1 V O W c).Φ t.succ ∗ (rdat1 V O W c).owesAt none t.succ
            ∗ (∃ X, ⌜(rdat1 V O W c).after 0 t (Y 0) X⌝ ∗ owns (c : Thread nD τ) ((cfg1.win 0).stage (cfg1.slots t 0)) fullShare X)
            ∗ (∃ X, ⌜(rdat1 V O W c).after 1 t (Y 1) X⌝ ∗ owns (c : Thread nD τ) ((cfg1.win 1).stage (cfg1.slots t 1)) fullShare X)
            ∗ (∃ X, ⌜(rdat1 V O W c).after 2 t (Y 2) X⌝ ∗ owns (c : Thread nD τ) ((cfg1.win 2).stage (cfg1.slots t 2)) fullShare X)
            ∗ (∃ X, ⌜(rdat1 V O W c).after 3 t (Y 3) X⌝ ∗ owns (c : Thread nD τ) ((cfg1.win 3).stage (cfg1.slots t 3)) fullShare X)
            ∗ (∃ X, ⌜(rdat1 V O W c).after 4 t (Y 4) X⌝ ∗ owns (c : Thread nD τ) ((cfg1.win 4).stage (cfg1.slots t 4)) fullShare X))) := by
  rw [show (rdat1 V O W c).Φ t.succ = (rdat1 V O W c).Φ t.castSucc from rfl,
    show (rdat1 V O W c).owesAt none t.succ = (rdat1 V O W c).owesAt none t.castSucc from rfl]
  iintro ⟨HΦ, HO, H0, H1, H2, H3, H4⟩
  ihave H0 := (owns_pt c (win1_0.stage (cfg1.slots t 0)) (hstage1_0 ((cfg1.slots t 0).cast nbuf1_0)) (Y 0)) $$ H0
  ihave H1 := (owns_pt c (win1_1.stage (cfg1.slots t 1)) (hstage1_1 ((cfg1.slots t 1).cast nbuf1_1)) (Y 1)) $$ H1
  ihave H2 := (owns_pt c (win1_2.stage (cfg1.slots t 2)) (hstage1_2 ((cfg1.slots t 2).cast nbuf1_2)) (Y 2)) $$ H2
  ihave H3 := (owns_pt c (win1_3.stage (cfg1.slots t 3)) (hstage1_3 ((cfg1.slots t 3).cast nbuf1_3)) (Y 3)) $$ H3
  ihave H4 := (owns_pt c (win1_4.stage (cfg1.slots t 4)) (hstage1_4 ((cfg1.slots t 4).cast nbuf1_4)) (Y 4)) $$ H4
  icases H0 with ⟨%f0, H0⟩
  icases H1 with ⟨%f1, H1⟩
  icases H2 with ⟨%f2, H2⟩
  icases H3 with ⟨%f3, H3⟩
  icases H4 with ⟨%f4, H4⟩
  iapply (kernelRun1 c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    f0 f1 f2 f3 f4 Set.univ)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iapply (pt_owns c (win1_0.stage (cfg1.slots t 0)) (hstage1_0 ((cfg1.slots t 0).cast nbuf1_0))); iexists f0; iexact H0
  isplitl [H1]; · iapply (pt_owns c (win1_1.stage (cfg1.slots t 1)) (hstage1_1 ((cfg1.slots t 1).cast nbuf1_1))); iexists f1; iexact H1
  isplitl [H2]; · iapply (pt_owns c (win1_2.stage (cfg1.slots t 2)) (hstage1_2 ((cfg1.slots t 2).cast nbuf1_2))); iexists f2; iexact H2
  isplitl [H3]; · iapply (pt_owns c (win1_3.stage (cfg1.slots t 3)) (hstage1_3 ((cfg1.slots t 3).cast nbuf1_3))); iexists f3; iexact H3
  iapply (pt_owns c (win1_4.stage (cfg1.slots t 4)) (hstage1_4 ((cfg1.slots t 4).cast nbuf1_4))); iexact H4

set_option maxRecDepth 8192 in
/-- The library's body obligation of pipeline 0's data: the windows opened, the run applied. -/
theorem body_obligation1 (V : Valuation τ sig (Elt F)) (O : CellTallies nD τ sig (HIx 1)) (W : Waits sig (HIx 1)) (c : Dev nD) :
    (rdat1 V O W c).BodyObligation (defs₀ (F := F)) 𝒱₀ none Set.univ := fun t Y _ => by
  rw [bigSep_W1, bigSep_W1]
  exact sound_body1 V O W c t Y

set_option backward.isDefEq.respectTransparency.types false in
/-- Pipeline 0's region: the launch's layout, no semaphore of the kernel's own, the body obligation, the wait evidence
    (the TensorCore owes nothing at the index of the pipeline's cells), and the four entailments around the thread states. -/
def seg1 (V₁ V₂ : Valuation τ sig (Elt F)) (O : CellTallies nD τ sig (HIx 1)) (hO : ∀ g, O g none = 0) (W : Waits sig (HIx 1)) :
    Pipeline.RDat.RegionSeg (pcfgs (F := F)) adm (rdats V₁ V₂ O W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation1 V₁ O W c
  hwaits c := Pipeline.RDat.cellsWaits_intro (Pipeline.pin (pcfgs (F := F)) adm) (rdats V₁ V₂ O W) none 0 c
    fun w s t => (K (F := F)).mayWait_none (thr := (c.tc : Thread nD τ)) _ hO
  pre c := tcPre V₁ O W c
  post c := tcPost main_v9 V₁ O W c
  X _ := iprop(emp)
  Y _ := iprop(emp)
  Z c := Pipeline.unscopedRest (Ix := HIx 1) (Name := ℕ) (U := UU) (Lvl := ℕ) spec1 c (fun b => V₁ b)
  hentry c := by
    have hsplit := Pipeline.RDat.arrays_of_unscopedBufs (p := 0) (pcfgs (F := F)) adm (rdats V₁ V₂ O W) launch1.win launch1.arr_whole c
      ((rdats V₁ V₂ O W 0 c).share_full fun _ => rfl) (fun b => V₁ b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr; · iempintro
    iexact Hrest
  hin c := by
    rw [show (rdats V₁ V₂ O W 0 c).Φ 0 = Pipeline.scopedRest spec1 c from rfl]
    iintro ⟨-, -, Hr⟩; iexact Hr
  hout c := by
    rw [Pipeline.ownSems0_none, show (rdats V₁ V₂ O W 0 c).Φ (Fin.last _) = Pipeline.scopedRest spec1 c from rfl]
    iintro Hr
    isplitr; · iempintro
    isplitr; · iempintro
    iexact Hr
  hexit c := by
    have hjoin := exit_held c (rdat1 V₁ O W c) launch1.win launch1.arr_whole ((rdat1 V₁ O W c).share_full fun _ => rfl) V₁ (fun _ => rfl) cfg1.N
    rw [show (rdats V₁ V₂ O W 0 c).arraysAt (Pipeline.pin (pcfgs (F := F)) adm 0).N = (rdat1 V₁ O W c).arraysAt cfg1.N from rfl,
      show (rdats V₁ V₂ O W 0 c).owesAt none (Fin.last (Pipeline.pin (pcfgs (F := F)) adm 0).N) = (rdat1 V₁ O W c).owesAt none (Fin.last cfg1.N) from rfl]
    iintro ⟨Ha, HO, -, Hrest⟩
    imodintro
    isplitl [Ha Hrest]
    · ihave H := hjoin $$ [Ha Hrest]
      · isplitl [Ha]; · iexact Ha
        iexact Hrest
      icases H with ⟨%V', %hV', H⟩
      iexists V'; isplitr; swap; (· iexact H)
      ipureintro
      intro b hb
      refine hV' b fun w hw => ?_
      have hw4 : w = 4 := by
        revert hw; revert w; decide
      subst hw4
      exact fun e => hb e.symm
    · icases HO with ⟨%W', %hW', HO⟩
      iexists W'; isplitr; swap; (· iexact HO)
      ipureintro
      intro q hq
      rcases hW' hq with h | ⟨w, s, rfl⟩
      · exact Or.inl h
      · exact Or.inr rfl

set_option backward.isDefEq.respectTransparency.types false in
/-- REGION 0. From the boundary, the thread state at `V₁`, the level facts and pipeline 0's launch ghost state, the
    region's call runs to the boundary and the thread state it leaves, for the continuation. -/
theorem region_0 (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (ΛP (F := F)) .tc) α) (Q : α → sProp 𝕄) :
    iprop((iprop(boundary (d.tc : Thread nD τ) ∗ tcPost main_v9 V₁ O W d) -∗ wp frame (wpE (D (F := F)) 𝒱 (d.tc : Thread nD τ) none) Set.univ (k ⟨⟩) Q)
        ∗ boundary (d.tc : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q :=
  Pipeline.RDat.RegionSeg.wp (pcfgs (F := F)) adm (rdats V₁ V₂ O W) none cellOf_inj EP defs₀ 𝒱₀ _ _ (seg1 V₁ V₂ O hO W) d none (fun _ h => nomatch h) k Q

end Cert.KernelIdeal.Pf

end
-- ==== Proof.KRegion2.lean ====
/-
  The second TensorCore pipeline of the program (grid 12 × 1; four windows: the aggregated chunk, the transposed
  matrix, the bias row, and the result's rows below 7168, which overwrite part of the array the first pipeline
  filled) run as a region of the TensorCore's program, at the level of the frame: every array the region only reads
  ends as it began, the result's array ends at some contents, what the TensorCore owes is unchanged.
-/
import proofs.«203732_g20581483283120_cont_8to1_285_17_alg».proof.Proof.KCommon
import proofs.«203732_g20581483283120_cont_8to1_285_17_alg».proof.Proof.KBody2
import proofs.«203732_g20581483283120_cont_8to1_285_17_alg».proof.Proof.KRegion1

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The body obligation's two sides at a point, the windows listed. -/
theorem sound_body2 (V : Valuation τ sig (Elt F)) (O : CellTallies nD τ sig (HIx 1)) (W : Waits sig (HIx 1)) (c : Dev nD) (t : Fin cfg2.N)
    (Y : (w : Fin cfg2.W) → (cfg2.win w).block.Idx → Elt F (cfg2.win w).elt) :
    iprop((rdat2 V O W c).Φ t.castSucc ∗ (rdat2 V O W c).owesAt none t.castSucc
        ∗ owns (c : Thread nD τ) ((cfg2.win 0).stage (cfg2.slots t 0)) fullShare (Y 0)
        ∗ owns (c : Thread nD τ) ((cfg2.win 1).stage (cfg2.slots t 1)) fullShare (Y 1)
        ∗ owns (c : Thread nD τ) ((cfg2.win 2).stage (cfg2.slots t 2)) fullShare (Y 2)
        ∗ owns (c : Thread nD τ) ((cfg2.win 3).stage (cfg2.slots t 3)) fullShare (Y 3))
      ⊢ wp frame (wpE (defs₀ (F := F)) 𝒱₀ c none) Set.univ (bodyAt2 t) (fun _ =>
          iprop((rdat2 V O W c).Φ t.succ ∗ (rdat2 V O W c).owesAt none t.succ
            ∗ (∃ X, ⌜(rdat2 V O W c).after 0 t (Y 0) X⌝ ∗ owns (c : Thread nD τ) ((cfg2.win 0).stage (cfg2.slots t 0)) fullShare X)
            ∗ (∃ X, ⌜(rdat2 V O W c).after 1 t (Y 1) X⌝ ∗ owns (c : Thread nD τ) ((cfg2.win 1).stage (cfg2.slots t 1)) fullShare X)
            ∗ (∃ X, ⌜(rdat2 V O W c).after 2 t (Y 2) X⌝ ∗ owns (c : Thread nD τ) ((cfg2.win 2).stage (cfg2.slots t 2)) fullShare X)
            ∗ (∃ X, ⌜(rdat2 V O W c).after 3 t (Y 3) X⌝ ∗ owns (c : Thread nD τ) ((cfg2.win 3).stage (cfg2.slots t 3)) fullShare X))) := by
  rw [show (rdat2 V O W c).Φ t.succ = (rdat2 V O W c).Φ t.castSucc from rfl,
    show (rdat2 V O W c).owesAt none t.succ = (rdat2 V O W c).owesAt none t.castSucc from rfl]
  iintro ⟨HΦ, HO, H0, H1, H2, H3⟩
  ihave H0 := (owns_pt c (win2_0.stage (cfg2.slots t 0)) (hstage2_0 ((cfg2.slots t 0).cast nbuf2_0)) (Y 0)) $$ H0
  ihave H1 := (owns_pt c (win2_1.stage (cfg2.slots t 1)) (hstage2_1 ((cfg2.slots t 1).cast nbuf2_1)) (Y 1)) $$ H1
  ihave H2 := (owns_pt c (win2_2.stage (cfg2.slots t 2)) (hstage2_2 ((cfg2.slots t 2).cast nbuf2_2)) (Y 2)) $$ H2
  ihave H3 := (owns_pt c (win2_3.stage (cfg2.slots t 3)) (hstage2_3 ((cfg2.slots t 3).cast nbuf2_3)) (Y 3)) $$ H3
  icases H0 with ⟨%f0, H0⟩
  icases H1 with ⟨%f1, H1⟩
  icases H2 with ⟨%f2, H2⟩
  icases H3 with ⟨%f3, H3⟩
  iapply (kernelRun2 c (grid2.coords t) (Memref.whole main_v9) (Memref.isWhole_whole _)
    (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3))
    f0 f1 f2 f3 Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iapply (pt_owns c (win2_0.stage (cfg2.slots t 0)) (hstage2_0 ((cfg2.slots t 0).cast nbuf2_0))); iexists f0; iexact H0
  isplitl [H1]; · iapply (pt_owns c (win2_1.stage (cfg2.slots t 1)) (hstage2_1 ((cfg2.slots t 1).cast nbuf2_1))); iexists f1; iexact H1
  isplitl [H2]; · iapply (pt_owns c (win2_2.stage (cfg2.slots t 2)) (hstage2_2 ((cfg2.slots t 2).cast nbuf2_2))); iexists f2; iexact H2
  iapply (pt_owns c (win2_3.stage (cfg2.slots t 3)) (hstage2_3 ((cfg2.slots t 3).cast nbuf2_3))); iexact H3

set_option maxRecDepth 8192 in
/-- The library's body obligation of pipeline 1's data: the windows opened, the run applied. -/
theorem body_obligation2 (V : Valuation τ sig (Elt F)) (O : CellTallies nD τ sig (HIx 1)) (W : Waits sig (HIx 1)) (c : Dev nD) :
    (rdat2 V O W c).BodyObligation (defs₀ (F := F)) 𝒱₀ none Set.univ := fun t Y _ => by
  rw [bigSep_W2, bigSep_W2]
  exact sound_body2 V O W c t Y

set_option backward.isDefEq.respectTransparency.types false in
/-- Pipeline 1's region: the launch's layout, no semaphore of the kernel's own, the body obligation, the wait evidence
    (the TensorCore owes nothing at the index of the pipeline's cells), and the four entailments around the thread states. -/
def seg2 (V₁ V₂ : Valuation τ sig (Elt F)) (O : CellTallies nD τ sig (HIx 1)) (hO : ∀ g, O g none = 0) (W : Waits sig (HIx 1)) :
    Pipeline.RDat.RegionSeg (pcfgs (F := F)) adm (rdats V₁ V₂ O W) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligation2 V₂ O W c
  hwaits c := Pipeline.RDat.cellsWaits_intro (Pipeline.pin (pcfgs (F := F)) adm) (rdats V₁ V₂ O W) none 1 c
    fun w s t => (K (F := F)).mayWait_none (thr := (c.tc : Thread nD τ)) _ hO
  pre c := tcPre V₂ O W c
  post c := tcPost main_v10 V₂ O W c
  X _ := iprop(emp)
  Y _ := iprop(emp)
  Z c := Pipeline.unscopedRest (Ix := HIx 1) (Name := ℕ) (U := UU) (Lvl := ℕ) spec2 c (fun b => V₂ b)
  hentry c := by
    have hsplit := Pipeline.RDat.arrays_of_unscopedBufs (p := 1) (pcfgs (F := F)) adm (rdats V₁ V₂ O W) launch2.win launch2.arr_whole c
      ((rdats V₁ V₂ O W 1 c).share_full fun _ => rfl) (fun b => V₂ b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr; · iempintro
    iexact Hrest
  hin c := by
    rw [show (rdats V₁ V₂ O W 1 c).Φ 0 = Pipeline.scopedRest spec2 c from rfl]
    iintro ⟨-, -, Hr⟩; iexact Hr
  hout c := by
    rw [Pipeline.ownSems0_none, show (rdats V₁ V₂ O W 1 c).Φ (Fin.last _) = Pipeline.scopedRest spec2 c from rfl]
    iintro Hr
    isplitr; · iempintro
    isplitr; · iempintro
    iexact Hr
  hexit c := by
    have hjoin := exit_held c (rdat2 V₂ O W c) launch2.win launch2.arr_whole ((rdat2 V₂ O W c).share_full fun _ => rfl) V₂ (fun _ => rfl) cfg2.N
    rw [show (rdats V₁ V₂ O W 1 c).arraysAt (Pipeline.pin (pcfgs (F := F)) adm 1).N = (rdat2 V₂ O W c).arraysAt cfg2.N from rfl,
      show (rdats V₁ V₂ O W 1 c).owesAt none (Fin.last (Pipeline.pin (pcfgs (F := F)) adm 1).N) = (rdat2 V₂ O W c).owesAt none (Fin.last cfg2.N) from rfl]
    iintro ⟨Ha, HO, -, Hrest⟩
    imodintro
    isplitl [Ha Hrest]
    · ihave H := hjoin $$ [Ha Hrest]
      · isplitl [Ha]; · iexact Ha
        iexact Hrest
      icases H with ⟨%V', %hV', H⟩
      iexists V'; isplitr; swap; (· iexact H)
      ipureintro
      intro b hb
      refine hV' b fun w hw => ?_
      have hw3 : w = 3 := by
        revert hw; revert w; decide
      subst hw3
      exact fun e => hb e.symm
    · icases HO with ⟨%W', %hW', HO⟩
      iexists W'; isplitr; swap; (· iexact HO)
      ipureintro
      intro q hq
      rcases hW' hq with h | ⟨w, s, rfl⟩
      · exact Or.inl h
      · exact Or.inr rfl

set_option backward.isDefEq.respectTransparency.types false in
/-- REGION 1. From the boundary, the thread state at `V₂`, the level facts and pipeline 1's launch ghost state, the
    region's call runs to the boundary and the thread state it leaves, for the continuation. -/
theorem region_1 (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (ΛP (F := F)) .tc) α) (Q : α → sProp 𝕄) :
    iprop((iprop(boundary (d.tc : Thread nD τ) ∗ tcPost main_v10 V₂ O W d) -∗ wp frame (wpE (D (F := F)) 𝒱 (d.tc : Thread nD τ) none) Set.univ (k ⟨⟩) Q)
        ∗ boundary (d.tc : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q :=
  Pipeline.RDat.RegionSeg.wp (pcfgs (F := F)) adm (rdats V₁ V₂ O W) none cellOf_inj EP defs₀ 𝒱₀ _ _ (seg2 V₁ V₂ O hO W) d none (fun _ h => nomatch h) k Q

end Cert.KernelIdeal.Pf

end
-- ==== Proof.KRegionsLift.lean ====
/-
  The two TensorCore regions as the SparseCore launch theorem's TensorCore program meets them: the region's call
  lifted into the extended signature, under the extended body table, with any continuation.
-/
import proofs.«203732_g20581483283120_cont_8to1_285_17_alg».proof.Proof.KCommon
import proofs.«203732_g20581483283120_cont_8to1_285_17_alg».proof.Proof.KRegion2

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.SparseCore (T)

/-- REGION 0 under the extended body table: the call of pipeline 0's entry label, lifted, then any continuation. -/
theorem region_0' (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v9 V₁ O W d) -∗ wp frame (wpE ((K (F := F)).defs (D (F := F))) 𝒱 (T d : Thread nD τ) none) Set.univ (k ⟨⟩) Q)
        ∗ boundary (T d : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d : Thread nD τ) none) Set.univ
          (.op (.customCall (SparseCore.inner (Pipeline.entry 0)) ()) k) Q := by
  rw [show (Prog.op (.customCall (SparseCore.inner (Pipeline.entry 0)) ()) k : Prog (TpuEff nD τ sig (Elt F) (SparseCore.Sig (ΛP (F := F)) 1) .tc) α)
      = (SparseCore.liftProg (Q := 1) (.op (.customCall (Pipeline.entry 0) ()) fun _ => .ret PUnit.unit : Prog (TpuEff nD τ sig (Elt F) (ΛP (F := F)) .tc) PUnit)) >>= k from rfl,
    wp_bind]
  iintro ⟨Hk, Hb, Hpre, Hlev, Hg, Ht⟩
  iapply (wp_wand_r frame _ Set.univ)
  isplitr [Hk]
  · iapply ((K (F := F)).wp_liftProg (D (F := F)) 𝒱 (T d : Thread nD τ) Set.univ none _
      (fun _ => iprop(boundary (T d : Thread nD τ) ∗ tcPost main_v9 V₁ O W d)))
    iapply (region_0 V₁ V₂ O hO W d (fun _ => .ret PUnit.unit) (fun _ => iprop(boundary (T d : Thread nD τ) ∗ tcPost main_v9 V₁ O W d)))
    isplitr [Hb Hpre Hlev Hg Ht]
    · iintro H; rw [wp_ret]; imodintro; iexact H
    isplitl [Hb]; · iexact Hb
    isplitl [Hpre]; · iexact Hpre
    isplitl [Hlev]; · iexact Hlev
    isplitl [Hg]; · iexact Hg
    iexact Ht
  · iintro %_ H; iapply Hk; iexact H

/-- REGION 1 under the extended body table, the same way. -/
theorem region_1' (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v10 V₂ O W d) -∗ wp frame (wpE ((K (F := F)).defs (D (F := F))) 𝒱 (T d : Thread nD τ) none) Set.univ (k ⟨⟩) Q)
        ∗ boundary (T d : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d : Thread nD τ) none) Set.univ
          (.op (.customCall (SparseCore.inner (Pipeline.entry 1)) ()) k) Q := by
  rw [show (Prog.op (.customCall (SparseCore.inner (Pipeline.entry 1)) ()) k : Prog (TpuEff nD τ sig (Elt F) (SparseCore.Sig (ΛP (F := F)) 1) .tc) α)
      = (SparseCore.liftProg (Q := 1) (.op (.customCall (Pipeline.entry 1) ()) fun _ => .ret PUnit.unit : Prog (TpuEff nD τ sig (Elt F) (ΛP (F := F)) .tc) PUnit)) >>= k from rfl,
    wp_bind]
  iintro ⟨Hk, Hb, Hpre, Hlev, Hg, Ht⟩
  iapply (wp_wand_r frame _ Set.univ)
  isplitr [Hk]
  · iapply ((K (F := F)).wp_liftProg (D (F := F)) 𝒱 (T d : Thread nD τ) Set.univ none _
      (fun _ => iprop(boundary (T d : Thread nD τ) ∗ tcPost main_v10 V₂ O W d)))
    iapply (region_1 V₁ V₂ O hO W d (fun _ => .ret PUnit.unit) (fun _ => iprop(boundary (T d : Thread nD τ) ∗ tcPost main_v10 V₂ O W d)))
    isplitr [Hb Hpre Hlev Hg Ht]
    · iintro H; rw [wp_ret]; imodintro; iexact H
    isplitl [Hb]; · iexact Hb
    isplitl [Hpre]; · iexact Hpre
    isplitl [Hlev]; · iexact Hlev
    isplitl [Hg]; · iexact Hg
    iexact Ht
  · iintro %_ H; iapply Hk; iexact H

/-- REGION 0 as @main spells it: the lifted call bound to the rest of @main. -/
theorem region_0_bind (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v9 V₁ O W d) -∗ wp frame (wpE ((K (F := F)).defs (D (F := F))) 𝒱 (T d : Thread nD τ) none) Set.univ (k ⟨⟩) Q)
        ∗ boundary (T d : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d : Thread nD τ) none) Set.univ
          (Prog.lift (.customCall (SparseCore.inner (Pipeline.entry 0)) ()) >>= k) Q :=
  region_0' V₁ V₂ O hO W d k Q

/-- REGION 1 as @main spells it. -/
theorem region_1_bind (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v10 V₂ O W d) -∗ wp frame (wpE ((K (F := F)).defs (D (F := F))) 𝒱 (T d : Thread nD τ) none) Set.univ (k ⟨⟩) Q)
        ∗ boundary (T d : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d : Thread nD τ) none) Set.univ
          (Prog.lift (.customCall (SparseCore.inner (Pipeline.entry 1)) ()) >>= k) Q :=
  region_1' V₁ V₂ O hO W d k Q

end Cert.KernelIdeal.Pf

end
-- ==== Proof.KLaunch.lean ====
/-
  The launch element of the kernel's ghost state, and how the final memory is read.

  The launch element is a triple: the handshakes' rounds at their cells, the two pipelines' staging cells' rounds at
  theirs, and the unit of the local copies' counters. It splits into its components; the counters' unit is dropped;
  the staging cells' component funds, for every device and each of the two pipelines, the cells' launch ghost state
  and the duty tokens of the transfers the pipeline's loop will issue. A device's share is the two pipelines' side by
  side. Nothing is dealt to the threads beyond the handshakes.

  At the end, buffers held whole at a valuation pin the physical memory: the memory agrees with the valuation at
  every held buffer.
-/
import proofs.«203732_g20581483283120_cont_8to1_285_17_alg».proof.Proof.KCommon

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The launch element -/

/-- The two pipelines at their (trivial) admissible table contents. -/
abbrev pcs : Fin 2 → Pipeline.Cfg sig Λ₀ := Pipeline.pin (pcfgs (F := F)) adm

set_option backward.isDefEq.respectTransparency.types false in
/-- No two staging buffers of the two pipelines share a cell. -/
theorem pcs_inj : Function.Injective (Pipeline.cellOf (nD := nD) (τ := τ) (pcs (F := F))) := cellOf_inj

/-- The launch element: the handshakes' rounds, the staging cells' rounds, the counters' unit. -/
def u₀ : UU :=
  (initOf (K (F := F)).hsCells (K (F := F)).hsToks,
    (initOf (Pipeline.cells (pcs (F := F)) pcs_inj) (Pipeline.launchToks (pcs (F := F)) pcs_inj), 1))

/-- A device's share of the staging cells' ghost state: each pipeline's cells at launch and its duty tokens. -/
def Gd (d : Dev nD) : sProp 𝕄 :=
  iprop((Pipeline.cellsGhost (pcs (F := F)) EP 0 d ∗ Pipeline.toksInit (pcs (F := F)) EP 0 d)
    ∗ (Pipeline.cellsGhost (pcs (F := F)) EP 1 d ∗ Pipeline.toksInit (pcs (F := F)) EP 1 d))

omit [FloatOps F] in
/-- The triple splits into the handshakes' component and the staging cells'; the counters' unit is dropped. -/
theorem ownU_split (a : UH) (b : UP) (c : Counters) :
    (ownU (a, (b, c)) : sProp 𝕄) ⊢ iprop(BI.own (EH a) ∗ BI.own (EP b)) := by
  unfold EP
  iintro Hu
  ihave H := (ownU_pair a (b, c)) $$ Hu
  icases H with ⟨HH, HR⟩
  ihave H2 := (own_pair_emb embR b c) $$ HR
  icases H2 with ⟨HP, -⟩
  isplitl [HH]; · iexact HH
  iexact HP

/-- One device's two pipelines' ghost state and tokens, pipeline by pipeline. -/
theorem gd_intro (d : Dev nD) :
    iprop((Pipeline.cellsGhost (pcs (F := F)) EP 0 d ∗ Pipeline.cellsGhost (pcs (F := F)) EP 1 d)
        ∗ ((Pipeline.toksInit (pcs (F := F)) EP 0 d : sProp 𝕄) ∗ Pipeline.toksInit (pcs (F := F)) EP 1 d))
      ⊢ Gd (F := F) d := by
  unfold Gd
  iintro ⟨⟨Hg0, Hg1⟩, Ht0, Ht1⟩
  isplitl [Hg0 Ht0]
  · isplitl [Hg0]; · iexact Hg0
    iexact Ht0
  · isplitl [Hg1]; · iexact Hg1
    iexact Ht1

/-- Every device's two pipelines' ghost state and tokens, regrouped device by device. -/
theorem ghost_deal :
    iprop((bigSep Finset.univ fun c : Dev nD => bigSep Finset.univ fun p : Fin 2 => Pipeline.cellsGhost (pcs (F := F)) EP p c)
        ∗ (bigSep Finset.univ fun c : Dev nD => bigSep Finset.univ fun p : Fin 2 => (Pipeline.toksInit (pcs (F := F)) EP p c : sProp 𝕄)))
      ⊢ bigSep Finset.univ fun d : Dev nD => Gd (F := F) d := by
  rw [← bigSep_sep']
  refine bigSep_mono fun d _ => ?_
  rw [bigSep_univ_two, bigSep_univ_two]
  exact gd_intro d

/-- The launch element yields the handshakes' rounds, every device's share of the staging cells' ghost state, and
    nothing more for any thread. -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks))
          ∗ (bigSep Finset.univ fun d : Dev nD => Gd (F := F) d)
          ∗ bigSep Finset.univ fun thr : Thread nD τ => bigSep Finset.univ fun q : Fin 1 => P.x q thr) := by
  have hemp : (bigSep Finset.univ fun thr : Thread nD τ => bigSep Finset.univ fun q : Fin 1 => P.x q thr) = (iprop(emp) : sProp 𝕄) := by
    rw [bigSep_congr fun thr _ => (bigSep_congr fun q _ => hx q thr).trans (bigSep_emp_const _), bigSep_emp_const]
    rfl
  unfold u₀
  iintro Hu
  ihave H := (ownU_split _ _ _) $$ Hu
  icases H with ⟨HH, HP⟩
  imod (Pipeline.fund_ghost (pcs (F := F)) EP pcs_inj) $$ HP with ⟨Hg, Ht⟩
  imodintro
  isplitl [HH]; · iexact HH
  isplitl [Hg Ht]
  · iapply ghost_deal
    isplitl [Hg]; · iexact Hg
    iexact Ht
  · rw [hemp]; iempintro

/-! ## Reading the final memory -/

/-- Buffers held whole at a valuation, under the state interpretation: the memory is the valuation at each of them. -/
theorem held_SI_agree (d : Dev nD) (S : Finset (DevRef τ sig)) (W : Valuation τ sig (Elt F)) (s' : Phys nD τ sig (Elt F)) :
    iprop(held (SparseCore.T d) S W ∗ SI s') ⊢ (⌜∀ b ∈ S, s'.mem.mem (d, b) = W b⌝ : sProp 𝕄) := by
  classical
  induction S using Finset.induction_on with
  | empty =>
    iintro -
    ipureintro
    exact fun b hb => absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := ((SparseCore.T d).1, b)) (I := Finset.univ) (q := fullShare) (f := W b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

end Cert.KernelIdeal.Pf

end
-- ==== Proof.KRun.lean ====
/-
  The kernel program's run: @main on the TensorCore threaded through the SparseCore call and the two TensorCore
  regions, what the final memory says of the arguments, and the launch theorem applied.
-/
import proofs.«203732_g20581483283120_cont_8to1_285_17_alg».proof.Proof.KMain
import proofs.«203732_g20581483283120_cont_8to1_285_17_alg».proof.Proof.KRegionsLift
import proofs.«203732_g20581483283120_cont_8to1_285_17_alg».proof.Proof.KLaunch

noncomputable section

namespace Cert.KernelIdeal.Pf

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F]

local notation "𝕄" => MT nD τ sig (HIx 1) (Elt F) ℕ UU ℕ

/-! ## @main, its tails named -/

/-- After the second region: the last transpose. -/
def tail2 : Prog (TpuEff nD τ sig (Elt F) (SparseCore.Sig (ΛP (F := F)) 1) .tc) PUnit :=
  seq opsC >>= fun _ => pure ⟨⟩
/-- After the first region: the copy into the aliased buffer, the second region, the last transpose. -/
def tail1 : Prog (TpuEff nD τ sig (Elt F) (SparseCore.Sig (ΛP (F := F)) 1) .tc) PUnit :=
  seq opsB >>= fun _ =>
    (Prog.lift (.customCall (SparseCore.inner (Pipeline.entry 1)) ()) : Prog (TpuEff nD τ sig (Elt F) (SparseCore.Sig (ΛP (F := F)) 1) .tc) PUnit) >>= fun _ => tail2
/-- After the SparseCore call: the first region, then the rest. -/
def tail0 : Prog (TpuEff nD τ sig (Elt F) (SparseCore.Sig (ΛP (F := F)) 1) .tc) PUnit :=
  (Prog.lift (.customCall (SparseCore.inner (Pipeline.entry 0)) ()) : Prog (TpuEff nD τ sig (Elt F) (SparseCore.Sig (ΛP (F := F)) 1) .tc) PUnit) >>= fun _ => tail1

set_option maxRecDepth 2048 in
theorem main_eq3 (d : Dev nD) :
    main (F := F) d = (seq opsA >>= fun _ => (sc (F := F)).run d 0 >>= fun _ => tail0) := by
  simp only [main, fn_softplus.body, tail0, tail1, tail2, seq, bind_assoc, pure_bind]
  rfl

theorem SA_ref {b : DevRef τ sig} (hb : b ∈ (SA : Finset (DevRef τ sig))) :
    ∃ r : Ref sig .tc, b = Proc.devRef .tc r ∧ r ≠ main_v9 ∧ r ≠ main_v10 ∧ b ≠ r8 := by
  simp only [Finset.mem_insert, Finset.mem_singleton] at hb
  rcases hb with rfl | rfl | rfl | rfl
  exacts [⟨main_arg0, rfl, by decide, by decide, by decide⟩, ⟨main_arg1, rfl, by decide, by decide, by decide⟩,
    ⟨main_arg2, rfl, by decide, by decide, by decide⟩, ⟨main_arg3, rfl, by decide, by decide, by decide⟩]

/-! ## The TensorCore's handshake state, opened at what it owes -/

theorem tcSt_cast (d : Dev nD) : (K (F := F)).tcSt EH d ((0 : Fin 1).val + 1) = ((K (F := F)).tcSt EH d 1 : sProp 𝕄) := rfl

theorem tcSt_open (d : Dev nD) (n : ℕ) :
    (K (F := F)).tcSt EH d n ⊢ (iprop(∃ W, ⌜(K (F := F)).WBelow (SparseCore.T d) W (8 * n)⌝ ∗ owes (SparseCore.T d) ((K (F := F)).Otc d n) W
      ∗ ∀ W', (⌜(K (F := F)).WBelow (SparseCore.T d) W' (8 * n)⌝ ∗ owes (SparseCore.T d) ((K (F := F)).Otc d n) W') -∗ (K (F := F)).tcSt EH d n) : sProp 𝕄) := by
  unfold SparseCore.Cfg.tcSt
  iintro ⟨⟨%W, %hW, HO⟩, Hrest⟩
  iexists W; isplitr; · ipureintro; exact hW
  isplitl [HO]; · iexact HO
  iintro %W' ⟨%hW', HO'⟩
  isplitl [HO']
  · iexists W'; isplitr; · ipureintro; exact hW'
    iexact HO'
  · iexact Hrest

/-! ## A region as @main meets it -/

/-- Every unscoped buffer but `out` holds at `V'` what it held at `V`. -/
def Unch (out : Ref sig .tc) (V V' : Valuation τ sig (Elt F)) : Prop :=
  ∀ b : Ref sig .tc, b ≠ out → V' (Proc.devRef .tc b) = V (Proc.devRef .tc b)

/-- The TensorCore region of pipeline `p` where @main has it, in front of any continuation: from the boundary, the
    unscoped buffers at `V`, what the TensorCore owes (nothing at the kernels' own index) and the pipeline's launch
    ghost state, to the boundary, the unscoped buffers at some `V'` with `Rel V V'`, and what is owed with no
    recorded pair beyond the kernels' own index. -/
def RegionBind (p : Fin 2) (Rel : Valuation τ sig (Elt F) → Valuation τ sig (Elt F) → Prop) : Prop :=
  ∀ (Vv : Valuation τ sig (Elt F)) (O : CellTallies nD τ sig (HIx 1)) (_ : ∀ g, O g none = 0) (W : Waits sig (HIx 1)) (d : Dev nD)
    {α : Type} (k : PUnit → Prog (TpuEff nD τ sig (Elt F) (SparseCore.Sig (ΛP (F := F)) 1) .tc) α) (Q : α → sProp 𝕄),
    iprop((iprop(boundary (SparseCore.T d : Thread nD τ) ∗ ((∃ V' : Valuation τ sig (Elt F), ⌜Rel Vv V'⌝ ∗ held (SparseCore.T d : Thread nD τ) (Pipeline.ucRefs τ sig) V')
            ∗ ∃ W' : Waits sig (HIx 1), ⌜∀ q ∈ W', q ∈ W ∨ q.2 = none⌝ ∗ owes (SparseCore.T d : Thread nD τ) O W'))
          -∗ wp frame (wpE ((K (F := F)).defs (D (F := F))) 𝒱 (SparseCore.T d : Thread nD τ) none) Set.univ (k ⟨⟩) Q)
        ∗ boundary (SparseCore.T d : Thread nD τ) ∗ tcPre Vv O W d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d : Thread nD τ) none) Set.univ
          (Prog.lift (.customCall (SparseCore.inner (Pipeline.entry p)) ()) >>= k) Q

/-- The two regions run, every buffer but their result's kept. -/
theorem regionBind0 : RegionBind (F := F) 0 (Unch main_v9) := fun Vv O hO W d _ k Q => region_0_bind Vv Vv O hO W d k Q
theorem regionBind1 : RegionBind (F := F) 1 (Unch main_v10) := fun Vv O hO W d _ k Q => region_1_bind Vv Vv O hO W d k Q

/-! ## @main on the TensorCore -/

section Main

variable (m : (ℓ : Loc nD τ sig) → Buf (Elt F) ℓ) (ρ : Dev nD → PrngReg)
variable (P : (K (F := F)).Pay (nD := nD) (Val := Elt F) (Name := ℕ) (U := UU))
variable (C8 : Valuation τ sig (Elt F) → (r8 : DevRef τ sig).ty.Contents (Elt F) → Prop)
  (R9 R10 : Valuation τ sig (Elt F) → Valuation τ sig (Elt F) → Prop)

/-- What the three kernels did to the buffers, as @main saw it: the SparseCore call's result `f8`, the valuation `V1`
    after the first region, `V2` after the second. -/
def Steps (d : Dev nD) (f8 : (r8 : DevRef τ sig).ty.Contents (Elt F)) (V1 V2 : Valuation τ sig (Elt F)) : Prop :=
  C8 (after opsA (V0 m d)) f8 ∧ R9 (Function.update (after opsA (V0 m d)) r8 f8) V1 ∧ R10 (after opsB V1) V2

/-- What @main leaves the claim: every unscoped buffer at the host operations' fold over what the kernels left. -/
def FIN (d : Dev nD) : sProp 𝕄 :=
  iprop(∃ f8 V1 V2, ⌜Steps m C8 R9 R10 d f8 V1 V2⌝ ∗ held (SparseCore.T d) (Pipeline.ucRefs τ sig) (after opsC V2))

set_option maxHeartbeats 1600000 in
/-- @main on device `d`'s TensorCore: the host operations, the SparseCore call from its operands and back, the two
    regions from the unscoped buffers and back, the copy and the transpose; no operation writes an argument. -/
theorem hmain (hcall : CallSplit m P C8) (hreg0 : RegionBind (F := F) 0 R9) (hreg1 : RegionBind (F := F) 1 R10) (κ : GSem nD τ sig → ℕ) (d : Dev nD) :
    iprop((K (F := F)).ctx EH P κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m C8 R9 R10 d) := by
  unfold SparseCore.Cfg.tcRes Gd FIN
  rw [tcRes_held, main_eq3]
  iintro ⟨#Hctx, Hst, ⟨Hb, Hheld, -, -⟩, ⟨⟨Hcg0, Htk0⟩, ⟨Hcg1, Htk1⟩⟩⟩
  -- the host operations before the call
  iapply (wp_seq 𝒱 none Set.univ d (Pipeline.ucRefs τ sig) _ opsA opsA_sub opsA_fresh (V0 m d)) $$ [Hb Hheld]
  · isplitl [Hb]; · iexact Hb
    iexact Hheld
  iintro ⟨Hb, Hheld⟩
  -- the SparseCore call: its operands and result buffer out of the unscoped buffers, and back
  ihave Hh := (Entails.of_eq (held_sub_split (SparseCore.T d) S3_sub (after opsA (V0 m d)))) $$ Hheld
  icases Hh with ⟨H3, Hrest⟩
  rw [wp_bind]
  iapply (fupd_wp frame _ Set.univ)
  imod (hcall d) $$ H3 with ⟨Hst0, Hback⟩
  imodintro
  iapply ((K (F := F)).wp_run (D (F := F)) 𝒱 (EH := EH) (P := P) κ d 0) $$ [Hst Hst0 Hback Hb Hrest Hcg0 Htk0 Hcg1 Htk1]
  isplitr; · iexact Hctx
  isplitl [Hst]; · iexact Hst
  isplitl [Hst0]; · iexact Hst0
  iintro ⟨Hst, Hdn⟩
  iapply (fupd_wp frame _ Set.univ)
  ispecialize Hback $$ Hdn
  imod Hback with ⟨%f8, %hf8, H3⟩
  imodintro
  ihave Hrest' := (Entails.of_eq (held_rest_update d (after opsA (V0 m d)) S3 r8 r8_mem f8).symm) $$ Hrest
  ihave Hheld := (Entails.of_eq (held_sub_split (SparseCore.T d) S3_sub (Function.update (after opsA (V0 m d)) r8 f8)).symm) $$ [H3 Hrest']
  · isplitl [H3]; · iexact H3
    iexact Hrest'
  -- what the TensorCore owes after the only call: nothing
  ihave Hst1 := (Entails.of_eq (tcSt_cast (F := F) d)) $$ Hst
  ihave Hst' := (tcSt_open (F := F) d 1) $$ Hst1
  icases Hst' with ⟨%Wt, %hWt, HO, Hclose⟩
  ihave Hlev := ((K (F := F)).ctx_levAts κ) $$ Hctx
  -- the first TensorCore region
  unfold tail0
  iapply (hreg0 (Function.update (after opsA (V0 m d)) r8 f8)
      ((K (F := F)).Otc d 1) (Otc_one_none d) Wt d (fun _ => tail1 (F := F)) _) $$ [Hb Hheld HO Hlev Hcg0 Htk0 Hclose Hcg1 Htk1]
  isplitl [Hclose Hcg1 Htk1]
  swap
  · isplitl [Hb]; · iexact Hb
    isplitl [Hheld HO]
    · isplitl [Hheld]; · iexact Hheld
      iexact HO
    isplitl [Hlev]; · iexact Hlev
    isplitl [Hcg0]; · iexact Hcg0
    iexact Htk0
  iintro ⟨Hb, ⟨%V1, %hV1, Hheld⟩, %Wt1, %hWt1, HO⟩
  -- the copy into the aliased buffer
  unfold tail1
  iapply (wp_seq 𝒱 none Set.univ d (Pipeline.ucRefs τ sig) _ opsB opsB_sub opsB_fresh V1) $$ [Hb Hheld]
  · isplitl [Hb]; · iexact Hb
    iexact Hheld
  iintro ⟨Hb, Hheld⟩
  -- the second TensorCore region
  ihave Hlev := ((K (F := F)).ctx_levAts κ) $$ Hctx
  iapply (hreg1 (after opsB V1)
      ((K (F := F)).Otc d 1) (Otc_one_none d) Wt1 d (fun _ => tail2 (F := F)) _) $$ [Hb Hheld HO Hlev Hcg1 Htk1 Hclose]
  isplitl [Hclose]
  swap
  · isplitl [Hb]; · iexact Hb
    isplitl [Hheld HO]
    · isplitl [Hheld]; · iexact Hheld
      iexact HO
    isplitl [Hlev]; · iexact Hlev
    isplitl [Hcg1]; · iexact Hcg1
    iexact Htk1
  iintro ⟨Hb, ⟨%V2, %hV2, Hheld⟩, %Wt2, %hWt2, HO⟩
  -- the last transpose
  unfold tail2
  iapply (wp_seq 𝒱 none Set.univ d (Pipeline.ucRefs τ sig) _ opsC opsC_sub opsC_fresh V2) $$ [Hb Hheld]
  · isplitl [Hb]; · iexact Hb
    iexact Hheld
  iintro ⟨Hb, Hheld⟩
  rw [wp_pure]; imodintro
  isplitl [Hclose HO]
  · iapply Hclose
    isplitr
    · ipureintro
      intro q hq
      rcases hWt2 q hq with h | h
      · rcases hWt1 q h with h' | h'
        · exact hWt q h'
        · rw [h', (K (F := F)).lev_none]; exact Nat.zero_le _
      · rw [h, (K (F := F)).lev_none]; exact Nat.zero_le _
    · iexact HO
  · iexists f8; iexists V1; iexists V2
    isplitr
    · ipureintro; exact ⟨hf8, hV1, hV2⟩
    · iexact Hheld

end Main

/-! ## The final memory and the launch theorem -/

section Run

variable (m : (ℓ : Loc nD τ sig) → Buf (Elt F) ℓ) (ρ : Dev nD → PrngReg)
variable (P : (K (F := F)).Pay (nD := nD) (Val := Elt F) (Name := ℕ) (U := UU))
variable (C8 : Valuation τ sig (Elt F) → (r8 : DevRef τ sig).ty.Contents (Elt F) → Prop)
  (R9 R10 : Valuation τ sig (Elt F) → Valuation τ sig (Elt F) → Prop)

/-- What the TensorCore's final assertion says of the final memory. -/
def fq (d : Dev nD) (s' : Phys nD τ sig (Elt F)) : Prop :=
  ∃ f8 V1 V2, Steps m C8 R9 R10 d f8 V1 V2 ∧ ∀ b ∈ Pipeline.ucRefs τ sig, s'.mem.mem (d, b) = after opsC V2 b

theorem hfin (d : Dev nD) (s' : Phys nD τ sig (Elt F)) : iprop(FIN m C8 R9 R10 d ∗ SI s') ⊢ (⌜fq m C8 R9 R10 d s'⌝ : sProp 𝕄) := by
  unfold FIN
  iintro ⟨⟨%f8, %V1, %V2, %hs, H⟩, HSI⟩
  ihave Hag := (held_SI_agree d (Pipeline.ucRefs τ sig) (after opsC V2) s') $$ [H HSI]
  · isplitl [H]; · iexact H
    iexact HSI
  icases Hag with %hag
  ipureintro; exact ⟨f8, V1, V2, hs, hag⟩

/-- The run's post: on every device, the unscoped buffers end at the host operations' fold over what the three kernels left. -/
def QC : PUnit × MemSt nD τ sig (Elt F) → Prop := fun r => ∀ c : Dev nD,
  ∃ f8 V1 V2, Steps m C8 R9 R10 c f8 V1 V2 ∧ ∀ b ∈ Pipeline.ucRefs τ sig, r.2.mem (c, b) = after opsC V2 b

/-- Every weakly fair execution of the TensorCore, the two sequencers and the thirty-two tiles terminates, nothing
    faulting, the memory as `QC` says — from a payload record for the SparseCore call whose tile task is proved, whose
    per-SparseCore payloads split into the tiles' and come out of (and go back into) the call's three buffers, and the
    two regions' runs. -/
theorem run_main [∀ e, Nonempty (Elt F e)] [P.IsStorable] (hx : ∀ q thr, P.x q thr = iprop(emp)) (hheld : P.held = ∅) (hcall : CallSplit m P C8)
    (hreg0 : RegionBind (F := F) 0 R9) (hreg1 : RegionBind (F := F) 1 R10)
    (htile : (K (F := F)).TileObl (D (F := F)) 𝒱 P v₀ 0) (hvec : (K (F := F)).VecSplit' P 0) :
    θ_run (Cert.KernelIdeal.defs (F := F)) (Cert.KernelIdeal.threads (F := F)) ⟨m, fun _ => 0, ρ⟩ (QC m C8 R9 R10) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => Gd (F := F) d) (FIN m C8 R9 R10) (u₀ (F := F)) (sep_elim_left.trans (hu₀ P hx)) (hmain m ρ P C8 R9 R10 hcall hreg0 hreg1)
    (fq m C8 R9 R10) (hfin m C8 R9 R10) (QC m C8 R9 R10) (fun s' h c => h c) hheld

/-- When the two regions keep every buffer but their results', the arguments end as they started. -/
theorem args_kept (hR9 : ∀ V V', R9 V V' → Unch main_v9 V V') (hR10 : ∀ V V', R10 V V' → Unch main_v10 V V')
    {d : Dev nD} {f8 : (r8 : DevRef τ sig).ty.Contents (Elt F)} {V1 V2 : Valuation τ sig (Elt F)} (hs : Steps m C8 R9 R10 d f8 V1 V2) :
    ∀ b ∈ (SA : Finset (DevRef τ sig)), after opsC V2 b = V0 m d b := by
  intro b hb
  obtain ⟨r, rfl, h9, h10, h8⟩ := SA_ref hb
  rw [afterC_arg _ _ hb, hR10 _ _ hs.2.2 r h10, afterB_arg _ _ hb, hR9 _ _ hs.2.1 r h9, Function.update_of_ne h8, afterA_arg _ _ hb]

/-- The frame: the program runs and the four argument arrays end unchanged. -/
theorem frame_of_run (hR9 : ∀ V V', R9 V V' → Unch main_v9 V V') (hR10 : ∀ V V', R10 V V' → Unch main_v10 V V')
    (r : PUnit × MemSt nD τ sig (Elt F)) (h : QC m C8 R9 R10 r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨f8, V1, V2, hs, hmem⟩ := h c
  have ha := args_kept m C8 R9 R10 hR9 hR10 hs
  exact ⟨(hmem a0 (SA_sub (by decide))).trans (ha a0 (by decide)), (hmem a1 (SA_sub (by decide))).trans (ha a1 (by decide)),
    (hmem a2 (SA_sub (by decide))).trans (ha a2 (by decide)), (hmem a3 (SA_sub (by decide))).trans (ha a3 (by decide))⟩

end Run

end Cert.KernelIdeal.Pf

end
-- ==== Proof.KTileComp.lean ====
import proofs.«203732_g20581483283120_cont_8to1_285_17_alg».proof.Proof.KCommon

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Names -/

abbrev cV (L : grid0.Coords) : Fin τ.nSC := (L 0).castLE hcore0
abbrev jV (L : grid0.Coords) : Fin τ.nSub := (L 1).castLE hsub0

abbrev xM : Memref sig .scVector .hbm S36x16384x128 .f32 := Memref.whole main_v5_scv
abbrev wM : Memref sig .scVector .hbm S576 .f32 := Memref.whole main_v3_scv
abbrev oM : Memref sig .scVector .hbm S12x7168x128 .f32 := Memref.whole main_v8_scv
abbrev wvM : Memref sig .scVector .vmem S576 .f32 := Memref.whole cc0_scratch0
abbrev xv0M : Memref sig .scVector .vmem S36x8x128 .f32 := Memref.whole cc0_scratch1
abbrev xv1M : Memref sig .scVector .vmem S36x8x128 .f32 := Memref.whole cc0_scratch2
abbrev ov0M : Memref sig .scVector .vmem S12x8x128 .f32 := Memref.whole cc0_scratch3
abbrev ov1M : Memref sig .scVector .vmem S12x8x128 .f32 := Memref.whole cc0_scratch4

abbrev x5Loc (d : Dev nD) : Loc nD τ sig := (SparseCore.T d).loc main_v5
abbrev w3Loc (d : Dev nD) : Loc nD τ sig := (SparseCore.T d).loc main_v3
abbrev o8Loc (d : Dev nD) : Loc nD τ sig := (SparseCore.T d).loc main_v8

section Tile
variable (d : Dev nD) (L : grid0.Coords)

/-- what one row of products and sums needs, first slot: the inputs as they were, the output slot at some contents -/
abbrev CompRes0 (fx : Buf (Elt F) ((V d (cV L) (jV L)).loc cc0_scratch1)) (fw : Buf (Elt F) ((V d (cV L) (jV L)).loc cc0_scratch0)) : sProp 𝕄 :=
  iprop(((xv0M).view.loc (V d (cV L) (jV L)) ↦{fullShare} fx) ∗ ((wvM).view.loc (V d (cV L) (jV L)) ↦{fullShare} fw)
    ∗ ∃ fo, (ov0M).view.loc (V d (cV L) (jV L)) ↦{fullShare} fo)

/-- the same, second slot -/
abbrev CompRes1 (fx : Buf (Elt F) ((V d (cV L) (jV L)).loc cc0_scratch2)) (fw : Buf (Elt F) ((V d (cV L) (jV L)).loc cc0_scratch0)) : sProp 𝕄 :=
  iprop(((xv1M).view.loc (V d (cV L) (jV L)) ↦{fullShare} fx) ∗ ((wvM).view.loc (V d (cV L) (jV L)) ↦{fullShare} fw)
    ∗ ∃ fo, (ov1M).view.loc (V d (cV L) (jV L)) ↦{fullShare} fo)

set_option maxHeartbeats 4000000 in
/-- One row of the first slot: every load is from the landed rows or the weights, every store into the output slot. -/
theorem compute0 (fx : Buf (Elt F) ((V d (cV L) (jV L)).loc cc0_scratch1)) (fw : Buf (Elt F) ((V d (cV L) (jV L)).loc cc0_scratch0))
    (v3 v4 c0 c1 : BitVec 32) (k1 : Fin k0_t1_loop.trips) (k : Fin k0_t2_loop.trips) (acc : BitVec 32) :
    CompRes0 (F := F) d L fx fw
      ⊢ wp frame (wpE (defs₀ (F := F)) 𝒱₀ (V d (cV L) (jV L)) none) Set.univ
          (k0_t2_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 v3 v4 c0 c1 k1 k acc)
          fun _ => CompRes0 (F := F) d L fx fw := by
  unfold k0_t2_body
  iintro ⟨Hx, Hw, %fo, Ho⟩
  sl_exec_parts
  sl_step
  isplitl [Hx]; · iexact Hx
  isplitl [Hw]; · iexact Hw
  iexists _; iexact Ho

set_option maxHeartbeats 4000000 in
/-- One row of the second slot. -/
theorem compute1 (fx : Buf (Elt F) ((V d (cV L) (jV L)).loc cc0_scratch2)) (fw : Buf (Elt F) ((V d (cV L) (jV L)).loc cc0_scratch0))
    (k : Fin k0_t3_loop.trips) (acc : BitVec 32) :
    CompRes1 (F := F) d L fx fw
      ⊢ wp frame (wpE (defs₀ (F := F)) 𝒱₀ (V d (cV L) (jV L)) none) Set.univ
          (k0_t3_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 k acc)
          fun _ => CompRes1 (F := F) d L fx fw := by
  unfold k0_t3_body
  iintro ⟨Hx, Hw, %fo, Ho⟩
  sl_exec_parts
  sl_step
  isplitl [Hx]; · iexact Hx
  isplitl [Hw]; · iexact Hw
  iexists _; iexact Ho

end Tile
end Cert.KernelIdeal.Pf
end
-- ==== Proof.KTileDefs.lean ====
import proofs.«203732_g20581483283120_cont_8to1_285_17_alg».proof.Proof.KTileComp

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The rows a tile works on -/

/-- the tile's number -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem xRect_inb (L : grid0.Coords) (g : ℕ) :
    ∀ a, (![0, 224 * wid L + 8 * min g 27, 0] : Fin 3 → ℕ) a + S36x8x128.size a ≤ S36x16384x128.size a := by
  have := wid_lt L
  intro a; fin_cases a
  · show 0 + 36 ≤ 36; omega
  · show 224 * wid L + 8 * min g 27 + 8 ≤ 16384; omega
  · show 0 + 128 ≤ 128; omega

theorem oRect_inb (L : grid0.Coords) (g : ℕ) :
    ∀ a, (![0, 224 * wid L + 8 * min g 27, 0] : Fin 3 → ℕ) a + S12x8x128.size a ≤ S12x7168x128.size a := by
  have := wid_lt L
  intro a; fin_cases a
  · show 0 + 12 ≤ 12; omega
  · show 224 * wid L + 8 * min g 27 + 8 ≤ 7168; omega
  · show 0 + 128 ≤ 128; omega

/-- rows `224·wid + 8g …+8` of the input, every edge and lane -/
abbrev xRect (L : grid0.Coords) (g : ℕ) : Rect S36x16384x128 := Rect.unit ![0, 224 * wid L + 8 * min g 27, 0] S36x8x128.size (xRect_inb L g)
/-- rows `224·wid + 8g …+8` of the result, every node and lane -/
abbrev oRect (L : grid0.Coords) (g : ℕ) : Rect S12x7168x128 := Rect.unit ![0, 224 * wid L + 8 * min g 27, 0] S12x8x128.size (oRect_inb L g)

abbrev xS (L : grid0.Coords) (g : ℕ) : Memref sig .scVector .hbm S36x8x128 .f32 := (xM).slice (xRect L g) (fun _ => rfl)
abbrev oS (L : grid0.Coords) (g : ℕ) : Memref sig .scVector .hbm S12x8x128 .f32 := (oM).slice (oRect L g) (fun _ => rfl)

theorem xSlice_congr {o : Fin 3 → ℕ} (h : ∀ a, o a + S36x8x128.size a ≤ S36x16384x128.size a) (L : grid0.Coords) (g : ℕ)
    (e : o = ![0, 224 * wid L + 8 * min g 27, 0]) :
    (xM).slice (Rect.unit (s := S36x16384x128) o S36x8x128.size h) (fun _ => rfl) = xS L g := by
  subst e; rfl

theorem oSlice_congr {o : Fin 3 → ℕ} (h : ∀ a, o a + S12x8x128.size a ≤ S12x7168x128.size a) (L : grid0.Coords) (g : ℕ)
    (e : o = ![0, 224 * wid L + 8 * min g 27, 0]) :
    (oM).slice (Rect.unit (s := S12x7168x128) o S12x8x128.size h) (fun _ => rfl) = oS L g := by
  subst e; rfl

theorem vec3_congr {a b : ℕ} (e : a = b) : (![0, a, 0] : Fin 3 → ℕ) = ![0, b, 0] := by rw [e]

theorem off1_x (L : grid0.Coords) (r : Fin 2) : k0_off1 L (BitVec.ofNat 32 (8 * r.val)) = ![0, 224 * wid L + 8 * min r.val 27, 0] := by
  rw [k0_off1_eq]; apply vec3_congr; have := r.isLt; unfold wid; omega

theorem off2_x (L : grid0.Coords) (k : Fin k0_t1_loop.trips) (r : Fin 2) :
    k0_off2 L k (BitVec.ofNat 32 r.val) = ![0, 224 * wid L + 8 * min (2 * k.val + r.val) 27, 0] := by
  rw [k0_off2_eq]; apply vec3_congr; have := r.isLt; have hk : k.val < 14 := k.isLt; unfold wid; omega

theorem off388_o (L : grid0.Coords) (k : Fin k0_t1_loop.trips) (r : Fin 2) :
    k0_off388 L k (BitVec.ofNat 32 r.val) = ![0, 224 * wid L + 8 * min (2 * k.val + r.val) 27, 0] := by
  rw [k0_off388_eq]; apply vec3_congr; have := r.isLt; have hk : k.val < 14 := k.isLt; unfold wid; omega

theorem cond2_iff : ∀ k : Fin k0_t1_loop.trips, k0_cond2 k = 1#1 ↔ k.val < 13 := by decide +kernel
theorem cond4_iff : ∀ k : Fin k0_t1_loop.trips, k0_cond4 k = 1#1 ↔ k.val < 13 := by decide +kernel
theorem cond1_iff : ∀ k : Fin k0_t1_loop.trips, k0_cond1 k = 1#1 ↔ 1 ≤ k.val := by decide +kernel
theorem cond3_iff : ∀ k : Fin k0_t1_loop.trips, k0_cond3 k = 1#1 ↔ 1 ≤ k.val := by decide +kernel

theorem off389_x (L : grid0.Coords) (k : Fin k0_t1_loop.trips) (h : k0_cond2 k = 1#1) :
    k0_off389 L k = ![0, 224 * wid L + 8 * min (2 * (k.val + 1)) 27, 0] := by
  rw [k0_off389_eq]; apply vec3_congr; have hk := (cond2_iff k).mp h; unfold wid; omega

theorem off775_x (L : grid0.Coords) (k : Fin k0_t1_loop.trips) (h : k0_cond4 k = 1#1) :
    k0_off775 L k = ![0, 224 * wid L + 8 * min (2 * (k.val + 1) + 1) 27, 0] := by
  rw [k0_off775_eq]; apply vec3_congr; have hk := (cond4_iff k).mp h; unfold wid; omega

theorem off3_o : ∀ (L : grid0.Coords) (k : Fin k0_t1_loop.trips), k0_cond1 k = 1#1 →
    k0_off3 L k = ![0, 448 * (L 1).val + 224 * (L 0).val + 16 * k.val - 16, 0] := by decide +kernel
theorem off390_o : ∀ (L : grid0.Coords) (k : Fin k0_t1_loop.trips), k0_cond3 k = 1#1 →
    k0_off390 L k = ![0, 448 * (L 1).val + 224 * (L 0).val + 16 * k.val - 8, 0] := by decide +kernel

theorem off3_o' (L : grid0.Coords) (k : Fin k0_t1_loop.trips) (h : k0_cond1 k = 1#1) :
    k0_off3 L k = ![0, 224 * wid L + 8 * min (2 * (k.val - 1)) 27, 0] := by
  rw [off3_o L k h]; apply vec3_congr; have hk := (cond1_iff k).mp h; have hk' : k.val < 14 := k.isLt; unfold wid; omega
theorem off390_o' (L : grid0.Coords) (k : Fin k0_t1_loop.trips) (h : k0_cond3 k = 1#1) :
    k0_off390 L k = ![0, 224 * wid L + 8 * min (2 * (k.val - 1) + 1) 27, 0] := by
  rw [off390_o L k h]; apply vec3_congr; have hk := (cond3_iff k).mp h; have hk' : k.val < 14 := k.isLt; unfold wid; omega

theorem off776_o (L : grid0.Coords) (r : Fin 2) : k0_off776 L (BitVec.ofNat 32 (208 + 8 * r.val)) = ![0, 224 * wid L + 8 * min (26 + r.val) 27, 0] := by
  rw [k0_off776_eq]; apply vec3_congr; have := r.isLt; unfold wid; omega

theorem rectUnit_congr {s : Shape} {o o' sz : Fin s.rank → ℕ} (e : o = o') (h : ∀ a, o a + sz a ≤ s.size a) (h' : ∀ a, o' a + sz a ≤ s.size a) :
    Rect.unit (s := s) o sz h = Rect.unit o' sz h' := by subst e; rfl

/-! ## What a tile takes and returns -/

/-- the read share of tile number `w` of the 32: the `w`-th token of the full share, the last tile the remainder -/
def tileShare (w : ℕ) : PosShare TreeShare :=
  if w < 31 then Transfers.shareTokN fullShare w else Transfers.shareDrop fullShare 31

/-- the elements of the result in rows `224·wid + 8g …+8` -/
abbrev oRowSet (L : grid0.Coords) (g : ℕ) : Finset S12x7168x128.Idx := ((oM).view.slice (oRect L g)).set

/-- A tile's task takes: a read share of the input and of the weights, and its 28 groups of 8 rows of the result. -/
def tileGoL (d : Dev nD) (X5 : Buf (Elt F) (x5Loc d)) (W3 : Buf (Elt F) (w3Loc d)) (f8 : Buf (Elt F) (o8Loc d)) (L : grid0.Coords) : sProp 𝕄 :=
  iprop((x5Loc d ↦{tileShare (wid L)} X5) ∗ (w3Loc d ↦{tileShare (wid L)} W3)
    ∗ bigSep (Finset.range 28) fun g => o8Loc d ↦[oRowSet L g]{fullShare} f8)

/-- … and returns them, the rows at some contents. -/
def tileTdL (d : Dev nD) (X5 : Buf (Elt F) (x5Loc d)) (W3 : Buf (Elt F) (w3Loc d)) (L : grid0.Coords) : sProp 𝕄 :=
  iprop((x5Loc d ↦{tileShare (wid L)} X5) ∗ (w3Loc d ↦{tileShare (wid L)} W3)
    ∗ bigSep (Finset.range 28) fun g => iprop(∃ f : Buf (Elt F) (o8Loc d), o8Loc d ↦[oRowSet L g]{fullShare} f))

/-- the grid point of SparseCore `c`'s tile `s` -/
def coordsV (c : Fin (grid0.bound 0)) (s : Fin (grid0.bound 1)) : grid0.Coords :=
  fun | 0 => c | 1 => s | ⟨_ + 2, h⟩ => absurd h (Nat.not_lt.2 (Nat.le_add_left _ _))

def tileGo (d : Dev nD) (X5 : Buf (Elt F) (x5Loc d)) (W3 : Buf (Elt F) (w3Loc d)) (f8 : Buf (Elt F) (o8Loc d)) (c : Fin 2) (i : Fin 16) : sProp 𝕄 :=
  tileGoL (F := F) d X5 W3 f8 (coordsV c i)
def tileTd (d : Dev nD) (X5 : Buf (Elt F) (x5Loc d)) (W3 : Buf (Elt F) (w3Loc d)) (c : Fin 2) (i : Fin 16) : sProp 𝕄 :=
  tileTdL (F := F) d X5 W3 (coordsV c i)

/-- The one call: a SparseCore takes its sixteen tiles' tasks' resources and brings them back. -/
def P (X5 : (d : Dev nD) → Buf (Elt F) (x5Loc d)) (W3 : (d : Dev nD) → Buf (Elt F) (w3Loc d)) (f8 : (d : Dev nD) → Buf (Elt F) (o8Loc d)) :
    (K (F := F)).Pay (nD := nD) (Val := Elt F) (Name := ℕ) (U := UU) where
  st := fun q d c => match q with | 0 => bigSep Finset.univ fun i : Fin 16 => tileGo (F := F) d (X5 d) (W3 d) (f8 d) (Fin.cast nCore_zero c) i
  dn := fun q d c => match q with | 0 => bigSep Finset.univ fun i : Fin 16 => tileTd (F := F) d (X5 d) (W3 d) (Fin.cast nCore_zero c) i
  go := fun q d c i => match q with | 0 => tileGo (F := F) d (X5 d) (W3 d) (f8 d) (Fin.cast nCore_zero c) (Fin.cast nSub_zero i)
  td := fun q d c i => match q with | 0 => tileTd (F := F) d (X5 d) (W3 d) (Fin.cast nCore_zero c) (Fin.cast nSub_zero i)
  x := fun _ _ => iprop(emp)

end Cert.KernelIdeal.Pf
end
-- ==== Proof.KSplit.lean ====
/-
  The SparseCore call's three buffers dealt to the 32 tiles and collected back: every tile a read share of the
  edge-first features and of the lane-repeated weights, and its own 28 groups of 8 rows of the result.
-/
import proofs.«203732_g20581483283120_cont_8to1_285_17_alg».proof.Proof.KTileDefs
import proofs.«203732_g20581483283120_cont_8to1_285_17_alg».proof.Proof.KMain
import Idealize.ShloMosaic.Lib.Ring

noncomputable section

namespace Cert.KernelIdeal.Pf

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## The 32 read shares -/

theorem tileShare_lt {w : ℕ} (h : w < 31) : tileShare w = Transfers.shareTokN fullShare w := if_pos h
theorem tileShare_last : tileShare 31 = Transfers.shareDrop fullShare 31 := if_neg (by omega)

/-- A whole array at the full share is the 32 tiles' read shares of it. -/
theorem shares_iff {ℓ : Loc nD τ sig} (f : Buf (Elt F) ℓ) :
    (ℓ ↦{fullShare} f : sProp 𝕄) ⊣⊢ bigSep (Finset.range 32) fun w => ℓ ↦{tileShare w} f := by
  have h := Transfers.pointsTo_toks_range (Ix := HIx 1) (Name := ℕ) (U := UU) (Lvl := ℕ) (ℓ := ℓ) (S := Finset.univ) (f := f) fullShare 31
  have e : (bigSep (Finset.range 32) fun w => (ℓ ↦{tileShare w} f : sProp 𝕄))
      = iprop((ℓ ↦{Transfers.shareDrop fullShare 31} f) ∗ bigSep (Finset.range 31) fun i => ℓ ↦{Transfers.shareTokN fullShare i} f) := by
    rw [show (32 : ℕ) = 31 + 1 from rfl, Finset.range_add_one, SparseCore.bigSep_insert' Finset.notMem_range_self, tileShare_last]
    exact congrArg (fun X : sProp 𝕄 => iprop((ℓ ↦{Transfers.shareDrop fullShare 31} f) ∗ X))
      (bigSep_congr fun w hw => by rw [tileShare_lt (Finset.mem_range.mp hw)])
  rw [e]
  exact h

theorem shares_eq {ℓ : Loc nD τ sig} (f : Buf (Elt F) ℓ) :
    (ℓ ↦{fullShare} f : sProp 𝕄) = bigSep (Finset.range 32) fun w => ℓ ↦{tileShare w} f :=
  BI.equiv_iff.mp ⟨(shares_iff f).1, (shares_iff f).2⟩

/-! ## The 32 × 28 groups of rows -/

/-- rows `224·w + 8g … +8` of the result, for tile number `w` -/
theorem oRectN_inb (w : ℕ) (hw : w < 32) (g : ℕ) :
    ∀ a, (![0, 224 * w + 8 * min g 27, 0] : Fin 3 → ℕ) a + S12x8x128.size a ≤ S12x7168x128.size a := by
  intro a; fin_cases a
  · show 0 + 12 ≤ 12; omega
  · show 224 * w + 8 * min g 27 + 8 ≤ 7168; omega
  · show 0 + 128 ≤ 128; omega

/-- rows `224·w + 8g … +8` of the result, by tile number (any number from 32 on reads as tile 31) -/
abbrev rectN (w g : ℕ) : Rect S12x7168x128 :=
  Rect.unit ![0, 224 * min w 31 + 8 * min g 27, 0] S12x8x128.size (oRectN_inb (min w 31) (by omega) g)

/-- the elements of the result in those rows -/
def rowsN (w g : ℕ) : Finset S12x7168x128.Idx := (rectN w g).set

theorem oRowSet_eq (L : grid0.Coords) (g : ℕ) : oRowSet L g = rowsN (wid L) g := by
  have hw := wid_lt L
  unfold oRowSet rowsN
  show ((View.whole (main_v8_scv : Ref sig .scVector)).slice (oRect L g)).set = _
  rw [View.set_slice_whole]
  have e : (![0, 224 * wid L + 8 * min g 27, 0] : Fin 3 → ℕ) = ![0, 224 * min (wid L) 31 + 8 * min g 27, 0] := by
    rw [Nat.min_eq_left (by omega : wid L ≤ 31)]
  exact congrArg (fun r : Rect S12x7168x128 => r.set) (rectUnit_congr (s := S12x7168x128) (sz := S12x8x128.size) e (oRect_inb L g) (oRectN_inb (min (wid L) 31) (by omega) g))

theorem mem_rowsN {w g : ℕ} (hw : w < 32) (hg : g < 28) (i : S12x7168x128.Idx) :
    i ∈ rowsN w g ↔ 224 * w + 8 * g ≤ (i 1).val ∧ (i 1).val < 224 * w + 8 * g + 8 := by
  unfold rowsN rectN
  rw [Rect.mem_set_unit]
  have o1 : (![0, 224 * min w 31 + 8 * min g 27, 0] : Fin 3 → ℕ) 1 = 224 * w + 8 * g := by
    show 224 * min w 31 + 8 * min g 27 = _; omega
  have s1 : S12x8x128.size 1 = 8 := rfl
  constructor
  · intro h
    have h1 := h 1
    rw [o1, s1] at h1
    exact h1
  · intro h a
    fin_cases a
    · exact ⟨Nat.zero_le _, by show (i 0).val < 0 + 12; have := (i 0).isLt; simpa using this⟩
    · show (![0, 224 * min w 31 + 8 * min g 27, 0] : Fin 3 → ℕ) 1 ≤ _ ∧ _ < (![0, 224 * min w 31 + 8 * min g 27, 0] : Fin 3 → ℕ) 1 + S12x8x128.size 1
      rw [o1, s1]; exact h
    · exact ⟨Nat.zero_le _, by show (i 2).val < 0 + 128; have := (i 2).isLt; simpa using this⟩

/-- The 32 × 28 groups are pairwise disjoint -/
theorem rowsN_disjoint : ∀ p ∈ (Finset.range 32 ×ˢ Finset.range 28), ∀ p' ∈ (Finset.range 32 ×ˢ Finset.range 28), p ≠ p' →
    Disjoint (rowsN p.1 p.2) (rowsN p'.1 p'.2) := by
  rintro ⟨w, g⟩ hp ⟨w', g'⟩ hp' hne
  obtain ⟨hw, hg⟩ := Finset.mem_product.mp hp
  obtain ⟨hw', hg'⟩ := Finset.mem_product.mp hp'
  rw [Finset.mem_range] at hw hg hw' hg'
  have hne' : w ≠ w' ∨ g ≠ g' := by
    by_contra h; rw [not_or, not_not, not_not] at h; exact hne (by rw [h.1, h.2])
  rw [Finset.disjoint_left]
  intro i hi hi'
  rw [mem_rowsN hw hg] at hi
  rw [mem_rowsN hw' hg'] at hi'
  dsimp only at hi hi'
  omega

/-- and cover the result. -/
theorem rowsN_cover : (Finset.range 32 ×ˢ Finset.range 28).biUnion (fun p => rowsN p.1 p.2) = (Finset.univ : Finset S12x7168x128.Idx) := by
  ext i
  simp only [Finset.mem_biUnion, Finset.mem_univ, iff_true]
  have hi : (i 1).val < 7168 := by have := (i 1).isLt; simpa using this
  refine ⟨((i 1).val / 224, ((i 1).val % 224) / 8), Finset.mem_product.mpr ⟨Finset.mem_range.mpr (by omega), Finset.mem_range.mpr (by omega)⟩, ?_⟩
  rw [mem_rowsN (by omega) (by omega)]
  dsimp only
  omega

/-- The whole result at the full share is the 32 tiles' 28 groups of rows. -/
theorem o8_rows (d : Dev nD) (f : Buf (Elt F) (o8Loc d)) :
    (o8Loc d ↦{fullShare} f : sProp 𝕄)
      = bigSep (Finset.range 32) fun w => bigSep (Finset.range 28) fun g => o8Loc d ↦[rowsN w g]{fullShare} f := by
  rw [← SparseCore.bigSep_product (Finset.range 32) (Finset.range 28) (fun p : ℕ × ℕ => (o8Loc d ↦[rowsN p.1 p.2]{fullShare} f : sProp 𝕄)),
    ← pointsTo_biUnion (Finset.range 32 ×ˢ Finset.range 28) (ℓ := o8Loc d) (fun p : ℕ × ℕ => rowsN p.1 p.2) rowsN_disjoint, rowsN_cover]
  try rfl

/-! ## The tiles' payloads by tile number -/

/-- What tile number `w` takes, -/
def goN (d : Dev nD) (X5 : Buf (Elt F) (x5Loc d)) (W3 : Buf (Elt F) (w3Loc d)) (f8 : Buf (Elt F) (o8Loc d)) (w : ℕ) : sProp 𝕄 :=
  iprop((x5Loc d ↦{tileShare w} X5) ∗ (w3Loc d ↦{tileShare w} W3) ∗ bigSep (Finset.range 28) fun g => o8Loc d ↦[rowsN w g]{fullShare} f8)
/-- and returns. -/
def tdN (d : Dev nD) (X5 : Buf (Elt F) (x5Loc d)) (W3 : Buf (Elt F) (w3Loc d)) (w : ℕ) : sProp 𝕄 :=
  iprop((x5Loc d ↦{tileShare w} X5) ∗ (w3Loc d ↦{tileShare w} W3)
    ∗ bigSep (Finset.range 28) fun g => iprop(∃ f : Buf (Elt F) (o8Loc d), o8Loc d ↦[rowsN w g]{fullShare} f))

theorem tileGoL_eq (d : Dev nD) (X5 : Buf (Elt F) (x5Loc d)) (W3 : Buf (Elt F) (w3Loc d)) (f8 : Buf (Elt F) (o8Loc d)) (L : grid0.Coords) :
    tileGoL (F := F) d X5 W3 f8 L = goN d X5 W3 f8 (wid L) := by
  unfold tileGoL goN
  rw [bigSep_congr fun g _ => by rw [oRowSet_eq]]
theorem tileTdL_eq (d : Dev nD) (X5 : Buf (Elt F) (x5Loc d)) (W3 : Buf (Elt F) (w3Loc d)) (L : grid0.Coords) :
    tileTdL (F := F) d X5 W3 L = tdN d X5 W3 (wid L) := by
  unfold tileTdL tdN
  rw [bigSep_congr fun g _ => by rw [oRowSet_eq]]

/-- The three buffers whole are the 32 tiles' payloads. -/
theorem buffers_eq (d : Dev nD) (X5 : Buf (Elt F) (x5Loc d)) (W3 : Buf (Elt F) (w3Loc d)) (f8 : Buf (Elt F) (o8Loc d)) :
    (iprop((x5Loc d ↦{fullShare} X5) ∗ (w3Loc d ↦{fullShare} W3) ∗ (o8Loc d ↦{fullShare} f8)) : sProp 𝕄)
      = bigSep (Finset.range 32) (goN d X5 W3 f8) := by
  unfold goN
  rw [bigSep_sep', bigSep_sep', ← o8_rows, ← shares_eq X5, ← shares_eq W3]

/-! ## Tile numbers and grid points -/

theorem wid_coordsV (c : Fin 2) (i : Fin 16) : wid (coordsV c i) = 2 * i.val + c.val := rfl

/-- A family over the 32 tile numbers, dealt to the two SparseCores' sixteen tiles (tile number `2 i + c`). -/
theorem deal32 (Fm : ℕ → sProp 𝕄) :
    bigSep (Finset.range 32) Fm = bigSep Finset.univ fun c : Fin 2 => bigSep Finset.univ fun i : Fin 16 => Fm (2 * i.val + c.val) := by
  rw [show (32 : ℕ) = 2 * 16 from rfl, Ring.bigSep_range_deinterleave 16 Fm,
    show (Finset.univ : Finset (Fin 2)) = {0, 1} by decide, SparseCore.bigSep_insert' (by decide), bigSep_singleton,
    Ring.bigSep_fin_eq_range 16 (fun i : Fin 16 => Fm (2 * i.val + (0 : Fin 2).val)) (fun k => Fm (2 * k)) (fun t h => rfl),
    Ring.bigSep_fin_eq_range 16 (fun i : Fin 16 => Fm (2 * i.val + (1 : Fin 2).val)) (fun k => Fm (2 * k + 1)) (fun t h => rfl)]

/-! ## The payload record: storable, split among the tiles -/

instance tileGo_storable (d : Dev nD) (X5 : Buf (Elt F) (x5Loc d)) (W3 : Buf (Elt F) (w3Loc d)) (f8 : Buf (Elt F) (o8Loc d)) (c : Fin 2) (i : Fin 16) :
    BI.Storable (upEmb : UEmb _ 𝕄) (tileGo (F := F) d X5 W3 f8 c i) := by unfold tileGo tileGoL; infer_instance
instance tileTd_storable (d : Dev nD) (X5 : Buf (Elt F) (x5Loc d)) (W3 : Buf (Elt F) (w3Loc d)) (c : Fin 2) (i : Fin 16) :
    BI.Storable (upEmb : UEmb _ 𝕄) (tileTd (F := F) d X5 W3 c i) := by unfold tileTd tileTdL; infer_instance

variable (X5 : (d : Dev nD) → Buf (Elt F) (x5Loc d)) (W3 : (d : Dev nD) → Buf (Elt F) (w3Loc d)) (f8 : (d : Dev nD) → Buf (Elt F) (o8Loc d))

instance P_storable : (P (F := F) X5 W3 f8).IsStorable where
  st q d c := match q with
    | 0 => (inferInstance : BI.Storable (upEmb : UEmb _ 𝕄) (bigSep Finset.univ fun i : Fin 16 => tileGo (F := F) d (X5 d) (W3 d) (f8 d) (Fin.cast nCore_zero c) i))
  dn q d c := match q with
    | 0 => (inferInstance : BI.Storable (upEmb : UEmb _ 𝕄) (bigSep Finset.univ fun i : Fin 16 => tileTd (F := F) d (X5 d) (W3 d) (Fin.cast nCore_zero c) i))
  go q d c i := match q with
    | 0 => (inferInstance : BI.Storable (upEmb : UEmb _ 𝕄) (tileGo (F := F) d (X5 d) (W3 d) (f8 d) (Fin.cast nCore_zero c) (Fin.cast nSub_zero i)))
  td q d c i := match q with
    | 0 => (inferInstance : BI.Storable (upEmb : UEmb _ 𝕄) (tileTd (F := F) d (X5 d) (W3 d) (Fin.cast nCore_zero c) (Fin.cast nSub_zero i)))

theorem P_x (q : Fin 1) (thr : Thread nD τ) : (P (F := F) X5 W3 f8).x q thr = iprop(emp) := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's payload is its sixteen tiles'; their results are its result. -/
theorem vecSplit : (K (F := F)).VecSplit' (P (F := F) X5 W3 f8) 0 := by
  intro d c
  show (bigSep Finset.univ fun i : Fin 16 => tileGo (F := F) d (X5 d) (W3 d) (f8 d) (Fin.cast nCore_zero c) i) ⊢ |={Set.univ}=> iprop(
      (bigSep Finset.univ fun i : Fin ((K (F := F)).nSub 0) => tileGo (F := F) d (X5 d) (W3 d) (f8 d) (Fin.cast nCore_zero c) (Fin.cast nSub_zero i))
      ∗ ((bigSep Finset.univ fun i : Fin ((K (F := F)).nSub 0) => tileTd (F := F) d (X5 d) (W3 d) (Fin.cast nCore_zero c) (Fin.cast nSub_zero i))
          -∗ bigSep Finset.univ fun i : Fin 16 => tileTd (F := F) d (X5 d) (W3 d) (Fin.cast nCore_zero c) i))
  rw [bigSep_tasks (F := F) (fun i => tileGo (F := F) d (X5 d) (W3 d) (f8 d) (Fin.cast nCore_zero c) i),
    bigSep_tasks (F := F) (fun i => tileTd (F := F) d (X5 d) (W3 d) (Fin.cast nCore_zero c) i)]
  iintro H; imodintro
  isplitl [H]; · iexact H
  iintro H; iexact H

/-- The two SparseCores' payloads are the 32 tile numbers' -/
theorem st_eq (d : Dev nD) :
    (bigSep Finset.univ fun c : Fin ((K (F := F)).nCore 0) => (P (F := F) X5 W3 f8).st 0 d c) = bigSep (Finset.range 32) (goN d (X5 d) (W3 d) (f8 d)) := by
  show (bigSep Finset.univ fun c : Fin ((K (F := F)).nCore 0) => bigSep Finset.univ fun i : Fin 16 => tileGo (F := F) d (X5 d) (W3 d) (f8 d) (Fin.cast nCore_zero c) i) = _
  rw [bigSep_cores (F := F) (fun c => bigSep Finset.univ fun i : Fin 16 => tileGo (F := F) d (X5 d) (W3 d) (f8 d) c i), deal32]
  exact bigSep_congr fun c _ => bigSep_congr fun i _ => by unfold tileGo; rw [tileGoL_eq, wid_coordsV]
theorem dn_eq (d : Dev nD) :
    (bigSep Finset.univ fun c : Fin ((K (F := F)).nCore 0) => (P (F := F) X5 W3 f8).dn 0 d c) = bigSep (Finset.range 32) (tdN d (X5 d) (W3 d)) := by
  show (bigSep Finset.univ fun c : Fin ((K (F := F)).nCore 0) => bigSep Finset.univ fun i : Fin 16 => tileTd (F := F) d (X5 d) (W3 d) (Fin.cast nCore_zero c) i) = _
  rw [bigSep_cores (F := F) (fun c => bigSep Finset.univ fun i : Fin 16 => tileTd (F := F) d (X5 d) (W3 d) c i), deal32]
  exact bigSep_congr fun c _ => bigSep_congr fun i _ => by unfold tileTd; rw [tileTdL_eq, wid_coordsV]

/-- The rows coming back, each group at some contents, are the whole result at some contents. -/
theorem rows_join (d : Dev nD) :
    (bigSep (Finset.range 32) fun w => bigSep (Finset.range 28) fun g => iprop(∃ f : Buf (Elt F) (o8Loc d), o8Loc d ↦[rowsN w g]{fullShare} f))
      ⊢ (iprop(∃ f : Buf (Elt F) (o8Loc d), o8Loc d ↦{fullShare} f) : sProp 𝕄) := by
  rw [← SparseCore.bigSep_product (Finset.range 32) (Finset.range 28)
    (fun p : ℕ × ℕ => (iprop(∃ f : Buf (Elt F) (o8Loc d), o8Loc d ↦[rowsN p.1 p.2]{fullShare} f) : sProp 𝕄))]
  refine (bigSep_exists_pi (Finset.range 32 ×ˢ Finset.range 28) (fun (p : ℕ × ℕ) (f : Buf (Elt F) (o8Loc d)) => o8Loc d ↦[rowsN p.1 p.2]{fullShare} f)).trans ?_
  iintro ⟨%fs, H⟩
  ihave H' := (pointsTo_biUnion_join (Finset.range 32 ×ˢ Finset.range 28) (fun p : ℕ × ℕ => rowsN p.1 p.2) fs (fs (0, 0)) rowsN_disjoint) $$ H
  icases H' with ⟨%g, -, Hg⟩
  rw [rowsN_cover]
  iexists g; iexact Hg

theorem tdN_join (d : Dev nD) (X : Buf (Elt F) (x5Loc d)) (Wt : Buf (Elt F) (w3Loc d)) :
    bigSep (Finset.range 32) (tdN (F := F) d X Wt)
      ⊢ (iprop((x5Loc d ↦{fullShare} X) ∗ (w3Loc d ↦{fullShare} Wt) ∗ ∃ f : Buf (Elt F) (o8Loc d), o8Loc d ↦{fullShare} f) : sProp 𝕄) := by
  unfold tdN
  rw [bigSep_sep', bigSep_sep', ← shares_eq X, ← shares_eq Wt]
  iintro ⟨Hx, Hw, Ho⟩
  isplitl [Hx]; · iexact Hx
  isplitl [Hw]; · iexact Hw
  iapply (rows_join (F := F) d); iexact Ho

/-! ## The call, as @main meets it -/

section Call

variable (m : (ℓ : Loc nD τ sig) → Buf (Elt F) ℓ)

/-- The call's operands and result buffer when @main reaches it: what the host operations before it left. -/
def X5m (d : Dev nD) : Buf (Elt F) (x5Loc d) := after opsA (V0 m d) r5
def W3m (d : Dev nD) : Buf (Elt F) (w3Loc d) := after opsA (V0 m d) r3
def f8m (d : Dev nD) : Buf (Elt F) (o8Loc d) := after opsA (V0 m d) r8

/-- The call's payload record at those contents. -/
abbrev Pm : (K (F := F)).Pay (nD := nD) (Val := Elt F) (Name := ℕ) (U := UU) := P (F := F) (X5m m) (W3m m) (f8m m)

theorem held_S3 (d : Dev nD) (W : Valuation τ sig (Elt F)) :
    (held (SparseCore.T d) S3 W : sProp 𝕄)
      = iprop(((SparseCore.T d).loc main_v5 ↦{fullShare} W r5) ∗ ((SparseCore.T d).loc main_v3 ↦{fullShare} W r3) ∗ (SparseCore.T d).loc main_v8 ↦{fullShare} W r8) := by
  unfold held S3
  rw [SparseCore.bigSep_insert' (by decide), SparseCore.bigSep_insert' (by decide), bigSep_singleton]

/-- The three buffers go out to the two SparseCores and come back, the result at some contents. -/
theorem callSplit : CallSplit m (Pm m) (fun _ _ => True) := by
  intro d
  rw [held_S3, st_eq, dn_eq]
  show iprop((x5Loc d ↦{fullShare} X5m m d) ∗ (w3Loc d ↦{fullShare} W3m m d) ∗ (o8Loc d ↦{fullShare} f8m m d)) ⊢ _
  rw [buffers_eq]
  iintro H; imodintro
  isplitl [H]; · iexact H
  iintro Hdn
  ihave H' := (tdN_join (F := F) d (X5m m d) (W3m m d)) $$ Hdn
  icases H' with ⟨Hx, Hw, %f, Ho⟩
  imodintro
  iexists f
  isplitr; · ipureintro; trivial
  rw [held_S3, Function.update_of_ne (show (r5 : DevRef τ sig) ≠ r8 by decide), Function.update_of_ne (show (r3 : DevRef τ sig) ≠ r8 by decide),
    Function.update_self]
  isplitl [Hx]; · iexact Hx
  isplitl [Hw]; · iexact Hw
  iexact Ho

end Call

/-! ## The same with the tiles' result named -/

section Valued

-- what the tiles compute, as one function of the call's two operands
variable (tvOf : (r5 : DevRef τ sig).ty.Contents (Elt F) → (r3 : DevRef τ sig).ty.Contents (Elt F) → (r8 : DevRef τ sig).ty.Contents (Elt F))

variable (X5 : (d : Dev nD) → Buf (Elt F) (x5Loc d)) (W3 : (d : Dev nD) → Buf (Elt F) (w3Loc d)) (f8 : (d : Dev nD) → Buf (Elt F) (o8Loc d))

/-- The payload record whose tiles return their rows at `tvOf` of the operands. -/
def PV : (K (F := F)).Pay (nD := nD) (Val := Elt F) (Name := ℕ) (U := UU) where
  st := fun q d c => match q with | 0 => bigSep Finset.univ fun i : Fin 16 => tileGo (F := F) d (X5 d) (W3 d) (f8 d) (Fin.cast nCore_zero c) i
  dn := fun q d c => match q with | 0 => bigSep Finset.univ fun i : Fin 16 => tileGo (F := F) d (X5 d) (W3 d) (tvOf (X5 d) (W3 d)) (Fin.cast nCore_zero c) i
  go := fun q d c i => match q with | 0 => tileGo (F := F) d (X5 d) (W3 d) (f8 d) (Fin.cast nCore_zero c) (Fin.cast nSub_zero i)
  td := fun q d c i => match q with | 0 => tileGo (F := F) d (X5 d) (W3 d) (tvOf (X5 d) (W3 d)) (Fin.cast nCore_zero c) (Fin.cast nSub_zero i)
  x := fun _ _ => iprop(emp)

instance PV_storable : (PV (F := F) tvOf X5 W3 f8).IsStorable where
  st q d c := match q with
    | 0 => (inferInstance : BI.Storable (upEmb : UEmb _ 𝕄) (bigSep Finset.univ fun i : Fin 16 => tileGo (F := F) d (X5 d) (W3 d) (f8 d) (Fin.cast nCore_zero c) i))
  dn q d c := match q with
    | 0 => (inferInstance : BI.Storable (upEmb : UEmb _ 𝕄) (bigSep Finset.univ fun i : Fin 16 => tileGo (F := F) d (X5 d) (W3 d) (tvOf (X5 d) (W3 d)) (Fin.cast nCore_zero c) i))
  go q d c i := match q with
    | 0 => (inferInstance : BI.Storable (upEmb : UEmb _ 𝕄) (tileGo (F := F) d (X5 d) (W3 d) (f8 d) (Fin.cast nCore_zero c) (Fin.cast nSub_zero i)))
  td q d c i := match q with
    | 0 => (inferInstance : BI.Storable (upEmb : UEmb _ 𝕄) (tileGo (F := F) d (X5 d) (W3 d) (tvOf (X5 d) (W3 d)) (Fin.cast nCore_zero c) (Fin.cast nSub_zero i)))

theorem PV_x (q : Fin 1) (thr : Thread nD τ) : (PV (F := F) tvOf X5 W3 f8).x q thr = iprop(emp) := rfl

theorem vecSplitV : (K (F := F)).VecSplit' (PV (F := F) tvOf X5 W3 f8) 0 := by
  intro d c
  show (bigSep Finset.univ fun i : Fin 16 => tileGo (F := F) d (X5 d) (W3 d) (f8 d) (Fin.cast nCore_zero c) i) ⊢ |={Set.univ}=> iprop(
      (bigSep Finset.univ fun i : Fin ((K (F := F)).nSub 0) => tileGo (F := F) d (X5 d) (W3 d) (f8 d) (Fin.cast nCore_zero c) (Fin.cast nSub_zero i))
      ∗ ((bigSep Finset.univ fun i : Fin ((K (F := F)).nSub 0) => tileGo (F := F) d (X5 d) (W3 d) (tvOf (X5 d) (W3 d)) (Fin.cast nCore_zero c) (Fin.cast nSub_zero i))
          -∗ bigSep Finset.univ fun i : Fin 16 => tileGo (F := F) d (X5 d) (W3 d) (tvOf (X5 d) (W3 d)) (Fin.cast nCore_zero c) i))
  rw [bigSep_tasks (F := F) (fun i => tileGo (F := F) d (X5 d) (W3 d) (f8 d) (Fin.cast nCore_zero c) i),
    bigSep_tasks (F := F) (fun i => tileGo (F := F) d (X5 d) (W3 d) (tvOf (X5 d) (W3 d)) (Fin.cast nCore_zero c) i)]
  iintro H; imodintro
  isplitl [H]; · iexact H
  iintro H; iexact H

theorem stV_eq (d : Dev nD) :
    (bigSep Finset.univ fun c : Fin ((K (F := F)).nCore 0) => (PV (F := F) tvOf X5 W3 f8).st 0 d c) = bigSep (Finset.range 32) (goN d (X5 d) (W3 d) (f8 d)) :=
  st_eq X5 W3 f8 d
theorem dnV_eq (d : Dev nD) :
    (bigSep Finset.univ fun c : Fin ((K (F := F)).nCore 0) => (PV (F := F) tvOf X5 W3 f8).dn 0 d c)
      = bigSep (Finset.range 32) (goN d (X5 d) (W3 d) (tvOf (X5 d) (W3 d))) :=
  st_eq X5 W3 (fun d => tvOf (X5 d) (W3 d)) d

end Valued

section CallValued

variable (m : (ℓ : Loc nD τ sig) → Buf (Elt F) ℓ)
variable (tvOf : (r5 : DevRef τ sig).ty.Contents (Elt F) → (r3 : DevRef τ sig).ty.Contents (Elt F) → (r8 : DevRef τ sig).ty.Contents (Elt F))

/-- The valued payload record at the contents the host operations left. -/
abbrev PmV : (K (F := F)).Pay (nD := nD) (Val := Elt F) (Name := ℕ) (U := UU) := PV (F := F) tvOf (X5m m) (W3m m) (f8m m)

/-- The three buffers go out and come back, the result at `tvOf` of the two operands. -/
theorem callSplitV : CallSplit m (PmV m tvOf) (fun W f => f = tvOf (W r5) (W r3)) := by
  intro d
  rw [held_S3, stV_eq, dnV_eq]
  show iprop((x5Loc d ↦{fullShare} X5m m d) ∗ (w3Loc d ↦{fullShare} W3m m d) ∗ (o8Loc d ↦{fullShare} f8m m d)) ⊢ _
  rw [buffers_eq, ← buffers_eq d (X5m m d) (W3m m d) (tvOf (X5m m d) (W3m m d))]
  iintro H; imodintro
  isplitl [H]; · iexact H
  iintro ⟨Hx, Hw, Ho⟩
  imodintro
  iexists (tvOf (X5m m d) (W3m m d))
  isplitr; · ipureintro; rfl
  rw [held_S3, Function.update_of_ne (show (r5 : DevRef τ sig) ≠ r8 by decide), Function.update_of_ne (show (r3 : DevRef τ sig) ≠ r8 by decide),
    Function.update_self]
  isplitl [Hx]; · iexact Hx
  isplitl [Hw]; · iexact Hw
  iexact Ho

/-- A call's guarantee may be weakened. -/
theorem CallSplit.mono {P : (K (F := F)).Pay (nD := nD) (Val := Elt F) (Name := ℕ) (U := UU)}
    {C C' : Valuation τ sig (Elt F) → (r8 : DevRef τ sig).ty.Contents (Elt F) → Prop} (h : ∀ W f, C W f → C' W f) (hc : CallSplit m P C) :
    CallSplit m P C' := by
  intro d
  refine (hc d).trans ?_
  iintro H
  imod H with ⟨Hst, Hback⟩
  imodintro
  isplitl [Hst]; · iexact Hst
  iintro Hdn
  ispecialize Hback $$ Hdn
  imod Hback with ⟨%f, %hf, H⟩
  imodintro
  iexists f
  isplitr; · ipureintro; exact h _ _ hf
  iexact H

end CallValued

end Cert.KernelIdeal.Pf

end
-- ==== Proof.KTileTrip.lean ====
import proofs.«203732_g20581483283120_cont_8to1_285_17_alg».proof.Proof.KTileDefs

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile
variable (d : Dev nD) (L : grid0.Coords)
abbrev thr : Thread nD τ := V d (cV L) (jV L)

abbrev cI0 : GSem nD τ sig := (V d (cV L) (jV L), .dma cc0_scratch5.sem)
abbrev cI1 : GSem nD τ sig := (V d (cV L) (jV L), .dma cc0_scratch6.sem)
abbrev cO0 : GSem nD τ sig := (V d (cV L) (jV L), .dma cc0_scratch7.sem)
abbrev cO1 : GSem nD τ sig := (V d (cV L) (jV L), .dma cc0_scratch8.sem)
abbrev cW : GSem nD τ sig := (V d (cV L) (jV L), .dma cc0_scoped0.sem)

omit [FloatOps F] in
theorem ownSems0_V :
    (ownSems0 (V d (cV L) (jV L)) : sProp 𝕄)
      = iprop(semVal (cI0 d L) 0 ∗ semVal (cI1 d L) 0 ∗ semVal (cO0 d L) 0 ∗ semVal (cO1 d L) 0 ∗ semVal (cW d L) 0
          ∗ bigSep (((((ownCells (V d (cV L) (jV L))).erase (cI0 d L)).erase (cI1 d L)).erase (cO0 d L)).erase (cO1 d L) |>.erase (cW d L))
              fun g => semVal g 0) := by
  unfold SparseCore.Cfg.ownSems0
  have m0 : cI0 d L ∈ ownCells (V d (cV L) (jV L)) := (mem_ownCells (g := cI0 d L)).mpr ⟨rfl, by
      show (SemLoc.dma cc0_scratch5.sem : SemLoc sig).isScoped .scVector = true; decide⟩
  have m1 : cI1 d L ∈ ownCells (V d (cV L) (jV L)) := (mem_ownCells (g := cI1 d L)).mpr ⟨rfl, by
      show (SemLoc.dma cc0_scratch6.sem : SemLoc sig).isScoped .scVector = true; decide⟩
  have m2 : cO0 d L ∈ ownCells (V d (cV L) (jV L)) := (mem_ownCells (g := cO0 d L)).mpr ⟨rfl, by
      show (SemLoc.dma cc0_scratch7.sem : SemLoc sig).isScoped .scVector = true; decide⟩
  have m3 : cO1 d L ∈ ownCells (V d (cV L) (jV L)) := (mem_ownCells (g := cO1 d L)).mpr ⟨rfl, by
      show (SemLoc.dma cc0_scratch8.sem : SemLoc sig).isScoped .scVector = true; decide⟩
  have m4 : cW d L ∈ ownCells (V d (cV L) (jV L)) := (mem_ownCells (g := cW d L)).mpr ⟨rfl, by
      show (SemLoc.dma cc0_scoped0.sem : SemLoc sig).isScoped .scVector = true; decide⟩
  have n01 : cI1 d L ≠ cI0 d L := by simp [cI0, cI1]; decide
  have n02 : cO0 d L ≠ cI0 d L := by simp [cI0, cO0]; decide
  have n03 : cO1 d L ≠ cI0 d L := by simp [cI0, cO1]; decide
  have n04 : cW d L ≠ cI0 d L := by simp [cI0, cW]; decide
  have n12 : cO0 d L ≠ cI1 d L := by simp [cI1, cO0]; decide
  have n13 : cO1 d L ≠ cI1 d L := by simp [cI1, cO1]; decide
  have n14 : cW d L ≠ cI1 d L := by simp [cI1, cW]; decide
  have n23 : cO1 d L ≠ cO0 d L := by simp [cO0, cO1]; decide
  have n24 : cW d L ≠ cO0 d L := by simp [cO0, cW]; decide
  have n34 : cW d L ≠ cO1 d L := by simp [cO1, cW]; decide
  rw [SparseCore.bigSep_erase' m0,
    SparseCore.bigSep_erase' (Finset.mem_erase.mpr ⟨n01, m1⟩),
    SparseCore.bigSep_erase' (Finset.mem_erase.mpr ⟨n12, Finset.mem_erase.mpr ⟨n02, m2⟩⟩),
    SparseCore.bigSep_erase' (Finset.mem_erase.mpr ⟨n23, Finset.mem_erase.mpr ⟨n13, Finset.mem_erase.mpr ⟨n03, m3⟩⟩⟩),
    SparseCore.bigSep_erase' (Finset.mem_erase.mpr ⟨n34, Finset.mem_erase.mpr ⟨n24, Finset.mem_erase.mpr ⟨n14, Finset.mem_erase.mpr ⟨n04, m4⟩⟩⟩⟩)]

abbrev restRefs : Finset (DevRef τ sig) :=
  (((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  unfold SparseCore.Cfg.ownBufs
  have own0 : (Proc.scVector (cV L) (jV L)).devRef cc0_scratch0 ∈ ownRefs (τ := τ) (.scVector (cV L) (jV L)) :=
    SparseCore.Cfg.mem_ownRefs_of_owner (p := Proc.scVector (cV L) (jV L)) (b := (Proc.scVector (cV L) (jV L)).devRef cc0_scratch0) rfl
  have own1 : (Proc.scVector (cV L) (jV L)).devRef cc0_scratch1 ∈ ownRefs (τ := τ) (.scVector (cV L) (jV L)) :=
    SparseCore.Cfg.mem_ownRefs_of_owner (p := Proc.scVector (cV L) (jV L)) (b := (Proc.scVector (cV L) (jV L)).devRef cc0_scratch1) rfl
  have own2 : (Proc.scVector (cV L) (jV L)).devRef cc0_scratch2 ∈ ownRefs (τ := τ) (.scVector (cV L) (jV L)) :=
    SparseCore.Cfg.mem_ownRefs_of_owner (p := Proc.scVector (cV L) (jV L)) (b := (Proc.scVector (cV L) (jV L)).devRef cc0_scratch2) rfl
  have own3 : (Proc.scVector (cV L) (jV L)).devRef cc0_scratch3 ∈ ownRefs (τ := τ) (.scVector (cV L) (jV L)) :=
    SparseCore.Cfg.mem_ownRefs_of_owner (p := Proc.scVector (cV L) (jV L)) (b := (Proc.scVector (cV L) (jV L)).devRef cc0_scratch3) rfl
  have own4 : (Proc.scVector (cV L) (jV L)).devRef cc0_scratch4 ∈ ownRefs (τ := τ) (.scVector (cV L) (jV L)) :=
    SparseCore.Cfg.mem_ownRefs_of_owner (p := Proc.scVector (cV L) (jV L)) (b := (Proc.scVector (cV L) (jV L)).devRef cc0_scratch4) rfl
  have ne : ∀ a b : Ref sig .scVector, a ≠ b → (Proc.scVector (cV L) (jV L)).devRef a ≠ (Proc.scVector (cV L) (jV L)).devRef b :=
    fun a b h e => h (Proc.devRef_injective _ e)
  refine (SparseCore.bigSep_erase' (own0)).trans ?_
  rw [SparseCore.bigSep_erase' (Finset.mem_erase.mpr ⟨ne cc0_scratch1 cc0_scratch0 (by decide), own1⟩),
    SparseCore.bigSep_erase' (Finset.mem_erase.mpr ⟨ne cc0_scratch2 cc0_scratch1 (by decide),
      Finset.mem_erase.mpr ⟨ne cc0_scratch2 cc0_scratch0 (by decide), own2⟩⟩),
    SparseCore.bigSep_erase' (Finset.mem_erase.mpr ⟨ne cc0_scratch3 cc0_scratch2 (by decide),
      Finset.mem_erase.mpr ⟨ne cc0_scratch3 cc0_scratch1 (by decide), Finset.mem_erase.mpr ⟨ne cc0_scratch3 cc0_scratch0 (by decide), own3⟩⟩⟩),
    SparseCore.bigSep_erase' (Finset.mem_erase.mpr ⟨ne cc0_scratch4 cc0_scratch3 (by decide),
      Finset.mem_erase.mpr ⟨ne cc0_scratch4 cc0_scratch2 (by decide), Finset.mem_erase.mpr ⟨ne cc0_scratch4 cc0_scratch1 (by decide),
        Finset.mem_erase.mpr ⟨ne cc0_scratch4 cc0_scratch0 (by decide), own4⟩⟩⟩⟩)]

omit [FloatOps F] in
theorem pts_x (q : PosShare TreeShare) (f : Buf (Elt F) (x5Loc d)) :
    ((xM).view.loc (V d (cV L) (jV L)) ↦{q} f : sProp 𝕄) = (x5Loc d ↦{q} f) := by
  first | rfl | simp only [Memref.view_whole, View.set_whole]
omit [FloatOps F] in
theorem pts_w (q : PosShare TreeShare) (f : Buf (Elt F) (w3Loc d)) :
    ((wM).view.loc (V d (cV L) (jV L)) ↦{q} f : sProp 𝕄) = (w3Loc d ↦{q} f) := by
  first | rfl | simp only [Memref.view_whole, View.set_whole]
omit [FloatOps F] in
theorem pts_o (q : PosShare TreeShare) (f : Buf (Elt F) (o8Loc d)) :
    ((oM).view.loc (V d (cV L) (jV L)) ↦{q} f : sProp 𝕄) = (o8Loc d ↦{q} f) := by
  first | rfl | simp only [Memref.view_whole, View.set_whole]
omit [FloatOps F] in
theorem pts_wv (f : Buf (Elt F) ((V d (cV L) (jV L)).loc cc0_scratch0)) :
    ((wvM).view.loc (V d (cV L) (jV L)) ↦{fullShare} f : sProp 𝕄) = ((V d (cV L) (jV L)).loc cc0_scratch0 ↦{fullShare} f) := rfl
omit [FloatOps F] in
theorem pts_xv0 (f : Buf (Elt F) ((V d (cV L) (jV L)).loc cc0_scratch1)) :
    ((xv0M).view.loc (V d (cV L) (jV L)) ↦{fullShare} f : sProp 𝕄) = ((V d (cV L) (jV L)).loc cc0_scratch1 ↦{fullShare} f) := rfl
omit [FloatOps F] in
theorem pts_xv1 (f : Buf (Elt F) ((V d (cV L) (jV L)).loc cc0_scratch2)) :
    ((xv1M).view.loc (V d (cV L) (jV L)) ↦{fullShare} f : sProp 𝕄) = ((V d (cV L) (jV L)).loc cc0_scratch2 ↦{fullShare} f) := rfl
omit [FloatOps F] in
theorem pts_ov0 (f : Buf (Elt F) ((V d (cV L) (jV L)).loc cc0_scratch3)) :
    ((ov0M).view.loc (V d (cV L) (jV L)) ↦{fullShare} f : sProp 𝕄) = ((V d (cV L) (jV L)).loc cc0_scratch3 ↦{fullShare} f) := rfl
omit [FloatOps F] in
theorem pts_ov1 (f : Buf (Elt F) ((V d (cV L) (jV L)).loc cc0_scratch4)) :
    ((ov1M).view.loc (V d (cV L) (jV L)) ↦{fullShare} f : sProp 𝕄) = ((V d (cV L) (jV L)).loc cc0_scratch4 ↦{fullShare} f) := rfl

omit [FloatOps F] in
theorem pts_ov0_set (f : Buf (Elt F) ((ov0M).view.loc (V d (cV L) (jV L)))) :
    ((ov0M).view.loc (V d (cV L) (jV L)) ↦[(ov0M).view.set]{fullShare} f : sProp 𝕄) = ((ov0M).view.loc (V d (cV L) (jV L)) ↦{fullShare} f) := by
  simp only [Memref.view_whole, View.set_whole]
omit [FloatOps F] in
theorem pts_ov1_set (f : Buf (Elt F) ((ov1M).view.loc (V d (cV L) (jV L)))) :
    ((ov1M).view.loc (V d (cV L) (jV L)) ↦[(ov1M).view.set]{fullShare} f : sProp 𝕄) = ((ov1M).view.loc (V d (cV L) (jV L)) ↦{fullShare} f) := by
  simp only [Memref.view_whole, View.set_whole]

end Tile

/-! ## Which groups of one parity are at rest -/

/-- the groups at rest before step `s`: every one but the one before -/
abbrev freeJ (s : ℕ) : Finset ℕ := (Finset.range 14).filter fun j => j + 1 ≠ s
/-- … and during it: neither that one nor the step's own -/
abbrev midJ (s : ℕ) : Finset ℕ := (Finset.range 14).filter fun j => j + 1 ≠ s ∧ j ≠ s

theorem freeJ_eq_insert {s : ℕ} (hs : s < 14) : freeJ s = insert s (midJ s) := by
  ext j; simp only [freeJ, midJ, Finset.mem_filter, Finset.mem_range, Finset.mem_insert]; omega
theorem not_mem_midJ (s : ℕ) : s ∉ midJ s := by
  simp only [midJ, Finset.mem_filter, Finset.mem_range]; omega
theorem freeJ_succ_pos {s : ℕ} (hs : 1 ≤ s) (hs' : s < 14) : freeJ (s + 1) = insert (s - 1) (midJ s) := by
  ext j; simp only [freeJ, midJ, Finset.mem_filter, Finset.mem_range, Finset.mem_insert]; omega
theorem pred_not_mem_midJ {s : ℕ} (hs : 1 ≤ s) : s - 1 ∉ midJ s := by
  simp only [midJ, Finset.mem_filter, Finset.mem_range]; omega
theorem freeJ_one : freeJ 1 = midJ 0 := by
  ext j; simp only [freeJ, midJ, Finset.mem_filter, Finset.mem_range]; omega
theorem freeJ_zero : freeJ 0 = Finset.range 14 := by
  ext j; simp only [freeJ, Finset.mem_filter, Finset.mem_range]; omega

theorem freeJ_succ_zero {s : ℕ} (hs : s = 0) : freeJ (s + 1) = midJ s := by subst hs; exact freeJ_one

section Tile2
variable (d : Dev nD) (L : grid0.Coords)

/-! ## The pipeline's state between two steps -/

/-- the counters of the local copies, in the machine's algebra -/
abbrev ECt : UEmb Counters (MT nD τ sig (HIx 1) (Elt F) ℕ UU ℕ) := countersEmb

/-- A copy of the input's rows `r` into the slot `xv` under way on `sm`: the rows' piece of the read token with the copy,
    the rest of the token beside it. -/
def InFl (xv : Memref sig .scVector .vmem S36x8x128 .f32) (sm : SemLoc sig) (q : PosShare TreeShare) (X5 : Buf (Elt F) (x5Loc d))
    (r : Rect S36x16384x128) (hr : ∀ a, r.stride a = 1) : sProp 𝕄 :=
  iprop((∃ fx : Buf (Elt F) (xv.view.loc (V d (cV L) (jV L))), Transfers.Flight (ECt (F := F)) (V d (cV L) (jV L)) sm default 1179648
      iprop((xv.view.loc (V d (cV L) (jV L)) ↦{fullShare} fx)
        ∗ ((xM).view.loc (V d (cV L) (jV L)) ↦[(((xM).slice r hr).view.set : Finset S36x16384x128.Idx)]{q} X5)))
    ∗ ((xM).view.loc (V d (cV L) (jV L)) ↦[Finset.univ \ (((xM).slice r hr).view.set : Finset S36x16384x128.Idx)]{q} X5))

omit [FloatOps F] in
theorem InFl_congr (xv : Memref sig .scVector .vmem S36x8x128 .f32) (sm : SemLoc sig) (q : PosShare TreeShare) (X5 : Buf (Elt F) (x5Loc d))
    {r r' : Rect S36x16384x128} (e : r = r') (hr : ∀ a, r.stride a = 1) (hr' : ∀ a, r'.stride a = 1) :
    InFl (F := F) d L xv sm q X5 r hr = InFl (F := F) d L xv sm q X5 r' hr' := by subst e; rfl

/-- An input slot before step `s`: the copy of rows `2s + r` into it under way, or, after the last step, the slot idle
    and the token whole. -/
def InSt (xv : Memref sig .scVector .vmem S36x8x128 .f32) (sm : SemLoc sig) (q : PosShare TreeShare) (X5 : Buf (Elt F) (x5Loc d)) (r s : ℕ) : sProp 𝕄 :=
  if s < 14 then InFl (F := F) d L xv sm q X5 (xRect L (2 * s + r)) (fun _ => rfl)
  else
    iprop(semVal ((V d (cV L) (jV L), sm) : GSem nD τ sig) 0 ∗ (∃ fx : Buf (Elt F) (xv.view.loc (V d (cV L) (jV L))), xv.view.loc (V d (cV L) (jV L)) ↦{fullShare} fx)
      ∗ ((xM).view.loc (V d (cV L) (jV L)) ↦{q} X5))

/-- the result's rows `r`, at some contents -/
def RowE (r : Rect S12x7168x128) (hr : ∀ a, r.stride a = 1) : sProp 𝕄 :=
  iprop(∃ f : Buf (Elt F) (((oM).slice r hr).view.loc (V d (cV L) (jV L))),
    ((oM).slice r hr).view.loc (V d (cV L) (jV L)) ↦[((oM).slice r hr).view.set]{fullShare} f)

omit [FloatOps F] in
theorem RowE_congr {r r' : Rect S12x7168x128} (e : r = r') (hr : ∀ a, r.stride a = 1) (hr' : ∀ a, r'.stride a = 1) :
    RowE (F := F) d L r hr = RowE (F := F) d L r' hr' := by subst e; rfl

/-- A copy of the slot `ov` out to the result's rows `r` under way on `sm`. -/
def OutFl (ov : Memref sig .scVector .vmem S12x8x128 .f32) (sm : SemLoc sig) (r : Rect S12x7168x128) (hr : ∀ a, r.stride a = 1) : sProp 𝕄 :=
  iprop(∃ (fo : Buf (Elt F) (ov.view.loc (V d (cV L) (jV L)))) (f : Buf (Elt F) (((oM).slice r hr).view.loc (V d (cV L) (jV L)))),
    Transfers.Flight (ECt (F := F)) (V d (cV L) (jV L)) sm default 393216
      iprop((((oM).slice r hr).view.loc (V d (cV L) (jV L)) ↦[((oM).slice r hr).view.set]{fullShare} f)
        ∗ (ov.view.loc (V d (cV L) (jV L)) ↦[ov.view.set]{fullShare} fo)))

omit [FloatOps F] in
theorem OutFl_congr (ov : Memref sig .scVector .vmem S12x8x128 .f32) (sm : SemLoc sig) {r r' : Rect S12x7168x128} (e : r = r')
    (hr : ∀ a, r.stride a = 1) (hr' : ∀ a, r'.stride a = 1) :
    OutFl (F := F) d L ov sm r hr = OutFl (F := F) d L ov sm r' hr' := by subst e; rfl

/-- An output slot before step `s`: every group of its parity but the one on its way, at some contents; the copy of
    group `2(s-1) + r` out of it under way, or, before the first step, the slot idle. -/
def OutSt (ov : Memref sig .scVector .vmem S12x8x128 .f32) (sm : SemLoc sig) (r s : ℕ) : sProp 𝕄 :=
  iprop((bigSep (freeJ s) fun j => RowE (F := F) d L (oRect L (2 * j + r)) (fun _ => rfl))
    ∗ (if s = 0 then iprop(semVal ((V d (cV L) (jV L), sm) : GSem nD τ sig) 0 ∗ ∃ fo : Buf (Elt F) (ov.view.loc (V d (cV L) (jV L))), ov.view.loc (V d (cV L) (jV L)) ↦{fullShare} fo)
       else OutFl (F := F) d L ov sm (oRect L (2 * (s - 1) + r)) (fun _ => rfl)))

/-- Before step `s`: the weights in place, both input copies under way, both output copies of the step before under
    way, what the tile may wait for, what it owes. -/
def inv (q5 : PosShare TreeShare) (X5 : Buf (Elt F) (x5Loc d))
    (O : CellTallies nD τ sig (HIx 1)) (W : Waits sig (HIx 1)) (s : ℕ) (_ : BitVec 32) : sProp 𝕄 :=
  iprop(Transfers.MayWaits (V d (cV L) (jV L)) (none : HIx 1) O
    ∗ (∃ fw : Buf (Elt F) ((V d (cV L) (jV L)).loc cc0_scratch0), (wvM).view.loc (V d (cV L) (jV L)) ↦{fullShare} fw)
    ∗ InSt (F := F) d L xv0M (SemLoc.dma cc0_scratch5.sem) (Transfers.shareTokN q5 0) X5 0 s
    ∗ InSt (F := F) d L xv1M (SemLoc.dma cc0_scratch6.sem) (Transfers.shareTokN q5 1) X5 1 s
    ∗ OutSt (F := F) d L ov0M (SemLoc.dma cc0_scratch7.sem) 0 s
    ∗ OutSt (F := F) d L ov1M (SemLoc.dma cc0_scratch8.sem) 1 s
    ∗ ∃ W', ⌜∀ p ∈ W', p ∈ W ∨ p.2 = none⌝ ∗ owes (V d (cV L) (jV L)) O W')

set_option maxHeartbeats 4000000 in
/-- One step of the pipeline. -/
theorem trip (q5 : PosShare TreeShare) (X5 : Buf (Elt F) (x5Loc d))
    (O : CellTallies nD τ sig (HIx 1)) (W : Waits sig (HIx 1)) (v3 v4 : BitVec 32) (k : Fin k0_t1_loop.trips) (acc : BitVec 32) :
    inv (F := F) d L q5 X5 O W k.val acc
      ⊢ wp frame (wpE (defs₀ (F := F)) 𝒱₀ (V d (cV L) (jV L)) none) Set.univ
          (k0_t1_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 v3 v4 k acc)
          (inv (F := F) d L q5 X5 O W (k.val + 1)) := by
  have hk : k.val < 14 := k.isLt
  unfold k0_t1_body
  rw [k0_part139_eq_skeleton]; unfold k0_part139_skel
  have e1 : xRect L (2 * k.val + 0) = Rect.unit (s := S36x16384x128) (k0_off2 L k 0#32) S36x8x128.size (k0_off2_inb L k 0) :=
    rectUnit_congr (off2_x L k 0).symm _ _
  have e2 : xRect L (2 * k.val + 1) = Rect.unit (s := S36x16384x128) (k0_off2 L k 1#32) S36x8x128.size (k0_off2_inb L k 1) :=
    rectUnit_congr (off2_x L k 1).symm _ _
  have e3 : oRect L (2 * k.val + 0) = Rect.unit (s := S12x7168x128) (k0_off388 L k 0#32) S12x8x128.size (k0_off388_inb L k 0) :=
    rectUnit_congr (off388_o L k 0).symm _ _
  have e4 : oRect L (2 * k.val + 1) = Rect.unit (s := S12x7168x128) (k0_off388 L k 1#32) S12x8x128.size (k0_off388_inb L k 1) :=
    rectUnit_congr (off388_o L k 1).symm _ _
  have e3' : oRect L (2 * (k.val + 1 - 1) + 0) = Rect.unit (s := S12x7168x128) (k0_off388 L k 0#32) S12x8x128.size (k0_off388_inb L k 0) := e3
  have e4' : oRect L (2 * (k.val + 1 - 1) + 1) = Rect.unit (s := S12x7168x128) (k0_off388 L k 1#32) S12x8x128.size (k0_off388_inb L k 1) := e4

  by_cases hk0 : 1 ≤ k.val
  · by_cases hk13 : k.val < 13
    · -- a middle step: both output copies of the step before are waited for, both prefetches issued
      have h1 := (cond1_iff k).mpr hk0
      have h3 := (cond3_iff k).mpr hk0
      have h2 := (cond2_iff k).mpr hk13
      have h4 := (cond4_iff k).mpr hk13
      have e5 : oRect L (2 * (k.val - 1) + 0) = Rect.unit (s := S12x7168x128) (k0_off3 L k) S12x8x128.size (k0_off3_inb L k h1) :=
        rectUnit_congr (off3_o' L k h1).symm _ _
      have e6 : oRect L (2 * (k.val - 1) + 1) = Rect.unit (s := S12x7168x128) (k0_off390 L k) S12x8x128.size (k0_off390_inb L k h3) :=
        rectUnit_congr (off390_o' L k h3).symm _ _
      have e7 : xRect L (2 * (k.val + 1) + 0) = Rect.unit (s := S36x16384x128) (k0_off389 L k) S36x8x128.size (k0_off389_inb L k h2) :=
        rectUnit_congr (off389_x L k h2).symm _ _
      have e8 : xRect L (2 * (k.val + 1) + 1) = Rect.unit (s := S36x16384x128) (k0_off775 L k) S36x8x128.size (k0_off775_inb L k h4) :=
        rectUnit_congr (off775_x L k h4).symm _ _
      unfold inv InSt OutSt
      rw [if_pos hk, if_pos hk, if_neg (show ¬ k.val = 0 by omega), if_neg (show ¬ k.val = 0 by omega),
        if_pos (show k.val + 1 < 14 by omega), if_pos (show k.val + 1 < 14 by omega), if_neg (Nat.succ_ne_zero k.val), if_neg (Nat.succ_ne_zero k.val)]
      rw [freeJ_eq_insert hk, freeJ_succ_pos hk0 hk,
        SparseCore.bigSep_insert' (not_mem_midJ k.val) (Φ := fun j => RowE (F := F) d L (oRect L (2 * j + 0)) (fun _ => rfl)),
        SparseCore.bigSep_insert' (not_mem_midJ k.val) (Φ := fun j => RowE (F := F) d L (oRect L (2 * j + 1)) (fun _ => rfl)),
        SparseCore.bigSep_insert' (pred_not_mem_midJ hk0) (Φ := fun j => RowE (F := F) d L (oRect L (2 * j + 0)) (fun _ => rfl)),
        SparseCore.bigSep_insert' (pred_not_mem_midJ hk0) (Φ := fun j => RowE (F := F) d L (oRect L (2 * j + 1)) (fun _ => rfl))]
      rw [InFl_congr (F := F) d L _ _ _ _ e1 (fun _ => rfl) (fun _ => rfl),
        InFl_congr (F := F) d L _ _ _ _ e2 (fun _ => rfl) (fun _ => rfl),
        InFl_congr (F := F) d L _ _ _ _ e7 (fun _ => rfl) (fun _ => rfl),
        InFl_congr (F := F) d L _ _ _ _ e8 (fun _ => rfl) (fun _ => rfl),
        OutFl_congr (F := F) d L _ _ e5 (fun _ => rfl) (fun _ => rfl),
        OutFl_congr (F := F) d L _ _ e6 (fun _ => rfl) (fun _ => rfl),
        OutFl_congr (F := F) d L _ _ e3' (fun _ => rfl) (fun _ => rfl),
        OutFl_congr (F := F) d L _ _ e4' (fun _ => rfl) (fun _ => rfl),
        RowE_congr (F := F) d L e3 (fun _ => rfl) (fun _ => rfl),
        RowE_congr (F := F) d L e4 (fun _ => rfl) (fun _ => rfl),
        RowE_congr (F := F) d L e5 (fun _ => rfl) (fun _ => rfl),
        RowE_congr (F := F) d L e6 (fun _ => rfl) (fun _ => rfl)]
      unfold InFl OutFl
      iintro ⟨#Hmw, ⟨%fw, Hwv⟩, ⟨⟨%fx0, HfI0⟩, Hx0⟩, ⟨⟨%fx1, HfI1⟩, Hx1⟩, ⟨⟨Hrow0, Hmid0⟩, %fo0, %fr0, HfO0⟩, ⟨⟨Hrow1, Hmid1⟩, %fo1, %fr1, HfO1⟩, %W', %hW', HO⟩
      ihave Hrow0 := (Entails.of_eq (by unfold RowE; rfl)) $$ Hrow0
      icases Hrow0 with ⟨%fr0k, Hrow0⟩
      ihave Hrow1 := (Entails.of_eq (by unfold RowE; rfl)) $$ Hrow1
      icases Hrow1 with ⟨%fr1k, Hrow1⟩
      sl_exec
      ihave Hov0 := (Entails.of_eq (pts_ov0_set (F := F) d L _)) $$ HfO0_src
      rw [Prog.bind_assoc]
      sl_for (fun _ _ => CompRes0 (F := F) d L fx0 fw) $$ [HfI0_dst Hwv Hov0]
      case region => intro k2 acc2; exact compute0 (F := F) d L fx0 fw _ _ _ _ _ k2 acc2
      · isplitl [HfI0_dst]; · iexact HfI0_dst
        isplitl [Hwv]; · iexact Hwv
        iexists _; iexact Hov0
      iintro %acc2 HC
      icases HC with ⟨Hxv0, Hwv, %fo0', Hov0⟩
      ihave Hov0 := (Entails.of_eq (pts_ov0_set (F := F) d L _).symm) $$ Hov0
      sl_exec
      ihave Hov1 := (Entails.of_eq (pts_ov1_set (F := F) d L _)) $$ HfO1_src
      sl_for (fun _ _ => CompRes1 (F := F) d L fx1 fw) $$ [HfI1_dst Hwv Hov1]
      case region => intro k2 acc3; exact compute1 (F := F) d L fx1 fw k2 acc3
      · isplitl [HfI1_dst]; · iexact HfI1_dst
        isplitl [Hwv]; · iexact Hwv
        iexists _; iexact Hov1
      iintro %acc3 HC
      icases HC with ⟨Hxv1, Hwv, %fo1', Hov1⟩
      ihave Hov1 := (Entails.of_eq (pts_ov1_set (F := F) d L _).symm) $$ Hov1
      sl_exec
      sl_step
      isplitl []; · iexact Hmw
      isplitl [Hwv]; · iexists _; iexact Hwv
      isplitl [HfI0 Hx0]
      · isplitl [HfI0]; · iexists _; iexact HfI0
        iexact Hx0
      isplitl [HfI1 Hx1]
      · isplitl [HfI1]; · iexists _; iexact HfI1
        iexact Hx1
      isplitl [HfO0_dst Hmid0 HfO0]
      · isplitl [HfO0_dst Hmid0]
        · isplitl [HfO0_dst]
          · unfold RowE; iexists _; iexact HfO0_dst
          · iexact Hmid0
        · iexists _; iexists _; iexact HfO0
      isplitl [HfO1_dst Hmid1 HfO1]
      · isplitl [HfO1_dst Hmid1]
        · isplitl [HfO1_dst]
          · unfold RowE; iexists _; iexact HfO1_dst
          · iexact Hmid1
        · iexists _; iexists _; iexact HfO1
      iexists _
      isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        exact hW' p hp

    · -- the last step: no prefetch
      have h1 := (cond1_iff k).mpr hk0
      have h3 := (cond3_iff k).mpr hk0
      have h2 : ¬ k0_cond2 k = 1#1 := fun h => by have := (cond2_iff k).mp h; omega
      have h4 : ¬ k0_cond4 k = 1#1 := fun h => by have := (cond4_iff k).mp h; omega
      have e5 : oRect L (2 * (k.val - 1) + 0) = Rect.unit (s := S12x7168x128) (k0_off3 L k) S12x8x128.size (k0_off3_inb L k h1) :=
        rectUnit_congr (off3_o' L k h1).symm _ _
      have e6 : oRect L (2 * (k.val - 1) + 1) = Rect.unit (s := S12x7168x128) (k0_off390 L k) S12x8x128.size (k0_off390_inb L k h3) :=
        rectUnit_congr (off390_o' L k h3).symm _ _
      unfold inv InSt OutSt
      rw [if_pos hk, if_pos hk, if_neg (show ¬ k.val = 0 by omega), if_neg (show ¬ k.val = 0 by omega),
        if_neg (show ¬ k.val + 1 < 14 by omega), if_neg (show ¬ k.val + 1 < 14 by omega), if_neg (Nat.succ_ne_zero k.val), if_neg (Nat.succ_ne_zero k.val)]
      rw [freeJ_eq_insert hk, freeJ_succ_pos hk0 hk,
        SparseCore.bigSep_insert' (not_mem_midJ k.val) (Φ := fun j => RowE (F := F) d L (oRect L (2 * j + 0)) (fun _ => rfl)),
        SparseCore.bigSep_insert' (not_mem_midJ k.val) (Φ := fun j => RowE (F := F) d L (oRect L (2 * j + 1)) (fun _ => rfl)),
        SparseCore.bigSep_insert' (pred_not_mem_midJ hk0) (Φ := fun j => RowE (F := F) d L (oRect L (2 * j + 0)) (fun _ => rfl)),
        SparseCore.bigSep_insert' (pred_not_mem_midJ hk0) (Φ := fun j => RowE (F := F) d L (oRect L (2 * j + 1)) (fun _ => rfl))]
      rw [InFl_congr (F := F) d L _ _ _ _ e1 (fun _ => rfl) (fun _ => rfl),
        InFl_congr (F := F) d L _ _ _ _ e2 (fun _ => rfl) (fun _ => rfl),
        OutFl_congr (F := F) d L _ _ e5 (fun _ => rfl) (fun _ => rfl),
        OutFl_congr (F := F) d L _ _ e6 (fun _ => rfl) (fun _ => rfl),
        OutFl_congr (F := F) d L _ _ e3' (fun _ => rfl) (fun _ => rfl),
        OutFl_congr (F := F) d L _ _ e4' (fun _ => rfl) (fun _ => rfl),
        RowE_congr (F := F) d L e3 (fun _ => rfl) (fun _ => rfl),
        RowE_congr (F := F) d L e4 (fun _ => rfl) (fun _ => rfl),
        RowE_congr (F := F) d L e5 (fun _ => rfl) (fun _ => rfl),
        RowE_congr (F := F) d L e6 (fun _ => rfl) (fun _ => rfl)]
      unfold InFl OutFl
      iintro ⟨#Hmw, ⟨%fw, Hwv⟩, ⟨⟨%fx0, HfI0⟩, Hx0⟩, ⟨⟨%fx1, HfI1⟩, Hx1⟩, ⟨⟨Hrow0, Hmid0⟩, %fo0, %fr0, HfO0⟩, ⟨⟨Hrow1, Hmid1⟩, %fo1, %fr1, HfO1⟩, %W', %hW', HO⟩
      ihave Hrow0 := (Entails.of_eq (by unfold RowE; rfl)) $$ Hrow0
      icases Hrow0 with ⟨%fr0k, Hrow0⟩
      ihave Hrow1 := (Entails.of_eq (by unfold RowE; rfl)) $$ Hrow1
      icases Hrow1 with ⟨%fr1k, Hrow1⟩
      sl_exec
      ihave Hov0 := (Entails.of_eq (pts_ov0_set (F := F) d L _)) $$ HfO0_src
      rw [Prog.bind_assoc]
      sl_for (fun _ _ => CompRes0 (F := F) d L fx0 fw) $$ [HfI0_dst Hwv Hov0]
      case region => intro k2 acc2; exact compute0 (F := F) d L fx0 fw _ _ _ _ _ k2 acc2
      · isplitl [HfI0_dst]; · iexact HfI0_dst
        isplitl [Hwv]; · iexact Hwv
        iexists _; iexact Hov0
      iintro %acc2 HC
      icases HC with ⟨Hxv0, Hwv, %fo0', Hov0⟩
      ihave Hov0 := (Entails.of_eq (pts_ov0_set (F := F) d L _).symm) $$ Hov0
      sl_exec
      ihave Hov1 := (Entails.of_eq (pts_ov1_set (F := F) d L _)) $$ HfO1_src
      sl_for (fun _ _ => CompRes1 (F := F) d L fx1 fw) $$ [HfI1_dst Hwv Hov1]
      case region => intro k2 acc3; exact compute1 (F := F) d L fx1 fw k2 acc3
      · isplitl [HfI1_dst]; · iexact HfI1_dst
        isplitl [Hwv]; · iexact Hwv
        iexists _; iexact Hov1
      iintro %acc3 HC
      icases HC with ⟨Hxv1, Hwv, %fo1', Hov1⟩
      ihave Hov1 := (Entails.of_eq (pts_ov1_set (F := F) d L _).symm) $$ Hov1
      sl_exec
      sl_step
      isplitl []; · iexact Hmw
      isplitl [Hwv]; · iexists _; iexact Hwv
      isplitl [HfI0 Hxv0 Hx0]
      · isplitl [HfI0]; · iexact HfI0
        isplitl [Hxv0]; · iexists _; iexact Hxv0
        iexact Hx0
      isplitl [HfI1 Hxv1 Hx1]
      · isplitl [HfI1]; · iexact HfI1
        isplitl [Hxv1]; · iexists _; iexact Hxv1
        iexact Hx1
      isplitl [HfO0_dst Hmid0 HfO0]
      · isplitl [HfO0_dst Hmid0]
        · isplitl [HfO0_dst]
          · unfold RowE; iexists _; iexact HfO0_dst
          · iexact Hmid0
        · iexists _; iexists _; iexact HfO0
      isplitl [HfO1_dst Hmid1 HfO1]
      · isplitl [HfO1_dst Hmid1]
        · isplitl [HfO1_dst]
          · unfold RowE; iexists _; iexact HfO1_dst
          · iexact Hmid1
        · iexists _; iexists _; iexact HfO1
      iexists _
      isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        exact hW' p hp

  · -- the first step: no output copy is under way yet
    have hk00 : k.val = 0 := by omega
    have hk13 : k.val < 13 := by omega
    have h1 : ¬ k0_cond1 k = 1#1 := fun h => by have := (cond1_iff k).mp h; omega
    have h3 : ¬ k0_cond3 k = 1#1 := fun h => by have := (cond3_iff k).mp h; omega
    have h2 := (cond2_iff k).mpr hk13
    have h4 := (cond4_iff k).mpr hk13
    have e7 : xRect L (2 * (k.val + 1) + 0) = Rect.unit (s := S36x16384x128) (k0_off389 L k) S36x8x128.size (k0_off389_inb L k h2) :=
      rectUnit_congr (off389_x L k h2).symm _ _
    have e8 : xRect L (2 * (k.val + 1) + 1) = Rect.unit (s := S36x16384x128) (k0_off775 L k) S36x8x128.size (k0_off775_inb L k h4) :=
      rectUnit_congr (off775_x L k h4).symm _ _
    unfold inv InSt OutSt
    rw [if_pos hk, if_pos hk, if_pos hk00, if_pos hk00,
      if_pos (show k.val + 1 < 14 by omega), if_pos (show k.val + 1 < 14 by omega), if_neg (Nat.succ_ne_zero k.val), if_neg (Nat.succ_ne_zero k.val)]
    rw [freeJ_eq_insert hk, freeJ_succ_zero hk00,
      SparseCore.bigSep_insert' (not_mem_midJ k.val) (Φ := fun j => RowE (F := F) d L (oRect L (2 * j + 0)) (fun _ => rfl)),
      SparseCore.bigSep_insert' (not_mem_midJ k.val) (Φ := fun j => RowE (F := F) d L (oRect L (2 * j + 1)) (fun _ => rfl))]
    rw [InFl_congr (F := F) d L _ _ _ _ e1 (fun _ => rfl) (fun _ => rfl),
      InFl_congr (F := F) d L _ _ _ _ e2 (fun _ => rfl) (fun _ => rfl),
      InFl_congr (F := F) d L _ _ _ _ e7 (fun _ => rfl) (fun _ => rfl),
      InFl_congr (F := F) d L _ _ _ _ e8 (fun _ => rfl) (fun _ => rfl),
      OutFl_congr (F := F) d L _ _ e3' (fun _ => rfl) (fun _ => rfl),
      OutFl_congr (F := F) d L _ _ e4' (fun _ => rfl) (fun _ => rfl),
      RowE_congr (F := F) d L e3 (fun _ => rfl) (fun _ => rfl),
      RowE_congr (F := F) d L e4 (fun _ => rfl) (fun _ => rfl)]
    unfold InFl OutFl
    iintro ⟨#Hmw, ⟨%fw, Hwv⟩, ⟨⟨%fx0, HfI0⟩, Hx0⟩, ⟨⟨%fx1, HfI1⟩, Hx1⟩, ⟨⟨Hrow0, Hmid0⟩, HfO0, %fo0, Hov0⟩, ⟨⟨Hrow1, Hmid1⟩, HfO1, %fo1, Hov1⟩, %W', %hW', HO⟩
    ihave Hrow0 := (Entails.of_eq (by unfold RowE; rfl)) $$ Hrow0
    icases Hrow0 with ⟨%fr0k, Hrow0⟩
    ihave Hrow1 := (Entails.of_eq (by unfold RowE; rfl)) $$ Hrow1
    icases Hrow1 with ⟨%fr1k, Hrow1⟩
    sl_exec
    rw [Prog.bind_assoc]
    sl_for (fun _ _ => CompRes0 (F := F) d L fx0 fw) $$ [HfI0_dst Hwv Hov0]
    case region => intro k2 acc2; exact compute0 (F := F) d L fx0 fw _ _ _ _ _ k2 acc2
    · isplitl [HfI0_dst]; · iexact HfI0_dst
      isplitl [Hwv]; · iexact Hwv
      iexists _; iexact Hov0
    iintro %acc2 HC
    icases HC with ⟨Hxv0, Hwv, %fo0', Hov0⟩
    ihave Hov0 := (Entails.of_eq (pts_ov0_set (F := F) d L _).symm) $$ Hov0
    sl_exec
    sl_for (fun _ _ => CompRes1 (F := F) d L fx1 fw) $$ [HfI1_dst Hwv Hov1]
    case region => intro k2 acc3; exact compute1 (F := F) d L fx1 fw k2 acc3
    · isplitl [HfI1_dst]; · iexact HfI1_dst
      isplitl [Hwv]; · iexact Hwv
      iexists _; iexact Hov1
    iintro %acc3 HC
    icases HC with ⟨Hxv1, Hwv, %fo1', Hov1⟩
    ihave Hov1 := (Entails.of_eq (pts_ov1_set (F := F) d L _).symm) $$ Hov1
    sl_exec
    sl_step
    isplitl []; · iexact Hmw
    isplitl [Hwv]; · iexists _; iexact Hwv
    isplitl [HfI0 Hx0]
    · isplitl [HfI0]; · iexists _; iexact HfI0
      iexact Hx0
    isplitl [HfI1 Hx1]
    · isplitl [HfI1]; · iexists _; iexact HfI1
      iexact Hx1
    isplitl [Hmid0 HfO0]
    · isplitl [Hmid0]; · iexact Hmid0
      iexists _; iexists _; iexact HfO0
    isplitl [Hmid1 HfO1]
    · isplitl [Hmid1]; · iexact Hmid1
      iexists _; iexists _; iexact HfO1
    iexists _
    isplitr
    rotate_left
    · iexact HO
    · ipureintro; intro p hp
      rcases Finset.mem_insert.mp hp with rfl | hp
      · exact .inr rfl
      rcases Finset.mem_insert.mp hp with rfl | hp
      · exact .inr rfl
      exact hW' p hp

end Tile2
end Cert.KernelIdeal.Pf
end
-- ==== Proof.KTile.lean ====
/-
  A vector subcore's task of the one SparseCore call: the weights are copied into the tile's scratch; the tile's 28
  groups of 8 rows go through two input slots and two output slots, the copy into a slot under way while the other
  slot is computed on and the copy out of an output slot under way while the other is written; every copy is the
  only one outstanding on its semaphore and nothing touches its two ends while it is under way. At this level the
  claim is that the task runs to its end: the read shares of the two operands come back whole and the tile's rows
  of the result hold what the copies out left.
-/
import proofs.«203732_g20581483283120_cont_8to1_285_17_alg».proof.Proof.KTileTrip
import Idealize.ShloMosaic.Lib.Ring

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile3
variable (d : Dev nD) (L : grid0.Coords)

/-! ## The tile's task -/

omit [FloatOps F] in
/-- A read share as two tokens — one per input slot's copies — and the rest. -/
theorem toks2_split (ℓ : Loc nD τ sig) (q : PosShare TreeShare) (f : Buf (Elt F) ℓ) :
    (ℓ ↦{q} f : sProp 𝕄) ⊢ iprop((ℓ ↦{Transfers.shareDrop q 2} f) ∗ (ℓ ↦{Transfers.shareTokN q 0} f) ∗ (ℓ ↦{Transfers.shareTokN q 1} f)) := by
  have hs0 : (ℓ ↦{Transfers.shareDrop q 0} f : sProp 𝕄) ⊣⊢ iprop((ℓ ↦{Transfers.shareDrop q 1} f) ∗ ℓ ↦{Transfers.shareTokN q 0} f) :=
    pointsTo_share (PosShare.mem_left_op_right _)
  have hs1 : (ℓ ↦{Transfers.shareDrop q 1} f : sProp 𝕄) ⊣⊢ iprop((ℓ ↦{Transfers.shareDrop q 2} f) ∗ ℓ ↦{Transfers.shareTokN q 1} f) :=
    pointsTo_share (PosShare.mem_left_op_right _)
  have h : iprop(((ℓ ↦{Transfers.shareDrop q 2} f) ∗ ℓ ↦{Transfers.shareTokN q 1} f) ∗ ℓ ↦{Transfers.shareTokN q 0} f)
      ⊢ (iprop((ℓ ↦{Transfers.shareDrop q 2} f) ∗ (ℓ ↦{Transfers.shareTokN q 0} f) ∗ (ℓ ↦{Transfers.shareTokN q 1} f)) : sProp 𝕄) := by
    iintro ⟨⟨Hd, H1⟩, H0⟩
    isplitl [Hd]; · iexact Hd
    isplitl [H0]; · iexact H0
    iexact H1
  exact BI.Entails.trans hs0.1 (BI.Entails.trans (sep_mono_left hs1.1) h)

omit [FloatOps F] in
theorem toks2_join (ℓ : Loc nD τ sig) (q : PosShare TreeShare) (f : Buf (Elt F) ℓ) :
    iprop((ℓ ↦{Transfers.shareDrop q 2} f) ∗ (ℓ ↦{Transfers.shareTokN q 0} f) ∗ (ℓ ↦{Transfers.shareTokN q 1} f)) ⊢ (ℓ ↦{q} f : sProp 𝕄) := by
  have hs0 : (ℓ ↦{Transfers.shareDrop q 0} f : sProp 𝕄) ⊣⊢ iprop((ℓ ↦{Transfers.shareDrop q 1} f) ∗ ℓ ↦{Transfers.shareTokN q 0} f) :=
    pointsTo_share (PosShare.mem_left_op_right _)
  have hs1 : (ℓ ↦{Transfers.shareDrop q 1} f : sProp 𝕄) ⊣⊢ iprop((ℓ ↦{Transfers.shareDrop q 2} f) ∗ ℓ ↦{Transfers.shareTokN q 1} f) :=
    pointsTo_share (PosShare.mem_left_op_right _)
  have h : (iprop((ℓ ↦{Transfers.shareDrop q 2} f) ∗ (ℓ ↦{Transfers.shareTokN q 0} f) ∗ (ℓ ↦{Transfers.shareTokN q 1} f)) : sProp 𝕄)
      ⊢ iprop(((ℓ ↦{Transfers.shareDrop q 2} f) ∗ ℓ ↦{Transfers.shareTokN q 1} f) ∗ ℓ ↦{Transfers.shareTokN q 0} f) := by
    iintro ⟨Hd, H0, H1⟩
    isplitl [Hd H1]
    · isplitl [Hd]; · iexact Hd
      iexact H1
    · iexact H0
  exact BI.Entails.trans h (BI.Entails.trans (sep_mono_left hs1.2) hs0.2)

omit [FloatOps F] in
theorem pts_oRow (g : ℕ) (f : Buf (Elt F) (o8Loc d)) :
    (((oM).slice (oRect L g) (fun _ => rfl)).view.loc (V d (cV L) (jV L)) ↦[((oM).slice (oRect L g) (fun _ => rfl)).view.set]{fullShare} f : sProp 𝕄)
      = (o8Loc d ↦[oRowSet L g]{fullShare} f) := rfl

omit [FloatOps F] in
theorem row_in1 (g : ℕ) (f8 : Buf (Elt F) (o8Loc d)) :
    (o8Loc d ↦[oRowSet L g]{fullShare} f8 : sProp 𝕄) ⊢ RowE (F := F) d L (oRect L g) (fun _ => rfl) := by
  unfold RowE; iintro H; iexists f8; iapply (Entails.of_eq (pts_oRow (F := F) d L g f8).symm); iexact H

omit [FloatOps F] in
theorem row_out1 (g : ℕ) :
    RowE (F := F) d L (oRect L g) (fun _ => rfl) ⊢ (iprop(∃ f : Buf (Elt F) (o8Loc d), o8Loc d ↦[oRowSet L g]{fullShare} f) : sProp 𝕄) := by
  unfold RowE; iintro ⟨%f, H⟩; iexists f; iapply (Entails.of_eq (pts_oRow (F := F) d L g f)); iexact H

omit [FloatOps F] in
/-- the tile's rows, each group at some contents -/
theorem rows_in (f8 : Buf (Elt F) (o8Loc d)) :
    (bigSep (Finset.range 28) fun g => (o8Loc d ↦[oRowSet L g]{fullShare} f8 : sProp 𝕄))
      ⊢ bigSep (Finset.range 28) fun g => RowE (F := F) d L (oRect L g) (fun _ => rfl) :=
  BI.bigSep_mono fun g _ => row_in1 (F := F) d L g f8

omit [FloatOps F] in
theorem rows_out :
    (bigSep (Finset.range 28) fun g => RowE (F := F) d L (oRect L g) (fun _ => rfl))
      ⊢ bigSep (Finset.range 28) fun g => (iprop(∃ f : Buf (Elt F) (o8Loc d), o8Loc d ↦[oRowSet L g]{fullShare} f) : sProp 𝕄) :=
  BI.bigSep_mono fun g _ => row_out1 (F := F) d L g

theorem freeJ_last : freeJ 14 = Finset.range 13 := by
  ext j; simp only [freeJ, Finset.mem_filter, Finset.mem_range]; omega

omit [FloatOps F] in
/-- the 28 groups by parity -/
theorem rows_parity :
    (bigSep (Finset.range 28) fun g => RowE (F := F) d L (oRect L g) (fun _ => rfl))
      = iprop((bigSep (Finset.range 14) fun j => RowE (F := F) d L (oRect L (2 * j + 0)) (fun _ => rfl))
          ∗ bigSep (Finset.range 14) fun j => RowE (F := F) d L (oRect L (2 * j + 1)) (fun _ => rfl)) :=
  Ring.bigSep_range_deinterleave 14 (fun g => RowE (F := F) d L (oRect L g) (fun _ => rfl))

omit [FloatOps F] in
theorem rows_split :
    (bigSep (Finset.range 28) fun g => RowE (F := F) d L (oRect L g) (fun _ => rfl))
      ⊢ iprop((bigSep (Finset.range 14) fun j => RowE (F := F) d L (oRect L (2 * j + 0)) (fun _ => rfl))
          ∗ bigSep (Finset.range 14) fun j => RowE (F := F) d L (oRect L (2 * j + 1)) (fun _ => rfl)) :=
  Entails.of_eq (rows_parity (F := F) d L)

omit [FloatOps F] in
theorem rows_unsplit :
    iprop((bigSep (Finset.range 14) fun j => RowE (F := F) d L (oRect L (2 * j + 0)) (fun _ => rfl))
          ∗ bigSep (Finset.range 14) fun j => RowE (F := F) d L (oRect L (2 * j + 1)) (fun _ => rfl))
      ⊢ (bigSep (Finset.range 28) fun g => RowE (F := F) d L (oRect L g) (fun _ => rfl)) :=
  Entails.of_eq (rows_parity (F := F) d L).symm

omit [FloatOps F] in
/-- the last group of a parity put back among the others -/
theorem rows14 (r : ℕ) :
    iprop(RowE (F := F) d L (oRect L (2 * 13 + r)) (fun _ => rfl) ∗ bigSep (Finset.range 13) fun j => RowE (F := F) d L (oRect L (2 * j + r)) (fun _ => rfl))
      ⊢ bigSep (Finset.range 14) fun j => RowE (F := F) d L (oRect L (2 * j + r)) (fun _ => rfl) := by
  rw [show Finset.range 14 = insert 13 (Finset.range 13) from Finset.range_add_one, SparseCore.bigSep_insert' Finset.notMem_range_self]

set_option maxHeartbeats 4000000 in
/-- A tile's task: the weights copied in, the double-buffered pipeline over its 28 groups of rows, the last two copies
    out waited for; the read shares come back, the rows at what the copies left. -/
theorem tile_body (hF : (K (F := F)).Facts) (X5 : Buf (Elt F) (x5Loc d)) (W3 : Buf (Elt F) (w3Loc d)) (f8 : Buf (Elt F) (o8Loc d))
    (O : CellTallies nD τ sig (HIx 1)) (W : Waits sig (HIx 1)) (hO : ∀ g, O g none = 0) :
    iprop(levAts (K (F := F)).L (K (F := F)).lev ∗ emp ∗ tileGoL (F := F) d X5 W3 f8 L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_agg_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0)
          fun _ => iprop(tileTdL (F := F) d X5 W3 L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_agg_body_eq_skeleton]; unfold cc0__sc_agg_body_skel
  rw [(K (F := F)).scopedBufs_V hF d (cV L) (jV L), SparseCore.Cfg.scopedSems0_V (Val := Elt F) d (cV L) (jV L), ownSems0_V, ownBufs_V]
  unfold tileGoL tileTdL
  iintro ⟨#Hlv, -, ⟨Hx, Hw, Hrows⟩, ⟨⟨%fwv, Hwv⟩, ⟨%fx0, Hxv0⟩, ⟨%fx1, Hxv1⟩, ⟨%fo0, Hov0⟩, ⟨%fo1, Hov1⟩, Hbufs⟩, ⟨HsI0, HsI1, HsO0, HsO1, HsW, Hsems⟩, HO⟩
  ihave Hmw := ((K (F := F)).mayWaits_none (thr := V d (cV L) (jV L)) hO) $$ Hlv
  -- the input's read share: a token per input slot, the rest aside
  ihave Hx := (toks2_split (F := F) (x5Loc d) (tileShare (wid L)) X5) $$ Hx
  icases Hx with ⟨Hxr, Hx0, Hx1⟩
  ihave Hx0 := (Entails.of_eq (pts_x (F := F) d L _ _).symm) $$ Hx0
  ihave Hx1 := (Entails.of_eq (pts_x (F := F) d L _ _).symm) $$ Hx1
  ihave Hw := (Entails.of_eq (pts_w (F := F) d L _ _).symm) $$ Hw
  ihave Hwv := (Entails.of_eq (pts_wv (F := F) d L _).symm) $$ Hwv
  ihave Hxv0 := (Entails.of_eq (pts_xv0 (F := F) d L _).symm) $$ Hxv0
  ihave Hxv1 := (Entails.of_eq (pts_xv1 (F := F) d L _).symm) $$ Hxv1
  ihave Hov0 := (Entails.of_eq (pts_ov0 (F := F) d L _).symm) $$ Hov0
  ihave Hov1 := (Entails.of_eq (pts_ov1 (F := F) d L _).symm) $$ Hov1
  -- the rows by parity, each group at some contents
  ihave Hrows := (rows_in (F := F) d L f8) $$ Hrows
  ihave Hrows := (rows_split (F := F) d L) $$ Hrows
  icases Hrows with ⟨Hrows0, Hrows1⟩
  sl_exec
  have e0 : xRect L (2 * 0 + 0) = Rect.unit (s := S36x16384x128) (k0_off1 L 0#32) S36x8x128.size (k0_off1_inb L 0) :=
    rectUnit_congr (off1_x L 0).symm _ _
  have e0' : xRect L (2 * 0 + 1) = Rect.unit (s := S36x16384x128) (k0_off1 L 8#32) S36x8x128.size (k0_off1_inb L 1) :=
    rectUnit_congr (off1_x L 1).symm _ _
  sl_for (inv (F := F) d L (tileShare (wid L)) X5 O W) $$ [Hwv HsI0 Hx0 HsI1 Hx1 Hrows0 HsO0 Hov0 Hrows1 HsO1 Hov1 HO]
  case region => intro k acc; exact trip (F := F) d L (tileShare (wid L)) X5 O W _ _ k acc
  · unfold inv InSt OutSt
    rw [if_pos (show (0 : ℕ) < 14 by omega), if_pos (show (0 : ℕ) < 14 by omega), if_pos rfl, if_pos rfl, freeJ_zero,
      InFl_congr (F := F) d L _ _ _ _ e0 (fun _ => rfl) (fun _ => rfl), InFl_congr (F := F) d L _ _ _ _ e0' (fun _ => rfl) (fun _ => rfl)]
    unfold InFl
    isplitl []; · iexact Hmw
    isplitl [Hwv]; · iexists _; iexact Hwv
    isplitl [HsI0 Hx0]
    · isplitl [HsI0]; · iexists _; iexact HsI0
      iexact Hx0
    isplitl [HsI1 Hx1]
    · isplitl [HsI1]; · iexists _; iexact HsI1
      iexact Hx1
    isplitl [Hrows0 HsO0 Hov0]
    · isplitl [Hrows0]; · iexact Hrows0
      isplitl [HsO0]; · iexact HsO0
      iexists _; iexact Hov0
    isplitl [Hrows1 HsO1 Hov1]
    · isplitl [Hrows1]; · iexact Hrows1
      isplitl [HsO1]; · iexact HsO1
      iexists _; iexact Hov1
    iexists _; isplitr
    rotate_left
    · iexact HO
    · ipureintro; intro p hp
      rcases Finset.mem_insert.mp hp with rfl | hp
      · exact .inr rfl
      exact .inl hp
  have ht : Scf.trips k0_t1_loop.lb k0_t1_loop.ub k0_t1_loop.st = 14 := by decide
  have eF0 : oRect L (2 * (14 - 1) + 0) = Rect.unit (s := S12x7168x128) (k0_off776 L 208#32) S12x8x128.size (k0_off776_inb L 0) :=
    rectUnit_congr (off776_o L 0).symm _ _
  have eF1 : oRect L (2 * (14 - 1) + 1) = Rect.unit (s := S12x7168x128) (k0_off776 L 216#32) S12x8x128.size (k0_off776_inb L 1) :=
    rectUnit_congr (off776_o L 1).symm _ _
  have eG0 : oRect L (2 * 13 + 0) = Rect.unit (s := S12x7168x128) (k0_off776 L 208#32) S12x8x128.size (k0_off776_inb L 0) := eF0
  have eG1 : oRect L (2 * 13 + 1) = Rect.unit (s := S12x7168x128) (k0_off776 L 216#32) S12x8x128.size (k0_off776_inb L 1) := eF1
  rw [ht]
  unfold inv InSt OutSt
  rw [if_neg (show ¬ (14 : ℕ) < 14 by omega), if_neg (show ¬ (14 : ℕ) < 14 by omega), if_neg (show ¬ (14 : ℕ) = 0 by omega), if_neg (show ¬ (14 : ℕ) = 0 by omega),
    freeJ_last, OutFl_congr (F := F) d L _ _ eF0 (fun _ => rfl) (fun _ => rfl), OutFl_congr (F := F) d L _ _ eF1 (fun _ => rfl) (fun _ => rfl)]
  unfold OutFl
  iintro %acc ⟨-, ⟨%fw, Hwv⟩, ⟨HsI0, ⟨%fx0', Hxv0⟩, Hx0⟩, ⟨HsI1, ⟨%fx1', Hxv1⟩, Hx1⟩, ⟨Hrows0, %fo0', %fr0, HfO0⟩, ⟨Hrows1, %fo1', %fr1, HfO1⟩, %W', %hW', HO⟩
  sl_exec
  sl_step
  -- what the task returns: the read shares whole again, the rows
  isplitl [Hxr Hx0 Hx1 Hw Hrows0 Hrows1 HfO0_dst HfO1_dst]
  · isplitl [Hxr Hx0 Hx1]
    · iapply (toks2_join (F := F) (x5Loc d) (tileShare (wid L)) X5)
      isplitl [Hxr]; · iexact Hxr
      isplitl [Hx0]
      · iapply (Entails.of_eq (pts_x (F := F) d L _ _)); iexact Hx0
      · iapply (Entails.of_eq (pts_x (F := F) d L _ _)); iexact Hx1
    isplitl [Hw]
    · iapply (Entails.of_eq (pts_w (F := F) d L _ _)); iexact Hw
    iapply (rows_out (F := F) d L)
    iapply (rows_unsplit (F := F) d L)
    isplitl [Hrows0 HfO0_dst]
    · iapply (rows14 (F := F) d L 0)
      isplitl [HfO0_dst]
      · rw [RowE_congr (F := F) d L eG0 (fun _ => rfl) (fun _ => rfl)]; unfold RowE; iexists _; iexact HfO0_dst
      · iexact Hrows0
    · iapply (rows14 (F := F) d L 1)
      isplitl [HfO1_dst]
      · rw [RowE_congr (F := F) d L eG1 (fun _ => rfl) (fun _ => rfl)]; unfold RowE; iexists _; iexact HfO1_dst
      · iexact Hrows1
  -- the scratch buffers, at what the last step left
  isplitl [Hwv Hxv0 Hxv1 HfO0_src HfO1_src Hbufs]
  · isplitl [Hwv]; · iexists _; iapply (Entails.of_eq (pts_wv (F := F) d L _)); iexact Hwv
    isplitl [Hxv0]; · iexists _; iapply (Entails.of_eq (pts_xv0 (F := F) d L _)); iexact Hxv0
    isplitl [Hxv1]; · iexists _; iapply (Entails.of_eq (pts_xv1 (F := F) d L _)); iexact Hxv1
    isplitl [HfO0_src]
    · iexists _; iapply (Entails.of_eq (pts_ov0 (F := F) d L _)); iapply (Entails.of_eq (pts_ov0_set (F := F) d L _)); iexact HfO0_src
    isplitl [HfO1_src]
    · iexists _; iapply (Entails.of_eq (pts_ov1 (F := F) d L _)); iapply (Entails.of_eq (pts_ov1_set (F := F) d L _)); iexact HfO1_src
    iexact Hbufs
  -- the semaphores, every counter back at zero
  isplitl [HsI0 HsI1 HfO0 HfO1 HsW Hsems]
  · isplitl [HsI0]; · iexact HsI0
    isplitl [HsI1]; · iexact HsI1
    isplitl [HfO0]; · iexact HfO0
    isplitl [HfO1]; · iexact HfO1
    isplitl [HsW]; · iexact HsW
    iexact Hsems
  iexists _
  isplitr
  rotate_left
  · iexact HO
  · ipureintro; intro p hp
    rcases Finset.mem_insert.mp hp with rfl | hp
    · exact .inr rfl
    rcases Finset.mem_insert.mp hp with rfl | hp
    · exact .inr rfl
    exact hW' p hp

end Tile3

/-! ## The launch theorem's obligation for a tile -/

theorem defs₀_vector (c : Fin τ.nSC) (s : Fin τ.nSub) :
    defs₀ (F := F) (.scVector c s) 0 ()
      = SparseCore.onTile hcore0 hsub0 (fun c s => cc0__sc_agg_body (coordsV c s)
          xM (Memref.isWhole_whole _) wM (Memref.isWhole_whole _) oM (Memref.isWhole_whole _)
          wvM (Memref.isWhole_whole _) xv0M (Memref.isWhole_whole _) xv1M (Memref.isWhole_whole _) ov0M (Memref.isWhole_whole _) ov1M (Memref.isWhole_whole _)
          cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs its task. -/
theorem tileObl (X5 : (d : Dev nD) → Buf (Elt F) (x5Loc d)) (W3 : (d : Dev nD) → Buf (Elt F) (w3Loc d)) (f8 : (d : Dev nD) → Buf (Elt F) (o8Loc d)) :
    (K (F := F)).TileObl (D (F := F)) 𝒱 (P (F := F) X5 W3 f8) v₀ 0 := by
  intro d c i O W hO _ _
  simp only [show (P (F := F) X5 W3 f8).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) d (coordsV ⟨_, hc.1⟩ ⟨_, hc.2⟩) facts (X5 d) (W3 d) (f8 d) O W hO).trans (wp_mono frame _ _ fun _ => obl_post)

section Tile4
variable (d : Dev nD) (L : grid0.Coords)

end Tile4
end Cert.KernelIdeal.Pf
end
-- ==== Proof.KFrame.lean ====
/-
  The frame of the kernel program, for any float instance: every weakly fair execution of the TensorCore, the two
  sequencers and the thirty-two tiles terminates, nothing faulting, and the four argument arrays end unchanged.
-/
import proofs.«203732_g20581483283120_cont_8to1_285_17_alg».proof.Proof.KRun
import proofs.«203732_g20581483283120_cont_8to1_285_17_alg».proof.Proof.KSplit
import proofs.«203732_g20581483283120_cont_8to1_285_17_alg».proof.Proof.KTile

noncomputable section

namespace Cert.KernelIdeal.Pf

open Cert.KernelIdeal Cert.KernelIdeal.Gen
open Idealize.ShloMosaic Idealize.SL.Sem

variable {F : FTy → Type} [FloatOps F]

/-- The run with nothing said of the kernels' results, read at the arguments. -/
theorem frame_run [∀ e, Nonempty (Elt F e)]  (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := F)) _ _).mono
    (fun r h => frame_of_run m (fun _ _ => True) (Unch main_v9) (Unch main_v10) (fun _ _ h => h) (fun _ _ h => h) r h)
    (run_main m ρ (Pm m) (fun _ _ => True) (Unch main_v9) (Unch main_v10) (P_x _ _ _) rfl (callSplit m) regionBind0 regionBind1
      (tileObl _ _ _) (vecSplit _ _ _))

end Cert.KernelIdeal.Pf

end
-- ==== Proof.BCommon.lean ====
/-
  The vocabulary shared by the kernel-side modules: the program as the SparseCore launch theorem reads it (one
  vector-subcore call on 2 × 16 tiles, two TensorCore pipelines in the label table), and the resource algebra —
  the launch handshakes' rounds, the two pipelines' staging-cell rounds, and the counters of the local copies a
  tile makes and waits for.
-/
import proofs.«203732_g20581483283120_cont_8to1_285_17_alg».proof.Kernel
import proofs.«203732_g20581483283120_cont_8to1_285_17_alg».proof.Proof.Gen.Kernel
import proofs.«203732_g20581483283120_cont_8to1_285_17_alg».proof.Proof.Gen.Kernel.Skeleton
import proofs.«203732_g20581483283120_cont_8to1_285_17_alg».proof.Proof.Gen.Kernel.Launch
import proofs.«203732_g20581483283120_cont_8to1_285_17_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nCore_zero [FloatOps F] : (K (F := F)).nCore 0 = 2 := rfl
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds -/
abbrev UH : Type := URounds (GSem nD τ sig) ℕ
/-- the pipelines' staging cells' rounds -/
abbrev UP : Type := URounds (GSem nD τ sig) Unit
/-- handshakes × (staging cells × the local copies' counters) -/
abbrev UU : Type := UH × (UP × Counters)

/-- The handshakes' rounds library is the left factor. -/
abbrev EH : Emb UH (MT nD τ sig (HIx 1) (Elt F) ℕ UU ℕ) := embL
/-- The pipelines' rounds library is the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn [FloatOps F] : (EP : Emb UP (MT nD τ sig (HIx 1) (Elt F) ℕ UU ℕ)).LandsIn (upEmb : UEmb _ (MT nD τ sig (HIx 1) (Elt F) ℕ UU ℕ)) := by
  unfold EP; infer_instance

/-- The pipelines have no prefetched tables: the trivial admissibility witnesses. -/
abbrev adm [FloatOps F] : (p : Fin 2) → (pcfgs (F := F) p).Adm := fun p => (cfgs p).toPCfg_adm

end Cert.Kernel.Pf

end
-- ==== Proof.BMain.lean ====
/-
  @main on the TensorCore, as the launch theorem's obligation: the host operations before the SparseCore call as one
  straight line, the call, the first TensorCore region, the copy of its result into the aliased buffer, the second
  region, the last transpose.
-/
import proofs.«203732_g20581483283120_cont_8to1_285_17_alg».proof.Proof.BCommon
import Idealize.ShloMosaic.Lib.Pipeline.Frame

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F]

local notation "𝕄" => MT nD τ sig (HIx 1) (Elt F) ℕ UU ℕ

/-! ## @main's host operations -/

/-- Before the SparseCore call: the softplus of the thirty-six edge weights (fourteen operations), the weights
    repeated over sixteen lanes and flattened, the weights as a one-row matrix, the edge features with the edge
    axis first, the matrix transposed, the bias as a one-row matrix. -/
abbrev opsA : List (HloOp τ sig (Elt F)) :=
  [ TRef.nullary main_call0.cst (constant S_ .f32 0x00000000#32),
    TRef.unary main_call0.cst main_call0.v0 (broadcastInDim S36 ![] bcast_S_S36),
    TRef.binary (.of main_arg1) main_call0.v0 main_call0.v1 maximumf,
    TRef.unary main_call0.cst main_call0.v2 (broadcastInDim S36 ![] bcast_S_S36),
    TRef.binary (.of main_arg1) main_call0.v2 main_call0.v3 subf,
    TRef.binary main_call0.v3 main_call0.v3 main_call0.v4 (cmpf .une),
    TRef.unary main_call0.cst main_call0.v5 (broadcastInDim S36 ![] bcast_S_S36),
    TRef.binary (.of main_arg1) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    unary main_v0 main_v1 (broadcastInDim S36x1 ![0] bcast_S36_S36x1_0),
    unary main_v1 main_v2 (broadcastInDim S36x16 ![0, 1] bcast_S36x1_S36x16_0_1),
    reshape main_v2 main_v3 rfl shapeCasts_S36x16_S576,
    reshape main_v0 main_v4 rfl shapeCasts_S36_S1x36,
    unary main_arg0 main_v5 (transpose S36x16384x128 [1, 0, 2] · transposes_S16384x36x128_S36x16384x128_1_0_2),
    unary main_arg2 main_v6 (transpose S128x128 [1, 0] · transposes_S128x128_S128x128_1_0),
    reshape main_arg3 main_v7 rfl shapeCasts_S128_S1x128 ]

/-- Between the two TensorCore regions: the first region's result copied into the buffer the second one rewrites in part. -/
abbrev opsB : List (HloOp τ sig (Elt F)) := [ unary main_v9 main_v10 id ]

/-- After the second region: the node axis and the row axis exchanged. -/
abbrev opsC : List (HloOp τ sig (Elt F)) :=
  [ unary main_v10 main_v11 (transpose S16384x12x128 [1, 0, 2] · transposes_S12x16384x128_S16384x12x128_1_0_2) ]

set_option maxRecDepth 2048 in
/-- @main is those three lines around the SparseCore call and the two regions. -/
theorem main_eq (d : Dev nD) :
    main (F := F) d = (seq opsA >>= fun _ => (sc (F := F)).run d 0 >>= fun _ =>
      (Prog.lift (.customCall (SparseCore.inner (Pipeline.entry 0)) ()) : Prog (TpuEff nD τ sig (Elt F) (SparseCore.Sig (ΛP (F := F)) 1) .tc) PUnit) >>= fun _ =>
      seq opsB >>= fun _ =>
      (Prog.lift (.customCall (SparseCore.inner (Pipeline.entry 1)) ()) : Prog (TpuEff nD τ sig (Elt F) (SparseCore.Sig (ΛP (F := F)) 1) .tc) PUnit) >>= fun _ =>
      seq opsC) := by
  simp only [main, fn_softplus.body, seq, bind_assoc, pure_bind]
  rfl

/-! ## The unscoped buffers as a held set -/

theorem opsA_tc : (opsA : List (HloOp τ sig (Elt F))).Forall fun op => op.bufs ⊆ tcRefs τ sig :=
  ⟨nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., reshape_bufs_sub .., reshape_bufs_sub ..,
    unary_bufs_sub .., unary_bufs_sub .., reshape_bufs_sub ..⟩

theorem opsA_sub : ∀ op ∈ (opsA : List (HloOp τ sig (Elt F))), op.bufs ⊆ Pipeline.ucRefs τ sig :=
  fun op hop => Pipeline.sub_ucRefs op (List.forall_iff_forall_mem.mp opsA_tc op hop)

theorem opsA_fresh : ∀ op ∈ (opsA : List (HloOp τ sig (Elt F))), op.fresh = ∅ :=
  List.forall_iff_forall_mem.mp (show (opsA : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl⟩)

theorem opsB_sub : ∀ op ∈ (opsB : List (HloOp τ sig (Elt F))), op.bufs ⊆ Pipeline.ucRefs τ sig :=
  fun op hop => Pipeline.sub_ucRefs op (List.forall_iff_forall_mem.mp (show (opsB : List (HloOp τ sig (Elt F))).Forall fun op => op.bufs ⊆ tcRefs τ sig from unary_bufs_sub ..) op hop)
theorem opsB_fresh : ∀ op ∈ (opsB : List (HloOp τ sig (Elt F))), op.fresh = ∅ :=
  List.forall_iff_forall_mem.mp (show (opsB : List (HloOp τ sig (Elt F))).Forall fun op => op.fresh = ∅ from rfl)
theorem opsC_sub : ∀ op ∈ (opsC : List (HloOp τ sig (Elt F))), op.bufs ⊆ Pipeline.ucRefs τ sig :=
  fun op hop => Pipeline.sub_ucRefs op (List.forall_iff_forall_mem.mp (show (opsC : List (HloOp τ sig (Elt F))).Forall fun op => op.bufs ⊆ tcRefs τ sig from unary_bufs_sub ..) op hop)
theorem opsC_fresh : ∀ op ∈ (opsC : List (HloOp τ sig (Elt F))), op.fresh = ∅ :=
  List.forall_iff_forall_mem.mp (show (opsC : List (HloOp τ sig (Elt F))).Forall fun op => op.fresh = ∅ from rfl)

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)
abbrev r3 : DevRef τ sig := Proc.devRef .tc (main_v3 : Ref sig .tc)
abbrev r5 : DevRef τ sig := Proc.devRef .tc (main_v5 : Ref sig .tc)
abbrev r8 : DevRef τ sig := Proc.devRef .tc (main_v8 : Ref sig .tc)

/-- The four arguments. -/
abbrev SA : Finset (DevRef τ sig) := {a0, a1, a2, a3}
/-- The SparseCore call's operands and result. -/
abbrev S3 : Finset (DevRef τ sig) := {r5, r3, r8}

theorem SA_sub : (SA : Finset (DevRef τ sig)) ⊆ Pipeline.ucRefs τ sig := by decide
theorem S3_sub : (S3 : Finset (DevRef τ sig)) ⊆ Pipeline.ucRefs τ sig := by decide
theorem r8_mem : (r8 : DevRef τ sig) ∈ (S3 : Finset (DevRef τ sig)) := by decide

/-- No host operation writes an argument. -/
theorem afterA_arg (W : Valuation τ sig (Elt F)) : ∀ b ∈ (SA : Finset (DevRef τ sig)), after opsA W b = W b := by
  intro b hb
  simp only [Finset.mem_insert, Finset.mem_singleton] at hb
  simp only [after_cons, after_nil]
  rcases hb with rfl | rfl | rfl | rfl <;> rfl
theorem afterB_arg (W : Valuation τ sig (Elt F)) : ∀ b ∈ (SA : Finset (DevRef τ sig)), after opsB W b = W b := by
  intro b hb
  simp only [Finset.mem_insert, Finset.mem_singleton] at hb
  simp only [after_cons, after_nil]
  rcases hb with rfl | rfl | rfl | rfl <;> rfl
theorem afterC_arg (W : Valuation τ sig (Elt F)) : ∀ b ∈ (SA : Finset (DevRef τ sig)), after opsC W b = W b := by
  intro b hb
  simp only [Finset.mem_insert, Finset.mem_singleton] at hb
  simp only [after_cons, after_nil]
  rcases hb with rfl | rfl | rfl | rfl <;> rfl

/-- The rest of a held set does not see an update inside the part taken out. -/
theorem held_rest_update (d : Dev nD) (W : Valuation τ sig (Elt F)) (T' : Finset (DevRef τ sig)) (y : DevRef τ sig) (hy : y ∈ T')
    (f : y.ty.Contents (Elt F)) :
    (held (SparseCore.T d) (Pipeline.ucRefs τ sig \ T') (Function.update W y f) : sProp 𝕄) = held (SparseCore.T d) (Pipeline.ucRefs τ sig \ T') W :=
  held_congr (SparseCore.T d) fun b hb => Function.update_of_ne (fun e => (Finset.mem_sdiff.mp hb).2 (by rw [e]; exact hy)) _ _

/-! ## @main on the TensorCore -/

section Main

variable (m : (ℓ : Loc nD τ sig) → Buf (Elt F) ℓ) (ρ : Dev nD → PrngReg)

/-- The launch contents. -/
def V0 (d : Dev nD) : Valuation τ sig (Elt F) := fun b => m (d, b)

theorem tcRes_held (d : Dev nD) :
    (unscopedBufs d (fun b => m ((SparseCore.T d).loc b)) : sProp 𝕄) = held (SparseCore.T d) (Pipeline.ucRefs τ sig) (V0 m d) :=
  Pipeline.unscopedBufs_held d (V0 m d)

theorem Otc_one_none (d : Dev nD) : ∀ g, (K (F := F)).Otc d 1 g none = 0 := by
  intro g; rw [(K (F := F)).Otc_end d (le_refl 1)]; rfl

variable (P : (K (F := F)).Pay (nD := nD) (Val := Elt F) (Name := ℕ) (U := UU))

/-- What the SparseCore call's payloads must do for @main: the operands and the result buffer split into the
    per-SparseCore payloads, and the payloads coming back join into the operands unchanged and the result at contents
    of which `C8` holds (nothing, for a frame; the tiles' sums, for the values). -/
def CallSplit (C8 : Valuation τ sig (Elt F) → (r8 : DevRef τ sig).ty.Contents (Elt F) → Prop) : Prop := ∀ (d : Dev nD),
  (held (SparseCore.T d) S3 (after opsA (V0 m d)) : sProp 𝕄) ⊢ |={Set.univ}=> iprop((bigSep Finset.univ fun c : Fin ((K (F := F)).nCore 0) => P.st 0 d c)
    ∗ ((bigSep Finset.univ fun c : Fin ((K (F := F)).nCore 0) => P.dn 0 d c)
      -∗ |={Set.univ}=> ∃ f, ⌜C8 (after opsA (V0 m d)) f⌝ ∗ held (SparseCore.T d) S3 (Function.update (after opsA (V0 m d)) r8 f)))

end Main

end Cert.Kernel.Pf

end
-- ==== Proof.BBody2.lean ====
/-
  The second TensorCore kernel's body, run once at symbolic staging buffers: it loads the chunk, the matrix and the
  bias row, and stores into the output buffer; every buffer it was handed comes back, the inputs as they were, the
  output at some contents.
-/
import proofs.«203732_g20581483283120_cont_8to1_285_17_alg».proof.Proof.BCommon

noncomputable section

namespace Cert.Kernel.Pf

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf2 (c : Dev nD) {sp : Space} {S : Shape} {e : EltTy} (M : Memref sig .tc sp S e) : Type := Buf (Elt F) (M.view.loc (c : Thread nD τ))
abbrev pt2 (c : Dev nD) {sp : Space} {S : Shape} {e : EltTy} (M : Memref sig .tc sp S e) (f : Bf2 (F := F) c M) : sProp 𝕄 :=
  M.view.loc (c : Thread nD τ) ↦{fullShare} f

theorem kernelRun2 (c : Dev nD) (i : grid2.Coords)
    (M2 : Memref sig .tc .hbm S12x16384x128 .f32) (h2 : M2.IsWhole) (M3 : Memref sig .tc .vmem S1x7168x128 .f32) (h3 : M3.IsWhole)
    (M4 : Memref sig .tc .vmem S128x128 .f32) (h4 : M4.IsWhole) (M5 : Memref sig .tc .vmem S1x128 .f32) (h5 : M5.IsWhole)
    (M6 : Memref sig .tc .vmem S1x7168x128 .f32) (h6 : M6.IsWhole)
    (f3 : Bf2 (F := F) c M3) (f4 : Bf2 (F := F) c M4) (f5 : Bf2 (F := F) c M5) (f6 : Bf2 (F := F) c M6)
    (E : Set ℕ) (Q : PUnit → sProp 𝕄) :
    iprop(pt2 c M3 f3 ∗ pt2 c M4 f4 ∗ pt2 c M5 f5 ∗ pt2 c M6 f6
        ∗ (iprop(pt2 c M3 f3 ∗ pt2 c M4 f4 ∗ pt2 c M5 f5 ∗ (∃ f, pt2 c M6 f)) -∗ Q ⟨⟩))
      ⊢ wp frame (wpE (defs₀ (F := F)) 𝒱₀ c none) E (cc2__mm_chunk_body i M2 h2 M3 h3 M4 h4 M5 h5 M6 h6) Q := by
  iintro ⟨H3, H4, H5, H6, Hk⟩
  sl_exec
  sl_step
  iapply Hk
  isplitl [H3]; · iexact H3
  isplitl [H4]; · iexact H4
  isplitl [H5]; · iexact H5
  iexists _; iexact H6

end Cert.Kernel.Pf

end
-- ==== Proof.BBody1.lean ====
/-
  The first TensorCore kernel's body, run once at symbolic staging buffers and a symbolic grid point: twelve times six
  slices of the feature block scaled by a weight and summed, multiplied by the matrix, the bias row added, clamped below
  at zero, stored into a slice of the output buffer. Every buffer it was handed comes back, the inputs as they were, the
  output at some contents.
-/
import proofs.«203732_g20581483283120_cont_8to1_285_17_alg».proof.Proof.BCommon

noncomputable section

namespace Cert.Kernel.Pf

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole staging memref owned at some contents is its buffer's points-to at some contents, -/
theorem owns_pt (c : Dev nD) {sp : Space} {S : Shape} {e : EltTy} (M : Memref sig .tc sp S e) (h : M.IsWhole) (X : S.Idx → Elt F e) :
    (owns (c : Thread nD τ) M fullShare X : sProp 𝕄) ⊢ iprop(∃ f, pt c M f) := by
  unfold owns; rw [h.set_eq_univ]
  iintro ⟨%f, -, H⟩; iexists f; iexact H

/-- and back, nothing said of the contents. -/
theorem pt_owns (c : Dev nD) {sp : Space} {S : Shape} {e : EltTy} (M : Memref sig .tc sp S e) (h : M.IsWhole) :
    (iprop(∃ f, pt c M f) : sProp 𝕄) ⊢ iprop(∃ X, ⌜True⌝ ∗ owns (c : Thread nD τ) M fullShare X) := by
  iintro ⟨%f, H⟩; iexists (M.view.read (Elt F) f); isplitr; · ipureintro; trivial
  unfold owns; rw [h.set_eq_univ]
  iexists f; isplitr; · ipureintro; rfl
  iexact H

set_option maxHeartbeats 4000000 in
theorem kernelRun1 (c : Dev nD) (i : grid1.Coords)
    (M1 : Memref sig .tc .vmem S36x1024x128 .f32) (h1 : M1.IsWhole) (M2 : Memref sig .tc .vmem S1x36 .f32) (h2 : M2.IsWhole)
    (M3 : Memref sig .tc .vmem S128x128 .f32) (h3 : M3.IsWhole) (M4 : Memref sig .tc .vmem S1x128 .f32) (h4 : M4.IsWhole)
    (M5 : Memref sig .tc .vmem S12x1024x128 .f32) (h5 : M5.IsWhole)
    (f1 : Bf (F := F) c M1) (f2 : Bf (F := F) c M2) (f3 : Bf (F := F) c M3) (f4 : Bf (F := F) c M4) (f5 : Bf (F := F) c M5)
    (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3 ∗ pt c M4 f4 ∗ (∃ f, pt c M5 f)) -∗ Q ⟨⟩))
      ⊢ wp frame (wpE (defs₀ (F := F)) 𝒱₀ c none) E (cc1__tc_fused_body i M1 h1 M2 h2 M3 h3 M4 h4 M5 h5) Q := by
  iintro ⟨H1, H2, H3, H4, H5, Hk⟩
  sl_exec_parts
  sl_step
  iapply Hk
  isplitl [H1]; · iexact H1
  isplitl [H2]; · iexact H2
  isplitl [H3]; · iexact H3
  isplitl [H4]; · iexact H4
  iexists _; iexact H5

end Cert.Kernel.Pf

end
-- ==== Proof.BRegion1.lean ====
/-
  The first TensorCore pipeline of the program (nine grid points; five windows: the transposed features, the
  softplus weights as a row, the transposed matrix, the bias row, and the result's rows from 7168 on) run as a
  region of the TensorCore's program, at the level of the frame: every array the region only reads ends as it
  began, the result's array ends at some contents, what the TensorCore owes is unchanged and the pairs its waits
  recorded grow only by pairs at the index of the pipeline's own cells.
-/
import proofs.«203732_g20581483283120_cont_8to1_285_17_alg».proof.Proof.BCommon
import proofs.«203732_g20581483283120_cont_8to1_285_17_alg».proof.Proof.BBody1
import Idealize.ShloMosaic.Lib.Pipeline.FrameSuffix

noncomputable section

namespace Cert.Kernel.Pf

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Pipeline 0's relational proof data at the entry contents `V`, the TensorCore owing `O` throughout with its
    recorded pairs within `W` and the pipeline's own: nothing is said of what the body leaves in a staging buffer; the
    invariant is the scoped buffers no window stages. -/
def rdat1 (V : Valuation τ sig (Elt F)) (O : CellTallies nD τ sig (HIx 1)) (W : Waits sig (HIx 1)) (c : Dev nD) :
    Pipeline.RDat τ (Elt F) (HIx 1) ℕ UU ℕ cfg1 c where
  A w := V (Proc.devRef .tc (Pipeline.arrRef spec1 w))
  after _ _ _ _ := True
  Φ _ := Pipeline.scopedRest spec1 c
  q _ := fullShare
  owed _ := O
  recorded _ := (↑W : Set (SemLoc sig × HIx 1))

/-- Pipeline 1's, the same way. -/
def rdat2 (V : Valuation τ sig (Elt F)) (O : CellTallies nD τ sig (HIx 1)) (W : Waits sig (HIx 1)) (c : Dev nD) :
    Pipeline.RDat τ (Elt F) (HIx 1) ℕ UU ℕ cfg2 c where
  A w := V (Proc.devRef .tc (Pipeline.arrRef spec2 w))
  after _ _ _ _ := True
  Φ _ := Pipeline.scopedRest spec2 c
  q _ := fullShare
  owed _ := O
  recorded _ := (↑W : Set (SemLoc sig × HIx 1))

/-- Both pipelines' proof data, each at its own entry contents. -/
def rdats (V₁ V₂ : Valuation τ sig (Elt F)) (O : CellTallies nD τ sig (HIx 1)) (W : Waits sig (HIx 1)) :
    (p : Fin 2) → (c : Dev nD) → Pipeline.RDat τ (Elt F) (HIx 1) ℕ UU ℕ (Pipeline.pin (pcfgs (F := F)) adm p) c
  | ⟨0, _⟩ => fun c => rdat1 V₁ O W c
  | ⟨1, _⟩ => fun c => rdat2 V₂ O W c

/-- The thread state a region is entered from: the TensorCore's unscoped buffers at `V`, and what it owes, its waits
    having recorded the pairs `W`. -/
abbrev tcPre (V : Valuation τ sig (Elt F)) (O : CellTallies nD τ sig (HIx 1)) (W : Waits sig (HIx 1)) (c : Dev nD) : sProp 𝕄 :=
  iprop(StableHlo.held (c.tc : Thread nD τ) (Pipeline.ucRefs τ sig) V ∗ owes (c.tc : Thread nD τ) O W)

/-- The thread state a region leaves: the unscoped buffers at a valuation that differs from `V` at most at the
    buffer `out`; what the TensorCore owes, unchanged, its recorded pairs those of entry and pairs at index `none`. -/
abbrev tcPost (out : Ref sig .tc) (V : Valuation τ sig (Elt F)) (O : CellTallies nD τ sig (HIx 1)) (W : Waits sig (HIx 1)) (c : Dev nD) : sProp 𝕄 :=
  iprop((∃ V' : Valuation τ sig (Elt F), ⌜∀ b : Ref sig .tc, b ≠ out → V' (Proc.devRef .tc b) = V (Proc.devRef .tc b)⌝
      ∗ StableHlo.held (c.tc : Thread nD τ) (Pipeline.ucRefs τ sig) V')
    ∗ ∃ W' : Waits sig (HIx 1), ⌜∀ q ∈ W', q ∈ W ∨ q.2 = none⌝ ∗ owes (c.tc : Thread nD τ) O W')

/-- EXIT, generically: a pipeline's arrays after its write-backs and the unscoped rest at `V` are the unscoped buffers
    at a valuation that agrees with `V` off the output windows' arrays (an input's array is never written). -/
theorem exit_held {cfg : Pipeline.Cfg sig Λ₀} (c : Dev nD) (rd : Pipeline.RDat τ (Elt F) (HIx 1) ℕ UU ℕ cfg c)
    (hw : Pipeline.WinFacts cfg.spec) (harr : ∀ w, (cfg.spec w).arr.IsWhole) (hshare : ∀ w, rd.share w = fullShare)
    (V : Valuation τ sig (Elt F)) (hA : ∀ w, rd.A w = V (Proc.devRef .tc (Pipeline.arrRef cfg.spec w))) (n : ℕ) :
    iprop(rd.arraysAt n ∗ Pipeline.unscopedRest (Ix := HIx 1) (Name := ℕ) (U := UU) (Lvl := ℕ) cfg.spec c (fun b => V b))
      ⊢ (iprop(∃ V' : Valuation τ sig (Elt F),
          ⌜∀ b : Ref sig .tc, (∀ w, (cfg.win w).isOut = true → Pipeline.arrRef cfg.spec w ≠ b) → V' (Proc.devRef .tc b) = V (Proc.devRef .tc b)⌝
          ∗ StableHlo.held (c.tc : Thread nD τ) (Pipeline.ucRefs τ sig) V') : sProp 𝕄) := by
  classical
  unfold Pipeline.RDat.arraysAt
  iintro ⟨Ha, Hrest⟩
  ihave Ha' := (BI.bigSep_exists_pi Finset.univ (fun w F' => iprop(⌜rd.ArrAt w n F'⌝
      ∗ (cfg.win w).arr.view.loc (c.tc : Thread nD τ) ↦[(cfg.win w).arr.view.set]{rd.share w} F'))) $$ Ha
  icases Ha' with ⟨%A', Ha⟩
  ihave Ha2 := (BI.bigSep_pure_sep Finset.univ (fun w => rd.ArrAt w n (A' w))
      (fun w => (cfg.win w).arr.view.loc (c.tc : Thread nD τ) ↦[(cfg.win w).arr.view.set]{rd.share w} A' w)) $$ Ha
  icases Ha2 with ⟨%hA', Ha⟩
  iexists (Pipeline.withArrays cfg.spec c V A')
  isplitr
  · ipureintro
    intro b hb
    by_cases h : ∃ w, Pipeline.arrRef cfg.spec w = b
    · obtain ⟨w, rfl⟩ := h
      rw [Pipeline.withArrays_arr cfg.spec hw.arr_inj c V A' w]
      have hin : (cfg.win w).isOut = false := by
        cases hio : (cfg.win w).isOut with
        | false => rfl
        | true => exact absurd rfl (hb w hio)
      have h1 := hA' w (Finset.mem_univ w)
      rw [rd.ArrAt_in w hin] at h1
      exact h1.trans (hA w)
    · exact Pipeline.withArrays_of_ne cfg.spec c V A' b fun w e => h ⟨w, e⟩
  · rw [← Pipeline.unscopedBufs_held, Pipeline.unscopedBufs_split (fun _ : Unit => cfg) () hw.arr_unscoped hw.arr_inj c]
    isplitl [Ha]
    · iapply (Entails.of_eq (bigSep_congr (fun w _ => by
          rw [(harr w).set_eq_univ, hshare w, Pipeline.withArrays_arr cfg.spec hw.arr_inj c V A' w]) :
        (bigSep Finset.univ fun w => ((cfg.win w).arr.view.loc (c.tc : Thread nD τ) ↦[(cfg.win w).arr.view.set]{rd.share w} A' w : sProp 𝕄))
          = bigSep Finset.univ fun w => (((c.tc : Thread nD τ).loc (Pipeline.arrRef cfg.spec w))
              ↦{fullShare} Pipeline.withArrays cfg.spec c V A' (Proc.devRef .tc (Pipeline.arrRef cfg.spec w)) : sProp 𝕄)))
      iexact Ha
    · unfold Pipeline.unscopedRest
      iapply (Entails.of_eq (bigSep_congr (fun b hb => by
          show (((c.tc : Thread nD τ).loc b) ↦{fullShare} V (Proc.devRef .tc b) : sProp 𝕄)
            = (((c.tc : Thread nD τ).loc b) ↦{fullShare} Pipeline.withArrays cfg.spec c V A' (Proc.devRef .tc b) : sProp 𝕄)
          rw [Pipeline.withArrays_of_ne cfg.spec c V A' b fun w e => (Finset.mem_sdiff.mp hb).2 (Finset.mem_image.mpr ⟨w, Finset.mem_univ _, e⟩)]) :
        (bigSep ((Finset.univ.filter fun b : Ref sig .tc => ¬ b.isScoped) \ Finset.univ.image (Pipeline.arrRef cfg.spec))
            fun b => (((c.tc : Thread nD τ).loc b) ↦{fullShare} V (Proc.devRef .tc b) : sProp 𝕄))
          = bigSep ((Finset.univ.filter fun b : Ref sig .tc => ¬ b.isScoped) \ Finset.univ.image (Pipeline.arrRef cfg.spec))
            fun b => (((c.tc : Thread nD τ).loc b) ↦{fullShare} Pipeline.withArrays cfg.spec c V A' (Proc.devRef .tc b) : sProp 𝕄)))
      iexact Hrest

/-- The body obligation's two sides at a point, the windows listed. -/
theorem sound_body1 (V : Valuation τ sig (Elt F)) (O : CellTallies nD τ sig (HIx 1)) (W : Waits sig (HIx 1)) (c : Dev nD) (t : Fin cfg1.N)
    (Y : (w : Fin cfg1.W) → (cfg1.win w).block.Idx → Elt F (cfg1.win w).elt) :
    iprop((rdat1 V O W c).Φ t.castSucc ∗ (rdat1 V O W c).owesAt none t.castSucc
        ∗ owns (c : Thread nD τ) ((cfg1.win 0).stage (cfg1.slots t 0)) fullShare (Y 0)
        ∗ owns (c : Thread nD τ) ((cfg1.win 1).stage (cfg1.slots t 1)) fullShare (Y 1)
        ∗ owns (c : Thread nD τ) ((cfg1.win 2).stage (cfg1.slots t 2)) fullShare (Y 2)
        ∗ owns (c : Thread nD τ) ((cfg1.win 3).stage (cfg1.slots t 3)) fullShare (Y 3)
        ∗ owns (c : Thread nD τ) ((cfg1.win 4).stage (cfg1.slots t 4)) fullShare (Y 4))
      ⊢ wp frame (wpE (defs₀ (F := F)) 𝒱₀ c none) Set.univ (bodyAt1 t) (fun _ =>
          iprop((rdat1 V O W c).Φ t.succ ∗ (rdat1 V O W c).owesAt none t.succ
            ∗ (∃ X, ⌜(rdat1 V O W c).after 0 t (Y 0) X⌝ ∗ owns (c : Thread nD τ) ((cfg1.win 0).stage (cfg1.slots t 0)) fullShare X)
            ∗ (∃ X, ⌜(rdat1 V O W c).after 1 t (Y 1) X⌝ ∗ owns (c : Thread nD τ) ((cfg1.win 1).stage (cfg1.slots t 1)) fullShare X)
            ∗ (∃ X, ⌜(rdat1 V O W c).after 2 t (Y 2) X⌝ ∗ owns (c : Thread nD τ) ((cfg1.win 2).stage (cfg1.slots t 2)) fullShare X)
            ∗ (∃ X, ⌜(rdat1 V O W c).after 3 t (Y 3) X⌝ ∗ owns (c : Thread nD τ) ((cfg1.win 3).stage (cfg1.slots t 3)) fullShare X)
            ∗ (∃ X, ⌜(rdat1 V O W c).after 4 t (Y 4) X⌝ ∗ owns (c : Thread nD τ) ((cfg1.win 4).stage (cfg1.slots t 4)) fullShare X))) := by
  rw [show (rdat1 V O W c).Φ t.succ = (rdat1 V O W c).Φ t.castSucc from rfl,
    show (rdat1 V O W c).owesAt none t.succ = (rdat1 V O W c).owesAt none t.castSucc from rfl]
  iintro ⟨HΦ, HO, H0, H1, H2, H3, H4⟩
  ihave H0 := (owns_pt c (win1_0.stage (cfg1.slots t 0)) (hstage1_0 ((cfg1.slots t 0).cast nbuf1_0)) (Y 0)) $$ H0
  ihave H1 := (owns_pt c (win1_1.stage (cfg1.slots t 1)) (hstage1_1 ((cfg1.slots t 1).cast nbuf1_1)) (Y 1)) $$ H1
  ihave H2 := (owns_pt c (win1_2.stage (cfg1.slots t 2)) (hstage1_2 ((cfg1.slots t 2).cast nbuf1_2)) (Y 2)) $$ H2
  ihave H3 := (owns_pt c (win1_3.stage (cfg1.slots t 3)) (hstage1_3 ((cfg1.slots t 3).cast nbuf1_3)) (Y 3)) $$ H3
  ihave H4 := (owns_pt c (win1_4.stage (cfg1.slots t 4)) (hstage1_4 ((cfg1.slots t 4).cast nbuf1_4)) (Y 4)) $$ H4
  icases H0 with ⟨%f0, H0⟩
  icases H1 with ⟨%f1, H1⟩
  icases H2 with ⟨%f2, H2⟩
  icases H3 with ⟨%f3, H3⟩
  icases H4 with ⟨%f4, H4⟩
  iapply (kernelRun1 c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    f0 f1 f2 f3 f4 Set.univ)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iapply (pt_owns c (win1_0.stage (cfg1.slots t 0)) (hstage1_0 ((cfg1.slots t 0).cast nbuf1_0))); iexists f0; iexact H0
  isplitl [H1]; · iapply (pt_owns c (win1_1.stage (cfg1.slots t 1)) (hstage1_1 ((cfg1.slots t 1).cast nbuf1_1))); iexists f1; iexact H1
  isplitl [H2]; · iapply (pt_owns c (win1_2.stage (cfg1.slots t 2)) (hstage1_2 ((cfg1.slots t 2).cast nbuf1_2))); iexists f2; iexact H2
  isplitl [H3]; · iapply (pt_owns c (win1_3.stage (cfg1.slots t 3)) (hstage1_3 ((cfg1.slots t 3).cast nbuf1_3))); iexists f3; iexact H3
  iapply (pt_owns c (win1_4.stage (cfg1.slots t 4)) (hstage1_4 ((cfg1.slots t 4).cast nbuf1_4))); iexact H4

set_option maxRecDepth 8192 in
/-- The library's body obligation of pipeline 0's data: the windows opened, the run applied. -/
theorem body_obligation1 (V : Valuation τ sig (Elt F)) (O : CellTallies nD τ sig (HIx 1)) (W : Waits sig (HIx 1)) (c : Dev nD) :
    (rdat1 V O W c).BodyObligation (defs₀ (F := F)) 𝒱₀ none Set.univ := fun t Y _ => by
  rw [bigSep_W1, bigSep_W1]
  exact sound_body1 V O W c t Y

set_option backward.isDefEq.respectTransparency.types false in
/-- Pipeline 0's region: the launch's layout, no semaphore of the kernel's own, the body obligation, the wait evidence
    (the TensorCore owes nothing at the index of the pipeline's cells), and the four entailments around the thread states. -/
def seg1 (V₁ V₂ : Valuation τ sig (Elt F)) (O : CellTallies nD τ sig (HIx 1)) (hO : ∀ g, O g none = 0) (W : Waits sig (HIx 1)) :
    Pipeline.RDat.RegionSeg (pcfgs (F := F)) adm (rdats V₁ V₂ O W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation1 V₁ O W c
  hwaits c := Pipeline.RDat.cellsWaits_intro (Pipeline.pin (pcfgs (F := F)) adm) (rdats V₁ V₂ O W) none 0 c
    fun w s t => (K (F := F)).mayWait_none (thr := (c.tc : Thread nD τ)) _ hO
  pre c := tcPre V₁ O W c
  post c := tcPost main_v9 V₁ O W c
  X _ := iprop(emp)
  Y _ := iprop(emp)
  Z c := Pipeline.unscopedRest (Ix := HIx 1) (Name := ℕ) (U := UU) (Lvl := ℕ) spec1 c (fun b => V₁ b)
  hentry c := by
    have hsplit := Pipeline.RDat.arrays_of_unscopedBufs (p := 0) (pcfgs (F := F)) adm (rdats V₁ V₂ O W) launch1.win launch1.arr_whole c
      ((rdats V₁ V₂ O W 0 c).share_full fun _ => rfl) (fun b => V₁ b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr; · iempintro
    iexact Hrest
  hin c := by
    rw [show (rdats V₁ V₂ O W 0 c).Φ 0 = Pipeline.scopedRest spec1 c from rfl]
    iintro ⟨-, -, Hr⟩; iexact Hr
  hout c := by
    rw [Pipeline.ownSems0_none, show (rdats V₁ V₂ O W 0 c).Φ (Fin.last _) = Pipeline.scopedRest spec1 c from rfl]
    iintro Hr
    isplitr; · iempintro
    isplitr; · iempintro
    iexact Hr
  hexit c := by
    have hjoin := exit_held c (rdat1 V₁ O W c) launch1.win launch1.arr_whole ((rdat1 V₁ O W c).share_full fun _ => rfl) V₁ (fun _ => rfl) cfg1.N
    rw [show (rdats V₁ V₂ O W 0 c).arraysAt (Pipeline.pin (pcfgs (F := F)) adm 0).N = (rdat1 V₁ O W c).arraysAt cfg1.N from rfl,
      show (rdats V₁ V₂ O W 0 c).owesAt none (Fin.last (Pipeline.pin (pcfgs (F := F)) adm 0).N) = (rdat1 V₁ O W c).owesAt none (Fin.last cfg1.N) from rfl]
    iintro ⟨Ha, HO, -, Hrest⟩
    imodintro
    isplitl [Ha Hrest]
    · ihave H := hjoin $$ [Ha Hrest]
      · isplitl [Ha]; · iexact Ha
        iexact Hrest
      icases H with ⟨%V', %hV', H⟩
      iexists V'; isplitr; swap; (· iexact H)
      ipureintro
      intro b hb
      refine hV' b fun w hw => ?_
      have hw4 : w = 4 := by
        revert hw; revert w; decide
      subst hw4
      exact fun e => hb e.symm
    · icases HO with ⟨%W', %hW', HO⟩
      iexists W'; isplitr; swap; (· iexact HO)
      ipureintro
      intro q hq
      rcases hW' hq with h | ⟨w, s, rfl⟩
      · exact Or.inl h
      · exact Or.inr rfl

set_option backward.isDefEq.respectTransparency.types false in
/-- REGION 0. From the boundary, the thread state at `V₁`, the level facts and pipeline 0's launch ghost state, the
    region's call runs to the boundary and the thread state it leaves, for the continuation. -/
theorem region_0 (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (ΛP (F := F)) .tc) α) (Q : α → sProp 𝕄) :
    iprop((iprop(boundary (d.tc : Thread nD τ) ∗ tcPost main_v9 V₁ O W d) -∗ wp frame (wpE (D (F := F)) 𝒱 (d.tc : Thread nD τ) none) Set.univ (k ⟨⟩) Q)
        ∗ boundary (d.tc : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q :=
  Pipeline.RDat.RegionSeg.wp (pcfgs (F := F)) adm (rdats V₁ V₂ O W) none cellOf_inj EP defs₀ 𝒱₀ _ _ (seg1 V₁ V₂ O hO W) d none (fun _ h => nomatch h) k Q

end Cert.Kernel.Pf

end
-- ==== Proof.BRegion2.lean ====
/-
  The second TensorCore pipeline of the program (grid 12 × 1; four windows: the aggregated chunk, the transposed
  matrix, the bias row, and the result's rows below 7168, which overwrite part of the array the first pipeline
  filled) run as a region of the TensorCore's program, at the level of the frame: every array the region only reads
  ends as it began, the result's array ends at some contents, what the TensorCore owes is unchanged.
-/
import proofs.«203732_g20581483283120_cont_8to1_285_17_alg».proof.Proof.BCommon
import proofs.«203732_g20581483283120_cont_8to1_285_17_alg».proof.Proof.BBody2
import proofs.«203732_g20581483283120_cont_8to1_285_17_alg».proof.Proof.BRegion1

noncomputable section

namespace Cert.Kernel.Pf

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The body obligation's two sides at a point, the windows listed. -/
theorem sound_body2 (V : Valuation τ sig (Elt F)) (O : CellTallies nD τ sig (HIx 1)) (W : Waits sig (HIx 1)) (c : Dev nD) (t : Fin cfg2.N)
    (Y : (w : Fin cfg2.W) → (cfg2.win w).block.Idx → Elt F (cfg2.win w).elt) :
    iprop((rdat2 V O W c).Φ t.castSucc ∗ (rdat2 V O W c).owesAt none t.castSucc
        ∗ owns (c : Thread nD τ) ((cfg2.win 0).stage (cfg2.slots t 0)) fullShare (Y 0)
        ∗ owns (c : Thread nD τ) ((cfg2.win 1).stage (cfg2.slots t 1)) fullShare (Y 1)
        ∗ owns (c : Thread nD τ) ((cfg2.win 2).stage (cfg2.slots t 2)) fullShare (Y 2)
        ∗ owns (c : Thread nD τ) ((cfg2.win 3).stage (cfg2.slots t 3)) fullShare (Y 3))
      ⊢ wp frame (wpE (defs₀ (F := F)) 𝒱₀ c none) Set.univ (bodyAt2 t) (fun _ =>
          iprop((rdat2 V O W c).Φ t.succ ∗ (rdat2 V O W c).owesAt none t.succ
            ∗ (∃ X, ⌜(rdat2 V O W c).after 0 t (Y 0) X⌝ ∗ owns (c : Thread nD τ) ((cfg2.win 0).stage (cfg2.slots t 0)) fullShare X)
            ∗ (∃ X, ⌜(rdat2 V O W c).after 1 t (Y 1) X⌝ ∗ owns (c : Thread nD τ) ((cfg2.win 1).stage (cfg2.slots t 1)) fullShare X)
            ∗ (∃ X, ⌜(rdat2 V O W c).after 2 t (Y 2) X⌝ ∗ owns (c : Thread nD τ) ((cfg2.win 2).stage (cfg2.slots t 2)) fullShare X)
            ∗ (∃ X, ⌜(rdat2 V O W c).after 3 t (Y 3) X⌝ ∗ owns (c : Thread nD τ) ((cfg2.win 3).stage (cfg2.slots t 3)) fullShare X))) := by
  rw [show (rdat2 V O W c).Φ t.succ = (rdat2 V O W c).Φ t.castSucc from rfl,
    show (rdat2 V O W c).owesAt none t.succ = (rdat2 V O W c).owesAt none t.castSucc from rfl]
  iintro ⟨HΦ, HO, H0, H1, H2, H3⟩
  ihave H0 := (owns_pt c (win2_0.stage (cfg2.slots t 0)) (hstage2_0 ((cfg2.slots t 0).cast nbuf2_0)) (Y 0)) $$ H0
  ihave H1 := (owns_pt c (win2_1.stage (cfg2.slots t 1)) (hstage2_1 ((cfg2.slots t 1).cast nbuf2_1)) (Y 1)) $$ H1
  ihave H2 := (owns_pt c (win2_2.stage (cfg2.slots t 2)) (hstage2_2 ((cfg2.slots t 2).cast nbuf2_2)) (Y 2)) $$ H2
  ihave H3 := (owns_pt c (win2_3.stage (cfg2.slots t 3)) (hstage2_3 ((cfg2.slots t 3).cast nbuf2_3)) (Y 3)) $$ H3
  icases H0 with ⟨%f0, H0⟩
  icases H1 with ⟨%f1, H1⟩
  icases H2 with ⟨%f2, H2⟩
  icases H3 with ⟨%f3, H3⟩
  iapply (kernelRun2 c (grid2.coords t) (Memref.whole main_v9) (Memref.isWhole_whole _)
    (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3))
    f0 f1 f2 f3 Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iapply (pt_owns c (win2_0.stage (cfg2.slots t 0)) (hstage2_0 ((cfg2.slots t 0).cast nbuf2_0))); iexists f0; iexact H0
  isplitl [H1]; · iapply (pt_owns c (win2_1.stage (cfg2.slots t 1)) (hstage2_1 ((cfg2.slots t 1).cast nbuf2_1))); iexists f1; iexact H1
  isplitl [H2]; · iapply (pt_owns c (win2_2.stage (cfg2.slots t 2)) (hstage2_2 ((cfg2.slots t 2).cast nbuf2_2))); iexists f2; iexact H2
  iapply (pt_owns c (win2_3.stage (cfg2.slots t 3)) (hstage2_3 ((cfg2.slots t 3).cast nbuf2_3))); iexact H3

set_option maxRecDepth 8192 in
/-- The library's body obligation of pipeline 1's data: the windows opened, the run applied. -/
theorem body_obligation2 (V : Valuation τ sig (Elt F)) (O : CellTallies nD τ sig (HIx 1)) (W : Waits sig (HIx 1)) (c : Dev nD) :
    (rdat2 V O W c).BodyObligation (defs₀ (F := F)) 𝒱₀ none Set.univ := fun t Y _ => by
  rw [bigSep_W2, bigSep_W2]
  exact sound_body2 V O W c t Y

set_option backward.isDefEq.respectTransparency.types false in
/-- Pipeline 1's region: the launch's layout, no semaphore of the kernel's own, the body obligation, the wait evidence
    (the TensorCore owes nothing at the index of the pipeline's cells), and the four entailments around the thread states. -/
def seg2 (V₁ V₂ : Valuation τ sig (Elt F)) (O : CellTallies nD τ sig (HIx 1)) (hO : ∀ g, O g none = 0) (W : Waits sig (HIx 1)) :
    Pipeline.RDat.RegionSeg (pcfgs (F := F)) adm (rdats V₁ V₂ O W) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligation2 V₂ O W c
  hwaits c := Pipeline.RDat.cellsWaits_intro (Pipeline.pin (pcfgs (F := F)) adm) (rdats V₁ V₂ O W) none 1 c
    fun w s t => (K (F := F)).mayWait_none (thr := (c.tc : Thread nD τ)) _ hO
  pre c := tcPre V₂ O W c
  post c := tcPost main_v10 V₂ O W c
  X _ := iprop(emp)
  Y _ := iprop(emp)
  Z c := Pipeline.unscopedRest (Ix := HIx 1) (Name := ℕ) (U := UU) (Lvl := ℕ) spec2 c (fun b => V₂ b)
  hentry c := by
    have hsplit := Pipeline.RDat.arrays_of_unscopedBufs (p := 1) (pcfgs (F := F)) adm (rdats V₁ V₂ O W) launch2.win launch2.arr_whole c
      ((rdats V₁ V₂ O W 1 c).share_full fun _ => rfl) (fun b => V₂ b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr; · iempintro
    iexact Hrest
  hin c := by
    rw [show (rdats V₁ V₂ O W 1 c).Φ 0 = Pipeline.scopedRest spec2 c from rfl]
    iintro ⟨-, -, Hr⟩; iexact Hr
  hout c := by
    rw [Pipeline.ownSems0_none, show (rdats V₁ V₂ O W 1 c).Φ (Fin.last _) = Pipeline.scopedRest spec2 c from rfl]
    iintro Hr
    isplitr; · iempintro
    isplitr; · iempintro
    iexact Hr
  hexit c := by
    have hjoin := exit_held c (rdat2 V₂ O W c) launch2.win launch2.arr_whole ((rdat2 V₂ O W c).share_full fun _ => rfl) V₂ (fun _ => rfl) cfg2.N
    rw [show (rdats V₁ V₂ O W 1 c).arraysAt (Pipeline.pin (pcfgs (F := F)) adm 1).N = (rdat2 V₂ O W c).arraysAt cfg2.N from rfl,
      show (rdats V₁ V₂ O W 1 c).owesAt none (Fin.last (Pipeline.pin (pcfgs (F := F)) adm 1).N) = (rdat2 V₂ O W c).owesAt none (Fin.last cfg2.N) from rfl]
    iintro ⟨Ha, HO, -, Hrest⟩
    imodintro
    isplitl [Ha Hrest]
    · ihave H := hjoin $$ [Ha Hrest]
      · isplitl [Ha]; · iexact Ha
        iexact Hrest
      icases H with ⟨%V', %hV', H⟩
      iexists V'; isplitr; swap; (· iexact H)
      ipureintro
      intro b hb
      refine hV' b fun w hw => ?_
      have hw3 : w = 3 := by
        revert hw; revert w; decide
      subst hw3
      exact fun e => hb e.symm
    · icases HO with ⟨%W', %hW', HO⟩
      iexists W'; isplitr; swap; (· iexact HO)
      ipureintro
      intro q hq
      rcases hW' hq with h | ⟨w, s, rfl⟩
      · exact Or.inl h
      · exact Or.inr rfl

set_option backward.isDefEq.respectTransparency.types false in
/-- REGION 1. From the boundary, the thread state at `V₂`, the level facts and pipeline 1's launch ghost state, the
    region's call runs to the boundary and the thread state it leaves, for the continuation. -/
theorem region_1 (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (ΛP (F := F)) .tc) α) (Q : α → sProp 𝕄) :
    iprop((iprop(boundary (d.tc : Thread nD τ) ∗ tcPost main_v10 V₂ O W d) -∗ wp frame (wpE (D (F := F)) 𝒱 (d.tc : Thread nD τ) none) Set.univ (k ⟨⟩) Q)
        ∗ boundary (d.tc : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q :=
  Pipeline.RDat.RegionSeg.wp (pcfgs (F := F)) adm (rdats V₁ V₂ O W) none cellOf_inj EP defs₀ 𝒱₀ _ _ (seg2 V₁ V₂ O hO W) d none (fun _ h => nomatch h) k Q

end Cert.Kernel.Pf

end
-- ==== Proof.BRegionsLift.lean ====
/-
  The two TensorCore regions as the SparseCore launch theorem's TensorCore program meets them: the region's call
  lifted into the extended signature, under the extended body table, with any continuation.
-/
import proofs.«203732_g20581483283120_cont_8to1_285_17_alg».proof.Proof.BCommon
import proofs.«203732_g20581483283120_cont_8to1_285_17_alg».proof.Proof.BRegion2

noncomputable section

namespace Cert.Kernel.Pf

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.SparseCore (T)

/-- REGION 0 under the extended body table: the call of pipeline 0's entry label, lifted, then any continuation. -/
theorem region_0' (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v9 V₁ O W d) -∗ wp frame (wpE ((K (F := F)).defs (D (F := F))) 𝒱 (T d : Thread nD τ) none) Set.univ (k ⟨⟩) Q)
        ∗ boundary (T d : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d : Thread nD τ) none) Set.univ
          (.op (.customCall (SparseCore.inner (Pipeline.entry 0)) ()) k) Q := by
  rw [show (Prog.op (.customCall (SparseCore.inner (Pipeline.entry 0)) ()) k : Prog (TpuEff nD τ sig (Elt F) (SparseCore.Sig (ΛP (F := F)) 1) .tc) α)
      = (SparseCore.liftProg (Q := 1) (.op (.customCall (Pipeline.entry 0) ()) fun _ => .ret PUnit.unit : Prog (TpuEff nD τ sig (Elt F) (ΛP (F := F)) .tc) PUnit)) >>= k from rfl,
    wp_bind]
  iintro ⟨Hk, Hb, Hpre, Hlev, Hg, Ht⟩
  iapply (wp_wand_r frame _ Set.univ)
  isplitr [Hk]
  · iapply ((K (F := F)).wp_liftProg (D (F := F)) 𝒱 (T d : Thread nD τ) Set.univ none _
      (fun _ => iprop(boundary (T d : Thread nD τ) ∗ tcPost main_v9 V₁ O W d)))
    iapply (region_0 V₁ V₂ O hO W d (fun _ => .ret PUnit.unit) (fun _ => iprop(boundary (T d : Thread nD τ) ∗ tcPost main_v9 V₁ O W d)))
    isplitr [Hb Hpre Hlev Hg Ht]
    · iintro H; rw [wp_ret]; imodintro; iexact H
    isplitl [Hb]; · iexact Hb
    isplitl [Hpre]; · iexact Hpre
    isplitl [Hlev]; · iexact Hlev
    isplitl [Hg]; · iexact Hg
    iexact Ht
  · iintro %_ H; iapply Hk; iexact H

/-- REGION 1 under the extended body table, the same way. -/
theorem region_1' (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v10 V₂ O W d) -∗ wp frame (wpE ((K (F := F)).defs (D (F := F))) 𝒱 (T d : Thread nD τ) none) Set.univ (k ⟨⟩) Q)
        ∗ boundary (T d : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d : Thread nD τ) none) Set.univ
          (.op (.customCall (SparseCore.inner (Pipeline.entry 1)) ()) k) Q := by
  rw [show (Prog.op (.customCall (SparseCore.inner (Pipeline.entry 1)) ()) k : Prog (TpuEff nD τ sig (Elt F) (SparseCore.Sig (ΛP (F := F)) 1) .tc) α)
      = (SparseCore.liftProg (Q := 1) (.op (.customCall (Pipeline.entry 1) ()) fun _ => .ret PUnit.unit : Prog (TpuEff nD τ sig (Elt F) (ΛP (F := F)) .tc) PUnit)) >>= k from rfl,
    wp_bind]
  iintro ⟨Hk, Hb, Hpre, Hlev, Hg, Ht⟩
  iapply (wp_wand_r frame _ Set.univ)
  isplitr [Hk]
  · iapply ((K (F := F)).wp_liftProg (D (F := F)) 𝒱 (T d : Thread nD τ) Set.univ none _
      (fun _ => iprop(boundary (T d : Thread nD τ) ∗ tcPost main_v10 V₂ O W d)))
    iapply (region_1 V₁ V₂ O hO W d (fun _ => .ret PUnit.unit) (fun _ => iprop(boundary (T d : Thread nD τ) ∗ tcPost main_v10 V₂ O W d)))
    isplitr [Hb Hpre Hlev Hg Ht]
    · iintro H; rw [wp_ret]; imodintro; iexact H
    isplitl [Hb]; · iexact Hb
    isplitl [Hpre]; · iexact Hpre
    isplitl [Hlev]; · iexact Hlev
    isplitl [Hg]; · iexact Hg
    iexact Ht
  · iintro %_ H; iapply Hk; iexact H

/-- REGION 0 as @main spells it: the lifted call bound to the rest of @main. -/
theorem region_0_bind (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v9 V₁ O W d) -∗ wp frame (wpE ((K (F := F)).defs (D (F := F))) 𝒱 (T d : Thread nD τ) none) Set.univ (k ⟨⟩) Q)
        ∗ boundary (T d : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d : Thread nD τ) none) Set.univ
          (Prog.lift (.customCall (SparseCore.inner (Pipeline.entry 0)) ()) >>= k) Q :=
  region_0' V₁ V₂ O hO W d k Q

/-- REGION 1 as @main spells it. -/
theorem region_1_bind (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPost main_v10 V₂ O W d) -∗ wp frame (wpE ((K (F := F)).defs (D (F := F))) 𝒱 (T d : Thread nD τ) none) Set.univ (k ⟨⟩) Q)
        ∗ boundary (T d : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d : Thread nD τ) none) Set.univ
          (Prog.lift (.customCall (SparseCore.inner (Pipeline.entry 1)) ()) >>= k) Q :=
  region_1' V₁ V₂ O hO W d k Q

end Cert.Kernel.Pf

end
-- ==== Proof.BLaunch.lean ====
/-
  The launch element of the kernel's ghost state, and how the final memory is read.

  The launch element is a triple: the handshakes' rounds at their cells, the two pipelines' staging cells' rounds at
  theirs, and the unit of the local copies' counters. It splits into its components; the counters' unit is dropped;
  the staging cells' component funds, for every device and each of the two pipelines, the cells' launch ghost state
  and the duty tokens of the transfers the pipeline's loop will issue. A device's share is the two pipelines' side by
  side. Nothing is dealt to the threads beyond the handshakes.

  At the end, buffers held whole at a valuation pin the physical memory: the memory agrees with the valuation at
  every held buffer.
-/
import proofs.«203732_g20581483283120_cont_8to1_285_17_alg».proof.Proof.BCommon

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The launch element -/

/-- The two pipelines at their (trivial) admissible table contents. -/
abbrev pcs : Fin 2 → Pipeline.Cfg sig Λ₀ := Pipeline.pin (pcfgs (F := F)) adm

set_option backward.isDefEq.respectTransparency.types false in
/-- No two staging buffers of the two pipelines share a cell. -/
theorem pcs_inj : Function.Injective (Pipeline.cellOf (nD := nD) (τ := τ) (pcs (F := F))) := cellOf_inj

/-- The launch element: the handshakes' rounds, the staging cells' rounds, the counters' unit. -/
def u₀ : UU :=
  (initOf (K (F := F)).hsCells (K (F := F)).hsToks,
    (initOf (Pipeline.cells (pcs (F := F)) pcs_inj) (Pipeline.launchToks (pcs (F := F)) pcs_inj), 1))

/-- A device's share of the staging cells' ghost state: each pipeline's cells at launch and its duty tokens. -/
def Gd (d : Dev nD) : sProp 𝕄 :=
  iprop((Pipeline.cellsGhost (pcs (F := F)) EP 0 d ∗ Pipeline.toksInit (pcs (F := F)) EP 0 d)
    ∗ (Pipeline.cellsGhost (pcs (F := F)) EP 1 d ∗ Pipeline.toksInit (pcs (F := F)) EP 1 d))

omit [FloatOps F] in
/-- The triple splits into the handshakes' component and the staging cells'; the counters' unit is dropped. -/
theorem ownU_split (a : UH) (b : UP) (c : Counters) :
    (ownU (a, (b, c)) : sProp 𝕄) ⊢ iprop(BI.own (EH a) ∗ BI.own (EP b)) := by
  unfold EP
  iintro Hu
  ihave H := (ownU_pair a (b, c)) $$ Hu
  icases H with ⟨HH, HR⟩
  ihave H2 := (own_pair_emb embR b c) $$ HR
  icases H2 with ⟨HP, -⟩
  isplitl [HH]; · iexact HH
  iexact HP

/-- One device's two pipelines' ghost state and tokens, pipeline by pipeline. -/
theorem gd_intro (d : Dev nD) :
    iprop((Pipeline.cellsGhost (pcs (F := F)) EP 0 d ∗ Pipeline.cellsGhost (pcs (F := F)) EP 1 d)
        ∗ ((Pipeline.toksInit (pcs (F := F)) EP 0 d : sProp 𝕄) ∗ Pipeline.toksInit (pcs (F := F)) EP 1 d))
      ⊢ Gd (F := F) d := by
  unfold Gd
  iintro ⟨⟨Hg0, Hg1⟩, Ht0, Ht1⟩
  isplitl [Hg0 Ht0]
  · isplitl [Hg0]; · iexact Hg0
    iexact Ht0
  · isplitl [Hg1]; · iexact Hg1
    iexact Ht1

/-- Every device's two pipelines' ghost state and tokens, regrouped device by device. -/
theorem ghost_deal :
    iprop((bigSep Finset.univ fun c : Dev nD => bigSep Finset.univ fun p : Fin 2 => Pipeline.cellsGhost (pcs (F := F)) EP p c)
        ∗ (bigSep Finset.univ fun c : Dev nD => bigSep Finset.univ fun p : Fin 2 => (Pipeline.toksInit (pcs (F := F)) EP p c : sProp 𝕄)))
      ⊢ bigSep Finset.univ fun d : Dev nD => Gd (F := F) d := by
  rw [← bigSep_sep']
  refine bigSep_mono fun d _ => ?_
  rw [bigSep_univ_two, bigSep_univ_two]
  exact gd_intro d

/-- The launch element yields the handshakes' rounds, every device's share of the staging cells' ghost state, and
    nothing more for any thread. -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks))
          ∗ (bigSep Finset.univ fun d : Dev nD => Gd (F := F) d)
          ∗ bigSep Finset.univ fun thr : Thread nD τ => bigSep Finset.univ fun q : Fin 1 => P.x q thr) := by
  have hemp : (bigSep Finset.univ fun thr : Thread nD τ => bigSep Finset.univ fun q : Fin 1 => P.x q thr) = (iprop(emp) : sProp 𝕄) := by
    rw [bigSep_congr fun thr _ => (bigSep_congr fun q _ => hx q thr).trans (bigSep_emp_const _), bigSep_emp_const]
    rfl
  unfold u₀
  iintro Hu
  ihave H := (ownU_split _ _ _) $$ Hu
  icases H with ⟨HH, HP⟩
  imod (Pipeline.fund_ghost (pcs (F := F)) EP pcs_inj) $$ HP with ⟨Hg, Ht⟩
  imodintro
  isplitl [HH]; · iexact HH
  isplitl [Hg Ht]
  · iapply ghost_deal
    isplitl [Hg]; · iexact Hg
    iexact Ht
  · rw [hemp]; iempintro

/-! ## Reading the final memory -/

/-- Buffers held whole at a valuation, under the state interpretation: the memory is the valuation at each of them. -/
theorem held_SI_agree (d : Dev nD) (S : Finset (DevRef τ sig)) (W : Valuation τ sig (Elt F)) (s' : Phys nD τ sig (Elt F)) :
    iprop(held (SparseCore.T d) S W ∗ SI s') ⊢ (⌜∀ b ∈ S, s'.mem.mem (d, b) = W b⌝ : sProp 𝕄) := by
  classical
  induction S using Finset.induction_on with
  | empty =>
    iintro -
    ipureintro
    exact fun b hb => absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := ((SparseCore.T d).1, b)) (I := Finset.univ) (q := fullShare) (f := W b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

end Cert.Kernel.Pf

end
-- ==== Proof.BRun.lean ====
/-
  The kernel program's run: @main on the TensorCore threaded through the SparseCore call and the two TensorCore
  regions, what the final memory says of the arguments, and the launch theorem applied.
-/
import proofs.«203732_g20581483283120_cont_8to1_285_17_alg».proof.Proof.BMain
import proofs.«203732_g20581483283120_cont_8to1_285_17_alg».proof.Proof.BRegionsLift
import proofs.«203732_g20581483283120_cont_8to1_285_17_alg».proof.Proof.BLaunch

noncomputable section

namespace Cert.Kernel.Pf

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F]

local notation "𝕄" => MT nD τ sig (HIx 1) (Elt F) ℕ UU ℕ

/-! ## @main, its tails named -/

/-- After the second region: the last transpose. -/
def tail2 : Prog (TpuEff nD τ sig (Elt F) (SparseCore.Sig (ΛP (F := F)) 1) .tc) PUnit :=
  seq opsC >>= fun _ => pure ⟨⟩
/-- After the first region: the copy into the aliased buffer, the second region, the last transpose. -/
def tail1 : Prog (TpuEff nD τ sig (Elt F) (SparseCore.Sig (ΛP (F := F)) 1) .tc) PUnit :=
  seq opsB >>= fun _ =>
    (Prog.lift (.customCall (SparseCore.inner (Pipeline.entry 1)) ()) : Prog (TpuEff nD τ sig (Elt F) (SparseCore.Sig (ΛP (F := F)) 1) .tc) PUnit) >>= fun _ => tail2
/-- After the SparseCore call: the first region, then the rest. -/
def tail0 : Prog (TpuEff nD τ sig (Elt F) (SparseCore.Sig (ΛP (F := F)) 1) .tc) PUnit :=
  (Prog.lift (.customCall (SparseCore.inner (Pipeline.entry 0)) ()) : Prog (TpuEff nD τ sig (Elt F) (SparseCore.Sig (ΛP (F := F)) 1) .tc) PUnit) >>= fun _ => tail1

set_option maxRecDepth 2048 in
theorem main_eq3 (d : Dev nD) :
    main (F := F) d = (seq opsA >>= fun _ => (sc (F := F)).run d 0 >>= fun _ => tail0) := by
  simp only [main, fn_softplus.body, tail0, tail1, tail2, seq, bind_assoc, pure_bind]
  rfl

theorem SA_ref {b : DevRef τ sig} (hb : b ∈ (SA : Finset (DevRef τ sig))) :
    ∃ r : Ref sig .tc, b = Proc.devRef .tc r ∧ r ≠ main_v9 ∧ r ≠ main_v10 ∧ b ≠ r8 := by
  simp only [Finset.mem_insert, Finset.mem_singleton] at hb
  rcases hb with rfl | rfl | rfl | rfl
  exacts [⟨main_arg0, rfl, by decide, by decide, by decide⟩, ⟨main_arg1, rfl, by decide, by decide, by decide⟩,
    ⟨main_arg2, rfl, by decide, by decide, by decide⟩, ⟨main_arg3, rfl, by decide, by decide, by decide⟩]

/-! ## The TensorCore's handshake state, opened at what it owes -/

theorem tcSt_cast (d : Dev nD) : (K (F := F)).tcSt EH d ((0 : Fin 1).val + 1) = ((K (F := F)).tcSt EH d 1 : sProp 𝕄) := rfl

theorem tcSt_open (d : Dev nD) (n : ℕ) :
    (K (F := F)).tcSt EH d n ⊢ (iprop(∃ W, ⌜(K (F := F)).WBelow (SparseCore.T d) W (8 * n)⌝ ∗ owes (SparseCore.T d) ((K (F := F)).Otc d n) W
      ∗ ∀ W', (⌜(K (F := F)).WBelow (SparseCore.T d) W' (8 * n)⌝ ∗ owes (SparseCore.T d) ((K (F := F)).Otc d n) W') -∗ (K (F := F)).tcSt EH d n) : sProp 𝕄) := by
  unfold SparseCore.Cfg.tcSt
  iintro ⟨⟨%W, %hW, HO⟩, Hrest⟩
  iexists W; isplitr; · ipureintro; exact hW
  isplitl [HO]; · iexact HO
  iintro %W' ⟨%hW', HO'⟩
  isplitl [HO']
  · iexists W'; isplitr; · ipureintro; exact hW'
    iexact HO'
  · iexact Hrest

/-! ## A region as @main meets it -/

/-- Every unscoped buffer but `out` holds at `V'` what it held at `V`. -/
def Unch (out : Ref sig .tc) (V V' : Valuation τ sig (Elt F)) : Prop :=
  ∀ b : Ref sig .tc, b ≠ out → V' (Proc.devRef .tc b) = V (Proc.devRef .tc b)

/-- The TensorCore region of pipeline `p` where @main has it, in front of any continuation: from the boundary, the
    unscoped buffers at `V`, what the TensorCore owes (nothing at the kernels' own index) and the pipeline's launch
    ghost state, to the boundary, the unscoped buffers at some `V'` with `Rel V V'`, and what is owed with no
    recorded pair beyond the kernels' own index. -/
def RegionBind (p : Fin 2) (Rel : Valuation τ sig (Elt F) → Valuation τ sig (Elt F) → Prop) : Prop :=
  ∀ (Vv : Valuation τ sig (Elt F)) (O : CellTallies nD τ sig (HIx 1)) (_ : ∀ g, O g none = 0) (W : Waits sig (HIx 1)) (d : Dev nD)
    {α : Type} (k : PUnit → Prog (TpuEff nD τ sig (Elt F) (SparseCore.Sig (ΛP (F := F)) 1) .tc) α) (Q : α → sProp 𝕄),
    iprop((iprop(boundary (SparseCore.T d : Thread nD τ) ∗ ((∃ V' : Valuation τ sig (Elt F), ⌜Rel Vv V'⌝ ∗ held (SparseCore.T d : Thread nD τ) (Pipeline.ucRefs τ sig) V')
            ∗ ∃ W' : Waits sig (HIx 1), ⌜∀ q ∈ W', q ∈ W ∨ q.2 = none⌝ ∗ owes (SparseCore.T d : Thread nD τ) O W'))
          -∗ wp frame (wpE ((K (F := F)).defs (D (F := F))) 𝒱 (SparseCore.T d : Thread nD τ) none) Set.univ (k ⟨⟩) Q)
        ∗ boundary (SparseCore.T d : Thread nD τ) ∗ tcPre Vv O W d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d : Thread nD τ) none) Set.univ
          (Prog.lift (.customCall (SparseCore.inner (Pipeline.entry p)) ()) >>= k) Q

/-- The two regions run, every buffer but their result's kept. -/
theorem regionBind0 : RegionBind (F := F) 0 (Unch main_v9) := fun Vv O hO W d _ k Q => region_0_bind Vv Vv O hO W d k Q
theorem regionBind1 : RegionBind (F := F) 1 (Unch main_v10) := fun Vv O hO W d _ k Q => region_1_bind Vv Vv O hO W d k Q

/-! ## @main on the TensorCore -/

section Main

variable (m : (ℓ : Loc nD τ sig) → Buf (Elt F) ℓ) (ρ : Dev nD → PrngReg)
variable (P : (K (F := F)).Pay (nD := nD) (Val := Elt F) (Name := ℕ) (U := UU))
variable (C8 : Valuation τ sig (Elt F) → (r8 : DevRef τ sig).ty.Contents (Elt F) → Prop)
  (R9 R10 : Valuation τ sig (Elt F) → Valuation τ sig (Elt F) → Prop)

/-- What the three kernels did to the buffers, as @main saw it: the SparseCore call's result `f8`, the valuation `V1`
    after the first region, `V2` after the second. -/
def Steps (d : Dev nD) (f8 : (r8 : DevRef τ sig).ty.Contents (Elt F)) (V1 V2 : Valuation τ sig (Elt F)) : Prop :=
  C8 (after opsA (V0 m d)) f8 ∧ R9 (Function.update (after opsA (V0 m d)) r8 f8) V1 ∧ R10 (after opsB V1) V2

/-- What @main leaves the claim: every unscoped buffer at the host operations' fold over what the kernels left. -/
def FIN (d : Dev nD) : sProp 𝕄 :=
  iprop(∃ f8 V1 V2, ⌜Steps m C8 R9 R10 d f8 V1 V2⌝ ∗ held (SparseCore.T d) (Pipeline.ucRefs τ sig) (after opsC V2))

set_option maxHeartbeats 1600000 in
/-- @main on device `d`'s TensorCore: the host operations, the SparseCore call from its operands and back, the two
    regions from the unscoped buffers and back, the copy and the transpose; no operation writes an argument. -/
theorem hmain (hcall : CallSplit m P C8) (hreg0 : RegionBind (F := F) 0 R9) (hreg1 : RegionBind (F := F) 1 R10) (κ : GSem nD τ sig → ℕ) (d : Dev nD) :
    iprop((K (F := F)).ctx EH P κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m C8 R9 R10 d) := by
  unfold SparseCore.Cfg.tcRes Gd FIN
  rw [tcRes_held, main_eq3]
  iintro ⟨#Hctx, Hst, ⟨Hb, Hheld, -, -⟩, ⟨⟨Hcg0, Htk0⟩, ⟨Hcg1, Htk1⟩⟩⟩
  -- the host operations before the call
  iapply (wp_seq 𝒱 none Set.univ d (Pipeline.ucRefs τ sig) _ opsA opsA_sub opsA_fresh (V0 m d)) $$ [Hb Hheld]
  · isplitl [Hb]; · iexact Hb
    iexact Hheld
  iintro ⟨Hb, Hheld⟩
  -- the SparseCore call: its operands and result buffer out of the unscoped buffers, and back
  ihave Hh := (Entails.of_eq (held_sub_split (SparseCore.T d) S3_sub (after opsA (V0 m d)))) $$ Hheld
  icases Hh with ⟨H3, Hrest⟩
  rw [wp_bind]
  iapply (fupd_wp frame _ Set.univ)
  imod (hcall d) $$ H3 with ⟨Hst0, Hback⟩
  imodintro
  iapply ((K (F := F)).wp_run (D (F := F)) 𝒱 (EH := EH) (P := P) κ d 0) $$ [Hst Hst0 Hback Hb Hrest Hcg0 Htk0 Hcg1 Htk1]
  isplitr; · iexact Hctx
  isplitl [Hst]; · iexact Hst
  isplitl [Hst0]; · iexact Hst0
  iintro ⟨Hst, Hdn⟩
  iapply (fupd_wp frame _ Set.univ)
  ispecialize Hback $$ Hdn
  imod Hback with ⟨%f8, %hf8, H3⟩
  imodintro
  ihave Hrest' := (Entails.of_eq (held_rest_update d (after opsA (V0 m d)) S3 r8 r8_mem f8).symm) $$ Hrest
  ihave Hheld := (Entails.of_eq (held_sub_split (SparseCore.T d) S3_sub (Function.update (after opsA (V0 m d)) r8 f8)).symm) $$ [H3 Hrest']
  · isplitl [H3]; · iexact H3
    iexact Hrest'
  -- what the TensorCore owes after the only call: nothing
  ihave Hst1 := (Entails.of_eq (tcSt_cast (F := F) d)) $$ Hst
  ihave Hst' := (tcSt_open (F := F) d 1) $$ Hst1
  icases Hst' with ⟨%Wt, %hWt, HO, Hclose⟩
  ihave Hlev := ((K (F := F)).ctx_levAts κ) $$ Hctx
  -- the first TensorCore region
  unfold tail0
  iapply (hreg0 (Function.update (after opsA (V0 m d)) r8 f8)
      ((K (F := F)).Otc d 1) (Otc_one_none d) Wt d (fun _ => tail1 (F := F)) _) $$ [Hb Hheld HO Hlev Hcg0 Htk0 Hclose Hcg1 Htk1]
  isplitl [Hclose Hcg1 Htk1]
  swap
  · isplitl [Hb]; · iexact Hb
    isplitl [Hheld HO]
    · isplitl [Hheld]; · iexact Hheld
      iexact HO
    isplitl [Hlev]; · iexact Hlev
    isplitl [Hcg0]; · iexact Hcg0
    iexact Htk0
  iintro ⟨Hb, ⟨%V1, %hV1, Hheld⟩, %Wt1, %hWt1, HO⟩
  -- the copy into the aliased buffer
  unfold tail1
  iapply (wp_seq 𝒱 none Set.univ d (Pipeline.ucRefs τ sig) _ opsB opsB_sub opsB_fresh V1) $$ [Hb Hheld]
  · isplitl [Hb]; · iexact Hb
    iexact Hheld
  iintro ⟨Hb, Hheld⟩
  -- the second TensorCore region
  ihave Hlev := ((K (F := F)).ctx_levAts κ) $$ Hctx
  iapply (hreg1 (after opsB V1)
      ((K (F := F)).Otc d 1) (Otc_one_none d) Wt1 d (fun _ => tail2 (F := F)) _) $$ [Hb Hheld HO Hlev Hcg1 Htk1 Hclose]
  isplitl [Hclose]
  swap
  · isplitl [Hb]; · iexact Hb
    isplitl [Hheld HO]
    · isplitl [Hheld]; · iexact Hheld
      iexact HO
    isplitl [Hlev]; · iexact Hlev
    isplitl [Hcg1]; · iexact Hcg1
    iexact Htk1
  iintro ⟨Hb, ⟨%V2, %hV2, Hheld⟩, %Wt2, %hWt2, HO⟩
  -- the last transpose
  unfold tail2
  iapply (wp_seq 𝒱 none Set.univ d (Pipeline.ucRefs τ sig) _ opsC opsC_sub opsC_fresh V2) $$ [Hb Hheld]
  · isplitl [Hb]; · iexact Hb
    iexact Hheld
  iintro ⟨Hb, Hheld⟩
  rw [wp_pure]; imodintro
  isplitl [Hclose HO]
  · iapply Hclose
    isplitr
    · ipureintro
      intro q hq
      rcases hWt2 q hq with h | h
      · rcases hWt1 q h with h' | h'
        · exact hWt q h'
        · rw [h', (K (F := F)).lev_none]; exact Nat.zero_le _
      · rw [h, (K (F := F)).lev_none]; exact Nat.zero_le _
    · iexact HO
  · iexists f8; iexists V1; iexists V2
    isplitr
    · ipureintro; exact ⟨hf8, hV1, hV2⟩
    · iexact Hheld

end Main

/-! ## The final memory and the launch theorem -/

section Run

variable (m : (ℓ : Loc nD τ sig) → Buf (Elt F) ℓ) (ρ : Dev nD → PrngReg)
variable (P : (K (F := F)).Pay (nD := nD) (Val := Elt F) (Name := ℕ) (U := UU))
variable (C8 : Valuation τ sig (Elt F) → (r8 : DevRef τ sig).ty.Contents (Elt F) → Prop)
  (R9 R10 : Valuation τ sig (Elt F) → Valuation τ sig (Elt F) → Prop)

/-- What the TensorCore's final assertion says of the final memory. -/
def fq (d : Dev nD) (s' : Phys nD τ sig (Elt F)) : Prop :=
  ∃ f8 V1 V2, Steps m C8 R9 R10 d f8 V1 V2 ∧ ∀ b ∈ Pipeline.ucRefs τ sig, s'.mem.mem (d, b) = after opsC V2 b

theorem hfin (d : Dev nD) (s' : Phys nD τ sig (Elt F)) : iprop(FIN m C8 R9 R10 d ∗ SI s') ⊢ (⌜fq m C8 R9 R10 d s'⌝ : sProp 𝕄) := by
  unfold FIN
  iintro ⟨⟨%f8, %V1, %V2, %hs, H⟩, HSI⟩
  ihave Hag := (held_SI_agree d (Pipeline.ucRefs τ sig) (after opsC V2) s') $$ [H HSI]
  · isplitl [H]; · iexact H
    iexact HSI
  icases Hag with %hag
  ipureintro; exact ⟨f8, V1, V2, hs, hag⟩

/-- The run's post: on every device, the unscoped buffers end at the host operations' fold over what the three kernels left. -/
def QC : PUnit × MemSt nD τ sig (Elt F) → Prop := fun r => ∀ c : Dev nD,
  ∃ f8 V1 V2, Steps m C8 R9 R10 c f8 V1 V2 ∧ ∀ b ∈ Pipeline.ucRefs τ sig, r.2.mem (c, b) = after opsC V2 b

/-- Every weakly fair execution of the TensorCore, the two sequencers and the thirty-two tiles terminates, nothing
    faulting, the memory as `QC` says — from a payload record for the SparseCore call whose tile task is proved, whose
    per-SparseCore payloads split into the tiles' and come out of (and go back into) the call's three buffers, and the
    two regions' runs. -/
theorem run_main [∀ e, Nonempty (Elt F e)] [P.IsStorable] (hx : ∀ q thr, P.x q thr = iprop(emp)) (hheld : P.held = ∅) (hcall : CallSplit m P C8)
    (hreg0 : RegionBind (F := F) 0 R9) (hreg1 : RegionBind (F := F) 1 R10)
    (htile : (K (F := F)).TileObl (D (F := F)) 𝒱 P v₀ 0) (hvec : (K (F := F)).VecSplit' P 0) :
    θ_run (Cert.Kernel.defs (F := F)) (Cert.Kernel.threads (F := F)) ⟨m, fun _ => 0, ρ⟩ (QC m C8 R9 R10) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => Gd (F := F) d) (FIN m C8 R9 R10) (u₀ (F := F)) (sep_elim_left.trans (hu₀ P hx)) (hmain m ρ P C8 R9 R10 hcall hreg0 hreg1)
    (fq m C8 R9 R10) (hfin m C8 R9 R10) (QC m C8 R9 R10) (fun s' h c => h c) hheld

/-- When the two regions keep every buffer but their results', the arguments end as they started. -/
theorem args_kept (hR9 : ∀ V V', R9 V V' → Unch main_v9 V V') (hR10 : ∀ V V', R10 V V' → Unch main_v10 V V')
    {d : Dev nD} {f8 : (r8 : DevRef τ sig).ty.Contents (Elt F)} {V1 V2 : Valuation τ sig (Elt F)} (hs : Steps m C8 R9 R10 d f8 V1 V2) :
    ∀ b ∈ (SA : Finset (DevRef τ sig)), after opsC V2 b = V0 m d b := by
  intro b hb
  obtain ⟨r, rfl, h9, h10, h8⟩ := SA_ref hb
  rw [afterC_arg _ _ hb, hR10 _ _ hs.2.2 r h10, afterB_arg _ _ hb, hR9 _ _ hs.2.1 r h9, Function.update_of_ne h8, afterA_arg _ _ hb]

/-- The frame: the program runs and the four argument arrays end unchanged. -/
theorem frame_of_run (hR9 : ∀ V V', R9 V V' → Unch main_v9 V V') (hR10 : ∀ V V', R10 V V' → Unch main_v10 V V')
    (r : PUnit × MemSt nD τ sig (Elt F)) (h : QC m C8 R9 R10 r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨f8, V1, V2, hs, hmem⟩ := h c
  have ha := args_kept m C8 R9 R10 hR9 hR10 hs
  exact ⟨(hmem a0 (SA_sub (by decide))).trans (ha a0 (by decide)), (hmem a1 (SA_sub (by decide))).trans (ha a1 (by decide)),
    (hmem a2 (SA_sub (by decide))).trans (ha a2 (by decide)), (hmem a3 (SA_sub (by decide))).trans (ha a3 (by decide))⟩

end Run

end Cert.Kernel.Pf

end
-- ==== Proof.BTileComp.lean ====
import proofs.«203732_g20581483283120_cont_8to1_285_17_alg».proof.Proof.BCommon

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Names -/

abbrev cV (L : grid0.Coords) : Fin τ.nSC := (L 0).castLE hcore0
abbrev jV (L : grid0.Coords) : Fin τ.nSub := (L 1).castLE hsub0

abbrev xM : Memref sig .scVector .hbm S36x16384x128 .f32 := Memref.whole main_v5_scv
abbrev wM : Memref sig .scVector .hbm S576 .f32 := Memref.whole main_v3_scv
abbrev oM : Memref sig .scVector .hbm S12x7168x128 .f32 := Memref.whole main_v8_scv
abbrev wvM : Memref sig .scVector .vmem S576 .f32 := Memref.whole cc0_scratch0
abbrev xv0M : Memref sig .scVector .vmem S36x8x128 .f32 := Memref.whole cc0_scratch1
abbrev xv1M : Memref sig .scVector .vmem S36x8x128 .f32 := Memref.whole cc0_scratch2
abbrev ov0M : Memref sig .scVector .vmem S12x8x128 .f32 := Memref.whole cc0_scratch3
abbrev ov1M : Memref sig .scVector .vmem S12x8x128 .f32 := Memref.whole cc0_scratch4

abbrev x5Loc (d : Dev nD) : Loc nD τ sig := (SparseCore.T d).loc main_v5
abbrev w3Loc (d : Dev nD) : Loc nD τ sig := (SparseCore.T d).loc main_v3
abbrev o8Loc (d : Dev nD) : Loc nD τ sig := (SparseCore.T d).loc main_v8

section Tile
variable (d : Dev nD) (L : grid0.Coords)

/-- what one row of products and sums needs, first slot: the inputs as they were, the output slot at some contents -/
abbrev CompRes0 (fx : Buf (Elt F) ((V d (cV L) (jV L)).loc cc0_scratch1)) (fw : Buf (Elt F) ((V d (cV L) (jV L)).loc cc0_scratch0)) : sProp 𝕄 :=
  iprop(((xv0M).view.loc (V d (cV L) (jV L)) ↦{fullShare} fx) ∗ ((wvM).view.loc (V d (cV L) (jV L)) ↦{fullShare} fw)
    ∗ ∃ fo, (ov0M).view.loc (V d (cV L) (jV L)) ↦{fullShare} fo)

/-- the same, second slot -/
abbrev CompRes1 (fx : Buf (Elt F) ((V d (cV L) (jV L)).loc cc0_scratch2)) (fw : Buf (Elt F) ((V d (cV L) (jV L)).loc cc0_scratch0)) : sProp 𝕄 :=
  iprop(((xv1M).view.loc (V d (cV L) (jV L)) ↦{fullShare} fx) ∗ ((wvM).view.loc (V d (cV L) (jV L)) ↦{fullShare} fw)
    ∗ ∃ fo, (ov1M).view.loc (V d (cV L) (jV L)) ↦{fullShare} fo)

set_option maxHeartbeats 4000000 in
/-- One row of the first slot: every load is from the landed rows or the weights, every store into the output slot. -/
theorem compute0 (fx : Buf (Elt F) ((V d (cV L) (jV L)).loc cc0_scratch1)) (fw : Buf (Elt F) ((V d (cV L) (jV L)).loc cc0_scratch0))
    (v3 v4 c0 c1 : BitVec 32) (k1 : Fin k0_t1_loop.trips) (k : Fin k0_t2_loop.trips) (acc : BitVec 32) :
    CompRes0 (F := F) d L fx fw
      ⊢ wp frame (wpE (defs₀ (F := F)) 𝒱₀ (V d (cV L) (jV L)) none) Set.univ
          (k0_t2_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 v3 v4 c0 c1 k1 k acc)
          fun _ => CompRes0 (F := F) d L fx fw := by
  unfold k0_t2_body
  iintro ⟨Hx, Hw, %fo, Ho⟩
  sl_exec_parts
  sl_step
  isplitl [Hx]; · iexact Hx
  isplitl [Hw]; · iexact Hw
  iexists _; iexact Ho

set_option maxHeartbeats 4000000 in
/-- One row of the second slot. -/
theorem compute1 (fx : Buf (Elt F) ((V d (cV L) (jV L)).loc cc0_scratch2)) (fw : Buf (Elt F) ((V d (cV L) (jV L)).loc cc0_scratch0))
    (k : Fin k0_t3_loop.trips) (acc : BitVec 32) :
    CompRes1 (F := F) d L fx fw
      ⊢ wp frame (wpE (defs₀ (F := F)) 𝒱₀ (V d (cV L) (jV L)) none) Set.univ
          (k0_t3_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 k acc)
          fun _ => CompRes1 (F := F) d L fx fw := by
  unfold k0_t3_body
  iintro ⟨Hx, Hw, %fo, Ho⟩
  sl_exec_parts
  sl_step
  isplitl [Hx]; · iexact Hx
  isplitl [Hw]; · iexact Hw
  iexists _; iexact Ho

end Tile
end Cert.Kernel.Pf
end
-- ==== Proof.BTileDefs.lean ====
import proofs.«203732_g20581483283120_cont_8to1_285_17_alg».proof.Proof.BTileComp

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The rows a tile works on -/

/-- the tile's number -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem xRect_inb (L : grid0.Coords) (g : ℕ) :
    ∀ a, (![0, 224 * wid L + 8 * min g 27, 0] : Fin 3 → ℕ) a + S36x8x128.size a ≤ S36x16384x128.size a := by
  have := wid_lt L
  intro a; fin_cases a
  · show 0 + 36 ≤ 36; omega
  · show 224 * wid L + 8 * min g 27 + 8 ≤ 16384; omega
  · show 0 + 128 ≤ 128; omega

theorem oRect_inb (L : grid0.Coords) (g : ℕ) :
    ∀ a, (![0, 224 * wid L + 8 * min g 27, 0] : Fin 3 → ℕ) a + S12x8x128.size a ≤ S12x7168x128.size a := by
  have := wid_lt L
  intro a; fin_cases a
  · show 0 + 12 ≤ 12; omega
  · show 224 * wid L + 8 * min g 27 + 8 ≤ 7168; omega
  · show 0 + 128 ≤ 128; omega

/-- rows `224·wid + 8g …+8` of the input, every edge and lane -/
abbrev xRect (L : grid0.Coords) (g : ℕ) : Rect S36x16384x128 := Rect.unit ![0, 224 * wid L + 8 * min g 27, 0] S36x8x128.size (xRect_inb L g)
/-- rows `224·wid + 8g …+8` of the result, every node and lane -/
abbrev oRect (L : grid0.Coords) (g : ℕ) : Rect S12x7168x128 := Rect.unit ![0, 224 * wid L + 8 * min g 27, 0] S12x8x128.size (oRect_inb L g)

abbrev xS (L : grid0.Coords) (g : ℕ) : Memref sig .scVector .hbm S36x8x128 .f32 := (xM).slice (xRect L g) (fun _ => rfl)
abbrev oS (L : grid0.Coords) (g : ℕ) : Memref sig .scVector .hbm S12x8x128 .f32 := (oM).slice (oRect L g) (fun _ => rfl)

theorem xSlice_congr {o : Fin 3 → ℕ} (h : ∀ a, o a + S36x8x128.size a ≤ S36x16384x128.size a) (L : grid0.Coords) (g : ℕ)
    (e : o = ![0, 224 * wid L + 8 * min g 27, 0]) :
    (xM).slice (Rect.unit (s := S36x16384x128) o S36x8x128.size h) (fun _ => rfl) = xS L g := by
  subst e; rfl

theorem oSlice_congr {o : Fin 3 → ℕ} (h : ∀ a, o a + S12x8x128.size a ≤ S12x7168x128.size a) (L : grid0.Coords) (g : ℕ)
    (e : o = ![0, 224 * wid L + 8 * min g 27, 0]) :
    (oM).slice (Rect.unit (s := S12x7168x128) o S12x8x128.size h) (fun _ => rfl) = oS L g := by
  subst e; rfl

theorem vec3_congr {a b : ℕ} (e : a = b) : (![0, a, 0] : Fin 3 → ℕ) = ![0, b, 0] := by rw [e]

theorem off1_x (L : grid0.Coords) (r : Fin 2) : k0_off1 L (BitVec.ofNat 32 (8 * r.val)) = ![0, 224 * wid L + 8 * min r.val 27, 0] := by
  rw [k0_off1_eq]; apply vec3_congr; have := r.isLt; unfold wid; omega

theorem off2_x (L : grid0.Coords) (k : Fin k0_t1_loop.trips) (r : Fin 2) :
    k0_off2 L k (BitVec.ofNat 32 r.val) = ![0, 224 * wid L + 8 * min (2 * k.val + r.val) 27, 0] := by
  rw [k0_off2_eq]; apply vec3_congr; have := r.isLt; have hk : k.val < 14 := k.isLt; unfold wid; omega

theorem off388_o (L : grid0.Coords) (k : Fin k0_t1_loop.trips) (r : Fin 2) :
    k0_off388 L k (BitVec.ofNat 32 r.val) = ![0, 224 * wid L + 8 * min (2 * k.val + r.val) 27, 0] := by
  rw [k0_off388_eq]; apply vec3_congr; have := r.isLt; have hk : k.val < 14 := k.isLt; unfold wid; omega

theorem cond2_iff : ∀ k : Fin k0_t1_loop.trips, k0_cond2 k = 1#1 ↔ k.val < 13 := by decide +kernel
theorem cond4_iff : ∀ k : Fin k0_t1_loop.trips, k0_cond4 k = 1#1 ↔ k.val < 13 := by decide +kernel
theorem cond1_iff : ∀ k : Fin k0_t1_loop.trips, k0_cond1 k = 1#1 ↔ 1 ≤ k.val := by decide +kernel
theorem cond3_iff : ∀ k : Fin k0_t1_loop.trips, k0_cond3 k = 1#1 ↔ 1 ≤ k.val := by decide +kernel

theorem off389_x (L : grid0.Coords) (k : Fin k0_t1_loop.trips) (h : k0_cond2 k = 1#1) :
    k0_off389 L k = ![0, 224 * wid L + 8 * min (2 * (k.val + 1)) 27, 0] := by
  rw [k0_off389_eq]; apply vec3_congr; have hk := (cond2_iff k).mp h; unfold wid; omega

theorem off775_x (L : grid0.Coords) (k : Fin k0_t1_loop.trips) (h : k0_cond4 k = 1#1) :
    k0_off775 L k = ![0, 224 * wid L + 8 * min (2 * (k.val + 1) + 1) 27, 0] := by
  rw [k0_off775_eq]; apply vec3_congr; have hk := (cond4_iff k).mp h; unfold wid; omega

theorem off3_o : ∀ (L : grid0.Coords) (k : Fin k0_t1_loop.trips), k0_cond1 k = 1#1 →
    k0_off3 L k = ![0, 448 * (L 1).val + 224 * (L 0).val + 16 * k.val - 16, 0] := by decide +kernel
theorem off390_o : ∀ (L : grid0.Coords) (k : Fin k0_t1_loop.trips), k0_cond3 k = 1#1 →
    k0_off390 L k = ![0, 448 * (L 1).val + 224 * (L 0).val + 16 * k.val - 8, 0] := by decide +kernel

theorem off3_o' (L : grid0.Coords) (k : Fin k0_t1_loop.trips) (h : k0_cond1 k = 1#1) :
    k0_off3 L k = ![0, 224 * wid L + 8 * min (2 * (k.val - 1)) 27, 0] := by
  rw [off3_o L k h]; apply vec3_congr; have hk := (cond1_iff k).mp h; have hk' : k.val < 14 := k.isLt; unfold wid; omega
theorem off390_o' (L : grid0.Coords) (k : Fin k0_t1_loop.trips) (h : k0_cond3 k = 1#1) :
    k0_off390 L k = ![0, 224 * wid L + 8 * min (2 * (k.val - 1) + 1) 27, 0] := by
  rw [off390_o L k h]; apply vec3_congr; have hk := (cond3_iff k).mp h; have hk' : k.val < 14 := k.isLt; unfold wid; omega

theorem off776_o (L : grid0.Coords) (r : Fin 2) : k0_off776 L (BitVec.ofNat 32 (208 + 8 * r.val)) = ![0, 224 * wid L + 8 * min (26 + r.val) 27, 0] := by
  rw [k0_off776_eq]; apply vec3_congr; have := r.isLt; unfold wid; omega

theorem rectUnit_congr {s : Shape} {o o' sz : Fin s.rank → ℕ} (e : o = o') (h : ∀ a, o a + sz a ≤ s.size a) (h' : ∀ a, o' a + sz a ≤ s.size a) :
    Rect.unit (s := s) o sz h = Rect.unit o' sz h' := by subst e; rfl

/-! ## What a tile takes and returns -/

/-- the read share of tile number `w` of the 32: the `w`-th token of the full share, the last tile the remainder -/
def tileShare (w : ℕ) : PosShare TreeShare :=
  if w < 31 then Transfers.shareTokN fullShare w else Transfers.shareDrop fullShare 31

/-- the elements of the result in rows `224·wid + 8g …+8` -/
abbrev oRowSet (L : grid0.Coords) (g : ℕ) : Finset S12x7168x128.Idx := ((oM).view.slice (oRect L g)).set

/-- A tile's task takes: a read share of the input and of the weights, and its 28 groups of 8 rows of the result. -/
def tileGoL (d : Dev nD) (X5 : Buf (Elt F) (x5Loc d)) (W3 : Buf (Elt F) (w3Loc d)) (f8 : Buf (Elt F) (o8Loc d)) (L : grid0.Coords) : sProp 𝕄 :=
  iprop((x5Loc d ↦{tileShare (wid L)} X5) ∗ (w3Loc d ↦{tileShare (wid L)} W3)
    ∗ bigSep (Finset.range 28) fun g => o8Loc d ↦[oRowSet L g]{fullShare} f8)

/-- … and returns them, the rows at some contents. -/
def tileTdL (d : Dev nD) (X5 : Buf (Elt F) (x5Loc d)) (W3 : Buf (Elt F) (w3Loc d)) (L : grid0.Coords) : sProp 𝕄 :=
  iprop((x5Loc d ↦{tileShare (wid L)} X5) ∗ (w3Loc d ↦{tileShare (wid L)} W3)
    ∗ bigSep (Finset.range 28) fun g => iprop(∃ f : Buf (Elt F) (o8Loc d), o8Loc d ↦[oRowSet L g]{fullShare} f))

/-- the grid point of SparseCore `c`'s tile `s` -/
def coordsV (c : Fin (grid0.bound 0)) (s : Fin (grid0.bound 1)) : grid0.Coords :=
  fun | 0 => c | 1 => s | ⟨_ + 2, h⟩ => absurd h (Nat.not_lt.2 (Nat.le_add_left _ _))

def tileGo (d : Dev nD) (X5 : Buf (Elt F) (x5Loc d)) (W3 : Buf (Elt F) (w3Loc d)) (f8 : Buf (Elt F) (o8Loc d)) (c : Fin 2) (i : Fin 16) : sProp 𝕄 :=
  tileGoL (F := F) d X5 W3 f8 (coordsV c i)
def tileTd (d : Dev nD) (X5 : Buf (Elt F) (x5Loc d)) (W3 : Buf (Elt F) (w3Loc d)) (c : Fin 2) (i : Fin 16) : sProp 𝕄 :=
  tileTdL (F := F) d X5 W3 (coordsV c i)

/-- The one call: a SparseCore takes its sixteen tiles' tasks' resources and brings them back. -/
def P (X5 : (d : Dev nD) → Buf (Elt F) (x5Loc d)) (W3 : (d : Dev nD) → Buf (Elt F) (w3Loc d)) (f8 : (d : Dev nD) → Buf (Elt F) (o8Loc d)) :
    (K (F := F)).Pay (nD := nD) (Val := Elt F) (Name := ℕ) (U := UU) where
  st := fun q d c => match q with | 0 => bigSep Finset.univ fun i : Fin 16 => tileGo (F := F) d (X5 d) (W3 d) (f8 d) (Fin.cast nCore_zero c) i
  dn := fun q d c => match q with | 0 => bigSep Finset.univ fun i : Fin 16 => tileTd (F := F) d (X5 d) (W3 d) (Fin.cast nCore_zero c) i
  go := fun q d c i => match q with | 0 => tileGo (F := F) d (X5 d) (W3 d) (f8 d) (Fin.cast nCore_zero c) (Fin.cast nSub_zero i)
  td := fun q d c i => match q with | 0 => tileTd (F := F) d (X5 d) (W3 d) (Fin.cast nCore_zero c) (Fin.cast nSub_zero i)
  x := fun _ _ => iprop(emp)

end Cert.Kernel.Pf
end
-- ==== Proof.BSplit.lean ====
/-
  The SparseCore call's three buffers dealt to the 32 tiles and collected back: every tile a read share of the
  edge-first features and of the lane-repeated weights, and its own 28 groups of 8 rows of the result.
-/
import proofs.«203732_g20581483283120_cont_8to1_285_17_alg».proof.Proof.BTileDefs
import proofs.«203732_g20581483283120_cont_8to1_285_17_alg».proof.Proof.BMain
import Idealize.ShloMosaic.Lib.Ring

noncomputable section

namespace Cert.Kernel.Pf

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## The 32 read shares -/

theorem tileShare_lt {w : ℕ} (h : w < 31) : tileShare w = Transfers.shareTokN fullShare w := if_pos h
theorem tileShare_last : tileShare 31 = Transfers.shareDrop fullShare 31 := if_neg (by omega)

/-- A whole array at the full share is the 32 tiles' read shares of it. -/
theorem shares_iff {ℓ : Loc nD τ sig} (f : Buf (Elt F) ℓ) :
    (ℓ ↦{fullShare} f : sProp 𝕄) ⊣⊢ bigSep (Finset.range 32) fun w => ℓ ↦{tileShare w} f := by
  have h := Transfers.pointsTo_toks_range (Ix := HIx 1) (Name := ℕ) (U := UU) (Lvl := ℕ) (ℓ := ℓ) (S := Finset.univ) (f := f) fullShare 31
  have e : (bigSep (Finset.range 32) fun w => (ℓ ↦{tileShare w} f : sProp 𝕄))
      = iprop((ℓ ↦{Transfers.shareDrop fullShare 31} f) ∗ bigSep (Finset.range 31) fun i => ℓ ↦{Transfers.shareTokN fullShare i} f) := by
    rw [show (32 : ℕ) = 31 + 1 from rfl, Finset.range_add_one, SparseCore.bigSep_insert' Finset.notMem_range_self, tileShare_last]
    exact congrArg (fun X : sProp 𝕄 => iprop((ℓ ↦{Transfers.shareDrop fullShare 31} f) ∗ X))
      (bigSep_congr fun w hw => by rw [tileShare_lt (Finset.mem_range.mp hw)])
  rw [e]
  exact h

theorem shares_eq {ℓ : Loc nD τ sig} (f : Buf (Elt F) ℓ) :
    (ℓ ↦{fullShare} f : sProp 𝕄) = bigSep (Finset.range 32) fun w => ℓ ↦{tileShare w} f :=
  BI.equiv_iff.mp ⟨(shares_iff f).1, (shares_iff f).2⟩

/-! ## The 32 × 28 groups of rows -/

/-- rows `224·w + 8g … +8` of the result, for tile number `w` -/
theorem oRectN_inb (w : ℕ) (hw : w < 32) (g : ℕ) :
    ∀ a, (![0, 224 * w + 8 * min g 27, 0] : Fin 3 → ℕ) a + S12x8x128.size a ≤ S12x7168x128.size a := by
  intro a; fin_cases a
  · show 0 + 12 ≤ 12; omega
  · show 224 * w + 8 * min g 27 + 8 ≤ 7168; omega
  · show 0 + 128 ≤ 128; omega

/-- rows `224·w + 8g … +8` of the result, by tile number (any number from 32 on reads as tile 31) -/
abbrev rectN (w g : ℕ) : Rect S12x7168x128 :=
  Rect.unit ![0, 224 * min w 31 + 8 * min g 27, 0] S12x8x128.size (oRectN_inb (min w 31) (by omega) g)

/-- the elements of the result in those rows -/
def rowsN (w g : ℕ) : Finset S12x7168x128.Idx := (rectN w g).set

theorem oRowSet_eq (L : grid0.Coords) (g : ℕ) : oRowSet L g = rowsN (wid L) g := by
  have hw := wid_lt L
  unfold oRowSet rowsN
  show ((View.whole (main_v8_scv : Ref sig .scVector)).slice (oRect L g)).set = _
  rw [View.set_slice_whole]
  have e : (![0, 224 * wid L + 8 * min g 27, 0] : Fin 3 → ℕ) = ![0, 224 * min (wid L) 31 + 8 * min g 27, 0] := by
    rw [Nat.min_eq_left (by omega : wid L ≤ 31)]
  exact congrArg (fun r : Rect S12x7168x128 => r.set) (rectUnit_congr (s := S12x7168x128) (sz := S12x8x128.size) e (oRect_inb L g) (oRectN_inb (min (wid L) 31) (by omega) g))

theorem mem_rowsN {w g : ℕ} (hw : w < 32) (hg : g < 28) (i : S12x7168x128.Idx) :
    i ∈ rowsN w g ↔ 224 * w + 8 * g ≤ (i 1).val ∧ (i 1).val < 224 * w + 8 * g + 8 := by
  unfold rowsN rectN
  rw [Rect.mem_set_unit]
  have o1 : (![0, 224 * min w 31 + 8 * min g 27, 0] : Fin 3 → ℕ) 1 = 224 * w + 8 * g := by
    show 224 * min w 31 + 8 * min g 27 = _; omega
  have s1 : S12x8x128.size 1 = 8 := rfl
  constructor
  · intro h
    have h1 := h 1
    rw [o1, s1] at h1
    exact h1
  · intro h a
    fin_cases a
    · exact ⟨Nat.zero_le _, by show (i 0).val < 0 + 12; have := (i 0).isLt; simpa using this⟩
    · show (![0, 224 * min w 31 + 8 * min g 27, 0] : Fin 3 → ℕ) 1 ≤ _ ∧ _ < (![0, 224 * min w 31 + 8 * min g 27, 0] : Fin 3 → ℕ) 1 + S12x8x128.size 1
      rw [o1, s1]; exact h
    · exact ⟨Nat.zero_le _, by show (i 2).val < 0 + 128; have := (i 2).isLt; simpa using this⟩

/-- The 32 × 28 groups are pairwise disjoint -/
theorem rowsN_disjoint : ∀ p ∈ (Finset.range 32 ×ˢ Finset.range 28), ∀ p' ∈ (Finset.range 32 ×ˢ Finset.range 28), p ≠ p' →
    Disjoint (rowsN p.1 p.2) (rowsN p'.1 p'.2) := by
  rintro ⟨w, g⟩ hp ⟨w', g'⟩ hp' hne
  obtain ⟨hw, hg⟩ := Finset.mem_product.mp hp
  obtain ⟨hw', hg'⟩ := Finset.mem_product.mp hp'
  rw [Finset.mem_range] at hw hg hw' hg'
  have hne' : w ≠ w' ∨ g ≠ g' := by
    by_contra h; rw [not_or, not_not, not_not] at h; exact hne (by rw [h.1, h.2])
  rw [Finset.disjoint_left]
  intro i hi hi'
  rw [mem_rowsN hw hg] at hi
  rw [mem_rowsN hw' hg'] at hi'
  dsimp only at hi hi'
  omega

/-- and cover the result. -/
theorem rowsN_cover : (Finset.range 32 ×ˢ Finset.range 28).biUnion (fun p => rowsN p.1 p.2) = (Finset.univ : Finset S12x7168x128.Idx) := by
  ext i
  simp only [Finset.mem_biUnion, Finset.mem_univ, iff_true]
  have hi : (i 1).val < 7168 := by have := (i 1).isLt; simpa using this
  refine ⟨((i 1).val / 224, ((i 1).val % 224) / 8), Finset.mem_product.mpr ⟨Finset.mem_range.mpr (by omega), Finset.mem_range.mpr (by omega)⟩, ?_⟩
  rw [mem_rowsN (by omega) (by omega)]
  dsimp only
  omega

/-- The whole result at the full share is the 32 tiles' 28 groups of rows. -/
theorem o8_rows (d : Dev nD) (f : Buf (Elt F) (o8Loc d)) :
    (o8Loc d ↦{fullShare} f : sProp 𝕄)
      = bigSep (Finset.range 32) fun w => bigSep (Finset.range 28) fun g => o8Loc d ↦[rowsN w g]{fullShare} f := by
  rw [← SparseCore.bigSep_product (Finset.range 32) (Finset.range 28) (fun p : ℕ × ℕ => (o8Loc d ↦[rowsN p.1 p.2]{fullShare} f : sProp 𝕄)),
    ← pointsTo_biUnion (Finset.range 32 ×ˢ Finset.range 28) (ℓ := o8Loc d) (fun p : ℕ × ℕ => rowsN p.1 p.2) rowsN_disjoint, rowsN_cover]
  try rfl

/-! ## The tiles' payloads by tile number -/

/-- What tile number `w` takes, -/
def goN (d : Dev nD) (X5 : Buf (Elt F) (x5Loc d)) (W3 : Buf (Elt F) (w3Loc d)) (f8 : Buf (Elt F) (o8Loc d)) (w : ℕ) : sProp 𝕄 :=
  iprop((x5Loc d ↦{tileShare w} X5) ∗ (w3Loc d ↦{tileShare w} W3) ∗ bigSep (Finset.range 28) fun g => o8Loc d ↦[rowsN w g]{fullShare} f8)
/-- and returns. -/
def tdN (d : Dev nD) (X5 : Buf (Elt F) (x5Loc d)) (W3 : Buf (Elt F) (w3Loc d)) (w : ℕ) : sProp 𝕄 :=
  iprop((x5Loc d ↦{tileShare w} X5) ∗ (w3Loc d ↦{tileShare w} W3)
    ∗ bigSep (Finset.range 28) fun g => iprop(∃ f : Buf (Elt F) (o8Loc d), o8Loc d ↦[rowsN w g]{fullShare} f))

theorem tileGoL_eq (d : Dev nD) (X5 : Buf (Elt F) (x5Loc d)) (W3 : Buf (Elt F) (w3Loc d)) (f8 : Buf (Elt F) (o8Loc d)) (L : grid0.Coords) :
    tileGoL (F := F) d X5 W3 f8 L = goN d X5 W3 f8 (wid L) := by
  unfold tileGoL goN
  rw [bigSep_congr fun g _ => by rw [oRowSet_eq]]
theorem tileTdL_eq (d : Dev nD) (X5 : Buf (Elt F) (x5Loc d)) (W3 : Buf (Elt F) (w3Loc d)) (L : grid0.Coords) :
    tileTdL (F := F) d X5 W3 L = tdN d X5 W3 (wid L) := by
  unfold tileTdL tdN
  rw [bigSep_congr fun g _ => by rw [oRowSet_eq]]

/-- The three buffers whole are the 32 tiles' payloads. -/
theorem buffers_eq (d : Dev nD) (X5 : Buf (Elt F) (x5Loc d)) (W3 : Buf (Elt F) (w3Loc d)) (f8 : Buf (Elt F) (o8Loc d)) :
    (iprop((x5Loc d ↦{fullShare} X5) ∗ (w3Loc d ↦{fullShare} W3) ∗ (o8Loc d ↦{fullShare} f8)) : sProp 𝕄)
      = bigSep (Finset.range 32) (goN d X5 W3 f8) := by
  unfold goN
  rw [bigSep_sep', bigSep_sep', ← o8_rows, ← shares_eq X5, ← shares_eq W3]

/-! ## Tile numbers and grid points -/

theorem wid_coordsV (c : Fin 2) (i : Fin 16) : wid (coordsV c i) = 2 * i.val + c.val := rfl

/-- A family over the 32 tile numbers, dealt to the two SparseCores' sixteen tiles (tile number `2 i + c`). -/
theorem deal32 (Fm : ℕ → sProp 𝕄) :
    bigSep (Finset.range 32) Fm = bigSep Finset.univ fun c : Fin 2 => bigSep Finset.univ fun i : Fin 16 => Fm (2 * i.val + c.val) := by
  rw [show (32 : ℕ) = 2 * 16 from rfl, Ring.bigSep_range_deinterleave 16 Fm,
    show (Finset.univ : Finset (Fin 2)) = {0, 1} by decide, SparseCore.bigSep_insert' (by decide), bigSep_singleton,
    Ring.bigSep_fin_eq_range 16 (fun i : Fin 16 => Fm (2 * i.val + (0 : Fin 2).val)) (fun k => Fm (2 * k)) (fun t h => rfl),
    Ring.bigSep_fin_eq_range 16 (fun i : Fin 16 => Fm (2 * i.val + (1 : Fin 2).val)) (fun k => Fm (2 * k + 1)) (fun t h => rfl)]

/-! ## The payload record: storable, split among the tiles -/

instance tileGo_storable (d : Dev nD) (X5 : Buf (Elt F) (x5Loc d)) (W3 : Buf (Elt F) (w3Loc d)) (f8 : Buf (Elt F) (o8Loc d)) (c : Fin 2) (i : Fin 16) :
    BI.Storable (upEmb : UEmb _ 𝕄) (tileGo (F := F) d X5 W3 f8 c i) := by unfold tileGo tileGoL; infer_instance
instance tileTd_storable (d : Dev nD) (X5 : Buf (Elt F) (x5Loc d)) (W3 : Buf (Elt F) (w3Loc d)) (c : Fin 2) (i : Fin 16) :
    BI.Storable (upEmb : UEmb _ 𝕄) (tileTd (F := F) d X5 W3 c i) := by unfold tileTd tileTdL; infer_instance

variable (X5 : (d : Dev nD) → Buf (Elt F) (x5Loc d)) (W3 : (d : Dev nD) → Buf (Elt F) (w3Loc d)) (f8 : (d : Dev nD) → Buf (Elt F) (o8Loc d))

instance P_storable : (P (F := F) X5 W3 f8).IsStorable where
  st q d c := match q with
    | 0 => (inferInstance : BI.Storable (upEmb : UEmb _ 𝕄) (bigSep Finset.univ fun i : Fin 16 => tileGo (F := F) d (X5 d) (W3 d) (f8 d) (Fin.cast nCore_zero c) i))
  dn q d c := match q with
    | 0 => (inferInstance : BI.Storable (upEmb : UEmb _ 𝕄) (bigSep Finset.univ fun i : Fin 16 => tileTd (F := F) d (X5 d) (W3 d) (Fin.cast nCore_zero c) i))
  go q d c i := match q with
    | 0 => (inferInstance : BI.Storable (upEmb : UEmb _ 𝕄) (tileGo (F := F) d (X5 d) (W3 d) (f8 d) (Fin.cast nCore_zero c) (Fin.cast nSub_zero i)))
  td q d c i := match q with
    | 0 => (inferInstance : BI.Storable (upEmb : UEmb _ 𝕄) (tileTd (F := F) d (X5 d) (W3 d) (Fin.cast nCore_zero c) (Fin.cast nSub_zero i)))

theorem P_x (q : Fin 1) (thr : Thread nD τ) : (P (F := F) X5 W3 f8).x q thr = iprop(emp) := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's payload is its sixteen tiles'; their results are its result. -/
theorem vecSplit : (K (F := F)).VecSplit' (P (F := F) X5 W3 f8) 0 := by
  intro d c
  show (bigSep Finset.univ fun i : Fin 16 => tileGo (F := F) d (X5 d) (W3 d) (f8 d) (Fin.cast nCore_zero c) i) ⊢ |={Set.univ}=> iprop(
      (bigSep Finset.univ fun i : Fin ((K (F := F)).nSub 0) => tileGo (F := F) d (X5 d) (W3 d) (f8 d) (Fin.cast nCore_zero c) (Fin.cast nSub_zero i))
      ∗ ((bigSep Finset.univ fun i : Fin ((K (F := F)).nSub 0) => tileTd (F := F) d (X5 d) (W3 d) (Fin.cast nCore_zero c) (Fin.cast nSub_zero i))
          -∗ bigSep Finset.univ fun i : Fin 16 => tileTd (F := F) d (X5 d) (W3 d) (Fin.cast nCore_zero c) i))
  rw [bigSep_tasks (F := F) (fun i => tileGo (F := F) d (X5 d) (W3 d) (f8 d) (Fin.cast nCore_zero c) i),
    bigSep_tasks (F := F) (fun i => tileTd (F := F) d (X5 d) (W3 d) (Fin.cast nCore_zero c) i)]
  iintro H; imodintro
  isplitl [H]; · iexact H
  iintro H; iexact H

/-- The two SparseCores' payloads are the 32 tile numbers' -/
theorem st_eq (d : Dev nD) :
    (bigSep Finset.univ fun c : Fin ((K (F := F)).nCore 0) => (P (F := F) X5 W3 f8).st 0 d c) = bigSep (Finset.range 32) (goN d (X5 d) (W3 d) (f8 d)) := by
  show (bigSep Finset.univ fun c : Fin ((K (F := F)).nCore 0) => bigSep Finset.univ fun i : Fin 16 => tileGo (F := F) d (X5 d) (W3 d) (f8 d) (Fin.cast nCore_zero c) i) = _
  rw [bigSep_cores (F := F) (fun c => bigSep Finset.univ fun i : Fin 16 => tileGo (F := F) d (X5 d) (W3 d) (f8 d) c i), deal32]
  exact bigSep_congr fun c _ => bigSep_congr fun i _ => by unfold tileGo; rw [tileGoL_eq, wid_coordsV]
theorem dn_eq (d : Dev nD) :
    (bigSep Finset.univ fun c : Fin ((K (F := F)).nCore 0) => (P (F := F) X5 W3 f8).dn 0 d c) = bigSep (Finset.range 32) (tdN d (X5 d) (W3 d)) := by
  show (bigSep Finset.univ fun c : Fin ((K (F := F)).nCore 0) => bigSep Finset.univ fun i : Fin 16 => tileTd (F := F) d (X5 d) (W3 d) (Fin.cast nCore_zero c) i) = _
  rw [bigSep_cores (F := F) (fun c => bigSep Finset.univ fun i : Fin 16 => tileTd (F := F) d (X5 d) (W3 d) c i), deal32]
  exact bigSep_congr fun c _ => bigSep_congr fun i _ => by unfold tileTd; rw [tileTdL_eq, wid_coordsV]

/-- The rows coming back, each group at some contents, are the whole result at some contents. -/
theorem rows_join (d : Dev nD) :
    (bigSep (Finset.range 32) fun w => bigSep (Finset.range 28) fun g => iprop(∃ f : Buf (Elt F) (o8Loc d), o8Loc d ↦[rowsN w g]{fullShare} f))
      ⊢ (iprop(∃ f : Buf (Elt F) (o8Loc d), o8Loc d ↦{fullShare} f) : sProp 𝕄) := by
  rw [← SparseCore.bigSep_product (Finset.range 32) (Finset.range 28)
    (fun p : ℕ × ℕ => (iprop(∃ f : Buf (Elt F) (o8Loc d), o8Loc d ↦[rowsN p.1 p.2]{fullShare} f) : sProp 𝕄))]
  refine (bigSep_exists_pi (Finset.range 32 ×ˢ Finset.range 28) (fun (p : ℕ × ℕ) (f : Buf (Elt F) (o8Loc d)) => o8Loc d ↦[rowsN p.1 p.2]{fullShare} f)).trans ?_
  iintro ⟨%fs, H⟩
  ihave H' := (pointsTo_biUnion_join (Finset.range 32 ×ˢ Finset.range 28) (fun p : ℕ × ℕ => rowsN p.1 p.2) fs (fs (0, 0)) rowsN_disjoint) $$ H
  icases H' with ⟨%g, -, Hg⟩
  rw [rowsN_cover]
  iexists g; iexact Hg

theorem tdN_join (d : Dev nD) (X : Buf (Elt F) (x5Loc d)) (Wt : Buf (Elt F) (w3Loc d)) :
    bigSep (Finset.range 32) (tdN (F := F) d X Wt)
      ⊢ (iprop((x5Loc d ↦{fullShare} X) ∗ (w3Loc d ↦{fullShare} Wt) ∗ ∃ f : Buf (Elt F) (o8Loc d), o8Loc d ↦{fullShare} f) : sProp 𝕄) := by
  unfold tdN
  rw [bigSep_sep', bigSep_sep', ← shares_eq X, ← shares_eq Wt]
  iintro ⟨Hx, Hw, Ho⟩
  isplitl [Hx]; · iexact Hx
  isplitl [Hw]; · iexact Hw
  iapply (rows_join (F := F) d); iexact Ho

/-! ## The call, as @main meets it -/

section Call

variable (m : (ℓ : Loc nD τ sig) → Buf (Elt F) ℓ)

/-- The call's operands and result buffer when @main reaches it: what the host operations before it left. -/
def X5m (d : Dev nD) : Buf (Elt F) (x5Loc d) := after opsA (V0 m d) r5
def W3m (d : Dev nD) : Buf (Elt F) (w3Loc d) := after opsA (V0 m d) r3
def f8m (d : Dev nD) : Buf (Elt F) (o8Loc d) := after opsA (V0 m d) r8

/-- The call's payload record at those contents. -/
abbrev Pm : (K (F := F)).Pay (nD := nD) (Val := Elt F) (Name := ℕ) (U := UU) := P (F := F) (X5m m) (W3m m) (f8m m)

theorem held_S3 (d : Dev nD) (W : Valuation τ sig (Elt F)) :
    (held (SparseCore.T d) S3 W : sProp 𝕄)
      = iprop(((SparseCore.T d).loc main_v5 ↦{fullShare} W r5) ∗ ((SparseCore.T d).loc main_v3 ↦{fullShare} W r3) ∗ (SparseCore.T d).loc main_v8 ↦{fullShare} W r8) := by
  unfold held S3
  rw [SparseCore.bigSep_insert' (by decide), SparseCore.bigSep_insert' (by decide), bigSep_singleton]

/-- The three buffers go out to the two SparseCores and come back, the result at some contents. -/
theorem callSplit : CallSplit m (Pm m) (fun _ _ => True) := by
  intro d
  rw [held_S3, st_eq, dn_eq]
  show iprop((x5Loc d ↦{fullShare} X5m m d) ∗ (w3Loc d ↦{fullShare} W3m m d) ∗ (o8Loc d ↦{fullShare} f8m m d)) ⊢ _
  rw [buffers_eq]
  iintro H; imodintro
  isplitl [H]; · iexact H
  iintro Hdn
  ihave H' := (tdN_join (F := F) d (X5m m d) (W3m m d)) $$ Hdn
  icases H' with ⟨Hx, Hw, %f, Ho⟩
  imodintro
  iexists f
  isplitr; · ipureintro; trivial
  rw [held_S3, Function.update_of_ne (show (r5 : DevRef τ sig) ≠ r8 by decide), Function.update_of_ne (show (r3 : DevRef τ sig) ≠ r8 by decide),
    Function.update_self]
  isplitl [Hx]; · iexact Hx
  isplitl [Hw]; · iexact Hw
  iexact Ho

end Call

/-! ## The same with the tiles' result named -/

section Valued

-- what the tiles compute, as one function of the call's two operands
variable (tvOf : (r5 : DevRef τ sig).ty.Contents (Elt F) → (r3 : DevRef τ sig).ty.Contents (Elt F) → (r8 : DevRef τ sig).ty.Contents (Elt F))

variable (X5 : (d : Dev nD) → Buf (Elt F) (x5Loc d)) (W3 : (d : Dev nD) → Buf (Elt F) (w3Loc d)) (f8 : (d : Dev nD) → Buf (Elt F) (o8Loc d))

/-- The payload record whose tiles return their rows at `tvOf` of the operands. -/
def PV : (K (F := F)).Pay (nD := nD) (Val := Elt F) (Name := ℕ) (U := UU) where
  st := fun q d c => match q with | 0 => bigSep Finset.univ fun i : Fin 16 => tileGo (F := F) d (X5 d) (W3 d) (f8 d) (Fin.cast nCore_zero c) i
  dn := fun q d c => match q with | 0 => bigSep Finset.univ fun i : Fin 16 => tileGo (F := F) d (X5 d) (W3 d) (tvOf (X5 d) (W3 d)) (Fin.cast nCore_zero c) i
  go := fun q d c i => match q with | 0 => tileGo (F := F) d (X5 d) (W3 d) (f8 d) (Fin.cast nCore_zero c) (Fin.cast nSub_zero i)
  td := fun q d c i => match q with | 0 => tileGo (F := F) d (X5 d) (W3 d) (tvOf (X5 d) (W3 d)) (Fin.cast nCore_zero c) (Fin.cast nSub_zero i)
  x := fun _ _ => iprop(emp)

instance PV_storable : (PV (F := F) tvOf X5 W3 f8).IsStorable where
  st q d c := match q with
    | 0 => (inferInstance : BI.Storable (upEmb : UEmb _ 𝕄) (bigSep Finset.univ fun i : Fin 16 => tileGo (F := F) d (X5 d) (W3 d) (f8 d) (Fin.cast nCore_zero c) i))
  dn q d c := match q with
    | 0 => (inferInstance : BI.Storable (upEmb : UEmb _ 𝕄) (bigSep Finset.univ fun i : Fin 16 => tileGo (F := F) d (X5 d) (W3 d) (tvOf (X5 d) (W3 d)) (Fin.cast nCore_zero c) i))
  go q d c i := match q with
    | 0 => (inferInstance : BI.Storable (upEmb : UEmb _ 𝕄) (tileGo (F := F) d (X5 d) (W3 d) (f8 d) (Fin.cast nCore_zero c) (Fin.cast nSub_zero i)))
  td q d c i := match q with
    | 0 => (inferInstance : BI.Storable (upEmb : UEmb _ 𝕄) (tileGo (F := F) d (X5 d) (W3 d) (tvOf (X5 d) (W3 d)) (Fin.cast nCore_zero c) (Fin.cast nSub_zero i)))

theorem PV_x (q : Fin 1) (thr : Thread nD τ) : (PV (F := F) tvOf X5 W3 f8).x q thr = iprop(emp) := rfl

theorem vecSplitV : (K (F := F)).VecSplit' (PV (F := F) tvOf X5 W3 f8) 0 := by
  intro d c
  show (bigSep Finset.univ fun i : Fin 16 => tileGo (F := F) d (X5 d) (W3 d) (f8 d) (Fin.cast nCore_zero c) i) ⊢ |={Set.univ}=> iprop(
      (bigSep Finset.univ fun i : Fin ((K (F := F)).nSub 0) => tileGo (F := F) d (X5 d) (W3 d) (f8 d) (Fin.cast nCore_zero c) (Fin.cast nSub_zero i))
      ∗ ((bigSep Finset.univ fun i : Fin ((K (F := F)).nSub 0) => tileGo (F := F) d (X5 d) (W3 d) (tvOf (X5 d) (W3 d)) (Fin.cast nCore_zero c) (Fin.cast nSub_zero i))
          -∗ bigSep Finset.univ fun i : Fin 16 => tileGo (F := F) d (X5 d) (W3 d) (tvOf (X5 d) (W3 d)) (Fin.cast nCore_zero c) i))
  rw [bigSep_tasks (F := F) (fun i => tileGo (F := F) d (X5 d) (W3 d) (f8 d) (Fin.cast nCore_zero c) i),
    bigSep_tasks (F := F) (fun i => tileGo (F := F) d (X5 d) (W3 d) (tvOf (X5 d) (W3 d)) (Fin.cast nCore_zero c) i)]
  iintro H; imodintro
  isplitl [H]; · iexact H
  iintro H; iexact H

theorem stV_eq (d : Dev nD) :
    (bigSep Finset.univ fun c : Fin ((K (F := F)).nCore 0) => (PV (F := F) tvOf X5 W3 f8).st 0 d c) = bigSep (Finset.range 32) (goN d (X5 d) (W3 d) (f8 d)) :=
  st_eq X5 W3 f8 d
theorem dnV_eq (d : Dev nD) :
    (bigSep Finset.univ fun c : Fin ((K (F := F)).nCore 0) => (PV (F := F) tvOf X5 W3 f8).dn 0 d c)
      = bigSep (Finset.range 32) (goN d (X5 d) (W3 d) (tvOf (X5 d) (W3 d))) :=
  st_eq X5 W3 (fun d => tvOf (X5 d) (W3 d)) d

end Valued

section CallValued

variable (m : (ℓ : Loc nD τ sig) → Buf (Elt F) ℓ)
variable (tvOf : (r5 : DevRef τ sig).ty.Contents (Elt F) → (r3 : DevRef τ sig).ty.Contents (Elt F) → (r8 : DevRef τ sig).ty.Contents (Elt F))

/-- The valued payload record at the contents the host operations left. -/
abbrev PmV : (K (F := F)).Pay (nD := nD) (Val := Elt F) (Name := ℕ) (U := UU) := PV (F := F) tvOf (X5m m) (W3m m) (f8m m)

/-- The three buffers go out and come back, the result at `tvOf` of the two operands. -/
theorem callSplitV : CallSplit m (PmV m tvOf) (fun W f => f = tvOf (W r5) (W r3)) := by
  intro d
  rw [held_S3, stV_eq, dnV_eq]
  show iprop((x5Loc d ↦{fullShare} X5m m d) ∗ (w3Loc d ↦{fullShare} W3m m d) ∗ (o8Loc d ↦{fullShare} f8m m d)) ⊢ _
  rw [buffers_eq, ← buffers_eq d (X5m m d) (W3m m d) (tvOf (X5m m d) (W3m m d))]
  iintro H; imodintro
  isplitl [H]; · iexact H
  iintro ⟨Hx, Hw, Ho⟩
  imodintro
  iexists (tvOf (X5m m d) (W3m m d))
  isplitr; · ipureintro; rfl
  rw [held_S3, Function.update_of_ne (show (r5 : DevRef τ sig) ≠ r8 by decide), Function.update_of_ne (show (r3 : DevRef τ sig) ≠ r8 by decide),
    Function.update_self]
  isplitl [Hx]; · iexact Hx
  isplitl [Hw]; · iexact Hw
  iexact Ho

/-- A call's guarantee may be weakened. -/
theorem CallSplit.mono {P : (K (F := F)).Pay (nD := nD) (Val := Elt F) (Name := ℕ) (U := UU)}
    {C C' : Valuation τ sig (Elt F) → (r8 : DevRef τ sig).ty.Contents (Elt F) → Prop} (h : ∀ W f, C W f → C' W f) (hc : CallSplit m P C) :
    CallSplit m P C' := by
  intro d
  refine (hc d).trans ?_
  iintro H
  imod H with ⟨Hst, Hback⟩
  imodintro
  isplitl [Hst]; · iexact Hst
  iintro Hdn
  ispecialize Hback $$ Hdn
  imod Hback with ⟨%f, %hf, H⟩
  imodintro
  iexists f
  isplitr; · ipureintro; exact h _ _ hf
  iexact H

end CallValued

end Cert.Kernel.Pf

end
-- ==== Proof.BTileTrip.lean ====
import proofs.«203732_g20581483283120_cont_8to1_285_17_alg».proof.Proof.BTileDefs

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile
variable (d : Dev nD) (L : grid0.Coords)
abbrev thr : Thread nD τ := V d (cV L) (jV L)

abbrev cI0 : GSem nD τ sig := (V d (cV L) (jV L), .dma cc0_scratch5.sem)
abbrev cI1 : GSem nD τ sig := (V d (cV L) (jV L), .dma cc0_scratch6.sem)
abbrev cO0 : GSem nD τ sig := (V d (cV L) (jV L), .dma cc0_scratch7.sem)
abbrev cO1 : GSem nD τ sig := (V d (cV L) (jV L), .dma cc0_scratch8.sem)
abbrev cW : GSem nD τ sig := (V d (cV L) (jV L), .dma cc0_scoped0.sem)

omit [FloatOps F] in
theorem ownSems0_V :
    (ownSems0 (V d (cV L) (jV L)) : sProp 𝕄)
      = iprop(semVal (cI0 d L) 0 ∗ semVal (cI1 d L) 0 ∗ semVal (cO0 d L) 0 ∗ semVal (cO1 d L) 0 ∗ semVal (cW d L) 0
          ∗ bigSep (((((ownCells (V d (cV L) (jV L))).erase (cI0 d L)).erase (cI1 d L)).erase (cO0 d L)).erase (cO1 d L) |>.erase (cW d L))
              fun g => semVal g 0) := by
  unfold SparseCore.Cfg.ownSems0
  have m0 : cI0 d L ∈ ownCells (V d (cV L) (jV L)) := (mem_ownCells (g := cI0 d L)).mpr ⟨rfl, by
      show (SemLoc.dma cc0_scratch5.sem : SemLoc sig).isScoped .scVector = true; decide⟩
  have m1 : cI1 d L ∈ ownCells (V d (cV L) (jV L)) := (mem_ownCells (g := cI1 d L)).mpr ⟨rfl, by
      show (SemLoc.dma cc0_scratch6.sem : SemLoc sig).isScoped .scVector = true; decide⟩
  have m2 : cO0 d L ∈ ownCells (V d (cV L) (jV L)) := (mem_ownCells (g := cO0 d L)).mpr ⟨rfl, by
      show (SemLoc.dma cc0_scratch7.sem : SemLoc sig).isScoped .scVector = true; decide⟩
  have m3 : cO1 d L ∈ ownCells (V d (cV L) (jV L)) := (mem_ownCells (g := cO1 d L)).mpr ⟨rfl, by
      show (SemLoc.dma cc0_scratch8.sem : SemLoc sig).isScoped .scVector = true; decide⟩
  have m4 : cW d L ∈ ownCells (V d (cV L) (jV L)) := (mem_ownCells (g := cW d L)).mpr ⟨rfl, by
      show (SemLoc.dma cc0_scoped0.sem : SemLoc sig).isScoped .scVector = true; decide⟩
  have n01 : cI1 d L ≠ cI0 d L := by simp [cI0, cI1]; decide
  have n02 : cO0 d L ≠ cI0 d L := by simp [cI0, cO0]; decide
  have n03 : cO1 d L ≠ cI0 d L := by simp [cI0, cO1]; decide
  have n04 : cW d L ≠ cI0 d L := by simp [cI0, cW]; decide
  have n12 : cO0 d L ≠ cI1 d L := by simp [cI1, cO0]; decide
  have n13 : cO1 d L ≠ cI1 d L := by simp [cI1, cO1]; decide
  have n14 : cW d L ≠ cI1 d L := by simp [cI1, cW]; decide
  have n23 : cO1 d L ≠ cO0 d L := by simp [cO0, cO1]; decide
  have n24 : cW d L ≠ cO0 d L := by simp [cO0, cW]; decide
  have n34 : cW d L ≠ cO1 d L := by simp [cO1, cW]; decide
  rw [SparseCore.bigSep_erase' m0,
    SparseCore.bigSep_erase' (Finset.mem_erase.mpr ⟨n01, m1⟩),
    SparseCore.bigSep_erase' (Finset.mem_erase.mpr ⟨n12, Finset.mem_erase.mpr ⟨n02, m2⟩⟩),
    SparseCore.bigSep_erase' (Finset.mem_erase.mpr ⟨n23, Finset.mem_erase.mpr ⟨n13, Finset.mem_erase.mpr ⟨n03, m3⟩⟩⟩),
    SparseCore.bigSep_erase' (Finset.mem_erase.mpr ⟨n34, Finset.mem_erase.mpr ⟨n24, Finset.mem_erase.mpr ⟨n14, Finset.mem_erase.mpr ⟨n04, m4⟩⟩⟩⟩)]

abbrev restRefs : Finset (DevRef τ sig) :=
  (((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  unfold SparseCore.Cfg.ownBufs
  have own0 : (Proc.scVector (cV L) (jV L)).devRef cc0_scratch0 ∈ ownRefs (τ := τ) (.scVector (cV L) (jV L)) :=
    SparseCore.Cfg.mem_ownRefs_of_owner (p := Proc.scVector (cV L) (jV L)) (b := (Proc.scVector (cV L) (jV L)).devRef cc0_scratch0) rfl
  have own1 : (Proc.scVector (cV L) (jV L)).devRef cc0_scratch1 ∈ ownRefs (τ := τ) (.scVector (cV L) (jV L)) :=
    SparseCore.Cfg.mem_ownRefs_of_owner (p := Proc.scVector (cV L) (jV L)) (b := (Proc.scVector (cV L) (jV L)).devRef cc0_scratch1) rfl
  have own2 : (Proc.scVector (cV L) (jV L)).devRef cc0_scratch2 ∈ ownRefs (τ := τ) (.scVector (cV L) (jV L)) :=
    SparseCore.Cfg.mem_ownRefs_of_owner (p := Proc.scVector (cV L) (jV L)) (b := (Proc.scVector (cV L) (jV L)).devRef cc0_scratch2) rfl
  have own3 : (Proc.scVector (cV L) (jV L)).devRef cc0_scratch3 ∈ ownRefs (τ := τ) (.scVector (cV L) (jV L)) :=
    SparseCore.Cfg.mem_ownRefs_of_owner (p := Proc.scVector (cV L) (jV L)) (b := (Proc.scVector (cV L) (jV L)).devRef cc0_scratch3) rfl
  have own4 : (Proc.scVector (cV L) (jV L)).devRef cc0_scratch4 ∈ ownRefs (τ := τ) (.scVector (cV L) (jV L)) :=
    SparseCore.Cfg.mem_ownRefs_of_owner (p := Proc.scVector (cV L) (jV L)) (b := (Proc.scVector (cV L) (jV L)).devRef cc0_scratch4) rfl
  have ne : ∀ a b : Ref sig .scVector, a ≠ b → (Proc.scVector (cV L) (jV L)).devRef a ≠ (Proc.scVector (cV L) (jV L)).devRef b :=
    fun a b h e => h (Proc.devRef_injective _ e)
  refine (SparseCore.bigSep_erase' (own0)).trans ?_
  rw [SparseCore.bigSep_erase' (Finset.mem_erase.mpr ⟨ne cc0_scratch1 cc0_scratch0 (by decide), own1⟩),
    SparseCore.bigSep_erase' (Finset.mem_erase.mpr ⟨ne cc0_scratch2 cc0_scratch1 (by decide),
      Finset.mem_erase.mpr ⟨ne cc0_scratch2 cc0_scratch0 (by decide), own2⟩⟩),
    SparseCore.bigSep_erase' (Finset.mem_erase.mpr ⟨ne cc0_scratch3 cc0_scratch2 (by decide),
      Finset.mem_erase.mpr ⟨ne cc0_scratch3 cc0_scratch1 (by decide), Finset.mem_erase.mpr ⟨ne cc0_scratch3 cc0_scratch0 (by decide), own3⟩⟩⟩),
    SparseCore.bigSep_erase' (Finset.mem_erase.mpr ⟨ne cc0_scratch4 cc0_scratch3 (by decide),
      Finset.mem_erase.mpr ⟨ne cc0_scratch4 cc0_scratch2 (by decide), Finset.mem_erase.mpr ⟨ne cc0_scratch4 cc0_scratch1 (by decide),
        Finset.mem_erase.mpr ⟨ne cc0_scratch4 cc0_scratch0 (by decide), own4⟩⟩⟩⟩)]

omit [FloatOps F] in
theorem pts_x (q : PosShare TreeShare) (f : Buf (Elt F) (x5Loc d)) :
    ((xM).view.loc (V d (cV L) (jV L)) ↦{q} f : sProp 𝕄) = (x5Loc d ↦{q} f) := by
  first | rfl | simp only [Memref.view_whole, View.set_whole]
omit [FloatOps F] in
theorem pts_w (q : PosShare TreeShare) (f : Buf (Elt F) (w3Loc d)) :
    ((wM).view.loc (V d (cV L) (jV L)) ↦{q} f : sProp 𝕄) = (w3Loc d ↦{q} f) := by
  first | rfl | simp only [Memref.view_whole, View.set_whole]
omit [FloatOps F] in
theorem pts_o (q : PosShare TreeShare) (f : Buf (Elt F) (o8Loc d)) :
    ((oM).view.loc (V d (cV L) (jV L)) ↦{q} f : sProp 𝕄) = (o8Loc d ↦{q} f) := by
  first | rfl | simp only [Memref.view_whole, View.set_whole]
omit [FloatOps F] in
theorem pts_wv (f : Buf (Elt F) ((V d (cV L) (jV L)).loc cc0_scratch0)) :
    ((wvM).view.loc (V d (cV L) (jV L)) ↦{fullShare} f : sProp 𝕄) = ((V d (cV L) (jV L)).loc cc0_scratch0 ↦{fullShare} f) := rfl
omit [FloatOps F] in
theorem pts_xv0 (f : Buf (Elt F) ((V d (cV L) (jV L)).loc cc0_scratch1)) :
    ((xv0M).view.loc (V d (cV L) (jV L)) ↦{fullShare} f : sProp 𝕄) = ((V d (cV L) (jV L)).loc cc0_scratch1 ↦{fullShare} f) := rfl
omit [FloatOps F] in
theorem pts_xv1 (f : Buf (Elt F) ((V d (cV L) (jV L)).loc cc0_scratch2)) :
    ((xv1M).view.loc (V d (cV L) (jV L)) ↦{fullShare} f : sProp 𝕄) = ((V d (cV L) (jV L)).loc cc0_scratch2 ↦{fullShare} f) := rfl
omit [FloatOps F] in
theorem pts_ov0 (f : Buf (Elt F) ((V d (cV L) (jV L)).loc cc0_scratch3)) :
    ((ov0M).view.loc (V d (cV L) (jV L)) ↦{fullShare} f : sProp 𝕄) = ((V d (cV L) (jV L)).loc cc0_scratch3 ↦{fullShare} f) := rfl
omit [FloatOps F] in
theorem pts_ov1 (f : Buf (Elt F) ((V d (cV L) (jV L)).loc cc0_scratch4)) :
    ((ov1M).view.loc (V d (cV L) (jV L)) ↦{fullShare} f : sProp 𝕄) = ((V d (cV L) (jV L)).loc cc0_scratch4 ↦{fullShare} f) := rfl

omit [FloatOps F] in
theorem pts_ov0_set (f : Buf (Elt F) ((ov0M).view.loc (V d (cV L) (jV L)))) :
    ((ov0M).view.loc (V d (cV L) (jV L)) ↦[(ov0M).view.set]{fullShare} f : sProp 𝕄) = ((ov0M).view.loc (V d (cV L) (jV L)) ↦{fullShare} f) := by
  simp only [Memref.view_whole, View.set_whole]
omit [FloatOps F] in
theorem pts_ov1_set (f : Buf (Elt F) ((ov1M).view.loc (V d (cV L) (jV L)))) :
    ((ov1M).view.loc (V d (cV L) (jV L)) ↦[(ov1M).view.set]{fullShare} f : sProp 𝕄) = ((ov1M).view.loc (V d (cV L) (jV L)) ↦{fullShare} f) := by
  simp only [Memref.view_whole, View.set_whole]

end Tile

/-! ## Which groups of one parity are at rest -/

/-- the groups at rest before step `s`: every one but the one before -/
abbrev freeJ (s : ℕ) : Finset ℕ := (Finset.range 14).filter fun j => j + 1 ≠ s
/-- … and during it: neither that one nor the step's own -/
abbrev midJ (s : ℕ) : Finset ℕ := (Finset.range 14).filter fun j => j + 1 ≠ s ∧ j ≠ s

theorem freeJ_eq_insert {s : ℕ} (hs : s < 14) : freeJ s = insert s (midJ s) := by
  ext j; simp only [freeJ, midJ, Finset.mem_filter, Finset.mem_range, Finset.mem_insert]; omega
theorem not_mem_midJ (s : ℕ) : s ∉ midJ s := by
  simp only [midJ, Finset.mem_filter, Finset.mem_range]; omega
theorem freeJ_succ_pos {s : ℕ} (hs : 1 ≤ s) (hs' : s < 14) : freeJ (s + 1) = insert (s - 1) (midJ s) := by
  ext j; simp only [freeJ, midJ, Finset.mem_filter, Finset.mem_range, Finset.mem_insert]; omega
theorem pred_not_mem_midJ {s : ℕ} (hs : 1 ≤ s) : s - 1 ∉ midJ s := by
  simp only [midJ, Finset.mem_filter, Finset.mem_range]; omega
theorem freeJ_one : freeJ 1 = midJ 0 := by
  ext j; simp only [freeJ, midJ, Finset.mem_filter, Finset.mem_range]; omega
theorem freeJ_zero : freeJ 0 = Finset.range 14 := by
  ext j; simp only [freeJ, Finset.mem_filter, Finset.mem_range]; omega

theorem freeJ_succ_zero {s : ℕ} (hs : s = 0) : freeJ (s + 1) = midJ s := by subst hs; exact freeJ_one

section Tile2
variable (d : Dev nD) (L : grid0.Coords)

/-! ## The pipeline's state between two steps -/

/-- the counters of the local copies, in the machine's algebra -/
abbrev ECt : UEmb Counters (MT nD τ sig (HIx 1) (Elt F) ℕ UU ℕ) := countersEmb

/-- A copy of the input's rows `r` into the slot `xv` under way on `sm`: the rows' piece of the read token with the copy,
    the rest of the token beside it. -/
def InFl (xv : Memref sig .scVector .vmem S36x8x128 .f32) (sm : SemLoc sig) (q : PosShare TreeShare) (X5 : Buf (Elt F) (x5Loc d))
    (r : Rect S36x16384x128) (hr : ∀ a, r.stride a = 1) : sProp 𝕄 :=
  iprop((∃ fx : Buf (Elt F) (xv.view.loc (V d (cV L) (jV L))), Transfers.Flight (ECt (F := F)) (V d (cV L) (jV L)) sm default 1179648
      iprop((xv.view.loc (V d (cV L) (jV L)) ↦{fullShare} fx)
        ∗ ((xM).view.loc (V d (cV L) (jV L)) ↦[(((xM).slice r hr).view.set : Finset S36x16384x128.Idx)]{q} X5)))
    ∗ ((xM).view.loc (V d (cV L) (jV L)) ↦[Finset.univ \ (((xM).slice r hr).view.set : Finset S36x16384x128.Idx)]{q} X5))

omit [FloatOps F] in
theorem InFl_congr (xv : Memref sig .scVector .vmem S36x8x128 .f32) (sm : SemLoc sig) (q : PosShare TreeShare) (X5 : Buf (Elt F) (x5Loc d))
    {r r' : Rect S36x16384x128} (e : r = r') (hr : ∀ a, r.stride a = 1) (hr' : ∀ a, r'.stride a = 1) :
    InFl (F := F) d L xv sm q X5 r hr = InFl (F := F) d L xv sm q X5 r' hr' := by subst e; rfl

/-- An input slot before step `s`: the copy of rows `2s + r` into it under way, or, after the last step, the slot idle
    and the token whole. -/
def InSt (xv : Memref sig .scVector .vmem S36x8x128 .f32) (sm : SemLoc sig) (q : PosShare TreeShare) (X5 : Buf (Elt F) (x5Loc d)) (r s : ℕ) : sProp 𝕄 :=
  if s < 14 then InFl (F := F) d L xv sm q X5 (xRect L (2 * s + r)) (fun _ => rfl)
  else
    iprop(semVal ((V d (cV L) (jV L), sm) : GSem nD τ sig) 0 ∗ (∃ fx : Buf (Elt F) (xv.view.loc (V d (cV L) (jV L))), xv.view.loc (V d (cV L) (jV L)) ↦{fullShare} fx)
      ∗ ((xM).view.loc (V d (cV L) (jV L)) ↦{q} X5))

/-- the result's rows `r`, at some contents -/
def RowE (r : Rect S12x7168x128) (hr : ∀ a, r.stride a = 1) : sProp 𝕄 :=
  iprop(∃ f : Buf (Elt F) (((oM).slice r hr).view.loc (V d (cV L) (jV L))),
    ((oM).slice r hr).view.loc (V d (cV L) (jV L)) ↦[((oM).slice r hr).view.set]{fullShare} f)

omit [FloatOps F] in
theorem RowE_congr {r r' : Rect S12x7168x128} (e : r = r') (hr : ∀ a, r.stride a = 1) (hr' : ∀ a, r'.stride a = 1) :
    RowE (F := F) d L r hr = RowE (F := F) d L r' hr' := by subst e; rfl

/-- A copy of the slot `ov` out to the result's rows `r` under way on `sm`. -/
def OutFl (ov : Memref sig .scVector .vmem S12x8x128 .f32) (sm : SemLoc sig) (r : Rect S12x7168x128) (hr : ∀ a, r.stride a = 1) : sProp 𝕄 :=
  iprop(∃ (fo : Buf (Elt F) (ov.view.loc (V d (cV L) (jV L)))) (f : Buf (Elt F) (((oM).slice r hr).view.loc (V d (cV L) (jV L)))),
    Transfers.Flight (ECt (F := F)) (V d (cV L) (jV L)) sm default 393216
      iprop((((oM).slice r hr).view.loc (V d (cV L) (jV L)) ↦[((oM).slice r hr).view.set]{fullShare} f)
        ∗ (ov.view.loc (V d (cV L) (jV L)) ↦[ov.view.set]{fullShare} fo)))

omit [FloatOps F] in
theorem OutFl_congr (ov : Memref sig .scVector .vmem S12x8x128 .f32) (sm : SemLoc sig) {r r' : Rect S12x7168x128} (e : r = r')
    (hr : ∀ a, r.stride a = 1) (hr' : ∀ a, r'.stride a = 1) :
    OutFl (F := F) d L ov sm r hr = OutFl (F := F) d L ov sm r' hr' := by subst e; rfl

/-- An output slot before step `s`: every group of its parity but the one on its way, at some contents; the copy of
    group `2(s-1) + r` out of it under way, or, before the first step, the slot idle. -/
def OutSt (ov : Memref sig .scVector .vmem S12x8x128 .f32) (sm : SemLoc sig) (r s : ℕ) : sProp 𝕄 :=
  iprop((bigSep (freeJ s) fun j => RowE (F := F) d L (oRect L (2 * j + r)) (fun _ => rfl))
    ∗ (if s = 0 then iprop(semVal ((V d (cV L) (jV L), sm) : GSem nD τ sig) 0 ∗ ∃ fo : Buf (Elt F) (ov.view.loc (V d (cV L) (jV L))), ov.view.loc (V d (cV L) (jV L)) ↦{fullShare} fo)
       else OutFl (F := F) d L ov sm (oRect L (2 * (s - 1) + r)) (fun _ => rfl)))

/-- Before step `s`: the weights in place, both input copies under way, both output copies of the step before under
    way, what the tile may wait for, what it owes. -/
def inv (q5 : PosShare TreeShare) (X5 : Buf (Elt F) (x5Loc d))
    (O : CellTallies nD τ sig (HIx 1)) (W : Waits sig (HIx 1)) (s : ℕ) (_ : BitVec 32) : sProp 𝕄 :=
  iprop(Transfers.MayWaits (V d (cV L) (jV L)) (none : HIx 1) O
    ∗ (∃ fw : Buf (Elt F) ((V d (cV L) (jV L)).loc cc0_scratch0), (wvM).view.loc (V d (cV L) (jV L)) ↦{fullShare} fw)
    ∗ InSt (F := F) d L xv0M (SemLoc.dma cc0_scratch5.sem) (Transfers.shareTokN q5 0) X5 0 s
    ∗ InSt (F := F) d L xv1M (SemLoc.dma cc0_scratch6.sem) (Transfers.shareTokN q5 1) X5 1 s
    ∗ OutSt (F := F) d L ov0M (SemLoc.dma cc0_scratch7.sem) 0 s
    ∗ OutSt (F := F) d L ov1M (SemLoc.dma cc0_scratch8.sem) 1 s
    ∗ ∃ W', ⌜∀ p ∈ W', p ∈ W ∨ p.2 = none⌝ ∗ owes (V d (cV L) (jV L)) O W')

set_option maxHeartbeats 4000000 in
/-- One step of the pipeline. -/
theorem trip (q5 : PosShare TreeShare) (X5 : Buf (Elt F) (x5Loc d))
    (O : CellTallies nD τ sig (HIx 1)) (W : Waits sig (HIx 1)) (v3 v4 : BitVec 32) (k : Fin k0_t1_loop.trips) (acc : BitVec 32) :
    inv (F := F) d L q5 X5 O W k.val acc
      ⊢ wp frame (wpE (defs₀ (F := F)) 𝒱₀ (V d (cV L) (jV L)) none) Set.univ
          (k0_t1_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 v3 v4 k acc)
          (inv (F := F) d L q5 X5 O W (k.val + 1)) := by
  have hk : k.val < 14 := k.isLt
  unfold k0_t1_body
  rw [k0_part139_eq_skeleton]; unfold k0_part139_skel
  have e1 : xRect L (2 * k.val + 0) = Rect.unit (s := S36x16384x128) (k0_off2 L k 0#32) S36x8x128.size (k0_off2_inb L k 0) :=
    rectUnit_congr (off2_x L k 0).symm _ _
  have e2 : xRect L (2 * k.val + 1) = Rect.unit (s := S36x16384x128) (k0_off2 L k 1#32) S36x8x128.size (k0_off2_inb L k 1) :=
    rectUnit_congr (off2_x L k 1).symm _ _
  have e3 : oRect L (2 * k.val + 0) = Rect.unit (s := S12x7168x128) (k0_off388 L k 0#32) S12x8x128.size (k0_off388_inb L k 0) :=
    rectUnit_congr (off388_o L k 0).symm _ _
  have e4 : oRect L (2 * k.val + 1) = Rect.unit (s := S12x7168x128) (k0_off388 L k 1#32) S12x8x128.size (k0_off388_inb L k 1) :=
    rectUnit_congr (off388_o L k 1).symm _ _
  have e3' : oRect L (2 * (k.val + 1 - 1) + 0) = Rect.unit (s := S12x7168x128) (k0_off388 L k 0#32) S12x8x128.size (k0_off388_inb L k 0) := e3
  have e4' : oRect L (2 * (k.val + 1 - 1) + 1) = Rect.unit (s := S12x7168x128) (k0_off388 L k 1#32) S12x8x128.size (k0_off388_inb L k 1) := e4

  by_cases hk0 : 1 ≤ k.val
  · by_cases hk13 : k.val < 13
    · -- a middle step: both output copies of the step before are waited for, both prefetches issued
      have h1 := (cond1_iff k).mpr hk0
      have h3 := (cond3_iff k).mpr hk0
      have h2 := (cond2_iff k).mpr hk13
      have h4 := (cond4_iff k).mpr hk13
      have e5 : oRect L (2 * (k.val - 1) + 0) = Rect.unit (s := S12x7168x128) (k0_off3 L k) S12x8x128.size (k0_off3_inb L k h1) :=
        rectUnit_congr (off3_o' L k h1).symm _ _
      have e6 : oRect L (2 * (k.val - 1) + 1) = Rect.unit (s := S12x7168x128) (k0_off390 L k) S12x8x128.size (k0_off390_inb L k h3) :=
        rectUnit_congr (off390_o' L k h3).symm _ _
      have e7 : xRect L (2 * (k.val + 1) + 0) = Rect.unit (s := S36x16384x128) (k0_off389 L k) S36x8x128.size (k0_off389_inb L k h2) :=
        rectUnit_congr (off389_x L k h2).symm _ _
      have e8 : xRect L (2 * (k.val + 1) + 1) = Rect.unit (s := S36x16384x128) (k0_off775 L k) S36x8x128.size (k0_off775_inb L k h4) :=
        rectUnit_congr (off775_x L k h4).symm _ _
      unfold inv InSt OutSt
      rw [if_pos hk, if_pos hk, if_neg (show ¬ k.val = 0 by omega), if_neg (show ¬ k.val = 0 by omega),
        if_pos (show k.val + 1 < 14 by omega), if_pos (show k.val + 1 < 14 by omega), if_neg (Nat.succ_ne_zero k.val), if_neg (Nat.succ_ne_zero k.val)]
      rw [freeJ_eq_insert hk, freeJ_succ_pos hk0 hk,
        SparseCore.bigSep_insert' (not_mem_midJ k.val) (Φ := fun j => RowE (F := F) d L (oRect L (2 * j + 0)) (fun _ => rfl)),
        SparseCore.bigSep_insert' (not_mem_midJ k.val) (Φ := fun j => RowE (F := F) d L (oRect L (2 * j + 1)) (fun _ => rfl)),
        SparseCore.bigSep_insert' (pred_not_mem_midJ hk0) (Φ := fun j => RowE (F := F) d L (oRect L (2 * j + 0)) (fun _ => rfl)),
        SparseCore.bigSep_insert' (pred_not_mem_midJ hk0) (Φ := fun j => RowE (F := F) d L (oRect L (2 * j + 1)) (fun _ => rfl))]
      rw [InFl_congr (F := F) d L _ _ _ _ e1 (fun _ => rfl) (fun _ => rfl),
        InFl_congr (F := F) d L _ _ _ _ e2 (fun _ => rfl) (fun _ => rfl),
        InFl_congr (F := F) d L _ _ _ _ e7 (fun _ => rfl) (fun _ => rfl),
        InFl_congr (F := F) d L _ _ _ _ e8 (fun _ => rfl) (fun _ => rfl),
        OutFl_congr (F := F) d L _ _ e5 (fun _ => rfl) (fun _ => rfl),
        OutFl_congr (F := F) d L _ _ e6 (fun _ => rfl) (fun _ => rfl),
        OutFl_congr (F := F) d L _ _ e3' (fun _ => rfl) (fun _ => rfl),
        OutFl_congr (F := F) d L _ _ e4' (fun _ => rfl) (fun _ => rfl),
        RowE_congr (F := F) d L e3 (fun _ => rfl) (fun _ => rfl),
        RowE_congr (F := F) d L e4 (fun _ => rfl) (fun _ => rfl),
        RowE_congr (F := F) d L e5 (fun _ => rfl) (fun _ => rfl),
        RowE_congr (F := F) d L e6 (fun _ => rfl) (fun _ => rfl)]
      unfold InFl OutFl
      iintro ⟨#Hmw, ⟨%fw, Hwv⟩, ⟨⟨%fx0, HfI0⟩, Hx0⟩, ⟨⟨%fx1, HfI1⟩, Hx1⟩, ⟨⟨Hrow0, Hmid0⟩, %fo0, %fr0, HfO0⟩, ⟨⟨Hrow1, Hmid1⟩, %fo1, %fr1, HfO1⟩, %W', %hW', HO⟩
      ihave Hrow0 := (Entails.of_eq (by unfold RowE; rfl)) $$ Hrow0
      icases Hrow0 with ⟨%fr0k, Hrow0⟩
      ihave Hrow1 := (Entails.of_eq (by unfold RowE; rfl)) $$ Hrow1
      icases Hrow1 with ⟨%fr1k, Hrow1⟩
      sl_exec
      ihave Hov0 := (Entails.of_eq (pts_ov0_set (F := F) d L _)) $$ HfO0_src
      rw [Prog.bind_assoc]
      sl_for (fun _ _ => CompRes0 (F := F) d L fx0 fw) $$ [HfI0_dst Hwv Hov0]
      case region => intro k2 acc2; exact compute0 (F := F) d L fx0 fw _ _ _ _ _ k2 acc2
      · isplitl [HfI0_dst]; · iexact HfI0_dst
        isplitl [Hwv]; · iexact Hwv
        iexists _; iexact Hov0
      iintro %acc2 HC
      icases HC with ⟨Hxv0, Hwv, %fo0', Hov0⟩
      ihave Hov0 := (Entails.of_eq (pts_ov0_set (F := F) d L _).symm) $$ Hov0
      sl_exec
      ihave Hov1 := (Entails.of_eq (pts_ov1_set (F := F) d L _)) $$ HfO1_src
      sl_for (fun _ _ => CompRes1 (F := F) d L fx1 fw) $$ [HfI1_dst Hwv Hov1]
      case region => intro k2 acc3; exact compute1 (F := F) d L fx1 fw k2 acc3
      · isplitl [HfI1_dst]; · iexact HfI1_dst
        isplitl [Hwv]; · iexact Hwv
        iexists _; iexact Hov1
      iintro %acc3 HC
      icases HC with ⟨Hxv1, Hwv, %fo1', Hov1⟩
      ihave Hov1 := (Entails.of_eq (pts_ov1_set (F := F) d L _).symm) $$ Hov1
      sl_exec
      sl_step
      isplitl []; · iexact Hmw
      isplitl [Hwv]; · iexists _; iexact Hwv
      isplitl [HfI0 Hx0]
      · isplitl [HfI0]; · iexists _; iexact HfI0
        iexact Hx0
      isplitl [HfI1 Hx1]
      · isplitl [HfI1]; · iexists _; iexact HfI1
        iexact Hx1
      isplitl [HfO0_dst Hmid0 HfO0]
      · isplitl [HfO0_dst Hmid0]
        · isplitl [HfO0_dst]
          · unfold RowE; iexists _; iexact HfO0_dst
          · iexact Hmid0
        · iexists _; iexists _; iexact HfO0
      isplitl [HfO1_dst Hmid1 HfO1]
      · isplitl [HfO1_dst Hmid1]
        · isplitl [HfO1_dst]
          · unfold RowE; iexists _; iexact HfO1_dst
          · iexact Hmid1
        · iexists _; iexists _; iexact HfO1
      iexists _
      isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        exact hW' p hp

    · -- the last step: no prefetch
      have h1 := (cond1_iff k).mpr hk0
      have h3 := (cond3_iff k).mpr hk0
      have h2 : ¬ k0_cond2 k = 1#1 := fun h => by have := (cond2_iff k).mp h; omega
      have h4 : ¬ k0_cond4 k = 1#1 := fun h => by have := (cond4_iff k).mp h; omega
      have e5 : oRect L (2 * (k.val - 1) + 0) = Rect.unit (s := S12x7168x128) (k0_off3 L k) S12x8x128.size (k0_off3_inb L k h1) :=
        rectUnit_congr (off3_o' L k h1).symm _ _
      have e6 : oRect L (2 * (k.val - 1) + 1) = Rect.unit (s := S12x7168x128) (k0_off390 L k) S12x8x128.size (k0_off390_inb L k h3) :=
        rectUnit_congr (off390_o' L k h3).symm _ _
      unfold inv InSt OutSt
      rw [if_pos hk, if_pos hk, if_neg (show ¬ k.val = 0 by omega), if_neg (show ¬ k.val = 0 by omega),
        if_neg (show ¬ k.val + 1 < 14 by omega), if_neg (show ¬ k.val + 1 < 14 by omega), if_neg (Nat.succ_ne_zero k.val), if_neg (Nat.succ_ne_zero k.val)]
      rw [freeJ_eq_insert hk, freeJ_succ_pos hk0 hk,
        SparseCore.bigSep_insert' (not_mem_midJ k.val) (Φ := fun j => RowE (F := F) d L (oRect L (2 * j + 0)) (fun _ => rfl)),
        SparseCore.bigSep_insert' (not_mem_midJ k.val) (Φ := fun j => RowE (F := F) d L (oRect L (2 * j + 1)) (fun _ => rfl)),
        SparseCore.bigSep_insert' (pred_not_mem_midJ hk0) (Φ := fun j => RowE (F := F) d L (oRect L (2 * j + 0)) (fun _ => rfl)),
        SparseCore.bigSep_insert' (pred_not_mem_midJ hk0) (Φ := fun j => RowE (F := F) d L (oRect L (2 * j + 1)) (fun _ => rfl))]
      rw [InFl_congr (F := F) d L _ _ _ _ e1 (fun _ => rfl) (fun _ => rfl),
        InFl_congr (F := F) d L _ _ _ _ e2 (fun _ => rfl) (fun _ => rfl),
        OutFl_congr (F := F) d L _ _ e5 (fun _ => rfl) (fun _ => rfl),
        OutFl_congr (F := F) d L _ _ e6 (fun _ => rfl) (fun _ => rfl),
        OutFl_congr (F := F) d L _ _ e3' (fun _ => rfl) (fun _ => rfl),
        OutFl_congr (F := F) d L _ _ e4' (fun _ => rfl) (fun _ => rfl),
        RowE_congr (F := F) d L e3 (fun _ => rfl) (fun _ => rfl),
        RowE_congr (F := F) d L e4 (fun _ => rfl) (fun _ => rfl),
        RowE_congr (F := F) d L e5 (fun _ => rfl) (fun _ => rfl),
        RowE_congr (F := F) d L e6 (fun _ => rfl) (fun _ => rfl)]
      unfold InFl OutFl
      iintro ⟨#Hmw, ⟨%fw, Hwv⟩, ⟨⟨%fx0, HfI0⟩, Hx0⟩, ⟨⟨%fx1, HfI1⟩, Hx1⟩, ⟨⟨Hrow0, Hmid0⟩, %fo0, %fr0, HfO0⟩, ⟨⟨Hrow1, Hmid1⟩, %fo1, %fr1, HfO1⟩, %W', %hW', HO⟩
      ihave Hrow0 := (Entails.of_eq (by unfold RowE; rfl)) $$ Hrow0
      icases Hrow0 with ⟨%fr0k, Hrow0⟩
      ihave Hrow1 := (Entails.of_eq (by unfold RowE; rfl)) $$ Hrow1
      icases Hrow1 with ⟨%fr1k, Hrow1⟩
      sl_exec
      ihave Hov0 := (Entails.of_eq (pts_ov0_set (F := F) d L _)) $$ HfO0_src
      rw [Prog.bind_assoc]
      sl_for (fun _ _ => CompRes0 (F := F) d L fx0 fw) $$ [HfI0_dst Hwv Hov0]
      case region => intro k2 acc2; exact compute0 (F := F) d L fx0 fw _ _ _ _ _ k2 acc2
      · isplitl [HfI0_dst]; · iexact HfI0_dst
        isplitl [Hwv]; · iexact Hwv
        iexists _; iexact Hov0
      iintro %acc2 HC
      icases HC with ⟨Hxv0, Hwv, %fo0', Hov0⟩
      ihave Hov0 := (Entails.of_eq (pts_ov0_set (F := F) d L _).symm) $$ Hov0
      sl_exec
      ihave Hov1 := (Entails.of_eq (pts_ov1_set (F := F) d L _)) $$ HfO1_src
      sl_for (fun _ _ => CompRes1 (F := F) d L fx1 fw) $$ [HfI1_dst Hwv Hov1]
      case region => intro k2 acc3; exact compute1 (F := F) d L fx1 fw k2 acc3
      · isplitl [HfI1_dst]; · iexact HfI1_dst
        isplitl [Hwv]; · iexact Hwv
        iexists _; iexact Hov1
      iintro %acc3 HC
      icases HC with ⟨Hxv1, Hwv, %fo1', Hov1⟩
      ihave Hov1 := (Entails.of_eq (pts_ov1_set (F := F) d L _).symm) $$ Hov1
      sl_exec
      sl_step
      isplitl []; · iexact Hmw
      isplitl [Hwv]; · iexists _; iexact Hwv
      isplitl [HfI0 Hxv0 Hx0]
      · isplitl [HfI0]; · iexact HfI0
        isplitl [Hxv0]; · iexists _; iexact Hxv0
        iexact Hx0
      isplitl [HfI1 Hxv1 Hx1]
      · isplitl [HfI1]; · iexact HfI1
        isplitl [Hxv1]; · iexists _; iexact Hxv1
        iexact Hx1
      isplitl [HfO0_dst Hmid0 HfO0]
      · isplitl [HfO0_dst Hmid0]
        · isplitl [HfO0_dst]
          · unfold RowE; iexists _; iexact HfO0_dst
          · iexact Hmid0
        · iexists _; iexists _; iexact HfO0
      isplitl [HfO1_dst Hmid1 HfO1]
      · isplitl [HfO1_dst Hmid1]
        · isplitl [HfO1_dst]
          · unfold RowE; iexists _; iexact HfO1_dst
          · iexact Hmid1
        · iexists _; iexists _; iexact HfO1
      iexists _
      isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        exact hW' p hp

  · -- the first step: no output copy is under way yet
    have hk00 : k.val = 0 := by omega
    have hk13 : k.val < 13 := by omega
    have h1 : ¬ k0_cond1 k = 1#1 := fun h => by have := (cond1_iff k).mp h; omega
    have h3 : ¬ k0_cond3 k = 1#1 := fun h => by have := (cond3_iff k).mp h; omega
    have h2 := (cond2_iff k).mpr hk13
    have h4 := (cond4_iff k).mpr hk13
    have e7 : xRect L (2 * (k.val + 1) + 0) = Rect.unit (s := S36x16384x128) (k0_off389 L k) S36x8x128.size (k0_off389_inb L k h2) :=
      rectUnit_congr (off389_x L k h2).symm _ _
    have e8 : xRect L (2 * (k.val + 1) + 1) = Rect.unit (s := S36x16384x128) (k0_off775 L k) S36x8x128.size (k0_off775_inb L k h4) :=
      rectUnit_congr (off775_x L k h4).symm _ _
    unfold inv InSt OutSt
    rw [if_pos hk, if_pos hk, if_pos hk00, if_pos hk00,
      if_pos (show k.val + 1 < 14 by omega), if_pos (show k.val + 1 < 14 by omega), if_neg (Nat.succ_ne_zero k.val), if_neg (Nat.succ_ne_zero k.val)]
    rw [freeJ_eq_insert hk, freeJ_succ_zero hk00,
      SparseCore.bigSep_insert' (not_mem_midJ k.val) (Φ := fun j => RowE (F := F) d L (oRect L (2 * j + 0)) (fun _ => rfl)),
      SparseCore.bigSep_insert' (not_mem_midJ k.val) (Φ := fun j => RowE (F := F) d L (oRect L (2 * j + 1)) (fun _ => rfl))]
    rw [InFl_congr (F := F) d L _ _ _ _ e1 (fun _ => rfl) (fun _ => rfl),
      InFl_congr (F := F) d L _ _ _ _ e2 (fun _ => rfl) (fun _ => rfl),
      InFl_congr (F := F) d L _ _ _ _ e7 (fun _ => rfl) (fun _ => rfl),
      InFl_congr (F := F) d L _ _ _ _ e8 (fun _ => rfl) (fun _ => rfl),
      OutFl_congr (F := F) d L _ _ e3' (fun _ => rfl) (fun _ => rfl),
      OutFl_congr (F := F) d L _ _ e4' (fun _ => rfl) (fun _ => rfl),
      RowE_congr (F := F) d L e3 (fun _ => rfl) (fun _ => rfl),
      RowE_congr (F := F) d L e4 (fun _ => rfl) (fun _ => rfl)]
    unfold InFl OutFl
    iintro ⟨#Hmw, ⟨%fw, Hwv⟩, ⟨⟨%fx0, HfI0⟩, Hx0⟩, ⟨⟨%fx1, HfI1⟩, Hx1⟩, ⟨⟨Hrow0, Hmid0⟩, HfO0, %fo0, Hov0⟩, ⟨⟨Hrow1, Hmid1⟩, HfO1, %fo1, Hov1⟩, %W', %hW', HO⟩
    ihave Hrow0 := (Entails.of_eq (by unfold RowE; rfl)) $$ Hrow0
    icases Hrow0 with ⟨%fr0k, Hrow0⟩
    ihave Hrow1 := (Entails.of_eq (by unfold RowE; rfl)) $$ Hrow1
    icases Hrow1 with ⟨%fr1k, Hrow1⟩
    sl_exec
    rw [Prog.bind_assoc]
    sl_for (fun _ _ => CompRes0 (F := F) d L fx0 fw) $$ [HfI0_dst Hwv Hov0]
    case region => intro k2 acc2; exact compute0 (F := F) d L fx0 fw _ _ _ _ _ k2 acc2
    · isplitl [HfI0_dst]; · iexact HfI0_dst
      isplitl [Hwv]; · iexact Hwv
      iexists _; iexact Hov0
    iintro %acc2 HC
    icases HC with ⟨Hxv0, Hwv, %fo0', Hov0⟩
    ihave Hov0 := (Entails.of_eq (pts_ov0_set (F := F) d L _).symm) $$ Hov0
    sl_exec
    sl_for (fun _ _ => CompRes1 (F := F) d L fx1 fw) $$ [HfI1_dst Hwv Hov1]
    case region => intro k2 acc3; exact compute1 (F := F) d L fx1 fw k2 acc3
    · isplitl [HfI1_dst]; · iexact HfI1_dst
      isplitl [Hwv]; · iexact Hwv
      iexists _; iexact Hov1
    iintro %acc3 HC
    icases HC with ⟨Hxv1, Hwv, %fo1', Hov1⟩
    ihave Hov1 := (Entails.of_eq (pts_ov1_set (F := F) d L _).symm) $$ Hov1
    sl_exec
    sl_step
    isplitl []; · iexact Hmw
    isplitl [Hwv]; · iexists _; iexact Hwv
    isplitl [HfI0 Hx0]
    · isplitl [HfI0]; · iexists _; iexact HfI0
      iexact Hx0
    isplitl [HfI1 Hx1]
    · isplitl [HfI1]; · iexists _; iexact HfI1
      iexact Hx1
    isplitl [Hmid0 HfO0]
    · isplitl [Hmid0]; · iexact Hmid0
      iexists _; iexists _; iexact HfO0
    isplitl [Hmid1 HfO1]
    · isplitl [Hmid1]; · iexact Hmid1
      iexists _; iexists _; iexact HfO1
    iexists _
    isplitr
    rotate_left
    · iexact HO
    · ipureintro; intro p hp
      rcases Finset.mem_insert.mp hp with rfl | hp
      · exact .inr rfl
      rcases Finset.mem_insert.mp hp with rfl | hp
      · exact .inr rfl
      exact hW' p hp

end Tile2
end Cert.Kernel.Pf
end
-- ==== Proof.BTile.lean ====
/-
  A vector subcore's task of the one SparseCore call: the weights are copied into the tile's scratch; the tile's 28
  groups of 8 rows go through two input slots and two output slots, the copy into a slot under way while the other
  slot is computed on and the copy out of an output slot under way while the other is written; every copy is the
  only one outstanding on its semaphore and nothing touches its two ends while it is under way. At this level the
  claim is that the task runs to its end: the read shares of the two operands come back whole and the tile's rows
  of the result hold what the copies out left.
-/
import proofs.«203732_g20581483283120_cont_8to1_285_17_alg».proof.Proof.BTileTrip
import Idealize.ShloMosaic.Lib.Ring

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile3
variable (d : Dev nD) (L : grid0.Coords)

/-! ## The tile's task -/

omit [FloatOps F] in
/-- A read share as two tokens — one per input slot's copies — and the rest. -/
theorem toks2_split (ℓ : Loc nD τ sig) (q : PosShare TreeShare) (f : Buf (Elt F) ℓ) :
    (ℓ ↦{q} f : sProp 𝕄) ⊢ iprop((ℓ ↦{Transfers.shareDrop q 2} f) ∗ (ℓ ↦{Transfers.shareTokN q 0} f) ∗ (ℓ ↦{Transfers.shareTokN q 1} f)) := by
  have hs0 : (ℓ ↦{Transfers.shareDrop q 0} f : sProp 𝕄) ⊣⊢ iprop((ℓ ↦{Transfers.shareDrop q 1} f) ∗ ℓ ↦{Transfers.shareTokN q 0} f) :=
    pointsTo_share (PosShare.mem_left_op_right _)
  have hs1 : (ℓ ↦{Transfers.shareDrop q 1} f : sProp 𝕄) ⊣⊢ iprop((ℓ ↦{Transfers.shareDrop q 2} f) ∗ ℓ ↦{Transfers.shareTokN q 1} f) :=
    pointsTo_share (PosShare.mem_left_op_right _)
  have h : iprop(((ℓ ↦{Transfers.shareDrop q 2} f) ∗ ℓ ↦{Transfers.shareTokN q 1} f) ∗ ℓ ↦{Transfers.shareTokN q 0} f)
      ⊢ (iprop((ℓ ↦{Transfers.shareDrop q 2} f) ∗ (ℓ ↦{Transfers.shareTokN q 0} f) ∗ (ℓ ↦{Transfers.shareTokN q 1} f)) : sProp 𝕄) := by
    iintro ⟨⟨Hd, H1⟩, H0⟩
    isplitl [Hd]; · iexact Hd
    isplitl [H0]; · iexact H0
    iexact H1
  exact BI.Entails.trans hs0.1 (BI.Entails.trans (sep_mono_left hs1.1) h)

omit [FloatOps F] in
theorem toks2_join (ℓ : Loc nD τ sig) (q : PosShare TreeShare) (f : Buf (Elt F) ℓ) :
    iprop((ℓ ↦{Transfers.shareDrop q 2} f) ∗ (ℓ ↦{Transfers.shareTokN q 0} f) ∗ (ℓ ↦{Transfers.shareTokN q 1} f)) ⊢ (ℓ ↦{q} f : sProp 𝕄) := by
  have hs0 : (ℓ ↦{Transfers.shareDrop q 0} f : sProp 𝕄) ⊣⊢ iprop((ℓ ↦{Transfers.shareDrop q 1} f) ∗ ℓ ↦{Transfers.shareTokN q 0} f) :=
    pointsTo_share (PosShare.mem_left_op_right _)
  have hs1 : (ℓ ↦{Transfers.shareDrop q 1} f : sProp 𝕄) ⊣⊢ iprop((ℓ ↦{Transfers.shareDrop q 2} f) ∗ ℓ ↦{Transfers.shareTokN q 1} f) :=
    pointsTo_share (PosShare.mem_left_op_right _)
  have h : (iprop((ℓ ↦{Transfers.shareDrop q 2} f) ∗ (ℓ ↦{Transfers.shareTokN q 0} f) ∗ (ℓ ↦{Transfers.shareTokN q 1} f)) : sProp 𝕄)
      ⊢ iprop(((ℓ ↦{Transfers.shareDrop q 2} f) ∗ ℓ ↦{Transfers.shareTokN q 1} f) ∗ ℓ ↦{Transfers.shareTokN q 0} f) := by
    iintro ⟨Hd, H0, H1⟩
    isplitl [Hd H1]
    · isplitl [Hd]; · iexact Hd
      iexact H1
    · iexact H0
  exact BI.Entails.trans h (BI.Entails.trans (sep_mono_left hs1.2) hs0.2)

omit [FloatOps F] in
theorem pts_oRow (g : ℕ) (f : Buf (Elt F) (o8Loc d)) :
    (((oM).slice (oRect L g) (fun _ => rfl)).view.loc (V d (cV L) (jV L)) ↦[((oM).slice (oRect L g) (fun _ => rfl)).view.set]{fullShare} f : sProp 𝕄)
      = (o8Loc d ↦[oRowSet L g]{fullShare} f) := rfl

omit [FloatOps F] in
theorem row_in1 (g : ℕ) (f8 : Buf (Elt F) (o8Loc d)) :
    (o8Loc d ↦[oRowSet L g]{fullShare} f8 : sProp 𝕄) ⊢ RowE (F := F) d L (oRect L g) (fun _ => rfl) := by
  unfold RowE; iintro H; iexists f8; iapply (Entails.of_eq (pts_oRow (F := F) d L g f8).symm); iexact H

omit [FloatOps F] in
theorem row_out1 (g : ℕ) :
    RowE (F := F) d L (oRect L g) (fun _ => rfl) ⊢ (iprop(∃ f : Buf (Elt F) (o8Loc d), o8Loc d ↦[oRowSet L g]{fullShare} f) : sProp 𝕄) := by
  unfold RowE; iintro ⟨%f, H⟩; iexists f; iapply (Entails.of_eq (pts_oRow (F := F) d L g f)); iexact H

omit [FloatOps F] in
/-- the tile's rows, each group at some contents -/
theorem rows_in (f8 : Buf (Elt F) (o8Loc d)) :
    (bigSep (Finset.range 28) fun g => (o8Loc d ↦[oRowSet L g]{fullShare} f8 : sProp 𝕄))
      ⊢ bigSep (Finset.range 28) fun g => RowE (F := F) d L (oRect L g) (fun _ => rfl) :=
  BI.bigSep_mono fun g _ => row_in1 (F := F) d L g f8

omit [FloatOps F] in
theorem rows_out :
    (bigSep (Finset.range 28) fun g => RowE (F := F) d L (oRect L g) (fun _ => rfl))
      ⊢ bigSep (Finset.range 28) fun g => (iprop(∃ f : Buf (Elt F) (o8Loc d), o8Loc d ↦[oRowSet L g]{fullShare} f) : sProp 𝕄) :=
  BI.bigSep_mono fun g _ => row_out1 (F := F) d L g

theorem freeJ_last : freeJ 14 = Finset.range 13 := by
  ext j; simp only [freeJ, Finset.mem_filter, Finset.mem_range]; omega

omit [FloatOps F] in
/-- the 28 groups by parity -/
theorem rows_parity :
    (bigSep (Finset.range 28) fun g => RowE (F := F) d L (oRect L g) (fun _ => rfl))
      = iprop((bigSep (Finset.range 14) fun j => RowE (F := F) d L (oRect L (2 * j + 0)) (fun _ => rfl))
          ∗ bigSep (Finset.range 14) fun j => RowE (F := F) d L (oRect L (2 * j + 1)) (fun _ => rfl)) :=
  Ring.bigSep_range_deinterleave 14 (fun g => RowE (F := F) d L (oRect L g) (fun _ => rfl))

omit [FloatOps F] in
theorem rows_split :
    (bigSep (Finset.range 28) fun g => RowE (F := F) d L (oRect L g) (fun _ => rfl))
      ⊢ iprop((bigSep (Finset.range 14) fun j => RowE (F := F) d L (oRect L (2 * j + 0)) (fun _ => rfl))
          ∗ bigSep (Finset.range 14) fun j => RowE (F := F) d L (oRect L (2 * j + 1)) (fun _ => rfl)) :=
  Entails.of_eq (rows_parity (F := F) d L)

omit [FloatOps F] in
theorem rows_unsplit :
    iprop((bigSep (Finset.range 14) fun j => RowE (F := F) d L (oRect L (2 * j + 0)) (fun _ => rfl))
          ∗ bigSep (Finset.range 14) fun j => RowE (F := F) d L (oRect L (2 * j + 1)) (fun _ => rfl))
      ⊢ (bigSep (Finset.range 28) fun g => RowE (F := F) d L (oRect L g) (fun _ => rfl)) :=
  Entails.of_eq (rows_parity (F := F) d L).symm

omit [FloatOps F] in
/-- the last group of a parity put back among the others -/
theorem rows14 (r : ℕ) :
    iprop(RowE (F := F) d L (oRect L (2 * 13 + r)) (fun _ => rfl) ∗ bigSep (Finset.range 13) fun j => RowE (F := F) d L (oRect L (2 * j + r)) (fun _ => rfl))
      ⊢ bigSep (Finset.range 14) fun j => RowE (F := F) d L (oRect L (2 * j + r)) (fun _ => rfl) := by
  rw [show Finset.range 14 = insert 13 (Finset.range 13) from Finset.range_add_one, SparseCore.bigSep_insert' Finset.notMem_range_self]

set_option maxHeartbeats 4000000 in
/-- A tile's task: the weights copied in, the double-buffered pipeline over its 28 groups of rows, the last two copies
    out waited for; the read shares come back, the rows at what the copies left. -/
theorem tile_body (hF : (K (F := F)).Facts) (X5 : Buf (Elt F) (x5Loc d)) (W3 : Buf (Elt F) (w3Loc d)) (f8 : Buf (Elt F) (o8Loc d))
    (O : CellTallies nD τ sig (HIx 1)) (W : Waits sig (HIx 1)) (hO : ∀ g, O g none = 0) :
    iprop(levAts (K (F := F)).L (K (F := F)).lev ∗ emp ∗ tileGoL (F := F) d X5 W3 f8 L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_agg_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0)
          fun _ => iprop(tileTdL (F := F) d X5 W3 L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_agg_body_eq_skeleton]; unfold cc0__sc_agg_body_skel
  rw [(K (F := F)).scopedBufs_V hF d (cV L) (jV L), SparseCore.Cfg.scopedSems0_V (Val := Elt F) d (cV L) (jV L), ownSems0_V, ownBufs_V]
  unfold tileGoL tileTdL
  iintro ⟨#Hlv, -, ⟨Hx, Hw, Hrows⟩, ⟨⟨%fwv, Hwv⟩, ⟨%fx0, Hxv0⟩, ⟨%fx1, Hxv1⟩, ⟨%fo0, Hov0⟩, ⟨%fo1, Hov1⟩, Hbufs⟩, ⟨HsI0, HsI1, HsO0, HsO1, HsW, Hsems⟩, HO⟩
  ihave Hmw := ((K (F := F)).mayWaits_none (thr := V d (cV L) (jV L)) hO) $$ Hlv
  -- the input's read share: a token per input slot, the rest aside
  ihave Hx := (toks2_split (F := F) (x5Loc d) (tileShare (wid L)) X5) $$ Hx
  icases Hx with ⟨Hxr, Hx0, Hx1⟩
  ihave Hx0 := (Entails.of_eq (pts_x (F := F) d L _ _).symm) $$ Hx0
  ihave Hx1 := (Entails.of_eq (pts_x (F := F) d L _ _).symm) $$ Hx1
  ihave Hw := (Entails.of_eq (pts_w (F := F) d L _ _).symm) $$ Hw
  ihave Hwv := (Entails.of_eq (pts_wv (F := F) d L _).symm) $$ Hwv
  ihave Hxv0 := (Entails.of_eq (pts_xv0 (F := F) d L _).symm) $$ Hxv0
  ihave Hxv1 := (Entails.of_eq (pts_xv1 (F := F) d L _).symm) $$ Hxv1
  ihave Hov0 := (Entails.of_eq (pts_ov0 (F := F) d L _).symm) $$ Hov0
  ihave Hov1 := (Entails.of_eq (pts_ov1 (F := F) d L _).symm) $$ Hov1
  -- the rows by parity, each group at some contents
  ihave Hrows := (rows_in (F := F) d L f8) $$ Hrows
  ihave Hrows := (rows_split (F := F) d L) $$ Hrows
  icases Hrows with ⟨Hrows0, Hrows1⟩
  sl_exec
  have e0 : xRect L (2 * 0 + 0) = Rect.unit (s := S36x16384x128) (k0_off1 L 0#32) S36x8x128.size (k0_off1_inb L 0) :=
    rectUnit_congr (off1_x L 0).symm _ _
  have e0' : xRect L (2 * 0 + 1) = Rect.unit (s := S36x16384x128) (k0_off1 L 8#32) S36x8x128.size (k0_off1_inb L 1) :=
    rectUnit_congr (off1_x L 1).symm _ _
  sl_for (inv (F := F) d L (tileShare (wid L)) X5 O W) $$ [Hwv HsI0 Hx0 HsI1 Hx1 Hrows0 HsO0 Hov0 Hrows1 HsO1 Hov1 HO]
  case region => intro k acc; exact trip (F := F) d L (tileShare (wid L)) X5 O W _ _ k acc
  · unfold inv InSt OutSt
    rw [if_pos (show (0 : ℕ) < 14 by omega), if_pos (show (0 : ℕ) < 14 by omega), if_pos rfl, if_pos rfl, freeJ_zero,
      InFl_congr (F := F) d L _ _ _ _ e0 (fun _ => rfl) (fun _ => rfl), InFl_congr (F := F) d L _ _ _ _ e0' (fun _ => rfl) (fun _ => rfl)]
    unfold InFl
    isplitl []; · iexact Hmw
    isplitl [Hwv]; · iexists _; iexact Hwv
    isplitl [HsI0 Hx0]
    · isplitl [HsI0]; · iexists _; iexact HsI0
      iexact Hx0
    isplitl [HsI1 Hx1]
    · isplitl [HsI1]; · iexists _; iexact HsI1
      iexact Hx1
    isplitl [Hrows0 HsO0 Hov0]
    · isplitl [Hrows0]; · iexact Hrows0
      isplitl [HsO0]; · iexact HsO0
      iexists _; iexact Hov0
    isplitl [Hrows1 HsO1 Hov1]
    · isplitl [Hrows1]; · iexact Hrows1
      isplitl [HsO1]; · iexact HsO1
      iexists _; iexact Hov1
    iexists _; isplitr
    rotate_left
    · iexact HO
    · ipureintro; intro p hp
      rcases Finset.mem_insert.mp hp with rfl | hp
      · exact .inr rfl
      exact .inl hp
  have ht : Scf.trips k0_t1_loop.lb k0_t1_loop.ub k0_t1_loop.st = 14 := by decide
  have eF0 : oRect L (2 * (14 - 1) + 0) = Rect.unit (s := S12x7168x128) (k0_off776 L 208#32) S12x8x128.size (k0_off776_inb L 0) :=
    rectUnit_congr (off776_o L 0).symm _ _
  have eF1 : oRect L (2 * (14 - 1) + 1) = Rect.unit (s := S12x7168x128) (k0_off776 L 216#32) S12x8x128.size (k0_off776_inb L 1) :=
    rectUnit_congr (off776_o L 1).symm _ _
  have eG0 : oRect L (2 * 13 + 0) = Rect.unit (s := S12x7168x128) (k0_off776 L 208#32) S12x8x128.size (k0_off776_inb L 0) := eF0
  have eG1 : oRect L (2 * 13 + 1) = Rect.unit (s := S12x7168x128) (k0_off776 L 216#32) S12x8x128.size (k0_off776_inb L 1) := eF1
  rw [ht]
  unfold inv InSt OutSt
  rw [if_neg (show ¬ (14 : ℕ) < 14 by omega), if_neg (show ¬ (14 : ℕ) < 14 by omega), if_neg (show ¬ (14 : ℕ) = 0 by omega), if_neg (show ¬ (14 : ℕ) = 0 by omega),
    freeJ_last, OutFl_congr (F := F) d L _ _ eF0 (fun _ => rfl) (fun _ => rfl), OutFl_congr (F := F) d L _ _ eF1 (fun _ => rfl) (fun _ => rfl)]
  unfold OutFl
  iintro %acc ⟨-, ⟨%fw, Hwv⟩, ⟨HsI0, ⟨%fx0', Hxv0⟩, Hx0⟩, ⟨HsI1, ⟨%fx1', Hxv1⟩, Hx1⟩, ⟨Hrows0, %fo0', %fr0, HfO0⟩, ⟨Hrows1, %fo1', %fr1, HfO1⟩, %W', %hW', HO⟩
  sl_exec
  sl_step
  -- what the task returns: the read shares whole again, the rows
  isplitl [Hxr Hx0 Hx1 Hw Hrows0 Hrows1 HfO0_dst HfO1_dst]
  · isplitl [Hxr Hx0 Hx1]
    · iapply (toks2_join (F := F) (x5Loc d) (tileShare (wid L)) X5)
      isplitl [Hxr]; · iexact Hxr
      isplitl [Hx0]
      · iapply (Entails.of_eq (pts_x (F := F) d L _ _)); iexact Hx0
      · iapply (Entails.of_eq (pts_x (F := F) d L _ _)); iexact Hx1
    isplitl [Hw]
    · iapply (Entails.of_eq (pts_w (F := F) d L _ _)); iexact Hw
    iapply (rows_out (F := F) d L)
    iapply (rows_unsplit (F := F) d L)
    isplitl [Hrows0 HfO0_dst]
    · iapply (rows14 (F := F) d L 0)
      isplitl [HfO0_dst]
      · rw [RowE_congr (F := F) d L eG0 (fun _ => rfl) (fun _ => rfl)]; unfold RowE; iexists _; iexact HfO0_dst
      · iexact Hrows0
    · iapply (rows14 (F := F) d L 1)
      isplitl [HfO1_dst]
      · rw [RowE_congr (F := F) d L eG1 (fun _ => rfl) (fun _ => rfl)]; unfold RowE; iexists _; iexact HfO1_dst
      · iexact Hrows1
  -- the scratch buffers, at what the last step left
  isplitl [Hwv Hxv0 Hxv1 HfO0_src HfO1_src Hbufs]
  · isplitl [Hwv]; · iexists _; iapply (Entails.of_eq (pts_wv (F := F) d L _)); iexact Hwv
    isplitl [Hxv0]; · iexists _; iapply (Entails.of_eq (pts_xv0 (F := F) d L _)); iexact Hxv0
    isplitl [Hxv1]; · iexists _; iapply (Entails.of_eq (pts_xv1 (F := F) d L _)); iexact Hxv1
    isplitl [HfO0_src]
    · iexists _; iapply (Entails.of_eq (pts_ov0 (F := F) d L _)); iapply (Entails.of_eq (pts_ov0_set (F := F) d L _)); iexact HfO0_src
    isplitl [HfO1_src]
    · iexists _; iapply (Entails.of_eq (pts_ov1 (F := F) d L _)); iapply (Entails.of_eq (pts_ov1_set (F := F) d L _)); iexact HfO1_src
    iexact Hbufs
  -- the semaphores, every counter back at zero
  isplitl [HsI0 HsI1 HfO0 HfO1 HsW Hsems]
  · isplitl [HsI0]; · iexact HsI0
    isplitl [HsI1]; · iexact HsI1
    isplitl [HfO0]; · iexact HfO0
    isplitl [HfO1]; · iexact HfO1
    isplitl [HsW]; · iexact HsW
    iexact Hsems
  iexists _
  isplitr
  rotate_left
  · iexact HO
  · ipureintro; intro p hp
    rcases Finset.mem_insert.mp hp with rfl | hp
    · exact .inr rfl
    rcases Finset.mem_insert.mp hp with rfl | hp
    · exact .inr rfl
    exact hW' p hp

end Tile3

/-! ## The launch theorem's obligation for a tile -/

theorem defs₀_vector (c : Fin τ.nSC) (s : Fin τ.nSub) :
    defs₀ (F := F) (.scVector c s) 0 ()
      = SparseCore.onTile hcore0 hsub0 (fun c s => cc0__sc_agg_body (coordsV c s)
          xM (Memref.isWhole_whole _) wM (Memref.isWhole_whole _) oM (Memref.isWhole_whole _)
          wvM (Memref.isWhole_whole _) xv0M (Memref.isWhole_whole _) xv1M (Memref.isWhole_whole _) ov0M (Memref.isWhole_whole _) ov1M (Memref.isWhole_whole _)
          cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs its task. -/
theorem tileObl (X5 : (d : Dev nD) → Buf (Elt F) (x5Loc d)) (W3 : (d : Dev nD) → Buf (Elt F) (w3Loc d)) (f8 : (d : Dev nD) → Buf (Elt F) (o8Loc d)) :
    (K (F := F)).TileObl (D (F := F)) 𝒱 (P (F := F) X5 W3 f8) v₀ 0 := by
  intro d c i O W hO _ _
  simp only [show (P (F := F) X5 W3 f8).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) d (coordsV ⟨_, hc.1⟩ ⟨_, hc.2⟩) facts (X5 d) (W3 d) (f8 d) O W hO).trans (wp_mono frame _ _ fun _ => obl_post)

section Tile4
variable (d : Dev nD) (L : grid0.Coords)

end Tile4
end Cert.Kernel.Pf
end
-- ==== Proof.BFrame.lean ====
/-
  The frame of the kernel program, for any float instance: every weakly fair execution of the TensorCore, the two
  sequencers and the thirty-two tiles terminates, nothing faulting, and the four argument arrays end unchanged.
-/
import proofs.«203732_g20581483283120_cont_8to1_285_17_alg».proof.Proof.BRun
import proofs.«203732_g20581483283120_cont_8to1_285_17_alg».proof.Proof.BSplit
import proofs.«203732_g20581483283120_cont_8to1_285_17_alg».proof.Proof.BTile

noncomputable section

namespace Cert.Kernel.Pf

open Cert.Kernel Cert.Kernel.Gen
open Idealize.ShloMosaic Idealize.SL.Sem

variable {F : FTy → Type} [FloatOps F]

/-- The run with nothing said of the kernels' results, read at the arguments. -/
theorem frame_run [∀ e, Nonempty (Elt F e)]  (m : (ℓ : Loc nD τ sig) → Buf (Elt F) ℓ) (ρ : Dev nD → PrngReg) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.Kernel.defs (F := F)) _ _).mono
    (fun r h => frame_of_run m (fun _ _ => True) (Unch main_v9) (Unch main_v10) (fun _ _ h => h) (fun _ _ h => h) r h)
    (run_main m ρ (Pm m) (fun _ _ => True) (Unch main_v9) (Unch main_v10) (P_x _ _ _) rfl (callSplit m) regionBind0 regionBind1
      (tileObl _ _ _) (vecSplit _ _ _))

end Cert.Kernel.Pf

end
-- ==== Proof.Spec.lean ====
/-
  The specification of the node-aggregation layer, index by index, over the extended reals.

  Twelve nodes, thirty-six edges; edge `e` joins node `e / 6` (one of the first six) to node `6 + e % 6` (one of the
  last six). Each edge carries a feature row `x[r, e, ·]` and a weight `softplus w[e]`. A node's feature row is the sum
  of the weighted rows of the six edges that touch it; the result is that row times the transposed matrix, plus a bias,
  clamped below at zero:

      G[r, n, c] = max ( ∑ k, (∑ j, x[r, edge(n, j), k] * softplus(w)[edge(n, j)]) * W[c, k]  +  b[c] , 0 ).

  Sums and products are the extended reals'; the shapes are literal, so every coordinate has a literal `Fin` type.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The scalar shape. -/
abbrev S_ : Shape := ⟨0, ![]⟩
/-- The edge weights' shape. -/
abbrev S36 : Shape := ⟨1, ![36]⟩
/-- The bias' shape. -/
abbrev S128 : Shape := ⟨1, ![128]⟩
/-- The matrix' shape. -/
abbrev S128x128 : Shape := ⟨2, ![128, 128]⟩
/-- The edge features' shape: rows, edges, features. -/
abbrev S16384x36x128 : Shape := ⟨3, ![16384, 36, 128]⟩
/-- The result's shape: rows, nodes, features. -/
abbrev S16384x12x128 : Shape := ⟨3, ![16384, 12, 128]⟩

/-- A scalar broadcasts to the edge weights' shape. -/
theorem bcast_S_S36 : S_.BroadcastsInDim S36 (![] : Fin 0 → Fin S36.rank) := by decide

/-- The zero vector over the edges: the zero word's scalar, broadcast. -/
def zero36 : FVec Ideal S36 .f32 :=
  broadcastInDim S36 ![] bcast_S_S36 (constant (F := Ideal) S_ .f32 0x00000000#32)

/-- The numerically careful softplus, `log (1 + eˣ)` written as `max x 0 + log1p (exp (-|x - 0|))`, with the guard
    "if `x - 0` is unordered with itself answer `x + 0`", operation by operation over the thirty-six weights. -/
def softplusV (w : FVec Ideal S36 .f32) : FVec Ideal S36 .f32 :=
  select (cmpf .une (subf w zero36) (subf w zero36))
    (addf w zero36)
    (addf (maximumf w zero36)
      (Host.log1p (F := Ideal) (Host.exp (F := Ideal) (Host.negf (F := Ideal) (Host.absf (F := Ideal) (subf w zero36))))))

/-- The `j`-th edge at node `n`: a node `n < 6` of the first group meets the edges `6 n + j`, a node `n ≥ 6` of the
    second group the edges `6 j + (n - 6)`. -/
def edgeOf (n : Fin 12) (j : Fin 6) : Fin 36 :=
  if h : n.val < 6 then ⟨6 * n.val + j.val, by omega⟩ else ⟨6 * j.val + (n.val - 6), by omega⟩

/-- A node's aggregated feature: the weighted features of its six edges, summed. -/
def nodeSum (x : S16384x36x128.Idx → EReal) (s : S36.Idx → EReal) (r : Fin 16384) (n : Fin 12) (k : Fin 128) : EReal :=
  ∑ j : Fin 6, x (ix3 r (edgeOf n j) k) * s (ix1 (edgeOf n j))

/-- The layer's result at row `r`, node `n`, output feature `c`. -/
def Gat (x : S16384x36x128.Idx → EReal) (w : S36.Idx → EReal) (W : S128x128.Idx → EReal) (b : S128.Idx → EReal)
    (r : Fin 16384) (n : Fin 12) (c : Fin 128) : EReal :=
  max ((∑ k : Fin 128, nodeSum x (softplusV w) r n k * W (ix2 c k)) + b (ix1 c)) 0

/-- The layer's result as an array. -/
def G (x : S16384x36x128.Idx → EReal) (w : S36.Idx → EReal) (W : S128x128.Idx → EReal) (b : S128.Idx → EReal) :
    S16384x12x128.Idx → EReal :=
  fun i => Gat x w W b (i 0) (i 1) (i 2)

/-- The result at an index given by its coordinates. -/
theorem G_ix3 (x : S16384x36x128.Idx → EReal) (w : S36.Idx → EReal) (W : S128x128.Idx → EReal) (b : S128.Idx → EReal)
    (r : Fin 16384) (n : Fin 12) (c : Fin 128) : G x w W b (ix3 r n c) = Gat x w W b r n c := rfl

end Cert.Spec

end
-- ==== Proof.KRel.lean ====
/-
  What the three kernels compute, stated of the valuations @main sees, on the extended reals: the SparseCore call
  leaves in its result the weighted sums over each node's six edges; the first TensorCore region writes the rows
  from 7168 on of its result (the node sums, the matrix product, the bias, the clamp) and keeps the others; the
  second writes the rows below 7168 from the SparseCore's sums and keeps the others.
-/
import proofs.«203732_g20581483283120_cont_8to1_285_17_alg».proof.Proof.KRun
import proofs.«203732_g20581483283120_cont_8to1_285_17_alg».proof.Proof.Spec
import Idealize.ShloMosaic.Lib.ValueIdx

noncomputable section

namespace Cert.KernelIdeal.Pf

open Cert.KernelIdeal Cert.KernelIdeal.Gen
open Idealize.ShloMosaic Idealize.ShloMosaic.ValueIdx
open Idealize.ShloMosaic.StableHlo
open Cert.Spec (edgeOf)

abbrev r4 : DevRef τ sig := Proc.devRef .tc (main_v4 : Ref sig .tc)
abbrev r6 : DevRef τ sig := Proc.devRef .tc (main_v6 : Ref sig .tc)
abbrev r7 : DevRef τ sig := Proc.devRef .tc (main_v7 : Ref sig .tc)
abbrev r9 : DevRef τ sig := Proc.devRef .tc (main_v9 : Ref sig .tc)
abbrev r10 : DevRef τ sig := Proc.devRef .tc (main_v10 : Ref sig .tc)
abbrev r11 : DevRef τ sig := Proc.devRef .tc (main_v11 : Ref sig .tc)

/-- A valuation's buffers read as arrays of extended reals. -/
def at3 (W : Valuation τ sig (Elt Ideal)) : S576.Idx → EReal := W r3
def at4 (W : Valuation τ sig (Elt Ideal)) : S1x36.Idx → EReal := W r4
def at5 (W : Valuation τ sig (Elt Ideal)) : S36x16384x128.Idx → EReal := W r5
def at6 (W : Valuation τ sig (Elt Ideal)) : S128x128.Idx → EReal := W r6
def at7 (W : Valuation τ sig (Elt Ideal)) : S1x128.Idx → EReal := W r7
def at8 (W : Valuation τ sig (Elt Ideal)) : S12x7168x128.Idx → EReal := W r8
def at9 (W : Valuation τ sig (Elt Ideal)) : S12x16384x128.Idx → EReal := W r9
def at10 (W : Valuation τ sig (Elt Ideal)) : S12x16384x128.Idx → EReal := W r10
def at11 (W : Valuation τ sig (Elt Ideal)) : S16384x12x128.Idx → EReal := W r11
def as8 (f : (r8 : DevRef τ sig).ty.Contents (Elt Ideal)) : S12x7168x128.Idx → EReal := f

/-- The SparseCore call: entry (n, r, j) of its result is the sum over node n's six edges e of the edge-first features
    at (e, r, j) times the lane copy of edge e's weight. -/
def C8v (W : Valuation τ sig (Elt Ideal)) (f : (r8 : DevRef τ sig).ty.Contents (Elt Ideal)) : Prop :=
  ∀ (n : Fin 12) (r : Fin 7168) (j : Fin 128),
    as8 f (ix3 n r j)
      = ∑ t : Fin 6, at5 W (ix3 (edgeOf n t) (⟨r.val, by omega⟩ : Fin 16384) j)
          * at3 W (ix1 (⟨16 * (edgeOf n t).val + j.val % 16, by omega⟩ : Fin 576))

/-- The first region: rows from 7168 on of its result are the layer's value computed from the edge-first features, the
    one-row weights, the transposed matrix and the one-row bias; everything else is kept. -/
def R9v (V V' : Valuation τ sig (Elt Ideal)) : Prop :=
  Unch main_v9 V V'
  ∧ (∀ (n : Fin 12) (r : Fin 16384) (c : Fin 128), 7168 ≤ r.val →
      at9 V' (ix3 n r c)
        = max ((∑ k : Fin 128, (∑ t : Fin 6, at5 V (ix3 (edgeOf n t) r k) * at4 V (ix2 (0 : Fin 1) (edgeOf n t)))
            * at6 V (ix2 k c)) + at7 V (ix2 (0 : Fin 1) c)) 0)
  ∧ (∀ (n : Fin 12) (r : Fin 16384) (c : Fin 128), r.val < 7168 → at9 V' (ix3 n r c) = at9 V (ix3 n r c))

/-- The second region: rows below 7168 of its result are the layer's value computed from the SparseCore's sums; the
    rows from 7168 on, and everything else, are kept. -/
def R10v (V V' : Valuation τ sig (Elt Ideal)) : Prop :=
  Unch main_v10 V V'
  ∧ (∀ (n : Fin 12) (r : Fin 16384) (c : Fin 128) (h : r.val < 7168),
      at10 V' (ix3 n r c)
        = max ((∑ k : Fin 128, at8 V (ix3 n (⟨r.val, h⟩ : Fin 7168) k) * at6 V (ix2 k c))
            + at7 V (ix2 (0 : Fin 1) c)) 0)
  ∧ (∀ (n : Fin 12) (r : Fin 16384) (c : Fin 128), 7168 ≤ r.val → at10 V' (ix3 n r c) = at10 V (ix3 n r c))

theorem R9v_unch : ∀ V V', R9v V V' → Unch main_v9 V V' := fun _ _ h => h.1
theorem R10v_unch : ∀ V V', R10v V V' → Unch main_v10 V V' := fun _ _ h => h.1

end Cert.KernelIdeal.Pf

end
-- ==== Proof.KHost.lean ====
/-
  The host operations before the SparseCore call, read at an index: the edge features with the edge axis first, the
  softplus weights repeated over sixteen lanes and as a row, the matrix transposed, the bias as a row.
-/
import proofs.«203732_g20581483283120_cont_8to1_285_17_alg».proof.Proof.KMain
import proofs.«203732_g20581483283120_cont_8to1_285_17_alg».proof.Proof.Spec
import Idealize.ShloMosaic.Lib.Pipeline.Value
import Idealize.ShloMosaic.Lib.ValueIdx

noncomputable section

namespace Cert.KernelIdeal.Pf

open Cert.KernelIdeal Cert.KernelIdeal.Gen
open Idealize.ShloMosaic Idealize.ShloMosaic.ValueIdx
open Idealize.ShloMosaic.StableHlo

/-! ## The layout operations at an index -/

section Layout
variable {α : Type}

/-- The edge axis moved first: entry (edge, row, feature) is the array's (row, edge, feature). -/
theorem edgeFirst_ix (x : S16384x36x128.Idx → α) (e : Fin 36) (r : Fin 16384) (k : Fin 128) :
    transpose S36x16384x128 [1, 0, 2] x transposes_S16384x36x128_S36x16384x128_1_0_2 (ix3 e r k) = x (ix3 r e k) :=
  transpose_apply _ x _ (ix3 e r k) (ix3 r e k) fun b => by
    match b with
    | ⟨0, _⟩ => rfl
    | ⟨1, _⟩ => rfl
    | ⟨2, _⟩ => rfl

/-- The transposed matrix at (k, c) is the matrix at (c, k). -/
theorem matT_ix (W : S128x128.Idx → α) (k c : Fin 128) :
    transpose S128x128 [1, 0] W transposes_S128x128_S128x128_1_0 (ix2 k c) = W (ix2 c k) :=
  transpose_apply _ W _ (ix2 k c) (ix2 c k) fun b => by
    match b with
    | ⟨0, _⟩ => rfl
    | ⟨1, _⟩ => rfl

/-- A vector of thirty-six as a one-row matrix. -/
theorem row36_ix (s : S36.Idx → α) (e : Fin 36) :
    shapeCast S1x36 s shapeCasts_S36_S1x36 (ix2 (0 : Fin 1) e) = s (ix1 e) := by
  refine shapeCast_apply s _ (ix2 (0 : Fin 1) e) (ix1 e) ?_
  rw [Shape.rowMajor_val_one, Shape.rowMajor_val_two]
  show e.val = (0 : Fin 1).val * 36 + e.val
  simp

/-- A vector of a hundred and twenty-eight as a one-row matrix. -/
theorem row128_ix (s : S128.Idx → α) (c : Fin 128) :
    shapeCast S1x128 s shapeCasts_S128_S1x128 (ix2 (0 : Fin 1) c) = s (ix1 c) := by
  refine shapeCast_apply s _ (ix2 (0 : Fin 1) c) (ix1 c) ?_
  rw [Shape.rowMajor_val_one, Shape.rowMajor_val_two]
  show c.val = (0 : Fin 1).val * 128 + c.val
  simp

/-- Each of the thirty-six entries repeated over sixteen lanes, flattened: entry `16 e + l` is entry `e`. -/
theorem lanes_ix (s : S36.Idx → α) (e : Fin 36) (l : Fin 16) :
    shapeCast S576 (broadcastInDim S36x16 ![0, 1] bcast_S36x1_S36x16_0_1 (broadcastInDim S36x1 ![0] bcast_S36_S36x1_0 s))
      shapeCasts_S36x16_S576 (ix1 (⟨16 * e.val + l.val, by omega⟩ : Fin 576)) = s (ix1 e) := by
  refine (shapeCast_apply _ _ (ix1 (⟨16 * e.val + l.val, by omega⟩ : Fin 576)) (ix2 e l) ?_).trans ?_
  · rw [Shape.rowMajor_val_one, Shape.rowMajor_val_two]
    show e.val * 16 + l.val = 16 * e.val + l.val
    omega
  refine (broadcastInDim_apply _ _ _ (ix2 e l) (ix2 e (0 : Fin 1)) fun a => ?_).trans ?_
  · match a with
    | ⟨0, _⟩ => rfl
    | ⟨1, _⟩ => rfl
  refine broadcastInDim_apply _ _ s (ix2 e (0 : Fin 1)) (ix1 e) fun a => ?_
  match a with
  | ⟨0, _⟩ => rfl

end Layout

/-! ## The host operations' fold at the call's operands -/

attribute [local irreducible] transpose broadcastInDim shapeCast in
set_option maxRecDepth 8192 in
set_option maxHeartbeats 1000000 in
/-- The edge features with the edge axis first. -/
theorem after_r5 (V : Valuation τ sig (Elt Ideal)) :
    after (opsA (F := Ideal)) V r5
      = transpose S36x16384x128 [1, 0, 2] (V a0) transposes_S16384x36x128_S36x16384x128_1_0_2 := by
  simp only [after_cons, after_nil]
  rfl

attribute [local irreducible] transpose broadcastInDim shapeCast in
set_option maxRecDepth 8192 in
set_option maxHeartbeats 1000000 in
/-- The softplus weights over sixteen lanes each. -/
theorem after_r3 (V : Valuation τ sig (Elt Ideal)) :
    after (opsA (F := Ideal)) V r3
      = shapeCast S576 (broadcastInDim S36x16 ![0, 1] bcast_S36x1_S36x16_0_1
          (broadcastInDim S36x1 ![0] bcast_S36_S36x1_0 (Cert.Spec.softplusV (V a1)))) shapeCasts_S36x16_S576 := by
  simp only [after_cons, after_nil]
  rfl

attribute [local irreducible] transpose broadcastInDim shapeCast in
set_option maxRecDepth 8192 in
set_option maxHeartbeats 1000000 in
/-- The softplus weights as a row. -/
theorem after_v4 (V : Valuation τ sig (Elt Ideal)) :
    after (opsA (F := Ideal)) V (Proc.devRef .tc (main_v4 : Ref sig .tc))
      = shapeCast S1x36 (Cert.Spec.softplusV (V a1)) shapeCasts_S36_S1x36 := by
  simp only [after_cons, after_nil]
  rfl

attribute [local irreducible] transpose broadcastInDim shapeCast in
set_option maxRecDepth 8192 in
set_option maxHeartbeats 1000000 in
/-- The matrix transposed. -/
theorem after_v6 (V : Valuation τ sig (Elt Ideal)) :
    after (opsA (F := Ideal)) V (Proc.devRef .tc (main_v6 : Ref sig .tc))
      = transpose S128x128 [1, 0] (V a2) transposes_S128x128_S128x128_1_0 := by
  simp only [after_cons, after_nil]
  rfl

attribute [local irreducible] transpose broadcastInDim shapeCast in
set_option maxRecDepth 8192 in
set_option maxHeartbeats 1000000 in
/-- The bias as a row. -/
theorem after_v7 (V : Valuation τ sig (Elt Ideal)) :
    after (opsA (F := Ideal)) V (Proc.devRef .tc (main_v7 : Ref sig .tc))
      = shapeCast S1x128 (V a3) shapeCasts_S128_S1x128 := by
  simp only [after_cons, after_nil]
  rfl

/-! ## At an index -/

theorem r5_ix (V : Valuation τ sig (Elt Ideal)) (e : Fin 36) (r : Fin 16384) (k : Fin 128) :
    after (opsA (F := Ideal)) V r5 (ix3 e r k) = V a0 (ix3 r e k) := by
  rw [after_r5]; exact edgeFirst_ix _ e r k

theorem r3_ix (V : Valuation τ sig (Elt Ideal)) (e : Fin 36) (l : Fin 16) :
    after (opsA (F := Ideal)) V r3 (ix1 (⟨16 * e.val + l.val, by omega⟩ : Fin 576)) = Cert.Spec.softplusV (V a1) (ix1 e) := by
  rw [after_r3]; exact lanes_ix _ e l

theorem v4_ix (V : Valuation τ sig (Elt Ideal)) (e : Fin 36) :
    after (opsA (F := Ideal)) V (Proc.devRef .tc (main_v4 : Ref sig .tc)) (ix2 (0 : Fin 1) e) = Cert.Spec.softplusV (V a1) (ix1 e) := by
  rw [after_v4]; exact row36_ix _ e

theorem v6_ix (V : Valuation τ sig (Elt Ideal)) (k c : Fin 128) :
    after (opsA (F := Ideal)) V (Proc.devRef .tc (main_v6 : Ref sig .tc)) (ix2 k c) = V a2 (ix2 c k) := by
  rw [after_v6]; exact matT_ix _ k c

theorem v7_ix (V : Valuation τ sig (Elt Ideal)) (c : Fin 128) :
    after (opsA (F := Ideal)) V (Proc.devRef .tc (main_v7 : Ref sig .tc)) (ix2 (0 : Fin 1) c) = V a3 (ix1 c) := by
  rw [after_v7]; exact row128_ix _ c

end Cert.KernelIdeal.Pf

end
-- ==== Proof.KBridge.lean ====
/-
  The kernel's arrangement of the layer is the specification.

  The kernel keeps the edge features with the edge axis first, the softplus weights twice (each repeated over
  sixteen lanes, and as a row), the matrix transposed and the bias as a row. The first 7168 rows of every node's
  features are aggregated ahead of the product; for the other rows the aggregation is fused into the product; a last
  transposition puts the row axis first. Stage by stage, with each stage given by its values at an index, the result
  is the specification's: the same six weighted edge rows summed, the same product, bias and clamp at zero.

  A node's six weighted rows added one after another in the order of the edges are their sum.
-/
import proofs.«203732_g20581483283120_cont_8to1_285_17_alg».proof.Proof.Spec
import Idealize.ShloMosaic.Lib.ValueIdx
import Mathlib.Algebra.BigOperators.Fin

noncomputable section

open scoped BigOperators

namespace Cert.KBridge

open Idealize.ShloMosaic Idealize.ShloMosaic.ValueIdx
open Cert.Spec (S_ S36 S128 S128x128 S16384x36x128 S16384x12x128 edgeOf softplusV nodeSum Gat G)

/-- The edge features with the edge axis first. -/
abbrev S36x16384x128 : Shape := ⟨3, ![36, 16384, 128]⟩
/-- The weights, each repeated over sixteen lanes. -/
abbrev S576 : Shape := ⟨1, ![576]⟩
/-- The weights as a row. -/
abbrev S1x36 : Shape := ⟨2, ![1, 36]⟩
/-- The bias as a row. -/
abbrev S1x128 : Shape := ⟨2, ![1, 128]⟩
/-- The first 7168 rows of the node features, node axis first. -/
abbrev S12x7168x128 : Shape := ⟨3, ![12, 7168, 128]⟩
/-- The result with the node axis first. -/
abbrev S12x16384x128 : Shape := ⟨3, ![12, 16384, 128]⟩

/-! ## Six terms added in order -/

/-- Six terms added one after another, from the first, are their sum. -/
theorem sum6_left {M : Type*} [AddCommMonoid M] (g : Fin 6 → M) :
    g 0 + g 1 + g 2 + g 3 + g 4 + g 5 = ∑ t : Fin 6, g t := (Fin.sum_univ_six g).symm

/-- The same, starting from zero. -/
theorem sum6_left_zero {M : Type*} [AddCommMonoid M] (g : Fin 6 → M) :
    0 + g 0 + g 1 + g 2 + g 3 + g 4 + g 5 = ∑ t : Fin 6, g t := by rw [zero_add]; exact sum6_left g

/-- A node's six edges in increasing order: adding `f` over them one after another, from `a`, is `a` plus the sum. -/
theorem foldl_edges {M : Type*} [AddCommMonoid M] (f : Fin 36 → M) (n : Fin 12) (a : M) :
    List.foldl (fun acc e => acc + f e) a (List.ofFn (edgeOf n)) = a + ∑ t : Fin 6, f (edgeOf n t) := by
  rw [Fin.sum_univ_six]
  simp only [List.ofFn_succ, List.ofFn_zero, List.foldl_cons, List.foldl_nil]
  simp only [add_assoc]
  rfl

/-- A node of the first group meets the edges `6 n + t`. -/
theorem edgeOf_val_of_lt (n : Fin 12) (t : Fin 6) (h : n.val < 6) : (edgeOf n t).val = 6 * n.val + t.val := by
  unfold edgeOf; rw [dif_pos h]
/-- A node of the second group meets the edges `6 t + (n - 6)`. -/
theorem edgeOf_val_of_ge (n : Fin 12) (t : Fin 6) (h : ¬ n.val < 6) : (edgeOf n t).val = 6 * t.val + (n.val - 6) := by
  unfold edgeOf; rw [dif_neg h]
/-- A node's edges come in increasing order. -/
theorem edgeOf_strictMono (n : Fin 12) : StrictMono (edgeOf n) := by
  revert n; decide

/-! ## The kernel's stages are the specification -/

/-- The kernel's result, given stage by stage at an index, is the specification's. -/
theorem bridge (x : S16384x36x128.Idx → EReal) (w : FVec Ideal S36 .f32) (Wm : S128x128.Idx → EReal) (b : S128.Idx → EReal)
    (X5 : S36x16384x128.Idx → EReal) (W3 : S576.Idx → EReal) (W4 : S1x36.Idx → EReal) (W6 : S128x128.Idx → EReal)
    (B7 : S1x128.Idx → EReal) (nf : S12x7168x128.Idx → EReal) (o9 o10 : S12x16384x128.Idx → EReal)
    (res : S16384x12x128.Idx → EReal)
    (h5 : ∀ (e : Fin 36) (r : Fin 16384) (k : Fin 128), X5 (ix3 e r k) = x (ix3 r e k))
    (h3 : ∀ (e : Fin 36) (l : Fin 16), W3 (ix1 (⟨16 * e.val + l.val, by omega⟩ : Fin 576)) = softplusV w (ix1 e))
    (h4 : ∀ e : Fin 36, W4 (ix2 (0 : Fin 1) e) = softplusV w (ix1 e))
    (h6 : ∀ k c : Fin 128, W6 (ix2 k c) = Wm (ix2 c k))
    (h7 : ∀ c : Fin 128, B7 (ix2 (0 : Fin 1) c) = b (ix1 c))
    (hnf : ∀ (n : Fin 12) (r : Fin 7168) (j : Fin 128),
      nf (ix3 n r j) = ∑ t : Fin 6, X5 (ix3 (edgeOf n t) (⟨r.val, by omega⟩ : Fin 16384) j)
        * W3 (ix1 (⟨16 * (edgeOf n t).val + j.val % 16, by omega⟩ : Fin 576)))
    (h9 : ∀ (n : Fin 12) (r : Fin 16384) (c : Fin 128), 7168 ≤ r.val →
      o9 (ix3 n r c) = max ((∑ k : Fin 128, (∑ t : Fin 6, X5 (ix3 (edgeOf n t) r k) * W4 (ix2 (0 : Fin 1) (edgeOf n t)))
        * W6 (ix2 k c)) + B7 (ix2 (0 : Fin 1) c)) 0)
    (h10a : ∀ (n : Fin 12) (r : Fin 16384) (c : Fin 128) (h : r.val < 7168),
      o10 (ix3 n r c) = max ((∑ k : Fin 128, nf (ix3 n (⟨r.val, h⟩ : Fin 7168) k) * W6 (ix2 k c)) + B7 (ix2 (0 : Fin 1) c)) 0)
    (h10b : ∀ (n : Fin 12) (r : Fin 16384) (c : Fin 128), 7168 ≤ r.val → o10 (ix3 n r c) = o9 (ix3 n r c))
    (hres : ∀ (r : Fin 16384) (n : Fin 12) (c : Fin 128), res (ix3 r n c) = o10 (ix3 n r c)) :
    res = G x w Wm b := by
  have e3 : ∀ (e : Fin 36) (j : Fin 128), W3 (ix1 (⟨16 * e.val + j.val % 16, by omega⟩ : Fin 576)) = softplusV w (ix1 e) :=
    fun e j => h3 e ⟨j.val % 16, Nat.mod_lt _ (by decide)⟩
  funext i
  obtain ⟨r, n, c, rfl⟩ : ∃ (r : Fin 16384) (n : Fin 12) (c : Fin 128), i = ix3 r n c := ⟨i 0, i 1, i 2, eq_ix3 i⟩
  rw [Cert.Spec.G_ix3, hres]
  unfold Gat nodeSum
  by_cases h : r.val < 7168
  · rw [h10a n r c h]
    simp only [hnf, h5, e3, h6, h7]
  · rw [h10b n r c (Nat.le_of_not_lt h), h9 n r c (Nat.le_of_not_lt h)]
    simp only [h5, h4, h6, h7]

end Cert.KBridge

end
-- ==== Proof.KFinal.lean ====
/-
  The kernel's final result is the specification.

  What the three kernels leave — the SparseCore call's weighted sums over each node's six edges in the first 7168 rows,
  the first TensorCore region's rows from 7168 on, the second region's rows below 7168 computed from the SparseCore's
  sums — read through the host operations around them (the stages before the call, the copy between the regions, the
  last exchange of the row and node axes) is, index by index, the layer's value of the four arguments.
-/
import proofs.«203732_g20581483283120_cont_8to1_285_17_alg».proof.Proof.KRel
import proofs.«203732_g20581483283120_cont_8to1_285_17_alg».proof.Proof.KHost
import proofs.«203732_g20581483283120_cont_8to1_285_17_alg».proof.Proof.KBridge

noncomputable section

namespace Cert.KernelIdeal.Pf

open Cert.KernelIdeal Cert.KernelIdeal.Gen
open Idealize.ShloMosaic Idealize.ShloMosaic.ValueIdx
open Idealize.ShloMosaic.StableHlo
open Cert.Spec (edgeOf)

/-! ## The copy between the regions and the last transpose -/

/-- The row axis and the node axis exchanged: entry (row, node, feature) is the array's (node, row, feature). -/
theorem rowFirst_ix {α : Type} (y : S12x16384x128.Idx → α) (r : Fin 16384) (n : Fin 12) (c : Fin 128) :
    transpose S16384x12x128 [1, 0, 2] y transposes_S12x16384x128_S16384x12x128_1_0_2 (ix3 r n c) = y (ix3 n r c) :=
  transpose_apply _ y _ (ix3 r n c) (ix3 n r c) fun b => by
    match b with
    | ⟨0, _⟩ => rfl
    | ⟨1, _⟩ => rfl
    | ⟨2, _⟩ => rfl

/-- The copy puts the first region's result in the buffer the second region rewrites in part; -/
theorem afterB_r10 (V : Valuation τ sig (Elt Ideal)) : after (opsB (F := Ideal)) V r10 = V r9 := by
  simp only [after_cons, after_nil]
  rfl
/-- it leaves the transposed matrix, -/
theorem afterB_r6 (V : Valuation τ sig (Elt Ideal)) : after (opsB (F := Ideal)) V r6 = V r6 := by
  simp only [after_cons, after_nil]
  rfl
/-- the bias row -/
theorem afterB_r7 (V : Valuation τ sig (Elt Ideal)) : after (opsB (F := Ideal)) V r7 = V r7 := by
  simp only [after_cons, after_nil]
  rfl
/-- and the SparseCore's sums where they are. -/
theorem afterB_r8 (V : Valuation τ sig (Elt Ideal)) : after (opsB (F := Ideal)) V r8 = V r8 := by
  simp only [after_cons, after_nil]
  rfl

attribute [local irreducible] transpose in
/-- The last operation: the result with the row axis first. -/
theorem afterC_r11 (V : Valuation τ sig (Elt Ideal)) :
    after (opsC (F := Ideal)) V r11
      = transpose S16384x12x128 [1, 0, 2] (V r10) transposes_S12x16384x128_S16384x12x128_1_0_2 := by
  simp only [after_cons, after_nil]
  rfl

/-! ## The final result -/

/-- The kernel's result array, from what its three kernels leave, is the layer's value of the arguments. -/
theorem final_eq (m : (ℓ : Loc nD τ sig) → Buf (Elt Ideal) ℓ) (d : Dev nD)
    (f8 : (r8 : DevRef τ sig).ty.Contents (Elt Ideal)) (V1 V2 : Valuation τ sig (Elt Ideal))
    (hs : Steps m C8v R9v R10v d f8 V1 V2) :
    at11 (after (opsC (F := Ideal)) V2) = Cert.Spec.G (V0 m d a0) (V0 m d a1) (V0 m d a2) (V0 m d a3) := by
  obtain ⟨h8, ⟨hu9, h9, -⟩, ⟨hu10, h10, h10k⟩⟩ := hs
  -- the stages before the call are untouched by the call's result
  have e5 : at5 (Function.update (after (opsA (F := Ideal)) (V0 m d)) r8 f8) = at5 (after (opsA (F := Ideal)) (V0 m d)) :=
    Function.update_of_ne (show (r5 : DevRef τ sig) ≠ r8 by decide) _ _
  have e4 : at4 (Function.update (after (opsA (F := Ideal)) (V0 m d)) r8 f8) = at4 (after (opsA (F := Ideal)) (V0 m d)) :=
    Function.update_of_ne (show (r4 : DevRef τ sig) ≠ r8 by decide) _ _
  have e6 : at6 (Function.update (after (opsA (F := Ideal)) (V0 m d)) r8 f8) = at6 (after (opsA (F := Ideal)) (V0 m d)) :=
    Function.update_of_ne (show (r6 : DevRef τ sig) ≠ r8 by decide) _ _
  have e7 : at7 (Function.update (after (opsA (F := Ideal)) (V0 m d)) r8 f8) = at7 (after (opsA (F := Ideal)) (V0 m d)) :=
    Function.update_of_ne (show (r7 : DevRef τ sig) ≠ r8 by decide) _ _
  -- what the second region reads: the SparseCore's sums, the transposed matrix and the bias row, as the first region left them
  have b8 : at8 (after (opsB (F := Ideal)) V1) = as8 f8 := by
    show after (opsB (F := Ideal)) V1 r8 = f8
    rw [afterB_r8]
    exact (hu9 main_v8 (by decide)).trans (Function.update_self _ _ _)
  have b6 : at6 (after (opsB (F := Ideal)) V1) = at6 (after (opsA (F := Ideal)) (V0 m d)) := by
    show after (opsB (F := Ideal)) V1 r6 = after (opsA (F := Ideal)) (V0 m d) r6
    rw [afterB_r6]
    exact (hu9 main_v6 (by decide)).trans (Function.update_of_ne (show (r6 : DevRef τ sig) ≠ r8 by decide) _ _)
  have b7 : at7 (after (opsB (F := Ideal)) V1) = at7 (after (opsA (F := Ideal)) (V0 m d)) := by
    show after (opsB (F := Ideal)) V1 r7 = after (opsA (F := Ideal)) (V0 m d) r7
    rw [afterB_r7]
    exact (hu9 main_v7 (by decide)).trans (Function.update_of_ne (show (r7 : DevRef τ sig) ≠ r8 by decide) _ _)
  have b10 : at10 (after (opsB (F := Ideal)) V1) = at9 V1 := afterB_r10 V1
  rw [e5, e4, e6, e7] at h9
  rw [b8, b6, b7] at h10
  rw [b10] at h10k
  refine Cert.KBridge.bridge (V0 m d a0) (V0 m d a1) (V0 m d a2) (V0 m d a3)
    (at5 (after (opsA (F := Ideal)) (V0 m d))) (at3 (after (opsA (F := Ideal)) (V0 m d)))
    (at4 (after (opsA (F := Ideal)) (V0 m d))) (at6 (after (opsA (F := Ideal)) (V0 m d)))
    (at7 (after (opsA (F := Ideal)) (V0 m d))) (as8 f8) (at9 V1) (at10 V2) (at11 (after (opsC (F := Ideal)) V2))
    (fun e r k => r5_ix (V0 m d) e r k) (fun e l => r3_ix (V0 m d) e l) (fun e => v4_ix (V0 m d) e)
    (fun k c => v6_ix (V0 m d) k c) (fun c => v7_ix (V0 m d) c) h8 h9 h10 h10k ?_
  intro r n c
  show after (opsC (F := Ideal)) V2 r11 (ix3 r n c) = V2 r10 (ix3 n r c)
  rw [afterC_r11]
  exact rowFirst_ix _ r n c

end Cert.KernelIdeal.Pf

end
-- ==== Proof.KAlg.lean ====
/-
  The kernel program's run on the extended reals with its result named: from the SparseCore tiles' sums and the two
  regions' rows, the final transpose holds the specification's array of the arguments.
-/
import proofs.«203732_g20581483283120_cont_8to1_285_17_alg».proof.Proof.KFinal

noncomputable section

namespace Cert.KernelIdeal.Pf

open Cert.KernelIdeal Cert.KernelIdeal.Gen
open Idealize.ShloMosaic Idealize.SL.Sem
open Idealize.SL Idealize.SL.BI
open scoped Idealize.SL.BI
open Idealize.ShloMosaic.SparseCore.Cfg (HIx Pay)
open Idealize.ShloMosaic.StableHlo (after)

theorem r11_mem : (r11 : DevRef τ sig) ∈ Pipeline.ucRefs τ sig := by decide

/-- The run at the ideal instance, read at the result and the arguments. -/
theorem alg_run (m : (ℓ : Loc nD τ sig) → Buf (Elt Ideal) ℓ) (ρ : Dev nD → PrngReg)
    (P : (K (F := Ideal)).Pay (nD := nD) (Val := Elt Ideal) (Name := ℕ) (U := UU)) [P.IsStorable]
    (hx : ∀ q thr, P.x q thr = iprop(emp)) (hheld : P.held = ∅) (hcall : CallSplit m P C8v)
    (hreg0 : RegionBind (F := Ideal) 0 R9v) (hreg1 : RegionBind (F := Ideal) 1 R10v)
    (htile : (K (F := Ideal)).TileObl (D (F := Ideal)) 𝒱 P v₀ 0) (hvec : (K (F := Ideal)).VecSplit' P 0) :
    θ_run (Cert.KernelIdeal.defs (F := Ideal)) (Cert.KernelIdeal.threads (F := Ideal)) ⟨m, fun _ => 0, ρ⟩ (fun r => ∀ c : Dev nD,
      r.2.mem ((c.tc : Thread nD τ).loc main_v11)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := Ideal)) _ _).mono
    (fun r h c => by
      obtain ⟨f8, V1, V2, hs, hmem⟩ := h c
      refine ⟨?_, frame_of_run m C8v R9v R10v R9v_unch R10v_unch r h c⟩
      exact (hmem r11 r11_mem).trans (final_eq m c f8 V1 V2 hs))
    (run_main m ρ P C8v R9v R10v hx hheld hcall hreg0 hreg1 htile hvec)

end Cert.KernelIdeal.Pf

end
-- ==== Proof.KSpecTC.lean ====
/-
  The two TensorCore kernels' bodies as functions of the blocks they are handed, for any float values: one node's rows
  of the fused kernel (six feature slices, each scaled by its weight, summed in the kernel's order; times the matrix;
  plus the bias row; clamped below at zero), the fused kernel's output block as its twelve stores, and the second
  kernel's output block (the chunk times the matrix, plus the bias row, clamped).
-/
import proofs.«203732_g20581483283120_cont_8to1_285_17_alg».proof.Proof.KCommon
import Idealize.ShloMosaic.Lib.Pipeline.FrameBody
import Idealize.ShloMosaic.Lib.Pipeline.Value
import Idealize.ShloMosaic.Lib.Ring

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One node's rows of the fused kernel: the six slices `sⱼ` of the feature block scaled by the weights `wⱼ` and summed
    left to right, multiplied by the matrix `m`, the bias row `b` added, the maximum with zero, as a block of one node. -/
def nodeVal (s0 : Vec F S1x1024x128 .f32) (w0 : Vec F S1x1 .f32) (s1 : Vec F S1x1024x128 .f32) (w1 : Vec F S1x1 .f32)
    (s2 : Vec F S1x1024x128 .f32) (w2 : Vec F S1x1 .f32) (s3 : Vec F S1x1024x128 .f32) (w3 : Vec F S1x1 .f32)
    (s4 : Vec F S1x1024x128 .f32) (w4 : Vec F S1x1 .f32) (s5 : Vec F S1x1024x128 .f32) (w5 : Vec F S1x1 .f32)
    (m : Vec F S128x128 .f32) (b : Vec F S1x128 .f32) : FVec F S1x1024x128 .f32 :=
  shapeCast S1x1024x128
    (maximumf
      (addf
        (matmul dot_S1024x128_S128x128_S1024x128_1_0_0_1_n_n none
          (addf (addf (addf (addf (addf
            (mulf (shapeCast S1024x128 s0 shapeCasts_S1x1024x128_S1024x128) (broadcast S1024x128 (extractAt ![0, 0] w0 inpos_S1x1_p0_0)))
            (mulf (shapeCast S1024x128 s1 shapeCasts_S1x1024x128_S1024x128) (broadcast S1024x128 (extractAt ![0, 0] w1 inpos_S1x1_p0_0))))
            (mulf (shapeCast S1024x128 s2 shapeCasts_S1x1024x128_S1024x128) (broadcast S1024x128 (extractAt ![0, 0] w2 inpos_S1x1_p0_0))))
            (mulf (shapeCast S1024x128 s3 shapeCasts_S1x1024x128_S1024x128) (broadcast S1024x128 (extractAt ![0, 0] w3 inpos_S1x1_p0_0))))
            (mulf (shapeCast S1024x128 s4 shapeCasts_S1x1024x128_S1024x128) (broadcast S1024x128 (extractAt ![0, 0] w4 inpos_S1x1_p0_0))))
            (mulf (shapeCast S1024x128 s5 shapeCasts_S1x1024x128_S1024x128) (broadcast S1024x128 (extractAt ![0, 0] w5 inpos_S1x1_p0_0))))
          (shapeCast S128x128 m shapeCasts_S128x128_S128x128) (constant S1024x128 .f32 0x00000000#32))
        (broadcastTo S1024x128 (shapeCast S1x128 b shapeCasts_S1x128_S1x128) broadcasts_S1x128_S1024x128))
      (broadcast S1024x128 (Scalar.ofBits .f32 0x00000000#32)))
    shapeCasts_S1024x128_S1x1024x128

/-- The fused kernel's output block from its input blocks (the feature block `x0`, the weights row `x1`, the matrix
    `x2`, the bias row `x3`): its twelve stores as pieces, last first; node `n < 6` meets edges `6n + j`, node
    `n ≥ 6` edges `6j + (n - 6)`. -/
def out1_4 (x0 : Vec F S36x1024x128 .f32) (x1 : Vec F S1x36 .f32) (x2 : Vec F S128x128 .f32) (x3 : Vec F S1x128 .f32) :
    Vec F S12x1024x128 .f32 :=
  View.canon [⟨Rect.unit (s := S12x1024x128) ![11, 0, 0] S1x1024x128.size inb_S12x1024x128_S1x1024x128_11_0_0,
      nodeVal (View.ld x0 (Rect.unit (s := S36x1024x128) ![5, 0, 0] S1x1024x128.size inb_S36x1024x128_S1x1024x128_5_0_0)) (View.ld x1 (Rect.unit (s := S1x36) ![0, 5] S1x1.size inb_S1x36_S1x1_0_5))
        (View.ld x0 (Rect.unit (s := S36x1024x128) ![11, 0, 0] S1x1024x128.size inb_S36x1024x128_S1x1024x128_11_0_0)) (View.ld x1 (Rect.unit (s := S1x36) ![0, 11] S1x1.size inb_S1x36_S1x1_0_11))
        (View.ld x0 (Rect.unit (s := S36x1024x128) ![17, 0, 0] S1x1024x128.size inb_S36x1024x128_S1x1024x128_17_0_0)) (View.ld x1 (Rect.unit (s := S1x36) ![0, 17] S1x1.size inb_S1x36_S1x1_0_17))
        (View.ld x0 (Rect.unit (s := S36x1024x128) ![23, 0, 0] S1x1024x128.size inb_S36x1024x128_S1x1024x128_23_0_0)) (View.ld x1 (Rect.unit (s := S1x36) ![0, 23] S1x1.size inb_S1x36_S1x1_0_23))
        (View.ld x0 (Rect.unit (s := S36x1024x128) ![29, 0, 0] S1x1024x128.size inb_S36x1024x128_S1x1024x128_29_0_0)) (View.ld x1 (Rect.unit (s := S1x36) ![0, 29] S1x1.size inb_S1x36_S1x1_0_29))
        (View.ld x0 (Rect.unit (s := S36x1024x128) ![35, 0, 0] S1x1024x128.size inb_S36x1024x128_S1x1024x128_35_0_0)) (View.ld x1 (Rect.unit (s := S1x36) ![0, 35] S1x1.size inb_S1x36_S1x1_0_35))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![10, 0, 0] S1x1024x128.size inb_S12x1024x128_S1x1024x128_10_0_0,
      nodeVal (View.ld x0 (Rect.unit (s := S36x1024x128) ![4, 0, 0] S1x1024x128.size inb_S36x1024x128_S1x1024x128_4_0_0)) (View.ld x1 (Rect.unit (s := S1x36) ![0, 4] S1x1.size inb_S1x36_S1x1_0_4))
        (View.ld x0 (Rect.unit (s := S36x1024x128) ![10, 0, 0] S1x1024x128.size inb_S36x1024x128_S1x1024x128_10_0_0)) (View.ld x1 (Rect.unit (s := S1x36) ![0, 10] S1x1.size inb_S1x36_S1x1_0_10))
        (View.ld x0 (Rect.unit (s := S36x1024x128) ![16, 0, 0] S1x1024x128.size inb_S36x1024x128_S1x1024x128_16_0_0)) (View.ld x1 (Rect.unit (s := S1x36) ![0, 16] S1x1.size inb_S1x36_S1x1_0_16))
        (View.ld x0 (Rect.unit (s := S36x1024x128) ![22, 0, 0] S1x1024x128.size inb_S36x1024x128_S1x1024x128_22_0_0)) (View.ld x1 (Rect.unit (s := S1x36) ![0, 22] S1x1.size inb_S1x36_S1x1_0_22))
        (View.ld x0 (Rect.unit (s := S36x1024x128) ![28, 0, 0] S1x1024x128.size inb_S36x1024x128_S1x1024x128_28_0_0)) (View.ld x1 (Rect.unit (s := S1x36) ![0, 28] S1x1.size inb_S1x36_S1x1_0_28))
        (View.ld x0 (Rect.unit (s := S36x1024x128) ![34, 0, 0] S1x1024x128.size inb_S36x1024x128_S1x1024x128_34_0_0)) (View.ld x1 (Rect.unit (s := S1x36) ![0, 34] S1x1.size inb_S1x36_S1x1_0_34))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![9, 0, 0] S1x1024x128.size inb_S12x1024x128_S1x1024x128_9_0_0,
      nodeVal (View.ld x0 (Rect.unit (s := S36x1024x128) ![3, 0, 0] S1x1024x128.size inb_S36x1024x128_S1x1024x128_3_0_0)) (View.ld x1 (Rect.unit (s := S1x36) ![0, 3] S1x1.size inb_S1x36_S1x1_0_3))
        (View.ld x0 (Rect.unit (s := S36x1024x128) ![9, 0, 0] S1x1024x128.size inb_S36x1024x128_S1x1024x128_9_0_0)) (View.ld x1 (Rect.unit (s := S1x36) ![0, 9] S1x1.size inb_S1x36_S1x1_0_9))
        (View.ld x0 (Rect.unit (s := S36x1024x128) ![15, 0, 0] S1x1024x128.size inb_S36x1024x128_S1x1024x128_15_0_0)) (View.ld x1 (Rect.unit (s := S1x36) ![0, 15] S1x1.size inb_S1x36_S1x1_0_15))
        (View.ld x0 (Rect.unit (s := S36x1024x128) ![21, 0, 0] S1x1024x128.size inb_S36x1024x128_S1x1024x128_21_0_0)) (View.ld x1 (Rect.unit (s := S1x36) ![0, 21] S1x1.size inb_S1x36_S1x1_0_21))
        (View.ld x0 (Rect.unit (s := S36x1024x128) ![27, 0, 0] S1x1024x128.size inb_S36x1024x128_S1x1024x128_27_0_0)) (View.ld x1 (Rect.unit (s := S1x36) ![0, 27] S1x1.size inb_S1x36_S1x1_0_27))
        (View.ld x0 (Rect.unit (s := S36x1024x128) ![33, 0, 0] S1x1024x128.size inb_S36x1024x128_S1x1024x128_33_0_0)) (View.ld x1 (Rect.unit (s := S1x36) ![0, 33] S1x1.size inb_S1x36_S1x1_0_33))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![8, 0, 0] S1x1024x128.size inb_S12x1024x128_S1x1024x128_8_0_0,
      nodeVal (View.ld x0 (Rect.unit (s := S36x1024x128) ![2, 0, 0] S1x1024x128.size inb_S36x1024x128_S1x1024x128_2_0_0)) (View.ld x1 (Rect.unit (s := S1x36) ![0, 2] S1x1.size inb_S1x36_S1x1_0_2))
        (View.ld x0 (Rect.unit (s := S36x1024x128) ![8, 0, 0] S1x1024x128.size inb_S36x1024x128_S1x1024x128_8_0_0)) (View.ld x1 (Rect.unit (s := S1x36) ![0, 8] S1x1.size inb_S1x36_S1x1_0_8))
        (View.ld x0 (Rect.unit (s := S36x1024x128) ![14, 0, 0] S1x1024x128.size inb_S36x1024x128_S1x1024x128_14_0_0)) (View.ld x1 (Rect.unit (s := S1x36) ![0, 14] S1x1.size inb_S1x36_S1x1_0_14))
        (View.ld x0 (Rect.unit (s := S36x1024x128) ![20, 0, 0] S1x1024x128.size inb_S36x1024x128_S1x1024x128_20_0_0)) (View.ld x1 (Rect.unit (s := S1x36) ![0, 20] S1x1.size inb_S1x36_S1x1_0_20))
        (View.ld x0 (Rect.unit (s := S36x1024x128) ![26, 0, 0] S1x1024x128.size inb_S36x1024x128_S1x1024x128_26_0_0)) (View.ld x1 (Rect.unit (s := S1x36) ![0, 26] S1x1.size inb_S1x36_S1x1_0_26))
        (View.ld x0 (Rect.unit (s := S36x1024x128) ![32, 0, 0] S1x1024x128.size inb_S36x1024x128_S1x1024x128_32_0_0)) (View.ld x1 (Rect.unit (s := S1x36) ![0, 32] S1x1.size inb_S1x36_S1x1_0_32))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![7, 0, 0] S1x1024x128.size inb_S12x1024x128_S1x1024x128_7_0_0,
      nodeVal (View.ld x0 (Rect.unit (s := S36x1024x128) ![1, 0, 0] S1x1024x128.size inb_S36x1024x128_S1x1024x128_1_0_0)) (View.ld x1 (Rect.unit (s := S1x36) ![0, 1] S1x1.size inb_S1x36_S1x1_0_1))
        (View.ld x0 (Rect.unit (s := S36x1024x128) ![7, 0, 0] S1x1024x128.size inb_S36x1024x128_S1x1024x128_7_0_0)) (View.ld x1 (Rect.unit (s := S1x36) ![0, 7] S1x1.size inb_S1x36_S1x1_0_7))
        (View.ld x0 (Rect.unit (s := S36x1024x128) ![13, 0, 0] S1x1024x128.size inb_S36x1024x128_S1x1024x128_13_0_0)) (View.ld x1 (Rect.unit (s := S1x36) ![0, 13] S1x1.size inb_S1x36_S1x1_0_13))
        (View.ld x0 (Rect.unit (s := S36x1024x128) ![19, 0, 0] S1x1024x128.size inb_S36x1024x128_S1x1024x128_19_0_0)) (View.ld x1 (Rect.unit (s := S1x36) ![0, 19] S1x1.size inb_S1x36_S1x1_0_19))
        (View.ld x0 (Rect.unit (s := S36x1024x128) ![25, 0, 0] S1x1024x128.size inb_S36x1024x128_S1x1024x128_25_0_0)) (View.ld x1 (Rect.unit (s := S1x36) ![0, 25] S1x1.size inb_S1x36_S1x1_0_25))
        (View.ld x0 (Rect.unit (s := S36x1024x128) ![31, 0, 0] S1x1024x128.size inb_S36x1024x128_S1x1024x128_31_0_0)) (View.ld x1 (Rect.unit (s := S1x36) ![0, 31] S1x1.size inb_S1x36_S1x1_0_31))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![6, 0, 0] S1x1024x128.size inb_S12x1024x128_S1x1024x128_6_0_0,
      nodeVal (View.ld x0 (Rect.unit (s := S36x1024x128) ![0, 0, 0] S1x1024x128.size inb_S36x1024x128_S1x1024x128_0_0_0)) (View.ld x1 (Rect.unit (s := S1x36) ![0, 0] S1x1.size inb_S1x36_S1x1_0_0))
        (View.ld x0 (Rect.unit (s := S36x1024x128) ![6, 0, 0] S1x1024x128.size inb_S36x1024x128_S1x1024x128_6_0_0)) (View.ld x1 (Rect.unit (s := S1x36) ![0, 6] S1x1.size inb_S1x36_S1x1_0_6))
        (View.ld x0 (Rect.unit (s := S36x1024x128) ![12, 0, 0] S1x1024x128.size inb_S36x1024x128_S1x1024x128_12_0_0)) (View.ld x1 (Rect.unit (s := S1x36) ![0, 12] S1x1.size inb_S1x36_S1x1_0_12))
        (View.ld x0 (Rect.unit (s := S36x1024x128) ![18, 0, 0] S1x1024x128.size inb_S36x1024x128_S1x1024x128_18_0_0)) (View.ld x1 (Rect.unit (s := S1x36) ![0, 18] S1x1.size inb_S1x36_S1x1_0_18))
        (View.ld x0 (Rect.unit (s := S36x1024x128) ![24, 0, 0] S1x1024x128.size inb_S36x1024x128_S1x1024x128_24_0_0)) (View.ld x1 (Rect.unit (s := S1x36) ![0, 24] S1x1.size inb_S1x36_S1x1_0_24))
        (View.ld x0 (Rect.unit (s := S36x1024x128) ![30, 0, 0] S1x1024x128.size inb_S36x1024x128_S1x1024x128_30_0_0)) (View.ld x1 (Rect.unit (s := S1x36) ![0, 30] S1x1.size inb_S1x36_S1x1_0_30))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![5, 0, 0] S1x1024x128.size inb_S12x1024x128_S1x1024x128_5_0_0,
      nodeVal (View.ld x0 (Rect.unit (s := S36x1024x128) ![30, 0, 0] S1x1024x128.size inb_S36x1024x128_S1x1024x128_30_0_0)) (View.ld x1 (Rect.unit (s := S1x36) ![0, 30] S1x1.size inb_S1x36_S1x1_0_30))
        (View.ld x0 (Rect.unit (s := S36x1024x128) ![31, 0, 0] S1x1024x128.size inb_S36x1024x128_S1x1024x128_31_0_0)) (View.ld x1 (Rect.unit (s := S1x36) ![0, 31] S1x1.size inb_S1x36_S1x1_0_31))
        (View.ld x0 (Rect.unit (s := S36x1024x128) ![32, 0, 0] S1x1024x128.size inb_S36x1024x128_S1x1024x128_32_0_0)) (View.ld x1 (Rect.unit (s := S1x36) ![0, 32] S1x1.size inb_S1x36_S1x1_0_32))
        (View.ld x0 (Rect.unit (s := S36x1024x128) ![33, 0, 0] S1x1024x128.size inb_S36x1024x128_S1x1024x128_33_0_0)) (View.ld x1 (Rect.unit (s := S1x36) ![0, 33] S1x1.size inb_S1x36_S1x1_0_33))
        (View.ld x0 (Rect.unit (s := S36x1024x128) ![34, 0, 0] S1x1024x128.size inb_S36x1024x128_S1x1024x128_34_0_0)) (View.ld x1 (Rect.unit (s := S1x36) ![0, 34] S1x1.size inb_S1x36_S1x1_0_34))
        (View.ld x0 (Rect.unit (s := S36x1024x128) ![35, 0, 0] S1x1024x128.size inb_S36x1024x128_S1x1024x128_35_0_0)) (View.ld x1 (Rect.unit (s := S1x36) ![0, 35] S1x1.size inb_S1x36_S1x1_0_35))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![4, 0, 0] S1x1024x128.size inb_S12x1024x128_S1x1024x128_4_0_0,
      nodeVal (View.ld x0 (Rect.unit (s := S36x1024x128) ![24, 0, 0] S1x1024x128.size inb_S36x1024x128_S1x1024x128_24_0_0)) (View.ld x1 (Rect.unit (s := S1x36) ![0, 24] S1x1.size inb_S1x36_S1x1_0_24))
        (View.ld x0 (Rect.unit (s := S36x1024x128) ![25, 0, 0] S1x1024x128.size inb_S36x1024x128_S1x1024x128_25_0_0)) (View.ld x1 (Rect.unit (s := S1x36) ![0, 25] S1x1.size inb_S1x36_S1x1_0_25))
        (View.ld x0 (Rect.unit (s := S36x1024x128) ![26, 0, 0] S1x1024x128.size inb_S36x1024x128_S1x1024x128_26_0_0)) (View.ld x1 (Rect.unit (s := S1x36) ![0, 26] S1x1.size inb_S1x36_S1x1_0_26))
        (View.ld x0 (Rect.unit (s := S36x1024x128) ![27, 0, 0] S1x1024x128.size inb_S36x1024x128_S1x1024x128_27_0_0)) (View.ld x1 (Rect.unit (s := S1x36) ![0, 27] S1x1.size inb_S1x36_S1x1_0_27))
        (View.ld x0 (Rect.unit (s := S36x1024x128) ![28, 0, 0] S1x1024x128.size inb_S36x1024x128_S1x1024x128_28_0_0)) (View.ld x1 (Rect.unit (s := S1x36) ![0, 28] S1x1.size inb_S1x36_S1x1_0_28))
        (View.ld x0 (Rect.unit (s := S36x1024x128) ![29, 0, 0] S1x1024x128.size inb_S36x1024x128_S1x1024x128_29_0_0)) (View.ld x1 (Rect.unit (s := S1x36) ![0, 29] S1x1.size inb_S1x36_S1x1_0_29))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![3, 0, 0] S1x1024x128.size inb_S12x1024x128_S1x1024x128_3_0_0,
      nodeVal (View.ld x0 (Rect.unit (s := S36x1024x128) ![18, 0, 0] S1x1024x128.size inb_S36x1024x128_S1x1024x128_18_0_0)) (View.ld x1 (Rect.unit (s := S1x36) ![0, 18] S1x1.size inb_S1x36_S1x1_0_18))
        (View.ld x0 (Rect.unit (s := S36x1024x128) ![19, 0, 0] S1x1024x128.size inb_S36x1024x128_S1x1024x128_19_0_0)) (View.ld x1 (Rect.unit (s := S1x36) ![0, 19] S1x1.size inb_S1x36_S1x1_0_19))
        (View.ld x0 (Rect.unit (s := S36x1024x128) ![20, 0, 0] S1x1024x128.size inb_S36x1024x128_S1x1024x128_20_0_0)) (View.ld x1 (Rect.unit (s := S1x36) ![0, 20] S1x1.size inb_S1x36_S1x1_0_20))
        (View.ld x0 (Rect.unit (s := S36x1024x128) ![21, 0, 0] S1x1024x128.size inb_S36x1024x128_S1x1024x128_21_0_0)) (View.ld x1 (Rect.unit (s := S1x36) ![0, 21] S1x1.size inb_S1x36_S1x1_0_21))
        (View.ld x0 (Rect.unit (s := S36x1024x128) ![22, 0, 0] S1x1024x128.size inb_S36x1024x128_S1x1024x128_22_0_0)) (View.ld x1 (Rect.unit (s := S1x36) ![0, 22] S1x1.size inb_S1x36_S1x1_0_22))
        (View.ld x0 (Rect.unit (s := S36x1024x128) ![23, 0, 0] S1x1024x128.size inb_S36x1024x128_S1x1024x128_23_0_0)) (View.ld x1 (Rect.unit (s := S1x36) ![0, 23] S1x1.size inb_S1x36_S1x1_0_23))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![2, 0, 0] S1x1024x128.size inb_S12x1024x128_S1x1024x128_2_0_0,
      nodeVal (View.ld x0 (Rect.unit (s := S36x1024x128) ![12, 0, 0] S1x1024x128.size inb_S36x1024x128_S1x1024x128_12_0_0)) (View.ld x1 (Rect.unit (s := S1x36) ![0, 12] S1x1.size inb_S1x36_S1x1_0_12))
        (View.ld x0 (Rect.unit (s := S36x1024x128) ![13, 0, 0] S1x1024x128.size inb_S36x1024x128_S1x1024x128_13_0_0)) (View.ld x1 (Rect.unit (s := S1x36) ![0, 13] S1x1.size inb_S1x36_S1x1_0_13))
        (View.ld x0 (Rect.unit (s := S36x1024x128) ![14, 0, 0] S1x1024x128.size inb_S36x1024x128_S1x1024x128_14_0_0)) (View.ld x1 (Rect.unit (s := S1x36) ![0, 14] S1x1.size inb_S1x36_S1x1_0_14))
        (View.ld x0 (Rect.unit (s := S36x1024x128) ![15, 0, 0] S1x1024x128.size inb_S36x1024x128_S1x1024x128_15_0_0)) (View.ld x1 (Rect.unit (s := S1x36) ![0, 15] S1x1.size inb_S1x36_S1x1_0_15))
        (View.ld x0 (Rect.unit (s := S36x1024x128) ![16, 0, 0] S1x1024x128.size inb_S36x1024x128_S1x1024x128_16_0_0)) (View.ld x1 (Rect.unit (s := S1x36) ![0, 16] S1x1.size inb_S1x36_S1x1_0_16))
        (View.ld x0 (Rect.unit (s := S36x1024x128) ![17, 0, 0] S1x1024x128.size inb_S36x1024x128_S1x1024x128_17_0_0)) (View.ld x1 (Rect.unit (s := S1x36) ![0, 17] S1x1.size inb_S1x36_S1x1_0_17))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![1, 0, 0] S1x1024x128.size inb_S12x1024x128_S1x1024x128_1_0_0,
      nodeVal (View.ld x0 (Rect.unit (s := S36x1024x128) ![6, 0, 0] S1x1024x128.size inb_S36x1024x128_S1x1024x128_6_0_0)) (View.ld x1 (Rect.unit (s := S1x36) ![0, 6] S1x1.size inb_S1x36_S1x1_0_6))
        (View.ld x0 (Rect.unit (s := S36x1024x128) ![7, 0, 0] S1x1024x128.size inb_S36x1024x128_S1x1024x128_7_0_0)) (View.ld x1 (Rect.unit (s := S1x36) ![0, 7] S1x1.size inb_S1x36_S1x1_0_7))
        (View.ld x0 (Rect.unit (s := S36x1024x128) ![8, 0, 0] S1x1024x128.size inb_S36x1024x128_S1x1024x128_8_0_0)) (View.ld x1 (Rect.unit (s := S1x36) ![0, 8] S1x1.size inb_S1x36_S1x1_0_8))
        (View.ld x0 (Rect.unit (s := S36x1024x128) ![9, 0, 0] S1x1024x128.size inb_S36x1024x128_S1x1024x128_9_0_0)) (View.ld x1 (Rect.unit (s := S1x36) ![0, 9] S1x1.size inb_S1x36_S1x1_0_9))
        (View.ld x0 (Rect.unit (s := S36x1024x128) ![10, 0, 0] S1x1024x128.size inb_S36x1024x128_S1x1024x128_10_0_0)) (View.ld x1 (Rect.unit (s := S1x36) ![0, 10] S1x1.size inb_S1x36_S1x1_0_10))
        (View.ld x0 (Rect.unit (s := S36x1024x128) ![11, 0, 0] S1x1024x128.size inb_S36x1024x128_S1x1024x128_11_0_0)) (View.ld x1 (Rect.unit (s := S1x36) ![0, 11] S1x1.size inb_S1x36_S1x1_0_11))
        (View.ld x2 (Rect.unit (s := S128x128) ![0, 0] S128x128.size inb_S128x128_S128x128_0_0)) (View.ld x3 (Rect.unit (s := S1x128) ![0, 0] S1x128.size inb_S1x128_S1x128_0_0))⟩,
    ⟨Rect.unit (s := S12x1024x128) ![0, 0, 0] S1x1024x128.size inb_S12x1024x128_S1x1024x128_0_0_0,
      nodeVal (View.ld x0 (Rect.unit (s := S36x1024x128) ![0, 0, 0] S1x1024x128.size inb_S36x1024x128_S1x1024x128_0_0_0)) (View.ld x1 (Rect.unit (s := S1x36) ![0, 0] S1x1.size inb_S1x36_S1x1_0_0))
        (View.ld x0 (Rect.unit (s := S36x1024x128) ![1, 0, 0] S1x1024x128.size inb_S36x1024x128_S1x1024x128_1_0_0)) (View.ld x1 (Rect.unit (s := S1x36) ![0, 1] S1x1.size inb_S1x36_S1x1_0_1))
        (View.ld x0 (Rect.unit (s := S36x1024x128) ![2, 0, 0] S1x1024x128.size inb_S36x1024x128_S1x1024x128_2_0_0)) (View.ld x1 (Rect.unit (s := S1x36) ![0, 2] S1x1.size inb_S1x36_S1x1_0_2))
        (View.ld x0 (Rect.unit (s := S36x1024x128) ![3, 0, 0] S1x1024x128.size inb_S36x1024x128_S1x1024x128_3_0_0)) (View.ld x1 (Rect.unit (s := S1x36) ![0, 3] S1x1.size inb_S1x36_S1x1_0_3))
        (View.ld x0 (Rect.unit (s := S36x1024x128) ![4, 0, 0] S1x1024x128.size inb_S36x1024x128_S1x1024x128_4_0_0)) (View.ld x1 (Rect.unit (s := S1x36) ![0, 4] S1x1.size inb_S1x36_S1x1_0_4))
        (View.ld x0 (Rect.unit (s := S36x1024x128) ![5, 0, 0] S1x1024x128.size inb_S36x1024x128_S1x1024x128_5_0_0)) (View.ld x1 (Rect.unit (s := S1x36) ![0, 5] S1x1.size inb_S1x36_S1x1_0_5))
        (View.ld x2 (Rect.unit (s := S128x128) ![0, 0] S128x128.size inb_S128x128_S128x128_0_0)) (View.ld x3 (Rect.unit (s := S1x128) ![0, 0] S1x128.size inb_S1x128_S1x128_0_0))⟩]

/-- Its stores tile the block, so they cover it. -/
theorem cover1_4 (p0 p1 p2 p3 p4 p5 p6 p7 p8 p9 p10 p11 : Vec F S1x1024x128 .f32) (y : S12x1024x128.Idx) :
    ∃ pc ∈ ([⟨Rect.unit (s := S12x1024x128) ![11, 0, 0] S1x1024x128.size inb_S12x1024x128_S1x1024x128_11_0_0, p11⟩, ⟨Rect.unit (s := S12x1024x128) ![10, 0, 0] S1x1024x128.size inb_S12x1024x128_S1x1024x128_10_0_0, p10⟩, ⟨Rect.unit (s := S12x1024x128) ![9, 0, 0] S1x1024x128.size inb_S12x1024x128_S1x1024x128_9_0_0, p9⟩, ⟨Rect.unit (s := S12x1024x128) ![8, 0, 0] S1x1024x128.size inb_S12x1024x128_S1x1024x128_8_0_0, p8⟩, ⟨Rect.unit (s := S12x1024x128) ![7, 0, 0] S1x1024x128.size inb_S12x1024x128_S1x1024x128_7_0_0, p7⟩, ⟨Rect.unit (s := S12x1024x128) ![6, 0, 0] S1x1024x128.size inb_S12x1024x128_S1x1024x128_6_0_0, p6⟩, ⟨Rect.unit (s := S12x1024x128) ![5, 0, 0] S1x1024x128.size inb_S12x1024x128_S1x1024x128_5_0_0, p5⟩, ⟨Rect.unit (s := S12x1024x128) ![4, 0, 0] S1x1024x128.size inb_S12x1024x128_S1x1024x128_4_0_0, p4⟩, ⟨Rect.unit (s := S12x1024x128) ![3, 0, 0] S1x1024x128.size inb_S12x1024x128_S1x1024x128_3_0_0, p3⟩, ⟨Rect.unit (s := S12x1024x128) ![2, 0, 0] S1x1024x128.size inb_S12x1024x128_S1x1024x128_2_0_0, p2⟩, ⟨Rect.unit (s := S12x1024x128) ![1, 0, 0] S1x1024x128.size inb_S12x1024x128_S1x1024x128_1_0_0, p1⟩, ⟨Rect.unit (s := S12x1024x128) ![0, 0, 0] S1x1024x128.size inb_S12x1024x128_S1x1024x128_0_0_0, p0⟩] : List (View.Piece (Elt F) S12x1024x128 .f32)), y ∈ pc.1.set :=
  View.cover_of_tiled (s := S12x1024x128) _ S1x1024x128.size (by rfl) y

/-- The second kernel's output block from its input blocks: its one store. -/
def out2_3 (x0 : Vec F S1x7168x128 .f32) (x1 : Vec F S128x128 .f32) (x2 : Vec F S1x128 .f32) : Vec F S1x7168x128 .f32 :=
  View.canon [⟨Rect.unit (s := S1x7168x128) ![0, 0, 0] S1x7168x128.size inb_S1x7168x128_S1x7168x128_0_0_0,
    k2_pay1 (View.ld x0 (Rect.unit (s := S1x7168x128) ![0, 0, 0] S1x7168x128.size inb_S1x7168x128_S1x7168x128_0_0_0))
      (View.ld x1 (Rect.unit (s := S128x128) ![0, 0] S128x128.size inb_S128x128_S128x128_0_0))
      (View.ld x2 (Rect.unit (s := S1x128) ![0, 0] S1x128.size inb_S1x128_S1x128_0_0))⟩]

theorem cover2_3 (p0 : Vec F S1x7168x128 .f32) (y : S1x7168x128.Idx) :
    ∃ pc ∈ ([⟨Rect.unit (s := S1x7168x128) ![0, 0, 0] S1x7168x128.size inb_S1x7168x128_S1x7168x128_0_0_0, p0⟩] : List (View.Piece (Elt F) S1x7168x128 .f32)), y ∈ pc.1.set :=
  View.cover_of_tiled _ S1x7168x128.size (by rfl) y

end Cert.KernelIdeal.Pf

end
-- ==== Proof.KBodyV.lean ====
/-
  The two TensorCore kernels' bodies run once at symbolic staging buffers, the inputs' at read contents and the
  outputs' at anything: each input comes back as it was, each output at the kernel's function of the inputs.
-/
import proofs.«203732_g20581483283120_cont_8to1_285_17_alg».proof.Proof.KCommon
import proofs.«203732_g20581483283120_cont_8to1_285_17_alg».proof.Proof.KSpecTC

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 4000000 in
/-- The fused kernel's body: the output block ends at `out1_4` of the input blocks. -/
theorem sound_kernel1 (c : Dev nD) (E : Set ℕ) (i : grid1.Coords)
    (M1 : Memref sig .tc .vmem S36x1024x128 .f32) (h1 : M1.IsWhole) (M2 : Memref sig .tc .vmem S1x36 .f32) (h2 : M2.IsWhole)
    (M3 : Memref sig .tc .vmem S128x128 .f32) (h3 : M3.IsWhole) (M4 : Memref sig .tc .vmem S1x128 .f32) (h4 : M4.IsWhole)
    (M5 : Memref sig .tc .vmem S12x1024x128 .f32) (h5 : M5.IsWhole)
    (x0 : Vec F S36x1024x128 .f32) (x1 : Vec F S1x36 .f32) (x2 : Vec F S128x128 .f32) (x3 : Vec F S1x128 .f32) (K : PUnit → sProp 𝕄) :
    iprop(owns (c : Thread nD τ) M1 fullShare x0 ∗ owns (c : Thread nD τ) M2 fullShare x1 ∗ owns (c : Thread nD τ) M3 fullShare x2
        ∗ owns (c : Thread nD τ) M4 fullShare x3 ∗ (∃ d, owns (c : Thread nD τ) M5 fullShare d)
        ∗ (iprop(owns (c : Thread nD τ) M1 fullShare x0 ∗ owns (c : Thread nD τ) M2 fullShare x1 ∗ owns (c : Thread nD τ) M3 fullShare x2
            ∗ owns (c : Thread nD τ) M4 fullShare x3 ∗ owns (c : Thread nD τ) M5 fullShare (out1_4 x0 x1 x2 x3)) -∗ K ⟨⟩))
      ⊢ wp frame (wpE (defs₀ (F := F)) 𝒱₀ c none) E (cc1__tc_fused_body i M1 h1 M2 h2 M3 h3 M4 h4 M5 h5) K := by
  simp only [cc1__tc_fused_body_eq_skeleton]; unfold cc1__tc_fused_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _ _ _ _ _ _ _ _ _ _ _ _)).trans ?_
  sl_unfold_run_names
  rfl

set_option maxHeartbeats 1000000 in
/-- The second kernel's body: the output block ends at `out2_3` of the input blocks (its HBM operand is not touched). -/
theorem sound_kernel2 (c : Dev nD) (E : Set ℕ) (i : grid2.Coords)
    (M2 : Memref sig .tc .hbm S12x16384x128 .f32) (h2 : M2.IsWhole) (M3 : Memref sig .tc .vmem S1x7168x128 .f32) (h3 : M3.IsWhole)
    (M4 : Memref sig .tc .vmem S128x128 .f32) (h4 : M4.IsWhole) (M5 : Memref sig .tc .vmem S1x128 .f32) (h5 : M5.IsWhole)
    (M6 : Memref sig .tc .vmem S1x7168x128 .f32) (h6 : M6.IsWhole)
    (x0 : Vec F S1x7168x128 .f32) (x1 : Vec F S128x128 .f32) (x2 : Vec F S1x128 .f32) (K : PUnit → sProp 𝕄) :
    iprop(owns (c : Thread nD τ) M3 fullShare x0 ∗ owns (c : Thread nD τ) M4 fullShare x1 ∗ owns (c : Thread nD τ) M5 fullShare x2
        ∗ (∃ d, owns (c : Thread nD τ) M6 fullShare d)
        ∗ (iprop(owns (c : Thread nD τ) M3 fullShare x0 ∗ owns (c : Thread nD τ) M4 fullShare x1 ∗ owns (c : Thread nD τ) M5 fullShare x2
            ∗ owns (c : Thread nD τ) M6 fullShare (out2_3 x0 x1 x2)) -∗ K ⟨⟩))
      ⊢ wp frame (wpE (defs₀ (F := F)) 𝒱₀ c none) E (cc2__mm_chunk_body i M2 h2 M3 h3 M4 h4 M5 h5 M6 h6) K := by
  simp only [cc2__mm_chunk_body_eq_skeleton]; unfold cc2__mm_chunk_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.KernelIdeal.Pf

end
-- ==== Proof.KDatV.lean ====
/-
  The two TensorCore pipelines' exact proof data at a region's entry contents: each window's block at a grid point, what
  the body leaves in each staging buffer (an input's block; the output's as the kernel's function of the input blocks),
  each input found at its block whether fetched at the point or not, and the body obligation at a symbolic point.
-/
import proofs.«203732_g20581483283120_cont_8to1_285_17_alg».proof.Proof.KCommon
import proofs.«203732_g20581483283120_cont_8to1_285_17_alg».proof.Proof.KBodyV

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Pipeline 0: the windows' blocks, the exact proof data, the body obligation -/

/-- Window `w`'s block at point `t`, read off its array as the region finds it (`V`). -/
def iblk1 (V : Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (V (Proc.devRef .tc (Pipeline.arrRef spec1 w)))

/-- The exact proof data of pipeline 0 at the entry contents `V`: after the body each input's buffer holds its
    block and the output's the kernel's function of the input blocks; the invariant is the scoped buffers no window
    stages; the TensorCore owes `O` throughout, its recorded pairs within `W` and the pipeline's own. -/
def dat1v (V : Valuation τ sig (Elt F)) (O : CellTallies nD τ sig (HIx 1)) (W : Waits sig (HIx 1)) (c : Dev nD) :
    Pipeline.Dat τ (Elt F) (HIx 1) ℕ UU ℕ cfg1 c where
  A w := V (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.scopedRest spec1 c
  q _ := fullShare
  owed _ := O
  recorded _ := (↑W : Set (SemLoc sig × HIx 1))

section
variable (V : Valuation τ sig (Elt F)) (O : CellTallies nD τ sig (HIx 1)) (W : Waits sig (HIx 1)) (c : Dev nD)

theorem A_eq1 (w : Fin cfg1.W) : (dat1v V O W c).A w = V (Proc.devRef .tc (Pipeline.arrRef spec1 w)) := by
  dsimp only [dat1v]
theorem after1_0 (t : Fin cfg1.N) : (dat1v V O W c).after 0 t = iblk1 V c 0 t := by dsimp only [dat1v]
theorem after1_1 (t : Fin cfg1.N) : (dat1v V O W c).after 1 t = iblk1 V c 1 t := by dsimp only [dat1v]
theorem after1_2 (t : Fin cfg1.N) : (dat1v V O W c).after 2 t = iblk1 V c 2 t := by dsimp only [dat1v]
theorem after1_3 (t : Fin cfg1.N) : (dat1v V O W c).after 3 t = iblk1 V c 3 t := by dsimp only [dat1v]
theorem after1_4 (t : Fin cfg1.N) : (dat1v V O W c).after 4 t = out1_4 (iblk1 V c 0 t) (iblk1 V c 1 t) (iblk1 V c 2 t) (iblk1 V c 3 t) := by dsimp only [dat1v]

/-- Input window 0's current staging buffer holds its block at every point, fetched there or not. -/
theorem before1_0 (t : Fin cfg1.N) (d) : (dat1v V O W c).before 0 t d = iblk1 V c 0 t :=
  ((dat1v V O W c).before_in_eq_fetched 0 rfl (fun _ => rfl) (fun _ _ _ => rfl)
    (fun t => by rw [after1_0]; unfold Pipeline.Dat.blockOf iblk1; rw [A_eq1]; try rfl) t d).trans
    (by unfold Pipeline.Dat.fetched Pipeline.Dat.blockOf iblk1; rw [A_eq1]; try rfl)

/-- Input window 1's current staging buffer holds its block at every point, fetched there or not. -/
theorem before1_1 (t : Fin cfg1.N) (d) : (dat1v V O W c).before 1 t d = iblk1 V c 1 t :=
  ((dat1v V O W c).before_in_eq_fetched 1 rfl (fun _ => rfl) (fun _ _ _ => rfl)
    (fun t => by rw [after1_1]; unfold Pipeline.Dat.blockOf iblk1; rw [A_eq1]; try rfl) t d).trans
    (by unfold Pipeline.Dat.fetched Pipeline.Dat.blockOf iblk1; rw [A_eq1]; try rfl)

/-- Input window 2's current staging buffer holds its block at every point, fetched there or not. -/
theorem before1_2 (t : Fin cfg1.N) (d) : (dat1v V O W c).before 2 t d = iblk1 V c 2 t :=
  ((dat1v V O W c).before_in_eq_fetched 2 rfl (fun _ => rfl) (fun _ _ _ => rfl)
    (fun t => by rw [after1_2]; unfold Pipeline.Dat.blockOf iblk1; rw [A_eq1]; try rfl) t d).trans
    (by unfold Pipeline.Dat.fetched Pipeline.Dat.blockOf iblk1; rw [A_eq1]; try rfl)

/-- Input window 3's current staging buffer holds its block at every point, fetched there or not. -/
theorem before1_3 (t : Fin cfg1.N) (d) : (dat1v V O W c).before 3 t d = iblk1 V c 3 t :=
  ((dat1v V O W c).before_in_eq_fetched 3 rfl (fun _ => rfl) (fun _ _ _ => rfl)
    (fun t => by rw [after1_3]; unfold Pipeline.Dat.blockOf iblk1; rw [A_eq1]; try rfl) t d).trans
    (by unfold Pipeline.Dat.fetched Pipeline.Dat.blockOf iblk1; rw [A_eq1]; try rfl)

/-- What the body is called with at point `t`, the windows one by one, -/
def bodyPre1 (t : Fin cfg1.N) : sProp 𝕄 :=
  iprop((dat1v V O W c).Φ t.castSucc ∗ (dat1v V O W c).owesAt none t.castSucc
    ∗ (∃ d, owns (c : Thread nD τ) (st1_0 t) fullShare ((dat1v V O W c).before 0 t d))
    ∗ (∃ d, owns (c : Thread nD τ) (st1_1 t) fullShare ((dat1v V O W c).before 1 t d))
    ∗ (∃ d, owns (c : Thread nD τ) (st1_2 t) fullShare ((dat1v V O W c).before 2 t d))
    ∗ (∃ d, owns (c : Thread nD τ) (st1_3 t) fullShare ((dat1v V O W c).before 3 t d))
    ∗ (∃ d, owns (c : Thread nD τ) (st1_4 t) fullShare ((dat1v V O W c).before 4 t d)))

/-- and what it returns. -/
def bodyPost1 (t : Fin cfg1.N) : sProp 𝕄 :=
  iprop((dat1v V O W c).Φ t.succ ∗ (dat1v V O W c).owesAt none t.succ
    ∗ owns (c : Thread nD τ) (st1_0 t) fullShare ((dat1v V O W c).after 0 t)
    ∗ owns (c : Thread nD τ) (st1_1 t) fullShare ((dat1v V O W c).after 1 t)
    ∗ owns (c : Thread nD τ) (st1_2 t) fullShare ((dat1v V O W c).after 2 t)
    ∗ owns (c : Thread nD τ) (st1_3 t) fullShare ((dat1v V O W c).after 3 t)
    ∗ owns (c : Thread nD τ) (st1_4 t) fullShare ((dat1v V O W c).after 4 t))

/-- The body at any point: the inputs' buffers hold their blocks, so the kernel's triple applies; the invariant and the
    core's `owes` pass through unread. -/
theorem sound_body1v (t : Fin cfg1.N) :
    bodyPre1 V O W c t ⊢ wp frame (wpE (defs₀ (F := F)) 𝒱₀ c none) Set.univ (bodyAt1 t) (fun _ => bodyPost1 V O W c t) := by
  unfold bodyPre1 bodyPost1 bodyAt1
  simp only [before1_0, before1_1, before1_2, before1_3]
  rw [show (dat1v V O W c).Φ t.succ = (dat1v V O W c).Φ t.castSucc from rfl,
    show (dat1v V O W c).owesAt none t.succ = (dat1v V O W c).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation1v : Pipeline.BodyObligation (dat1v V O W c) (defs₀ (F := F)) 𝒱₀ none Set.univ := fun t => by
  rw [bigSep_W1, bigSep_W1]
  exact sound_body1v V O W c t

end

/-! ## Pipeline 1: the windows' blocks, the exact proof data, the body obligation -/

/-- Window `w`'s block at point `t`, read off its array as the region finds it (`V`). -/
def iblk2 (V : Valuation τ sig (Elt F)) (c : Dev nD) (w : Fin cfg2.W) (t : Fin cfg2.N) :
    ((cfg2.win w).xblock (cfg2.grid.coords t)).Idx → Elt F (cfg2.win w).elt :=
  ((cfg2.win w).blk t).view.read (Elt F) (V (Proc.devRef .tc (Pipeline.arrRef spec2 w)))

/-- The exact proof data of pipeline 1 at the entry contents `V`: after the body each input's buffer holds its
    block and the output's the kernel's function of the input blocks; the invariant is the scoped buffers no window
    stages; the TensorCore owes `O` throughout, its recorded pairs within `W` and the pipeline's own. -/
def dat2v (V : Valuation τ sig (Elt F)) (O : CellTallies nD τ sig (HIx 1)) (W : Waits sig (HIx 1)) (c : Dev nD) :
    Pipeline.Dat τ (Elt F) (HIx 1) ℕ UU ℕ cfg2 c where
  A w := V (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.scopedRest spec2 c
  q _ := fullShare
  owed _ := O
  recorded _ := (↑W : Set (SemLoc sig × HIx 1))

section
variable (V : Valuation τ sig (Elt F)) (O : CellTallies nD τ sig (HIx 1)) (W : Waits sig (HIx 1)) (c : Dev nD)

theorem A_eq2 (w : Fin cfg2.W) : (dat2v V O W c).A w = V (Proc.devRef .tc (Pipeline.arrRef spec2 w)) := by
  dsimp only [dat2v]
theorem after2_0 (t : Fin cfg2.N) : (dat2v V O W c).after 0 t = iblk2 V c 0 t := by dsimp only [dat2v]
theorem after2_1 (t : Fin cfg2.N) : (dat2v V O W c).after 1 t = iblk2 V c 1 t := by dsimp only [dat2v]
theorem after2_2 (t : Fin cfg2.N) : (dat2v V O W c).after 2 t = iblk2 V c 2 t := by dsimp only [dat2v]
theorem after2_3 (t : Fin cfg2.N) : (dat2v V O W c).after 3 t = out2_3 (iblk2 V c 0 t) (iblk2 V c 1 t) (iblk2 V c 2 t) := by dsimp only [dat2v]

/-- Input window 0's current staging buffer holds its block at every point, fetched there or not. -/
theorem before2_0 (t : Fin cfg2.N) (d) : (dat2v V O W c).before 0 t d = iblk2 V c 0 t :=
  ((dat2v V O W c).before_in_eq_fetched 0 rfl (fun _ => rfl) (fun _ _ _ => rfl)
    (fun t => by rw [after2_0]; unfold Pipeline.Dat.blockOf iblk2; rw [A_eq2]; try rfl) t d).trans
    (by unfold Pipeline.Dat.fetched Pipeline.Dat.blockOf iblk2; rw [A_eq2]; try rfl)

/-- Input window 1's current staging buffer holds its block at every point, fetched there or not. -/
theorem before2_1 (t : Fin cfg2.N) (d) : (dat2v V O W c).before 1 t d = iblk2 V c 1 t :=
  ((dat2v V O W c).before_in_eq_fetched 1 rfl (fun _ => rfl) (fun _ _ _ => rfl)
    (fun t => by rw [after2_1]; unfold Pipeline.Dat.blockOf iblk2; rw [A_eq2]; try rfl) t d).trans
    (by unfold Pipeline.Dat.fetched Pipeline.Dat.blockOf iblk2; rw [A_eq2]; try rfl)

/-- Input window 2's current staging buffer holds its block at every point, fetched there or not. -/
theorem before2_2 (t : Fin cfg2.N) (d) : (dat2v V O W c).before 2 t d = iblk2 V c 2 t :=
  ((dat2v V O W c).before_in_eq_fetched 2 rfl (fun _ => rfl) (fun _ _ _ => rfl)
    (fun t => by rw [after2_2]; unfold Pipeline.Dat.blockOf iblk2; rw [A_eq2]; try rfl) t d).trans
    (by unfold Pipeline.Dat.fetched Pipeline.Dat.blockOf iblk2; rw [A_eq2]; try rfl)

/-- What the body is called with at point `t`, the windows one by one, -/
def bodyPre2 (t : Fin cfg2.N) : sProp 𝕄 :=
  iprop((dat2v V O W c).Φ t.castSucc ∗ (dat2v V O W c).owesAt none t.castSucc
    ∗ (∃ d, owns (c : Thread nD τ) (st2_0 t) fullShare ((dat2v V O W c).before 0 t d))
    ∗ (∃ d, owns (c : Thread nD τ) (st2_1 t) fullShare ((dat2v V O W c).before 1 t d))
    ∗ (∃ d, owns (c : Thread nD τ) (st2_2 t) fullShare ((dat2v V O W c).before 2 t d))
    ∗ (∃ d, owns (c : Thread nD τ) (st2_3 t) fullShare ((dat2v V O W c).before 3 t d)))

/-- and what it returns. -/
def bodyPost2 (t : Fin cfg2.N) : sProp 𝕄 :=
  iprop((dat2v V O W c).Φ t.succ ∗ (dat2v V O W c).owesAt none t.succ
    ∗ owns (c : Thread nD τ) (st2_0 t) fullShare ((dat2v V O W c).after 0 t)
    ∗ owns (c : Thread nD τ) (st2_1 t) fullShare ((dat2v V O W c).after 1 t)
    ∗ owns (c : Thread nD τ) (st2_2 t) fullShare ((dat2v V O W c).after 2 t)
    ∗ owns (c : Thread nD τ) (st2_3 t) fullShare ((dat2v V O W c).after 3 t))

/-- The body at any point: the inputs' buffers hold their blocks, so the kernel's triple applies; the invariant and the
    core's `owes` pass through unread. -/
theorem sound_body2v (t : Fin cfg2.N) :
    bodyPre2 V O W c t ⊢ wp frame (wpE (defs₀ (F := F)) 𝒱₀ c none) Set.univ (bodyAt2 t) (fun _ => bodyPost2 V O W c t) := by
  unfold bodyPre2 bodyPost2 bodyAt2
  simp only [before2_0, before2_1, before2_2]
  rw [show (dat2v V O W c).Φ t.succ = (dat2v V O W c).Φ t.castSucc from rfl,
    show (dat2v V O W c).owesAt none t.succ = (dat2v V O W c).owesAt none t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

set_option maxRecDepth 8192 in
/-- The library's body obligation, at every point. -/
theorem body_obligation2v : Pipeline.BodyObligation (dat2v V O W c) (defs₀ (F := F)) 𝒱₀ none Set.univ := fun t => by
  rw [bigSep_W2, bigSep_W2]
  exact sound_body2v V O W c t

end

end Cert.KernelIdeal.Pf

end
-- ==== Proof.KRegionV.lean ====
/-
  The two TensorCore regions with VALUES: the same regions as at the frame level, over the exact proof data, so that the
  thread state a region leaves names every buffer's contents — the region's arrays at what the pipeline's write-backs
  leave, every other buffer as entered.
-/
import proofs.«203732_g20581483283120_cont_8to1_285_17_alg».proof.Proof.KCommon
import proofs.«203732_g20581483283120_cont_8to1_285_17_alg».proof.Proof.KDatV
import proofs.«203732_g20581483283120_cont_8to1_285_17_alg».proof.Proof.KRegion1
import Idealize.ShloMosaic.Lib.Pipeline.RegionsLoop

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.SparseCore (T)

/-- Both pipelines' exact proof data, each at its own entry contents. -/
def pdatsV (V₁ V₂ : Valuation τ sig (Elt F)) (O : CellTallies nD τ sig (HIx 1)) (W : Waits sig (HIx 1)) :
    (p : Fin 2) → (c : Dev nD) → Pipeline.Dat τ (Elt F) (HIx 1) ℕ UU ℕ (Pipeline.pin (pcfgs (F := F)) adm p) c
  | ⟨0, _⟩ => fun c => dat1v V₁ O W c
  | ⟨1, _⟩ => fun c => dat2v V₂ O W c

/-- The thread state a region leaves, with values: the unscoped buffers at `V'`; what the TensorCore owes, unchanged,
    its recorded pairs those of entry and pairs at index `none`. -/
abbrev tcPostV (V' : Valuation τ sig (Elt F)) (O : CellTallies nD τ sig (HIx 1)) (W : Waits sig (HIx 1)) (c : Dev nD) : sProp 𝕄 :=
  iprop(StableHlo.held (c.tc : Thread nD τ) (Pipeline.ucRefs τ sig) V'
    ∗ ∃ W' : Waits sig (HIx 1), ⌜∀ q ∈ W', q ∈ W ∨ q.2 = none⌝ ∗ owes (c.tc : Thread nD τ) O W')

/-- The TensorCore's buffer contents when region 0 is left: pipeline 0's arrays at what its write-backs leave (the
    inputs as entered, the output's blocks overwritten in point order), every other buffer as entered. -/
def post1V (V : Valuation τ sig (Elt F)) (O : CellTallies nD τ sig (HIx 1)) (W : Waits sig (HIx 1)) (c : Dev nD) : Valuation τ sig (Elt F) :=
  Pipeline.withArrays spec1 c V fun w => (dat1v V O W c).arrAt w cfg1.N

theorem post1V_arr (V : Valuation τ sig (Elt F)) (O : CellTallies nD τ sig (HIx 1)) (W : Waits sig (HIx 1)) (c : Dev nD) (w : Fin cfg1.W) :
    post1V V O W c (Proc.devRef .tc (Pipeline.arrRef spec1 w)) = (dat1v V O W c).arrAt w cfg1.N := by
  unfold post1V; exact Pipeline.withArrays_arr spec1 launch1.win.arr_inj c _ _ w

theorem post1V_of_ne (V : Valuation τ sig (Elt F)) (O : CellTallies nD τ sig (HIx 1)) (W : Waits sig (HIx 1)) (c : Dev nD) (b : Ref sig .tc)
    (hb : ∀ w, Pipeline.arrRef spec1 w ≠ b) : post1V V O W c (Proc.devRef .tc b) = V (Proc.devRef .tc b) := by
  unfold post1V; exact Pipeline.withArrays_of_ne spec1 c _ _ b hb

/-- Every buffer but the output's ends as it was entered: an input's array is never written. -/
theorem post1V_of_ne_out (V : Valuation τ sig (Elt F)) (O : CellTallies nD τ sig (HIx 1)) (W : Waits sig (HIx 1)) (c : Dev nD) (b : Ref sig .tc)
    (hb : b ≠ main_v9) : post1V V O W c (Proc.devRef .tc b) = V (Proc.devRef .tc b) := by
  by_cases h : ∃ w, Pipeline.arrRef spec1 w = b
  · obtain ⟨w, rfl⟩ := h
    rw [post1V_arr]
    have hin : (cfg1.win w).isOut = false := by
      revert hb; revert w; decide
    exact ((dat1v V O W c).arrAt_in w hin _).trans (A_eq1 V O W c w)
  · exact post1V_of_ne V O W c b fun w e => h ⟨w, e⟩

set_option backward.isDefEq.respectTransparency.types false in
/-- Pipeline 0's region over the exact proof data: as the frame-level record, the thread state it leaves naming every
    buffer's contents. -/
def seg1v (V₁ V₂ : Valuation τ sig (Elt F)) (O : CellTallies nD τ sig (HIx 1)) (hO : ∀ g, O g none = 0) (W : Waits sig (HIx 1)) :
    Pipeline.RegionSeg (pcfgs (F := F)) adm (pdatsV V₁ V₂ O W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1v V₁ O W c).loose
  hwaits c := Pipeline.cellsWaits_intro (Pipeline.pin (pcfgs (F := F)) adm) (pdatsV V₁ V₂ O W) none 0 c
    fun w s t => (K (F := F)).mayWait_none (thr := (c.tc : Thread nD τ)) _ hO
  pre c := tcPre V₁ O W c
  post c := tcPostV (post1V V₁ O W c) O W c
  X _ := iprop(emp)
  Y _ := iprop(emp)
  Z c := Pipeline.unscopedRest (Ix := HIx 1) (Name := ℕ) (U := UU) (Lvl := ℕ) spec1 c (fun b => V₁ b)
  hentry c := by
    have hsplit := Pipeline.arrays_of_unscopedBufs (p := 0) (pcfgs (F := F)) adm (pdatsV V₁ V₂ O W) launch1.win launch1.arr_whole c
      ((pdatsV V₁ V₂ O W 0 c).share_full fun _ => rfl) (fun b => V₁ b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr; · iempintro
    iexact Hrest
  hin c := by
    rw [show (pdatsV V₁ V₂ O W 0 c).Φ 0 = Pipeline.scopedRest spec1 c from rfl]
    iintro ⟨-, -, Hr⟩; iexact Hr
  hout c := by
    rw [Pipeline.ownSems0_none, show (pdatsV V₁ V₂ O W 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdatsV V₁ V₂ O W) ((pdatsV V₁ V₂ O W 0 c).share_full fun _ => rfl)
      (fun b => V₁ b) (fun b => post1V V₁ O W c b) ((pdatsV V₁ V₂ O W 0 c).arrAt · cfg1.N)
      (fun w => (post1V_arr V₁ O W c w).symm)
      (fun b hb => post1V_of_ne V₁ O W c b fun w e => hb (Finset.mem_image.mpr ⟨w, Finset.mem_univ _, e⟩))
    rw [Pipeline.unscopedBufs_held] at hjoin
    rw [show (pdatsV V₁ V₂ O W 0 c).owesAt none (Fin.last (Pipeline.pin (pcfgs (F := F)) adm 0).N) = (dat1v V₁ O W c).owesAt none (Fin.last cfg1.N) from rfl]
    iintro ⟨Ha, HO, -, Hrest⟩
    imodintro
    isplitl [Ha Hrest]
    · iapply hjoin; isplitl [Ha]; · iexact Ha
      iexact Hrest
    · icases HO with ⟨%W', %hW', HO⟩
      iexists W'; isplitr; swap; (· iexact HO)
      ipureintro
      intro q hq
      rcases hW' hq with h | ⟨w, s, rfl⟩
      · exact Or.inl h
      · exact Or.inr rfl

set_option backward.isDefEq.respectTransparency.types false in
/-- REGION 0, with values: the thread state it leaves has every unscoped buffer at `post1V`. -/
theorem region_0v (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (ΛP (F := F)) .tc) α) (Q : α → sProp 𝕄) :
    iprop((iprop(boundary (d.tc : Thread nD τ) ∗ tcPostV (post1V V₁ O W d) O W d) -∗ wp frame (wpE (D (F := F)) 𝒱 (d.tc : Thread nD τ) none) Set.univ (k ⟨⟩) Q)
        ∗ boundary (d.tc : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q :=
  Pipeline.RegionSeg.wp (pcfgs (F := F)) adm (pdatsV V₁ V₂ O W) none cellOf_inj EP defs₀ 𝒱₀ _ _ (seg1v V₁ V₂ O hO W) d none (fun _ h => nomatch h) k Q

/-- REGION 0 with values, as @main spells it under the extended body table. -/
theorem region_0v_bind (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPostV (post1V V₁ O W d) O W d) -∗ wp frame (wpE ((K (F := F)).defs (D (F := F))) 𝒱 (T d : Thread nD τ) none) Set.univ (k ⟨⟩) Q)
        ∗ boundary (T d : Thread nD τ) ∗ tcPre V₁ O W d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d : Thread nD τ) none) Set.univ
          (Prog.lift (.customCall (SparseCore.inner (Pipeline.entry 0)) ()) >>= k) Q := by
  rw [show (Prog.lift (.customCall (SparseCore.inner (Pipeline.entry 0)) ()) >>= k : Prog (TpuEff nD τ sig (Elt F) (SparseCore.Sig (ΛP (F := F)) 1) .tc) α)
      = (SparseCore.liftProg (Q := 1) (.op (.customCall (Pipeline.entry 0) ()) fun _ => .ret PUnit.unit : Prog (TpuEff nD τ sig (Elt F) (ΛP (F := F)) .tc) PUnit)) >>= k from rfl,
    wp_bind]
  iintro ⟨Hk, Hb, Hpre, Hlev, Hg, Ht⟩
  iapply (wp_wand_r frame _ Set.univ)
  isplitr [Hk]
  · iapply ((K (F := F)).wp_liftProg (D (F := F)) 𝒱 (T d : Thread nD τ) Set.univ none _
      (fun _ => iprop(boundary (T d : Thread nD τ) ∗ tcPostV (post1V V₁ O W d) O W d)))
    iapply (region_0v V₁ V₂ O hO W d (fun _ => .ret PUnit.unit) (fun _ => iprop(boundary (T d : Thread nD τ) ∗ tcPostV (post1V V₁ O W d) O W d)))
    isplitr [Hb Hpre Hlev Hg Ht]
    · iintro H; rw [wp_ret]; imodintro; iexact H
    isplitl [Hb]; · iexact Hb
    isplitl [Hpre]; · iexact Hpre
    isplitl [Hlev]; · iexact Hlev
    isplitl [Hg]; · iexact Hg
    iexact Ht
  · iintro %_ H; iapply Hk; iexact H

/-- The TensorCore's buffer contents when region 1 is left: pipeline 1's arrays at what its write-backs leave (the
    inputs as entered, the output's blocks overwritten in point order), every other buffer as entered. -/
def post2V (V : Valuation τ sig (Elt F)) (O : CellTallies nD τ sig (HIx 1)) (W : Waits sig (HIx 1)) (c : Dev nD) : Valuation τ sig (Elt F) :=
  Pipeline.withArrays spec2 c V fun w => (dat2v V O W c).arrAt w cfg2.N

theorem post2V_arr (V : Valuation τ sig (Elt F)) (O : CellTallies nD τ sig (HIx 1)) (W : Waits sig (HIx 1)) (c : Dev nD) (w : Fin cfg2.W) :
    post2V V O W c (Proc.devRef .tc (Pipeline.arrRef spec2 w)) = (dat2v V O W c).arrAt w cfg2.N := by
  unfold post2V; exact Pipeline.withArrays_arr spec2 launch2.win.arr_inj c _ _ w

theorem post2V_of_ne (V : Valuation τ sig (Elt F)) (O : CellTallies nD τ sig (HIx 1)) (W : Waits sig (HIx 1)) (c : Dev nD) (b : Ref sig .tc)
    (hb : ∀ w, Pipeline.arrRef spec2 w ≠ b) : post2V V O W c (Proc.devRef .tc b) = V (Proc.devRef .tc b) := by
  unfold post2V; exact Pipeline.withArrays_of_ne spec2 c _ _ b hb

/-- Every buffer but the output's ends as it was entered: an input's array is never written. -/
theorem post2V_of_ne_out (V : Valuation τ sig (Elt F)) (O : CellTallies nD τ sig (HIx 1)) (W : Waits sig (HIx 1)) (c : Dev nD) (b : Ref sig .tc)
    (hb : b ≠ main_v10) : post2V V O W c (Proc.devRef .tc b) = V (Proc.devRef .tc b) := by
  by_cases h : ∃ w, Pipeline.arrRef spec2 w = b
  · obtain ⟨w, rfl⟩ := h
    rw [post2V_arr]
    have hin : (cfg2.win w).isOut = false := by
      revert hb; revert w; decide
    exact ((dat2v V O W c).arrAt_in w hin _).trans (A_eq2 V O W c w)
  · exact post2V_of_ne V O W c b fun w e => h ⟨w, e⟩

set_option backward.isDefEq.respectTransparency.types false in
/-- Pipeline 1's region over the exact proof data: as the frame-level record, the thread state it leaves naming every
    buffer's contents. -/
def seg2v (V₁ V₂ : Valuation τ sig (Elt F)) (O : CellTallies nD τ sig (HIx 1)) (hO : ∀ g, O g none = 0) (W : Waits sig (HIx 1)) :
    Pipeline.RegionSeg (pcfgs (F := F)) adm (pdatsV V₁ V₂ O W) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2v V₂ O W c).loose
  hwaits c := Pipeline.cellsWaits_intro (Pipeline.pin (pcfgs (F := F)) adm) (pdatsV V₁ V₂ O W) none 1 c
    fun w s t => (K (F := F)).mayWait_none (thr := (c.tc : Thread nD τ)) _ hO
  pre c := tcPre V₂ O W c
  post c := tcPostV (post2V V₂ O W c) O W c
  X _ := iprop(emp)
  Y _ := iprop(emp)
  Z c := Pipeline.unscopedRest (Ix := HIx 1) (Name := ℕ) (U := UU) (Lvl := ℕ) spec2 c (fun b => V₂ b)
  hentry c := by
    have hsplit := Pipeline.arrays_of_unscopedBufs (p := 1) (pcfgs (F := F)) adm (pdatsV V₁ V₂ O W) launch2.win launch2.arr_whole c
      ((pdatsV V₁ V₂ O W 1 c).share_full fun _ => rfl) (fun b => V₂ b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr; · iempintro
    iexact Hrest
  hin c := by
    rw [show (pdatsV V₁ V₂ O W 1 c).Φ 0 = Pipeline.scopedRest spec2 c from rfl]
    iintro ⟨-, -, Hr⟩; iexact Hr
  hout c := by
    rw [Pipeline.ownSems0_none, show (pdatsV V₁ V₂ O W 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdatsV V₁ V₂ O W) ((pdatsV V₁ V₂ O W 1 c).share_full fun _ => rfl)
      (fun b => V₂ b) (fun b => post2V V₂ O W c b) ((pdatsV V₁ V₂ O W 1 c).arrAt · cfg2.N)
      (fun w => (post2V_arr V₂ O W c w).symm)
      (fun b hb => post2V_of_ne V₂ O W c b fun w e => hb (Finset.mem_image.mpr ⟨w, Finset.mem_univ _, e⟩))
    rw [Pipeline.unscopedBufs_held] at hjoin
    rw [show (pdatsV V₁ V₂ O W 1 c).owesAt none (Fin.last (Pipeline.pin (pcfgs (F := F)) adm 1).N) = (dat2v V₂ O W c).owesAt none (Fin.last cfg2.N) from rfl]
    iintro ⟨Ha, HO, -, Hrest⟩
    imodintro
    isplitl [Ha Hrest]
    · iapply hjoin; isplitl [Ha]; · iexact Ha
      iexact Hrest
    · icases HO with ⟨%W', %hW', HO⟩
      iexists W'; isplitr; swap; (· iexact HO)
      ipureintro
      intro q hq
      rcases hW' hq with h | ⟨w, s, rfl⟩
      · exact Or.inl h
      · exact Or.inr rfl

set_option backward.isDefEq.respectTransparency.types false in
/-- REGION 1, with values: the thread state it leaves has every unscoped buffer at `post2V`. -/
theorem region_1v (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (ΛP (F := F)) .tc) α) (Q : α → sProp 𝕄) :
    iprop((iprop(boundary (d.tc : Thread nD τ) ∗ tcPostV (post2V V₂ O W d) O W d) -∗ wp frame (wpE (D (F := F)) 𝒱 (d.tc : Thread nD τ) none) Set.univ (k ⟨⟩) Q)
        ∗ boundary (d.tc : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q :=
  Pipeline.RegionSeg.wp (pcfgs (F := F)) adm (pdatsV V₁ V₂ O W) none cellOf_inj EP defs₀ 𝒱₀ _ _ (seg2v V₁ V₂ O hO W) d none (fun _ h => nomatch h) k Q

/-- REGION 1 with values, as @main spells it under the extended body table. -/
theorem region_1v_bind (V₁ V₂ : Valuation τ sig (Elt F)) (O : CellTallies nD τ sig (HIx 1)) (hO : ∀ g, O g none = 0) (W : Waits sig (HIx 1)) (d : Dev nD)
    {α : Type} (k : PUnit → Prog (TpuEff nD τ sig (Elt F) (SparseCore.Sig (ΛP (F := F)) 1) .tc) α) (Q : α → sProp 𝕄) :
    iprop((iprop(boundary (T d : Thread nD τ) ∗ tcPostV (post2V V₂ O W d) O W d) -∗ wp frame (wpE ((K (F := F)).defs (D (F := F))) 𝒱 (T d : Thread nD τ) none) Set.univ (k ⟨⟩) Q)
        ∗ boundary (T d : Thread nD τ) ∗ tcPre V₂ O W d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d : Thread nD τ) none) Set.univ
          (Prog.lift (.customCall (SparseCore.inner (Pipeline.entry 1)) ()) >>= k) Q := by
  rw [show (Prog.lift (.customCall (SparseCore.inner (Pipeline.entry 1)) ()) >>= k : Prog (TpuEff nD τ sig (Elt F) (SparseCore.Sig (ΛP (F := F)) 1) .tc) α)
      = (SparseCore.liftProg (Q := 1) (.op (.customCall (Pipeline.entry 1) ()) fun _ => .ret PUnit.unit : Prog (TpuEff nD τ sig (Elt F) (ΛP (F := F)) .tc) PUnit)) >>= k from rfl,
    wp_bind]
  iintro ⟨Hk, Hb, Hpre, Hlev, Hg, Ht⟩
  iapply (wp_wand_r frame _ Set.univ)
  isplitr [Hk]
  · iapply ((K (F := F)).wp_liftProg (D (F := F)) 𝒱 (T d : Thread nD τ) Set.univ none _
      (fun _ => iprop(boundary (T d : Thread nD τ) ∗ tcPostV (post2V V₂ O W d) O W d)))
    iapply (region_1v V₁ V₂ O hO W d (fun _ => .ret PUnit.unit) (fun _ => iprop(boundary (T d : Thread nD τ) ∗ tcPostV (post2V V₂ O W d) O W d)))
    isplitr [Hb Hpre Hlev Hg Ht]
    · iintro H; rw [wp_ret]; imodintro; iexact H
    isplitl [Hb]; · iexact Hb
    isplitl [Hpre]; · iexact Hpre
    isplitl [Hlev]; · iexact Hlev
    isplitl [Hg]; · iexact Hg
    iexact Ht
  · iintro %_ H; iapply Hk; iexact H

end Cert.KernelIdeal.Pf

end
-- ==== Proof.KNodeIx.lean ====
/-
  The two TensorCore kernels' bodies at an index, on the extended reals: one node's rows of the fused kernel are the six
  weighted feature slices summed, times the matrix, plus the bias, clamped at zero; the second kernel's chunk is the
  chunk times the matrix, plus the bias, clamped at zero.
-/
import proofs.«203732_g20581483283120_cont_8to1_285_17_alg».proof.Proof.KSpecTC
import Idealize.ShloMosaic.Lib.ValueIdx
import Idealize.ShloMosaic.Lib.ValueLayout
import Idealize.ShloMosaic.PureOps.Ideal.Laws

noncomputable section

open scoped BigOperators

namespace Cert.KernelIdeal.Pf

open Cert.KernelIdeal Cert.KernelIdeal.Gen
open Idealize.ShloMosaic Idealize.ShloMosaic.ValueIdx

/-! ## The products with the matrix -/

theorem lhs1024_0 (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs1024_1 (i : S1024x128.Idx) (q : dot_S1024x128_S128x128_S1024x128_1_0_0_1_n_n.contr.Idx) : (dot_S1024x128_S128x128_S1024x128_1_0_0_1_n_n.lhsIdx i q 1).val = (q ⟨0, by decide⟩).val :=
  dot_S1024x128_S128x128_S1024x128_1_0_0_1_n_n.lhsIdx_val_of_single rfl i q
theorem rhs1024_0 (i : S1024x128.Idx) (q : dot_S1024x128_S128x128_S1024x128_1_0_0_1_n_n.contr.Idx) : (dot_S1024x128_S128x128_S1024x128_1_0_0_1_n_n.rhsIdx i q 0).val = (q ⟨0, by decide⟩).val :=
  dot_S1024x128_S128x128_S1024x128_1_0_0_1_n_n.rhsIdx_val_of_single rfl i q
theorem rhs1024_1 (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product of a 1024-row block with the matrix, onto zero, at row `r`, column `c`: the sum over the contracted feature. -/
theorem mm1024_ix (L : FVec Ideal S1024x128 .f32) (R : FVec Ideal S128x128 .f32) (r : Fin 1024) (c : Fin 128) :
    matmul dot_S1024x128_S128x128_S1024x128_1_0_0_1_n_n none L R (constant (F := Ideal) S1024x128 .f32 0x00000000#32) (ix2 r c)
      = ∑ k : Fin 128, L (ix2 r k) * R (ix2 k c) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r c) ((ValueIdx.contrEquiv1 dot_S1024x128_S128x128_S1024x128_1_0_0_1_n_n 128 rfl rfl).symm k) = ix2 r k := funext fun a => Fin.ext (by
    match a with
    | ⟨0, _⟩ => exact lhs1024_0 _ _
    | ⟨1, _⟩ => exact (lhs1024_1 _ _).trans hk)
  have er : dot_S1024x128_S128x128_S1024x128_1_0_0_1_n_n.rhsIdx (ix2 r c) ((ValueIdx.contrEquiv1 dot_S1024x128_S128x128_S1024x128_1_0_0_1_n_n 128 rfl rfl).symm k) = ix2 k c := funext fun a => Fin.ext (by
    match a with
    | ⟨0, _⟩ => exact (rhs1024_0 _ _).trans hk
    | ⟨1, _⟩ => exact rhs1024_1 _ _)
  rw [el, er]

theorem lhs7168_0 (i : S7168x128.Idx) (q : dot_S7168x128_S128x128_S7168x128_1_0_0_1_n_n.contr.Idx) : (dot_S7168x128_S128x128_S7168x128_1_0_0_1_n_n.lhsIdx i q 0).val = (i 0).val := by
  unfold DotDims.lhsIdx
  rw [dif_neg (show ¬(0 : Fin S7168x128.rank) ∈ dot_S7168x128_S128x128_S7168x128_1_0_0_1_n_n.lhsBatch by decide), dif_pos (show (0 : Fin S7168x128.rank) ∈ dot_S7168x128_S128x128_S7168x128_1_0_0_1_n_n.lhsNonContracting by decide)]
  rfl
theorem lhs7168_1 (i : S7168x128.Idx) (q : dot_S7168x128_S128x128_S7168x128_1_0_0_1_n_n.contr.Idx) : (dot_S7168x128_S128x128_S7168x128_1_0_0_1_n_n.lhsIdx i q 1).val = (q ⟨0, by decide⟩).val :=
  dot_S7168x128_S128x128_S7168x128_1_0_0_1_n_n.lhsIdx_val_of_single rfl i q
theorem rhs7168_0 (i : S7168x128.Idx) (q : dot_S7168x128_S128x128_S7168x128_1_0_0_1_n_n.contr.Idx) : (dot_S7168x128_S128x128_S7168x128_1_0_0_1_n_n.rhsIdx i q 0).val = (q ⟨0, by decide⟩).val :=
  dot_S7168x128_S128x128_S7168x128_1_0_0_1_n_n.rhsIdx_val_of_single rfl i q
theorem rhs7168_1 (i : S7168x128.Idx) (q : dot_S7168x128_S128x128_S7168x128_1_0_0_1_n_n.contr.Idx) : (dot_S7168x128_S128x128_S7168x128_1_0_0_1_n_n.rhsIdx i q 1).val = (i 1).val := by
  unfold DotDims.rhsIdx
  rw [dif_neg (show ¬(1 : Fin S128x128.rank) ∈ dot_S7168x128_S128x128_S7168x128_1_0_0_1_n_n.rhsBatch by decide), dif_pos (show (1 : Fin S128x128.rank) ∈ dot_S7168x128_S128x128_S7168x128_1_0_0_1_n_n.rhsNonContracting by decide)]
  rfl

/-- The product of a 7168-row block with the matrix, onto zero, at row `r`, column `c`: the sum over the contracted feature. -/
theorem mm7168_ix (L : FVec Ideal S7168x128 .f32) (R : FVec Ideal S128x128 .f32) (r : Fin 7168) (c : Fin 128) :
    matmul dot_S7168x128_S128x128_S7168x128_1_0_0_1_n_n none L R (constant (F := Ideal) S7168x128 .f32 0x00000000#32) (ix2 r c)
      = ∑ k : Fin 128, L (ix2 r k) * R (ix2 k c) := by
  simp only [matmul]
  rw [Ideal.matmul_constant_zero_apply, ← Equiv.sum_comp (ValueIdx.contrEquiv1 dot_S7168x128_S128x128_S7168x128_1_0_0_1_n_n 128 rfl rfl).symm]
  refine Finset.sum_congr rfl fun k _ => ?_
  have hk := ValueIdx.contrEquiv1_symm_val dot_S7168x128_S128x128_S7168x128_1_0_0_1_n_n 128 rfl rfl k
  have el : dot_S7168x128_S128x128_S7168x128_1_0_0_1_n_n.lhsIdx (ix2 r c) ((ValueIdx.contrEquiv1 dot_S7168x128_S128x128_S7168x128_1_0_0_1_n_n 128 rfl rfl).symm k) = ix2 r k := funext fun a => Fin.ext (by
    match a with
    | ⟨0, _⟩ => exact lhs7168_0 _ _
    | ⟨1, _⟩ => exact (lhs7168_1 _ _).trans hk)
  have er : dot_S7168x128_S128x128_S7168x128_1_0_0_1_n_n.rhsIdx (ix2 r c) ((ValueIdx.contrEquiv1 dot_S7168x128_S128x128_S7168x128_1_0_0_1_n_n 128 rfl rfl).symm k) = ix2 k c := funext fun a => Fin.ext (by
    match a with
    | ⟨0, _⟩ => exact (rhs7168_0 _ _).trans hk
    | ⟨1, _⟩ => exact rhs7168_1 _ _)
  rw [el, er]

/-! ## Small reads -/

/-- The one entry of a one-by-one array. -/
theorem extractAt_00 {α : Type} (w : S1x1.Idx → α) (h : ∀ a, (![0, 0] : Fin S1x1.rank → Nat) a < S1x1.size a) :
    extractAt ![0, 0] w h = w (ix2 (0 : Fin 1) (0 : Fin 1)) :=
  congrArg w (funext fun a => Fin.ext (by
    match a with
    | ⟨0, _⟩ => rfl
    | ⟨1, _⟩ => rfl))

/-- The scalar zero. -/
theorem scalar_zero : (Scalar.ofBits (F := Ideal) .f32 0x00000000#32 : EReal) = 0 := Ideal.ofBits_zero_f32

/-! ## The bodies at an index -/

/-- One node's rows of the fused kernel at row `r`, column `c`. -/
theorem nodeVal_ix (s0 : Vec Ideal S1x1024x128 .f32) (w0 : Vec Ideal S1x1 .f32) (s1 : Vec Ideal S1x1024x128 .f32) (w1 : Vec Ideal S1x1 .f32)
    (s2 : Vec Ideal S1x1024x128 .f32) (w2 : Vec Ideal S1x1 .f32) (s3 : Vec Ideal S1x1024x128 .f32) (w3 : Vec Ideal S1x1 .f32)
    (s4 : Vec Ideal S1x1024x128 .f32) (w4 : Vec Ideal S1x1 .f32) (s5 : Vec Ideal S1x1024x128 .f32) (w5 : Vec Ideal S1x1 .f32)
    (m : Vec Ideal S128x128 .f32) (b : Vec Ideal S1x128 .f32) (r : Fin 1024) (c : Fin 128) :
    nodeVal (F := Ideal) s0 w0 s1 w1 s2 w2 s3 w3 s4 w4 s5 w5 m b (ix3 (0 : Fin 1) r c)
      = max ((∑ k : Fin 128, (s0 (ix3 (0 : Fin 1) r k) * w0 (ix2 (0 : Fin 1) (0 : Fin 1))
            + s1 (ix3 (0 : Fin 1) r k) * w1 (ix2 (0 : Fin 1) (0 : Fin 1))
            + s2 (ix3 (0 : Fin 1) r k) * w2 (ix2 (0 : Fin 1) (0 : Fin 1))
            + s3 (ix3 (0 : Fin 1) r k) * w3 (ix2 (0 : Fin 1) (0 : Fin 1))
            + s4 (ix3 (0 : Fin 1) r k) * w4 (ix2 (0 : Fin 1) (0 : Fin 1))
            + s5 (ix3 (0 : Fin 1) r k) * w5 (ix2 (0 : Fin 1) (0 : Fin 1))) * m (ix2 k c))
          + b (ix2 (0 : Fin 1) c)) 0 := by
  unfold nodeVal
  rw [shapeCast_ab_1ab_apply, maximumf_apply, addf_apply, mm1024_ix, broadcastTo_1b_ab_apply, broadcast_apply, scalar_zero]
  simp only [addf_apply, mulf_apply, shapeCast_1ab_ab_apply, broadcast_apply, extractAt_00, shapeCast_self]

/-- The second kernel's chunk at row `r`, column `c`. -/
theorem chunk_ix (x0 : Vec Ideal S1x7168x128 .f32) (x1 : Vec Ideal S128x128 .f32) (x2 : Vec Ideal S1x128 .f32)
    (r : Fin 7168) (c : Fin 128) :
    k2_pay1 (F := Ideal) x0 x1 x2 (ix3 (0 : Fin 1) r c)
      = max ((∑ k : Fin 128, x0 (ix3 (0 : Fin 1) r k) * x1 (ix2 k c)) + x2 (ix2 (0 : Fin 1) c)) 0 := by
  unfold k2_pay1
  rw [shapeCast_ab_1ab_apply, maximumf_apply, addf_apply, mm7168_ix, broadcastTo_1b_ab_apply, broadcast_apply, scalar_zero]
  simp only [shapeCast_1ab_ab_apply, shapeCast_self]

end Cert.KernelIdeal.Pf

end
-- ==== Proof.KArr1.lean ====
/-
  From blocks to the array, first region: what each grid point writes back is its block of ONE whole-array function of
  the entry contents (the node sums over each node's six edges, the matrix product, the bias, the clamp), so the result's
  array ends at that function on the rows the blocks cover (from 7168 on) and as entered elsewhere.
-/
import proofs.«203732_g20581483283120_cont_8to1_285_17_alg».proof.Proof.KCommon
import proofs.«203732_g20581483283120_cont_8to1_285_17_alg».proof.Proof.KRegionV
import proofs.«203732_g20581483283120_cont_8to1_285_17_alg».proof.Proof.KRel
import proofs.«203732_g20581483283120_cont_8to1_285_17_alg».proof.Proof.KNodeIx
import Idealize.ShloMosaic.Lib.Pipeline.Value

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open Cert.Spec (edgeOf)

local notation "𝕄" => MT nD τ sig (HIx 1) (Elt Ideal) ℕ UU ℕ

variable (V : Valuation τ sig (Elt Ideal)) (O : CellTallies nD τ sig (HIx 1)) (W : Waits sig (HIx 1)) (c : Dev nD)

/-- The first region's result where its blocks cover: at node `n`, row `r`, feature `cc`. -/
def G9at (n : Fin 12) (r : Fin 16384) (cc : Fin 128) : EReal :=
  max ((∑ k : Fin 128, (∑ t : Fin 6, at5 V (ix3 (edgeOf n t) r k) * at4 V (ix2 (0 : Fin 1) (edgeOf n t)))
      * at6 V (ix2 k cc)) + at7 V (ix2 (0 : Fin 1) cc)) 0

/-- As an array. -/
def G9 : S12x16384x128.Idx → EReal := fun i => G9at V (i 0) (i 1) (i 2)

theorem G9_ix3 (n : Fin 12) (r : Fin 16384) (cc : Fin 128) : G9 V (ix3 n r cc) = G9at V n r cc := rfl

/-- The windows' index maps, evaluated at every grid point. -/
theorem idx_facts1 : ∀ t : Fin cfg1.N,
    win1_0.index t (0 : Fin 3) = 0 ∧ win1_0.index t (1 : Fin 3) = t.val + 7 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = 0 ∧ win1_4.index t (1 : Fin 3) = t.val + 7 ∧ win1_4.index t (2 : Fin 3) = 0 :=
  (by decide +kernel : ∀ t : Fin grid1.N, _)

theorem t_lt (t : Fin cfg1.N) : t.val < 9 := by have := t.isLt; have h9 : cfg1.N = 9 := N_1; omega

theorem lt36 {e : ℕ} (inb : ∀ a, (![e, 0, 0] : Fin 3 → ℕ) a + S1x1024x128.size a ≤ S36x1024x128.size a) : e < 36 := by
  have h := inb 0; change e + 1 ≤ 36 at h; omega
theorem lt36' {e : ℕ} (inb : ∀ a, (![0, e] : Fin 2 → ℕ) a + S1x1.size a ≤ S1x36.size a) : e < 36 := by
  have h := inb 1; change e + 1 ≤ 36 at h; omega
theorem lt12 {n : ℕ} (inb : ∀ a, (![n, 0, 0] : Fin 3 → ℕ) a + S1x1024x128.size a ≤ S12x1024x128.size a) : n < 12 := by
  have h := inb 0; change n + 1 ≤ 12 at h; omega
theorem lt16384 (t : Fin cfg1.N) (r : Fin 1024) : (t.val + 7) * 1024 + r.val < 16384 := by have := t_lt t; omega

/-- A slice of the feature block at a point, read at an index: the array's entry at the slice's edge and the block's row. -/
theorem ld_x0 (t : Fin cfg1.N) (e : ℕ) (inb : ∀ a, (![e, 0, 0] : Fin 3 → ℕ) a + S1x1024x128.size a ≤ S36x1024x128.size a)
    (r : Fin 1024) (k : Fin 128) :
    View.ld (iblk1 V c 0 t) (Rect.unit (s := S36x1024x128) ![e, 0, 0] S1x1024x128.size inb) (ix3 (0 : Fin 1) r k)
      = at5 V (ix3 (⟨e, lt36 inb⟩ : Fin 36) (⟨(t.val + 7) * 1024 + r.val, lt16384 t r⟩ : Fin 16384) k) := by
  obtain ⟨e0, e1, e2, -⟩ := idx_facts1 t
  unfold at5
  show V r5 (((cfg1.win 0).blk t).view.emb ((Rect.unit (s := S36x1024x128) ![e, 0, 0] S1x1024x128.size inb).emb (ix3 (0 : Fin 1) r k))) = V r5 _
  refine congrArg (V r5) (funext fun a => Fin.ext ?_)
  match a with
  | ⟨0, _⟩ => show win1_0.index t (0 : Fin 3) * 36 + 1 * (e + 1 * 0) = e; omega
  | ⟨1, _⟩ => show win1_0.index t (1 : Fin 3) * 1024 + 1 * (0 + 1 * r.val) = (t.val + 7) * 1024 + r.val; omega
  | ⟨2, _⟩ => show win1_0.index t (2 : Fin 3) * 128 + 1 * (0 + 1 * k.val) = k.val; omega

/-- One weight of the weights block. -/
theorem ld_x1 (t : Fin cfg1.N) (e : ℕ) (inb : ∀ a, (![0, e] : Fin 2 → ℕ) a + S1x1.size a ≤ S1x36.size a) :
    View.ld (iblk1 V c 1 t) (Rect.unit (s := S1x36) ![0, e] S1x1.size inb) (ix2 (0 : Fin 1) (0 : Fin 1))
      = at4 V (ix2 (0 : Fin 1) (⟨e, lt36' inb⟩ : Fin 36)) := by
  obtain ⟨-, -, -, e3, e4, -⟩ := idx_facts1 t
  unfold at4
  show V r4 (((cfg1.win 1).blk t).view.emb ((Rect.unit (s := S1x36) ![0, e] S1x1.size inb).emb (ix2 (0 : Fin 1) (0 : Fin 1)))) = V r4 _
  refine congrArg (V r4) (funext fun a => Fin.ext ?_)
  match a with
  | ⟨0, _⟩ => show win1_1.index t (0 : Fin 2) * 1 + 1 * (0 + 1 * 0) = 0; omega
  | ⟨1, _⟩ => show win1_1.index t (1 : Fin 2) * 36 + 1 * (e + 1 * 0) = e; omega

/-- The matrix block is the matrix, -/
theorem ld_x2 (t : Fin cfg1.N) (inb : ∀ a, (![0, 0] : Fin 2 → ℕ) a + S128x128.size a ≤ S128x128.size a) (k cc : Fin 128) :
    View.ld (iblk1 V c 2 t) (Rect.unit (s := S128x128) ![0, 0] S128x128.size inb) (ix2 k cc) = at6 V (ix2 k cc) := by
  obtain ⟨-, -, -, -, -, e5, e6, -⟩ := idx_facts1 t
  unfold at6
  show V r6 (((cfg1.win 2).blk t).view.emb ((Rect.unit (s := S128x128) ![0, 0] S128x128.size inb).emb (ix2 k cc))) = V r6 _
  refine congrArg (V r6) (funext fun a => Fin.ext ?_)
  match a with
  | ⟨0, _⟩ => show win1_2.index t (0 : Fin 2) * 128 + 1 * (0 + 1 * k.val) = k.val; omega
  | ⟨1, _⟩ => show win1_2.index t (1 : Fin 2) * 128 + 1 * (0 + 1 * cc.val) = cc.val; omega

/-- and the bias block the bias row. -/
theorem ld_x3 (t : Fin cfg1.N) (inb : ∀ a, (![0, 0] : Fin 2 → ℕ) a + S1x128.size a ≤ S1x128.size a) (cc : Fin 128) :
    View.ld (iblk1 V c 3 t) (Rect.unit (s := S1x128) ![0, 0] S1x128.size inb) (ix2 (0 : Fin 1) cc) = at7 V (ix2 (0 : Fin 1) cc) := by
  obtain ⟨-, -, -, -, -, -, -, e7, e8, -⟩ := idx_facts1 t
  unfold at7
  show V r7 (((cfg1.win 3).blk t).view.emb ((Rect.unit (s := S1x128) ![0, 0] S1x128.size inb).emb (ix2 (0 : Fin 1) cc))) = V r7 _
  refine congrArg (V r7) (funext fun a => Fin.ext ?_)
  match a with
  | ⟨0, _⟩ => show win1_3.index t (0 : Fin 2) * 1 + 1 * (0 + 1 * 0) = 0; omega
  | ⟨1, _⟩ => show win1_3.index t (1 : Fin 2) * 128 + 1 * (0 + 1 * cc.val) = cc.val; omega

/-- Where a store's index lands in the result's array. -/
theorem emb_x4 (t : Fin cfg1.N) (n : ℕ) (inb : ∀ a, (![n, 0, 0] : Fin 3 → ℕ) a + S1x1024x128.size a ≤ S12x1024x128.size a)
    (r : Fin 1024) (cc : Fin 128) :
    ((cfg1.win 4).blk t).view.emb ((Rect.unit (s := S12x1024x128) ![n, 0, 0] S1x1024x128.size inb).emb (ix3 (0 : Fin 1) r cc))
      = (ix3 (⟨n, lt12 inb⟩ : Fin 12) (⟨(t.val + 7) * 1024 + r.val, lt16384 t r⟩ : Fin 16384) cc : S12x16384x128.Idx) := by
  obtain ⟨-, -, -, -, -, -, -, -, -, e9, e10, e11⟩ := idx_facts1 t
  refine funext fun a => Fin.ext ?_
  match a with
  | ⟨0, _⟩ => show win1_4.index t (0 : Fin 3) * 12 + 1 * (n + 1 * 0) = n; omega
  | ⟨1, _⟩ => show win1_4.index t (1 : Fin 3) * 1024 + 1 * (0 + 1 * r.val) = (t.val + 7) * 1024 + r.val; omega
  | ⟨2, _⟩ => show win1_4.index t (2 : Fin 3) * 128 + 1 * (0 + 1 * cc.val) = cc.val; omega

/-- One store's payload is the block of `G9` its rectangle names. -/
theorem piece_eq (t : Fin cfg1.N) (n : ℕ) (inb4 : ∀ a, (![n, 0, 0] : Fin 3 → ℕ) a + S1x1024x128.size a ≤ S12x1024x128.size a)
    (e0 e1 e2 e3 e4 e5 : ℕ) (i0 i1 i2 i3 i4 i5) (j0 j1 j2 j3 j4 j5) (im ib)
    (he' : ∀ t' : Fin 6, (if n < 6 then 6 * n + t'.val else 6 * t'.val + (n - 6)) = ![e0, e1, e2, e3, e4, e5] t')
    (x : S1x1024x128.Idx) :
    nodeVal (F := Ideal)
        (View.ld (iblk1 V c 0 t) (Rect.unit (s := S36x1024x128) ![e0, 0, 0] S1x1024x128.size i0)) (View.ld (iblk1 V c 1 t) (Rect.unit (s := S1x36) ![0, e0] S1x1.size j0))
        (View.ld (iblk1 V c 0 t) (Rect.unit (s := S36x1024x128) ![e1, 0, 0] S1x1024x128.size i1)) (View.ld (iblk1 V c 1 t) (Rect.unit (s := S1x36) ![0, e1] S1x1.size j1))
        (View.ld (iblk1 V c 0 t) (Rect.unit (s := S36x1024x128) ![e2, 0, 0] S1x1024x128.size i2)) (View.ld (iblk1 V c 1 t) (Rect.unit (s := S1x36) ![0, e2] S1x1.size j2))
        (View.ld (iblk1 V c 0 t) (Rect.unit (s := S36x1024x128) ![e3, 0, 0] S1x1024x128.size i3)) (View.ld (iblk1 V c 1 t) (Rect.unit (s := S1x36) ![0, e3] S1x1.size j3))
        (View.ld (iblk1 V c 0 t) (Rect.unit (s := S36x1024x128) ![e4, 0, 0] S1x1024x128.size i4)) (View.ld (iblk1 V c 1 t) (Rect.unit (s := S1x36) ![0, e4] S1x1.size j4))
        (View.ld (iblk1 V c 0 t) (Rect.unit (s := S36x1024x128) ![e5, 0, 0] S1x1024x128.size i5)) (View.ld (iblk1 V c 1 t) (Rect.unit (s := S1x36) ![0, e5] S1x1.size j5))
        (View.ld (iblk1 V c 2 t) (Rect.unit (s := S128x128) ![0, 0] S128x128.size im)) (View.ld (iblk1 V c 3 t) (Rect.unit (s := S1x128) ![0, 0] S1x128.size ib)) x
      = G9 V (((cfg1.win 4).blk t).view.emb ((Rect.unit (s := S12x1024x128) ![n, 0, 0] S1x1024x128.size inb4).emb x)) := by
  have he : ∀ t' : Fin 6, (edgeOf (⟨n, lt12 inb4⟩ : Fin 12) t').val = ![e0, e1, e2, e3, e4, e5] t' := fun t' => by
    rw [← he' t']; unfold edgeOf
    by_cases h : n < 6
    · rw [dif_pos (show (⟨n, lt12 inb4⟩ : Fin 12).val < 6 from h), if_pos h]
    · rw [dif_neg (show ¬ (⟨n, lt12 inb4⟩ : Fin 12).val < 6 from h), if_neg h]
  obtain ⟨u, r, cc, rfl⟩ : ∃ (u : Fin 1) (r : Fin 1024) (cc : Fin 128), x = ix3 u r cc := ⟨x 0, x 1, x 2, eq_ix3 x⟩
  obtain rfl : u = 0 := Subsingleton.elim _ _
  rw [emb_x4, nodeVal_ix, G9_ix3]
  unfold G9at
  simp only [Fin.sum_univ_six]
  rw [show edgeOf (⟨n, lt12 inb4⟩ : Fin 12) 0 = ⟨e0, lt36 i0⟩ from Fin.ext (he 0),
    show edgeOf (⟨n, lt12 inb4⟩ : Fin 12) 1 = ⟨e1, lt36 i1⟩ from Fin.ext (he 1),
    show edgeOf (⟨n, lt12 inb4⟩ : Fin 12) 2 = ⟨e2, lt36 i2⟩ from Fin.ext (he 2),
    show edgeOf (⟨n, lt12 inb4⟩ : Fin 12) 3 = ⟨e3, lt36 i3⟩ from Fin.ext (he 3),
    show edgeOf (⟨n, lt12 inb4⟩ : Fin 12) 4 = ⟨e4, lt36 i4⟩ from Fin.ext (he 4),
    show edgeOf (⟨n, lt12 inb4⟩ : Fin 12) 5 = ⟨e5, lt36 i5⟩ from Fin.ext (he 5)]
  refine congrArg₂ max (congrArg₂ (· + ·) (Finset.sum_congr rfl fun k _ => ?_) (ld_x3 V c t ib cc)) rfl
  refine congrArg₂ (· * ·) ?_ (ld_x2 V c t im k cc)
  exact congrArg₂ (· + ·) (congrArg₂ (· + ·) (congrArg₂ (· + ·) (congrArg₂ (· + ·) (congrArg₂ (· + ·) (congrArg₂ (· * ·) (ld_x0 V c t e0 i0 r k) (ld_x1 V c t e0 j0)) (congrArg₂ (· * ·) (ld_x0 V c t e1 i1 r k) (ld_x1 V c t e1 j1))) (congrArg₂ (· * ·) (ld_x0 V c t e2 i2 r k) (ld_x1 V c t e2 j2))) (congrArg₂ (· * ·) (ld_x0 V c t e3 i3 r k) (ld_x1 V c t e3 j3))) (congrArg₂ (· * ·) (ld_x0 V c t e4 i4 r k) (ld_x1 V c t e4 j4))) (congrArg₂ (· * ·) (ld_x0 V c t e5 i5 r k) (ld_x1 V c t e5 j5))

/-- WHAT POINT `t` WRITES BACK is block `t` of `G9` of the entry contents. -/
theorem flushed1_eq (t : Fin cfg1.N) :
    (dat1v V O W c).flushed 4 t = ((cfg1.win 4).blk t).view.read (Elt Ideal) (G9 V) := by
  show (cfg1.win 4).cut (grid1.coords t) ((dat1v V O W c).after 4 t) = _
  rw [after1_4]
  funext y
  show out1_4 (F := Ideal) (iblk1 V c 0 t) (iblk1 V c 1 t) (iblk1 V c 2 t) (iblk1 V c 3 t) y = G9 V (((cfg1.win 4).blk t).view.emb y)
  unfold out1_4
  refine View.canon_apply_of_pieces (Val := Elt Ideal) (S := S12x1024x128) (e := .f32) (fun y => G9 V (((cfg1.win 4).blk t).view.emb y)) _ ?_ y (cover1_4 _ _ _ _ _ _ _ _ _ _ _ _ y)
  intro p hp x
  simp only [List.mem_cons, List.mem_nil_iff, or_false] at hp
  rcases hp with rfl | rfl | rfl | rfl | rfl | rfl | rfl | rfl | rfl | rfl | rfl | rfl
  · exact piece_eq V c t 11 inb_S12x1024x128_S1x1024x128_11_0_0 5 11 17 23 29 35 inb_S36x1024x128_S1x1024x128_5_0_0 inb_S36x1024x128_S1x1024x128_11_0_0 inb_S36x1024x128_S1x1024x128_17_0_0 inb_S36x1024x128_S1x1024x128_23_0_0 inb_S36x1024x128_S1x1024x128_29_0_0 inb_S36x1024x128_S1x1024x128_35_0_0
      inb_S1x36_S1x1_0_5 inb_S1x36_S1x1_0_11 inb_S1x36_S1x1_0_17 inb_S1x36_S1x1_0_23 inb_S1x36_S1x1_0_29 inb_S1x36_S1x1_0_35 inb_S128x128_S128x128_0_0 inb_S1x128_S1x128_0_0 (by decide) x
  · exact piece_eq V c t 10 inb_S12x1024x128_S1x1024x128_10_0_0 4 10 16 22 28 34 inb_S36x1024x128_S1x1024x128_4_0_0 inb_S36x1024x128_S1x1024x128_10_0_0 inb_S36x1024x128_S1x1024x128_16_0_0 inb_S36x1024x128_S1x1024x128_22_0_0 inb_S36x1024x128_S1x1024x128_28_0_0 inb_S36x1024x128_S1x1024x128_34_0_0
      inb_S1x36_S1x1_0_4 inb_S1x36_S1x1_0_10 inb_S1x36_S1x1_0_16 inb_S1x36_S1x1_0_22 inb_S1x36_S1x1_0_28 inb_S1x36_S1x1_0_34 inb_S128x128_S128x128_0_0 inb_S1x128_S1x128_0_0 (by decide) x
  · exact piece_eq V c t 9 inb_S12x1024x128_S1x1024x128_9_0_0 3 9 15 21 27 33 inb_S36x1024x128_S1x1024x128_3_0_0 inb_S36x1024x128_S1x1024x128_9_0_0 inb_S36x1024x128_S1x1024x128_15_0_0 inb_S36x1024x128_S1x1024x128_21_0_0 inb_S36x1024x128_S1x1024x128_27_0_0 inb_S36x1024x128_S1x1024x128_33_0_0
      inb_S1x36_S1x1_0_3 inb_S1x36_S1x1_0_9 inb_S1x36_S1x1_0_15 inb_S1x36_S1x1_0_21 inb_S1x36_S1x1_0_27 inb_S1x36_S1x1_0_33 inb_S128x128_S128x128_0_0 inb_S1x128_S1x128_0_0 (by decide) x
  · exact piece_eq V c t 8 inb_S12x1024x128_S1x1024x128_8_0_0 2 8 14 20 26 32 inb_S36x1024x128_S1x1024x128_2_0_0 inb_S36x1024x128_S1x1024x128_8_0_0 inb_S36x1024x128_S1x1024x128_14_0_0 inb_S36x1024x128_S1x1024x128_20_0_0 inb_S36x1024x128_S1x1024x128_26_0_0 inb_S36x1024x128_S1x1024x128_32_0_0
      inb_S1x36_S1x1_0_2 inb_S1x36_S1x1_0_8 inb_S1x36_S1x1_0_14 inb_S1x36_S1x1_0_20 inb_S1x36_S1x1_0_26 inb_S1x36_S1x1_0_32 inb_S128x128_S128x128_0_0 inb_S1x128_S1x128_0_0 (by decide) x
  · exact piece_eq V c t 7 inb_S12x1024x128_S1x1024x128_7_0_0 1 7 13 19 25 31 inb_S36x1024x128_S1x1024x128_1_0_0 inb_S36x1024x128_S1x1024x128_7_0_0 inb_S36x1024x128_S1x1024x128_13_0_0 inb_S36x1024x128_S1x1024x128_19_0_0 inb_S36x1024x128_S1x1024x128_25_0_0 inb_S36x1024x128_S1x1024x128_31_0_0
      inb_S1x36_S1x1_0_1 inb_S1x36_S1x1_0_7 inb_S1x36_S1x1_0_13 inb_S1x36_S1x1_0_19 inb_S1x36_S1x1_0_25 inb_S1x36_S1x1_0_31 inb_S128x128_S128x128_0_0 inb_S1x128_S1x128_0_0 (by decide) x
  · exact piece_eq V c t 6 inb_S12x1024x128_S1x1024x128_6_0_0 0 6 12 18 24 30 inb_S36x1024x128_S1x1024x128_0_0_0 inb_S36x1024x128_S1x1024x128_6_0_0 inb_S36x1024x128_S1x1024x128_12_0_0 inb_S36x1024x128_S1x1024x128_18_0_0 inb_S36x1024x128_S1x1024x128_24_0_0 inb_S36x1024x128_S1x1024x128_30_0_0
      inb_S1x36_S1x1_0_0 inb_S1x36_S1x1_0_6 inb_S1x36_S1x1_0_12 inb_S1x36_S1x1_0_18 inb_S1x36_S1x1_0_24 inb_S1x36_S1x1_0_30 inb_S128x128_S128x128_0_0 inb_S1x128_S1x128_0_0 (by decide) x
  · exact piece_eq V c t 5 inb_S12x1024x128_S1x1024x128_5_0_0 30 31 32 33 34 35 inb_S36x1024x128_S1x1024x128_30_0_0 inb_S36x1024x128_S1x1024x128_31_0_0 inb_S36x1024x128_S1x1024x128_32_0_0 inb_S36x1024x128_S1x1024x128_33_0_0 inb_S36x1024x128_S1x1024x128_34_0_0 inb_S36x1024x128_S1x1024x128_35_0_0
      inb_S1x36_S1x1_0_30 inb_S1x36_S1x1_0_31 inb_S1x36_S1x1_0_32 inb_S1x36_S1x1_0_33 inb_S1x36_S1x1_0_34 inb_S1x36_S1x1_0_35 inb_S128x128_S128x128_0_0 inb_S1x128_S1x128_0_0 (by decide) x
  · exact piece_eq V c t 4 inb_S12x1024x128_S1x1024x128_4_0_0 24 25 26 27 28 29 inb_S36x1024x128_S1x1024x128_24_0_0 inb_S36x1024x128_S1x1024x128_25_0_0 inb_S36x1024x128_S1x1024x128_26_0_0 inb_S36x1024x128_S1x1024x128_27_0_0 inb_S36x1024x128_S1x1024x128_28_0_0 inb_S36x1024x128_S1x1024x128_29_0_0
      inb_S1x36_S1x1_0_24 inb_S1x36_S1x1_0_25 inb_S1x36_S1x1_0_26 inb_S1x36_S1x1_0_27 inb_S1x36_S1x1_0_28 inb_S1x36_S1x1_0_29 inb_S128x128_S128x128_0_0 inb_S1x128_S1x128_0_0 (by decide) x
  · exact piece_eq V c t 3 inb_S12x1024x128_S1x1024x128_3_0_0 18 19 20 21 22 23 inb_S36x1024x128_S1x1024x128_18_0_0 inb_S36x1024x128_S1x1024x128_19_0_0 inb_S36x1024x128_S1x1024x128_20_0_0 inb_S36x1024x128_S1x1024x128_21_0_0 inb_S36x1024x128_S1x1024x128_22_0_0 inb_S36x1024x128_S1x1024x128_23_0_0
      inb_S1x36_S1x1_0_18 inb_S1x36_S1x1_0_19 inb_S1x36_S1x1_0_20 inb_S1x36_S1x1_0_21 inb_S1x36_S1x1_0_22 inb_S1x36_S1x1_0_23 inb_S128x128_S128x128_0_0 inb_S1x128_S1x128_0_0 (by decide) x
  · exact piece_eq V c t 2 inb_S12x1024x128_S1x1024x128_2_0_0 12 13 14 15 16 17 inb_S36x1024x128_S1x1024x128_12_0_0 inb_S36x1024x128_S1x1024x128_13_0_0 inb_S36x1024x128_S1x1024x128_14_0_0 inb_S36x1024x128_S1x1024x128_15_0_0 inb_S36x1024x128_S1x1024x128_16_0_0 inb_S36x1024x128_S1x1024x128_17_0_0
      inb_S1x36_S1x1_0_12 inb_S1x36_S1x1_0_13 inb_S1x36_S1x1_0_14 inb_S1x36_S1x1_0_15 inb_S1x36_S1x1_0_16 inb_S1x36_S1x1_0_17 inb_S128x128_S128x128_0_0 inb_S1x128_S1x128_0_0 (by decide) x
  · exact piece_eq V c t 1 inb_S12x1024x128_S1x1024x128_1_0_0 6 7 8 9 10 11 inb_S36x1024x128_S1x1024x128_6_0_0 inb_S36x1024x128_S1x1024x128_7_0_0 inb_S36x1024x128_S1x1024x128_8_0_0 inb_S36x1024x128_S1x1024x128_9_0_0 inb_S36x1024x128_S1x1024x128_10_0_0 inb_S36x1024x128_S1x1024x128_11_0_0
      inb_S1x36_S1x1_0_6 inb_S1x36_S1x1_0_7 inb_S1x36_S1x1_0_8 inb_S1x36_S1x1_0_9 inb_S1x36_S1x1_0_10 inb_S1x36_S1x1_0_11 inb_S128x128_S128x128_0_0 inb_S1x128_S1x128_0_0 (by decide) x
  · exact piece_eq V c t 0 inb_S12x1024x128_S1x1024x128_0_0_0 0 1 2 3 4 5 inb_S36x1024x128_S1x1024x128_0_0_0 inb_S36x1024x128_S1x1024x128_1_0_0 inb_S36x1024x128_S1x1024x128_2_0_0 inb_S36x1024x128_S1x1024x128_3_0_0 inb_S36x1024x128_S1x1024x128_4_0_0 inb_S36x1024x128_S1x1024x128_5_0_0
      inb_S1x36_S1x1_0_0 inb_S1x36_S1x1_0_1 inb_S1x36_S1x1_0_2 inb_S1x36_S1x1_0_3 inb_S1x36_S1x1_0_4 inb_S1x36_S1x1_0_5 inb_S128x128_S128x128_0_0 inb_S1x128_S1x128_0_0 (by decide) x

/-- An index of the array is in point `t`'s block iff each coordinate is in the block's range on its axis. -/
theorem mem_blk1 (t : Fin cfg1.N) (i : S12x16384x128.Idx) :
    i ∈ ((cfg1.win 4).blk t).view.set ↔ ∀ a : Fin 3, win1_4.index t a * S12x1024x128.size a ≤ (i a).val ∧ (i a).val < win1_4.index t a * S12x1024x128.size a + S12x1024x128.size a := by
  show i ∈ ((View.whole main_v9).slice (win1_4.rect t)).set ↔ _
  rw [View.set_slice_whole, Rect.mem_set_unit]
  exact Iff.rfl

/-- THE COVERED INDICES: the rows from 7168 on. -/
theorem covered_iff1 (i : S12x16384x128.Idx) :
    (∃ t : Fin cfg1.N, (cfg1.win 4).flush t = true ∧ i ∈ ((cfg1.win 4).blk t).view.set) ↔ 7168 ≤ (i 1).val := by
  constructor
  · rintro ⟨t, -, hi⟩
    rw [mem_blk1] at hi
    have b1 : win1_4.index t (1 : Fin 3) * 1024 ≤ (i 1).val ∧ (i 1).val < win1_4.index t (1 : Fin 3) * 1024 + 1024 := hi 1
    obtain ⟨-, -, -, -, -, -, -, -, -, e9, e10, e11⟩ := idx_facts1 t
    omega
  · intro h
    have hi0 : (i 0).val < 12 := (i 0).isLt
    have hi1 : (i 1).val < 16384 := (i 1).isLt
    have hi2 : (i 2).val < 128 := (i 2).isLt
    have h9 : cfg1.N = 9 := N_1
    obtain ⟨t, ht⟩ : ∃ t : Fin cfg1.N, t.val = (i 1).val / 1024 - 7 := ⟨⟨(i 1).val / 1024 - 7, by omega⟩, rfl⟩
    obtain ⟨-, -, -, -, -, -, -, -, -, e9, e10, e11⟩ := idx_facts1 t
    refine ⟨t, flush1_4 t, ?_⟩
    rw [mem_blk1]
    intro a
    match a with
    | ⟨0, _⟩ => show win1_4.index t (0 : Fin 3) * 12 ≤ (i 0).val ∧ (i 0).val < win1_4.index t (0 : Fin 3) * 12 + 12; omega
    | ⟨1, _⟩ => show win1_4.index t (1 : Fin 3) * 1024 ≤ (i 1).val ∧ (i 1).val < win1_4.index t (1 : Fin 3) * 1024 + 1024; omega
    | ⟨2, _⟩ => show win1_4.index t (2 : Fin 3) * 128 ≤ (i 2).val ∧ (i 2).val < win1_4.index t (2 : Fin 3) * 128 + 128; omega

/-- THE ARRAY after the region: `G9` of the entry contents on the rows from 7168 on, the entry contents below. -/
theorem final1 (i : S12x16384x128.Idx) :
    (dat1v V O W c).arrAt 4 cfg1.N i = if 7168 ≤ (i 1).val then G9 V i else at9 V i := by
  rw [(dat1v V O W c).arrAt_eq_piecewise 4 _ (fun t _ => flushed1_eq V O W c t) i, A_eq1]
  exact if_congr (covered_iff1 i) rfl rfl

/-- The first region's relation holds of the contents it leaves. -/
theorem R9v_post1V : R9v V (post1V V O W c) := by
  have harr : ∀ i : S12x16384x128.Idx, at9 (post1V V O W c) i = (dat1v V O W c).arrAt 4 cfg1.N i := fun i =>
    congrFun (post1V_arr V O W c 4) i
  refine ⟨fun b hb => post1V_of_ne_out V O W c b hb, fun n r cc h => ?_, fun n r cc h => ?_⟩
  · rw [harr, final1, if_pos (show 7168 ≤ ((ix3 n r cc : S12x16384x128.Idx) 1).val from h), G9_ix3]; rfl
  · rw [harr, final1, if_neg (show ¬ 7168 ≤ ((ix3 n r cc : S12x16384x128.Idx) 1).val from Nat.not_le.mpr h)]

/-- Region 0 with values: the result's array ends at G9 of the entry contents on the rows from 7168 on, every other buffer as entered. -/
theorem regionBind0v : RegionBind (F := Ideal) 0 R9v := fun Vv O hO W d _ k Q => by
  iintro ⟨Hk, Hrest⟩
  iapply (region_0v_bind Vv Vv O hO W d k Q)
  isplitl [Hk]
  · iintro ⟨Hb, Hh, HW⟩
    iapply Hk
    isplitl [Hb]; · iexact Hb
    isplitl [Hh]
    · iexists (post1V Vv O W d); isplitr; · ipureintro; exact R9v_post1V Vv O W d
      iexact Hh
    iexact HW
  · iexact Hrest

end Cert.KernelIdeal.Pf

end
-- ==== Proof.KArr2.lean ====
/-
  From blocks to the array, second region: what each grid point writes back is its block of ONE whole-array function of
  the entry contents (the aggregated chunk times the matrix, the bias, the clamp), so the result's array ends at that
  function on the rows the blocks cover (below 7168) and as entered elsewhere.
-/
import proofs.«203732_g20581483283120_cont_8to1_285_17_alg».proof.Proof.KCommon
import proofs.«203732_g20581483283120_cont_8to1_285_17_alg».proof.Proof.KRegionV
import proofs.«203732_g20581483283120_cont_8to1_285_17_alg».proof.Proof.KRel
import proofs.«203732_g20581483283120_cont_8to1_285_17_alg».proof.Proof.KNodeIx
import Idealize.ShloMosaic.Lib.Pipeline.Value

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

local notation "𝕄" => MT nD τ sig (HIx 1) (Elt Ideal) ℕ UU ℕ

variable (V : Valuation τ sig (Elt Ideal)) (O : CellTallies nD τ sig (HIx 1)) (W : Waits sig (HIx 1)) (c : Dev nD)

/-- The second region's result where its blocks cover: at node `n`, row `r < 7168`, feature `cc`. -/
def G10at (n : Fin 12) (r : Fin 7168) (cc : Fin 128) : EReal :=
  max ((∑ k : Fin 128, at8 V (ix3 n r k) * at6 V (ix2 k cc)) + at7 V (ix2 (0 : Fin 1) cc)) 0

/-- As an array (off the covered rows any value: the entry contents). -/
def G10 : S12x16384x128.Idx → EReal := fun i =>
  if h : (i 1).val < 7168 then G10at V (i 0) ⟨(i 1).val, h⟩ (i 2) else at10 V i

/-- The windows' index maps and block sizes, evaluated at every grid point. -/
theorem idx_facts2 : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0
    ∧ win2_3.xsize (grid2.coords t) (0 : Fin 3) = 1 ∧ win2_3.xsize (grid2.coords t) (1 : Fin 3) = 7168 ∧ win2_3.xsize (grid2.coords t) (2 : Fin 3) = 128 :=
  (by decide +kernel : ∀ t : Fin grid2.N, _)

theorem t_lt2 (t : Fin cfg2.N) : t.val < 12 := by have := t.isLt; have h12 : cfg2.N = 12 := N_2; omega

/-- The chunk block at a point, read at an index: the aggregated array's entry at the point's node. -/
theorem blk2_0 (t : Fin cfg2.N) (r : Fin 7168) (k : Fin 128) :
    iblk2 V c 0 t (ix3 (0 : Fin 1) r k) = at8 V (ix3 (⟨t.val, t_lt2 t⟩ : Fin 12) r k) := by
  obtain ⟨e0, e1, e2, -⟩ := idx_facts2 t
  unfold at8
  show V r8 (((cfg2.win 0).blk t).view.emb (ix3 (0 : Fin 1) r k)) = V r8 _
  refine congrArg (V r8) (funext fun a => Fin.ext ?_)
  match a with
  | ⟨0, _⟩ => show win2_0.index t (0 : Fin 3) * 1 + 1 * 0 = t.val; omega
  | ⟨1, _⟩ => show win2_0.index t (1 : Fin 3) * 7168 + 1 * r.val = r.val; omega
  | ⟨2, _⟩ => show win2_0.index t (2 : Fin 3) * 128 + 1 * k.val = k.val; omega

theorem blk2_1 (t : Fin cfg2.N) (k cc : Fin 128) : iblk2 V c 1 t (ix2 k cc) = at6 V (ix2 k cc) := by
  obtain ⟨-, -, -, e3, e4, -⟩ := idx_facts2 t
  unfold at6
  show V r6 (((cfg2.win 1).blk t).view.emb (ix2 k cc)) = V r6 _
  refine congrArg (V r6) (funext fun a => Fin.ext ?_)
  match a with
  | ⟨0, _⟩ => show win2_1.index t (0 : Fin 2) * 128 + 1 * k.val = k.val; omega
  | ⟨1, _⟩ => show win2_1.index t (1 : Fin 2) * 128 + 1 * cc.val = cc.val; omega

theorem blk2_2 (t : Fin cfg2.N) (cc : Fin 128) : iblk2 V c 2 t (ix2 (0 : Fin 1) cc) = at7 V (ix2 (0 : Fin 1) cc) := by
  obtain ⟨-, -, -, -, -, e5, e6, -⟩ := idx_facts2 t
  unfold at7
  show V r7 (((cfg2.win 2).blk t).view.emb (ix2 (0 : Fin 1) cc)) = V r7 _
  refine congrArg (V r7) (funext fun a => Fin.ext ?_)
  match a with
  | ⟨0, _⟩ => show win2_2.index t (0 : Fin 2) * 1 + 1 * 0 = 0; omega
  | ⟨1, _⟩ => show win2_2.index t (1 : Fin 2) * 128 + 1 * cc.val = cc.val; omega

theorem hz3 : (![0, 0, 0] : Fin 3 → Nat) = fun _ => 0 := funext fun a => by fin_cases a <;> rfl
theorem hz2' : (![0, 0] : Fin 2 → Nat) = fun _ => 0 := funext fun a => by fin_cases a <;> rfl

/-- The output block at a point, read at an index. -/
theorem out2_3_ix (t : Fin cfg2.N) (r : Fin 7168) (cc : Fin 128) :
    out2_3 (F := Ideal) (iblk2 V c 0 t) (iblk2 V c 1 t) (iblk2 V c 2 t) (ix3 (0 : Fin 1) r cc) = G10at V ⟨t.val, t_lt2 t⟩ r cc := by
  unfold out2_3
  rw [View.canon_unit_zero hz3]
  simp only [View.ld_unit_zero (S := S1x7168x128) hz3, View.ld_unit_zero (S := S128x128) hz2', View.ld_unit_zero (S := S1x128) hz2']
  rw [chunk_ix]
  unfold G10at
  refine congrArg₂ max (congrArg₂ (· + ·) (Finset.sum_congr rfl fun k _ => ?_) (blk2_2 V c t cc)) rfl
  exact congrArg₂ (· * ·) (blk2_0 V c t r k) (blk2_1 V c t k cc)

/-- WHAT POINT `t` WRITES BACK is block `t` of `G10` of the entry contents. -/
theorem flushed2_eq (t : Fin cfg2.N) :
    (dat2v V O W c).flushed 3 t = ((cfg2.win 3).blk t).view.read (Elt Ideal) (G10 V) := by
  show (cfg2.win 3).cut (grid2.coords t) ((dat2v V O W c).after 3 t) = _
  rw [after2_3]
  obtain ⟨-, -, -, -, -, -, -, e7, e8, e9, x0, x1, x2⟩ := idx_facts2 t
  funext y
  have hy0 : (y 0).val < 1 := by
    have h := (y 0).isLt; change (y 0).val < win2_3.xsize (grid2.coords t) (0 : Fin 3) at h; omega
  have hy1 : (y 1).val < 7168 := by
    have h := (y 1).isLt; change (y 1).val < win2_3.xsize (grid2.coords t) (1 : Fin 3) at h; omega
  have hy2 : (y 2).val < 128 := by
    have h := (y 2).isLt; change (y 2).val < win2_3.xsize (grid2.coords t) (2 : Fin 3) at h; omega
  have hx : win2_3.xinj (grid2.coords t) y = (ix3 (0 : Fin 1) (⟨(y 1).val, hy1⟩ : Fin 7168) (⟨(y 2).val, hy2⟩ : Fin 128) : S1x7168x128.Idx) :=
    funext fun a => Fin.ext (by
      match a with
      | ⟨0, _⟩ => show (y 0).val = 0; omega
      | ⟨1, _⟩ => rfl
      | ⟨2, _⟩ => rfl)
  have hemb : ((cfg2.win 3).blk t).view.emb y = (ix3 (⟨t.val, t_lt2 t⟩ : Fin 12) (⟨(y 1).val, by omega⟩ : Fin 16384) (⟨(y 2).val, hy2⟩ : Fin 128) : S12x16384x128.Idx) :=
    funext fun a => Fin.ext (by
      match a with
      | ⟨0, _⟩ => show win2_3.index t (0 : Fin 3) * 1 + 1 * (y 0).val = t.val; omega
      | ⟨1, _⟩ => show win2_3.index t (1 : Fin 3) * 7168 + 1 * (y 1).val = (y 1).val; omega
      | ⟨2, _⟩ => show win2_3.index t (2 : Fin 3) * 128 + 1 * (y 2).val = (y 2).val; omega)
  show out2_3 (F := Ideal) (iblk2 V c 0 t) (iblk2 V c 1 t) (iblk2 V c 2 t) (win2_3.xinj (grid2.coords t) y) = G10 V (((cfg2.win 3).blk t).view.emb y)
  rw [hx, hemb, out2_3_ix]
  unfold G10
  rw [dif_pos (show ((ix3 (⟨t.val, t_lt2 t⟩ : Fin 12) (⟨(y 1).val, by omega⟩ : Fin 16384) (⟨(y 2).val, hy2⟩ : Fin 128) : S12x16384x128.Idx) 1).val < 7168 from hy1)]

/-- An index of the array is in point `t`'s block iff each coordinate is in the block's moved range on its axis. -/
theorem mem_blk2 (t : Fin cfg2.N) (i : S12x16384x128.Idx) :
    i ∈ ((cfg2.win 3).blk t).view.set ↔ ∀ a : Fin 3, win2_3.index t a * S1x7168x128.size a ≤ (i a).val ∧ (i a).val < win2_3.index t a * S1x7168x128.size a + win2_3.xsize (grid2.coords t) a := by
  show i ∈ ((View.whole main_v10).slice (win2_3.rect t)).set ↔ _
  rw [View.set_slice_whole, Rect.mem_set_unit]
  exact Iff.rfl

/-- THE COVERED INDICES: the rows below 7168. -/
theorem covered_iff2 (i : S12x16384x128.Idx) :
    (∃ t : Fin cfg2.N, (cfg2.win 3).flush t = true ∧ i ∈ ((cfg2.win 3).blk t).view.set) ↔ (i 1).val < 7168 := by
  constructor
  · rintro ⟨t, -, hi⟩
    rw [mem_blk2] at hi
    have b1 : win2_3.index t (1 : Fin 3) * 7168 ≤ (i 1).val ∧ (i 1).val < win2_3.index t (1 : Fin 3) * 7168 + win2_3.xsize (grid2.coords t) (1 : Fin 3) := hi 1
    obtain ⟨-, -, -, -, -, -, -, e7, e8, e9, x0, x1, x2⟩ := idx_facts2 t
    omega
  · intro h
    have hi0 : (i 0).val < 12 := (i 0).isLt
    have hi2 : (i 2).val < 128 := (i 2).isLt
    have h12 : cfg2.N = 12 := N_2
    obtain ⟨t, ht⟩ : ∃ t : Fin cfg2.N, t.val = (i 0).val := ⟨⟨(i 0).val, by omega⟩, rfl⟩
    obtain ⟨-, -, -, -, -, -, -, e7, e8, e9, x0, x1, x2⟩ := idx_facts2 t
    refine ⟨t, flush2_3 t, ?_⟩
    rw [mem_blk2]
    intro a
    match a with
    | ⟨0, _⟩ => show win2_3.index t (0 : Fin 3) * 1 ≤ (i 0).val ∧ (i 0).val < win2_3.index t (0 : Fin 3) * 1 + win2_3.xsize (grid2.coords t) (0 : Fin 3); omega
    | ⟨1, _⟩ => show win2_3.index t (1 : Fin 3) * 7168 ≤ (i 1).val ∧ (i 1).val < win2_3.index t (1 : Fin 3) * 7168 + win2_3.xsize (grid2.coords t) (1 : Fin 3); omega
    | ⟨2, _⟩ => show win2_3.index t (2 : Fin 3) * 128 ≤ (i 2).val ∧ (i 2).val < win2_3.index t (2 : Fin 3) * 128 + win2_3.xsize (grid2.coords t) (2 : Fin 3); omega

/-- THE ARRAY after the region: `G10` of the entry contents on the rows below 7168, the entry contents from there on. -/
theorem final2 (i : S12x16384x128.Idx) :
    (dat2v V O W c).arrAt 3 cfg2.N i = if (i 1).val < 7168 then G10 V i else at10 V i := by
  rw [(dat2v V O W c).arrAt_eq_piecewise 3 _ (fun t _ => flushed2_eq V O W c t) i, A_eq2]
  exact if_congr (covered_iff2 i) rfl rfl

/-- The second region's relation holds of the contents it leaves. -/
theorem R10v_post2V : R10v V (post2V V O W c) := by
  have harr : ∀ i : S12x16384x128.Idx, at10 (post2V V O W c) i = (dat2v V O W c).arrAt 3 cfg2.N i := fun i =>
    congrFun (post2V_arr V O W c 3) i
  refine ⟨fun b hb => post2V_of_ne_out V O W c b hb, fun n r cc h => ?_, fun n r cc h => ?_⟩
  · rw [harr, final2, if_pos (show ((ix3 n r cc : S12x16384x128.Idx) 1).val < 7168 from h)]
    unfold G10
    rw [dif_pos (show ((ix3 n r cc : S12x16384x128.Idx) 1).val < 7168 from h)]
    rfl
  · rw [harr, final2, if_neg (show ¬ ((ix3 n r cc : S12x16384x128.Idx) 1).val < 7168 from Nat.not_lt.mpr h)]

/-- Region 1 with values: the result's array ends at G10 of the entry contents on the rows below 7168, every other buffer as entered. -/
theorem regionBind1v : RegionBind (F := Ideal) 1 R10v := fun Vv O hO W d _ k Q => by
  iintro ⟨Hk, Hrest⟩
  iapply (region_1v_bind Vv Vv O hO W d k Q)
  isplitl [Hk]
  · iintro ⟨Hb, Hh, HW⟩
    iapply Hk
    isplitl [Hb]; · iexact Hb
    isplitl [Hh]
    · iexists (post2V Vv O W d); isplitr; · ipureintro; exact R10v_post2V Vv O W d
      iexact Hh
    iexact HW
  · iexact Hrest

end Cert.KernelIdeal.Pf

end
-- ==== Proof.KTileVal.lean ====
/-
  What the vector-subcore kernel computes, index by index, for any float values: a node's row is its six edges' rows,
  each times the lane copy of the edge's weight, added one after another in the order of the edges.
-/
import proofs.«203732_g20581483283120_cont_8to1_285_17_alg».proof.Proof.KTileComp
import proofs.«203732_g20581483283120_cont_8to1_285_17_alg».proof.Proof.KBridge
import Idealize.ShloMosaic.Lib.ValueIdx
import Idealize.ShloMosaic.Lib.Pipeline.Value

noncomputable section

namespace Cert.KernelIdeal.Pf

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec (edgeOf)

variable {F : FTy → Type} [FloatOps F]

/-- Six terms added one after another, from the first. -/
def sum6L (g : Fin 6 → F .f32) : F .f32 :=
  FloatOps.addf (FloatOps.addf (FloatOps.addf (FloatOps.addf (FloatOps.addf (g 0) (g 1)) (g 2)) (g 3)) (g 4)) (g 5)

theorem edge_lane_lt (e : Fin 36) (j : ℕ) : 16 * e.val + j % 16 < 576 := by
  have := e.isLt; have := Nat.mod_lt j (show 0 < 16 by decide); omega

/-- What one pass over a slot's eight rows leaves in the output slot, as ONE function of the input slot `xv` and the
    weights `wv`: entry (node, row, lane). -/
def rowVal (xv : Vec F S36x8x128 .f32) (wv : Vec F S576 .f32) : Vec F S12x8x128 .f32 := fun y =>
  sum6L fun t => FloatOps.mulf (xv (ix3 (edgeOf (y 0) t) (y 1) (y 2)))
    (wv (ix1 (⟨16 * (edgeOf (y 0) t).val + (y 2).val % 16, edge_lane_lt _ _⟩ : Fin 576)))

theorem rowVal_ix3 (xv : Vec F S36x8x128 .f32) (wv : Vec F S576 .f32) (n : Fin 12) (i : Fin 8) (j : Fin 128) :
    rowVal xv wv (ix3 n i j) = sum6L fun t => FloatOps.mulf (xv (ix3 (edgeOf n t) i j))
      (wv (ix1 (⟨16 * (edgeOf n t).val + j.val % 16, edge_lane_lt _ _⟩ : Fin 576))) := rfl

/-- The whole aggregated array as one function of the edge-first features `X5` and the lane-repeated weights `W3`. -/
def tileVal (X5 : (Proc.devRef .tc (main_v5 : Ref sig .tc) : DevRef τ sig).ty.Contents (Elt F))
    (W3 : (Proc.devRef .tc (main_v3 : Ref sig .tc) : DevRef τ sig).ty.Contents (Elt F)) :
    (Proc.devRef .tc (main_v8 : Ref sig .tc) : DevRef τ sig).ty.Contents (Elt F) :=
  fun (y : S12x7168x128.Idx) =>
    sum6L fun t => FloatOps.mulf ((X5 : S36x16384x128.Idx → F .f32) (ix3 (edgeOf (y 0) t) (⟨(y 1).val, by have h : (y 1).val < 7168 := (y 1).isLt; omega⟩ : Fin 16384) (y 2)))
      ((W3 : S576.Idx → F .f32) (ix1 (⟨16 * (edgeOf (y 0) t).val + (y 2).val % 16, edge_lane_lt _ _⟩ : Fin 576)))

theorem tileVal_ix3 (X5 : (Proc.devRef .tc (main_v5 : Ref sig .tc) : DevRef τ sig).ty.Contents (Elt F))
    (W3 : (Proc.devRef .tc (main_v3 : Ref sig .tc) : DevRef τ sig).ty.Contents (Elt F)) (n : Fin 12) (r : Fin 7168) (j : Fin 128) :
    (tileVal X5 W3 : S12x7168x128.Idx → F .f32) (ix3 n r j)
      = sum6L fun t => FloatOps.mulf ((X5 : S36x16384x128.Idx → F .f32) (ix3 (edgeOf n t) (⟨r.val, by omega⟩ : Fin 16384) j))
          ((W3 : S576.Idx → F .f32) (ix1 (⟨16 * (edgeOf n t).val + j.val % 16, edge_lane_lt _ _⟩ : Fin 576))) := rfl

/-- A slot holding eight rows of the features from row `b` on gives those eight rows of the whole array. -/
theorem rowVal_tileVal (X5 : (Proc.devRef .tc (main_v5 : Ref sig .tc) : DevRef τ sig).ty.Contents (Elt F))
    (W3 : (Proc.devRef .tc (main_v3 : Ref sig .tc) : DevRef τ sig).ty.Contents (Elt F)) (b : ℕ) (hb : b + 8 ≤ 7168)
    (xv : Vec F S36x8x128 .f32)
    (hxv : ∀ (e : Fin 36) (i : Fin 8) (j : Fin 128), xv (ix3 e i j) = (X5 : S36x16384x128.Idx → F .f32) (ix3 e (⟨b + i.val, by omega⟩ : Fin 16384) j))
    (n : Fin 12) (i : Fin 8) (j : Fin 128) :
    rowVal xv (W3 : S576.Idx → F .f32) (ix3 n i j) = (tileVal X5 W3 : S12x7168x128.Idx → F .f32) (ix3 n (⟨b + i.val, by omega⟩ : Fin 7168) j) := by
  rw [rowVal_ix3, tileVal_ix3]
  simp only [hxv]

/-- A function into the extended reals, read as such. -/
abbrev asE {s : Shape} (f : s.Idx → EReal) : s.Idx → EReal := f

/-- On the extended reals: the sum over the node's six edges. -/
theorem tileVal_ix (X5 : (Proc.devRef .tc (main_v5 : Ref sig .tc) : DevRef τ sig).ty.Contents (Elt Ideal))
    (W3 : (Proc.devRef .tc (main_v3 : Ref sig .tc) : DevRef τ sig).ty.Contents (Elt Ideal)) (n : Fin 12) (r : Fin 7168) (j : Fin 128) :
    asE (s := S12x7168x128) (tileVal X5 W3) (ix3 n r j)
      = ∑ t : Fin 6, asE (s := S36x16384x128) X5 (ix3 (edgeOf n t) (⟨r.val, by omega⟩ : Fin 16384) j)
          * asE (s := S576) W3 (ix1 (⟨16 * (edgeOf n t).val + j.val % 16, edge_lane_lt _ _⟩ : Fin 576)) := by
  show (tileVal X5 W3 : S12x7168x128.Idx → EReal) (ix3 n r j) = _
  rw [tileVal_ix3]
  exact Cert.KBridge.sum6_left (fun t => asE (s := S36x16384x128) X5 (ix3 (edgeOf n t) (⟨r.val, by omega⟩ : Fin 16384) j)
          * asE (s := S576) W3 (ix1 (⟨16 * (edgeOf n t).val + j.val % 16, edge_lane_lt _ _⟩ : Fin 576)))

end Cert.KernelIdeal.Pf
end
-- ==== Proof.KAlgTile.lean ====
/-
  The kernel program's valued run with the tiles' sums in place: the SparseCore call returns the node sums as one
  function of its operands, which on the extended reals are the sums over each node's six edges.
-/
import proofs.«203732_g20581483283120_cont_8to1_285_17_alg».proof.Proof.KAlg
import proofs.«203732_g20581483283120_cont_8to1_285_17_alg».proof.Proof.KArr1
import proofs.«203732_g20581483283120_cont_8to1_285_17_alg».proof.Proof.KArr2
import proofs.«203732_g20581483283120_cont_8to1_285_17_alg».proof.Proof.KSplit
import proofs.«203732_g20581483283120_cont_8to1_285_17_alg».proof.Proof.KTileVal

noncomputable section

namespace Cert.KernelIdeal.Pf

open Cert.KernelIdeal Cert.KernelIdeal.Gen
open Idealize.ShloMosaic Idealize.SL.Sem
open Idealize.ShloMosaic.SparseCore.Cfg (HIx Pay)

/-- The tiles' array, on the extended reals, is what the call must leave. -/
theorem C8v_of_tileVal (W : Valuation τ sig (Elt Ideal)) : C8v W (tileVal (W r5) (W r3)) := by
  intro n r j
  exact tileVal_ix (W r5) (W r3) n r j

/-- The run on the extended reals, read at the result and the arguments, from the tile's task proved with its rows named. -/
theorem alg_run_tile
    (htileV : ∀ (X5 : (d : Dev nD) → Buf (Elt Ideal) (x5Loc d)) (W3 : (d : Dev nD) → Buf (Elt Ideal) (w3Loc d)) (f8 : (d : Dev nD) → Buf (Elt Ideal) (o8Loc d)),
      (K (F := Ideal)).TileObl (D (F := Ideal)) 𝒱 (PV (F := Ideal) tileVal X5 W3 f8) v₀ 0)
    (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ (fun r => ∀ c : Dev nD,
      r.2.mem ((c.tc : Thread nD τ).loc main_v11)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  alg_run m ρ (PmV m tileVal) (PV_x tileVal _ _ _) rfl
    (CallSplit.mono m (C := fun W f => f = tileVal (W r5) (W r3)) (C' := C8v) (fun W f h => by subst h; exact C8v_of_tileVal W) (callSplitV m tileVal))
    regionBind0v regionBind1v (htileV _ _ _) (vecSplitV tileVal _ _ _)

end Cert.KernelIdeal.Pf

end
-- ==== Proof.KTileVDefs.lean ====
import proofs.«203732_g20581483283120_cont_8to1_285_17_alg».proof.Proof.KTileDefs

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the copies and the compute loop leave -/

/-- what a landed copy of the input's rows at `o` leaves in an input slot -/
def xRows (d : Dev nD) (X5 : Buf (Elt F) (x5Loc d)) (o : Fin 3 → ℕ) (h : ∀ a, o a + S36x8x128.size a ≤ S36x16384x128.size a) :
    S36x8x128.Idx → Elt F .f32 :=
  ReadAs.same.apply (View.read (Elt F) ((xM).slice (Rect.unit (s := S36x16384x128) o S36x8x128.size h) (fun _ => rfl)).view X5)

/-- what the landed copy of the weights leaves in the tile's scratch -/
def wLanded (d : Dev nD) (W3 : Buf (Elt F) (w3Loc d)) : S576.Idx → Elt F .f32 :=
  ReadAs.same.apply (View.read (Elt F) (wM).view W3)

/-- what a landed copy of an output slot holding `fo` leaves on the result's rows at `o`, over what they held -/
def rowsLanded (d : Dev nD) (ov : Memref sig .scVector .vmem S12x8x128 .f32) (o : Fin 3 → ℕ) (h : ∀ a, o a + S12x8x128.size a ≤ S12x7168x128.size a)
    (fr : Buf (Elt F) (o8Loc d)) (fo : BufTy.Contents (Elt F) ov.view.ty) : Buf (Elt F) (o8Loc d) :=
  ((oM).slice (Rect.unit (s := S12x7168x128) o S12x8x128.size h) (fun _ => rfl)).view.writes (Elt F) fr
    [⟨Rect.whole S12x8x128, ReadAs.same.apply (View.read (Elt F) ov.view fo)⟩]

/-- the offsets of the tile's group `g` of rows -/
abbrev offG (L : grid0.Coords) (g : ℕ) : Fin 3 → ℕ := ![0, 224 * wid L + 8 * min g 27, 0]

end Cert.KernelIdeal.Pf
end
-- ==== Proof.KTileV.lean ====
/-
  The tile's task again, with the contents named: a landed copy of the input leaves the input's rows in its slot, the
  compute loop leaves in the output slot a function `RV` of the two inputs (stated row by row, as a hypothesis on
  the two loops), a landed copy out leaves the slot's contents on the result's rows. The invariant holds every
  buffer at its exact contents; what the rows hold in the end is read off once, after the run.
-/
import proofs.«203732_g20581483283120_cont_8to1_285_17_alg».proof.Proof.KTile
import proofs.«203732_g20581483283120_cont_8to1_285_17_alg».proof.Proof.KTileVDefs

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section TileV
variable (d : Dev nD) (L : grid0.Coords)

/-! ## The pipeline's state between two steps, the contents named -/

variable (RV : (S36x8x128.Idx → Elt F .f32) → (S576.Idx → Elt F .f32) → (S12x8x128.Idx → Elt F .f32))

/-- the compute loop's state before row `k` of a slot: rows below `k` of the output slot hold `RV` of the inputs -/
abbrev CI0 (fx : S36x8x128.Idx → Elt F .f32) (fw : S576.Idx → Elt F .f32) (k : ℕ) : sProp 𝕄 :=
  iprop(((xv0M).view.loc (V d (cV L) (jV L)) ↦{fullShare} fx) ∗ ((wvM).view.loc (V d (cV L) (jV L)) ↦{fullShare} fw)
    ∗ ∃ fo : Buf (Elt F) ((ov0M).view.loc (V d (cV L) (jV L))), ⌜∀ y : S12x8x128.Idx, (y 1).val < k → fo y = RV fx fw y⌝
        ∗ ((ov0M).view.loc (V d (cV L) (jV L)) ↦{fullShare} fo))
abbrev CI1 (fx : S36x8x128.Idx → Elt F .f32) (fw : S576.Idx → Elt F .f32) (k : ℕ) : sProp 𝕄 :=
  iprop(((xv1M).view.loc (V d (cV L) (jV L)) ↦{fullShare} fx) ∗ ((wvM).view.loc (V d (cV L) (jV L)) ↦{fullShare} fw)
    ∗ ∃ fo : Buf (Elt F) ((ov1M).view.loc (V d (cV L) (jV L))), ⌜∀ y : S12x8x128.Idx, (y 1).val < k → fo y = RV fx fw y⌝
        ∗ ((ov1M).view.loc (V d (cV L) (jV L)) ↦{fullShare} fo))

/-- what the compute loops are asked to do, one row at a time -/
def CompSpec0 : Prop := ∀ (fx : S36x8x128.Idx → Elt F .f32) (fw : S576.Idx → Elt F .f32) (v3 v4 c0 c1 : BitVec 32) (k1 : Fin k0_t1_loop.trips)
    (k : Fin k0_t2_loop.trips) (acc : BitVec 32),
  CI0 (F := F) d L RV fx fw k.val
    ⊢ wp frame (wpE (defs₀ (F := F)) 𝒱₀ (V d (cV L) (jV L)) none) Set.univ
        (k0_t2_body L xM (Memref.isWhole_whole _) wM (Memref.isWhole_whole _) oM (Memref.isWhole_whole _)
          wvM (Memref.isWhole_whole _) xv0M (Memref.isWhole_whole _) xv1M (Memref.isWhole_whole _) ov0M (Memref.isWhole_whole _) ov1M (Memref.isWhole_whole _)
          cc0_scratch5 cc0_scratch6 cc0_scratch7 cc0_scratch8 cc0_scoped0 v3 v4 c0 c1 k1 k acc)
        fun _ => CI0 (F := F) d L RV fx fw (k.val + 1)
def CompSpec1 : Prop := ∀ (fx : S36x8x128.Idx → Elt F .f32) (fw : S576.Idx → Elt F .f32) (k : Fin k0_t3_loop.trips) (acc : BitVec 32),
  CI1 (F := F) d L RV fx fw k.val
    ⊢ wp frame (wpE (defs₀ (F := F)) 𝒱₀ (V d (cV L) (jV L)) none) Set.univ
        (k0_t3_body L xM (Memref.isWhole_whole _) wM (Memref.isWhole_whole _) oM (Memref.isWhole_whole _)
          wvM (Memref.isWhole_whole _) xv0M (Memref.isWhole_whole _) xv1M (Memref.isWhole_whole _) ov0M (Memref.isWhole_whole _) ov1M (Memref.isWhole_whole _)
          cc0_scratch5 cc0_scratch6 cc0_scratch7 cc0_scratch8 cc0_scoped0 k acc)
        fun _ => CI1 (F := F) d L RV fx fw (k.val + 1)

/-- A copy of the input's rows at `o` into the slot `xv` under way on `sm`: it delivers the slot at those rows. -/
def InFlV (xv : Memref sig .scVector .vmem S36x8x128 .f32) (sm : SemLoc sig) (q : PosShare TreeShare) (X5 : Buf (Elt F) (x5Loc d))
    (o : Fin 3 → ℕ) (h : ∀ a, o a + S36x8x128.size a ≤ S36x16384x128.size a) (fx : BufTy.Contents (Elt F) xv.view.ty) : sProp 𝕄 :=
  iprop((Transfers.Flight (ECt (F := F)) (V d (cV L) (jV L)) sm default 1179648
      iprop((xv.view.loc (V d (cV L) (jV L)) ↦{fullShare} fx)
        ∗ ((xM).view.loc (V d (cV L) (jV L)) ↦[(((xM).slice (Rect.unit (s := S36x16384x128) o S36x8x128.size h) (fun _ => rfl)).view.set : Finset S36x16384x128.Idx)]{q} X5)))
    ∗ ((xM).view.loc (V d (cV L) (jV L)) ↦[Finset.univ \ (((xM).slice (Rect.unit (s := S36x16384x128) o S36x8x128.size h) (fun _ => rfl)).view.set : Finset S36x16384x128.Idx)]{q} X5))

omit [FloatOps F] in
theorem InFlV_congr (xv : Memref sig .scVector .vmem S36x8x128 .f32) (sm : SemLoc sig) (q : PosShare TreeShare) (X5 : Buf (Elt F) (x5Loc d))
    {o o' : Fin 3 → ℕ} (e : o = o') (h : ∀ a, o a + S36x8x128.size a ≤ S36x16384x128.size a) (h' : ∀ a, o' a + S36x8x128.size a ≤ S36x16384x128.size a)
    (fx : BufTy.Contents (Elt F) xv.view.ty) :
    InFlV (F := F) d L xv sm q X5 o h fx = InFlV (F := F) d L xv sm q X5 o' h' fx := by subst e; rfl

omit [FloatOps F] in
theorem xRows_congr (X5 : Buf (Elt F) (x5Loc d)) {o o' : Fin 3 → ℕ} (e : o = o')
    (h : ∀ a, o a + S36x8x128.size a ≤ S36x16384x128.size a) (h' : ∀ a, o' a + S36x8x128.size a ≤ S36x16384x128.size a) :
    xRows (F := F) d X5 o h = xRows (F := F) d X5 o' h' := by subst e; rfl

def InStV (xv : Memref sig .scVector .vmem S36x8x128 .f32) (sm : SemLoc sig) (q : PosShare TreeShare) (X5 : Buf (Elt F) (x5Loc d))
    (fxs : ℕ → BufTy.Contents (Elt F) xv.view.ty) (r s : ℕ) : sProp 𝕄 :=
  if s < 14 then InFlV (F := F) d L xv sm q X5 (offG L (2 * s + r)) (xRect_inb L (2 * s + r)) (fxs (2 * s + r))
  else
    iprop(semVal ((V d (cV L) (jV L), sm) : GSem nD τ sig) 0 ∗ (∃ fx : Buf (Elt F) (xv.view.loc (V d (cV L) (jV L))), xv.view.loc (V d (cV L) (jV L)) ↦{fullShare} fx)
      ∗ ((xM).view.loc (V d (cV L) (jV L)) ↦{q} X5))

/-- the result's rows at `oo` after a copy out of `ov` holding what the compute loop makes of the input's rows at `ox`, over some earlier contents -/
def RowD (ov : Memref sig .scVector .vmem S12x8x128 .f32) (X5 : Buf (Elt F) (x5Loc d)) (W3 : Buf (Elt F) (w3Loc d))
    (oo : Fin 3 → ℕ) (ho : ∀ a, oo a + S12x8x128.size a ≤ S12x7168x128.size a)
    (fo : BufTy.Contents (Elt F) ov.view.ty) : sProp 𝕄 :=
  iprop(∃ fr : Buf (Elt F) (o8Loc d),
    ((oM).slice (Rect.unit (s := S12x7168x128) oo S12x8x128.size ho) (fun _ => rfl)).view.loc (V d (cV L) (jV L))
      ↦[((oM).slice (Rect.unit (s := S12x7168x128) oo S12x8x128.size ho) (fun _ => rfl)).view.set]{fullShare} rowsLanded (F := F) d ov oo ho fr fo)

omit [FloatOps F] in
theorem RowD_congr (ov : Memref sig .scVector .vmem S12x8x128 .f32) (X5 : Buf (Elt F) (x5Loc d)) (W3 : Buf (Elt F) (w3Loc d))
    {oo oo' : Fin 3 → ℕ} (e : oo = oo') (ho : ∀ a, oo a + S12x8x128.size a ≤ S12x7168x128.size a) (ho' : ∀ a, oo' a + S12x8x128.size a ≤ S12x7168x128.size a)
    (fo : BufTy.Contents (Elt F) ov.view.ty) :
    RowD (F := F) d L ov X5 W3 oo ho fo = RowD (F := F) d L ov X5 W3 oo' ho' fo := by subst e; rfl

/-- A copy of the slot `ov`, holding `fo`, out to the result's rows at `oo` under way on `sm`. -/
def OutFlV (ov : Memref sig .scVector .vmem S12x8x128 .f32) (sm : SemLoc sig)
    (oo : Fin 3 → ℕ) (ho : ∀ a, oo a + S12x8x128.size a ≤ S12x7168x128.size a) (fo : BufTy.Contents (Elt F) ov.view.ty) : sProp 𝕄 :=
  iprop(∃ fr : Buf (Elt F) (o8Loc d),
    Transfers.Flight (ECt (F := F)) (V d (cV L) (jV L)) sm default 393216
      iprop((((oM).slice (Rect.unit (s := S12x7168x128) oo S12x8x128.size ho) (fun _ => rfl)).view.loc (V d (cV L) (jV L))
            ↦[((oM).slice (Rect.unit (s := S12x7168x128) oo S12x8x128.size ho) (fun _ => rfl)).view.set]{fullShare} rowsLanded (F := F) d ov oo ho fr fo)
        ∗ (ov.view.loc (V d (cV L) (jV L)) ↦[ov.view.set]{fullShare} fo)))

omit [FloatOps F] in
theorem OutFlV_congr (ov : Memref sig .scVector .vmem S12x8x128 .f32) (sm : SemLoc sig)
    {oo oo' : Fin 3 → ℕ} (e : oo = oo') (ho : ∀ a, oo a + S12x8x128.size a ≤ S12x7168x128.size a) (ho' : ∀ a, oo' a + S12x8x128.size a ≤ S12x7168x128.size a)
    (fo : BufTy.Contents (Elt F) ov.view.ty) :
    OutFlV (F := F) d L ov sm oo ho fo = OutFlV (F := F) d L ov sm oo' ho' fo := by subst e; rfl

/-- a group of parity `r` before step `s`: written (its copy out has landed) if it is older than the one on its way, else at some contents -/
def RowSt (ov : Memref sig .scVector .vmem S12x8x128 .f32) (X5 : Buf (Elt F) (x5Loc d)) (W3 : Buf (Elt F) (w3Loc d))
    (fo : ℕ → BufTy.Contents (Elt F) ov.view.ty) (r s j : ℕ) : sProp 𝕄 :=
  if j + 1 < s then RowD (F := F) d L ov X5 W3 (offG L (2 * j + r)) (oRect_inb L (2 * j + r)) (fo (2 * j + r))
  else RowE (F := F) d L (oRect L (2 * j + r)) (fun _ => rfl)

omit [FloatOps F] in
theorem RowSt_at (ov : Memref sig .scVector .vmem S12x8x128 .f32) (X5 : Buf (Elt F) (x5Loc d)) (W3 : Buf (Elt F) (w3Loc d))
    (fo : ℕ → BufTy.Contents (Elt F) ov.view.ty) (r s : ℕ) :
    RowSt (F := F) d L ov X5 W3 fo r s s = RowE (F := F) d L (oRect L (2 * s + r)) (fun _ => rfl) := if_neg (by omega)

omit [FloatOps F] in
theorem RowSt_done (ov : Memref sig .scVector .vmem S12x8x128 .f32) (X5 : Buf (Elt F) (x5Loc d)) (W3 : Buf (Elt F) (w3Loc d))
    (fo : ℕ → BufTy.Contents (Elt F) ov.view.ty) (r : ℕ) {s : ℕ} (hs : 1 ≤ s) :
    RowSt (F := F) d L ov X5 W3 fo r (s + 1) (s - 1)
      = RowD (F := F) d L ov X5 W3 (offG L (2 * (s - 1) + r)) (oRect_inb L (2 * (s - 1) + r)) (fo (2 * (s - 1) + r)) := if_pos (by omega)

omit [FloatOps F] in
theorem RowSt_mid (ov : Memref sig .scVector .vmem S12x8x128 .f32) (X5 : Buf (Elt F) (x5Loc d)) (W3 : Buf (Elt F) (w3Loc d))
    (fo : ℕ → BufTy.Contents (Elt F) ov.view.ty) (r s : ℕ) :
    (bigSep (midJ s) fun j => RowSt (F := F) d L ov X5 W3 fo r (s + 1) j) = bigSep (midJ s) fun j => RowSt (F := F) d L ov X5 W3 fo r s j := by
  refine BI.bigSep_congr fun j hj => ?_
  have hj' : j + 1 ≠ s ∧ j ≠ s := (Finset.mem_filter.mp hj).2
  unfold RowSt
  by_cases h : j + 1 < s
  · rw [if_pos h, if_pos (by omega)]
  · rw [if_neg h, if_neg (by omega)]

/-- An output slot before step `s`. -/
def OutStV (ov : Memref sig .scVector .vmem S12x8x128 .f32) (sm : SemLoc sig) (X5 : Buf (Elt F) (x5Loc d)) (W3 : Buf (Elt F) (w3Loc d))
    (fo : ℕ → BufTy.Contents (Elt F) ov.view.ty) (r s : ℕ) : sProp 𝕄 :=
  iprop((bigSep (freeJ s) fun j => RowSt (F := F) d L ov X5 W3 fo r s j)
    ∗ (if s = 0 then iprop(semVal ((V d (cV L) (jV L), sm) : GSem nD τ sig) 0 ∗ ∃ fo' : Buf (Elt F) (ov.view.loc (V d (cV L) (jV L))), ov.view.loc (V d (cV L) (jV L)) ↦{fullShare} fo')
       else OutFlV (F := F) d L ov sm (offG L (2 * (s - 1) + r)) (oRect_inb L (2 * (s - 1) + r)) (fo (2 * (s - 1) + r))))

/-- what the landed copy of group g leaves in an input slot -/
abbrev fxG (X5 : Buf (Elt F) (x5Loc d)) (g : ℕ) : S36x8x128.Idx → Elt F .f32 := xRows (F := F) d X5 (offG L g) (xRect_inb L g)
/-- what the compute loop leaves in the first slot for group `g` -/
abbrev foG0 (X5 : Buf (Elt F) (x5Loc d)) (W3 : Buf (Elt F) (w3Loc d)) (g : ℕ) : BufTy.Contents (Elt F) (ov0M).view.ty :=
  RV (xRows (F := F) d X5 (offG L g) (xRect_inb L g)) (wLanded (F := F) d W3)
abbrev foG1 (X5 : Buf (Elt F) (x5Loc d)) (W3 : Buf (Elt F) (w3Loc d)) (g : ℕ) : BufTy.Contents (Elt F) (ov1M).view.ty :=
  RV (xRows (F := F) d X5 (offG L g) (xRect_inb L g)) (wLanded (F := F) d W3)

/-- Before step `s`, the contents named. -/
def invV (q5 : PosShare TreeShare) (X5 : Buf (Elt F) (x5Loc d)) (W3 : Buf (Elt F) (w3Loc d))
    (O : CellTallies nD τ sig (HIx 1)) (W : Waits sig (HIx 1)) (s : ℕ) (_ : BitVec 32) : sProp 𝕄 :=
  iprop(Transfers.MayWaits (V d (cV L) (jV L)) (none : HIx 1) O
    ∗ ((wvM).view.loc (V d (cV L) (jV L)) ↦{fullShare} wLanded (F := F) d W3)
    ∗ InStV (F := F) d L xv0M (SemLoc.dma cc0_scratch5.sem) (Transfers.shareTokN q5 0) X5 (fxG (F := F) d L X5) 0 s
    ∗ InStV (F := F) d L xv1M (SemLoc.dma cc0_scratch6.sem) (Transfers.shareTokN q5 1) X5 (fxG (F := F) d L X5) 1 s
    ∗ OutStV (F := F) d L ov0M (SemLoc.dma cc0_scratch7.sem) X5 W3 (foG0 (F := F) d L RV X5 W3) 0 s
    ∗ OutStV (F := F) d L ov1M (SemLoc.dma cc0_scratch8.sem) X5 W3 (foG1 (F := F) d L RV X5 W3) 1 s
    ∗ ∃ W', ⌜∀ p ∈ W', p ∈ W ∨ p.2 = none⌝ ∗ owes (V d (cV L) (jV L)) O W')

omit [FloatOps F] in
/-- a copy into a whole slot leaves what it carries, whatever the slot held -/
theorem land0 (fx0 : Buf (Elt F) ((xv0M).view.loc (V d (cV L) (jV L)))) (w : S36x8x128.Idx → Elt F .f32) (A : sProp 𝕄) :
    iprop(((xv0M).view.loc (V d (cV L) (jV L)) ↦{fullShare} (xv0M).view.write (Elt F) fx0 w Finset.univ) ∗ A)
      ⊢ iprop(((xv0M).view.loc (V d (cV L) (jV L)) ↦{fullShare} w) ∗ A) := by
  rw [show (xv0M).view.write (Elt F) fx0 w Finset.univ = w from View.write_whole_univ _ _ _]
omit [FloatOps F] in
theorem land1 (fx0 : Buf (Elt F) ((xv1M).view.loc (V d (cV L) (jV L)))) (w : S36x8x128.Idx → Elt F .f32) (A : sProp 𝕄) :
    iprop(((xv1M).view.loc (V d (cV L) (jV L)) ↦{fullShare} (xv1M).view.write (Elt F) fx0 w Finset.univ) ∗ A)
      ⊢ iprop(((xv1M).view.loc (V d (cV L) (jV L)) ↦{fullShare} w) ∗ A) := by
  rw [show (xv1M).view.write (Elt F) fx0 w Finset.univ = w from View.write_whole_univ _ _ _]

theorem trips2 : Scf.trips k0_t2_loop.lb k0_t2_loop.ub k0_t2_loop.st = 8 := by decide
theorem trips3 : Scf.trips k0_t3_loop.lb k0_t3_loop.ub k0_t3_loop.st = 8 := by decide

set_option maxHeartbeats 4000000 in
/-- One step of the pipeline, the contents named. -/
theorem tripV (hc0 : CompSpec0 (F := F) d L RV) (hc1 : CompSpec1 (F := F) d L RV)
    (q5 : PosShare TreeShare) (X5 : Buf (Elt F) (x5Loc d)) (W3 : Buf (Elt F) (w3Loc d))
    (O : CellTallies nD τ sig (HIx 1)) (W : Waits sig (HIx 1)) (v3 v4 : BitVec 32) (k : Fin k0_t1_loop.trips) (acc : BitVec 32) :
    invV (F := F) d L RV q5 X5 W3 O W k.val acc
      ⊢ wp frame (wpE (defs₀ (F := F)) 𝒱₀ (V d (cV L) (jV L)) none) Set.univ
          (k0_t1_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 v3 v4 k acc)
          (invV (F := F) d L RV q5 X5 W3 O W (k.val + 1)) := by
  have hk : k.val < 14 := k.isLt
  unfold k0_t1_body
  rw [k0_part139_eq_skeleton]; unfold k0_part139_skel
  have o1 : offG L (2 * k.val + 0) = k0_off2 L k 0#32 := (off2_x L k 0).symm
  have o2 : offG L (2 * k.val + 1) = k0_off2 L k 1#32 := (off2_x L k 1).symm
  have p3 : offG L (2 * (k.val + 1 - 1) + 0) = k0_off388 L k 0#32 := (off388_o L k 0).symm
  have p4 : offG L (2 * (k.val + 1 - 1) + 1) = k0_off388 L k 1#32 := (off388_o L k 1).symm
  have e3 : oRect L (2 * k.val + 0) = Rect.unit (s := S12x7168x128) (k0_off388 L k 0#32) S12x8x128.size (k0_off388_inb L k 0) :=
    rectUnit_congr (off388_o L k 0).symm _ _
  have e4 : oRect L (2 * k.val + 1) = Rect.unit (s := S12x7168x128) (k0_off388 L k 1#32) S12x8x128.size (k0_off388_inb L k 1) :=
    rectUnit_congr (off388_o L k 1).symm _ _

  by_cases hk0 : 1 ≤ k.val
  · by_cases hk13 : k.val < 13
    · -- a middle step
      have h1 := (cond1_iff k).mpr hk0
      have h3 := (cond3_iff k).mpr hk0
      have h2 := (cond2_iff k).mpr hk13
      have h4 := (cond4_iff k).mpr hk13
      have p5 : offG L (2 * (k.val - 1) + 0) = k0_off3 L k := (off3_o' L k h1).symm
      have p6 : offG L (2 * (k.val - 1) + 1) = k0_off390 L k := (off390_o' L k h3).symm
      have o7 : offG L (2 * (k.val + 1) + 0) = k0_off389 L k := (off389_x L k h2).symm
      have o8 : offG L (2 * (k.val + 1) + 1) = k0_off775 L k := (off775_x L k h4).symm
      unfold invV InStV OutStV
      rw [if_pos hk, if_pos hk, if_neg (show ¬ k.val = 0 by omega), if_neg (show ¬ k.val = 0 by omega),
        if_pos (show k.val + 1 < 14 by omega), if_pos (show k.val + 1 < 14 by omega), if_neg (Nat.succ_ne_zero k.val), if_neg (Nat.succ_ne_zero k.val)]
      rw [freeJ_eq_insert hk, freeJ_succ_pos hk0 hk,
        SparseCore.bigSep_insert' (not_mem_midJ k.val) (Φ := fun j => RowSt (F := F) d L ov0M X5 W3 (foG0 (F := F) d L RV X5 W3) 0 k.val j),
        SparseCore.bigSep_insert' (not_mem_midJ k.val) (Φ := fun j => RowSt (F := F) d L ov1M X5 W3 (foG1 (F := F) d L RV X5 W3) 1 k.val j),
        SparseCore.bigSep_insert' (pred_not_mem_midJ hk0) (Φ := fun j => RowSt (F := F) d L ov0M X5 W3 (foG0 (F := F) d L RV X5 W3) 0 (k.val + 1) j),
        SparseCore.bigSep_insert' (pred_not_mem_midJ hk0) (Φ := fun j => RowSt (F := F) d L ov1M X5 W3 (foG1 (F := F) d L RV X5 W3) 1 (k.val + 1) j),
        RowSt_done (F := F) d L ov0M X5 W3 (foG0 (F := F) d L RV X5 W3) 0 hk0, RowSt_done (F := F) d L ov1M X5 W3 (foG1 (F := F) d L RV X5 W3) 1 hk0,
        RowSt_at (F := F) d L ov0M X5 W3 (foG0 (F := F) d L RV X5 W3) 0 k.val, RowSt_at (F := F) d L ov1M X5 W3 (foG1 (F := F) d L RV X5 W3) 1 k.val, RowSt_mid (F := F) d L ov0M X5 W3 (foG0 (F := F) d L RV X5 W3) 0 k.val, RowSt_mid (F := F) d L ov1M X5 W3 (foG1 (F := F) d L RV X5 W3) 1 k.val]
      unfold foG0 foG1 fxG
      rw [InFlV_congr (F := F) d L _ _ _ _ o1 (xRect_inb L _) (k0_off2_inb L k 0) _,
        InFlV_congr (F := F) d L _ _ _ _ o2 (xRect_inb L _) (k0_off2_inb L k 1) _,
        InFlV_congr (F := F) d L _ _ _ _ o7 (xRect_inb L _) (k0_off389_inb L k h2) _,
        InFlV_congr (F := F) d L _ _ _ _ o8 (xRect_inb L _) (k0_off775_inb L k h4) _,
        xRows_congr (F := F) d X5 o7 (xRect_inb L _) (k0_off389_inb L k h2),
        xRows_congr (F := F) d X5 o8 (xRect_inb L _) (k0_off775_inb L k h4),
        OutFlV_congr (F := F) d L _ _ p5 (oRect_inb L _) (k0_off3_inb L k h1) _,
        OutFlV_congr (F := F) d L _ _ p6 (oRect_inb L _) (k0_off390_inb L k h3) _,
        OutFlV_congr (F := F) d L _ _ p3 (oRect_inb L _) (k0_off388_inb L k 0) _,
        OutFlV_congr (F := F) d L _ _ p4 (oRect_inb L _) (k0_off388_inb L k 1) _,
        RowE_congr (F := F) d L e3 (fun _ => rfl) (fun _ => rfl),
        RowE_congr (F := F) d L e4 (fun _ => rfl) (fun _ => rfl),
        RowD_congr (F := F) d L _ X5 W3 p5 (oRect_inb L _) (k0_off3_inb L k h1) _,
        RowD_congr (F := F) d L _ X5 W3 p6 (oRect_inb L _) (k0_off390_inb L k h3) _]
      unfold InFlV OutFlV
      iintro ⟨#Hmw, Hwv, ⟨HfI0, Hx0⟩, ⟨HfI1, Hx1⟩, ⟨⟨Hrow0, Hmid0⟩, %fr0, HfO0⟩, ⟨⟨Hrow1, Hmid1⟩, %fr1, HfO1⟩, %W', %hW', HO⟩
      ihave Hrow0 := (Entails.of_eq (by unfold RowE; rfl)) $$ Hrow0
      icases Hrow0 with ⟨%fr0k, Hrow0⟩
      ihave Hrow1 := (Entails.of_eq (by unfold RowE; rfl)) $$ Hrow1
      icases Hrow1 with ⟨%fr1k, Hrow1⟩
      sl_exec
      ihave Hov0 := (Entails.of_eq (pts_ov0_set (F := F) d L _)) $$ HfO0_src
      rw [Prog.bind_assoc]
      sl_for (fun k2 _ => CI0 (F := F) d L RV (xRows (F := F) d X5 (offG L (2 * k.val + 0)) (xRect_inb L (2 * k.val + 0))) (wLanded (F := F) d W3) k2) $$ [HfI0_dst Hwv Hov0]
      case region => intro k2 accR; exact hc0 _ _ _ _ _ _ _ k2 accR
      · isplitl [HfI0_dst]; · iexact HfI0_dst
        isplitl [Hwv]; · iexact Hwv
        iexists _; isplitr
        rotate_left
        · iexact Hov0
        · ipureintro; intro y hy; exact absurd hy (Nat.not_lt_zero _)
      iintro %accL0 HC
      icases HC with ⟨Hxv0, Hwv, %foC0, %hfo0, Hov0⟩
      obtain rfl : foC0 = RV (xRows (F := F) d X5 (offG L (2 * k.val + 0)) (xRect_inb L (2 * k.val + 0))) (wLanded (F := F) d W3) :=
        funext fun y => hfo0 y (by rw [trips2]; exact (y 1).isLt)
      ihave Hov0 := (Entails.of_eq (pts_ov0_set (F := F) d L _).symm) $$ Hov0
      sl_exec
      ihave Hov1 := (Entails.of_eq (pts_ov1_set (F := F) d L _)) $$ HfO1_src
      sl_for (fun k2 _ => CI1 (F := F) d L RV (xRows (F := F) d X5 (offG L (2 * k.val + 1)) (xRect_inb L (2 * k.val + 1))) (wLanded (F := F) d W3) k2) $$ [HfI1_dst Hwv Hov1]
      case region => intro k2 accR; exact hc1 _ _ k2 accR
      · isplitl [HfI1_dst]; · iexact HfI1_dst
        isplitl [Hwv]; · iexact Hwv
        iexists _; isplitr
        rotate_left
        · iexact Hov1
        · ipureintro; intro y hy; exact absurd hy (Nat.not_lt_zero _)
      iintro %accL1 HC
      icases HC with ⟨Hxv1, Hwv, %foC1, %hfo1, Hov1⟩
      obtain rfl : foC1 = RV (xRows (F := F) d X5 (offG L (2 * k.val + 1)) (xRect_inb L (2 * k.val + 1))) (wLanded (F := F) d W3) :=
        funext fun y => hfo1 y (by rw [trips3]; exact (y 1).isLt)
      ihave Hov1 := (Entails.of_eq (pts_ov1_set (F := F) d L _).symm) $$ Hov1
      sl_exec
      sl_step
      isplitl []; · iexact Hmw
      isplitl [Hwv]; · iexact Hwv
      isplitl [HfI0 Hx0]
      · isplitl [HfI0]
        · iapply (Transfers.Flight_mono (ECt (F := F)) (V d (cV L) (jV L)) (land0 (F := F) d L _ _ _)); iexact HfI0
        · iexact Hx0
      isplitl [HfI1 Hx1]
      · isplitl [HfI1]
        · iapply (Transfers.Flight_mono (ECt (F := F)) (V d (cV L) (jV L)) (land1 (F := F) d L _ _ _)); iexact HfI1
        · iexact Hx1
      isplitl [HfO0_dst Hmid0 HfO0]
      · isplitl [HfO0_dst Hmid0]
        · isplitl [HfO0_dst]
          · unfold RowD; iexists _; iexact HfO0_dst
          · iexact Hmid0
        · iexists _; iexact HfO0
      isplitl [HfO1_dst Hmid1 HfO1]
      · isplitl [HfO1_dst Hmid1]
        · isplitl [HfO1_dst]
          · unfold RowD; iexists _; iexact HfO1_dst
          · iexact Hmid1
        · iexists _; iexact HfO1
      iexists _
      isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        exact hW' p hp

    · -- the last step: no prefetch
      have h1 := (cond1_iff k).mpr hk0
      have h3 := (cond3_iff k).mpr hk0
      have h2 : ¬ k0_cond2 k = 1#1 := fun h => by have := (cond2_iff k).mp h; omega
      have h4 : ¬ k0_cond4 k = 1#1 := fun h => by have := (cond4_iff k).mp h; omega
      have p5 : offG L (2 * (k.val - 1) + 0) = k0_off3 L k := (off3_o' L k h1).symm
      have p6 : offG L (2 * (k.val - 1) + 1) = k0_off390 L k := (off390_o' L k h3).symm
      unfold invV InStV OutStV
      rw [if_pos hk, if_pos hk, if_neg (show ¬ k.val = 0 by omega), if_neg (show ¬ k.val = 0 by omega),
        if_neg (show ¬ k.val + 1 < 14 by omega), if_neg (show ¬ k.val + 1 < 14 by omega), if_neg (Nat.succ_ne_zero k.val), if_neg (Nat.succ_ne_zero k.val)]
      rw [freeJ_eq_insert hk, freeJ_succ_pos hk0 hk,
        SparseCore.bigSep_insert' (not_mem_midJ k.val) (Φ := fun j => RowSt (F := F) d L ov0M X5 W3 (foG0 (F := F) d L RV X5 W3) 0 k.val j),
        SparseCore.bigSep_insert' (not_mem_midJ k.val) (Φ := fun j => RowSt (F := F) d L ov1M X5 W3 (foG1 (F := F) d L RV X5 W3) 1 k.val j),
        SparseCore.bigSep_insert' (pred_not_mem_midJ hk0) (Φ := fun j => RowSt (F := F) d L ov0M X5 W3 (foG0 (F := F) d L RV X5 W3) 0 (k.val + 1) j),
        SparseCore.bigSep_insert' (pred_not_mem_midJ hk0) (Φ := fun j => RowSt (F := F) d L ov1M X5 W3 (foG1 (F := F) d L RV X5 W3) 1 (k.val + 1) j),
        RowSt_done (F := F) d L ov0M X5 W3 (foG0 (F := F) d L RV X5 W3) 0 hk0, RowSt_done (F := F) d L ov1M X5 W3 (foG1 (F := F) d L RV X5 W3) 1 hk0,
        RowSt_at (F := F) d L ov0M X5 W3 (foG0 (F := F) d L RV X5 W3) 0 k.val, RowSt_at (F := F) d L ov1M X5 W3 (foG1 (F := F) d L RV X5 W3) 1 k.val, RowSt_mid (F := F) d L ov0M X5 W3 (foG0 (F := F) d L RV X5 W3) 0 k.val, RowSt_mid (F := F) d L ov1M X5 W3 (foG1 (F := F) d L RV X5 W3) 1 k.val]
      unfold foG0 foG1 fxG
      rw [InFlV_congr (F := F) d L _ _ _ _ o1 (xRect_inb L _) (k0_off2_inb L k 0) _,
        InFlV_congr (F := F) d L _ _ _ _ o2 (xRect_inb L _) (k0_off2_inb L k 1) _,
        OutFlV_congr (F := F) d L _ _ p5 (oRect_inb L _) (k0_off3_inb L k h1) _,
        OutFlV_congr (F := F) d L _ _ p6 (oRect_inb L _) (k0_off390_inb L k h3) _,
        OutFlV_congr (F := F) d L _ _ p3 (oRect_inb L _) (k0_off388_inb L k 0) _,
        OutFlV_congr (F := F) d L _ _ p4 (oRect_inb L _) (k0_off388_inb L k 1) _,
        RowE_congr (F := F) d L e3 (fun _ => rfl) (fun _ => rfl),
        RowE_congr (F := F) d L e4 (fun _ => rfl) (fun _ => rfl),
        RowD_congr (F := F) d L _ X5 W3 p5 (oRect_inb L _) (k0_off3_inb L k h1) _,
        RowD_congr (F := F) d L _ X5 W3 p6 (oRect_inb L _) (k0_off390_inb L k h3) _]
      unfold InFlV OutFlV
      iintro ⟨#Hmw, Hwv, ⟨HfI0, Hx0⟩, ⟨HfI1, Hx1⟩, ⟨⟨Hrow0, Hmid0⟩, %fr0, HfO0⟩, ⟨⟨Hrow1, Hmid1⟩, %fr1, HfO1⟩, %W', %hW', HO⟩
      ihave Hrow0 := (Entails.of_eq (by unfold RowE; rfl)) $$ Hrow0
      icases Hrow0 with ⟨%fr0k, Hrow0⟩
      ihave Hrow1 := (Entails.of_eq (by unfold RowE; rfl)) $$ Hrow1
      icases Hrow1 with ⟨%fr1k, Hrow1⟩
      sl_exec
      ihave Hov0 := (Entails.of_eq (pts_ov0_set (F := F) d L _)) $$ HfO0_src
      rw [Prog.bind_assoc]
      sl_for (fun k2 _ => CI0 (F := F) d L RV (xRows (F := F) d X5 (offG L (2 * k.val + 0)) (xRect_inb L (2 * k.val + 0))) (wLanded (F := F) d W3) k2) $$ [HfI0_dst Hwv Hov0]
      case region => intro k2 accR; exact hc0 _ _ _ _ _ _ _ k2 accR
      · isplitl [HfI0_dst]; · iexact HfI0_dst
        isplitl [Hwv]; · iexact Hwv
        iexists _; isplitr
        rotate_left
        · iexact Hov0
        · ipureintro; intro y hy; exact absurd hy (Nat.not_lt_zero _)
      iintro %accL0 HC
      icases HC with ⟨Hxv0, Hwv, %foC0, %hfo0, Hov0⟩
      obtain rfl : foC0 = RV (xRows (F := F) d X5 (offG L (2 * k.val + 0)) (xRect_inb L (2 * k.val + 0))) (wLanded (F := F) d W3) :=
        funext fun y => hfo0 y (by rw [trips2]; exact (y 1).isLt)
      ihave Hov0 := (Entails.of_eq (pts_ov0_set (F := F) d L _).symm) $$ Hov0
      sl_exec
      ihave Hov1 := (Entails.of_eq (pts_ov1_set (F := F) d L _)) $$ HfO1_src
      sl_for (fun k2 _ => CI1 (F := F) d L RV (xRows (F := F) d X5 (offG L (2 * k.val + 1)) (xRect_inb L (2 * k.val + 1))) (wLanded (F := F) d W3) k2) $$ [HfI1_dst Hwv Hov1]
      case region => intro k2 accR; exact hc1 _ _ k2 accR
      · isplitl [HfI1_dst]; · iexact HfI1_dst
        isplitl [Hwv]; · iexact Hwv
        iexists _; isplitr
        rotate_left
        · iexact Hov1
        · ipureintro; intro y hy; exact absurd hy (Nat.not_lt_zero _)
      iintro %accL1 HC
      icases HC with ⟨Hxv1, Hwv, %foC1, %hfo1, Hov1⟩
      obtain rfl : foC1 = RV (xRows (F := F) d X5 (offG L (2 * k.val + 1)) (xRect_inb L (2 * k.val + 1))) (wLanded (F := F) d W3) :=
        funext fun y => hfo1 y (by rw [trips3]; exact (y 1).isLt)
      ihave Hov1 := (Entails.of_eq (pts_ov1_set (F := F) d L _).symm) $$ Hov1
      sl_exec
      sl_step
      isplitl []; · iexact Hmw
      isplitl [Hwv]; · iexact Hwv
      isplitl [HfI0 Hxv0 Hx0]
      · isplitl [HfI0]; · iexact HfI0
        isplitl [Hxv0]; · iexists _; iexact Hxv0
        iexact Hx0
      isplitl [HfI1 Hxv1 Hx1]
      · isplitl [HfI1]; · iexact HfI1
        isplitl [Hxv1]; · iexists _; iexact Hxv1
        iexact Hx1
      isplitl [HfO0_dst Hmid0 HfO0]
      · isplitl [HfO0_dst Hmid0]
        · isplitl [HfO0_dst]
          · unfold RowD; iexists _; iexact HfO0_dst
          · iexact Hmid0
        · iexists _; iexact HfO0
      isplitl [HfO1_dst Hmid1 HfO1]
      · isplitl [HfO1_dst Hmid1]
        · isplitl [HfO1_dst]
          · unfold RowD; iexists _; iexact HfO1_dst
          · iexact Hmid1
        · iexists _; iexact HfO1
      iexists _
      isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        exact hW' p hp

  · -- the first step: no output copy is under way yet
    have hk00 : k.val = 0 := by omega
    have hk13 : k.val < 13 := by omega
    have h1 : ¬ k0_cond1 k = 1#1 := fun h => by have := (cond1_iff k).mp h; omega
    have h3 : ¬ k0_cond3 k = 1#1 := fun h => by have := (cond3_iff k).mp h; omega
    have h2 := (cond2_iff k).mpr hk13
    have h4 := (cond4_iff k).mpr hk13
    have o7 : offG L (2 * (k.val + 1) + 0) = k0_off389 L k := (off389_x L k h2).symm
    have o8 : offG L (2 * (k.val + 1) + 1) = k0_off775 L k := (off775_x L k h4).symm
    unfold invV InStV OutStV
    rw [if_pos hk, if_pos hk, if_pos hk00, if_pos hk00,
      if_pos (show k.val + 1 < 14 by omega), if_pos (show k.val + 1 < 14 by omega), if_neg (Nat.succ_ne_zero k.val), if_neg (Nat.succ_ne_zero k.val)]
    rw [freeJ_eq_insert hk, freeJ_succ_zero hk00,
      SparseCore.bigSep_insert' (not_mem_midJ k.val) (Φ := fun j => RowSt (F := F) d L ov0M X5 W3 (foG0 (F := F) d L RV X5 W3) 0 k.val j),
      SparseCore.bigSep_insert' (not_mem_midJ k.val) (Φ := fun j => RowSt (F := F) d L ov1M X5 W3 (foG1 (F := F) d L RV X5 W3) 1 k.val j),
      RowSt_at (F := F) d L ov0M X5 W3 (foG0 (F := F) d L RV X5 W3) 0 k.val, RowSt_at (F := F) d L ov1M X5 W3 (foG1 (F := F) d L RV X5 W3) 1 k.val, RowSt_mid (F := F) d L ov0M X5 W3 (foG0 (F := F) d L RV X5 W3) 0 k.val, RowSt_mid (F := F) d L ov1M X5 W3 (foG1 (F := F) d L RV X5 W3) 1 k.val]
    unfold foG0 foG1 fxG
    rw [InFlV_congr (F := F) d L _ _ _ _ o1 (xRect_inb L _) (k0_off2_inb L k 0) _,
      InFlV_congr (F := F) d L _ _ _ _ o2 (xRect_inb L _) (k0_off2_inb L k 1) _,
      InFlV_congr (F := F) d L _ _ _ _ o7 (xRect_inb L _) (k0_off389_inb L k h2) _,
      InFlV_congr (F := F) d L _ _ _ _ o8 (xRect_inb L _) (k0_off775_inb L k h4) _,
      xRows_congr (F := F) d X5 o7 (xRect_inb L _) (k0_off389_inb L k h2),
      xRows_congr (F := F) d X5 o8 (xRect_inb L _) (k0_off775_inb L k h4),
      OutFlV_congr (F := F) d L _ _ p3 (oRect_inb L _) (k0_off388_inb L k 0) _,
      OutFlV_congr (F := F) d L _ _ p4 (oRect_inb L _) (k0_off388_inb L k 1) _,
      RowE_congr (F := F) d L e3 (fun _ => rfl) (fun _ => rfl),
      RowE_congr (F := F) d L e4 (fun _ => rfl) (fun _ => rfl)]
    unfold InFlV OutFlV
    iintro ⟨#Hmw, Hwv, ⟨HfI0, Hx0⟩, ⟨HfI1, Hx1⟩, ⟨⟨Hrow0, Hmid0⟩, HfO0, %fo0, Hov0⟩, ⟨⟨Hrow1, Hmid1⟩, HfO1, %fo1, Hov1⟩, %W', %hW', HO⟩
    ihave Hrow0 := (Entails.of_eq (by unfold RowE; rfl)) $$ Hrow0
    icases Hrow0 with ⟨%fr0k, Hrow0⟩
    ihave Hrow1 := (Entails.of_eq (by unfold RowE; rfl)) $$ Hrow1
    icases Hrow1 with ⟨%fr1k, Hrow1⟩
    sl_exec
    rw [Prog.bind_assoc]
    sl_for (fun k2 _ => CI0 (F := F) d L RV (xRows (F := F) d X5 (offG L (2 * k.val + 0)) (xRect_inb L (2 * k.val + 0))) (wLanded (F := F) d W3) k2) $$ [HfI0_dst Hwv Hov0]
    case region => intro k2 accR; exact hc0 _ _ _ _ _ _ _ k2 accR
    · isplitl [HfI0_dst]; · iexact HfI0_dst
      isplitl [Hwv]; · iexact Hwv
      iexists _; isplitr
      rotate_left
      · iexact Hov0
      · ipureintro; intro y hy; exact absurd hy (Nat.not_lt_zero _)
    iintro %accL0 HC
    icases HC with ⟨Hxv0, Hwv, %foC0, %hfo0, Hov0⟩
    obtain rfl : foC0 = RV (xRows (F := F) d X5 (offG L (2 * k.val + 0)) (xRect_inb L (2 * k.val + 0))) (wLanded (F := F) d W3) :=
      funext fun y => hfo0 y (by rw [trips2]; exact (y 1).isLt)
    ihave Hov0 := (Entails.of_eq (pts_ov0_set (F := F) d L _).symm) $$ Hov0
    sl_exec
    sl_for (fun k2 _ => CI1 (F := F) d L RV (xRows (F := F) d X5 (offG L (2 * k.val + 1)) (xRect_inb L (2 * k.val + 1))) (wLanded (F := F) d W3) k2) $$ [HfI1_dst Hwv Hov1]
    case region => intro k2 accR; exact hc1 _ _ k2 accR
    · isplitl [HfI1_dst]; · iexact HfI1_dst
      isplitl [Hwv]; · iexact Hwv
      iexists _; isplitr
      rotate_left
      · iexact Hov1
      · ipureintro; intro y hy; exact absurd hy (Nat.not_lt_zero _)
    iintro %accL1 HC
    icases HC with ⟨Hxv1, Hwv, %foC1, %hfo1, Hov1⟩
    obtain rfl : foC1 = RV (xRows (F := F) d X5 (offG L (2 * k.val + 1)) (xRect_inb L (2 * k.val + 1))) (wLanded (F := F) d W3) :=
      funext fun y => hfo1 y (by rw [trips3]; exact (y 1).isLt)
    ihave Hov1 := (Entails.of_eq (pts_ov1_set (F := F) d L _).symm) $$ Hov1
    sl_exec
    sl_step
    isplitl []; · iexact Hmw
    isplitl [Hwv]; · iexact Hwv
    isplitl [HfI0 Hx0]
    · isplitl [HfI0]
      · iapply (Transfers.Flight_mono (ECt (F := F)) (V d (cV L) (jV L)) (land0 (F := F) d L _ _ _)); iexact HfI0
      · iexact Hx0
    isplitl [HfI1 Hx1]
    · isplitl [HfI1]
      · iapply (Transfers.Flight_mono (ECt (F := F)) (V d (cV L) (jV L)) (land1 (F := F) d L _ _ _)); iexact HfI1
      · iexact Hx1
    isplitl [Hmid0 HfO0]
    · isplitl [Hmid0]; · iexact Hmid0
      iexists _; iexact HfO0
    isplitl [Hmid1 HfO1]
    · isplitl [Hmid1]; · iexact Hmid1
      iexists _; iexact HfO1
    iexists _
    isplitr
    rotate_left
    · iexact HO
    · ipureintro; intro p hp
      rcases Finset.mem_insert.mp hp with rfl | hp
      · exact .inr rfl
      rcases Finset.mem_insert.mp hp with rfl | hp
      · exact .inr rfl
      exact hW' p hp

omit [FloatOps F] in
theorem landw (fwv : Buf (Elt F) ((wvM).view.loc (V d (cV L) (jV L)))) (w : S576.Idx → Elt F .f32) :
    ((wvM).view.loc (V d (cV L) (jV L)) ↦{fullShare} (wvM).view.write (Elt F) fwv w Finset.univ : sProp 𝕄)
      ⊢ ((wvM).view.loc (V d (cV L) (jV L)) ↦{fullShare} w) := by
  rw [show (wvM).view.write (Elt F) fwv w Finset.univ = w from View.write_whole_univ _ _ _]

omit [FloatOps F] in
theorem RowSt_zero (ov : Memref sig .scVector .vmem S12x8x128 .f32) (X5 : Buf (Elt F) (x5Loc d)) (W3 : Buf (Elt F) (w3Loc d))
    (fo : ℕ → BufTy.Contents (Elt F) ov.view.ty) (r : ℕ) :
    (bigSep (Finset.range 14) fun j => RowE (F := F) d L (oRect L (2 * j + r)) (fun _ => rfl))
      = bigSep (Finset.range 14) fun j => RowSt (F := F) d L ov X5 W3 fo r 0 j :=
  BI.bigSep_congr fun j _ => (if_neg (Nat.not_lt_zero _)).symm

omit [FloatOps F] in
theorem RowSt_last (ov : Memref sig .scVector .vmem S12x8x128 .f32) (X5 : Buf (Elt F) (x5Loc d)) (W3 : Buf (Elt F) (w3Loc d))
    (fo : ℕ → BufTy.Contents (Elt F) ov.view.ty) (r : ℕ) :
    (bigSep (Finset.range 13) fun j => RowSt (F := F) d L ov X5 W3 fo r 14 j)
      = bigSep (Finset.range 13) fun j => RowD (F := F) d L ov X5 W3 (offG L (2 * j + r)) (oRect_inb L (2 * j + r)) (fo (2 * j + r)) :=
  BI.bigSep_congr fun j hj => if_pos (by have := Finset.mem_range.mp hj; omega)

omit [FloatOps F] in
theorem rowsD14 (ov : Memref sig .scVector .vmem S12x8x128 .f32) (X5 : Buf (Elt F) (x5Loc d)) (W3 : Buf (Elt F) (w3Loc d))
    (fo : ℕ → BufTy.Contents (Elt F) ov.view.ty) (r : ℕ) :
    iprop(RowD (F := F) d L ov X5 W3 (offG L (2 * 13 + r)) (oRect_inb L (2 * 13 + r)) (fo (2 * 13 + r))
        ∗ bigSep (Finset.range 13) fun j => RowD (F := F) d L ov X5 W3 (offG L (2 * j + r)) (oRect_inb L (2 * j + r)) (fo (2 * j + r)))
      ⊢ bigSep (Finset.range 14) fun j => RowD (F := F) d L ov X5 W3 (offG L (2 * j + r)) (oRect_inb L (2 * j + r)) (fo (2 * j + r)) := by
  rw [show Finset.range 14 = insert 13 (Finset.range 13) from Finset.range_add_one, SparseCore.bigSep_insert' Finset.notMem_range_self]

/-- what the task returns, the rows as the copies out left them -/
def tileTdVraw (X5 : Buf (Elt F) (x5Loc d)) (W3 : Buf (Elt F) (w3Loc d)) : sProp 𝕄 :=
  iprop((x5Loc d ↦{tileShare (wid L)} X5) ∗ (w3Loc d ↦{tileShare (wid L)} W3)
    ∗ (bigSep (Finset.range 14) fun j => RowD (F := F) d L ov0M X5 W3 (offG L (2 * j + 0)) (oRect_inb L (2 * j + 0)) (foG0 (F := F) d L RV X5 W3 (2 * j + 0)))
    ∗ (bigSep (Finset.range 14) fun j => RowD (F := F) d L ov1M X5 W3 (offG L (2 * j + 1)) (oRect_inb L (2 * j + 1)) (foG1 (F := F) d L RV X5 W3 (2 * j + 1))))

set_option maxHeartbeats 4000000 in
/-- A tile's task, the contents named. -/
theorem tile_bodyV (hc0 : CompSpec0 (F := F) d L RV) (hc1 : CompSpec1 (F := F) d L RV)
    (hF : (K (F := F)).Facts) (X5 : Buf (Elt F) (x5Loc d)) (W3 : Buf (Elt F) (w3Loc d)) (f8 : Buf (Elt F) (o8Loc d))
    (O : CellTallies nD τ sig (HIx 1)) (W : Waits sig (HIx 1)) (hO : ∀ g, O g none = 0) :
    iprop(levAts (K (F := F)).L (K (F := F)).lev ∗ emp ∗ tileGoL (F := F) d X5 W3 f8 L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_agg_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0)
          fun _ => iprop(tileTdVraw (F := F) d L RV X5 W3 ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_agg_body_eq_skeleton]; unfold cc0__sc_agg_body_skel
  rw [(K (F := F)).scopedBufs_V hF d (cV L) (jV L), SparseCore.Cfg.scopedSems0_V (Val := Elt F) d (cV L) (jV L), ownSems0_V, ownBufs_V]
  unfold tileGoL tileTdVraw
  iintro ⟨#Hlv, -, ⟨Hx, Hw, Hrows⟩, ⟨⟨%fwv, Hwv⟩, ⟨%fx0, Hxv0⟩, ⟨%fx1, Hxv1⟩, ⟨%fo0, Hov0⟩, ⟨%fo1, Hov1⟩, Hbufs⟩, ⟨HsI0, HsI1, HsO0, HsO1, HsW, Hsems⟩, HO⟩
  ihave Hmw := ((K (F := F)).mayWaits_none (thr := V d (cV L) (jV L)) hO) $$ Hlv
  ihave Hx := (toks2_split (F := F) (x5Loc d) (tileShare (wid L)) X5) $$ Hx
  icases Hx with ⟨Hxr, Hx0, Hx1⟩
  ihave Hx0 := (Entails.of_eq (pts_x (F := F) d L _ _).symm) $$ Hx0
  ihave Hx1 := (Entails.of_eq (pts_x (F := F) d L _ _).symm) $$ Hx1
  ihave Hw := (Entails.of_eq (pts_w (F := F) d L _ _).symm) $$ Hw
  ihave Hwv := (Entails.of_eq (pts_wv (F := F) d L _).symm) $$ Hwv
  ihave Hxv0 := (Entails.of_eq (pts_xv0 (F := F) d L _).symm) $$ Hxv0
  ihave Hxv1 := (Entails.of_eq (pts_xv1 (F := F) d L _).symm) $$ Hxv1
  ihave Hov0 := (Entails.of_eq (pts_ov0 (F := F) d L _).symm) $$ Hov0
  ihave Hov1 := (Entails.of_eq (pts_ov1 (F := F) d L _).symm) $$ Hov1
  ihave Hrows := (rows_in (F := F) d L f8) $$ Hrows
  ihave Hrows := (rows_split (F := F) d L) $$ Hrows
  icases Hrows with ⟨Hrows0, Hrows1⟩
  sl_exec
  ihave Hwv := (landw (F := F) d L _ _) $$ Hwv
  have q0 : offG L (2 * 0 + 0) = k0_off1 L 0#32 := (off1_x L 0).symm
  have q0' : offG L (2 * 0 + 1) = k0_off1 L 8#32 := (off1_x L 1).symm
  sl_for (invV (F := F) d L RV (tileShare (wid L)) X5 W3 O W) $$ [Hwv HsI0 Hx0 HsI1 Hx1 Hrows0 HsO0 Hov0 Hrows1 HsO1 Hov1 HO]
  case region => intro k acc; exact tripV (F := F) d L RV hc0 hc1 (tileShare (wid L)) X5 W3 O W _ _ k acc
  · unfold invV InStV OutStV
    rw [if_pos (show (0 : ℕ) < 14 by omega), if_pos (show (0 : ℕ) < 14 by omega), if_pos rfl, if_pos rfl, freeJ_zero,
      ← RowSt_zero (F := F) d L ov0M X5 W3 (foG0 (F := F) d L RV X5 W3) 0, ← RowSt_zero (F := F) d L ov1M X5 W3 (foG1 (F := F) d L RV X5 W3) 1]
    unfold fxG
    rw [InFlV_congr (F := F) d L _ _ _ _ q0 (xRect_inb L _) (k0_off1_inb L 0) _, InFlV_congr (F := F) d L _ _ _ _ q0' (xRect_inb L _) (k0_off1_inb L 1) _,
      xRows_congr (F := F) d X5 q0 (xRect_inb L _) (k0_off1_inb L 0), xRows_congr (F := F) d X5 q0' (xRect_inb L _) (k0_off1_inb L 1)]
    unfold InFlV
    isplitl []; · iexact Hmw
    isplitl [Hwv]; · iexact Hwv
    isplitl [HsI0 Hx0]
    · isplitl [HsI0]
      · iapply (Transfers.Flight_mono (ECt (F := F)) (V d (cV L) (jV L)) (land0 (F := F) d L _ _ _)); iexact HsI0
      · iexact Hx0
    isplitl [HsI1 Hx1]
    · isplitl [HsI1]
      · iapply (Transfers.Flight_mono (ECt (F := F)) (V d (cV L) (jV L)) (land1 (F := F) d L _ _ _)); iexact HsI1
      · iexact Hx1
    isplitl [Hrows0 HsO0 Hov0]
    · isplitl [Hrows0]; · iexact Hrows0
      isplitl [HsO0]; · iexact HsO0
      iexists _; iexact Hov0
    isplitl [Hrows1 HsO1 Hov1]
    · isplitl [Hrows1]; · iexact Hrows1
      isplitl [HsO1]; · iexact HsO1
      iexists _; iexact Hov1
    iexists _; isplitr
    rotate_left
    · iexact HO
    · ipureintro; intro p hp
      rcases Finset.mem_insert.mp hp with rfl | hp
      · exact .inr rfl
      exact .inl hp
  have ht : Scf.trips k0_t1_loop.lb k0_t1_loop.ub k0_t1_loop.st = 14 := by decide
  have pF0 : offG L (2 * (14 - 1) + 0) = k0_off776 L 208#32 := (off776_o L 0).symm
  have pF1 : offG L (2 * (14 - 1) + 1) = k0_off776 L 216#32 := (off776_o L 1).symm
  have pG0 : offG L (2 * 13 + 0) = k0_off776 L 208#32 := pF0
  have pG1 : offG L (2 * 13 + 1) = k0_off776 L 216#32 := pF1
  rw [ht]
  unfold invV InStV OutStV
  rw [if_neg (show ¬ (14 : ℕ) < 14 by omega), if_neg (show ¬ (14 : ℕ) < 14 by omega), if_neg (show ¬ (14 : ℕ) = 0 by omega), if_neg (show ¬ (14 : ℕ) = 0 by omega),
    freeJ_last, RowSt_last (F := F) d L ov0M X5 W3 (foG0 (F := F) d L RV X5 W3) 0, RowSt_last (F := F) d L ov1M X5 W3 (foG1 (F := F) d L RV X5 W3) 1,
    OutFlV_congr (F := F) d L _ _ pF0 (oRect_inb L _) (k0_off776_inb L 0) _, OutFlV_congr (F := F) d L _ _ pF1 (oRect_inb L _) (k0_off776_inb L 1) _]
  unfold OutFlV
  iintro %acc ⟨-, Hwv, ⟨HsI0, ⟨%fx0', Hxv0⟩, Hx0⟩, ⟨HsI1, ⟨%fx1', Hxv1⟩, Hx1⟩, ⟨Hrows0, %fr0, HfO0⟩, ⟨Hrows1, %fr1, HfO1⟩, %W', %hW', HO⟩
  sl_exec
  sl_step
  isplitl [Hxr Hx0 Hx1 Hw Hrows0 Hrows1 HfO0_dst HfO1_dst]
  · isplitl [Hxr Hx0 Hx1]
    · iapply (toks2_join (F := F) (x5Loc d) (tileShare (wid L)) X5)
      isplitl [Hxr]; · iexact Hxr
      isplitl [Hx0]
      · iapply (Entails.of_eq (pts_x (F := F) d L _ _)); iexact Hx0
      · iapply (Entails.of_eq (pts_x (F := F) d L _ _)); iexact Hx1
    isplitl [Hw]
    · iapply (Entails.of_eq (pts_w (F := F) d L _ _)); iexact Hw
    isplitl [Hrows0 HfO0_dst]
    · iapply (rowsD14 (F := F) d L ov0M X5 W3 (foG0 (F := F) d L RV X5 W3) 0)
      isplitl [HfO0_dst]
      · rw [RowD_congr (F := F) d L _ X5 W3 pG0 (oRect_inb L _) (k0_off776_inb L 0) _]; unfold RowD; iexists _; iexact HfO0_dst
      · iexact Hrows0
    · iapply (rowsD14 (F := F) d L ov1M X5 W3 (foG1 (F := F) d L RV X5 W3) 1)
      isplitl [HfO1_dst]
      · rw [RowD_congr (F := F) d L _ X5 W3 pG1 (oRect_inb L _) (k0_off776_inb L 1) _]; unfold RowD; iexists _; iexact HfO1_dst
      · iexact Hrows1
  isplitl [Hwv Hxv0 Hxv1 HfO0_src HfO1_src Hbufs]
  · isplitl [Hwv]; · iexists _; iapply (Entails.of_eq (pts_wv (F := F) d L _)); iexact Hwv
    isplitl [Hxv0]; · iexists _; iapply (Entails.of_eq (pts_xv0 (F := F) d L _)); iexact Hxv0
    isplitl [Hxv1]; · iexists _; iapply (Entails.of_eq (pts_xv1 (F := F) d L _)); iexact Hxv1
    isplitl [HfO0_src]
    · iexists _; iapply (Entails.of_eq (pts_ov0 (F := F) d L _)); iapply (Entails.of_eq (pts_ov0_set (F := F) d L _)); iexact HfO0_src
    isplitl [HfO1_src]
    · iexists _; iapply (Entails.of_eq (pts_ov1 (F := F) d L _)); iapply (Entails.of_eq (pts_ov1_set (F := F) d L _)); iexact HfO1_src
    iexact Hbufs
  isplitl [HsI0 HsI1 HfO0 HfO1 HsW Hsems]
  · isplitl [HsI0]; · iexact HsI0
    isplitl [HsI1]; · iexact HsI1
    isplitl [HfO0]; · iexact HfO0
    isplitl [HfO1]; · iexact HfO1
    isplitl [HsW]; · iexact HsW
    iexact Hsems
  iexists _
  isplitr
  rotate_left
  · iexact HO
  · ipureintro; intro p hp
    rcases Finset.mem_insert.mp hp with rfl | hp
    · exact .inr rfl
    rcases Finset.mem_insert.mp hp with rfl | hp
    · exact .inr rfl
    exact hW' p hp

end TileV
end Cert.KernelIdeal.Pf
end
-- ==== Proof.KTileLand.lean ====
/-
  What a landed copy of an output slot leaves on a tile's group of rows.

  The slot holds, for the eight rows of the group, each node's six weighted edge rows added in the order of the edges,
  computed from the eight rows of the features the input slot received and the weights' lane copies. Copied onto the
  group's rows of the result, every entry of those rows is the aggregated array's entry there, whatever the rows held
  before.
-/
import proofs.«203732_g20581483283120_cont_8to1_285_17_alg».proof.Proof.KTileVDefs
import proofs.«203732_g20581483283120_cont_8to1_285_17_alg».proof.Proof.KTileVal
import Idealize.ShloMosaic.Lib.Writes
import Idealize.ShloMosaic.Lib.ValueIdx

noncomputable section

namespace Cert.KernelIdeal.Pf

open Cert.KernelIdeal Cert.KernelIdeal.Gen
open Idealize.ShloMosaic Idealize.ShloMosaic.ValueIdx
open Cert.Spec (edgeOf)

variable {F : FTy → Type} [FloatOps F]

/-- The input slot after a landed copy of the rows at `o`: entry (edge, row, lane) is the features' entry at row
    `o 1 + row`. -/
theorem xRows_ix (d : Dev nD) (X5 : Buf (Elt F) (x5Loc d)) (b : ℕ) (hb : b + 8 ≤ 16384)
    (h : ∀ a, (![0, b, 0] : Fin 3 → ℕ) a + S36x8x128.size a ≤ S36x16384x128.size a)
    (e : Fin 36) (i : Fin 8) (j : Fin 128) :
    xRows d X5 ![0, b, 0] h (ix3 e i j) = (X5 : S36x16384x128.Idx → F .f32) (ix3 e (⟨b + i.val, by omega⟩ : Fin 16384) j) := by
  show (X5 : S36x16384x128.Idx → F .f32) ((Rect.unit (s := S36x16384x128) ![0, b, 0] S36x8x128.size h).emb (ix3 e i j)) = _
  refine congrArg (X5 : S36x16384x128.Idx → F .f32) (funext fun a => Fin.ext ?_)
  match a with
  | ⟨0, _⟩ => show 0 + 1 * e.val = e.val; omega
  | ⟨1, _⟩ => show b + 1 * i.val = b + i.val; omega
  | ⟨2, _⟩ => show 0 + 1 * j.val = j.val; omega

/-- The weights' scratch after the landed copy holds the weights. -/
theorem wLanded_eq (d : Dev nD) (W3 : Buf (Elt F) (w3Loc d)) : wLanded d W3 = (W3 : S576.Idx → F .f32) := rfl

/-- The placement: a payload copied whole onto the group's rows of the result reads, at every entry of those rows, the
    payload's entry at the same node and lane and at the row's place within the group — whatever the rows held. So a
    payload that is the aggregated array on the group's rows leaves the aggregated array there. -/
theorem landed_core (d : Dev nD) (L : grid0.Coords) (g : ℕ) (hg : g < 28)
    (X5 : Buf (Elt F) (x5Loc d)) (W3 : Buf (Elt F) (w3Loc d)) (fr : Buf (Elt F) (o8Loc d))
    (w : S12x8x128.Idx → Elt F .f32)
    (hw : ∀ (n : Fin 12) (i : Fin 8) (j : Fin 128),
      w (ix3 n i j) = (tileVal X5 W3 : S12x7168x128.Idx → F .f32)
        (ix3 n (⟨224 * wid L + 8 * g + i.val, by have := wid_lt L; omega⟩ : Fin 7168) j)) :
    ∀ i ∈ oRowSet L g,
      ((((oM).view.slice (oRect L g)).writes (Elt F) fr [⟨Rect.whole S12x8x128, w⟩]) : S12x7168x128.Idx → F .f32) i
        = (tileVal X5 W3 : S12x7168x128.Idx → F .f32) i := by
  intro i hi
  obtain ⟨y, -, rfl⟩ := Finset.mem_map.mp hi
  obtain ⟨n, i', j, rfl⟩ : ∃ (n : Fin 12) (i' : Fin 8) (j : Fin 128), y = ix3 n i' j := ⟨y 0, y 1, y 2, eq_ix3 y⟩
  have key := View.read_writes_cons_emb ((oM).view.slice (oRect L g)) fr (Rect.whole S12x8x128) w [] (ix3 n i' j)
  have e : (Rect.whole S12x8x128).emb (ix3 n i' j) = ix3 n i' j := Rect.emb_whole_apply S12x8x128 (ix3 n i' j)
  have key' := (congrArg (View.read (Elt F) ((oM).view.slice (oRect L g))
    (((oM).view.slice (oRect L g)).writes (Elt F) fr [⟨Rect.whole S12x8x128, w⟩])) e).symm.trans key
  generalize (((oM).view.slice (oRect L g)).writes (Elt F) fr [⟨Rect.whole S12x8x128, w⟩]) = G at key' ⊢
  refine (Eq.trans (show (G : S12x7168x128.Idx → F .f32) (((oM).view.slice (oRect L g)).emb (ix3 n i' j))
    = View.read (Elt F) ((oM).view.slice (oRect L g)) G (ix3 n i' j) from rfl) (key'.trans (hw n i' j))).trans ?_
  refine congrArg (tileVal X5 W3 : S12x7168x128.Idx → F .f32) (funext fun a => Fin.ext ?_)
  have hm : min g 27 = g := by omega
  match a with
  | ⟨0, _⟩ => show n.val = 0 + 1 * n.val; omega
  | ⟨1, _⟩ => show 224 * wid L + 8 * g + i'.val = 224 * wid L + 8 * min g 27 + 1 * i'.val; omega
  | ⟨2, _⟩ => show j.val = 0 + 1 * j.val; omega

/-- What the slot holds is the aggregated array on the group's rows. -/
theorem rowVal_group (d : Dev nD) (L : grid0.Coords) (g : ℕ) (hg : g < 28)
    (X5 : Buf (Elt F) (x5Loc d)) (W3 : Buf (Elt F) (w3Loc d)) (n : Fin 12) (i : Fin 8) (j : Fin 128) :
    rowVal (xRows d X5 (offG L g) (xRect_inb L g)) (wLanded d W3) (ix3 n i j)
      = (tileVal X5 W3 : S12x7168x128.Idx → F .f32)
          (ix3 n (⟨224 * wid L + 8 * g + i.val, by have := wid_lt L; omega⟩ : Fin 7168) j) := by
  have hw := wid_lt L
  have hm : min g 27 = g := by omega
  have hb : 224 * wid L + 8 * min g 27 + 8 ≤ 7168 := by omega
  rw [wLanded_eq]
  refine (rowVal_tileVal X5 W3 (224 * wid L + 8 * min g 27) hb _ (fun e i j => xRows_ix d X5 _ (by omega) _ e i j) n i j).trans ?_
  refine congrArg (tileVal X5 W3 : S12x7168x128.Idx → F .f32) (funext fun a => Fin.ext ?_)
  match a with
  | ⟨0, _⟩ => rfl
  | ⟨1, _⟩ => show 224 * wid L + 8 * min g 27 + i.val = 224 * wid L + 8 * g + i.val; omega
  | ⟨2, _⟩ => rfl

/-- A landed copy of the first output slot leaves the aggregated array on the group's rows. -/
theorem rowsLanded_tileVal0 (d : Dev nD) (L : grid0.Coords) (g : ℕ) (hg : g < 28)
    (X5 : Buf (Elt F) (x5Loc d)) (W3 : Buf (Elt F) (w3Loc d)) (fr : Buf (Elt F) (o8Loc d)) :
    ∀ i ∈ oRowSet L g,
      (rowsLanded d ov0M (offG L g) (oRect_inb L g) fr (rowVal (xRows d X5 (offG L g) (xRect_inb L g)) (wLanded d W3))
        : S12x7168x128.Idx → F .f32) i = (tileVal X5 W3 : S12x7168x128.Idx → F .f32) i :=
  landed_core d L g hg X5 W3 fr _ (rowVal_group d L g hg X5 W3)

/-- A landed copy of the second output slot leaves the aggregated array on the group's rows. -/
theorem rowsLanded_tileVal1 (d : Dev nD) (L : grid0.Coords) (g : ℕ) (hg : g < 28)
    (X5 : Buf (Elt F) (x5Loc d)) (W3 : Buf (Elt F) (w3Loc d)) (fr : Buf (Elt F) (o8Loc d)) :
    ∀ i ∈ oRowSet L g,
      (rowsLanded d ov1M (offG L g) (oRect_inb L g) fr (rowVal (xRows d X5 (offG L g) (xRect_inb L g)) (wLanded d W3))
        : S12x7168x128.Idx → F .f32) i = (tileVal X5 W3 : S12x7168x128.Idx → F .f32) i :=
  landed_core d L g hg X5 W3 fr _ (rowVal_group d L g hg X5 W3)

end Cert.KernelIdeal.Pf

end
-- ==== Proof.KTileChunk.lean ====
/-
  One sixteen-lane chunk of one node's row, as the kernel computes it (six slices of the input slot, each times a
  slice of the weights, added in order), and its value at a lane.
-/
import proofs.«203732_g20581483283120_cont_8to1_285_17_alg».proof.Proof.KTileVal
import proofs.«203732_g20581483283120_cont_8to1_285_17_alg».proof.Proof.KBridge
import Idealize.ShloMosaic.Lib.ValueIdx
import Idealize.ShloMosaic.Lib.Pipeline.Value

noncomputable section

namespace Cert.KernelIdeal.Pf

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec (edgeOf)

variable {F : FTy → Type} [FloatOps F]

/-- The kernel's chunk: each slice of the slot flattened and multiplied by its weights' slice, the six products added one
    after another, the sum given the store's shape. -/
def chunkVal (x0 : Vec F S1x1x16 .f32) (w0 : Vec F S16 .f32) (x1 : Vec F S1x1x16 .f32) (w1 : Vec F S16 .f32) (x2 : Vec F S1x1x16 .f32) (w2 : Vec F S16 .f32) (x3 : Vec F S1x1x16 .f32) (w3 : Vec F S16 .f32) (x4 : Vec F S1x1x16 .f32) (w4 : Vec F S16 .f32) (x5 : Vec F S1x1x16 .f32) (w5 : Vec F S16 .f32) : FVec F S1x1x16 .f32 :=
  shapeCast S1x1x16
    (addf (addf (addf (addf (addf
      (mulf (shapeCast S16 x0 shapeCasts_S1x1x16_S16) (shapeCast S16 w0 shapeCasts_S16_S16))
      (mulf (shapeCast S16 x1 shapeCasts_S1x1x16_S16) (shapeCast S16 w1 shapeCasts_S16_S16)))
      (mulf (shapeCast S16 x2 shapeCasts_S1x1x16_S16) (shapeCast S16 w2 shapeCasts_S16_S16)))
      (mulf (shapeCast S16 x3 shapeCasts_S1x1x16_S16) (shapeCast S16 w3 shapeCasts_S16_S16)))
      (mulf (shapeCast S16 x4 shapeCasts_S1x1x16_S16) (shapeCast S16 w4 shapeCasts_S16_S16)))
      (mulf (shapeCast S16 x5 shapeCasts_S1x1x16_S16) (shapeCast S16 w5 shapeCasts_S16_S16)))
    shapeCasts_S16_S1x1x16

/-- A lane of the chunk. -/
theorem chunkVal_lane (x0 : Vec F S1x1x16 .f32) (w0 : Vec F S16 .f32) (x1 : Vec F S1x1x16 .f32) (w1 : Vec F S16 .f32) (x2 : Vec F S1x1x16 .f32) (w2 : Vec F S16 .f32) (x3 : Vec F S1x1x16 .f32) (w3 : Vec F S16 .f32) (x4 : Vec F S1x1x16 .f32) (w4 : Vec F S16 .f32) (x5 : Vec F S1x1x16 .f32) (w5 : Vec F S16 .f32) (l : Fin 16) :
    chunkVal x0 w0 x1 w1 x2 w2 x3 w3 x4 w4 x5 w5 (ix3 (0 : Fin 1) (0 : Fin 1) l)
      = sum6L (![FloatOps.mulf (x0 (ix3 (0 : Fin 1) (0 : Fin 1) l)) (w0 (ix1 l)), FloatOps.mulf (x1 (ix3 (0 : Fin 1) (0 : Fin 1) l)) (w1 (ix1 l)), FloatOps.mulf (x2 (ix3 (0 : Fin 1) (0 : Fin 1) l)) (w2 (ix1 l)), FloatOps.mulf (x3 (ix3 (0 : Fin 1) (0 : Fin 1) l)) (w3 (ix1 l)), FloatOps.mulf (x4 (ix3 (0 : Fin 1) (0 : Fin 1) l)) (w4 (ix1 l)), FloatOps.mulf (x5 (ix3 (0 : Fin 1) (0 : Fin 1) l)) (w5 (ix1 l))] : Fin 6 → F .f32) := by
  have hcast : ∀ (v : FVec F S16 .f32), shapeCast S1x1x16 v shapeCasts_S16_S1x1x16 (ix3 (0 : Fin 1) (0 : Fin 1) l) = v (ix1 l) := fun v =>
    shapeCast_apply v shapeCasts_S16_S1x1x16 _ (ix1 l) (by
      rw [Shape.rowMajor_val_one, Shape.rowMajor_val_three]
      show l.val = (0 * 1 + 0) * 16 + l.val; omega)
  have hx : ∀ (x : Vec F S1x1x16 .f32), shapeCast S16 x shapeCasts_S1x1x16_S16 (ix1 l) = x (ix3 (0 : Fin 1) (0 : Fin 1) l) := fun x =>
    shapeCast_apply x shapeCasts_S1x1x16_S16 _ (ix3 (0 : Fin 1) (0 : Fin 1) l) (by
      rw [Shape.rowMajor_val_one, Shape.rowMajor_val_three]
      show (0 * 1 + 0) * 16 + l.val = l.val; omega)
  have hw : ∀ (w : Vec F S16 .f32), shapeCast S16 w shapeCasts_S16_S16 = w := fun w => shapeCast_self w _
  unfold chunkVal
  rw [hcast]
  show FloatOps.addf (FloatOps.addf (FloatOps.addf (FloatOps.addf (FloatOps.addf
      (FloatOps.mulf (shapeCast S16 x0 shapeCasts_S1x1x16_S16 (ix1 l)) (shapeCast S16 w0 shapeCasts_S16_S16 (ix1 l)))
      (FloatOps.mulf (shapeCast S16 x1 shapeCasts_S1x1x16_S16 (ix1 l)) (shapeCast S16 w1 shapeCasts_S16_S16 (ix1 l))))
      (FloatOps.mulf (shapeCast S16 x2 shapeCasts_S1x1x16_S16 (ix1 l)) (shapeCast S16 w2 shapeCasts_S16_S16 (ix1 l))))
      (FloatOps.mulf (shapeCast S16 x3 shapeCasts_S1x1x16_S16 (ix1 l)) (shapeCast S16 w3 shapeCasts_S16_S16 (ix1 l))))
      (FloatOps.mulf (shapeCast S16 x4 shapeCasts_S1x1x16_S16 (ix1 l)) (shapeCast S16 w4 shapeCasts_S16_S16 (ix1 l))))
      (FloatOps.mulf (shapeCast S16 x5 shapeCasts_S1x1x16_S16 (ix1 l)) (shapeCast S16 w5 shapeCasts_S16_S16 (ix1 l))) = _
  rw [hx, hx, hx, hx, hx, hx, hw, hw, hw, hw, hw, hw]
  rfl

/-- A slice of the slot read at a lane: the slot's entry at the slice's edge, row and lane. -/
theorem ld_slot (fx : Vec F S36x8x128 .f32) (off : Fin 3 → ℕ) (inb : ∀ a, off a + S1x1x16.size a ≤ S36x8x128.size a)
    (e kk cc : ℕ) (h : off = ![e, kk, cc]) (he : e < 36) (hk : kk < 8) (hc : cc + 16 ≤ 128) (l : Fin 16) :
    View.ld fx (Rect.unit (s := S36x8x128) off S1x1x16.size inb) (ix3 (0 : Fin 1) (0 : Fin 1) l)
      = fx (ix3 (⟨e, he⟩ : Fin 36) (⟨kk, hk⟩ : Fin 8) (⟨cc + l.val, by have := l.isLt; omega⟩ : Fin 128)) := by
  subst h
  refine congrArg fx (funext fun a => Fin.ext ?_)
  match a with
  | ⟨0, _⟩ => show e + 1 * 0 = e; omega
  | ⟨1, _⟩ => show kk + 1 * 0 = kk; omega
  | ⟨2, _⟩ => show cc + 1 * l.val = cc + l.val; omega

/-- A slice of the weights read at a lane. -/
theorem ld_wts (fw : Vec F S576 .f32) (q : ℕ) (inb : ∀ a, (![q] : Fin 1 → ℕ) a + S16.size a ≤ S576.size a) (hq : q + 16 ≤ 576) (l : Fin 16) :
    View.ld fw (Rect.unit (s := S576) ![q] S16.size inb) (ix1 l) = fw (ix1 (⟨q + l.val, by have := l.isLt; omega⟩ : Fin 576)) := by
  refine congrArg fw (funext fun a => Fin.ext ?_)
  match a with
  | ⟨0, _⟩ => show q + 1 * l.val = q + l.val; omega

/-- Where a store's lane lands in the output slot. -/
theorem emb_store (off : Fin 3 → ℕ) (inb : ∀ a, off a + S1x1x16.size a ≤ S12x8x128.size a)
    (n kk cc : ℕ) (h : off = ![n, kk, cc]) (hn : n < 12) (hk : kk < 8) (hc : cc + 16 ≤ 128) (l : Fin 16) :
    (Rect.unit (s := S12x8x128) off S1x1x16.size inb).emb (ix3 (0 : Fin 1) (0 : Fin 1) l)
      = (ix3 (⟨n, hn⟩ : Fin 12) (⟨kk, hk⟩ : Fin 8) (⟨cc + l.val, by have := l.isLt; omega⟩ : Fin 128) : S12x8x128.Idx) := by
  subst h
  refine funext fun a => Fin.ext ?_
  match a with
  | ⟨0, _⟩ => show n + 1 * 0 = n; omega
  | ⟨1, _⟩ => show kk + 1 * 0 = kk; omega
  | ⟨2, _⟩ => show cc + 1 * l.val = cc + l.val; omega

/-- ONE STORE'S PAYLOAD IS THE BLOCK OF `rowVal` ITS RECTANGLE NAMES: node `n`, row `kk`, lanes from `16 c`. -/
theorem piece_val (fx : Vec F S36x8x128 .f32) (fw : Vec F S576 .f32) (kk : ℕ) (hk : kk < 8) (n : Fin 12) (c : ℕ) (hc : c < 8)
    (o : Fin 3 → ℕ) (inb : ∀ a, o a + S1x1x16.size a ≤ S12x8x128.size a) (ho : o = ![n.val, kk, 16 * c])
    (o0 : Fin 3 → ℕ) (i0 : ∀ a, o0 a + S1x1x16.size a ≤ S36x8x128.size a) (h0 : o0 = ![(edgeOf n 0).val, kk, 16 * c])
    (o1 : Fin 3 → ℕ) (i1 : ∀ a, o1 a + S1x1x16.size a ≤ S36x8x128.size a) (h1 : o1 = ![(edgeOf n 1).val, kk, 16 * c])
    (o2 : Fin 3 → ℕ) (i2 : ∀ a, o2 a + S1x1x16.size a ≤ S36x8x128.size a) (h2 : o2 = ![(edgeOf n 2).val, kk, 16 * c])
    (o3 : Fin 3 → ℕ) (i3 : ∀ a, o3 a + S1x1x16.size a ≤ S36x8x128.size a) (h3 : o3 = ![(edgeOf n 3).val, kk, 16 * c])
    (o4 : Fin 3 → ℕ) (i4 : ∀ a, o4 a + S1x1x16.size a ≤ S36x8x128.size a) (h4 : o4 = ![(edgeOf n 4).val, kk, 16 * c])
    (o5 : Fin 3 → ℕ) (i5 : ∀ a, o5 a + S1x1x16.size a ≤ S36x8x128.size a) (h5 : o5 = ![(edgeOf n 5).val, kk, 16 * c])
    (q0 : ℕ) (j0 : ∀ a, (![q0] : Fin 1 → ℕ) a + S16.size a ≤ S576.size a) (g0 : q0 = 16 * (edgeOf n 0).val)
    (q1 : ℕ) (j1 : ∀ a, (![q1] : Fin 1 → ℕ) a + S16.size a ≤ S576.size a) (g1 : q1 = 16 * (edgeOf n 1).val)
    (q2 : ℕ) (j2 : ∀ a, (![q2] : Fin 1 → ℕ) a + S16.size a ≤ S576.size a) (g2 : q2 = 16 * (edgeOf n 2).val)
    (q3 : ℕ) (j3 : ∀ a, (![q3] : Fin 1 → ℕ) a + S16.size a ≤ S576.size a) (g3 : q3 = 16 * (edgeOf n 3).val)
    (q4 : ℕ) (j4 : ∀ a, (![q4] : Fin 1 → ℕ) a + S16.size a ≤ S576.size a) (g4 : q4 = 16 * (edgeOf n 4).val)
    (q5 : ℕ) (j5 : ∀ a, (![q5] : Fin 1 → ℕ) a + S16.size a ≤ S576.size a) (g5 : q5 = 16 * (edgeOf n 5).val)
    (x : S1x1x16.Idx) :
    chunkVal (View.ld fx (Rect.unit (s := S36x8x128) o0 S1x1x16.size i0)) (View.ld fw (Rect.unit (s := S576) ![q0] S16.size j0))
        (View.ld fx (Rect.unit (s := S36x8x128) o1 S1x1x16.size i1)) (View.ld fw (Rect.unit (s := S576) ![q1] S16.size j1))
        (View.ld fx (Rect.unit (s := S36x8x128) o2 S1x1x16.size i2)) (View.ld fw (Rect.unit (s := S576) ![q2] S16.size j2))
        (View.ld fx (Rect.unit (s := S36x8x128) o3 S1x1x16.size i3)) (View.ld fw (Rect.unit (s := S576) ![q3] S16.size j3))
        (View.ld fx (Rect.unit (s := S36x8x128) o4 S1x1x16.size i4)) (View.ld fw (Rect.unit (s := S576) ![q4] S16.size j4))
        (View.ld fx (Rect.unit (s := S36x8x128) o5 S1x1x16.size i5)) (View.ld fw (Rect.unit (s := S576) ![q5] S16.size j5)) x
      = rowVal fx fw ((Rect.unit (s := S12x8x128) o S1x1x16.size inb).emb x) := by
  obtain ⟨u, v, l, rfl⟩ : ∃ (u : Fin 1) (v : Fin 1) (l : Fin 16), x = ix3 u v l := ⟨x 0, x 1, x 2, eq_ix3 x⟩
  obtain rfl : u = 0 := Subsingleton.elim _ _
  obtain rfl : v = 0 := Subsingleton.elim _ _
  have hl := l.isLt
  rw [emb_store o inb n.val kk (16 * c) ho n.isLt hk (by omega) l, rowVal_ix3, chunkVal_lane]
  have e0 := (edgeOf n 0).isLt; have e1 := (edgeOf n 1).isLt; have e2 := (edgeOf n 2).isLt; have e3 := (edgeOf n 3).isLt; have e4 := (edgeOf n 4).isLt; have e5 := (edgeOf n 5).isLt
  rw [ld_slot fx o0 i0 (edgeOf n 0).val kk (16 * c) h0 e0 hk (by omega) l,
    ld_slot fx o1 i1 (edgeOf n 1).val kk (16 * c) h1 e1 hk (by omega) l,
    ld_slot fx o2 i2 (edgeOf n 2).val kk (16 * c) h2 e2 hk (by omega) l,
    ld_slot fx o3 i3 (edgeOf n 3).val kk (16 * c) h3 e3 hk (by omega) l,
    ld_slot fx o4 i4 (edgeOf n 4).val kk (16 * c) h4 e4 hk (by omega) l,
    ld_slot fx o5 i5 (edgeOf n 5).val kk (16 * c) h5 e5 hk (by omega) l]
  subst g0 g1 g2 g3 g4 g5
  rw [ld_wts fw (16 * (edgeOf n 0).val) j0 (by omega) l,
    ld_wts fw (16 * (edgeOf n 1).val) j1 (by omega) l,
    ld_wts fw (16 * (edgeOf n 2).val) j2 (by omega) l,
    ld_wts fw (16 * (edgeOf n 3).val) j3 (by omega) l,
    ld_wts fw (16 * (edgeOf n 4).val) j4 (by omega) l,
    ld_wts fw (16 * (edgeOf n 5).val) j5 (by omega) l]
  have hmod : (16 * c + l.val) % 16 = l.val := by omega
  unfold sum6L
  simp only [Matrix.cons_val_zero, Matrix.cons_val_one, Matrix.cons_val]
  simp only [Fin.eta, hmod]

end Cert.KernelIdeal.Pf
end
-- ==== Proof.KTileL0.lean ====
/-
  One pass over a row of a slot, with values: the ninety-six chunks the pass stores, each the block of the slot's
  function its rectangle names; together they fill the row and touch no other.
-/
import proofs.«203732_g20581483283120_cont_8to1_285_17_alg».proof.Proof.KTileChunk
import proofs.«203732_g20581483283120_cont_8to1_285_17_alg».proof.Proof.KTileDefs
import proofs.«203732_g20581483283120_cont_8to1_285_17_alg».proof.Proof.KBridge
import Idealize.ShloMosaic.Lib.ValueIdx
import Idealize.ShloMosaic.Lib.Pipeline.Value

noncomputable section

namespace Cert.KernelIdeal.Pf

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec (edgeOf)

variable {F : FTy → Type} [FloatOps F]

/-- An index in a store's rectangle is in the store's row. -/
theorem row_of_mem (off : Fin 3 → ℕ) (inb : ∀ a, off a + S1x1x16.size a ≤ S12x8x128.size a) (n kk cc : ℕ) (h : off = ![n, kk, cc])
    (y : S12x8x128.Idx) (hy : y ∈ (Rect.unit (s := S12x8x128) off S1x1x16.size inb).set) : (y 1).val = kk := by
  subst h
  rw [Rect.mem_set_unit] at hy
  have h1 : kk ≤ (y 1).val ∧ (y 1).val < kk + 1 := hy 1
  omega

/-- An index with a store's node, row and lanes is in its rectangle. -/
theorem mem_of_coords (off : Fin 3 → ℕ) (inb : ∀ a, off a + S1x1x16.size a ≤ S12x8x128.size a) (n kk cc : ℕ) (h : off = ![n, kk, cc])
    (y : S12x8x128.Idx) (h0 : (y 0).val = n) (h1 : (y 1).val = kk) (h2 : cc ≤ (y 2).val) (h3 : (y 2).val < cc + 16) :
    y ∈ (Rect.unit (s := S12x8x128) off S1x1x16.size inb).set := by
  subst h
  rw [Rect.mem_set_unit]
  intro a
  match a with
  | ⟨0, _⟩ => show n ≤ (y 0).val ∧ (y 0).val < n + 1; omega
  | ⟨1, _⟩ => show kk ≤ (y 1).val ∧ (y 1).val < kk + 1; omega
  | ⟨2, _⟩ => show cc ≤ (y 2).val ∧ (y 2).val < cc + 16; omega

/-! ## Slot 0 -/

theorem trips_0 : k0_t2_loop.trips = 8 := by decide
theorem hk8_0 (k : Fin k0_t2_loop.trips) : k.val < 8 := by have := k.isLt; have h8 : k0_t2_loop.trips = 8 := trips_0; omega

/-- What one pass over a row stores into output slot 0: the ninety-six chunks, last store first. -/
def Lexp0 (fx : Vec F S36x8x128 .f32) (fw : Vec F S576 .f32) (k : Fin k0_t2_loop.trips) : List (View.Piece (Elt F) S12x8x128 .f32) :=
  [⟨Rect.unit (s := S12x8x128) (k0_off387 k) S1x1x16.size (k0_off387_inb k),
      chunkVal (View.ld fx (Rect.unit (s := S36x8x128) (k0_off345 k) S1x1x16.size (k0_off345_inb k))) (View.ld fw (Rect.unit (s := S576) ![80] S16.size inb_S576_S16_80))
        (View.ld fx (Rect.unit (s := S36x8x128) (k0_off351 k) S1x1x16.size (k0_off351_inb k))) (View.ld fw (Rect.unit (s := S576) ![176] S16.size inb_S576_S16_176))
        (View.ld fx (Rect.unit (s := S36x8x128) (k0_off357 k) S1x1x16.size (k0_off357_inb k))) (View.ld fw (Rect.unit (s := S576) ![272] S16.size inb_S576_S16_272))
        (View.ld fx (Rect.unit (s := S36x8x128) (k0_off363 k) S1x1x16.size (k0_off363_inb k))) (View.ld fw (Rect.unit (s := S576) ![368] S16.size inb_S576_S16_368))
        (View.ld fx (Rect.unit (s := S36x8x128) (k0_off369 k) S1x1x16.size (k0_off369_inb k))) (View.ld fw (Rect.unit (s := S576) ![464] S16.size inb_S576_S16_464))
        (View.ld fx (Rect.unit (s := S36x8x128) (k0_off375 k) S1x1x16.size (k0_off375_inb k))) (View.ld fw (Rect.unit (s := S576) ![560] S16.size inb_S576_S16_560))⟩,
    ⟨Rect.unit (s := S12x8x128) (k0_off386 k) S1x1x16.size (k0_off386_inb k),
      chunkVal (View.ld fx (Rect.unit (s := S36x8x128) (k0_off344 k) S1x1x16.size (k0_off344_inb k))) (View.ld fw (Rect.unit (s := S576) ![64] S16.size inb_S576_S16_64))
        (View.ld fx (Rect.unit (s := S36x8x128) (k0_off350 k) S1x1x16.size (k0_off350_inb k))) (View.ld fw (Rect.unit (s := S576) ![160] S16.size inb_S576_S16_160))
        (View.ld fx (Rect.unit (s := S36x8x128) (k0_off356 k) S1x1x16.size (k0_off356_inb k))) (View.ld fw (Rect.unit (s := S576) ![256] S16.size inb_S576_S16_256))
        (View.ld fx (Rect.unit (s := S36x8x128) (k0_off362 k) S1x1x16.size (k0_off362_inb k))) (View.ld fw (Rect.unit (s := S576) ![352] S16.size inb_S576_S16_352))
        (View.ld fx (Rect.unit (s := S36x8x128) (k0_off368 k) S1x1x16.size (k0_off368_inb k))) (View.ld fw (Rect.unit (s := S576) ![448] S16.size inb_S576_S16_448))
        (View.ld fx (Rect.unit (s := S36x8x128) (k0_off374 k) S1x1x16.size (k0_off374_inb k))) (View.ld fw (Rect.unit (s := S576) ![544] S16.size inb_S576_S16_544))⟩,
    ⟨Rect.unit (s := S12x8x128) (k0_off385 k) S1x1x16.size (k0_off385_inb k),
      chunkVal (View.ld fx (Rect.unit (s := S36x8x128) (k0_off343 k) S1x1x16.size (k0_off343_inb k))) (View.ld fw (Rect.unit (s := S576) ![48] S16.size inb_S576_S16_48))
        (View.ld fx (Rect.unit (s := S36x8x128) (k0_off349 k) S1x1x16.size (k0_off349_inb k))) (View.ld fw (Rect.unit (s := S576) ![144] S16.size inb_S576_S16_144))
        (View.ld fx (Rect.unit (s := S36x8x128) (k0_off355 k) S1x1x16.size (k0_off355_inb k))) (View.ld fw (Rect.unit (s := S576) ![240] S16.size inb_S576_S16_240))
        (View.ld fx (Rect.unit (s := S36x8x128) (k0_off361 k) S1x1x16.size (k0_off361_inb k))) (View.ld fw (Rect.unit (s := S576) ![336] S16.size inb_S576_S16_336))
        (View.ld fx (Rect.unit (s := S36x8x128) (k0_off367 k) S1x1x16.size (k0_off367_inb k))) (View.ld fw (Rect.unit (s := S576) ![432] S16.size inb_S576_S16_432))
        (View.ld fx (Rect.unit (s := S36x8x128) (k0_off373 k) S1x1x16.size (k0_off373_inb k))) (View.ld fw (Rect.unit (s := S576) ![528] S16.size inb_S576_S16_528))⟩,
    ⟨Rect.unit (s := S12x8x128) (k0_off384 k) S1x1x16.size (k0_off384_inb k),
      chunkVal (View.ld fx (Rect.unit (s := S36x8x128) (k0_off342 k) S1x1x16.size (k0_off342_inb k))) (View.ld fw (Rect.unit (s := S576) ![32] S16.size inb_S576_S16_32))
        (View.ld fx (Rect.unit (s := S36x8x128) (k0_off348 k) S1x1x16.size (k0_off348_inb k))) (View.ld fw (Rect.unit (s := S576) ![128] S16.size inb_S576_S16_128))
        (View.ld fx (Rect.unit (s := S36x8x128) (k0_off354 k) S1x1x16.size (k0_off354_inb k))) (View.ld fw (Rect.unit (s := S576) ![224] S16.size inb_S576_S16_224))
        (View.ld fx (Rect.unit (s := S36x8x128) (k0_off360 k) S1x1x16.size (k0_off360_inb k))) (View.ld fw (Rect.unit (s := S576) ![320] S16.size inb_S576_S16_320))
        (View.ld fx (Rect.unit (s := S36x8x128) (k0_off366 k) S1x1x16.size (k0_off366_inb k))) (View.ld fw (Rect.unit (s := S576) ![416] S16.size inb_S576_S16_416))
        (View.ld fx (Rect.unit (s := S36x8x128) (k0_off372 k) S1x1x16.size (k0_off372_inb k))) (View.ld fw (Rect.unit (s := S576) ![512] S16.size inb_S576_S16_512))⟩,
    ⟨Rect.unit (s := S12x8x128) (k0_off383 k) S1x1x16.size (k0_off383_inb k),
      chunkVal (View.ld fx (Rect.unit (s := S36x8x128) (k0_off341 k) S1x1x16.size (k0_off341_inb k))) (View.ld fw (Rect.unit (s := S576) ![16] S16.size inb_S576_S16_16))
        (View.ld fx (Rect.unit (s := S36x8x128) (k0_off347 k) S1x1x16.size (k0_off347_inb k))) (View.ld fw (Rect.unit (s := S576) ![112] S16.size inb_S576_S16_112))
        (View.ld fx (Rect.unit (s := S36x8x128) (k0_off353 k) S1x1x16.size (k0_off353_inb k))) (View.ld fw (Rect.unit (s := S576) ![208] S16.size inb_S576_S16_208))
        (View.ld fx (Rect.unit (s := S36x8x128) (k0_off359 k) S1x1x16.size (k0_off359_inb k))) (View.ld fw (Rect.unit (s := S576) ![304] S16.size inb_S576_S16_304))
        (View.ld fx (Rect.unit (s := S36x8x128) (k0_off365 k) S1x1x16.size (k0_off365_inb k))) (View.ld fw (Rect.unit (s := S576) ![400] S16.size inb_S576_S16_400))
        (View.ld fx (Rect.unit (s := S36x8x128) (k0_off371 k) S1x1x16.size (k0_off371_inb k))) (View.ld fw (Rect.unit (s := S576) ![496] S16.size inb_S576_S16_496))⟩,
    ⟨Rect.unit (s := S12x8x128) (k0_off382 k) S1x1x16.size (k0_off382_inb k),
      chunkVal (View.ld fx (Rect.unit (s := S36x8x128) (k0_off340 k) S1x1x16.size (k0_off340_inb k))) (View.ld fw (Rect.unit (s := S576) ![0] S16.size inb_S576_S16_0))
        (View.ld fx (Rect.unit (s := S36x8x128) (k0_off346 k) S1x1x16.size (k0_off346_inb k))) (View.ld fw (Rect.unit (s := S576) ![96] S16.size inb_S576_S16_96))
        (View.ld fx (Rect.unit (s := S36x8x128) (k0_off352 k) S1x1x16.size (k0_off352_inb k))) (View.ld fw (Rect.unit (s := S576) ![192] S16.size inb_S576_S16_192))
        (View.ld fx (Rect.unit (s := S36x8x128) (k0_off358 k) S1x1x16.size (k0_off358_inb k))) (View.ld fw (Rect.unit (s := S576) ![288] S16.size inb_S576_S16_288))
        (View.ld fx (Rect.unit (s := S36x8x128) (k0_off364 k) S1x1x16.size (k0_off364_inb k))) (View.ld fw (Rect.unit (s := S576) ![384] S16.size inb_S576_S16_384))
        (View.ld fx (Rect.unit (s := S36x8x128) (k0_off370 k) S1x1x16.size (k0_off370_inb k))) (View.ld fw (Rect.unit (s := S576) ![480] S16.size inb_S576_S16_480))⟩,
    ⟨Rect.unit (s := S12x8x128) (k0_off381 k) S1x1x16.size (k0_off381_inb k),
      chunkVal (View.ld fx (Rect.unit (s := S36x8x128) (k0_off370 k) S1x1x16.size (k0_off370_inb k))) (View.ld fw (Rect.unit (s := S576) ![480] S16.size inb_S576_S16_480))
        (View.ld fx (Rect.unit (s := S36x8x128) (k0_off371 k) S1x1x16.size (k0_off371_inb k))) (View.ld fw (Rect.unit (s := S576) ![496] S16.size inb_S576_S16_496))
        (View.ld fx (Rect.unit (s := S36x8x128) (k0_off372 k) S1x1x16.size (k0_off372_inb k))) (View.ld fw (Rect.unit (s := S576) ![512] S16.size inb_S576_S16_512))
        (View.ld fx (Rect.unit (s := S36x8x128) (k0_off373 k) S1x1x16.size (k0_off373_inb k))) (View.ld fw (Rect.unit (s := S576) ![528] S16.size inb_S576_S16_528))
        (View.ld fx (Rect.unit (s := S36x8x128) (k0_off374 k) S1x1x16.size (k0_off374_inb k))) (View.ld fw (Rect.unit (s := S576) ![544] S16.size inb_S576_S16_544))
        (View.ld fx (Rect.unit (s := S36x8x128) (k0_off375 k) S1x1x16.size (k0_off375_inb k))) (View.ld fw (Rect.unit (s := S576) ![560] S16.size inb_S576_S16_560))⟩,
    ⟨Rect.unit (s := S12x8x128) (k0_off380 k) S1x1x16.size (k0_off380_inb k),
      chunkVal (View.ld fx (Rect.unit (s := S36x8x128) (k0_off364 k) S1x1x16.size (k0_off364_inb k))) (View.ld fw (Rect.unit (s := S576) ![384] S16.size inb_S576_S16_384))
        (View.ld fx (Rect.unit (s := S36x8x128) (k0_off365 k) S1x1x16.size (k0_off365_inb k))) (View.ld fw (Rect.unit (s := S576) ![400] S16.size inb_S576_S16_400))
        (View.ld fx (Rect.unit (s := S36x8x128) (k0_off366 k) S1x1x16.size (k0_off366_inb k))) (View.ld fw (Rect.unit (s := S576) ![416] S16.size inb_S576_S16_416))
        (View.ld fx (Rect.unit (s := S36x8x128) (k0_off367 k) S1x1x16.size (k0_off367_inb k))) (View.ld fw (Rect.unit (s := S576) ![432] S16.size inb_S576_S16_432))
        (View.ld fx (Rect.unit (s := S36x8x128) (k0_off368 k) S1x1x16.size (k0_off368_inb k))) (View.ld fw (Rect.unit (s := S576) ![448] S16.size inb_S576_S16_448))
        (View.ld fx (Rect.unit (s := S36x8x128) (k0_off369 k) S1x1x16.size (k0_off369_inb k))) (View.ld fw (Rect.unit (s := S576) ![464] S16.size inb_S576_S16_464))⟩,
    ⟨Rect.unit (s := S12x8x128) (k0_off379 k) S1x1x16.size (k0_off379_inb k),
      chunkVal (View.ld fx (Rect.unit (s := S36x8x128) (k0_off358 k) S1x1x16.size (k0_off358_inb k))) (View.ld fw (Rect.unit (s := S576) ![288] S16.size inb_S576_S16_288))
        (View.ld fx (Rect.unit (s := S36x8x128) (k0_off359 k) S1x1x16.size (k0_off359_inb k))) (View.ld fw (Rect.unit (s := S576) ![304] S16.size inb_S576_S16_304))
        (View.ld fx (Rect.unit (s := S36x8x128) (k0_off360 k) S1x1x16.size (k0_off360_inb k))) (View.ld fw (Rect.unit (s := S576) ![320] S16.size inb_S576_S16_320))
        (View.ld fx (Rect.unit (s := S36x8x128) (k0_off361 k) S1x1x16.size (k0_off361_inb k))) (View.ld fw (Rect.unit (s := S576) ![336] S16.size inb_S576_S16_336))
        (View.ld fx (Rect.unit (s := S36x8x128) (k0_off362 k) S1x1x16.size (k0_off362_inb k))) (View.ld fw (Rect.unit (s := S576) ![352] S16.size inb_S576_S16_352))
        (View.ld fx (Rect.unit (s := S36x8x128) (k0_off363 k) S1x1x16.size (k0_off363_inb k))) (View.ld fw (Rect.unit (s := S576) ![368] S16.size inb_S576_S16_368))⟩,
    ⟨Rect.unit (s := S12x8x128) (k0_off378 k) S1x1x16.size (k0_off378_inb k),
      chunkVal (View.ld fx (Rect.unit (s := S36x8x128) (k0_off352 k) S1x1x16.size (k0_off352_inb k))) (View.ld fw (Rect.unit (s := S576) ![192] S16.size inb_S576_S16_192))
        (View.ld fx (Rect.unit (s := S36x8x128) (k0_off353 k) S1x1x16.size (k0_off353_inb k))) (View.ld fw (Rect.unit (s := S576) ![208] S16.size inb_S576_S16_208))
        (View.ld fx (Rect.unit (s := S36x8x128) (k0_off354 k) S1x1x16.size (k0_off354_inb k))) (View.ld fw (Rect.unit (s := S576) ![224] S16.size inb_S576_S16_224))
        (View.ld fx (Rect.unit (s := S36x8x128) (k0_off355 k) S1x1x16.size (k0_off355_inb k))) (View.ld fw (Rect.unit (s := S576) ![240] S16.size inb_S576_S16_240))
        (View.ld fx (Rect.unit (s := S36x8x128) (k0_off356 k) S1x1x16.size (k0_off356_inb k))) (View.ld fw (Rect.unit (s := S576) ![256] S16.size inb_S576_S16_256))
        (View.ld fx (Rect.unit (s := S36x8x128) (k0_off357 k) S1x1x16.size (k0_off357_inb k))) (View.ld fw (Rect.unit (s := S576) ![272] S16.size inb_S576_S16_272))⟩,
    ⟨Rect.unit (s := S12x8x128) (k0_off377 k) S1x1x16.size (k0_off377_inb k),
      chunkVal (View.ld fx (Rect.unit (s := S36x8x128) (k0_off346 k) S1x1x16.size (k0_off346_inb k))) (View.ld fw (Rect.unit (s := S576) ![96] S16.size inb_S576_S16_96))
        (View.ld fx (Rect.unit (s := S36x8x128) (k0_off347 k) S1x1x16.size (k0_off347_inb k))) (View.ld fw (Rect.unit (s := S576) ![112] S16.size inb_S576_S16_112))
        (View.ld fx (Rect.unit (s := S36x8x128) (k0_off348 k) S1x1x16.size (k0_off348_inb k))) (View.ld fw (Rect.unit (s := S576) ![128] S16.size inb_S576_S16_128))
        (View.ld fx (Rect.unit (s := S36x8x128) (k0_off349 k) S1x1x16.size (k0_off349_inb k))) (View.ld fw (Rect.unit (s := S576) ![144] S16.size inb_S576_S16_144))
        (View.ld fx (Rect.unit (s := S36x8x128) (k0_off350 k) S1x1x16.size (k0_off350_inb k))) (View.ld fw (Rect.unit (s := S576) ![160] S16.size inb_S576_S16_160))
        (View.ld fx (Rect.unit (s := S36x8x128) (k0_off351 k) S1x1x16.size (k0_off351_inb k))) (View.ld fw (Rect.unit (s := S576) ![176] S16.size inb_S576_S16_176))⟩,
    ⟨Rect.unit (s := S12x8x128) (k0_off376 k) S1x1x16.size (k0_off376_inb k),
      chunkVal (View.ld fx (Rect.unit (s := S36x8x128) (k0_off340 k) S1x1x16.size (k0_off340_inb k))) (View.ld fw (Rect.unit (s := S576) ![0] S16.size inb_S576_S16_0))
        (View.ld fx (Rect.unit (s := S36x8x128) (k0_off341 k) S1x1x16.size (k0_off341_inb k))) (View.ld fw (Rect.unit (s := S576) ![16] S16.size inb_S576_S16_16))
        (View.ld fx (Rect.unit (s := S36x8x128) (k0_off342 k) S1x1x16.size (k0_off342_inb k))) (View.ld fw (Rect.unit (s := S576) ![32] S16.size inb_S576_S16_32))
        (View.ld fx (Rect.unit (s := S36x8x128) (k0_off343 k) S1x1x16.size (k0_off343_inb k))) (View.ld fw (Rect.unit (s := S576) ![48] S16.size inb_S576_S16_48))
        (View.ld fx (Rect.unit (s := S36x8x128) (k0_off344 k) S1x1x16.size (k0_off344_inb k))) (View.ld fw (Rect.unit (s := S576) ![64] S16.size inb_S576_S16_64))
        (View.ld fx (Rect.unit (s := S36x8x128) (k0_off345 k) S1x1x16.size (k0_off345_inb k))) (View.ld fw (Rect.unit (s := S576) ![80] S16.size inb_S576_S16_80))⟩,
    ⟨Rect.unit (s := S12x8x128) (k0_off339 k) S1x1x16.size (k0_off339_inb k),
      chunkVal (View.ld fx (Rect.unit (s := S36x8x128) (k0_off297 k) S1x1x16.size (k0_off297_inb k))) (View.ld fw (Rect.unit (s := S576) ![80] S16.size inb_S576_S16_80))
        (View.ld fx (Rect.unit (s := S36x8x128) (k0_off303 k) S1x1x16.size (k0_off303_inb k))) (View.ld fw (Rect.unit (s := S576) ![176] S16.size inb_S576_S16_176))
        (View.ld fx (Rect.unit (s := S36x8x128) (k0_off309 k) S1x1x16.size (k0_off309_inb k))) (View.ld fw (Rect.unit (s := S576) ![272] S16.size inb_S576_S16_272))
        (View.ld fx (Rect.unit (s := S36x8x128) (k0_off315 k) S1x1x16.size (k0_off315_inb k))) (View.ld fw (Rect.unit (s := S576) ![368] S16.size inb_S576_S16_368))
        (View.ld fx (Rect.unit (s := S36x8x128) (k0_off321 k) S1x1x16.size (k0_off321_inb k))) (View.ld fw (Rect.unit (s := S576) ![464] S16.size inb_S576_S16_464))
        (View.ld fx (Rect.unit (s := S36x8x128) (k0_off327 k) S1x1x16.size (k0_off327_inb k))) (View.ld fw (Rect.unit (s := S576) ![560] S16.size inb_S576_S16_560))⟩,
    ⟨Rect.unit (s := S12x8x128) (k0_off338 k) S1x1x16.size (k0_off338_inb k),
      chunkVal (View.ld fx (Rect.unit (s := S36x8x128) (k0_off296 k) S1x1x16.size (k0_off296_inb k))) (View.ld fw (Rect.unit (s := S576) ![64] S16.size inb_S576_S16_64))
        (View.ld fx (Rect.unit (s := S36x8x128) (k0_off302 k) S1x1x16.size (k0_off302_inb k))) (View.ld fw (Rect.unit (s := S576) ![160] S16.size inb_S576_S16_160))
        (View.ld fx (Rect.unit (s := S36x8x128) (k0_off308 k) S1x1x16.size (k0_off308_inb k))) (View.ld fw (Rect.unit (s := S576) ![256] S16.size inb_S576_S16_256))
        (View.ld fx (Rect.unit (s := S36x8x128) (k0_off314 k) S1x1x16.size (k0_off314_inb k))) (View.ld fw (Rect.unit (s := S576) ![352] S16.size inb_S576_S16_352))
        (View.ld fx (Rect.unit (s := S36x8x128) (k0_off320 k) S1x1x16.size (k0_off320_inb k))) (View.ld fw (Rect.unit (s := S576) ![448] S16.size inb_S576_S16_448))
        (View.ld fx (Rect.unit (s := S36x8x128) (k0_off326 k) S1x1x16.size (k0_off326_inb k))) (View.ld fw (Rect.unit (s := S576) ![544] S16.size inb_S576_S16_544))⟩,
    ⟨Rect.unit (s := S12x8x128) (k0_off337 k) S1x1x16.size (k0_off337_inb k),
      chunkVal (View.ld fx (Rect.unit (s := S36x8x128) (k0_off295 k) S1x1x16.size (k0_off295_inb k))) (View.ld fw (Rect.unit (s := S576) ![48] S16.size inb_S576_S16_48))
        (View.ld fx (Rect.unit (s := S36x8x128) (k0_off301 k) S1x1x16.size (k0_off301_inb k))) (View.ld fw (Rect.unit (s := S576) ![144] S16.size inb_S576_S16_144))
        (View.ld fx (Rect.unit (s := S36x8x128) (k0_off307 k) S1x1x16.size (k0_off307_inb k))) (View.ld fw (Rect.unit (s := S576) ![240] S16.size inb_S576_S16_240))
        (View.ld fx (Rect.unit (s := S36x8x128) (k0_off313 k) S1x1x16.size (k0_off313_inb k))) (View.ld fw (Rect.unit (s := S576) ![336] S16.size inb_S576_S16_336))
        (View.ld fx (Rect.unit (s := S36x8x128) (k0_off319 k) S1x1x16.size (k0_off319_inb k))) (View.ld fw (Rect.unit (s := S576) ![432] S16.size inb_S576_S16_432))
        (View.ld fx (Rect.unit (s := S36x8x128) (k0_off325 k) S1x1x16.size (k0_off325_inb k))) (View.ld fw (Rect.unit (s := S576) ![528] S16.size inb_S576_S16_528))⟩,
    ⟨Rect.unit (s := S12x8x128) (k0_off336 k) S1x1x16.size (k0_off336_inb k),
      chunkVal (View.ld fx (Rect.unit (s := S36x8x128) (k0_off294 k) S1x1x16.size (k0_off294_inb k))) (View.ld fw (Rect.unit (s := S576) ![32] S16.size inb_S576_S16_32))
        (View.ld fx (Rect.unit (s := S36x8x128) (k0_off300 k) S1x1x16.size (k0_off300_inb k))) (View.ld fw (Rect.unit (s := S576) ![128] S16.size inb_S576_S16_128))
        (View.ld fx (Rect.unit (s := S36x8x128) (k0_off306 k) S1x1x16.size (k0_off306_inb k))) (View.ld fw (Rect.unit (s := S576) ![224] S16.size inb_S576_S16_224))
        (View.ld fx (Rect.unit (s := S36x8x128) (k0_off312 k) S1x1x16.size (k0_off312_inb k))) (View.ld fw (Rect.unit (s := S576) ![320] S16.size inb_S576_S16_320))
        (View.ld fx (Rect.unit (s := S36x8x128) (k0_off318 k) S1x1x16.size (k0_off318_inb k))) (View.ld fw (Rect.unit (s := S576) ![416] S16.size inb_S576_S16_416))
        (View.ld fx (Rect.unit (s := S36x8x128) (k0_off324 k) S1x1x16.size (k0_off324_inb k))) (View.ld fw (Rect.unit (s := S576) ![512] S16.size inb_S576_S16_512))⟩,
    ⟨Rect.unit (s := S12x8x128) (k0_off335 k) S1x1x16.size (k0_off335_inb k),
      chunkVal (View.ld fx (Rect.unit (s := S36x8x128) (k0_off293 k) S1x1x16.size (k0_off293_inb k))) (View.ld fw (Rect.unit (s := S576) ![16] S16.size inb_S576_S16_16))
        (View.ld fx (Rect.unit (s := S36x8x128) (k0_off299 k) S1x1x16.size (k0_off299_inb k))) (View.ld fw (Rect.unit (s := S576) ![112] S16.size inb_S576_S16_112))
        (View.ld fx (Rect.unit (s := S36x8x128) (k0_off305 k) S1x1x16.size (k0_off305_inb k))) (View.ld fw (Rect.unit (s := S576) ![208] S16.size inb_S576_S16_208))
        (View.ld fx (Rect.unit (s := S36x8x128) (k0_off311 k) S1x1x16.size (k0_off311_inb k))) (View.ld fw (Rect.unit (s := S576) ![304] S16.size inb_S576_S16_304))
        (View.ld fx (Rect.unit (s := S36x8x128) (k0_off317 k) S1x1x16.size (k0_off317_inb k))) (View.ld fw (Rect.unit (s := S576) ![400] S16.size inb_S576_S16_400))
        (View.ld fx (Rect.unit (s := S36x8x128) (k0_off323 k) S1x1x16.size (k0_off323_inb k))) (View.ld fw (Rect.unit (s := S576) ![496] S16.size inb_S576_S16_496))⟩,
    ⟨Rect.unit (s := S12x8x128) (k0_off334 k) S1x1x16.size (k0_off334_inb k),
      chunkVal (View.ld fx (Rect.unit (s := S36x8x128) (k0_off292 k) S1x1x16.size (k0_off292_inb k))) (View.ld fw (Rect.unit (s := S576) ![0] S16.size inb_S576_S16_0))
        (View.ld fx (Rect.unit (s := S36x8x128) (k0_off298 k) S1x1x16.size (k0_off298_inb k))) (View.ld fw (Rect.unit (s := S576) ![96] S16.size inb_S576_S16_96))
        (View.ld fx (Rect.unit (s := S36x8x128) (k0_off304 k) S1x1x16.size (k0_off304_inb k))) (View.ld fw (Rect.unit (s := S576) ![192] S16.size inb_S576_S16_192))
        (View.ld fx (Rect.unit (s := S36x8x128) (k0_off310 k) S1x1x16.size (k0_off310_inb k))) (View.ld fw (Rect.unit (s := S576) ![288] S16.size inb_S576_S16_288))
        (View.ld fx (Rect.unit (s := S36x8x128) (k0_off316 k) S1x1x16.size (k0_off316_inb k))) (View.ld fw (Rect.unit (s := S576) ![384] S16.size inb_S576_S16_384))
        (View.ld fx (Rect.unit (s := S36x8x128) (k0_off322 k) S1x1x16.size (k0_off322_inb k))) (View.ld fw (Rect.unit (s := S576) ![480] S16.size inb_S576_S16_480))⟩,
    ⟨Rect.unit (s := S12x8x128) (k0_off333 k) S1x1x16.size (k0_off333_inb k),
      chunkVal (View.ld fx (Rect.unit (s := S36x8x128) (k0_off322 k) S1x1x16.size (k0_off322_inb k))) (View.ld fw (Rect.unit (s := S576) ![480] S16.size inb_S576_S16_480))
        (View.ld fx (Rect.unit (s := S36x8x128) (k0_off323 k) S1x1x16.size (k0_off323_inb k))) (View.ld fw (Rect.unit (s := S576) ![496] S16.size inb_S576_S16_496))
        (View.ld fx (Rect.unit (s := S36x8x128) (k0_off324 k) S1x1x16.size (k0_off324_inb k))) (View.ld fw (Rect.unit (s := S576) ![512] S16.size inb_S576_S16_512))
        (View.ld fx (Rect.unit (s := S36x8x128) (k0_off325 k) S1x1x16.size (k0_off325_inb k))) (View.ld fw (Rect.unit (s := S576) ![528] S16.size inb_S576_S16_528))
        (View.ld fx (Rect.unit (s := S36x8x128) (k0_off326 k) S1x1x16.size (k0_off326_inb k))) (View.ld fw (Rect.unit (s := S576) ![544] S16.size inb_S576_S16_544))
        (View.ld fx (Rect.unit (s := S36x8x128) (k0_off327 k) S1x1x16.size (k0_off327_inb k))) (View.ld fw (Rect.unit (s := S576) ![560] S16.size inb_S576_S16_560))⟩,
    ⟨Rect.unit (s := S12x8x128) (k0_off332 k) S1x1x16.size (k0_off332_inb k),
      chunkVal (View.ld fx (Rect.unit (s := S36x8x128) (k0_off316 k) S1x1x16.size (k0_off316_inb k))) (View.ld fw (Rect.unit (s := S576) ![384] S16.size inb_S576_S16_384))
        (View.ld fx (Rect.unit (s := S36x8x128) (k0_off317 k) S1x1x16.size (k0_off317_inb k))) (View.ld fw (Rect.unit (s := S576) ![400] S16.size inb_S576_S16_400))
        (View.ld fx (Rect.unit (s := S36x8x128) (k0_off318 k) S1x1x16.size (k0_off318_inb k))) (View.ld fw (Rect.unit (s := S576) ![416] S16.size inb_S576_S16_416))
        (View.ld fx (Rect.unit (s := S36x8x128) (k0_off319 k) S1x1x16.size (k0_off319_inb k))) (View.ld fw (Rect.unit (s := S576) ![432] S16.size inb_S576_S16_432))
        (View.ld fx (Rect.unit (s := S36x8x128) (k0_off320 k) S1x1x16.size (k0_off320_inb k))) (View.ld fw (Rect.unit (s := S576) ![448] S16.size inb_S576_S16_448))
        (View.ld fx (Rect.unit (s := S36x8x128) (k0_off321 k) S1x1x16.size (k0_off321_inb k))) (View.ld fw (Rect.unit (s := S576) ![464] S16.size inb_S576_S16_464))⟩,
    ⟨Rect.unit (s := S12x8x128) (k0_off331 k) S1x1x16.size (k0_off331_inb k),
      chunkVal (View.ld fx (Rect.unit (s := S36x8x128) (k0_off310 k) S1x1x16.size (k0_off310_inb k))) (View.ld fw (Rect.unit (s := S576) ![288] S16.size inb_S576_S16_288))
        (View.ld fx (Rect.unit (s := S36x8x128) (k0_off311 k) S1x1x16.size (k0_off311_inb k))) (View.ld fw (Rect.unit (s := S576) ![304] S16.size inb_S576_S16_304))
        (View.ld fx (Rect.unit (s := S36x8x128) (k0_off312 k) S1x1x16.size (k0_off312_inb k))) (View.ld fw (Rect.unit (s := S576) ![320] S16.size inb_S576_S16_320))
        (View.ld fx (Rect.unit (s := S36x8x128) (k0_off313 k) S1x1x16.size (k0_off313_inb k))) (View.ld fw (Rect.unit (s := S576) ![336] S16.size inb_S576_S16_336))
        (View.ld fx (Rect.unit (s := S36x8x128) (k0_off314 k) S1x1x16.size (k0_off314_inb k))) (View.ld fw (Rect.unit (s := S576) ![352] S16.size inb_S576_S16_352))
        (View.ld fx (Rect.unit (s := S36x8x128) (k0_off315 k) S1x1x16.size (k0_off315_inb k))) (View.ld fw (Rect.unit (s := S576) ![368] S16.size inb_S576_S16_368))⟩,
    ⟨Rect.unit (s := S12x8x128) (k0_off330 k) S1x1x16.size (k0_off330_inb k),
      chunkVal (View.ld fx (Rect.unit (s := S36x8x128) (k0_off304 k) S1x1x16.size (k0_off304_inb k))) (View.ld fw (Rect.unit (s := S576) ![192] S16.size inb_S576_S16_192))
        (View.ld fx (Rect.unit (s := S36x8x128) (k0_off305 k) S1x1x16.size (k0_off305_inb k))) (View.ld fw (Rect.unit (s := S576) ![208] S16.size inb_S576_S16_208))
        (View.ld fx (Rect.unit (s := S36x8x128) (k0_off306 k) S1x1x16.size (k0_off306_inb k))) (View.ld fw (Rect.unit (s := S576) ![224] S16.size inb_S576_S16_224))
        (View.ld fx (Rect.unit (s := S36x8x128) (k0_off307 k) S1x1x16.size (k0_off307_inb k))) (View.ld fw (Rect.unit (s := S576) ![240] S16.size inb_S576_S16_240))
        (View.ld fx (Rect.unit (s := S36x8x128) (k0_off308 k) S1x1x16.size (k0_off308_inb k))) (View.ld fw (Rect.unit (s := S576) ![256] S16.size inb_S576_S16_256))
        (View.ld fx (Rect.unit (s := S36x8x128) (k0_off309 k) S1x1x16.size (k0_off309_inb k))) (View.ld fw (Rect.unit (s := S576) ![272] S16.size inb_S576_S16_272))⟩,
    ⟨Rect.unit (s := S12x8x128) (k0_off329 k) S1x1x16.size (k0_off329_inb k),
      chunkVal (View.ld fx (Rect.unit (s := S36x8x128) (k0_off298 k) S1x1x16.size (k0_off298_inb k))) (View.ld fw (Rect.unit (s := S576) ![96] S16.size inb_S576_S16_96))
        (View.ld fx (Rect.unit (s := S36x8x128) (k0_off299 k) S1x1x16.size (k0_off299_inb k))) (View.ld fw (Rect.unit (s := S576) ![112] S16.size inb_S576_S16_112))
        (View.ld fx (Rect.unit (s := S36x8x128) (k0_off300 k) S1x1x16.size (k0_off300_inb k))) (View.ld fw (Rect.unit (s := S576) ![128] S16.size inb_S576_S16_128))
        (View.ld fx (Rect.unit (s := S36x8x128) (k0_off301 k) S1x1x16.size (k0_off301_inb k))) (View.ld fw (Rect.unit (s := S576) ![144] S16.size inb_S576_S16_144))
        (View.ld fx (Rect.unit (s := S36x8x128) (k0_off302 k) S1x1x16.size (k0_off302_inb k))) (View.ld fw (Rect.unit (s := S576) ![160] S16.size inb_S576_S16_160))
        (View.ld fx (Rect.unit (s := S36x8x128) (k0_off303 k) S1x1x16.size (k0_off303_inb k))) (View.ld fw (Rect.unit (s := S576) ![176] S16.size inb_S576_S16_176))⟩,
    ⟨Rect.unit (s := S12x8x128) (k0_off328 k) S1x1x16.size (k0_off328_inb k),
      chunkVal (View.ld fx (Rect.unit (s := S36x8x128) (k0_off292 k) S1x1x16.size (k0_off292_inb k))) (View.ld fw (Rect.unit (s := S576) ![0] S16.size inb_S576_S16_0))
        (View.ld fx (Rect.unit (s := S36x8x128) (k0_off293 k) S1x1x16.size (k0_off293_inb k))) (View.ld fw (Rect.unit (s := S576) ![16] S16.size inb_S576_S16_16))
        (View.ld fx (Rect.unit (s := S36x8x128) (k0_off294 k) S1x1x16.size (k0_off294_inb k))) (View.ld fw (Rect.unit (s := S576) ![32] S16.size inb_S576_S16_32))
        (View.ld fx (Rect.unit (s := S36x8x128) (k0_off295 k) S1x1x16.size (k0_off295_inb k))) (View.ld fw (Rect.unit (s := S576) ![48] S16.size inb_S576_S16_48))
        (View.ld fx (Rect.unit (s := S36x8x128) (k0_off296 k) S1x1x16.size (k0_off296_inb k))) (View.ld fw (Rect.unit (s := S576) ![64] S16.size inb_S576_S16_64))
        (View.ld fx (Rect.unit (s := S36x8x128) (k0_off297 k) S1x1x16.size (k0_off297_inb k))) (View.ld fw (Rect.unit (s := S576) ![80] S16.size inb_S576_S16_80))⟩,
    ⟨Rect.unit (s := S12x8x128) (k0_off291 k) S1x1x16.size (k0_off291_inb k),
      chunkVal (View.ld fx (Rect.unit (s := S36x8x128) (k0_off249 k) S1x1x16.size (k0_off249_inb k))) (View.ld fw (Rect.unit (s := S576) ![80] S16.size inb_S576_S16_80))
        (View.ld fx (Rect.unit (s := S36x8x128) (k0_off255 k) S1x1x16.size (k0_off255_inb k))) (View.ld fw (Rect.unit (s := S576) ![176] S16.size inb_S576_S16_176))
        (View.ld fx (Rect.unit (s := S36x8x128) (k0_off261 k) S1x1x16.size (k0_off261_inb k))) (View.ld fw (Rect.unit (s := S576) ![272] S16.size inb_S576_S16_272))
        (View.ld fx (Rect.unit (s := S36x8x128) (k0_off267 k) S1x1x16.size (k0_off267_inb k))) (View.ld fw (Rect.unit (s := S576) ![368] S16.size inb_S576_S16_368))
        (View.ld fx (Rect.unit (s := S36x8x128) (k0_off273 k) S1x1x16.size (k0_off273_inb k))) (View.ld fw (Rect.unit (s := S576) ![464] S16.size inb_S576_S16_464))
        (View.ld fx (Rect.unit (s := S36x8x128) (k0_off279 k) S1x1x16.size (k0_off279_inb k))) (View.ld fw (Rect.unit (s := S576) ![560] S16.size inb_S576_S16_560))⟩,
    ⟨Rect.unit (s := S12x8x128) (k0_off290 k) S1x1x16.size (k0_off290_inb k),
      chunkVal (View.ld fx (Rect.unit (s := S36x8x128) (k0_off248 k) S1x1x16.size (k0_off248_inb k))) (View.ld fw (Rect.unit (s := S576) ![64] S16.size inb_S576_S16_64))
        (View.ld fx (Rect.unit (s := S36x8x128) (k0_off254 k) S1x1x16.size (k0_off254_inb k))) (View.ld fw (Rect.unit (s := S576) ![160] S16.size inb_S576_S16_160))
        (View.ld fx (Rect.unit (s := S36x8x128) (k0_off260 k) S1x1x16.size (k0_off260_inb k))) (View.ld fw (Rect.unit (s := S576) ![256] S16.size inb_S576_S16_256))
        (View.ld fx (Rect.unit (s := S36x8x128) (k0_off266 k) S1x1x16.size (k0_off266_inb k))) (View.ld fw (Rect.unit (s := S576) ![352] S16.size inb_S576_S16_352))
        (View.ld fx (Rect.unit (s := S36x8x128) (k0_off272 k) S1x1x16.size (k0_off272_inb k))) (View.ld fw (Rect.unit (s := S576) ![448] S16.size inb_S576_S16_448))
        (View.ld fx (Rect.unit (s := S36x8x128) (k0_off278 k) S1x1x16.size (k0_off278_inb k))) (View.ld fw (Rect.unit (s := S576) ![544] S16.size inb_S576_S16_544))⟩,
    ⟨Rect.unit (s := S12x8x128) (k0_off289 k) S1x1x16.size (k0_off289_inb k),
      chunkVal (View.ld fx (Rect.unit (s := S36x8x128) (k0_off247 k) S1x1x16.size (k0_off247_inb k))) (View.ld fw (Rect.unit (s := S576) ![48] S16.size inb_S576_S16_48))
        (View.ld fx (Rect.unit (s := S36x8x128) (k0_off253 k) S1x1x16.size (k0_off253_inb k))) (View.ld fw (Rect.unit (s := S576) ![144] S16.size inb_S576_S16_144))
        (View.ld fx (Rect.unit (s := S36x8x128) (k0_off259 k) S1x1x16.size (k0_off259_inb k))) (View.ld fw (Rect.unit (s := S576) ![240] S16.size inb_S576_S16_240))
        (View.ld fx (Rect.unit (s := S36x8x128) (k0_off265 k) S1x1x16.size (k0_off265_inb k))) (View.ld fw (Rect.unit (s := S576) ![336] S16.size inb_S576_S16_336))
        (View.ld fx (Rect.unit (s := S36x8x128) (k0_off271 k) S1x1x16.size (k0_off271_inb k))) (View.ld fw (Rect.unit (s := S576) ![432] S16.size inb_S576_S16_432))
        (View.ld fx (Rect.unit (s := S36x8x128) (k0_off277 k) S1x1x16.size (k0_off277_inb k))) (View.ld fw (Rect.unit (s := S576) ![528] S16.size inb_S576_S16_528))⟩,
    ⟨Rect.unit (s := S12x8x128) (k0_off288 k) S1x1x16.size (k0_off288_inb k),
      chunkVal (View.ld fx (Rect.unit (s := S36x8x128) (k0_off246 k) S1x1x16.size (k0_off246_inb k))) (View.ld fw (Rect.unit (s := S576) ![32] S16.size inb_S576_S16_32))
        (View.ld fx (Rect.unit (s := S36x8x128) (k0_off252 k) S1x1x16.size (k0_off252_inb k))) (View.ld fw (Rect.unit (s := S576) ![128] S16.size inb_S576_S16_128))
        (View.ld fx (Rect.unit (s := S36x8x128) (k0_off258 k) S1x1x16.size (k0_off258_inb k))) (View.ld fw (Rect.unit (s := S576) ![224] S16.size inb_S576_S16_224))
        (View.ld fx (Rect.unit (s := S36x8x128) (k0_off264 k) S1x1x16.size (k0_off264_inb k))) (View.ld fw (Rect.unit (s := S576) ![320] S16.size inb_S576_S16_320))
        (View.ld fx (Rect.unit (s := S36x8x128) (k0_off270 k) S1x1x16.size (k0_off270_inb k))) (View.ld fw (Rect.unit (s := S576) ![416] S16.size inb_S576_S16_416))
        (View.ld fx (Rect.unit (s := S36x8x128) (k0_off276 k) S1x1x16.size (k0_off276_inb k))) (View.ld fw (Rect.unit (s := S576) ![512] S16.size inb_S576_S16_512))⟩,
    ⟨Rect.unit (s := S12x8x128) (k0_off287 k) S1x1x16.size (k0_off287_inb k),
      chunkVal (View.ld fx (Rect.unit (s := S36x8x128) (k0_off245 k) S1x1x16.size (k0_off245_inb k))) (View.ld fw (Rect.unit (s := S576) ![16] S16.size inb_S576_S16_16))
        (View.ld fx (Rect.unit (s := S36x8x128) (k0_off251 k) S1x1x16.size (k0_off251_inb k))) (View.ld fw (Rect.unit (s := S576) ![112] S16.size inb_S576_S16_112))
        (View.ld fx (Rect.unit (s := S36x8x128) (k0_off257 k) S1x1x16.size (k0_off257_inb k))) (View.ld fw (Rect.unit (s := S576) ![208] S16.size inb_S576_S16_208))
        (View.ld fx (Rect.unit (s := S36x8x128) (k0_off263 k) S1x1x16.size (k0_off263_inb k))) (View.ld fw (Rect.unit (s := S576) ![304] S16.size inb_S576_S16_304))
        (View.ld fx (Rect.unit (s := S36x8x128) (k0_off269 k) S1x1x16.size (k0_off269_inb k))) (View.ld fw (Rect.unit (s := S576) ![400] S16.size inb_S576_S16_400))
        (View.ld fx (Rect.unit (s := S36x8x128) (k0_off275 k) S1x1x16.size (k0_off275_inb k))) (View.ld fw (Rect.unit (s := S576) ![496] S16.size inb_S576_S16_496))⟩,
    ⟨Rect.unit (s := S12x8x128) (k0_off286 k) S1x1x16.size (k0_off286_inb k),
      chunkVal (View.ld fx (Rect.unit (s := S36x8x128) (k0_off244 k) S1x1x16.size (k0_off244_inb k))) (View.ld fw (Rect.unit (s := S576) ![0] S16.size inb_S576_S16_0))
        (View.ld fx (Rect.unit (s := S36x8x128) (k0_off250 k) S1x1x16.size (k0_off250_inb k))) (View.ld fw (Rect.unit (s := S576) ![96] S16.size inb_S576_S16_96))
        (View.ld fx (Rect.unit (s := S36x8x128) (k0_off256 k) S1x1x16.size (k0_off256_inb k))) (View.ld fw (Rect.unit (s := S576) ![192] S16.size inb_S576_S16_192))
        (View.ld fx (Rect.unit (s := S36x8x128) (k0_off262 k) S1x1x16.size (k0_off262_inb k))) (View.ld fw (Rect.unit (s := S576) ![288] S16.size inb_S576_S16_288))
        (View.ld fx (Rect.unit (s := S36x8x128) (k0_off268 k) S1x1x16.size (k0_off268_inb k))) (View.ld fw (Rect.unit (s := S576) ![384] S16.size inb_S576_S16_384))
        (View.ld fx (Rect.unit (s := S36x8x128) (k0_off274 k) S1x1x16.size (k0_off274_inb k))) (View.ld fw (Rect.unit (s := S576) ![480] S16.size inb_S576_S16_480))⟩,
    ⟨Rect.unit (s := S12x8x128) (k0_off285 k) S1x1x16.size (k0_off285_inb k),
      chunkVal (View.ld fx (Rect.unit (s := S36x8x128) (k0_off274 k) S1x1x16.size (k0_off274_inb k))) (View.ld fw (Rect.unit (s := S576) ![480] S16.size inb_S576_S16_480))
        (View.ld fx (Rect.unit (s := S36x8x128) (k0_off275 k) S1x1x16.size (k0_off275_inb k))) (View.ld fw (Rect.unit (s := S576) ![496] S16.size inb_S576_S16_496))
        (View.ld fx (Rect.unit (s := S36x8x128) (k0_off276 k) S1x1x16.size (k0_off276_inb k))) (View.ld fw (Rect.unit (s := S576) ![512] S16.size inb_S576_S16_512))
        (View.ld fx (Rect.unit (s := S36x8x128) (k0_off277 k) S1x1x16.size (k0_off277_inb k))) (View.ld fw (Rect.unit (s := S576) ![528] S16.size inb_S576_S16_528))
        (View.ld fx (Rect.unit (s := S36x8x128) (k0_off278 k) S1x1x16.size (k0_off278_inb k))) (View.ld fw (Rect.unit (s := S576) ![544] S16.size inb_S576_S16_544))
        (View.ld fx (Rect.unit (s := S36x8x128) (k0_off279 k) S1x1x16.size (k0_off279_inb k))) (View.ld fw (Rect.unit (s := S576) ![560] S16.size inb_S576_S16_560))⟩,
    ⟨Rect.unit (s := S12x8x128) (k0_off284 k) S1x1x16.size (k0_off284_inb k),
      chunkVal (View.ld fx (Rect.unit (s := S36x8x128) (k0_off268 k) S1x1x16.size (k0_off268_inb k))) (View.ld fw (Rect.unit (s := S576) ![384] S16.size inb_S576_S16_384))
        (View.ld fx (Rect.unit (s := S36x8x128) (k0_off269 k) S1x1x16.size (k0_off269_inb k))) (View.ld fw (Rect.unit (s := S576) ![400] S16.size inb_S576_S16_400))
        (View.ld fx (Rect.unit (s := S36x8x128) (k0_off270 k) S1x1x16.size (k0_off270_inb k))) (View.ld fw (Rect.unit (s := S576) ![416] S16.size inb_S576_S16_416))
        (View.ld fx (Rect.unit (s := S36x8x128) (k0_off271 k) S1x1x16.size (k0_off271_inb k))) (View.ld fw (Rect.unit (s := S576) ![432] S16.size inb_S576_S16_432))
        (View.ld fx (Rect.unit (s := S36x8x128) (k0_off272 k) S1x1x16.size (k0_off272_inb k))) (View.ld fw (Rect.unit (s := S576) ![448] S16.size inb_S576_S16_448))
        (View.ld fx (Rect.unit (s := S36x8x128) (k0_off273 k) S1x1x16.size (k0_off273_inb k))) (View.ld fw (Rect.unit (s := S576) ![464] S16.size inb_S576_S16_464))⟩,
    ⟨Rect.unit (s := S12x8x128) (k0_off283 k) S1x1x16.size (k0_off283_inb k),
      chunkVal (View.ld fx (Rect.unit (s := S36x8x128) (k0_off262 k) S1x1x16.size (k0_off262_inb k))) (View.ld fw (Rect.unit (s := S576) ![288] S16.size inb_S576_S16_288))
        (View.ld fx (Rect.unit (s := S36x8x128) (k0_off263 k) S1x1x16.size (k0_off263_inb k))) (View.ld fw (Rect.unit (s := S576) ![304] S16.size inb_S576_S16_304))
        (View.ld fx (Rect.unit (s := S36x8x128) (k0_off264 k) S1x1x16.size (k0_off264_inb k))) (View.ld fw (Rect.unit (s := S576) ![320] S16.size inb_S576_S16_320))
        (View.ld fx (Rect.unit (s := S36x8x128) (k0_off265 k) S1x1x16.size (k0_off265_inb k))) (View.ld fw (Rect.unit (s := S576) ![336] S16.size inb_S576_S16_336))
        (View.ld fx (Rect.unit (s := S36x8x128) (k0_off266 k) S1x1x16.size (k0_off266_inb k))) (View.ld fw (Rect.unit (s := S576) ![352] S16.size inb_S576_S16_352))
        (View.ld fx (Rect.unit (s := S36x8x128) (k0_off267 k) S1x1x16.size (k0_off267_inb k))) (View.ld fw (Rect.unit (s := S576) ![368] S16.size inb_S576_S16_368))⟩,
    ⟨Rect.unit (s := S12x8x128) (k0_off282 k) S1x1x16.size (k0_off282_inb k),
      chunkVal (View.ld fx (Rect.unit (s := S36x8x128) (k0_off256 k) S1x1x16.size (k0_off256_inb k))) (View.ld fw (Rect.unit (s := S576) ![192] S16.size inb_S576_S16_192))
        (View.ld fx (Rect.unit (s := S36x8x128) (k0_off257 k) S1x1x16.size (k0_off257_inb k))) (View.ld fw (Rect.unit (s := S576) ![208] S16.size inb_S576_S16_208))
        (View.ld fx (Rect.unit (s := S36x8x128) (k0_off258 k) S1x1x16.size (k0_off258_inb k))) (View.ld fw (Rect.unit (s := S576) ![224] S16.size inb_S576_S16_224))
        (View.ld fx (Rect.unit (s := S36x8x128) (k0_off259 k) S1x1x16.size (k0_off259_inb k))) (View.ld fw (Rect.unit (s := S576) ![240] S16.size inb_S576_S16_240))
        (View.ld fx (Rect.unit (s := S36x8x128) (k0_off260 k) S1x1x16.size (k0_off260_inb k))) (View.ld fw (Rect.unit (s := S576) ![256] S16.size inb_S576_S16_256))
        (View.ld fx (Rect.unit (s := S36x8x128) (k0_off261 k) S1x1x16.size (k0_off261_inb k))) (View.ld fw (Rect.unit (s := S576) ![272] S16.size inb_S576_S16_272))⟩,
    ⟨Rect.unit (s := S12x8x128) (k0_off281 k) S1x1x16.size (k0_off281_inb k),
      chunkVal (View.ld fx (Rect.unit (s := S36x8x128) (k0_off250 k) S1x1x16.size (k0_off250_inb k))) (View.ld fw (Rect.unit (s := S576) ![96] S16.size inb_S576_S16_96))
        (View.ld fx (Rect.unit (s := S36x8x128) (k0_off251 k) S1x1x16.size (k0_off251_inb k))) (View.ld fw (Rect.unit (s := S576) ![112] S16.size inb_S576_S16_112))
        (View.ld fx (Rect.unit (s := S36x8x128) (k0_off252 k) S1x1x16.size (k0_off252_inb k))) (View.ld fw (Rect.unit (s := S576) ![128] S16.size inb_S576_S16_128))
        (View.ld fx (Rect.unit (s := S36x8x128) (k0_off253 k) S1x1x16.size (k0_off253_inb k))) (View.ld fw (Rect.unit (s := S576) ![144] S16.size inb_S576_S16_144))
        (View.ld fx (Rect.unit (s := S36x8x128) (k0_off254 k) S1x1x16.size (k0_off254_inb k))) (View.ld fw (Rect.unit (s := S576) ![160] S16.size inb_S576_S16_160))
        (View.ld fx (Rect.unit (s := S36x8x128) (k0_off255 k) S1x1x16.size (k0_off255_inb k))) (View.ld fw (Rect.unit (s := S576) ![176] S16.size inb_S576_S16_176))⟩,
    ⟨Rect.unit (s := S12x8x128) (k0_off280 k) S1x1x16.size (k0_off280_inb k),
      chunkVal (View.ld fx (Rect.unit (s := S36x8x128) (k0_off244 k) S1x1x16.size (k0_off244_inb k))) (View.ld fw (Rect.unit (s := S576) ![0] S16.size inb_S576_S16_0))
        (View.ld fx (Rect.unit (s := S36x8x128) (k0_off245 k) S1x1x16.size (k0_off245_inb k))) (View.ld fw (Rect.unit (s := S576) ![16] S16.size inb_S576_S16_16))
        (View.ld fx (Rect.unit (s := S36x8x128) (k0_off246 k) S1x1x16.size (k0_off246_inb k))) (View.ld fw (Rect.unit (s := S576) ![32] S16.size inb_S576_S16_32))
        (View.ld fx (Rect.unit (s := S36x8x128) (k0_off247 k) S1x1x16.size (k0_off247_inb k))) (View.ld fw (Rect.unit (s := S576) ![48] S16.size inb_S576_S16_48))
        (View.ld fx (Rect.unit (s := S36x8x128) (k0_off248 k) S1x1x16.size (k0_off248_inb k))) (View.ld fw (Rect.unit (s := S576) ![64] S16.size inb_S576_S16_64))
        (View.ld fx (Rect.unit (s := S36x8x128) (k0_off249 k) S1x1x16.size (k0_off249_inb k))) (View.ld fw (Rect.unit (s := S576) ![80] S16.size inb_S576_S16_80))⟩,
    ⟨Rect.unit (s := S12x8x128) (k0_off243 k) S1x1x16.size (k0_off243_inb k),
      chunkVal (View.ld fx (Rect.unit (s := S36x8x128) (k0_off201 k) S1x1x16.size (k0_off201_inb k))) (View.ld fw (Rect.unit (s := S576) ![80] S16.size inb_S576_S16_80))
        (View.ld fx (Rect.unit (s := S36x8x128) (k0_off207 k) S1x1x16.size (k0_off207_inb k))) (View.ld fw (Rect.unit (s := S576) ![176] S16.size inb_S576_S16_176))
        (View.ld fx (Rect.unit (s := S36x8x128) (k0_off213 k) S1x1x16.size (k0_off213_inb k))) (View.ld fw (Rect.unit (s := S576) ![272] S16.size inb_S576_S16_272))
        (View.ld fx (Rect.unit (s := S36x8x128) (k0_off219 k) S1x1x16.size (k0_off219_inb k))) (View.ld fw (Rect.unit (s := S576) ![368] S16.size inb_S576_S16_368))
        (View.ld fx (Rect.unit (s := S36x8x128) (k0_off225 k) S1x1x16.size (k0_off225_inb k))) (View.ld fw (Rect.unit (s := S576) ![464] S16.size inb_S576_S16_464))
        (View.ld fx (Rect.unit (s := S36x8x128) (k0_off231 k) S1x1x16.size (k0_off231_inb k))) (View.ld fw (Rect.unit (s := S576) ![560] S16.size inb_S576_S16_560))⟩,
    ⟨Rect.unit (s := S12x8x128) (k0_off242 k) S1x1x16.size (k0_off242_inb k),
      chunkVal (View.ld fx (Rect.unit (s := S36x8x128) (k0_off200 k) S1x1x16.size (k0_off200_inb k))) (View.ld fw (Rect.unit (s := S576) ![64] S16.size inb_S576_S16_64))
        (View.ld fx (Rect.unit (s := S36x8x128) (k0_off206 k) S1x1x16.size (k0_off206_inb k))) (View.ld fw (Rect.unit (s := S576) ![160] S16.size inb_S576_S16_160))
        (View.ld fx (Rect.unit (s := S36x8x128) (k0_off212 k) S1x1x16.size (k0_off212_inb k))) (View.ld fw (Rect.unit (s := S576) ![256] S16.size inb_S576_S16_256))
        (View.ld fx (Rect.unit (s := S36x8x128) (k0_off218 k) S1x1x16.size (k0_off218_inb k))) (View.ld fw (Rect.unit (s := S576) ![352] S16.size inb_S576_S16_352))
        (View.ld fx (Rect.unit (s := S36x8x128) (k0_off224 k) S1x1x16.size (k0_off224_inb k))) (View.ld fw (Rect.unit (s := S576) ![448] S16.size inb_S576_S16_448))
        (View.ld fx (Rect.unit (s := S36x8x128) (k0_off230 k) S1x1x16.size (k0_off230_inb k))) (View.ld fw (Rect.unit (s := S576) ![544] S16.size inb_S576_S16_544))⟩,
    ⟨Rect.unit (s := S12x8x128) (k0_off241 k) S1x1x16.size (k0_off241_inb k),
      chunkVal (View.ld fx (Rect.unit (s := S36x8x128) (k0_off199 k) S1x1x16.size (k0_off199_inb k))) (View.ld fw (Rect.unit (s := S576) ![48] S16.size inb_S576_S16_48))
        (View.ld fx (Rect.unit (s := S36x8x128) (k0_off205 k) S1x1x16.size (k0_off205_inb k))) (View.ld fw (Rect.unit (s := S576) ![144] S16.size inb_S576_S16_144))
        (View.ld fx (Rect.unit (s := S36x8x128) (k0_off211 k) S1x1x16.size (k0_off211_inb k))) (View.ld fw (Rect.unit (s := S576) ![240] S16.size inb_S576_S16_240))
        (View.ld fx (Rect.unit (s := S36x8x128) (k0_off217 k) S1x1x16.size (k0_off217_inb k))) (View.ld fw (Rect.unit (s := S576) ![336] S16.size inb_S576_S16_336))
        (View.ld fx (Rect.unit (s := S36x8x128) (k0_off223 k) S1x1x16.size (k0_off223_inb k))) (View.ld fw (Rect.unit (s := S576) ![432] S16.size inb_S576_S16_432))
        (View.ld fx (Rect.unit (s := S36x8x128) (k0_off229 k) S1x1x16.size (k0_off229_inb k))) (View.ld fw (Rect.unit (s := S576) ![528] S16.size inb_S576_S16_528))⟩,
    ⟨Rect.unit (s := S12x8x128) (k0_off240 k) S1x1x16.size (k0_off240_inb k),
      chunkVal (View.ld fx (Rect.unit (s := S36x8x128) (k0_off198 k) S1x1x16.size (k0_off198_inb k))) (View.ld fw (Rect.unit (s := S576) ![32] S16.size inb_S576_S16_32))
        (View.ld fx (Rect.unit (s := S36x8x128) (k0_off204 k) S1x1x16.size (k0_off204_inb k))) (View.ld fw (Rect.unit (s := S576) ![128] S16.size inb_S576_S16_128))
        (View.ld fx (Rect.unit (s := S36x8x128) (k0_off210 k) S1x1x16.size (k0_off210_inb k))) (View.ld fw (Rect.unit (s := S576) ![224] S16.size inb_S576_S16_224))
        (View.ld fx (Rect.unit (s := S36x8x128) (k0_off216 k) S1x1x16.size (k0_off216_inb k))) (View.ld fw (Rect.unit (s := S576) ![320] S16.size inb_S576_S16_320))
        (View.ld fx (Rect.unit (s := S36x8x128) (k0_off222 k) S1x1x16.size (k0_off222_inb k))) (View.ld fw (Rect.unit (s := S576) ![416] S16.size inb_S576_S16_416))
        (View.ld fx (Rect.unit (s := S36x8x128) (k0_off228 k) S1x1x16.size (k0_off228_inb k))) (View.ld fw (Rect.unit (s := S576) ![512] S16.size inb_S576_S16_512))⟩,
    ⟨Rect.unit (s := S12x8x128) (k0_off239 k) S1x1x16.size (k0_off239_inb k),
      chunkVal (View.ld fx (Rect.unit (s := S36x8x128) (k0_off197 k) S1x1x16.size (k0_off197_inb k))) (View.ld fw (Rect.unit (s := S576) ![16] S16.size inb_S576_S16_16))
        (View.ld fx (Rect.unit (s := S36x8x128) (k0_off203 k) S1x1x16.size (k0_off203_inb k))) (View.ld fw (Rect.unit (s := S576) ![112] S16.size inb_S576_S16_112))
        (View.ld fx (Rect.unit (s := S36x8x128) (k0_off209 k) S1x1x16.size (k0_off209_inb k))) (View.ld fw (Rect.unit (s := S576) ![208] S16.size inb_S576_S16_208))
        (View.ld fx (Rect.unit (s := S36x8x128) (k0_off215 k) S1x1x16.size (k0_off215_inb k))) (View.ld fw (Rect.unit (s := S576) ![304] S16.size inb_S576_S16_304))
        (View.ld fx (Rect.unit (s := S36x8x128) (k0_off221 k) S1x1x16.size (k0_off221_inb k))) (View.ld fw (Rect.unit (s := S576) ![400] S16.size inb_S576_S16_400))
        (View.ld fx (Rect.unit (s := S36x8x128) (k0_off227 k) S1x1x16.size (k0_off227_inb k))) (View.ld fw (Rect.unit (s := S576) ![496] S16.size inb_S576_S16_496))⟩,
    ⟨Rect.unit (s := S12x8x128) (k0_off238 k) S1x1x16.size (k0_off238_inb k),
      chunkVal (View.ld fx (Rect.unit (s := S36x8x128) (k0_off196 k) S1x1x16.size (k0_off196_inb k))) (View.ld fw (Rect.unit (s := S576) ![0] S16.size inb_S576_S16_0))
        (View.ld fx (Rect.unit (s := S36x8x128) (k0_off202 k) S1x1x16.size (k0_off202_inb k))) (View.ld fw (Rect.unit (s := S576) ![96] S16.size inb_S576_S16_96))
        (View.ld fx (Rect.unit (s := S36x8x128) (k0_off208 k) S1x1x16.size (k0_off208_inb k))) (View.ld fw (Rect.unit (s := S576) ![192] S16.size inb_S576_S16_192))
        (View.ld fx (Rect.unit (s := S36x8x128) (k0_off214 k) S1x1x16.size (k0_off214_inb k))) (View.ld fw (Rect.unit (s := S576) ![288] S16.size inb_S576_S16_288))
        (View.ld fx (Rect.unit (s := S36x8x128) (k0_off220 k) S1x1x16.size (k0_off220_inb k))) (View.ld fw (Rect.unit (s := S576) ![384] S16.size inb_S576_S16_384))
        (View.ld fx (Rect.unit (s := S36x8x128) (k0_off226 k) S1x1x16.size (k0_off226_inb k))) (View.ld fw (Rect.unit (s := S576) ![480] S16.size inb_S576_S16_480))⟩,
    ⟨Rect.unit (s := S12x8x128) (k0_off237 k) S1x1x16.size (k0_off237_inb k),
      chunkVal (View.ld fx (Rect.unit (s := S36x8x128) (k0_off226 k) S1x1x16.size (k0_off226_inb k))) (View.ld fw (Rect.unit (s := S576) ![480] S16.size inb_S576_S16_480))
        (View.ld fx (Rect.unit (s := S36x8x128) (k0_off227 k) S1x1x16.size (k0_off227_inb k))) (View.ld fw (Rect.unit (s := S576) ![496] S16.size inb_S576_S16_496))
        (View.ld fx (Rect.unit (s := S36x8x128) (k0_off228 k) S1x1x16.size (k0_off228_inb k))) (View.ld fw (Rect.unit (s := S576) ![512] S16.size inb_S576_S16_512))
        (View.ld fx (Rect.unit (s := S36x8x128) (k0_off229 k) S1x1x16.size (k0_off229_inb k))) (View.ld fw (Rect.unit (s := S576) ![528] S16.size inb_S576_S16_528))
        (View.ld fx (Rect.unit (s := S36x8x128) (k0_off230 k) S1x1x16.size (k0_off230_inb k))) (View.ld fw (Rect.unit (s := S576) ![544] S16.size inb_S576_S16_544))
        (View.ld fx (Rect.unit (s := S36x8x128) (k0_off231 k) S1x1x16.size (k0_off231_inb k))) (View.ld fw (Rect.unit (s := S576) ![560] S16.size inb_S576_S16_560))⟩,
    ⟨Rect.unit (s := S12x8x128) (k0_off236 k) S1x1x16.size (k0_off236_inb k),
      chunkVal (View.ld fx (Rect.unit (s := S36x8x128) (k0_off220 k) S1x1x16.size (k0_off220_inb k))) (View.ld fw (Rect.unit (s := S576) ![384] S16.size inb_S576_S16_384))
        (View.ld fx (Rect.unit (s := S36x8x128) (k0_off221 k) S1x1x16.size (k0_off221_inb k))) (View.ld fw (Rect.unit (s := S576) ![400] S16.size inb_S576_S16_400))
        (View.ld fx (Rect.unit (s := S36x8x128) (k0_off222 k) S1x1x16.size (k0_off222_inb k))) (View.ld fw (Rect.unit (s := S576) ![416] S16.size inb_S576_S16_416))
        (View.ld fx (Rect.unit (s := S36x8x128) (k0_off223 k) S1x1x16.size (k0_off223_inb k))) (View.ld fw (Rect.unit (s := S576) ![432] S16.size inb_S576_S16_432))
        (View.ld fx (Rect.unit (s := S36x8x128) (k0_off224 k) S1x1x16.size (k0_off224_inb k))) (View.ld fw (Rect.unit (s := S576) ![448] S16.size inb_S576_S16_448))
        (View.ld fx (Rect.unit (s := S36x8x128) (k0_off225 k) S1x1x16.size (k0_off225_inb k))) (View.ld fw (Rect.unit (s := S576) ![464] S16.size inb_S576_S16_464))⟩,
    ⟨Rect.unit (s := S12x8x128) (k0_off235 k) S1x1x16.size (k0_off235_inb k),
      chunkVal (View.ld fx (Rect.unit (s := S36x8x128) (k0_off214 k) S1x1x16.size (k0_off214_inb k))) (View.ld fw (Rect.unit (s := S576) ![288] S16.size inb_S576_S16_288))
        (View.ld fx (Rect.unit (s := S36x8x128) (k0_off215 k) S1x1x16.size (k0_off215_inb k))) (View.ld fw (Rect.unit (s := S576) ![304] S16.size inb_S576_S16_304))
        (View.ld fx (Rect.unit (s := S36x8x128) (k0_off216 k) S1x1x16.size (k0_off216_inb k))) (View.ld fw (Rect.unit (s := S576) ![320] S16.size inb_S576_S16_320))
        (View.ld fx (Rect.unit (s := S36x8x128) (k0_off217 k) S1x1x16.size (k0_off217_inb k))) (View.ld fw (Rect.unit (s := S576) ![336] S16.size inb_S576_S16_336))
        (View.ld fx (Rect.unit (s := S36x8x128) (k0_off218 k) S1x1x16.size (k0_off218_inb k))) (View.ld fw (Rect.unit (s := S576) ![352] S16.size inb_S576_S16_352))
        (View.ld fx (Rect.unit (s := S36x8x128) (k0_off219 k) S1x1x16.size (k0_off219_inb k))) (View.ld fw (Rect.unit (s := S576) ![368] S16.size inb_S576_S16_368))⟩,
    ⟨Rect.unit (s := S12x8x128) (k0_off234 k) S1x1x16.size (k0_off234_inb k),
      chunkVal (View.ld fx (Rect.unit (s := S36x8x128) (k0_off208 k) S1x1x16.size (k0_off208_inb k))) (View.ld fw (Rect.unit (s := S576) ![192] S16.size inb_S576_S16_192))
        (View.ld fx (Rect.unit (s := S36x8x128) (k0_off209 k) S1x1x16.size (k0_off209_inb k))) (View.ld fw (Rect.unit (s := S576) ![208] S16.size inb_S576_S16_208))
        (View.ld fx (Rect.unit (s := S36x8x128) (k0_off210 k) S1x1x16.size (k0_off210_inb k))) (View.ld fw (Rect.unit (s := S576) ![224] S16.size inb_S576_S16_224))
        (View.ld fx (Rect.unit (s := S36x8x128) (k0_off211 k) S1x1x16.size (k0_off211_inb k))) (View.ld fw (Rect.unit (s := S576) ![240] S16.size inb_S576_S16_240))
        (View.ld fx (Rect.unit (s := S36x8x128) (k0_off212 k) S1x1x16.size (k0_off212_inb k))) (View.ld fw (Rect.unit (s := S576) ![256] S16.size inb_S576_S16_256))
        (View.ld fx (Rect.unit (s := S36x8x128) (k0_off213 k) S1x1x16.size (k0_off213_inb k))) (View.ld fw (Rect.unit (s := S576) ![272] S16.size inb_S576_S16_272))⟩,
    ⟨Rect.unit (s := S12x8x128) (k0_off233 k) S1x1x16.size (k0_off233_inb k),
      chunkVal (View.ld fx (Rect.unit (s := S36x8x128) (k0_off202 k) S1x1x16.size (k0_off202_inb k))) (View.ld fw (Rect.unit (s := S576) ![96] S16.size inb_S576_S16_96))
        (View.ld fx (Rect.unit (s := S36x8x128) (k0_off203 k) S1x1x16.size (k0_off203_inb k))) (View.ld fw (Rect.unit (s := S576) ![112] S16.size inb_S576_S16_112))
        (View.ld fx (Rect.unit (s := S36x8x128) (k0_off204 k) S1x1x16.size (k0_off204_inb k))) (View.ld fw (Rect.unit (s := S576) ![128] S16.size inb_S576_S16_128))
        (View.ld fx (Rect.unit (s := S36x8x128) (k0_off205 k) S1x1x16.size (k0_off205_inb k))) (View.ld fw (Rect.unit (s := S576) ![144] S16.size inb_S576_S16_144))
        (View.ld fx (Rect.unit (s := S36x8x128) (k0_off206 k) S1x1x16.size (k0_off206_inb k))) (View.ld fw (Rect.unit (s := S576) ![160] S16.size inb_S576_S16_160))
        (View.ld fx (Rect.unit (s := S36x8x128) (k0_off207 k) S1x1x16.size (k0_off207_inb k))) (View.ld fw (Rect.unit (s := S576) ![176] S16.size inb_S576_S16_176))⟩,
    ⟨Rect.unit (s := S12x8x128) (k0_off232 k) S1x1x16.size (k0_off232_inb k),
      chunkVal (View.ld fx (Rect.unit (s := S36x8x128) (k0_off196 k) S1x1x16.size (k0_off196_inb k))) (View.ld fw (Rect.unit (s := S576) ![0] S16.size inb_S576_S16_0))
        (View.ld fx (Rect.unit (s := S36x8x128) (k0_off197 k) S1x1x16.size (k0_off197_inb k))) (View.ld fw (Rect.unit (s := S576) ![16] S16.size inb_S576_S16_16))
        (View.ld fx (Rect.unit (s := S36x8x128) (k0_off198 k) S1x1x16.size (k0_off198_inb k))) (View.ld fw (Rect.unit (s := S576) ![32] S16.size inb_S576_S16_32))
        (View.ld fx (Rect.unit (s := S36x8x128) (k0_off199 k) S1x1x16.size (k0_off199_inb k))) (View.ld fw (Rect.unit (s := S576) ![48] S16.size inb_S576_S16_48))
        (View.ld fx (Rect.unit (s := S36x8x128) (k0_off200 k) S1x1x16.size (k0_off200_inb k))) (View.ld fw (Rect.unit (s := S576) ![64] S16.size inb_S576_S16_64))
        (View.ld fx (Rect.unit (s := S36x8x128) (k0_off201 k) S1x1x16.size (k0_off201_inb k))) (View.ld fw (Rect.unit (s := S576) ![80] S16.size inb_S576_S16_80))⟩,
    ⟨Rect.unit (s := S12x8x128) (k0_off195 k) S1x1x16.size (k0_off195_inb k),
      chunkVal (View.ld fx (Rect.unit (s := S36x8x128) (k0_off153 k) S1x1x16.size (k0_off153_inb k))) (View.ld fw (Rect.unit (s := S576) ![80] S16.size inb_S576_S16_80))
        (View.ld fx (Rect.unit (s := S36x8x128) (k0_off159 k) S1x1x16.size (k0_off159_inb k))) (View.ld fw (Rect.unit (s := S576) ![176] S16.size inb_S576_S16_176))
        (View.ld fx (Rect.unit (s := S36x8x128) (k0_off165 k) S1x1x16.size (k0_off165_inb k))) (View.ld fw (Rect.unit (s := S576) ![272] S16.size inb_S576_S16_272))
        (View.ld fx (Rect.unit (s := S36x8x128) (k0_off171 k) S1x1x16.size (k0_off171_inb k))) (View.ld fw (Rect.unit (s := S576) ![368] S16.size inb_S576_S16_368))
        (View.ld fx (Rect.unit (s := S36x8x128) (k0_off177 k) S1x1x16.size (k0_off177_inb k))) (View.ld fw (Rect.unit (s := S576) ![464] S16.size inb_S576_S16_464))
        (View.ld fx (Rect.unit (s := S36x8x128) (k0_off183 k) S1x1x16.size (k0_off183_inb k))) (View.ld fw (Rect.unit (s := S576) ![560] S16.size inb_S576_S16_560))⟩,
    ⟨Rect.unit (s := S12x8x128) (k0_off194 k) S1x1x16.size (k0_off194_inb k),
      chunkVal (View.ld fx (Rect.unit (s := S36x8x128) (k0_off152 k) S1x1x16.size (k0_off152_inb k))) (View.ld fw (Rect.unit (s := S576) ![64] S16.size inb_S576_S16_64))
        (View.ld fx (Rect.unit (s := S36x8x128) (k0_off158 k) S1x1x16.size (k0_off158_inb k))) (View.ld fw (Rect.unit (s := S576) ![160] S16.size inb_S576_S16_160))
        (View.ld fx (Rect.unit (s := S36x8x128) (k0_off164 k) S1x1x16.size (k0_off164_inb k))) (View.ld fw (Rect.unit (s := S576) ![256] S16.size inb_S576_S16_256))
        (View.ld fx (Rect.unit (s := S36x8x128) (k0_off170 k) S1x1x16.size (k0_off170_inb k))) (View.ld fw (Rect.unit (s := S576) ![352] S16.size inb_S576_S16_352))
        (View.ld fx (Rect.unit (s := S36x8x128) (k0_off176 k) S1x1x16.size (k0_off176_inb k))) (View.ld fw (Rect.unit (s := S576) ![448] S16.size inb_S576_S16_448))
        (View.ld fx (Rect.unit (s := S36x8x128) (k0_off182 k) S1x1x16.size (k0_off182_inb k))) (View.ld fw (Rect.unit (s := S576) ![544] S16.size inb_S576_S16_544))⟩,
    ⟨Rect.unit (s := S12x8x128) (k0_off193 k) S1x1x16.size (k0_off193_inb k),
      chunkVal (View.ld fx (Rect.unit (s := S36x8x128) (k0_off151 k) S1x1x16.size (k0_off151_inb k))) (View.ld fw (Rect.unit (s := S576) ![48] S16.size inb_S576_S16_48))
        (View.ld fx (Rect.unit (s := S36x8x128) (k0_off157 k) S1x1x16.size (k0_off157_inb k))) (View.ld fw (Rect.unit (s := S576) ![144] S16.size inb_S576_S16_144))
        (View.ld fx (Rect.unit (s := S36x8x128) (k0_off163 k) S1x1x16.size (k0_off163_inb k))) (View.ld fw (Rect.unit (s := S576) ![240] S16.size inb_S576_S16_240))
        (View.ld fx (Rect.unit (s := S36x8x128) (k0_off169 k) S1x1x16.size (k0_off169_inb k))) (View.ld fw (Rect.unit (s := S576) ![336] S16.size inb_S576_S16_336))
        (View.ld fx (Rect.unit (s := S36x8x128) (k0_off175 k) S1x1x16.size (k0_off175_inb k))) (View.ld fw (Rect.unit (s := S576) ![432] S16.size inb_S576_S16_432))
        (View.ld fx (Rect.unit (s := S36x8x128) (k0_off181 k) S1x1x16.size (k0_off181_inb k))) (View.ld fw (Rect.unit (s := S576) ![528] S16.size inb_S576_S16_528))⟩,
    ⟨Rect.unit (s := S12x8x128) (k0_off192 k) S1x1x16.size (k0_off192_inb k),
      chunkVal (View.ld fx (Rect.unit (s := S36x8x128) (k0_off150 k) S1x1x16.size (k0_off150_inb k))) (View.ld fw (Rect.unit (s := S576) ![32] S16.size inb_S576_S16_32))
        (View.ld fx (Rect.unit (s := S36x8x128) (k0_off156 k) S1x1x16.size (k0_off156_inb k))) (View.ld fw (Rect.unit (s := S576) ![128] S16.size inb_S576_S16_128))
        (View.ld fx (Rect.unit (s := S36x8x128) (k0_off162 k) S1x1x16.size (k0_off162_inb k))) (View.ld fw (Rect.unit (s := S576) ![224] S16.size inb_S576_S16_224))
        (View.ld fx (Rect.unit (s := S36x8x128) (k0_off168 k) S1x1x16.size (k0_off168_inb k))) (View.ld fw (Rect.unit (s := S576) ![320] S16.size inb_S576_S16_320))
        (View.ld fx (Rect.unit (s := S36x8x128) (k0_off174 k) S1x1x16.size (k0_off174_inb k))) (View.ld fw (Rect.unit (s := S576) ![416] S16.size inb_S576_S16_416))
        (View.ld fx (Rect.unit (s := S36x8x128) (k0_off180 k) S1x1x16.size (k0_off180_inb k))) (View.ld fw (Rect.unit (s := S576) ![512] S16.size inb_S576_S16_512))⟩,
    ⟨Rect.unit (s := S12x8x128) (k0_off191 k) S1x1x16.size (k0_off191_inb k),
      chunkVal (View.ld fx (Rect.unit (s := S36x8x128) (k0_off149 k) S1x1x16.size (k0_off149_inb k))) (View.ld fw (Rect.unit (s := S576) ![16] S16.size inb_S576_S16_16))
        (View.ld fx (Rect.unit (s := S36x8x128) (k0_off155 k) S1x1x16.size (k0_off155_inb k))) (View.ld fw (Rect.unit (s := S576) ![112] S16.size inb_S576_S16_112))
        (View.ld fx (Rect.unit (s := S36x8x128) (k0_off161 k) S1x1x16.size (k0_off161_inb k))) (View.ld fw (Rect.unit (s := S576) ![208] S16.size inb_S576_S16_208))
        (View.ld fx (Rect.unit (s := S36x8x128) (k0_off167 k) S1x1x16.size (k0_off167_inb k))) (View.ld fw (Rect.unit (s := S576) ![304] S16.size inb_S576_S16_304))
        (View.ld fx (Rect.unit (s := S36x8x128) (k0_off173 k) S1x1x16.size (k0_off173_inb k))) (View.ld fw (Rect.unit (s := S576) ![400] S16.size inb_S576_S16_400))
        (View.ld fx (Rect.unit (s := S36x8x128) (k0_off179 k) S1x1x16.size (k0_off179_inb k))) (View.ld fw (Rect.unit (s := S576) ![496] S16.size inb_S576_S16_496))⟩,
    ⟨Rect.unit (s := S12x8x128) (k0_off190 k) S1x1x16.size (k0_off190_inb k),
      chunkVal (View.ld fx (Rect.unit (s := S36x8x128) (k0_off148 k) S1x1x16.size (k0_off148_inb k))) (View.ld fw (Rect.unit (s := S576) ![0] S16.size inb_S576_S16_0))
        (View.ld fx (Rect.unit (s := S36x8x128) (k0_off154 k) S1x1x16.size (k0_off154_inb k))) (View.ld fw (Rect.unit (s := S576) ![96] S16.size inb_S576_S16_96))
        (View.ld fx (Rect.unit (s := S36x8x128) (k0_off160 k) S1x1x16.size (k0_off160_inb k))) (View.ld fw (Rect.unit (s := S576) ![192] S16.size inb_S576_S16_192))
        (View.ld fx (Rect.unit (s := S36x8x128) (k0_off166 k) S1x1x16.size (k0_off166_inb k))) (View.ld fw (Rect.unit (s := S576) ![288] S16.size inb_S576_S16_288))
        (View.ld fx (Rect.unit (s := S36x8x128) (k0_off172 k) S1x1x16.size (k0_off172_inb k))) (View.ld fw (Rect.unit (s := S576) ![384] S16.size inb_S576_S16_384))
        (View.ld fx (Rect.unit (s := S36x8x128) (k0_off178 k) S1x1x16.size (k0_off178_inb k))) (View.ld fw (Rect.unit (s := S576) ![480] S16.size inb_S576_S16_480))⟩,
    ⟨Rect.unit (s := S12x8x128) (k0_off189 k) S1x1x16.size (k0_off189_inb k),
      chunkVal (View.ld fx (Rect.unit (s := S36x8x128) (k0_off178 k) S1x1x16.size (k0_off178_inb k))) (View.ld fw (Rect.unit (s := S576) ![480] S16.size inb_S576_S16_480))
        (View.ld fx (Rect.unit (s := S36x8x128) (k0_off179 k) S1x1x16.size (k0_off179_inb k))) (View.ld fw (Rect.unit (s := S576) ![496] S16.size inb_S576_S16_496))
        (View.ld fx (Rect.unit (s := S36x8x128) (k0_off180 k) S1x1x16.size (k0_off180_inb k))) (View.ld fw (Rect.unit (s := S576) ![512] S16.size inb_S576_S16_512))
        (View.ld fx (Rect.unit (s := S36x8x128) (k0_off181 k) S1x1x16.size (k0_off181_inb k))) (View.ld fw (Rect.unit (s := S576) ![528] S16.size inb_S576_S16_528))
        (View.ld fx (Rect.unit (s := S36x8x128) (k0_off182 k) S1x1x16.size (k0_off182_inb k))) (View.ld fw (Rect.unit (s := S576) ![544] S16.size inb_S576_S16_544))
        (View.ld fx (Rect.unit (s := S36x8x128) (k0_off183 k) S1x1x16.size (k0_off183_inb k))) (View.ld fw (Rect.unit (s := S576) ![560] S16.size inb_S576_S16_560))⟩,
    ⟨Rect.unit (s := S12x8x128) (k0_off188 k) S1x1x16.size (k0_off188_inb k),
      chunkVal (View.ld fx (Rect.unit (s := S36x8x128) (k0_off172 k) S1x1x16.size (k0_off172_inb k))) (View.ld fw (Rect.unit (s := S576) ![384] S16.size inb_S576_S16_384))
        (View.ld fx (Rect.unit (s := S36x8x128) (k0_off173 k) S1x1x16.size (k0_off173_inb k))) (View.ld fw (Rect.unit (s := S576) ![400] S16.size inb_S576_S16_400))
        (View.ld fx (Rect.unit (s := S36x8x128) (k0_off174 k) S1x1x16.size (k0_off174_inb k))) (View.ld fw (Rect.unit (s := S576) ![416] S16.size inb_S576_S16_416))
        (View.ld fx (Rect.unit (s := S36x8x128) (k0_off175 k) S1x1x16.size (k0_off175_inb k))) (View.ld fw (Rect.unit (s := S576) ![432] S16.size inb_S576_S16_432))
        (View.ld fx (Rect.unit (s := S36x8x128) (k0_off176 k) S1x1x16.size (k0_off176_inb k))) (View.ld fw (Rect.unit (s := S576) ![448] S16.size inb_S576_S16_448))
        (View.ld fx (Rect.unit (s := S36x8x128) (k0_off177 k) S1x1x16.size (k0_off177_inb k))) (View.ld fw (Rect.unit (s := S576) ![464] S16.size inb_S576_S16_464))⟩,
    ⟨Rect.unit (s := S12x8x128) (k0_off187 k) S1x1x16.size (k0_off187_inb k),
      chunkVal (View.ld fx (Rect.unit (s := S36x8x128) (k0_off166 k) S1x1x16.size (k0_off166_inb k))) (View.ld fw (Rect.unit (s := S576) ![288] S16.size inb_S576_S16_288))
        (View.ld fx (Rect.unit (s := S36x8x128) (k0_off167 k) S1x1x16.size (k0_off167_inb k))) (View.ld fw (Rect.unit (s := S576) ![304] S16.size inb_S576_S16_304))
        (View.ld fx (Rect.unit (s := S36x8x128) (k0_off168 k) S1x1x16.size (k0_off168_inb k))) (View.ld fw (Rect.unit (s := S576) ![320] S16.size inb_S576_S16_320))
        (View.ld fx (Rect.unit (s := S36x8x128) (k0_off169 k) S1x1x16.size (k0_off169_inb k))) (View.ld fw (Rect.unit (s := S576) ![336] S16.size inb_S576_S16_336))
        (View.ld fx (Rect.unit (s := S36x8x128) (k0_off170 k) S1x1x16.size (k0_off170_inb k))) (View.ld fw (Rect.unit (s := S576) ![352] S16.size inb_S576_S16_352))
        (View.ld fx (Rect.unit (s := S36x8x128) (k0_off171 k) S1x1x16.size (k0_off171_inb k))) (View.ld fw (Rect.unit (s := S576) ![368] S16.size inb_S576_S16_368))⟩,
    ⟨Rect.unit (s := S12x8x128) (k0_off186 k) S1x1x16.size (k0_off186_inb k),
      chunkVal (View.ld fx (Rect.unit (s := S36x8x128) (k0_off160 k) S1x1x16.size (k0_off160_inb k))) (View.ld fw (Rect.unit (s := S576) ![192] S16.size inb_S576_S16_192))
        (View.ld fx (Rect.unit (s := S36x8x128) (k0_off161 k) S1x1x16.size (k0_off161_inb k))) (View.ld fw (Rect.unit (s := S576) ![208] S16.size inb_S576_S16_208))
        (View.ld fx (Rect.unit (s := S36x8x128) (k0_off162 k) S1x1x16.size (k0_off162_inb k))) (View.ld fw (Rect.unit (s := S576) ![224] S16.size inb_S576_S16_224))
        (View.ld fx (Rect.unit (s := S36x8x128) (k0_off163 k) S1x1x16.size (k0_off163_inb k))) (View.ld fw (Rect.unit (s := S576) ![240] S16.size inb_S576_S16_240))
        (View.ld fx (Rect.unit (s := S36x8x128) (k0_off164 k) S1x1x16.size (k0_off164_inb k))) (View.ld fw (Rect.unit (s := S576) ![256] S16.size inb_S576_S16_256))
        (View.ld fx (Rect.unit (s := S36x8x128) (k0_off165 k) S1x1x16.size (k0_off165_inb k))) (View.ld fw (Rect.unit (s := S576) ![272] S16.size inb_S576_S16_272))⟩,
    ⟨Rect.unit (s := S12x8x128) (k0_off185 k) S1x1x16.size (k0_off185_inb k),
      chunkVal (View.ld fx (Rect.unit (s := S36x8x128) (k0_off154 k) S1x1x16.size (k0_off154_inb k))) (View.ld fw (Rect.unit (s := S576) ![96] S16.size inb_S576_S16_96))
        (View.ld fx (Rect.unit (s := S36x8x128) (k0_off155 k) S1x1x16.size (k0_off155_inb k))) (View.ld fw (Rect.unit (s := S576) ![112] S16.size inb_S576_S16_112))
        (View.ld fx (Rect.unit (s := S36x8x128) (k0_off156 k) S1x1x16.size (k0_off156_inb k))) (View.ld fw (Rect.unit (s := S576) ![128] S16.size inb_S576_S16_128))
        (View.ld fx (Rect.unit (s := S36x8x128) (k0_off157 k) S1x1x16.size (k0_off157_inb k))) (View.ld fw (Rect.unit (s := S576) ![144] S16.size inb_S576_S16_144))
        (View.ld fx (Rect.unit (s := S36x8x128) (k0_off158 k) S1x1x16.size (k0_off158_inb k))) (View.ld fw (Rect.unit (s := S576) ![160] S16.size inb_S576_S16_160))
        (View.ld fx (Rect.unit (s := S36x8x128) (k0_off159 k) S1x1x16.size (k0_off159_inb k))) (View.ld fw (Rect.unit (s := S576) ![176] S16.size inb_S576_S16_176))⟩,
    ⟨Rect.unit (s := S12x8x128) (k0_off184 k) S1x1x16.size (k0_off184_inb k),
      chunkVal (View.ld fx (Rect.unit (s := S36x8x128) (k0_off148 k) S1x1x16.size (k0_off148_inb k))) (View.ld fw (Rect.unit (s := S576) ![0] S16.size inb_S576_S16_0))
        (View.ld fx (Rect.unit (s := S36x8x128) (k0_off149 k) S1x1x16.size (k0_off149_inb k))) (View.ld fw (Rect.unit (s := S576) ![16] S16.size inb_S576_S16_16))
        (View.ld fx (Rect.unit (s := S36x8x128) (k0_off150 k) S1x1x16.size (k0_off150_inb k))) (View.ld fw (Rect.unit (s := S576) ![32] S16.size inb_S576_S16_32))
        (View.ld fx (Rect.unit (s := S36x8x128) (k0_off151 k) S1x1x16.size (k0_off151_inb k))) (View.ld fw (Rect.unit (s := S576) ![48] S16.size inb_S576_S16_48))
        (View.ld fx (Rect.unit (s := S36x8x128) (k0_off152 k) S1x1x16.size (k0_off152_inb k))) (View.ld fw (Rect.unit (s := S576) ![64] S16.size inb_S576_S16_64))
        (View.ld fx (Rect.unit (s := S36x8x128) (k0_off153 k) S1x1x16.size (k0_off153_inb k))) (View.ld fw (Rect.unit (s := S576) ![80] S16.size inb_S576_S16_80))⟩,
    ⟨Rect.unit (s := S12x8x128) (k0_off147 k) S1x1x16.size (k0_off147_inb k),
      chunkVal (View.ld fx (Rect.unit (s := S36x8x128) (k0_off105 k) S1x1x16.size (k0_off105_inb k))) (View.ld fw (Rect.unit (s := S576) ![80] S16.size inb_S576_S16_80))
        (View.ld fx (Rect.unit (s := S36x8x128) (k0_off111 k) S1x1x16.size (k0_off111_inb k))) (View.ld fw (Rect.unit (s := S576) ![176] S16.size inb_S576_S16_176))
        (View.ld fx (Rect.unit (s := S36x8x128) (k0_off117 k) S1x1x16.size (k0_off117_inb k))) (View.ld fw (Rect.unit (s := S576) ![272] S16.size inb_S576_S16_272))
        (View.ld fx (Rect.unit (s := S36x8x128) (k0_off123 k) S1x1x16.size (k0_off123_inb k))) (View.ld fw (Rect.unit (s := S576) ![368] S16.size inb_S576_S16_368))
        (View.ld fx (Rect.unit (s := S36x8x128) (k0_off129 k) S1x1x16.size (k0_off129_inb k))) (View.ld fw (Rect.unit (s := S576) ![464] S16.size inb_S576_S16_464))
        (View.ld fx (Rect.unit (s := S36x8x128) (k0_off135 k) S1x1x16.size (k0_off135_inb k))) (View.ld fw (Rect.unit (s := S576) ![560] S16.size inb_S576_S16_560))⟩,
    ⟨Rect.unit (s := S12x8x128) (k0_off146 k) S1x1x16.size (k0_off146_inb k),
      chunkVal (View.ld fx (Rect.unit (s := S36x8x128) (k0_off104 k) S1x1x16.size (k0_off104_inb k))) (View.ld fw (Rect.unit (s := S576) ![64] S16.size inb_S576_S16_64))
        (View.ld fx (Rect.unit (s := S36x8x128) (k0_off110 k) S1x1x16.size (k0_off110_inb k))) (View.ld fw (Rect.unit (s := S576) ![160] S16.size inb_S576_S16_160))
        (View.ld fx (Rect.unit (s := S36x8x128) (k0_off116 k) S1x1x16.size (k0_off116_inb k))) (View.ld fw (Rect.unit (s := S576) ![256] S16.size inb_S576_S16_256))
        (View.ld fx (Rect.unit (s := S36x8x128) (k0_off122 k) S1x1x16.size (k0_off122_inb k))) (View.ld fw (Rect.unit (s := S576) ![352] S16.size inb_S576_S16_352))
        (View.ld fx (Rect.unit (s := S36x8x128) (k0_off128 k) S1x1x16.size (k0_off128_inb k))) (View.ld fw (Rect.unit (s := S576) ![448] S16.size inb_S576_S16_448))
        (View.ld fx (Rect.unit (s := S36x8x128) (k0_off134 k) S1x1x16.size (k0_off134_inb k))) (View.ld fw (Rect.unit (s := S576) ![544] S16.size inb_S576_S16_544))⟩,
    ⟨Rect.unit (s := S12x8x128) (k0_off145 k) S1x1x16.size (k0_off145_inb k),
      chunkVal (View.ld fx (Rect.unit (s := S36x8x128) (k0_off103 k) S1x1x16.size (k0_off103_inb k))) (View.ld fw (Rect.unit (s := S576) ![48] S16.size inb_S576_S16_48))
        (View.ld fx (Rect.unit (s := S36x8x128) (k0_off109 k) S1x1x16.size (k0_off109_inb k))) (View.ld fw (Rect.unit (s := S576) ![144] S16.size inb_S576_S16_144))
        (View.ld fx (Rect.unit (s := S36x8x128) (k0_off115 k) S1x1x16.size (k0_off115_inb k))) (View.ld fw (Rect.unit (s := S576) ![240] S16.size inb_S576_S16_240))
        (View.ld fx (Rect.unit (s := S36x8x128) (k0_off121 k) S1x1x16.size (k0_off121_inb k))) (View.ld fw (Rect.unit (s := S576) ![336] S16.size inb_S576_S16_336))
        (View.ld fx (Rect.unit (s := S36x8x128) (k0_off127 k) S1x1x16.size (k0_off127_inb k))) (View.ld fw (Rect.unit (s := S576) ![432] S16.size inb_S576_S16_432))
        (View.ld fx (Rect.unit (s := S36x8x128) (k0_off133 k) S1x1x16.size (k0_off133_inb k))) (View.ld fw (Rect.unit (s := S576) ![528] S16.size inb_S576_S16_528))⟩,
    ⟨Rect.unit (s := S12x8x128) (k0_off144 k) S1x1x16.size (k0_off144_inb k),
      chunkVal (View.ld fx (Rect.unit (s := S36x8x128) (k0_off102 k) S1x1x16.size (k0_off102_inb k))) (View.ld fw (Rect.unit (s := S576) ![32] S16.size inb_S576_S16_32))
        (View.ld fx (Rect.unit (s := S36x8x128) (k0_off108 k) S1x1x16.size (k0_off108_inb k))) (View.ld fw (Rect.unit (s := S576) ![128] S16.size inb_S576_S16_128))
        (View.ld fx (Rect.unit (s := S36x8x128) (k0_off114 k) S1x1x16.size (k0_off114_inb k))) (View.ld fw (Rect.unit (s := S576) ![224] S16.size inb_S576_S16_224))
        (View.ld fx (Rect.unit (s := S36x8x128) (k0_off120 k) S1x1x16.size (k0_off120_inb k))) (View.ld fw (Rect.unit (s := S576) ![320] S16.size inb_S576_S16_320))
        (View.ld fx (Rect.unit (s := S36x8x128) (k0_off126 k) S1x1x16.size (k0_off126_inb k))) (View.ld fw (Rect.unit (s := S576) ![416] S16.size inb_S576_S16_416))
        (View.ld fx (Rect.unit (s := S36x8x128) (k0_off132 k) S1x1x16.size (k0_off132_inb k))) (View.ld fw (Rect.unit (s := S576) ![512] S16.size inb_S576_S16_512))⟩,
    ⟨Rect.unit (s := S12x8x128) (k0_off143 k) S1x1x16.size (k0_off143_inb k),
      chunkVal (View.ld fx (Rect.unit (s := S36x8x128) (k0_off101 k) S1x1x16.size (k0_off101_inb k))) (View.ld fw (Rect.unit (s := S576) ![16] S16.size inb_S576_S16_16))
        (View.ld fx (Rect.unit (s := S36x8x128) (k0_off107 k) S1x1x16.size (k0_off107_inb k))) (View.ld fw (Rect.unit (s := S576) ![112] S16.size inb_S576_S16_112))
        (View.ld fx (Rect.unit (s := S36x8x128) (k0_off113 k) S1x1x16.size (k0_off113_inb k))) (View.ld fw (Rect.unit (s := S576) ![208] S16.size inb_S576_S16_208))
        (View.ld fx (Rect.unit (s := S36x8x128) (k0_off119 k) S1x1x16.size (k0_off119_inb k))) (View.ld fw (Rect.unit (s := S576) ![304] S16.size inb_S576_S16_304))
        (View.ld fx (Rect.unit (s := S36x8x128) (k0_off125 k) S1x1x16.size (k0_off125_inb k))) (View.ld fw (Rect.unit (s := S576) ![400] S16.size inb_S576_S16_400))
        (View.ld fx (Rect.unit (s := S36x8x128) (k0_off131 k) S1x1x16.size (k0_off131_inb k))) (View.ld fw (Rect.unit (s := S576) ![496] S16.size inb_S576_S16_496))⟩,
    ⟨Rect.unit (s := S12x8x128) (k0_off142 k) S1x1x16.size (k0_off142_inb k),
      chunkVal (View.ld fx (Rect.unit (s := S36x8x128) (k0_off100 k) S1x1x16.size (k0_off100_inb k))) (View.ld fw (Rect.unit (s := S576) ![0] S16.size inb_S576_S16_0))
        (View.ld fx (Rect.unit (s := S36x8x128) (k0_off106 k) S1x1x16.size (k0_off106_inb k))) (View.ld fw (Rect.unit (s := S576) ![96] S16.size inb_S576_S16_96))
        (View.ld fx (Rect.unit (s := S36x8x128) (k0_off112 k) S1x1x16.size (k0_off112_inb k))) (View.ld fw (Rect.unit (s := S576) ![192] S16.size inb_S576_S16_192))
        (View.ld fx (Rect.unit (s := S36x8x128) (k0_off118 k) S1x1x16.size (k0_off118_inb k))) (View.ld fw (Rect.unit (s := S576) ![288] S16.size inb_S576_S16_288))
        (View.ld fx (Rect.unit (s := S36x8x128) (k0_off124 k) S1x1x16.size (k0_off124_inb k))) (View.ld fw (Rect.unit (s := S576) ![384] S16.size inb_S576_S16_384))
        (View.ld fx (Rect.unit (s := S36x8x128) (k0_off130 k) S1x1x16.size (k0_off130_inb k))) (View.ld fw (Rect.unit (s := S576) ![480] S16.size inb_S576_S16_480))⟩,
    ⟨Rect.unit (s := S12x8x128) (k0_off141 k) S1x1x16.size (k0_off141_inb k),
      chunkVal (View.ld fx (Rect.unit (s := S36x8x128) (k0_off130 k) S1x1x16.size (k0_off130_inb k))) (View.ld fw (Rect.unit (s := S576) ![480] S16.size inb_S576_S16_480))
        (View.ld fx (Rect.unit (s := S36x8x128) (k0_off131 k) S1x1x16.size (k0_off131_inb k))) (View.ld fw (Rect.unit (s := S576) ![496] S16.size inb_S576_S16_496))
        (View.ld fx (Rect.unit (s := S36x8x128) (k0_off132 k) S1x1x16.size (k0_off132_inb k))) (View.ld fw (Rect.unit (s := S576) ![512] S16.size inb_S576_S16_512))
        (View.ld fx (Rect.unit (s := S36x8x128) (k0_off133 k) S1x1x16.size (k0_off133_inb k))) (View.ld fw (Rect.unit (s := S576) ![528] S16.size inb_S576_S16_528))
        (View.ld fx (Rect.unit (s := S36x8x128) (k0_off134 k) S1x1x16.size (k0_off134_inb k))) (View.ld fw (Rect.unit (s := S576) ![544] S16.size inb_S576_S16_544))
        (View.ld fx (Rect.unit (s := S36x8x128) (k0_off135 k) S1x1x16.size (k0_off135_inb k))) (View.ld fw (Rect.unit (s := S576) ![560] S16.size inb_S576_S16_560))⟩,
    ⟨Rect.unit (s := S12x8x128) (k0_off140 k) S1x1x16.size (k0_off140_inb k),
      chunkVal (View.ld fx (Rect.unit (s := S36x8x128) (k0_off124 k) S1x1x16.size (k0_off124_inb k))) (View.ld fw (Rect.unit (s := S576) ![384] S16.size inb_S576_S16_384))
        (View.ld fx (Rect.unit (s := S36x8x128) (k0_off125 k) S1x1x16.size (k0_off125_inb k))) (View.ld fw (Rect.unit (s := S576) ![400] S16.size inb_S576_S16_400))
        (View.ld fx (Rect.unit (s := S36x8x128) (k0_off126 k) S1x1x16.size (k0_off126_inb k))) (View.ld fw (Rect.unit (s := S576) ![416] S16.size inb_S576_S16_416))
        (View.ld fx (Rect.unit (s := S36x8x128) (k0_off127 k) S1x1x16.size (k0_off127_inb k))) (View.ld fw (Rect.unit (s := S576) ![432] S16.size inb_S576_S16_432))
        (View.ld fx (Rect.unit (s := S36x8x128) (k0_off128 k) S1x1x16.size (k0_off128_inb k))) (View.ld fw (Rect.unit (s := S576) ![448] S16.size inb_S576_S16_448))
        (View.ld fx (Rect.unit (s := S36x8x128) (k0_off129 k) S1x1x16.size (k0_off129_inb k))) (View.ld fw (Rect.unit (s := S576) ![464] S16.size inb_S576_S16_464))⟩,
    ⟨Rect.unit (s := S12x8x128) (k0_off139 k) S1x1x16.size (k0_off139_inb k),
      chunkVal (View.ld fx (Rect.unit (s := S36x8x128) (k0_off118 k) S1x1x16.size (k0_off118_inb k))) (View.ld fw (Rect.unit (s := S576) ![288] S16.size inb_S576_S16_288))
        (View.ld fx (Rect.unit (s := S36x8x128) (k0_off119 k) S1x1x16.size (k0_off119_inb k))) (View.ld fw (Rect.unit (s := S576) ![304] S16.size inb_S576_S16_304))
        (View.ld fx (Rect.unit (s := S36x8x128) (k0_off120 k) S1x1x16.size (k0_off120_inb k))) (View.ld fw (Rect.unit (s := S576) ![320] S16.size inb_S576_S16_320))
        (View.ld fx (Rect.unit (s := S36x8x128) (k0_off121 k) S1x1x16.size (k0_off121_inb k))) (View.ld fw (Rect.unit (s := S576) ![336] S16.size inb_S576_S16_336))
        (View.ld fx (Rect.unit (s := S36x8x128) (k0_off122 k) S1x1x16.size (k0_off122_inb k))) (View.ld fw (Rect.unit (s := S576) ![352] S16.size inb_S576_S16_352))
        (View.ld fx (Rect.unit (s := S36x8x128) (k0_off123 k) S1x1x16.size (k0_off123_inb k))) (View.ld fw (Rect.unit (s := S576) ![368] S16.size inb_S576_S16_368))⟩,
    ⟨Rect.unit (s := S12x8x128) (k0_off138 k) S1x1x16.size (k0_off138_inb k),
      chunkVal (View.ld fx (Rect.unit (s := S36x8x128) (k0_off112 k) S1x1x16.size (k0_off112_inb k))) (View.ld fw (Rect.unit (s := S576) ![192] S16.size inb_S576_S16_192))
        (View.ld fx (Rect.unit (s := S36x8x128) (k0_off113 k) S1x1x16.size (k0_off113_inb k))) (View.ld fw (Rect.unit (s := S576) ![208] S16.size inb_S576_S16_208))
        (View.ld fx (Rect.unit (s := S36x8x128) (k0_off114 k) S1x1x16.size (k0_off114_inb k))) (View.ld fw (Rect.unit (s := S576) ![224] S16.size inb_S576_S16_224))
        (View.ld fx (Rect.unit (s := S36x8x128) (k0_off115 k) S1x1x16.size (k0_off115_inb k))) (View.ld fw (Rect.unit (s := S576) ![240] S16.size inb_S576_S16_240))
        (View.ld fx (Rect.unit (s := S36x8x128) (k0_off116 k) S1x1x16.size (k0_off116_inb k))) (View.ld fw (Rect.unit (s := S576) ![256] S16.size inb_S576_S16_256))
        (View.ld fx (Rect.unit (s := S36x8x128) (k0_off117 k) S1x1x16.size (k0_off117_inb k))) (View.ld fw (Rect.unit (s := S576) ![272] S16.size inb_S576_S16_272))⟩,
    ⟨Rect.unit (s := S12x8x128) (k0_off137 k) S1x1x16.size (k0_off137_inb k),
      chunkVal (View.ld fx (Rect.unit (s := S36x8x128) (k0_off106 k) S1x1x16.size (k0_off106_inb k))) (View.ld fw (Rect.unit (s := S576) ![96] S16.size inb_S576_S16_96))
        (View.ld fx (Rect.unit (s := S36x8x128) (k0_off107 k) S1x1x16.size (k0_off107_inb k))) (View.ld fw (Rect.unit (s := S576) ![112] S16.size inb_S576_S16_112))
        (View.ld fx (Rect.unit (s := S36x8x128) (k0_off108 k) S1x1x16.size (k0_off108_inb k))) (View.ld fw (Rect.unit (s := S576) ![128] S16.size inb_S576_S16_128))
        (View.ld fx (Rect.unit (s := S36x8x128) (k0_off109 k) S1x1x16.size (k0_off109_inb k))) (View.ld fw (Rect.unit (s := S576) ![144] S16.size inb_S576_S16_144))
        (View.ld fx (Rect.unit (s := S36x8x128) (k0_off110 k) S1x1x16.size (k0_off110_inb k))) (View.ld fw (Rect.unit (s := S576) ![160] S16.size inb_S576_S16_160))
        (View.ld fx (Rect.unit (s := S36x8x128) (k0_off111 k) S1x1x16.size (k0_off111_inb k))) (View.ld fw (Rect.unit (s := S576) ![176] S16.size inb_S576_S16_176))⟩,
    ⟨Rect.unit (s := S12x8x128) (k0_off136 k) S1x1x16.size (k0_off136_inb k),
      chunkVal (View.ld fx (Rect.unit (s := S36x8x128) (k0_off100 k) S1x1x16.size (k0_off100_inb k))) (View.ld fw (Rect.unit (s := S576) ![0] S16.size inb_S576_S16_0))
        (View.ld fx (Rect.unit (s := S36x8x128) (k0_off101 k) S1x1x16.size (k0_off101_inb k))) (View.ld fw (Rect.unit (s := S576) ![16] S16.size inb_S576_S16_16))
        (View.ld fx (Rect.unit (s := S36x8x128) (k0_off102 k) S1x1x16.size (k0_off102_inb k))) (View.ld fw (Rect.unit (s := S576) ![32] S16.size inb_S576_S16_32))
        (View.ld fx (Rect.unit (s := S36x8x128) (k0_off103 k) S1x1x16.size (k0_off103_inb k))) (View.ld fw (Rect.unit (s := S576) ![48] S16.size inb_S576_S16_48))
        (View.ld fx (Rect.unit (s := S36x8x128) (k0_off104 k) S1x1x16.size (k0_off104_inb k))) (View.ld fw (Rect.unit (s := S576) ![64] S16.size inb_S576_S16_64))
        (View.ld fx (Rect.unit (s := S36x8x128) (k0_off105 k) S1x1x16.size (k0_off105_inb k))) (View.ld fw (Rect.unit (s := S576) ![80] S16.size inb_S576_S16_80))⟩,
    ⟨Rect.unit (s := S12x8x128) (k0_off99 k) S1x1x16.size (k0_off99_inb k),
      chunkVal (View.ld fx (Rect.unit (s := S36x8x128) (k0_off57 k) S1x1x16.size (k0_off57_inb k))) (View.ld fw (Rect.unit (s := S576) ![80] S16.size inb_S576_S16_80))
        (View.ld fx (Rect.unit (s := S36x8x128) (k0_off63 k) S1x1x16.size (k0_off63_inb k))) (View.ld fw (Rect.unit (s := S576) ![176] S16.size inb_S576_S16_176))
        (View.ld fx (Rect.unit (s := S36x8x128) (k0_off69 k) S1x1x16.size (k0_off69_inb k))) (View.ld fw (Rect.unit (s := S576) ![272] S16.size inb_S576_S16_272))
        (View.ld fx (Rect.unit (s := S36x8x128) (k0_off75 k) S1x1x16.size (k0_off75_inb k))) (View.ld fw (Rect.unit (s := S576) ![368] S16.size inb_S576_S16_368))
        (View.ld fx (Rect.unit (s := S36x8x128) (k0_off81 k) S1x1x16.size (k0_off81_inb k))) (View.ld fw (Rect.unit (s := S576) ![464] S16.size inb_S576_S16_464))
        (View.ld fx (Rect.unit (s := S36x8x128) (k0_off87 k) S1x1x16.size (k0_off87_inb k))) (View.ld fw (Rect.unit (s := S576) ![560] S16.size inb_S576_S16_560))⟩,
    ⟨Rect.unit (s := S12x8x128) (k0_off98 k) S1x1x16.size (k0_off98_inb k),
      chunkVal (View.ld fx (Rect.unit (s := S36x8x128) (k0_off56 k) S1x1x16.size (k0_off56_inb k))) (View.ld fw (Rect.unit (s := S576) ![64] S16.size inb_S576_S16_64))
        (View.ld fx (Rect.unit (s := S36x8x128) (k0_off62 k) S1x1x16.size (k0_off62_inb k))) (View.ld fw (Rect.unit (s := S576) ![160] S16.size inb_S576_S16_160))
        (View.ld fx (Rect.unit (s := S36x8x128) (k0_off68 k) S1x1x16.size (k0_off68_inb k))) (View.ld fw (Rect.unit (s := S576) ![256] S16.size inb_S576_S16_256))
        (View.ld fx (Rect.unit (s := S36x8x128) (k0_off74 k) S1x1x16.size (k0_off74_inb k))) (View.ld fw (Rect.unit (s := S576) ![352] S16.size inb_S576_S16_352))
        (View.ld fx (Rect.unit (s := S36x8x128) (k0_off80 k) S1x1x16.size (k0_off80_inb k))) (View.ld fw (Rect.unit (s := S576) ![448] S16.size inb_S576_S16_448))
        (View.ld fx (Rect.unit (s := S36x8x128) (k0_off86 k) S1x1x16.size (k0_off86_inb k))) (View.ld fw (Rect.unit (s := S576) ![544] S16.size inb_S576_S16_544))⟩,
    ⟨Rect.unit (s := S12x8x128) (k0_off97 k) S1x1x16.size (k0_off97_inb k),
      chunkVal (View.ld fx (Rect.unit (s := S36x8x128) (k0_off55 k) S1x1x16.size (k0_off55_inb k))) (View.ld fw (Rect.unit (s := S576) ![48] S16.size inb_S576_S16_48))
        (View.ld fx (Rect.unit (s := S36x8x128) (k0_off61 k) S1x1x16.size (k0_off61_inb k))) (View.ld fw (Rect.unit (s := S576) ![144] S16.size inb_S576_S16_144))
        (View.ld fx (Rect.unit (s := S36x8x128) (k0_off67 k) S1x1x16.size (k0_off67_inb k))) (View.ld fw (Rect.unit (s := S576) ![240] S16.size inb_S576_S16_240))
        (View.ld fx (Rect.unit (s := S36x8x128) (k0_off73 k) S1x1x16.size (k0_off73_inb k))) (View.ld fw (Rect.unit (s := S576) ![336] S16.size inb_S576_S16_336))
        (View.ld fx (Rect.unit (s := S36x8x128) (k0_off79 k) S1x1x16.size (k0_off79_inb k))) (View.ld fw (Rect.unit (s := S576) ![432] S16.size inb_S576_S16_432))
        (View.ld fx (Rect.unit (s := S36x8x128) (k0_off85 k) S1x1x16.size (k0_off85_inb k))) (View.ld fw (Rect.unit (s := S576) ![528] S16.size inb_S576_S16_528))⟩,
    ⟨Rect.unit (s := S12x8x128) (k0_off96 k) S1x1x16.size (k0_off96_inb k),
      chunkVal (View.ld fx (Rect.unit (s := S36x8x128) (k0_off54 k) S1x1x16.size (k0_off54_inb k))) (View.ld fw (Rect.unit (s := S576) ![32] S16.size inb_S576_S16_32))
        (View.ld fx (Rect.unit (s := S36x8x128) (k0_off60 k) S1x1x16.size (k0_off60_inb k))) (View.ld fw (Rect.unit (s := S576) ![128] S16.size inb_S576_S16_128))
        (View.ld fx (Rect.unit (s := S36x8x128) (k0_off66 k) S1x1x16.size (k0_off66_inb k))) (View.ld fw (Rect.unit (s := S576) ![224] S16.size inb_S576_S16_224))
        (View.ld fx (Rect.unit (s := S36x8x128) (k0_off72 k) S1x1x16.size (k0_off72_inb k))) (View.ld fw (Rect.unit (s := S576) ![320] S16.size inb_S576_S16_320))
        (View.ld fx (Rect.unit (s := S36x8x128) (k0_off78 k) S1x1x16.size (k0_off78_inb k))) (View.ld fw (Rect.unit (s := S576) ![416] S16.size inb_S576_S16_416))
        (View.ld fx (Rect.unit (s := S36x8x128) (k0_off84 k) S1x1x16.size (k0_off84_inb k))) (View.ld fw (Rect.unit (s := S576) ![512] S16.size inb_S576_S16_512))⟩,
    ⟨Rect.unit (s := S12x8x128) (k0_off95 k) S1x1x16.size (k0_off95_inb k),
      chunkVal (View.ld fx (Rect.unit (s := S36x8x128) (k0_off53 k) S1x1x16.size (k0_off53_inb k))) (View.ld fw (Rect.unit (s := S576) ![16] S16.size inb_S576_S16_16))
        (View.ld fx (Rect.unit (s := S36x8x128) (k0_off59 k) S1x1x16.size (k0_off59_inb k))) (View.ld fw (Rect.unit (s := S576) ![112] S16.size inb_S576_S16_112))
        (View.ld fx (Rect.unit (s := S36x8x128) (k0_off65 k) S1x1x16.size (k0_off65_inb k))) (View.ld fw (Rect.unit (s := S576) ![208] S16.size inb_S576_S16_208))
        (View.ld fx (Rect.unit (s := S36x8x128) (k0_off71 k) S1x1x16.size (k0_off71_inb k))) (View.ld fw (Rect.unit (s := S576) ![304] S16.size inb_S576_S16_304))
        (View.ld fx (Rect.unit (s := S36x8x128) (k0_off77 k) S1x1x16.size (k0_off77_inb k))) (View.ld fw (Rect.unit (s := S576) ![400] S16.size inb_S576_S16_400))
        (View.ld fx (Rect.unit (s := S36x8x128) (k0_off83 k) S1x1x16.size (k0_off83_inb k))) (View.ld fw (Rect.unit (s := S576) ![496] S16.size inb_S576_S16_496))⟩,
    ⟨Rect.unit (s := S12x8x128) (k0_off94 k) S1x1x16.size (k0_off94_inb k),
      chunkVal (View.ld fx (Rect.unit (s := S36x8x128) (k0_off52 k) S1x1x16.size (k0_off52_inb k))) (View.ld fw (Rect.unit (s := S576) ![0] S16.size inb_S576_S16_0))
        (View.ld fx (Rect.unit (s := S36x8x128) (k0_off58 k) S1x1x16.size (k0_off58_inb k))) (View.ld fw (Rect.unit (s := S576) ![96] S16.size inb_S576_S16_96))
        (View.ld fx (Rect.unit (s := S36x8x128) (k0_off64 k) S1x1x16.size (k0_off64_inb k))) (View.ld fw (Rect.unit (s := S576) ![192] S16.size inb_S576_S16_192))
        (View.ld fx (Rect.unit (s := S36x8x128) (k0_off70 k) S1x1x16.size (k0_off70_inb k))) (View.ld fw (Rect.unit (s := S576) ![288] S16.size inb_S576_S16_288))
        (View.ld fx (Rect.unit (s := S36x8x128) (k0_off76 k) S1x1x16.size (k0_off76_inb k))) (View.ld fw (Rect.unit (s := S576) ![384] S16.size inb_S576_S16_384))
        (View.ld fx (Rect.unit (s := S36x8x128) (k0_off82 k) S1x1x16.size (k0_off82_inb k))) (View.ld fw (Rect.unit (s := S576) ![480] S16.size inb_S576_S16_480))⟩,
    ⟨Rect.unit (s := S12x8x128) (k0_off93 k) S1x1x16.size (k0_off93_inb k),
      chunkVal (View.ld fx (Rect.unit (s := S36x8x128) (k0_off82 k) S1x1x16.size (k0_off82_inb k))) (View.ld fw (Rect.unit (s := S576) ![480] S16.size inb_S576_S16_480))
        (View.ld fx (Rect.unit (s := S36x8x128) (k0_off83 k) S1x1x16.size (k0_off83_inb k))) (View.ld fw (Rect.unit (s := S576) ![496] S16.size inb_S576_S16_496))
        (View.ld fx (Rect.unit (s := S36x8x128) (k0_off84 k) S1x1x16.size (k0_off84_inb k))) (View.ld fw (Rect.unit (s := S576) ![512] S16.size inb_S576_S16_512))
        (View.ld fx (Rect.unit (s := S36x8x128) (k0_off85 k) S1x1x16.size (k0_off85_inb k))) (View.ld fw (Rect.unit (s := S576) ![528] S16.size inb_S576_S16_528))
        (View.ld fx (Rect.unit (s := S36x8x128) (k0_off86 k) S1x1x16.size (k0_off86_inb k))) (View.ld fw (Rect.unit (s := S576) ![544] S16.size inb_S576_S16_544))
        (View.ld fx (Rect.unit (s := S36x8x128) (k0_off87 k) S1x1x16.size (k0_off87_inb k))) (View.ld fw (Rect.unit (s := S576) ![560] S16.size inb_S576_S16_560))⟩,
    ⟨Rect.unit (s := S12x8x128) (k0_off92 k) S1x1x16.size (k0_off92_inb k),
      chunkVal (View.ld fx (Rect.unit (s := S36x8x128) (k0_off76 k) S1x1x16.size (k0_off76_inb k))) (View.ld fw (Rect.unit (s := S576) ![384] S16.size inb_S576_S16_384))
        (View.ld fx (Rect.unit (s := S36x8x128) (k0_off77 k) S1x1x16.size (k0_off77_inb k))) (View.ld fw (Rect.unit (s := S576) ![400] S16.size inb_S576_S16_400))
        (View.ld fx (Rect.unit (s := S36x8x128) (k0_off78 k) S1x1x16.size (k0_off78_inb k))) (View.ld fw (Rect.unit (s := S576) ![416] S16.size inb_S576_S16_416))
        (View.ld fx (Rect.unit (s := S36x8x128) (k0_off79 k) S1x1x16.size (k0_off79_inb k))) (View.ld fw (Rect.unit (s := S576) ![432] S16.size inb_S576_S16_432))
        (View.ld fx (Rect.unit (s := S36x8x128) (k0_off80 k) S1x1x16.size (k0_off80_inb k))) (View.ld fw (Rect.unit (s := S576) ![448] S16.size inb_S576_S16_448))
        (View.ld fx (Rect.unit (s := S36x8x128) (k0_off81 k) S1x1x16.size (k0_off81_inb k))) (View.ld fw (Rect.unit (s := S576) ![464] S16.size inb_S576_S16_464))⟩,
    ⟨Rect.unit (s := S12x8x128) (k0_off91 k) S1x1x16.size (k0_off91_inb k),
      chunkVal (View.ld fx (Rect.unit (s := S36x8x128) (k0_off70 k) S1x1x16.size (k0_off70_inb k))) (View.ld fw (Rect.unit (s := S576) ![288] S16.size inb_S576_S16_288))
        (View.ld fx (Rect.unit (s := S36x8x128) (k0_off71 k) S1x1x16.size (k0_off71_inb k))) (View.ld fw (Rect.unit (s := S576) ![304] S16.size inb_S576_S16_304))
        (View.ld fx (Rect.unit (s := S36x8x128) (k0_off72 k) S1x1x16.size (k0_off72_inb k))) (View.ld fw (Rect.unit (s := S576) ![320] S16.size inb_S576_S16_320))
        (View.ld fx (Rect.unit (s := S36x8x128) (k0_off73 k) S1x1x16.size (k0_off73_inb k))) (View.ld fw (Rect.unit (s := S576) ![336] S16.size inb_S576_S16_336))
        (View.ld fx (Rect.unit (s := S36x8x128) (k0_off74 k) S1x1x16.size (k0_off74_inb k))) (View.ld fw (Rect.unit (s := S576) ![352] S16.size inb_S576_S16_352))
        (View.ld fx (Rect.unit (s := S36x8x128) (k0_off75 k) S1x1x16.size (k0_off75_inb k))) (View.ld fw (Rect.unit (s := S576) ![368] S16.size inb_S576_S16_368))⟩,
    ⟨Rect.unit (s := S12x8x128) (k0_off90 k) S1x1x16.size (k0_off90_inb k),
      chunkVal (View.ld fx (Rect.unit (s := S36x8x128) (k0_off64 k) S1x1x16.size (k0_off64_inb k))) (View.ld fw (Rect.unit (s := S576) ![192] S16.size inb_S576_S16_192))
        (View.ld fx (Rect.unit (s := S36x8x128) (k0_off65 k) S1x1x16.size (k0_off65_inb k))) (View.ld fw (Rect.unit (s := S576) ![208] S16.size inb_S576_S16_208))
        (View.ld fx (Rect.unit (s := S36x8x128) (k0_off66 k) S1x1x16.size (k0_off66_inb k))) (View.ld fw (Rect.unit (s := S576) ![224] S16.size inb_S576_S16_224))
        (View.ld fx (Rect.unit (s := S36x8x128) (k0_off67 k) S1x1x16.size (k0_off67_inb k))) (View.ld fw (Rect.unit (s := S576) ![240] S16.size inb_S576_S16_240))
        (View.ld fx (Rect.unit (s := S36x8x128) (k0_off68 k) S1x1x16.size (k0_off68_inb k))) (View.ld fw (Rect.unit (s := S576) ![256] S16.size inb_S576_S16_256))
        (View.ld fx (Rect.unit (s := S36x8x128) (k0_off69 k) S1x1x16.size (k0_off69_inb k))) (View.ld fw (Rect.unit (s := S576) ![272] S16.size inb_S576_S16_272))⟩,
    ⟨Rect.unit (s := S12x8x128) (k0_off89 k) S1x1x16.size (k0_off89_inb k),
      chunkVal (View.ld fx (Rect.unit (s := S36x8x128) (k0_off58 k) S1x1x16.size (k0_off58_inb k))) (View.ld fw (Rect.unit (s := S576) ![96] S16.size inb_S576_S16_96))
        (View.ld fx (Rect.unit (s := S36x8x128) (k0_off59 k) S1x1x16.size (k0_off59_inb k))) (View.ld fw (Rect.unit (s := S576) ![112] S16.size inb_S576_S16_112))
        (View.ld fx (Rect.unit (s := S36x8x128) (k0_off60 k) S1x1x16.size (k0_off60_inb k))) (View.ld fw (Rect.unit (s := S576) ![128] S16.size inb_S576_S16_128))
        (View.ld fx (Rect.unit (s := S36x8x128) (k0_off61 k) S1x1x16.size (k0_off61_inb k))) (View.ld fw (Rect.unit (s := S576) ![144] S16.size inb_S576_S16_144))
        (View.ld fx (Rect.unit (s := S36x8x128) (k0_off62 k) S1x1x16.size (k0_off62_inb k))) (View.ld fw (Rect.unit (s := S576) ![160] S16.size inb_S576_S16_160))
        (View.ld fx (Rect.unit (s := S36x8x128) (k0_off63 k) S1x1x16.size (k0_off63_inb k))) (View.ld fw (Rect.unit (s := S576) ![176] S16.size inb_S576_S16_176))⟩,
    ⟨Rect.unit (s := S12x8x128) (k0_off88 k) S1x1x16.size (k0_off88_inb k),
      chunkVal (View.ld fx (Rect.unit (s := S36x8x128) (k0_off52 k) S1x1x16.size (k0_off52_inb k))) (View.ld fw (Rect.unit (s := S576) ![0] S16.size inb_S576_S16_0))
        (View.ld fx (Rect.unit (s := S36x8x128) (k0_off53 k) S1x1x16.size (k0_off53_inb k))) (View.ld fw (Rect.unit (s := S576) ![16] S16.size inb_S576_S16_16))
        (View.ld fx (Rect.unit (s := S36x8x128) (k0_off54 k) S1x1x16.size (k0_off54_inb k))) (View.ld fw (Rect.unit (s := S576) ![32] S16.size inb_S576_S16_32))
        (View.ld fx (Rect.unit (s := S36x8x128) (k0_off55 k) S1x1x16.size (k0_off55_inb k))) (View.ld fw (Rect.unit (s := S576) ![48] S16.size inb_S576_S16_48))
        (View.ld fx (Rect.unit (s := S36x8x128) (k0_off56 k) S1x1x16.size (k0_off56_inb k))) (View.ld fw (Rect.unit (s := S576) ![64] S16.size inb_S576_S16_64))
        (View.ld fx (Rect.unit (s := S36x8x128) (k0_off57 k) S1x1x16.size (k0_off57_inb k))) (View.ld fw (Rect.unit (s := S576) ![80] S16.size inb_S576_S16_80))⟩,
    ⟨Rect.unit (s := S12x8x128) (k0_off51 k) S1x1x16.size (k0_off51_inb k),
      chunkVal (View.ld fx (Rect.unit (s := S36x8x128) (k0_off9 k) S1x1x16.size (k0_off9_inb k))) (View.ld fw (Rect.unit (s := S576) ![80] S16.size inb_S576_S16_80))
        (View.ld fx (Rect.unit (s := S36x8x128) (k0_off15 k) S1x1x16.size (k0_off15_inb k))) (View.ld fw (Rect.unit (s := S576) ![176] S16.size inb_S576_S16_176))
        (View.ld fx (Rect.unit (s := S36x8x128) (k0_off21 k) S1x1x16.size (k0_off21_inb k))) (View.ld fw (Rect.unit (s := S576) ![272] S16.size inb_S576_S16_272))
        (View.ld fx (Rect.unit (s := S36x8x128) (k0_off27 k) S1x1x16.size (k0_off27_inb k))) (View.ld fw (Rect.unit (s := S576) ![368] S16.size inb_S576_S16_368))
        (View.ld fx (Rect.unit (s := S36x8x128) (k0_off33 k) S1x1x16.size (k0_off33_inb k))) (View.ld fw (Rect.unit (s := S576) ![464] S16.size inb_S576_S16_464))
        (View.ld fx (Rect.unit (s := S36x8x128) (k0_off39 k) S1x1x16.size (k0_off39_inb k))) (View.ld fw (Rect.unit (s := S576) ![560] S16.size inb_S576_S16_560))⟩,
    ⟨Rect.unit (s := S12x8x128) (k0_off50 k) S1x1x16.size (k0_off50_inb k),
      chunkVal (View.ld fx (Rect.unit (s := S36x8x128) (k0_off8 k) S1x1x16.size (k0_off8_inb k))) (View.ld fw (Rect.unit (s := S576) ![64] S16.size inb_S576_S16_64))
        (View.ld fx (Rect.unit (s := S36x8x128) (k0_off14 k) S1x1x16.size (k0_off14_inb k))) (View.ld fw (Rect.unit (s := S576) ![160] S16.size inb_S576_S16_160))
        (View.ld fx (Rect.unit (s := S36x8x128) (k0_off20 k) S1x1x16.size (k0_off20_inb k))) (View.ld fw (Rect.unit (s := S576) ![256] S16.size inb_S576_S16_256))
        (View.ld fx (Rect.unit (s := S36x8x128) (k0_off26 k) S1x1x16.size (k0_off26_inb k))) (View.ld fw (Rect.unit (s := S576) ![352] S16.size inb_S576_S16_352))
        (View.ld fx (Rect.unit (s := S36x8x128) (k0_off32 k) S1x1x16.size (k0_off32_inb k))) (View.ld fw (Rect.unit (s := S576) ![448] S16.size inb_S576_S16_448))
        (View.ld fx (Rect.unit (s := S36x8x128) (k0_off38 k) S1x1x16.size (k0_off38_inb k))) (View.ld fw (Rect.unit (s := S576) ![544] S16.size inb_S576_S16_544))⟩,
    ⟨Rect.unit (s := S12x8x128) (k0_off49 k) S1x1x16.size (k0_off49_inb k),
      chunkVal (View.ld fx (Rect.unit (s := S36x8x128) (k0_off7 k) S1x1x16.size (k0_off7_inb k))) (View.ld fw (Rect.unit (s := S576) ![48] S16.size inb_S576_S16_48))
        (View.ld fx (Rect.unit (s := S36x8x128) (k0_off13 k) S1x1x16.size (k0_off13_inb k))) (View.ld fw (Rect.unit (s := S576) ![144] S16.size inb_S576_S16_144))
        (View.ld fx (Rect.unit (s := S36x8x128) (k0_off19 k) S1x1x16.size (k0_off19_inb k))) (View.ld fw (Rect.unit (s := S576) ![240] S16.size inb_S576_S16_240))
        (View.ld fx (Rect.unit (s := S36x8x128) (k0_off25 k) S1x1x16.size (k0_off25_inb k))) (View.ld fw (Rect.unit (s := S576) ![336] S16.size inb_S576_S16_336))
        (View.ld fx (Rect.unit (s := S36x8x128) (k0_off31 k) S1x1x16.size (k0_off31_inb k))) (View.ld fw (Rect.unit (s := S576) ![432] S16.size inb_S576_S16_432))
        (View.ld fx (Rect.unit (s := S36x8x128) (k0_off37 k) S1x1x16.size (k0_off37_inb k))) (View.ld fw (Rect.unit (s := S576) ![528] S16.size inb_S576_S16_528))⟩,
    ⟨Rect.unit (s := S12x8x128) (k0_off48 k) S1x1x16.size (k0_off48_inb k),
      chunkVal (View.ld fx (Rect.unit (s := S36x8x128) (k0_off6 k) S1x1x16.size (k0_off6_inb k))) (View.ld fw (Rect.unit (s := S576) ![32] S16.size inb_S576_S16_32))
        (View.ld fx (Rect.unit (s := S36x8x128) (k0_off12 k) S1x1x16.size (k0_off12_inb k))) (View.ld fw (Rect.unit (s := S576) ![128] S16.size inb_S576_S16_128))
        (View.ld fx (Rect.unit (s := S36x8x128) (k0_off18 k) S1x1x16.size (k0_off18_inb k))) (View.ld fw (Rect.unit (s := S576) ![224] S16.size inb_S576_S16_224))
        (View.ld fx (Rect.unit (s := S36x8x128) (k0_off24 k) S1x1x16.size (k0_off24_inb k))) (View.ld fw (Rect.unit (s := S576) ![320] S16.size inb_S576_S16_320))
        (View.ld fx (Rect.unit (s := S36x8x128) (k0_off30 k) S1x1x16.size (k0_off30_inb k))) (View.ld fw (Rect.unit (s := S576) ![416] S16.size inb_S576_S16_416))
        (View.ld fx (Rect.unit (s := S36x8x128) (k0_off36 k) S1x1x16.size (k0_off36_inb k))) (View.ld fw (Rect.unit (s := S576) ![512] S16.size inb_S576_S16_512))⟩,
    ⟨Rect.unit (s := S12x8x128) (k0_off47 k) S1x1x16.size (k0_off47_inb k),
      chunkVal (View.ld fx (Rect.unit (s := S36x8x128) (k0_off5 k) S1x1x16.size (k0_off5_inb k))) (View.ld fw (Rect.unit (s := S576) ![16] S16.size inb_S576_S16_16))
        (View.ld fx (Rect.unit (s := S36x8x128) (k0_off11 k) S1x1x16.size (k0_off11_inb k))) (View.ld fw (Rect.unit (s := S576) ![112] S16.size inb_S576_S16_112))
        (View.ld fx (Rect.unit (s := S36x8x128) (k0_off17 k) S1x1x16.size (k0_off17_inb k))) (View.ld fw (Rect.unit (s := S576) ![208] S16.size inb_S576_S16_208))
        (View.ld fx (Rect.unit (s := S36x8x128) (k0_off23 k) S1x1x16.size (k0_off23_inb k))) (View.ld fw (Rect.unit (s := S576) ![304] S16.size inb_S576_S16_304))
        (View.ld fx (Rect.unit (s := S36x8x128) (k0_off29 k) S1x1x16.size (k0_off29_inb k))) (View.ld fw (Rect.unit (s := S576) ![400] S16.size inb_S576_S16_400))
        (View.ld fx (Rect.unit (s := S36x8x128) (k0_off35 k) S1x1x16.size (k0_off35_inb k))) (View.ld fw (Rect.unit (s := S576) ![496] S16.size inb_S576_S16_496))⟩,
    ⟨Rect.unit (s := S12x8x128) (k0_off46 k) S1x1x16.size (k0_off46_inb k),
      chunkVal (View.ld fx (Rect.unit (s := S36x8x128) (k0_off4 k) S1x1x16.size (k0_off4_inb k))) (View.ld fw (Rect.unit (s := S576) ![0] S16.size inb_S576_S16_0))
        (View.ld fx (Rect.unit (s := S36x8x128) (k0_off10 k) S1x1x16.size (k0_off10_inb k))) (View.ld fw (Rect.unit (s := S576) ![96] S16.size inb_S576_S16_96))
        (View.ld fx (Rect.unit (s := S36x8x128) (k0_off16 k) S1x1x16.size (k0_off16_inb k))) (View.ld fw (Rect.unit (s := S576) ![192] S16.size inb_S576_S16_192))
        (View.ld fx (Rect.unit (s := S36x8x128) (k0_off22 k) S1x1x16.size (k0_off22_inb k))) (View.ld fw (Rect.unit (s := S576) ![288] S16.size inb_S576_S16_288))
        (View.ld fx (Rect.unit (s := S36x8x128) (k0_off28 k) S1x1x16.size (k0_off28_inb k))) (View.ld fw (Rect.unit (s := S576) ![384] S16.size inb_S576_S16_384))
        (View.ld fx (Rect.unit (s := S36x8x128) (k0_off34 k) S1x1x16.size (k0_off34_inb k))) (View.ld fw (Rect.unit (s := S576) ![480] S16.size inb_S576_S16_480))⟩,
    ⟨Rect.unit (s := S12x8x128) (k0_off45 k) S1x1x16.size (k0_off45_inb k),
      chunkVal (View.ld fx (Rect.unit (s := S36x8x128) (k0_off34 k) S1x1x16.size (k0_off34_inb k))) (View.ld fw (Rect.unit (s := S576) ![480] S16.size inb_S576_S16_480))
        (View.ld fx (Rect.unit (s := S36x8x128) (k0_off35 k) S1x1x16.size (k0_off35_inb k))) (View.ld fw (Rect.unit (s := S576) ![496] S16.size inb_S576_S16_496))
        (View.ld fx (Rect.unit (s := S36x8x128) (k0_off36 k) S1x1x16.size (k0_off36_inb k))) (View.ld fw (Rect.unit (s := S576) ![512] S16.size inb_S576_S16_512))
        (View.ld fx (Rect.unit (s := S36x8x128) (k0_off37 k) S1x1x16.size (k0_off37_inb k))) (View.ld fw (Rect.unit (s := S576) ![528] S16.size inb_S576_S16_528))
        (View.ld fx (Rect.unit (s := S36x8x128) (k0_off38 k) S1x1x16.size (k0_off38_inb k))) (View.ld fw (Rect.unit (s := S576) ![544] S16.size inb_S576_S16_544))
        (View.ld fx (Rect.unit (s := S36x8x128) (k0_off39 k) S1x1x16.size (k0_off39_inb k))) (View.ld fw (Rect.unit (s := S576) ![560] S16.size inb_S576_S16_560))⟩,
    ⟨Rect.unit (s := S12x8x128) (k0_off44 k) S1x1x16.size (k0_off44_inb k),
      chunkVal (View.ld fx (Rect.unit (s := S36x8x128) (k0_off28 k) S1x1x16.size (k0_off28_inb k))) (View.ld fw (Rect.unit (s := S576) ![384] S16.size inb_S576_S16_384))
        (View.ld fx (Rect.unit (s := S36x8x128) (k0_off29 k) S1x1x16.size (k0_off29_inb k))) (View.ld fw (Rect.unit (s := S576) ![400] S16.size inb_S576_S16_400))
        (View.ld fx (Rect.unit (s := S36x8x128) (k0_off30 k) S1x1x16.size (k0_off30_inb k))) (View.ld fw (Rect.unit (s := S576) ![416] S16.size inb_S576_S16_416))
        (View.ld fx (Rect.unit (s := S36x8x128) (k0_off31 k) S1x1x16.size (k0_off31_inb k))) (View.ld fw (Rect.unit (s := S576) ![432] S16.size inb_S576_S16_432))
        (View.ld fx (Rect.unit (s := S36x8x128) (k0_off32 k) S1x1x16.size (k0_off32_inb k))) (View.ld fw (Rect.unit (s := S576) ![448] S16.size inb_S576_S16_448))
        (View.ld fx (Rect.unit (s := S36x8x128) (k0_off33 k) S1x1x16.size (k0_off33_inb k))) (View.ld fw (Rect.unit (s := S576) ![464] S16.size inb_S576_S16_464))⟩,
    ⟨Rect.unit (s := S12x8x128) (k0_off43 k) S1x1x16.size (k0_off43_inb k),
      chunkVal (View.ld fx (Rect.unit (s := S36x8x128) (k0_off22 k) S1x1x16.size (k0_off22_inb k))) (View.ld fw (Rect.unit (s := S576) ![288] S16.size inb_S576_S16_288))
        (View.ld fx (Rect.unit (s := S36x8x128) (k0_off23 k) S1x1x16.size (k0_off23_inb k))) (View.ld fw (Rect.unit (s := S576) ![304] S16.size inb_S576_S16_304))
        (View.ld fx (Rect.unit (s := S36x8x128) (k0_off24 k) S1x1x16.size (k0_off24_inb k))) (View.ld fw (Rect.unit (s := S576) ![320] S16.size inb_S576_S16_320))
        (View.ld fx (Rect.unit (s := S36x8x128) (k0_off25 k) S1x1x16.size (k0_off25_inb k))) (View.ld fw (Rect.unit (s := S576) ![336] S16.size inb_S576_S16_336))
        (View.ld fx (Rect.unit (s := S36x8x128) (k0_off26 k) S1x1x16.size (k0_off26_inb k))) (View.ld fw (Rect.unit (s := S576) ![352] S16.size inb_S576_S16_352))
        (View.ld fx (Rect.unit (s := S36x8x128) (k0_off27 k) S1x1x16.size (k0_off27_inb k))) (View.ld fw (Rect.unit (s := S576) ![368] S16.size inb_S576_S16_368))⟩,
    ⟨Rect.unit (s := S12x8x128) (k0_off42 k) S1x1x16.size (k0_off42_inb k),
      chunkVal (View.ld fx (Rect.unit (s := S36x8x128) (k0_off16 k) S1x1x16.size (k0_off16_inb k))) (View.ld fw (Rect.unit (s := S576) ![192] S16.size inb_S576_S16_192))
        (View.ld fx (Rect.unit (s := S36x8x128) (k0_off17 k) S1x1x16.size (k0_off17_inb k))) (View.ld fw (Rect.unit (s := S576) ![208] S16.size inb_S576_S16_208))
        (View.ld fx (Rect.unit (s := S36x8x128) (k0_off18 k) S1x1x16.size (k0_off18_inb k))) (View.ld fw (Rect.unit (s := S576) ![224] S16.size inb_S576_S16_224))
        (View.ld fx (Rect.unit (s := S36x8x128) (k0_off19 k) S1x1x16.size (k0_off19_inb k))) (View.ld fw (Rect.unit (s := S576) ![240] S16.size inb_S576_S16_240))
        (View.ld fx (Rect.unit (s := S36x8x128) (k0_off20 k) S1x1x16.size (k0_off20_inb k))) (View.ld fw (Rect.unit (s := S576) ![256] S16.size inb_S576_S16_256))
        (View.ld fx (Rect.unit (s := S36x8x128) (k0_off21 k) S1x1x16.size (k0_off21_inb k))) (View.ld fw (Rect.unit (s := S576) ![272] S16.size inb_S576_S16_272))⟩,
    ⟨Rect.unit (s := S12x8x128) (k0_off41 k) S1x1x16.size (k0_off41_inb k),
      chunkVal (View.ld fx (Rect.unit (s := S36x8x128) (k0_off10 k) S1x1x16.size (k0_off10_inb k))) (View.ld fw (Rect.unit (s := S576) ![96] S16.size inb_S576_S16_96))
        (View.ld fx (Rect.unit (s := S36x8x128) (k0_off11 k) S1x1x16.size (k0_off11_inb k))) (View.ld fw (Rect.unit (s := S576) ![112] S16.size inb_S576_S16_112))
        (View.ld fx (Rect.unit (s := S36x8x128) (k0_off12 k) S1x1x16.size (k0_off12_inb k))) (View.ld fw (Rect.unit (s := S576) ![128] S16.size inb_S576_S16_128))
        (View.ld fx (Rect.unit (s := S36x8x128) (k0_off13 k) S1x1x16.size (k0_off13_inb k))) (View.ld fw (Rect.unit (s := S576) ![144] S16.size inb_S576_S16_144))
        (View.ld fx (Rect.unit (s := S36x8x128) (k0_off14 k) S1x1x16.size (k0_off14_inb k))) (View.ld fw (Rect.unit (s := S576) ![160] S16.size inb_S576_S16_160))
        (View.ld fx (Rect.unit (s := S36x8x128) (k0_off15 k) S1x1x16.size (k0_off15_inb k))) (View.ld fw (Rect.unit (s := S576) ![176] S16.size inb_S576_S16_176))⟩,
    ⟨Rect.unit (s := S12x8x128) (k0_off40 k) S1x1x16.size (k0_off40_inb k),
      chunkVal (View.ld fx (Rect.unit (s := S36x8x128) (k0_off4 k) S1x1x16.size (k0_off4_inb k))) (View.ld fw (Rect.unit (s := S576) ![0] S16.size inb_S576_S16_0))
        (View.ld fx (Rect.unit (s := S36x8x128) (k0_off5 k) S1x1x16.size (k0_off5_inb k))) (View.ld fw (Rect.unit (s := S576) ![16] S16.size inb_S576_S16_16))
        (View.ld fx (Rect.unit (s := S36x8x128) (k0_off6 k) S1x1x16.size (k0_off6_inb k))) (View.ld fw (Rect.unit (s := S576) ![32] S16.size inb_S576_S16_32))
        (View.ld fx (Rect.unit (s := S36x8x128) (k0_off7 k) S1x1x16.size (k0_off7_inb k))) (View.ld fw (Rect.unit (s := S576) ![48] S16.size inb_S576_S16_48))
        (View.ld fx (Rect.unit (s := S36x8x128) (k0_off8 k) S1x1x16.size (k0_off8_inb k))) (View.ld fw (Rect.unit (s := S576) ![64] S16.size inb_S576_S16_64))
        (View.ld fx (Rect.unit (s := S36x8x128) (k0_off9 k) S1x1x16.size (k0_off9_inb k))) (View.ld fw (Rect.unit (s := S576) ![80] S16.size inb_S576_S16_80))⟩]

theorem Lexp0_length (fx : Vec F S36x8x128 .f32) (fw : Vec F S576 .f32) (k : Fin k0_t2_loop.trips) : (Lexp0 fx fw k).length = 96 := rfl

/-- Every store's payload is the block of `rowVal` its rectangle names. -/
theorem Lexp0_val (fx : Vec F S36x8x128 .f32) (fw : Vec F S576 .f32) (k : Fin k0_t2_loop.trips) :
    ∀ p ∈ Lexp0 fx fw k, ∀ x : p.1.shape.Idx, p.2 x = rowVal fx fw (p.1.emb x) := by
  intro p hp
  unfold Lexp0 at hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro x
  · exact piece_val fx fw k.val (hk8_0 k) (⟨11, by decide⟩ : Fin 12) 7 (by decide) _ (k0_off387_inb k) (k0_off387_eq k)
      _ (k0_off345_inb k) (k0_off345_eq k) _ (k0_off351_inb k) (k0_off351_eq k) _ (k0_off357_inb k) (k0_off357_eq k) _ (k0_off363_inb k) (k0_off363_eq k) _ (k0_off369_inb k) (k0_off369_eq k) _ (k0_off375_inb k) (k0_off375_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 7 (by decide) _ (k0_off386_inb k) (k0_off386_eq k)
      _ (k0_off344_inb k) (k0_off344_eq k) _ (k0_off350_inb k) (k0_off350_eq k) _ (k0_off356_inb k) (k0_off356_eq k) _ (k0_off362_inb k) (k0_off362_eq k) _ (k0_off368_inb k) (k0_off368_eq k) _ (k0_off374_inb k) (k0_off374_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 7 (by decide) _ (k0_off385_inb k) (k0_off385_eq k)
      _ (k0_off343_inb k) (k0_off343_eq k) _ (k0_off349_inb k) (k0_off349_eq k) _ (k0_off355_inb k) (k0_off355_eq k) _ (k0_off361_inb k) (k0_off361_eq k) _ (k0_off367_inb k) (k0_off367_eq k) _ (k0_off373_inb k) (k0_off373_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 7 (by decide) _ (k0_off384_inb k) (k0_off384_eq k)
      _ (k0_off342_inb k) (k0_off342_eq k) _ (k0_off348_inb k) (k0_off348_eq k) _ (k0_off354_inb k) (k0_off354_eq k) _ (k0_off360_inb k) (k0_off360_eq k) _ (k0_off366_inb k) (k0_off366_eq k) _ (k0_off372_inb k) (k0_off372_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 7 (by decide) _ (k0_off383_inb k) (k0_off383_eq k)
      _ (k0_off341_inb k) (k0_off341_eq k) _ (k0_off347_inb k) (k0_off347_eq k) _ (k0_off353_inb k) (k0_off353_eq k) _ (k0_off359_inb k) (k0_off359_eq k) _ (k0_off365_inb k) (k0_off365_eq k) _ (k0_off371_inb k) (k0_off371_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 7 (by decide) _ (k0_off382_inb k) (k0_off382_eq k)
      _ (k0_off340_inb k) (k0_off340_eq k) _ (k0_off346_inb k) (k0_off346_eq k) _ (k0_off352_inb k) (k0_off352_eq k) _ (k0_off358_inb k) (k0_off358_eq k) _ (k0_off364_inb k) (k0_off364_eq k) _ (k0_off370_inb k) (k0_off370_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 7 (by decide) _ (k0_off381_inb k) (k0_off381_eq k)
      _ (k0_off370_inb k) (k0_off370_eq k) _ (k0_off371_inb k) (k0_off371_eq k) _ (k0_off372_inb k) (k0_off372_eq k) _ (k0_off373_inb k) (k0_off373_eq k) _ (k0_off374_inb k) (k0_off374_eq k) _ (k0_off375_inb k) (k0_off375_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 7 (by decide) _ (k0_off380_inb k) (k0_off380_eq k)
      _ (k0_off364_inb k) (k0_off364_eq k) _ (k0_off365_inb k) (k0_off365_eq k) _ (k0_off366_inb k) (k0_off366_eq k) _ (k0_off367_inb k) (k0_off367_eq k) _ (k0_off368_inb k) (k0_off368_eq k) _ (k0_off369_inb k) (k0_off369_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 7 (by decide) _ (k0_off379_inb k) (k0_off379_eq k)
      _ (k0_off358_inb k) (k0_off358_eq k) _ (k0_off359_inb k) (k0_off359_eq k) _ (k0_off360_inb k) (k0_off360_eq k) _ (k0_off361_inb k) (k0_off361_eq k) _ (k0_off362_inb k) (k0_off362_eq k) _ (k0_off363_inb k) (k0_off363_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 7 (by decide) _ (k0_off378_inb k) (k0_off378_eq k)
      _ (k0_off352_inb k) (k0_off352_eq k) _ (k0_off353_inb k) (k0_off353_eq k) _ (k0_off354_inb k) (k0_off354_eq k) _ (k0_off355_inb k) (k0_off355_eq k) _ (k0_off356_inb k) (k0_off356_eq k) _ (k0_off357_inb k) (k0_off357_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 7 (by decide) _ (k0_off377_inb k) (k0_off377_eq k)
      _ (k0_off346_inb k) (k0_off346_eq k) _ (k0_off347_inb k) (k0_off347_eq k) _ (k0_off348_inb k) (k0_off348_eq k) _ (k0_off349_inb k) (k0_off349_eq k) _ (k0_off350_inb k) (k0_off350_eq k) _ (k0_off351_inb k) (k0_off351_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 7 (by decide) _ (k0_off376_inb k) (k0_off376_eq k)
      _ (k0_off340_inb k) (k0_off340_eq k) _ (k0_off341_inb k) (k0_off341_eq k) _ (k0_off342_inb k) (k0_off342_eq k) _ (k0_off343_inb k) (k0_off343_eq k) _ (k0_off344_inb k) (k0_off344_eq k) _ (k0_off345_inb k) (k0_off345_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_0 k) (⟨11, by decide⟩ : Fin 12) 6 (by decide) _ (k0_off339_inb k) (k0_off339_eq k)
      _ (k0_off297_inb k) (k0_off297_eq k) _ (k0_off303_inb k) (k0_off303_eq k) _ (k0_off309_inb k) (k0_off309_eq k) _ (k0_off315_inb k) (k0_off315_eq k) _ (k0_off321_inb k) (k0_off321_eq k) _ (k0_off327_inb k) (k0_off327_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 6 (by decide) _ (k0_off338_inb k) (k0_off338_eq k)
      _ (k0_off296_inb k) (k0_off296_eq k) _ (k0_off302_inb k) (k0_off302_eq k) _ (k0_off308_inb k) (k0_off308_eq k) _ (k0_off314_inb k) (k0_off314_eq k) _ (k0_off320_inb k) (k0_off320_eq k) _ (k0_off326_inb k) (k0_off326_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 6 (by decide) _ (k0_off337_inb k) (k0_off337_eq k)
      _ (k0_off295_inb k) (k0_off295_eq k) _ (k0_off301_inb k) (k0_off301_eq k) _ (k0_off307_inb k) (k0_off307_eq k) _ (k0_off313_inb k) (k0_off313_eq k) _ (k0_off319_inb k) (k0_off319_eq k) _ (k0_off325_inb k) (k0_off325_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 6 (by decide) _ (k0_off336_inb k) (k0_off336_eq k)
      _ (k0_off294_inb k) (k0_off294_eq k) _ (k0_off300_inb k) (k0_off300_eq k) _ (k0_off306_inb k) (k0_off306_eq k) _ (k0_off312_inb k) (k0_off312_eq k) _ (k0_off318_inb k) (k0_off318_eq k) _ (k0_off324_inb k) (k0_off324_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 6 (by decide) _ (k0_off335_inb k) (k0_off335_eq k)
      _ (k0_off293_inb k) (k0_off293_eq k) _ (k0_off299_inb k) (k0_off299_eq k) _ (k0_off305_inb k) (k0_off305_eq k) _ (k0_off311_inb k) (k0_off311_eq k) _ (k0_off317_inb k) (k0_off317_eq k) _ (k0_off323_inb k) (k0_off323_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 6 (by decide) _ (k0_off334_inb k) (k0_off334_eq k)
      _ (k0_off292_inb k) (k0_off292_eq k) _ (k0_off298_inb k) (k0_off298_eq k) _ (k0_off304_inb k) (k0_off304_eq k) _ (k0_off310_inb k) (k0_off310_eq k) _ (k0_off316_inb k) (k0_off316_eq k) _ (k0_off322_inb k) (k0_off322_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 6 (by decide) _ (k0_off333_inb k) (k0_off333_eq k)
      _ (k0_off322_inb k) (k0_off322_eq k) _ (k0_off323_inb k) (k0_off323_eq k) _ (k0_off324_inb k) (k0_off324_eq k) _ (k0_off325_inb k) (k0_off325_eq k) _ (k0_off326_inb k) (k0_off326_eq k) _ (k0_off327_inb k) (k0_off327_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 6 (by decide) _ (k0_off332_inb k) (k0_off332_eq k)
      _ (k0_off316_inb k) (k0_off316_eq k) _ (k0_off317_inb k) (k0_off317_eq k) _ (k0_off318_inb k) (k0_off318_eq k) _ (k0_off319_inb k) (k0_off319_eq k) _ (k0_off320_inb k) (k0_off320_eq k) _ (k0_off321_inb k) (k0_off321_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 6 (by decide) _ (k0_off331_inb k) (k0_off331_eq k)
      _ (k0_off310_inb k) (k0_off310_eq k) _ (k0_off311_inb k) (k0_off311_eq k) _ (k0_off312_inb k) (k0_off312_eq k) _ (k0_off313_inb k) (k0_off313_eq k) _ (k0_off314_inb k) (k0_off314_eq k) _ (k0_off315_inb k) (k0_off315_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 6 (by decide) _ (k0_off330_inb k) (k0_off330_eq k)
      _ (k0_off304_inb k) (k0_off304_eq k) _ (k0_off305_inb k) (k0_off305_eq k) _ (k0_off306_inb k) (k0_off306_eq k) _ (k0_off307_inb k) (k0_off307_eq k) _ (k0_off308_inb k) (k0_off308_eq k) _ (k0_off309_inb k) (k0_off309_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 6 (by decide) _ (k0_off329_inb k) (k0_off329_eq k)
      _ (k0_off298_inb k) (k0_off298_eq k) _ (k0_off299_inb k) (k0_off299_eq k) _ (k0_off300_inb k) (k0_off300_eq k) _ (k0_off301_inb k) (k0_off301_eq k) _ (k0_off302_inb k) (k0_off302_eq k) _ (k0_off303_inb k) (k0_off303_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 6 (by decide) _ (k0_off328_inb k) (k0_off328_eq k)
      _ (k0_off292_inb k) (k0_off292_eq k) _ (k0_off293_inb k) (k0_off293_eq k) _ (k0_off294_inb k) (k0_off294_eq k) _ (k0_off295_inb k) (k0_off295_eq k) _ (k0_off296_inb k) (k0_off296_eq k) _ (k0_off297_inb k) (k0_off297_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_0 k) (⟨11, by decide⟩ : Fin 12) 5 (by decide) _ (k0_off291_inb k) (k0_off291_eq k)
      _ (k0_off249_inb k) (k0_off249_eq k) _ (k0_off255_inb k) (k0_off255_eq k) _ (k0_off261_inb k) (k0_off261_eq k) _ (k0_off267_inb k) (k0_off267_eq k) _ (k0_off273_inb k) (k0_off273_eq k) _ (k0_off279_inb k) (k0_off279_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 5 (by decide) _ (k0_off290_inb k) (k0_off290_eq k)
      _ (k0_off248_inb k) (k0_off248_eq k) _ (k0_off254_inb k) (k0_off254_eq k) _ (k0_off260_inb k) (k0_off260_eq k) _ (k0_off266_inb k) (k0_off266_eq k) _ (k0_off272_inb k) (k0_off272_eq k) _ (k0_off278_inb k) (k0_off278_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 5 (by decide) _ (k0_off289_inb k) (k0_off289_eq k)
      _ (k0_off247_inb k) (k0_off247_eq k) _ (k0_off253_inb k) (k0_off253_eq k) _ (k0_off259_inb k) (k0_off259_eq k) _ (k0_off265_inb k) (k0_off265_eq k) _ (k0_off271_inb k) (k0_off271_eq k) _ (k0_off277_inb k) (k0_off277_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 5 (by decide) _ (k0_off288_inb k) (k0_off288_eq k)
      _ (k0_off246_inb k) (k0_off246_eq k) _ (k0_off252_inb k) (k0_off252_eq k) _ (k0_off258_inb k) (k0_off258_eq k) _ (k0_off264_inb k) (k0_off264_eq k) _ (k0_off270_inb k) (k0_off270_eq k) _ (k0_off276_inb k) (k0_off276_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 5 (by decide) _ (k0_off287_inb k) (k0_off287_eq k)
      _ (k0_off245_inb k) (k0_off245_eq k) _ (k0_off251_inb k) (k0_off251_eq k) _ (k0_off257_inb k) (k0_off257_eq k) _ (k0_off263_inb k) (k0_off263_eq k) _ (k0_off269_inb k) (k0_off269_eq k) _ (k0_off275_inb k) (k0_off275_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 5 (by decide) _ (k0_off286_inb k) (k0_off286_eq k)
      _ (k0_off244_inb k) (k0_off244_eq k) _ (k0_off250_inb k) (k0_off250_eq k) _ (k0_off256_inb k) (k0_off256_eq k) _ (k0_off262_inb k) (k0_off262_eq k) _ (k0_off268_inb k) (k0_off268_eq k) _ (k0_off274_inb k) (k0_off274_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 5 (by decide) _ (k0_off285_inb k) (k0_off285_eq k)
      _ (k0_off274_inb k) (k0_off274_eq k) _ (k0_off275_inb k) (k0_off275_eq k) _ (k0_off276_inb k) (k0_off276_eq k) _ (k0_off277_inb k) (k0_off277_eq k) _ (k0_off278_inb k) (k0_off278_eq k) _ (k0_off279_inb k) (k0_off279_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 5 (by decide) _ (k0_off284_inb k) (k0_off284_eq k)
      _ (k0_off268_inb k) (k0_off268_eq k) _ (k0_off269_inb k) (k0_off269_eq k) _ (k0_off270_inb k) (k0_off270_eq k) _ (k0_off271_inb k) (k0_off271_eq k) _ (k0_off272_inb k) (k0_off272_eq k) _ (k0_off273_inb k) (k0_off273_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 5 (by decide) _ (k0_off283_inb k) (k0_off283_eq k)
      _ (k0_off262_inb k) (k0_off262_eq k) _ (k0_off263_inb k) (k0_off263_eq k) _ (k0_off264_inb k) (k0_off264_eq k) _ (k0_off265_inb k) (k0_off265_eq k) _ (k0_off266_inb k) (k0_off266_eq k) _ (k0_off267_inb k) (k0_off267_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 5 (by decide) _ (k0_off282_inb k) (k0_off282_eq k)
      _ (k0_off256_inb k) (k0_off256_eq k) _ (k0_off257_inb k) (k0_off257_eq k) _ (k0_off258_inb k) (k0_off258_eq k) _ (k0_off259_inb k) (k0_off259_eq k) _ (k0_off260_inb k) (k0_off260_eq k) _ (k0_off261_inb k) (k0_off261_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 5 (by decide) _ (k0_off281_inb k) (k0_off281_eq k)
      _ (k0_off250_inb k) (k0_off250_eq k) _ (k0_off251_inb k) (k0_off251_eq k) _ (k0_off252_inb k) (k0_off252_eq k) _ (k0_off253_inb k) (k0_off253_eq k) _ (k0_off254_inb k) (k0_off254_eq k) _ (k0_off255_inb k) (k0_off255_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 5 (by decide) _ (k0_off280_inb k) (k0_off280_eq k)
      _ (k0_off244_inb k) (k0_off244_eq k) _ (k0_off245_inb k) (k0_off245_eq k) _ (k0_off246_inb k) (k0_off246_eq k) _ (k0_off247_inb k) (k0_off247_eq k) _ (k0_off248_inb k) (k0_off248_eq k) _ (k0_off249_inb k) (k0_off249_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_0 k) (⟨11, by decide⟩ : Fin 12) 4 (by decide) _ (k0_off243_inb k) (k0_off243_eq k)
      _ (k0_off201_inb k) (k0_off201_eq k) _ (k0_off207_inb k) (k0_off207_eq k) _ (k0_off213_inb k) (k0_off213_eq k) _ (k0_off219_inb k) (k0_off219_eq k) _ (k0_off225_inb k) (k0_off225_eq k) _ (k0_off231_inb k) (k0_off231_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 4 (by decide) _ (k0_off242_inb k) (k0_off242_eq k)
      _ (k0_off200_inb k) (k0_off200_eq k) _ (k0_off206_inb k) (k0_off206_eq k) _ (k0_off212_inb k) (k0_off212_eq k) _ (k0_off218_inb k) (k0_off218_eq k) _ (k0_off224_inb k) (k0_off224_eq k) _ (k0_off230_inb k) (k0_off230_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 4 (by decide) _ (k0_off241_inb k) (k0_off241_eq k)
      _ (k0_off199_inb k) (k0_off199_eq k) _ (k0_off205_inb k) (k0_off205_eq k) _ (k0_off211_inb k) (k0_off211_eq k) _ (k0_off217_inb k) (k0_off217_eq k) _ (k0_off223_inb k) (k0_off223_eq k) _ (k0_off229_inb k) (k0_off229_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 4 (by decide) _ (k0_off240_inb k) (k0_off240_eq k)
      _ (k0_off198_inb k) (k0_off198_eq k) _ (k0_off204_inb k) (k0_off204_eq k) _ (k0_off210_inb k) (k0_off210_eq k) _ (k0_off216_inb k) (k0_off216_eq k) _ (k0_off222_inb k) (k0_off222_eq k) _ (k0_off228_inb k) (k0_off228_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 4 (by decide) _ (k0_off239_inb k) (k0_off239_eq k)
      _ (k0_off197_inb k) (k0_off197_eq k) _ (k0_off203_inb k) (k0_off203_eq k) _ (k0_off209_inb k) (k0_off209_eq k) _ (k0_off215_inb k) (k0_off215_eq k) _ (k0_off221_inb k) (k0_off221_eq k) _ (k0_off227_inb k) (k0_off227_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 4 (by decide) _ (k0_off238_inb k) (k0_off238_eq k)
      _ (k0_off196_inb k) (k0_off196_eq k) _ (k0_off202_inb k) (k0_off202_eq k) _ (k0_off208_inb k) (k0_off208_eq k) _ (k0_off214_inb k) (k0_off214_eq k) _ (k0_off220_inb k) (k0_off220_eq k) _ (k0_off226_inb k) (k0_off226_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 4 (by decide) _ (k0_off237_inb k) (k0_off237_eq k)
      _ (k0_off226_inb k) (k0_off226_eq k) _ (k0_off227_inb k) (k0_off227_eq k) _ (k0_off228_inb k) (k0_off228_eq k) _ (k0_off229_inb k) (k0_off229_eq k) _ (k0_off230_inb k) (k0_off230_eq k) _ (k0_off231_inb k) (k0_off231_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 4 (by decide) _ (k0_off236_inb k) (k0_off236_eq k)
      _ (k0_off220_inb k) (k0_off220_eq k) _ (k0_off221_inb k) (k0_off221_eq k) _ (k0_off222_inb k) (k0_off222_eq k) _ (k0_off223_inb k) (k0_off223_eq k) _ (k0_off224_inb k) (k0_off224_eq k) _ (k0_off225_inb k) (k0_off225_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 4 (by decide) _ (k0_off235_inb k) (k0_off235_eq k)
      _ (k0_off214_inb k) (k0_off214_eq k) _ (k0_off215_inb k) (k0_off215_eq k) _ (k0_off216_inb k) (k0_off216_eq k) _ (k0_off217_inb k) (k0_off217_eq k) _ (k0_off218_inb k) (k0_off218_eq k) _ (k0_off219_inb k) (k0_off219_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 4 (by decide) _ (k0_off234_inb k) (k0_off234_eq k)
      _ (k0_off208_inb k) (k0_off208_eq k) _ (k0_off209_inb k) (k0_off209_eq k) _ (k0_off210_inb k) (k0_off210_eq k) _ (k0_off211_inb k) (k0_off211_eq k) _ (k0_off212_inb k) (k0_off212_eq k) _ (k0_off213_inb k) (k0_off213_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 4 (by decide) _ (k0_off233_inb k) (k0_off233_eq k)
      _ (k0_off202_inb k) (k0_off202_eq k) _ (k0_off203_inb k) (k0_off203_eq k) _ (k0_off204_inb k) (k0_off204_eq k) _ (k0_off205_inb k) (k0_off205_eq k) _ (k0_off206_inb k) (k0_off206_eq k) _ (k0_off207_inb k) (k0_off207_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 4 (by decide) _ (k0_off232_inb k) (k0_off232_eq k)
      _ (k0_off196_inb k) (k0_off196_eq k) _ (k0_off197_inb k) (k0_off197_eq k) _ (k0_off198_inb k) (k0_off198_eq k) _ (k0_off199_inb k) (k0_off199_eq k) _ (k0_off200_inb k) (k0_off200_eq k) _ (k0_off201_inb k) (k0_off201_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_0 k) (⟨11, by decide⟩ : Fin 12) 3 (by decide) _ (k0_off195_inb k) (k0_off195_eq k)
      _ (k0_off153_inb k) (k0_off153_eq k) _ (k0_off159_inb k) (k0_off159_eq k) _ (k0_off165_inb k) (k0_off165_eq k) _ (k0_off171_inb k) (k0_off171_eq k) _ (k0_off177_inb k) (k0_off177_eq k) _ (k0_off183_inb k) (k0_off183_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 3 (by decide) _ (k0_off194_inb k) (k0_off194_eq k)
      _ (k0_off152_inb k) (k0_off152_eq k) _ (k0_off158_inb k) (k0_off158_eq k) _ (k0_off164_inb k) (k0_off164_eq k) _ (k0_off170_inb k) (k0_off170_eq k) _ (k0_off176_inb k) (k0_off176_eq k) _ (k0_off182_inb k) (k0_off182_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 3 (by decide) _ (k0_off193_inb k) (k0_off193_eq k)
      _ (k0_off151_inb k) (k0_off151_eq k) _ (k0_off157_inb k) (k0_off157_eq k) _ (k0_off163_inb k) (k0_off163_eq k) _ (k0_off169_inb k) (k0_off169_eq k) _ (k0_off175_inb k) (k0_off175_eq k) _ (k0_off181_inb k) (k0_off181_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 3 (by decide) _ (k0_off192_inb k) (k0_off192_eq k)
      _ (k0_off150_inb k) (k0_off150_eq k) _ (k0_off156_inb k) (k0_off156_eq k) _ (k0_off162_inb k) (k0_off162_eq k) _ (k0_off168_inb k) (k0_off168_eq k) _ (k0_off174_inb k) (k0_off174_eq k) _ (k0_off180_inb k) (k0_off180_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 3 (by decide) _ (k0_off191_inb k) (k0_off191_eq k)
      _ (k0_off149_inb k) (k0_off149_eq k) _ (k0_off155_inb k) (k0_off155_eq k) _ (k0_off161_inb k) (k0_off161_eq k) _ (k0_off167_inb k) (k0_off167_eq k) _ (k0_off173_inb k) (k0_off173_eq k) _ (k0_off179_inb k) (k0_off179_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 3 (by decide) _ (k0_off190_inb k) (k0_off190_eq k)
      _ (k0_off148_inb k) (k0_off148_eq k) _ (k0_off154_inb k) (k0_off154_eq k) _ (k0_off160_inb k) (k0_off160_eq k) _ (k0_off166_inb k) (k0_off166_eq k) _ (k0_off172_inb k) (k0_off172_eq k) _ (k0_off178_inb k) (k0_off178_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 3 (by decide) _ (k0_off189_inb k) (k0_off189_eq k)
      _ (k0_off178_inb k) (k0_off178_eq k) _ (k0_off179_inb k) (k0_off179_eq k) _ (k0_off180_inb k) (k0_off180_eq k) _ (k0_off181_inb k) (k0_off181_eq k) _ (k0_off182_inb k) (k0_off182_eq k) _ (k0_off183_inb k) (k0_off183_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 3 (by decide) _ (k0_off188_inb k) (k0_off188_eq k)
      _ (k0_off172_inb k) (k0_off172_eq k) _ (k0_off173_inb k) (k0_off173_eq k) _ (k0_off174_inb k) (k0_off174_eq k) _ (k0_off175_inb k) (k0_off175_eq k) _ (k0_off176_inb k) (k0_off176_eq k) _ (k0_off177_inb k) (k0_off177_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 3 (by decide) _ (k0_off187_inb k) (k0_off187_eq k)
      _ (k0_off166_inb k) (k0_off166_eq k) _ (k0_off167_inb k) (k0_off167_eq k) _ (k0_off168_inb k) (k0_off168_eq k) _ (k0_off169_inb k) (k0_off169_eq k) _ (k0_off170_inb k) (k0_off170_eq k) _ (k0_off171_inb k) (k0_off171_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 3 (by decide) _ (k0_off186_inb k) (k0_off186_eq k)
      _ (k0_off160_inb k) (k0_off160_eq k) _ (k0_off161_inb k) (k0_off161_eq k) _ (k0_off162_inb k) (k0_off162_eq k) _ (k0_off163_inb k) (k0_off163_eq k) _ (k0_off164_inb k) (k0_off164_eq k) _ (k0_off165_inb k) (k0_off165_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 3 (by decide) _ (k0_off185_inb k) (k0_off185_eq k)
      _ (k0_off154_inb k) (k0_off154_eq k) _ (k0_off155_inb k) (k0_off155_eq k) _ (k0_off156_inb k) (k0_off156_eq k) _ (k0_off157_inb k) (k0_off157_eq k) _ (k0_off158_inb k) (k0_off158_eq k) _ (k0_off159_inb k) (k0_off159_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 3 (by decide) _ (k0_off184_inb k) (k0_off184_eq k)
      _ (k0_off148_inb k) (k0_off148_eq k) _ (k0_off149_inb k) (k0_off149_eq k) _ (k0_off150_inb k) (k0_off150_eq k) _ (k0_off151_inb k) (k0_off151_eq k) _ (k0_off152_inb k) (k0_off152_eq k) _ (k0_off153_inb k) (k0_off153_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_0 k) (⟨11, by decide⟩ : Fin 12) 2 (by decide) _ (k0_off147_inb k) (k0_off147_eq k)
      _ (k0_off105_inb k) (k0_off105_eq k) _ (k0_off111_inb k) (k0_off111_eq k) _ (k0_off117_inb k) (k0_off117_eq k) _ (k0_off123_inb k) (k0_off123_eq k) _ (k0_off129_inb k) (k0_off129_eq k) _ (k0_off135_inb k) (k0_off135_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 2 (by decide) _ (k0_off146_inb k) (k0_off146_eq k)
      _ (k0_off104_inb k) (k0_off104_eq k) _ (k0_off110_inb k) (k0_off110_eq k) _ (k0_off116_inb k) (k0_off116_eq k) _ (k0_off122_inb k) (k0_off122_eq k) _ (k0_off128_inb k) (k0_off128_eq k) _ (k0_off134_inb k) (k0_off134_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 2 (by decide) _ (k0_off145_inb k) (k0_off145_eq k)
      _ (k0_off103_inb k) (k0_off103_eq k) _ (k0_off109_inb k) (k0_off109_eq k) _ (k0_off115_inb k) (k0_off115_eq k) _ (k0_off121_inb k) (k0_off121_eq k) _ (k0_off127_inb k) (k0_off127_eq k) _ (k0_off133_inb k) (k0_off133_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 2 (by decide) _ (k0_off144_inb k) (k0_off144_eq k)
      _ (k0_off102_inb k) (k0_off102_eq k) _ (k0_off108_inb k) (k0_off108_eq k) _ (k0_off114_inb k) (k0_off114_eq k) _ (k0_off120_inb k) (k0_off120_eq k) _ (k0_off126_inb k) (k0_off126_eq k) _ (k0_off132_inb k) (k0_off132_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 2 (by decide) _ (k0_off143_inb k) (k0_off143_eq k)
      _ (k0_off101_inb k) (k0_off101_eq k) _ (k0_off107_inb k) (k0_off107_eq k) _ (k0_off113_inb k) (k0_off113_eq k) _ (k0_off119_inb k) (k0_off119_eq k) _ (k0_off125_inb k) (k0_off125_eq k) _ (k0_off131_inb k) (k0_off131_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 2 (by decide) _ (k0_off142_inb k) (k0_off142_eq k)
      _ (k0_off100_inb k) (k0_off100_eq k) _ (k0_off106_inb k) (k0_off106_eq k) _ (k0_off112_inb k) (k0_off112_eq k) _ (k0_off118_inb k) (k0_off118_eq k) _ (k0_off124_inb k) (k0_off124_eq k) _ (k0_off130_inb k) (k0_off130_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 2 (by decide) _ (k0_off141_inb k) (k0_off141_eq k)
      _ (k0_off130_inb k) (k0_off130_eq k) _ (k0_off131_inb k) (k0_off131_eq k) _ (k0_off132_inb k) (k0_off132_eq k) _ (k0_off133_inb k) (k0_off133_eq k) _ (k0_off134_inb k) (k0_off134_eq k) _ (k0_off135_inb k) (k0_off135_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 2 (by decide) _ (k0_off140_inb k) (k0_off140_eq k)
      _ (k0_off124_inb k) (k0_off124_eq k) _ (k0_off125_inb k) (k0_off125_eq k) _ (k0_off126_inb k) (k0_off126_eq k) _ (k0_off127_inb k) (k0_off127_eq k) _ (k0_off128_inb k) (k0_off128_eq k) _ (k0_off129_inb k) (k0_off129_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 2 (by decide) _ (k0_off139_inb k) (k0_off139_eq k)
      _ (k0_off118_inb k) (k0_off118_eq k) _ (k0_off119_inb k) (k0_off119_eq k) _ (k0_off120_inb k) (k0_off120_eq k) _ (k0_off121_inb k) (k0_off121_eq k) _ (k0_off122_inb k) (k0_off122_eq k) _ (k0_off123_inb k) (k0_off123_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 2 (by decide) _ (k0_off138_inb k) (k0_off138_eq k)
      _ (k0_off112_inb k) (k0_off112_eq k) _ (k0_off113_inb k) (k0_off113_eq k) _ (k0_off114_inb k) (k0_off114_eq k) _ (k0_off115_inb k) (k0_off115_eq k) _ (k0_off116_inb k) (k0_off116_eq k) _ (k0_off117_inb k) (k0_off117_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 2 (by decide) _ (k0_off137_inb k) (k0_off137_eq k)
      _ (k0_off106_inb k) (k0_off106_eq k) _ (k0_off107_inb k) (k0_off107_eq k) _ (k0_off108_inb k) (k0_off108_eq k) _ (k0_off109_inb k) (k0_off109_eq k) _ (k0_off110_inb k) (k0_off110_eq k) _ (k0_off111_inb k) (k0_off111_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 2 (by decide) _ (k0_off136_inb k) (k0_off136_eq k)
      _ (k0_off100_inb k) (k0_off100_eq k) _ (k0_off101_inb k) (k0_off101_eq k) _ (k0_off102_inb k) (k0_off102_eq k) _ (k0_off103_inb k) (k0_off103_eq k) _ (k0_off104_inb k) (k0_off104_eq k) _ (k0_off105_inb k) (k0_off105_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_0 k) (⟨11, by decide⟩ : Fin 12) 1 (by decide) _ (k0_off99_inb k) (k0_off99_eq k)
      _ (k0_off57_inb k) (k0_off57_eq k) _ (k0_off63_inb k) (k0_off63_eq k) _ (k0_off69_inb k) (k0_off69_eq k) _ (k0_off75_inb k) (k0_off75_eq k) _ (k0_off81_inb k) (k0_off81_eq k) _ (k0_off87_inb k) (k0_off87_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 1 (by decide) _ (k0_off98_inb k) (k0_off98_eq k)
      _ (k0_off56_inb k) (k0_off56_eq k) _ (k0_off62_inb k) (k0_off62_eq k) _ (k0_off68_inb k) (k0_off68_eq k) _ (k0_off74_inb k) (k0_off74_eq k) _ (k0_off80_inb k) (k0_off80_eq k) _ (k0_off86_inb k) (k0_off86_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 1 (by decide) _ (k0_off97_inb k) (k0_off97_eq k)
      _ (k0_off55_inb k) (k0_off55_eq k) _ (k0_off61_inb k) (k0_off61_eq k) _ (k0_off67_inb k) (k0_off67_eq k) _ (k0_off73_inb k) (k0_off73_eq k) _ (k0_off79_inb k) (k0_off79_eq k) _ (k0_off85_inb k) (k0_off85_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 1 (by decide) _ (k0_off96_inb k) (k0_off96_eq k)
      _ (k0_off54_inb k) (k0_off54_eq k) _ (k0_off60_inb k) (k0_off60_eq k) _ (k0_off66_inb k) (k0_off66_eq k) _ (k0_off72_inb k) (k0_off72_eq k) _ (k0_off78_inb k) (k0_off78_eq k) _ (k0_off84_inb k) (k0_off84_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 1 (by decide) _ (k0_off95_inb k) (k0_off95_eq k)
      _ (k0_off53_inb k) (k0_off53_eq k) _ (k0_off59_inb k) (k0_off59_eq k) _ (k0_off65_inb k) (k0_off65_eq k) _ (k0_off71_inb k) (k0_off71_eq k) _ (k0_off77_inb k) (k0_off77_eq k) _ (k0_off83_inb k) (k0_off83_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 1 (by decide) _ (k0_off94_inb k) (k0_off94_eq k)
      _ (k0_off52_inb k) (k0_off52_eq k) _ (k0_off58_inb k) (k0_off58_eq k) _ (k0_off64_inb k) (k0_off64_eq k) _ (k0_off70_inb k) (k0_off70_eq k) _ (k0_off76_inb k) (k0_off76_eq k) _ (k0_off82_inb k) (k0_off82_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 1 (by decide) _ (k0_off93_inb k) (k0_off93_eq k)
      _ (k0_off82_inb k) (k0_off82_eq k) _ (k0_off83_inb k) (k0_off83_eq k) _ (k0_off84_inb k) (k0_off84_eq k) _ (k0_off85_inb k) (k0_off85_eq k) _ (k0_off86_inb k) (k0_off86_eq k) _ (k0_off87_inb k) (k0_off87_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 1 (by decide) _ (k0_off92_inb k) (k0_off92_eq k)
      _ (k0_off76_inb k) (k0_off76_eq k) _ (k0_off77_inb k) (k0_off77_eq k) _ (k0_off78_inb k) (k0_off78_eq k) _ (k0_off79_inb k) (k0_off79_eq k) _ (k0_off80_inb k) (k0_off80_eq k) _ (k0_off81_inb k) (k0_off81_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 1 (by decide) _ (k0_off91_inb k) (k0_off91_eq k)
      _ (k0_off70_inb k) (k0_off70_eq k) _ (k0_off71_inb k) (k0_off71_eq k) _ (k0_off72_inb k) (k0_off72_eq k) _ (k0_off73_inb k) (k0_off73_eq k) _ (k0_off74_inb k) (k0_off74_eq k) _ (k0_off75_inb k) (k0_off75_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 1 (by decide) _ (k0_off90_inb k) (k0_off90_eq k)
      _ (k0_off64_inb k) (k0_off64_eq k) _ (k0_off65_inb k) (k0_off65_eq k) _ (k0_off66_inb k) (k0_off66_eq k) _ (k0_off67_inb k) (k0_off67_eq k) _ (k0_off68_inb k) (k0_off68_eq k) _ (k0_off69_inb k) (k0_off69_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 1 (by decide) _ (k0_off89_inb k) (k0_off89_eq k)
      _ (k0_off58_inb k) (k0_off58_eq k) _ (k0_off59_inb k) (k0_off59_eq k) _ (k0_off60_inb k) (k0_off60_eq k) _ (k0_off61_inb k) (k0_off61_eq k) _ (k0_off62_inb k) (k0_off62_eq k) _ (k0_off63_inb k) (k0_off63_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 1 (by decide) _ (k0_off88_inb k) (k0_off88_eq k)
      _ (k0_off52_inb k) (k0_off52_eq k) _ (k0_off53_inb k) (k0_off53_eq k) _ (k0_off54_inb k) (k0_off54_eq k) _ (k0_off55_inb k) (k0_off55_eq k) _ (k0_off56_inb k) (k0_off56_eq k) _ (k0_off57_inb k) (k0_off57_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_0 k) (⟨11, by decide⟩ : Fin 12) 0 (by decide) _ (k0_off51_inb k) (k0_off51_eq k)
      _ (k0_off9_inb k) (k0_off9_eq k) _ (k0_off15_inb k) (k0_off15_eq k) _ (k0_off21_inb k) (k0_off21_eq k) _ (k0_off27_inb k) (k0_off27_eq k) _ (k0_off33_inb k) (k0_off33_eq k) _ (k0_off39_inb k) (k0_off39_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_0 k) (⟨10, by decide⟩ : Fin 12) 0 (by decide) _ (k0_off50_inb k) (k0_off50_eq k)
      _ (k0_off8_inb k) (k0_off8_eq k) _ (k0_off14_inb k) (k0_off14_eq k) _ (k0_off20_inb k) (k0_off20_eq k) _ (k0_off26_inb k) (k0_off26_eq k) _ (k0_off32_inb k) (k0_off32_eq k) _ (k0_off38_inb k) (k0_off38_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_0 k) (⟨9, by decide⟩ : Fin 12) 0 (by decide) _ (k0_off49_inb k) (k0_off49_eq k)
      _ (k0_off7_inb k) (k0_off7_eq k) _ (k0_off13_inb k) (k0_off13_eq k) _ (k0_off19_inb k) (k0_off19_eq k) _ (k0_off25_inb k) (k0_off25_eq k) _ (k0_off31_inb k) (k0_off31_eq k) _ (k0_off37_inb k) (k0_off37_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_0 k) (⟨8, by decide⟩ : Fin 12) 0 (by decide) _ (k0_off48_inb k) (k0_off48_eq k)
      _ (k0_off6_inb k) (k0_off6_eq k) _ (k0_off12_inb k) (k0_off12_eq k) _ (k0_off18_inb k) (k0_off18_eq k) _ (k0_off24_inb k) (k0_off24_eq k) _ (k0_off30_inb k) (k0_off30_eq k) _ (k0_off36_inb k) (k0_off36_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_0 k) (⟨7, by decide⟩ : Fin 12) 0 (by decide) _ (k0_off47_inb k) (k0_off47_eq k)
      _ (k0_off5_inb k) (k0_off5_eq k) _ (k0_off11_inb k) (k0_off11_eq k) _ (k0_off17_inb k) (k0_off17_eq k) _ (k0_off23_inb k) (k0_off23_eq k) _ (k0_off29_inb k) (k0_off29_eq k) _ (k0_off35_inb k) (k0_off35_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_0 k) (⟨6, by decide⟩ : Fin 12) 0 (by decide) _ (k0_off46_inb k) (k0_off46_eq k)
      _ (k0_off4_inb k) (k0_off4_eq k) _ (k0_off10_inb k) (k0_off10_eq k) _ (k0_off16_inb k) (k0_off16_eq k) _ (k0_off22_inb k) (k0_off22_eq k) _ (k0_off28_inb k) (k0_off28_eq k) _ (k0_off34_inb k) (k0_off34_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_0 k) (⟨5, by decide⟩ : Fin 12) 0 (by decide) _ (k0_off45_inb k) (k0_off45_eq k)
      _ (k0_off34_inb k) (k0_off34_eq k) _ (k0_off35_inb k) (k0_off35_eq k) _ (k0_off36_inb k) (k0_off36_eq k) _ (k0_off37_inb k) (k0_off37_eq k) _ (k0_off38_inb k) (k0_off38_eq k) _ (k0_off39_inb k) (k0_off39_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_0 k) (⟨4, by decide⟩ : Fin 12) 0 (by decide) _ (k0_off44_inb k) (k0_off44_eq k)
      _ (k0_off28_inb k) (k0_off28_eq k) _ (k0_off29_inb k) (k0_off29_eq k) _ (k0_off30_inb k) (k0_off30_eq k) _ (k0_off31_inb k) (k0_off31_eq k) _ (k0_off32_inb k) (k0_off32_eq k) _ (k0_off33_inb k) (k0_off33_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_0 k) (⟨3, by decide⟩ : Fin 12) 0 (by decide) _ (k0_off43_inb k) (k0_off43_eq k)
      _ (k0_off22_inb k) (k0_off22_eq k) _ (k0_off23_inb k) (k0_off23_eq k) _ (k0_off24_inb k) (k0_off24_eq k) _ (k0_off25_inb k) (k0_off25_eq k) _ (k0_off26_inb k) (k0_off26_eq k) _ (k0_off27_inb k) (k0_off27_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_0 k) (⟨2, by decide⟩ : Fin 12) 0 (by decide) _ (k0_off42_inb k) (k0_off42_eq k)
      _ (k0_off16_inb k) (k0_off16_eq k) _ (k0_off17_inb k) (k0_off17_eq k) _ (k0_off18_inb k) (k0_off18_eq k) _ (k0_off19_inb k) (k0_off19_eq k) _ (k0_off20_inb k) (k0_off20_eq k) _ (k0_off21_inb k) (k0_off21_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_0 k) (⟨1, by decide⟩ : Fin 12) 0 (by decide) _ (k0_off41_inb k) (k0_off41_eq k)
      _ (k0_off10_inb k) (k0_off10_eq k) _ (k0_off11_inb k) (k0_off11_eq k) _ (k0_off12_inb k) (k0_off12_eq k) _ (k0_off13_inb k) (k0_off13_eq k) _ (k0_off14_inb k) (k0_off14_eq k) _ (k0_off15_inb k) (k0_off15_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_0 k) (⟨0, by decide⟩ : Fin 12) 0 (by decide) _ (k0_off40_inb k) (k0_off40_eq k)
      _ (k0_off4_inb k) (k0_off4_eq k) _ (k0_off5_inb k) (k0_off5_eq k) _ (k0_off6_inb k) (k0_off6_eq k) _ (k0_off7_inb k) (k0_off7_eq k) _ (k0_off8_inb k) (k0_off8_eq k) _ (k0_off9_inb k) (k0_off9_eq k)
      0 inb_S576_S16_0 rfl 16 inb_S576_S16_16 rfl 32 inb_S576_S16_32 rfl 48 inb_S576_S16_48 rfl 64 inb_S576_S16_64 rfl 80 inb_S576_S16_80 rfl x

/-- Every store lands in row `k`. -/
theorem Lexp0_row (fx : Vec F S36x8x128 .f32) (fw : Vec F S576 .f32) (k : Fin k0_t2_loop.trips) :
    ∀ p ∈ Lexp0 fx fw k, ∀ y ∈ p.1.set, (y 1).val = k.val := by
  intro p hp
  unfold Lexp0 at hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro y hy
  · exact row_of_mem _ (k0_off387_inb k) 11 k.val 112 (k0_off387_eq k) y hy
  · exact row_of_mem _ (k0_off386_inb k) 10 k.val 112 (k0_off386_eq k) y hy
  · exact row_of_mem _ (k0_off385_inb k) 9 k.val 112 (k0_off385_eq k) y hy
  · exact row_of_mem _ (k0_off384_inb k) 8 k.val 112 (k0_off384_eq k) y hy
  · exact row_of_mem _ (k0_off383_inb k) 7 k.val 112 (k0_off383_eq k) y hy
  · exact row_of_mem _ (k0_off382_inb k) 6 k.val 112 (k0_off382_eq k) y hy
  · exact row_of_mem _ (k0_off381_inb k) 5 k.val 112 (k0_off381_eq k) y hy
  · exact row_of_mem _ (k0_off380_inb k) 4 k.val 112 (k0_off380_eq k) y hy
  · exact row_of_mem _ (k0_off379_inb k) 3 k.val 112 (k0_off379_eq k) y hy
  · exact row_of_mem _ (k0_off378_inb k) 2 k.val 112 (k0_off378_eq k) y hy
  · exact row_of_mem _ (k0_off377_inb k) 1 k.val 112 (k0_off377_eq k) y hy
  · exact row_of_mem _ (k0_off376_inb k) 0 k.val 112 (k0_off376_eq k) y hy
  · exact row_of_mem _ (k0_off339_inb k) 11 k.val 96 (k0_off339_eq k) y hy
  · exact row_of_mem _ (k0_off338_inb k) 10 k.val 96 (k0_off338_eq k) y hy
  · exact row_of_mem _ (k0_off337_inb k) 9 k.val 96 (k0_off337_eq k) y hy
  · exact row_of_mem _ (k0_off336_inb k) 8 k.val 96 (k0_off336_eq k) y hy
  · exact row_of_mem _ (k0_off335_inb k) 7 k.val 96 (k0_off335_eq k) y hy
  · exact row_of_mem _ (k0_off334_inb k) 6 k.val 96 (k0_off334_eq k) y hy
  · exact row_of_mem _ (k0_off333_inb k) 5 k.val 96 (k0_off333_eq k) y hy
  · exact row_of_mem _ (k0_off332_inb k) 4 k.val 96 (k0_off332_eq k) y hy
  · exact row_of_mem _ (k0_off331_inb k) 3 k.val 96 (k0_off331_eq k) y hy
  · exact row_of_mem _ (k0_off330_inb k) 2 k.val 96 (k0_off330_eq k) y hy
  · exact row_of_mem _ (k0_off329_inb k) 1 k.val 96 (k0_off329_eq k) y hy
  · exact row_of_mem _ (k0_off328_inb k) 0 k.val 96 (k0_off328_eq k) y hy
  · exact row_of_mem _ (k0_off291_inb k) 11 k.val 80 (k0_off291_eq k) y hy
  · exact row_of_mem _ (k0_off290_inb k) 10 k.val 80 (k0_off290_eq k) y hy
  · exact row_of_mem _ (k0_off289_inb k) 9 k.val 80 (k0_off289_eq k) y hy
  · exact row_of_mem _ (k0_off288_inb k) 8 k.val 80 (k0_off288_eq k) y hy
  · exact row_of_mem _ (k0_off287_inb k) 7 k.val 80 (k0_off287_eq k) y hy
  · exact row_of_mem _ (k0_off286_inb k) 6 k.val 80 (k0_off286_eq k) y hy
  · exact row_of_mem _ (k0_off285_inb k) 5 k.val 80 (k0_off285_eq k) y hy
  · exact row_of_mem _ (k0_off284_inb k) 4 k.val 80 (k0_off284_eq k) y hy
  · exact row_of_mem _ (k0_off283_inb k) 3 k.val 80 (k0_off283_eq k) y hy
  · exact row_of_mem _ (k0_off282_inb k) 2 k.val 80 (k0_off282_eq k) y hy
  · exact row_of_mem _ (k0_off281_inb k) 1 k.val 80 (k0_off281_eq k) y hy
  · exact row_of_mem _ (k0_off280_inb k) 0 k.val 80 (k0_off280_eq k) y hy
  · exact row_of_mem _ (k0_off243_inb k) 11 k.val 64 (k0_off243_eq k) y hy
  · exact row_of_mem _ (k0_off242_inb k) 10 k.val 64 (k0_off242_eq k) y hy
  · exact row_of_mem _ (k0_off241_inb k) 9 k.val 64 (k0_off241_eq k) y hy
  · exact row_of_mem _ (k0_off240_inb k) 8 k.val 64 (k0_off240_eq k) y hy
  · exact row_of_mem _ (k0_off239_inb k) 7 k.val 64 (k0_off239_eq k) y hy
  · exact row_of_mem _ (k0_off238_inb k) 6 k.val 64 (k0_off238_eq k) y hy
  · exact row_of_mem _ (k0_off237_inb k) 5 k.val 64 (k0_off237_eq k) y hy
  · exact row_of_mem _ (k0_off236_inb k) 4 k.val 64 (k0_off236_eq k) y hy
  · exact row_of_mem _ (k0_off235_inb k) 3 k.val 64 (k0_off235_eq k) y hy
  · exact row_of_mem _ (k0_off234_inb k) 2 k.val 64 (k0_off234_eq k) y hy
  · exact row_of_mem _ (k0_off233_inb k) 1 k.val 64 (k0_off233_eq k) y hy
  · exact row_of_mem _ (k0_off232_inb k) 0 k.val 64 (k0_off232_eq k) y hy
  · exact row_of_mem _ (k0_off195_inb k) 11 k.val 48 (k0_off195_eq k) y hy
  · exact row_of_mem _ (k0_off194_inb k) 10 k.val 48 (k0_off194_eq k) y hy
  · exact row_of_mem _ (k0_off193_inb k) 9 k.val 48 (k0_off193_eq k) y hy
  · exact row_of_mem _ (k0_off192_inb k) 8 k.val 48 (k0_off192_eq k) y hy
  · exact row_of_mem _ (k0_off191_inb k) 7 k.val 48 (k0_off191_eq k) y hy
  · exact row_of_mem _ (k0_off190_inb k) 6 k.val 48 (k0_off190_eq k) y hy
  · exact row_of_mem _ (k0_off189_inb k) 5 k.val 48 (k0_off189_eq k) y hy
  · exact row_of_mem _ (k0_off188_inb k) 4 k.val 48 (k0_off188_eq k) y hy
  · exact row_of_mem _ (k0_off187_inb k) 3 k.val 48 (k0_off187_eq k) y hy
  · exact row_of_mem _ (k0_off186_inb k) 2 k.val 48 (k0_off186_eq k) y hy
  · exact row_of_mem _ (k0_off185_inb k) 1 k.val 48 (k0_off185_eq k) y hy
  · exact row_of_mem _ (k0_off184_inb k) 0 k.val 48 (k0_off184_eq k) y hy
  · exact row_of_mem _ (k0_off147_inb k) 11 k.val 32 (k0_off147_eq k) y hy
  · exact row_of_mem _ (k0_off146_inb k) 10 k.val 32 (k0_off146_eq k) y hy
  · exact row_of_mem _ (k0_off145_inb k) 9 k.val 32 (k0_off145_eq k) y hy
  · exact row_of_mem _ (k0_off144_inb k) 8 k.val 32 (k0_off144_eq k) y hy
  · exact row_of_mem _ (k0_off143_inb k) 7 k.val 32 (k0_off143_eq k) y hy
  · exact row_of_mem _ (k0_off142_inb k) 6 k.val 32 (k0_off142_eq k) y hy
  · exact row_of_mem _ (k0_off141_inb k) 5 k.val 32 (k0_off141_eq k) y hy
  · exact row_of_mem _ (k0_off140_inb k) 4 k.val 32 (k0_off140_eq k) y hy
  · exact row_of_mem _ (k0_off139_inb k) 3 k.val 32 (k0_off139_eq k) y hy
  · exact row_of_mem _ (k0_off138_inb k) 2 k.val 32 (k0_off138_eq k) y hy
  · exact row_of_mem _ (k0_off137_inb k) 1 k.val 32 (k0_off137_eq k) y hy
  · exact row_of_mem _ (k0_off136_inb k) 0 k.val 32 (k0_off136_eq k) y hy
  · exact row_of_mem _ (k0_off99_inb k) 11 k.val 16 (k0_off99_eq k) y hy
  · exact row_of_mem _ (k0_off98_inb k) 10 k.val 16 (k0_off98_eq k) y hy
  · exact row_of_mem _ (k0_off97_inb k) 9 k.val 16 (k0_off97_eq k) y hy
  · exact row_of_mem _ (k0_off96_inb k) 8 k.val 16 (k0_off96_eq k) y hy
  · exact row_of_mem _ (k0_off95_inb k) 7 k.val 16 (k0_off95_eq k) y hy
  · exact row_of_mem _ (k0_off94_inb k) 6 k.val 16 (k0_off94_eq k) y hy
  · exact row_of_mem _ (k0_off93_inb k) 5 k.val 16 (k0_off93_eq k) y hy
  · exact row_of_mem _ (k0_off92_inb k) 4 k.val 16 (k0_off92_eq k) y hy
  · exact row_of_mem _ (k0_off91_inb k) 3 k.val 16 (k0_off91_eq k) y hy
  · exact row_of_mem _ (k0_off90_inb k) 2 k.val 16 (k0_off90_eq k) y hy
  · exact row_of_mem _ (k0_off89_inb k) 1 k.val 16 (k0_off89_eq k) y hy
  · exact row_of_mem _ (k0_off88_inb k) 0 k.val 16 (k0_off88_eq k) y hy
  · exact row_of_mem _ (k0_off51_inb k) 11 k.val 0 (k0_off51_eq k) y hy
  · exact row_of_mem _ (k0_off50_inb k) 10 k.val 0 (k0_off50_eq k) y hy
  · exact row_of_mem _ (k0_off49_inb k) 9 k.val 0 (k0_off49_eq k) y hy
  · exact row_of_mem _ (k0_off48_inb k) 8 k.val 0 (k0_off48_eq k) y hy
  · exact row_of_mem _ (k0_off47_inb k) 7 k.val 0 (k0_off47_eq k) y hy
  · exact row_of_mem _ (k0_off46_inb k) 6 k.val 0 (k0_off46_eq k) y hy
  · exact row_of_mem _ (k0_off45_inb k) 5 k.val 0 (k0_off45_eq k) y hy
  · exact row_of_mem _ (k0_off44_inb k) 4 k.val 0 (k0_off44_eq k) y hy
  · exact row_of_mem _ (k0_off43_inb k) 3 k.val 0 (k0_off43_eq k) y hy
  · exact row_of_mem _ (k0_off42_inb k) 2 k.val 0 (k0_off42_eq k) y hy
  · exact row_of_mem _ (k0_off41_inb k) 1 k.val 0 (k0_off41_eq k) y hy
  · exact row_of_mem _ (k0_off40_inb k) 0 k.val 0 (k0_off40_eq k) y hy

/-- Every (node, chunk) of row `k` is some store's rectangle. -/
theorem Lexp0_cover (fx : Vec F S36x8x128 .f32) (fw : Vec F S576 .f32) (k : Fin k0_t2_loop.trips) (n : Fin 12) (c : Fin 8) :
    ∃ p ∈ Lexp0 fx fw k, ∀ y : S12x8x128.Idx, (y 0).val = n.val → (y 1).val = k.val → 16 * c.val ≤ (y 2).val → (y 2).val < 16 * c.val + 16 → y ∈ p.1.set := by
  fin_cases n <;> fin_cases c
  · exact ⟨(Lexp0 fx fw k)[95]'(by rw [Lexp0_length]; omega), List.getElem_mem _, fun y h0 h1 h2 h3 => mem_of_coords _ (k0_off40_inb k) 0 k.val 0 (k0_off40_eq k) y h0 h1 h2 h3⟩
  · exact ⟨(Lexp0 fx fw k)[83]'(by rw [Lexp0_length]; omega), List.getElem_mem _, fun y h0 h1 h2 h3 => mem_of_coords _ (k0_off88_inb k) 0 k.val 16 (k0_off88_eq k) y h0 h1 h2 h3⟩
  · exact ⟨(Lexp0 fx fw k)[71]'(by rw [Lexp0_length]; omega), List.getElem_mem _, fun y h0 h1 h2 h3 => mem_of_coords _ (k0_off136_inb k) 0 k.val 32 (k0_off136_eq k) y h0 h1 h2 h3⟩
  · exact ⟨(Lexp0 fx fw k)[59]'(by rw [Lexp0_length]; omega), List.getElem_mem _, fun y h0 h1 h2 h3 => mem_of_coords _ (k0_off184_inb k) 0 k.val 48 (k0_off184_eq k) y h0 h1 h2 h3⟩
  · exact ⟨(Lexp0 fx fw k)[47]'(by rw [Lexp0_length]; omega), List.getElem_mem _, fun y h0 h1 h2 h3 => mem_of_coords _ (k0_off232_inb k) 0 k.val 64 (k0_off232_eq k) y h0 h1 h2 h3⟩
  · exact ⟨(Lexp0 fx fw k)[35]'(by rw [Lexp0_length]; omega), List.getElem_mem _, fun y h0 h1 h2 h3 => mem_of_coords _ (k0_off280_inb k) 0 k.val 80 (k0_off280_eq k) y h0 h1 h2 h3⟩
  · exact ⟨(Lexp0 fx fw k)[23]'(by rw [Lexp0_length]; omega), List.getElem_mem _, fun y h0 h1 h2 h3 => mem_of_coords _ (k0_off328_inb k) 0 k.val 96 (k0_off328_eq k) y h0 h1 h2 h3⟩
  · exact ⟨(Lexp0 fx fw k)[11]'(by rw [Lexp0_length]; omega), List.getElem_mem _, fun y h0 h1 h2 h3 => mem_of_coords _ (k0_off376_inb k) 0 k.val 112 (k0_off376_eq k) y h0 h1 h2 h3⟩
  · exact ⟨(Lexp0 fx fw k)[94]'(by rw [Lexp0_length]; omega), List.getElem_mem _, fun y h0 h1 h2 h3 => mem_of_coords _ (k0_off41_inb k) 1 k.val 0 (k0_off41_eq k) y h0 h1 h2 h3⟩
  · exact ⟨(Lexp0 fx fw k)[82]'(by rw [Lexp0_length]; omega), List.getElem_mem _, fun y h0 h1 h2 h3 => mem_of_coords _ (k0_off89_inb k) 1 k.val 16 (k0_off89_eq k) y h0 h1 h2 h3⟩
  · exact ⟨(Lexp0 fx fw k)[70]'(by rw [Lexp0_length]; omega), List.getElem_mem _, fun y h0 h1 h2 h3 => mem_of_coords _ (k0_off137_inb k) 1 k.val 32 (k0_off137_eq k) y h0 h1 h2 h3⟩
  · exact ⟨(Lexp0 fx fw k)[58]'(by rw [Lexp0_length]; omega), List.getElem_mem _, fun y h0 h1 h2 h3 => mem_of_coords _ (k0_off185_inb k) 1 k.val 48 (k0_off185_eq k) y h0 h1 h2 h3⟩
  · exact ⟨(Lexp0 fx fw k)[46]'(by rw [Lexp0_length]; omega), List.getElem_mem _, fun y h0 h1 h2 h3 => mem_of_coords _ (k0_off233_inb k) 1 k.val 64 (k0_off233_eq k) y h0 h1 h2 h3⟩
  · exact ⟨(Lexp0 fx fw k)[34]'(by rw [Lexp0_length]; omega), List.getElem_mem _, fun y h0 h1 h2 h3 => mem_of_coords _ (k0_off281_inb k) 1 k.val 80 (k0_off281_eq k) y h0 h1 h2 h3⟩
  · exact ⟨(Lexp0 fx fw k)[22]'(by rw [Lexp0_length]; omega), List.getElem_mem _, fun y h0 h1 h2 h3 => mem_of_coords _ (k0_off329_inb k) 1 k.val 96 (k0_off329_eq k) y h0 h1 h2 h3⟩
  · exact ⟨(Lexp0 fx fw k)[10]'(by rw [Lexp0_length]; omega), List.getElem_mem _, fun y h0 h1 h2 h3 => mem_of_coords _ (k0_off377_inb k) 1 k.val 112 (k0_off377_eq k) y h0 h1 h2 h3⟩
  · exact ⟨(Lexp0 fx fw k)[93]'(by rw [Lexp0_length]; omega), List.getElem_mem _, fun y h0 h1 h2 h3 => mem_of_coords _ (k0_off42_inb k) 2 k.val 0 (k0_off42_eq k) y h0 h1 h2 h3⟩
  · exact ⟨(Lexp0 fx fw k)[81]'(by rw [Lexp0_length]; omega), List.getElem_mem _, fun y h0 h1 h2 h3 => mem_of_coords _ (k0_off90_inb k) 2 k.val 16 (k0_off90_eq k) y h0 h1 h2 h3⟩
  · exact ⟨(Lexp0 fx fw k)[69]'(by rw [Lexp0_length]; omega), List.getElem_mem _, fun y h0 h1 h2 h3 => mem_of_coords _ (k0_off138_inb k) 2 k.val 32 (k0_off138_eq k) y h0 h1 h2 h3⟩
  · exact ⟨(Lexp0 fx fw k)[57]'(by rw [Lexp0_length]; omega), List.getElem_mem _, fun y h0 h1 h2 h3 => mem_of_coords _ (k0_off186_inb k) 2 k.val 48 (k0_off186_eq k) y h0 h1 h2 h3⟩
  · exact ⟨(Lexp0 fx fw k)[45]'(by rw [Lexp0_length]; omega), List.getElem_mem _, fun y h0 h1 h2 h3 => mem_of_coords _ (k0_off234_inb k) 2 k.val 64 (k0_off234_eq k) y h0 h1 h2 h3⟩
  · exact ⟨(Lexp0 fx fw k)[33]'(by rw [Lexp0_length]; omega), List.getElem_mem _, fun y h0 h1 h2 h3 => mem_of_coords _ (k0_off282_inb k) 2 k.val 80 (k0_off282_eq k) y h0 h1 h2 h3⟩
  · exact ⟨(Lexp0 fx fw k)[21]'(by rw [Lexp0_length]; omega), List.getElem_mem _, fun y h0 h1 h2 h3 => mem_of_coords _ (k0_off330_inb k) 2 k.val 96 (k0_off330_eq k) y h0 h1 h2 h3⟩
  · exact ⟨(Lexp0 fx fw k)[9]'(by rw [Lexp0_length]; omega), List.getElem_mem _, fun y h0 h1 h2 h3 => mem_of_coords _ (k0_off378_inb k) 2 k.val 112 (k0_off378_eq k) y h0 h1 h2 h3⟩
  · exact ⟨(Lexp0 fx fw k)[92]'(by rw [Lexp0_length]; omega), List.getElem_mem _, fun y h0 h1 h2 h3 => mem_of_coords _ (k0_off43_inb k) 3 k.val 0 (k0_off43_eq k) y h0 h1 h2 h3⟩
  · exact ⟨(Lexp0 fx fw k)[80]'(by rw [Lexp0_length]; omega), List.getElem_mem _, fun y h0 h1 h2 h3 => mem_of_coords _ (k0_off91_inb k) 3 k.val 16 (k0_off91_eq k) y h0 h1 h2 h3⟩
  · exact ⟨(Lexp0 fx fw k)[68]'(by rw [Lexp0_length]; omega), List.getElem_mem _, fun y h0 h1 h2 h3 => mem_of_coords _ (k0_off139_inb k) 3 k.val 32 (k0_off139_eq k) y h0 h1 h2 h3⟩
  · exact ⟨(Lexp0 fx fw k)[56]'(by rw [Lexp0_length]; omega), List.getElem_mem _, fun y h0 h1 h2 h3 => mem_of_coords _ (k0_off187_inb k) 3 k.val 48 (k0_off187_eq k) y h0 h1 h2 h3⟩
  · exact ⟨(Lexp0 fx fw k)[44]'(by rw [Lexp0_length]; omega), List.getElem_mem _, fun y h0 h1 h2 h3 => mem_of_coords _ (k0_off235_inb k) 3 k.val 64 (k0_off235_eq k) y h0 h1 h2 h3⟩
  · exact ⟨(Lexp0 fx fw k)[32]'(by rw [Lexp0_length]; omega), List.getElem_mem _, fun y h0 h1 h2 h3 => mem_of_coords _ (k0_off283_inb k) 3 k.val 80 (k0_off283_eq k) y h0 h1 h2 h3⟩
  · exact ⟨(Lexp0 fx fw k)[20]'(by rw [Lexp0_length]; omega), List.getElem_mem _, fun y h0 h1 h2 h3 => mem_of_coords _ (k0_off331_inb k) 3 k.val 96 (k0_off331_eq k) y h0 h1 h2 h3⟩
  · exact ⟨(Lexp0 fx fw k)[8]'(by rw [Lexp0_length]; omega), List.getElem_mem _, fun y h0 h1 h2 h3 => mem_of_coords _ (k0_off379_inb k) 3 k.val 112 (k0_off379_eq k) y h0 h1 h2 h3⟩
  · exact ⟨(Lexp0 fx fw k)[91]'(by rw [Lexp0_length]; omega), List.getElem_mem _, fun y h0 h1 h2 h3 => mem_of_coords _ (k0_off44_inb k) 4 k.val 0 (k0_off44_eq k) y h0 h1 h2 h3⟩
  · exact ⟨(Lexp0 fx fw k)[79]'(by rw [Lexp0_length]; omega), List.getElem_mem _, fun y h0 h1 h2 h3 => mem_of_coords _ (k0_off92_inb k) 4 k.val 16 (k0_off92_eq k) y h0 h1 h2 h3⟩
  · exact ⟨(Lexp0 fx fw k)[67]'(by rw [Lexp0_length]; omega), List.getElem_mem _, fun y h0 h1 h2 h3 => mem_of_coords _ (k0_off140_inb k) 4 k.val 32 (k0_off140_eq k) y h0 h1 h2 h3⟩
  · exact ⟨(Lexp0 fx fw k)[55]'(by rw [Lexp0_length]; omega), List.getElem_mem _, fun y h0 h1 h2 h3 => mem_of_coords _ (k0_off188_inb k) 4 k.val 48 (k0_off188_eq k) y h0 h1 h2 h3⟩
  · exact ⟨(Lexp0 fx fw k)[43]'(by rw [Lexp0_length]; omega), List.getElem_mem _, fun y h0 h1 h2 h3 => mem_of_coords _ (k0_off236_inb k) 4 k.val 64 (k0_off236_eq k) y h0 h1 h2 h3⟩
  · exact ⟨(Lexp0 fx fw k)[31]'(by rw [Lexp0_length]; omega), List.getElem_mem _, fun y h0 h1 h2 h3 => mem_of_coords _ (k0_off284_inb k) 4 k.val 80 (k0_off284_eq k) y h0 h1 h2 h3⟩
  · exact ⟨(Lexp0 fx fw k)[19]'(by rw [Lexp0_length]; omega), List.getElem_mem _, fun y h0 h1 h2 h3 => mem_of_coords _ (k0_off332_inb k) 4 k.val 96 (k0_off332_eq k) y h0 h1 h2 h3⟩
  · exact ⟨(Lexp0 fx fw k)[7]'(by rw [Lexp0_length]; omega), List.getElem_mem _, fun y h0 h1 h2 h3 => mem_of_coords _ (k0_off380_inb k) 4 k.val 112 (k0_off380_eq k) y h0 h1 h2 h3⟩
  · exact ⟨(Lexp0 fx fw k)[90]'(by rw [Lexp0_length]; omega), List.getElem_mem _, fun y h0 h1 h2 h3 => mem_of_coords _ (k0_off45_inb k) 5 k.val 0 (k0_off45_eq k) y h0 h1 h2 h3⟩
  · exact ⟨(Lexp0 fx fw k)[78]'(by rw [Lexp0_length]; omega), List.getElem_mem _, fun y h0 h1 h2 h3 => mem_of_coords _ (k0_off93_inb k) 5 k.val 16 (k0_off93_eq k) y h0 h1 h2 h3⟩
  · exact ⟨(Lexp0 fx fw k)[66]'(by rw [Lexp0_length]; omega), List.getElem_mem _, fun y h0 h1 h2 h3 => mem_of_coords _ (k0_off141_inb k) 5 k.val 32 (k0_off141_eq k) y h0 h1 h2 h3⟩
  · exact ⟨(Lexp0 fx fw k)[54]'(by rw [Lexp0_length]; omega), List.getElem_mem _, fun y h0 h1 h2 h3 => mem_of_coords _ (k0_off189_inb k) 5 k.val 48 (k0_off189_eq k) y h0 h1 h2 h3⟩
  · exact ⟨(Lexp0 fx fw k)[42]'(by rw [Lexp0_length]; omega), List.getElem_mem _, fun y h0 h1 h2 h3 => mem_of_coords _ (k0_off237_inb k) 5 k.val 64 (k0_off237_eq k) y h0 h1 h2 h3⟩
  · exact ⟨(Lexp0 fx fw k)[30]'(by rw [Lexp0_length]; omega), List.getElem_mem _, fun y h0 h1 h2 h3 => mem_of_coords _ (k0_off285_inb k) 5 k.val 80 (k0_off285_eq k) y h0 h1 h2 h3⟩
  · exact ⟨(Lexp0 fx fw k)[18]'(by rw [Lexp0_length]; omega), List.getElem_mem _, fun y h0 h1 h2 h3 => mem_of_coords _ (k0_off333_inb k) 5 k.val 96 (k0_off333_eq k) y h0 h1 h2 h3⟩
  · exact ⟨(Lexp0 fx fw k)[6]'(by rw [Lexp0_length]; omega), List.getElem_mem _, fun y h0 h1 h2 h3 => mem_of_coords _ (k0_off381_inb k) 5 k.val 112 (k0_off381_eq k) y h0 h1 h2 h3⟩
  · exact ⟨(Lexp0 fx fw k)[89]'(by rw [Lexp0_length]; omega), List.getElem_mem _, fun y h0 h1 h2 h3 => mem_of_coords _ (k0_off46_inb k) 6 k.val 0 (k0_off46_eq k) y h0 h1 h2 h3⟩
  · exact ⟨(Lexp0 fx fw k)[77]'(by rw [Lexp0_length]; omega), List.getElem_mem _, fun y h0 h1 h2 h3 => mem_of_coords _ (k0_off94_inb k) 6 k.val 16 (k0_off94_eq k) y h0 h1 h2 h3⟩
  · exact ⟨(Lexp0 fx fw k)[65]'(by rw [Lexp0_length]; omega), List.getElem_mem _, fun y h0 h1 h2 h3 => mem_of_coords _ (k0_off142_inb k) 6 k.val 32 (k0_off142_eq k) y h0 h1 h2 h3⟩
  · exact ⟨(Lexp0 fx fw k)[53]'(by rw [Lexp0_length]; omega), List.getElem_mem _, fun y h0 h1 h2 h3 => mem_of_coords _ (k0_off190_inb k) 6 k.val 48 (k0_off190_eq k) y h0 h1 h2 h3⟩
  · exact ⟨(Lexp0 fx fw k)[41]'(by rw [Lexp0_length]; omega), List.getElem_mem _, fun y h0 h1 h2 h3 => mem_of_coords _ (k0_off238_inb k) 6 k.val 64 (k0_off238_eq k) y h0 h1 h2 h3⟩
  · exact ⟨(Lexp0 fx fw k)[29]'(by rw [Lexp0_length]; omega), List.getElem_mem _, fun y h0 h1 h2 h3 => mem_of_coords _ (k0_off286_inb k) 6 k.val 80 (k0_off286_eq k) y h0 h1 h2 h3⟩
  · exact ⟨(Lexp0 fx fw k)[17]'(by rw [Lexp0_length]; omega), List.getElem_mem _, fun y h0 h1 h2 h3 => mem_of_coords _ (k0_off334_inb k) 6 k.val 96 (k0_off334_eq k) y h0 h1 h2 h3⟩
  · exact ⟨(Lexp0 fx fw k)[5]'(by rw [Lexp0_length]; omega), List.getElem_mem _, fun y h0 h1 h2 h3 => mem_of_coords _ (k0_off382_inb k) 6 k.val 112 (k0_off382_eq k) y h0 h1 h2 h3⟩
  · exact ⟨(Lexp0 fx fw k)[88]'(by rw [Lexp0_length]; omega), List.getElem_mem _, fun y h0 h1 h2 h3 => mem_of_coords _ (k0_off47_inb k) 7 k.val 0 (k0_off47_eq k) y h0 h1 h2 h3⟩
  · exact ⟨(Lexp0 fx fw k)[76]'(by rw [Lexp0_length]; omega), List.getElem_mem _, fun y h0 h1 h2 h3 => mem_of_coords _ (k0_off95_inb k) 7 k.val 16 (k0_off95_eq k) y h0 h1 h2 h3⟩
  · exact ⟨(Lexp0 fx fw k)[64]'(by rw [Lexp0_length]; omega), List.getElem_mem _, fun y h0 h1 h2 h3 => mem_of_coords _ (k0_off143_inb k) 7 k.val 32 (k0_off143_eq k) y h0 h1 h2 h3⟩
  · exact ⟨(Lexp0 fx fw k)[52]'(by rw [Lexp0_length]; omega), List.getElem_mem _, fun y h0 h1 h2 h3 => mem_of_coords _ (k0_off191_inb k) 7 k.val 48 (k0_off191_eq k) y h0 h1 h2 h3⟩
  · exact ⟨(Lexp0 fx fw k)[40]'(by rw [Lexp0_length]; omega), List.getElem_mem _, fun y h0 h1 h2 h3 => mem_of_coords _ (k0_off239_inb k) 7 k.val 64 (k0_off239_eq k) y h0 h1 h2 h3⟩
  · exact ⟨(Lexp0 fx fw k)[28]'(by rw [Lexp0_length]; omega), List.getElem_mem _, fun y h0 h1 h2 h3 => mem_of_coords _ (k0_off287_inb k) 7 k.val 80 (k0_off287_eq k) y h0 h1 h2 h3⟩
  · exact ⟨(Lexp0 fx fw k)[16]'(by rw [Lexp0_length]; omega), List.getElem_mem _, fun y h0 h1 h2 h3 => mem_of_coords _ (k0_off335_inb k) 7 k.val 96 (k0_off335_eq k) y h0 h1 h2 h3⟩
  · exact ⟨(Lexp0 fx fw k)[4]'(by rw [Lexp0_length]; omega), List.getElem_mem _, fun y h0 h1 h2 h3 => mem_of_coords _ (k0_off383_inb k) 7 k.val 112 (k0_off383_eq k) y h0 h1 h2 h3⟩
  · exact ⟨(Lexp0 fx fw k)[87]'(by rw [Lexp0_length]; omega), List.getElem_mem _, fun y h0 h1 h2 h3 => mem_of_coords _ (k0_off48_inb k) 8 k.val 0 (k0_off48_eq k) y h0 h1 h2 h3⟩
  · exact ⟨(Lexp0 fx fw k)[75]'(by rw [Lexp0_length]; omega), List.getElem_mem _, fun y h0 h1 h2 h3 => mem_of_coords _ (k0_off96_inb k) 8 k.val 16 (k0_off96_eq k) y h0 h1 h2 h3⟩
  · exact ⟨(Lexp0 fx fw k)[63]'(by rw [Lexp0_length]; omega), List.getElem_mem _, fun y h0 h1 h2 h3 => mem_of_coords _ (k0_off144_inb k) 8 k.val 32 (k0_off144_eq k) y h0 h1 h2 h3⟩
  · exact ⟨(Lexp0 fx fw k)[51]'(by rw [Lexp0_length]; omega), List.getElem_mem _, fun y h0 h1 h2 h3 => mem_of_coords _ (k0_off192_inb k) 8 k.val 48 (k0_off192_eq k) y h0 h1 h2 h3⟩
  · exact ⟨(Lexp0 fx fw k)[39]'(by rw [Lexp0_length]; omega), List.getElem_mem _, fun y h0 h1 h2 h3 => mem_of_coords _ (k0_off240_inb k) 8 k.val 64 (k0_off240_eq k) y h0 h1 h2 h3⟩
  · exact ⟨(Lexp0 fx fw k)[27]'(by rw [Lexp0_length]; omega), List.getElem_mem _, fun y h0 h1 h2 h3 => mem_of_coords _ (k0_off288_inb k) 8 k.val 80 (k0_off288_eq k) y h0 h1 h2 h3⟩
  · exact ⟨(Lexp0 fx fw k)[15]'(by rw [Lexp0_length]; omega), List.getElem_mem _, fun y h0 h1 h2 h3 => mem_of_coords _ (k0_off336_inb k) 8 k.val 96 (k0_off336_eq k) y h0 h1 h2 h3⟩
  · exact ⟨(Lexp0 fx fw k)[3]'(by rw [Lexp0_length]; omega), List.getElem_mem _, fun y h0 h1 h2 h3 => mem_of_coords _ (k0_off384_inb k) 8 k.val 112 (k0_off384_eq k) y h0 h1 h2 h3⟩
  · exact ⟨(Lexp0 fx fw k)[86]'(by rw [Lexp0_length]; omega), List.getElem_mem _, fun y h0 h1 h2 h3 => mem_of_coords _ (k0_off49_inb k) 9 k.val 0 (k0_off49_eq k) y h0 h1 h2 h3⟩
  · exact ⟨(Lexp0 fx fw k)[74]'(by rw [Lexp0_length]; omega), List.getElem_mem _, fun y h0 h1 h2 h3 => mem_of_coords _ (k0_off97_inb k) 9 k.val 16 (k0_off97_eq k) y h0 h1 h2 h3⟩
  · exact ⟨(Lexp0 fx fw k)[62]'(by rw [Lexp0_length]; omega), List.getElem_mem _, fun y h0 h1 h2 h3 => mem_of_coords _ (k0_off145_inb k) 9 k.val 32 (k0_off145_eq k) y h0 h1 h2 h3⟩
  · exact ⟨(Lexp0 fx fw k)[50]'(by rw [Lexp0_length]; omega), List.getElem_mem _, fun y h0 h1 h2 h3 => mem_of_coords _ (k0_off193_inb k) 9 k.val 48 (k0_off193_eq k) y h0 h1 h2 h3⟩
  · exact ⟨(Lexp0 fx fw k)[38]'(by rw [Lexp0_length]; omega), List.getElem_mem _, fun y h0 h1 h2 h3 => mem_of_coords _ (k0_off241_inb k) 9 k.val 64 (k0_off241_eq k) y h0 h1 h2 h3⟩
  · exact ⟨(Lexp0 fx fw k)[26]'(by rw [Lexp0_length]; omega), List.getElem_mem _, fun y h0 h1 h2 h3 => mem_of_coords _ (k0_off289_inb k) 9 k.val 80 (k0_off289_eq k) y h0 h1 h2 h3⟩
  · exact ⟨(Lexp0 fx fw k)[14]'(by rw [Lexp0_length]; omega), List.getElem_mem _, fun y h0 h1 h2 h3 => mem_of_coords _ (k0_off337_inb k) 9 k.val 96 (k0_off337_eq k) y h0 h1 h2 h3⟩
  · exact ⟨(Lexp0 fx fw k)[2]'(by rw [Lexp0_length]; omega), List.getElem_mem _, fun y h0 h1 h2 h3 => mem_of_coords _ (k0_off385_inb k) 9 k.val 112 (k0_off385_eq k) y h0 h1 h2 h3⟩
  · exact ⟨(Lexp0 fx fw k)[85]'(by rw [Lexp0_length]; omega), List.getElem_mem _, fun y h0 h1 h2 h3 => mem_of_coords _ (k0_off50_inb k) 10 k.val 0 (k0_off50_eq k) y h0 h1 h2 h3⟩
  · exact ⟨(Lexp0 fx fw k)[73]'(by rw [Lexp0_length]; omega), List.getElem_mem _, fun y h0 h1 h2 h3 => mem_of_coords _ (k0_off98_inb k) 10 k.val 16 (k0_off98_eq k) y h0 h1 h2 h3⟩
  · exact ⟨(Lexp0 fx fw k)[61]'(by rw [Lexp0_length]; omega), List.getElem_mem _, fun y h0 h1 h2 h3 => mem_of_coords _ (k0_off146_inb k) 10 k.val 32 (k0_off146_eq k) y h0 h1 h2 h3⟩
  · exact ⟨(Lexp0 fx fw k)[49]'(by rw [Lexp0_length]; omega), List.getElem_mem _, fun y h0 h1 h2 h3 => mem_of_coords _ (k0_off194_inb k) 10 k.val 48 (k0_off194_eq k) y h0 h1 h2 h3⟩
  · exact ⟨(Lexp0 fx fw k)[37]'(by rw [Lexp0_length]; omega), List.getElem_mem _, fun y h0 h1 h2 h3 => mem_of_coords _ (k0_off242_inb k) 10 k.val 64 (k0_off242_eq k) y h0 h1 h2 h3⟩
  · exact ⟨(Lexp0 fx fw k)[25]'(by rw [Lexp0_length]; omega), List.getElem_mem _, fun y h0 h1 h2 h3 => mem_of_coords _ (k0_off290_inb k) 10 k.val 80 (k0_off290_eq k) y h0 h1 h2 h3⟩
  · exact ⟨(Lexp0 fx fw k)[13]'(by rw [Lexp0_length]; omega), List.getElem_mem _, fun y h0 h1 h2 h3 => mem_of_coords _ (k0_off338_inb k) 10 k.val 96 (k0_off338_eq k) y h0 h1 h2 h3⟩
  · exact ⟨(Lexp0 fx fw k)[1]'(by rw [Lexp0_length]; omega), List.getElem_mem _, fun y h0 h1 h2 h3 => mem_of_coords _ (k0_off386_inb k) 10 k.val 112 (k0_off386_eq k) y h0 h1 h2 h3⟩
  · exact ⟨(Lexp0 fx fw k)[84]'(by rw [Lexp0_length]; omega), List.getElem_mem _, fun y h0 h1 h2 h3 => mem_of_coords _ (k0_off51_inb k) 11 k.val 0 (k0_off51_eq k) y h0 h1 h2 h3⟩
  · exact ⟨(Lexp0 fx fw k)[72]'(by rw [Lexp0_length]; omega), List.getElem_mem _, fun y h0 h1 h2 h3 => mem_of_coords _ (k0_off99_inb k) 11 k.val 16 (k0_off99_eq k) y h0 h1 h2 h3⟩
  · exact ⟨(Lexp0 fx fw k)[60]'(by rw [Lexp0_length]; omega), List.getElem_mem _, fun y h0 h1 h2 h3 => mem_of_coords _ (k0_off147_inb k) 11 k.val 32 (k0_off147_eq k) y h0 h1 h2 h3⟩
  · exact ⟨(Lexp0 fx fw k)[48]'(by rw [Lexp0_length]; omega), List.getElem_mem _, fun y h0 h1 h2 h3 => mem_of_coords _ (k0_off195_inb k) 11 k.val 48 (k0_off195_eq k) y h0 h1 h2 h3⟩
  · exact ⟨(Lexp0 fx fw k)[36]'(by rw [Lexp0_length]; omega), List.getElem_mem _, fun y h0 h1 h2 h3 => mem_of_coords _ (k0_off243_inb k) 11 k.val 64 (k0_off243_eq k) y h0 h1 h2 h3⟩
  · exact ⟨(Lexp0 fx fw k)[24]'(by rw [Lexp0_length]; omega), List.getElem_mem _, fun y h0 h1 h2 h3 => mem_of_coords _ (k0_off291_inb k) 11 k.val 80 (k0_off291_eq k) y h0 h1 h2 h3⟩
  · exact ⟨(Lexp0 fx fw k)[12]'(by rw [Lexp0_length]; omega), List.getElem_mem _, fun y h0 h1 h2 h3 => mem_of_coords _ (k0_off339_inb k) 11 k.val 96 (k0_off339_eq k) y h0 h1 h2 h3⟩
  · exact ⟨(Lexp0 fx fw k)[0]'(by rw [Lexp0_length]; omega), List.getElem_mem _, fun y h0 h1 h2 h3 => mem_of_coords _ (k0_off387_inb k) 11 k.val 112 (k0_off387_eq k) y h0 h1 h2 h3⟩

/-- ONE PASS OVER ROW `k`: the rows below `k + 1` of the slot are `rowVal`'s, if those below `k` were. -/
theorem Lexp0_writes (fx : Vec F S36x8x128 .f32) (fw : Vec F S576 .f32) (fo : (ov0M).view.ty.Contents (Elt F)) (k : Fin k0_t2_loop.trips)
    (hfo : ∀ y : S12x8x128.Idx, (y 1).val < k.val → (fo : S12x8x128.Idx → F .f32) y = rowVal fx fw y) (y : S12x8x128.Idx) (hy : (y 1).val < k.val + 1) :
    ((ov0M).view.writes (Elt F) fo (Lexp0 fx fw k) : S12x8x128.Idx → F .f32) y = rowVal fx fw y := by
  have hv : ∀ g : (ov0M).view.ty.Contents (Elt F), (ov0M).view.read (Elt F) g = g := fun g => by simp only [Memref.view_whole, View.read_whole]
  show ((ov0M).view.writes (Elt F) fo (Lexp0 fx fw k)) y = rowVal fx fw y
  rw [← hv ((ov0M).view.writes (Elt F) fo (Lexp0 fx fw k))]
  by_cases h : (y 1).val < k.val
  · rw [View.read_writes_apply_of_forall_not_mem (ov0M).view fo y (Lexp0 fx fw k) fun p hp hm => by
      have := Lexp0_row fx fw k p hp y hm; omega]
    rw [hv]; exact hfo y h
  · have hk : (y 1).val = k.val := by omega
    have h2 : (y 2).val < 128 := (y 2).isLt
    obtain ⟨p, hp, hmem⟩ := Lexp0_cover fx fw k (y 0) ⟨(y 2).val / 16, by omega⟩
    exact View.read_writes_apply_of_pieces (ov0M).view fo (rowVal fx fw) (Lexp0 fx fw k) (Lexp0_val fx fw k) y
      ⟨p, hp, hmem y rfl hk (by show 16 * ((y 2).val / 16) ≤ (y 2).val; omega) (by show (y 2).val < 16 * ((y 2).val / 16) + 16; omega)⟩

end Cert.KernelIdeal.Pf
end
-- ==== Proof.KTileL1.lean ====
/-
  One pass over a row of a slot, with values: the ninety-six chunks the pass stores, each the block of the slot's
  function its rectangle names; together they fill the row and touch no other.
-/
import proofs.«203732_g20581483283120_cont_8to1_285_17_alg».proof.Proof.KTileL0
import proofs.«203732_g20581483283120_cont_8to1_285_17_alg».proof.Proof.KTileDefs
import proofs.«203732_g20581483283120_cont_8to1_285_17_alg».proof.Proof.KBridge
import Idealize.ShloMosaic.Lib.ValueIdx
import Idealize.ShloMosaic.Lib.Pipeline.Value

noncomputable section

namespace Cert.KernelIdeal.Pf

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec (edgeOf)

variable {F : FTy → Type} [FloatOps F]

/-! ## Slot 1 -/

theorem trips_1 : k0_t3_loop.trips = 8 := by decide
theorem hk8_1 (k : Fin k0_t3_loop.trips) : k.val < 8 := by have := k.isLt; have h8 : k0_t3_loop.trips = 8 := trips_1; omega

/-- What one pass over a row stores into output slot 1: the ninety-six chunks, last store first. -/
def Lexp1 (fx : Vec F S36x8x128 .f32) (fw : Vec F S576 .f32) (k : Fin k0_t3_loop.trips) : List (View.Piece (Elt F) S12x8x128 .f32) :=
  [⟨Rect.unit (s := S12x8x128) (k0_off774 k) S1x1x16.size (k0_off774_inb k),
      chunkVal (View.ld fx (Rect.unit (s := S36x8x128) (k0_off732 k) S1x1x16.size (k0_off732_inb k))) (View.ld fw (Rect.unit (s := S576) ![80] S16.size inb_S576_S16_80))
        (View.ld fx (Rect.unit (s := S36x8x128) (k0_off738 k) S1x1x16.size (k0_off738_inb k))) (View.ld fw (Rect.unit (s := S576) ![176] S16.size inb_S576_S16_176))
        (View.ld fx (Rect.unit (s := S36x8x128) (k0_off744 k) S1x1x16.size (k0_off744_inb k))) (View.ld fw (Rect.unit (s := S576) ![272] S16.size inb_S576_S16_272))
        (View.ld fx (Rect.unit (s := S36x8x128) (k0_off750 k) S1x1x16.size (k0_off750_inb k))) (View.ld fw (Rect.unit (s := S576) ![368] S16.size inb_S576_S16_368))
        (View.ld fx (Rect.unit (s := S36x8x128) (k0_off756 k) S1x1x16.size (k0_off756_inb k))) (View.ld fw (Rect.unit (s := S576) ![464] S16.size inb_S576_S16_464))
        (View.ld fx (Rect.unit (s := S36x8x128) (k0_off762 k) S1x1x16.size (k0_off762_inb k))) (View.ld fw (Rect.unit (s := S576) ![560] S16.size inb_S576_S16_560))⟩,
    ⟨Rect.unit (s := S12x8x128) (k0_off773 k) S1x1x16.size (k0_off773_inb k),
      chunkVal (View.ld fx (Rect.unit (s := S36x8x128) (k0_off731 k) S1x1x16.size (k0_off731_inb k))) (View.ld fw (Rect.unit (s := S576) ![64] S16.size inb_S576_S16_64))
        (View.ld fx (Rect.unit (s := S36x8x128) (k0_off737 k) S1x1x16.size (k0_off737_inb k))) (View.ld fw (Rect.unit (s := S576) ![160] S16.size inb_S576_S16_160))
        (View.ld fx (Rect.unit (s := S36x8x128) (k0_off743 k) S1x1x16.size (k0_off743_inb k))) (View.ld fw (Rect.unit (s := S576) ![256] S16.size inb_S576_S16_256))
        (View.ld fx (Rect.unit (s := S36x8x128) (k0_off749 k) S1x1x16.size (k0_off749_inb k))) (View.ld fw (Rect.unit (s := S576) ![352] S16.size inb_S576_S16_352))
        (View.ld fx (Rect.unit (s := S36x8x128) (k0_off755 k) S1x1x16.size (k0_off755_inb k))) (View.ld fw (Rect.unit (s := S576) ![448] S16.size inb_S576_S16_448))
        (View.ld fx (Rect.unit (s := S36x8x128) (k0_off761 k) S1x1x16.size (k0_off761_inb k))) (View.ld fw (Rect.unit (s := S576) ![544] S16.size inb_S576_S16_544))⟩,
    ⟨Rect.unit (s := S12x8x128) (k0_off772 k) S1x1x16.size (k0_off772_inb k),
      chunkVal (View.ld fx (Rect.unit (s := S36x8x128) (k0_off730 k) S1x1x16.size (k0_off730_inb k))) (View.ld fw (Rect.unit (s := S576) ![48] S16.size inb_S576_S16_48))
        (View.ld fx (Rect.unit (s := S36x8x128) (k0_off736 k) S1x1x16.size (k0_off736_inb k))) (View.ld fw (Rect.unit (s := S576) ![144] S16.size inb_S576_S16_144))
        (View.ld fx (Rect.unit (s := S36x8x128) (k0_off742 k) S1x1x16.size (k0_off742_inb k))) (View.ld fw (Rect.unit (s := S576) ![240] S16.size inb_S576_S16_240))
        (View.ld fx (Rect.unit (s := S36x8x128) (k0_off748 k) S1x1x16.size (k0_off748_inb k))) (View.ld fw (Rect.unit (s := S576) ![336] S16.size inb_S576_S16_336))
        (View.ld fx (Rect.unit (s := S36x8x128) (k0_off754 k) S1x1x16.size (k0_off754_inb k))) (View.ld fw (Rect.unit (s := S576) ![432] S16.size inb_S576_S16_432))
        (View.ld fx (Rect.unit (s := S36x8x128) (k0_off760 k) S1x1x16.size (k0_off760_inb k))) (View.ld fw (Rect.unit (s := S576) ![528] S16.size inb_S576_S16_528))⟩,
    ⟨Rect.unit (s := S12x8x128) (k0_off771 k) S1x1x16.size (k0_off771_inb k),
      chunkVal (View.ld fx (Rect.unit (s := S36x8x128) (k0_off729 k) S1x1x16.size (k0_off729_inb k))) (View.ld fw (Rect.unit (s := S576) ![32] S16.size inb_S576_S16_32))
        (View.ld fx (Rect.unit (s := S36x8x128) (k0_off735 k) S1x1x16.size (k0_off735_inb k))) (View.ld fw (Rect.unit (s := S576) ![128] S16.size inb_S576_S16_128))
        (View.ld fx (Rect.unit (s := S36x8x128) (k0_off741 k) S1x1x16.size (k0_off741_inb k))) (View.ld fw (Rect.unit (s := S576) ![224] S16.size inb_S576_S16_224))
        (View.ld fx (Rect.unit (s := S36x8x128) (k0_off747 k) S1x1x16.size (k0_off747_inb k))) (View.ld fw (Rect.unit (s := S576) ![320] S16.size inb_S576_S16_320))
        (View.ld fx (Rect.unit (s := S36x8x128) (k0_off753 k) S1x1x16.size (k0_off753_inb k))) (View.ld fw (Rect.unit (s := S576) ![416] S16.size inb_S576_S16_416))
        (View.ld fx (Rect.unit (s := S36x8x128) (k0_off759 k) S1x1x16.size (k0_off759_inb k))) (View.ld fw (Rect.unit (s := S576) ![512] S16.size inb_S576_S16_512))⟩,
    ⟨Rect.unit (s := S12x8x128) (k0_off770 k) S1x1x16.size (k0_off770_inb k),
      chunkVal (View.ld fx (Rect.unit (s := S36x8x128) (k0_off728 k) S1x1x16.size (k0_off728_inb k))) (View.ld fw (Rect.unit (s := S576) ![16] S16.size inb_S576_S16_16))
        (View.ld fx (Rect.unit (s := S36x8x128) (k0_off734 k) S1x1x16.size (k0_off734_inb k))) (View.ld fw (Rect.unit (s := S576) ![112] S16.size inb_S576_S16_112))
        (View.ld fx (Rect.unit (s := S36x8x128) (k0_off740 k) S1x1x16.size (k0_off740_inb k))) (View.ld fw (Rect.unit (s := S576) ![208] S16.size inb_S576_S16_208))
        (View.ld fx (Rect.unit (s := S36x8x128) (k0_off746 k) S1x1x16.size (k0_off746_inb k))) (View.ld fw (Rect.unit (s := S576) ![304] S16.size inb_S576_S16_304))
        (View.ld fx (Rect.unit (s := S36x8x128) (k0_off752 k) S1x1x16.size (k0_off752_inb k))) (View.ld fw (Rect.unit (s := S576) ![400] S16.size inb_S576_S16_400))
        (View.ld fx (Rect.unit (s := S36x8x128) (k0_off758 k) S1x1x16.size (k0_off758_inb k))) (View.ld fw (Rect.unit (s := S576) ![496] S16.size inb_S576_S16_496))⟩,
    ⟨Rect.unit (s := S12x8x128) (k0_off769 k) S1x1x16.size (k0_off769_inb k),
      chunkVal (View.ld fx (Rect.unit (s := S36x8x128) (k0_off727 k) S1x1x16.size (k0_off727_inb k))) (View.ld fw (Rect.unit (s := S576) ![0] S16.size inb_S576_S16_0))
        (View.ld fx (Rect.unit (s := S36x8x128) (k0_off733 k) S1x1x16.size (k0_off733_inb k))) (View.ld fw (Rect.unit (s := S576) ![96] S16.size inb_S576_S16_96))
        (View.ld fx (Rect.unit (s := S36x8x128) (k0_off739 k) S1x1x16.size (k0_off739_inb k))) (View.ld fw (Rect.unit (s := S576) ![192] S16.size inb_S576_S16_192))
        (View.ld fx (Rect.unit (s := S36x8x128) (k0_off745 k) S1x1x16.size (k0_off745_inb k))) (View.ld fw (Rect.unit (s := S576) ![288] S16.size inb_S576_S16_288))
        (View.ld fx (Rect.unit (s := S36x8x128) (k0_off751 k) S1x1x16.size (k0_off751_inb k))) (View.ld fw (Rect.unit (s := S576) ![384] S16.size inb_S576_S16_384))
        (View.ld fx (Rect.unit (s := S36x8x128) (k0_off757 k) S1x1x16.size (k0_off757_inb k))) (View.ld fw (Rect.unit (s := S576) ![480] S16.size inb_S576_S16_480))⟩,
    ⟨Rect.unit (s := S12x8x128) (k0_off768 k) S1x1x16.size (k0_off768_inb k),
      chunkVal (View.ld fx (Rect.unit (s := S36x8x128) (k0_off757 k) S1x1x16.size (k0_off757_inb k))) (View.ld fw (Rect.unit (s := S576) ![480] S16.size inb_S576_S16_480))
        (View.ld fx (Rect.unit (s := S36x8x128) (k0_off758 k) S1x1x16.size (k0_off758_inb k))) (View.ld fw (Rect.unit (s := S576) ![496] S16.size inb_S576_S16_496))
        (View.ld fx (Rect.unit (s := S36x8x128) (k0_off759 k) S1x1x16.size (k0_off759_inb k))) (View.ld fw (Rect.unit (s := S576) ![512] S16.size inb_S576_S16_512))
        (View.ld fx (Rect.unit (s := S36x8x128) (k0_off760 k) S1x1x16.size (k0_off760_inb k))) (View.ld fw (Rect.unit (s := S576) ![528] S16.size inb_S576_S16_528))
        (View.ld fx (Rect.unit (s := S36x8x128) (k0_off761 k) S1x1x16.size (k0_off761_inb k))) (View.ld fw (Rect.unit (s := S576) ![544] S16.size inb_S576_S16_544))
        (View.ld fx (Rect.unit (s := S36x8x128) (k0_off762 k) S1x1x16.size (k0_off762_inb k))) (View.ld fw (Rect.unit (s := S576) ![560] S16.size inb_S576_S16_560))⟩,
    ⟨Rect.unit (s := S12x8x128) (k0_off767 k) S1x1x16.size (k0_off767_inb k),
      chunkVal (View.ld fx (Rect.unit (s := S36x8x128) (k0_off751 k) S1x1x16.size (k0_off751_inb k))) (View.ld fw (Rect.unit (s := S576) ![384] S16.size inb_S576_S16_384))
        (View.ld fx (Rect.unit (s := S36x8x128) (k0_off752 k) S1x1x16.size (k0_off752_inb k))) (View.ld fw (Rect.unit (s := S576) ![400] S16.size inb_S576_S16_400))
        (View.ld fx (Rect.unit (s := S36x8x128) (k0_off753 k) S1x1x16.size (k0_off753_inb k))) (View.ld fw (Rect.unit (s := S576) ![416] S16.size inb_S576_S16_416))
        (View.ld fx (Rect.unit (s := S36x8x128) (k0_off754 k) S1x1x16.size (k0_off754_inb k))) (View.ld fw (Rect.unit (s := S576) ![432] S16.size inb_S576_S16_432))
        (View.ld fx (Rect.unit (s := S36x8x128) (k0_off755 k) S1x1x16.size (k0_off755_inb k))) (View.ld fw (Rect.unit (s := S576) ![448] S16.size inb_S576_S16_448))
        (View.ld fx (Rect.unit (s := S36x8x128) (k0_off756 k) S1x1x16.size (k0_off756_inb k))) (View.ld fw (Rect.unit (s := S576) ![464] S16.size inb_S576_S16_464))⟩,
    ⟨Rect.unit (s := S12x8x128) (k0_off766 k) S1x1x16.size (k0_off766_inb k),
      chunkVal (View.ld fx (Rect.unit (s := S36x8x128) (k0_off745 k) S1x1x16.size (k0_off745_inb k))) (View.ld fw (Rect.unit (s := S576) ![288] S16.size inb_S576_S16_288))
        (View.ld fx (Rect.unit (s := S36x8x128) (k0_off746 k) S1x1x16.size (k0_off746_inb k))) (View.ld fw (Rect.unit (s := S576) ![304] S16.size inb_S576_S16_304))
        (View.ld fx (Rect.unit (s := S36x8x128) (k0_off747 k) S1x1x16.size (k0_off747_inb k))) (View.ld fw (Rect.unit (s := S576) ![320] S16.size inb_S576_S16_320))
        (View.ld fx (Rect.unit (s := S36x8x128) (k0_off748 k) S1x1x16.size (k0_off748_inb k))) (View.ld fw (Rect.unit (s := S576) ![336] S16.size inb_S576_S16_336))
        (View.ld fx (Rect.unit (s := S36x8x128) (k0_off749 k) S1x1x16.size (k0_off749_inb k))) (View.ld fw (Rect.unit (s := S576) ![352] S16.size inb_S576_S16_352))
        (View.ld fx (Rect.unit (s := S36x8x128) (k0_off750 k) S1x1x16.size (k0_off750_inb k))) (View.ld fw (Rect.unit (s := S576) ![368] S16.size inb_S576_S16_368))⟩,
    ⟨Rect.unit (s := S12x8x128) (k0_off765 k) S1x1x16.size (k0_off765_inb k),
      chunkVal (View.ld fx (Rect.unit (s := S36x8x128) (k0_off739 k) S1x1x16.size (k0_off739_inb k))) (View.ld fw (Rect.unit (s := S576) ![192] S16.size inb_S576_S16_192))
        (View.ld fx (Rect.unit (s := S36x8x128) (k0_off740 k) S1x1x16.size (k0_off740_inb k))) (View.ld fw (Rect.unit (s := S576) ![208] S16.size inb_S576_S16_208))
        (View.ld fx (Rect.unit (s := S36x8x128) (k0_off741 k) S1x1x16.size (k0_off741_inb k))) (View.ld fw (Rect.unit (s := S576) ![224] S16.size inb_S576_S16_224))
        (View.ld fx (Rect.unit (s := S36x8x128) (k0_off742 k) S1x1x16.size (k0_off742_inb k))) (View.ld fw (Rect.unit (s := S576) ![240] S16.size inb_S576_S16_240))
        (View.ld fx (Rect.unit (s := S36x8x128) (k0_off743 k) S1x1x16.size (k0_off743_inb k))) (View.ld fw (Rect.unit (s := S576) ![256] S16.size inb_S576_S16_256))
        (View.ld fx (Rect.unit (s := S36x8x128) (k0_off744 k) S1x1x16.size (k0_off744_inb k))) (View.ld fw (Rect.unit (s := S576) ![272] S16.size inb_S576_S16_272))⟩,
    ⟨Rect.unit (s := S12x8x128) (k0_off764 k) S1x1x16.size (k0_off764_inb k),
      chunkVal (View.ld fx (Rect.unit (s := S36x8x128) (k0_off733 k) S1x1x16.size (k0_off733_inb k))) (View.ld fw (Rect.unit (s := S576) ![96] S16.size inb_S576_S16_96))
        (View.ld fx (Rect.unit (s := S36x8x128) (k0_off734 k) S1x1x16.size (k0_off734_inb k))) (View.ld fw (Rect.unit (s := S576) ![112] S16.size inb_S576_S16_112))
        (View.ld fx (Rect.unit (s := S36x8x128) (k0_off735 k) S1x1x16.size (k0_off735_inb k))) (View.ld fw (Rect.unit (s := S576) ![128] S16.size inb_S576_S16_128))
        (View.ld fx (Rect.unit (s := S36x8x128) (k0_off736 k) S1x1x16.size (k0_off736_inb k))) (View.ld fw (Rect.unit (s := S576) ![144] S16.size inb_S576_S16_144))
        (View.ld fx (Rect.unit (s := S36x8x128) (k0_off737 k) S1x1x16.size (k0_off737_inb k))) (View.ld fw (Rect.unit (s := S576) ![160] S16.size inb_S576_S16_160))
        (View.ld fx (Rect.unit (s := S36x8x128) (k0_off738 k) S1x1x16.size (k0_off738_inb k))) (View.ld fw (Rect.unit (s := S576) ![176] S16.size inb_S576_S16_176))⟩,
    ⟨Rect.unit (s := S12x8x128) (k0_off763 k) S1x1x16.size (k0_off763_inb k),
      chunkVal (View.ld fx (Rect.unit (s := S36x8x128) (k0_off727 k) S1x1x16.size (k0_off727_inb k))) (View.ld fw (Rect.unit (s := S576) ![0] S16.size inb_S576_S16_0))
        (View.ld fx (Rect.unit (s := S36x8x128) (k0_off728 k) S1x1x16.size (k0_off728_inb k))) (View.ld fw (Rect.unit (s := S576) ![16] S16.size inb_S576_S16_16))
        (View.ld fx (Rect.unit (s := S36x8x128) (k0_off729 k) S1x1x16.size (k0_off729_inb k))) (View.ld fw (Rect.unit (s := S576) ![32] S16.size inb_S576_S16_32))
        (View.ld fx (Rect.unit (s := S36x8x128) (k0_off730 k) S1x1x16.size (k0_off730_inb k))) (View.ld fw (Rect.unit (s := S576) ![48] S16.size inb_S576_S16_48))
        (View.ld fx (Rect.unit (s := S36x8x128) (k0_off731 k) S1x1x16.size (k0_off731_inb k))) (View.ld fw (Rect.unit (s := S576) ![64] S16.size inb_S576_S16_64))
        (View.ld fx (Rect.unit (s := S36x8x128) (k0_off732 k) S1x1x16.size (k0_off732_inb k))) (View.ld fw (Rect.unit (s := S576) ![80] S16.size inb_S576_S16_80))⟩,
    ⟨Rect.unit (s := S12x8x128) (k0_off726 k) S1x1x16.size (k0_off726_inb k),
      chunkVal (View.ld fx (Rect.unit (s := S36x8x128) (k0_off684 k) S1x1x16.size (k0_off684_inb k))) (View.ld fw (Rect.unit (s := S576) ![80] S16.size inb_S576_S16_80))
        (View.ld fx (Rect.unit (s := S36x8x128) (k0_off690 k) S1x1x16.size (k0_off690_inb k))) (View.ld fw (Rect.unit (s := S576) ![176] S16.size inb_S576_S16_176))
        (View.ld fx (Rect.unit (s := S36x8x128) (k0_off696 k) S1x1x16.size (k0_off696_inb k))) (View.ld fw (Rect.unit (s := S576) ![272] S16.size inb_S576_S16_272))
        (View.ld fx (Rect.unit (s := S36x8x128) (k0_off702 k) S1x1x16.size (k0_off702_inb k))) (View.ld fw (Rect.unit (s := S576) ![368] S16.size inb_S576_S16_368))
        (View.ld fx (Rect.unit (s := S36x8x128) (k0_off708 k) S1x1x16.size (k0_off708_inb k))) (View.ld fw (Rect.unit (s := S576) ![464] S16.size inb_S576_S16_464))
        (View.ld fx (Rect.unit (s := S36x8x128) (k0_off714 k) S1x1x16.size (k0_off714_inb k))) (View.ld fw (Rect.unit (s := S576) ![560] S16.size inb_S576_S16_560))⟩,
    ⟨Rect.unit (s := S12x8x128) (k0_off725 k) S1x1x16.size (k0_off725_inb k),
      chunkVal (View.ld fx (Rect.unit (s := S36x8x128) (k0_off683 k) S1x1x16.size (k0_off683_inb k))) (View.ld fw (Rect.unit (s := S576) ![64] S16.size inb_S576_S16_64))
        (View.ld fx (Rect.unit (s := S36x8x128) (k0_off689 k) S1x1x16.size (k0_off689_inb k))) (View.ld fw (Rect.unit (s := S576) ![160] S16.size inb_S576_S16_160))
        (View.ld fx (Rect.unit (s := S36x8x128) (k0_off695 k) S1x1x16.size (k0_off695_inb k))) (View.ld fw (Rect.unit (s := S576) ![256] S16.size inb_S576_S16_256))
        (View.ld fx (Rect.unit (s := S36x8x128) (k0_off701 k) S1x1x16.size (k0_off701_inb k))) (View.ld fw (Rect.unit (s := S576) ![352] S16.size inb_S576_S16_352))
        (View.ld fx (Rect.unit (s := S36x8x128) (k0_off707 k) S1x1x16.size (k0_off707_inb k))) (View.ld fw (Rect.unit (s := S576) ![448] S16.size inb_S576_S16_448))
        (View.ld fx (Rect.unit (s := S36x8x128) (k0_off713 k) S1x1x16.size (k0_off713_inb k))) (View.ld fw (Rect.unit (s := S576) ![544] S16.size inb_S576_S16_544))⟩,
    ⟨Rect.unit (s := S12x8x128) (k0_off724 k) S1x1x16.size (k0_off724_inb k),
      chunkVal (View.ld fx (Rect.unit (s := S36x8x128) (k0_off682 k) S1x1x16.size (k0_off682_inb k))) (View.ld fw (Rect.unit (s := S576) ![48] S16.size inb_S576_S16_48))
        (View.ld fx (Rect.unit (s := S36x8x128) (k0_off688 k) S1x1x16.size (k0_off688_inb k))) (View.ld fw (Rect.unit (s := S576) ![144] S16.size inb_S576_S16_144))
        (View.ld fx (Rect.unit (s := S36x8x128) (k0_off694 k) S1x1x16.size (k0_off694_inb k))) (View.ld fw (Rect.unit (s := S576) ![240] S16.size inb_S576_S16_240))
        (View.ld fx (Rect.unit (s := S36x8x128) (k0_off700 k) S1x1x16.size (k0_off700_inb k))) (View.ld fw (Rect.unit (s := S576) ![336] S16.size inb_S576_S16_336))
        (View.ld fx (Rect.unit (s := S36x8x128) (k0_off706 k) S1x1x16.size (k0_off706_inb k))) (View.ld fw (Rect.unit (s := S576) ![432] S16.size inb_S576_S16_432))
        (View.ld fx (Rect.unit (s := S36x8x128) (k0_off712 k) S1x1x16.size (k0_off712_inb k))) (View.ld fw (Rect.unit (s := S576) ![528] S16.size inb_S576_S16_528))⟩,
    ⟨Rect.unit (s := S12x8x128) (k0_off723 k) S1x1x16.size (k0_off723_inb k),
      chunkVal (View.ld fx (Rect.unit (s := S36x8x128) (k0_off681 k) S1x1x16.size (k0_off681_inb k))) (View.ld fw (Rect.unit (s := S576) ![32] S16.size inb_S576_S16_32))
        (View.ld fx (Rect.unit (s := S36x8x128) (k0_off687 k) S1x1x16.size (k0_off687_inb k))) (View.ld fw (Rect.unit (s := S576) ![128] S16.size inb_S576_S16_128))
        (View.ld fx (Rect.unit (s := S36x8x128) (k0_off693 k) S1x1x16.size (k0_off693_inb k))) (View.ld fw (Rect.unit (s := S576) ![224] S16.size inb_S576_S16_224))
        (View.ld fx (Rect.unit (s := S36x8x128) (k0_off699 k) S1x1x16.size (k0_off699_inb k))) (View.ld fw (Rect.unit (s := S576) ![320] S16.size inb_S576_S16_320))
        (View.ld fx (Rect.unit (s := S36x8x128) (k0_off705 k) S1x1x16.size (k0_off705_inb k))) (View.ld fw (Rect.unit (s := S576) ![416] S16.size inb_S576_S16_416))
        (View.ld fx (Rect.unit (s := S36x8x128) (k0_off711 k) S1x1x16.size (k0_off711_inb k))) (View.ld fw (Rect.unit (s := S576) ![512] S16.size inb_S576_S16_512))⟩,
    ⟨Rect.unit (s := S12x8x128) (k0_off722 k) S1x1x16.size (k0_off722_inb k),
      chunkVal (View.ld fx (Rect.unit (s := S36x8x128) (k0_off680 k) S1x1x16.size (k0_off680_inb k))) (View.ld fw (Rect.unit (s := S576) ![16] S16.size inb_S576_S16_16))
        (View.ld fx (Rect.unit (s := S36x8x128) (k0_off686 k) S1x1x16.size (k0_off686_inb k))) (View.ld fw (Rect.unit (s := S576) ![112] S16.size inb_S576_S16_112))
        (View.ld fx (Rect.unit (s := S36x8x128) (k0_off692 k) S1x1x16.size (k0_off692_inb k))) (View.ld fw (Rect.unit (s := S576) ![208] S16.size inb_S576_S16_208))
        (View.ld fx (Rect.unit (s := S36x8x128) (k0_off698 k) S1x1x16.size (k0_off698_inb k))) (View.ld fw (Rect.unit (s := S576) ![304] S16.size inb_S576_S16_304))
        (View.ld fx (Rect.unit (s := S36x8x128) (k0_off704 k) S1x1x16.size (k0_off704_inb k))) (View.ld fw (Rect.unit (s := S576) ![400] S16.size inb_S576_S16_400))
        (View.ld fx (Rect.unit (s := S36x8x128) (k0_off710 k) S1x1x16.size (k0_off710_inb k))) (View.ld fw (Rect.unit (s := S576) ![496] S16.size inb_S576_S16_496))⟩,
    ⟨Rect.unit (s := S12x8x128) (k0_off721 k) S1x1x16.size (k0_off721_inb k),
      chunkVal (View.ld fx (Rect.unit (s := S36x8x128) (k0_off679 k) S1x1x16.size (k0_off679_inb k))) (View.ld fw (Rect.unit (s := S576) ![0] S16.size inb_S576_S16_0))
        (View.ld fx (Rect.unit (s := S36x8x128) (k0_off685 k) S1x1x16.size (k0_off685_inb k))) (View.ld fw (Rect.unit (s := S576) ![96] S16.size inb_S576_S16_96))
        (View.ld fx (Rect.unit (s := S36x8x128) (k0_off691 k) S1x1x16.size (k0_off691_inb k))) (View.ld fw (Rect.unit (s := S576) ![192] S16.size inb_S576_S16_192))
        (View.ld fx (Rect.unit (s := S36x8x128) (k0_off697 k) S1x1x16.size (k0_off697_inb k))) (View.ld fw (Rect.unit (s := S576) ![288] S16.size inb_S576_S16_288))
        (View.ld fx (Rect.unit (s := S36x8x128) (k0_off703 k) S1x1x16.size (k0_off703_inb k))) (View.ld fw (Rect.unit (s := S576) ![384] S16.size inb_S576_S16_384))
        (View.ld fx (Rect.unit (s := S36x8x128) (k0_off709 k) S1x1x16.size (k0_off709_inb k))) (View.ld fw (Rect.unit (s := S576) ![480] S16.size inb_S576_S16_480))⟩,
    ⟨Rect.unit (s := S12x8x128) (k0_off720 k) S1x1x16.size (k0_off720_inb k),
      chunkVal (View.ld fx (Rect.unit (s := S36x8x128) (k0_off709 k) S1x1x16.size (k0_off709_inb k))) (View.ld fw (Rect.unit (s := S576) ![480] S16.size inb_S576_S16_480))
        (View.ld fx (Rect.unit (s := S36x8x128) (k0_off710 k) S1x1x16.size (k0_off710_inb k))) (View.ld fw (Rect.unit (s := S576) ![496] S16.size inb_S576_S16_496))
        (View.ld fx (Rect.unit (s := S36x8x128) (k0_off711 k) S1x1x16.size (k0_off711_inb k))) (View.ld fw (Rect.unit (s := S576) ![512] S16.size inb_S576_S16_512))
        (View.ld fx (Rect.unit (s := S36x8x128) (k0_off712 k) S1x1x16.size (k0_off712_inb k))) (View.ld fw (Rect.unit (s := S576) ![528] S16.size inb_S576_S16_528))
        (View.ld fx (Rect.unit (s := S36x8x128) (k0_off713 k) S1x1x16.size (k0_off713_inb k))) (View.ld fw (Rect.unit (s := S576) ![544] S16.size inb_S576_S16_544))
        (View.ld fx (Rect.unit (s := S36x8x128) (k0_off714 k) S1x1x16.size (k0_off714_inb k))) (View.ld fw (Rect.unit (s := S576) ![560] S16.size inb_S576_S16_560))⟩,
    ⟨Rect.unit (s := S12x8x128) (k0_off719 k) S1x1x16.size (k0_off719_inb k),
      chunkVal (View.ld fx (Rect.unit (s := S36x8x128) (k0_off703 k) S1x1x16.size (k0_off703_inb k))) (View.ld fw (Rect.unit (s := S576) ![384] S16.size inb_S576_S16_384))
        (View.ld fx (Rect.unit (s := S36x8x128) (k0_off704 k) S1x1x16.size (k0_off704_inb k))) (View.ld fw (Rect.unit (s := S576) ![400] S16.size inb_S576_S16_400))
        (View.ld fx (Rect.unit (s := S36x8x128) (k0_off705 k) S1x1x16.size (k0_off705_inb k))) (View.ld fw (Rect.unit (s := S576) ![416] S16.size inb_S576_S16_416))
        (View.ld fx (Rect.unit (s := S36x8x128) (k0_off706 k) S1x1x16.size (k0_off706_inb k))) (View.ld fw (Rect.unit (s := S576) ![432] S16.size inb_S576_S16_432))
        (View.ld fx (Rect.unit (s := S36x8x128) (k0_off707 k) S1x1x16.size (k0_off707_inb k))) (View.ld fw (Rect.unit (s := S576) ![448] S16.size inb_S576_S16_448))
        (View.ld fx (Rect.unit (s := S36x8x128) (k0_off708 k) S1x1x16.size (k0_off708_inb k))) (View.ld fw (Rect.unit (s := S576) ![464] S16.size inb_S576_S16_464))⟩,
    ⟨Rect.unit (s := S12x8x128) (k0_off718 k) S1x1x16.size (k0_off718_inb k),
      chunkVal (View.ld fx (Rect.unit (s := S36x8x128) (k0_off697 k) S1x1x16.size (k0_off697_inb k))) (View.ld fw (Rect.unit (s := S576) ![288] S16.size inb_S576_S16_288))
        (View.ld fx (Rect.unit (s := S36x8x128) (k0_off698 k) S1x1x16.size (k0_off698_inb k))) (View.ld fw (Rect.unit (s := S576) ![304] S16.size inb_S576_S16_304))
        (View.ld fx (Rect.unit (s := S36x8x128) (k0_off699 k) S1x1x16.size (k0_off699_inb k))) (View.ld fw (Rect.unit (s := S576) ![320] S16.size inb_S576_S16_320))
        (View.ld fx (Rect.unit (s := S36x8x128) (k0_off700 k) S1x1x16.size (k0_off700_inb k))) (View.ld fw (Rect.unit (s := S576) ![336] S16.size inb_S576_S16_336))
        (View.ld fx (Rect.unit (s := S36x8x128) (k0_off701 k) S1x1x16.size (k0_off701_inb k))) (View.ld fw (Rect.unit (s := S576) ![352] S16.size inb_S576_S16_352))
        (View.ld fx (Rect.unit (s := S36x8x128) (k0_off702 k) S1x1x16.size (k0_off702_inb k))) (View.ld fw (Rect.unit (s := S576) ![368] S16.size inb_S576_S16_368))⟩,
    ⟨Rect.unit (s := S12x8x128) (k0_off717 k) S1x1x16.size (k0_off717_inb k),
      chunkVal (View.ld fx (Rect.unit (s := S36x8x128) (k0_off691 k) S1x1x16.size (k0_off691_inb k))) (View.ld fw (Rect.unit (s := S576) ![192] S16.size inb_S576_S16_192))
        (View.ld fx (Rect.unit (s := S36x8x128) (k0_off692 k) S1x1x16.size (k0_off692_inb k))) (View.ld fw (Rect.unit (s := S576) ![208] S16.size inb_S576_S16_208))
        (View.ld fx (Rect.unit (s := S36x8x128) (k0_off693 k) S1x1x16.size (k0_off693_inb k))) (View.ld fw (Rect.unit (s := S576) ![224] S16.size inb_S576_S16_224))
        (View.ld fx (Rect.unit (s := S36x8x128) (k0_off694 k) S1x1x16.size (k0_off694_inb k))) (View.ld fw (Rect.unit (s := S576) ![240] S16.size inb_S576_S16_240))
        (View.ld fx (Rect.unit (s := S36x8x128) (k0_off695 k) S1x1x16.size (k0_off695_inb k))) (View.ld fw (Rect.unit (s := S576) ![256] S16.size inb_S576_S16_256))
        (View.ld fx (Rect.unit (s := S36x8x128) (k0_off696 k) S1x1x16.size (k0_off696_inb k))) (View.ld fw (Rect.unit (s := S576) ![272] S16.size inb_S576_S16_272))⟩,
    ⟨Rect.unit (s := S12x8x128) (k0_off716 k) S1x1x16.size (k0_off716_inb k),
      chunkVal (View.ld fx (Rect.unit (s := S36x8x128) (k0_off685 k) S1x1x16.size (k0_off685_inb k))) (View.ld fw (Rect.unit (s := S576) ![96] S16.size inb_S576_S16_96))
        (View.ld fx (Rect.unit (s := S36x8x128) (k0_off686 k) S1x1x16.size (k0_off686_inb k))) (View.ld fw (Rect.unit (s := S576) ![112] S16.size inb_S576_S16_112))
        (View.ld fx (Rect.unit (s := S36x8x128) (k0_off687 k) S1x1x16.size (k0_off687_inb k))) (View.ld fw (Rect.unit (s := S576) ![128] S16.size inb_S576_S16_128))
        (View.ld fx (Rect.unit (s := S36x8x128) (k0_off688 k) S1x1x16.size (k0_off688_inb k))) (View.ld fw (Rect.unit (s := S576) ![144] S16.size inb_S576_S16_144))
        (View.ld fx (Rect.unit (s := S36x8x128) (k0_off689 k) S1x1x16.size (k0_off689_inb k))) (View.ld fw (Rect.unit (s := S576) ![160] S16.size inb_S576_S16_160))
        (View.ld fx (Rect.unit (s := S36x8x128) (k0_off690 k) S1x1x16.size (k0_off690_inb k))) (View.ld fw (Rect.unit (s := S576) ![176] S16.size inb_S576_S16_176))⟩,
    ⟨Rect.unit (s := S12x8x128) (k0_off715 k) S1x1x16.size (k0_off715_inb k),
      chunkVal (View.ld fx (Rect.unit (s := S36x8x128) (k0_off679 k) S1x1x16.size (k0_off679_inb k))) (View.ld fw (Rect.unit (s := S576) ![0] S16.size inb_S576_S16_0))
        (View.ld fx (Rect.unit (s := S36x8x128) (k0_off680 k) S1x1x16.size (k0_off680_inb k))) (View.ld fw (Rect.unit (s := S576) ![16] S16.size inb_S576_S16_16))
        (View.ld fx (Rect.unit (s := S36x8x128) (k0_off681 k) S1x1x16.size (k0_off681_inb k))) (View.ld fw (Rect.unit (s := S576) ![32] S16.size inb_S576_S16_32))
        (View.ld fx (Rect.unit (s := S36x8x128) (k0_off682 k) S1x1x16.size (k0_off682_inb k))) (View.ld fw (Rect.unit (s := S576) ![48] S16.size inb_S576_S16_48))
        (View.ld fx (Rect.unit (s := S36x8x128) (k0_off683 k) S1x1x16.size (k0_off683_inb k))) (View.ld fw (Rect.unit (s := S576) ![64] S16.size inb_S576_S16_64))
        (View.ld fx (Rect.unit (s := S36x8x128) (k0_off684 k) S1x1x16.size (k0_off684_inb k))) (View.ld fw (Rect.unit (s := S576) ![80] S16.size inb_S576_S16_80))⟩,
    ⟨Rect.unit (s := S12x8x128) (k0_off678 k) S1x1x16.size (k0_off678_inb k),
      chunkVal (View.ld fx (Rect.unit (s := S36x8x128) (k0_off636 k) S1x1x16.size (k0_off636_inb k))) (View.ld fw (Rect.unit (s := S576) ![80] S16.size inb_S576_S16_80))
        (View.ld fx (Rect.unit (s := S36x8x128) (k0_off642 k) S1x1x16.size (k0_off642_inb k))) (View.ld fw (Rect.unit (s := S576) ![176] S16.size inb_S576_S16_176))
        (View.ld fx (Rect.unit (s := S36x8x128) (k0_off648 k) S1x1x16.size (k0_off648_inb k))) (View.ld fw (Rect.unit (s := S576) ![272] S16.size inb_S576_S16_272))
        (View.ld fx (Rect.unit (s := S36x8x128) (k0_off654 k) S1x1x16.size (k0_off654_inb k))) (View.ld fw (Rect.unit (s := S576) ![368] S16.size inb_S576_S16_368))
        (View.ld fx (Rect.unit (s := S36x8x128) (k0_off660 k) S1x1x16.size (k0_off660_inb k))) (View.ld fw (Rect.unit (s := S576) ![464] S16.size inb_S576_S16_464))
        (View.ld fx (Rect.unit (s := S36x8x128) (k0_off666 k) S1x1x16.size (k0_off666_inb k))) (View.ld fw (Rect.unit (s := S576) ![560] S16.size inb_S576_S16_560))⟩,
    ⟨Rect.unit (s := S12x8x128) (k0_off677 k) S1x1x16.size (k0_off677_inb k),
      chunkVal (View.ld fx (Rect.unit (s := S36x8x128) (k0_off635 k) S1x1x16.size (k0_off635_inb k))) (View.ld fw (Rect.unit (s := S576) ![64] S16.size inb_S576_S16_64))
        (View.ld fx (Rect.unit (s := S36x8x128) (k0_off641 k) S1x1x16.size (k0_off641_inb k))) (View.ld fw (Rect.unit (s := S576) ![160] S16.size inb_S576_S16_160))
        (View.ld fx (Rect.unit (s := S36x8x128) (k0_off647 k) S1x1x16.size (k0_off647_inb k))) (View.ld fw (Rect.unit (s := S576) ![256] S16.size inb_S576_S16_256))
        (View.ld fx (Rect.unit (s := S36x8x128) (k0_off653 k) S1x1x16.size (k0_off653_inb k))) (View.ld fw (Rect.unit (s := S576) ![352] S16.size inb_S576_S16_352))
        (View.ld fx (Rect.unit (s := S36x8x128) (k0_off659 k) S1x1x16.size (k0_off659_inb k))) (View.ld fw (Rect.unit (s := S576) ![448] S16.size inb_S576_S16_448))
        (View.ld fx (Rect.unit (s := S36x8x128) (k0_off665 k) S1x1x16.size (k0_off665_inb k))) (View.ld fw (Rect.unit (s := S576) ![544] S16.size inb_S576_S16_544))⟩,
    ⟨Rect.unit (s := S12x8x128) (k0_off676 k) S1x1x16.size (k0_off676_inb k),
      chunkVal (View.ld fx (Rect.unit (s := S36x8x128) (k0_off634 k) S1x1x16.size (k0_off634_inb k))) (View.ld fw (Rect.unit (s := S576) ![48] S16.size inb_S576_S16_48))
        (View.ld fx (Rect.unit (s := S36x8x128) (k0_off640 k) S1x1x16.size (k0_off640_inb k))) (View.ld fw (Rect.unit (s := S576) ![144] S16.size inb_S576_S16_144))
        (View.ld fx (Rect.unit (s := S36x8x128) (k0_off646 k) S1x1x16.size (k0_off646_inb k))) (View.ld fw (Rect.unit (s := S576) ![240] S16.size inb_S576_S16_240))
        (View.ld fx (Rect.unit (s := S36x8x128) (k0_off652 k) S1x1x16.size (k0_off652_inb k))) (View.ld fw (Rect.unit (s := S576) ![336] S16.size inb_S576_S16_336))
        (View.ld fx (Rect.unit (s := S36x8x128) (k0_off658 k) S1x1x16.size (k0_off658_inb k))) (View.ld fw (Rect.unit (s := S576) ![432] S16.size inb_S576_S16_432))
        (View.ld fx (Rect.unit (s := S36x8x128) (k0_off664 k) S1x1x16.size (k0_off664_inb k))) (View.ld fw (Rect.unit (s := S576) ![528] S16.size inb_S576_S16_528))⟩,
    ⟨Rect.unit (s := S12x8x128) (k0_off675 k) S1x1x16.size (k0_off675_inb k),
      chunkVal (View.ld fx (Rect.unit (s := S36x8x128) (k0_off633 k) S1x1x16.size (k0_off633_inb k))) (View.ld fw (Rect.unit (s := S576) ![32] S16.size inb_S576_S16_32))
        (View.ld fx (Rect.unit (s := S36x8x128) (k0_off639 k) S1x1x16.size (k0_off639_inb k))) (View.ld fw (Rect.unit (s := S576) ![128] S16.size inb_S576_S16_128))
        (View.ld fx (Rect.unit (s := S36x8x128) (k0_off645 k) S1x1x16.size (k0_off645_inb k))) (View.ld fw (Rect.unit (s := S576) ![224] S16.size inb_S576_S16_224))
        (View.ld fx (Rect.unit (s := S36x8x128) (k0_off651 k) S1x1x16.size (k0_off651_inb k))) (View.ld fw (Rect.unit (s := S576) ![320] S16.size inb_S576_S16_320))
        (View.ld fx (Rect.unit (s := S36x8x128) (k0_off657 k) S1x1x16.size (k0_off657_inb k))) (View.ld fw (Rect.unit (s := S576) ![416] S16.size inb_S576_S16_416))
        (View.ld fx (Rect.unit (s := S36x8x128) (k0_off663 k) S1x1x16.size (k0_off663_inb k))) (View.ld fw (Rect.unit (s := S576) ![512] S16.size inb_S576_S16_512))⟩,
    ⟨Rect.unit (s := S12x8x128) (k0_off674 k) S1x1x16.size (k0_off674_inb k),
      chunkVal (View.ld fx (Rect.unit (s := S36x8x128) (k0_off632 k) S1x1x16.size (k0_off632_inb k))) (View.ld fw (Rect.unit (s := S576) ![16] S16.size inb_S576_S16_16))
        (View.ld fx (Rect.unit (s := S36x8x128) (k0_off638 k) S1x1x16.size (k0_off638_inb k))) (View.ld fw (Rect.unit (s := S576) ![112] S16.size inb_S576_S16_112))
        (View.ld fx (Rect.unit (s := S36x8x128) (k0_off644 k) S1x1x16.size (k0_off644_inb k))) (View.ld fw (Rect.unit (s := S576) ![208] S16.size inb_S576_S16_208))
        (View.ld fx (Rect.unit (s := S36x8x128) (k0_off650 k) S1x1x16.size (k0_off650_inb k))) (View.ld fw (Rect.unit (s := S576) ![304] S16.size inb_S576_S16_304))
        (View.ld fx (Rect.unit (s := S36x8x128) (k0_off656 k) S1x1x16.size (k0_off656_inb k))) (View.ld fw (Rect.unit (s := S576) ![400] S16.size inb_S576_S16_400))
        (View.ld fx (Rect.unit (s := S36x8x128) (k0_off662 k) S1x1x16.size (k0_off662_inb k))) (View.ld fw (Rect.unit (s := S576) ![496] S16.size inb_S576_S16_496))⟩,
    ⟨Rect.unit (s := S12x8x128) (k0_off673 k) S1x1x16.size (k0_off673_inb k),
      chunkVal (View.ld fx (Rect.unit (s := S36x8x128) (k0_off631 k) S1x1x16.size (k0_off631_inb k))) (View.ld fw (Rect.unit (s := S576) ![0] S16.size inb_S576_S16_0))
        (View.ld fx (Rect.unit (s := S36x8x128) (k0_off637 k) S1x1x16.size (k0_off637_inb k))) (View.ld fw (Rect.unit (s := S576) ![96] S16.size inb_S576_S16_96))
        (View.ld fx (Rect.unit (s := S36x8x128) (k0_off643 k) S1x1x16.size (k0_off643_inb k))) (View.ld fw (Rect.unit (s := S576) ![192] S16.size inb_S576_S16_192))
        (View.ld fx (Rect.unit (s := S36x8x128) (k0_off649 k) S1x1x16.size (k0_off649_inb k))) (View.ld fw (Rect.unit (s := S576) ![288] S16.size inb_S576_S16_288))
        (View.ld fx (Rect.unit (s := S36x8x128) (k0_off655 k) S1x1x16.size (k0_off655_inb k))) (View.ld fw (Rect.unit (s := S576) ![384] S16.size inb_S576_S16_384))
        (View.ld fx (Rect.unit (s := S36x8x128) (k0_off661 k) S1x1x16.size (k0_off661_inb k))) (View.ld fw (Rect.unit (s := S576) ![480] S16.size inb_S576_S16_480))⟩,
    ⟨Rect.unit (s := S12x8x128) (k0_off672 k) S1x1x16.size (k0_off672_inb k),
      chunkVal (View.ld fx (Rect.unit (s := S36x8x128) (k0_off661 k) S1x1x16.size (k0_off661_inb k))) (View.ld fw (Rect.unit (s := S576) ![480] S16.size inb_S576_S16_480))
        (View.ld fx (Rect.unit (s := S36x8x128) (k0_off662 k) S1x1x16.size (k0_off662_inb k))) (View.ld fw (Rect.unit (s := S576) ![496] S16.size inb_S576_S16_496))
        (View.ld fx (Rect.unit (s := S36x8x128) (k0_off663 k) S1x1x16.size (k0_off663_inb k))) (View.ld fw (Rect.unit (s := S576) ![512] S16.size inb_S576_S16_512))
        (View.ld fx (Rect.unit (s := S36x8x128) (k0_off664 k) S1x1x16.size (k0_off664_inb k))) (View.ld fw (Rect.unit (s := S576) ![528] S16.size inb_S576_S16_528))
        (View.ld fx (Rect.unit (s := S36x8x128) (k0_off665 k) S1x1x16.size (k0_off665_inb k))) (View.ld fw (Rect.unit (s := S576) ![544] S16.size inb_S576_S16_544))
        (View.ld fx (Rect.unit (s := S36x8x128) (k0_off666 k) S1x1x16.size (k0_off666_inb k))) (View.ld fw (Rect.unit (s := S576) ![560] S16.size inb_S576_S16_560))⟩,
    ⟨Rect.unit (s := S12x8x128) (k0_off671 k) S1x1x16.size (k0_off671_inb k),
      chunkVal (View.ld fx (Rect.unit (s := S36x8x128) (k0_off655 k) S1x1x16.size (k0_off655_inb k))) (View.ld fw (Rect.unit (s := S576) ![384] S16.size inb_S576_S16_384))
        (View.ld fx (Rect.unit (s := S36x8x128) (k0_off656 k) S1x1x16.size (k0_off656_inb k))) (View.ld fw (Rect.unit (s := S576) ![400] S16.size inb_S576_S16_400))
        (View.ld fx (Rect.unit (s := S36x8x128) (k0_off657 k) S1x1x16.size (k0_off657_inb k))) (View.ld fw (Rect.unit (s := S576) ![416] S16.size inb_S576_S16_416))
        (View.ld fx (Rect.unit (s := S36x8x128) (k0_off658 k) S1x1x16.size (k0_off658_inb k))) (View.ld fw (Rect.unit (s := S576) ![432] S16.size inb_S576_S16_432))
        (View.ld fx (Rect.unit (s := S36x8x128) (k0_off659 k) S1x1x16.size (k0_off659_inb k))) (View.ld fw (Rect.unit (s := S576) ![448] S16.size inb_S576_S16_448))
        (View.ld fx (Rect.unit (s := S36x8x128) (k0_off660 k) S1x1x16.size (k0_off660_inb k))) (View.ld fw (Rect.unit (s := S576) ![464] S16.size inb_S576_S16_464))⟩,
    ⟨Rect.unit (s := S12x8x128) (k0_off670 k) S1x1x16.size (k0_off670_inb k),
      chunkVal (View.ld fx (Rect.unit (s := S36x8x128) (k0_off649 k) S1x1x16.size (k0_off649_inb k))) (View.ld fw (Rect.unit (s := S576) ![288] S16.size inb_S576_S16_288))
        (View.ld fx (Rect.unit (s := S36x8x128) (k0_off650 k) S1x1x16.size (k0_off650_inb k))) (View.ld fw (Rect.unit (s := S576) ![304] S16.size inb_S576_S16_304))
        (View.ld fx (Rect.unit (s := S36x8x128) (k0_off651 k) S1x1x16.size (k0_off651_inb k))) (View.ld fw (Rect.unit (s := S576) ![320] S16.size inb_S576_S16_320))
        (View.ld fx (Rect.unit (s := S36x8x128) (k0_off652 k) S1x1x16.size (k0_off652_inb k))) (View.ld fw (Rect.unit (s := S576) ![336] S16.size inb_S576_S16_336))
        (View.ld fx (Rect.unit (s := S36x8x128) (k0_off653 k) S1x1x16.size (k0_off653_inb k))) (View.ld fw (Rect.unit (s := S576) ![352] S16.size inb_S576_S16_352))
        (View.ld fx (Rect.unit (s := S36x8x128) (k0_off654 k) S1x1x16.size (k0_off654_inb k))) (View.ld fw (Rect.unit (s := S576) ![368] S16.size inb_S576_S16_368))⟩,
    ⟨Rect.unit (s := S12x8x128) (k0_off669 k) S1x1x16.size (k0_off669_inb k),
      chunkVal (View.ld fx (Rect.unit (s := S36x8x128) (k0_off643 k) S1x1x16.size (k0_off643_inb k))) (View.ld fw (Rect.unit (s := S576) ![192] S16.size inb_S576_S16_192))
        (View.ld fx (Rect.unit (s := S36x8x128) (k0_off644 k) S1x1x16.size (k0_off644_inb k))) (View.ld fw (Rect.unit (s := S576) ![208] S16.size inb_S576_S16_208))
        (View.ld fx (Rect.unit (s := S36x8x128) (k0_off645 k) S1x1x16.size (k0_off645_inb k))) (View.ld fw (Rect.unit (s := S576) ![224] S16.size inb_S576_S16_224))
        (View.ld fx (Rect.unit (s := S36x8x128) (k0_off646 k) S1x1x16.size (k0_off646_inb k))) (View.ld fw (Rect.unit (s := S576) ![240] S16.size inb_S576_S16_240))
        (View.ld fx (Rect.unit (s := S36x8x128) (k0_off647 k) S1x1x16.size (k0_off647_inb k))) (View.ld fw (Rect.unit (s := S576) ![256] S16.size inb_S576_S16_256))
        (View.ld fx (Rect.unit (s := S36x8x128) (k0_off648 k) S1x1x16.size (k0_off648_inb k))) (View.ld fw (Rect.unit (s := S576) ![272] S16.size inb_S576_S16_272))⟩,
    ⟨Rect.unit (s := S12x8x128) (k0_off668 k) S1x1x16.size (k0_off668_inb k),
      chunkVal (View.ld fx (Rect.unit (s := S36x8x128) (k0_off637 k) S1x1x16.size (k0_off637_inb k))) (View.ld fw (Rect.unit (s := S576) ![96] S16.size inb_S576_S16_96))
        (View.ld fx (Rect.unit (s := S36x8x128) (k0_off638 k) S1x1x16.size (k0_off638_inb k))) (View.ld fw (Rect.unit (s := S576) ![112] S16.size inb_S576_S16_112))
        (View.ld fx (Rect.unit (s := S36x8x128) (k0_off639 k) S1x1x16.size (k0_off639_inb k))) (View.ld fw (Rect.unit (s := S576) ![128] S16.size inb_S576_S16_128))
        (View.ld fx (Rect.unit (s := S36x8x128) (k0_off640 k) S1x1x16.size (k0_off640_inb k))) (View.ld fw (Rect.unit (s := S576) ![144] S16.size inb_S576_S16_144))
        (View.ld fx (Rect.unit (s := S36x8x128) (k0_off641 k) S1x1x16.size (k0_off641_inb k))) (View.ld fw (Rect.unit (s := S576) ![160] S16.size inb_S576_S16_160))
        (View.ld fx (Rect.unit (s := S36x8x128) (k0_off642 k) S1x1x16.size (k0_off642_inb k))) (View.ld fw (Rect.unit (s := S576) ![176] S16.size inb_S576_S16_176))⟩,
    ⟨Rect.unit (s := S12x8x128) (k0_off667 k) S1x1x16.size (k0_off667_inb k),
      chunkVal (View.ld fx (Rect.unit (s := S36x8x128) (k0_off631 k) S1x1x16.size (k0_off631_inb k))) (View.ld fw (Rect.unit (s := S576) ![0] S16.size inb_S576_S16_0))
        (View.ld fx (Rect.unit (s := S36x8x128) (k0_off632 k) S1x1x16.size (k0_off632_inb k))) (View.ld fw (Rect.unit (s := S576) ![16] S16.size inb_S576_S16_16))
        (View.ld fx (Rect.unit (s := S36x8x128) (k0_off633 k) S1x1x16.size (k0_off633_inb k))) (View.ld fw (Rect.unit (s := S576) ![32] S16.size inb_S576_S16_32))
        (View.ld fx (Rect.unit (s := S36x8x128) (k0_off634 k) S1x1x16.size (k0_off634_inb k))) (View.ld fw (Rect.unit (s := S576) ![48] S16.size inb_S576_S16_48))
        (View.ld fx (Rect.unit (s := S36x8x128) (k0_off635 k) S1x1x16.size (k0_off635_inb k))) (View.ld fw (Rect.unit (s := S576) ![64] S16.size inb_S576_S16_64))
        (View.ld fx (Rect.unit (s := S36x8x128) (k0_off636 k) S1x1x16.size (k0_off636_inb k))) (View.ld fw (Rect.unit (s := S576) ![80] S16.size inb_S576_S16_80))⟩,
    ⟨Rect.unit (s := S12x8x128) (k0_off630 k) S1x1x16.size (k0_off630_inb k),
      chunkVal (View.ld fx (Rect.unit (s := S36x8x128) (k0_off588 k) S1x1x16.size (k0_off588_inb k))) (View.ld fw (Rect.unit (s := S576) ![80] S16.size inb_S576_S16_80))
        (View.ld fx (Rect.unit (s := S36x8x128) (k0_off594 k) S1x1x16.size (k0_off594_inb k))) (View.ld fw (Rect.unit (s := S576) ![176] S16.size inb_S576_S16_176))
        (View.ld fx (Rect.unit (s := S36x8x128) (k0_off600 k) S1x1x16.size (k0_off600_inb k))) (View.ld fw (Rect.unit (s := S576) ![272] S16.size inb_S576_S16_272))
        (View.ld fx (Rect.unit (s := S36x8x128) (k0_off606 k) S1x1x16.size (k0_off606_inb k))) (View.ld fw (Rect.unit (s := S576) ![368] S16.size inb_S576_S16_368))
        (View.ld fx (Rect.unit (s := S36x8x128) (k0_off612 k) S1x1x16.size (k0_off612_inb k))) (View.ld fw (Rect.unit (s := S576) ![464] S16.size inb_S576_S16_464))
        (View.ld fx (Rect.unit (s := S36x8x128) (k0_off618 k) S1x1x16.size (k0_off618_inb k))) (View.ld fw (Rect.unit (s := S576) ![560] S16.size inb_S576_S16_560))⟩,
    ⟨Rect.unit (s := S12x8x128) (k0_off629 k) S1x1x16.size (k0_off629_inb k),
      chunkVal (View.ld fx (Rect.unit (s := S36x8x128) (k0_off587 k) S1x1x16.size (k0_off587_inb k))) (View.ld fw (Rect.unit (s := S576) ![64] S16.size inb_S576_S16_64))
        (View.ld fx (Rect.unit (s := S36x8x128) (k0_off593 k) S1x1x16.size (k0_off593_inb k))) (View.ld fw (Rect.unit (s := S576) ![160] S16.size inb_S576_S16_160))
        (View.ld fx (Rect.unit (s := S36x8x128) (k0_off599 k) S1x1x16.size (k0_off599_inb k))) (View.ld fw (Rect.unit (s := S576) ![256] S16.size inb_S576_S16_256))
        (View.ld fx (Rect.unit (s := S36x8x128) (k0_off605 k) S1x1x16.size (k0_off605_inb k))) (View.ld fw (Rect.unit (s := S576) ![352] S16.size inb_S576_S16_352))
        (View.ld fx (Rect.unit (s := S36x8x128) (k0_off611 k) S1x1x16.size (k0_off611_inb k))) (View.ld fw (Rect.unit (s := S576) ![448] S16.size inb_S576_S16_448))
        (View.ld fx (Rect.unit (s := S36x8x128) (k0_off617 k) S1x1x16.size (k0_off617_inb k))) (View.ld fw (Rect.unit (s := S576) ![544] S16.size inb_S576_S16_544))⟩,
    ⟨Rect.unit (s := S12x8x128) (k0_off628 k) S1x1x16.size (k0_off628_inb k),
      chunkVal (View.ld fx (Rect.unit (s := S36x8x128) (k0_off586 k) S1x1x16.size (k0_off586_inb k))) (View.ld fw (Rect.unit (s := S576) ![48] S16.size inb_S576_S16_48))
        (View.ld fx (Rect.unit (s := S36x8x128) (k0_off592 k) S1x1x16.size (k0_off592_inb k))) (View.ld fw (Rect.unit (s := S576) ![144] S16.size inb_S576_S16_144))
        (View.ld fx (Rect.unit (s := S36x8x128) (k0_off598 k) S1x1x16.size (k0_off598_inb k))) (View.ld fw (Rect.unit (s := S576) ![240] S16.size inb_S576_S16_240))
        (View.ld fx (Rect.unit (s := S36x8x128) (k0_off604 k) S1x1x16.size (k0_off604_inb k))) (View.ld fw (Rect.unit (s := S576) ![336] S16.size inb_S576_S16_336))
        (View.ld fx (Rect.unit (s := S36x8x128) (k0_off610 k) S1x1x16.size (k0_off610_inb k))) (View.ld fw (Rect.unit (s := S576) ![432] S16.size inb_S576_S16_432))
        (View.ld fx (Rect.unit (s := S36x8x128) (k0_off616 k) S1x1x16.size (k0_off616_inb k))) (View.ld fw (Rect.unit (s := S576) ![528] S16.size inb_S576_S16_528))⟩,
    ⟨Rect.unit (s := S12x8x128) (k0_off627 k) S1x1x16.size (k0_off627_inb k),
      chunkVal (View.ld fx (Rect.unit (s := S36x8x128) (k0_off585 k) S1x1x16.size (k0_off585_inb k))) (View.ld fw (Rect.unit (s := S576) ![32] S16.size inb_S576_S16_32))
        (View.ld fx (Rect.unit (s := S36x8x128) (k0_off591 k) S1x1x16.size (k0_off591_inb k))) (View.ld fw (Rect.unit (s := S576) ![128] S16.size inb_S576_S16_128))
        (View.ld fx (Rect.unit (s := S36x8x128) (k0_off597 k) S1x1x16.size (k0_off597_inb k))) (View.ld fw (Rect.unit (s := S576) ![224] S16.size inb_S576_S16_224))
        (View.ld fx (Rect.unit (s := S36x8x128) (k0_off603 k) S1x1x16.size (k0_off603_inb k))) (View.ld fw (Rect.unit (s := S576) ![320] S16.size inb_S576_S16_320))
        (View.ld fx (Rect.unit (s := S36x8x128) (k0_off609 k) S1x1x16.size (k0_off609_inb k))) (View.ld fw (Rect.unit (s := S576) ![416] S16.size inb_S576_S16_416))
        (View.ld fx (Rect.unit (s := S36x8x128) (k0_off615 k) S1x1x16.size (k0_off615_inb k))) (View.ld fw (Rect.unit (s := S576) ![512] S16.size inb_S576_S16_512))⟩,
    ⟨Rect.unit (s := S12x8x128) (k0_off626 k) S1x1x16.size (k0_off626_inb k),
      chunkVal (View.ld fx (Rect.unit (s := S36x8x128) (k0_off584 k) S1x1x16.size (k0_off584_inb k))) (View.ld fw (Rect.unit (s := S576) ![16] S16.size inb_S576_S16_16))
        (View.ld fx (Rect.unit (s := S36x8x128) (k0_off590 k) S1x1x16.size (k0_off590_inb k))) (View.ld fw (Rect.unit (s := S576) ![112] S16.size inb_S576_S16_112))
        (View.ld fx (Rect.unit (s := S36x8x128) (k0_off596 k) S1x1x16.size (k0_off596_inb k))) (View.ld fw (Rect.unit (s := S576) ![208] S16.size inb_S576_S16_208))
        (View.ld fx (Rect.unit (s := S36x8x128) (k0_off602 k) S1x1x16.size (k0_off602_inb k))) (View.ld fw (Rect.unit (s := S576) ![304] S16.size inb_S576_S16_304))
        (View.ld fx (Rect.unit (s := S36x8x128) (k0_off608 k) S1x1x16.size (k0_off608_inb k))) (View.ld fw (Rect.unit (s := S576) ![400] S16.size inb_S576_S16_400))
        (View.ld fx (Rect.unit (s := S36x8x128) (k0_off614 k) S1x1x16.size (k0_off614_inb k))) (View.ld fw (Rect.unit (s := S576) ![496] S16.size inb_S576_S16_496))⟩,
    ⟨Rect.unit (s := S12x8x128) (k0_off625 k) S1x1x16.size (k0_off625_inb k),
      chunkVal (View.ld fx (Rect.unit (s := S36x8x128) (k0_off583 k) S1x1x16.size (k0_off583_inb k))) (View.ld fw (Rect.unit (s := S576) ![0] S16.size inb_S576_S16_0))
        (View.ld fx (Rect.unit (s := S36x8x128) (k0_off589 k) S1x1x16.size (k0_off589_inb k))) (View.ld fw (Rect.unit (s := S576) ![96] S16.size inb_S576_S16_96))
        (View.ld fx (Rect.unit (s := S36x8x128) (k0_off595 k) S1x1x16.size (k0_off595_inb k))) (View.ld fw (Rect.unit (s := S576) ![192] S16.size inb_S576_S16_192))
        (View.ld fx (Rect.unit (s := S36x8x128) (k0_off601 k) S1x1x16.size (k0_off601_inb k))) (View.ld fw (Rect.unit (s := S576) ![288] S16.size inb_S576_S16_288))
        (View.ld fx (Rect.unit (s := S36x8x128) (k0_off607 k) S1x1x16.size (k0_off607_inb k))) (View.ld fw (Rect.unit (s := S576) ![384] S16.size inb_S576_S16_384))
        (View.ld fx (Rect.unit (s := S36x8x128) (k0_off613 k) S1x1x16.size (k0_off613_inb k))) (View.ld fw (Rect.unit (s := S576) ![480] S16.size inb_S576_S16_480))⟩,
    ⟨Rect.unit (s := S12x8x128) (k0_off624 k) S1x1x16.size (k0_off624_inb k),
      chunkVal (View.ld fx (Rect.unit (s := S36x8x128) (k0_off613 k) S1x1x16.size (k0_off613_inb k))) (View.ld fw (Rect.unit (s := S576) ![480] S16.size inb_S576_S16_480))
        (View.ld fx (Rect.unit (s := S36x8x128) (k0_off614 k) S1x1x16.size (k0_off614_inb k))) (View.ld fw (Rect.unit (s := S576) ![496] S16.size inb_S576_S16_496))
        (View.ld fx (Rect.unit (s := S36x8x128) (k0_off615 k) S1x1x16.size (k0_off615_inb k))) (View.ld fw (Rect.unit (s := S576) ![512] S16.size inb_S576_S16_512))
        (View.ld fx (Rect.unit (s := S36x8x128) (k0_off616 k) S1x1x16.size (k0_off616_inb k))) (View.ld fw (Rect.unit (s := S576) ![528] S16.size inb_S576_S16_528))
        (View.ld fx (Rect.unit (s := S36x8x128) (k0_off617 k) S1x1x16.size (k0_off617_inb k))) (View.ld fw (Rect.unit (s := S576) ![544] S16.size inb_S576_S16_544))
        (View.ld fx (Rect.unit (s := S36x8x128) (k0_off618 k) S1x1x16.size (k0_off618_inb k))) (View.ld fw (Rect.unit (s := S576) ![560] S16.size inb_S576_S16_560))⟩,
    ⟨Rect.unit (s := S12x8x128) (k0_off623 k) S1x1x16.size (k0_off623_inb k),
      chunkVal (View.ld fx (Rect.unit (s := S36x8x128) (k0_off607 k) S1x1x16.size (k0_off607_inb k))) (View.ld fw (Rect.unit (s := S576) ![384] S16.size inb_S576_S16_384))
        (View.ld fx (Rect.unit (s := S36x8x128) (k0_off608 k) S1x1x16.size (k0_off608_inb k))) (View.ld fw (Rect.unit (s := S576) ![400] S16.size inb_S576_S16_400))
        (View.ld fx (Rect.unit (s := S36x8x128) (k0_off609 k) S1x1x16.size (k0_off609_inb k))) (View.ld fw (Rect.unit (s := S576) ![416] S16.size inb_S576_S16_416))
        (View.ld fx (Rect.unit (s := S36x8x128) (k0_off610 k) S1x1x16.size (k0_off610_inb k))) (View.ld fw (Rect.unit (s := S576) ![432] S16.size inb_S576_S16_432))
        (View.ld fx (Rect.unit (s := S36x8x128) (k0_off611 k) S1x1x16.size (k0_off611_inb k))) (View.ld fw (Rect.unit (s := S576) ![448] S16.size inb_S576_S16_448))
        (View.ld fx (Rect.unit (s := S36x8x128) (k0_off612 k) S1x1x16.size (k0_off612_inb k))) (View.ld fw (Rect.unit (s := S576) ![464] S16.size inb_S576_S16_464))⟩,
    ⟨Rect.unit (s := S12x8x128) (k0_off622 k) S1x1x16.size (k0_off622_inb k),
      chunkVal (View.ld fx (Rect.unit (s := S36x8x128) (k0_off601 k) S1x1x16.size (k0_off601_inb k))) (View.ld fw (Rect.unit (s := S576) ![288] S16.size inb_S576_S16_288))
        (View.ld fx (Rect.unit (s := S36x8x128) (k0_off602 k) S1x1x16.size (k0_off602_inb k))) (View.ld fw (Rect.unit (s := S576) ![304] S16.size inb_S576_S16_304))
        (View.ld fx (Rect.unit (s := S36x8x128) (k0_off603 k) S1x1x16.size (k0_off603_inb k))) (View.ld fw (Rect.unit (s := S576) ![320] S16.size inb_S576_S16_320))
        (View.ld fx (Rect.unit (s := S36x8x128) (k0_off604 k) S1x1x16.size (k0_off604_inb k))) (View.ld fw (Rect.unit (s := S576) ![336] S16.size inb_S576_S16_336))
        (View.ld fx (Rect.unit (s := S36x8x128) (k0_off605 k) S1x1x16.size (k0_off605_inb k))) (View.ld fw (Rect.unit (s := S576) ![352] S16.size inb_S576_S16_352))
        (View.ld fx (Rect.unit (s := S36x8x128) (k0_off606 k) S1x1x16.size (k0_off606_inb k))) (View.ld fw (Rect.unit (s := S576) ![368] S16.size inb_S576_S16_368))⟩,
    ⟨Rect.unit (s := S12x8x128) (k0_off621 k) S1x1x16.size (k0_off621_inb k),
      chunkVal (View.ld fx (Rect.unit (s := S36x8x128) (k0_off595 k) S1x1x16.size (k0_off595_inb k))) (View.ld fw (Rect.unit (s := S576) ![192] S16.size inb_S576_S16_192))
        (View.ld fx (Rect.unit (s := S36x8x128) (k0_off596 k) S1x1x16.size (k0_off596_inb k))) (View.ld fw (Rect.unit (s := S576) ![208] S16.size inb_S576_S16_208))
        (View.ld fx (Rect.unit (s := S36x8x128) (k0_off597 k) S1x1x16.size (k0_off597_inb k))) (View.ld fw (Rect.unit (s := S576) ![224] S16.size inb_S576_S16_224))
        (View.ld fx (Rect.unit (s := S36x8x128) (k0_off598 k) S1x1x16.size (k0_off598_inb k))) (View.ld fw (Rect.unit (s := S576) ![240] S16.size inb_S576_S16_240))
        (View.ld fx (Rect.unit (s := S36x8x128) (k0_off599 k) S1x1x16.size (k0_off599_inb k))) (View.ld fw (Rect.unit (s := S576) ![256] S16.size inb_S576_S16_256))
        (View.ld fx (Rect.unit (s := S36x8x128) (k0_off600 k) S1x1x16.size (k0_off600_inb k))) (View.ld fw (Rect.unit (s := S576) ![272] S16.size inb_S576_S16_272))⟩,
    ⟨Rect.unit (s := S12x8x128) (k0_off620 k) S1x1x16.size (k0_off620_inb k),
      chunkVal (View.ld fx (Rect.unit (s := S36x8x128) (k0_off589 k) S1x1x16.size (k0_off589_inb k))) (View.ld fw (Rect.unit (s := S576) ![96] S16.size inb_S576_S16_96))
        (View.ld fx (Rect.unit (s := S36x8x128) (k0_off590 k) S1x1x16.size (k0_off590_inb k))) (View.ld fw (Rect.unit (s := S576) ![112] S16.size inb_S576_S16_112))
        (View.ld fx (Rect.unit (s := S36x8x128) (k0_off591 k) S1x1x16.size (k0_off591_inb k))) (View.ld fw (Rect.unit (s := S576) ![128] S16.size inb_S576_S16_128))
        (View.ld fx (Rect.unit (s := S36x8x128) (k0_off592 k) S1x1x16.size (k0_off592_inb k))) (View.ld fw (Rect.unit (s := S576) ![144] S16.size inb_S576_S16_144))
        (View.ld fx (Rect.unit (s := S36x8x128) (k0_off593 k) S1x1x16.size (k0_off593_inb k))) (View.ld fw (Rect.unit (s := S576) ![160] S16.size inb_S576_S16_160))
        (View.ld fx (Rect.unit (s := S36x8x128) (k0_off594 k) S1x1x16.size (k0_off594_inb k))) (View.ld fw (Rect.unit (s := S576) ![176] S16.size inb_S576_S16_176))⟩,
    ⟨Rect.unit (s := S12x8x128) (k0_off619 k) S1x1x16.size (k0_off619_inb k),
      chunkVal (View.ld fx (Rect.unit (s := S36x8x128) (k0_off583 k) S1x1x16.size (k0_off583_inb k))) (View.ld fw (Rect.unit (s := S576) ![0] S16.size inb_S576_S16_0))
        (View.ld fx (Rect.unit (s := S36x8x128) (k0_off584 k) S1x1x16.size (k0_off584_inb k))) (View.ld fw (Rect.unit (s := S576) ![16] S16.size inb_S576_S16_16))
        (View.ld fx (Rect.unit (s := S36x8x128) (k0_off585 k) S1x1x16.size (k0_off585_inb k))) (View.ld fw (Rect.unit (s := S576) ![32] S16.size inb_S576_S16_32))
        (View.ld fx (Rect.unit (s := S36x8x128) (k0_off586 k) S1x1x16.size (k0_off586_inb k))) (View.ld fw (Rect.unit (s := S576) ![48] S16.size inb_S576_S16_48))
        (View.ld fx (Rect.unit (s := S36x8x128) (k0_off587 k) S1x1x16.size (k0_off587_inb k))) (View.ld fw (Rect.unit (s := S576) ![64] S16.size inb_S576_S16_64))
        (View.ld fx (Rect.unit (s := S36x8x128) (k0_off588 k) S1x1x16.size (k0_off588_inb k))) (View.ld fw (Rect.unit (s := S576) ![80] S16.size inb_S576_S16_80))⟩,
    ⟨Rect.unit (s := S12x8x128) (k0_off582 k) S1x1x16.size (k0_off582_inb k),
      chunkVal (View.ld fx (Rect.unit (s := S36x8x128) (k0_off540 k) S1x1x16.size (k0_off540_inb k))) (View.ld fw (Rect.unit (s := S576) ![80] S16.size inb_S576_S16_80))
        (View.ld fx (Rect.unit (s := S36x8x128) (k0_off546 k) S1x1x16.size (k0_off546_inb k))) (View.ld fw (Rect.unit (s := S576) ![176] S16.size inb_S576_S16_176))
        (View.ld fx (Rect.unit (s := S36x8x128) (k0_off552 k) S1x1x16.size (k0_off552_inb k))) (View.ld fw (Rect.unit (s := S576) ![272] S16.size inb_S576_S16_272))
        (View.ld fx (Rect.unit (s := S36x8x128) (k0_off558 k) S1x1x16.size (k0_off558_inb k))) (View.ld fw (Rect.unit (s := S576) ![368] S16.size inb_S576_S16_368))
        (View.ld fx (Rect.unit (s := S36x8x128) (k0_off564 k) S1x1x16.size (k0_off564_inb k))) (View.ld fw (Rect.unit (s := S576) ![464] S16.size inb_S576_S16_464))
        (View.ld fx (Rect.unit (s := S36x8x128) (k0_off570 k) S1x1x16.size (k0_off570_inb k))) (View.ld fw (Rect.unit (s := S576) ![560] S16.size inb_S576_S16_560))⟩,
    ⟨Rect.unit (s := S12x8x128) (k0_off581 k) S1x1x16.size (k0_off581_inb k),
      chunkVal (View.ld fx (Rect.unit (s := S36x8x128) (k0_off539 k) S1x1x16.size (k0_off539_inb k))) (View.ld fw (Rect.unit (s := S576) ![64] S16.size inb_S576_S16_64))
        (View.ld fx (Rect.unit (s := S36x8x128) (k0_off545 k) S1x1x16.size (k0_off545_inb k))) (View.ld fw (Rect.unit (s := S576) ![160] S16.size inb_S576_S16_160))
        (View.ld fx (Rect.unit (s := S36x8x128) (k0_off551 k) S1x1x16.size (k0_off551_inb k))) (View.ld fw (Rect.unit (s := S576) ![256] S16.size inb_S576_S16_256))
        (View.ld fx (Rect.unit (s := S36x8x128) (k0_off557 k) S1x1x16.size (k0_off557_inb k))) (View.ld fw (Rect.unit (s := S576) ![352] S16.size inb_S576_S16_352))
        (View.ld fx (Rect.unit (s := S36x8x128) (k0_off563 k) S1x1x16.size (k0_off563_inb k))) (View.ld fw (Rect.unit (s := S576) ![448] S16.size inb_S576_S16_448))
        (View.ld fx (Rect.unit (s := S36x8x128) (k0_off569 k) S1x1x16.size (k0_off569_inb k))) (View.ld fw (Rect.unit (s := S576) ![544] S16.size inb_S576_S16_544))⟩,
    ⟨Rect.unit (s := S12x8x128) (k0_off580 k) S1x1x16.size (k0_off580_inb k),
      chunkVal (View.ld fx (Rect.unit (s := S36x8x128) (k0_off538 k) S1x1x16.size (k0_off538_inb k))) (View.ld fw (Rect.unit (s := S576) ![48] S16.size inb_S576_S16_48))
        (View.ld fx (Rect.unit (s := S36x8x128) (k0_off544 k) S1x1x16.size (k0_off544_inb k))) (View.ld fw (Rect.unit (s := S576) ![144] S16.size inb_S576_S16_144))
        (View.ld fx (Rect.unit (s := S36x8x128) (k0_off550 k) S1x1x16.size (k0_off550_inb k))) (View.ld fw (Rect.unit (s := S576) ![240] S16.size inb_S576_S16_240))
        (View.ld fx (Rect.unit (s := S36x8x128) (k0_off556 k) S1x1x16.size (k0_off556_inb k))) (View.ld fw (Rect.unit (s := S576) ![336] S16.size inb_S576_S16_336))
        (View.ld fx (Rect.unit (s := S36x8x128) (k0_off562 k) S1x1x16.size (k0_off562_inb k))) (View.ld fw (Rect.unit (s := S576) ![432] S16.size inb_S576_S16_432))
        (View.ld fx (Rect.unit (s := S36x8x128) (k0_off568 k) S1x1x16.size (k0_off568_inb k))) (View.ld fw (Rect.unit (s := S576) ![528] S16.size inb_S576_S16_528))⟩,
    ⟨Rect.unit (s := S12x8x128) (k0_off579 k) S1x1x16.size (k0_off579_inb k),
      chunkVal (View.ld fx (Rect.unit (s := S36x8x128) (k0_off537 k) S1x1x16.size (k0_off537_inb k))) (View.ld fw (Rect.unit (s := S576) ![32] S16.size inb_S576_S16_32))
        (View.ld fx (Rect.unit (s := S36x8x128) (k0_off543 k) S1x1x16.size (k0_off543_inb k))) (View.ld fw (Rect.unit (s := S576) ![128] S16.size inb_S576_S16_128))
        (View.ld fx (Rect.unit (s := S36x8x128) (k0_off549 k) S1x1x16.size (k0_off549_inb k))) (View.ld fw (Rect.unit (s := S576) ![224] S16.size inb_S576_S16_224))
        (View.ld fx (Rect.unit (s := S36x8x128) (k0_off555 k) S1x1x16.size (k0_off555_inb k))) (View.ld fw (Rect.unit (s := S576) ![320] S16.size inb_S576_S16_320))
        (View.ld fx (Rect.unit (s := S36x8x128) (k0_off561 k) S1x1x16.size (k0_off561_inb k))) (View.ld fw (Rect.unit (s := S576) ![416] S16.size inb_S576_S16_416))
        (View.ld fx (Rect.unit (s := S36x8x128) (k0_off567 k) S1x1x16.size (k0_off567_inb k))) (View.ld fw (Rect.unit (s := S576) ![512] S16.size inb_S576_S16_512))⟩,
    ⟨Rect.unit (s := S12x8x128) (k0_off578 k) S1x1x16.size (k0_off578_inb k),
      chunkVal (View.ld fx (Rect.unit (s := S36x8x128) (k0_off536 k) S1x1x16.size (k0_off536_inb k))) (View.ld fw (Rect.unit (s := S576) ![16] S16.size inb_S576_S16_16))
        (View.ld fx (Rect.unit (s := S36x8x128) (k0_off542 k) S1x1x16.size (k0_off542_inb k))) (View.ld fw (Rect.unit (s := S576) ![112] S16.size inb_S576_S16_112))
        (View.ld fx (Rect.unit (s := S36x8x128) (k0_off548 k) S1x1x16.size (k0_off548_inb k))) (View.ld fw (Rect.unit (s := S576) ![208] S16.size inb_S576_S16_208))
        (View.ld fx (Rect.unit (s := S36x8x128) (k0_off554 k) S1x1x16.size (k0_off554_inb k))) (View.ld fw (Rect.unit (s := S576) ![304] S16.size inb_S576_S16_304))
        (View.ld fx (Rect.unit (s := S36x8x128) (k0_off560 k) S1x1x16.size (k0_off560_inb k))) (View.ld fw (Rect.unit (s := S576) ![400] S16.size inb_S576_S16_400))
        (View.ld fx (Rect.unit (s := S36x8x128) (k0_off566 k) S1x1x16.size (k0_off566_inb k))) (View.ld fw (Rect.unit (s := S576) ![496] S16.size inb_S576_S16_496))⟩,
    ⟨Rect.unit (s := S12x8x128) (k0_off577 k) S1x1x16.size (k0_off577_inb k),
      chunkVal (View.ld fx (Rect.unit (s := S36x8x128) (k0_off535 k) S1x1x16.size (k0_off535_inb k))) (View.ld fw (Rect.unit (s := S576) ![0] S16.size inb_S576_S16_0))
        (View.ld fx (Rect.unit (s := S36x8x128) (k0_off541 k) S1x1x16.size (k0_off541_inb k))) (View.ld fw (Rect.unit (s := S576) ![96] S16.size inb_S576_S16_96))
        (View.ld fx (Rect.unit (s := S36x8x128) (k0_off547 k) S1x1x16.size (k0_off547_inb k))) (View.ld fw (Rect.unit (s := S576) ![192] S16.size inb_S576_S16_192))
        (View.ld fx (Rect.unit (s := S36x8x128) (k0_off553 k) S1x1x16.size (k0_off553_inb k))) (View.ld fw (Rect.unit (s := S576) ![288] S16.size inb_S576_S16_288))
        (View.ld fx (Rect.unit (s := S36x8x128) (k0_off559 k) S1x1x16.size (k0_off559_inb k))) (View.ld fw (Rect.unit (s := S576) ![384] S16.size inb_S576_S16_384))
        (View.ld fx (Rect.unit (s := S36x8x128) (k0_off565 k) S1x1x16.size (k0_off565_inb k))) (View.ld fw (Rect.unit (s := S576) ![480] S16.size inb_S576_S16_480))⟩,
    ⟨Rect.unit (s := S12x8x128) (k0_off576 k) S1x1x16.size (k0_off576_inb k),
      chunkVal (View.ld fx (Rect.unit (s := S36x8x128) (k0_off565 k) S1x1x16.size (k0_off565_inb k))) (View.ld fw (Rect.unit (s := S576) ![480] S16.size inb_S576_S16_480))
        (View.ld fx (Rect.unit (s := S36x8x128) (k0_off566 k) S1x1x16.size (k0_off566_inb k))) (View.ld fw (Rect.unit (s := S576) ![496] S16.size inb_S576_S16_496))
        (View.ld fx (Rect.unit (s := S36x8x128) (k0_off567 k) S1x1x16.size (k0_off567_inb k))) (View.ld fw (Rect.unit (s := S576) ![512] S16.size inb_S576_S16_512))
        (View.ld fx (Rect.unit (s := S36x8x128) (k0_off568 k) S1x1x16.size (k0_off568_inb k))) (View.ld fw (Rect.unit (s := S576) ![528] S16.size inb_S576_S16_528))
        (View.ld fx (Rect.unit (s := S36x8x128) (k0_off569 k) S1x1x16.size (k0_off569_inb k))) (View.ld fw (Rect.unit (s := S576) ![544] S16.size inb_S576_S16_544))
        (View.ld fx (Rect.unit (s := S36x8x128) (k0_off570 k) S1x1x16.size (k0_off570_inb k))) (View.ld fw (Rect.unit (s := S576) ![560] S16.size inb_S576_S16_560))⟩,
    ⟨Rect.unit (s := S12x8x128) (k0_off575 k) S1x1x16.size (k0_off575_inb k),
      chunkVal (View.ld fx (Rect.unit (s := S36x8x128) (k0_off559 k) S1x1x16.size (k0_off559_inb k))) (View.ld fw (Rect.unit (s := S576) ![384] S16.size inb_S576_S16_384))
        (View.ld fx (Rect.unit (s := S36x8x128) (k0_off560 k) S1x1x16.size (k0_off560_inb k))) (View.ld fw (Rect.unit (s := S576) ![400] S16.size inb_S576_S16_400))
        (View.ld fx (Rect.unit (s := S36x8x128) (k0_off561 k) S1x1x16.size (k0_off561_inb k))) (View.ld fw (Rect.unit (s := S576) ![416] S16.size inb_S576_S16_416))
        (View.ld fx (Rect.unit (s := S36x8x128) (k0_off562 k) S1x1x16.size (k0_off562_inb k))) (View.ld fw (Rect.unit (s := S576) ![432] S16.size inb_S576_S16_432))
        (View.ld fx (Rect.unit (s := S36x8x128) (k0_off563 k) S1x1x16.size (k0_off563_inb k))) (View.ld fw (Rect.unit (s := S576) ![448] S16.size inb_S576_S16_448))
        (View.ld fx (Rect.unit (s := S36x8x128) (k0_off564 k) S1x1x16.size (k0_off564_inb k))) (View.ld fw (Rect.unit (s := S576) ![464] S16.size inb_S576_S16_464))⟩,
    ⟨Rect.unit (s := S12x8x128) (k0_off574 k) S1x1x16.size (k0_off574_inb k),
      chunkVal (View.ld fx (Rect.unit (s := S36x8x128) (k0_off553 k) S1x1x16.size (k0_off553_inb k))) (View.ld fw (Rect.unit (s := S576) ![288] S16.size inb_S576_S16_288))
        (View.ld fx (Rect.unit (s := S36x8x128) (k0_off554 k) S1x1x16.size (k0_off554_inb k))) (View.ld fw (Rect.unit (s := S576) ![304] S16.size inb_S576_S16_304))
        (View.ld fx (Rect.unit (s := S36x8x128) (k0_off555 k) S1x1x16.size (k0_off555_inb k))) (View.ld fw (Rect.unit (s := S576) ![320] S16.size inb_S576_S16_320))
        (View.ld fx (Rect.unit (s := S36x8x128) (k0_off556 k) S1x1x16.size (k0_off556_inb k))) (View.ld fw (Rect.unit (s := S576) ![336] S16.size inb_S576_S16_336))
        (View.ld fx (Rect.unit (s := S36x8x128) (k0_off557 k) S1x1x16.size (k0_off557_inb k))) (View.ld fw (Rect.unit (s := S576) ![352] S16.size inb_S576_S16_352))
        (View.ld fx (Rect.unit (s := S36x8x128) (k0_off558 k) S1x1x16.size (k0_off558_inb k))) (View.ld fw (Rect.unit (s := S576) ![368] S16.size inb_S576_S16_368))⟩,
    ⟨Rect.unit (s := S12x8x128) (k0_off573 k) S1x1x16.size (k0_off573_inb k),
      chunkVal (View.ld fx (Rect.unit (s := S36x8x128) (k0_off547 k) S1x1x16.size (k0_off547_inb k))) (View.ld fw (Rect.unit (s := S576) ![192] S16.size inb_S576_S16_192))
        (View.ld fx (Rect.unit (s := S36x8x128) (k0_off548 k) S1x1x16.size (k0_off548_inb k))) (View.ld fw (Rect.unit (s := S576) ![208] S16.size inb_S576_S16_208))
        (View.ld fx (Rect.unit (s := S36x8x128) (k0_off549 k) S1x1x16.size (k0_off549_inb k))) (View.ld fw (Rect.unit (s := S576) ![224] S16.size inb_S576_S16_224))
        (View.ld fx (Rect.unit (s := S36x8x128) (k0_off550 k) S1x1x16.size (k0_off550_inb k))) (View.ld fw (Rect.unit (s := S576) ![240] S16.size inb_S576_S16_240))
        (View.ld fx (Rect.unit (s := S36x8x128) (k0_off551 k) S1x1x16.size (k0_off551_inb k))) (View.ld fw (Rect.unit (s := S576) ![256] S16.size inb_S576_S16_256))
        (View.ld fx (Rect.unit (s := S36x8x128) (k0_off552 k) S1x1x16.size (k0_off552_inb k))) (View.ld fw (Rect.unit (s := S576) ![272] S16.size inb_S576_S16_272))⟩,
    ⟨Rect.unit (s := S12x8x128) (k0_off572 k) S1x1x16.size (k0_off572_inb k),
      chunkVal (View.ld fx (Rect.unit (s := S36x8x128) (k0_off541 k) S1x1x16.size (k0_off541_inb k))) (View.ld fw (Rect.unit (s := S576) ![96] S16.size inb_S576_S16_96))
        (View.ld fx (Rect.unit (s := S36x8x128) (k0_off542 k) S1x1x16.size (k0_off542_inb k))) (View.ld fw (Rect.unit (s := S576) ![112] S16.size inb_S576_S16_112))
        (View.ld fx (Rect.unit (s := S36x8x128) (k0_off543 k) S1x1x16.size (k0_off543_inb k))) (View.ld fw (Rect.unit (s := S576) ![128] S16.size inb_S576_S16_128))
        (View.ld fx (Rect.unit (s := S36x8x128) (k0_off544 k) S1x1x16.size (k0_off544_inb k))) (View.ld fw (Rect.unit (s := S576) ![144] S16.size inb_S576_S16_144))
        (View.ld fx (Rect.unit (s := S36x8x128) (k0_off545 k) S1x1x16.size (k0_off545_inb k))) (View.ld fw (Rect.unit (s := S576) ![160] S16.size inb_S576_S16_160))
        (View.ld fx (Rect.unit (s := S36x8x128) (k0_off546 k) S1x1x16.size (k0_off546_inb k))) (View.ld fw (Rect.unit (s := S576) ![176] S16.size inb_S576_S16_176))⟩,
    ⟨Rect.unit (s := S12x8x128) (k0_off571 k) S1x1x16.size (k0_off571_inb k),
      chunkVal (View.ld fx (Rect.unit (s := S36x8x128) (k0_off535 k) S1x1x16.size (k0_off535_inb k))) (View.ld fw (Rect.unit (s := S576) ![0] S16.size inb_S576_S16_0))
        (View.ld fx (Rect.unit (s := S36x8x128) (k0_off536 k) S1x1x16.size (k0_off536_inb k))) (View.ld fw (Rect.unit (s := S576) ![16] S16.size inb_S576_S16_16))
        (View.ld fx (Rect.unit (s := S36x8x128) (k0_off537 k) S1x1x16.size (k0_off537_inb k))) (View.ld fw (Rect.unit (s := S576) ![32] S16.size inb_S576_S16_32))
        (View.ld fx (Rect.unit (s := S36x8x128) (k0_off538 k) S1x1x16.size (k0_off538_inb k))) (View.ld fw (Rect.unit (s := S576) ![48] S16.size inb_S576_S16_48))
        (View.ld fx (Rect.unit (s := S36x8x128) (k0_off539 k) S1x1x16.size (k0_off539_inb k))) (View.ld fw (Rect.unit (s := S576) ![64] S16.size inb_S576_S16_64))
        (View.ld fx (Rect.unit (s := S36x8x128) (k0_off540 k) S1x1x16.size (k0_off540_inb k))) (View.ld fw (Rect.unit (s := S576) ![80] S16.size inb_S576_S16_80))⟩,
    ⟨Rect.unit (s := S12x8x128) (k0_off534 k) S1x1x16.size (k0_off534_inb k),
      chunkVal (View.ld fx (Rect.unit (s := S36x8x128) (k0_off492 k) S1x1x16.size (k0_off492_inb k))) (View.ld fw (Rect.unit (s := S576) ![80] S16.size inb_S576_S16_80))
        (View.ld fx (Rect.unit (s := S36x8x128) (k0_off498 k) S1x1x16.size (k0_off498_inb k))) (View.ld fw (Rect.unit (s := S576) ![176] S16.size inb_S576_S16_176))
        (View.ld fx (Rect.unit (s := S36x8x128) (k0_off504 k) S1x1x16.size (k0_off504_inb k))) (View.ld fw (Rect.unit (s := S576) ![272] S16.size inb_S576_S16_272))
        (View.ld fx (Rect.unit (s := S36x8x128) (k0_off510 k) S1x1x16.size (k0_off510_inb k))) (View.ld fw (Rect.unit (s := S576) ![368] S16.size inb_S576_S16_368))
        (View.ld fx (Rect.unit (s := S36x8x128) (k0_off516 k) S1x1x16.size (k0_off516_inb k))) (View.ld fw (Rect.unit (s := S576) ![464] S16.size inb_S576_S16_464))
        (View.ld fx (Rect.unit (s := S36x8x128) (k0_off522 k) S1x1x16.size (k0_off522_inb k))) (View.ld fw (Rect.unit (s := S576) ![560] S16.size inb_S576_S16_560))⟩,
    ⟨Rect.unit (s := S12x8x128) (k0_off533 k) S1x1x16.size (k0_off533_inb k),
      chunkVal (View.ld fx (Rect.unit (s := S36x8x128) (k0_off491 k) S1x1x16.size (k0_off491_inb k))) (View.ld fw (Rect.unit (s := S576) ![64] S16.size inb_S576_S16_64))
        (View.ld fx (Rect.unit (s := S36x8x128) (k0_off497 k) S1x1x16.size (k0_off497_inb k))) (View.ld fw (Rect.unit (s := S576) ![160] S16.size inb_S576_S16_160))
        (View.ld fx (Rect.unit (s := S36x8x128) (k0_off503 k) S1x1x16.size (k0_off503_inb k))) (View.ld fw (Rect.unit (s := S576) ![256] S16.size inb_S576_S16_256))
        (View.ld fx (Rect.unit (s := S36x8x128) (k0_off509 k) S1x1x16.size (k0_off509_inb k))) (View.ld fw (Rect.unit (s := S576) ![352] S16.size inb_S576_S16_352))
        (View.ld fx (Rect.unit (s := S36x8x128) (k0_off515 k) S1x1x16.size (k0_off515_inb k))) (View.ld fw (Rect.unit (s := S576) ![448] S16.size inb_S576_S16_448))
        (View.ld fx (Rect.unit (s := S36x8x128) (k0_off521 k) S1x1x16.size (k0_off521_inb k))) (View.ld fw (Rect.unit (s := S576) ![544] S16.size inb_S576_S16_544))⟩,
    ⟨Rect.unit (s := S12x8x128) (k0_off532 k) S1x1x16.size (k0_off532_inb k),
      chunkVal (View.ld fx (Rect.unit (s := S36x8x128) (k0_off490 k) S1x1x16.size (k0_off490_inb k))) (View.ld fw (Rect.unit (s := S576) ![48] S16.size inb_S576_S16_48))
        (View.ld fx (Rect.unit (s := S36x8x128) (k0_off496 k) S1x1x16.size (k0_off496_inb k))) (View.ld fw (Rect.unit (s := S576) ![144] S16.size inb_S576_S16_144))
        (View.ld fx (Rect.unit (s := S36x8x128) (k0_off502 k) S1x1x16.size (k0_off502_inb k))) (View.ld fw (Rect.unit (s := S576) ![240] S16.size inb_S576_S16_240))
        (View.ld fx (Rect.unit (s := S36x8x128) (k0_off508 k) S1x1x16.size (k0_off508_inb k))) (View.ld fw (Rect.unit (s := S576) ![336] S16.size inb_S576_S16_336))
        (View.ld fx (Rect.unit (s := S36x8x128) (k0_off514 k) S1x1x16.size (k0_off514_inb k))) (View.ld fw (Rect.unit (s := S576) ![432] S16.size inb_S576_S16_432))
        (View.ld fx (Rect.unit (s := S36x8x128) (k0_off520 k) S1x1x16.size (k0_off520_inb k))) (View.ld fw (Rect.unit (s := S576) ![528] S16.size inb_S576_S16_528))⟩,
    ⟨Rect.unit (s := S12x8x128) (k0_off531 k) S1x1x16.size (k0_off531_inb k),
      chunkVal (View.ld fx (Rect.unit (s := S36x8x128) (k0_off489 k) S1x1x16.size (k0_off489_inb k))) (View.ld fw (Rect.unit (s := S576) ![32] S16.size inb_S576_S16_32))
        (View.ld fx (Rect.unit (s := S36x8x128) (k0_off495 k) S1x1x16.size (k0_off495_inb k))) (View.ld fw (Rect.unit (s := S576) ![128] S16.size inb_S576_S16_128))
        (View.ld fx (Rect.unit (s := S36x8x128) (k0_off501 k) S1x1x16.size (k0_off501_inb k))) (View.ld fw (Rect.unit (s := S576) ![224] S16.size inb_S576_S16_224))
        (View.ld fx (Rect.unit (s := S36x8x128) (k0_off507 k) S1x1x16.size (k0_off507_inb k))) (View.ld fw (Rect.unit (s := S576) ![320] S16.size inb_S576_S16_320))
        (View.ld fx (Rect.unit (s := S36x8x128) (k0_off513 k) S1x1x16.size (k0_off513_inb k))) (View.ld fw (Rect.unit (s := S576) ![416] S16.size inb_S576_S16_416))
        (View.ld fx (Rect.unit (s := S36x8x128) (k0_off519 k) S1x1x16.size (k0_off519_inb k))) (View.ld fw (Rect.unit (s := S576) ![512] S16.size inb_S576_S16_512))⟩,
    ⟨Rect.unit (s := S12x8x128) (k0_off530 k) S1x1x16.size (k0_off530_inb k),
      chunkVal (View.ld fx (Rect.unit (s := S36x8x128) (k0_off488 k) S1x1x16.size (k0_off488_inb k))) (View.ld fw (Rect.unit (s := S576) ![16] S16.size inb_S576_S16_16))
        (View.ld fx (Rect.unit (s := S36x8x128) (k0_off494 k) S1x1x16.size (k0_off494_inb k))) (View.ld fw (Rect.unit (s := S576) ![112] S16.size inb_S576_S16_112))
        (View.ld fx (Rect.unit (s := S36x8x128) (k0_off500 k) S1x1x16.size (k0_off500_inb k))) (View.ld fw (Rect.unit (s := S576) ![208] S16.size inb_S576_S16_208))
        (View.ld fx (Rect.unit (s := S36x8x128) (k0_off506 k) S1x1x16.size (k0_off506_inb k))) (View.ld fw (Rect.unit (s := S576) ![304] S16.size inb_S576_S16_304))
        (View.ld fx (Rect.unit (s := S36x8x128) (k0_off512 k) S1x1x16.size (k0_off512_inb k))) (View.ld fw (Rect.unit (s := S576) ![400] S16.size inb_S576_S16_400))
        (View.ld fx (Rect.unit (s := S36x8x128) (k0_off518 k) S1x1x16.size (k0_off518_inb k))) (View.ld fw (Rect.unit (s := S576) ![496] S16.size inb_S576_S16_496))⟩,
    ⟨Rect.unit (s := S12x8x128) (k0_off529 k) S1x1x16.size (k0_off529_inb k),
      chunkVal (View.ld fx (Rect.unit (s := S36x8x128) (k0_off487 k) S1x1x16.size (k0_off487_inb k))) (View.ld fw (Rect.unit (s := S576) ![0] S16.size inb_S576_S16_0))
        (View.ld fx (Rect.unit (s := S36x8x128) (k0_off493 k) S1x1x16.size (k0_off493_inb k))) (View.ld fw (Rect.unit (s := S576) ![96] S16.size inb_S576_S16_96))
        (View.ld fx (Rect.unit (s := S36x8x128) (k0_off499 k) S1x1x16.size (k0_off499_inb k))) (View.ld fw (Rect.unit (s := S576) ![192] S16.size inb_S576_S16_192))
        (View.ld fx (Rect.unit (s := S36x8x128) (k0_off505 k) S1x1x16.size (k0_off505_inb k))) (View.ld fw (Rect.unit (s := S576) ![288] S16.size inb_S576_S16_288))
        (View.ld fx (Rect.unit (s := S36x8x128) (k0_off511 k) S1x1x16.size (k0_off511_inb k))) (View.ld fw (Rect.unit (s := S576) ![384] S16.size inb_S576_S16_384))
        (View.ld fx (Rect.unit (s := S36x8x128) (k0_off517 k) S1x1x16.size (k0_off517_inb k))) (View.ld fw (Rect.unit (s := S576) ![480] S16.size inb_S576_S16_480))⟩,
    ⟨Rect.unit (s := S12x8x128) (k0_off528 k) S1x1x16.size (k0_off528_inb k),
      chunkVal (View.ld fx (Rect.unit (s := S36x8x128) (k0_off517 k) S1x1x16.size (k0_off517_inb k))) (View.ld fw (Rect.unit (s := S576) ![480] S16.size inb_S576_S16_480))
        (View.ld fx (Rect.unit (s := S36x8x128) (k0_off518 k) S1x1x16.size (k0_off518_inb k))) (View.ld fw (Rect.unit (s := S576) ![496] S16.size inb_S576_S16_496))
        (View.ld fx (Rect.unit (s := S36x8x128) (k0_off519 k) S1x1x16.size (k0_off519_inb k))) (View.ld fw (Rect.unit (s := S576) ![512] S16.size inb_S576_S16_512))
        (View.ld fx (Rect.unit (s := S36x8x128) (k0_off520 k) S1x1x16.size (k0_off520_inb k))) (View.ld fw (Rect.unit (s := S576) ![528] S16.size inb_S576_S16_528))
        (View.ld fx (Rect.unit (s := S36x8x128) (k0_off521 k) S1x1x16.size (k0_off521_inb k))) (View.ld fw (Rect.unit (s := S576) ![544] S16.size inb_S576_S16_544))
        (View.ld fx (Rect.unit (s := S36x8x128) (k0_off522 k) S1x1x16.size (k0_off522_inb k))) (View.ld fw (Rect.unit (s := S576) ![560] S16.size inb_S576_S16_560))⟩,
    ⟨Rect.unit (s := S12x8x128) (k0_off527 k) S1x1x16.size (k0_off527_inb k),
      chunkVal (View.ld fx (Rect.unit (s := S36x8x128) (k0_off511 k) S1x1x16.size (k0_off511_inb k))) (View.ld fw (Rect.unit (s := S576) ![384] S16.size inb_S576_S16_384))
        (View.ld fx (Rect.unit (s := S36x8x128) (k0_off512 k) S1x1x16.size (k0_off512_inb k))) (View.ld fw (Rect.unit (s := S576) ![400] S16.size inb_S576_S16_400))
        (View.ld fx (Rect.unit (s := S36x8x128) (k0_off513 k) S1x1x16.size (k0_off513_inb k))) (View.ld fw (Rect.unit (s := S576) ![416] S16.size inb_S576_S16_416))
        (View.ld fx (Rect.unit (s := S36x8x128) (k0_off514 k) S1x1x16.size (k0_off514_inb k))) (View.ld fw (Rect.unit (s := S576) ![432] S16.size inb_S576_S16_432))
        (View.ld fx (Rect.unit (s := S36x8x128) (k0_off515 k) S1x1x16.size (k0_off515_inb k))) (View.ld fw (Rect.unit (s := S576) ![448] S16.size inb_S576_S16_448))
        (View.ld fx (Rect.unit (s := S36x8x128) (k0_off516 k) S1x1x16.size (k0_off516_inb k))) (View.ld fw (Rect.unit (s := S576) ![464] S16.size inb_S576_S16_464))⟩,
    ⟨Rect.unit (s := S12x8x128) (k0_off526 k) S1x1x16.size (k0_off526_inb k),
      chunkVal (View.ld fx (Rect.unit (s := S36x8x128) (k0_off505 k) S1x1x16.size (k0_off505_inb k))) (View.ld fw (Rect.unit (s := S576) ![288] S16.size inb_S576_S16_288))
        (View.ld fx (Rect.unit (s := S36x8x128) (k0_off506 k) S1x1x16.size (k0_off506_inb k))) (View.ld fw (Rect.unit (s := S576) ![304] S16.size inb_S576_S16_304))
        (View.ld fx (Rect.unit (s := S36x8x128) (k0_off507 k) S1x1x16.size (k0_off507_inb k))) (View.ld fw (Rect.unit (s := S576) ![320] S16.size inb_S576_S16_320))
        (View.ld fx (Rect.unit (s := S36x8x128) (k0_off508 k) S1x1x16.size (k0_off508_inb k))) (View.ld fw (Rect.unit (s := S576) ![336] S16.size inb_S576_S16_336))
        (View.ld fx (Rect.unit (s := S36x8x128) (k0_off509 k) S1x1x16.size (k0_off509_inb k))) (View.ld fw (Rect.unit (s := S576) ![352] S16.size inb_S576_S16_352))
        (View.ld fx (Rect.unit (s := S36x8x128) (k0_off510 k) S1x1x16.size (k0_off510_inb k))) (View.ld fw (Rect.unit (s := S576) ![368] S16.size inb_S576_S16_368))⟩,
    ⟨Rect.unit (s := S12x8x128) (k0_off525 k) S1x1x16.size (k0_off525_inb k),
      chunkVal (View.ld fx (Rect.unit (s := S36x8x128) (k0_off499 k) S1x1x16.size (k0_off499_inb k))) (View.ld fw (Rect.unit (s := S576) ![192] S16.size inb_S576_S16_192))
        (View.ld fx (Rect.unit (s := S36x8x128) (k0_off500 k) S1x1x16.size (k0_off500_inb k))) (View.ld fw (Rect.unit (s := S576) ![208] S16.size inb_S576_S16_208))
        (View.ld fx (Rect.unit (s := S36x8x128) (k0_off501 k) S1x1x16.size (k0_off501_inb k))) (View.ld fw (Rect.unit (s := S576) ![224] S16.size inb_S576_S16_224))
        (View.ld fx (Rect.unit (s := S36x8x128) (k0_off502 k) S1x1x16.size (k0_off502_inb k))) (View.ld fw (Rect.unit (s := S576) ![240] S16.size inb_S576_S16_240))
        (View.ld fx (Rect.unit (s := S36x8x128) (k0_off503 k) S1x1x16.size (k0_off503_inb k))) (View.ld fw (Rect.unit (s := S576) ![256] S16.size inb_S576_S16_256))
        (View.ld fx (Rect.unit (s := S36x8x128) (k0_off504 k) S1x1x16.size (k0_off504_inb k))) (View.ld fw (Rect.unit (s := S576) ![272] S16.size inb_S576_S16_272))⟩,
    ⟨Rect.unit (s := S12x8x128) (k0_off524 k) S1x1x16.size (k0_off524_inb k),
      chunkVal (View.ld fx (Rect.unit (s := S36x8x128) (k0_off493 k) S1x1x16.size (k0_off493_inb k))) (View.ld fw (Rect.unit (s := S576) ![96] S16.size inb_S576_S16_96))
        (View.ld fx (Rect.unit (s := S36x8x128) (k0_off494 k) S1x1x16.size (k0_off494_inb k))) (View.ld fw (Rect.unit (s := S576) ![112] S16.size inb_S576_S16_112))
        (View.ld fx (Rect.unit (s := S36x8x128) (k0_off495 k) S1x1x16.size (k0_off495_inb k))) (View.ld fw (Rect.unit (s := S576) ![128] S16.size inb_S576_S16_128))
        (View.ld fx (Rect.unit (s := S36x8x128) (k0_off496 k) S1x1x16.size (k0_off496_inb k))) (View.ld fw (Rect.unit (s := S576) ![144] S16.size inb_S576_S16_144))
        (View.ld fx (Rect.unit (s := S36x8x128) (k0_off497 k) S1x1x16.size (k0_off497_inb k))) (View.ld fw (Rect.unit (s := S576) ![160] S16.size inb_S576_S16_160))
        (View.ld fx (Rect.unit (s := S36x8x128) (k0_off498 k) S1x1x16.size (k0_off498_inb k))) (View.ld fw (Rect.unit (s := S576) ![176] S16.size inb_S576_S16_176))⟩,
    ⟨Rect.unit (s := S12x8x128) (k0_off523 k) S1x1x16.size (k0_off523_inb k),
      chunkVal (View.ld fx (Rect.unit (s := S36x8x128) (k0_off487 k) S1x1x16.size (k0_off487_inb k))) (View.ld fw (Rect.unit (s := S576) ![0] S16.size inb_S576_S16_0))
        (View.ld fx (Rect.unit (s := S36x8x128) (k0_off488 k) S1x1x16.size (k0_off488_inb k))) (View.ld fw (Rect.unit (s := S576) ![16] S16.size inb_S576_S16_16))
        (View.ld fx (Rect.unit (s := S36x8x128) (k0_off489 k) S1x1x16.size (k0_off489_inb k))) (View.ld fw (Rect.unit (s := S576) ![32] S16.size inb_S576_S16_32))
        (View.ld fx (Rect.unit (s := S36x8x128) (k0_off490 k) S1x1x16.size (k0_off490_inb k))) (View.ld fw (Rect.unit (s := S576) ![48] S16.size inb_S576_S16_48))
        (View.ld fx (Rect.unit (s := S36x8x128) (k0_off491 k) S1x1x16.size (k0_off491_inb k))) (View.ld fw (Rect.unit (s := S576) ![64] S16.size inb_S576_S16_64))
        (View.ld fx (Rect.unit (s := S36x8x128) (k0_off492 k) S1x1x16.size (k0_off492_inb k))) (View.ld fw (Rect.unit (s := S576) ![80] S16.size inb_S576_S16_80))⟩,
    ⟨Rect.unit (s := S12x8x128) (k0_off486 k) S1x1x16.size (k0_off486_inb k),
      chunkVal (View.ld fx (Rect.unit (s := S36x8x128) (k0_off444 k) S1x1x16.size (k0_off444_inb k))) (View.ld fw (Rect.unit (s := S576) ![80] S16.size inb_S576_S16_80))
        (View.ld fx (Rect.unit (s := S36x8x128) (k0_off450 k) S1x1x16.size (k0_off450_inb k))) (View.ld fw (Rect.unit (s := S576) ![176] S16.size inb_S576_S16_176))
        (View.ld fx (Rect.unit (s := S36x8x128) (k0_off456 k) S1x1x16.size (k0_off456_inb k))) (View.ld fw (Rect.unit (s := S576) ![272] S16.size inb_S576_S16_272))
        (View.ld fx (Rect.unit (s := S36x8x128) (k0_off462 k) S1x1x16.size (k0_off462_inb k))) (View.ld fw (Rect.unit (s := S576) ![368] S16.size inb_S576_S16_368))
        (View.ld fx (Rect.unit (s := S36x8x128) (k0_off468 k) S1x1x16.size (k0_off468_inb k))) (View.ld fw (Rect.unit (s := S576) ![464] S16.size inb_S576_S16_464))
        (View.ld fx (Rect.unit (s := S36x8x128) (k0_off474 k) S1x1x16.size (k0_off474_inb k))) (View.ld fw (Rect.unit (s := S576) ![560] S16.size inb_S576_S16_560))⟩,
    ⟨Rect.unit (s := S12x8x128) (k0_off485 k) S1x1x16.size (k0_off485_inb k),
      chunkVal (View.ld fx (Rect.unit (s := S36x8x128) (k0_off443 k) S1x1x16.size (k0_off443_inb k))) (View.ld fw (Rect.unit (s := S576) ![64] S16.size inb_S576_S16_64))
        (View.ld fx (Rect.unit (s := S36x8x128) (k0_off449 k) S1x1x16.size (k0_off449_inb k))) (View.ld fw (Rect.unit (s := S576) ![160] S16.size inb_S576_S16_160))
        (View.ld fx (Rect.unit (s := S36x8x128) (k0_off455 k) S1x1x16.size (k0_off455_inb k))) (View.ld fw (Rect.unit (s := S576) ![256] S16.size inb_S576_S16_256))
        (View.ld fx (Rect.unit (s := S36x8x128) (k0_off461 k) S1x1x16.size (k0_off461_inb k))) (View.ld fw (Rect.unit (s := S576) ![352] S16.size inb_S576_S16_352))
        (View.ld fx (Rect.unit (s := S36x8x128) (k0_off467 k) S1x1x16.size (k0_off467_inb k))) (View.ld fw (Rect.unit (s := S576) ![448] S16.size inb_S576_S16_448))
        (View.ld fx (Rect.unit (s := S36x8x128) (k0_off473 k) S1x1x16.size (k0_off473_inb k))) (View.ld fw (Rect.unit (s := S576) ![544] S16.size inb_S576_S16_544))⟩,
    ⟨Rect.unit (s := S12x8x128) (k0_off484 k) S1x1x16.size (k0_off484_inb k),
      chunkVal (View.ld fx (Rect.unit (s := S36x8x128) (k0_off442 k) S1x1x16.size (k0_off442_inb k))) (View.ld fw (Rect.unit (s := S576) ![48] S16.size inb_S576_S16_48))
        (View.ld fx (Rect.unit (s := S36x8x128) (k0_off448 k) S1x1x16.size (k0_off448_inb k))) (View.ld fw (Rect.unit (s := S576) ![144] S16.size inb_S576_S16_144))
        (View.ld fx (Rect.unit (s := S36x8x128) (k0_off454 k) S1x1x16.size (k0_off454_inb k))) (View.ld fw (Rect.unit (s := S576) ![240] S16.size inb_S576_S16_240))
        (View.ld fx (Rect.unit (s := S36x8x128) (k0_off460 k) S1x1x16.size (k0_off460_inb k))) (View.ld fw (Rect.unit (s := S576) ![336] S16.size inb_S576_S16_336))
        (View.ld fx (Rect.unit (s := S36x8x128) (k0_off466 k) S1x1x16.size (k0_off466_inb k))) (View.ld fw (Rect.unit (s := S576) ![432] S16.size inb_S576_S16_432))
        (View.ld fx (Rect.unit (s := S36x8x128) (k0_off472 k) S1x1x16.size (k0_off472_inb k))) (View.ld fw (Rect.unit (s := S576) ![528] S16.size inb_S576_S16_528))⟩,
    ⟨Rect.unit (s := S12x8x128) (k0_off483 k) S1x1x16.size (k0_off483_inb k),
      chunkVal (View.ld fx (Rect.unit (s := S36x8x128) (k0_off441 k) S1x1x16.size (k0_off441_inb k))) (View.ld fw (Rect.unit (s := S576) ![32] S16.size inb_S576_S16_32))
        (View.ld fx (Rect.unit (s := S36x8x128) (k0_off447 k) S1x1x16.size (k0_off447_inb k))) (View.ld fw (Rect.unit (s := S576) ![128] S16.size inb_S576_S16_128))
        (View.ld fx (Rect.unit (s := S36x8x128) (k0_off453 k) S1x1x16.size (k0_off453_inb k))) (View.ld fw (Rect.unit (s := S576) ![224] S16.size inb_S576_S16_224))
        (View.ld fx (Rect.unit (s := S36x8x128) (k0_off459 k) S1x1x16.size (k0_off459_inb k))) (View.ld fw (Rect.unit (s := S576) ![320] S16.size inb_S576_S16_320))
        (View.ld fx (Rect.unit (s := S36x8x128) (k0_off465 k) S1x1x16.size (k0_off465_inb k))) (View.ld fw (Rect.unit (s := S576) ![416] S16.size inb_S576_S16_416))
        (View.ld fx (Rect.unit (s := S36x8x128) (k0_off471 k) S1x1x16.size (k0_off471_inb k))) (View.ld fw (Rect.unit (s := S576) ![512] S16.size inb_S576_S16_512))⟩,
    ⟨Rect.unit (s := S12x8x128) (k0_off482 k) S1x1x16.size (k0_off482_inb k),
      chunkVal (View.ld fx (Rect.unit (s := S36x8x128) (k0_off440 k) S1x1x16.size (k0_off440_inb k))) (View.ld fw (Rect.unit (s := S576) ![16] S16.size inb_S576_S16_16))
        (View.ld fx (Rect.unit (s := S36x8x128) (k0_off446 k) S1x1x16.size (k0_off446_inb k))) (View.ld fw (Rect.unit (s := S576) ![112] S16.size inb_S576_S16_112))
        (View.ld fx (Rect.unit (s := S36x8x128) (k0_off452 k) S1x1x16.size (k0_off452_inb k))) (View.ld fw (Rect.unit (s := S576) ![208] S16.size inb_S576_S16_208))
        (View.ld fx (Rect.unit (s := S36x8x128) (k0_off458 k) S1x1x16.size (k0_off458_inb k))) (View.ld fw (Rect.unit (s := S576) ![304] S16.size inb_S576_S16_304))
        (View.ld fx (Rect.unit (s := S36x8x128) (k0_off464 k) S1x1x16.size (k0_off464_inb k))) (View.ld fw (Rect.unit (s := S576) ![400] S16.size inb_S576_S16_400))
        (View.ld fx (Rect.unit (s := S36x8x128) (k0_off470 k) S1x1x16.size (k0_off470_inb k))) (View.ld fw (Rect.unit (s := S576) ![496] S16.size inb_S576_S16_496))⟩,
    ⟨Rect.unit (s := S12x8x128) (k0_off481 k) S1x1x16.size (k0_off481_inb k),
      chunkVal (View.ld fx (Rect.unit (s := S36x8x128) (k0_off439 k) S1x1x16.size (k0_off439_inb k))) (View.ld fw (Rect.unit (s := S576) ![0] S16.size inb_S576_S16_0))
        (View.ld fx (Rect.unit (s := S36x8x128) (k0_off445 k) S1x1x16.size (k0_off445_inb k))) (View.ld fw (Rect.unit (s := S576) ![96] S16.size inb_S576_S16_96))
        (View.ld fx (Rect.unit (s := S36x8x128) (k0_off451 k) S1x1x16.size (k0_off451_inb k))) (View.ld fw (Rect.unit (s := S576) ![192] S16.size inb_S576_S16_192))
        (View.ld fx (Rect.unit (s := S36x8x128) (k0_off457 k) S1x1x16.size (k0_off457_inb k))) (View.ld fw (Rect.unit (s := S576) ![288] S16.size inb_S576_S16_288))
        (View.ld fx (Rect.unit (s := S36x8x128) (k0_off463 k) S1x1x16.size (k0_off463_inb k))) (View.ld fw (Rect.unit (s := S576) ![384] S16.size inb_S576_S16_384))
        (View.ld fx (Rect.unit (s := S36x8x128) (k0_off469 k) S1x1x16.size (k0_off469_inb k))) (View.ld fw (Rect.unit (s := S576) ![480] S16.size inb_S576_S16_480))⟩,
    ⟨Rect.unit (s := S12x8x128) (k0_off480 k) S1x1x16.size (k0_off480_inb k),
      chunkVal (View.ld fx (Rect.unit (s := S36x8x128) (k0_off469 k) S1x1x16.size (k0_off469_inb k))) (View.ld fw (Rect.unit (s := S576) ![480] S16.size inb_S576_S16_480))
        (View.ld fx (Rect.unit (s := S36x8x128) (k0_off470 k) S1x1x16.size (k0_off470_inb k))) (View.ld fw (Rect.unit (s := S576) ![496] S16.size inb_S576_S16_496))
        (View.ld fx (Rect.unit (s := S36x8x128) (k0_off471 k) S1x1x16.size (k0_off471_inb k))) (View.ld fw (Rect.unit (s := S576) ![512] S16.size inb_S576_S16_512))
        (View.ld fx (Rect.unit (s := S36x8x128) (k0_off472 k) S1x1x16.size (k0_off472_inb k))) (View.ld fw (Rect.unit (s := S576) ![528] S16.size inb_S576_S16_528))
        (View.ld fx (Rect.unit (s := S36x8x128) (k0_off473 k) S1x1x16.size (k0_off473_inb k))) (View.ld fw (Rect.unit (s := S576) ![544] S16.size inb_S576_S16_544))
        (View.ld fx (Rect.unit (s := S36x8x128) (k0_off474 k) S1x1x16.size (k0_off474_inb k))) (View.ld fw (Rect.unit (s := S576) ![560] S16.size inb_S576_S16_560))⟩,
    ⟨Rect.unit (s := S12x8x128) (k0_off479 k) S1x1x16.size (k0_off479_inb k),
      chunkVal (View.ld fx (Rect.unit (s := S36x8x128) (k0_off463 k) S1x1x16.size (k0_off463_inb k))) (View.ld fw (Rect.unit (s := S576) ![384] S16.size inb_S576_S16_384))
        (View.ld fx (Rect.unit (s := S36x8x128) (k0_off464 k) S1x1x16.size (k0_off464_inb k))) (View.ld fw (Rect.unit (s := S576) ![400] S16.size inb_S576_S16_400))
        (View.ld fx (Rect.unit (s := S36x8x128) (k0_off465 k) S1x1x16.size (k0_off465_inb k))) (View.ld fw (Rect.unit (s := S576) ![416] S16.size inb_S576_S16_416))
        (View.ld fx (Rect.unit (s := S36x8x128) (k0_off466 k) S1x1x16.size (k0_off466_inb k))) (View.ld fw (Rect.unit (s := S576) ![432] S16.size inb_S576_S16_432))
        (View.ld fx (Rect.unit (s := S36x8x128) (k0_off467 k) S1x1x16.size (k0_off467_inb k))) (View.ld fw (Rect.unit (s := S576) ![448] S16.size inb_S576_S16_448))
        (View.ld fx (Rect.unit (s := S36x8x128) (k0_off468 k) S1x1x16.size (k0_off468_inb k))) (View.ld fw (Rect.unit (s := S576) ![464] S16.size inb_S576_S16_464))⟩,
    ⟨Rect.unit (s := S12x8x128) (k0_off478 k) S1x1x16.size (k0_off478_inb k),
      chunkVal (View.ld fx (Rect.unit (s := S36x8x128) (k0_off457 k) S1x1x16.size (k0_off457_inb k))) (View.ld fw (Rect.unit (s := S576) ![288] S16.size inb_S576_S16_288))
        (View.ld fx (Rect.unit (s := S36x8x128) (k0_off458 k) S1x1x16.size (k0_off458_inb k))) (View.ld fw (Rect.unit (s := S576) ![304] S16.size inb_S576_S16_304))
        (View.ld fx (Rect.unit (s := S36x8x128) (k0_off459 k) S1x1x16.size (k0_off459_inb k))) (View.ld fw (Rect.unit (s := S576) ![320] S16.size inb_S576_S16_320))
        (View.ld fx (Rect.unit (s := S36x8x128) (k0_off460 k) S1x1x16.size (k0_off460_inb k))) (View.ld fw (Rect.unit (s := S576) ![336] S16.size inb_S576_S16_336))
        (View.ld fx (Rect.unit (s := S36x8x128) (k0_off461 k) S1x1x16.size (k0_off461_inb k))) (View.ld fw (Rect.unit (s := S576) ![352] S16.size inb_S576_S16_352))
        (View.ld fx (Rect.unit (s := S36x8x128) (k0_off462 k) S1x1x16.size (k0_off462_inb k))) (View.ld fw (Rect.unit (s := S576) ![368] S16.size inb_S576_S16_368))⟩,
    ⟨Rect.unit (s := S12x8x128) (k0_off477 k) S1x1x16.size (k0_off477_inb k),
      chunkVal (View.ld fx (Rect.unit (s := S36x8x128) (k0_off451 k) S1x1x16.size (k0_off451_inb k))) (View.ld fw (Rect.unit (s := S576) ![192] S16.size inb_S576_S16_192))
        (View.ld fx (Rect.unit (s := S36x8x128) (k0_off452 k) S1x1x16.size (k0_off452_inb k))) (View.ld fw (Rect.unit (s := S576) ![208] S16.size inb_S576_S16_208))
        (View.ld fx (Rect.unit (s := S36x8x128) (k0_off453 k) S1x1x16.size (k0_off453_inb k))) (View.ld fw (Rect.unit (s := S576) ![224] S16.size inb_S576_S16_224))
        (View.ld fx (Rect.unit (s := S36x8x128) (k0_off454 k) S1x1x16.size (k0_off454_inb k))) (View.ld fw (Rect.unit (s := S576) ![240] S16.size inb_S576_S16_240))
        (View.ld fx (Rect.unit (s := S36x8x128) (k0_off455 k) S1x1x16.size (k0_off455_inb k))) (View.ld fw (Rect.unit (s := S576) ![256] S16.size inb_S576_S16_256))
        (View.ld fx (Rect.unit (s := S36x8x128) (k0_off456 k) S1x1x16.size (k0_off456_inb k))) (View.ld fw (Rect.unit (s := S576) ![272] S16.size inb_S576_S16_272))⟩,
    ⟨Rect.unit (s := S12x8x128) (k0_off476 k) S1x1x16.size (k0_off476_inb k),
      chunkVal (View.ld fx (Rect.unit (s := S36x8x128) (k0_off445 k) S1x1x16.size (k0_off445_inb k))) (View.ld fw (Rect.unit (s := S576) ![96] S16.size inb_S576_S16_96))
        (View.ld fx (Rect.unit (s := S36x8x128) (k0_off446 k) S1x1x16.size (k0_off446_inb k))) (View.ld fw (Rect.unit (s := S576) ![112] S16.size inb_S576_S16_112))
        (View.ld fx (Rect.unit (s := S36x8x128) (k0_off447 k) S1x1x16.size (k0_off447_inb k))) (View.ld fw (Rect.unit (s := S576) ![128] S16.size inb_S576_S16_128))
        (View.ld fx (Rect.unit (s := S36x8x128) (k0_off448 k) S1x1x16.size (k0_off448_inb k))) (View.ld fw (Rect.unit (s := S576) ![144] S16.size inb_S576_S16_144))
        (View.ld fx (Rect.unit (s := S36x8x128) (k0_off449 k) S1x1x16.size (k0_off449_inb k))) (View.ld fw (Rect.unit (s := S576) ![160] S16.size inb_S576_S16_160))
        (View.ld fx (Rect.unit (s := S36x8x128) (k0_off450 k) S1x1x16.size (k0_off450_inb k))) (View.ld fw (Rect.unit (s := S576) ![176] S16.size inb_S576_S16_176))⟩,
    ⟨Rect.unit (s := S12x8x128) (k0_off475 k) S1x1x16.size (k0_off475_inb k),
      chunkVal (View.ld fx (Rect.unit (s := S36x8x128) (k0_off439 k) S1x1x16.size (k0_off439_inb k))) (View.ld fw (Rect.unit (s := S576) ![0] S16.size inb_S576_S16_0))
        (View.ld fx (Rect.unit (s := S36x8x128) (k0_off440 k) S1x1x16.size (k0_off440_inb k))) (View.ld fw (Rect.unit (s := S576) ![16] S16.size inb_S576_S16_16))
        (View.ld fx (Rect.unit (s := S36x8x128) (k0_off441 k) S1x1x16.size (k0_off441_inb k))) (View.ld fw (Rect.unit (s := S576) ![32] S16.size inb_S576_S16_32))
        (View.ld fx (Rect.unit (s := S36x8x128) (k0_off442 k) S1x1x16.size (k0_off442_inb k))) (View.ld fw (Rect.unit (s := S576) ![48] S16.size inb_S576_S16_48))
        (View.ld fx (Rect.unit (s := S36x8x128) (k0_off443 k) S1x1x16.size (k0_off443_inb k))) (View.ld fw (Rect.unit (s := S576) ![64] S16.size inb_S576_S16_64))
        (View.ld fx (Rect.unit (s := S36x8x128) (k0_off444 k) S1x1x16.size (k0_off444_inb k))) (View.ld fw (Rect.unit (s := S576) ![80] S16.size inb_S576_S16_80))⟩,
    ⟨Rect.unit (s := S12x8x128) (k0_off438 k) S1x1x16.size (k0_off438_inb k),
      chunkVal (View.ld fx (Rect.unit (s := S36x8x128) (k0_off396 k) S1x1x16.size (k0_off396_inb k))) (View.ld fw (Rect.unit (s := S576) ![80] S16.size inb_S576_S16_80))
        (View.ld fx (Rect.unit (s := S36x8x128) (k0_off402 k) S1x1x16.size (k0_off402_inb k))) (View.ld fw (Rect.unit (s := S576) ![176] S16.size inb_S576_S16_176))
        (View.ld fx (Rect.unit (s := S36x8x128) (k0_off408 k) S1x1x16.size (k0_off408_inb k))) (View.ld fw (Rect.unit (s := S576) ![272] S16.size inb_S576_S16_272))
        (View.ld fx (Rect.unit (s := S36x8x128) (k0_off414 k) S1x1x16.size (k0_off414_inb k))) (View.ld fw (Rect.unit (s := S576) ![368] S16.size inb_S576_S16_368))
        (View.ld fx (Rect.unit (s := S36x8x128) (k0_off420 k) S1x1x16.size (k0_off420_inb k))) (View.ld fw (Rect.unit (s := S576) ![464] S16.size inb_S576_S16_464))
        (View.ld fx (Rect.unit (s := S36x8x128) (k0_off426 k) S1x1x16.size (k0_off426_inb k))) (View.ld fw (Rect.unit (s := S576) ![560] S16.size inb_S576_S16_560))⟩,
    ⟨Rect.unit (s := S12x8x128) (k0_off437 k) S1x1x16.size (k0_off437_inb k),
      chunkVal (View.ld fx (Rect.unit (s := S36x8x128) (k0_off395 k) S1x1x16.size (k0_off395_inb k))) (View.ld fw (Rect.unit (s := S576) ![64] S16.size inb_S576_S16_64))
        (View.ld fx (Rect.unit (s := S36x8x128) (k0_off401 k) S1x1x16.size (k0_off401_inb k))) (View.ld fw (Rect.unit (s := S576) ![160] S16.size inb_S576_S16_160))
        (View.ld fx (Rect.unit (s := S36x8x128) (k0_off407 k) S1x1x16.size (k0_off407_inb k))) (View.ld fw (Rect.unit (s := S576) ![256] S16.size inb_S576_S16_256))
        (View.ld fx (Rect.unit (s := S36x8x128) (k0_off413 k) S1x1x16.size (k0_off413_inb k))) (View.ld fw (Rect.unit (s := S576) ![352] S16.size inb_S576_S16_352))
        (View.ld fx (Rect.unit (s := S36x8x128) (k0_off419 k) S1x1x16.size (k0_off419_inb k))) (View.ld fw (Rect.unit (s := S576) ![448] S16.size inb_S576_S16_448))
        (View.ld fx (Rect.unit (s := S36x8x128) (k0_off425 k) S1x1x16.size (k0_off425_inb k))) (View.ld fw (Rect.unit (s := S576) ![544] S16.size inb_S576_S16_544))⟩,
    ⟨Rect.unit (s := S12x8x128) (k0_off436 k) S1x1x16.size (k0_off436_inb k),
      chunkVal (View.ld fx (Rect.unit (s := S36x8x128) (k0_off394 k) S1x1x16.size (k0_off394_inb k))) (View.ld fw (Rect.unit (s := S576) ![48] S16.size inb_S576_S16_48))
        (View.ld fx (Rect.unit (s := S36x8x128) (k0_off400 k) S1x1x16.size (k0_off400_inb k))) (View.ld fw (Rect.unit (s := S576) ![144] S16.size inb_S576_S16_144))
        (View.ld fx (Rect.unit (s := S36x8x128) (k0_off406 k) S1x1x16.size (k0_off406_inb k))) (View.ld fw (Rect.unit (s := S576) ![240] S16.size inb_S576_S16_240))
        (View.ld fx (Rect.unit (s := S36x8x128) (k0_off412 k) S1x1x16.size (k0_off412_inb k))) (View.ld fw (Rect.unit (s := S576) ![336] S16.size inb_S576_S16_336))
        (View.ld fx (Rect.unit (s := S36x8x128) (k0_off418 k) S1x1x16.size (k0_off418_inb k))) (View.ld fw (Rect.unit (s := S576) ![432] S16.size inb_S576_S16_432))
        (View.ld fx (Rect.unit (s := S36x8x128) (k0_off424 k) S1x1x16.size (k0_off424_inb k))) (View.ld fw (Rect.unit (s := S576) ![528] S16.size inb_S576_S16_528))⟩,
    ⟨Rect.unit (s := S12x8x128) (k0_off435 k) S1x1x16.size (k0_off435_inb k),
      chunkVal (View.ld fx (Rect.unit (s := S36x8x128) (k0_off393 k) S1x1x16.size (k0_off393_inb k))) (View.ld fw (Rect.unit (s := S576) ![32] S16.size inb_S576_S16_32))
        (View.ld fx (Rect.unit (s := S36x8x128) (k0_off399 k) S1x1x16.size (k0_off399_inb k))) (View.ld fw (Rect.unit (s := S576) ![128] S16.size inb_S576_S16_128))
        (View.ld fx (Rect.unit (s := S36x8x128) (k0_off405 k) S1x1x16.size (k0_off405_inb k))) (View.ld fw (Rect.unit (s := S576) ![224] S16.size inb_S576_S16_224))
        (View.ld fx (Rect.unit (s := S36x8x128) (k0_off411 k) S1x1x16.size (k0_off411_inb k))) (View.ld fw (Rect.unit (s := S576) ![320] S16.size inb_S576_S16_320))
        (View.ld fx (Rect.unit (s := S36x8x128) (k0_off417 k) S1x1x16.size (k0_off417_inb k))) (View.ld fw (Rect.unit (s := S576) ![416] S16.size inb_S576_S16_416))
        (View.ld fx (Rect.unit (s := S36x8x128) (k0_off423 k) S1x1x16.size (k0_off423_inb k))) (View.ld fw (Rect.unit (s := S576) ![512] S16.size inb_S576_S16_512))⟩,
    ⟨Rect.unit (s := S12x8x128) (k0_off434 k) S1x1x16.size (k0_off434_inb k),
      chunkVal (View.ld fx (Rect.unit (s := S36x8x128) (k0_off392 k) S1x1x16.size (k0_off392_inb k))) (View.ld fw (Rect.unit (s := S576) ![16] S16.size inb_S576_S16_16))
        (View.ld fx (Rect.unit (s := S36x8x128) (k0_off398 k) S1x1x16.size (k0_off398_inb k))) (View.ld fw (Rect.unit (s := S576) ![112] S16.size inb_S576_S16_112))
        (View.ld fx (Rect.unit (s := S36x8x128) (k0_off404 k) S1x1x16.size (k0_off404_inb k))) (View.ld fw (Rect.unit (s := S576) ![208] S16.size inb_S576_S16_208))
        (View.ld fx (Rect.unit (s := S36x8x128) (k0_off410 k) S1x1x16.size (k0_off410_inb k))) (View.ld fw (Rect.unit (s := S576) ![304] S16.size inb_S576_S16_304))
        (View.ld fx (Rect.unit (s := S36x8x128) (k0_off416 k) S1x1x16.size (k0_off416_inb k))) (View.ld fw (Rect.unit (s := S576) ![400] S16.size inb_S576_S16_400))
        (View.ld fx (Rect.unit (s := S36x8x128) (k0_off422 k) S1x1x16.size (k0_off422_inb k))) (View.ld fw (Rect.unit (s := S576) ![496] S16.size inb_S576_S16_496))⟩,
    ⟨Rect.unit (s := S12x8x128) (k0_off433 k) S1x1x16.size (k0_off433_inb k),
      chunkVal (View.ld fx (Rect.unit (s := S36x8x128) (k0_off391 k) S1x1x16.size (k0_off391_inb k))) (View.ld fw (Rect.unit (s := S576) ![0] S16.size inb_S576_S16_0))
        (View.ld fx (Rect.unit (s := S36x8x128) (k0_off397 k) S1x1x16.size (k0_off397_inb k))) (View.ld fw (Rect.unit (s := S576) ![96] S16.size inb_S576_S16_96))
        (View.ld fx (Rect.unit (s := S36x8x128) (k0_off403 k) S1x1x16.size (k0_off403_inb k))) (View.ld fw (Rect.unit (s := S576) ![192] S16.size inb_S576_S16_192))
        (View.ld fx (Rect.unit (s := S36x8x128) (k0_off409 k) S1x1x16.size (k0_off409_inb k))) (View.ld fw (Rect.unit (s := S576) ![288] S16.size inb_S576_S16_288))
        (View.ld fx (Rect.unit (s := S36x8x128) (k0_off415 k) S1x1x16.size (k0_off415_inb k))) (View.ld fw (Rect.unit (s := S576) ![384] S16.size inb_S576_S16_384))
        (View.ld fx (Rect.unit (s := S36x8x128) (k0_off421 k) S1x1x16.size (k0_off421_inb k))) (View.ld fw (Rect.unit (s := S576) ![480] S16.size inb_S576_S16_480))⟩,
    ⟨Rect.unit (s := S12x8x128) (k0_off432 k) S1x1x16.size (k0_off432_inb k),
      chunkVal (View.ld fx (Rect.unit (s := S36x8x128) (k0_off421 k) S1x1x16.size (k0_off421_inb k))) (View.ld fw (Rect.unit (s := S576) ![480] S16.size inb_S576_S16_480))
        (View.ld fx (Rect.unit (s := S36x8x128) (k0_off422 k) S1x1x16.size (k0_off422_inb k))) (View.ld fw (Rect.unit (s := S576) ![496] S16.size inb_S576_S16_496))
        (View.ld fx (Rect.unit (s := S36x8x128) (k0_off423 k) S1x1x16.size (k0_off423_inb k))) (View.ld fw (Rect.unit (s := S576) ![512] S16.size inb_S576_S16_512))
        (View.ld fx (Rect.unit (s := S36x8x128) (k0_off424 k) S1x1x16.size (k0_off424_inb k))) (View.ld fw (Rect.unit (s := S576) ![528] S16.size inb_S576_S16_528))
        (View.ld fx (Rect.unit (s := S36x8x128) (k0_off425 k) S1x1x16.size (k0_off425_inb k))) (View.ld fw (Rect.unit (s := S576) ![544] S16.size inb_S576_S16_544))
        (View.ld fx (Rect.unit (s := S36x8x128) (k0_off426 k) S1x1x16.size (k0_off426_inb k))) (View.ld fw (Rect.unit (s := S576) ![560] S16.size inb_S576_S16_560))⟩,
    ⟨Rect.unit (s := S12x8x128) (k0_off431 k) S1x1x16.size (k0_off431_inb k),
      chunkVal (View.ld fx (Rect.unit (s := S36x8x128) (k0_off415 k) S1x1x16.size (k0_off415_inb k))) (View.ld fw (Rect.unit (s := S576) ![384] S16.size inb_S576_S16_384))
        (View.ld fx (Rect.unit (s := S36x8x128) (k0_off416 k) S1x1x16.size (k0_off416_inb k))) (View.ld fw (Rect.unit (s := S576) ![400] S16.size inb_S576_S16_400))
        (View.ld fx (Rect.unit (s := S36x8x128) (k0_off417 k) S1x1x16.size (k0_off417_inb k))) (View.ld fw (Rect.unit (s := S576) ![416] S16.size inb_S576_S16_416))
        (View.ld fx (Rect.unit (s := S36x8x128) (k0_off418 k) S1x1x16.size (k0_off418_inb k))) (View.ld fw (Rect.unit (s := S576) ![432] S16.size inb_S576_S16_432))
        (View.ld fx (Rect.unit (s := S36x8x128) (k0_off419 k) S1x1x16.size (k0_off419_inb k))) (View.ld fw (Rect.unit (s := S576) ![448] S16.size inb_S576_S16_448))
        (View.ld fx (Rect.unit (s := S36x8x128) (k0_off420 k) S1x1x16.size (k0_off420_inb k))) (View.ld fw (Rect.unit (s := S576) ![464] S16.size inb_S576_S16_464))⟩,
    ⟨Rect.unit (s := S12x8x128) (k0_off430 k) S1x1x16.size (k0_off430_inb k),
      chunkVal (View.ld fx (Rect.unit (s := S36x8x128) (k0_off409 k) S1x1x16.size (k0_off409_inb k))) (View.ld fw (Rect.unit (s := S576) ![288] S16.size inb_S576_S16_288))
        (View.ld fx (Rect.unit (s := S36x8x128) (k0_off410 k) S1x1x16.size (k0_off410_inb k))) (View.ld fw (Rect.unit (s := S576) ![304] S16.size inb_S576_S16_304))
        (View.ld fx (Rect.unit (s := S36x8x128) (k0_off411 k) S1x1x16.size (k0_off411_inb k))) (View.ld fw (Rect.unit (s := S576) ![320] S16.size inb_S576_S16_320))
        (View.ld fx (Rect.unit (s := S36x8x128) (k0_off412 k) S1x1x16.size (k0_off412_inb k))) (View.ld fw (Rect.unit (s := S576) ![336] S16.size inb_S576_S16_336))
        (View.ld fx (Rect.unit (s := S36x8x128) (k0_off413 k) S1x1x16.size (k0_off413_inb k))) (View.ld fw (Rect.unit (s := S576) ![352] S16.size inb_S576_S16_352))
        (View.ld fx (Rect.unit (s := S36x8x128) (k0_off414 k) S1x1x16.size (k0_off414_inb k))) (View.ld fw (Rect.unit (s := S576) ![368] S16.size inb_S576_S16_368))⟩,
    ⟨Rect.unit (s := S12x8x128) (k0_off429 k) S1x1x16.size (k0_off429_inb k),
      chunkVal (View.ld fx (Rect.unit (s := S36x8x128) (k0_off403 k) S1x1x16.size (k0_off403_inb k))) (View.ld fw (Rect.unit (s := S576) ![192] S16.size inb_S576_S16_192))
        (View.ld fx (Rect.unit (s := S36x8x128) (k0_off404 k) S1x1x16.size (k0_off404_inb k))) (View.ld fw (Rect.unit (s := S576) ![208] S16.size inb_S576_S16_208))
        (View.ld fx (Rect.unit (s := S36x8x128) (k0_off405 k) S1x1x16.size (k0_off405_inb k))) (View.ld fw (Rect.unit (s := S576) ![224] S16.size inb_S576_S16_224))
        (View.ld fx (Rect.unit (s := S36x8x128) (k0_off406 k) S1x1x16.size (k0_off406_inb k))) (View.ld fw (Rect.unit (s := S576) ![240] S16.size inb_S576_S16_240))
        (View.ld fx (Rect.unit (s := S36x8x128) (k0_off407 k) S1x1x16.size (k0_off407_inb k))) (View.ld fw (Rect.unit (s := S576) ![256] S16.size inb_S576_S16_256))
        (View.ld fx (Rect.unit (s := S36x8x128) (k0_off408 k) S1x1x16.size (k0_off408_inb k))) (View.ld fw (Rect.unit (s := S576) ![272] S16.size inb_S576_S16_272))⟩,
    ⟨Rect.unit (s := S12x8x128) (k0_off428 k) S1x1x16.size (k0_off428_inb k),
      chunkVal (View.ld fx (Rect.unit (s := S36x8x128) (k0_off397 k) S1x1x16.size (k0_off397_inb k))) (View.ld fw (Rect.unit (s := S576) ![96] S16.size inb_S576_S16_96))
        (View.ld fx (Rect.unit (s := S36x8x128) (k0_off398 k) S1x1x16.size (k0_off398_inb k))) (View.ld fw (Rect.unit (s := S576) ![112] S16.size inb_S576_S16_112))
        (View.ld fx (Rect.unit (s := S36x8x128) (k0_off399 k) S1x1x16.size (k0_off399_inb k))) (View.ld fw (Rect.unit (s := S576) ![128] S16.size inb_S576_S16_128))
        (View.ld fx (Rect.unit (s := S36x8x128) (k0_off400 k) S1x1x16.size (k0_off400_inb k))) (View.ld fw (Rect.unit (s := S576) ![144] S16.size inb_S576_S16_144))
        (View.ld fx (Rect.unit (s := S36x8x128) (k0_off401 k) S1x1x16.size (k0_off401_inb k))) (View.ld fw (Rect.unit (s := S576) ![160] S16.size inb_S576_S16_160))
        (View.ld fx (Rect.unit (s := S36x8x128) (k0_off402 k) S1x1x16.size (k0_off402_inb k))) (View.ld fw (Rect.unit (s := S576) ![176] S16.size inb_S576_S16_176))⟩,
    ⟨Rect.unit (s := S12x8x128) (k0_off427 k) S1x1x16.size (k0_off427_inb k),
      chunkVal (View.ld fx (Rect.unit (s := S36x8x128) (k0_off391 k) S1x1x16.size (k0_off391_inb k))) (View.ld fw (Rect.unit (s := S576) ![0] S16.size inb_S576_S16_0))
        (View.ld fx (Rect.unit (s := S36x8x128) (k0_off392 k) S1x1x16.size (k0_off392_inb k))) (View.ld fw (Rect.unit (s := S576) ![16] S16.size inb_S576_S16_16))
        (View.ld fx (Rect.unit (s := S36x8x128) (k0_off393 k) S1x1x16.size (k0_off393_inb k))) (View.ld fw (Rect.unit (s := S576) ![32] S16.size inb_S576_S16_32))
        (View.ld fx (Rect.unit (s := S36x8x128) (k0_off394 k) S1x1x16.size (k0_off394_inb k))) (View.ld fw (Rect.unit (s := S576) ![48] S16.size inb_S576_S16_48))
        (View.ld fx (Rect.unit (s := S36x8x128) (k0_off395 k) S1x1x16.size (k0_off395_inb k))) (View.ld fw (Rect.unit (s := S576) ![64] S16.size inb_S576_S16_64))
        (View.ld fx (Rect.unit (s := S36x8x128) (k0_off396 k) S1x1x16.size (k0_off396_inb k))) (View.ld fw (Rect.unit (s := S576) ![80] S16.size inb_S576_S16_80))⟩]

theorem Lexp1_length (fx : Vec F S36x8x128 .f32) (fw : Vec F S576 .f32) (k : Fin k0_t3_loop.trips) : (Lexp1 fx fw k).length = 96 := rfl

/-- Every store's payload is the block of `rowVal` its rectangle names. -/
theorem Lexp1_val (fx : Vec F S36x8x128 .f32) (fw : Vec F S576 .f32) (k : Fin k0_t3_loop.trips) :
    ∀ p ∈ Lexp1 fx fw k, ∀ x : p.1.shape.Idx, p.2 x = rowVal fx fw (p.1.emb x) := by
  intro p hp
  unfold Lexp1 at hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro x
  · exact piece_val fx fw k.val (hk8_1 k) (⟨11, by decide⟩ : Fin 12) 7 (by decide) _ (k0_off774_inb k) (k0_off774_eq k)
      _ (k0_off732_inb k) (k0_off732_eq k) _ (k0_off738_inb k) (k0_off738_eq k) _ (k0_off744_inb k) (k0_off744_eq k) _ (k0_off750_inb k) (k0_off750_eq k) _ (k0_off756_inb k) (k0_off756_eq k) _ (k0_off762_inb k) (k0_off762_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 7 (by decide) _ (k0_off773_inb k) (k0_off773_eq k)
      _ (k0_off731_inb k) (k0_off731_eq k) _ (k0_off737_inb k) (k0_off737_eq k) _ (k0_off743_inb k) (k0_off743_eq k) _ (k0_off749_inb k) (k0_off749_eq k) _ (k0_off755_inb k) (k0_off755_eq k) _ (k0_off761_inb k) (k0_off761_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 7 (by decide) _ (k0_off772_inb k) (k0_off772_eq k)
      _ (k0_off730_inb k) (k0_off730_eq k) _ (k0_off736_inb k) (k0_off736_eq k) _ (k0_off742_inb k) (k0_off742_eq k) _ (k0_off748_inb k) (k0_off748_eq k) _ (k0_off754_inb k) (k0_off754_eq k) _ (k0_off760_inb k) (k0_off760_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 7 (by decide) _ (k0_off771_inb k) (k0_off771_eq k)
      _ (k0_off729_inb k) (k0_off729_eq k) _ (k0_off735_inb k) (k0_off735_eq k) _ (k0_off741_inb k) (k0_off741_eq k) _ (k0_off747_inb k) (k0_off747_eq k) _ (k0_off753_inb k) (k0_off753_eq k) _ (k0_off759_inb k) (k0_off759_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 7 (by decide) _ (k0_off770_inb k) (k0_off770_eq k)
      _ (k0_off728_inb k) (k0_off728_eq k) _ (k0_off734_inb k) (k0_off734_eq k) _ (k0_off740_inb k) (k0_off740_eq k) _ (k0_off746_inb k) (k0_off746_eq k) _ (k0_off752_inb k) (k0_off752_eq k) _ (k0_off758_inb k) (k0_off758_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 7 (by decide) _ (k0_off769_inb k) (k0_off769_eq k)
      _ (k0_off727_inb k) (k0_off727_eq k) _ (k0_off733_inb k) (k0_off733_eq k) _ (k0_off739_inb k) (k0_off739_eq k) _ (k0_off745_inb k) (k0_off745_eq k) _ (k0_off751_inb k) (k0_off751_eq k) _ (k0_off757_inb k) (k0_off757_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 7 (by decide) _ (k0_off768_inb k) (k0_off768_eq k)
      _ (k0_off757_inb k) (k0_off757_eq k) _ (k0_off758_inb k) (k0_off758_eq k) _ (k0_off759_inb k) (k0_off759_eq k) _ (k0_off760_inb k) (k0_off760_eq k) _ (k0_off761_inb k) (k0_off761_eq k) _ (k0_off762_inb k) (k0_off762_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 7 (by decide) _ (k0_off767_inb k) (k0_off767_eq k)
      _ (k0_off751_inb k) (k0_off751_eq k) _ (k0_off752_inb k) (k0_off752_eq k) _ (k0_off753_inb k) (k0_off753_eq k) _ (k0_off754_inb k) (k0_off754_eq k) _ (k0_off755_inb k) (k0_off755_eq k) _ (k0_off756_inb k) (k0_off756_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 7 (by decide) _ (k0_off766_inb k) (k0_off766_eq k)
      _ (k0_off745_inb k) (k0_off745_eq k) _ (k0_off746_inb k) (k0_off746_eq k) _ (k0_off747_inb k) (k0_off747_eq k) _ (k0_off748_inb k) (k0_off748_eq k) _ (k0_off749_inb k) (k0_off749_eq k) _ (k0_off750_inb k) (k0_off750_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 7 (by decide) _ (k0_off765_inb k) (k0_off765_eq k)
      _ (k0_off739_inb k) (k0_off739_eq k) _ (k0_off740_inb k) (k0_off740_eq k) _ (k0_off741_inb k) (k0_off741_eq k) _ (k0_off742_inb k) (k0_off742_eq k) _ (k0_off743_inb k) (k0_off743_eq k) _ (k0_off744_inb k) (k0_off744_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 7 (by decide) _ (k0_off764_inb k) (k0_off764_eq k)
      _ (k0_off733_inb k) (k0_off733_eq k) _ (k0_off734_inb k) (k0_off734_eq k) _ (k0_off735_inb k) (k0_off735_eq k) _ (k0_off736_inb k) (k0_off736_eq k) _ (k0_off737_inb k) (k0_off737_eq k) _ (k0_off738_inb k) (k0_off738_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 7 (by decide) _ (k0_off763_inb k) (k0_off763_eq k)
      _ (k0_off727_inb k) (k0_off727_eq k) _ (k0_off728_inb k) (k0_off728_eq k) _ (k0_off729_inb k) (k0_off729_eq k) _ (k0_off730_inb k) (k0_off730_eq k) _ (k0_off731_inb k) (k0_off731_eq k) _ (k0_off732_inb k) (k0_off732_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_1 k) (⟨11, by decide⟩ : Fin 12) 6 (by decide) _ (k0_off726_inb k) (k0_off726_eq k)
      _ (k0_off684_inb k) (k0_off684_eq k) _ (k0_off690_inb k) (k0_off690_eq k) _ (k0_off696_inb k) (k0_off696_eq k) _ (k0_off702_inb k) (k0_off702_eq k) _ (k0_off708_inb k) (k0_off708_eq k) _ (k0_off714_inb k) (k0_off714_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 6 (by decide) _ (k0_off725_inb k) (k0_off725_eq k)
      _ (k0_off683_inb k) (k0_off683_eq k) _ (k0_off689_inb k) (k0_off689_eq k) _ (k0_off695_inb k) (k0_off695_eq k) _ (k0_off701_inb k) (k0_off701_eq k) _ (k0_off707_inb k) (k0_off707_eq k) _ (k0_off713_inb k) (k0_off713_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 6 (by decide) _ (k0_off724_inb k) (k0_off724_eq k)
      _ (k0_off682_inb k) (k0_off682_eq k) _ (k0_off688_inb k) (k0_off688_eq k) _ (k0_off694_inb k) (k0_off694_eq k) _ (k0_off700_inb k) (k0_off700_eq k) _ (k0_off706_inb k) (k0_off706_eq k) _ (k0_off712_inb k) (k0_off712_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 6 (by decide) _ (k0_off723_inb k) (k0_off723_eq k)
      _ (k0_off681_inb k) (k0_off681_eq k) _ (k0_off687_inb k) (k0_off687_eq k) _ (k0_off693_inb k) (k0_off693_eq k) _ (k0_off699_inb k) (k0_off699_eq k) _ (k0_off705_inb k) (k0_off705_eq k) _ (k0_off711_inb k) (k0_off711_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 6 (by decide) _ (k0_off722_inb k) (k0_off722_eq k)
      _ (k0_off680_inb k) (k0_off680_eq k) _ (k0_off686_inb k) (k0_off686_eq k) _ (k0_off692_inb k) (k0_off692_eq k) _ (k0_off698_inb k) (k0_off698_eq k) _ (k0_off704_inb k) (k0_off704_eq k) _ (k0_off710_inb k) (k0_off710_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 6 (by decide) _ (k0_off721_inb k) (k0_off721_eq k)
      _ (k0_off679_inb k) (k0_off679_eq k) _ (k0_off685_inb k) (k0_off685_eq k) _ (k0_off691_inb k) (k0_off691_eq k) _ (k0_off697_inb k) (k0_off697_eq k) _ (k0_off703_inb k) (k0_off703_eq k) _ (k0_off709_inb k) (k0_off709_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 6 (by decide) _ (k0_off720_inb k) (k0_off720_eq k)
      _ (k0_off709_inb k) (k0_off709_eq k) _ (k0_off710_inb k) (k0_off710_eq k) _ (k0_off711_inb k) (k0_off711_eq k) _ (k0_off712_inb k) (k0_off712_eq k) _ (k0_off713_inb k) (k0_off713_eq k) _ (k0_off714_inb k) (k0_off714_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 6 (by decide) _ (k0_off719_inb k) (k0_off719_eq k)
      _ (k0_off703_inb k) (k0_off703_eq k) _ (k0_off704_inb k) (k0_off704_eq k) _ (k0_off705_inb k) (k0_off705_eq k) _ (k0_off706_inb k) (k0_off706_eq k) _ (k0_off707_inb k) (k0_off707_eq k) _ (k0_off708_inb k) (k0_off708_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 6 (by decide) _ (k0_off718_inb k) (k0_off718_eq k)
      _ (k0_off697_inb k) (k0_off697_eq k) _ (k0_off698_inb k) (k0_off698_eq k) _ (k0_off699_inb k) (k0_off699_eq k) _ (k0_off700_inb k) (k0_off700_eq k) _ (k0_off701_inb k) (k0_off701_eq k) _ (k0_off702_inb k) (k0_off702_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 6 (by decide) _ (k0_off717_inb k) (k0_off717_eq k)
      _ (k0_off691_inb k) (k0_off691_eq k) _ (k0_off692_inb k) (k0_off692_eq k) _ (k0_off693_inb k) (k0_off693_eq k) _ (k0_off694_inb k) (k0_off694_eq k) _ (k0_off695_inb k) (k0_off695_eq k) _ (k0_off696_inb k) (k0_off696_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 6 (by decide) _ (k0_off716_inb k) (k0_off716_eq k)
      _ (k0_off685_inb k) (k0_off685_eq k) _ (k0_off686_inb k) (k0_off686_eq k) _ (k0_off687_inb k) (k0_off687_eq k) _ (k0_off688_inb k) (k0_off688_eq k) _ (k0_off689_inb k) (k0_off689_eq k) _ (k0_off690_inb k) (k0_off690_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 6 (by decide) _ (k0_off715_inb k) (k0_off715_eq k)
      _ (k0_off679_inb k) (k0_off679_eq k) _ (k0_off680_inb k) (k0_off680_eq k) _ (k0_off681_inb k) (k0_off681_eq k) _ (k0_off682_inb k) (k0_off682_eq k) _ (k0_off683_inb k) (k0_off683_eq k) _ (k0_off684_inb k) (k0_off684_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_1 k) (⟨11, by decide⟩ : Fin 12) 5 (by decide) _ (k0_off678_inb k) (k0_off678_eq k)
      _ (k0_off636_inb k) (k0_off636_eq k) _ (k0_off642_inb k) (k0_off642_eq k) _ (k0_off648_inb k) (k0_off648_eq k) _ (k0_off654_inb k) (k0_off654_eq k) _ (k0_off660_inb k) (k0_off660_eq k) _ (k0_off666_inb k) (k0_off666_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 5 (by decide) _ (k0_off677_inb k) (k0_off677_eq k)
      _ (k0_off635_inb k) (k0_off635_eq k) _ (k0_off641_inb k) (k0_off641_eq k) _ (k0_off647_inb k) (k0_off647_eq k) _ (k0_off653_inb k) (k0_off653_eq k) _ (k0_off659_inb k) (k0_off659_eq k) _ (k0_off665_inb k) (k0_off665_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 5 (by decide) _ (k0_off676_inb k) (k0_off676_eq k)
      _ (k0_off634_inb k) (k0_off634_eq k) _ (k0_off640_inb k) (k0_off640_eq k) _ (k0_off646_inb k) (k0_off646_eq k) _ (k0_off652_inb k) (k0_off652_eq k) _ (k0_off658_inb k) (k0_off658_eq k) _ (k0_off664_inb k) (k0_off664_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 5 (by decide) _ (k0_off675_inb k) (k0_off675_eq k)
      _ (k0_off633_inb k) (k0_off633_eq k) _ (k0_off639_inb k) (k0_off639_eq k) _ (k0_off645_inb k) (k0_off645_eq k) _ (k0_off651_inb k) (k0_off651_eq k) _ (k0_off657_inb k) (k0_off657_eq k) _ (k0_off663_inb k) (k0_off663_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 5 (by decide) _ (k0_off674_inb k) (k0_off674_eq k)
      _ (k0_off632_inb k) (k0_off632_eq k) _ (k0_off638_inb k) (k0_off638_eq k) _ (k0_off644_inb k) (k0_off644_eq k) _ (k0_off650_inb k) (k0_off650_eq k) _ (k0_off656_inb k) (k0_off656_eq k) _ (k0_off662_inb k) (k0_off662_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 5 (by decide) _ (k0_off673_inb k) (k0_off673_eq k)
      _ (k0_off631_inb k) (k0_off631_eq k) _ (k0_off637_inb k) (k0_off637_eq k) _ (k0_off643_inb k) (k0_off643_eq k) _ (k0_off649_inb k) (k0_off649_eq k) _ (k0_off655_inb k) (k0_off655_eq k) _ (k0_off661_inb k) (k0_off661_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 5 (by decide) _ (k0_off672_inb k) (k0_off672_eq k)
      _ (k0_off661_inb k) (k0_off661_eq k) _ (k0_off662_inb k) (k0_off662_eq k) _ (k0_off663_inb k) (k0_off663_eq k) _ (k0_off664_inb k) (k0_off664_eq k) _ (k0_off665_inb k) (k0_off665_eq k) _ (k0_off666_inb k) (k0_off666_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 5 (by decide) _ (k0_off671_inb k) (k0_off671_eq k)
      _ (k0_off655_inb k) (k0_off655_eq k) _ (k0_off656_inb k) (k0_off656_eq k) _ (k0_off657_inb k) (k0_off657_eq k) _ (k0_off658_inb k) (k0_off658_eq k) _ (k0_off659_inb k) (k0_off659_eq k) _ (k0_off660_inb k) (k0_off660_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 5 (by decide) _ (k0_off670_inb k) (k0_off670_eq k)
      _ (k0_off649_inb k) (k0_off649_eq k) _ (k0_off650_inb k) (k0_off650_eq k) _ (k0_off651_inb k) (k0_off651_eq k) _ (k0_off652_inb k) (k0_off652_eq k) _ (k0_off653_inb k) (k0_off653_eq k) _ (k0_off654_inb k) (k0_off654_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 5 (by decide) _ (k0_off669_inb k) (k0_off669_eq k)
      _ (k0_off643_inb k) (k0_off643_eq k) _ (k0_off644_inb k) (k0_off644_eq k) _ (k0_off645_inb k) (k0_off645_eq k) _ (k0_off646_inb k) (k0_off646_eq k) _ (k0_off647_inb k) (k0_off647_eq k) _ (k0_off648_inb k) (k0_off648_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 5 (by decide) _ (k0_off668_inb k) (k0_off668_eq k)
      _ (k0_off637_inb k) (k0_off637_eq k) _ (k0_off638_inb k) (k0_off638_eq k) _ (k0_off639_inb k) (k0_off639_eq k) _ (k0_off640_inb k) (k0_off640_eq k) _ (k0_off641_inb k) (k0_off641_eq k) _ (k0_off642_inb k) (k0_off642_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 5 (by decide) _ (k0_off667_inb k) (k0_off667_eq k)
      _ (k0_off631_inb k) (k0_off631_eq k) _ (k0_off632_inb k) (k0_off632_eq k) _ (k0_off633_inb k) (k0_off633_eq k) _ (k0_off634_inb k) (k0_off634_eq k) _ (k0_off635_inb k) (k0_off635_eq k) _ (k0_off636_inb k) (k0_off636_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_1 k) (⟨11, by decide⟩ : Fin 12) 4 (by decide) _ (k0_off630_inb k) (k0_off630_eq k)
      _ (k0_off588_inb k) (k0_off588_eq k) _ (k0_off594_inb k) (k0_off594_eq k) _ (k0_off600_inb k) (k0_off600_eq k) _ (k0_off606_inb k) (k0_off606_eq k) _ (k0_off612_inb k) (k0_off612_eq k) _ (k0_off618_inb k) (k0_off618_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 4 (by decide) _ (k0_off629_inb k) (k0_off629_eq k)
      _ (k0_off587_inb k) (k0_off587_eq k) _ (k0_off593_inb k) (k0_off593_eq k) _ (k0_off599_inb k) (k0_off599_eq k) _ (k0_off605_inb k) (k0_off605_eq k) _ (k0_off611_inb k) (k0_off611_eq k) _ (k0_off617_inb k) (k0_off617_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 4 (by decide) _ (k0_off628_inb k) (k0_off628_eq k)
      _ (k0_off586_inb k) (k0_off586_eq k) _ (k0_off592_inb k) (k0_off592_eq k) _ (k0_off598_inb k) (k0_off598_eq k) _ (k0_off604_inb k) (k0_off604_eq k) _ (k0_off610_inb k) (k0_off610_eq k) _ (k0_off616_inb k) (k0_off616_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 4 (by decide) _ (k0_off627_inb k) (k0_off627_eq k)
      _ (k0_off585_inb k) (k0_off585_eq k) _ (k0_off591_inb k) (k0_off591_eq k) _ (k0_off597_inb k) (k0_off597_eq k) _ (k0_off603_inb k) (k0_off603_eq k) _ (k0_off609_inb k) (k0_off609_eq k) _ (k0_off615_inb k) (k0_off615_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 4 (by decide) _ (k0_off626_inb k) (k0_off626_eq k)
      _ (k0_off584_inb k) (k0_off584_eq k) _ (k0_off590_inb k) (k0_off590_eq k) _ (k0_off596_inb k) (k0_off596_eq k) _ (k0_off602_inb k) (k0_off602_eq k) _ (k0_off608_inb k) (k0_off608_eq k) _ (k0_off614_inb k) (k0_off614_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 4 (by decide) _ (k0_off625_inb k) (k0_off625_eq k)
      _ (k0_off583_inb k) (k0_off583_eq k) _ (k0_off589_inb k) (k0_off589_eq k) _ (k0_off595_inb k) (k0_off595_eq k) _ (k0_off601_inb k) (k0_off601_eq k) _ (k0_off607_inb k) (k0_off607_eq k) _ (k0_off613_inb k) (k0_off613_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 4 (by decide) _ (k0_off624_inb k) (k0_off624_eq k)
      _ (k0_off613_inb k) (k0_off613_eq k) _ (k0_off614_inb k) (k0_off614_eq k) _ (k0_off615_inb k) (k0_off615_eq k) _ (k0_off616_inb k) (k0_off616_eq k) _ (k0_off617_inb k) (k0_off617_eq k) _ (k0_off618_inb k) (k0_off618_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 4 (by decide) _ (k0_off623_inb k) (k0_off623_eq k)
      _ (k0_off607_inb k) (k0_off607_eq k) _ (k0_off608_inb k) (k0_off608_eq k) _ (k0_off609_inb k) (k0_off609_eq k) _ (k0_off610_inb k) (k0_off610_eq k) _ (k0_off611_inb k) (k0_off611_eq k) _ (k0_off612_inb k) (k0_off612_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 4 (by decide) _ (k0_off622_inb k) (k0_off622_eq k)
      _ (k0_off601_inb k) (k0_off601_eq k) _ (k0_off602_inb k) (k0_off602_eq k) _ (k0_off603_inb k) (k0_off603_eq k) _ (k0_off604_inb k) (k0_off604_eq k) _ (k0_off605_inb k) (k0_off605_eq k) _ (k0_off606_inb k) (k0_off606_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 4 (by decide) _ (k0_off621_inb k) (k0_off621_eq k)
      _ (k0_off595_inb k) (k0_off595_eq k) _ (k0_off596_inb k) (k0_off596_eq k) _ (k0_off597_inb k) (k0_off597_eq k) _ (k0_off598_inb k) (k0_off598_eq k) _ (k0_off599_inb k) (k0_off599_eq k) _ (k0_off600_inb k) (k0_off600_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 4 (by decide) _ (k0_off620_inb k) (k0_off620_eq k)
      _ (k0_off589_inb k) (k0_off589_eq k) _ (k0_off590_inb k) (k0_off590_eq k) _ (k0_off591_inb k) (k0_off591_eq k) _ (k0_off592_inb k) (k0_off592_eq k) _ (k0_off593_inb k) (k0_off593_eq k) _ (k0_off594_inb k) (k0_off594_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 4 (by decide) _ (k0_off619_inb k) (k0_off619_eq k)
      _ (k0_off583_inb k) (k0_off583_eq k) _ (k0_off584_inb k) (k0_off584_eq k) _ (k0_off585_inb k) (k0_off585_eq k) _ (k0_off586_inb k) (k0_off586_eq k) _ (k0_off587_inb k) (k0_off587_eq k) _ (k0_off588_inb k) (k0_off588_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_1 k) (⟨11, by decide⟩ : Fin 12) 3 (by decide) _ (k0_off582_inb k) (k0_off582_eq k)
      _ (k0_off540_inb k) (k0_off540_eq k) _ (k0_off546_inb k) (k0_off546_eq k) _ (k0_off552_inb k) (k0_off552_eq k) _ (k0_off558_inb k) (k0_off558_eq k) _ (k0_off564_inb k) (k0_off564_eq k) _ (k0_off570_inb k) (k0_off570_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 3 (by decide) _ (k0_off581_inb k) (k0_off581_eq k)
      _ (k0_off539_inb k) (k0_off539_eq k) _ (k0_off545_inb k) (k0_off545_eq k) _ (k0_off551_inb k) (k0_off551_eq k) _ (k0_off557_inb k) (k0_off557_eq k) _ (k0_off563_inb k) (k0_off563_eq k) _ (k0_off569_inb k) (k0_off569_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 3 (by decide) _ (k0_off580_inb k) (k0_off580_eq k)
      _ (k0_off538_inb k) (k0_off538_eq k) _ (k0_off544_inb k) (k0_off544_eq k) _ (k0_off550_inb k) (k0_off550_eq k) _ (k0_off556_inb k) (k0_off556_eq k) _ (k0_off562_inb k) (k0_off562_eq k) _ (k0_off568_inb k) (k0_off568_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 3 (by decide) _ (k0_off579_inb k) (k0_off579_eq k)
      _ (k0_off537_inb k) (k0_off537_eq k) _ (k0_off543_inb k) (k0_off543_eq k) _ (k0_off549_inb k) (k0_off549_eq k) _ (k0_off555_inb k) (k0_off555_eq k) _ (k0_off561_inb k) (k0_off561_eq k) _ (k0_off567_inb k) (k0_off567_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 3 (by decide) _ (k0_off578_inb k) (k0_off578_eq k)
      _ (k0_off536_inb k) (k0_off536_eq k) _ (k0_off542_inb k) (k0_off542_eq k) _ (k0_off548_inb k) (k0_off548_eq k) _ (k0_off554_inb k) (k0_off554_eq k) _ (k0_off560_inb k) (k0_off560_eq k) _ (k0_off566_inb k) (k0_off566_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 3 (by decide) _ (k0_off577_inb k) (k0_off577_eq k)
      _ (k0_off535_inb k) (k0_off535_eq k) _ (k0_off541_inb k) (k0_off541_eq k) _ (k0_off547_inb k) (k0_off547_eq k) _ (k0_off553_inb k) (k0_off553_eq k) _ (k0_off559_inb k) (k0_off559_eq k) _ (k0_off565_inb k) (k0_off565_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 3 (by decide) _ (k0_off576_inb k) (k0_off576_eq k)
      _ (k0_off565_inb k) (k0_off565_eq k) _ (k0_off566_inb k) (k0_off566_eq k) _ (k0_off567_inb k) (k0_off567_eq k) _ (k0_off568_inb k) (k0_off568_eq k) _ (k0_off569_inb k) (k0_off569_eq k) _ (k0_off570_inb k) (k0_off570_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 3 (by decide) _ (k0_off575_inb k) (k0_off575_eq k)
      _ (k0_off559_inb k) (k0_off559_eq k) _ (k0_off560_inb k) (k0_off560_eq k) _ (k0_off561_inb k) (k0_off561_eq k) _ (k0_off562_inb k) (k0_off562_eq k) _ (k0_off563_inb k) (k0_off563_eq k) _ (k0_off564_inb k) (k0_off564_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 3 (by decide) _ (k0_off574_inb k) (k0_off574_eq k)
      _ (k0_off553_inb k) (k0_off553_eq k) _ (k0_off554_inb k) (k0_off554_eq k) _ (k0_off555_inb k) (k0_off555_eq k) _ (k0_off556_inb k) (k0_off556_eq k) _ (k0_off557_inb k) (k0_off557_eq k) _ (k0_off558_inb k) (k0_off558_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 3 (by decide) _ (k0_off573_inb k) (k0_off573_eq k)
      _ (k0_off547_inb k) (k0_off547_eq k) _ (k0_off548_inb k) (k0_off548_eq k) _ (k0_off549_inb k) (k0_off549_eq k) _ (k0_off550_inb k) (k0_off550_eq k) _ (k0_off551_inb k) (k0_off551_eq k) _ (k0_off552_inb k) (k0_off552_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 3 (by decide) _ (k0_off572_inb k) (k0_off572_eq k)
      _ (k0_off541_inb k) (k0_off541_eq k) _ (k0_off542_inb k) (k0_off542_eq k) _ (k0_off543_inb k) (k0_off543_eq k) _ (k0_off544_inb k) (k0_off544_eq k) _ (k0_off545_inb k) (k0_off545_eq k) _ (k0_off546_inb k) (k0_off546_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 3 (by decide) _ (k0_off571_inb k) (k0_off571_eq k)
      _ (k0_off535_inb k) (k0_off535_eq k) _ (k0_off536_inb k) (k0_off536_eq k) _ (k0_off537_inb k) (k0_off537_eq k) _ (k0_off538_inb k) (k0_off538_eq k) _ (k0_off539_inb k) (k0_off539_eq k) _ (k0_off540_inb k) (k0_off540_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_1 k) (⟨11, by decide⟩ : Fin 12) 2 (by decide) _ (k0_off534_inb k) (k0_off534_eq k)
      _ (k0_off492_inb k) (k0_off492_eq k) _ (k0_off498_inb k) (k0_off498_eq k) _ (k0_off504_inb k) (k0_off504_eq k) _ (k0_off510_inb k) (k0_off510_eq k) _ (k0_off516_inb k) (k0_off516_eq k) _ (k0_off522_inb k) (k0_off522_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 2 (by decide) _ (k0_off533_inb k) (k0_off533_eq k)
      _ (k0_off491_inb k) (k0_off491_eq k) _ (k0_off497_inb k) (k0_off497_eq k) _ (k0_off503_inb k) (k0_off503_eq k) _ (k0_off509_inb k) (k0_off509_eq k) _ (k0_off515_inb k) (k0_off515_eq k) _ (k0_off521_inb k) (k0_off521_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 2 (by decide) _ (k0_off532_inb k) (k0_off532_eq k)
      _ (k0_off490_inb k) (k0_off490_eq k) _ (k0_off496_inb k) (k0_off496_eq k) _ (k0_off502_inb k) (k0_off502_eq k) _ (k0_off508_inb k) (k0_off508_eq k) _ (k0_off514_inb k) (k0_off514_eq k) _ (k0_off520_inb k) (k0_off520_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 2 (by decide) _ (k0_off531_inb k) (k0_off531_eq k)
      _ (k0_off489_inb k) (k0_off489_eq k) _ (k0_off495_inb k) (k0_off495_eq k) _ (k0_off501_inb k) (k0_off501_eq k) _ (k0_off507_inb k) (k0_off507_eq k) _ (k0_off513_inb k) (k0_off513_eq k) _ (k0_off519_inb k) (k0_off519_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 2 (by decide) _ (k0_off530_inb k) (k0_off530_eq k)
      _ (k0_off488_inb k) (k0_off488_eq k) _ (k0_off494_inb k) (k0_off494_eq k) _ (k0_off500_inb k) (k0_off500_eq k) _ (k0_off506_inb k) (k0_off506_eq k) _ (k0_off512_inb k) (k0_off512_eq k) _ (k0_off518_inb k) (k0_off518_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 2 (by decide) _ (k0_off529_inb k) (k0_off529_eq k)
      _ (k0_off487_inb k) (k0_off487_eq k) _ (k0_off493_inb k) (k0_off493_eq k) _ (k0_off499_inb k) (k0_off499_eq k) _ (k0_off505_inb k) (k0_off505_eq k) _ (k0_off511_inb k) (k0_off511_eq k) _ (k0_off517_inb k) (k0_off517_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 2 (by decide) _ (k0_off528_inb k) (k0_off528_eq k)
      _ (k0_off517_inb k) (k0_off517_eq k) _ (k0_off518_inb k) (k0_off518_eq k) _ (k0_off519_inb k) (k0_off519_eq k) _ (k0_off520_inb k) (k0_off520_eq k) _ (k0_off521_inb k) (k0_off521_eq k) _ (k0_off522_inb k) (k0_off522_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 2 (by decide) _ (k0_off527_inb k) (k0_off527_eq k)
      _ (k0_off511_inb k) (k0_off511_eq k) _ (k0_off512_inb k) (k0_off512_eq k) _ (k0_off513_inb k) (k0_off513_eq k) _ (k0_off514_inb k) (k0_off514_eq k) _ (k0_off515_inb k) (k0_off515_eq k) _ (k0_off516_inb k) (k0_off516_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 2 (by decide) _ (k0_off526_inb k) (k0_off526_eq k)
      _ (k0_off505_inb k) (k0_off505_eq k) _ (k0_off506_inb k) (k0_off506_eq k) _ (k0_off507_inb k) (k0_off507_eq k) _ (k0_off508_inb k) (k0_off508_eq k) _ (k0_off509_inb k) (k0_off509_eq k) _ (k0_off510_inb k) (k0_off510_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 2 (by decide) _ (k0_off525_inb k) (k0_off525_eq k)
      _ (k0_off499_inb k) (k0_off499_eq k) _ (k0_off500_inb k) (k0_off500_eq k) _ (k0_off501_inb k) (k0_off501_eq k) _ (k0_off502_inb k) (k0_off502_eq k) _ (k0_off503_inb k) (k0_off503_eq k) _ (k0_off504_inb k) (k0_off504_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 2 (by decide) _ (k0_off524_inb k) (k0_off524_eq k)
      _ (k0_off493_inb k) (k0_off493_eq k) _ (k0_off494_inb k) (k0_off494_eq k) _ (k0_off495_inb k) (k0_off495_eq k) _ (k0_off496_inb k) (k0_off496_eq k) _ (k0_off497_inb k) (k0_off497_eq k) _ (k0_off498_inb k) (k0_off498_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 2 (by decide) _ (k0_off523_inb k) (k0_off523_eq k)
      _ (k0_off487_inb k) (k0_off487_eq k) _ (k0_off488_inb k) (k0_off488_eq k) _ (k0_off489_inb k) (k0_off489_eq k) _ (k0_off490_inb k) (k0_off490_eq k) _ (k0_off491_inb k) (k0_off491_eq k) _ (k0_off492_inb k) (k0_off492_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_1 k) (⟨11, by decide⟩ : Fin 12) 1 (by decide) _ (k0_off486_inb k) (k0_off486_eq k)
      _ (k0_off444_inb k) (k0_off444_eq k) _ (k0_off450_inb k) (k0_off450_eq k) _ (k0_off456_inb k) (k0_off456_eq k) _ (k0_off462_inb k) (k0_off462_eq k) _ (k0_off468_inb k) (k0_off468_eq k) _ (k0_off474_inb k) (k0_off474_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 1 (by decide) _ (k0_off485_inb k) (k0_off485_eq k)
      _ (k0_off443_inb k) (k0_off443_eq k) _ (k0_off449_inb k) (k0_off449_eq k) _ (k0_off455_inb k) (k0_off455_eq k) _ (k0_off461_inb k) (k0_off461_eq k) _ (k0_off467_inb k) (k0_off467_eq k) _ (k0_off473_inb k) (k0_off473_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 1 (by decide) _ (k0_off484_inb k) (k0_off484_eq k)
      _ (k0_off442_inb k) (k0_off442_eq k) _ (k0_off448_inb k) (k0_off448_eq k) _ (k0_off454_inb k) (k0_off454_eq k) _ (k0_off460_inb k) (k0_off460_eq k) _ (k0_off466_inb k) (k0_off466_eq k) _ (k0_off472_inb k) (k0_off472_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 1 (by decide) _ (k0_off483_inb k) (k0_off483_eq k)
      _ (k0_off441_inb k) (k0_off441_eq k) _ (k0_off447_inb k) (k0_off447_eq k) _ (k0_off453_inb k) (k0_off453_eq k) _ (k0_off459_inb k) (k0_off459_eq k) _ (k0_off465_inb k) (k0_off465_eq k) _ (k0_off471_inb k) (k0_off471_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 1 (by decide) _ (k0_off482_inb k) (k0_off482_eq k)
      _ (k0_off440_inb k) (k0_off440_eq k) _ (k0_off446_inb k) (k0_off446_eq k) _ (k0_off452_inb k) (k0_off452_eq k) _ (k0_off458_inb k) (k0_off458_eq k) _ (k0_off464_inb k) (k0_off464_eq k) _ (k0_off470_inb k) (k0_off470_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 1 (by decide) _ (k0_off481_inb k) (k0_off481_eq k)
      _ (k0_off439_inb k) (k0_off439_eq k) _ (k0_off445_inb k) (k0_off445_eq k) _ (k0_off451_inb k) (k0_off451_eq k) _ (k0_off457_inb k) (k0_off457_eq k) _ (k0_off463_inb k) (k0_off463_eq k) _ (k0_off469_inb k) (k0_off469_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 1 (by decide) _ (k0_off480_inb k) (k0_off480_eq k)
      _ (k0_off469_inb k) (k0_off469_eq k) _ (k0_off470_inb k) (k0_off470_eq k) _ (k0_off471_inb k) (k0_off471_eq k) _ (k0_off472_inb k) (k0_off472_eq k) _ (k0_off473_inb k) (k0_off473_eq k) _ (k0_off474_inb k) (k0_off474_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 1 (by decide) _ (k0_off479_inb k) (k0_off479_eq k)
      _ (k0_off463_inb k) (k0_off463_eq k) _ (k0_off464_inb k) (k0_off464_eq k) _ (k0_off465_inb k) (k0_off465_eq k) _ (k0_off466_inb k) (k0_off466_eq k) _ (k0_off467_inb k) (k0_off467_eq k) _ (k0_off468_inb k) (k0_off468_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 1 (by decide) _ (k0_off478_inb k) (k0_off478_eq k)
      _ (k0_off457_inb k) (k0_off457_eq k) _ (k0_off458_inb k) (k0_off458_eq k) _ (k0_off459_inb k) (k0_off459_eq k) _ (k0_off460_inb k) (k0_off460_eq k) _ (k0_off461_inb k) (k0_off461_eq k) _ (k0_off462_inb k) (k0_off462_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 1 (by decide) _ (k0_off477_inb k) (k0_off477_eq k)
      _ (k0_off451_inb k) (k0_off451_eq k) _ (k0_off452_inb k) (k0_off452_eq k) _ (k0_off453_inb k) (k0_off453_eq k) _ (k0_off454_inb k) (k0_off454_eq k) _ (k0_off455_inb k) (k0_off455_eq k) _ (k0_off456_inb k) (k0_off456_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 1 (by decide) _ (k0_off476_inb k) (k0_off476_eq k)
      _ (k0_off445_inb k) (k0_off445_eq k) _ (k0_off446_inb k) (k0_off446_eq k) _ (k0_off447_inb k) (k0_off447_eq k) _ (k0_off448_inb k) (k0_off448_eq k) _ (k0_off449_inb k) (k0_off449_eq k) _ (k0_off450_inb k) (k0_off450_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 1 (by decide) _ (k0_off475_inb k) (k0_off475_eq k)
      _ (k0_off439_inb k) (k0_off439_eq k) _ (k0_off440_inb k) (k0_off440_eq k) _ (k0_off441_inb k) (k0_off441_eq k) _ (k0_off442_inb k) (k0_off442_eq k) _ (k0_off443_inb k) (k0_off443_eq k) _ (k0_off444_inb k) (k0_off444_eq k)
      0 inb_S576_S16_0 rfl 16 inb_S576_S16_16 rfl 32 inb_S576_S16_32 rfl 48 inb_S576_S16_48 rfl 64 inb_S576_S16_64 rfl 80 inb_S576_S16_80 rfl x
  · exact piece_val fx fw k.val (hk8_1 k) (⟨11, by decide⟩ : Fin 12) 0 (by decide) _ (k0_off438_inb k) (k0_off438_eq k)
      _ (k0_off396_inb k) (k0_off396_eq k) _ (k0_off402_inb k) (k0_off402_eq k) _ (k0_off408_inb k) (k0_off408_eq k) _ (k0_off414_inb k) (k0_off414_eq k) _ (k0_off420_inb k) (k0_off420_eq k) _ (k0_off426_inb k) (k0_off426_eq k)
      80 inb_S576_S16_80 rfl 176 inb_S576_S16_176 rfl 272 inb_S576_S16_272 rfl 368 inb_S576_S16_368 rfl 464 inb_S576_S16_464 rfl 560 inb_S576_S16_560 rfl x
  · exact piece_val fx fw k.val (hk8_1 k) (⟨10, by decide⟩ : Fin 12) 0 (by decide) _ (k0_off437_inb k) (k0_off437_eq k)
      _ (k0_off395_inb k) (k0_off395_eq k) _ (k0_off401_inb k) (k0_off401_eq k) _ (k0_off407_inb k) (k0_off407_eq k) _ (k0_off413_inb k) (k0_off413_eq k) _ (k0_off419_inb k) (k0_off419_eq k) _ (k0_off425_inb k) (k0_off425_eq k)
      64 inb_S576_S16_64 rfl 160 inb_S576_S16_160 rfl 256 inb_S576_S16_256 rfl 352 inb_S576_S16_352 rfl 448 inb_S576_S16_448 rfl 544 inb_S576_S16_544 rfl x
  · exact piece_val fx fw k.val (hk8_1 k) (⟨9, by decide⟩ : Fin 12) 0 (by decide) _ (k0_off436_inb k) (k0_off436_eq k)
      _ (k0_off394_inb k) (k0_off394_eq k) _ (k0_off400_inb k) (k0_off400_eq k) _ (k0_off406_inb k) (k0_off406_eq k) _ (k0_off412_inb k) (k0_off412_eq k) _ (k0_off418_inb k) (k0_off418_eq k) _ (k0_off424_inb k) (k0_off424_eq k)
      48 inb_S576_S16_48 rfl 144 inb_S576_S16_144 rfl 240 inb_S576_S16_240 rfl 336 inb_S576_S16_336 rfl 432 inb_S576_S16_432 rfl 528 inb_S576_S16_528 rfl x
  · exact piece_val fx fw k.val (hk8_1 k) (⟨8, by decide⟩ : Fin 12) 0 (by decide) _ (k0_off435_inb k) (k0_off435_eq k)
      _ (k0_off393_inb k) (k0_off393_eq k) _ (k0_off399_inb k) (k0_off399_eq k) _ (k0_off405_inb k) (k0_off405_eq k) _ (k0_off411_inb k) (k0_off411_eq k) _ (k0_off417_inb k) (k0_off417_eq k) _ (k0_off423_inb k) (k0_off423_eq k)
      32 inb_S576_S16_32 rfl 128 inb_S576_S16_128 rfl 224 inb_S576_S16_224 rfl 320 inb_S576_S16_320 rfl 416 inb_S576_S16_416 rfl 512 inb_S576_S16_512 rfl x
  · exact piece_val fx fw k.val (hk8_1 k) (⟨7, by decide⟩ : Fin 12) 0 (by decide) _ (k0_off434_inb k) (k0_off434_eq k)
      _ (k0_off392_inb k) (k0_off392_eq k) _ (k0_off398_inb k) (k0_off398_eq k) _ (k0_off404_inb k) (k0_off404_eq k) _ (k0_off410_inb k) (k0_off410_eq k) _ (k0_off416_inb k) (k0_off416_eq k) _ (k0_off422_inb k) (k0_off422_eq k)
      16 inb_S576_S16_16 rfl 112 inb_S576_S16_112 rfl 208 inb_S576_S16_208 rfl 304 inb_S576_S16_304 rfl 400 inb_S576_S16_400 rfl 496 inb_S576_S16_496 rfl x
  · exact piece_val fx fw k.val (hk8_1 k) (⟨6, by decide⟩ : Fin 12) 0 (by decide) _ (k0_off433_inb k) (k0_off433_eq k)
      _ (k0_off391_inb k) (k0_off391_eq k) _ (k0_off397_inb k) (k0_off397_eq k) _ (k0_off403_inb k) (k0_off403_eq k) _ (k0_off409_inb k) (k0_off409_eq k) _ (k0_off415_inb k) (k0_off415_eq k) _ (k0_off421_inb k) (k0_off421_eq k)
      0 inb_S576_S16_0 rfl 96 inb_S576_S16_96 rfl 192 inb_S576_S16_192 rfl 288 inb_S576_S16_288 rfl 384 inb_S576_S16_384 rfl 480 inb_S576_S16_480 rfl x
  · exact piece_val fx fw k.val (hk8_1 k) (⟨5, by decide⟩ : Fin 12) 0 (by decide) _ (k0_off432_inb k) (k0_off432_eq k)
      _ (k0_off421_inb k) (k0_off421_eq k) _ (k0_off422_inb k) (k0_off422_eq k) _ (k0_off423_inb k) (k0_off423_eq k) _ (k0_off424_inb k) (k0_off424_eq k) _ (k0_off425_inb k) (k0_off425_eq k) _ (k0_off426_inb k) (k0_off426_eq k)
      480 inb_S576_S16_480 rfl 496 inb_S576_S16_496 rfl 512 inb_S576_S16_512 rfl 528 inb_S576_S16_528 rfl 544 inb_S576_S16_544 rfl 560 inb_S576_S16_560 rfl x
  · exact piece_val fx fw k.val (hk8_1 k) (⟨4, by decide⟩ : Fin 12) 0 (by decide) _ (k0_off431_inb k) (k0_off431_eq k)
      _ (k0_off415_inb k) (k0_off415_eq k) _ (k0_off416_inb k) (k0_off416_eq k) _ (k0_off417_inb k) (k0_off417_eq k) _ (k0_off418_inb k) (k0_off418_eq k) _ (k0_off419_inb k) (k0_off419_eq k) _ (k0_off420_inb k) (k0_off420_eq k)
      384 inb_S576_S16_384 rfl 400 inb_S576_S16_400 rfl 416 inb_S576_S16_416 rfl 432 inb_S576_S16_432 rfl 448 inb_S576_S16_448 rfl 464 inb_S576_S16_464 rfl x
  · exact piece_val fx fw k.val (hk8_1 k) (⟨3, by decide⟩ : Fin 12) 0 (by decide) _ (k0_off430_inb k) (k0_off430_eq k)
      _ (k0_off409_inb k) (k0_off409_eq k) _ (k0_off410_inb k) (k0_off410_eq k) _ (k0_off411_inb k) (k0_off411_eq k) _ (k0_off412_inb k) (k0_off412_eq k) _ (k0_off413_inb k) (k0_off413_eq k) _ (k0_off414_inb k) (k0_off414_eq k)
      288 inb_S576_S16_288 rfl 304 inb_S576_S16_304 rfl 320 inb_S576_S16_320 rfl 336 inb_S576_S16_336 rfl 352 inb_S576_S16_352 rfl 368 inb_S576_S16_368 rfl x
  · exact piece_val fx fw k.val (hk8_1 k) (⟨2, by decide⟩ : Fin 12) 0 (by decide) _ (k0_off429_inb k) (k0_off429_eq k)
      _ (k0_off403_inb k) (k0_off403_eq k) _ (k0_off404_inb k) (k0_off404_eq k) _ (k0_off405_inb k) (k0_off405_eq k) _ (k0_off406_inb k) (k0_off406_eq k) _ (k0_off407_inb k) (k0_off407_eq k) _ (k0_off408_inb k) (k0_off408_eq k)
      192 inb_S576_S16_192 rfl 208 inb_S576_S16_208 rfl 224 inb_S576_S16_224 rfl 240 inb_S576_S16_240 rfl 256 inb_S576_S16_256 rfl 272 inb_S576_S16_272 rfl x
  · exact piece_val fx fw k.val (hk8_1 k) (⟨1, by decide⟩ : Fin 12) 0 (by decide) _ (k0_off428_inb k) (k0_off428_eq k)
      _ (k0_off397_inb k) (k0_off397_eq k) _ (k0_off398_inb k) (k0_off398_eq k) _ (k0_off399_inb k) (k0_off399_eq k) _ (k0_off400_inb k) (k0_off400_eq k) _ (k0_off401_inb k) (k0_off401_eq k) _ (k0_off402_inb k) (k0_off402_eq k)
      96 inb_S576_S16_96 rfl 112 inb_S576_S16_112 rfl 128 inb_S576_S16_128 rfl 144 inb_S576_S16_144 rfl 160 inb_S576_S16_160 rfl 176 inb_S576_S16_176 rfl x
  · exact piece_val fx fw k.val (hk8_1 k) (⟨0, by decide⟩ : Fin 12) 0 (by decide) _ (k0_off427_inb k) (k0_off427_eq k)
      _ (k0_off391_inb k) (k0_off391_eq k) _ (k0_off392_inb k) (k0_off392_eq k) _ (k0_off393_inb k) (k0_off393_eq k) _ (k0_off394_inb k) (k0_off394_eq k) _ (k0_off395_inb k) (k0_off395_eq k) _ (k0_off396_inb k) (k0_off396_eq k)
      0 inb_S576_S16_0 rfl 16 inb_S576_S16_16 rfl 32 inb_S576_S16_32 rfl 48 inb_S576_S16_48 rfl 64 inb_S576_S16_64 rfl 80 inb_S576_S16_80 rfl x

/-- Every store lands in row `k`. -/
theorem Lexp1_row (fx : Vec F S36x8x128 .f32) (fw : Vec F S576 .f32) (k : Fin k0_t3_loop.trips) :
    ∀ p ∈ Lexp1 fx fw k, ∀ y ∈ p.1.set, (y 1).val = k.val := by
  intro p hp
  unfold Lexp1 at hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro y hy
  · exact row_of_mem _ (k0_off774_inb k) 11 k.val 112 (k0_off774_eq k) y hy
  · exact row_of_mem _ (k0_off773_inb k) 10 k.val 112 (k0_off773_eq k) y hy
  · exact row_of_mem _ (k0_off772_inb k) 9 k.val 112 (k0_off772_eq k) y hy
  · exact row_of_mem _ (k0_off771_inb k) 8 k.val 112 (k0_off771_eq k) y hy
  · exact row_of_mem _ (k0_off770_inb k) 7 k.val 112 (k0_off770_eq k) y hy
  · exact row_of_mem _ (k0_off769_inb k) 6 k.val 112 (k0_off769_eq k) y hy
  · exact row_of_mem _ (k0_off768_inb k) 5 k.val 112 (k0_off768_eq k) y hy
  · exact row_of_mem _ (k0_off767_inb k) 4 k.val 112 (k0_off767_eq k) y hy
  · exact row_of_mem _ (k0_off766_inb k) 3 k.val 112 (k0_off766_eq k) y hy
  · exact row_of_mem _ (k0_off765_inb k) 2 k.val 112 (k0_off765_eq k) y hy
  · exact row_of_mem _ (k0_off764_inb k) 1 k.val 112 (k0_off764_eq k) y hy
  · exact row_of_mem _ (k0_off763_inb k) 0 k.val 112 (k0_off763_eq k) y hy
  · exact row_of_mem _ (k0_off726_inb k) 11 k.val 96 (k0_off726_eq k) y hy
  · exact row_of_mem _ (k0_off725_inb k) 10 k.val 96 (k0_off725_eq k) y hy
  · exact row_of_mem _ (k0_off724_inb k) 9 k.val 96 (k0_off724_eq k) y hy
  · exact row_of_mem _ (k0_off723_inb k) 8 k.val 96 (k0_off723_eq k) y hy
  · exact row_of_mem _ (k0_off722_inb k) 7 k.val 96 (k0_off722_eq k) y hy
  · exact row_of_mem _ (k0_off721_inb k) 6 k.val 96 (k0_off721_eq k) y hy
  · exact row_of_mem _ (k0_off720_inb k) 5 k.val 96 (k0_off720_eq k) y hy
  · exact row_of_mem _ (k0_off719_inb k) 4 k.val 96 (k0_off719_eq k) y hy
  · exact row_of_mem _ (k0_off718_inb k) 3 k.val 96 (k0_off718_eq k) y hy
  · exact row_of_mem _ (k0_off717_inb k) 2 k.val 96 (k0_off717_eq k) y hy
  · exact row_of_mem _ (k0_off716_inb k) 1 k.val 96 (k0_off716_eq k) y hy
  · exact row_of_mem _ (k0_off715_inb k) 0 k.val 96 (k0_off715_eq k) y hy
  · exact row_of_mem _ (k0_off678_inb k) 11 k.val 80 (k0_off678_eq k) y hy
  · exact row_of_mem _ (k0_off677_inb k) 10 k.val 80 (k0_off677_eq k) y hy
  · exact row_of_mem _ (k0_off676_inb k) 9 k.val 80 (k0_off676_eq k) y hy
  · exact row_of_mem _ (k0_off675_inb k) 8 k.val 80 (k0_off675_eq k) y hy
  · exact row_of_mem _ (k0_off674_inb k) 7 k.val 80 (k0_off674_eq k) y hy
  · exact row_of_mem _ (k0_off673_inb k) 6 k.val 80 (k0_off673_eq k) y hy
  · exact row_of_mem _ (k0_off672_inb k) 5 k.val 80 (k0_off672_eq k) y hy
  · exact row_of_mem _ (k0_off671_inb k) 4 k.val 80 (k0_off671_eq k) y hy
  · exact row_of_mem _ (k0_off670_inb k) 3 k.val 80 (k0_off670_eq k) y hy
  · exact row_of_mem _ (k0_off669_inb k) 2 k.val 80 (k0_off669_eq k) y hy
  · exact row_of_mem _ (k0_off668_inb k) 1 k.val 80 (k0_off668_eq k) y hy
  · exact row_of_mem _ (k0_off667_inb k) 0 k.val 80 (k0_off667_eq k) y hy
  · exact row_of_mem _ (k0_off630_inb k) 11 k.val 64 (k0_off630_eq k) y hy
  · exact row_of_mem _ (k0_off629_inb k) 10 k.val 64 (k0_off629_eq k) y hy
  · exact row_of_mem _ (k0_off628_inb k) 9 k.val 64 (k0_off628_eq k) y hy
  · exact row_of_mem _ (k0_off627_inb k) 8 k.val 64 (k0_off627_eq k) y hy
  · exact row_of_mem _ (k0_off626_inb k) 7 k.val 64 (k0_off626_eq k) y hy
  · exact row_of_mem _ (k0_off625_inb k) 6 k.val 64 (k0_off625_eq k) y hy
  · exact row_of_mem _ (k0_off624_inb k) 5 k.val 64 (k0_off624_eq k) y hy
  · exact row_of_mem _ (k0_off623_inb k) 4 k.val 64 (k0_off623_eq k) y hy
  · exact row_of_mem _ (k0_off622_inb k) 3 k.val 64 (k0_off622_eq k) y hy
  · exact row_of_mem _ (k0_off621_inb k) 2 k.val 64 (k0_off621_eq k) y hy
  · exact row_of_mem _ (k0_off620_inb k) 1 k.val 64 (k0_off620_eq k) y hy
  · exact row_of_mem _ (k0_off619_inb k) 0 k.val 64 (k0_off619_eq k) y hy
  · exact row_of_mem _ (k0_off582_inb k) 11 k.val 48 (k0_off582_eq k) y hy
  · exact row_of_mem _ (k0_off581_inb k) 10 k.val 48 (k0_off581_eq k) y hy
  · exact row_of_mem _ (k0_off580_inb k) 9 k.val 48 (k0_off580_eq k) y hy
  · exact row_of_mem _ (k0_off579_inb k) 8 k.val 48 (k0_off579_eq k) y hy
  · exact row_of_mem _ (k0_off578_inb k) 7 k.val 48 (k0_off578_eq k) y hy
  · exact row_of_mem _ (k0_off577_inb k) 6 k.val 48 (k0_off577_eq k) y hy
  · exact row_of_mem _ (k0_off576_inb k) 5 k.val 48 (k0_off576_eq k) y hy
  · exact row_of_mem _ (k0_off575_inb k) 4 k.val 48 (k0_off575_eq k) y hy
  · exact row_of_mem _ (k0_off574_inb k) 3 k.val 48 (k0_off574_eq k) y hy
  · exact row_of_mem _ (k0_off573_inb k) 2 k.val 48 (k0_off573_eq k) y hy
  · exact row_of_mem _ (k0_off572_inb k) 1 k.val 48 (k0_off572_eq k) y hy
  · exact row_of_mem _ (k0_off571_inb k) 0 k.val 48 (k0_off571_eq k) y hy
  · exact row_of_mem _ (k0_off534_inb k) 11 k.val 32 (k0_off534_eq k) y hy
  · exact row_of_mem _ (k0_off533_inb k) 10 k.val 32 (k0_off533_eq k) y hy
  · exact row_of_mem _ (k0_off532_inb k) 9 k.val 32 (k0_off532_eq k) y hy
  · exact row_of_mem _ (k0_off531_inb k) 8 k.val 32 (k0_off531_eq k) y hy
  · exact row_of_mem _ (k0_off530_inb k) 7 k.val 32 (k0_off530_eq k) y hy
  · exact row_of_mem _ (k0_off529_inb k) 6 k.val 32 (k0_off529_eq k) y hy
  · exact row_of_mem _ (k0_off528_inb k) 5 k.val 32 (k0_off528_eq k) y hy
  · exact row_of_mem _ (k0_off527_inb k) 4 k.val 32 (k0_off527_eq k) y hy
  · exact row_of_mem _ (k0_off526_inb k) 3 k.val 32 (k0_off526_eq k) y hy
  · exact row_of_mem _ (k0_off525_inb k) 2 k.val 32 (k0_off525_eq k) y hy
  · exact row_of_mem _ (k0_off524_inb k) 1 k.val 32 (k0_off524_eq k) y hy
  · exact row_of_mem _ (k0_off523_inb k) 0 k.val 32 (k0_off523_eq k) y hy
  · exact row_of_mem _ (k0_off486_inb k) 11 k.val 16 (k0_off486_eq k) y hy
  · exact row_of_mem _ (k0_off485_inb k) 10 k.val 16 (k0_off485_eq k) y hy
  · exact row_of_mem _ (k0_off484_inb k) 9 k.val 16 (k0_off484_eq k) y hy
  · exact row_of_mem _ (k0_off483_inb k) 8 k.val 16 (k0_off483_eq k) y hy
  · exact row_of_mem _ (k0_off482_inb k) 7 k.val 16 (k0_off482_eq k) y hy
  · exact row_of_mem _ (k0_off481_inb k) 6 k.val 16 (k0_off481_eq k) y hy
  · exact row_of_mem _ (k0_off480_inb k) 5 k.val 16 (k0_off480_eq k) y hy
  · exact row_of_mem _ (k0_off479_inb k) 4 k.val 16 (k0_off479_eq k) y hy
  · exact row_of_mem _ (k0_off478_inb k) 3 k.val 16 (k0_off478_eq k) y hy
  · exact row_of_mem _ (k0_off477_inb k) 2 k.val 16 (k0_off477_eq k) y hy
  · exact row_of_mem _ (k0_off476_inb k) 1 k.val 16 (k0_off476_eq k) y hy
  · exact row_of_mem _ (k0_off475_inb k) 0 k.val 16 (k0_off475_eq k) y hy
  · exact row_of_mem _ (k0_off438_inb k) 11 k.val 0 (k0_off438_eq k) y hy
  · exact row_of_mem _ (k0_off437_inb k) 10 k.val 0 (k0_off437_eq k) y hy
  · exact row_of_mem _ (k0_off436_inb k) 9 k.val 0 (k0_off436_eq k) y hy
  · exact row_of_mem _ (k0_off435_inb k) 8 k.val 0 (k0_off435_eq k) y hy
  · exact row_of_mem _ (k0_off434_inb k) 7 k.val 0 (k0_off434_eq k) y hy
  · exact row_of_mem _ (k0_off433_inb k) 6 k.val 0 (k0_off433_eq k) y hy
  · exact row_of_mem _ (k0_off432_inb k) 5 k.val 0 (k0_off432_eq k) y hy
  · exact row_of_mem _ (k0_off431_inb k) 4 k.val 0 (k0_off431_eq k) y hy
  · exact row_of_mem _ (k0_off430_inb k) 3 k.val 0 (k0_off430_eq k) y hy
  · exact row_of_mem _ (k0_off429_inb k) 2 k.val 0 (k0_off429_eq k) y hy
  · exact row_of_mem _ (k0_off428_inb k) 1 k.val 0 (k0_off428_eq k) y hy
  · exact row_of_mem _ (k0_off427_inb k) 0 k.val 0 (k0_off427_eq k) y hy

/-- Every (node, chunk) of row `k` is some store's rectangle. -/
theorem Lexp1_cover (fx : Vec F S36x8x128 .f32) (fw : Vec F S576 .f32) (k : Fin k0_t3_loop.trips) (n : Fin 12) (c : Fin 8) :
    ∃ p ∈ Lexp1 fx fw k, ∀ y : S12x8x128.Idx, (y 0).val = n.val → (y 1).val = k.val → 16 * c.val ≤ (y 2).val → (y 2).val < 16 * c.val + 16 → y ∈ p.1.set := by
  fin_cases n <;> fin_cases c
  · exact ⟨(Lexp1 fx fw k)[95]'(by rw [Lexp1_length]; omega), List.getElem_mem _, fun y h0 h1 h2 h3 => mem_of_coords _ (k0_off427_inb k) 0 k.val 0 (k0_off427_eq k) y h0 h1 h2 h3⟩
  · exact ⟨(Lexp1 fx fw k)[83]'(by rw [Lexp1_length]; omega), List.getElem_mem _, fun y h0 h1 h2 h3 => mem_of_coords _ (k0_off475_inb k) 0 k.val 16 (k0_off475_eq k) y h0 h1 h2 h3⟩
  · exact ⟨(Lexp1 fx fw k)[71]'(by rw [Lexp1_length]; omega), List.getElem_mem _, fun y h0 h1 h2 h3 => mem_of_coords _ (k0_off523_inb k) 0 k.val 32 (k0_off523_eq k) y h0 h1 h2 h3⟩
  · exact ⟨(Lexp1 fx fw k)[59]'(by rw [Lexp1_length]; omega), List.getElem_mem _, fun y h0 h1 h2 h3 => mem_of_coords _ (k0_off571_inb k) 0 k.val 48 (k0_off571_eq k) y h0 h1 h2 h3⟩
  · exact ⟨(Lexp1 fx fw k)[47]'(by rw [Lexp1_length]; omega), List.getElem_mem _, fun y h0 h1 h2 h3 => mem_of_coords _ (k0_off619_inb k) 0 k.val 64 (k0_off619_eq k) y h0 h1 h2 h3⟩
  · exact ⟨(Lexp1 fx fw k)[35]'(by rw [Lexp1_length]; omega), List.getElem_mem _, fun y h0 h1 h2 h3 => mem_of_coords _ (k0_off667_inb k) 0 k.val 80 (k0_off667_eq k) y h0 h1 h2 h3⟩
  · exact ⟨(Lexp1 fx fw k)[23]'(by rw [Lexp1_length]; omega), List.getElem_mem _, fun y h0 h1 h2 h3 => mem_of_coords _ (k0_off715_inb k) 0 k.val 96 (k0_off715_eq k) y h0 h1 h2 h3⟩
  · exact ⟨(Lexp1 fx fw k)[11]'(by rw [Lexp1_length]; omega), List.getElem_mem _, fun y h0 h1 h2 h3 => mem_of_coords _ (k0_off763_inb k) 0 k.val 112 (k0_off763_eq k) y h0 h1 h2 h3⟩
  · exact ⟨(Lexp1 fx fw k)[94]'(by rw [Lexp1_length]; omega), List.getElem_mem _, fun y h0 h1 h2 h3 => mem_of_coords _ (k0_off428_inb k) 1 k.val 0 (k0_off428_eq k) y h0 h1 h2 h3⟩
  · exact ⟨(Lexp1 fx fw k)[82]'(by rw [Lexp1_length]; omega), List.getElem_mem _, fun y h0 h1 h2 h3 => mem_of_coords _ (k0_off476_inb k) 1 k.val 16 (k0_off476_eq k) y h0 h1 h2 h3⟩
  · exact ⟨(Lexp1 fx fw k)[70]'(by rw [Lexp1_length]; omega), List.getElem_mem _, fun y h0 h1 h2 h3 => mem_of_coords _ (k0_off524_inb k) 1 k.val 32 (k0_off524_eq k) y h0 h1 h2 h3⟩
  · exact ⟨(Lexp1 fx fw k)[58]'(by rw [Lexp1_length]; omega), List.getElem_mem _, fun y h0 h1 h2 h3 => mem_of_coords _ (k0_off572_inb k) 1 k.val 48 (k0_off572_eq k) y h0 h1 h2 h3⟩
  · exact ⟨(Lexp1 fx fw k)[46]'(by rw [Lexp1_length]; omega), List.getElem_mem _, fun y h0 h1 h2 h3 => mem_of_coords _ (k0_off620_inb k) 1 k.val 64 (k0_off620_eq k) y h0 h1 h2 h3⟩
  · exact ⟨(Lexp1 fx fw k)[34]'(by rw [Lexp1_length]; omega), List.getElem_mem _, fun y h0 h1 h2 h3 => mem_of_coords _ (k0_off668_inb k) 1 k.val 80 (k0_off668_eq k) y h0 h1 h2 h3⟩
  · exact ⟨(Lexp1 fx fw k)[22]'(by rw [Lexp1_length]; omega), List.getElem_mem _, fun y h0 h1 h2 h3 => mem_of_coords _ (k0_off716_inb k) 1 k.val 96 (k0_off716_eq k) y h0 h1 h2 h3⟩
  · exact ⟨(Lexp1 fx fw k)[10]'(by rw [Lexp1_length]; omega), List.getElem_mem _, fun y h0 h1 h2 h3 => mem_of_coords _ (k0_off764_inb k) 1 k.val 112 (k0_off764_eq k) y h0 h1 h2 h3⟩
  · exact ⟨(Lexp1 fx fw k)[93]'(by rw [Lexp1_length]; omega), List.getElem_mem _, fun y h0 h1 h2 h3 => mem_of_coords _ (k0_off429_inb k) 2 k.val 0 (k0_off429_eq k) y h0 h1 h2 h3⟩
  · exact ⟨(Lexp1 fx fw k)[81]'(by rw [Lexp1_length]; omega), List.getElem_mem _, fun y h0 h1 h2 h3 => mem_of_coords _ (k0_off477_inb k) 2 k.val 16 (k0_off477_eq k) y h0 h1 h2 h3⟩
  · exact ⟨(Lexp1 fx fw k)[69]'(by rw [Lexp1_length]; omega), List.getElem_mem _, fun y h0 h1 h2 h3 => mem_of_coords _ (k0_off525_inb k) 2 k.val 32 (k0_off525_eq k) y h0 h1 h2 h3⟩
  · exact ⟨(Lexp1 fx fw k)[57]'(by rw [Lexp1_length]; omega), List.getElem_mem _, fun y h0 h1 h2 h3 => mem_of_coords _ (k0_off573_inb k) 2 k.val 48 (k0_off573_eq k) y h0 h1 h2 h3⟩
  · exact ⟨(Lexp1 fx fw k)[45]'(by rw [Lexp1_length]; omega), List.getElem_mem _, fun y h0 h1 h2 h3 => mem_of_coords _ (k0_off621_inb k) 2 k.val 64 (k0_off621_eq k) y h0 h1 h2 h3⟩
  · exact ⟨(Lexp1 fx fw k)[33]'(by rw [Lexp1_length]; omega), List.getElem_mem _, fun y h0 h1 h2 h3 => mem_of_coords _ (k0_off669_inb k) 2 k.val 80 (k0_off669_eq k) y h0 h1 h2 h3⟩
  · exact ⟨(Lexp1 fx fw k)[21]'(by rw [Lexp1_length]; omega), List.getElem_mem _, fun y h0 h1 h2 h3 => mem_of_coords _ (k0_off717_inb k) 2 k.val 96 (k0_off717_eq k) y h0 h1 h2 h3⟩
  · exact ⟨(Lexp1 fx fw k)[9]'(by rw [Lexp1_length]; omega), List.getElem_mem _, fun y h0 h1 h2 h3 => mem_of_coords _ (k0_off765_inb k) 2 k.val 112 (k0_off765_eq k) y h0 h1 h2 h3⟩
  · exact ⟨(Lexp1 fx fw k)[92]'(by rw [Lexp1_length]; omega), List.getElem_mem _, fun y h0 h1 h2 h3 => mem_of_coords _ (k0_off430_inb k) 3 k.val 0 (k0_off430_eq k) y h0 h1 h2 h3⟩
  · exact ⟨(Lexp1 fx fw k)[80]'(by rw [Lexp1_length]; omega), List.getElem_mem _, fun y h0 h1 h2 h3 => mem_of_coords _ (k0_off478_inb k) 3 k.val 16 (k0_off478_eq k) y h0 h1 h2 h3⟩
  · exact ⟨(Lexp1 fx fw k)[68]'(by rw [Lexp1_length]; omega), List.getElem_mem _, fun y h0 h1 h2 h3 => mem_of_coords _ (k0_off526_inb k) 3 k.val 32 (k0_off526_eq k) y h0 h1 h2 h3⟩
  · exact ⟨(Lexp1 fx fw k)[56]'(by rw [Lexp1_length]; omega), List.getElem_mem _, fun y h0 h1 h2 h3 => mem_of_coords _ (k0_off574_inb k) 3 k.val 48 (k0_off574_eq k) y h0 h1 h2 h3⟩
  · exact ⟨(Lexp1 fx fw k)[44]'(by rw [Lexp1_length]; omega), List.getElem_mem _, fun y h0 h1 h2 h3 => mem_of_coords _ (k0_off622_inb k) 3 k.val 64 (k0_off622_eq k) y h0 h1 h2 h3⟩
  · exact ⟨(Lexp1 fx fw k)[32]'(by rw [Lexp1_length]; omega), List.getElem_mem _, fun y h0 h1 h2 h3 => mem_of_coords _ (k0_off670_inb k) 3 k.val 80 (k0_off670_eq k) y h0 h1 h2 h3⟩
  · exact ⟨(Lexp1 fx fw k)[20]'(by rw [Lexp1_length]; omega), List.getElem_mem _, fun y h0 h1 h2 h3 => mem_of_coords _ (k0_off718_inb k) 3 k.val 96 (k0_off718_eq k) y h0 h1 h2 h3⟩
  · exact ⟨(Lexp1 fx fw k)[8]'(by rw [Lexp1_length]; omega), List.getElem_mem _, fun y h0 h1 h2 h3 => mem_of_coords _ (k0_off766_inb k) 3 k.val 112 (k0_off766_eq k) y h0 h1 h2 h3⟩
  · exact ⟨(Lexp1 fx fw k)[91]'(by rw [Lexp1_length]; omega), List.getElem_mem _, fun y h0 h1 h2 h3 => mem_of_coords _ (k0_off431_inb k) 4 k.val 0 (k0_off431_eq k) y h0 h1 h2 h3⟩
  · exact ⟨(Lexp1 fx fw k)[79]'(by rw [Lexp1_length]; omega), List.getElem_mem _, fun y h0 h1 h2 h3 => mem_of_coords _ (k0_off479_inb k) 4 k.val 16 (k0_off479_eq k) y h0 h1 h2 h3⟩
  · exact ⟨(Lexp1 fx fw k)[67]'(by rw [Lexp1_length]; omega), List.getElem_mem _, fun y h0 h1 h2 h3 => mem_of_coords _ (k0_off527_inb k) 4 k.val 32 (k0_off527_eq k) y h0 h1 h2 h3⟩
  · exact ⟨(Lexp1 fx fw k)[55]'(by rw [Lexp1_length]; omega), List.getElem_mem _, fun y h0 h1 h2 h3 => mem_of_coords _ (k0_off575_inb k) 4 k.val 48 (k0_off575_eq k) y h0 h1 h2 h3⟩
  · exact ⟨(Lexp1 fx fw k)[43]'(by rw [Lexp1_length]; omega), List.getElem_mem _, fun y h0 h1 h2 h3 => mem_of_coords _ (k0_off623_inb k) 4 k.val 64 (k0_off623_eq k) y h0 h1 h2 h3⟩
  · exact ⟨(Lexp1 fx fw k)[31]'(by rw [Lexp1_length]; omega), List.getElem_mem _, fun y h0 h1 h2 h3 => mem_of_coords _ (k0_off671_inb k) 4 k.val 80 (k0_off671_eq k) y h0 h1 h2 h3⟩
  · exact ⟨(Lexp1 fx fw k)[19]'(by rw [Lexp1_length]; omega), List.getElem_mem _, fun y h0 h1 h2 h3 => mem_of_coords _ (k0_off719_inb k) 4 k.val 96 (k0_off719_eq k) y h0 h1 h2 h3⟩
  · exact ⟨(Lexp1 fx fw k)[7]'(by rw [Lexp1_length]; omega), List.getElem_mem _, fun y h0 h1 h2 h3 => mem_of_coords _ (k0_off767_inb k) 4 k.val 112 (k0_off767_eq k) y h0 h1 h2 h3⟩
  · exact ⟨(Lexp1 fx fw k)[90]'(by rw [Lexp1_length]; omega), List.getElem_mem _, fun y h0 h1 h2 h3 => mem_of_coords _ (k0_off432_inb k) 5 k.val 0 (k0_off432_eq k) y h0 h1 h2 h3⟩
  · exact ⟨(Lexp1 fx fw k)[78]'(by rw [Lexp1_length]; omega), List.getElem_mem _, fun y h0 h1 h2 h3 => mem_of_coords _ (k0_off480_inb k) 5 k.val 16 (k0_off480_eq k) y h0 h1 h2 h3⟩
  · exact ⟨(Lexp1 fx fw k)[66]'(by rw [Lexp1_length]; omega), List.getElem_mem _, fun y h0 h1 h2 h3 => mem_of_coords _ (k0_off528_inb k) 5 k.val 32 (k0_off528_eq k) y h0 h1 h2 h3⟩
  · exact ⟨(Lexp1 fx fw k)[54]'(by rw [Lexp1_length]; omega), List.getElem_mem _, fun y h0 h1 h2 h3 => mem_of_coords _ (k0_off576_inb k) 5 k.val 48 (k0_off576_eq k) y h0 h1 h2 h3⟩
  · exact ⟨(Lexp1 fx fw k)[42]'(by rw [Lexp1_length]; omega), List.getElem_mem _, fun y h0 h1 h2 h3 => mem_of_coords _ (k0_off624_inb k) 5 k.val 64 (k0_off624_eq k) y h0 h1 h2 h3⟩
  · exact ⟨(Lexp1 fx fw k)[30]'(by rw [Lexp1_length]; omega), List.getElem_mem _, fun y h0 h1 h2 h3 => mem_of_coords _ (k0_off672_inb k) 5 k.val 80 (k0_off672_eq k) y h0 h1 h2 h3⟩
  · exact ⟨(Lexp1 fx fw k)[18]'(by rw [Lexp1_length]; omega), List.getElem_mem _, fun y h0 h1 h2 h3 => mem_of_coords _ (k0_off720_inb k) 5 k.val 96 (k0_off720_eq k) y h0 h1 h2 h3⟩
  · exact ⟨(Lexp1 fx fw k)[6]'(by rw [Lexp1_length]; omega), List.getElem_mem _, fun y h0 h1 h2 h3 => mem_of_coords _ (k0_off768_inb k) 5 k.val 112 (k0_off768_eq k) y h0 h1 h2 h3⟩
  · exact ⟨(Lexp1 fx fw k)[89]'(by rw [Lexp1_length]; omega), List.getElem_mem _, fun y h0 h1 h2 h3 => mem_of_coords _ (k0_off433_inb k) 6 k.val 0 (k0_off433_eq k) y h0 h1 h2 h3⟩
  · exact ⟨(Lexp1 fx fw k)[77]'(by rw [Lexp1_length]; omega), List.getElem_mem _, fun y h0 h1 h2 h3 => mem_of_coords _ (k0_off481_inb k) 6 k.val 16 (k0_off481_eq k) y h0 h1 h2 h3⟩
  · exact ⟨(Lexp1 fx fw k)[65]'(by rw [Lexp1_length]; omega), List.getElem_mem _, fun y h0 h1 h2 h3 => mem_of_coords _ (k0_off529_inb k) 6 k.val 32 (k0_off529_eq k) y h0 h1 h2 h3⟩
  · exact ⟨(Lexp1 fx fw k)[53]'(by rw [Lexp1_length]; omega), List.getElem_mem _, fun y h0 h1 h2 h3 => mem_of_coords _ (k0_off577_inb k) 6 k.val 48 (k0_off577_eq k) y h0 h1 h2 h3⟩
  · exact ⟨(Lexp1 fx fw k)[41]'(by rw [Lexp1_length]; omega), List.getElem_mem _, fun y h0 h1 h2 h3 => mem_of_coords _ (k0_off625_inb k) 6 k.val 64 (k0_off625_eq k) y h0 h1 h2 h3⟩
  · exact ⟨(Lexp1 fx fw k)[29]'(by rw [Lexp1_length]; omega), List.getElem_mem _, fun y h0 h1 h2 h3 => mem_of_coords _ (k0_off673_inb k) 6 k.val 80 (k0_off673_eq k) y h0 h1 h2 h3⟩
  · exact ⟨(Lexp1 fx fw k)[17]'(by rw [Lexp1_length]; omega), List.getElem_mem _, fun y h0 h1 h2 h3 => mem_of_coords _ (k0_off721_inb k) 6 k.val 96 (k0_off721_eq k) y h0 h1 h2 h3⟩
  · exact ⟨(Lexp1 fx fw k)[5]'(by rw [Lexp1_length]; omega), List.getElem_mem _, fun y h0 h1 h2 h3 => mem_of_coords _ (k0_off769_inb k) 6 k.val 112 (k0_off769_eq k) y h0 h1 h2 h3⟩
  · exact ⟨(Lexp1 fx fw k)[88]'(by rw [Lexp1_length]; omega), List.getElem_mem _, fun y h0 h1 h2 h3 => mem_of_coords _ (k0_off434_inb k) 7 k.val 0 (k0_off434_eq k) y h0 h1 h2 h3⟩
  · exact ⟨(Lexp1 fx fw k)[76]'(by rw [Lexp1_length]; omega), List.getElem_mem _, fun y h0 h1 h2 h3 => mem_of_coords _ (k0_off482_inb k) 7 k.val 16 (k0_off482_eq k) y h0 h1 h2 h3⟩
  · exact ⟨(Lexp1 fx fw k)[64]'(by rw [Lexp1_length]; omega), List.getElem_mem _, fun y h0 h1 h2 h3 => mem_of_coords _ (k0_off530_inb k) 7 k.val 32 (k0_off530_eq k) y h0 h1 h2 h3⟩
  · exact ⟨(Lexp1 fx fw k)[52]'(by rw [Lexp1_length]; omega), List.getElem_mem _, fun y h0 h1 h2 h3 => mem_of_coords _ (k0_off578_inb k) 7 k.val 48 (k0_off578_eq k) y h0 h1 h2 h3⟩
  · exact ⟨(Lexp1 fx fw k)[40]'(by rw [Lexp1_length]; omega), List.getElem_mem _, fun y h0 h1 h2 h3 => mem_of_coords _ (k0_off626_inb k) 7 k.val 64 (k0_off626_eq k) y h0 h1 h2 h3⟩
  · exact ⟨(Lexp1 fx fw k)[28]'(by rw [Lexp1_length]; omega), List.getElem_mem _, fun y h0 h1 h2 h3 => mem_of_coords _ (k0_off674_inb k) 7 k.val 80 (k0_off674_eq k) y h0 h1 h2 h3⟩
  · exact ⟨(Lexp1 fx fw k)[16]'(by rw [Lexp1_length]; omega), List.getElem_mem _, fun y h0 h1 h2 h3 => mem_of_coords _ (k0_off722_inb k) 7 k.val 96 (k0_off722_eq k) y h0 h1 h2 h3⟩
  · exact ⟨(Lexp1 fx fw k)[4]'(by rw [Lexp1_length]; omega), List.getElem_mem _, fun y h0 h1 h2 h3 => mem_of_coords _ (k0_off770_inb k) 7 k.val 112 (k0_off770_eq k) y h0 h1 h2 h3⟩
  · exact ⟨(Lexp1 fx fw k)[87]'(by rw [Lexp1_length]; omega), List.getElem_mem _, fun y h0 h1 h2 h3 => mem_of_coords _ (k0_off435_inb k) 8 k.val 0 (k0_off435_eq k) y h0 h1 h2 h3⟩
  · exact ⟨(Lexp1 fx fw k)[75]'(by rw [Lexp1_length]; omega), List.getElem_mem _, fun y h0 h1 h2 h3 => mem_of_coords _ (k0_off483_inb k) 8 k.val 16 (k0_off483_eq k) y h0 h1 h2 h3⟩
  · exact ⟨(Lexp1 fx fw k)[63]'(by rw [Lexp1_length]; omega), List.getElem_mem _, fun y h0 h1 h2 h3 => mem_of_coords _ (k0_off531_inb k) 8 k.val 32 (k0_off531_eq k) y h0 h1 h2 h3⟩
  · exact ⟨(Lexp1 fx fw k)[51]'(by rw [Lexp1_length]; omega), List.getElem_mem _, fun y h0 h1 h2 h3 => mem_of_coords _ (k0_off579_inb k) 8 k.val 48 (k0_off579_eq k) y h0 h1 h2 h3⟩
  · exact ⟨(Lexp1 fx fw k)[39]'(by rw [Lexp1_length]; omega), List.getElem_mem _, fun y h0 h1 h2 h3 => mem_of_coords _ (k0_off627_inb k) 8 k.val 64 (k0_off627_eq k) y h0 h1 h2 h3⟩
  · exact ⟨(Lexp1 fx fw k)[27]'(by rw [Lexp1_length]; omega), List.getElem_mem _, fun y h0 h1 h2 h3 => mem_of_coords _ (k0_off675_inb k) 8 k.val 80 (k0_off675_eq k) y h0 h1 h2 h3⟩
  · exact ⟨(Lexp1 fx fw k)[15]'(by rw [Lexp1_length]; omega), List.getElem_mem _, fun y h0 h1 h2 h3 => mem_of_coords _ (k0_off723_inb k) 8 k.val 96 (k0_off723_eq k) y h0 h1 h2 h3⟩
  · exact ⟨(Lexp1 fx fw k)[3]'(by rw [Lexp1_length]; omega), List.getElem_mem _, fun y h0 h1 h2 h3 => mem_of_coords _ (k0_off771_inb k) 8 k.val 112 (k0_off771_eq k) y h0 h1 h2 h3⟩
  · exact ⟨(Lexp1 fx fw k)[86]'(by rw [Lexp1_length]; omega), List.getElem_mem _, fun y h0 h1 h2 h3 => mem_of_coords _ (k0_off436_inb k) 9 k.val 0 (k0_off436_eq k) y h0 h1 h2 h3⟩
  · exact ⟨(Lexp1 fx fw k)[74]'(by rw [Lexp1_length]; omega), List.getElem_mem _, fun y h0 h1 h2 h3 => mem_of_coords _ (k0_off484_inb k) 9 k.val 16 (k0_off484_eq k) y h0 h1 h2 h3⟩
  · exact ⟨(Lexp1 fx fw k)[62]'(by rw [Lexp1_length]; omega), List.getElem_mem _, fun y h0 h1 h2 h3 => mem_of_coords _ (k0_off532_inb k) 9 k.val 32 (k0_off532_eq k) y h0 h1 h2 h3⟩
  · exact ⟨(Lexp1 fx fw k)[50]'(by rw [Lexp1_length]; omega), List.getElem_mem _, fun y h0 h1 h2 h3 => mem_of_coords _ (k0_off580_inb k) 9 k.val 48 (k0_off580_eq k) y h0 h1 h2 h3⟩
  · exact ⟨(Lexp1 fx fw k)[38]'(by rw [Lexp1_length]; omega), List.getElem_mem _, fun y h0 h1 h2 h3 => mem_of_coords _ (k0_off628_inb k) 9 k.val 64 (k0_off628_eq k) y h0 h1 h2 h3⟩
  · exact ⟨(Lexp1 fx fw k)[26]'(by rw [Lexp1_length]; omega), List.getElem_mem _, fun y h0 h1 h2 h3 => mem_of_coords _ (k0_off676_inb k) 9 k.val 80 (k0_off676_eq k) y h0 h1 h2 h3⟩
  · exact ⟨(Lexp1 fx fw k)[14]'(by rw [Lexp1_length]; omega), List.getElem_mem _, fun y h0 h1 h2 h3 => mem_of_coords _ (k0_off724_inb k) 9 k.val 96 (k0_off724_eq k) y h0 h1 h2 h3⟩
  · exact ⟨(Lexp1 fx fw k)[2]'(by rw [Lexp1_length]; omega), List.getElem_mem _, fun y h0 h1 h2 h3 => mem_of_coords _ (k0_off772_inb k) 9 k.val 112 (k0_off772_eq k) y h0 h1 h2 h3⟩
  · exact ⟨(Lexp1 fx fw k)[85]'(by rw [Lexp1_length]; omega), List.getElem_mem _, fun y h0 h1 h2 h3 => mem_of_coords _ (k0_off437_inb k) 10 k.val 0 (k0_off437_eq k) y h0 h1 h2 h3⟩
  · exact ⟨(Lexp1 fx fw k)[73]'(by rw [Lexp1_length]; omega), List.getElem_mem _, fun y h0 h1 h2 h3 => mem_of_coords _ (k0_off485_inb k) 10 k.val 16 (k0_off485_eq k) y h0 h1 h2 h3⟩
  · exact ⟨(Lexp1 fx fw k)[61]'(by rw [Lexp1_length]; omega), List.getElem_mem _, fun y h0 h1 h2 h3 => mem_of_coords _ (k0_off533_inb k) 10 k.val 32 (k0_off533_eq k) y h0 h1 h2 h3⟩
  · exact ⟨(Lexp1 fx fw k)[49]'(by rw [Lexp1_length]; omega), List.getElem_mem _, fun y h0 h1 h2 h3 => mem_of_coords _ (k0_off581_inb k) 10 k.val 48 (k0_off581_eq k) y h0 h1 h2 h3⟩
  · exact ⟨(Lexp1 fx fw k)[37]'(by rw [Lexp1_length]; omega), List.getElem_mem _, fun y h0 h1 h2 h3 => mem_of_coords _ (k0_off629_inb k) 10 k.val 64 (k0_off629_eq k) y h0 h1 h2 h3⟩
  · exact ⟨(Lexp1 fx fw k)[25]'(by rw [Lexp1_length]; omega), List.getElem_mem _, fun y h0 h1 h2 h3 => mem_of_coords _ (k0_off677_inb k) 10 k.val 80 (k0_off677_eq k) y h0 h1 h2 h3⟩
  · exact ⟨(Lexp1 fx fw k)[13]'(by rw [Lexp1_length]; omega), List.getElem_mem _, fun y h0 h1 h2 h3 => mem_of_coords _ (k0_off725_inb k) 10 k.val 96 (k0_off725_eq k) y h0 h1 h2 h3⟩
  · exact ⟨(Lexp1 fx fw k)[1]'(by rw [Lexp1_length]; omega), List.getElem_mem _, fun y h0 h1 h2 h3 => mem_of_coords _ (k0_off773_inb k) 10 k.val 112 (k0_off773_eq k) y h0 h1 h2 h3⟩
  · exact ⟨(Lexp1 fx fw k)[84]'(by rw [Lexp1_length]; omega), List.getElem_mem _, fun y h0 h1 h2 h3 => mem_of_coords _ (k0_off438_inb k) 11 k.val 0 (k0_off438_eq k) y h0 h1 h2 h3⟩
  · exact ⟨(Lexp1 fx fw k)[72]'(by rw [Lexp1_length]; omega), List.getElem_mem _, fun y h0 h1 h2 h3 => mem_of_coords _ (k0_off486_inb k) 11 k.val 16 (k0_off486_eq k) y h0 h1 h2 h3⟩
  · exact ⟨(Lexp1 fx fw k)[60]'(by rw [Lexp1_length]; omega), List.getElem_mem _, fun y h0 h1 h2 h3 => mem_of_coords _ (k0_off534_inb k) 11 k.val 32 (k0_off534_eq k) y h0 h1 h2 h3⟩
  · exact ⟨(Lexp1 fx fw k)[48]'(by rw [Lexp1_length]; omega), List.getElem_mem _, fun y h0 h1 h2 h3 => mem_of_coords _ (k0_off582_inb k) 11 k.val 48 (k0_off582_eq k) y h0 h1 h2 h3⟩
  · exact ⟨(Lexp1 fx fw k)[36]'(by rw [Lexp1_length]; omega), List.getElem_mem _, fun y h0 h1 h2 h3 => mem_of_coords _ (k0_off630_inb k) 11 k.val 64 (k0_off630_eq k) y h0 h1 h2 h3⟩
  · exact ⟨(Lexp1 fx fw k)[24]'(by rw [Lexp1_length]; omega), List.getElem_mem _, fun y h0 h1 h2 h3 => mem_of_coords _ (k0_off678_inb k) 11 k.val 80 (k0_off678_eq k) y h0 h1 h2 h3⟩
  · exact ⟨(Lexp1 fx fw k)[12]'(by rw [Lexp1_length]; omega), List.getElem_mem _, fun y h0 h1 h2 h3 => mem_of_coords _ (k0_off726_inb k) 11 k.val 96 (k0_off726_eq k) y h0 h1 h2 h3⟩
  · exact ⟨(Lexp1 fx fw k)[0]'(by rw [Lexp1_length]; omega), List.getElem_mem _, fun y h0 h1 h2 h3 => mem_of_coords _ (k0_off774_inb k) 11 k.val 112 (k0_off774_eq k) y h0 h1 h2 h3⟩

/-- ONE PASS OVER ROW `k`: the rows below `k + 1` of the slot are `rowVal`'s, if those below `k` were. -/
theorem Lexp1_writes (fx : Vec F S36x8x128 .f32) (fw : Vec F S576 .f32) (fo : (ov1M).view.ty.Contents (Elt F)) (k : Fin k0_t3_loop.trips)
    (hfo : ∀ y : S12x8x128.Idx, (y 1).val < k.val → (fo : S12x8x128.Idx → F .f32) y = rowVal fx fw y) (y : S12x8x128.Idx) (hy : (y 1).val < k.val + 1) :
    ((ov1M).view.writes (Elt F) fo (Lexp1 fx fw k) : S12x8x128.Idx → F .f32) y = rowVal fx fw y := by
  have hv : ∀ g : (ov1M).view.ty.Contents (Elt F), (ov1M).view.read (Elt F) g = g := fun g => by simp only [Memref.view_whole, View.read_whole]
  show ((ov1M).view.writes (Elt F) fo (Lexp1 fx fw k)) y = rowVal fx fw y
  rw [← hv ((ov1M).view.writes (Elt F) fo (Lexp1 fx fw k))]
  by_cases h : (y 1).val < k.val
  · rw [View.read_writes_apply_of_forall_not_mem (ov1M).view fo y (Lexp1 fx fw k) fun p hp hm => by
      have := Lexp1_row fx fw k p hp y hm; omega]
    rw [hv]; exact hfo y h
  · have hk : (y 1).val = k.val := by omega
    have h2 : (y 2).val < 128 := (y 2).isLt
    obtain ⟨p, hp, hmem⟩ := Lexp1_cover fx fw k (y 0) ⟨(y 2).val / 16, by omega⟩
    exact View.read_writes_apply_of_pieces (ov1M).view fo (rowVal fx fw) (Lexp1 fx fw k) (Lexp1_val fx fw k) y
      ⟨p, hp, hmem y rfl hk (by show 16 * ((y 2).val / 16) ≤ (y 2).val; omega) (by show (y 2).val < 16 * ((y 2).val / 16) + 16; omega)⟩

end Cert.KernelIdeal.Pf
end
-- ==== Proof.KTileCompV.lean ====
/-
  The two compute loops of the vector-subcore kernel with values: one pass over a row, from "the output slot's rows below
  k are the slot's function of the inputs" to the same below k + 1; nothing asked before the first row; the whole
  slot at that function after the eighth.
-/
import proofs.«203732_g20581483283120_cont_8to1_285_17_alg».proof.Proof.KTileL0
import proofs.«203732_g20581483283120_cont_8to1_285_17_alg».proof.Proof.KTileL1
import proofs.«203732_g20581483283120_cont_8to1_285_17_alg».proof.Proof.KBridge
import Idealize.ShloMosaic.Lib.ValueIdx
import Idealize.ShloMosaic.Lib.Pipeline.Value

noncomputable section

namespace Cert.KernelIdeal.Pf

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec (edgeOf)

variable {F : FTy → Type} [FloatOps F]

local notation "𝕄" => MT nD τ sig (HIx 1) (Elt F) ℕ UU ℕ

section Tile
variable (d : Dev nD) (L : grid0.Coords)

/-- Before row `k` of slot 0: the inputs as they were, the output slot's rows below `k` at the slot's function of them. -/
abbrev CompInv0 (fx : Buf (Elt F) ((V d (cV L) (jV L)).loc cc0_scratch1)) (fw : Buf (Elt F) ((V d (cV L) (jV L)).loc cc0_scratch0)) (k : ℕ) : sProp 𝕄 :=
  iprop(((xv0M).view.loc (V d (cV L) (jV L)) ↦{fullShare} fx) ∗ ((wvM).view.loc (V d (cV L) (jV L)) ↦{fullShare} fw)
    ∗ ∃ fo : Buf (Elt F) ((V d (cV L) (jV L)).loc cc0_scratch3),
        ⌜∀ y : S12x8x128.Idx, (y 1).val < k → (fo : S12x8x128.Idx → F .f32) y = rowVal (fx : S36x8x128.Idx → F .f32) (fw : S576.Idx → F .f32) y⌝
        ∗ ((ov0M).view.loc (V d (cV L) (jV L)) ↦{fullShare} fo))

set_option maxHeartbeats 4000000 in
/-- One row of slot 0, with values. -/
theorem compute0V (fx : Buf (Elt F) ((V d (cV L) (jV L)).loc cc0_scratch1)) (fw : Buf (Elt F) ((V d (cV L) (jV L)).loc cc0_scratch0))
    (v3 v4 c0 c1 : BitVec 32) (k1 : Fin k0_t1_loop.trips) (k : Fin k0_t2_loop.trips) (acc : BitVec 32) :
    CompInv0 (F := F) d L fx fw k.val
      ⊢ wp frame (wpE (defs₀ (F := F)) 𝒱₀ (V d (cV L) (jV L)) none) Set.univ
          (k0_t2_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 v3 v4 c0 c1 k1 k acc)
          fun _ => CompInv0 (F := F) d L fx fw (k.val + 1) := by
  unfold k0_t2_body
  iintro ⟨Hx, Hw, %fo, %hfo, Ho⟩
  sl_exec
  sl_step
  isplitl [Hx]; · iexact Hx
  isplitl [Hw]; · iexact Hw
  iexists _; isplitr; swap; (· iexact Ho)
  ipureintro
  intro y hy
  sl_unfold_run_names
  exact Lexp0_writes fx fw fo k hfo y hy

/-- Before the first row nothing is asked of the output slot. -/
theorem compInv0_init (fx : Buf (Elt F) ((V d (cV L) (jV L)).loc cc0_scratch1)) (fw : Buf (Elt F) ((V d (cV L) (jV L)).loc cc0_scratch0)) :
    CompRes0 (F := F) d L fx fw ⊢ CompInv0 (F := F) d L fx fw 0 := by
  iintro ⟨Hx, Hw, %fo, Ho⟩
  isplitl [Hx]; · iexact Hx
  isplitl [Hw]; · iexact Hw
  iexists fo; isplitr; · ipureintro; exact fun y hy => absurd hy (Nat.not_lt_zero _)
  iexact Ho

/-- After the eighth row the output slot holds the slot's function of the inputs. -/
theorem compInv0_done (fx : Buf (Elt F) ((V d (cV L) (jV L)).loc cc0_scratch1)) (fw : Buf (Elt F) ((V d (cV L) (jV L)).loc cc0_scratch0)) :
    CompInv0 (F := F) d L fx fw 8
      ⊢ iprop(((xv0M).view.loc (V d (cV L) (jV L)) ↦{fullShare} fx) ∗ ((wvM).view.loc (V d (cV L) (jV L)) ↦{fullShare} fw)
          ∗ ((ov0M).view.loc (V d (cV L) (jV L)) ↦{fullShare} (rowVal (fx : S36x8x128.Idx → F .f32) (fw : S576.Idx → F .f32) : Buf (Elt F) ((V d (cV L) (jV L)).loc cc0_scratch3)))) := by
  iintro ⟨Hx, Hw, %fo, %hfo, Ho⟩
  have e : fo = (rowVal (fx : S36x8x128.Idx → F .f32) (fw : S576.Idx → F .f32) : Buf (Elt F) ((V d (cV L) (jV L)).loc cc0_scratch3)) :=
    funext fun y => hfo y (y 1).isLt
  subst e
  isplitl [Hx]; · iexact Hx
  isplitl [Hw]; · iexact Hw
  iexact Ho

/-- Before row `k` of slot 1: the inputs as they were, the output slot's rows below `k` at the slot's function of them. -/
abbrev CompInv1 (fx : Buf (Elt F) ((V d (cV L) (jV L)).loc cc0_scratch2)) (fw : Buf (Elt F) ((V d (cV L) (jV L)).loc cc0_scratch0)) (k : ℕ) : sProp 𝕄 :=
  iprop(((xv1M).view.loc (V d (cV L) (jV L)) ↦{fullShare} fx) ∗ ((wvM).view.loc (V d (cV L) (jV L)) ↦{fullShare} fw)
    ∗ ∃ fo : Buf (Elt F) ((V d (cV L) (jV L)).loc cc0_scratch4),
        ⌜∀ y : S12x8x128.Idx, (y 1).val < k → (fo : S12x8x128.Idx → F .f32) y = rowVal (fx : S36x8x128.Idx → F .f32) (fw : S576.Idx → F .f32) y⌝
        ∗ ((ov1M).view.loc (V d (cV L) (jV L)) ↦{fullShare} fo))

set_option maxHeartbeats 4000000 in
/-- One row of slot 1, with values. -/
theorem compute1V (fx : Buf (Elt F) ((V d (cV L) (jV L)).loc cc0_scratch2)) (fw : Buf (Elt F) ((V d (cV L) (jV L)).loc cc0_scratch0))
    (k : Fin k0_t3_loop.trips) (acc : BitVec 32) :
    CompInv1 (F := F) d L fx fw k.val
      ⊢ wp frame (wpE (defs₀ (F := F)) 𝒱₀ (V d (cV L) (jV L)) none) Set.univ
          (k0_t3_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0 k acc)
          fun _ => CompInv1 (F := F) d L fx fw (k.val + 1) := by
  unfold k0_t3_body
  iintro ⟨Hx, Hw, %fo, %hfo, Ho⟩
  sl_exec
  sl_step
  isplitl [Hx]; · iexact Hx
  isplitl [Hw]; · iexact Hw
  iexists _; isplitr; swap; (· iexact Ho)
  ipureintro
  intro y hy
  sl_unfold_run_names
  exact Lexp1_writes fx fw fo k hfo y hy

/-- Before the first row nothing is asked of the output slot. -/
theorem compInv1_init (fx : Buf (Elt F) ((V d (cV L) (jV L)).loc cc0_scratch2)) (fw : Buf (Elt F) ((V d (cV L) (jV L)).loc cc0_scratch0)) :
    CompRes1 (F := F) d L fx fw ⊢ CompInv1 (F := F) d L fx fw 0 := by
  iintro ⟨Hx, Hw, %fo, Ho⟩
  isplitl [Hx]; · iexact Hx
  isplitl [Hw]; · iexact Hw
  iexists fo; isplitr; · ipureintro; exact fun y hy => absurd hy (Nat.not_lt_zero _)
  iexact Ho

/-- After the eighth row the output slot holds the slot's function of the inputs. -/
theorem compInv1_done (fx : Buf (Elt F) ((V d (cV L) (jV L)).loc cc0_scratch2)) (fw : Buf (Elt F) ((V d (cV L) (jV L)).loc cc0_scratch0)) :
    CompInv1 (F := F) d L fx fw 8
      ⊢ iprop(((xv1M).view.loc (V d (cV L) (jV L)) ↦{fullShare} fx) ∗ ((wvM).view.loc (V d (cV L) (jV L)) ↦{fullShare} fw)
          ∗ ((ov1M).view.loc (V d (cV L) (jV L)) ↦{fullShare} (rowVal (fx : S36x8x128.Idx → F .f32) (fw : S576.Idx → F .f32) : Buf (Elt F) ((V d (cV L) (jV L)).loc cc0_scratch4)))) := by
  iintro ⟨Hx, Hw, %fo, %hfo, Ho⟩
  have e : fo = (rowVal (fx : S36x8x128.Idx → F .f32) (fw : S576.Idx → F .f32) : Buf (Elt F) ((V d (cV L) (jV L)).loc cc0_scratch4)) :=
    funext fun y => hfo y (y 1).isLt
  subst e
  isplitl [Hx]; · iexact Hx
  isplitl [Hw]; · iexact Hw
  iexact Ho

end Tile

end Cert.KernelIdeal.Pf
end
-- ==== Proof.KTileVFin.lean ====
/-
  The tile's task with the result named: the compute loop's function is the one the row-by-row compute lemmas
  state, the rows a copy out leaves are the result's function of the two operands on those rows, and the launch
  theorem's obligation for a tile follows, over the payload record whose tiles return their rows at that function.
-/
import proofs.«203732_g20581483283120_cont_8to1_285_17_alg».proof.Proof.KTileV
import proofs.«203732_g20581483283120_cont_8to1_285_17_alg».proof.Proof.KTileLand
import proofs.«203732_g20581483283120_cont_8to1_285_17_alg».proof.Proof.KSplit
import proofs.«203732_g20581483283120_cont_8to1_285_17_alg».proof.Proof.KTileCompV

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- the compute loop's function, at the types the tile's invariant names the slots' contents by -/
abbrev RVr : (S36x8x128.Idx → Elt F .f32) → (S576.Idx → Elt F .f32) → (S12x8x128.Idx → Elt F .f32) := fun fx fw => rowVal fx fw

section Fin
variable (d : Dev nD) (L : grid0.Coords)

/-- a written group of the first slot's parity holds the result's function on its rows -/
theorem rowD_val0 (X5 : Buf (Elt F) (x5Loc d)) (W3 : Buf (Elt F) (w3Loc d)) (j : ℕ) (hj : j < 14) :
    RowD (F := F) d L ov0M X5 W3 (offG L (2 * j + 0)) (oRect_inb L (2 * j + 0)) (foG0 (F := F) d L RVr X5 W3 (2 * j + 0))
      ⊢ (o8Loc d ↦[oRowSet L (2 * j + 0)]{fullShare} tileVal X5 W3 : sProp 𝕄) := by
  unfold RowD
  iintro ⟨%fr, H⟩
  iapply (Entails.of_eq (pointsTo_congr (fun i hi => rowsLanded_tileVal0 (F := F) d L (2 * j + 0) (by omega) X5 W3 fr i hi)))
  iexact H

theorem rowD_val1 (X5 : Buf (Elt F) (x5Loc d)) (W3 : Buf (Elt F) (w3Loc d)) (j : ℕ) (hj : j < 14) :
    RowD (F := F) d L ov1M X5 W3 (offG L (2 * j + 1)) (oRect_inb L (2 * j + 1)) (foG1 (F := F) d L RVr X5 W3 (2 * j + 1))
      ⊢ (o8Loc d ↦[oRowSet L (2 * j + 1)]{fullShare} tileVal X5 W3 : sProp 𝕄) := by
  unfold RowD
  iintro ⟨%fr, H⟩
  iapply (Entails.of_eq (pointsTo_congr (fun i hi => rowsLanded_tileVal1 (F := F) d L (2 * j + 1) (by omega) X5 W3 fr i hi)))
  iexact H

theorem rowsD_val0 (X5 : Buf (Elt F) (x5Loc d)) (W3 : Buf (Elt F) (w3Loc d)) :
    (bigSep (Finset.range 14) fun j => RowD (F := F) d L ov0M X5 W3 (offG L (2 * j + 0)) (oRect_inb L (2 * j + 0)) (foG0 (F := F) d L RVr X5 W3 (2 * j + 0)))
      ⊢ bigSep (Finset.range 14) fun j => (o8Loc d ↦[oRowSet L (2 * j + 0)]{fullShare} tileVal X5 W3 : sProp 𝕄) :=
  BI.bigSep_mono fun j hj => rowD_val0 (F := F) d L X5 W3 j (Finset.mem_range.mp hj)

theorem rowsD_val1 (X5 : Buf (Elt F) (x5Loc d)) (W3 : Buf (Elt F) (w3Loc d)) :
    (bigSep (Finset.range 14) fun j => RowD (F := F) d L ov1M X5 W3 (offG L (2 * j + 1)) (oRect_inb L (2 * j + 1)) (foG1 (F := F) d L RVr X5 W3 (2 * j + 1)))
      ⊢ bigSep (Finset.range 14) fun j => (o8Loc d ↦[oRowSet L (2 * j + 1)]{fullShare} tileVal X5 W3 : sProp 𝕄) :=
  BI.bigSep_mono fun j hj => rowD_val1 (F := F) d L X5 W3 j (Finset.mem_range.mp hj)

omit [FloatOps F] in
theorem rowsV_join (TV : Buf (Elt F) (o8Loc d)) :
    iprop((bigSep (Finset.range 14) fun j => (o8Loc d ↦[oRowSet L (2 * j + 0)]{fullShare} TV : sProp 𝕄))
        ∗ bigSep (Finset.range 14) fun j => (o8Loc d ↦[oRowSet L (2 * j + 1)]{fullShare} TV : sProp 𝕄))
      ⊢ bigSep (Finset.range 28) fun g => (o8Loc d ↦[oRowSet L g]{fullShare} TV : sProp 𝕄) :=
  Entails.of_eq (Ring.bigSep_range_deinterleave 14 (fun g => (o8Loc d ↦[oRowSet L g]{fullShare} TV : sProp 𝕄))).symm

/-- what the task returns is the tile's resources with its rows at the result's function -/
theorem td_val (X5 : Buf (Elt F) (x5Loc d)) (W3 : Buf (Elt F) (w3Loc d)) :
    tileTdVraw (F := F) d L RVr X5 W3 ⊢ tileGoL (F := F) d X5 W3 (tileVal X5 W3) L := by
  unfold tileTdVraw tileGoL
  iintro ⟨Hx, Hw, H0, H1⟩
  isplitl [Hx]; · iexact Hx
  isplitl [Hw]; · iexact Hw
  iapply (rowsV_join (F := F) d L (tileVal X5 W3))
  isplitl [H0]
  · iapply (rowsD_val0 (F := F) d L X5 W3); iexact H0
  · iapply (rowsD_val1 (F := F) d L X5 W3); iexact H1

theorem hcomp0 : CompSpec0 (F := F) d L RVr := fun fx fw v3 v4 c0 c1 k1 k acc => compute0V (F := F) d L fx fw v3 v4 c0 c1 k1 k acc
theorem hcomp1 : CompSpec1 (F := F) d L RVr := fun fx fw k acc => compute1V (F := F) d L fx fw k acc

omit [FloatOps F] in
theorem post_val {A A' B C E : sProp 𝕄} (h : A ⊢ A') : iprop(A ∗ B ∗ C ∗ E) ⊢ iprop(A' ∗ B ∗ C ∗ E) := by
  iintro ⟨HA, HB, HC, HE⟩
  isplitl [HA]; · iapply h; iexact HA
  isplitl [HB]; · iexact HB
  isplitl [HC]; · iexact HC
  iexact HE

/-- A tile's task returns its rows at the result's function of the two operands. -/
theorem tile_bodyVal (hF : (K (F := F)).Facts) (X5 : Buf (Elt F) (x5Loc d)) (W3 : Buf (Elt F) (w3Loc d)) (f8 : Buf (Elt F) (o8Loc d))
    (O : CellTallies nD τ sig (HIx 1)) (W : Waits sig (HIx 1)) (hO : ∀ g, O g none = 0) :
    iprop(levAts (K (F := F)).L (K (F := F)).lev ∗ emp ∗ tileGoL (F := F) d X5 W3 f8 L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_agg_body L xM (Memref.isWhole_whole _) wM (Memref.isWhole_whole _) oM (Memref.isWhole_whole _)
            wvM (Memref.isWhole_whole _) xv0M (Memref.isWhole_whole _) xv1M (Memref.isWhole_whole _) ov0M (Memref.isWhole_whole _) ov1M (Memref.isWhole_whole _)
            cc0_scratch5 cc0_scratch6 cc0_scratch7 cc0_scratch8 cc0_scoped0)
          fun _ => iprop(tileGoL (F := F) d X5 W3 (tileVal X5 W3) L ∗ scopedBufs (V d (cV L) (jV L)) ∗ scopedSems0 (V d (cV L) (jV L))
            ∗ ∃ W', ⌜∀ p ∈ W', p ∈ W ∨ p.2 = none⌝ ∗ owes (V d (cV L) (jV L)) O W') :=
  (tile_bodyV (F := F) d L RVr (hcomp0 (F := F) d L) (hcomp1 (F := F) d L) hF X5 W3 f8 O W hO).trans
    (wp_mono frame _ _ fun _ => post_val (td_val (F := F) d L X5 W3))

end Fin

/-- Every tile of the call runs its task and returns its rows at the result's function. -/
theorem tileOblV (X5 : (d : Dev nD) → Buf (Elt F) (x5Loc d)) (W3 : (d : Dev nD) → Buf (Elt F) (w3Loc d)) (f8 : (d : Dev nD) → Buf (Elt F) (o8Loc d)) :
    (K (F := F)).TileObl (D (F := F)) 𝒱 (PV (F := F) tileVal X5 W3 f8) v₀ 0 := by
  intro d c i O W hO _ _
  simp only [show (PV (F := F) tileVal X5 W3 f8).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_bodyVal (F := F) d (coordsV ⟨_, hc.1⟩ ⟨_, hc.2⟩) facts (X5 d) (W3 d) (f8 d) O W hO).trans (wp_mono frame _ _ fun _ => obl_post)

end Cert.KernelIdeal.Pf
end
-- ==== Proof.RefRun.lean ====
/-
  The reference program's run, read back.

  Its forty-seven host operations in order — the two edge-endpoint tables, the softplus of the edge weights, the
  weighted edge features, the two accumulating scatters onto the nodes, the product with the transposed matrix, the
  bias and the clamp at zero — are a straight line, so every weakly fair execution terminates with the result array
  at the operations' composed term of the four argument arrays, the arguments unchanged.
-/
import proofs.«203732_g20581483283120_cont_8to1_285_17_alg».proof.Proof.Gen.ReferenceIdeal
import proofs.«203732_g20581483283120_cont_8to1_285_17_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations, in order; a called function's operations stand at its call, over that call's buffers. -/
abbrev ops : List (HloOp τ sig (Elt F)) :=
  [
    nullary main_c (fun i => lit0 (S36.rowMajor i)),
    nullary main_c_0 (fun i => lit1 (S36.rowMajor i)),
    TRef.nullary main_call0.cst (constant S_ .f32 0x00000000#32),
    TRef.unary main_call0.cst main_call0.v0 (broadcastInDim S36 ![] bcast_S_S36),
    TRef.binary (.of main_arg1) main_call0.v0 main_call0.v1 maximumf,
    TRef.unary main_call0.cst main_call0.v2 (broadcastInDim S36 ![] bcast_S_S36),
    TRef.binary (.of main_arg1) main_call0.v2 main_call0.v3 subf,
    TRef.binary main_call0.v3 main_call0.v3 main_call0.v4 (cmpf .une),
    TRef.unary main_call0.cst main_call0.v5 (broadcastInDim S36 ![] bcast_S_S36),
    TRef.binary (.of main_arg1) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    reshape main_v0 main_v1 rfl shapeCasts_S36_S1x36x1,
    unary main_v1 main_v2 (broadcastInDim S16384x36x128 ![0, 1, 2] bcast_S1x36x1_S16384x36x128_0_1_2 : (⟨S1x36x1, .f32⟩ : BufTy).Contents (Elt F) → (⟨S16384x36x128, .f32⟩ : BufTy).Contents (Elt F)),
    binary main_arg0 main_v2 main_v3 (mulf : (⟨S16384x36x128, .f32⟩ : BufTy).Contents (Elt F) → (⟨S16384x36x128, .f32⟩ : BufTy).Contents (Elt F) → (⟨S16384x36x128, .f32⟩ : BufTy).Contents (Elt F)),
    nullary main_cst (constant S_ .f32 0x00000000#32),
    unary main_cst main_v4 (broadcastInDim S16384x12x128 ![] bcast_S_S16384x12x128 : (⟨S_, .f32⟩ : BufTy).Contents (Elt F) → (⟨S16384x12x128, .f32⟩ : BufTy).Contents (Elt F)),
    nullary main_c_1 (constantI S_ 32 0#32),
    unary main_c_1 main_v5 (broadcastInDim S36 ![] bcast_S_S36 : (⟨S_, .i32⟩ : BufTy).Contents (Elt F) → (⟨S36, .i32⟩ : BufTy).Contents (Elt F)),
    binary main_c main_v5 main_v6 (cmpi .slt : (⟨S36, .i32⟩ : BufTy).Contents (Elt F) → (⟨S36, .i32⟩ : BufTy).Contents (Elt F) → (⟨S36, .i1⟩ : BufTy).Contents (Elt F)),
    nullary main_c_2 (constantI S_ 32 12#32),
    unary main_c_2 main_v7 (broadcastInDim S36 ![] bcast_S_S36 : (⟨S_, .i32⟩ : BufTy).Contents (Elt F) → (⟨S36, .i32⟩ : BufTy).Contents (Elt F)),
    binary main_c main_v7 main_v8 (addi : (⟨S36, .i32⟩ : BufTy).Contents (Elt F) → (⟨S36, .i32⟩ : BufTy).Contents (Elt F) → (⟨S36, .i32⟩ : BufTy).Contents (Elt F)),
    ternary main_v6 main_v8 main_c main_v9 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v9 main_v10 (broadcastInDim S36x1 ![0] bcast_S36_S36x1_0 : (⟨S36, .i32⟩ : BufTy).Contents (Elt F) → (⟨S36x1, .i32⟩ : BufTy).Contents (Elt F)),
    ternary main_v4 main_v10 main_v3 main_v11 ((fun x i u => Host.scatterAdd scatter_S16384x12x128_S36x1_S16384x36x128_02_1_1_1 x i u) : (⟨S16384x12x128, .f32⟩ : BufTy).Contents (Elt F) → (⟨S36x1, .i32⟩ : BufTy).Contents (Elt F) → (⟨S16384x36x128, .f32⟩ : BufTy).Contents (Elt F) → (⟨S16384x12x128, .f32⟩ : BufTy).Contents (Elt F)),
    nullary main_c_3 (constantI S_ 32 0#32),
    unary main_c_3 main_v12 (broadcastInDim S36 ![] bcast_S_S36 : (⟨S_, .i32⟩ : BufTy).Contents (Elt F) → (⟨S36, .i32⟩ : BufTy).Contents (Elt F)),
    binary main_c_0 main_v12 main_v13 (cmpi .slt : (⟨S36, .i32⟩ : BufTy).Contents (Elt F) → (⟨S36, .i32⟩ : BufTy).Contents (Elt F) → (⟨S36, .i1⟩ : BufTy).Contents (Elt F)),
    nullary main_c_4 (constantI S_ 32 12#32),
    unary main_c_4 main_v14 (broadcastInDim S36 ![] bcast_S_S36 : (⟨S_, .i32⟩ : BufTy).Contents (Elt F) → (⟨S36, .i32⟩ : BufTy).Contents (Elt F)),
    binary main_c_0 main_v14 main_v15 (addi : (⟨S36, .i32⟩ : BufTy).Contents (Elt F) → (⟨S36, .i32⟩ : BufTy).Contents (Elt F) → (⟨S36, .i32⟩ : BufTy).Contents (Elt F)),
    ternary main_v13 main_v15 main_c_0 main_v16 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v16 main_v17 (broadcastInDim S36x1 ![0] bcast_S36_S36x1_0 : (⟨S36, .i32⟩ : BufTy).Contents (Elt F) → (⟨S36x1, .i32⟩ : BufTy).Contents (Elt F)),
    ternary main_v11 main_v17 main_v3 main_v18 ((fun x i u => Host.scatterAdd scatter_S16384x12x128_S36x1_S16384x36x128_02_1_1_1 x i u) : (⟨S16384x12x128, .f32⟩ : BufTy).Contents (Elt F) → (⟨S36x1, .i32⟩ : BufTy).Contents (Elt F) → (⟨S16384x36x128, .f32⟩ : BufTy).Contents (Elt F) → (⟨S16384x12x128, .f32⟩ : BufTy).Contents (Elt F)),
    unary main_arg2 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S16384x12x128_S128x128_S16384x12x128_2_0_01_1_n_n none l r) : (⟨S16384x12x128, .f32⟩ : BufTy).Contents (Elt F) → (⟨S128x128, .f32⟩ : BufTy).Contents (Elt F) → (⟨S16384x12x128, .f32⟩ : BufTy).Contents (Elt F)),
    unary main_arg3 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S16384x12x128 ![0, 1, 2] bcast_S1x1x128_S16384x12x128_0_1_2 : (⟨S1x1x128, .f32⟩ : BufTy).Contents (Elt F) → (⟨S16384x12x128, .f32⟩ : BufTy).Contents (Elt F)),
    binary main_v20 main_v22 main_v23 (addf : (⟨S16384x12x128, .f32⟩ : BufTy).Contents (Elt F) → (⟨S16384x12x128, .f32⟩ : BufTy).Contents (Elt F) → (⟨S16384x12x128, .f32⟩ : BufTy).Contents (Elt F)),
    TRef.nullary main_call1.cst (constant S_ .f32 0x00000000#32),
    TRef.unary main_call1.cst main_call1.v0 (broadcastInDim S16384x12x128 ![] bcast_S_S16384x12x128),
    TRef.binary (.of main_v23) main_call1.v0 main_call1.v1 maximumf ]

/-! ## The composed term -/

/-- The table of first endpoints: edge `e` starts at node `e / 6`. -/
def tabU : IVec S36 32 := fun i => lit0 (S36.rowMajor i)
/-- The table of second endpoints: edge `e` ends at node `6 + e % 6`. -/
def tabV : IVec S36 32 := fun i => lit1 (S36.rowMajor i)

/-- A table of node numbers with every negative entry moved up by twelve, as a column of one-component index vectors. -/
def normIdx (t : IVec S36 32) : IVec S36x1 32 :=
  broadcastInDim S36x1 ![0] bcast_S36_S36x1_0
    (select (cmpi .slt t (broadcastInDim S36 ![] bcast_S_S36 (constantI S_ 32 0#32)))
      (addi t (broadcastInDim S36 ![] bcast_S_S36 (constantI S_ 32 12#32))) t)

/-- The edge features, each edge's row scaled by that edge's weight. -/
def weighted (x : FVec F S16384x36x128 .f32) (sp : FVec F S36 .f32) : FVec F S16384x36x128 .f32 :=
  mulf x (broadcastInDim S16384x36x128 ![0, 1, 2] bcast_S1x36x1_S16384x36x128_0_1_2
    (shapeCast S1x36x1 sp shapeCasts_S36_S1x36x1))

/-- The node features: from zero, every weighted edge row added at the edge's first endpoint, then at its second. -/
def nodes (x : FVec F S16384x36x128 .f32) (sp : FVec F S36 .f32) : FVec F S16384x12x128 .f32 :=
  Host.scatterAdd scatter_S16384x12x128_S36x1_S16384x36x128_02_1_1_1
    (Host.scatterAdd scatter_S16384x12x128_S36x1_S16384x36x128_02_1_1_1
      (broadcastInDim S16384x12x128 ![] bcast_S_S16384x12x128 (constant (F := F) S_ .f32 0x00000000#32))
      (normIdx tabU) (weighted x sp))
    (normIdx tabV) (weighted x sp)

/-- The layer after the weights' softplus `sp`: node features times the transposed matrix, plus the bias, clamped at zero. -/
def layer (x : FVec F S16384x36x128 .f32) (sp : FVec F S36 .f32) (W : FVec F S128x128 .f32) (b : FVec F S128 .f32) :
    FVec F S16384x12x128 .f32 :=
  maximumf
    (addf
      (Host.dotGeneral dot_S16384x12x128_S128x128_S16384x12x128_2_0_01_1_n_n none (nodes x sp)
        (transpose S128x128 [1, 0] W transposes_S128x128_S128x128_1_0))
      (broadcastInDim S16384x12x128 ![0, 1, 2] bcast_S1x1x128_S16384x12x128_0_1_2
        (broadcastInDim S1x1x128 ![2] bcast_S128_S1x1x128_2 b)))
    (broadcastInDim S16384x12x128 ![] bcast_S_S16384x12x128 (constant (F := F) S_ .f32 0x00000000#32))

/-- The operations' composed term of the four arguments, on the extended reals. -/
def refTerm (x : FVec Ideal S16384x36x128 .f32) (w : FVec Ideal S36 .f32) (W : FVec Ideal S128x128 .f32)
    (b : FVec Ideal S128 .f32) : FVec Ideal S16384x12x128 .f32 :=
  layer x (Cert.Spec.softplusV w) W b

/-! ## The run -/

set_option maxRecDepth 2048 in
/-- @main is that straight line: each called function's operations in place of its call, sequencing reassociated. -/
theorem main_eq (c : Dev nD) : main (F := F) c = seq ops := by
  simp only [main, fn_softplus.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., reshape_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., binary_bufs_sub .., unary_bufs_sub .., unary_bufs_sub .., binary_bufs_sub .., nullary_bufs_sub .., unary_bufs_sub .., binary_bufs_sub ..⟩

attribute [local irreducible] Host.scatterAdd transpose broadcastInDim shapeCast in
set_option maxRecDepth 8192 in
set_option maxHeartbeats 1000000 in
/-- The fold of the operations at the result buffer is the composed term: each operation's result is read where it is
    written and passed over elsewhere. -/
theorem out_eq (V : Valuation τ sig (Elt Ideal)) :
    after (ops (F := Ideal)) V (main_v24 : DevRef τ sig)
      = refTerm (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl
theorem arg1_eq (V : Valuation τ sig (Elt F)) :
    after ops V (main_arg1 : DevRef τ sig) = V (main_arg1 : DevRef τ sig) := by
  simp only [after_cons, after_nil]
  rfl
theorem arg2_eq (V : Valuation τ sig (Elt F)) :
    after ops V (main_arg2 : DevRef τ sig) = V (main_arg2 : DevRef τ sig) := by
  simp only [after_cons, after_nil]
  rfl
theorem arg3_eq (V : Valuation τ sig (Elt F)) :
    after ops V (main_arg3 : DevRef τ sig) = V (main_arg3 : DevRef τ sig) := by
  simp only [after_cons, after_nil]
  rfl

/-- From any memory with zero counters: every weakly fair execution of @main terminates with the result array at the
    composed term of the four arguments, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v24)
            = refTerm (m ((c.tc : Thread nD τ).loc main_arg0)) (m ((c.tc : Thread nD τ).loc main_arg1))
                (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨(h c main_v24).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's composed term, read index by index, is the specification.
-/
import proofs.«203732_g20581483283120_cont_8to1_285_17_alg».proof.Proof.RefRun
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The pointwise and layout stages at an index -/

/-- A weighted edge feature is the feature times its edge's weight. -/
theorem weighted_apply (x : FVec Ideal S16384x36x128 .f32) (sp : FVec Ideal S36 .f32) (r : Fin 16384) (e : Fin 36)
    (k : Fin 128) : weighted x sp (ix3 r e k) = x (ix3 r e k) * sp (ix1 e) := by
  unfold weighted
  rw [mulf_apply]
  congr 1
  refine (broadcastInDim_apply _ _ _ (ix3 r e k) (ix3 (0 : Fin 1) e (0 : Fin 1)) fun a => ?_).trans ?_
  · match a with
    | ⟨0, _⟩ => rfl
    | ⟨1, _⟩ => rfl
    | ⟨2, _⟩ => rfl
  · refine shapeCast_apply sp _ (ix3 (0 : Fin 1) e (0 : Fin 1)) (ix1 e) ?_
    rw [Shape.rowMajor_val_one, Shape.rowMajor_val_three]
    show e.val = ((0 : Fin 1).val * 36 + e.val) * 1 + (0 : Fin 1).val
    simp

/-- The transposed matrix at row `k`, column `c` is the matrix at row `c`, column `k`. -/
theorem transpose_ix (W : FVec Ideal S128x128 .f32) (k c : Fin 128) :
    transpose S128x128 [1, 0] W transposes_S128x128_S128x128_1_0 (ix2 k c) = W (ix2 c k) :=
  transpose_apply _ W _ (ix2 k c) (ix2 c k) fun b => by
    match b with
    | ⟨0, _⟩ => rfl
    | ⟨1, _⟩ => rfl

/-- The bias, laid along every row of every node, at an index is the bias at the feature coordinate. -/
theorem bias_ix (b : FVec Ideal S128 .f32) (r : Fin 16384) (n : Fin 12) (c : Fin 128) :
    broadcastInDim S16384x12x128 ![0, 1, 2] bcast_S1x1x128_S16384x12x128_0_1_2
      (broadcastInDim S1x1x128 ![2] bcast_S128_S1x1x128_2 b) (ix3 r n c) = b (ix1 c) := by
  refine (broadcastInDim_apply _ _ _ (ix3 r n c) (ix3 (0 : Fin 1) (0 : Fin 1) c) fun a => ?_).trans ?_
  · match a with
    | ⟨0, _⟩ => rfl
    | ⟨1, _⟩ => rfl
    | ⟨2, _⟩ => rfl
  · refine broadcastInDim_apply _ _ b (ix3 (0 : Fin 1) (0 : Fin 1) c) (ix1 c) fun a => ?_
    match a with
    | ⟨0, _⟩ => rfl

/-- The zero array is zero everywhere. -/
theorem zeros_ix (i : S16384x12x128.Idx) :
    broadcastInDim S16384x12x128 ![] bcast_S_S16384x12x128 (constant (F := Ideal) S_ .f32 0x00000000#32) i = 0 := by
  show Ideal.ofBits .f32 0x00000000#32 = 0
  exact Ideal.ofBits_zero_f32

/-! ## The product with the matrix at an index -/

theorem lhs_0 (i : S16384x12x128.Idx) (q : dot_S16384x12x128_S128x128_S16384x12x128_2_0_01_1_n_n.contr.Idx) :
    (dot_S16384x12x128_S128x128_S16384x12x128_2_0_01_1_n_n.lhsIdx i q 0).val = (i 0).val := by
  unfold DotDims.lhsIdx
  rw [dif_neg (show ¬(0 : Fin S16384x12x128.rank) ∈ dot_S16384x12x128_S128x128_S16384x12x128_2_0_01_1_n_n.lhsBatch by decide), dif_pos (show (0 : Fin S16384x12x128.rank) ∈ dot_S16384x12x128_S128x128_S16384x12x128_2_0_01_1_n_n.lhsNonContracting by decide)]
  rfl
theorem lhs_1 (i : S16384x12x128.Idx) (q : dot_S16384x12x128_S128x128_S16384x12x128_2_0_01_1_n_n.contr.Idx) :
    (dot_S16384x12x128_S128x128_S16384x12x128_2_0_01_1_n_n.lhsIdx i q 1).val = (i 1).val := by
  unfold DotDims.lhsIdx
  rw [dif_neg (show ¬(1 : Fin S16384x12x128.rank) ∈ dot_S16384x12x128_S128x128_S16384x12x128_2_0_01_1_n_n.lhsBatch by decide), dif_pos (show (1 : Fin S16384x12x128.rank) ∈ dot_S16384x12x128_S128x128_S16384x12x128_2_0_01_1_n_n.lhsNonContracting by decide)]
  rfl
theorem lhs_2 (i : S16384x12x128.Idx) (q : dot_S16384x12x128_S128x128_S16384x12x128_2_0_01_1_n_n.contr.Idx) :
    (dot_S16384x12x128_S128x128_S16384x12x128_2_0_01_1_n_n.lhsIdx i q 2).val = (q ⟨0, by decide⟩).val :=
  dot_S16384x12x128_S128x128_S16384x12x128_2_0_01_1_n_n.lhsIdx_val_of_single rfl i q
theorem rhs_0 (i : S16384x12x128.Idx) (q : dot_S16384x12x128_S128x128_S16384x12x128_2_0_01_1_n_n.contr.Idx) :
    (dot_S16384x12x128_S128x128_S16384x12x128_2_0_01_1_n_n.rhsIdx i q 0).val = (q ⟨0, by decide⟩).val :=
  dot_S16384x12x128_S128x128_S16384x12x128_2_0_01_1_n_n.rhsIdx_val_of_single rfl i q
theorem rhs_1 (i : S16384x12x128.Idx) (q : dot_S16384x12x128_S128x128_S16384x12x128_2_0_01_1_n_n.contr.Idx) :
    (dot_S16384x12x128_S128x128_S16384x12x128_2_0_01_1_n_n.rhsIdx i q 1).val = (i 2).val := by
  unfold DotDims.rhsIdx
  rw [dif_neg (show ¬(1 : Fin S128x128.rank) ∈ dot_S16384x12x128_S128x128_S16384x12x128_2_0_01_1_n_n.rhsBatch by decide), dif_pos (show (1 : Fin S128x128.rank) ∈ dot_S16384x12x128_S128x128_S16384x12x128_2_0_01_1_n_n.rhsNonContracting by decide)]
  rfl

/-- The product at row `r`, node `n`, column `c`: the sum over the contracted feature. -/
theorem dot_ix (L : FVec Ideal S16384x12x128 .f32) (R : FVec Ideal S128x128 .f32) (r : Fin 16384) (n : Fin 12) (c : Fin 128) :
    Host.dotGeneral dot_S16384x12x128_S128x128_S16384x12x128_2_0_01_1_n_n none L R (ix3 r n c) = ∑ k : Fin 128, L (ix3 r n k) * R (ix2 k c) := by
  simp only [Host.dotGeneral]
  rw [Ideal.dotGeneral_apply, ← Equiv.sum_comp (ValueIdx.contrEquiv1 dot_S16384x12x128_S128x128_S16384x12x128_2_0_01_1_n_n 128 rfl rfl).symm]
  refine Finset.sum_congr rfl fun k _ => ?_
  have hk := ValueIdx.contrEquiv1_symm_val dot_S16384x12x128_S128x128_S16384x12x128_2_0_01_1_n_n 128 rfl rfl k
  have el : dot_S16384x12x128_S128x128_S16384x12x128_2_0_01_1_n_n.lhsIdx (ix3 r n c) ((ValueIdx.contrEquiv1 dot_S16384x12x128_S128x128_S16384x12x128_2_0_01_1_n_n 128 rfl rfl).symm k) = ix3 r n k := funext fun a => Fin.ext (by
    match a with
    | ⟨0, _⟩ => exact lhs_0 _ _
    | ⟨1, _⟩ => exact lhs_1 _ _
    | ⟨2, _⟩ => exact (lhs_2 _ _).trans hk)
  have er : dot_S16384x12x128_S128x128_S16384x12x128_2_0_01_1_n_n.rhsIdx (ix3 r n c) ((ValueIdx.contrEquiv1 dot_S16384x12x128_S128x128_S16384x12x128_2_0_01_1_n_n 128 rfl rfl).symm k) = ix2 k c := funext fun a => Fin.ext (by
    match a with
    | ⟨0, _⟩ => exact (rhs_0 _ _).trans hk
    | ⟨1, _⟩ => exact rhs_1 _ _)
  rw [el, er]

/-! ## The accumulating scatter at an index -/

section Scatter
variable {w : Nat} (idx : IVec S36x1 w) (r : Fin 16384) (e : Fin 36) (k : Fin 128)

theorem start_0 : scatter_S16384x12x128_S36x1_S16384x36x128_02_1_1_1.start (ix3 r e k) idx 0 = 0 := by
  unfold ScatterDims.start
  rw [dif_neg (show ¬(0 : Fin S16384x12x128.rank) ∈ scatter_S16384x12x128_S36x1_S16384x36x128_02_1_1_1.scatterDimsToOperandDims by decide)]
theorem start_2 : scatter_S16384x12x128_S36x1_S16384x36x128_02_1_1_1.start (ix3 r e k) idx 2 = 0 := by
  unfold ScatterDims.start
  rw [dif_neg (show ¬(2 : Fin S16384x12x128.rank) ∈ scatter_S16384x12x128_S36x1_S16384x36x128_02_1_1_1.scatterDimsToOperandDims by decide)]
theorem start_1 : scatter_S16384x12x128_S36x1_S16384x36x128_02_1_1_1.start (ix3 r e k) idx 1 = (idx (ix2 e (0 : Fin 1))).toInt := by
  unfold ScatterDims.start
  rw [dif_pos (show (1 : Fin S16384x12x128.rank) ∈ scatter_S16384x12x128_S36x1_S16384x36x128_02_1_1_1.scatterDimsToOperandDims by decide)]
  have hsi : scatter_S16384x12x128_S36x1_S16384x36x128_02_1_1_1.siIdx (ix3 r e k) ⟨List.idxOf (1 : Fin S16384x12x128.rank) scatter_S16384x12x128_S36x1_S16384x36x128_02_1_1_1.scatterDimsToOperandDims,
      List.idxOf_lt_length_iff.2 (by decide)⟩ = ix2 e (0 : Fin 1) := by
    funext b; refine Fin.ext ?_
    match b with
    | ⟨0, _⟩ => rfl
    | ⟨1, _⟩ => rfl
  rw [hsi]
theorem window_0 : scatter_S16384x12x128_S36x1_S16384x36x128_02_1_1_1.window (ix3 r e k) 0 = r.val := by
  unfold ScatterDims.window
  rw [dif_pos (show (0 : Fin S16384x12x128.rank) ∈ scatter_S16384x12x128_S36x1_S16384x36x128_02_1_1_1.sKept by decide)]
  rfl
theorem window_1 : scatter_S16384x12x128_S36x1_S16384x36x128_02_1_1_1.window (ix3 r e k) 1 = 0 := by
  unfold ScatterDims.window
  rw [dif_neg (show ¬(1 : Fin S16384x12x128.rank) ∈ scatter_S16384x12x128_S36x1_S16384x36x128_02_1_1_1.sKept by decide)]
theorem window_2 : scatter_S16384x12x128_S36x1_S16384x36x128_02_1_1_1.window (ix3 r e k) 2 = k.val := by
  unfold ScatterDims.window
  rw [dif_pos (show (2 : Fin S16384x12x128.rank) ∈ scatter_S16384x12x128_S36x1_S16384x36x128_02_1_1_1.sKept by decide)]
  rfl

/-- Where an edge row lands: same row and feature, at the node the index table names for the edge. -/
theorem resultIdx_ix (node : Fin 36 → Fin 12) (hnode : ∀ e, (idx (ix2 e (0 : Fin 1))).toInt = ((node e).val : Int)) :
    scatter_S16384x12x128_S36x1_S16384x36x128_02_1_1_1.resultIdx? (ix3 r e k) idx = some (ix3 r (node e) k) := by
  have hn := hnode e
  have hlt := (node e).isLt
  have hr := r.isLt
  have hk := k.isLt
  unfold ScatterDims.resultIdx?
  have h : ∀ a : Fin S16384x12x128.rank, 0 ≤ scatter_S16384x12x128_S36x1_S16384x36x128_02_1_1_1.start (ix3 r e k) idx a + scatter_S16384x12x128_S36x1_S16384x36x128_02_1_1_1.window (ix3 r e k) a
      ∧ scatter_S16384x12x128_S36x1_S16384x36x128_02_1_1_1.start (ix3 r e k) idx a + scatter_S16384x12x128_S36x1_S16384x36x128_02_1_1_1.window (ix3 r e k) a < S16384x12x128.size a := by
    intro a
    match a with
    | ⟨0, _⟩ => rw [show (⟨0, _⟩ : Fin S16384x12x128.rank) = 0 from rfl, start_0, window_0]; show (0:Int) ≤ 0 + (r.val : Int) ∧ 0 + (r.val : Int) < (16384 : Nat); omega
    | ⟨1, _⟩ => rw [show (⟨1, _⟩ : Fin S16384x12x128.rank) = 1 from rfl, start_1, window_1, hn]; show (0:Int) ≤ ((node e).val : Int) + (0 : Nat) ∧ ((node e).val : Int) + (0 : Nat) < (12 : Nat); omega
    | ⟨2, _⟩ => rw [show (⟨2, _⟩ : Fin S16384x12x128.rank) = 2 from rfl, start_2, window_2]; show (0:Int) ≤ 0 + (k.val : Int) ∧ 0 + (k.val : Int) < (128 : Nat); omega
  rw [dif_pos h]
  refine congrArg some (funext fun a => Fin.ext ?_)
  match a with
  | ⟨0, _⟩ => show (scatter_S16384x12x128_S36x1_S16384x36x128_02_1_1_1.start (ix3 r e k) idx 0 + scatter_S16384x12x128_S36x1_S16384x36x128_02_1_1_1.window (ix3 r e k) 0).toNat = r.val; rw [start_0, window_0]; omega
  | ⟨1, _⟩ => show (scatter_S16384x12x128_S36x1_S16384x36x128_02_1_1_1.start (ix3 r e k) idx 1 + scatter_S16384x12x128_S36x1_S16384x36x128_02_1_1_1.window (ix3 r e k) 1).toNat = (node e).val; rw [start_1, window_1, hn]; omega
  | ⟨2, _⟩ => show (scatter_S16384x12x128_S36x1_S16384x36x128_02_1_1_1.start (ix3 r e k) idx 2 + scatter_S16384x12x128_S36x1_S16384x36x128_02_1_1_1.window (ix3 r e k) 2).toNat = k.val; rw [start_2, window_2]; omega

/-- An update lands at row `r`, node `n`, feature `k` exactly when it is the row-`r`, feature-`k` entry of an edge the
    table sends to `n`. -/
theorem lands_iff (node : Fin 36 → Fin 12) (hnode : ∀ e, (idx (ix2 e (0 : Fin 1))).toInt = ((node e).val : Int))
    (j : S16384x36x128.Idx) (r : Fin 16384) (n : Fin 12) (k : Fin 128) :
    scatter_S16384x12x128_S36x1_S16384x36x128_02_1_1_1.resultIdx? j idx = some (ix3 r n k) ↔ ∃ e : Fin 36, node e = n ∧ j = ix3 r e k := by
  obtain ⟨a, b, c, rfl⟩ : ∃ (a : Fin 16384) (b : Fin 36) (c : Fin 128), j = ix3 a b c := ⟨j 0, j 1, j 2, eq_ix3 j⟩
  rw [resultIdx_ix idx a b c node hnode]
  constructor
  · intro h
    have h' := Option.some.inj h
    have h0 : a = r := congrFun h' 0
    have h1 : node b = n := congrFun h' 1
    have h2 : c = k := congrFun h' 2
    exact ⟨b, h1, by rw [h0, h2]⟩
  · rintro ⟨e, he, hj⟩
    have h0 : a = r := congrFun hj 0
    have h1 : b = e := congrFun hj 1
    have h2 : c = k := congrFun hj 2
    rw [h0, h1, h2, he]

/-- The accumulating scatter at row `r`, node `n`, feature `k`: what was there, plus the entries at row `r`, feature `k` of
    the edges the table sends to `n`. -/
theorem scatter_ix (x : S16384x12x128.Idx → EReal) (upd : S16384x36x128.Idx → EReal)
    (node : Fin 36 → Fin 12) (hnode : ∀ e, (idx (ix2 e (0 : Fin 1))).toInt = ((node e).val : Int))
    (r : Fin 16384) (n : Fin 12) (k : Fin 128) :
    Host.scatterAdd (F := Ideal) (φ := .f32) scatter_S16384x12x128_S36x1_S16384x36x128_02_1_1_1 x idx upd (ix3 r n k)
      = x (ix3 r n k) + ∑ e ∈ Finset.univ.filter (fun e => node e = n), upd (ix3 r e k) := by
  unfold Host.scatterAdd
  rw [Ideal.hostScatterAdd_def]
  unfold Ideal.hostScatterAdd
  refine congrArg (x (ix3 r n k) + ·) ?_
  refine (Finset.sum_congr (s₂ := (Finset.univ.filter fun e => node e = n).image fun e => ix3 r e k) ?_
    fun _ _ => rfl).trans (Finset.sum_image fun a _ b _ h => congrFun h 1)
  ext j
  simp only [Finset.mem_filter, Finset.mem_univ, true_and, Finset.mem_image]
  rw [lands_iff idx node hnode]
  constructor
  · rintro ⟨e, he, rfl⟩; exact ⟨e, he, rfl⟩
  · rintro ⟨e, he, rfl⟩; exact ⟨e, he, rfl⟩

end Scatter

/-! ## The two endpoint tables -/

/-- An edge's first endpoint. -/
def nodeU (e : Fin 36) : Fin 12 := ⟨e.val / 6, by omega⟩
/-- An edge's second endpoint. -/
def nodeV (e : Fin 36) : Fin 12 := ⟨6 + e.val % 6, by omega⟩

/-- A one-axis index's row-major position is its coordinate. -/
theorem rowMajor_ix1 (e : Fin 36) : S36.rowMajor (ix1 e) = e := Fin.ext (Shape.rowMajor_val_one _)

/-- The normalised index column at edge `e`: the table's entry, moved up by twelve when negative. -/
theorem normIdx_ix (t : IVec S36 32) (e : Fin 36) :
    normIdx t (ix2 e (0 : Fin 1))
      = Scalar.select (IntOp.cmpi .slt (t (ix1 e)) 0#32) (IntOp.addi (t (ix1 e)) 12#32) (t (ix1 e)) := by
  unfold normIdx
  refine (broadcastInDim_apply _ _ _ (ix2 e (0 : Fin 1)) (ix1 e) fun a => ?_).trans rfl
  match a with
  | ⟨0, _⟩ => rfl

theorem normU (e : Fin 36) : (normIdx tabU (ix2 e (0 : Fin 1))).toInt = ((nodeU e).val : Int) := by
  rw [normIdx_ix]
  show (Scalar.select (IntOp.cmpi .slt (lit0 (S36.rowMajor (ix1 e))) 0#32) (IntOp.addi (lit0 (S36.rowMajor (ix1 e))) 12#32) (lit0 (S36.rowMajor (ix1 e)))).toInt = _
  rw [rowMajor_ix1]
  revert e
  decide
theorem normV (e : Fin 36) : (normIdx tabV (ix2 e (0 : Fin 1))).toInt = ((nodeV e).val : Int) := by
  rw [normIdx_ix]
  show (Scalar.select (IntOp.cmpi .slt (lit1 (S36.rowMajor (ix1 e))) 0#32) (IntOp.addi (lit1 (S36.rowMajor (ix1 e))) 12#32) (lit1 (S36.rowMajor (ix1 e)))).toInt = _
  rw [rowMajor_ix1]
  revert e
  decide

/-- The edges whose first endpoint is `n`, together with those whose second endpoint is `n`, are the six edges at `n`,
    each once. -/
theorem sum_edges {M : Type*} [AddCommMonoid M] (f : Fin 36 → M) (n : Fin 12) :
    ∑ e ∈ Finset.univ.filter (fun e => nodeU e = n), f e + ∑ e ∈ Finset.univ.filter (fun e => nodeV e = n), f e
      = ∑ j : Fin 6, f (Cert.Spec.edgeOf n j) := by
  have hd : ∀ n : Fin 12, Disjoint (Finset.univ.filter (fun e => nodeU e = n)) (Finset.univ.filter (fun e => nodeV e = n)) := by
    decide
  have hu : ∀ n : Fin 12, Finset.univ.filter (fun e => nodeU e = n) ∪ Finset.univ.filter (fun e => nodeV e = n)
      = Finset.univ.image (Cert.Spec.edgeOf n) := by
    decide
  have hi : ∀ n : Fin 12, Function.Injective (Cert.Spec.edgeOf n) := by
    decide
  rw [← Finset.sum_union (hd n), hu n, Finset.sum_image (fun a _ b _ h => hi n h)]

/-! ## The composed term is the specification -/

/-- The node features at an index: the six weighted edge features at the node, summed. -/
theorem nodes_ix (x : FVec Ideal S16384x36x128 .f32) (sp : FVec Ideal S36 .f32) (r : Fin 16384) (n : Fin 12) (k : Fin 128) :
    nodes x sp (ix3 r n k) = Cert.Spec.nodeSum x sp r n k := by
  unfold nodes Cert.Spec.nodeSum
  rw [scatter_ix _ _ _ nodeV normV, scatter_ix _ _ _ nodeU normU, zeros_ix, zero_add,
    sum_edges (fun e => weighted x sp (ix3 r e k)) n]
  exact Finset.sum_congr rfl fun j _ => weighted_apply x sp r _ k

/-- The reference's result is the specification's, index by index. -/
theorem refTerm_eq (x : FVec Ideal S16384x36x128 .f32) (w : FVec Ideal S36 .f32) (W : FVec Ideal S128x128 .f32)
    (b : FVec Ideal S128 .f32) : refTerm x w W b = Cert.Spec.G x w W b := by
  funext i
  obtain ⟨r, n, c, rfl⟩ : ∃ (r : Fin 16384) (n : Fin 12) (c : Fin 128), i = ix3 r n c := ⟨i 0, i 1, i 2, eq_ix3 i⟩
  rw [Cert.Spec.G_ix3]
  unfold refTerm layer Cert.Spec.Gat
  rw [maximumf_apply, addf_apply, dot_ix, bias_ix, zeros_ix]
  refine congrArg (fun t => max (t + b (ix1 c)) 0) ?_
  refine Finset.sum_congr rfl fun k _ => ?_
  rw [nodes_ix, transpose_ix]

end Cert.ReferenceIdeal.RefValue

end
-- ==== Proof.lean ====
/-
  One graph-convolution layer, computed two ways. The reference scales the features of each of the 36 edges of the
  complete bipartite graph on 6 + 6 nodes by the softplus of that edge's weight, adds every edge's row into its two
  end nodes, multiplies the twelve node rows by the transposed weight matrix, adds the bias and clamps at zero. The
  kernel program moves the edge axis first, lets 32 vector subcores sum the first 7168 rows' node features in groups
  of eight rows with double-buffered copies, computes the remaining 9216 rows' layer in one TensorCore kernel (node
  sums, matrix product, bias, clamp, 1024 rows at a point), applies the matrix, bias and clamp to the subcores' sums in
  a second TensorCore kernel that rewrites those rows of the same array, and moves the row axis back first.

  The frames: every weakly fair execution of each program terminates, nothing faulting, the four arguments unchanged —
  for the kernel program by the SparseCore launch theorem over the TensorCore's @main (both TensorCore kernels run
  inside it), the sequencers' dispatch and one tile's task, at either float instance; for the reference by its forty-seven
  host operations in order. The idealization rewrote nothing. On the extended reals both results are, entry by entry,
  max ((Σ_k (Σ over the node's six edges of x·softplus w) · W) + b, 0): sums are only regrouped and reordered, which
  needs no finiteness.
-/
import proofs.«203732_g20581483283120_cont_8to1_285_17_alg».proof.Defs
import proofs.«203732_g20581483283120_cont_8to1_285_17_alg».proof.Proof.Gen.Kernel
import proofs.«203732_g20581483283120_cont_8to1_285_17_alg».proof.Proof.Gen.Kernel.Skeleton
import proofs.«203732_g20581483283120_cont_8to1_285_17_alg».proof.Proof.Gen.Kernel.Launch
import proofs.«203732_g20581483283120_cont_8to1_285_17_alg».proof.Proof.Gen.Kernel.Regions
import proofs.«203732_g20581483283120_cont_8to1_285_17_alg».proof.Proof.Gen.Kernel.Points
import proofs.«203732_g20581483283120_cont_8to1_285_17_alg».proof.Proof.Gen.KernelIdeal
import proofs.«203732_g20581483283120_cont_8to1_285_17_alg».proof.Proof.Gen.KernelIdeal.Skeleton
import proofs.«203732_g20581483283120_cont_8to1_285_17_alg».proof.Proof.Gen.KernelIdeal.Launch
import proofs.«203732_g20581483283120_cont_8to1_285_17_alg».proof.Proof.Gen.KernelIdeal.Regions
import proofs.«203732_g20581483283120_cont_8to1_285_17_alg».proof.Proof.Gen.KernelIdeal.Points
import proofs.«203732_g20581483283120_cont_8to1_285_17_alg».proof.Proof.Gen.ReferenceIdeal
import proofs.«203732_g20581483283120_cont_8to1_285_17_alg».proof.Proof.Gen.Pre_finite_inputs
import proofs.«203732_g20581483283120_cont_8to1_285_17_alg».proof.Proof.KFrame
import proofs.«203732_g20581483283120_cont_8to1_285_17_alg».proof.Proof.BFrame
import proofs.«203732_g20581483283120_cont_8to1_285_17_alg».proof.Proof.KAlg
import proofs.«203732_g20581483283120_cont_8to1_285_17_alg».proof.Proof.KArr1
import proofs.«203732_g20581483283120_cont_8to1_285_17_alg».proof.Proof.KArr2
import proofs.«203732_g20581483283120_cont_8to1_285_17_alg».proof.Proof.KAlgTile
import proofs.«203732_g20581483283120_cont_8to1_285_17_alg».proof.Proof.KTileVFin
import proofs.«203732_g20581483283120_cont_8to1_285_17_alg».proof.Proof.RefRun
import proofs.«203732_g20581483283120_cont_8to1_285_17_alg».proof.Proof.RefValue
import Idealize.ShloMosaic.Adequacy
import Idealize.ShloMosaic.Init

noncomputable section

namespace Cert.Proof

open Idealize.ShloMosaic Idealize.SL.Sem

/-- The kernel program runs at the word-level instance and leaves its arguments. -/
theorem frame_kernel : Cert.frame_Kernel (hKernel := Cert.Kernel.Gen.facts) (hPre_finite_inputs := Cert.Pre_finite_inputs.Gen.facts) :=
  fun m ρ _ => Cert.Kernel.Pf.frame_run (F := Bits) m ρ

/-- The same program read on the extended reals runs and leaves its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Pf.frame_run (F := Ideal) m ρ

/-- The reference runs and leaves its arguments: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefRun.run m ρ)

/-- On the extended reals, from memories that agree on the arguments, both programs end with the specification's array
    of the arguments: the kernel program by its three kernels' values, the reference by its operations read at an index. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Pf.alg_run_tile (fun X5 W3 f8 => Cert.KernelIdeal.Pf.tileOblV X5 W3 f8) m g, ?_⟩
  refine (θ_run (Cert.ReferenceIdeal.defs (F := Ideal)) _ _).mono (fun r h c => ⟨?_, (h c).2⟩) (Cert.ReferenceIdeal.RefRun.run m' g')
  rw [(h c).1, Cert.ReferenceIdeal.RefValue.refTerm_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
